-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S4096x13 : Shape := ⟨2, ![4096, 13]⟩
abbrev S26x100000x64 : Shape := ⟨3, ![26, 100000, 64]⟩
abbrev S13x64 : Shape := ⟨2, ![13, 64]⟩
abbrev S1x1x64 : Shape := ⟨3, ![1, 1, 64]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S26x100000x64 : S_.BroadcastsInDim S26x100000x64 (![] : Fin 0 → Fin S26x100000x64.rank)
  reducesTo_S26x100000x64_S_d0_1_2 : S26x100000x64.ReducesTo [0, 1, 2] S_
  bcast_S_S13x64 : S_.BroadcastsInDim S13x64 (![] : Fin 0 → Fin S13x64.rank)
  reducesTo_S13x64_S_d0_1 : S13x64.ReducesTo [0, 1] S_
  bcast_S_S1x1x64 : S_.BroadcastsInDim S1x1x64 (![] : Fin 0 → Fin S1x1x64.rank)
  reducesTo_S1x1x64_S_d0_1_2 : S1x1x64.ReducesTo [0, 1, 2] S_
  bcast_S_S4096x26 : S_.BroadcastsInDim S4096x26 (![] : Fin 0 → Fin S4096x26.rank)
  reducesTo_S4096x26_S_d0_1 : S4096x26.ReducesTo [0, 1] S_

variable [Facts]

def fn_part1 {F : FTy → Type} [FloatOps F] (main_arg0 : IVec S4096x26 32) (main_arg5 : FVec F S1x1x64 .f32) (main_v13 : IVec S_ 1) (main_v16 : IVec S13x64 1) : IVec S_ 1 :=
  let main_c_5 : IVec S_ 1 := constantI S_ 1 1#1
  let main_v17 : IVec S_ 1 := (fun x v => Host.reduce IntOp.andi x v reducesTo_S13x64_S_d0_1 h_S_) main_v16 main_c_5
  let main_v18 : IVec S_ 1 := andi main_v13 main_v17
  let main_v19 : FVec F S1x1x64 .f32 := Host.absf main_arg5
  let main_cst_6 : FVec F S_ .f32 := constant S_ .f32 0x7F800000#32
  let main_v20 : FVec F S1x1x64 .f32 := broadcastInDim S1x1x64 ![] bcast_S_S1x1x64 main_cst_6
  let main_v21 : IVec S1x1x64 1 := cmpf .olt main_v19 main_v20
  let main_c_7 : IVec S_ 1 := constantI S_ 1 1#1
  let main_v22 : IVec S_ 1 := (fun x v => Host.reduce IntOp.andi x v reducesTo_S1x1x64_S_d0_1_2 h_S_) main_v21 main_c_7
  let main_v23 : IVec S_ 1 := andi main_v18 main_v22
  let main_c_8 : IVec S_ 32 := constantI S_ 32 0#32
  let main_v24 : IVec S4096x26 32 := broadcastInDim S4096x26 ![] bcast_S_S4096x26 main_c_8
  let main_v25 : IVec S4096x26 1 := cmpi .sge main_arg0 main_v24
  let main_c_9 : IVec S_ 32 := constantI S_ 32 99999#32
  let main_v26 : IVec S4096x26 32 := broadcastInDim S4096x26 ![] bcast_S_S4096x26 main_c_9
  let main_v27 : IVec S4096x26 1 := cmpi .sle main_arg0 main_v26
  let main_v28 : IVec S4096x26 1 := andi main_v25 main_v27
  let main_c_10 : IVec S_ 1 := constantI S_ 1 1#1
  let main_v29 : IVec S_ 1 := (fun x v => Host.reduce IntOp.andi x v reducesTo_S4096x26_S_d0_1 h_S_) main_v28 main_c_10
  let main_v30 : IVec S_ 1 := andi main_v23 main_v29
  main_v30

def fn {F : FTy → Type} [FloatOps F] (main_arg0 : IVec S4096x26 32) (main_arg1 : FVec F S4096x13 .f32) (main_arg2 : FVec F S26x100000x64 .f32) (main_arg3 : FVec F S13x64 .f32) (main_arg4 : FVec F S13x64 .f32) (main_arg5 : FVec F S1x1x64 .f32) : IVec S_ 1 :=
  let main_v0 : FVec F S4096x13 .f32 := Host.absf main_arg1
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S26x100000x64 .f32 := Host.absf main_arg2
  let main_cst_0 : FVec F S_ .f32 := constant S_ .f32 0x7F800000#32
  let main_v5 : FVec F S26x100000x64 .f32 := broadcastInDim S26x100000x64 ![] bcast_S_S26x100000x64 main_cst_0
  let main_v6 : IVec S26x100000x64 1 := cmpf .olt main_v4 main_v5
  let main_c_1 : IVec S_ 1 := constantI S_ 1 1#1
  let main_v7 : IVec S_ 1 := (fun x v => Host.reduce IntOp.andi x v reducesTo_S26x100000x64_S_d0_1_2 h_S_) main_v6 main_c_1
  let main_v8 : IVec S_ 1 := andi main_v3 main_v7
  let main_v9 : FVec F S13x64 .f32 := Host.absf main_arg3
  let main_cst_2 : FVec F S_ .f32 := constant S_ .f32 0x7F800000#32
  let main_v10 : FVec F S13x64 .f32 := broadcastInDim S13x64 ![] bcast_S_S13x64 main_cst_2
  let main_v11 : IVec S13x64 1 := cmpf .olt main_v9 main_v10
  let main_c_3 : IVec S_ 1 := constantI S_ 1 1#1
  let main_v12 : IVec S_ 1 := (fun x v => Host.reduce IntOp.andi x v reducesTo_S13x64_S_d0_1 h_S_) main_v11 main_c_3
  let main_v13 : IVec S_ 1 := andi main_v8 main_v12
  let main_v14 : FVec F S13x64 .f32 := Host.absf main_arg4
  let main_cst_4 : FVec F S_ .f32 := constant S_ .f32 0x7F800000#32
  let main_v15 : FVec F S13x64 .f32 := broadcastInDim S13x64 ![] bcast_S_S13x64 main_cst_4
  let main_v16 : IVec S13x64 1 := cmpf .olt main_v14 main_v15
  fn_part1 (F := F) main_arg0 main_arg5 main_v13 main_v16
-- ==== Kernel.lean ====
abbrev S4096x26 : Shape := ⟨2, ![4096, 26]⟩
abbrev S4096x13 : Shape := ⟨2, ![4096, 13]⟩
abbrev S26x100000x64 : Shape := ⟨3, ![26, 100000, 64]⟩
abbrev S13x64 : Shape := ⟨2, ![13, 64]⟩
abbrev S1x1x64 : Shape := ⟨3, ![1, 1, 64]⟩
abbrev S26x4096 : Shape := ⟨2, ![26, 4096]⟩
abbrev S106496 : Shape := ⟨1, ![106496]⟩
abbrev S13x4096 : Shape := ⟨2, ![13, 4096]⟩
abbrev S53248 : Shape := ⟨1, ![53248]⟩
abbrev S26x64x100000 : Shape := ⟨3, ![26, 64, 100000]⟩
abbrev S832 : Shape := ⟨1, ![832]⟩
abbrev S64 : Shape := ⟨1, ![64]⟩
abbrev S40x64x4096 : Shape := ⟨3, ![40, 64, 4096]⟩
abbrev S1x100000 : Shape := ⟨2, ![1, 100000]⟩
abbrev S4096 : Shape := ⟨1, ![4096]⟩
abbrev S1x4096 : Shape := ⟨2, ![1, 4096]⟩
abbrev S_ : Shape := ⟨0, ![]⟩
abbrev S16 : Shape := ⟨1, ![16]⟩
abbrev S1x16 : Shape := ⟨2, ![1, 16]⟩
abbrev S1x1x4096 : Shape := ⟨3, ![1, 1, 4096]⟩
abbrev S1x1x100000 : Shape := ⟨3, ![1, 1, 100000]⟩
abbrev S4096x40x64 : Shape := ⟨3, ![4096, 40, 64]⟩

abbrev nBuf : Table → Nat
  | .hbm => 16
  | .local .scVector .vmem => 10
  | _ => 0

abbrev bufTy : (tb : Table) → Fin (nBuf tb) → BufTy
  | .hbm, ⟨0, _⟩ => ⟨S4096x26, .i32⟩
  | .hbm, ⟨1, _⟩ => ⟨S4096x13, .f32⟩
  | .hbm, ⟨2, _⟩ => ⟨S26x100000x64, .f32⟩
  | .hbm, ⟨3, _⟩ => ⟨S13x64, .f32⟩
  | .hbm, ⟨4, _⟩ => ⟨S13x64, .f32⟩
  | .hbm, ⟨5, _⟩ => ⟨S1x1x64, .f32⟩
  | .hbm, ⟨6, _⟩ => ⟨S26x4096, .i32⟩
  | .hbm, ⟨7, _⟩ => ⟨S106496, .i32⟩
  | .hbm, ⟨8, _⟩ => ⟨S13x4096, .f32⟩
  | .hbm, ⟨9, _⟩ => ⟨S53248, .f32⟩
  | .hbm, ⟨10, _⟩ => ⟨S26x64x100000, .f32⟩
  | .hbm, ⟨11, _⟩ => ⟨S832, .f32⟩
  | .hbm, ⟨12, _⟩ => ⟨S832, .f32⟩
  | .hbm, ⟨13, _⟩ => ⟨S64, .f32⟩
  | .hbm, ⟨14, _⟩ => ⟨S40x64x4096, .f32⟩
  | .hbm, ⟨15, _⟩ => ⟨S4096x40x64, .f32⟩
  | .local .scVector .vmem, ⟨0, _⟩ => ⟨S1x100000, .f32⟩
  | .local .scVector .vmem, ⟨1, _⟩ => ⟨S4096, .i32⟩
  | .local .scVector .vmem, ⟨2, _⟩ => ⟨S4096, .i32⟩
  | .local .scVector .vmem, ⟨3, _⟩ => ⟨S4096, .f32⟩
  | .local .scVector .vmem, ⟨4, _⟩ => ⟨S4096, .f32⟩
  | .local .scVector .vmem, ⟨5, _⟩ => ⟨S1x4096, .f32⟩
  | .local .scVector .vmem, ⟨6, _⟩ => ⟨S1x4096, .f32⟩
  | .local .scVector .vmem, ⟨7, _⟩ => ⟨S832, .f32⟩
  | .local .scVector .vmem, ⟨8, _⟩ => ⟨S832, .f32⟩
  | .local .scVector .vmem, ⟨9, _⟩ => ⟨S64, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 58 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | _ => false

abbrev sig : RefSig :=
  ofTables nBuf rfl bufTy 4 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v1_scv : Ref sig .scVector := ⟨.hbm, 7, rfl⟩
abbrev main_v3_scv : Ref sig .scVector := ⟨.hbm, 9, rfl⟩
abbrev main_v4_scv : Ref sig .scVector := ⟨.hbm, 10, rfl⟩
abbrev main_v5_scv : Ref sig .scVector := ⟨.hbm, 11, rfl⟩
abbrev main_v6_scv : Ref sig .scVector := ⟨.hbm, 12, rfl⟩
abbrev main_v7_scv : Ref sig .scVector := ⟨.hbm, 13, rfl⟩
abbrev main_v8_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v4 : IVec S16 32) : Prop :=
  (∀ a x, ((![v4] : Fin 1 → IVec S16 32) a x).toNat < S64.size a)
instance k0_chk1.dec : ∀ (v4 : IVec S16 32), Decidable (k0_chk1 v4) := fun v4 => decidable_of_iff' _ (Iff.of_eq (k0_chk1.eq_1 v4))
theorem k0_idx1_inb : ∀ (v4 : IVec S16 32) (k0_hw1 : k0_chk1 v4), ∀ a x, ((![v4] : Fin 1 → IVec S16 32) a x).toNat < S64.size a := fun v4 k0_hw1 => k0_hw1
@[reducible] def k0_t1_loop : Scf.Loop 32 :=
  let c0_i32_2 : BitVec 32 := 0#32
  let c64_i32 : BitVec 32 := 64#32
  let v6 : BitVec 32 := Scalar.addi c0_i32_2 c64_i32
  let c1_i32 : BitVec 32 := 1#32
  ⟨c0_i32_2, v6, c1_i32⟩
def k0_off1 (k0_t1 : Fin k0_t1_loop.trips) (c0_i32_1172 : BitVec 32) : Fin 2 → Nat :=
  let c0_i32_1173 : BitVec 32 := 0#32
  let v1121 : Index := Scalar.indexCast c0_i32_1173
  let c0_i32_2 : BitVec 32 := 0#32
  let c1_i32 : BitVec 32 := 1#32
  let arg22 : BitVec 32 := Scf.iv c0_i32_2 c1_i32 k0_t1
  let c64_i32_1171 : BitVec 32 := 64#32
  let v1119 : BitVec 32 := Scalar.muli arg22 c64_i32_1171
  let v1120 : BitVec 32 := Scalar.addi v1119 c0_i32_1172
  let v1122 : Index := Scalar.indexCast v1120
  ![0, v1122.toNat]
def k0_off2 (i : grid0.Coords) : Fin 3 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c0_i32_5 : BitVec 32 := 0#32
  ![0, v3.toNat, 0]

def k0_chk2 (v12 : IVec S16 32) : Prop :=
  (∀ a x, ((![v12] : Fin 1 → IVec S16 32) a x).toNat < S64.size a)
instance k0_chk2.dec : ∀ (v12 : IVec S16 32), Decidable (k0_chk2 v12) := fun v12 => decidable_of_iff' _ (Iff.of_eq (k0_chk2.eq_1 v12))
theorem k0_idx2_inb : ∀ (v12 : IVec S16 32) (k0_hw2 : k0_chk2 v12), ∀ a x, ((![v12] : Fin 1 → IVec S16 32) a x).toNat < S64.size a := fun v12 k0_hw2 => k0_hw2
@[reducible] def k0_t2_loop : Scf.Loop 32 :=
  let c0_i32_9 : BitVec 32 := 0#32
  let c64_i32_10 : BitVec 32 := 64#32
  let v14 : BitVec 32 := Scalar.addi c0_i32_9 c64_i32_10
  let c1_i32_11 : BitVec 32 := 1#32
  ⟨c0_i32_9, v14, c1_i32_11⟩
def k0_off3 (k0_t2 : Fin k0_t2_loop.trips) (c0_i32_1172 : BitVec 32) : Fin 2 → Nat :=
  let c0_i32_1173 : BitVec 32 := 0#32
  let v1121 : Index := Scalar.indexCast c0_i32_1173
  let c0_i32_9 : BitVec 32 := 0#32
  let c1_i32_11 : BitVec 32 := 1#32
  let arg22 : BitVec 32 := Scf.iv c0_i32_9 c1_i32_11 k0_t2
  let c64_i32_1171 : BitVec 32 := 64#32
  let v1119 : BitVec 32 := Scalar.muli arg22 c64_i32_1171
  let v1120 : BitVec 32 := Scalar.addi v1119 c0_i32_1172
  let v1122 : Index := Scalar.indexCast v1120
  ![0, v1122.toNat]
def k0_off4 (i : grid0.Coords) (c1_i32_7 : BitVec 32) : Fin 3 → Nat :=
  let c0_i32_13 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v11 : BitVec 32 := Scalar.addi v2 c1_i32_7
  let c0_i32_14 : BitVec 32 := 0#32
  ![0, v11.toNat, 0]
def k0_off5 (i : grid0.Coords) : Fin 3 → Nat :=
  let c0_i32_22 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_21 : BitVec 32 := 0#32
  let v25 : BitVec 32 := Scalar.addi v2 c0_i32_21
  let c0_i32_1171_r3 : BitVec 32 := 0#32
  ![0, v25.toNat, 0]
@[reducible] def k0_t3_loop : Scf.Loop 32 :=
  let c0_i32_28 : BitVec 32 := 0#32
  let c64_i32_29 : BitVec 32 := 64#32
  let v31 : BitVec 32 := Scalar.addi c0_i32_28 c64_i32_29
  let c1_i32_30 : BitVec 32 := 1#32
  ⟨c0_i32_28, v31, c1_i32_30⟩
def k0_off6 (k0_t3 : Fin k0_t3_loop.trips) : Fin 1 → Nat :=
  let c0_i32_28 : BitVec 32 := 0#32
  let c1_i32_30 : BitVec 32 := 1#32
  let arg22 : BitVec 32 := Scf.iv c0_i32_28 c1_i32_30 k0_t3
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk3 (v30 : IVec S16 32) (v1122 : IVec S16 32) : Prop :=
  (∀ a x, ((![v30, v1122] : Fin 2 → IVec S16 32) a x).toNat < S1x100000.size a)
instance k0_chk3.dec : ∀ (v30 : IVec S16 32) (v1122 : IVec S16 32), Decidable (k0_chk3 v30 v1122) := fun v30 v1122 => decidable_of_iff' _ (Iff.of_eq (k0_chk3.eq_1 v30 v1122))
theorem k0_idx3_inb : ∀ (v30 : IVec S16 32) (v1122 : IVec S16 32) (k0_hw3 : k0_chk3 v30 v1122), ∀ a x, ((![v30, v1122] : Fin 2 → IVec S16 32) a x).toNat < S1x100000.size a := fun v30 v1122 k0_hw3 => k0_hw3
def k0_off7 (k0_t3 : Fin k0_t3_loop.trips) : Fin 2 → Nat :=
  let c0_i32_1173 : BitVec 32 := 0#32
  let v1124 : Index := Scalar.indexCast c0_i32_1173
  let c0_i32_28 : BitVec 32 := 0#32
  let c1_i32_30 : BitVec 32 := 1#32
  let arg22 : BitVec 32 := Scf.iv c0_i32_28 c1_i32_30 k0_t3
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off8 (k0_t3 : Fin k0_t3_loop.trips) : Fin 1 → Nat :=
  let c0_i32_28 : BitVec 32 := 0#32
  let c1_i32_30 : BitVec 32 := 1#32
  let arg22 : BitVec 32 := Scf.iv c0_i32_28 c1_i32_30 k0_t3
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk4 (v30 : IVec S16 32) (v1130 : IVec S16 32) : Prop :=
  (∀ a x, ((![v30, v1130] : Fin 2 → IVec S16 32) a x).toNat < S1x100000.size a)
instance k0_chk4.dec : ∀ (v30 : IVec S16 32) (v1130 : IVec S16 32), Decidable (k0_chk4 v30 v1130) := fun v30 v1130 => decidable_of_iff' _ (Iff.of_eq (k0_chk4.eq_1 v30 v1130))
theorem k0_idx4_inb : ∀ (v30 : IVec S16 32) (v1130 : IVec S16 32) (k0_hw4 : k0_chk4 v30 v1130), ∀ a x, ((![v30, v1130] : Fin 2 → IVec S16 32) a x).toNat < S1x100000.size a := fun v30 v1130 k0_hw4 => k0_hw4
def k0_off9 (k0_t3 : Fin k0_t3_loop.trips) : Fin 2 → Nat :=
  let c0_i32_1176 : BitVec 32 := 0#32
  let v1132 : Index := Scalar.indexCast c0_i32_1176
  let c0_i32_28 : BitVec 32 := 0#32
  let c1_i32_30 : BitVec 32 := 1#32
  let arg22 : BitVec 32 := Scf.iv c0_i32_28 c1_i32_30 k0_t3
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off10 (k0_t3 : Fin k0_t3_loop.trips) : Fin 1 → Nat :=
  let c0_i32_28 : BitVec 32 := 0#32
  let c1_i32_30 : BitVec 32 := 1#32
  let arg22 : BitVec 32 := Scf.iv c0_i32_28 c1_i32_30 k0_t3
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk5 (v30 : IVec S16 32) (v1138 : IVec S16 32) : Prop :=
  (∀ a x, ((![v30, v1138] : Fin 2 → IVec S16 32) a x).toNat < S1x100000.size a)
instance k0_chk5.dec : ∀ (v30 : IVec S16 32) (v1138 : IVec S16 32), Decidable (k0_chk5 v30 v1138) := fun v30 v1138 => decidable_of_iff' _ (Iff.of_eq (k0_chk5.eq_1 v30 v1138))
theorem k0_idx5_inb : ∀ (v30 : IVec S16 32) (v1138 : IVec S16 32) (k0_hw5 : k0_chk5 v30 v1138), ∀ a x, ((![v30, v1138] : Fin 2 → IVec S16 32) a x).toNat < S1x100000.size a := fun v30 v1138 k0_hw5 => k0_hw5
def k0_off11 (k0_t3 : Fin k0_t3_loop.trips) : Fin 2 → Nat :=
  let c0_i32_1179 : BitVec 32 := 0#32
  let v1140 : Index := Scalar.indexCast c0_i32_1179
  let c0_i32_28 : BitVec 32 := 0#32
  let c1_i32_30 : BitVec 32 := 1#32
  let arg22 : BitVec 32 := Scf.iv c0_i32_28 c1_i32_30 k0_t3
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off12 (k0_t3 : Fin k0_t3_loop.trips) : Fin 1 → Nat :=
  let c0_i32_28 : BitVec 32 := 0#32
  let c1_i32_30 : BitVec 32 := 1#32
  let arg22 : BitVec 32 := Scf.iv c0_i32_28 c1_i32_30 k0_t3
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk6 (v30 : IVec S16 32) (v1146 : IVec S16 32) : Prop :=
  (∀ a x, ((![v30, v1146] : Fin 2 → IVec S16 32) a x).toNat < S1x100000.size a)
instance k0_chk6.dec : ∀ (v30 : IVec S16 32) (v1146 : IVec S16 32), Decidable (k0_chk6 v30 v1146) := fun v30 v1146 => decidable_of_iff' _ (Iff.of_eq (k0_chk6.eq_1 v30 v1146))
theorem k0_idx6_inb : ∀ (v30 : IVec S16 32) (v1146 : IVec S16 32) (k0_hw6 : k0_chk6 v30 v1146), ∀ a x, ((![v30, v1146] : Fin 2 → IVec S16 32) a x).toNat < S1x100000.size a := fun v30 v1146 k0_hw6 => k0_hw6
def k0_off13 (k0_t3 : Fin k0_t3_loop.trips) : Fin 2 → Nat :=
  let c0_i32_1181 : BitVec 32 := 0#32
  let v1148 : Index := Scalar.indexCast c0_i32_1181
  let c0_i32_28 : BitVec 32 := 0#32
  let c1_i32_30 : BitVec 32 := 1#32
  let arg22 : BitVec 32 := Scf.iv c0_i32_28 c1_i32_30 k0_t3
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off14 (i : grid0.Coords) : Fin 3 → Nat :=
  let c1_i32_32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_21 : BitVec 32 := 0#32
  let v25 : BitVec 32 := Scalar.addi v2 c0_i32_21
  let c0_i32_33 : BitVec 32 := 0#32
  ![1, v25.toNat, 0]
def k0_off15 (i : grid0.Coords) : Fin 3 → Nat :=
  let c0_i32_36 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_35 : BitVec 32 := 1#32
  let v36 : BitVec 32 := Scalar.addi v2 c1_i32_35
  let c0_i32_1171_r4 : BitVec 32 := 0#32
  ![0, v36.toNat, 0]
def k0_off16 (i : grid0.Coords) : Fin 3 → Nat :=
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_7 : BitVec 32 := 1#32
  let v11 : BitVec 32 := Scalar.addi v2 c1_i32_7
  let c0_i32_38 : BitVec 32 := 0#32
  ![0, v11.toNat, 0]
@[reducible] def k0_t4_loop : Scf.Loop 32 :=
  let c0_i32_42 : BitVec 32 := 0#32
  let c64_i32_43 : BitVec 32 := 64#32
  let v42 : BitVec 32 := Scalar.addi c0_i32_42 c64_i32_43
  let c1_i32_44 : BitVec 32 := 1#32
  ⟨c0_i32_42, v42, c1_i32_44⟩
def k0_off17 (k0_t4 : Fin k0_t4_loop.trips) : Fin 1 → Nat :=
  let c0_i32_42 : BitVec 32 := 0#32
  let c1_i32_44 : BitVec 32 := 1#32
  let arg22 : BitVec 32 := Scf.iv c0_i32_42 c1_i32_44 k0_t4
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk7 (v41 : IVec S16 32) (v1122 : IVec S16 32) : Prop :=
  (∀ a x, ((![v41, v1122] : Fin 2 → IVec S16 32) a x).toNat < S1x100000.size a)
instance k0_chk7.dec : ∀ (v41 : IVec S16 32) (v1122 : IVec S16 32), Decidable (k0_chk7 v41 v1122) := fun v41 v1122 => decidable_of_iff' _ (Iff.of_eq (k0_chk7.eq_1 v41 v1122))
theorem k0_idx7_inb : ∀ (v41 : IVec S16 32) (v1122 : IVec S16 32) (k0_hw7 : k0_chk7 v41 v1122), ∀ a x, ((![v41, v1122] : Fin 2 → IVec S16 32) a x).toNat < S1x100000.size a := fun v41 v1122 k0_hw7 => k0_hw7
def k0_off18 (k0_t4 : Fin k0_t4_loop.trips) : Fin 2 → Nat :=
  let c0_i32_1173 : BitVec 32 := 0#32
  let v1124 : Index := Scalar.indexCast c0_i32_1173
  let c0_i32_42 : BitVec 32 := 0#32
  let c1_i32_44 : BitVec 32 := 1#32
  let arg22 : BitVec 32 := Scf.iv c0_i32_42 c1_i32_44 k0_t4
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off19 (k0_t4 : Fin k0_t4_loop.trips) : Fin 1 → Nat :=
  let c0_i32_42 : BitVec 32 := 0#32
  let c1_i32_44 : BitVec 32 := 1#32
  let arg22 : BitVec 32 := Scf.iv c0_i32_42 c1_i32_44 k0_t4
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk8 (v41 : IVec S16 32) (v1130 : IVec S16 32) : Prop :=
  (∀ a x, ((![v41, v1130] : Fin 2 → IVec S16 32) a x).toNat < S1x100000.size a)
instance k0_chk8.dec : ∀ (v41 : IVec S16 32) (v1130 : IVec S16 32), Decidable (k0_chk8 v41 v1130) := fun v41 v1130 => decidable_of_iff' _ (Iff.of_eq (k0_chk8.eq_1 v41 v1130))
theorem k0_idx8_inb : ∀ (v41 : IVec S16 32) (v1130 : IVec S16 32) (k0_hw8 : k0_chk8 v41 v1130), ∀ a x, ((![v41, v1130] : Fin 2 → IVec S16 32) a x).toNat < S1x100000.size a := fun v41 v1130 k0_hw8 => k0_hw8
def k0_off20 (k0_t4 : Fin k0_t4_loop.trips) : Fin 2 → Nat :=
  let c0_i32_1176 : BitVec 32 := 0#32
  let v1132 : Index := Scalar.indexCast c0_i32_1176
  let c0_i32_42 : BitVec 32 := 0#32
  let c1_i32_44 : BitVec 32 := 1#32
  let arg22 : BitVec 32 := Scf.iv c0_i32_42 c1_i32_44 k0_t4
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off21 (k0_t4 : Fin k0_t4_loop.trips) : Fin 1 → Nat :=
  let c0_i32_42 : BitVec 32 := 0#32
  let c1_i32_44 : BitVec 32 := 1#32
  let arg22 : BitVec 32 := Scf.iv c0_i32_42 c1_i32_44 k0_t4
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk9 (v41 : IVec S16 32) (v1138 : IVec S16 32) : Prop :=
  (∀ a x, ((![v41, v1138] : Fin 2 → IVec S16 32) a x).toNat < S1x100000.size a)
instance k0_chk9.dec : ∀ (v41 : IVec S16 32) (v1138 : IVec S16 32), Decidable (k0_chk9 v41 v1138) := fun v41 v1138 => decidable_of_iff' _ (Iff.of_eq (k0_chk9.eq_1 v41 v1138))
theorem k0_idx9_inb : ∀ (v41 : IVec S16 32) (v1138 : IVec S16 32) (k0_hw9 : k0_chk9 v41 v1138), ∀ a x, ((![v41, v1138] : Fin 2 → IVec S16 32) a x).toNat < S1x100000.size a := fun v41 v1138 k0_hw9 => k0_hw9
def k0_off22 (k0_t4 : Fin k0_t4_loop.trips) : Fin 2 → Nat :=
  let c0_i32_1179 : BitVec 32 := 0#32
  let v1140 : Index := Scalar.indexCast c0_i32_1179
  let c0_i32_42 : BitVec 32 := 0#32
  let c1_i32_44 : BitVec 32 := 1#32
  let arg22 : BitVec 32 := Scf.iv c0_i32_42 c1_i32_44 k0_t4
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off23 (k0_t4 : Fin k0_t4_loop.trips) : Fin 1 → Nat :=
  let c0_i32_42 : BitVec 32 := 0#32
  let c1_i32_44 : BitVec 32 := 1#32
  let arg22 : BitVec 32 := Scf.iv c0_i32_42 c1_i32_44 k0_t4
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk10 (v41 : IVec S16 32) (v1146 : IVec S16 32) : Prop :=
  (∀ a x, ((![v41, v1146] : Fin 2 → IVec S16 32) a x).toNat < S1x100000.size a)
instance k0_chk10.dec : ∀ (v41 : IVec S16 32) (v1146 : IVec S16 32), Decidable (k0_chk10 v41 v1146) := fun v41 v1146 => decidable_of_iff' _ (Iff.of_eq (k0_chk10.eq_1 v41 v1146))
theorem k0_idx10_inb : ∀ (v41 : IVec S16 32) (v1146 : IVec S16 32) (k0_hw10 : k0_chk10 v41 v1146), ∀ a x, ((![v41, v1146] : Fin 2 → IVec S16 32) a x).toNat < S1x100000.size a := fun v41 v1146 k0_hw10 => k0_hw10
def k0_off24 (k0_t4 : Fin k0_t4_loop.trips) : Fin 2 → Nat :=
  let c0_i32_1181 : BitVec 32 := 0#32
  let v1148 : Index := Scalar.indexCast c0_i32_1181
  let c0_i32_42 : BitVec 32 := 0#32
  let c1_i32_44 : BitVec 32 := 1#32
  let arg22 : BitVec 32 := Scf.iv c0_i32_42 c1_i32_44 k0_t4
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off25 (i : grid0.Coords) (c1_i32_35 : BitVec 32) : Fin 3 → Nat :=
  let c1_i32_46 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v36 : BitVec 32 := Scalar.addi v2 c1_i32_35
  let c0_i32_47 : BitVec 32 := 0#32
  ![1, v36.toNat, 0]
def k0_off26 (i : grid0.Coords) : Fin 3 → Nat :=
  let c1_i32_53 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_52 : BitVec 32 := 0#32
  let v51 : BitVec 32 := Scalar.addi v2 c0_i32_52
  let c0_i32_1171_r5 : BitVec 32 := 0#32
  ![1, v51.toNat, 0]
@[reducible] def k0_t5_loop : Scf.Loop 32 :=
  let c0_i32_59 : BitVec 32 := 0#32
  let c64_i32_60 : BitVec 32 := 64#32
  let v57 : BitVec 32 := Scalar.addi c0_i32_59 c64_i32_60
  let c1_i32_61 : BitVec 32 := 1#32
  ⟨c0_i32_59, v57, c1_i32_61⟩
def k0_off27 (k0_t5 : Fin k0_t5_loop.trips) : Fin 1 → Nat :=
  let c0_i32_59 : BitVec 32 := 0#32
  let c1_i32_61 : BitVec 32 := 1#32
  let arg22 : BitVec 32 := Scf.iv c0_i32_59 c1_i32_61 k0_t5
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk11 (v56 : IVec S16 32) (v1122 : IVec S16 32) : Prop :=
  (∀ a x, ((![v56, v1122] : Fin 2 → IVec S16 32) a x).toNat < S1x100000.size a)
instance k0_chk11.dec : ∀ (v56 : IVec S16 32) (v1122 : IVec S16 32), Decidable (k0_chk11 v56 v1122) := fun v56 v1122 => decidable_of_iff' _ (Iff.of_eq (k0_chk11.eq_1 v56 v1122))
theorem k0_idx11_inb : ∀ (v56 : IVec S16 32) (v1122 : IVec S16 32) (k0_hw11 : k0_chk11 v56 v1122), ∀ a x, ((![v56, v1122] : Fin 2 → IVec S16 32) a x).toNat < S1x100000.size a := fun v56 v1122 k0_hw11 => k0_hw11
def k0_off28 (k0_t5 : Fin k0_t5_loop.trips) : Fin 2 → Nat :=
  let c0_i32_1173 : BitVec 32 := 0#32
  let v1124 : Index := Scalar.indexCast c0_i32_1173
  let c0_i32_59 : BitVec 32 := 0#32
  let c1_i32_61 : BitVec 32 := 1#32
  let arg22 : BitVec 32 := Scf.iv c0_i32_59 c1_i32_61 k0_t5
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off29 (k0_t5 : Fin k0_t5_loop.trips) : Fin 1 → Nat :=
  let c0_i32_59 : BitVec 32 := 0#32
  let c1_i32_61 : BitVec 32 := 1#32
  let arg22 : BitVec 32 := Scf.iv c0_i32_59 c1_i32_61 k0_t5
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk12 (v56 : IVec S16 32) (v1130 : IVec S16 32) : Prop :=
  (∀ a x, ((![v56, v1130] : Fin 2 → IVec S16 32) a x).toNat < S1x100000.size a)
instance k0_chk12.dec : ∀ (v56 : IVec S16 32) (v1130 : IVec S16 32), Decidable (k0_chk12 v56 v1130) := fun v56 v1130 => decidable_of_iff' _ (Iff.of_eq (k0_chk12.eq_1 v56 v1130))
theorem k0_idx12_inb : ∀ (v56 : IVec S16 32) (v1130 : IVec S16 32) (k0_hw12 : k0_chk12 v56 v1130), ∀ a x, ((![v56, v1130] : Fin 2 → IVec S16 32) a x).toNat < S1x100000.size a := fun v56 v1130 k0_hw12 => k0_hw12
def k0_off30 (k0_t5 : Fin k0_t5_loop.trips) : Fin 2 → Nat :=
  let c0_i32_1176 : BitVec 32 := 0#32
  let v1132 : Index := Scalar.indexCast c0_i32_1176
  let c0_i32_59 : BitVec 32 := 0#32
  let c1_i32_61 : BitVec 32 := 1#32
  let arg22 : BitVec 32 := Scf.iv c0_i32_59 c1_i32_61 k0_t5
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off31 (k0_t5 : Fin k0_t5_loop.trips) : Fin 1 → Nat :=
  let c0_i32_59 : BitVec 32 := 0#32
  let c1_i32_61 : BitVec 32 := 1#32
  let arg22 : BitVec 32 := Scf.iv c0_i32_59 c1_i32_61 k0_t5
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk13 (v56 : IVec S16 32) (v1138 : IVec S16 32) : Prop :=
  (∀ a x, ((![v56, v1138] : Fin 2 → IVec S16 32) a x).toNat < S1x100000.size a)
instance k0_chk13.dec : ∀ (v56 : IVec S16 32) (v1138 : IVec S16 32), Decidable (k0_chk13 v56 v1138) := fun v56 v1138 => decidable_of_iff' _ (Iff.of_eq (k0_chk13.eq_1 v56 v1138))
theorem k0_idx13_inb : ∀ (v56 : IVec S16 32) (v1138 : IVec S16 32) (k0_hw13 : k0_chk13 v56 v1138), ∀ a x, ((![v56, v1138] : Fin 2 → IVec S16 32) a x).toNat < S1x100000.size a := fun v56 v1138 k0_hw13 => k0_hw13
def k0_off32 (k0_t5 : Fin k0_t5_loop.trips) : Fin 2 → Nat :=
  let c0_i32_1179 : BitVec 32 := 0#32
  let v1140 : Index := Scalar.indexCast c0_i32_1179
  let c0_i32_59 : BitVec 32 := 0#32
  let c1_i32_61 : BitVec 32 := 1#32
  let arg22 : BitVec 32 := Scf.iv c0_i32_59 c1_i32_61 k0_t5
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off33 (k0_t5 : Fin k0_t5_loop.trips) : Fin 1 → Nat :=
  let c0_i32_59 : BitVec 32 := 0#32
  let c1_i32_61 : BitVec 32 := 1#32
  let arg22 : BitVec 32 := Scf.iv c0_i32_59 c1_i32_61 k0_t5
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk14 (v56 : IVec S16 32) (v1146 : IVec S16 32) : Prop :=
  (∀ a x, ((![v56, v1146] : Fin 2 → IVec S16 32) a x).toNat < S1x100000.size a)
instance k0_chk14.dec : ∀ (v56 : IVec S16 32) (v1146 : IVec S16 32), Decidable (k0_chk14 v56 v1146) := fun v56 v1146 => decidable_of_iff' _ (Iff.of_eq (k0_chk14.eq_1 v56 v1146))
theorem k0_idx14_inb : ∀ (v56 : IVec S16 32) (v1146 : IVec S16 32) (k0_hw14 : k0_chk14 v56 v1146), ∀ a x, ((![v56, v1146] : Fin 2 → IVec S16 32) a x).toNat < S1x100000.size a := fun v56 v1146 k0_hw14 => k0_hw14
def k0_off34 (k0_t5 : Fin k0_t5_loop.trips) : Fin 2 → Nat :=
  let c0_i32_1181 : BitVec 32 := 0#32
  let v1148 : Index := Scalar.indexCast c0_i32_1181
  let c0_i32_59 : BitVec 32 := 0#32
  let c1_i32_61 : BitVec 32 := 1#32
  let arg22 : BitVec 32 := Scf.iv c0_i32_59 c1_i32_61 k0_t5
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off35 (i : grid0.Coords) : Fin 3 → Nat :=
  let c2_i32_63 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_52 : BitVec 32 := 0#32
  let v51 : BitVec 32 := Scalar.addi v2 c0_i32_52
  let c0_i32_64 : BitVec 32 := 0#32
  ![2, v51.toNat, 0]
def k0_off36 (i : grid0.Coords) : Fin 3 → Nat :=
  let c1_i32_67 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_66 : BitVec 32 := 1#32
  let v62 : BitVec 32 := Scalar.addi v2 c1_i32_66
  let c0_i32_1171_r6 : BitVec 32 := 0#32
  ![1, v62.toNat, 0]
def k0_off37 (i : grid0.Coords) : Fin 3 → Nat :=
  let c1_i32_68 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_35 : BitVec 32 := 1#32
  let v36 : BitVec 32 := Scalar.addi v2 c1_i32_35
  let c0_i32_69 : BitVec 32 := 0#32
  ![1, v36.toNat, 0]
@[reducible] def k0_t6_loop : Scf.Loop 32 :=
  let c0_i32_73 : BitVec 32 := 0#32
  let c64_i32_74 : BitVec 32 := 64#32
  let v68 : BitVec 32 := Scalar.addi c0_i32_73 c64_i32_74
  let c1_i32_75 : BitVec 32 := 1#32
  ⟨c0_i32_73, v68, c1_i32_75⟩
def k0_off38 (k0_t6 : Fin k0_t6_loop.trips) : Fin 1 → Nat :=
  let c0_i32_73 : BitVec 32 := 0#32
  let c1_i32_75 : BitVec 32 := 1#32
  let arg22 : BitVec 32 := Scf.iv c0_i32_73 c1_i32_75 k0_t6
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk15 (v67 : IVec S16 32) (v1122 : IVec S16 32) : Prop :=
  (∀ a x, ((![v67, v1122] : Fin 2 → IVec S16 32) a x).toNat < S1x100000.size a)
instance k0_chk15.dec : ∀ (v67 : IVec S16 32) (v1122 : IVec S16 32), Decidable (k0_chk15 v67 v1122) := fun v67 v1122 => decidable_of_iff' _ (Iff.of_eq (k0_chk15.eq_1 v67 v1122))
theorem k0_idx15_inb : ∀ (v67 : IVec S16 32) (v1122 : IVec S16 32) (k0_hw15 : k0_chk15 v67 v1122), ∀ a x, ((![v67, v1122] : Fin 2 → IVec S16 32) a x).toNat < S1x100000.size a := fun v67 v1122 k0_hw15 => k0_hw15
def k0_off39 (k0_t6 : Fin k0_t6_loop.trips) : Fin 2 → Nat :=
  let c0_i32_1173 : BitVec 32 := 0#32
  let v1124 : Index := Scalar.indexCast c0_i32_1173
  let c0_i32_73 : BitVec 32 := 0#32
  let c1_i32_75 : BitVec 32 := 1#32
  let arg22 : BitVec 32 := Scf.iv c0_i32_73 c1_i32_75 k0_t6
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off40 (k0_t6 : Fin k0_t6_loop.trips) : Fin 1 → Nat :=
  let c0_i32_73 : BitVec 32 := 0#32
  let c1_i32_75 : BitVec 32 := 1#32
  let arg22 : BitVec 32 := Scf.iv c0_i32_73 c1_i32_75 k0_t6
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk16 (v67 : IVec S16 32) (v1130 : IVec S16 32) : Prop :=
  (∀ a x, ((![v67, v1130] : Fin 2 → IVec S16 32) a x).toNat < S1x100000.size a)
instance k0_chk16.dec : ∀ (v67 : IVec S16 32) (v1130 : IVec S16 32), Decidable (k0_chk16 v67 v1130) := fun v67 v1130 => decidable_of_iff' _ (Iff.of_eq (k0_chk16.eq_1 v67 v1130))
theorem k0_idx16_inb : ∀ (v67 : IVec S16 32) (v1130 : IVec S16 32) (k0_hw16 : k0_chk16 v67 v1130), ∀ a x, ((![v67, v1130] : Fin 2 → IVec S16 32) a x).toNat < S1x100000.size a := fun v67 v1130 k0_hw16 => k0_hw16
def k0_off41 (k0_t6 : Fin k0_t6_loop.trips) : Fin 2 → Nat :=
  let c0_i32_1176 : BitVec 32 := 0#32
  let v1132 : Index := Scalar.indexCast c0_i32_1176
  let c0_i32_73 : BitVec 32 := 0#32
  let c1_i32_75 : BitVec 32 := 1#32
  let arg22 : BitVec 32 := Scf.iv c0_i32_73 c1_i32_75 k0_t6
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off42 (k0_t6 : Fin k0_t6_loop.trips) : Fin 1 → Nat :=
  let c0_i32_73 : BitVec 32 := 0#32
  let c1_i32_75 : BitVec 32 := 1#32
  let arg22 : BitVec 32 := Scf.iv c0_i32_73 c1_i32_75 k0_t6
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk17 (v67 : IVec S16 32) (v1138 : IVec S16 32) : Prop :=
  (∀ a x, ((![v67, v1138] : Fin 2 → IVec S16 32) a x).toNat < S1x100000.size a)
instance k0_chk17.dec : ∀ (v67 : IVec S16 32) (v1138 : IVec S16 32), Decidable (k0_chk17 v67 v1138) := fun v67 v1138 => decidable_of_iff' _ (Iff.of_eq (k0_chk17.eq_1 v67 v1138))
theorem k0_idx17_inb : ∀ (v67 : IVec S16 32) (v1138 : IVec S16 32) (k0_hw17 : k0_chk17 v67 v1138), ∀ a x, ((![v67, v1138] : Fin 2 → IVec S16 32) a x).toNat < S1x100000.size a := fun v67 v1138 k0_hw17 => k0_hw17
def k0_off43 (k0_t6 : Fin k0_t6_loop.trips) : Fin 2 → Nat :=
  let c0_i32_1179 : BitVec 32 := 0#32
  let v1140 : Index := Scalar.indexCast c0_i32_1179
  let c0_i32_73 : BitVec 32 := 0#32
  let c1_i32_75 : BitVec 32 := 1#32
  let arg22 : BitVec 32 := Scf.iv c0_i32_73 c1_i32_75 k0_t6
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off44 (k0_t6 : Fin k0_t6_loop.trips) : Fin 1 → Nat :=
  let c0_i32_73 : BitVec 32 := 0#32
  let c1_i32_75 : BitVec 32 := 1#32
  let arg22 : BitVec 32 := Scf.iv c0_i32_73 c1_i32_75 k0_t6
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk18 (v67 : IVec S16 32) (v1146 : IVec S16 32) : Prop :=
  (∀ a x, ((![v67, v1146] : Fin 2 → IVec S16 32) a x).toNat < S1x100000.size a)
instance k0_chk18.dec : ∀ (v67 : IVec S16 32) (v1146 : IVec S16 32), Decidable (k0_chk18 v67 v1146) := fun v67 v1146 => decidable_of_iff' _ (Iff.of_eq (k0_chk18.eq_1 v67 v1146))
theorem k0_idx18_inb : ∀ (v67 : IVec S16 32) (v1146 : IVec S16 32) (k0_hw18 : k0_chk18 v67 v1146), ∀ a x, ((![v67, v1146] : Fin 2 → IVec S16 32) a x).toNat < S1x100000.size a := fun v67 v1146 k0_hw18 => k0_hw18
def k0_off45 (k0_t6 : Fin k0_t6_loop.trips) : Fin 2 → Nat :=
  let c0_i32_1181 : BitVec 32 := 0#32
  let v1148 : Index := Scalar.indexCast c0_i32_1181
  let c0_i32_73 : BitVec 32 := 0#32
  let c1_i32_75 : BitVec 32 := 1#32
  let arg22 : BitVec 32 := Scf.iv c0_i32_73 c1_i32_75 k0_t6
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off46 (i : grid0.Coords) (c1_i32_66 : BitVec 32) : Fin 3 → Nat :=
  let c2_i32_77 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v62 : BitVec 32 := Scalar.addi v2 c1_i32_66
  let c0_i32_78 : BitVec 32 := 0#32
  ![2, v62.toNat, 0]
def k0_off47 (i : grid0.Coords) : Fin 3 → Nat :=
  let c2_i32_84 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_83 : BitVec 32 := 0#32
  let v77 : BitVec 32 := Scalar.addi v2 c0_i32_83
  let c0_i32_1171_r7 : BitVec 32 := 0#32
  ![2, v77.toNat, 0]
@[reducible] def k0_t7_loop : Scf.Loop 32 :=
  let c0_i32_90 : BitVec 32 := 0#32
  let c64_i32_91 : BitVec 32 := 64#32
  let v83 : BitVec 32 := Scalar.addi c0_i32_90 c64_i32_91
  let c1_i32_92 : BitVec 32 := 1#32
  ⟨c0_i32_90, v83, c1_i32_92⟩
def k0_off48 (k0_t7 : Fin k0_t7_loop.trips) : Fin 1 → Nat :=
  let c0_i32_90 : BitVec 32 := 0#32
  let c1_i32_92 : BitVec 32 := 1#32
  let arg22 : BitVec 32 := Scf.iv c0_i32_90 c1_i32_92 k0_t7
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk19 (v82 : IVec S16 32) (v1122 : IVec S16 32) : Prop :=
  (∀ a x, ((![v82, v1122] : Fin 2 → IVec S16 32) a x).toNat < S1x100000.size a)
instance k0_chk19.dec : ∀ (v82 : IVec S16 32) (v1122 : IVec S16 32), Decidable (k0_chk19 v82 v1122) := fun v82 v1122 => decidable_of_iff' _ (Iff.of_eq (k0_chk19.eq_1 v82 v1122))
theorem k0_idx19_inb : ∀ (v82 : IVec S16 32) (v1122 : IVec S16 32) (k0_hw19 : k0_chk19 v82 v1122), ∀ a x, ((![v82, v1122] : Fin 2 → IVec S16 32) a x).toNat < S1x100000.size a := fun v82 v1122 k0_hw19 => k0_hw19
def k0_off49 (k0_t7 : Fin k0_t7_loop.trips) : Fin 2 → Nat :=
  let c0_i32_1173 : BitVec 32 := 0#32
  let v1124 : Index := Scalar.indexCast c0_i32_1173
  let c0_i32_90 : BitVec 32 := 0#32
  let c1_i32_92 : BitVec 32 := 1#32
  let arg22 : BitVec 32 := Scf.iv c0_i32_90 c1_i32_92 k0_t7
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off50 (k0_t7 : Fin k0_t7_loop.trips) : Fin 1 → Nat :=
  let c0_i32_90 : BitVec 32 := 0#32
  let c1_i32_92 : BitVec 32 := 1#32
  let arg22 : BitVec 32 := Scf.iv c0_i32_90 c1_i32_92 k0_t7
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk20 (v82 : IVec S16 32) (v1130 : IVec S16 32) : Prop :=
  (∀ a x, ((![v82, v1130] : Fin 2 → IVec S16 32) a x).toNat < S1x100000.size a)
instance k0_chk20.dec : ∀ (v82 : IVec S16 32) (v1130 : IVec S16 32), Decidable (k0_chk20 v82 v1130) := fun v82 v1130 => decidable_of_iff' _ (Iff.of_eq (k0_chk20.eq_1 v82 v1130))
theorem k0_idx20_inb : ∀ (v82 : IVec S16 32) (v1130 : IVec S16 32) (k0_hw20 : k0_chk20 v82 v1130), ∀ a x, ((![v82, v1130] : Fin 2 → IVec S16 32) a x).toNat < S1x100000.size a := fun v82 v1130 k0_hw20 => k0_hw20
def k0_off51 (k0_t7 : Fin k0_t7_loop.trips) : Fin 2 → Nat :=
  let c0_i32_1176 : BitVec 32 := 0#32
  let v1132 : Index := Scalar.indexCast c0_i32_1176
  let c0_i32_90 : BitVec 32 := 0#32
  let c1_i32_92 : BitVec 32 := 1#32
  let arg22 : BitVec 32 := Scf.iv c0_i32_90 c1_i32_92 k0_t7
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off52 (k0_t7 : Fin k0_t7_loop.trips) : Fin 1 → Nat :=
  let c0_i32_90 : BitVec 32 := 0#32
  let c1_i32_92 : BitVec 32 := 1#32
  let arg22 : BitVec 32 := Scf.iv c0_i32_90 c1_i32_92 k0_t7
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk21 (v82 : IVec S16 32) (v1138 : IVec S16 32) : Prop :=
  (∀ a x, ((![v82, v1138] : Fin 2 → IVec S16 32) a x).toNat < S1x100000.size a)
instance k0_chk21.dec : ∀ (v82 : IVec S16 32) (v1138 : IVec S16 32), Decidable (k0_chk21 v82 v1138) := fun v82 v1138 => decidable_of_iff' _ (Iff.of_eq (k0_chk21.eq_1 v82 v1138))
theorem k0_idx21_inb : ∀ (v82 : IVec S16 32) (v1138 : IVec S16 32) (k0_hw21 : k0_chk21 v82 v1138), ∀ a x, ((![v82, v1138] : Fin 2 → IVec S16 32) a x).toNat < S1x100000.size a := fun v82 v1138 k0_hw21 => k0_hw21
def k0_off53 (k0_t7 : Fin k0_t7_loop.trips) : Fin 2 → Nat :=
  let c0_i32_1179 : BitVec 32 := 0#32
  let v1140 : Index := Scalar.indexCast c0_i32_1179
  let c0_i32_90 : BitVec 32 := 0#32
  let c1_i32_92 : BitVec 32 := 1#32
  let arg22 : BitVec 32 := Scf.iv c0_i32_90 c1_i32_92 k0_t7
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off54 (k0_t7 : Fin k0_t7_loop.trips) : Fin 1 → Nat :=
  let c0_i32_90 : BitVec 32 := 0#32
  let c1_i32_92 : BitVec 32 := 1#32
  let arg22 : BitVec 32 := Scf.iv c0_i32_90 c1_i32_92 k0_t7
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk22 (v82 : IVec S16 32) (v1146 : IVec S16 32) : Prop :=
  (∀ a x, ((![v82, v1146] : Fin 2 → IVec S16 32) a x).toNat < S1x100000.size a)
instance k0_chk22.dec : ∀ (v82 : IVec S16 32) (v1146 : IVec S16 32), Decidable (k0_chk22 v82 v1146) := fun v82 v1146 => decidable_of_iff' _ (Iff.of_eq (k0_chk22.eq_1 v82 v1146))
theorem k0_idx22_inb : ∀ (v82 : IVec S16 32) (v1146 : IVec S16 32) (k0_hw22 : k0_chk22 v82 v1146), ∀ a x, ((![v82, v1146] : Fin 2 → IVec S16 32) a x).toNat < S1x100000.size a := fun v82 v1146 k0_hw22 => k0_hw22
def k0_off55 (k0_t7 : Fin k0_t7_loop.trips) : Fin 2 → Nat :=
  let c0_i32_1181 : BitVec 32 := 0#32
  let v1148 : Index := Scalar.indexCast c0_i32_1181
  let c0_i32_90 : BitVec 32 := 0#32
  let c1_i32_92 : BitVec 32 := 1#32
  let arg22 : BitVec 32 := Scf.iv c0_i32_90 c1_i32_92 k0_t7
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off56 (i : grid0.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_83 : BitVec 32 := 0#32
  let v77 : BitVec 32 := Scalar.addi v2 c0_i32_83
  let c0_i32_94 : BitVec 32 := 0#32
  ![3, v77.toNat, 0]
def k0_off57 (i : grid0.Coords) : Fin 3 → Nat :=
  let c2_i32_97 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_96 : BitVec 32 := 1#32
  let v88 : BitVec 32 := Scalar.addi v2 c1_i32_96
  let c0_i32_1171_r8 : BitVec 32 := 0#32
  ![2, v88.toNat, 0]
def k0_off58 (i : grid0.Coords) : Fin 3 → Nat :=
  let c2_i32_98 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_66 : BitVec 32 := 1#32
  let v62 : BitVec 32 := Scalar.addi v2 c1_i32_66
  let c0_i32_99 : BitVec 32 := 0#32
  ![2, v62.toNat, 0]
@[reducible] def k0_t8_loop : Scf.Loop 32 :=
  let c0_i32_103 : BitVec 32 := 0#32
  let c64_i32_104 : BitVec 32 := 64#32
  let v94 : BitVec 32 := Scalar.addi c0_i32_103 c64_i32_104
  let c1_i32_105 : BitVec 32 := 1#32
  ⟨c0_i32_103, v94, c1_i32_105⟩
def k0_off59 (k0_t8 : Fin k0_t8_loop.trips) : Fin 1 → Nat :=
  let c0_i32_103 : BitVec 32 := 0#32
  let c1_i32_105 : BitVec 32 := 1#32
  let arg22 : BitVec 32 := Scf.iv c0_i32_103 c1_i32_105 k0_t8
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk23 (v93 : IVec S16 32) (v1122 : IVec S16 32) : Prop :=
  (∀ a x, ((![v93, v1122] : Fin 2 → IVec S16 32) a x).toNat < S1x100000.size a)
instance k0_chk23.dec : ∀ (v93 : IVec S16 32) (v1122 : IVec S16 32), Decidable (k0_chk23 v93 v1122) := fun v93 v1122 => decidable_of_iff' _ (Iff.of_eq (k0_chk23.eq_1 v93 v1122))
theorem k0_idx23_inb : ∀ (v93 : IVec S16 32) (v1122 : IVec S16 32) (k0_hw23 : k0_chk23 v93 v1122), ∀ a x, ((![v93, v1122] : Fin 2 → IVec S16 32) a x).toNat < S1x100000.size a := fun v93 v1122 k0_hw23 => k0_hw23
def k0_off60 (k0_t8 : Fin k0_t8_loop.trips) : Fin 2 → Nat :=
  let c0_i32_1173 : BitVec 32 := 0#32
  let v1124 : Index := Scalar.indexCast c0_i32_1173
  let c0_i32_103 : BitVec 32 := 0#32
  let c1_i32_105 : BitVec 32 := 1#32
  let arg22 : BitVec 32 := Scf.iv c0_i32_103 c1_i32_105 k0_t8
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off61 (k0_t8 : Fin k0_t8_loop.trips) : Fin 1 → Nat :=
  let c0_i32_103 : BitVec 32 := 0#32
  let c1_i32_105 : BitVec 32 := 1#32
  let arg22 : BitVec 32 := Scf.iv c0_i32_103 c1_i32_105 k0_t8
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk24 (v93 : IVec S16 32) (v1130 : IVec S16 32) : Prop :=
  (∀ a x, ((![v93, v1130] : Fin 2 → IVec S16 32) a x).toNat < S1x100000.size a)
instance k0_chk24.dec : ∀ (v93 : IVec S16 32) (v1130 : IVec S16 32), Decidable (k0_chk24 v93 v1130) := fun v93 v1130 => decidable_of_iff' _ (Iff.of_eq (k0_chk24.eq_1 v93 v1130))
theorem k0_idx24_inb : ∀ (v93 : IVec S16 32) (v1130 : IVec S16 32) (k0_hw24 : k0_chk24 v93 v1130), ∀ a x, ((![v93, v1130] : Fin 2 → IVec S16 32) a x).toNat < S1x100000.size a := fun v93 v1130 k0_hw24 => k0_hw24
def k0_off62 (k0_t8 : Fin k0_t8_loop.trips) : Fin 2 → Nat :=
  let c0_i32_1176 : BitVec 32 := 0#32
  let v1132 : Index := Scalar.indexCast c0_i32_1176
  let c0_i32_103 : BitVec 32 := 0#32
  let c1_i32_105 : BitVec 32 := 1#32
  let arg22 : BitVec 32 := Scf.iv c0_i32_103 c1_i32_105 k0_t8
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off63 (k0_t8 : Fin k0_t8_loop.trips) : Fin 1 → Nat :=
  let c0_i32_103 : BitVec 32 := 0#32
  let c1_i32_105 : BitVec 32 := 1#32
  let arg22 : BitVec 32 := Scf.iv c0_i32_103 c1_i32_105 k0_t8
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk25 (v93 : IVec S16 32) (v1138 : IVec S16 32) : Prop :=
  (∀ a x, ((![v93, v1138] : Fin 2 → IVec S16 32) a x).toNat < S1x100000.size a)
instance k0_chk25.dec : ∀ (v93 : IVec S16 32) (v1138 : IVec S16 32), Decidable (k0_chk25 v93 v1138) := fun v93 v1138 => decidable_of_iff' _ (Iff.of_eq (k0_chk25.eq_1 v93 v1138))
theorem k0_idx25_inb : ∀ (v93 : IVec S16 32) (v1138 : IVec S16 32) (k0_hw25 : k0_chk25 v93 v1138), ∀ a x, ((![v93, v1138] : Fin 2 → IVec S16 32) a x).toNat < S1x100000.size a := fun v93 v1138 k0_hw25 => k0_hw25
def k0_off64 (k0_t8 : Fin k0_t8_loop.trips) : Fin 2 → Nat :=
  let c0_i32_1179 : BitVec 32 := 0#32
  let v1140 : Index := Scalar.indexCast c0_i32_1179
  let c0_i32_103 : BitVec 32 := 0#32
  let c1_i32_105 : BitVec 32 := 1#32
  let arg22 : BitVec 32 := Scf.iv c0_i32_103 c1_i32_105 k0_t8
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off65 (k0_t8 : Fin k0_t8_loop.trips) : Fin 1 → Nat :=
  let c0_i32_103 : BitVec 32 := 0#32
  let c1_i32_105 : BitVec 32 := 1#32
  let arg22 : BitVec 32 := Scf.iv c0_i32_103 c1_i32_105 k0_t8
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk26 (v93 : IVec S16 32) (v1146 : IVec S16 32) : Prop :=
  (∀ a x, ((![v93, v1146] : Fin 2 → IVec S16 32) a x).toNat < S1x100000.size a)
instance k0_chk26.dec : ∀ (v93 : IVec S16 32) (v1146 : IVec S16 32), Decidable (k0_chk26 v93 v1146) := fun v93 v1146 => decidable_of_iff' _ (Iff.of_eq (k0_chk26.eq_1 v93 v1146))
theorem k0_idx26_inb : ∀ (v93 : IVec S16 32) (v1146 : IVec S16 32) (k0_hw26 : k0_chk26 v93 v1146), ∀ a x, ((![v93, v1146] : Fin 2 → IVec S16 32) a x).toNat < S1x100000.size a := fun v93 v1146 k0_hw26 => k0_hw26
def k0_off66 (k0_t8 : Fin k0_t8_loop.trips) : Fin 2 → Nat :=
  let c0_i32_1181 : BitVec 32 := 0#32
  let v1148 : Index := Scalar.indexCast c0_i32_1181
  let c0_i32_103 : BitVec 32 := 0#32
  let c1_i32_105 : BitVec 32 := 1#32
  let arg22 : BitVec 32 := Scf.iv c0_i32_103 c1_i32_105 k0_t8
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off67 (i : grid0.Coords) (c1_i32_96 : BitVec 32) : Fin 3 → Nat :=
  let c3_i32_107 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v88 : BitVec 32 := Scalar.addi v2 c1_i32_96
  let c0_i32_108 : BitVec 32 := 0#32
  ![3, v88.toNat, 0]
def k0_off68 (i : grid0.Coords) : Fin 3 → Nat :=
  let c3_i32_114 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_113 : BitVec 32 := 0#32
  let v103 : BitVec 32 := Scalar.addi v2 c0_i32_113
  let c0_i32_1171_r9 : BitVec 32 := 0#32
  ![3, v103.toNat, 0]
@[reducible] def k0_t9_loop : Scf.Loop 32 :=
  let c0_i32_120 : BitVec 32 := 0#32
  let c64_i32_121 : BitVec 32 := 64#32
  let v109 : BitVec 32 := Scalar.addi c0_i32_120 c64_i32_121
  let c1_i32_122 : BitVec 32 := 1#32
  ⟨c0_i32_120, v109, c1_i32_122⟩
def k0_off69 (k0_t9 : Fin k0_t9_loop.trips) : Fin 1 → Nat :=
  let c0_i32_120 : BitVec 32 := 0#32
  let c1_i32_122 : BitVec 32 := 1#32
  let arg22 : BitVec 32 := Scf.iv c0_i32_120 c1_i32_122 k0_t9
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk27 (v108 : IVec S16 32) (v1122 : IVec S16 32) : Prop :=
  (∀ a x, ((![v108, v1122] : Fin 2 → IVec S16 32) a x).toNat < S1x100000.size a)
instance k0_chk27.dec : ∀ (v108 : IVec S16 32) (v1122 : IVec S16 32), Decidable (k0_chk27 v108 v1122) := fun v108 v1122 => decidable_of_iff' _ (Iff.of_eq (k0_chk27.eq_1 v108 v1122))
theorem k0_idx27_inb : ∀ (v108 : IVec S16 32) (v1122 : IVec S16 32) (k0_hw27 : k0_chk27 v108 v1122), ∀ a x, ((![v108, v1122] : Fin 2 → IVec S16 32) a x).toNat < S1x100000.size a := fun v108 v1122 k0_hw27 => k0_hw27
def k0_off70 (k0_t9 : Fin k0_t9_loop.trips) : Fin 2 → Nat :=
  let c0_i32_1173 : BitVec 32 := 0#32
  let v1124 : Index := Scalar.indexCast c0_i32_1173
  let c0_i32_120 : BitVec 32 := 0#32
  let c1_i32_122 : BitVec 32 := 1#32
  let arg22 : BitVec 32 := Scf.iv c0_i32_120 c1_i32_122 k0_t9
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off71 (k0_t9 : Fin k0_t9_loop.trips) : Fin 1 → Nat :=
  let c0_i32_120 : BitVec 32 := 0#32
  let c1_i32_122 : BitVec 32 := 1#32
  let arg22 : BitVec 32 := Scf.iv c0_i32_120 c1_i32_122 k0_t9
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk28 (v108 : IVec S16 32) (v1130 : IVec S16 32) : Prop :=
  (∀ a x, ((![v108, v1130] : Fin 2 → IVec S16 32) a x).toNat < S1x100000.size a)
instance k0_chk28.dec : ∀ (v108 : IVec S16 32) (v1130 : IVec S16 32), Decidable (k0_chk28 v108 v1130) := fun v108 v1130 => decidable_of_iff' _ (Iff.of_eq (k0_chk28.eq_1 v108 v1130))
theorem k0_idx28_inb : ∀ (v108 : IVec S16 32) (v1130 : IVec S16 32) (k0_hw28 : k0_chk28 v108 v1130), ∀ a x, ((![v108, v1130] : Fin 2 → IVec S16 32) a x).toNat < S1x100000.size a := fun v108 v1130 k0_hw28 => k0_hw28
def k0_off72 (k0_t9 : Fin k0_t9_loop.trips) : Fin 2 → Nat :=
  let c0_i32_1176 : BitVec 32 := 0#32
  let v1132 : Index := Scalar.indexCast c0_i32_1176
  let c0_i32_120 : BitVec 32 := 0#32
  let c1_i32_122 : BitVec 32 := 1#32
  let arg22 : BitVec 32 := Scf.iv c0_i32_120 c1_i32_122 k0_t9
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off73 (k0_t9 : Fin k0_t9_loop.trips) : Fin 1 → Nat :=
  let c0_i32_120 : BitVec 32 := 0#32
  let c1_i32_122 : BitVec 32 := 1#32
  let arg22 : BitVec 32 := Scf.iv c0_i32_120 c1_i32_122 k0_t9
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk29 (v108 : IVec S16 32) (v1138 : IVec S16 32) : Prop :=
  (∀ a x, ((![v108, v1138] : Fin 2 → IVec S16 32) a x).toNat < S1x100000.size a)
instance k0_chk29.dec : ∀ (v108 : IVec S16 32) (v1138 : IVec S16 32), Decidable (k0_chk29 v108 v1138) := fun v108 v1138 => decidable_of_iff' _ (Iff.of_eq (k0_chk29.eq_1 v108 v1138))
theorem k0_idx29_inb : ∀ (v108 : IVec S16 32) (v1138 : IVec S16 32) (k0_hw29 : k0_chk29 v108 v1138), ∀ a x, ((![v108, v1138] : Fin 2 → IVec S16 32) a x).toNat < S1x100000.size a := fun v108 v1138 k0_hw29 => k0_hw29
def k0_off74 (k0_t9 : Fin k0_t9_loop.trips) : Fin 2 → Nat :=
  let c0_i32_1179 : BitVec 32 := 0#32
  let v1140 : Index := Scalar.indexCast c0_i32_1179
  let c0_i32_120 : BitVec 32 := 0#32
  let c1_i32_122 : BitVec 32 := 1#32
  let arg22 : BitVec 32 := Scf.iv c0_i32_120 c1_i32_122 k0_t9
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off75 (k0_t9 : Fin k0_t9_loop.trips) : Fin 1 → Nat :=
  let c0_i32_120 : BitVec 32 := 0#32
  let c1_i32_122 : BitVec 32 := 1#32
  let arg22 : BitVec 32 := Scf.iv c0_i32_120 c1_i32_122 k0_t9
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk30 (v108 : IVec S16 32) (v1146 : IVec S16 32) : Prop :=
  (∀ a x, ((![v108, v1146] : Fin 2 → IVec S16 32) a x).toNat < S1x100000.size a)
instance k0_chk30.dec : ∀ (v108 : IVec S16 32) (v1146 : IVec S16 32), Decidable (k0_chk30 v108 v1146) := fun v108 v1146 => decidable_of_iff' _ (Iff.of_eq (k0_chk30.eq_1 v108 v1146))
theorem k0_idx30_inb : ∀ (v108 : IVec S16 32) (v1146 : IVec S16 32) (k0_hw30 : k0_chk30 v108 v1146), ∀ a x, ((![v108, v1146] : Fin 2 → IVec S16 32) a x).toNat < S1x100000.size a := fun v108 v1146 k0_hw30 => k0_hw30
def k0_off76 (k0_t9 : Fin k0_t9_loop.trips) : Fin 2 → Nat :=
  let c0_i32_1181 : BitVec 32 := 0#32
  let v1148 : Index := Scalar.indexCast c0_i32_1181
  let c0_i32_120 : BitVec 32 := 0#32
  let c1_i32_122 : BitVec 32 := 1#32
  let arg22 : BitVec 32 := Scf.iv c0_i32_120 c1_i32_122 k0_t9
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off77 (i : grid0.Coords) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_113 : BitVec 32 := 0#32
  let v103 : BitVec 32 := Scalar.addi v2 c0_i32_113
  let c0_i32_124 : BitVec 32 := 0#32
  ![4, v103.toNat, 0]
def k0_off78 (i : grid0.Coords) : Fin 3 → Nat :=
  let c3_i32_127 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_126 : BitVec 32 := 1#32
  let v114 : BitVec 32 := Scalar.addi v2 c1_i32_126
  let c0_i32_1171_r10 : BitVec 32 := 0#32
  ![3, v114.toNat, 0]
def k0_off79 (i : grid0.Coords) : Fin 3 → Nat :=
  let c3_i32_128 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_96 : BitVec 32 := 1#32
  let v88 : BitVec 32 := Scalar.addi v2 c1_i32_96
  let c0_i32_129 : BitVec 32 := 0#32
  ![3, v88.toNat, 0]
@[reducible] def k0_t10_loop : Scf.Loop 32 :=
  let c0_i32_133 : BitVec 32 := 0#32
  let c64_i32_134 : BitVec 32 := 64#32
  let v120 : BitVec 32 := Scalar.addi c0_i32_133 c64_i32_134
  let c1_i32_135 : BitVec 32 := 1#32
  ⟨c0_i32_133, v120, c1_i32_135⟩
def k0_off80 (k0_t10 : Fin k0_t10_loop.trips) : Fin 1 → Nat :=
  let c0_i32_133 : BitVec 32 := 0#32
  let c1_i32_135 : BitVec 32 := 1#32
  let arg22 : BitVec 32 := Scf.iv c0_i32_133 c1_i32_135 k0_t10
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk31 (v119 : IVec S16 32) (v1122 : IVec S16 32) : Prop :=
  (∀ a x, ((![v119, v1122] : Fin 2 → IVec S16 32) a x).toNat < S1x100000.size a)
instance k0_chk31.dec : ∀ (v119 : IVec S16 32) (v1122 : IVec S16 32), Decidable (k0_chk31 v119 v1122) := fun v119 v1122 => decidable_of_iff' _ (Iff.of_eq (k0_chk31.eq_1 v119 v1122))
theorem k0_idx31_inb : ∀ (v119 : IVec S16 32) (v1122 : IVec S16 32) (k0_hw31 : k0_chk31 v119 v1122), ∀ a x, ((![v119, v1122] : Fin 2 → IVec S16 32) a x).toNat < S1x100000.size a := fun v119 v1122 k0_hw31 => k0_hw31
def k0_off81 (k0_t10 : Fin k0_t10_loop.trips) : Fin 2 → Nat :=
  let c0_i32_1173 : BitVec 32 := 0#32
  let v1124 : Index := Scalar.indexCast c0_i32_1173
  let c0_i32_133 : BitVec 32 := 0#32
  let c1_i32_135 : BitVec 32 := 1#32
  let arg22 : BitVec 32 := Scf.iv c0_i32_133 c1_i32_135 k0_t10
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off82 (k0_t10 : Fin k0_t10_loop.trips) : Fin 1 → Nat :=
  let c0_i32_133 : BitVec 32 := 0#32
  let c1_i32_135 : BitVec 32 := 1#32
  let arg22 : BitVec 32 := Scf.iv c0_i32_133 c1_i32_135 k0_t10
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk32 (v119 : IVec S16 32) (v1130 : IVec S16 32) : Prop :=
  (∀ a x, ((![v119, v1130] : Fin 2 → IVec S16 32) a x).toNat < S1x100000.size a)
instance k0_chk32.dec : ∀ (v119 : IVec S16 32) (v1130 : IVec S16 32), Decidable (k0_chk32 v119 v1130) := fun v119 v1130 => decidable_of_iff' _ (Iff.of_eq (k0_chk32.eq_1 v119 v1130))
theorem k0_idx32_inb : ∀ (v119 : IVec S16 32) (v1130 : IVec S16 32) (k0_hw32 : k0_chk32 v119 v1130), ∀ a x, ((![v119, v1130] : Fin 2 → IVec S16 32) a x).toNat < S1x100000.size a := fun v119 v1130 k0_hw32 => k0_hw32
def k0_off83 (k0_t10 : Fin k0_t10_loop.trips) : Fin 2 → Nat :=
  let c0_i32_1176 : BitVec 32 := 0#32
  let v1132 : Index := Scalar.indexCast c0_i32_1176
  let c0_i32_133 : BitVec 32 := 0#32
  let c1_i32_135 : BitVec 32 := 1#32
  let arg22 : BitVec 32 := Scf.iv c0_i32_133 c1_i32_135 k0_t10
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off84 (k0_t10 : Fin k0_t10_loop.trips) : Fin 1 → Nat :=
  let c0_i32_133 : BitVec 32 := 0#32
  let c1_i32_135 : BitVec 32 := 1#32
  let arg22 : BitVec 32 := Scf.iv c0_i32_133 c1_i32_135 k0_t10
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk33 (v119 : IVec S16 32) (v1138 : IVec S16 32) : Prop :=
  (∀ a x, ((![v119, v1138] : Fin 2 → IVec S16 32) a x).toNat < S1x100000.size a)
instance k0_chk33.dec : ∀ (v119 : IVec S16 32) (v1138 : IVec S16 32), Decidable (k0_chk33 v119 v1138) := fun v119 v1138 => decidable_of_iff' _ (Iff.of_eq (k0_chk33.eq_1 v119 v1138))
theorem k0_idx33_inb : ∀ (v119 : IVec S16 32) (v1138 : IVec S16 32) (k0_hw33 : k0_chk33 v119 v1138), ∀ a x, ((![v119, v1138] : Fin 2 → IVec S16 32) a x).toNat < S1x100000.size a := fun v119 v1138 k0_hw33 => k0_hw33
def k0_off85 (k0_t10 : Fin k0_t10_loop.trips) : Fin 2 → Nat :=
  let c0_i32_1179 : BitVec 32 := 0#32
  let v1140 : Index := Scalar.indexCast c0_i32_1179
  let c0_i32_133 : BitVec 32 := 0#32
  let c1_i32_135 : BitVec 32 := 1#32
  let arg22 : BitVec 32 := Scf.iv c0_i32_133 c1_i32_135 k0_t10
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off86 (k0_t10 : Fin k0_t10_loop.trips) : Fin 1 → Nat :=
  let c0_i32_133 : BitVec 32 := 0#32
  let c1_i32_135 : BitVec 32 := 1#32
  let arg22 : BitVec 32 := Scf.iv c0_i32_133 c1_i32_135 k0_t10
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk34 (v119 : IVec S16 32) (v1146 : IVec S16 32) : Prop :=
  (∀ a x, ((![v119, v1146] : Fin 2 → IVec S16 32) a x).toNat < S1x100000.size a)
instance k0_chk34.dec : ∀ (v119 : IVec S16 32) (v1146 : IVec S16 32), Decidable (k0_chk34 v119 v1146) := fun v119 v1146 => decidable_of_iff' _ (Iff.of_eq (k0_chk34.eq_1 v119 v1146))
theorem k0_idx34_inb : ∀ (v119 : IVec S16 32) (v1146 : IVec S16 32) (k0_hw34 : k0_chk34 v119 v1146), ∀ a x, ((![v119, v1146] : Fin 2 → IVec S16 32) a x).toNat < S1x100000.size a := fun v119 v1146 k0_hw34 => k0_hw34
def k0_off87 (k0_t10 : Fin k0_t10_loop.trips) : Fin 2 → Nat :=
  let c0_i32_1181 : BitVec 32 := 0#32
  let v1148 : Index := Scalar.indexCast c0_i32_1181
  let c0_i32_133 : BitVec 32 := 0#32
  let c1_i32_135 : BitVec 32 := 1#32
  let arg22 : BitVec 32 := Scf.iv c0_i32_133 c1_i32_135 k0_t10
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off88 (i : grid0.Coords) (c1_i32_126 : BitVec 32) : Fin 3 → Nat :=
  let c4_i32_137 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v114 : BitVec 32 := Scalar.addi v2 c1_i32_126
  let c0_i32_138 : BitVec 32 := 0#32
  ![4, v114.toNat, 0]
def k0_off89 (i : grid0.Coords) : Fin 3 → Nat :=
  let c4_i32_144 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_143 : BitVec 32 := 0#32
  let v129 : BitVec 32 := Scalar.addi v2 c0_i32_143
  let c0_i32_1171_r11 : BitVec 32 := 0#32
  ![4, v129.toNat, 0]
@[reducible] def k0_t11_loop : Scf.Loop 32 :=
  let c0_i32_150 : BitVec 32 := 0#32
  let c64_i32_151 : BitVec 32 := 64#32
  let v135 : BitVec 32 := Scalar.addi c0_i32_150 c64_i32_151
  let c1_i32_152 : BitVec 32 := 1#32
  ⟨c0_i32_150, v135, c1_i32_152⟩
def k0_off90 (k0_t11 : Fin k0_t11_loop.trips) : Fin 1 → Nat :=
  let c0_i32_150 : BitVec 32 := 0#32
  let c1_i32_152 : BitVec 32 := 1#32
  let arg22 : BitVec 32 := Scf.iv c0_i32_150 c1_i32_152 k0_t11
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk35 (v134 : IVec S16 32) (v1122 : IVec S16 32) : Prop :=
  (∀ a x, ((![v134, v1122] : Fin 2 → IVec S16 32) a x).toNat < S1x100000.size a)
instance k0_chk35.dec : ∀ (v134 : IVec S16 32) (v1122 : IVec S16 32), Decidable (k0_chk35 v134 v1122) := fun v134 v1122 => decidable_of_iff' _ (Iff.of_eq (k0_chk35.eq_1 v134 v1122))
theorem k0_idx35_inb : ∀ (v134 : IVec S16 32) (v1122 : IVec S16 32) (k0_hw35 : k0_chk35 v134 v1122), ∀ a x, ((![v134, v1122] : Fin 2 → IVec S16 32) a x).toNat < S1x100000.size a := fun v134 v1122 k0_hw35 => k0_hw35
def k0_off91 (k0_t11 : Fin k0_t11_loop.trips) : Fin 2 → Nat :=
  let c0_i32_1173 : BitVec 32 := 0#32
  let v1124 : Index := Scalar.indexCast c0_i32_1173
  let c0_i32_150 : BitVec 32 := 0#32
  let c1_i32_152 : BitVec 32 := 1#32
  let arg22 : BitVec 32 := Scf.iv c0_i32_150 c1_i32_152 k0_t11
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off92 (k0_t11 : Fin k0_t11_loop.trips) : Fin 1 → Nat :=
  let c0_i32_150 : BitVec 32 := 0#32
  let c1_i32_152 : BitVec 32 := 1#32
  let arg22 : BitVec 32 := Scf.iv c0_i32_150 c1_i32_152 k0_t11
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk36 (v134 : IVec S16 32) (v1130 : IVec S16 32) : Prop :=
  (∀ a x, ((![v134, v1130] : Fin 2 → IVec S16 32) a x).toNat < S1x100000.size a)
instance k0_chk36.dec : ∀ (v134 : IVec S16 32) (v1130 : IVec S16 32), Decidable (k0_chk36 v134 v1130) := fun v134 v1130 => decidable_of_iff' _ (Iff.of_eq (k0_chk36.eq_1 v134 v1130))
theorem k0_idx36_inb : ∀ (v134 : IVec S16 32) (v1130 : IVec S16 32) (k0_hw36 : k0_chk36 v134 v1130), ∀ a x, ((![v134, v1130] : Fin 2 → IVec S16 32) a x).toNat < S1x100000.size a := fun v134 v1130 k0_hw36 => k0_hw36
def k0_off93 (k0_t11 : Fin k0_t11_loop.trips) : Fin 2 → Nat :=
  let c0_i32_1176 : BitVec 32 := 0#32
  let v1132 : Index := Scalar.indexCast c0_i32_1176
  let c0_i32_150 : BitVec 32 := 0#32
  let c1_i32_152 : BitVec 32 := 1#32
  let arg22 : BitVec 32 := Scf.iv c0_i32_150 c1_i32_152 k0_t11
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off94 (k0_t11 : Fin k0_t11_loop.trips) : Fin 1 → Nat :=
  let c0_i32_150 : BitVec 32 := 0#32
  let c1_i32_152 : BitVec 32 := 1#32
  let arg22 : BitVec 32 := Scf.iv c0_i32_150 c1_i32_152 k0_t11
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk37 (v134 : IVec S16 32) (v1138 : IVec S16 32) : Prop :=
  (∀ a x, ((![v134, v1138] : Fin 2 → IVec S16 32) a x).toNat < S1x100000.size a)
instance k0_chk37.dec : ∀ (v134 : IVec S16 32) (v1138 : IVec S16 32), Decidable (k0_chk37 v134 v1138) := fun v134 v1138 => decidable_of_iff' _ (Iff.of_eq (k0_chk37.eq_1 v134 v1138))
theorem k0_idx37_inb : ∀ (v134 : IVec S16 32) (v1138 : IVec S16 32) (k0_hw37 : k0_chk37 v134 v1138), ∀ a x, ((![v134, v1138] : Fin 2 → IVec S16 32) a x).toNat < S1x100000.size a := fun v134 v1138 k0_hw37 => k0_hw37
def k0_off95 (k0_t11 : Fin k0_t11_loop.trips) : Fin 2 → Nat :=
  let c0_i32_1179 : BitVec 32 := 0#32
  let v1140 : Index := Scalar.indexCast c0_i32_1179
  let c0_i32_150 : BitVec 32 := 0#32
  let c1_i32_152 : BitVec 32 := 1#32
  let arg22 : BitVec 32 := Scf.iv c0_i32_150 c1_i32_152 k0_t11
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off96 (k0_t11 : Fin k0_t11_loop.trips) : Fin 1 → Nat :=
  let c0_i32_150 : BitVec 32 := 0#32
  let c1_i32_152 : BitVec 32 := 1#32
  let arg22 : BitVec 32 := Scf.iv c0_i32_150 c1_i32_152 k0_t11
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk38 (v134 : IVec S16 32) (v1146 : IVec S16 32) : Prop :=
  (∀ a x, ((![v134, v1146] : Fin 2 → IVec S16 32) a x).toNat < S1x100000.size a)
instance k0_chk38.dec : ∀ (v134 : IVec S16 32) (v1146 : IVec S16 32), Decidable (k0_chk38 v134 v1146) := fun v134 v1146 => decidable_of_iff' _ (Iff.of_eq (k0_chk38.eq_1 v134 v1146))
theorem k0_idx38_inb : ∀ (v134 : IVec S16 32) (v1146 : IVec S16 32) (k0_hw38 : k0_chk38 v134 v1146), ∀ a x, ((![v134, v1146] : Fin 2 → IVec S16 32) a x).toNat < S1x100000.size a := fun v134 v1146 k0_hw38 => k0_hw38
def k0_off97 (k0_t11 : Fin k0_t11_loop.trips) : Fin 2 → Nat :=
  let c0_i32_1181 : BitVec 32 := 0#32
  let v1148 : Index := Scalar.indexCast c0_i32_1181
  let c0_i32_150 : BitVec 32 := 0#32
  let c1_i32_152 : BitVec 32 := 1#32
  let arg22 : BitVec 32 := Scf.iv c0_i32_150 c1_i32_152 k0_t11
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off98 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_143 : BitVec 32 := 0#32
  let v129 : BitVec 32 := Scalar.addi v2 c0_i32_143
  let c0_i32_154 : BitVec 32 := 0#32
  ![5, v129.toNat, 0]
def k0_off99 (i : grid0.Coords) : Fin 3 → Nat :=
  let c4_i32_157 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_156 : BitVec 32 := 1#32
  let v140 : BitVec 32 := Scalar.addi v2 c1_i32_156
  let c0_i32_1171_r12 : BitVec 32 := 0#32
  ![4, v140.toNat, 0]
def k0_off100 (i : grid0.Coords) : Fin 3 → Nat :=
  let c4_i32_158 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_126 : BitVec 32 := 1#32
  let v114 : BitVec 32 := Scalar.addi v2 c1_i32_126
  let c0_i32_159 : BitVec 32 := 0#32
  ![4, v114.toNat, 0]
@[reducible] def k0_t12_loop : Scf.Loop 32 :=
  let c0_i32_163 : BitVec 32 := 0#32
  let c64_i32_164 : BitVec 32 := 64#32
  let v146 : BitVec 32 := Scalar.addi c0_i32_163 c64_i32_164
  let c1_i32_165 : BitVec 32 := 1#32
  ⟨c0_i32_163, v146, c1_i32_165⟩
def k0_off101 (k0_t12 : Fin k0_t12_loop.trips) : Fin 1 → Nat :=
  let c0_i32_163 : BitVec 32 := 0#32
  let c1_i32_165 : BitVec 32 := 1#32
  let arg22 : BitVec 32 := Scf.iv c0_i32_163 c1_i32_165 k0_t12
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk39 (v145 : IVec S16 32) (v1122 : IVec S16 32) : Prop :=
  (∀ a x, ((![v145, v1122] : Fin 2 → IVec S16 32) a x).toNat < S1x100000.size a)
instance k0_chk39.dec : ∀ (v145 : IVec S16 32) (v1122 : IVec S16 32), Decidable (k0_chk39 v145 v1122) := fun v145 v1122 => decidable_of_iff' _ (Iff.of_eq (k0_chk39.eq_1 v145 v1122))
theorem k0_idx39_inb : ∀ (v145 : IVec S16 32) (v1122 : IVec S16 32) (k0_hw39 : k0_chk39 v145 v1122), ∀ a x, ((![v145, v1122] : Fin 2 → IVec S16 32) a x).toNat < S1x100000.size a := fun v145 v1122 k0_hw39 => k0_hw39
def k0_off102 (k0_t12 : Fin k0_t12_loop.trips) : Fin 2 → Nat :=
  let c0_i32_1173 : BitVec 32 := 0#32
  let v1124 : Index := Scalar.indexCast c0_i32_1173
  let c0_i32_163 : BitVec 32 := 0#32
  let c1_i32_165 : BitVec 32 := 1#32
  let arg22 : BitVec 32 := Scf.iv c0_i32_163 c1_i32_165 k0_t12
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off103 (k0_t12 : Fin k0_t12_loop.trips) : Fin 1 → Nat :=
  let c0_i32_163 : BitVec 32 := 0#32
  let c1_i32_165 : BitVec 32 := 1#32
  let arg22 : BitVec 32 := Scf.iv c0_i32_163 c1_i32_165 k0_t12
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk40 (v145 : IVec S16 32) (v1130 : IVec S16 32) : Prop :=
  (∀ a x, ((![v145, v1130] : Fin 2 → IVec S16 32) a x).toNat < S1x100000.size a)
instance k0_chk40.dec : ∀ (v145 : IVec S16 32) (v1130 : IVec S16 32), Decidable (k0_chk40 v145 v1130) := fun v145 v1130 => decidable_of_iff' _ (Iff.of_eq (k0_chk40.eq_1 v145 v1130))
theorem k0_idx40_inb : ∀ (v145 : IVec S16 32) (v1130 : IVec S16 32) (k0_hw40 : k0_chk40 v145 v1130), ∀ a x, ((![v145, v1130] : Fin 2 → IVec S16 32) a x).toNat < S1x100000.size a := fun v145 v1130 k0_hw40 => k0_hw40
def k0_off104 (k0_t12 : Fin k0_t12_loop.trips) : Fin 2 → Nat :=
  let c0_i32_1176 : BitVec 32 := 0#32
  let v1132 : Index := Scalar.indexCast c0_i32_1176
  let c0_i32_163 : BitVec 32 := 0#32
  let c1_i32_165 : BitVec 32 := 1#32
  let arg22 : BitVec 32 := Scf.iv c0_i32_163 c1_i32_165 k0_t12
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off105 (k0_t12 : Fin k0_t12_loop.trips) : Fin 1 → Nat :=
  let c0_i32_163 : BitVec 32 := 0#32
  let c1_i32_165 : BitVec 32 := 1#32
  let arg22 : BitVec 32 := Scf.iv c0_i32_163 c1_i32_165 k0_t12
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk41 (v145 : IVec S16 32) (v1138 : IVec S16 32) : Prop :=
  (∀ a x, ((![v145, v1138] : Fin 2 → IVec S16 32) a x).toNat < S1x100000.size a)
instance k0_chk41.dec : ∀ (v145 : IVec S16 32) (v1138 : IVec S16 32), Decidable (k0_chk41 v145 v1138) := fun v145 v1138 => decidable_of_iff' _ (Iff.of_eq (k0_chk41.eq_1 v145 v1138))
theorem k0_idx41_inb : ∀ (v145 : IVec S16 32) (v1138 : IVec S16 32) (k0_hw41 : k0_chk41 v145 v1138), ∀ a x, ((![v145, v1138] : Fin 2 → IVec S16 32) a x).toNat < S1x100000.size a := fun v145 v1138 k0_hw41 => k0_hw41
def k0_off106 (k0_t12 : Fin k0_t12_loop.trips) : Fin 2 → Nat :=
  let c0_i32_1179 : BitVec 32 := 0#32
  let v1140 : Index := Scalar.indexCast c0_i32_1179
  let c0_i32_163 : BitVec 32 := 0#32
  let c1_i32_165 : BitVec 32 := 1#32
  let arg22 : BitVec 32 := Scf.iv c0_i32_163 c1_i32_165 k0_t12
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off107 (k0_t12 : Fin k0_t12_loop.trips) : Fin 1 → Nat :=
  let c0_i32_163 : BitVec 32 := 0#32
  let c1_i32_165 : BitVec 32 := 1#32
  let arg22 : BitVec 32 := Scf.iv c0_i32_163 c1_i32_165 k0_t12
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk42 (v145 : IVec S16 32) (v1146 : IVec S16 32) : Prop :=
  (∀ a x, ((![v145, v1146] : Fin 2 → IVec S16 32) a x).toNat < S1x100000.size a)
instance k0_chk42.dec : ∀ (v145 : IVec S16 32) (v1146 : IVec S16 32), Decidable (k0_chk42 v145 v1146) := fun v145 v1146 => decidable_of_iff' _ (Iff.of_eq (k0_chk42.eq_1 v145 v1146))
theorem k0_idx42_inb : ∀ (v145 : IVec S16 32) (v1146 : IVec S16 32) (k0_hw42 : k0_chk42 v145 v1146), ∀ a x, ((![v145, v1146] : Fin 2 → IVec S16 32) a x).toNat < S1x100000.size a := fun v145 v1146 k0_hw42 => k0_hw42
def k0_off108 (k0_t12 : Fin k0_t12_loop.trips) : Fin 2 → Nat :=
  let c0_i32_1181 : BitVec 32 := 0#32
  let v1148 : Index := Scalar.indexCast c0_i32_1181
  let c0_i32_163 : BitVec 32 := 0#32
  let c1_i32_165 : BitVec 32 := 1#32
  let arg22 : BitVec 32 := Scf.iv c0_i32_163 c1_i32_165 k0_t12
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off109 (i : grid0.Coords) (c1_i32_156 : BitVec 32) : Fin 3 → Nat :=
  let c5_i32_167 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v140 : BitVec 32 := Scalar.addi v2 c1_i32_156
  let c0_i32_168 : BitVec 32 := 0#32
  ![5, v140.toNat, 0]
def k0_off110 (i : grid0.Coords) : Fin 3 → Nat :=
  let c5_i32_174 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_173 : BitVec 32 := 0#32
  let v155 : BitVec 32 := Scalar.addi v2 c0_i32_173
  let c0_i32_1171_r13 : BitVec 32 := 0#32
  ![5, v155.toNat, 0]
@[reducible] def k0_t13_loop : Scf.Loop 32 :=
  let c0_i32_180 : BitVec 32 := 0#32
  let c64_i32_181 : BitVec 32 := 64#32
  let v161 : BitVec 32 := Scalar.addi c0_i32_180 c64_i32_181
  let c1_i32_182 : BitVec 32 := 1#32
  ⟨c0_i32_180, v161, c1_i32_182⟩
def k0_off111 (k0_t13 : Fin k0_t13_loop.trips) : Fin 1 → Nat :=
  let c0_i32_180 : BitVec 32 := 0#32
  let c1_i32_182 : BitVec 32 := 1#32
  let arg22 : BitVec 32 := Scf.iv c0_i32_180 c1_i32_182 k0_t13
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk43 (v160 : IVec S16 32) (v1122 : IVec S16 32) : Prop :=
  (∀ a x, ((![v160, v1122] : Fin 2 → IVec S16 32) a x).toNat < S1x100000.size a)
instance k0_chk43.dec : ∀ (v160 : IVec S16 32) (v1122 : IVec S16 32), Decidable (k0_chk43 v160 v1122) := fun v160 v1122 => decidable_of_iff' _ (Iff.of_eq (k0_chk43.eq_1 v160 v1122))
theorem k0_idx43_inb : ∀ (v160 : IVec S16 32) (v1122 : IVec S16 32) (k0_hw43 : k0_chk43 v160 v1122), ∀ a x, ((![v160, v1122] : Fin 2 → IVec S16 32) a x).toNat < S1x100000.size a := fun v160 v1122 k0_hw43 => k0_hw43
def k0_off112 (k0_t13 : Fin k0_t13_loop.trips) : Fin 2 → Nat :=
  let c0_i32_1173 : BitVec 32 := 0#32
  let v1124 : Index := Scalar.indexCast c0_i32_1173
  let c0_i32_180 : BitVec 32 := 0#32
  let c1_i32_182 : BitVec 32 := 1#32
  let arg22 : BitVec 32 := Scf.iv c0_i32_180 c1_i32_182 k0_t13
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off113 (k0_t13 : Fin k0_t13_loop.trips) : Fin 1 → Nat :=
  let c0_i32_180 : BitVec 32 := 0#32
  let c1_i32_182 : BitVec 32 := 1#32
  let arg22 : BitVec 32 := Scf.iv c0_i32_180 c1_i32_182 k0_t13
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk44 (v160 : IVec S16 32) (v1130 : IVec S16 32) : Prop :=
  (∀ a x, ((![v160, v1130] : Fin 2 → IVec S16 32) a x).toNat < S1x100000.size a)
instance k0_chk44.dec : ∀ (v160 : IVec S16 32) (v1130 : IVec S16 32), Decidable (k0_chk44 v160 v1130) := fun v160 v1130 => decidable_of_iff' _ (Iff.of_eq (k0_chk44.eq_1 v160 v1130))
theorem k0_idx44_inb : ∀ (v160 : IVec S16 32) (v1130 : IVec S16 32) (k0_hw44 : k0_chk44 v160 v1130), ∀ a x, ((![v160, v1130] : Fin 2 → IVec S16 32) a x).toNat < S1x100000.size a := fun v160 v1130 k0_hw44 => k0_hw44
def k0_off114 (k0_t13 : Fin k0_t13_loop.trips) : Fin 2 → Nat :=
  let c0_i32_1176 : BitVec 32 := 0#32
  let v1132 : Index := Scalar.indexCast c0_i32_1176
  let c0_i32_180 : BitVec 32 := 0#32
  let c1_i32_182 : BitVec 32 := 1#32
  let arg22 : BitVec 32 := Scf.iv c0_i32_180 c1_i32_182 k0_t13
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off115 (k0_t13 : Fin k0_t13_loop.trips) : Fin 1 → Nat :=
  let c0_i32_180 : BitVec 32 := 0#32
  let c1_i32_182 : BitVec 32 := 1#32
  let arg22 : BitVec 32 := Scf.iv c0_i32_180 c1_i32_182 k0_t13
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk45 (v160 : IVec S16 32) (v1138 : IVec S16 32) : Prop :=
  (∀ a x, ((![v160, v1138] : Fin 2 → IVec S16 32) a x).toNat < S1x100000.size a)
instance k0_chk45.dec : ∀ (v160 : IVec S16 32) (v1138 : IVec S16 32), Decidable (k0_chk45 v160 v1138) := fun v160 v1138 => decidable_of_iff' _ (Iff.of_eq (k0_chk45.eq_1 v160 v1138))
theorem k0_idx45_inb : ∀ (v160 : IVec S16 32) (v1138 : IVec S16 32) (k0_hw45 : k0_chk45 v160 v1138), ∀ a x, ((![v160, v1138] : Fin 2 → IVec S16 32) a x).toNat < S1x100000.size a := fun v160 v1138 k0_hw45 => k0_hw45
def k0_off116 (k0_t13 : Fin k0_t13_loop.trips) : Fin 2 → Nat :=
  let c0_i32_1179 : BitVec 32 := 0#32
  let v1140 : Index := Scalar.indexCast c0_i32_1179
  let c0_i32_180 : BitVec 32 := 0#32
  let c1_i32_182 : BitVec 32 := 1#32
  let arg22 : BitVec 32 := Scf.iv c0_i32_180 c1_i32_182 k0_t13
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off117 (k0_t13 : Fin k0_t13_loop.trips) : Fin 1 → Nat :=
  let c0_i32_180 : BitVec 32 := 0#32
  let c1_i32_182 : BitVec 32 := 1#32
  let arg22 : BitVec 32 := Scf.iv c0_i32_180 c1_i32_182 k0_t13
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk46 (v160 : IVec S16 32) (v1146 : IVec S16 32) : Prop :=
  (∀ a x, ((![v160, v1146] : Fin 2 → IVec S16 32) a x).toNat < S1x100000.size a)
instance k0_chk46.dec : ∀ (v160 : IVec S16 32) (v1146 : IVec S16 32), Decidable (k0_chk46 v160 v1146) := fun v160 v1146 => decidable_of_iff' _ (Iff.of_eq (k0_chk46.eq_1 v160 v1146))
theorem k0_idx46_inb : ∀ (v160 : IVec S16 32) (v1146 : IVec S16 32) (k0_hw46 : k0_chk46 v160 v1146), ∀ a x, ((![v160, v1146] : Fin 2 → IVec S16 32) a x).toNat < S1x100000.size a := fun v160 v1146 k0_hw46 => k0_hw46
def k0_off118 (k0_t13 : Fin k0_t13_loop.trips) : Fin 2 → Nat :=
  let c0_i32_1181 : BitVec 32 := 0#32
  let v1148 : Index := Scalar.indexCast c0_i32_1181
  let c0_i32_180 : BitVec 32 := 0#32
  let c1_i32_182 : BitVec 32 := 1#32
  let arg22 : BitVec 32 := Scf.iv c0_i32_180 c1_i32_182 k0_t13
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off119 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_173 : BitVec 32 := 0#32
  let v155 : BitVec 32 := Scalar.addi v2 c0_i32_173
  let c0_i32_184 : BitVec 32 := 0#32
  ![6, v155.toNat, 0]
def k0_off120 (i : grid0.Coords) : Fin 3 → Nat :=
  let c5_i32_187 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_186 : BitVec 32 := 1#32
  let v166 : BitVec 32 := Scalar.addi v2 c1_i32_186
  let c0_i32_1171_r14 : BitVec 32 := 0#32
  ![5, v166.toNat, 0]
def k0_off121 (i : grid0.Coords) : Fin 3 → Nat :=
  let c5_i32_188 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_156 : BitVec 32 := 1#32
  let v140 : BitVec 32 := Scalar.addi v2 c1_i32_156
  let c0_i32_189 : BitVec 32 := 0#32
  ![5, v140.toNat, 0]
@[reducible] def k0_t14_loop : Scf.Loop 32 :=
  let c0_i32_193 : BitVec 32 := 0#32
  let c64_i32_194 : BitVec 32 := 64#32
  let v172 : BitVec 32 := Scalar.addi c0_i32_193 c64_i32_194
  let c1_i32_195 : BitVec 32 := 1#32
  ⟨c0_i32_193, v172, c1_i32_195⟩
def k0_off122 (k0_t14 : Fin k0_t14_loop.trips) : Fin 1 → Nat :=
  let c0_i32_193 : BitVec 32 := 0#32
  let c1_i32_195 : BitVec 32 := 1#32
  let arg22 : BitVec 32 := Scf.iv c0_i32_193 c1_i32_195 k0_t14
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk47 (v171 : IVec S16 32) (v1122 : IVec S16 32) : Prop :=
  (∀ a x, ((![v171, v1122] : Fin 2 → IVec S16 32) a x).toNat < S1x100000.size a)
instance k0_chk47.dec : ∀ (v171 : IVec S16 32) (v1122 : IVec S16 32), Decidable (k0_chk47 v171 v1122) := fun v171 v1122 => decidable_of_iff' _ (Iff.of_eq (k0_chk47.eq_1 v171 v1122))
theorem k0_idx47_inb : ∀ (v171 : IVec S16 32) (v1122 : IVec S16 32) (k0_hw47 : k0_chk47 v171 v1122), ∀ a x, ((![v171, v1122] : Fin 2 → IVec S16 32) a x).toNat < S1x100000.size a := fun v171 v1122 k0_hw47 => k0_hw47
def k0_off123 (k0_t14 : Fin k0_t14_loop.trips) : Fin 2 → Nat :=
  let c0_i32_1173 : BitVec 32 := 0#32
  let v1124 : Index := Scalar.indexCast c0_i32_1173
  let c0_i32_193 : BitVec 32 := 0#32
  let c1_i32_195 : BitVec 32 := 1#32
  let arg22 : BitVec 32 := Scf.iv c0_i32_193 c1_i32_195 k0_t14
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off124 (k0_t14 : Fin k0_t14_loop.trips) : Fin 1 → Nat :=
  let c0_i32_193 : BitVec 32 := 0#32
  let c1_i32_195 : BitVec 32 := 1#32
  let arg22 : BitVec 32 := Scf.iv c0_i32_193 c1_i32_195 k0_t14
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk48 (v171 : IVec S16 32) (v1130 : IVec S16 32) : Prop :=
  (∀ a x, ((![v171, v1130] : Fin 2 → IVec S16 32) a x).toNat < S1x100000.size a)
instance k0_chk48.dec : ∀ (v171 : IVec S16 32) (v1130 : IVec S16 32), Decidable (k0_chk48 v171 v1130) := fun v171 v1130 => decidable_of_iff' _ (Iff.of_eq (k0_chk48.eq_1 v171 v1130))
theorem k0_idx48_inb : ∀ (v171 : IVec S16 32) (v1130 : IVec S16 32) (k0_hw48 : k0_chk48 v171 v1130), ∀ a x, ((![v171, v1130] : Fin 2 → IVec S16 32) a x).toNat < S1x100000.size a := fun v171 v1130 k0_hw48 => k0_hw48
def k0_off125 (k0_t14 : Fin k0_t14_loop.trips) : Fin 2 → Nat :=
  let c0_i32_1176 : BitVec 32 := 0#32
  let v1132 : Index := Scalar.indexCast c0_i32_1176
  let c0_i32_193 : BitVec 32 := 0#32
  let c1_i32_195 : BitVec 32 := 1#32
  let arg22 : BitVec 32 := Scf.iv c0_i32_193 c1_i32_195 k0_t14
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off126 (k0_t14 : Fin k0_t14_loop.trips) : Fin 1 → Nat :=
  let c0_i32_193 : BitVec 32 := 0#32
  let c1_i32_195 : BitVec 32 := 1#32
  let arg22 : BitVec 32 := Scf.iv c0_i32_193 c1_i32_195 k0_t14
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk49 (v171 : IVec S16 32) (v1138 : IVec S16 32) : Prop :=
  (∀ a x, ((![v171, v1138] : Fin 2 → IVec S16 32) a x).toNat < S1x100000.size a)
instance k0_chk49.dec : ∀ (v171 : IVec S16 32) (v1138 : IVec S16 32), Decidable (k0_chk49 v171 v1138) := fun v171 v1138 => decidable_of_iff' _ (Iff.of_eq (k0_chk49.eq_1 v171 v1138))
theorem k0_idx49_inb : ∀ (v171 : IVec S16 32) (v1138 : IVec S16 32) (k0_hw49 : k0_chk49 v171 v1138), ∀ a x, ((![v171, v1138] : Fin 2 → IVec S16 32) a x).toNat < S1x100000.size a := fun v171 v1138 k0_hw49 => k0_hw49
def k0_off127 (k0_t14 : Fin k0_t14_loop.trips) : Fin 2 → Nat :=
  let c0_i32_1179 : BitVec 32 := 0#32
  let v1140 : Index := Scalar.indexCast c0_i32_1179
  let c0_i32_193 : BitVec 32 := 0#32
  let c1_i32_195 : BitVec 32 := 1#32
  let arg22 : BitVec 32 := Scf.iv c0_i32_193 c1_i32_195 k0_t14
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off128 (k0_t14 : Fin k0_t14_loop.trips) : Fin 1 → Nat :=
  let c0_i32_193 : BitVec 32 := 0#32
  let c1_i32_195 : BitVec 32 := 1#32
  let arg22 : BitVec 32 := Scf.iv c0_i32_193 c1_i32_195 k0_t14
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk50 (v171 : IVec S16 32) (v1146 : IVec S16 32) : Prop :=
  (∀ a x, ((![v171, v1146] : Fin 2 → IVec S16 32) a x).toNat < S1x100000.size a)
instance k0_chk50.dec : ∀ (v171 : IVec S16 32) (v1146 : IVec S16 32), Decidable (k0_chk50 v171 v1146) := fun v171 v1146 => decidable_of_iff' _ (Iff.of_eq (k0_chk50.eq_1 v171 v1146))
theorem k0_idx50_inb : ∀ (v171 : IVec S16 32) (v1146 : IVec S16 32) (k0_hw50 : k0_chk50 v171 v1146), ∀ a x, ((![v171, v1146] : Fin 2 → IVec S16 32) a x).toNat < S1x100000.size a := fun v171 v1146 k0_hw50 => k0_hw50
def k0_off129 (k0_t14 : Fin k0_t14_loop.trips) : Fin 2 → Nat :=
  let c0_i32_1181 : BitVec 32 := 0#32
  let v1148 : Index := Scalar.indexCast c0_i32_1181
  let c0_i32_193 : BitVec 32 := 0#32
  let c1_i32_195 : BitVec 32 := 1#32
  let arg22 : BitVec 32 := Scf.iv c0_i32_193 c1_i32_195 k0_t14
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off130 (i : grid0.Coords) (c1_i32_186 : BitVec 32) : Fin 3 → Nat :=
  let c6_i32_197 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v166 : BitVec 32 := Scalar.addi v2 c1_i32_186
  let c0_i32_198 : BitVec 32 := 0#32
  ![6, v166.toNat, 0]
def k0_off131 (i : grid0.Coords) : Fin 3 → Nat :=
  let c6_i32_204 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_203 : BitVec 32 := 0#32
  let v181 : BitVec 32 := Scalar.addi v2 c0_i32_203
  let c0_i32_1171_r15 : BitVec 32 := 0#32
  ![6, v181.toNat, 0]
@[reducible] def k0_t15_loop : Scf.Loop 32 :=
  let c0_i32_210 : BitVec 32 := 0#32
  let c64_i32_211 : BitVec 32 := 64#32
  let v187 : BitVec 32 := Scalar.addi c0_i32_210 c64_i32_211
  let c1_i32_212 : BitVec 32 := 1#32
  ⟨c0_i32_210, v187, c1_i32_212⟩
def k0_off132 (k0_t15 : Fin k0_t15_loop.trips) : Fin 1 → Nat :=
  let c0_i32_210 : BitVec 32 := 0#32
  let c1_i32_212 : BitVec 32 := 1#32
  let arg22 : BitVec 32 := Scf.iv c0_i32_210 c1_i32_212 k0_t15
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk51 (v186 : IVec S16 32) (v1122 : IVec S16 32) : Prop :=
  (∀ a x, ((![v186, v1122] : Fin 2 → IVec S16 32) a x).toNat < S1x100000.size a)
instance k0_chk51.dec : ∀ (v186 : IVec S16 32) (v1122 : IVec S16 32), Decidable (k0_chk51 v186 v1122) := fun v186 v1122 => decidable_of_iff' _ (Iff.of_eq (k0_chk51.eq_1 v186 v1122))
theorem k0_idx51_inb : ∀ (v186 : IVec S16 32) (v1122 : IVec S16 32) (k0_hw51 : k0_chk51 v186 v1122), ∀ a x, ((![v186, v1122] : Fin 2 → IVec S16 32) a x).toNat < S1x100000.size a := fun v186 v1122 k0_hw51 => k0_hw51
def k0_off133 (k0_t15 : Fin k0_t15_loop.trips) : Fin 2 → Nat :=
  let c0_i32_1173 : BitVec 32 := 0#32
  let v1124 : Index := Scalar.indexCast c0_i32_1173
  let c0_i32_210 : BitVec 32 := 0#32
  let c1_i32_212 : BitVec 32 := 1#32
  let arg22 : BitVec 32 := Scf.iv c0_i32_210 c1_i32_212 k0_t15
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off134 (k0_t15 : Fin k0_t15_loop.trips) : Fin 1 → Nat :=
  let c0_i32_210 : BitVec 32 := 0#32
  let c1_i32_212 : BitVec 32 := 1#32
  let arg22 : BitVec 32 := Scf.iv c0_i32_210 c1_i32_212 k0_t15
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk52 (v186 : IVec S16 32) (v1130 : IVec S16 32) : Prop :=
  (∀ a x, ((![v186, v1130] : Fin 2 → IVec S16 32) a x).toNat < S1x100000.size a)
instance k0_chk52.dec : ∀ (v186 : IVec S16 32) (v1130 : IVec S16 32), Decidable (k0_chk52 v186 v1130) := fun v186 v1130 => decidable_of_iff' _ (Iff.of_eq (k0_chk52.eq_1 v186 v1130))
theorem k0_idx52_inb : ∀ (v186 : IVec S16 32) (v1130 : IVec S16 32) (k0_hw52 : k0_chk52 v186 v1130), ∀ a x, ((![v186, v1130] : Fin 2 → IVec S16 32) a x).toNat < S1x100000.size a := fun v186 v1130 k0_hw52 => k0_hw52
def k0_off135 (k0_t15 : Fin k0_t15_loop.trips) : Fin 2 → Nat :=
  let c0_i32_1176 : BitVec 32 := 0#32
  let v1132 : Index := Scalar.indexCast c0_i32_1176
  let c0_i32_210 : BitVec 32 := 0#32
  let c1_i32_212 : BitVec 32 := 1#32
  let arg22 : BitVec 32 := Scf.iv c0_i32_210 c1_i32_212 k0_t15
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off136 (k0_t15 : Fin k0_t15_loop.trips) : Fin 1 → Nat :=
  let c0_i32_210 : BitVec 32 := 0#32
  let c1_i32_212 : BitVec 32 := 1#32
  let arg22 : BitVec 32 := Scf.iv c0_i32_210 c1_i32_212 k0_t15
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk53 (v186 : IVec S16 32) (v1138 : IVec S16 32) : Prop :=
  (∀ a x, ((![v186, v1138] : Fin 2 → IVec S16 32) a x).toNat < S1x100000.size a)
instance k0_chk53.dec : ∀ (v186 : IVec S16 32) (v1138 : IVec S16 32), Decidable (k0_chk53 v186 v1138) := fun v186 v1138 => decidable_of_iff' _ (Iff.of_eq (k0_chk53.eq_1 v186 v1138))
theorem k0_idx53_inb : ∀ (v186 : IVec S16 32) (v1138 : IVec S16 32) (k0_hw53 : k0_chk53 v186 v1138), ∀ a x, ((![v186, v1138] : Fin 2 → IVec S16 32) a x).toNat < S1x100000.size a := fun v186 v1138 k0_hw53 => k0_hw53
def k0_off137 (k0_t15 : Fin k0_t15_loop.trips) : Fin 2 → Nat :=
  let c0_i32_1179 : BitVec 32 := 0#32
  let v1140 : Index := Scalar.indexCast c0_i32_1179
  let c0_i32_210 : BitVec 32 := 0#32
  let c1_i32_212 : BitVec 32 := 1#32
  let arg22 : BitVec 32 := Scf.iv c0_i32_210 c1_i32_212 k0_t15
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off138 (k0_t15 : Fin k0_t15_loop.trips) : Fin 1 → Nat :=
  let c0_i32_210 : BitVec 32 := 0#32
  let c1_i32_212 : BitVec 32 := 1#32
  let arg22 : BitVec 32 := Scf.iv c0_i32_210 c1_i32_212 k0_t15
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk54 (v186 : IVec S16 32) (v1146 : IVec S16 32) : Prop :=
  (∀ a x, ((![v186, v1146] : Fin 2 → IVec S16 32) a x).toNat < S1x100000.size a)
instance k0_chk54.dec : ∀ (v186 : IVec S16 32) (v1146 : IVec S16 32), Decidable (k0_chk54 v186 v1146) := fun v186 v1146 => decidable_of_iff' _ (Iff.of_eq (k0_chk54.eq_1 v186 v1146))
theorem k0_idx54_inb : ∀ (v186 : IVec S16 32) (v1146 : IVec S16 32) (k0_hw54 : k0_chk54 v186 v1146), ∀ a x, ((![v186, v1146] : Fin 2 → IVec S16 32) a x).toNat < S1x100000.size a := fun v186 v1146 k0_hw54 => k0_hw54
def k0_off139 (k0_t15 : Fin k0_t15_loop.trips) : Fin 2 → Nat :=
  let c0_i32_1181 : BitVec 32 := 0#32
  let v1148 : Index := Scalar.indexCast c0_i32_1181
  let c0_i32_210 : BitVec 32 := 0#32
  let c1_i32_212 : BitVec 32 := 1#32
  let arg22 : BitVec 32 := Scf.iv c0_i32_210 c1_i32_212 k0_t15
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off140 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_203 : BitVec 32 := 0#32
  let v181 : BitVec 32 := Scalar.addi v2 c0_i32_203
  let c0_i32_214 : BitVec 32 := 0#32
  ![7, v181.toNat, 0]
def k0_off141 (i : grid0.Coords) : Fin 3 → Nat :=
  let c6_i32_217 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_216 : BitVec 32 := 1#32
  let v192 : BitVec 32 := Scalar.addi v2 c1_i32_216
  let c0_i32_1171_r16 : BitVec 32 := 0#32
  ![6, v192.toNat, 0]
def k0_off142 (i : grid0.Coords) : Fin 3 → Nat :=
  let c6_i32_218 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_186 : BitVec 32 := 1#32
  let v166 : BitVec 32 := Scalar.addi v2 c1_i32_186
  let c0_i32_219 : BitVec 32 := 0#32
  ![6, v166.toNat, 0]
@[reducible] def k0_t16_loop : Scf.Loop 32 :=
  let c0_i32_223 : BitVec 32 := 0#32
  let c64_i32_224 : BitVec 32 := 64#32
  let v198 : BitVec 32 := Scalar.addi c0_i32_223 c64_i32_224
  let c1_i32_225 : BitVec 32 := 1#32
  ⟨c0_i32_223, v198, c1_i32_225⟩
def k0_off143 (k0_t16 : Fin k0_t16_loop.trips) : Fin 1 → Nat :=
  let c0_i32_223 : BitVec 32 := 0#32
  let c1_i32_225 : BitVec 32 := 1#32
  let arg22 : BitVec 32 := Scf.iv c0_i32_223 c1_i32_225 k0_t16
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk55 (v197 : IVec S16 32) (v1122 : IVec S16 32) : Prop :=
  (∀ a x, ((![v197, v1122] : Fin 2 → IVec S16 32) a x).toNat < S1x100000.size a)
instance k0_chk55.dec : ∀ (v197 : IVec S16 32) (v1122 : IVec S16 32), Decidable (k0_chk55 v197 v1122) := fun v197 v1122 => decidable_of_iff' _ (Iff.of_eq (k0_chk55.eq_1 v197 v1122))
theorem k0_idx55_inb : ∀ (v197 : IVec S16 32) (v1122 : IVec S16 32) (k0_hw55 : k0_chk55 v197 v1122), ∀ a x, ((![v197, v1122] : Fin 2 → IVec S16 32) a x).toNat < S1x100000.size a := fun v197 v1122 k0_hw55 => k0_hw55
def k0_off144 (k0_t16 : Fin k0_t16_loop.trips) : Fin 2 → Nat :=
  let c0_i32_1173 : BitVec 32 := 0#32
  let v1124 : Index := Scalar.indexCast c0_i32_1173
  let c0_i32_223 : BitVec 32 := 0#32
  let c1_i32_225 : BitVec 32 := 1#32
  let arg22 : BitVec 32 := Scf.iv c0_i32_223 c1_i32_225 k0_t16
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off145 (k0_t16 : Fin k0_t16_loop.trips) : Fin 1 → Nat :=
  let c0_i32_223 : BitVec 32 := 0#32
  let c1_i32_225 : BitVec 32 := 1#32
  let arg22 : BitVec 32 := Scf.iv c0_i32_223 c1_i32_225 k0_t16
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk56 (v197 : IVec S16 32) (v1130 : IVec S16 32) : Prop :=
  (∀ a x, ((![v197, v1130] : Fin 2 → IVec S16 32) a x).toNat < S1x100000.size a)
instance k0_chk56.dec : ∀ (v197 : IVec S16 32) (v1130 : IVec S16 32), Decidable (k0_chk56 v197 v1130) := fun v197 v1130 => decidable_of_iff' _ (Iff.of_eq (k0_chk56.eq_1 v197 v1130))
theorem k0_idx56_inb : ∀ (v197 : IVec S16 32) (v1130 : IVec S16 32) (k0_hw56 : k0_chk56 v197 v1130), ∀ a x, ((![v197, v1130] : Fin 2 → IVec S16 32) a x).toNat < S1x100000.size a := fun v197 v1130 k0_hw56 => k0_hw56
def k0_off146 (k0_t16 : Fin k0_t16_loop.trips) : Fin 2 → Nat :=
  let c0_i32_1176 : BitVec 32 := 0#32
  let v1132 : Index := Scalar.indexCast c0_i32_1176
  let c0_i32_223 : BitVec 32 := 0#32
  let c1_i32_225 : BitVec 32 := 1#32
  let arg22 : BitVec 32 := Scf.iv c0_i32_223 c1_i32_225 k0_t16
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off147 (k0_t16 : Fin k0_t16_loop.trips) : Fin 1 → Nat :=
  let c0_i32_223 : BitVec 32 := 0#32
  let c1_i32_225 : BitVec 32 := 1#32
  let arg22 : BitVec 32 := Scf.iv c0_i32_223 c1_i32_225 k0_t16
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk57 (v197 : IVec S16 32) (v1138 : IVec S16 32) : Prop :=
  (∀ a x, ((![v197, v1138] : Fin 2 → IVec S16 32) a x).toNat < S1x100000.size a)
instance k0_chk57.dec : ∀ (v197 : IVec S16 32) (v1138 : IVec S16 32), Decidable (k0_chk57 v197 v1138) := fun v197 v1138 => decidable_of_iff' _ (Iff.of_eq (k0_chk57.eq_1 v197 v1138))
theorem k0_idx57_inb : ∀ (v197 : IVec S16 32) (v1138 : IVec S16 32) (k0_hw57 : k0_chk57 v197 v1138), ∀ a x, ((![v197, v1138] : Fin 2 → IVec S16 32) a x).toNat < S1x100000.size a := fun v197 v1138 k0_hw57 => k0_hw57
def k0_off148 (k0_t16 : Fin k0_t16_loop.trips) : Fin 2 → Nat :=
  let c0_i32_1179 : BitVec 32 := 0#32
  let v1140 : Index := Scalar.indexCast c0_i32_1179
  let c0_i32_223 : BitVec 32 := 0#32
  let c1_i32_225 : BitVec 32 := 1#32
  let arg22 : BitVec 32 := Scf.iv c0_i32_223 c1_i32_225 k0_t16
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off149 (k0_t16 : Fin k0_t16_loop.trips) : Fin 1 → Nat :=
  let c0_i32_223 : BitVec 32 := 0#32
  let c1_i32_225 : BitVec 32 := 1#32
  let arg22 : BitVec 32 := Scf.iv c0_i32_223 c1_i32_225 k0_t16
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk58 (v197 : IVec S16 32) (v1146 : IVec S16 32) : Prop :=
  (∀ a x, ((![v197, v1146] : Fin 2 → IVec S16 32) a x).toNat < S1x100000.size a)
instance k0_chk58.dec : ∀ (v197 : IVec S16 32) (v1146 : IVec S16 32), Decidable (k0_chk58 v197 v1146) := fun v197 v1146 => decidable_of_iff' _ (Iff.of_eq (k0_chk58.eq_1 v197 v1146))
theorem k0_idx58_inb : ∀ (v197 : IVec S16 32) (v1146 : IVec S16 32) (k0_hw58 : k0_chk58 v197 v1146), ∀ a x, ((![v197, v1146] : Fin 2 → IVec S16 32) a x).toNat < S1x100000.size a := fun v197 v1146 k0_hw58 => k0_hw58
def k0_off150 (k0_t16 : Fin k0_t16_loop.trips) : Fin 2 → Nat :=
  let c0_i32_1181 : BitVec 32 := 0#32
  let v1148 : Index := Scalar.indexCast c0_i32_1181
  let c0_i32_223 : BitVec 32 := 0#32
  let c1_i32_225 : BitVec 32 := 1#32
  let arg22 : BitVec 32 := Scf.iv c0_i32_223 c1_i32_225 k0_t16
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off151 (i : grid0.Coords) (c1_i32_216 : BitVec 32) : Fin 3 → Nat :=
  let c7_i32_227 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v192 : BitVec 32 := Scalar.addi v2 c1_i32_216
  let c0_i32_228 : BitVec 32 := 0#32
  ![7, v192.toNat, 0]
def k0_off152 (i : grid0.Coords) : Fin 3 → Nat :=
  let c7_i32_234 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_233 : BitVec 32 := 0#32
  let v207 : BitVec 32 := Scalar.addi v2 c0_i32_233
  let c0_i32_1171_r17 : BitVec 32 := 0#32
  ![7, v207.toNat, 0]
@[reducible] def k0_t17_loop : Scf.Loop 32 :=
  let c0_i32_240 : BitVec 32 := 0#32
  let c64_i32_241 : BitVec 32 := 64#32
  let v213 : BitVec 32 := Scalar.addi c0_i32_240 c64_i32_241
  let c1_i32_242 : BitVec 32 := 1#32
  ⟨c0_i32_240, v213, c1_i32_242⟩
def k0_off153 (k0_t17 : Fin k0_t17_loop.trips) : Fin 1 → Nat :=
  let c0_i32_240 : BitVec 32 := 0#32
  let c1_i32_242 : BitVec 32 := 1#32
  let arg22 : BitVec 32 := Scf.iv c0_i32_240 c1_i32_242 k0_t17
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk59 (v212 : IVec S16 32) (v1122 : IVec S16 32) : Prop :=
  (∀ a x, ((![v212, v1122] : Fin 2 → IVec S16 32) a x).toNat < S1x100000.size a)
instance k0_chk59.dec : ∀ (v212 : IVec S16 32) (v1122 : IVec S16 32), Decidable (k0_chk59 v212 v1122) := fun v212 v1122 => decidable_of_iff' _ (Iff.of_eq (k0_chk59.eq_1 v212 v1122))
theorem k0_idx59_inb : ∀ (v212 : IVec S16 32) (v1122 : IVec S16 32) (k0_hw59 : k0_chk59 v212 v1122), ∀ a x, ((![v212, v1122] : Fin 2 → IVec S16 32) a x).toNat < S1x100000.size a := fun v212 v1122 k0_hw59 => k0_hw59
def k0_off154 (k0_t17 : Fin k0_t17_loop.trips) : Fin 2 → Nat :=
  let c0_i32_1173 : BitVec 32 := 0#32
  let v1124 : Index := Scalar.indexCast c0_i32_1173
  let c0_i32_240 : BitVec 32 := 0#32
  let c1_i32_242 : BitVec 32 := 1#32
  let arg22 : BitVec 32 := Scf.iv c0_i32_240 c1_i32_242 k0_t17
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off155 (k0_t17 : Fin k0_t17_loop.trips) : Fin 1 → Nat :=
  let c0_i32_240 : BitVec 32 := 0#32
  let c1_i32_242 : BitVec 32 := 1#32
  let arg22 : BitVec 32 := Scf.iv c0_i32_240 c1_i32_242 k0_t17
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk60 (v212 : IVec S16 32) (v1130 : IVec S16 32) : Prop :=
  (∀ a x, ((![v212, v1130] : Fin 2 → IVec S16 32) a x).toNat < S1x100000.size a)
instance k0_chk60.dec : ∀ (v212 : IVec S16 32) (v1130 : IVec S16 32), Decidable (k0_chk60 v212 v1130) := fun v212 v1130 => decidable_of_iff' _ (Iff.of_eq (k0_chk60.eq_1 v212 v1130))
theorem k0_idx60_inb : ∀ (v212 : IVec S16 32) (v1130 : IVec S16 32) (k0_hw60 : k0_chk60 v212 v1130), ∀ a x, ((![v212, v1130] : Fin 2 → IVec S16 32) a x).toNat < S1x100000.size a := fun v212 v1130 k0_hw60 => k0_hw60
def k0_off156 (k0_t17 : Fin k0_t17_loop.trips) : Fin 2 → Nat :=
  let c0_i32_1176 : BitVec 32 := 0#32
  let v1132 : Index := Scalar.indexCast c0_i32_1176
  let c0_i32_240 : BitVec 32 := 0#32
  let c1_i32_242 : BitVec 32 := 1#32
  let arg22 : BitVec 32 := Scf.iv c0_i32_240 c1_i32_242 k0_t17
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off157 (k0_t17 : Fin k0_t17_loop.trips) : Fin 1 → Nat :=
  let c0_i32_240 : BitVec 32 := 0#32
  let c1_i32_242 : BitVec 32 := 1#32
  let arg22 : BitVec 32 := Scf.iv c0_i32_240 c1_i32_242 k0_t17
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk61 (v212 : IVec S16 32) (v1138 : IVec S16 32) : Prop :=
  (∀ a x, ((![v212, v1138] : Fin 2 → IVec S16 32) a x).toNat < S1x100000.size a)
instance k0_chk61.dec : ∀ (v212 : IVec S16 32) (v1138 : IVec S16 32), Decidable (k0_chk61 v212 v1138) := fun v212 v1138 => decidable_of_iff' _ (Iff.of_eq (k0_chk61.eq_1 v212 v1138))
theorem k0_idx61_inb : ∀ (v212 : IVec S16 32) (v1138 : IVec S16 32) (k0_hw61 : k0_chk61 v212 v1138), ∀ a x, ((![v212, v1138] : Fin 2 → IVec S16 32) a x).toNat < S1x100000.size a := fun v212 v1138 k0_hw61 => k0_hw61
def k0_off158 (k0_t17 : Fin k0_t17_loop.trips) : Fin 2 → Nat :=
  let c0_i32_1179 : BitVec 32 := 0#32
  let v1140 : Index := Scalar.indexCast c0_i32_1179
  let c0_i32_240 : BitVec 32 := 0#32
  let c1_i32_242 : BitVec 32 := 1#32
  let arg22 : BitVec 32 := Scf.iv c0_i32_240 c1_i32_242 k0_t17
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off159 (k0_t17 : Fin k0_t17_loop.trips) : Fin 1 → Nat :=
  let c0_i32_240 : BitVec 32 := 0#32
  let c1_i32_242 : BitVec 32 := 1#32
  let arg22 : BitVec 32 := Scf.iv c0_i32_240 c1_i32_242 k0_t17
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk62 (v212 : IVec S16 32) (v1146 : IVec S16 32) : Prop :=
  (∀ a x, ((![v212, v1146] : Fin 2 → IVec S16 32) a x).toNat < S1x100000.size a)
instance k0_chk62.dec : ∀ (v212 : IVec S16 32) (v1146 : IVec S16 32), Decidable (k0_chk62 v212 v1146) := fun v212 v1146 => decidable_of_iff' _ (Iff.of_eq (k0_chk62.eq_1 v212 v1146))
theorem k0_idx62_inb : ∀ (v212 : IVec S16 32) (v1146 : IVec S16 32) (k0_hw62 : k0_chk62 v212 v1146), ∀ a x, ((![v212, v1146] : Fin 2 → IVec S16 32) a x).toNat < S1x100000.size a := fun v212 v1146 k0_hw62 => k0_hw62
def k0_off160 (k0_t17 : Fin k0_t17_loop.trips) : Fin 2 → Nat :=
  let c0_i32_1181 : BitVec 32 := 0#32
  let v1148 : Index := Scalar.indexCast c0_i32_1181
  let c0_i32_240 : BitVec 32 := 0#32
  let c1_i32_242 : BitVec 32 := 1#32
  let arg22 : BitVec 32 := Scf.iv c0_i32_240 c1_i32_242 k0_t17
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off161 (i : grid0.Coords) : Fin 3 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_233 : BitVec 32 := 0#32
  let v207 : BitVec 32 := Scalar.addi v2 c0_i32_233
  let c0_i32_244 : BitVec 32 := 0#32
  ![8, v207.toNat, 0]
def k0_off162 (i : grid0.Coords) : Fin 3 → Nat :=
  let c7_i32_247 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_246 : BitVec 32 := 1#32
  let v218 : BitVec 32 := Scalar.addi v2 c1_i32_246
  let c0_i32_1171_r18 : BitVec 32 := 0#32
  ![7, v218.toNat, 0]
def k0_off163 (i : grid0.Coords) : Fin 3 → Nat :=
  let c7_i32_248 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_216 : BitVec 32 := 1#32
  let v192 : BitVec 32 := Scalar.addi v2 c1_i32_216
  let c0_i32_249 : BitVec 32 := 0#32
  ![7, v192.toNat, 0]
@[reducible] def k0_t18_loop : Scf.Loop 32 :=
  let c0_i32_253 : BitVec 32 := 0#32
  let c64_i32_254 : BitVec 32 := 64#32
  let v224 : BitVec 32 := Scalar.addi c0_i32_253 c64_i32_254
  let c1_i32_255 : BitVec 32 := 1#32
  ⟨c0_i32_253, v224, c1_i32_255⟩
def k0_off164 (k0_t18 : Fin k0_t18_loop.trips) : Fin 1 → Nat :=
  let c0_i32_253 : BitVec 32 := 0#32
  let c1_i32_255 : BitVec 32 := 1#32
  let arg22 : BitVec 32 := Scf.iv c0_i32_253 c1_i32_255 k0_t18
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk63 (v223 : IVec S16 32) (v1122 : IVec S16 32) : Prop :=
  (∀ a x, ((![v223, v1122] : Fin 2 → IVec S16 32) a x).toNat < S1x100000.size a)
instance k0_chk63.dec : ∀ (v223 : IVec S16 32) (v1122 : IVec S16 32), Decidable (k0_chk63 v223 v1122) := fun v223 v1122 => decidable_of_iff' _ (Iff.of_eq (k0_chk63.eq_1 v223 v1122))
theorem k0_idx63_inb : ∀ (v223 : IVec S16 32) (v1122 : IVec S16 32) (k0_hw63 : k0_chk63 v223 v1122), ∀ a x, ((![v223, v1122] : Fin 2 → IVec S16 32) a x).toNat < S1x100000.size a := fun v223 v1122 k0_hw63 => k0_hw63
def k0_off165 (k0_t18 : Fin k0_t18_loop.trips) : Fin 2 → Nat :=
  let c0_i32_1173 : BitVec 32 := 0#32
  let v1124 : Index := Scalar.indexCast c0_i32_1173
  let c0_i32_253 : BitVec 32 := 0#32
  let c1_i32_255 : BitVec 32 := 1#32
  let arg22 : BitVec 32 := Scf.iv c0_i32_253 c1_i32_255 k0_t18
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off166 (k0_t18 : Fin k0_t18_loop.trips) : Fin 1 → Nat :=
  let c0_i32_253 : BitVec 32 := 0#32
  let c1_i32_255 : BitVec 32 := 1#32
  let arg22 : BitVec 32 := Scf.iv c0_i32_253 c1_i32_255 k0_t18
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk64 (v223 : IVec S16 32) (v1130 : IVec S16 32) : Prop :=
  (∀ a x, ((![v223, v1130] : Fin 2 → IVec S16 32) a x).toNat < S1x100000.size a)
instance k0_chk64.dec : ∀ (v223 : IVec S16 32) (v1130 : IVec S16 32), Decidable (k0_chk64 v223 v1130) := fun v223 v1130 => decidable_of_iff' _ (Iff.of_eq (k0_chk64.eq_1 v223 v1130))
theorem k0_idx64_inb : ∀ (v223 : IVec S16 32) (v1130 : IVec S16 32) (k0_hw64 : k0_chk64 v223 v1130), ∀ a x, ((![v223, v1130] : Fin 2 → IVec S16 32) a x).toNat < S1x100000.size a := fun v223 v1130 k0_hw64 => k0_hw64
def k0_off167 (k0_t18 : Fin k0_t18_loop.trips) : Fin 2 → Nat :=
  let c0_i32_1176 : BitVec 32 := 0#32
  let v1132 : Index := Scalar.indexCast c0_i32_1176
  let c0_i32_253 : BitVec 32 := 0#32
  let c1_i32_255 : BitVec 32 := 1#32
  let arg22 : BitVec 32 := Scf.iv c0_i32_253 c1_i32_255 k0_t18
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off168 (k0_t18 : Fin k0_t18_loop.trips) : Fin 1 → Nat :=
  let c0_i32_253 : BitVec 32 := 0#32
  let c1_i32_255 : BitVec 32 := 1#32
  let arg22 : BitVec 32 := Scf.iv c0_i32_253 c1_i32_255 k0_t18
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk65 (v223 : IVec S16 32) (v1138 : IVec S16 32) : Prop :=
  (∀ a x, ((![v223, v1138] : Fin 2 → IVec S16 32) a x).toNat < S1x100000.size a)
instance k0_chk65.dec : ∀ (v223 : IVec S16 32) (v1138 : IVec S16 32), Decidable (k0_chk65 v223 v1138) := fun v223 v1138 => decidable_of_iff' _ (Iff.of_eq (k0_chk65.eq_1 v223 v1138))
theorem k0_idx65_inb : ∀ (v223 : IVec S16 32) (v1138 : IVec S16 32) (k0_hw65 : k0_chk65 v223 v1138), ∀ a x, ((![v223, v1138] : Fin 2 → IVec S16 32) a x).toNat < S1x100000.size a := fun v223 v1138 k0_hw65 => k0_hw65
def k0_off169 (k0_t18 : Fin k0_t18_loop.trips) : Fin 2 → Nat :=
  let c0_i32_1179 : BitVec 32 := 0#32
  let v1140 : Index := Scalar.indexCast c0_i32_1179
  let c0_i32_253 : BitVec 32 := 0#32
  let c1_i32_255 : BitVec 32 := 1#32
  let arg22 : BitVec 32 := Scf.iv c0_i32_253 c1_i32_255 k0_t18
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off170 (k0_t18 : Fin k0_t18_loop.trips) : Fin 1 → Nat :=
  let c0_i32_253 : BitVec 32 := 0#32
  let c1_i32_255 : BitVec 32 := 1#32
  let arg22 : BitVec 32 := Scf.iv c0_i32_253 c1_i32_255 k0_t18
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk66 (v223 : IVec S16 32) (v1146 : IVec S16 32) : Prop :=
  (∀ a x, ((![v223, v1146] : Fin 2 → IVec S16 32) a x).toNat < S1x100000.size a)
instance k0_chk66.dec : ∀ (v223 : IVec S16 32) (v1146 : IVec S16 32), Decidable (k0_chk66 v223 v1146) := fun v223 v1146 => decidable_of_iff' _ (Iff.of_eq (k0_chk66.eq_1 v223 v1146))
theorem k0_idx66_inb : ∀ (v223 : IVec S16 32) (v1146 : IVec S16 32) (k0_hw66 : k0_chk66 v223 v1146), ∀ a x, ((![v223, v1146] : Fin 2 → IVec S16 32) a x).toNat < S1x100000.size a := fun v223 v1146 k0_hw66 => k0_hw66
def k0_off171 (k0_t18 : Fin k0_t18_loop.trips) : Fin 2 → Nat :=
  let c0_i32_1181 : BitVec 32 := 0#32
  let v1148 : Index := Scalar.indexCast c0_i32_1181
  let c0_i32_253 : BitVec 32 := 0#32
  let c1_i32_255 : BitVec 32 := 1#32
  let arg22 : BitVec 32 := Scf.iv c0_i32_253 c1_i32_255 k0_t18
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off172 (i : grid0.Coords) (c1_i32_246 : BitVec 32) : Fin 3 → Nat :=
  let c8_i32_257 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v218 : BitVec 32 := Scalar.addi v2 c1_i32_246
  let c0_i32_258 : BitVec 32 := 0#32
  ![8, v218.toNat, 0]
def k0_off173 (i : grid0.Coords) : Fin 3 → Nat :=
  let c8_i32_264 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_263 : BitVec 32 := 0#32
  let v233 : BitVec 32 := Scalar.addi v2 c0_i32_263
  let c0_i32_1171_r19 : BitVec 32 := 0#32
  ![8, v233.toNat, 0]
@[reducible] def k0_t19_loop : Scf.Loop 32 :=
  let c0_i32_270 : BitVec 32 := 0#32
  let c64_i32_271 : BitVec 32 := 64#32
  let v239 : BitVec 32 := Scalar.addi c0_i32_270 c64_i32_271
  let c1_i32_272 : BitVec 32 := 1#32
  ⟨c0_i32_270, v239, c1_i32_272⟩
def k0_off174 (k0_t19 : Fin k0_t19_loop.trips) : Fin 1 → Nat :=
  let c0_i32_270 : BitVec 32 := 0#32
  let c1_i32_272 : BitVec 32 := 1#32
  let arg22 : BitVec 32 := Scf.iv c0_i32_270 c1_i32_272 k0_t19
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk67 (v238 : IVec S16 32) (v1122 : IVec S16 32) : Prop :=
  (∀ a x, ((![v238, v1122] : Fin 2 → IVec S16 32) a x).toNat < S1x100000.size a)
instance k0_chk67.dec : ∀ (v238 : IVec S16 32) (v1122 : IVec S16 32), Decidable (k0_chk67 v238 v1122) := fun v238 v1122 => decidable_of_iff' _ (Iff.of_eq (k0_chk67.eq_1 v238 v1122))
theorem k0_idx67_inb : ∀ (v238 : IVec S16 32) (v1122 : IVec S16 32) (k0_hw67 : k0_chk67 v238 v1122), ∀ a x, ((![v238, v1122] : Fin 2 → IVec S16 32) a x).toNat < S1x100000.size a := fun v238 v1122 k0_hw67 => k0_hw67
def k0_off175 (k0_t19 : Fin k0_t19_loop.trips) : Fin 2 → Nat :=
  let c0_i32_1173 : BitVec 32 := 0#32
  let v1124 : Index := Scalar.indexCast c0_i32_1173
  let c0_i32_270 : BitVec 32 := 0#32
  let c1_i32_272 : BitVec 32 := 1#32
  let arg22 : BitVec 32 := Scf.iv c0_i32_270 c1_i32_272 k0_t19
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off176 (k0_t19 : Fin k0_t19_loop.trips) : Fin 1 → Nat :=
  let c0_i32_270 : BitVec 32 := 0#32
  let c1_i32_272 : BitVec 32 := 1#32
  let arg22 : BitVec 32 := Scf.iv c0_i32_270 c1_i32_272 k0_t19
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk68 (v238 : IVec S16 32) (v1130 : IVec S16 32) : Prop :=
  (∀ a x, ((![v238, v1130] : Fin 2 → IVec S16 32) a x).toNat < S1x100000.size a)
instance k0_chk68.dec : ∀ (v238 : IVec S16 32) (v1130 : IVec S16 32), Decidable (k0_chk68 v238 v1130) := fun v238 v1130 => decidable_of_iff' _ (Iff.of_eq (k0_chk68.eq_1 v238 v1130))
theorem k0_idx68_inb : ∀ (v238 : IVec S16 32) (v1130 : IVec S16 32) (k0_hw68 : k0_chk68 v238 v1130), ∀ a x, ((![v238, v1130] : Fin 2 → IVec S16 32) a x).toNat < S1x100000.size a := fun v238 v1130 k0_hw68 => k0_hw68
def k0_off177 (k0_t19 : Fin k0_t19_loop.trips) : Fin 2 → Nat :=
  let c0_i32_1176 : BitVec 32 := 0#32
  let v1132 : Index := Scalar.indexCast c0_i32_1176
  let c0_i32_270 : BitVec 32 := 0#32
  let c1_i32_272 : BitVec 32 := 1#32
  let arg22 : BitVec 32 := Scf.iv c0_i32_270 c1_i32_272 k0_t19
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off178 (k0_t19 : Fin k0_t19_loop.trips) : Fin 1 → Nat :=
  let c0_i32_270 : BitVec 32 := 0#32
  let c1_i32_272 : BitVec 32 := 1#32
  let arg22 : BitVec 32 := Scf.iv c0_i32_270 c1_i32_272 k0_t19
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk69 (v238 : IVec S16 32) (v1138 : IVec S16 32) : Prop :=
  (∀ a x, ((![v238, v1138] : Fin 2 → IVec S16 32) a x).toNat < S1x100000.size a)
instance k0_chk69.dec : ∀ (v238 : IVec S16 32) (v1138 : IVec S16 32), Decidable (k0_chk69 v238 v1138) := fun v238 v1138 => decidable_of_iff' _ (Iff.of_eq (k0_chk69.eq_1 v238 v1138))
theorem k0_idx69_inb : ∀ (v238 : IVec S16 32) (v1138 : IVec S16 32) (k0_hw69 : k0_chk69 v238 v1138), ∀ a x, ((![v238, v1138] : Fin 2 → IVec S16 32) a x).toNat < S1x100000.size a := fun v238 v1138 k0_hw69 => k0_hw69
def k0_off179 (k0_t19 : Fin k0_t19_loop.trips) : Fin 2 → Nat :=
  let c0_i32_1179 : BitVec 32 := 0#32
  let v1140 : Index := Scalar.indexCast c0_i32_1179
  let c0_i32_270 : BitVec 32 := 0#32
  let c1_i32_272 : BitVec 32 := 1#32
  let arg22 : BitVec 32 := Scf.iv c0_i32_270 c1_i32_272 k0_t19
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off180 (k0_t19 : Fin k0_t19_loop.trips) : Fin 1 → Nat :=
  let c0_i32_270 : BitVec 32 := 0#32
  let c1_i32_272 : BitVec 32 := 1#32
  let arg22 : BitVec 32 := Scf.iv c0_i32_270 c1_i32_272 k0_t19
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk70 (v238 : IVec S16 32) (v1146 : IVec S16 32) : Prop :=
  (∀ a x, ((![v238, v1146] : Fin 2 → IVec S16 32) a x).toNat < S1x100000.size a)
instance k0_chk70.dec : ∀ (v238 : IVec S16 32) (v1146 : IVec S16 32), Decidable (k0_chk70 v238 v1146) := fun v238 v1146 => decidable_of_iff' _ (Iff.of_eq (k0_chk70.eq_1 v238 v1146))
theorem k0_idx70_inb : ∀ (v238 : IVec S16 32) (v1146 : IVec S16 32) (k0_hw70 : k0_chk70 v238 v1146), ∀ a x, ((![v238, v1146] : Fin 2 → IVec S16 32) a x).toNat < S1x100000.size a := fun v238 v1146 k0_hw70 => k0_hw70
def k0_off181 (k0_t19 : Fin k0_t19_loop.trips) : Fin 2 → Nat :=
  let c0_i32_1181 : BitVec 32 := 0#32
  let v1148 : Index := Scalar.indexCast c0_i32_1181
  let c0_i32_270 : BitVec 32 := 0#32
  let c1_i32_272 : BitVec 32 := 1#32
  let arg22 : BitVec 32 := Scf.iv c0_i32_270 c1_i32_272 k0_t19
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off182 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_263 : BitVec 32 := 0#32
  let v233 : BitVec 32 := Scalar.addi v2 c0_i32_263
  let c0_i32_274 : BitVec 32 := 0#32
  ![9, v233.toNat, 0]
def k0_off183 (i : grid0.Coords) : Fin 3 → Nat :=
  let c8_i32_277 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_276 : BitVec 32 := 1#32
  let v244 : BitVec 32 := Scalar.addi v2 c1_i32_276
  let c0_i32_1171_r20 : BitVec 32 := 0#32
  ![8, v244.toNat, 0]
def k0_off184 (i : grid0.Coords) : Fin 3 → Nat :=
  let c8_i32_278 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_246 : BitVec 32 := 1#32
  let v218 : BitVec 32 := Scalar.addi v2 c1_i32_246
  let c0_i32_279 : BitVec 32 := 0#32
  ![8, v218.toNat, 0]
@[reducible] def k0_t20_loop : Scf.Loop 32 :=
  let c0_i32_283 : BitVec 32 := 0#32
  let c64_i32_284 : BitVec 32 := 64#32
  let v250 : BitVec 32 := Scalar.addi c0_i32_283 c64_i32_284
  let c1_i32_285 : BitVec 32 := 1#32
  ⟨c0_i32_283, v250, c1_i32_285⟩
def k0_off185 (k0_t20 : Fin k0_t20_loop.trips) : Fin 1 → Nat :=
  let c0_i32_283 : BitVec 32 := 0#32
  let c1_i32_285 : BitVec 32 := 1#32
  let arg22 : BitVec 32 := Scf.iv c0_i32_283 c1_i32_285 k0_t20
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk71 (v249 : IVec S16 32) (v1122 : IVec S16 32) : Prop :=
  (∀ a x, ((![v249, v1122] : Fin 2 → IVec S16 32) a x).toNat < S1x100000.size a)
instance k0_chk71.dec : ∀ (v249 : IVec S16 32) (v1122 : IVec S16 32), Decidable (k0_chk71 v249 v1122) := fun v249 v1122 => decidable_of_iff' _ (Iff.of_eq (k0_chk71.eq_1 v249 v1122))
theorem k0_idx71_inb : ∀ (v249 : IVec S16 32) (v1122 : IVec S16 32) (k0_hw71 : k0_chk71 v249 v1122), ∀ a x, ((![v249, v1122] : Fin 2 → IVec S16 32) a x).toNat < S1x100000.size a := fun v249 v1122 k0_hw71 => k0_hw71
def k0_off186 (k0_t20 : Fin k0_t20_loop.trips) : Fin 2 → Nat :=
  let c0_i32_1173 : BitVec 32 := 0#32
  let v1124 : Index := Scalar.indexCast c0_i32_1173
  let c0_i32_283 : BitVec 32 := 0#32
  let c1_i32_285 : BitVec 32 := 1#32
  let arg22 : BitVec 32 := Scf.iv c0_i32_283 c1_i32_285 k0_t20
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off187 (k0_t20 : Fin k0_t20_loop.trips) : Fin 1 → Nat :=
  let c0_i32_283 : BitVec 32 := 0#32
  let c1_i32_285 : BitVec 32 := 1#32
  let arg22 : BitVec 32 := Scf.iv c0_i32_283 c1_i32_285 k0_t20
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk72 (v249 : IVec S16 32) (v1130 : IVec S16 32) : Prop :=
  (∀ a x, ((![v249, v1130] : Fin 2 → IVec S16 32) a x).toNat < S1x100000.size a)
instance k0_chk72.dec : ∀ (v249 : IVec S16 32) (v1130 : IVec S16 32), Decidable (k0_chk72 v249 v1130) := fun v249 v1130 => decidable_of_iff' _ (Iff.of_eq (k0_chk72.eq_1 v249 v1130))
theorem k0_idx72_inb : ∀ (v249 : IVec S16 32) (v1130 : IVec S16 32) (k0_hw72 : k0_chk72 v249 v1130), ∀ a x, ((![v249, v1130] : Fin 2 → IVec S16 32) a x).toNat < S1x100000.size a := fun v249 v1130 k0_hw72 => k0_hw72
def k0_off188 (k0_t20 : Fin k0_t20_loop.trips) : Fin 2 → Nat :=
  let c0_i32_1176 : BitVec 32 := 0#32
  let v1132 : Index := Scalar.indexCast c0_i32_1176
  let c0_i32_283 : BitVec 32 := 0#32
  let c1_i32_285 : BitVec 32 := 1#32
  let arg22 : BitVec 32 := Scf.iv c0_i32_283 c1_i32_285 k0_t20
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off189 (k0_t20 : Fin k0_t20_loop.trips) : Fin 1 → Nat :=
  let c0_i32_283 : BitVec 32 := 0#32
  let c1_i32_285 : BitVec 32 := 1#32
  let arg22 : BitVec 32 := Scf.iv c0_i32_283 c1_i32_285 k0_t20
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk73 (v249 : IVec S16 32) (v1138 : IVec S16 32) : Prop :=
  (∀ a x, ((![v249, v1138] : Fin 2 → IVec S16 32) a x).toNat < S1x100000.size a)
instance k0_chk73.dec : ∀ (v249 : IVec S16 32) (v1138 : IVec S16 32), Decidable (k0_chk73 v249 v1138) := fun v249 v1138 => decidable_of_iff' _ (Iff.of_eq (k0_chk73.eq_1 v249 v1138))
theorem k0_idx73_inb : ∀ (v249 : IVec S16 32) (v1138 : IVec S16 32) (k0_hw73 : k0_chk73 v249 v1138), ∀ a x, ((![v249, v1138] : Fin 2 → IVec S16 32) a x).toNat < S1x100000.size a := fun v249 v1138 k0_hw73 => k0_hw73
def k0_off190 (k0_t20 : Fin k0_t20_loop.trips) : Fin 2 → Nat :=
  let c0_i32_1179 : BitVec 32 := 0#32
  let v1140 : Index := Scalar.indexCast c0_i32_1179
  let c0_i32_283 : BitVec 32 := 0#32
  let c1_i32_285 : BitVec 32 := 1#32
  let arg22 : BitVec 32 := Scf.iv c0_i32_283 c1_i32_285 k0_t20
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off191 (k0_t20 : Fin k0_t20_loop.trips) : Fin 1 → Nat :=
  let c0_i32_283 : BitVec 32 := 0#32
  let c1_i32_285 : BitVec 32 := 1#32
  let arg22 : BitVec 32 := Scf.iv c0_i32_283 c1_i32_285 k0_t20
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk74 (v249 : IVec S16 32) (v1146 : IVec S16 32) : Prop :=
  (∀ a x, ((![v249, v1146] : Fin 2 → IVec S16 32) a x).toNat < S1x100000.size a)
instance k0_chk74.dec : ∀ (v249 : IVec S16 32) (v1146 : IVec S16 32), Decidable (k0_chk74 v249 v1146) := fun v249 v1146 => decidable_of_iff' _ (Iff.of_eq (k0_chk74.eq_1 v249 v1146))
theorem k0_idx74_inb : ∀ (v249 : IVec S16 32) (v1146 : IVec S16 32) (k0_hw74 : k0_chk74 v249 v1146), ∀ a x, ((![v249, v1146] : Fin 2 → IVec S16 32) a x).toNat < S1x100000.size a := fun v249 v1146 k0_hw74 => k0_hw74
def k0_off192 (k0_t20 : Fin k0_t20_loop.trips) : Fin 2 → Nat :=
  let c0_i32_1181 : BitVec 32 := 0#32
  let v1148 : Index := Scalar.indexCast c0_i32_1181
  let c0_i32_283 : BitVec 32 := 0#32
  let c1_i32_285 : BitVec 32 := 1#32
  let arg22 : BitVec 32 := Scf.iv c0_i32_283 c1_i32_285 k0_t20
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off193 (i : grid0.Coords) (c1_i32_276 : BitVec 32) : Fin 3 → Nat :=
  let c9_i32_287 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v244 : BitVec 32 := Scalar.addi v2 c1_i32_276
  let c0_i32_288 : BitVec 32 := 0#32
  ![9, v244.toNat, 0]
def k0_off194 (i : grid0.Coords) : Fin 3 → Nat :=
  let c9_i32_294 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_293 : BitVec 32 := 0#32
  let v259 : BitVec 32 := Scalar.addi v2 c0_i32_293
  let c0_i32_1171_r21 : BitVec 32 := 0#32
  ![9, v259.toNat, 0]
@[reducible] def k0_t21_loop : Scf.Loop 32 :=
  let c0_i32_300 : BitVec 32 := 0#32
  let c64_i32_301 : BitVec 32 := 64#32
  let v265 : BitVec 32 := Scalar.addi c0_i32_300 c64_i32_301
  let c1_i32_302 : BitVec 32 := 1#32
  ⟨c0_i32_300, v265, c1_i32_302⟩
def k0_off195 (k0_t21 : Fin k0_t21_loop.trips) : Fin 1 → Nat :=
  let c0_i32_300 : BitVec 32 := 0#32
  let c1_i32_302 : BitVec 32 := 1#32
  let arg22 : BitVec 32 := Scf.iv c0_i32_300 c1_i32_302 k0_t21
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk75 (v264 : IVec S16 32) (v1122 : IVec S16 32) : Prop :=
  (∀ a x, ((![v264, v1122] : Fin 2 → IVec S16 32) a x).toNat < S1x100000.size a)
instance k0_chk75.dec : ∀ (v264 : IVec S16 32) (v1122 : IVec S16 32), Decidable (k0_chk75 v264 v1122) := fun v264 v1122 => decidable_of_iff' _ (Iff.of_eq (k0_chk75.eq_1 v264 v1122))
theorem k0_idx75_inb : ∀ (v264 : IVec S16 32) (v1122 : IVec S16 32) (k0_hw75 : k0_chk75 v264 v1122), ∀ a x, ((![v264, v1122] : Fin 2 → IVec S16 32) a x).toNat < S1x100000.size a := fun v264 v1122 k0_hw75 => k0_hw75
def k0_off196 (k0_t21 : Fin k0_t21_loop.trips) : Fin 2 → Nat :=
  let c0_i32_1173 : BitVec 32 := 0#32
  let v1124 : Index := Scalar.indexCast c0_i32_1173
  let c0_i32_300 : BitVec 32 := 0#32
  let c1_i32_302 : BitVec 32 := 1#32
  let arg22 : BitVec 32 := Scf.iv c0_i32_300 c1_i32_302 k0_t21
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off197 (k0_t21 : Fin k0_t21_loop.trips) : Fin 1 → Nat :=
  let c0_i32_300 : BitVec 32 := 0#32
  let c1_i32_302 : BitVec 32 := 1#32
  let arg22 : BitVec 32 := Scf.iv c0_i32_300 c1_i32_302 k0_t21
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk76 (v264 : IVec S16 32) (v1130 : IVec S16 32) : Prop :=
  (∀ a x, ((![v264, v1130] : Fin 2 → IVec S16 32) a x).toNat < S1x100000.size a)
instance k0_chk76.dec : ∀ (v264 : IVec S16 32) (v1130 : IVec S16 32), Decidable (k0_chk76 v264 v1130) := fun v264 v1130 => decidable_of_iff' _ (Iff.of_eq (k0_chk76.eq_1 v264 v1130))
theorem k0_idx76_inb : ∀ (v264 : IVec S16 32) (v1130 : IVec S16 32) (k0_hw76 : k0_chk76 v264 v1130), ∀ a x, ((![v264, v1130] : Fin 2 → IVec S16 32) a x).toNat < S1x100000.size a := fun v264 v1130 k0_hw76 => k0_hw76
def k0_off198 (k0_t21 : Fin k0_t21_loop.trips) : Fin 2 → Nat :=
  let c0_i32_1176 : BitVec 32 := 0#32
  let v1132 : Index := Scalar.indexCast c0_i32_1176
  let c0_i32_300 : BitVec 32 := 0#32
  let c1_i32_302 : BitVec 32 := 1#32
  let arg22 : BitVec 32 := Scf.iv c0_i32_300 c1_i32_302 k0_t21
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off199 (k0_t21 : Fin k0_t21_loop.trips) : Fin 1 → Nat :=
  let c0_i32_300 : BitVec 32 := 0#32
  let c1_i32_302 : BitVec 32 := 1#32
  let arg22 : BitVec 32 := Scf.iv c0_i32_300 c1_i32_302 k0_t21
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk77 (v264 : IVec S16 32) (v1138 : IVec S16 32) : Prop :=
  (∀ a x, ((![v264, v1138] : Fin 2 → IVec S16 32) a x).toNat < S1x100000.size a)
instance k0_chk77.dec : ∀ (v264 : IVec S16 32) (v1138 : IVec S16 32), Decidable (k0_chk77 v264 v1138) := fun v264 v1138 => decidable_of_iff' _ (Iff.of_eq (k0_chk77.eq_1 v264 v1138))
theorem k0_idx77_inb : ∀ (v264 : IVec S16 32) (v1138 : IVec S16 32) (k0_hw77 : k0_chk77 v264 v1138), ∀ a x, ((![v264, v1138] : Fin 2 → IVec S16 32) a x).toNat < S1x100000.size a := fun v264 v1138 k0_hw77 => k0_hw77
def k0_off200 (k0_t21 : Fin k0_t21_loop.trips) : Fin 2 → Nat :=
  let c0_i32_1179 : BitVec 32 := 0#32
  let v1140 : Index := Scalar.indexCast c0_i32_1179
  let c0_i32_300 : BitVec 32 := 0#32
  let c1_i32_302 : BitVec 32 := 1#32
  let arg22 : BitVec 32 := Scf.iv c0_i32_300 c1_i32_302 k0_t21
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off201 (k0_t21 : Fin k0_t21_loop.trips) : Fin 1 → Nat :=
  let c0_i32_300 : BitVec 32 := 0#32
  let c1_i32_302 : BitVec 32 := 1#32
  let arg22 : BitVec 32 := Scf.iv c0_i32_300 c1_i32_302 k0_t21
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk78 (v264 : IVec S16 32) (v1146 : IVec S16 32) : Prop :=
  (∀ a x, ((![v264, v1146] : Fin 2 → IVec S16 32) a x).toNat < S1x100000.size a)
instance k0_chk78.dec : ∀ (v264 : IVec S16 32) (v1146 : IVec S16 32), Decidable (k0_chk78 v264 v1146) := fun v264 v1146 => decidable_of_iff' _ (Iff.of_eq (k0_chk78.eq_1 v264 v1146))
theorem k0_idx78_inb : ∀ (v264 : IVec S16 32) (v1146 : IVec S16 32) (k0_hw78 : k0_chk78 v264 v1146), ∀ a x, ((![v264, v1146] : Fin 2 → IVec S16 32) a x).toNat < S1x100000.size a := fun v264 v1146 k0_hw78 => k0_hw78
def k0_off202 (k0_t21 : Fin k0_t21_loop.trips) : Fin 2 → Nat :=
  let c0_i32_1181 : BitVec 32 := 0#32
  let v1148 : Index := Scalar.indexCast c0_i32_1181
  let c0_i32_300 : BitVec 32 := 0#32
  let c1_i32_302 : BitVec 32 := 1#32
  let arg22 : BitVec 32 := Scf.iv c0_i32_300 c1_i32_302 k0_t21
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off203 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_293 : BitVec 32 := 0#32
  let v259 : BitVec 32 := Scalar.addi v2 c0_i32_293
  let c0_i32_304 : BitVec 32 := 0#32
  ![10, v259.toNat, 0]
def k0_off204 (i : grid0.Coords) : Fin 3 → Nat :=
  let c9_i32_307 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_306 : BitVec 32 := 1#32
  let v270 : BitVec 32 := Scalar.addi v2 c1_i32_306
  let c0_i32_1171_r22 : BitVec 32 := 0#32
  ![9, v270.toNat, 0]
def k0_off205 (i : grid0.Coords) : Fin 3 → Nat :=
  let c9_i32_308 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_276 : BitVec 32 := 1#32
  let v244 : BitVec 32 := Scalar.addi v2 c1_i32_276
  let c0_i32_309 : BitVec 32 := 0#32
  ![9, v244.toNat, 0]
@[reducible] def k0_t22_loop : Scf.Loop 32 :=
  let c0_i32_313 : BitVec 32 := 0#32
  let c64_i32_314 : BitVec 32 := 64#32
  let v276 : BitVec 32 := Scalar.addi c0_i32_313 c64_i32_314
  let c1_i32_315 : BitVec 32 := 1#32
  ⟨c0_i32_313, v276, c1_i32_315⟩
def k0_off206 (k0_t22 : Fin k0_t22_loop.trips) : Fin 1 → Nat :=
  let c0_i32_313 : BitVec 32 := 0#32
  let c1_i32_315 : BitVec 32 := 1#32
  let arg22 : BitVec 32 := Scf.iv c0_i32_313 c1_i32_315 k0_t22
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk79 (v275 : IVec S16 32) (v1122 : IVec S16 32) : Prop :=
  (∀ a x, ((![v275, v1122] : Fin 2 → IVec S16 32) a x).toNat < S1x100000.size a)
instance k0_chk79.dec : ∀ (v275 : IVec S16 32) (v1122 : IVec S16 32), Decidable (k0_chk79 v275 v1122) := fun v275 v1122 => decidable_of_iff' _ (Iff.of_eq (k0_chk79.eq_1 v275 v1122))
theorem k0_idx79_inb : ∀ (v275 : IVec S16 32) (v1122 : IVec S16 32) (k0_hw79 : k0_chk79 v275 v1122), ∀ a x, ((![v275, v1122] : Fin 2 → IVec S16 32) a x).toNat < S1x100000.size a := fun v275 v1122 k0_hw79 => k0_hw79
def k0_off207 (k0_t22 : Fin k0_t22_loop.trips) : Fin 2 → Nat :=
  let c0_i32_1173 : BitVec 32 := 0#32
  let v1124 : Index := Scalar.indexCast c0_i32_1173
  let c0_i32_313 : BitVec 32 := 0#32
  let c1_i32_315 : BitVec 32 := 1#32
  let arg22 : BitVec 32 := Scf.iv c0_i32_313 c1_i32_315 k0_t22
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off208 (k0_t22 : Fin k0_t22_loop.trips) : Fin 1 → Nat :=
  let c0_i32_313 : BitVec 32 := 0#32
  let c1_i32_315 : BitVec 32 := 1#32
  let arg22 : BitVec 32 := Scf.iv c0_i32_313 c1_i32_315 k0_t22
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk80 (v275 : IVec S16 32) (v1130 : IVec S16 32) : Prop :=
  (∀ a x, ((![v275, v1130] : Fin 2 → IVec S16 32) a x).toNat < S1x100000.size a)
instance k0_chk80.dec : ∀ (v275 : IVec S16 32) (v1130 : IVec S16 32), Decidable (k0_chk80 v275 v1130) := fun v275 v1130 => decidable_of_iff' _ (Iff.of_eq (k0_chk80.eq_1 v275 v1130))
theorem k0_idx80_inb : ∀ (v275 : IVec S16 32) (v1130 : IVec S16 32) (k0_hw80 : k0_chk80 v275 v1130), ∀ a x, ((![v275, v1130] : Fin 2 → IVec S16 32) a x).toNat < S1x100000.size a := fun v275 v1130 k0_hw80 => k0_hw80
def k0_off209 (k0_t22 : Fin k0_t22_loop.trips) : Fin 2 → Nat :=
  let c0_i32_1176 : BitVec 32 := 0#32
  let v1132 : Index := Scalar.indexCast c0_i32_1176
  let c0_i32_313 : BitVec 32 := 0#32
  let c1_i32_315 : BitVec 32 := 1#32
  let arg22 : BitVec 32 := Scf.iv c0_i32_313 c1_i32_315 k0_t22
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off210 (k0_t22 : Fin k0_t22_loop.trips) : Fin 1 → Nat :=
  let c0_i32_313 : BitVec 32 := 0#32
  let c1_i32_315 : BitVec 32 := 1#32
  let arg22 : BitVec 32 := Scf.iv c0_i32_313 c1_i32_315 k0_t22
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk81 (v275 : IVec S16 32) (v1138 : IVec S16 32) : Prop :=
  (∀ a x, ((![v275, v1138] : Fin 2 → IVec S16 32) a x).toNat < S1x100000.size a)
instance k0_chk81.dec : ∀ (v275 : IVec S16 32) (v1138 : IVec S16 32), Decidable (k0_chk81 v275 v1138) := fun v275 v1138 => decidable_of_iff' _ (Iff.of_eq (k0_chk81.eq_1 v275 v1138))
theorem k0_idx81_inb : ∀ (v275 : IVec S16 32) (v1138 : IVec S16 32) (k0_hw81 : k0_chk81 v275 v1138), ∀ a x, ((![v275, v1138] : Fin 2 → IVec S16 32) a x).toNat < S1x100000.size a := fun v275 v1138 k0_hw81 => k0_hw81
def k0_off211 (k0_t22 : Fin k0_t22_loop.trips) : Fin 2 → Nat :=
  let c0_i32_1179 : BitVec 32 := 0#32
  let v1140 : Index := Scalar.indexCast c0_i32_1179
  let c0_i32_313 : BitVec 32 := 0#32
  let c1_i32_315 : BitVec 32 := 1#32
  let arg22 : BitVec 32 := Scf.iv c0_i32_313 c1_i32_315 k0_t22
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off212 (k0_t22 : Fin k0_t22_loop.trips) : Fin 1 → Nat :=
  let c0_i32_313 : BitVec 32 := 0#32
  let c1_i32_315 : BitVec 32 := 1#32
  let arg22 : BitVec 32 := Scf.iv c0_i32_313 c1_i32_315 k0_t22
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk82 (v275 : IVec S16 32) (v1146 : IVec S16 32) : Prop :=
  (∀ a x, ((![v275, v1146] : Fin 2 → IVec S16 32) a x).toNat < S1x100000.size a)
instance k0_chk82.dec : ∀ (v275 : IVec S16 32) (v1146 : IVec S16 32), Decidable (k0_chk82 v275 v1146) := fun v275 v1146 => decidable_of_iff' _ (Iff.of_eq (k0_chk82.eq_1 v275 v1146))
theorem k0_idx82_inb : ∀ (v275 : IVec S16 32) (v1146 : IVec S16 32) (k0_hw82 : k0_chk82 v275 v1146), ∀ a x, ((![v275, v1146] : Fin 2 → IVec S16 32) a x).toNat < S1x100000.size a := fun v275 v1146 k0_hw82 => k0_hw82
def k0_off213 (k0_t22 : Fin k0_t22_loop.trips) : Fin 2 → Nat :=
  let c0_i32_1181 : BitVec 32 := 0#32
  let v1148 : Index := Scalar.indexCast c0_i32_1181
  let c0_i32_313 : BitVec 32 := 0#32
  let c1_i32_315 : BitVec 32 := 1#32
  let arg22 : BitVec 32 := Scf.iv c0_i32_313 c1_i32_315 k0_t22
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off214 (i : grid0.Coords) (c1_i32_306 : BitVec 32) : Fin 3 → Nat :=
  let c10_i32_317 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v270 : BitVec 32 := Scalar.addi v2 c1_i32_306
  let c0_i32_318 : BitVec 32 := 0#32
  ![10, v270.toNat, 0]
def k0_off215 (i : grid0.Coords) : Fin 3 → Nat :=
  let c10_i32_324 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_323 : BitVec 32 := 0#32
  let v285 : BitVec 32 := Scalar.addi v2 c0_i32_323
  let c0_i32_1171_r23 : BitVec 32 := 0#32
  ![10, v285.toNat, 0]
@[reducible] def k0_t23_loop : Scf.Loop 32 :=
  let c0_i32_330 : BitVec 32 := 0#32
  let c64_i32_331 : BitVec 32 := 64#32
  let v291 : BitVec 32 := Scalar.addi c0_i32_330 c64_i32_331
  let c1_i32_332 : BitVec 32 := 1#32
  ⟨c0_i32_330, v291, c1_i32_332⟩
def k0_off216 (k0_t23 : Fin k0_t23_loop.trips) : Fin 1 → Nat :=
  let c0_i32_330 : BitVec 32 := 0#32
  let c1_i32_332 : BitVec 32 := 1#32
  let arg22 : BitVec 32 := Scf.iv c0_i32_330 c1_i32_332 k0_t23
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk83 (v290 : IVec S16 32) (v1122 : IVec S16 32) : Prop :=
  (∀ a x, ((![v290, v1122] : Fin 2 → IVec S16 32) a x).toNat < S1x100000.size a)
instance k0_chk83.dec : ∀ (v290 : IVec S16 32) (v1122 : IVec S16 32), Decidable (k0_chk83 v290 v1122) := fun v290 v1122 => decidable_of_iff' _ (Iff.of_eq (k0_chk83.eq_1 v290 v1122))
theorem k0_idx83_inb : ∀ (v290 : IVec S16 32) (v1122 : IVec S16 32) (k0_hw83 : k0_chk83 v290 v1122), ∀ a x, ((![v290, v1122] : Fin 2 → IVec S16 32) a x).toNat < S1x100000.size a := fun v290 v1122 k0_hw83 => k0_hw83
def k0_off217 (k0_t23 : Fin k0_t23_loop.trips) : Fin 2 → Nat :=
  let c0_i32_1173 : BitVec 32 := 0#32
  let v1124 : Index := Scalar.indexCast c0_i32_1173
  let c0_i32_330 : BitVec 32 := 0#32
  let c1_i32_332 : BitVec 32 := 1#32
  let arg22 : BitVec 32 := Scf.iv c0_i32_330 c1_i32_332 k0_t23
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off218 (k0_t23 : Fin k0_t23_loop.trips) : Fin 1 → Nat :=
  let c0_i32_330 : BitVec 32 := 0#32
  let c1_i32_332 : BitVec 32 := 1#32
  let arg22 : BitVec 32 := Scf.iv c0_i32_330 c1_i32_332 k0_t23
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk84 (v290 : IVec S16 32) (v1130 : IVec S16 32) : Prop :=
  (∀ a x, ((![v290, v1130] : Fin 2 → IVec S16 32) a x).toNat < S1x100000.size a)
instance k0_chk84.dec : ∀ (v290 : IVec S16 32) (v1130 : IVec S16 32), Decidable (k0_chk84 v290 v1130) := fun v290 v1130 => decidable_of_iff' _ (Iff.of_eq (k0_chk84.eq_1 v290 v1130))
theorem k0_idx84_inb : ∀ (v290 : IVec S16 32) (v1130 : IVec S16 32) (k0_hw84 : k0_chk84 v290 v1130), ∀ a x, ((![v290, v1130] : Fin 2 → IVec S16 32) a x).toNat < S1x100000.size a := fun v290 v1130 k0_hw84 => k0_hw84
def k0_off219 (k0_t23 : Fin k0_t23_loop.trips) : Fin 2 → Nat :=
  let c0_i32_1176 : BitVec 32 := 0#32
  let v1132 : Index := Scalar.indexCast c0_i32_1176
  let c0_i32_330 : BitVec 32 := 0#32
  let c1_i32_332 : BitVec 32 := 1#32
  let arg22 : BitVec 32 := Scf.iv c0_i32_330 c1_i32_332 k0_t23
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off220 (k0_t23 : Fin k0_t23_loop.trips) : Fin 1 → Nat :=
  let c0_i32_330 : BitVec 32 := 0#32
  let c1_i32_332 : BitVec 32 := 1#32
  let arg22 : BitVec 32 := Scf.iv c0_i32_330 c1_i32_332 k0_t23
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk85 (v290 : IVec S16 32) (v1138 : IVec S16 32) : Prop :=
  (∀ a x, ((![v290, v1138] : Fin 2 → IVec S16 32) a x).toNat < S1x100000.size a)
instance k0_chk85.dec : ∀ (v290 : IVec S16 32) (v1138 : IVec S16 32), Decidable (k0_chk85 v290 v1138) := fun v290 v1138 => decidable_of_iff' _ (Iff.of_eq (k0_chk85.eq_1 v290 v1138))
theorem k0_idx85_inb : ∀ (v290 : IVec S16 32) (v1138 : IVec S16 32) (k0_hw85 : k0_chk85 v290 v1138), ∀ a x, ((![v290, v1138] : Fin 2 → IVec S16 32) a x).toNat < S1x100000.size a := fun v290 v1138 k0_hw85 => k0_hw85
def k0_off221 (k0_t23 : Fin k0_t23_loop.trips) : Fin 2 → Nat :=
  let c0_i32_1179 : BitVec 32 := 0#32
  let v1140 : Index := Scalar.indexCast c0_i32_1179
  let c0_i32_330 : BitVec 32 := 0#32
  let c1_i32_332 : BitVec 32 := 1#32
  let arg22 : BitVec 32 := Scf.iv c0_i32_330 c1_i32_332 k0_t23
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off222 (k0_t23 : Fin k0_t23_loop.trips) : Fin 1 → Nat :=
  let c0_i32_330 : BitVec 32 := 0#32
  let c1_i32_332 : BitVec 32 := 1#32
  let arg22 : BitVec 32 := Scf.iv c0_i32_330 c1_i32_332 k0_t23
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk86 (v290 : IVec S16 32) (v1146 : IVec S16 32) : Prop :=
  (∀ a x, ((![v290, v1146] : Fin 2 → IVec S16 32) a x).toNat < S1x100000.size a)
instance k0_chk86.dec : ∀ (v290 : IVec S16 32) (v1146 : IVec S16 32), Decidable (k0_chk86 v290 v1146) := fun v290 v1146 => decidable_of_iff' _ (Iff.of_eq (k0_chk86.eq_1 v290 v1146))
theorem k0_idx86_inb : ∀ (v290 : IVec S16 32) (v1146 : IVec S16 32) (k0_hw86 : k0_chk86 v290 v1146), ∀ a x, ((![v290, v1146] : Fin 2 → IVec S16 32) a x).toNat < S1x100000.size a := fun v290 v1146 k0_hw86 => k0_hw86
def k0_off223 (k0_t23 : Fin k0_t23_loop.trips) : Fin 2 → Nat :=
  let c0_i32_1181 : BitVec 32 := 0#32
  let v1148 : Index := Scalar.indexCast c0_i32_1181
  let c0_i32_330 : BitVec 32 := 0#32
  let c1_i32_332 : BitVec 32 := 1#32
  let arg22 : BitVec 32 := Scf.iv c0_i32_330 c1_i32_332 k0_t23
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off224 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_323 : BitVec 32 := 0#32
  let v285 : BitVec 32 := Scalar.addi v2 c0_i32_323
  let c0_i32_334 : BitVec 32 := 0#32
  ![11, v285.toNat, 0]
def k0_off225 (i : grid0.Coords) : Fin 3 → Nat :=
  let c10_i32_337 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_336 : BitVec 32 := 1#32
  let v296 : BitVec 32 := Scalar.addi v2 c1_i32_336
  let c0_i32_1171_r24 : BitVec 32 := 0#32
  ![10, v296.toNat, 0]
def k0_off226 (i : grid0.Coords) : Fin 3 → Nat :=
  let c10_i32_338 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_306 : BitVec 32 := 1#32
  let v270 : BitVec 32 := Scalar.addi v2 c1_i32_306
  let c0_i32_339 : BitVec 32 := 0#32
  ![10, v270.toNat, 0]
@[reducible] def k0_t24_loop : Scf.Loop 32 :=
  let c0_i32_343 : BitVec 32 := 0#32
  let c64_i32_344 : BitVec 32 := 64#32
  let v302 : BitVec 32 := Scalar.addi c0_i32_343 c64_i32_344
  let c1_i32_345 : BitVec 32 := 1#32
  ⟨c0_i32_343, v302, c1_i32_345⟩
def k0_off227 (k0_t24 : Fin k0_t24_loop.trips) : Fin 1 → Nat :=
  let c0_i32_343 : BitVec 32 := 0#32
  let c1_i32_345 : BitVec 32 := 1#32
  let arg22 : BitVec 32 := Scf.iv c0_i32_343 c1_i32_345 k0_t24
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk87 (v301 : IVec S16 32) (v1122 : IVec S16 32) : Prop :=
  (∀ a x, ((![v301, v1122] : Fin 2 → IVec S16 32) a x).toNat < S1x100000.size a)
instance k0_chk87.dec : ∀ (v301 : IVec S16 32) (v1122 : IVec S16 32), Decidable (k0_chk87 v301 v1122) := fun v301 v1122 => decidable_of_iff' _ (Iff.of_eq (k0_chk87.eq_1 v301 v1122))
theorem k0_idx87_inb : ∀ (v301 : IVec S16 32) (v1122 : IVec S16 32) (k0_hw87 : k0_chk87 v301 v1122), ∀ a x, ((![v301, v1122] : Fin 2 → IVec S16 32) a x).toNat < S1x100000.size a := fun v301 v1122 k0_hw87 => k0_hw87
def k0_off228 (k0_t24 : Fin k0_t24_loop.trips) : Fin 2 → Nat :=
  let c0_i32_1173 : BitVec 32 := 0#32
  let v1124 : Index := Scalar.indexCast c0_i32_1173
  let c0_i32_343 : BitVec 32 := 0#32
  let c1_i32_345 : BitVec 32 := 1#32
  let arg22 : BitVec 32 := Scf.iv c0_i32_343 c1_i32_345 k0_t24
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off229 (k0_t24 : Fin k0_t24_loop.trips) : Fin 1 → Nat :=
  let c0_i32_343 : BitVec 32 := 0#32
  let c1_i32_345 : BitVec 32 := 1#32
  let arg22 : BitVec 32 := Scf.iv c0_i32_343 c1_i32_345 k0_t24
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk88 (v301 : IVec S16 32) (v1130 : IVec S16 32) : Prop :=
  (∀ a x, ((![v301, v1130] : Fin 2 → IVec S16 32) a x).toNat < S1x100000.size a)
instance k0_chk88.dec : ∀ (v301 : IVec S16 32) (v1130 : IVec S16 32), Decidable (k0_chk88 v301 v1130) := fun v301 v1130 => decidable_of_iff' _ (Iff.of_eq (k0_chk88.eq_1 v301 v1130))
theorem k0_idx88_inb : ∀ (v301 : IVec S16 32) (v1130 : IVec S16 32) (k0_hw88 : k0_chk88 v301 v1130), ∀ a x, ((![v301, v1130] : Fin 2 → IVec S16 32) a x).toNat < S1x100000.size a := fun v301 v1130 k0_hw88 => k0_hw88
def k0_off230 (k0_t24 : Fin k0_t24_loop.trips) : Fin 2 → Nat :=
  let c0_i32_1176 : BitVec 32 := 0#32
  let v1132 : Index := Scalar.indexCast c0_i32_1176
  let c0_i32_343 : BitVec 32 := 0#32
  let c1_i32_345 : BitVec 32 := 1#32
  let arg22 : BitVec 32 := Scf.iv c0_i32_343 c1_i32_345 k0_t24
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off231 (k0_t24 : Fin k0_t24_loop.trips) : Fin 1 → Nat :=
  let c0_i32_343 : BitVec 32 := 0#32
  let c1_i32_345 : BitVec 32 := 1#32
  let arg22 : BitVec 32 := Scf.iv c0_i32_343 c1_i32_345 k0_t24
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk89 (v301 : IVec S16 32) (v1138 : IVec S16 32) : Prop :=
  (∀ a x, ((![v301, v1138] : Fin 2 → IVec S16 32) a x).toNat < S1x100000.size a)
instance k0_chk89.dec : ∀ (v301 : IVec S16 32) (v1138 : IVec S16 32), Decidable (k0_chk89 v301 v1138) := fun v301 v1138 => decidable_of_iff' _ (Iff.of_eq (k0_chk89.eq_1 v301 v1138))
theorem k0_idx89_inb : ∀ (v301 : IVec S16 32) (v1138 : IVec S16 32) (k0_hw89 : k0_chk89 v301 v1138), ∀ a x, ((![v301, v1138] : Fin 2 → IVec S16 32) a x).toNat < S1x100000.size a := fun v301 v1138 k0_hw89 => k0_hw89
def k0_off232 (k0_t24 : Fin k0_t24_loop.trips) : Fin 2 → Nat :=
  let c0_i32_1179 : BitVec 32 := 0#32
  let v1140 : Index := Scalar.indexCast c0_i32_1179
  let c0_i32_343 : BitVec 32 := 0#32
  let c1_i32_345 : BitVec 32 := 1#32
  let arg22 : BitVec 32 := Scf.iv c0_i32_343 c1_i32_345 k0_t24
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off233 (k0_t24 : Fin k0_t24_loop.trips) : Fin 1 → Nat :=
  let c0_i32_343 : BitVec 32 := 0#32
  let c1_i32_345 : BitVec 32 := 1#32
  let arg22 : BitVec 32 := Scf.iv c0_i32_343 c1_i32_345 k0_t24
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk90 (v301 : IVec S16 32) (v1146 : IVec S16 32) : Prop :=
  (∀ a x, ((![v301, v1146] : Fin 2 → IVec S16 32) a x).toNat < S1x100000.size a)
instance k0_chk90.dec : ∀ (v301 : IVec S16 32) (v1146 : IVec S16 32), Decidable (k0_chk90 v301 v1146) := fun v301 v1146 => decidable_of_iff' _ (Iff.of_eq (k0_chk90.eq_1 v301 v1146))
theorem k0_idx90_inb : ∀ (v301 : IVec S16 32) (v1146 : IVec S16 32) (k0_hw90 : k0_chk90 v301 v1146), ∀ a x, ((![v301, v1146] : Fin 2 → IVec S16 32) a x).toNat < S1x100000.size a := fun v301 v1146 k0_hw90 => k0_hw90
def k0_off234 (k0_t24 : Fin k0_t24_loop.trips) : Fin 2 → Nat :=
  let c0_i32_1181 : BitVec 32 := 0#32
  let v1148 : Index := Scalar.indexCast c0_i32_1181
  let c0_i32_343 : BitVec 32 := 0#32
  let c1_i32_345 : BitVec 32 := 1#32
  let arg22 : BitVec 32 := Scf.iv c0_i32_343 c1_i32_345 k0_t24
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off235 (i : grid0.Coords) (c1_i32_336 : BitVec 32) : Fin 3 → Nat :=
  let c11_i32_347 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v296 : BitVec 32 := Scalar.addi v2 c1_i32_336
  let c0_i32_348 : BitVec 32 := 0#32
  ![11, v296.toNat, 0]
def k0_off236 (i : grid0.Coords) : Fin 3 → Nat :=
  let c11_i32_354 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_353 : BitVec 32 := 0#32
  let v311 : BitVec 32 := Scalar.addi v2 c0_i32_353
  let c0_i32_1171_r25 : BitVec 32 := 0#32
  ![11, v311.toNat, 0]
@[reducible] def k0_t25_loop : Scf.Loop 32 :=
  let c0_i32_360 : BitVec 32 := 0#32
  let c64_i32_361 : BitVec 32 := 64#32
  let v317 : BitVec 32 := Scalar.addi c0_i32_360 c64_i32_361
  let c1_i32_362 : BitVec 32 := 1#32
  ⟨c0_i32_360, v317, c1_i32_362⟩
def k0_off237 (k0_t25 : Fin k0_t25_loop.trips) : Fin 1 → Nat :=
  let c0_i32_360 : BitVec 32 := 0#32
  let c1_i32_362 : BitVec 32 := 1#32
  let arg22 : BitVec 32 := Scf.iv c0_i32_360 c1_i32_362 k0_t25
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk91 (v316 : IVec S16 32) (v1122 : IVec S16 32) : Prop :=
  (∀ a x, ((![v316, v1122] : Fin 2 → IVec S16 32) a x).toNat < S1x100000.size a)
instance k0_chk91.dec : ∀ (v316 : IVec S16 32) (v1122 : IVec S16 32), Decidable (k0_chk91 v316 v1122) := fun v316 v1122 => decidable_of_iff' _ (Iff.of_eq (k0_chk91.eq_1 v316 v1122))
theorem k0_idx91_inb : ∀ (v316 : IVec S16 32) (v1122 : IVec S16 32) (k0_hw91 : k0_chk91 v316 v1122), ∀ a x, ((![v316, v1122] : Fin 2 → IVec S16 32) a x).toNat < S1x100000.size a := fun v316 v1122 k0_hw91 => k0_hw91
def k0_off238 (k0_t25 : Fin k0_t25_loop.trips) : Fin 2 → Nat :=
  let c0_i32_1173 : BitVec 32 := 0#32
  let v1124 : Index := Scalar.indexCast c0_i32_1173
  let c0_i32_360 : BitVec 32 := 0#32
  let c1_i32_362 : BitVec 32 := 1#32
  let arg22 : BitVec 32 := Scf.iv c0_i32_360 c1_i32_362 k0_t25
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off239 (k0_t25 : Fin k0_t25_loop.trips) : Fin 1 → Nat :=
  let c0_i32_360 : BitVec 32 := 0#32
  let c1_i32_362 : BitVec 32 := 1#32
  let arg22 : BitVec 32 := Scf.iv c0_i32_360 c1_i32_362 k0_t25
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk92 (v316 : IVec S16 32) (v1130 : IVec S16 32) : Prop :=
  (∀ a x, ((![v316, v1130] : Fin 2 → IVec S16 32) a x).toNat < S1x100000.size a)
instance k0_chk92.dec : ∀ (v316 : IVec S16 32) (v1130 : IVec S16 32), Decidable (k0_chk92 v316 v1130) := fun v316 v1130 => decidable_of_iff' _ (Iff.of_eq (k0_chk92.eq_1 v316 v1130))
theorem k0_idx92_inb : ∀ (v316 : IVec S16 32) (v1130 : IVec S16 32) (k0_hw92 : k0_chk92 v316 v1130), ∀ a x, ((![v316, v1130] : Fin 2 → IVec S16 32) a x).toNat < S1x100000.size a := fun v316 v1130 k0_hw92 => k0_hw92
def k0_off240 (k0_t25 : Fin k0_t25_loop.trips) : Fin 2 → Nat :=
  let c0_i32_1176 : BitVec 32 := 0#32
  let v1132 : Index := Scalar.indexCast c0_i32_1176
  let c0_i32_360 : BitVec 32 := 0#32
  let c1_i32_362 : BitVec 32 := 1#32
  let arg22 : BitVec 32 := Scf.iv c0_i32_360 c1_i32_362 k0_t25
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off241 (k0_t25 : Fin k0_t25_loop.trips) : Fin 1 → Nat :=
  let c0_i32_360 : BitVec 32 := 0#32
  let c1_i32_362 : BitVec 32 := 1#32
  let arg22 : BitVec 32 := Scf.iv c0_i32_360 c1_i32_362 k0_t25
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk93 (v316 : IVec S16 32) (v1138 : IVec S16 32) : Prop :=
  (∀ a x, ((![v316, v1138] : Fin 2 → IVec S16 32) a x).toNat < S1x100000.size a)
instance k0_chk93.dec : ∀ (v316 : IVec S16 32) (v1138 : IVec S16 32), Decidable (k0_chk93 v316 v1138) := fun v316 v1138 => decidable_of_iff' _ (Iff.of_eq (k0_chk93.eq_1 v316 v1138))
theorem k0_idx93_inb : ∀ (v316 : IVec S16 32) (v1138 : IVec S16 32) (k0_hw93 : k0_chk93 v316 v1138), ∀ a x, ((![v316, v1138] : Fin 2 → IVec S16 32) a x).toNat < S1x100000.size a := fun v316 v1138 k0_hw93 => k0_hw93
def k0_off242 (k0_t25 : Fin k0_t25_loop.trips) : Fin 2 → Nat :=
  let c0_i32_1179 : BitVec 32 := 0#32
  let v1140 : Index := Scalar.indexCast c0_i32_1179
  let c0_i32_360 : BitVec 32 := 0#32
  let c1_i32_362 : BitVec 32 := 1#32
  let arg22 : BitVec 32 := Scf.iv c0_i32_360 c1_i32_362 k0_t25
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off243 (k0_t25 : Fin k0_t25_loop.trips) : Fin 1 → Nat :=
  let c0_i32_360 : BitVec 32 := 0#32
  let c1_i32_362 : BitVec 32 := 1#32
  let arg22 : BitVec 32 := Scf.iv c0_i32_360 c1_i32_362 k0_t25
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk94 (v316 : IVec S16 32) (v1146 : IVec S16 32) : Prop :=
  (∀ a x, ((![v316, v1146] : Fin 2 → IVec S16 32) a x).toNat < S1x100000.size a)
instance k0_chk94.dec : ∀ (v316 : IVec S16 32) (v1146 : IVec S16 32), Decidable (k0_chk94 v316 v1146) := fun v316 v1146 => decidable_of_iff' _ (Iff.of_eq (k0_chk94.eq_1 v316 v1146))
theorem k0_idx94_inb : ∀ (v316 : IVec S16 32) (v1146 : IVec S16 32) (k0_hw94 : k0_chk94 v316 v1146), ∀ a x, ((![v316, v1146] : Fin 2 → IVec S16 32) a x).toNat < S1x100000.size a := fun v316 v1146 k0_hw94 => k0_hw94
def k0_off244 (k0_t25 : Fin k0_t25_loop.trips) : Fin 2 → Nat :=
  let c0_i32_1181 : BitVec 32 := 0#32
  let v1148 : Index := Scalar.indexCast c0_i32_1181
  let c0_i32_360 : BitVec 32 := 0#32
  let c1_i32_362 : BitVec 32 := 1#32
  let arg22 : BitVec 32 := Scf.iv c0_i32_360 c1_i32_362 k0_t25
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off245 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_353 : BitVec 32 := 0#32
  let v311 : BitVec 32 := Scalar.addi v2 c0_i32_353
  let c0_i32_364 : BitVec 32 := 0#32
  ![12, v311.toNat, 0]
def k0_off246 (i : grid0.Coords) : Fin 3 → Nat :=
  let c11_i32_367 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_366 : BitVec 32 := 1#32
  let v322 : BitVec 32 := Scalar.addi v2 c1_i32_366
  let c0_i32_1171_r26 : BitVec 32 := 0#32
  ![11, v322.toNat, 0]
def k0_off247 (i : grid0.Coords) : Fin 3 → Nat :=
  let c11_i32_368 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_336 : BitVec 32 := 1#32
  let v296 : BitVec 32 := Scalar.addi v2 c1_i32_336
  let c0_i32_369 : BitVec 32 := 0#32
  ![11, v296.toNat, 0]
@[reducible] def k0_t26_loop : Scf.Loop 32 :=
  let c0_i32_373 : BitVec 32 := 0#32
  let c64_i32_374 : BitVec 32 := 64#32
  let v328 : BitVec 32 := Scalar.addi c0_i32_373 c64_i32_374
  let c1_i32_375 : BitVec 32 := 1#32
  ⟨c0_i32_373, v328, c1_i32_375⟩
def k0_off248 (k0_t26 : Fin k0_t26_loop.trips) : Fin 1 → Nat :=
  let c0_i32_373 : BitVec 32 := 0#32
  let c1_i32_375 : BitVec 32 := 1#32
  let arg22 : BitVec 32 := Scf.iv c0_i32_373 c1_i32_375 k0_t26
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk95 (v327 : IVec S16 32) (v1122 : IVec S16 32) : Prop :=
  (∀ a x, ((![v327, v1122] : Fin 2 → IVec S16 32) a x).toNat < S1x100000.size a)
instance k0_chk95.dec : ∀ (v327 : IVec S16 32) (v1122 : IVec S16 32), Decidable (k0_chk95 v327 v1122) := fun v327 v1122 => decidable_of_iff' _ (Iff.of_eq (k0_chk95.eq_1 v327 v1122))
theorem k0_idx95_inb : ∀ (v327 : IVec S16 32) (v1122 : IVec S16 32) (k0_hw95 : k0_chk95 v327 v1122), ∀ a x, ((![v327, v1122] : Fin 2 → IVec S16 32) a x).toNat < S1x100000.size a := fun v327 v1122 k0_hw95 => k0_hw95
def k0_off249 (k0_t26 : Fin k0_t26_loop.trips) : Fin 2 → Nat :=
  let c0_i32_1173 : BitVec 32 := 0#32
  let v1124 : Index := Scalar.indexCast c0_i32_1173
  let c0_i32_373 : BitVec 32 := 0#32
  let c1_i32_375 : BitVec 32 := 1#32
  let arg22 : BitVec 32 := Scf.iv c0_i32_373 c1_i32_375 k0_t26
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off250 (k0_t26 : Fin k0_t26_loop.trips) : Fin 1 → Nat :=
  let c0_i32_373 : BitVec 32 := 0#32
  let c1_i32_375 : BitVec 32 := 1#32
  let arg22 : BitVec 32 := Scf.iv c0_i32_373 c1_i32_375 k0_t26
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk96 (v327 : IVec S16 32) (v1130 : IVec S16 32) : Prop :=
  (∀ a x, ((![v327, v1130] : Fin 2 → IVec S16 32) a x).toNat < S1x100000.size a)
instance k0_chk96.dec : ∀ (v327 : IVec S16 32) (v1130 : IVec S16 32), Decidable (k0_chk96 v327 v1130) := fun v327 v1130 => decidable_of_iff' _ (Iff.of_eq (k0_chk96.eq_1 v327 v1130))
theorem k0_idx96_inb : ∀ (v327 : IVec S16 32) (v1130 : IVec S16 32) (k0_hw96 : k0_chk96 v327 v1130), ∀ a x, ((![v327, v1130] : Fin 2 → IVec S16 32) a x).toNat < S1x100000.size a := fun v327 v1130 k0_hw96 => k0_hw96
def k0_off251 (k0_t26 : Fin k0_t26_loop.trips) : Fin 2 → Nat :=
  let c0_i32_1176 : BitVec 32 := 0#32
  let v1132 : Index := Scalar.indexCast c0_i32_1176
  let c0_i32_373 : BitVec 32 := 0#32
  let c1_i32_375 : BitVec 32 := 1#32
  let arg22 : BitVec 32 := Scf.iv c0_i32_373 c1_i32_375 k0_t26
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off252 (k0_t26 : Fin k0_t26_loop.trips) : Fin 1 → Nat :=
  let c0_i32_373 : BitVec 32 := 0#32
  let c1_i32_375 : BitVec 32 := 1#32
  let arg22 : BitVec 32 := Scf.iv c0_i32_373 c1_i32_375 k0_t26
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk97 (v327 : IVec S16 32) (v1138 : IVec S16 32) : Prop :=
  (∀ a x, ((![v327, v1138] : Fin 2 → IVec S16 32) a x).toNat < S1x100000.size a)
instance k0_chk97.dec : ∀ (v327 : IVec S16 32) (v1138 : IVec S16 32), Decidable (k0_chk97 v327 v1138) := fun v327 v1138 => decidable_of_iff' _ (Iff.of_eq (k0_chk97.eq_1 v327 v1138))
theorem k0_idx97_inb : ∀ (v327 : IVec S16 32) (v1138 : IVec S16 32) (k0_hw97 : k0_chk97 v327 v1138), ∀ a x, ((![v327, v1138] : Fin 2 → IVec S16 32) a x).toNat < S1x100000.size a := fun v327 v1138 k0_hw97 => k0_hw97
def k0_off253 (k0_t26 : Fin k0_t26_loop.trips) : Fin 2 → Nat :=
  let c0_i32_1179 : BitVec 32 := 0#32
  let v1140 : Index := Scalar.indexCast c0_i32_1179
  let c0_i32_373 : BitVec 32 := 0#32
  let c1_i32_375 : BitVec 32 := 1#32
  let arg22 : BitVec 32 := Scf.iv c0_i32_373 c1_i32_375 k0_t26
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off254 (k0_t26 : Fin k0_t26_loop.trips) : Fin 1 → Nat :=
  let c0_i32_373 : BitVec 32 := 0#32
  let c1_i32_375 : BitVec 32 := 1#32
  let arg22 : BitVec 32 := Scf.iv c0_i32_373 c1_i32_375 k0_t26
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk98 (v327 : IVec S16 32) (v1146 : IVec S16 32) : Prop :=
  (∀ a x, ((![v327, v1146] : Fin 2 → IVec S16 32) a x).toNat < S1x100000.size a)
instance k0_chk98.dec : ∀ (v327 : IVec S16 32) (v1146 : IVec S16 32), Decidable (k0_chk98 v327 v1146) := fun v327 v1146 => decidable_of_iff' _ (Iff.of_eq (k0_chk98.eq_1 v327 v1146))
theorem k0_idx98_inb : ∀ (v327 : IVec S16 32) (v1146 : IVec S16 32) (k0_hw98 : k0_chk98 v327 v1146), ∀ a x, ((![v327, v1146] : Fin 2 → IVec S16 32) a x).toNat < S1x100000.size a := fun v327 v1146 k0_hw98 => k0_hw98
def k0_off255 (k0_t26 : Fin k0_t26_loop.trips) : Fin 2 → Nat :=
  let c0_i32_1181 : BitVec 32 := 0#32
  let v1148 : Index := Scalar.indexCast c0_i32_1181
  let c0_i32_373 : BitVec 32 := 0#32
  let c1_i32_375 : BitVec 32 := 1#32
  let arg22 : BitVec 32 := Scf.iv c0_i32_373 c1_i32_375 k0_t26
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off256 (i : grid0.Coords) (c1_i32_366 : BitVec 32) : Fin 3 → Nat :=
  let c12_i32_377 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v322 : BitVec 32 := Scalar.addi v2 c1_i32_366
  let c0_i32_378 : BitVec 32 := 0#32
  ![12, v322.toNat, 0]
def k0_off257 (i : grid0.Coords) : Fin 3 → Nat :=
  let c12_i32_384 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_383 : BitVec 32 := 0#32
  let v337 : BitVec 32 := Scalar.addi v2 c0_i32_383
  let c0_i32_1171_r27 : BitVec 32 := 0#32
  ![12, v337.toNat, 0]
@[reducible] def k0_t27_loop : Scf.Loop 32 :=
  let c0_i32_390 : BitVec 32 := 0#32
  let c64_i32_391 : BitVec 32 := 64#32
  let v343 : BitVec 32 := Scalar.addi c0_i32_390 c64_i32_391
  let c1_i32_392 : BitVec 32 := 1#32
  ⟨c0_i32_390, v343, c1_i32_392⟩
def k0_off258 (k0_t27 : Fin k0_t27_loop.trips) : Fin 1 → Nat :=
  let c0_i32_390 : BitVec 32 := 0#32
  let c1_i32_392 : BitVec 32 := 1#32
  let arg22 : BitVec 32 := Scf.iv c0_i32_390 c1_i32_392 k0_t27
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk99 (v342 : IVec S16 32) (v1122 : IVec S16 32) : Prop :=
  (∀ a x, ((![v342, v1122] : Fin 2 → IVec S16 32) a x).toNat < S1x100000.size a)
instance k0_chk99.dec : ∀ (v342 : IVec S16 32) (v1122 : IVec S16 32), Decidable (k0_chk99 v342 v1122) := fun v342 v1122 => decidable_of_iff' _ (Iff.of_eq (k0_chk99.eq_1 v342 v1122))
theorem k0_idx99_inb : ∀ (v342 : IVec S16 32) (v1122 : IVec S16 32) (k0_hw99 : k0_chk99 v342 v1122), ∀ a x, ((![v342, v1122] : Fin 2 → IVec S16 32) a x).toNat < S1x100000.size a := fun v342 v1122 k0_hw99 => k0_hw99
def k0_off259 (k0_t27 : Fin k0_t27_loop.trips) : Fin 2 → Nat :=
  let c0_i32_1173 : BitVec 32 := 0#32
  let v1124 : Index := Scalar.indexCast c0_i32_1173
  let c0_i32_390 : BitVec 32 := 0#32
  let c1_i32_392 : BitVec 32 := 1#32
  let arg22 : BitVec 32 := Scf.iv c0_i32_390 c1_i32_392 k0_t27
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off260 (k0_t27 : Fin k0_t27_loop.trips) : Fin 1 → Nat :=
  let c0_i32_390 : BitVec 32 := 0#32
  let c1_i32_392 : BitVec 32 := 1#32
  let arg22 : BitVec 32 := Scf.iv c0_i32_390 c1_i32_392 k0_t27
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk100 (v342 : IVec S16 32) (v1130 : IVec S16 32) : Prop :=
  (∀ a x, ((![v342, v1130] : Fin 2 → IVec S16 32) a x).toNat < S1x100000.size a)
instance k0_chk100.dec : ∀ (v342 : IVec S16 32) (v1130 : IVec S16 32), Decidable (k0_chk100 v342 v1130) := fun v342 v1130 => decidable_of_iff' _ (Iff.of_eq (k0_chk100.eq_1 v342 v1130))
theorem k0_idx100_inb : ∀ (v342 : IVec S16 32) (v1130 : IVec S16 32) (k0_hw100 : k0_chk100 v342 v1130), ∀ a x, ((![v342, v1130] : Fin 2 → IVec S16 32) a x).toNat < S1x100000.size a := fun v342 v1130 k0_hw100 => k0_hw100
def k0_off261 (k0_t27 : Fin k0_t27_loop.trips) : Fin 2 → Nat :=
  let c0_i32_1176 : BitVec 32 := 0#32
  let v1132 : Index := Scalar.indexCast c0_i32_1176
  let c0_i32_390 : BitVec 32 := 0#32
  let c1_i32_392 : BitVec 32 := 1#32
  let arg22 : BitVec 32 := Scf.iv c0_i32_390 c1_i32_392 k0_t27
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off262 (k0_t27 : Fin k0_t27_loop.trips) : Fin 1 → Nat :=
  let c0_i32_390 : BitVec 32 := 0#32
  let c1_i32_392 : BitVec 32 := 1#32
  let arg22 : BitVec 32 := Scf.iv c0_i32_390 c1_i32_392 k0_t27
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk101 (v342 : IVec S16 32) (v1138 : IVec S16 32) : Prop :=
  (∀ a x, ((![v342, v1138] : Fin 2 → IVec S16 32) a x).toNat < S1x100000.size a)
instance k0_chk101.dec : ∀ (v342 : IVec S16 32) (v1138 : IVec S16 32), Decidable (k0_chk101 v342 v1138) := fun v342 v1138 => decidable_of_iff' _ (Iff.of_eq (k0_chk101.eq_1 v342 v1138))
theorem k0_idx101_inb : ∀ (v342 : IVec S16 32) (v1138 : IVec S16 32) (k0_hw101 : k0_chk101 v342 v1138), ∀ a x, ((![v342, v1138] : Fin 2 → IVec S16 32) a x).toNat < S1x100000.size a := fun v342 v1138 k0_hw101 => k0_hw101
def k0_off263 (k0_t27 : Fin k0_t27_loop.trips) : Fin 2 → Nat :=
  let c0_i32_1179 : BitVec 32 := 0#32
  let v1140 : Index := Scalar.indexCast c0_i32_1179
  let c0_i32_390 : BitVec 32 := 0#32
  let c1_i32_392 : BitVec 32 := 1#32
  let arg22 : BitVec 32 := Scf.iv c0_i32_390 c1_i32_392 k0_t27
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off264 (k0_t27 : Fin k0_t27_loop.trips) : Fin 1 → Nat :=
  let c0_i32_390 : BitVec 32 := 0#32
  let c1_i32_392 : BitVec 32 := 1#32
  let arg22 : BitVec 32 := Scf.iv c0_i32_390 c1_i32_392 k0_t27
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk102 (v342 : IVec S16 32) (v1146 : IVec S16 32) : Prop :=
  (∀ a x, ((![v342, v1146] : Fin 2 → IVec S16 32) a x).toNat < S1x100000.size a)
instance k0_chk102.dec : ∀ (v342 : IVec S16 32) (v1146 : IVec S16 32), Decidable (k0_chk102 v342 v1146) := fun v342 v1146 => decidable_of_iff' _ (Iff.of_eq (k0_chk102.eq_1 v342 v1146))
theorem k0_idx102_inb : ∀ (v342 : IVec S16 32) (v1146 : IVec S16 32) (k0_hw102 : k0_chk102 v342 v1146), ∀ a x, ((![v342, v1146] : Fin 2 → IVec S16 32) a x).toNat < S1x100000.size a := fun v342 v1146 k0_hw102 => k0_hw102
def k0_off265 (k0_t27 : Fin k0_t27_loop.trips) : Fin 2 → Nat :=
  let c0_i32_1181 : BitVec 32 := 0#32
  let v1148 : Index := Scalar.indexCast c0_i32_1181
  let c0_i32_390 : BitVec 32 := 0#32
  let c1_i32_392 : BitVec 32 := 1#32
  let arg22 : BitVec 32 := Scf.iv c0_i32_390 c1_i32_392 k0_t27
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off266 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_383 : BitVec 32 := 0#32
  let v337 : BitVec 32 := Scalar.addi v2 c0_i32_383
  let c0_i32_394 : BitVec 32 := 0#32
  ![13, v337.toNat, 0]
def k0_off267 (i : grid0.Coords) : Fin 3 → Nat :=
  let c12_i32_397 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_396 : BitVec 32 := 1#32
  let v348 : BitVec 32 := Scalar.addi v2 c1_i32_396
  let c0_i32_1171_r28 : BitVec 32 := 0#32
  ![12, v348.toNat, 0]
def k0_off268 (i : grid0.Coords) : Fin 3 → Nat :=
  let c12_i32_398 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_366 : BitVec 32 := 1#32
  let v322 : BitVec 32 := Scalar.addi v2 c1_i32_366
  let c0_i32_399 : BitVec 32 := 0#32
  ![12, v322.toNat, 0]
@[reducible] def k0_t28_loop : Scf.Loop 32 :=
  let c0_i32_403 : BitVec 32 := 0#32
  let c64_i32_404 : BitVec 32 := 64#32
  let v354 : BitVec 32 := Scalar.addi c0_i32_403 c64_i32_404
  let c1_i32_405 : BitVec 32 := 1#32
  ⟨c0_i32_403, v354, c1_i32_405⟩
def k0_off269 (k0_t28 : Fin k0_t28_loop.trips) : Fin 1 → Nat :=
  let c0_i32_403 : BitVec 32 := 0#32
  let c1_i32_405 : BitVec 32 := 1#32
  let arg22 : BitVec 32 := Scf.iv c0_i32_403 c1_i32_405 k0_t28
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk103 (v353 : IVec S16 32) (v1122 : IVec S16 32) : Prop :=
  (∀ a x, ((![v353, v1122] : Fin 2 → IVec S16 32) a x).toNat < S1x100000.size a)
instance k0_chk103.dec : ∀ (v353 : IVec S16 32) (v1122 : IVec S16 32), Decidable (k0_chk103 v353 v1122) := fun v353 v1122 => decidable_of_iff' _ (Iff.of_eq (k0_chk103.eq_1 v353 v1122))
theorem k0_idx103_inb : ∀ (v353 : IVec S16 32) (v1122 : IVec S16 32) (k0_hw103 : k0_chk103 v353 v1122), ∀ a x, ((![v353, v1122] : Fin 2 → IVec S16 32) a x).toNat < S1x100000.size a := fun v353 v1122 k0_hw103 => k0_hw103
def k0_off270 (k0_t28 : Fin k0_t28_loop.trips) : Fin 2 → Nat :=
  let c0_i32_1173 : BitVec 32 := 0#32
  let v1124 : Index := Scalar.indexCast c0_i32_1173
  let c0_i32_403 : BitVec 32 := 0#32
  let c1_i32_405 : BitVec 32 := 1#32
  let arg22 : BitVec 32 := Scf.iv c0_i32_403 c1_i32_405 k0_t28
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off271 (k0_t28 : Fin k0_t28_loop.trips) : Fin 1 → Nat :=
  let c0_i32_403 : BitVec 32 := 0#32
  let c1_i32_405 : BitVec 32 := 1#32
  let arg22 : BitVec 32 := Scf.iv c0_i32_403 c1_i32_405 k0_t28
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk104 (v353 : IVec S16 32) (v1130 : IVec S16 32) : Prop :=
  (∀ a x, ((![v353, v1130] : Fin 2 → IVec S16 32) a x).toNat < S1x100000.size a)
instance k0_chk104.dec : ∀ (v353 : IVec S16 32) (v1130 : IVec S16 32), Decidable (k0_chk104 v353 v1130) := fun v353 v1130 => decidable_of_iff' _ (Iff.of_eq (k0_chk104.eq_1 v353 v1130))
theorem k0_idx104_inb : ∀ (v353 : IVec S16 32) (v1130 : IVec S16 32) (k0_hw104 : k0_chk104 v353 v1130), ∀ a x, ((![v353, v1130] : Fin 2 → IVec S16 32) a x).toNat < S1x100000.size a := fun v353 v1130 k0_hw104 => k0_hw104
def k0_off272 (k0_t28 : Fin k0_t28_loop.trips) : Fin 2 → Nat :=
  let c0_i32_1176 : BitVec 32 := 0#32
  let v1132 : Index := Scalar.indexCast c0_i32_1176
  let c0_i32_403 : BitVec 32 := 0#32
  let c1_i32_405 : BitVec 32 := 1#32
  let arg22 : BitVec 32 := Scf.iv c0_i32_403 c1_i32_405 k0_t28
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off273 (k0_t28 : Fin k0_t28_loop.trips) : Fin 1 → Nat :=
  let c0_i32_403 : BitVec 32 := 0#32
  let c1_i32_405 : BitVec 32 := 1#32
  let arg22 : BitVec 32 := Scf.iv c0_i32_403 c1_i32_405 k0_t28
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk105 (v353 : IVec S16 32) (v1138 : IVec S16 32) : Prop :=
  (∀ a x, ((![v353, v1138] : Fin 2 → IVec S16 32) a x).toNat < S1x100000.size a)
instance k0_chk105.dec : ∀ (v353 : IVec S16 32) (v1138 : IVec S16 32), Decidable (k0_chk105 v353 v1138) := fun v353 v1138 => decidable_of_iff' _ (Iff.of_eq (k0_chk105.eq_1 v353 v1138))
theorem k0_idx105_inb : ∀ (v353 : IVec S16 32) (v1138 : IVec S16 32) (k0_hw105 : k0_chk105 v353 v1138), ∀ a x, ((![v353, v1138] : Fin 2 → IVec S16 32) a x).toNat < S1x100000.size a := fun v353 v1138 k0_hw105 => k0_hw105
def k0_off274 (k0_t28 : Fin k0_t28_loop.trips) : Fin 2 → Nat :=
  let c0_i32_1179 : BitVec 32 := 0#32
  let v1140 : Index := Scalar.indexCast c0_i32_1179
  let c0_i32_403 : BitVec 32 := 0#32
  let c1_i32_405 : BitVec 32 := 1#32
  let arg22 : BitVec 32 := Scf.iv c0_i32_403 c1_i32_405 k0_t28
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off275 (k0_t28 : Fin k0_t28_loop.trips) : Fin 1 → Nat :=
  let c0_i32_403 : BitVec 32 := 0#32
  let c1_i32_405 : BitVec 32 := 1#32
  let arg22 : BitVec 32 := Scf.iv c0_i32_403 c1_i32_405 k0_t28
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk106 (v353 : IVec S16 32) (v1146 : IVec S16 32) : Prop :=
  (∀ a x, ((![v353, v1146] : Fin 2 → IVec S16 32) a x).toNat < S1x100000.size a)
instance k0_chk106.dec : ∀ (v353 : IVec S16 32) (v1146 : IVec S16 32), Decidable (k0_chk106 v353 v1146) := fun v353 v1146 => decidable_of_iff' _ (Iff.of_eq (k0_chk106.eq_1 v353 v1146))
theorem k0_idx106_inb : ∀ (v353 : IVec S16 32) (v1146 : IVec S16 32) (k0_hw106 : k0_chk106 v353 v1146), ∀ a x, ((![v353, v1146] : Fin 2 → IVec S16 32) a x).toNat < S1x100000.size a := fun v353 v1146 k0_hw106 => k0_hw106
def k0_off276 (k0_t28 : Fin k0_t28_loop.trips) : Fin 2 → Nat :=
  let c0_i32_1181 : BitVec 32 := 0#32
  let v1148 : Index := Scalar.indexCast c0_i32_1181
  let c0_i32_403 : BitVec 32 := 0#32
  let c1_i32_405 : BitVec 32 := 1#32
  let arg22 : BitVec 32 := Scf.iv c0_i32_403 c1_i32_405 k0_t28
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off277 (i : grid0.Coords) (c1_i32_396 : BitVec 32) : Fin 3 → Nat :=
  let c13_i32_407 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v348 : BitVec 32 := Scalar.addi v2 c1_i32_396
  let c0_i32_408 : BitVec 32 := 0#32
  ![13, v348.toNat, 0]
def k0_off278 (i : grid0.Coords) : Fin 3 → Nat :=
  let c13_i32_414 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_413 : BitVec 32 := 0#32
  let v363 : BitVec 32 := Scalar.addi v2 c0_i32_413
  let c0_i32_1171_r29 : BitVec 32 := 0#32
  ![13, v363.toNat, 0]
@[reducible] def k0_t29_loop : Scf.Loop 32 :=
  let c0_i32_420 : BitVec 32 := 0#32
  let c64_i32_421 : BitVec 32 := 64#32
  let v369 : BitVec 32 := Scalar.addi c0_i32_420 c64_i32_421
  let c1_i32_422 : BitVec 32 := 1#32
  ⟨c0_i32_420, v369, c1_i32_422⟩
def k0_off279 (k0_t29 : Fin k0_t29_loop.trips) : Fin 1 → Nat :=
  let c0_i32_420 : BitVec 32 := 0#32
  let c1_i32_422 : BitVec 32 := 1#32
  let arg22 : BitVec 32 := Scf.iv c0_i32_420 c1_i32_422 k0_t29
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk107 (v368 : IVec S16 32) (v1122 : IVec S16 32) : Prop :=
  (∀ a x, ((![v368, v1122] : Fin 2 → IVec S16 32) a x).toNat < S1x100000.size a)
instance k0_chk107.dec : ∀ (v368 : IVec S16 32) (v1122 : IVec S16 32), Decidable (k0_chk107 v368 v1122) := fun v368 v1122 => decidable_of_iff' _ (Iff.of_eq (k0_chk107.eq_1 v368 v1122))
theorem k0_idx107_inb : ∀ (v368 : IVec S16 32) (v1122 : IVec S16 32) (k0_hw107 : k0_chk107 v368 v1122), ∀ a x, ((![v368, v1122] : Fin 2 → IVec S16 32) a x).toNat < S1x100000.size a := fun v368 v1122 k0_hw107 => k0_hw107
def k0_off280 (k0_t29 : Fin k0_t29_loop.trips) : Fin 2 → Nat :=
  let c0_i32_1173 : BitVec 32 := 0#32
  let v1124 : Index := Scalar.indexCast c0_i32_1173
  let c0_i32_420 : BitVec 32 := 0#32
  let c1_i32_422 : BitVec 32 := 1#32
  let arg22 : BitVec 32 := Scf.iv c0_i32_420 c1_i32_422 k0_t29
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off281 (k0_t29 : Fin k0_t29_loop.trips) : Fin 1 → Nat :=
  let c0_i32_420 : BitVec 32 := 0#32
  let c1_i32_422 : BitVec 32 := 1#32
  let arg22 : BitVec 32 := Scf.iv c0_i32_420 c1_i32_422 k0_t29
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk108 (v368 : IVec S16 32) (v1130 : IVec S16 32) : Prop :=
  (∀ a x, ((![v368, v1130] : Fin 2 → IVec S16 32) a x).toNat < S1x100000.size a)
instance k0_chk108.dec : ∀ (v368 : IVec S16 32) (v1130 : IVec S16 32), Decidable (k0_chk108 v368 v1130) := fun v368 v1130 => decidable_of_iff' _ (Iff.of_eq (k0_chk108.eq_1 v368 v1130))
theorem k0_idx108_inb : ∀ (v368 : IVec S16 32) (v1130 : IVec S16 32) (k0_hw108 : k0_chk108 v368 v1130), ∀ a x, ((![v368, v1130] : Fin 2 → IVec S16 32) a x).toNat < S1x100000.size a := fun v368 v1130 k0_hw108 => k0_hw108
def k0_off282 (k0_t29 : Fin k0_t29_loop.trips) : Fin 2 → Nat :=
  let c0_i32_1176 : BitVec 32 := 0#32
  let v1132 : Index := Scalar.indexCast c0_i32_1176
  let c0_i32_420 : BitVec 32 := 0#32
  let c1_i32_422 : BitVec 32 := 1#32
  let arg22 : BitVec 32 := Scf.iv c0_i32_420 c1_i32_422 k0_t29
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off283 (k0_t29 : Fin k0_t29_loop.trips) : Fin 1 → Nat :=
  let c0_i32_420 : BitVec 32 := 0#32
  let c1_i32_422 : BitVec 32 := 1#32
  let arg22 : BitVec 32 := Scf.iv c0_i32_420 c1_i32_422 k0_t29
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk109 (v368 : IVec S16 32) (v1138 : IVec S16 32) : Prop :=
  (∀ a x, ((![v368, v1138] : Fin 2 → IVec S16 32) a x).toNat < S1x100000.size a)
instance k0_chk109.dec : ∀ (v368 : IVec S16 32) (v1138 : IVec S16 32), Decidable (k0_chk109 v368 v1138) := fun v368 v1138 => decidable_of_iff' _ (Iff.of_eq (k0_chk109.eq_1 v368 v1138))
theorem k0_idx109_inb : ∀ (v368 : IVec S16 32) (v1138 : IVec S16 32) (k0_hw109 : k0_chk109 v368 v1138), ∀ a x, ((![v368, v1138] : Fin 2 → IVec S16 32) a x).toNat < S1x100000.size a := fun v368 v1138 k0_hw109 => k0_hw109
def k0_off284 (k0_t29 : Fin k0_t29_loop.trips) : Fin 2 → Nat :=
  let c0_i32_1179 : BitVec 32 := 0#32
  let v1140 : Index := Scalar.indexCast c0_i32_1179
  let c0_i32_420 : BitVec 32 := 0#32
  let c1_i32_422 : BitVec 32 := 1#32
  let arg22 : BitVec 32 := Scf.iv c0_i32_420 c1_i32_422 k0_t29
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off285 (k0_t29 : Fin k0_t29_loop.trips) : Fin 1 → Nat :=
  let c0_i32_420 : BitVec 32 := 0#32
  let c1_i32_422 : BitVec 32 := 1#32
  let arg22 : BitVec 32 := Scf.iv c0_i32_420 c1_i32_422 k0_t29
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk110 (v368 : IVec S16 32) (v1146 : IVec S16 32) : Prop :=
  (∀ a x, ((![v368, v1146] : Fin 2 → IVec S16 32) a x).toNat < S1x100000.size a)
instance k0_chk110.dec : ∀ (v368 : IVec S16 32) (v1146 : IVec S16 32), Decidable (k0_chk110 v368 v1146) := fun v368 v1146 => decidable_of_iff' _ (Iff.of_eq (k0_chk110.eq_1 v368 v1146))
theorem k0_idx110_inb : ∀ (v368 : IVec S16 32) (v1146 : IVec S16 32) (k0_hw110 : k0_chk110 v368 v1146), ∀ a x, ((![v368, v1146] : Fin 2 → IVec S16 32) a x).toNat < S1x100000.size a := fun v368 v1146 k0_hw110 => k0_hw110
def k0_off286 (k0_t29 : Fin k0_t29_loop.trips) : Fin 2 → Nat :=
  let c0_i32_1181 : BitVec 32 := 0#32
  let v1148 : Index := Scalar.indexCast c0_i32_1181
  let c0_i32_420 : BitVec 32 := 0#32
  let c1_i32_422 : BitVec 32 := 1#32
  let arg22 : BitVec 32 := Scf.iv c0_i32_420 c1_i32_422 k0_t29
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off287 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_413 : BitVec 32 := 0#32
  let v363 : BitVec 32 := Scalar.addi v2 c0_i32_413
  let c0_i32_424 : BitVec 32 := 0#32
  ![14, v363.toNat, 0]
def k0_off288 (i : grid0.Coords) : Fin 3 → Nat :=
  let c13_i32_427 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_426 : BitVec 32 := 1#32
  let v374 : BitVec 32 := Scalar.addi v2 c1_i32_426
  let c0_i32_1171_r30 : BitVec 32 := 0#32
  ![13, v374.toNat, 0]
def k0_off289 (i : grid0.Coords) : Fin 3 → Nat :=
  let c13_i32_428 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_396 : BitVec 32 := 1#32
  let v348 : BitVec 32 := Scalar.addi v2 c1_i32_396
  let c0_i32_429 : BitVec 32 := 0#32
  ![13, v348.toNat, 0]
@[reducible] def k0_t30_loop : Scf.Loop 32 :=
  let c0_i32_433 : BitVec 32 := 0#32
  let c64_i32_434 : BitVec 32 := 64#32
  let v380 : BitVec 32 := Scalar.addi c0_i32_433 c64_i32_434
  let c1_i32_435 : BitVec 32 := 1#32
  ⟨c0_i32_433, v380, c1_i32_435⟩
def k0_off290 (k0_t30 : Fin k0_t30_loop.trips) : Fin 1 → Nat :=
  let c0_i32_433 : BitVec 32 := 0#32
  let c1_i32_435 : BitVec 32 := 1#32
  let arg22 : BitVec 32 := Scf.iv c0_i32_433 c1_i32_435 k0_t30
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk111 (v379 : IVec S16 32) (v1122 : IVec S16 32) : Prop :=
  (∀ a x, ((![v379, v1122] : Fin 2 → IVec S16 32) a x).toNat < S1x100000.size a)
instance k0_chk111.dec : ∀ (v379 : IVec S16 32) (v1122 : IVec S16 32), Decidable (k0_chk111 v379 v1122) := fun v379 v1122 => decidable_of_iff' _ (Iff.of_eq (k0_chk111.eq_1 v379 v1122))
theorem k0_idx111_inb : ∀ (v379 : IVec S16 32) (v1122 : IVec S16 32) (k0_hw111 : k0_chk111 v379 v1122), ∀ a x, ((![v379, v1122] : Fin 2 → IVec S16 32) a x).toNat < S1x100000.size a := fun v379 v1122 k0_hw111 => k0_hw111
def k0_off291 (k0_t30 : Fin k0_t30_loop.trips) : Fin 2 → Nat :=
  let c0_i32_1173 : BitVec 32 := 0#32
  let v1124 : Index := Scalar.indexCast c0_i32_1173
  let c0_i32_433 : BitVec 32 := 0#32
  let c1_i32_435 : BitVec 32 := 1#32
  let arg22 : BitVec 32 := Scf.iv c0_i32_433 c1_i32_435 k0_t30
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off292 (k0_t30 : Fin k0_t30_loop.trips) : Fin 1 → Nat :=
  let c0_i32_433 : BitVec 32 := 0#32
  let c1_i32_435 : BitVec 32 := 1#32
  let arg22 : BitVec 32 := Scf.iv c0_i32_433 c1_i32_435 k0_t30
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk112 (v379 : IVec S16 32) (v1130 : IVec S16 32) : Prop :=
  (∀ a x, ((![v379, v1130] : Fin 2 → IVec S16 32) a x).toNat < S1x100000.size a)
instance k0_chk112.dec : ∀ (v379 : IVec S16 32) (v1130 : IVec S16 32), Decidable (k0_chk112 v379 v1130) := fun v379 v1130 => decidable_of_iff' _ (Iff.of_eq (k0_chk112.eq_1 v379 v1130))
theorem k0_idx112_inb : ∀ (v379 : IVec S16 32) (v1130 : IVec S16 32) (k0_hw112 : k0_chk112 v379 v1130), ∀ a x, ((![v379, v1130] : Fin 2 → IVec S16 32) a x).toNat < S1x100000.size a := fun v379 v1130 k0_hw112 => k0_hw112
def k0_off293 (k0_t30 : Fin k0_t30_loop.trips) : Fin 2 → Nat :=
  let c0_i32_1176 : BitVec 32 := 0#32
  let v1132 : Index := Scalar.indexCast c0_i32_1176
  let c0_i32_433 : BitVec 32 := 0#32
  let c1_i32_435 : BitVec 32 := 1#32
  let arg22 : BitVec 32 := Scf.iv c0_i32_433 c1_i32_435 k0_t30
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off294 (k0_t30 : Fin k0_t30_loop.trips) : Fin 1 → Nat :=
  let c0_i32_433 : BitVec 32 := 0#32
  let c1_i32_435 : BitVec 32 := 1#32
  let arg22 : BitVec 32 := Scf.iv c0_i32_433 c1_i32_435 k0_t30
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk113 (v379 : IVec S16 32) (v1138 : IVec S16 32) : Prop :=
  (∀ a x, ((![v379, v1138] : Fin 2 → IVec S16 32) a x).toNat < S1x100000.size a)
instance k0_chk113.dec : ∀ (v379 : IVec S16 32) (v1138 : IVec S16 32), Decidable (k0_chk113 v379 v1138) := fun v379 v1138 => decidable_of_iff' _ (Iff.of_eq (k0_chk113.eq_1 v379 v1138))
theorem k0_idx113_inb : ∀ (v379 : IVec S16 32) (v1138 : IVec S16 32) (k0_hw113 : k0_chk113 v379 v1138), ∀ a x, ((![v379, v1138] : Fin 2 → IVec S16 32) a x).toNat < S1x100000.size a := fun v379 v1138 k0_hw113 => k0_hw113
def k0_off295 (k0_t30 : Fin k0_t30_loop.trips) : Fin 2 → Nat :=
  let c0_i32_1179 : BitVec 32 := 0#32
  let v1140 : Index := Scalar.indexCast c0_i32_1179
  let c0_i32_433 : BitVec 32 := 0#32
  let c1_i32_435 : BitVec 32 := 1#32
  let arg22 : BitVec 32 := Scf.iv c0_i32_433 c1_i32_435 k0_t30
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off296 (k0_t30 : Fin k0_t30_loop.trips) : Fin 1 → Nat :=
  let c0_i32_433 : BitVec 32 := 0#32
  let c1_i32_435 : BitVec 32 := 1#32
  let arg22 : BitVec 32 := Scf.iv c0_i32_433 c1_i32_435 k0_t30
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk114 (v379 : IVec S16 32) (v1146 : IVec S16 32) : Prop :=
  (∀ a x, ((![v379, v1146] : Fin 2 → IVec S16 32) a x).toNat < S1x100000.size a)
instance k0_chk114.dec : ∀ (v379 : IVec S16 32) (v1146 : IVec S16 32), Decidable (k0_chk114 v379 v1146) := fun v379 v1146 => decidable_of_iff' _ (Iff.of_eq (k0_chk114.eq_1 v379 v1146))
theorem k0_idx114_inb : ∀ (v379 : IVec S16 32) (v1146 : IVec S16 32) (k0_hw114 : k0_chk114 v379 v1146), ∀ a x, ((![v379, v1146] : Fin 2 → IVec S16 32) a x).toNat < S1x100000.size a := fun v379 v1146 k0_hw114 => k0_hw114
def k0_off297 (k0_t30 : Fin k0_t30_loop.trips) : Fin 2 → Nat :=
  let c0_i32_1181 : BitVec 32 := 0#32
  let v1148 : Index := Scalar.indexCast c0_i32_1181
  let c0_i32_433 : BitVec 32 := 0#32
  let c1_i32_435 : BitVec 32 := 1#32
  let arg22 : BitVec 32 := Scf.iv c0_i32_433 c1_i32_435 k0_t30
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off298 (i : grid0.Coords) (c1_i32_426 : BitVec 32) : Fin 3 → Nat :=
  let c14_i32_437 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v374 : BitVec 32 := Scalar.addi v2 c1_i32_426
  let c0_i32_438 : BitVec 32 := 0#32
  ![14, v374.toNat, 0]
def k0_off299 (i : grid0.Coords) : Fin 3 → Nat :=
  let c14_i32_444 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_443 : BitVec 32 := 0#32
  let v389 : BitVec 32 := Scalar.addi v2 c0_i32_443
  let c0_i32_1171_r31 : BitVec 32 := 0#32
  ![14, v389.toNat, 0]
@[reducible] def k0_t31_loop : Scf.Loop 32 :=
  let c0_i32_450 : BitVec 32 := 0#32
  let c64_i32_451 : BitVec 32 := 64#32
  let v395 : BitVec 32 := Scalar.addi c0_i32_450 c64_i32_451
  let c1_i32_452 : BitVec 32 := 1#32
  ⟨c0_i32_450, v395, c1_i32_452⟩
def k0_off300 (k0_t31 : Fin k0_t31_loop.trips) : Fin 1 → Nat :=
  let c0_i32_450 : BitVec 32 := 0#32
  let c1_i32_452 : BitVec 32 := 1#32
  let arg22 : BitVec 32 := Scf.iv c0_i32_450 c1_i32_452 k0_t31
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk115 (v394 : IVec S16 32) (v1122 : IVec S16 32) : Prop :=
  (∀ a x, ((![v394, v1122] : Fin 2 → IVec S16 32) a x).toNat < S1x100000.size a)
instance k0_chk115.dec : ∀ (v394 : IVec S16 32) (v1122 : IVec S16 32), Decidable (k0_chk115 v394 v1122) := fun v394 v1122 => decidable_of_iff' _ (Iff.of_eq (k0_chk115.eq_1 v394 v1122))
theorem k0_idx115_inb : ∀ (v394 : IVec S16 32) (v1122 : IVec S16 32) (k0_hw115 : k0_chk115 v394 v1122), ∀ a x, ((![v394, v1122] : Fin 2 → IVec S16 32) a x).toNat < S1x100000.size a := fun v394 v1122 k0_hw115 => k0_hw115
def k0_off301 (k0_t31 : Fin k0_t31_loop.trips) : Fin 2 → Nat :=
  let c0_i32_1173 : BitVec 32 := 0#32
  let v1124 : Index := Scalar.indexCast c0_i32_1173
  let c0_i32_450 : BitVec 32 := 0#32
  let c1_i32_452 : BitVec 32 := 1#32
  let arg22 : BitVec 32 := Scf.iv c0_i32_450 c1_i32_452 k0_t31
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off302 (k0_t31 : Fin k0_t31_loop.trips) : Fin 1 → Nat :=
  let c0_i32_450 : BitVec 32 := 0#32
  let c1_i32_452 : BitVec 32 := 1#32
  let arg22 : BitVec 32 := Scf.iv c0_i32_450 c1_i32_452 k0_t31
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk116 (v394 : IVec S16 32) (v1130 : IVec S16 32) : Prop :=
  (∀ a x, ((![v394, v1130] : Fin 2 → IVec S16 32) a x).toNat < S1x100000.size a)
instance k0_chk116.dec : ∀ (v394 : IVec S16 32) (v1130 : IVec S16 32), Decidable (k0_chk116 v394 v1130) := fun v394 v1130 => decidable_of_iff' _ (Iff.of_eq (k0_chk116.eq_1 v394 v1130))
theorem k0_idx116_inb : ∀ (v394 : IVec S16 32) (v1130 : IVec S16 32) (k0_hw116 : k0_chk116 v394 v1130), ∀ a x, ((![v394, v1130] : Fin 2 → IVec S16 32) a x).toNat < S1x100000.size a := fun v394 v1130 k0_hw116 => k0_hw116
def k0_off303 (k0_t31 : Fin k0_t31_loop.trips) : Fin 2 → Nat :=
  let c0_i32_1176 : BitVec 32 := 0#32
  let v1132 : Index := Scalar.indexCast c0_i32_1176
  let c0_i32_450 : BitVec 32 := 0#32
  let c1_i32_452 : BitVec 32 := 1#32
  let arg22 : BitVec 32 := Scf.iv c0_i32_450 c1_i32_452 k0_t31
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off304 (k0_t31 : Fin k0_t31_loop.trips) : Fin 1 → Nat :=
  let c0_i32_450 : BitVec 32 := 0#32
  let c1_i32_452 : BitVec 32 := 1#32
  let arg22 : BitVec 32 := Scf.iv c0_i32_450 c1_i32_452 k0_t31
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk117 (v394 : IVec S16 32) (v1138 : IVec S16 32) : Prop :=
  (∀ a x, ((![v394, v1138] : Fin 2 → IVec S16 32) a x).toNat < S1x100000.size a)
instance k0_chk117.dec : ∀ (v394 : IVec S16 32) (v1138 : IVec S16 32), Decidable (k0_chk117 v394 v1138) := fun v394 v1138 => decidable_of_iff' _ (Iff.of_eq (k0_chk117.eq_1 v394 v1138))
theorem k0_idx117_inb : ∀ (v394 : IVec S16 32) (v1138 : IVec S16 32) (k0_hw117 : k0_chk117 v394 v1138), ∀ a x, ((![v394, v1138] : Fin 2 → IVec S16 32) a x).toNat < S1x100000.size a := fun v394 v1138 k0_hw117 => k0_hw117
def k0_off305 (k0_t31 : Fin k0_t31_loop.trips) : Fin 2 → Nat :=
  let c0_i32_1179 : BitVec 32 := 0#32
  let v1140 : Index := Scalar.indexCast c0_i32_1179
  let c0_i32_450 : BitVec 32 := 0#32
  let c1_i32_452 : BitVec 32 := 1#32
  let arg22 : BitVec 32 := Scf.iv c0_i32_450 c1_i32_452 k0_t31
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off306 (k0_t31 : Fin k0_t31_loop.trips) : Fin 1 → Nat :=
  let c0_i32_450 : BitVec 32 := 0#32
  let c1_i32_452 : BitVec 32 := 1#32
  let arg22 : BitVec 32 := Scf.iv c0_i32_450 c1_i32_452 k0_t31
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk118 (v394 : IVec S16 32) (v1146 : IVec S16 32) : Prop :=
  (∀ a x, ((![v394, v1146] : Fin 2 → IVec S16 32) a x).toNat < S1x100000.size a)
instance k0_chk118.dec : ∀ (v394 : IVec S16 32) (v1146 : IVec S16 32), Decidable (k0_chk118 v394 v1146) := fun v394 v1146 => decidable_of_iff' _ (Iff.of_eq (k0_chk118.eq_1 v394 v1146))
theorem k0_idx118_inb : ∀ (v394 : IVec S16 32) (v1146 : IVec S16 32) (k0_hw118 : k0_chk118 v394 v1146), ∀ a x, ((![v394, v1146] : Fin 2 → IVec S16 32) a x).toNat < S1x100000.size a := fun v394 v1146 k0_hw118 => k0_hw118
def k0_off307 (k0_t31 : Fin k0_t31_loop.trips) : Fin 2 → Nat :=
  let c0_i32_1181 : BitVec 32 := 0#32
  let v1148 : Index := Scalar.indexCast c0_i32_1181
  let c0_i32_450 : BitVec 32 := 0#32
  let c1_i32_452 : BitVec 32 := 1#32
  let arg22 : BitVec 32 := Scf.iv c0_i32_450 c1_i32_452 k0_t31
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off308 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_443 : BitVec 32 := 0#32
  let v389 : BitVec 32 := Scalar.addi v2 c0_i32_443
  let c0_i32_454 : BitVec 32 := 0#32
  ![15, v389.toNat, 0]
def k0_off309 (i : grid0.Coords) : Fin 3 → Nat :=
  let c14_i32_457 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_456 : BitVec 32 := 1#32
  let v400 : BitVec 32 := Scalar.addi v2 c1_i32_456
  let c0_i32_1171_r32 : BitVec 32 := 0#32
  ![14, v400.toNat, 0]
def k0_off310 (i : grid0.Coords) : Fin 3 → Nat :=
  let c14_i32_458 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_426 : BitVec 32 := 1#32
  let v374 : BitVec 32 := Scalar.addi v2 c1_i32_426
  let c0_i32_459 : BitVec 32 := 0#32
  ![14, v374.toNat, 0]
@[reducible] def k0_t32_loop : Scf.Loop 32 :=
  let c0_i32_463 : BitVec 32 := 0#32
  let c64_i32_464 : BitVec 32 := 64#32
  let v406 : BitVec 32 := Scalar.addi c0_i32_463 c64_i32_464
  let c1_i32_465 : BitVec 32 := 1#32
  ⟨c0_i32_463, v406, c1_i32_465⟩
def k0_off311 (k0_t32 : Fin k0_t32_loop.trips) : Fin 1 → Nat :=
  let c0_i32_463 : BitVec 32 := 0#32
  let c1_i32_465 : BitVec 32 := 1#32
  let arg22 : BitVec 32 := Scf.iv c0_i32_463 c1_i32_465 k0_t32
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk119 (v405 : IVec S16 32) (v1122 : IVec S16 32) : Prop :=
  (∀ a x, ((![v405, v1122] : Fin 2 → IVec S16 32) a x).toNat < S1x100000.size a)
instance k0_chk119.dec : ∀ (v405 : IVec S16 32) (v1122 : IVec S16 32), Decidable (k0_chk119 v405 v1122) := fun v405 v1122 => decidable_of_iff' _ (Iff.of_eq (k0_chk119.eq_1 v405 v1122))
theorem k0_idx119_inb : ∀ (v405 : IVec S16 32) (v1122 : IVec S16 32) (k0_hw119 : k0_chk119 v405 v1122), ∀ a x, ((![v405, v1122] : Fin 2 → IVec S16 32) a x).toNat < S1x100000.size a := fun v405 v1122 k0_hw119 => k0_hw119
def k0_off312 (k0_t32 : Fin k0_t32_loop.trips) : Fin 2 → Nat :=
  let c0_i32_1173 : BitVec 32 := 0#32
  let v1124 : Index := Scalar.indexCast c0_i32_1173
  let c0_i32_463 : BitVec 32 := 0#32
  let c1_i32_465 : BitVec 32 := 1#32
  let arg22 : BitVec 32 := Scf.iv c0_i32_463 c1_i32_465 k0_t32
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off313 (k0_t32 : Fin k0_t32_loop.trips) : Fin 1 → Nat :=
  let c0_i32_463 : BitVec 32 := 0#32
  let c1_i32_465 : BitVec 32 := 1#32
  let arg22 : BitVec 32 := Scf.iv c0_i32_463 c1_i32_465 k0_t32
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk120 (v405 : IVec S16 32) (v1130 : IVec S16 32) : Prop :=
  (∀ a x, ((![v405, v1130] : Fin 2 → IVec S16 32) a x).toNat < S1x100000.size a)
instance k0_chk120.dec : ∀ (v405 : IVec S16 32) (v1130 : IVec S16 32), Decidable (k0_chk120 v405 v1130) := fun v405 v1130 => decidable_of_iff' _ (Iff.of_eq (k0_chk120.eq_1 v405 v1130))
theorem k0_idx120_inb : ∀ (v405 : IVec S16 32) (v1130 : IVec S16 32) (k0_hw120 : k0_chk120 v405 v1130), ∀ a x, ((![v405, v1130] : Fin 2 → IVec S16 32) a x).toNat < S1x100000.size a := fun v405 v1130 k0_hw120 => k0_hw120
def k0_off314 (k0_t32 : Fin k0_t32_loop.trips) : Fin 2 → Nat :=
  let c0_i32_1176 : BitVec 32 := 0#32
  let v1132 : Index := Scalar.indexCast c0_i32_1176
  let c0_i32_463 : BitVec 32 := 0#32
  let c1_i32_465 : BitVec 32 := 1#32
  let arg22 : BitVec 32 := Scf.iv c0_i32_463 c1_i32_465 k0_t32
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off315 (k0_t32 : Fin k0_t32_loop.trips) : Fin 1 → Nat :=
  let c0_i32_463 : BitVec 32 := 0#32
  let c1_i32_465 : BitVec 32 := 1#32
  let arg22 : BitVec 32 := Scf.iv c0_i32_463 c1_i32_465 k0_t32
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk121 (v405 : IVec S16 32) (v1138 : IVec S16 32) : Prop :=
  (∀ a x, ((![v405, v1138] : Fin 2 → IVec S16 32) a x).toNat < S1x100000.size a)
instance k0_chk121.dec : ∀ (v405 : IVec S16 32) (v1138 : IVec S16 32), Decidable (k0_chk121 v405 v1138) := fun v405 v1138 => decidable_of_iff' _ (Iff.of_eq (k0_chk121.eq_1 v405 v1138))
theorem k0_idx121_inb : ∀ (v405 : IVec S16 32) (v1138 : IVec S16 32) (k0_hw121 : k0_chk121 v405 v1138), ∀ a x, ((![v405, v1138] : Fin 2 → IVec S16 32) a x).toNat < S1x100000.size a := fun v405 v1138 k0_hw121 => k0_hw121
def k0_off316 (k0_t32 : Fin k0_t32_loop.trips) : Fin 2 → Nat :=
  let c0_i32_1179 : BitVec 32 := 0#32
  let v1140 : Index := Scalar.indexCast c0_i32_1179
  let c0_i32_463 : BitVec 32 := 0#32
  let c1_i32_465 : BitVec 32 := 1#32
  let arg22 : BitVec 32 := Scf.iv c0_i32_463 c1_i32_465 k0_t32
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off317 (k0_t32 : Fin k0_t32_loop.trips) : Fin 1 → Nat :=
  let c0_i32_463 : BitVec 32 := 0#32
  let c1_i32_465 : BitVec 32 := 1#32
  let arg22 : BitVec 32 := Scf.iv c0_i32_463 c1_i32_465 k0_t32
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk122 (v405 : IVec S16 32) (v1146 : IVec S16 32) : Prop :=
  (∀ a x, ((![v405, v1146] : Fin 2 → IVec S16 32) a x).toNat < S1x100000.size a)
instance k0_chk122.dec : ∀ (v405 : IVec S16 32) (v1146 : IVec S16 32), Decidable (k0_chk122 v405 v1146) := fun v405 v1146 => decidable_of_iff' _ (Iff.of_eq (k0_chk122.eq_1 v405 v1146))
theorem k0_idx122_inb : ∀ (v405 : IVec S16 32) (v1146 : IVec S16 32) (k0_hw122 : k0_chk122 v405 v1146), ∀ a x, ((![v405, v1146] : Fin 2 → IVec S16 32) a x).toNat < S1x100000.size a := fun v405 v1146 k0_hw122 => k0_hw122
def k0_off318 (k0_t32 : Fin k0_t32_loop.trips) : Fin 2 → Nat :=
  let c0_i32_1181 : BitVec 32 := 0#32
  let v1148 : Index := Scalar.indexCast c0_i32_1181
  let c0_i32_463 : BitVec 32 := 0#32
  let c1_i32_465 : BitVec 32 := 1#32
  let arg22 : BitVec 32 := Scf.iv c0_i32_463 c1_i32_465 k0_t32
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off319 (i : grid0.Coords) (c1_i32_456 : BitVec 32) : Fin 3 → Nat :=
  let c15_i32_467 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v400 : BitVec 32 := Scalar.addi v2 c1_i32_456
  let c0_i32_468 : BitVec 32 := 0#32
  ![15, v400.toNat, 0]
def k0_off320 (i : grid0.Coords) : Fin 3 → Nat :=
  let c15_i32_474 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_473 : BitVec 32 := 0#32
  let v415 : BitVec 32 := Scalar.addi v2 c0_i32_473
  let c0_i32_1171_r33 : BitVec 32 := 0#32
  ![15, v415.toNat, 0]
@[reducible] def k0_t33_loop : Scf.Loop 32 :=
  let c0_i32_480 : BitVec 32 := 0#32
  let c64_i32_481 : BitVec 32 := 64#32
  let v421 : BitVec 32 := Scalar.addi c0_i32_480 c64_i32_481
  let c1_i32_482 : BitVec 32 := 1#32
  ⟨c0_i32_480, v421, c1_i32_482⟩
def k0_off321 (k0_t33 : Fin k0_t33_loop.trips) : Fin 1 → Nat :=
  let c0_i32_480 : BitVec 32 := 0#32
  let c1_i32_482 : BitVec 32 := 1#32
  let arg22 : BitVec 32 := Scf.iv c0_i32_480 c1_i32_482 k0_t33
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk123 (v420 : IVec S16 32) (v1122 : IVec S16 32) : Prop :=
  (∀ a x, ((![v420, v1122] : Fin 2 → IVec S16 32) a x).toNat < S1x100000.size a)
instance k0_chk123.dec : ∀ (v420 : IVec S16 32) (v1122 : IVec S16 32), Decidable (k0_chk123 v420 v1122) := fun v420 v1122 => decidable_of_iff' _ (Iff.of_eq (k0_chk123.eq_1 v420 v1122))
theorem k0_idx123_inb : ∀ (v420 : IVec S16 32) (v1122 : IVec S16 32) (k0_hw123 : k0_chk123 v420 v1122), ∀ a x, ((![v420, v1122] : Fin 2 → IVec S16 32) a x).toNat < S1x100000.size a := fun v420 v1122 k0_hw123 => k0_hw123
def k0_off322 (k0_t33 : Fin k0_t33_loop.trips) : Fin 2 → Nat :=
  let c0_i32_1173 : BitVec 32 := 0#32
  let v1124 : Index := Scalar.indexCast c0_i32_1173
  let c0_i32_480 : BitVec 32 := 0#32
  let c1_i32_482 : BitVec 32 := 1#32
  let arg22 : BitVec 32 := Scf.iv c0_i32_480 c1_i32_482 k0_t33
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off323 (k0_t33 : Fin k0_t33_loop.trips) : Fin 1 → Nat :=
  let c0_i32_480 : BitVec 32 := 0#32
  let c1_i32_482 : BitVec 32 := 1#32
  let arg22 : BitVec 32 := Scf.iv c0_i32_480 c1_i32_482 k0_t33
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk124 (v420 : IVec S16 32) (v1130 : IVec S16 32) : Prop :=
  (∀ a x, ((![v420, v1130] : Fin 2 → IVec S16 32) a x).toNat < S1x100000.size a)
instance k0_chk124.dec : ∀ (v420 : IVec S16 32) (v1130 : IVec S16 32), Decidable (k0_chk124 v420 v1130) := fun v420 v1130 => decidable_of_iff' _ (Iff.of_eq (k0_chk124.eq_1 v420 v1130))
theorem k0_idx124_inb : ∀ (v420 : IVec S16 32) (v1130 : IVec S16 32) (k0_hw124 : k0_chk124 v420 v1130), ∀ a x, ((![v420, v1130] : Fin 2 → IVec S16 32) a x).toNat < S1x100000.size a := fun v420 v1130 k0_hw124 => k0_hw124
def k0_off324 (k0_t33 : Fin k0_t33_loop.trips) : Fin 2 → Nat :=
  let c0_i32_1176 : BitVec 32 := 0#32
  let v1132 : Index := Scalar.indexCast c0_i32_1176
  let c0_i32_480 : BitVec 32 := 0#32
  let c1_i32_482 : BitVec 32 := 1#32
  let arg22 : BitVec 32 := Scf.iv c0_i32_480 c1_i32_482 k0_t33
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off325 (k0_t33 : Fin k0_t33_loop.trips) : Fin 1 → Nat :=
  let c0_i32_480 : BitVec 32 := 0#32
  let c1_i32_482 : BitVec 32 := 1#32
  let arg22 : BitVec 32 := Scf.iv c0_i32_480 c1_i32_482 k0_t33
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk125 (v420 : IVec S16 32) (v1138 : IVec S16 32) : Prop :=
  (∀ a x, ((![v420, v1138] : Fin 2 → IVec S16 32) a x).toNat < S1x100000.size a)
instance k0_chk125.dec : ∀ (v420 : IVec S16 32) (v1138 : IVec S16 32), Decidable (k0_chk125 v420 v1138) := fun v420 v1138 => decidable_of_iff' _ (Iff.of_eq (k0_chk125.eq_1 v420 v1138))
theorem k0_idx125_inb : ∀ (v420 : IVec S16 32) (v1138 : IVec S16 32) (k0_hw125 : k0_chk125 v420 v1138), ∀ a x, ((![v420, v1138] : Fin 2 → IVec S16 32) a x).toNat < S1x100000.size a := fun v420 v1138 k0_hw125 => k0_hw125
def k0_off326 (k0_t33 : Fin k0_t33_loop.trips) : Fin 2 → Nat :=
  let c0_i32_1179 : BitVec 32 := 0#32
  let v1140 : Index := Scalar.indexCast c0_i32_1179
  let c0_i32_480 : BitVec 32 := 0#32
  let c1_i32_482 : BitVec 32 := 1#32
  let arg22 : BitVec 32 := Scf.iv c0_i32_480 c1_i32_482 k0_t33
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off327 (k0_t33 : Fin k0_t33_loop.trips) : Fin 1 → Nat :=
  let c0_i32_480 : BitVec 32 := 0#32
  let c1_i32_482 : BitVec 32 := 1#32
  let arg22 : BitVec 32 := Scf.iv c0_i32_480 c1_i32_482 k0_t33
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk126 (v420 : IVec S16 32) (v1146 : IVec S16 32) : Prop :=
  (∀ a x, ((![v420, v1146] : Fin 2 → IVec S16 32) a x).toNat < S1x100000.size a)
instance k0_chk126.dec : ∀ (v420 : IVec S16 32) (v1146 : IVec S16 32), Decidable (k0_chk126 v420 v1146) := fun v420 v1146 => decidable_of_iff' _ (Iff.of_eq (k0_chk126.eq_1 v420 v1146))
theorem k0_idx126_inb : ∀ (v420 : IVec S16 32) (v1146 : IVec S16 32) (k0_hw126 : k0_chk126 v420 v1146), ∀ a x, ((![v420, v1146] : Fin 2 → IVec S16 32) a x).toNat < S1x100000.size a := fun v420 v1146 k0_hw126 => k0_hw126
def k0_off328 (k0_t33 : Fin k0_t33_loop.trips) : Fin 2 → Nat :=
  let c0_i32_1181 : BitVec 32 := 0#32
  let v1148 : Index := Scalar.indexCast c0_i32_1181
  let c0_i32_480 : BitVec 32 := 0#32
  let c1_i32_482 : BitVec 32 := 1#32
  let arg22 : BitVec 32 := Scf.iv c0_i32_480 c1_i32_482 k0_t33
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off329 (i : grid0.Coords) : Fin 3 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_473 : BitVec 32 := 0#32
  let v415 : BitVec 32 := Scalar.addi v2 c0_i32_473
  let c0_i32_484 : BitVec 32 := 0#32
  ![16, v415.toNat, 0]
def k0_off330 (i : grid0.Coords) : Fin 3 → Nat :=
  let c15_i32_487 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_486 : BitVec 32 := 1#32
  let v426 : BitVec 32 := Scalar.addi v2 c1_i32_486
  let c0_i32_1171_r34 : BitVec 32 := 0#32
  ![15, v426.toNat, 0]
def k0_off331 (i : grid0.Coords) : Fin 3 → Nat :=
  let c15_i32_488 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_456 : BitVec 32 := 1#32
  let v400 : BitVec 32 := Scalar.addi v2 c1_i32_456
  let c0_i32_489 : BitVec 32 := 0#32
  ![15, v400.toNat, 0]
@[reducible] def k0_t34_loop : Scf.Loop 32 :=
  let c0_i32_493 : BitVec 32 := 0#32
  let c64_i32_494 : BitVec 32 := 64#32
  let v432 : BitVec 32 := Scalar.addi c0_i32_493 c64_i32_494
  let c1_i32_495 : BitVec 32 := 1#32
  ⟨c0_i32_493, v432, c1_i32_495⟩
def k0_off332 (k0_t34 : Fin k0_t34_loop.trips) : Fin 1 → Nat :=
  let c0_i32_493 : BitVec 32 := 0#32
  let c1_i32_495 : BitVec 32 := 1#32
  let arg22 : BitVec 32 := Scf.iv c0_i32_493 c1_i32_495 k0_t34
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk127 (v431 : IVec S16 32) (v1122 : IVec S16 32) : Prop :=
  (∀ a x, ((![v431, v1122] : Fin 2 → IVec S16 32) a x).toNat < S1x100000.size a)
instance k0_chk127.dec : ∀ (v431 : IVec S16 32) (v1122 : IVec S16 32), Decidable (k0_chk127 v431 v1122) := fun v431 v1122 => decidable_of_iff' _ (Iff.of_eq (k0_chk127.eq_1 v431 v1122))
theorem k0_idx127_inb : ∀ (v431 : IVec S16 32) (v1122 : IVec S16 32) (k0_hw127 : k0_chk127 v431 v1122), ∀ a x, ((![v431, v1122] : Fin 2 → IVec S16 32) a x).toNat < S1x100000.size a := fun v431 v1122 k0_hw127 => k0_hw127
def k0_off333 (k0_t34 : Fin k0_t34_loop.trips) : Fin 2 → Nat :=
  let c0_i32_1173 : BitVec 32 := 0#32
  let v1124 : Index := Scalar.indexCast c0_i32_1173
  let c0_i32_493 : BitVec 32 := 0#32
  let c1_i32_495 : BitVec 32 := 1#32
  let arg22 : BitVec 32 := Scf.iv c0_i32_493 c1_i32_495 k0_t34
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off334 (k0_t34 : Fin k0_t34_loop.trips) : Fin 1 → Nat :=
  let c0_i32_493 : BitVec 32 := 0#32
  let c1_i32_495 : BitVec 32 := 1#32
  let arg22 : BitVec 32 := Scf.iv c0_i32_493 c1_i32_495 k0_t34
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk128 (v431 : IVec S16 32) (v1130 : IVec S16 32) : Prop :=
  (∀ a x, ((![v431, v1130] : Fin 2 → IVec S16 32) a x).toNat < S1x100000.size a)
instance k0_chk128.dec : ∀ (v431 : IVec S16 32) (v1130 : IVec S16 32), Decidable (k0_chk128 v431 v1130) := fun v431 v1130 => decidable_of_iff' _ (Iff.of_eq (k0_chk128.eq_1 v431 v1130))
theorem k0_idx128_inb : ∀ (v431 : IVec S16 32) (v1130 : IVec S16 32) (k0_hw128 : k0_chk128 v431 v1130), ∀ a x, ((![v431, v1130] : Fin 2 → IVec S16 32) a x).toNat < S1x100000.size a := fun v431 v1130 k0_hw128 => k0_hw128
def k0_off335 (k0_t34 : Fin k0_t34_loop.trips) : Fin 2 → Nat :=
  let c0_i32_1176 : BitVec 32 := 0#32
  let v1132 : Index := Scalar.indexCast c0_i32_1176
  let c0_i32_493 : BitVec 32 := 0#32
  let c1_i32_495 : BitVec 32 := 1#32
  let arg22 : BitVec 32 := Scf.iv c0_i32_493 c1_i32_495 k0_t34
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off336 (k0_t34 : Fin k0_t34_loop.trips) : Fin 1 → Nat :=
  let c0_i32_493 : BitVec 32 := 0#32
  let c1_i32_495 : BitVec 32 := 1#32
  let arg22 : BitVec 32 := Scf.iv c0_i32_493 c1_i32_495 k0_t34
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk129 (v431 : IVec S16 32) (v1138 : IVec S16 32) : Prop :=
  (∀ a x, ((![v431, v1138] : Fin 2 → IVec S16 32) a x).toNat < S1x100000.size a)
instance k0_chk129.dec : ∀ (v431 : IVec S16 32) (v1138 : IVec S16 32), Decidable (k0_chk129 v431 v1138) := fun v431 v1138 => decidable_of_iff' _ (Iff.of_eq (k0_chk129.eq_1 v431 v1138))
theorem k0_idx129_inb : ∀ (v431 : IVec S16 32) (v1138 : IVec S16 32) (k0_hw129 : k0_chk129 v431 v1138), ∀ a x, ((![v431, v1138] : Fin 2 → IVec S16 32) a x).toNat < S1x100000.size a := fun v431 v1138 k0_hw129 => k0_hw129
def k0_off337 (k0_t34 : Fin k0_t34_loop.trips) : Fin 2 → Nat :=
  let c0_i32_1179 : BitVec 32 := 0#32
  let v1140 : Index := Scalar.indexCast c0_i32_1179
  let c0_i32_493 : BitVec 32 := 0#32
  let c1_i32_495 : BitVec 32 := 1#32
  let arg22 : BitVec 32 := Scf.iv c0_i32_493 c1_i32_495 k0_t34
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off338 (k0_t34 : Fin k0_t34_loop.trips) : Fin 1 → Nat :=
  let c0_i32_493 : BitVec 32 := 0#32
  let c1_i32_495 : BitVec 32 := 1#32
  let arg22 : BitVec 32 := Scf.iv c0_i32_493 c1_i32_495 k0_t34
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk130 (v431 : IVec S16 32) (v1146 : IVec S16 32) : Prop :=
  (∀ a x, ((![v431, v1146] : Fin 2 → IVec S16 32) a x).toNat < S1x100000.size a)
instance k0_chk130.dec : ∀ (v431 : IVec S16 32) (v1146 : IVec S16 32), Decidable (k0_chk130 v431 v1146) := fun v431 v1146 => decidable_of_iff' _ (Iff.of_eq (k0_chk130.eq_1 v431 v1146))
theorem k0_idx130_inb : ∀ (v431 : IVec S16 32) (v1146 : IVec S16 32) (k0_hw130 : k0_chk130 v431 v1146), ∀ a x, ((![v431, v1146] : Fin 2 → IVec S16 32) a x).toNat < S1x100000.size a := fun v431 v1146 k0_hw130 => k0_hw130
def k0_off339 (k0_t34 : Fin k0_t34_loop.trips) : Fin 2 → Nat :=
  let c0_i32_1181 : BitVec 32 := 0#32
  let v1148 : Index := Scalar.indexCast c0_i32_1181
  let c0_i32_493 : BitVec 32 := 0#32
  let c1_i32_495 : BitVec 32 := 1#32
  let arg22 : BitVec 32 := Scf.iv c0_i32_493 c1_i32_495 k0_t34
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off340 (i : grid0.Coords) (c1_i32_486 : BitVec 32) : Fin 3 → Nat :=
  let c16_i32_497 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v426 : BitVec 32 := Scalar.addi v2 c1_i32_486
  let c0_i32_498 : BitVec 32 := 0#32
  ![16, v426.toNat, 0]
def k0_off341 (i : grid0.Coords) : Fin 3 → Nat :=
  let c16_i32_504 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_503 : BitVec 32 := 0#32
  let v441 : BitVec 32 := Scalar.addi v2 c0_i32_503
  let c0_i32_1171_r35 : BitVec 32 := 0#32
  ![16, v441.toNat, 0]
@[reducible] def k0_t35_loop : Scf.Loop 32 :=
  let c0_i32_510 : BitVec 32 := 0#32
  let c64_i32_511 : BitVec 32 := 64#32
  let v447 : BitVec 32 := Scalar.addi c0_i32_510 c64_i32_511
  let c1_i32_512 : BitVec 32 := 1#32
  ⟨c0_i32_510, v447, c1_i32_512⟩
def k0_off342 (k0_t35 : Fin k0_t35_loop.trips) : Fin 1 → Nat :=
  let c0_i32_510 : BitVec 32 := 0#32
  let c1_i32_512 : BitVec 32 := 1#32
  let arg22 : BitVec 32 := Scf.iv c0_i32_510 c1_i32_512 k0_t35
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk131 (v446 : IVec S16 32) (v1122 : IVec S16 32) : Prop :=
  (∀ a x, ((![v446, v1122] : Fin 2 → IVec S16 32) a x).toNat < S1x100000.size a)
instance k0_chk131.dec : ∀ (v446 : IVec S16 32) (v1122 : IVec S16 32), Decidable (k0_chk131 v446 v1122) := fun v446 v1122 => decidable_of_iff' _ (Iff.of_eq (k0_chk131.eq_1 v446 v1122))
theorem k0_idx131_inb : ∀ (v446 : IVec S16 32) (v1122 : IVec S16 32) (k0_hw131 : k0_chk131 v446 v1122), ∀ a x, ((![v446, v1122] : Fin 2 → IVec S16 32) a x).toNat < S1x100000.size a := fun v446 v1122 k0_hw131 => k0_hw131
def k0_off343 (k0_t35 : Fin k0_t35_loop.trips) : Fin 2 → Nat :=
  let c0_i32_1173 : BitVec 32 := 0#32
  let v1124 : Index := Scalar.indexCast c0_i32_1173
  let c0_i32_510 : BitVec 32 := 0#32
  let c1_i32_512 : BitVec 32 := 1#32
  let arg22 : BitVec 32 := Scf.iv c0_i32_510 c1_i32_512 k0_t35
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off344 (k0_t35 : Fin k0_t35_loop.trips) : Fin 1 → Nat :=
  let c0_i32_510 : BitVec 32 := 0#32
  let c1_i32_512 : BitVec 32 := 1#32
  let arg22 : BitVec 32 := Scf.iv c0_i32_510 c1_i32_512 k0_t35
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk132 (v446 : IVec S16 32) (v1130 : IVec S16 32) : Prop :=
  (∀ a x, ((![v446, v1130] : Fin 2 → IVec S16 32) a x).toNat < S1x100000.size a)
instance k0_chk132.dec : ∀ (v446 : IVec S16 32) (v1130 : IVec S16 32), Decidable (k0_chk132 v446 v1130) := fun v446 v1130 => decidable_of_iff' _ (Iff.of_eq (k0_chk132.eq_1 v446 v1130))
theorem k0_idx132_inb : ∀ (v446 : IVec S16 32) (v1130 : IVec S16 32) (k0_hw132 : k0_chk132 v446 v1130), ∀ a x, ((![v446, v1130] : Fin 2 → IVec S16 32) a x).toNat < S1x100000.size a := fun v446 v1130 k0_hw132 => k0_hw132
def k0_off345 (k0_t35 : Fin k0_t35_loop.trips) : Fin 2 → Nat :=
  let c0_i32_1176 : BitVec 32 := 0#32
  let v1132 : Index := Scalar.indexCast c0_i32_1176
  let c0_i32_510 : BitVec 32 := 0#32
  let c1_i32_512 : BitVec 32 := 1#32
  let arg22 : BitVec 32 := Scf.iv c0_i32_510 c1_i32_512 k0_t35
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off346 (k0_t35 : Fin k0_t35_loop.trips) : Fin 1 → Nat :=
  let c0_i32_510 : BitVec 32 := 0#32
  let c1_i32_512 : BitVec 32 := 1#32
  let arg22 : BitVec 32 := Scf.iv c0_i32_510 c1_i32_512 k0_t35
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk133 (v446 : IVec S16 32) (v1138 : IVec S16 32) : Prop :=
  (∀ a x, ((![v446, v1138] : Fin 2 → IVec S16 32) a x).toNat < S1x100000.size a)
instance k0_chk133.dec : ∀ (v446 : IVec S16 32) (v1138 : IVec S16 32), Decidable (k0_chk133 v446 v1138) := fun v446 v1138 => decidable_of_iff' _ (Iff.of_eq (k0_chk133.eq_1 v446 v1138))
theorem k0_idx133_inb : ∀ (v446 : IVec S16 32) (v1138 : IVec S16 32) (k0_hw133 : k0_chk133 v446 v1138), ∀ a x, ((![v446, v1138] : Fin 2 → IVec S16 32) a x).toNat < S1x100000.size a := fun v446 v1138 k0_hw133 => k0_hw133
def k0_off347 (k0_t35 : Fin k0_t35_loop.trips) : Fin 2 → Nat :=
  let c0_i32_1179 : BitVec 32 := 0#32
  let v1140 : Index := Scalar.indexCast c0_i32_1179
  let c0_i32_510 : BitVec 32 := 0#32
  let c1_i32_512 : BitVec 32 := 1#32
  let arg22 : BitVec 32 := Scf.iv c0_i32_510 c1_i32_512 k0_t35
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off348 (k0_t35 : Fin k0_t35_loop.trips) : Fin 1 → Nat :=
  let c0_i32_510 : BitVec 32 := 0#32
  let c1_i32_512 : BitVec 32 := 1#32
  let arg22 : BitVec 32 := Scf.iv c0_i32_510 c1_i32_512 k0_t35
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk134 (v446 : IVec S16 32) (v1146 : IVec S16 32) : Prop :=
  (∀ a x, ((![v446, v1146] : Fin 2 → IVec S16 32) a x).toNat < S1x100000.size a)
instance k0_chk134.dec : ∀ (v446 : IVec S16 32) (v1146 : IVec S16 32), Decidable (k0_chk134 v446 v1146) := fun v446 v1146 => decidable_of_iff' _ (Iff.of_eq (k0_chk134.eq_1 v446 v1146))
theorem k0_idx134_inb : ∀ (v446 : IVec S16 32) (v1146 : IVec S16 32) (k0_hw134 : k0_chk134 v446 v1146), ∀ a x, ((![v446, v1146] : Fin 2 → IVec S16 32) a x).toNat < S1x100000.size a := fun v446 v1146 k0_hw134 => k0_hw134
def k0_off349 (k0_t35 : Fin k0_t35_loop.trips) : Fin 2 → Nat :=
  let c0_i32_1181 : BitVec 32 := 0#32
  let v1148 : Index := Scalar.indexCast c0_i32_1181
  let c0_i32_510 : BitVec 32 := 0#32
  let c1_i32_512 : BitVec 32 := 1#32
  let arg22 : BitVec 32 := Scf.iv c0_i32_510 c1_i32_512 k0_t35
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off350 (i : grid0.Coords) : Fin 3 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_503 : BitVec 32 := 0#32
  let v441 : BitVec 32 := Scalar.addi v2 c0_i32_503
  let c0_i32_514 : BitVec 32 := 0#32
  ![17, v441.toNat, 0]
def k0_off351 (i : grid0.Coords) : Fin 3 → Nat :=
  let c16_i32_517 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_516 : BitVec 32 := 1#32
  let v452 : BitVec 32 := Scalar.addi v2 c1_i32_516
  let c0_i32_1171_r36 : BitVec 32 := 0#32
  ![16, v452.toNat, 0]
def k0_off352 (i : grid0.Coords) : Fin 3 → Nat :=
  let c16_i32_518 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_486 : BitVec 32 := 1#32
  let v426 : BitVec 32 := Scalar.addi v2 c1_i32_486
  let c0_i32_519 : BitVec 32 := 0#32
  ![16, v426.toNat, 0]
@[reducible] def k0_t36_loop : Scf.Loop 32 :=
  let c0_i32_523 : BitVec 32 := 0#32
  let c64_i32_524 : BitVec 32 := 64#32
  let v458 : BitVec 32 := Scalar.addi c0_i32_523 c64_i32_524
  let c1_i32_525 : BitVec 32 := 1#32
  ⟨c0_i32_523, v458, c1_i32_525⟩
def k0_off353 (k0_t36 : Fin k0_t36_loop.trips) : Fin 1 → Nat :=
  let c0_i32_523 : BitVec 32 := 0#32
  let c1_i32_525 : BitVec 32 := 1#32
  let arg22 : BitVec 32 := Scf.iv c0_i32_523 c1_i32_525 k0_t36
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk135 (v457 : IVec S16 32) (v1122 : IVec S16 32) : Prop :=
  (∀ a x, ((![v457, v1122] : Fin 2 → IVec S16 32) a x).toNat < S1x100000.size a)
instance k0_chk135.dec : ∀ (v457 : IVec S16 32) (v1122 : IVec S16 32), Decidable (k0_chk135 v457 v1122) := fun v457 v1122 => decidable_of_iff' _ (Iff.of_eq (k0_chk135.eq_1 v457 v1122))
theorem k0_idx135_inb : ∀ (v457 : IVec S16 32) (v1122 : IVec S16 32) (k0_hw135 : k0_chk135 v457 v1122), ∀ a x, ((![v457, v1122] : Fin 2 → IVec S16 32) a x).toNat < S1x100000.size a := fun v457 v1122 k0_hw135 => k0_hw135
def k0_off354 (k0_t36 : Fin k0_t36_loop.trips) : Fin 2 → Nat :=
  let c0_i32_1173 : BitVec 32 := 0#32
  let v1124 : Index := Scalar.indexCast c0_i32_1173
  let c0_i32_523 : BitVec 32 := 0#32
  let c1_i32_525 : BitVec 32 := 1#32
  let arg22 : BitVec 32 := Scf.iv c0_i32_523 c1_i32_525 k0_t36
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off355 (k0_t36 : Fin k0_t36_loop.trips) : Fin 1 → Nat :=
  let c0_i32_523 : BitVec 32 := 0#32
  let c1_i32_525 : BitVec 32 := 1#32
  let arg22 : BitVec 32 := Scf.iv c0_i32_523 c1_i32_525 k0_t36
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk136 (v457 : IVec S16 32) (v1130 : IVec S16 32) : Prop :=
  (∀ a x, ((![v457, v1130] : Fin 2 → IVec S16 32) a x).toNat < S1x100000.size a)
instance k0_chk136.dec : ∀ (v457 : IVec S16 32) (v1130 : IVec S16 32), Decidable (k0_chk136 v457 v1130) := fun v457 v1130 => decidable_of_iff' _ (Iff.of_eq (k0_chk136.eq_1 v457 v1130))
theorem k0_idx136_inb : ∀ (v457 : IVec S16 32) (v1130 : IVec S16 32) (k0_hw136 : k0_chk136 v457 v1130), ∀ a x, ((![v457, v1130] : Fin 2 → IVec S16 32) a x).toNat < S1x100000.size a := fun v457 v1130 k0_hw136 => k0_hw136
def k0_off356 (k0_t36 : Fin k0_t36_loop.trips) : Fin 2 → Nat :=
  let c0_i32_1176 : BitVec 32 := 0#32
  let v1132 : Index := Scalar.indexCast c0_i32_1176
  let c0_i32_523 : BitVec 32 := 0#32
  let c1_i32_525 : BitVec 32 := 1#32
  let arg22 : BitVec 32 := Scf.iv c0_i32_523 c1_i32_525 k0_t36
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off357 (k0_t36 : Fin k0_t36_loop.trips) : Fin 1 → Nat :=
  let c0_i32_523 : BitVec 32 := 0#32
  let c1_i32_525 : BitVec 32 := 1#32
  let arg22 : BitVec 32 := Scf.iv c0_i32_523 c1_i32_525 k0_t36
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk137 (v457 : IVec S16 32) (v1138 : IVec S16 32) : Prop :=
  (∀ a x, ((![v457, v1138] : Fin 2 → IVec S16 32) a x).toNat < S1x100000.size a)
instance k0_chk137.dec : ∀ (v457 : IVec S16 32) (v1138 : IVec S16 32), Decidable (k0_chk137 v457 v1138) := fun v457 v1138 => decidable_of_iff' _ (Iff.of_eq (k0_chk137.eq_1 v457 v1138))
theorem k0_idx137_inb : ∀ (v457 : IVec S16 32) (v1138 : IVec S16 32) (k0_hw137 : k0_chk137 v457 v1138), ∀ a x, ((![v457, v1138] : Fin 2 → IVec S16 32) a x).toNat < S1x100000.size a := fun v457 v1138 k0_hw137 => k0_hw137
def k0_off358 (k0_t36 : Fin k0_t36_loop.trips) : Fin 2 → Nat :=
  let c0_i32_1179 : BitVec 32 := 0#32
  let v1140 : Index := Scalar.indexCast c0_i32_1179
  let c0_i32_523 : BitVec 32 := 0#32
  let c1_i32_525 : BitVec 32 := 1#32
  let arg22 : BitVec 32 := Scf.iv c0_i32_523 c1_i32_525 k0_t36
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off359 (k0_t36 : Fin k0_t36_loop.trips) : Fin 1 → Nat :=
  let c0_i32_523 : BitVec 32 := 0#32
  let c1_i32_525 : BitVec 32 := 1#32
  let arg22 : BitVec 32 := Scf.iv c0_i32_523 c1_i32_525 k0_t36
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk138 (v457 : IVec S16 32) (v1146 : IVec S16 32) : Prop :=
  (∀ a x, ((![v457, v1146] : Fin 2 → IVec S16 32) a x).toNat < S1x100000.size a)
instance k0_chk138.dec : ∀ (v457 : IVec S16 32) (v1146 : IVec S16 32), Decidable (k0_chk138 v457 v1146) := fun v457 v1146 => decidable_of_iff' _ (Iff.of_eq (k0_chk138.eq_1 v457 v1146))
theorem k0_idx138_inb : ∀ (v457 : IVec S16 32) (v1146 : IVec S16 32) (k0_hw138 : k0_chk138 v457 v1146), ∀ a x, ((![v457, v1146] : Fin 2 → IVec S16 32) a x).toNat < S1x100000.size a := fun v457 v1146 k0_hw138 => k0_hw138
def k0_off360 (k0_t36 : Fin k0_t36_loop.trips) : Fin 2 → Nat :=
  let c0_i32_1181 : BitVec 32 := 0#32
  let v1148 : Index := Scalar.indexCast c0_i32_1181
  let c0_i32_523 : BitVec 32 := 0#32
  let c1_i32_525 : BitVec 32 := 1#32
  let arg22 : BitVec 32 := Scf.iv c0_i32_523 c1_i32_525 k0_t36
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off361 (i : grid0.Coords) (c1_i32_516 : BitVec 32) : Fin 3 → Nat :=
  let c17_i32_527 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v452 : BitVec 32 := Scalar.addi v2 c1_i32_516
  let c0_i32_528 : BitVec 32 := 0#32
  ![17, v452.toNat, 0]
def k0_off362 (i : grid0.Coords) : Fin 3 → Nat :=
  let c17_i32_534 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_533 : BitVec 32 := 0#32
  let v467 : BitVec 32 := Scalar.addi v2 c0_i32_533
  let c0_i32_1171_r37 : BitVec 32 := 0#32
  ![17, v467.toNat, 0]
@[reducible] def k0_t37_loop : Scf.Loop 32 :=
  let c0_i32_540 : BitVec 32 := 0#32
  let c64_i32_541 : BitVec 32 := 64#32
  let v473 : BitVec 32 := Scalar.addi c0_i32_540 c64_i32_541
  let c1_i32_542 : BitVec 32 := 1#32
  ⟨c0_i32_540, v473, c1_i32_542⟩
def k0_off363 (k0_t37 : Fin k0_t37_loop.trips) : Fin 1 → Nat :=
  let c0_i32_540 : BitVec 32 := 0#32
  let c1_i32_542 : BitVec 32 := 1#32
  let arg22 : BitVec 32 := Scf.iv c0_i32_540 c1_i32_542 k0_t37
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk139 (v472 : IVec S16 32) (v1122 : IVec S16 32) : Prop :=
  (∀ a x, ((![v472, v1122] : Fin 2 → IVec S16 32) a x).toNat < S1x100000.size a)
instance k0_chk139.dec : ∀ (v472 : IVec S16 32) (v1122 : IVec S16 32), Decidable (k0_chk139 v472 v1122) := fun v472 v1122 => decidable_of_iff' _ (Iff.of_eq (k0_chk139.eq_1 v472 v1122))
theorem k0_idx139_inb : ∀ (v472 : IVec S16 32) (v1122 : IVec S16 32) (k0_hw139 : k0_chk139 v472 v1122), ∀ a x, ((![v472, v1122] : Fin 2 → IVec S16 32) a x).toNat < S1x100000.size a := fun v472 v1122 k0_hw139 => k0_hw139
def k0_off364 (k0_t37 : Fin k0_t37_loop.trips) : Fin 2 → Nat :=
  let c0_i32_1173 : BitVec 32 := 0#32
  let v1124 : Index := Scalar.indexCast c0_i32_1173
  let c0_i32_540 : BitVec 32 := 0#32
  let c1_i32_542 : BitVec 32 := 1#32
  let arg22 : BitVec 32 := Scf.iv c0_i32_540 c1_i32_542 k0_t37
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off365 (k0_t37 : Fin k0_t37_loop.trips) : Fin 1 → Nat :=
  let c0_i32_540 : BitVec 32 := 0#32
  let c1_i32_542 : BitVec 32 := 1#32
  let arg22 : BitVec 32 := Scf.iv c0_i32_540 c1_i32_542 k0_t37
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk140 (v472 : IVec S16 32) (v1130 : IVec S16 32) : Prop :=
  (∀ a x, ((![v472, v1130] : Fin 2 → IVec S16 32) a x).toNat < S1x100000.size a)
instance k0_chk140.dec : ∀ (v472 : IVec S16 32) (v1130 : IVec S16 32), Decidable (k0_chk140 v472 v1130) := fun v472 v1130 => decidable_of_iff' _ (Iff.of_eq (k0_chk140.eq_1 v472 v1130))
theorem k0_idx140_inb : ∀ (v472 : IVec S16 32) (v1130 : IVec S16 32) (k0_hw140 : k0_chk140 v472 v1130), ∀ a x, ((![v472, v1130] : Fin 2 → IVec S16 32) a x).toNat < S1x100000.size a := fun v472 v1130 k0_hw140 => k0_hw140
def k0_off366 (k0_t37 : Fin k0_t37_loop.trips) : Fin 2 → Nat :=
  let c0_i32_1176 : BitVec 32 := 0#32
  let v1132 : Index := Scalar.indexCast c0_i32_1176
  let c0_i32_540 : BitVec 32 := 0#32
  let c1_i32_542 : BitVec 32 := 1#32
  let arg22 : BitVec 32 := Scf.iv c0_i32_540 c1_i32_542 k0_t37
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off367 (k0_t37 : Fin k0_t37_loop.trips) : Fin 1 → Nat :=
  let c0_i32_540 : BitVec 32 := 0#32
  let c1_i32_542 : BitVec 32 := 1#32
  let arg22 : BitVec 32 := Scf.iv c0_i32_540 c1_i32_542 k0_t37
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk141 (v472 : IVec S16 32) (v1138 : IVec S16 32) : Prop :=
  (∀ a x, ((![v472, v1138] : Fin 2 → IVec S16 32) a x).toNat < S1x100000.size a)
instance k0_chk141.dec : ∀ (v472 : IVec S16 32) (v1138 : IVec S16 32), Decidable (k0_chk141 v472 v1138) := fun v472 v1138 => decidable_of_iff' _ (Iff.of_eq (k0_chk141.eq_1 v472 v1138))
theorem k0_idx141_inb : ∀ (v472 : IVec S16 32) (v1138 : IVec S16 32) (k0_hw141 : k0_chk141 v472 v1138), ∀ a x, ((![v472, v1138] : Fin 2 → IVec S16 32) a x).toNat < S1x100000.size a := fun v472 v1138 k0_hw141 => k0_hw141
def k0_off368 (k0_t37 : Fin k0_t37_loop.trips) : Fin 2 → Nat :=
  let c0_i32_1179 : BitVec 32 := 0#32
  let v1140 : Index := Scalar.indexCast c0_i32_1179
  let c0_i32_540 : BitVec 32 := 0#32
  let c1_i32_542 : BitVec 32 := 1#32
  let arg22 : BitVec 32 := Scf.iv c0_i32_540 c1_i32_542 k0_t37
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off369 (k0_t37 : Fin k0_t37_loop.trips) : Fin 1 → Nat :=
  let c0_i32_540 : BitVec 32 := 0#32
  let c1_i32_542 : BitVec 32 := 1#32
  let arg22 : BitVec 32 := Scf.iv c0_i32_540 c1_i32_542 k0_t37
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk142 (v472 : IVec S16 32) (v1146 : IVec S16 32) : Prop :=
  (∀ a x, ((![v472, v1146] : Fin 2 → IVec S16 32) a x).toNat < S1x100000.size a)
instance k0_chk142.dec : ∀ (v472 : IVec S16 32) (v1146 : IVec S16 32), Decidable (k0_chk142 v472 v1146) := fun v472 v1146 => decidable_of_iff' _ (Iff.of_eq (k0_chk142.eq_1 v472 v1146))
theorem k0_idx142_inb : ∀ (v472 : IVec S16 32) (v1146 : IVec S16 32) (k0_hw142 : k0_chk142 v472 v1146), ∀ a x, ((![v472, v1146] : Fin 2 → IVec S16 32) a x).toNat < S1x100000.size a := fun v472 v1146 k0_hw142 => k0_hw142
def k0_off370 (k0_t37 : Fin k0_t37_loop.trips) : Fin 2 → Nat :=
  let c0_i32_1181 : BitVec 32 := 0#32
  let v1148 : Index := Scalar.indexCast c0_i32_1181
  let c0_i32_540 : BitVec 32 := 0#32
  let c1_i32_542 : BitVec 32 := 1#32
  let arg22 : BitVec 32 := Scf.iv c0_i32_540 c1_i32_542 k0_t37
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off371 (i : grid0.Coords) : Fin 3 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_533 : BitVec 32 := 0#32
  let v467 : BitVec 32 := Scalar.addi v2 c0_i32_533
  let c0_i32_544 : BitVec 32 := 0#32
  ![18, v467.toNat, 0]
def k0_off372 (i : grid0.Coords) : Fin 3 → Nat :=
  let c17_i32_547 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_546 : BitVec 32 := 1#32
  let v478 : BitVec 32 := Scalar.addi v2 c1_i32_546
  let c0_i32_1171_r38 : BitVec 32 := 0#32
  ![17, v478.toNat, 0]
def k0_off373 (i : grid0.Coords) : Fin 3 → Nat :=
  let c17_i32_548 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_516 : BitVec 32 := 1#32
  let v452 : BitVec 32 := Scalar.addi v2 c1_i32_516
  let c0_i32_549 : BitVec 32 := 0#32
  ![17, v452.toNat, 0]
@[reducible] def k0_t38_loop : Scf.Loop 32 :=
  let c0_i32_553 : BitVec 32 := 0#32
  let c64_i32_554 : BitVec 32 := 64#32
  let v484 : BitVec 32 := Scalar.addi c0_i32_553 c64_i32_554
  let c1_i32_555 : BitVec 32 := 1#32
  ⟨c0_i32_553, v484, c1_i32_555⟩
def k0_off374 (k0_t38 : Fin k0_t38_loop.trips) : Fin 1 → Nat :=
  let c0_i32_553 : BitVec 32 := 0#32
  let c1_i32_555 : BitVec 32 := 1#32
  let arg22 : BitVec 32 := Scf.iv c0_i32_553 c1_i32_555 k0_t38
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk143 (v483 : IVec S16 32) (v1122 : IVec S16 32) : Prop :=
  (∀ a x, ((![v483, v1122] : Fin 2 → IVec S16 32) a x).toNat < S1x100000.size a)
instance k0_chk143.dec : ∀ (v483 : IVec S16 32) (v1122 : IVec S16 32), Decidable (k0_chk143 v483 v1122) := fun v483 v1122 => decidable_of_iff' _ (Iff.of_eq (k0_chk143.eq_1 v483 v1122))
theorem k0_idx143_inb : ∀ (v483 : IVec S16 32) (v1122 : IVec S16 32) (k0_hw143 : k0_chk143 v483 v1122), ∀ a x, ((![v483, v1122] : Fin 2 → IVec S16 32) a x).toNat < S1x100000.size a := fun v483 v1122 k0_hw143 => k0_hw143
def k0_off375 (k0_t38 : Fin k0_t38_loop.trips) : Fin 2 → Nat :=
  let c0_i32_1173 : BitVec 32 := 0#32
  let v1124 : Index := Scalar.indexCast c0_i32_1173
  let c0_i32_553 : BitVec 32 := 0#32
  let c1_i32_555 : BitVec 32 := 1#32
  let arg22 : BitVec 32 := Scf.iv c0_i32_553 c1_i32_555 k0_t38
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off376 (k0_t38 : Fin k0_t38_loop.trips) : Fin 1 → Nat :=
  let c0_i32_553 : BitVec 32 := 0#32
  let c1_i32_555 : BitVec 32 := 1#32
  let arg22 : BitVec 32 := Scf.iv c0_i32_553 c1_i32_555 k0_t38
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk144 (v483 : IVec S16 32) (v1130 : IVec S16 32) : Prop :=
  (∀ a x, ((![v483, v1130] : Fin 2 → IVec S16 32) a x).toNat < S1x100000.size a)
instance k0_chk144.dec : ∀ (v483 : IVec S16 32) (v1130 : IVec S16 32), Decidable (k0_chk144 v483 v1130) := fun v483 v1130 => decidable_of_iff' _ (Iff.of_eq (k0_chk144.eq_1 v483 v1130))
theorem k0_idx144_inb : ∀ (v483 : IVec S16 32) (v1130 : IVec S16 32) (k0_hw144 : k0_chk144 v483 v1130), ∀ a x, ((![v483, v1130] : Fin 2 → IVec S16 32) a x).toNat < S1x100000.size a := fun v483 v1130 k0_hw144 => k0_hw144
def k0_off377 (k0_t38 : Fin k0_t38_loop.trips) : Fin 2 → Nat :=
  let c0_i32_1176 : BitVec 32 := 0#32
  let v1132 : Index := Scalar.indexCast c0_i32_1176
  let c0_i32_553 : BitVec 32 := 0#32
  let c1_i32_555 : BitVec 32 := 1#32
  let arg22 : BitVec 32 := Scf.iv c0_i32_553 c1_i32_555 k0_t38
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off378 (k0_t38 : Fin k0_t38_loop.trips) : Fin 1 → Nat :=
  let c0_i32_553 : BitVec 32 := 0#32
  let c1_i32_555 : BitVec 32 := 1#32
  let arg22 : BitVec 32 := Scf.iv c0_i32_553 c1_i32_555 k0_t38
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk145 (v483 : IVec S16 32) (v1138 : IVec S16 32) : Prop :=
  (∀ a x, ((![v483, v1138] : Fin 2 → IVec S16 32) a x).toNat < S1x100000.size a)
instance k0_chk145.dec : ∀ (v483 : IVec S16 32) (v1138 : IVec S16 32), Decidable (k0_chk145 v483 v1138) := fun v483 v1138 => decidable_of_iff' _ (Iff.of_eq (k0_chk145.eq_1 v483 v1138))
theorem k0_idx145_inb : ∀ (v483 : IVec S16 32) (v1138 : IVec S16 32) (k0_hw145 : k0_chk145 v483 v1138), ∀ a x, ((![v483, v1138] : Fin 2 → IVec S16 32) a x).toNat < S1x100000.size a := fun v483 v1138 k0_hw145 => k0_hw145
def k0_off379 (k0_t38 : Fin k0_t38_loop.trips) : Fin 2 → Nat :=
  let c0_i32_1179 : BitVec 32 := 0#32
  let v1140 : Index := Scalar.indexCast c0_i32_1179
  let c0_i32_553 : BitVec 32 := 0#32
  let c1_i32_555 : BitVec 32 := 1#32
  let arg22 : BitVec 32 := Scf.iv c0_i32_553 c1_i32_555 k0_t38
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off380 (k0_t38 : Fin k0_t38_loop.trips) : Fin 1 → Nat :=
  let c0_i32_553 : BitVec 32 := 0#32
  let c1_i32_555 : BitVec 32 := 1#32
  let arg22 : BitVec 32 := Scf.iv c0_i32_553 c1_i32_555 k0_t38
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk146 (v483 : IVec S16 32) (v1146 : IVec S16 32) : Prop :=
  (∀ a x, ((![v483, v1146] : Fin 2 → IVec S16 32) a x).toNat < S1x100000.size a)
instance k0_chk146.dec : ∀ (v483 : IVec S16 32) (v1146 : IVec S16 32), Decidable (k0_chk146 v483 v1146) := fun v483 v1146 => decidable_of_iff' _ (Iff.of_eq (k0_chk146.eq_1 v483 v1146))
theorem k0_idx146_inb : ∀ (v483 : IVec S16 32) (v1146 : IVec S16 32) (k0_hw146 : k0_chk146 v483 v1146), ∀ a x, ((![v483, v1146] : Fin 2 → IVec S16 32) a x).toNat < S1x100000.size a := fun v483 v1146 k0_hw146 => k0_hw146
def k0_off381 (k0_t38 : Fin k0_t38_loop.trips) : Fin 2 → Nat :=
  let c0_i32_1181 : BitVec 32 := 0#32
  let v1148 : Index := Scalar.indexCast c0_i32_1181
  let c0_i32_553 : BitVec 32 := 0#32
  let c1_i32_555 : BitVec 32 := 1#32
  let arg22 : BitVec 32 := Scf.iv c0_i32_553 c1_i32_555 k0_t38
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off382 (i : grid0.Coords) (c1_i32_546 : BitVec 32) : Fin 3 → Nat :=
  let c18_i32_557 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v478 : BitVec 32 := Scalar.addi v2 c1_i32_546
  let c0_i32_558 : BitVec 32 := 0#32
  ![18, v478.toNat, 0]
def k0_off383 (i : grid0.Coords) : Fin 3 → Nat :=
  let c18_i32_564 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_563 : BitVec 32 := 0#32
  let v493 : BitVec 32 := Scalar.addi v2 c0_i32_563
  let c0_i32_1171_r39 : BitVec 32 := 0#32
  ![18, v493.toNat, 0]
@[reducible] def k0_t39_loop : Scf.Loop 32 :=
  let c0_i32_570 : BitVec 32 := 0#32
  let c64_i32_571 : BitVec 32 := 64#32
  let v499 : BitVec 32 := Scalar.addi c0_i32_570 c64_i32_571
  let c1_i32_572 : BitVec 32 := 1#32
  ⟨c0_i32_570, v499, c1_i32_572⟩
def k0_off384 (k0_t39 : Fin k0_t39_loop.trips) : Fin 1 → Nat :=
  let c0_i32_570 : BitVec 32 := 0#32
  let c1_i32_572 : BitVec 32 := 1#32
  let arg22 : BitVec 32 := Scf.iv c0_i32_570 c1_i32_572 k0_t39
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk147 (v498 : IVec S16 32) (v1122 : IVec S16 32) : Prop :=
  (∀ a x, ((![v498, v1122] : Fin 2 → IVec S16 32) a x).toNat < S1x100000.size a)
instance k0_chk147.dec : ∀ (v498 : IVec S16 32) (v1122 : IVec S16 32), Decidable (k0_chk147 v498 v1122) := fun v498 v1122 => decidable_of_iff' _ (Iff.of_eq (k0_chk147.eq_1 v498 v1122))
theorem k0_idx147_inb : ∀ (v498 : IVec S16 32) (v1122 : IVec S16 32) (k0_hw147 : k0_chk147 v498 v1122), ∀ a x, ((![v498, v1122] : Fin 2 → IVec S16 32) a x).toNat < S1x100000.size a := fun v498 v1122 k0_hw147 => k0_hw147
def k0_off385 (k0_t39 : Fin k0_t39_loop.trips) : Fin 2 → Nat :=
  let c0_i32_1173 : BitVec 32 := 0#32
  let v1124 : Index := Scalar.indexCast c0_i32_1173
  let c0_i32_570 : BitVec 32 := 0#32
  let c1_i32_572 : BitVec 32 := 1#32
  let arg22 : BitVec 32 := Scf.iv c0_i32_570 c1_i32_572 k0_t39
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off386 (k0_t39 : Fin k0_t39_loop.trips) : Fin 1 → Nat :=
  let c0_i32_570 : BitVec 32 := 0#32
  let c1_i32_572 : BitVec 32 := 1#32
  let arg22 : BitVec 32 := Scf.iv c0_i32_570 c1_i32_572 k0_t39
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk148 (v498 : IVec S16 32) (v1130 : IVec S16 32) : Prop :=
  (∀ a x, ((![v498, v1130] : Fin 2 → IVec S16 32) a x).toNat < S1x100000.size a)
instance k0_chk148.dec : ∀ (v498 : IVec S16 32) (v1130 : IVec S16 32), Decidable (k0_chk148 v498 v1130) := fun v498 v1130 => decidable_of_iff' _ (Iff.of_eq (k0_chk148.eq_1 v498 v1130))
theorem k0_idx148_inb : ∀ (v498 : IVec S16 32) (v1130 : IVec S16 32) (k0_hw148 : k0_chk148 v498 v1130), ∀ a x, ((![v498, v1130] : Fin 2 → IVec S16 32) a x).toNat < S1x100000.size a := fun v498 v1130 k0_hw148 => k0_hw148
def k0_off387 (k0_t39 : Fin k0_t39_loop.trips) : Fin 2 → Nat :=
  let c0_i32_1176 : BitVec 32 := 0#32
  let v1132 : Index := Scalar.indexCast c0_i32_1176
  let c0_i32_570 : BitVec 32 := 0#32
  let c1_i32_572 : BitVec 32 := 1#32
  let arg22 : BitVec 32 := Scf.iv c0_i32_570 c1_i32_572 k0_t39
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off388 (k0_t39 : Fin k0_t39_loop.trips) : Fin 1 → Nat :=
  let c0_i32_570 : BitVec 32 := 0#32
  let c1_i32_572 : BitVec 32 := 1#32
  let arg22 : BitVec 32 := Scf.iv c0_i32_570 c1_i32_572 k0_t39
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk149 (v498 : IVec S16 32) (v1138 : IVec S16 32) : Prop :=
  (∀ a x, ((![v498, v1138] : Fin 2 → IVec S16 32) a x).toNat < S1x100000.size a)
instance k0_chk149.dec : ∀ (v498 : IVec S16 32) (v1138 : IVec S16 32), Decidable (k0_chk149 v498 v1138) := fun v498 v1138 => decidable_of_iff' _ (Iff.of_eq (k0_chk149.eq_1 v498 v1138))
theorem k0_idx149_inb : ∀ (v498 : IVec S16 32) (v1138 : IVec S16 32) (k0_hw149 : k0_chk149 v498 v1138), ∀ a x, ((![v498, v1138] : Fin 2 → IVec S16 32) a x).toNat < S1x100000.size a := fun v498 v1138 k0_hw149 => k0_hw149
def k0_off389 (k0_t39 : Fin k0_t39_loop.trips) : Fin 2 → Nat :=
  let c0_i32_1179 : BitVec 32 := 0#32
  let v1140 : Index := Scalar.indexCast c0_i32_1179
  let c0_i32_570 : BitVec 32 := 0#32
  let c1_i32_572 : BitVec 32 := 1#32
  let arg22 : BitVec 32 := Scf.iv c0_i32_570 c1_i32_572 k0_t39
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off390 (k0_t39 : Fin k0_t39_loop.trips) : Fin 1 → Nat :=
  let c0_i32_570 : BitVec 32 := 0#32
  let c1_i32_572 : BitVec 32 := 1#32
  let arg22 : BitVec 32 := Scf.iv c0_i32_570 c1_i32_572 k0_t39
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk150 (v498 : IVec S16 32) (v1146 : IVec S16 32) : Prop :=
  (∀ a x, ((![v498, v1146] : Fin 2 → IVec S16 32) a x).toNat < S1x100000.size a)
instance k0_chk150.dec : ∀ (v498 : IVec S16 32) (v1146 : IVec S16 32), Decidable (k0_chk150 v498 v1146) := fun v498 v1146 => decidable_of_iff' _ (Iff.of_eq (k0_chk150.eq_1 v498 v1146))
theorem k0_idx150_inb : ∀ (v498 : IVec S16 32) (v1146 : IVec S16 32) (k0_hw150 : k0_chk150 v498 v1146), ∀ a x, ((![v498, v1146] : Fin 2 → IVec S16 32) a x).toNat < S1x100000.size a := fun v498 v1146 k0_hw150 => k0_hw150
def k0_off391 (k0_t39 : Fin k0_t39_loop.trips) : Fin 2 → Nat :=
  let c0_i32_1181 : BitVec 32 := 0#32
  let v1148 : Index := Scalar.indexCast c0_i32_1181
  let c0_i32_570 : BitVec 32 := 0#32
  let c1_i32_572 : BitVec 32 := 1#32
  let arg22 : BitVec 32 := Scf.iv c0_i32_570 c1_i32_572 k0_t39
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off392 (i : grid0.Coords) : Fin 3 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_563 : BitVec 32 := 0#32
  let v493 : BitVec 32 := Scalar.addi v2 c0_i32_563
  let c0_i32_574 : BitVec 32 := 0#32
  ![19, v493.toNat, 0]
def k0_off393 (i : grid0.Coords) : Fin 3 → Nat :=
  let c18_i32_577 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_576 : BitVec 32 := 1#32
  let v504 : BitVec 32 := Scalar.addi v2 c1_i32_576
  let c0_i32_1171_r40 : BitVec 32 := 0#32
  ![18, v504.toNat, 0]
def k0_off394 (i : grid0.Coords) : Fin 3 → Nat :=
  let c18_i32_578 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_546 : BitVec 32 := 1#32
  let v478 : BitVec 32 := Scalar.addi v2 c1_i32_546
  let c0_i32_579 : BitVec 32 := 0#32
  ![18, v478.toNat, 0]
@[reducible] def k0_t40_loop : Scf.Loop 32 :=
  let c0_i32_583 : BitVec 32 := 0#32
  let c64_i32_584 : BitVec 32 := 64#32
  let v510 : BitVec 32 := Scalar.addi c0_i32_583 c64_i32_584
  let c1_i32_585 : BitVec 32 := 1#32
  ⟨c0_i32_583, v510, c1_i32_585⟩
def k0_off395 (k0_t40 : Fin k0_t40_loop.trips) : Fin 1 → Nat :=
  let c0_i32_583 : BitVec 32 := 0#32
  let c1_i32_585 : BitVec 32 := 1#32
  let arg22 : BitVec 32 := Scf.iv c0_i32_583 c1_i32_585 k0_t40
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk151 (v509 : IVec S16 32) (v1122 : IVec S16 32) : Prop :=
  (∀ a x, ((![v509, v1122] : Fin 2 → IVec S16 32) a x).toNat < S1x100000.size a)
instance k0_chk151.dec : ∀ (v509 : IVec S16 32) (v1122 : IVec S16 32), Decidable (k0_chk151 v509 v1122) := fun v509 v1122 => decidable_of_iff' _ (Iff.of_eq (k0_chk151.eq_1 v509 v1122))
theorem k0_idx151_inb : ∀ (v509 : IVec S16 32) (v1122 : IVec S16 32) (k0_hw151 : k0_chk151 v509 v1122), ∀ a x, ((![v509, v1122] : Fin 2 → IVec S16 32) a x).toNat < S1x100000.size a := fun v509 v1122 k0_hw151 => k0_hw151
def k0_off396 (k0_t40 : Fin k0_t40_loop.trips) : Fin 2 → Nat :=
  let c0_i32_1173 : BitVec 32 := 0#32
  let v1124 : Index := Scalar.indexCast c0_i32_1173
  let c0_i32_583 : BitVec 32 := 0#32
  let c1_i32_585 : BitVec 32 := 1#32
  let arg22 : BitVec 32 := Scf.iv c0_i32_583 c1_i32_585 k0_t40
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off397 (k0_t40 : Fin k0_t40_loop.trips) : Fin 1 → Nat :=
  let c0_i32_583 : BitVec 32 := 0#32
  let c1_i32_585 : BitVec 32 := 1#32
  let arg22 : BitVec 32 := Scf.iv c0_i32_583 c1_i32_585 k0_t40
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk152 (v509 : IVec S16 32) (v1130 : IVec S16 32) : Prop :=
  (∀ a x, ((![v509, v1130] : Fin 2 → IVec S16 32) a x).toNat < S1x100000.size a)
instance k0_chk152.dec : ∀ (v509 : IVec S16 32) (v1130 : IVec S16 32), Decidable (k0_chk152 v509 v1130) := fun v509 v1130 => decidable_of_iff' _ (Iff.of_eq (k0_chk152.eq_1 v509 v1130))
theorem k0_idx152_inb : ∀ (v509 : IVec S16 32) (v1130 : IVec S16 32) (k0_hw152 : k0_chk152 v509 v1130), ∀ a x, ((![v509, v1130] : Fin 2 → IVec S16 32) a x).toNat < S1x100000.size a := fun v509 v1130 k0_hw152 => k0_hw152
def k0_off398 (k0_t40 : Fin k0_t40_loop.trips) : Fin 2 → Nat :=
  let c0_i32_1176 : BitVec 32 := 0#32
  let v1132 : Index := Scalar.indexCast c0_i32_1176
  let c0_i32_583 : BitVec 32 := 0#32
  let c1_i32_585 : BitVec 32 := 1#32
  let arg22 : BitVec 32 := Scf.iv c0_i32_583 c1_i32_585 k0_t40
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off399 (k0_t40 : Fin k0_t40_loop.trips) : Fin 1 → Nat :=
  let c0_i32_583 : BitVec 32 := 0#32
  let c1_i32_585 : BitVec 32 := 1#32
  let arg22 : BitVec 32 := Scf.iv c0_i32_583 c1_i32_585 k0_t40
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk153 (v509 : IVec S16 32) (v1138 : IVec S16 32) : Prop :=
  (∀ a x, ((![v509, v1138] : Fin 2 → IVec S16 32) a x).toNat < S1x100000.size a)
instance k0_chk153.dec : ∀ (v509 : IVec S16 32) (v1138 : IVec S16 32), Decidable (k0_chk153 v509 v1138) := fun v509 v1138 => decidable_of_iff' _ (Iff.of_eq (k0_chk153.eq_1 v509 v1138))
theorem k0_idx153_inb : ∀ (v509 : IVec S16 32) (v1138 : IVec S16 32) (k0_hw153 : k0_chk153 v509 v1138), ∀ a x, ((![v509, v1138] : Fin 2 → IVec S16 32) a x).toNat < S1x100000.size a := fun v509 v1138 k0_hw153 => k0_hw153
def k0_off400 (k0_t40 : Fin k0_t40_loop.trips) : Fin 2 → Nat :=
  let c0_i32_1179 : BitVec 32 := 0#32
  let v1140 : Index := Scalar.indexCast c0_i32_1179
  let c0_i32_583 : BitVec 32 := 0#32
  let c1_i32_585 : BitVec 32 := 1#32
  let arg22 : BitVec 32 := Scf.iv c0_i32_583 c1_i32_585 k0_t40
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off401 (k0_t40 : Fin k0_t40_loop.trips) : Fin 1 → Nat :=
  let c0_i32_583 : BitVec 32 := 0#32
  let c1_i32_585 : BitVec 32 := 1#32
  let arg22 : BitVec 32 := Scf.iv c0_i32_583 c1_i32_585 k0_t40
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk154 (v509 : IVec S16 32) (v1146 : IVec S16 32) : Prop :=
  (∀ a x, ((![v509, v1146] : Fin 2 → IVec S16 32) a x).toNat < S1x100000.size a)
instance k0_chk154.dec : ∀ (v509 : IVec S16 32) (v1146 : IVec S16 32), Decidable (k0_chk154 v509 v1146) := fun v509 v1146 => decidable_of_iff' _ (Iff.of_eq (k0_chk154.eq_1 v509 v1146))
theorem k0_idx154_inb : ∀ (v509 : IVec S16 32) (v1146 : IVec S16 32) (k0_hw154 : k0_chk154 v509 v1146), ∀ a x, ((![v509, v1146] : Fin 2 → IVec S16 32) a x).toNat < S1x100000.size a := fun v509 v1146 k0_hw154 => k0_hw154
def k0_off402 (k0_t40 : Fin k0_t40_loop.trips) : Fin 2 → Nat :=
  let c0_i32_1181 : BitVec 32 := 0#32
  let v1148 : Index := Scalar.indexCast c0_i32_1181
  let c0_i32_583 : BitVec 32 := 0#32
  let c1_i32_585 : BitVec 32 := 1#32
  let arg22 : BitVec 32 := Scf.iv c0_i32_583 c1_i32_585 k0_t40
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off403 (i : grid0.Coords) (c1_i32_576 : BitVec 32) : Fin 3 → Nat :=
  let c19_i32_587 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v504 : BitVec 32 := Scalar.addi v2 c1_i32_576
  let c0_i32_588 : BitVec 32 := 0#32
  ![19, v504.toNat, 0]
def k0_off404 (i : grid0.Coords) : Fin 3 → Nat :=
  let c19_i32_594 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_593 : BitVec 32 := 0#32
  let v519 : BitVec 32 := Scalar.addi v2 c0_i32_593
  let c0_i32_1171_r41 : BitVec 32 := 0#32
  ![19, v519.toNat, 0]
@[reducible] def k0_t41_loop : Scf.Loop 32 :=
  let c0_i32_600 : BitVec 32 := 0#32
  let c64_i32_601 : BitVec 32 := 64#32
  let v525 : BitVec 32 := Scalar.addi c0_i32_600 c64_i32_601
  let c1_i32_602 : BitVec 32 := 1#32
  ⟨c0_i32_600, v525, c1_i32_602⟩
def k0_off405 (k0_t41 : Fin k0_t41_loop.trips) : Fin 1 → Nat :=
  let c0_i32_600 : BitVec 32 := 0#32
  let c1_i32_602 : BitVec 32 := 1#32
  let arg22 : BitVec 32 := Scf.iv c0_i32_600 c1_i32_602 k0_t41
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk155 (v524 : IVec S16 32) (v1122 : IVec S16 32) : Prop :=
  (∀ a x, ((![v524, v1122] : Fin 2 → IVec S16 32) a x).toNat < S1x100000.size a)
instance k0_chk155.dec : ∀ (v524 : IVec S16 32) (v1122 : IVec S16 32), Decidable (k0_chk155 v524 v1122) := fun v524 v1122 => decidable_of_iff' _ (Iff.of_eq (k0_chk155.eq_1 v524 v1122))
theorem k0_idx155_inb : ∀ (v524 : IVec S16 32) (v1122 : IVec S16 32) (k0_hw155 : k0_chk155 v524 v1122), ∀ a x, ((![v524, v1122] : Fin 2 → IVec S16 32) a x).toNat < S1x100000.size a := fun v524 v1122 k0_hw155 => k0_hw155
def k0_off406 (k0_t41 : Fin k0_t41_loop.trips) : Fin 2 → Nat :=
  let c0_i32_1173 : BitVec 32 := 0#32
  let v1124 : Index := Scalar.indexCast c0_i32_1173
  let c0_i32_600 : BitVec 32 := 0#32
  let c1_i32_602 : BitVec 32 := 1#32
  let arg22 : BitVec 32 := Scf.iv c0_i32_600 c1_i32_602 k0_t41
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off407 (k0_t41 : Fin k0_t41_loop.trips) : Fin 1 → Nat :=
  let c0_i32_600 : BitVec 32 := 0#32
  let c1_i32_602 : BitVec 32 := 1#32
  let arg22 : BitVec 32 := Scf.iv c0_i32_600 c1_i32_602 k0_t41
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk156 (v524 : IVec S16 32) (v1130 : IVec S16 32) : Prop :=
  (∀ a x, ((![v524, v1130] : Fin 2 → IVec S16 32) a x).toNat < S1x100000.size a)
instance k0_chk156.dec : ∀ (v524 : IVec S16 32) (v1130 : IVec S16 32), Decidable (k0_chk156 v524 v1130) := fun v524 v1130 => decidable_of_iff' _ (Iff.of_eq (k0_chk156.eq_1 v524 v1130))
theorem k0_idx156_inb : ∀ (v524 : IVec S16 32) (v1130 : IVec S16 32) (k0_hw156 : k0_chk156 v524 v1130), ∀ a x, ((![v524, v1130] : Fin 2 → IVec S16 32) a x).toNat < S1x100000.size a := fun v524 v1130 k0_hw156 => k0_hw156
def k0_off408 (k0_t41 : Fin k0_t41_loop.trips) : Fin 2 → Nat :=
  let c0_i32_1176 : BitVec 32 := 0#32
  let v1132 : Index := Scalar.indexCast c0_i32_1176
  let c0_i32_600 : BitVec 32 := 0#32
  let c1_i32_602 : BitVec 32 := 1#32
  let arg22 : BitVec 32 := Scf.iv c0_i32_600 c1_i32_602 k0_t41
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off409 (k0_t41 : Fin k0_t41_loop.trips) : Fin 1 → Nat :=
  let c0_i32_600 : BitVec 32 := 0#32
  let c1_i32_602 : BitVec 32 := 1#32
  let arg22 : BitVec 32 := Scf.iv c0_i32_600 c1_i32_602 k0_t41
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk157 (v524 : IVec S16 32) (v1138 : IVec S16 32) : Prop :=
  (∀ a x, ((![v524, v1138] : Fin 2 → IVec S16 32) a x).toNat < S1x100000.size a)
instance k0_chk157.dec : ∀ (v524 : IVec S16 32) (v1138 : IVec S16 32), Decidable (k0_chk157 v524 v1138) := fun v524 v1138 => decidable_of_iff' _ (Iff.of_eq (k0_chk157.eq_1 v524 v1138))
theorem k0_idx157_inb : ∀ (v524 : IVec S16 32) (v1138 : IVec S16 32) (k0_hw157 : k0_chk157 v524 v1138), ∀ a x, ((![v524, v1138] : Fin 2 → IVec S16 32) a x).toNat < S1x100000.size a := fun v524 v1138 k0_hw157 => k0_hw157
def k0_off410 (k0_t41 : Fin k0_t41_loop.trips) : Fin 2 → Nat :=
  let c0_i32_1179 : BitVec 32 := 0#32
  let v1140 : Index := Scalar.indexCast c0_i32_1179
  let c0_i32_600 : BitVec 32 := 0#32
  let c1_i32_602 : BitVec 32 := 1#32
  let arg22 : BitVec 32 := Scf.iv c0_i32_600 c1_i32_602 k0_t41
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off411 (k0_t41 : Fin k0_t41_loop.trips) : Fin 1 → Nat :=
  let c0_i32_600 : BitVec 32 := 0#32
  let c1_i32_602 : BitVec 32 := 1#32
  let arg22 : BitVec 32 := Scf.iv c0_i32_600 c1_i32_602 k0_t41
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk158 (v524 : IVec S16 32) (v1146 : IVec S16 32) : Prop :=
  (∀ a x, ((![v524, v1146] : Fin 2 → IVec S16 32) a x).toNat < S1x100000.size a)
instance k0_chk158.dec : ∀ (v524 : IVec S16 32) (v1146 : IVec S16 32), Decidable (k0_chk158 v524 v1146) := fun v524 v1146 => decidable_of_iff' _ (Iff.of_eq (k0_chk158.eq_1 v524 v1146))
theorem k0_idx158_inb : ∀ (v524 : IVec S16 32) (v1146 : IVec S16 32) (k0_hw158 : k0_chk158 v524 v1146), ∀ a x, ((![v524, v1146] : Fin 2 → IVec S16 32) a x).toNat < S1x100000.size a := fun v524 v1146 k0_hw158 => k0_hw158
def k0_off412 (k0_t41 : Fin k0_t41_loop.trips) : Fin 2 → Nat :=
  let c0_i32_1181 : BitVec 32 := 0#32
  let v1148 : Index := Scalar.indexCast c0_i32_1181
  let c0_i32_600 : BitVec 32 := 0#32
  let c1_i32_602 : BitVec 32 := 1#32
  let arg22 : BitVec 32 := Scf.iv c0_i32_600 c1_i32_602 k0_t41
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off413 (i : grid0.Coords) : Fin 3 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_593 : BitVec 32 := 0#32
  let v519 : BitVec 32 := Scalar.addi v2 c0_i32_593
  let c0_i32_604 : BitVec 32 := 0#32
  ![20, v519.toNat, 0]
def k0_off414 (i : grid0.Coords) : Fin 3 → Nat :=
  let c19_i32_607 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_606 : BitVec 32 := 1#32
  let v530 : BitVec 32 := Scalar.addi v2 c1_i32_606
  let c0_i32_1171_r42 : BitVec 32 := 0#32
  ![19, v530.toNat, 0]
def k0_off415 (i : grid0.Coords) : Fin 3 → Nat :=
  let c19_i32_608 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_576 : BitVec 32 := 1#32
  let v504 : BitVec 32 := Scalar.addi v2 c1_i32_576
  let c0_i32_609 : BitVec 32 := 0#32
  ![19, v504.toNat, 0]
@[reducible] def k0_t42_loop : Scf.Loop 32 :=
  let c0_i32_613 : BitVec 32 := 0#32
  let c64_i32_614 : BitVec 32 := 64#32
  let v536 : BitVec 32 := Scalar.addi c0_i32_613 c64_i32_614
  let c1_i32_615 : BitVec 32 := 1#32
  ⟨c0_i32_613, v536, c1_i32_615⟩
def k0_off416 (k0_t42 : Fin k0_t42_loop.trips) : Fin 1 → Nat :=
  let c0_i32_613 : BitVec 32 := 0#32
  let c1_i32_615 : BitVec 32 := 1#32
  let arg22 : BitVec 32 := Scf.iv c0_i32_613 c1_i32_615 k0_t42
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk159 (v535 : IVec S16 32) (v1122 : IVec S16 32) : Prop :=
  (∀ a x, ((![v535, v1122] : Fin 2 → IVec S16 32) a x).toNat < S1x100000.size a)
instance k0_chk159.dec : ∀ (v535 : IVec S16 32) (v1122 : IVec S16 32), Decidable (k0_chk159 v535 v1122) := fun v535 v1122 => decidable_of_iff' _ (Iff.of_eq (k0_chk159.eq_1 v535 v1122))
theorem k0_idx159_inb : ∀ (v535 : IVec S16 32) (v1122 : IVec S16 32) (k0_hw159 : k0_chk159 v535 v1122), ∀ a x, ((![v535, v1122] : Fin 2 → IVec S16 32) a x).toNat < S1x100000.size a := fun v535 v1122 k0_hw159 => k0_hw159
def k0_off417 (k0_t42 : Fin k0_t42_loop.trips) : Fin 2 → Nat :=
  let c0_i32_1173 : BitVec 32 := 0#32
  let v1124 : Index := Scalar.indexCast c0_i32_1173
  let c0_i32_613 : BitVec 32 := 0#32
  let c1_i32_615 : BitVec 32 := 1#32
  let arg22 : BitVec 32 := Scf.iv c0_i32_613 c1_i32_615 k0_t42
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off418 (k0_t42 : Fin k0_t42_loop.trips) : Fin 1 → Nat :=
  let c0_i32_613 : BitVec 32 := 0#32
  let c1_i32_615 : BitVec 32 := 1#32
  let arg22 : BitVec 32 := Scf.iv c0_i32_613 c1_i32_615 k0_t42
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk160 (v535 : IVec S16 32) (v1130 : IVec S16 32) : Prop :=
  (∀ a x, ((![v535, v1130] : Fin 2 → IVec S16 32) a x).toNat < S1x100000.size a)
instance k0_chk160.dec : ∀ (v535 : IVec S16 32) (v1130 : IVec S16 32), Decidable (k0_chk160 v535 v1130) := fun v535 v1130 => decidable_of_iff' _ (Iff.of_eq (k0_chk160.eq_1 v535 v1130))
theorem k0_idx160_inb : ∀ (v535 : IVec S16 32) (v1130 : IVec S16 32) (k0_hw160 : k0_chk160 v535 v1130), ∀ a x, ((![v535, v1130] : Fin 2 → IVec S16 32) a x).toNat < S1x100000.size a := fun v535 v1130 k0_hw160 => k0_hw160
def k0_off419 (k0_t42 : Fin k0_t42_loop.trips) : Fin 2 → Nat :=
  let c0_i32_1176 : BitVec 32 := 0#32
  let v1132 : Index := Scalar.indexCast c0_i32_1176
  let c0_i32_613 : BitVec 32 := 0#32
  let c1_i32_615 : BitVec 32 := 1#32
  let arg22 : BitVec 32 := Scf.iv c0_i32_613 c1_i32_615 k0_t42
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off420 (k0_t42 : Fin k0_t42_loop.trips) : Fin 1 → Nat :=
  let c0_i32_613 : BitVec 32 := 0#32
  let c1_i32_615 : BitVec 32 := 1#32
  let arg22 : BitVec 32 := Scf.iv c0_i32_613 c1_i32_615 k0_t42
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk161 (v535 : IVec S16 32) (v1138 : IVec S16 32) : Prop :=
  (∀ a x, ((![v535, v1138] : Fin 2 → IVec S16 32) a x).toNat < S1x100000.size a)
instance k0_chk161.dec : ∀ (v535 : IVec S16 32) (v1138 : IVec S16 32), Decidable (k0_chk161 v535 v1138) := fun v535 v1138 => decidable_of_iff' _ (Iff.of_eq (k0_chk161.eq_1 v535 v1138))
theorem k0_idx161_inb : ∀ (v535 : IVec S16 32) (v1138 : IVec S16 32) (k0_hw161 : k0_chk161 v535 v1138), ∀ a x, ((![v535, v1138] : Fin 2 → IVec S16 32) a x).toNat < S1x100000.size a := fun v535 v1138 k0_hw161 => k0_hw161
def k0_off421 (k0_t42 : Fin k0_t42_loop.trips) : Fin 2 → Nat :=
  let c0_i32_1179 : BitVec 32 := 0#32
  let v1140 : Index := Scalar.indexCast c0_i32_1179
  let c0_i32_613 : BitVec 32 := 0#32
  let c1_i32_615 : BitVec 32 := 1#32
  let arg22 : BitVec 32 := Scf.iv c0_i32_613 c1_i32_615 k0_t42
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off422 (k0_t42 : Fin k0_t42_loop.trips) : Fin 1 → Nat :=
  let c0_i32_613 : BitVec 32 := 0#32
  let c1_i32_615 : BitVec 32 := 1#32
  let arg22 : BitVec 32 := Scf.iv c0_i32_613 c1_i32_615 k0_t42
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk162 (v535 : IVec S16 32) (v1146 : IVec S16 32) : Prop :=
  (∀ a x, ((![v535, v1146] : Fin 2 → IVec S16 32) a x).toNat < S1x100000.size a)
instance k0_chk162.dec : ∀ (v535 : IVec S16 32) (v1146 : IVec S16 32), Decidable (k0_chk162 v535 v1146) := fun v535 v1146 => decidable_of_iff' _ (Iff.of_eq (k0_chk162.eq_1 v535 v1146))
theorem k0_idx162_inb : ∀ (v535 : IVec S16 32) (v1146 : IVec S16 32) (k0_hw162 : k0_chk162 v535 v1146), ∀ a x, ((![v535, v1146] : Fin 2 → IVec S16 32) a x).toNat < S1x100000.size a := fun v535 v1146 k0_hw162 => k0_hw162
def k0_off423 (k0_t42 : Fin k0_t42_loop.trips) : Fin 2 → Nat :=
  let c0_i32_1181 : BitVec 32 := 0#32
  let v1148 : Index := Scalar.indexCast c0_i32_1181
  let c0_i32_613 : BitVec 32 := 0#32
  let c1_i32_615 : BitVec 32 := 1#32
  let arg22 : BitVec 32 := Scf.iv c0_i32_613 c1_i32_615 k0_t42
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off424 (i : grid0.Coords) (c1_i32_606 : BitVec 32) : Fin 3 → Nat :=
  let c20_i32_617 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v530 : BitVec 32 := Scalar.addi v2 c1_i32_606
  let c0_i32_618 : BitVec 32 := 0#32
  ![20, v530.toNat, 0]
def k0_off425 (i : grid0.Coords) : Fin 3 → Nat :=
  let c20_i32_624 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_623 : BitVec 32 := 0#32
  let v545 : BitVec 32 := Scalar.addi v2 c0_i32_623
  let c0_i32_1171_r43 : BitVec 32 := 0#32
  ![20, v545.toNat, 0]
@[reducible] def k0_t43_loop : Scf.Loop 32 :=
  let c0_i32_630 : BitVec 32 := 0#32
  let c64_i32_631 : BitVec 32 := 64#32
  let v551 : BitVec 32 := Scalar.addi c0_i32_630 c64_i32_631
  let c1_i32_632 : BitVec 32 := 1#32
  ⟨c0_i32_630, v551, c1_i32_632⟩
def k0_off426 (k0_t43 : Fin k0_t43_loop.trips) : Fin 1 → Nat :=
  let c0_i32_630 : BitVec 32 := 0#32
  let c1_i32_632 : BitVec 32 := 1#32
  let arg22 : BitVec 32 := Scf.iv c0_i32_630 c1_i32_632 k0_t43
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk163 (v550 : IVec S16 32) (v1122 : IVec S16 32) : Prop :=
  (∀ a x, ((![v550, v1122] : Fin 2 → IVec S16 32) a x).toNat < S1x100000.size a)
instance k0_chk163.dec : ∀ (v550 : IVec S16 32) (v1122 : IVec S16 32), Decidable (k0_chk163 v550 v1122) := fun v550 v1122 => decidable_of_iff' _ (Iff.of_eq (k0_chk163.eq_1 v550 v1122))
theorem k0_idx163_inb : ∀ (v550 : IVec S16 32) (v1122 : IVec S16 32) (k0_hw163 : k0_chk163 v550 v1122), ∀ a x, ((![v550, v1122] : Fin 2 → IVec S16 32) a x).toNat < S1x100000.size a := fun v550 v1122 k0_hw163 => k0_hw163
def k0_off427 (k0_t43 : Fin k0_t43_loop.trips) : Fin 2 → Nat :=
  let c0_i32_1173 : BitVec 32 := 0#32
  let v1124 : Index := Scalar.indexCast c0_i32_1173
  let c0_i32_630 : BitVec 32 := 0#32
  let c1_i32_632 : BitVec 32 := 1#32
  let arg22 : BitVec 32 := Scf.iv c0_i32_630 c1_i32_632 k0_t43
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off428 (k0_t43 : Fin k0_t43_loop.trips) : Fin 1 → Nat :=
  let c0_i32_630 : BitVec 32 := 0#32
  let c1_i32_632 : BitVec 32 := 1#32
  let arg22 : BitVec 32 := Scf.iv c0_i32_630 c1_i32_632 k0_t43
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk164 (v550 : IVec S16 32) (v1130 : IVec S16 32) : Prop :=
  (∀ a x, ((![v550, v1130] : Fin 2 → IVec S16 32) a x).toNat < S1x100000.size a)
instance k0_chk164.dec : ∀ (v550 : IVec S16 32) (v1130 : IVec S16 32), Decidable (k0_chk164 v550 v1130) := fun v550 v1130 => decidable_of_iff' _ (Iff.of_eq (k0_chk164.eq_1 v550 v1130))
theorem k0_idx164_inb : ∀ (v550 : IVec S16 32) (v1130 : IVec S16 32) (k0_hw164 : k0_chk164 v550 v1130), ∀ a x, ((![v550, v1130] : Fin 2 → IVec S16 32) a x).toNat < S1x100000.size a := fun v550 v1130 k0_hw164 => k0_hw164
def k0_off429 (k0_t43 : Fin k0_t43_loop.trips) : Fin 2 → Nat :=
  let c0_i32_1176 : BitVec 32 := 0#32
  let v1132 : Index := Scalar.indexCast c0_i32_1176
  let c0_i32_630 : BitVec 32 := 0#32
  let c1_i32_632 : BitVec 32 := 1#32
  let arg22 : BitVec 32 := Scf.iv c0_i32_630 c1_i32_632 k0_t43
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off430 (k0_t43 : Fin k0_t43_loop.trips) : Fin 1 → Nat :=
  let c0_i32_630 : BitVec 32 := 0#32
  let c1_i32_632 : BitVec 32 := 1#32
  let arg22 : BitVec 32 := Scf.iv c0_i32_630 c1_i32_632 k0_t43
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk165 (v550 : IVec S16 32) (v1138 : IVec S16 32) : Prop :=
  (∀ a x, ((![v550, v1138] : Fin 2 → IVec S16 32) a x).toNat < S1x100000.size a)
instance k0_chk165.dec : ∀ (v550 : IVec S16 32) (v1138 : IVec S16 32), Decidable (k0_chk165 v550 v1138) := fun v550 v1138 => decidable_of_iff' _ (Iff.of_eq (k0_chk165.eq_1 v550 v1138))
theorem k0_idx165_inb : ∀ (v550 : IVec S16 32) (v1138 : IVec S16 32) (k0_hw165 : k0_chk165 v550 v1138), ∀ a x, ((![v550, v1138] : Fin 2 → IVec S16 32) a x).toNat < S1x100000.size a := fun v550 v1138 k0_hw165 => k0_hw165
def k0_off431 (k0_t43 : Fin k0_t43_loop.trips) : Fin 2 → Nat :=
  let c0_i32_1179 : BitVec 32 := 0#32
  let v1140 : Index := Scalar.indexCast c0_i32_1179
  let c0_i32_630 : BitVec 32 := 0#32
  let c1_i32_632 : BitVec 32 := 1#32
  let arg22 : BitVec 32 := Scf.iv c0_i32_630 c1_i32_632 k0_t43
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off432 (k0_t43 : Fin k0_t43_loop.trips) : Fin 1 → Nat :=
  let c0_i32_630 : BitVec 32 := 0#32
  let c1_i32_632 : BitVec 32 := 1#32
  let arg22 : BitVec 32 := Scf.iv c0_i32_630 c1_i32_632 k0_t43
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk166 (v550 : IVec S16 32) (v1146 : IVec S16 32) : Prop :=
  (∀ a x, ((![v550, v1146] : Fin 2 → IVec S16 32) a x).toNat < S1x100000.size a)
instance k0_chk166.dec : ∀ (v550 : IVec S16 32) (v1146 : IVec S16 32), Decidable (k0_chk166 v550 v1146) := fun v550 v1146 => decidable_of_iff' _ (Iff.of_eq (k0_chk166.eq_1 v550 v1146))
theorem k0_idx166_inb : ∀ (v550 : IVec S16 32) (v1146 : IVec S16 32) (k0_hw166 : k0_chk166 v550 v1146), ∀ a x, ((![v550, v1146] : Fin 2 → IVec S16 32) a x).toNat < S1x100000.size a := fun v550 v1146 k0_hw166 => k0_hw166
def k0_off433 (k0_t43 : Fin k0_t43_loop.trips) : Fin 2 → Nat :=
  let c0_i32_1181 : BitVec 32 := 0#32
  let v1148 : Index := Scalar.indexCast c0_i32_1181
  let c0_i32_630 : BitVec 32 := 0#32
  let c1_i32_632 : BitVec 32 := 1#32
  let arg22 : BitVec 32 := Scf.iv c0_i32_630 c1_i32_632 k0_t43
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off434 (i : grid0.Coords) : Fin 3 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_623 : BitVec 32 := 0#32
  let v545 : BitVec 32 := Scalar.addi v2 c0_i32_623
  let c0_i32_634 : BitVec 32 := 0#32
  ![21, v545.toNat, 0]
def k0_off435 (i : grid0.Coords) : Fin 3 → Nat :=
  let c20_i32_637 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_636 : BitVec 32 := 1#32
  let v556 : BitVec 32 := Scalar.addi v2 c1_i32_636
  let c0_i32_1171_r44 : BitVec 32 := 0#32
  ![20, v556.toNat, 0]
def k0_off436 (i : grid0.Coords) : Fin 3 → Nat :=
  let c20_i32_638 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_606 : BitVec 32 := 1#32
  let v530 : BitVec 32 := Scalar.addi v2 c1_i32_606
  let c0_i32_639 : BitVec 32 := 0#32
  ![20, v530.toNat, 0]
@[reducible] def k0_t44_loop : Scf.Loop 32 :=
  let c0_i32_643 : BitVec 32 := 0#32
  let c64_i32_644 : BitVec 32 := 64#32
  let v562 : BitVec 32 := Scalar.addi c0_i32_643 c64_i32_644
  let c1_i32_645 : BitVec 32 := 1#32
  ⟨c0_i32_643, v562, c1_i32_645⟩
def k0_off437 (k0_t44 : Fin k0_t44_loop.trips) : Fin 1 → Nat :=
  let c0_i32_643 : BitVec 32 := 0#32
  let c1_i32_645 : BitVec 32 := 1#32
  let arg22 : BitVec 32 := Scf.iv c0_i32_643 c1_i32_645 k0_t44
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk167 (v561 : IVec S16 32) (v1122 : IVec S16 32) : Prop :=
  (∀ a x, ((![v561, v1122] : Fin 2 → IVec S16 32) a x).toNat < S1x100000.size a)
instance k0_chk167.dec : ∀ (v561 : IVec S16 32) (v1122 : IVec S16 32), Decidable (k0_chk167 v561 v1122) := fun v561 v1122 => decidable_of_iff' _ (Iff.of_eq (k0_chk167.eq_1 v561 v1122))
theorem k0_idx167_inb : ∀ (v561 : IVec S16 32) (v1122 : IVec S16 32) (k0_hw167 : k0_chk167 v561 v1122), ∀ a x, ((![v561, v1122] : Fin 2 → IVec S16 32) a x).toNat < S1x100000.size a := fun v561 v1122 k0_hw167 => k0_hw167
def k0_off438 (k0_t44 : Fin k0_t44_loop.trips) : Fin 2 → Nat :=
  let c0_i32_1173 : BitVec 32 := 0#32
  let v1124 : Index := Scalar.indexCast c0_i32_1173
  let c0_i32_643 : BitVec 32 := 0#32
  let c1_i32_645 : BitVec 32 := 1#32
  let arg22 : BitVec 32 := Scf.iv c0_i32_643 c1_i32_645 k0_t44
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off439 (k0_t44 : Fin k0_t44_loop.trips) : Fin 1 → Nat :=
  let c0_i32_643 : BitVec 32 := 0#32
  let c1_i32_645 : BitVec 32 := 1#32
  let arg22 : BitVec 32 := Scf.iv c0_i32_643 c1_i32_645 k0_t44
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk168 (v561 : IVec S16 32) (v1130 : IVec S16 32) : Prop :=
  (∀ a x, ((![v561, v1130] : Fin 2 → IVec S16 32) a x).toNat < S1x100000.size a)
instance k0_chk168.dec : ∀ (v561 : IVec S16 32) (v1130 : IVec S16 32), Decidable (k0_chk168 v561 v1130) := fun v561 v1130 => decidable_of_iff' _ (Iff.of_eq (k0_chk168.eq_1 v561 v1130))
theorem k0_idx168_inb : ∀ (v561 : IVec S16 32) (v1130 : IVec S16 32) (k0_hw168 : k0_chk168 v561 v1130), ∀ a x, ((![v561, v1130] : Fin 2 → IVec S16 32) a x).toNat < S1x100000.size a := fun v561 v1130 k0_hw168 => k0_hw168
def k0_off440 (k0_t44 : Fin k0_t44_loop.trips) : Fin 2 → Nat :=
  let c0_i32_1176 : BitVec 32 := 0#32
  let v1132 : Index := Scalar.indexCast c0_i32_1176
  let c0_i32_643 : BitVec 32 := 0#32
  let c1_i32_645 : BitVec 32 := 1#32
  let arg22 : BitVec 32 := Scf.iv c0_i32_643 c1_i32_645 k0_t44
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off441 (k0_t44 : Fin k0_t44_loop.trips) : Fin 1 → Nat :=
  let c0_i32_643 : BitVec 32 := 0#32
  let c1_i32_645 : BitVec 32 := 1#32
  let arg22 : BitVec 32 := Scf.iv c0_i32_643 c1_i32_645 k0_t44
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk169 (v561 : IVec S16 32) (v1138 : IVec S16 32) : Prop :=
  (∀ a x, ((![v561, v1138] : Fin 2 → IVec S16 32) a x).toNat < S1x100000.size a)
instance k0_chk169.dec : ∀ (v561 : IVec S16 32) (v1138 : IVec S16 32), Decidable (k0_chk169 v561 v1138) := fun v561 v1138 => decidable_of_iff' _ (Iff.of_eq (k0_chk169.eq_1 v561 v1138))
theorem k0_idx169_inb : ∀ (v561 : IVec S16 32) (v1138 : IVec S16 32) (k0_hw169 : k0_chk169 v561 v1138), ∀ a x, ((![v561, v1138] : Fin 2 → IVec S16 32) a x).toNat < S1x100000.size a := fun v561 v1138 k0_hw169 => k0_hw169
def k0_off442 (k0_t44 : Fin k0_t44_loop.trips) : Fin 2 → Nat :=
  let c0_i32_1179 : BitVec 32 := 0#32
  let v1140 : Index := Scalar.indexCast c0_i32_1179
  let c0_i32_643 : BitVec 32 := 0#32
  let c1_i32_645 : BitVec 32 := 1#32
  let arg22 : BitVec 32 := Scf.iv c0_i32_643 c1_i32_645 k0_t44
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off443 (k0_t44 : Fin k0_t44_loop.trips) : Fin 1 → Nat :=
  let c0_i32_643 : BitVec 32 := 0#32
  let c1_i32_645 : BitVec 32 := 1#32
  let arg22 : BitVec 32 := Scf.iv c0_i32_643 c1_i32_645 k0_t44
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk170 (v561 : IVec S16 32) (v1146 : IVec S16 32) : Prop :=
  (∀ a x, ((![v561, v1146] : Fin 2 → IVec S16 32) a x).toNat < S1x100000.size a)
instance k0_chk170.dec : ∀ (v561 : IVec S16 32) (v1146 : IVec S16 32), Decidable (k0_chk170 v561 v1146) := fun v561 v1146 => decidable_of_iff' _ (Iff.of_eq (k0_chk170.eq_1 v561 v1146))
theorem k0_idx170_inb : ∀ (v561 : IVec S16 32) (v1146 : IVec S16 32) (k0_hw170 : k0_chk170 v561 v1146), ∀ a x, ((![v561, v1146] : Fin 2 → IVec S16 32) a x).toNat < S1x100000.size a := fun v561 v1146 k0_hw170 => k0_hw170
def k0_off444 (k0_t44 : Fin k0_t44_loop.trips) : Fin 2 → Nat :=
  let c0_i32_1181 : BitVec 32 := 0#32
  let v1148 : Index := Scalar.indexCast c0_i32_1181
  let c0_i32_643 : BitVec 32 := 0#32
  let c1_i32_645 : BitVec 32 := 1#32
  let arg22 : BitVec 32 := Scf.iv c0_i32_643 c1_i32_645 k0_t44
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off445 (i : grid0.Coords) (c1_i32_636 : BitVec 32) : Fin 3 → Nat :=
  let c21_i32_647 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v556 : BitVec 32 := Scalar.addi v2 c1_i32_636
  let c0_i32_648 : BitVec 32 := 0#32
  ![21, v556.toNat, 0]
def k0_off446 (i : grid0.Coords) : Fin 3 → Nat :=
  let c21_i32_654 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_653 : BitVec 32 := 0#32
  let v571 : BitVec 32 := Scalar.addi v2 c0_i32_653
  let c0_i32_1171_r45 : BitVec 32 := 0#32
  ![21, v571.toNat, 0]
@[reducible] def k0_t45_loop : Scf.Loop 32 :=
  let c0_i32_660 : BitVec 32 := 0#32
  let c64_i32_661 : BitVec 32 := 64#32
  let v577 : BitVec 32 := Scalar.addi c0_i32_660 c64_i32_661
  let c1_i32_662 : BitVec 32 := 1#32
  ⟨c0_i32_660, v577, c1_i32_662⟩
def k0_off447 (k0_t45 : Fin k0_t45_loop.trips) : Fin 1 → Nat :=
  let c0_i32_660 : BitVec 32 := 0#32
  let c1_i32_662 : BitVec 32 := 1#32
  let arg22 : BitVec 32 := Scf.iv c0_i32_660 c1_i32_662 k0_t45
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk171 (v576 : IVec S16 32) (v1122 : IVec S16 32) : Prop :=
  (∀ a x, ((![v576, v1122] : Fin 2 → IVec S16 32) a x).toNat < S1x100000.size a)
instance k0_chk171.dec : ∀ (v576 : IVec S16 32) (v1122 : IVec S16 32), Decidable (k0_chk171 v576 v1122) := fun v576 v1122 => decidable_of_iff' _ (Iff.of_eq (k0_chk171.eq_1 v576 v1122))
theorem k0_idx171_inb : ∀ (v576 : IVec S16 32) (v1122 : IVec S16 32) (k0_hw171 : k0_chk171 v576 v1122), ∀ a x, ((![v576, v1122] : Fin 2 → IVec S16 32) a x).toNat < S1x100000.size a := fun v576 v1122 k0_hw171 => k0_hw171
def k0_off448 (k0_t45 : Fin k0_t45_loop.trips) : Fin 2 → Nat :=
  let c0_i32_1173 : BitVec 32 := 0#32
  let v1124 : Index := Scalar.indexCast c0_i32_1173
  let c0_i32_660 : BitVec 32 := 0#32
  let c1_i32_662 : BitVec 32 := 1#32
  let arg22 : BitVec 32 := Scf.iv c0_i32_660 c1_i32_662 k0_t45
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off449 (k0_t45 : Fin k0_t45_loop.trips) : Fin 1 → Nat :=
  let c0_i32_660 : BitVec 32 := 0#32
  let c1_i32_662 : BitVec 32 := 1#32
  let arg22 : BitVec 32 := Scf.iv c0_i32_660 c1_i32_662 k0_t45
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk172 (v576 : IVec S16 32) (v1130 : IVec S16 32) : Prop :=
  (∀ a x, ((![v576, v1130] : Fin 2 → IVec S16 32) a x).toNat < S1x100000.size a)
instance k0_chk172.dec : ∀ (v576 : IVec S16 32) (v1130 : IVec S16 32), Decidable (k0_chk172 v576 v1130) := fun v576 v1130 => decidable_of_iff' _ (Iff.of_eq (k0_chk172.eq_1 v576 v1130))
theorem k0_idx172_inb : ∀ (v576 : IVec S16 32) (v1130 : IVec S16 32) (k0_hw172 : k0_chk172 v576 v1130), ∀ a x, ((![v576, v1130] : Fin 2 → IVec S16 32) a x).toNat < S1x100000.size a := fun v576 v1130 k0_hw172 => k0_hw172
def k0_off450 (k0_t45 : Fin k0_t45_loop.trips) : Fin 2 → Nat :=
  let c0_i32_1176 : BitVec 32 := 0#32
  let v1132 : Index := Scalar.indexCast c0_i32_1176
  let c0_i32_660 : BitVec 32 := 0#32
  let c1_i32_662 : BitVec 32 := 1#32
  let arg22 : BitVec 32 := Scf.iv c0_i32_660 c1_i32_662 k0_t45
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off451 (k0_t45 : Fin k0_t45_loop.trips) : Fin 1 → Nat :=
  let c0_i32_660 : BitVec 32 := 0#32
  let c1_i32_662 : BitVec 32 := 1#32
  let arg22 : BitVec 32 := Scf.iv c0_i32_660 c1_i32_662 k0_t45
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk173 (v576 : IVec S16 32) (v1138 : IVec S16 32) : Prop :=
  (∀ a x, ((![v576, v1138] : Fin 2 → IVec S16 32) a x).toNat < S1x100000.size a)
instance k0_chk173.dec : ∀ (v576 : IVec S16 32) (v1138 : IVec S16 32), Decidable (k0_chk173 v576 v1138) := fun v576 v1138 => decidable_of_iff' _ (Iff.of_eq (k0_chk173.eq_1 v576 v1138))
theorem k0_idx173_inb : ∀ (v576 : IVec S16 32) (v1138 : IVec S16 32) (k0_hw173 : k0_chk173 v576 v1138), ∀ a x, ((![v576, v1138] : Fin 2 → IVec S16 32) a x).toNat < S1x100000.size a := fun v576 v1138 k0_hw173 => k0_hw173
def k0_off452 (k0_t45 : Fin k0_t45_loop.trips) : Fin 2 → Nat :=
  let c0_i32_1179 : BitVec 32 := 0#32
  let v1140 : Index := Scalar.indexCast c0_i32_1179
  let c0_i32_660 : BitVec 32 := 0#32
  let c1_i32_662 : BitVec 32 := 1#32
  let arg22 : BitVec 32 := Scf.iv c0_i32_660 c1_i32_662 k0_t45
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off453 (k0_t45 : Fin k0_t45_loop.trips) : Fin 1 → Nat :=
  let c0_i32_660 : BitVec 32 := 0#32
  let c1_i32_662 : BitVec 32 := 1#32
  let arg22 : BitVec 32 := Scf.iv c0_i32_660 c1_i32_662 k0_t45
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk174 (v576 : IVec S16 32) (v1146 : IVec S16 32) : Prop :=
  (∀ a x, ((![v576, v1146] : Fin 2 → IVec S16 32) a x).toNat < S1x100000.size a)
instance k0_chk174.dec : ∀ (v576 : IVec S16 32) (v1146 : IVec S16 32), Decidable (k0_chk174 v576 v1146) := fun v576 v1146 => decidable_of_iff' _ (Iff.of_eq (k0_chk174.eq_1 v576 v1146))
theorem k0_idx174_inb : ∀ (v576 : IVec S16 32) (v1146 : IVec S16 32) (k0_hw174 : k0_chk174 v576 v1146), ∀ a x, ((![v576, v1146] : Fin 2 → IVec S16 32) a x).toNat < S1x100000.size a := fun v576 v1146 k0_hw174 => k0_hw174
def k0_off454 (k0_t45 : Fin k0_t45_loop.trips) : Fin 2 → Nat :=
  let c0_i32_1181 : BitVec 32 := 0#32
  let v1148 : Index := Scalar.indexCast c0_i32_1181
  let c0_i32_660 : BitVec 32 := 0#32
  let c1_i32_662 : BitVec 32 := 1#32
  let arg22 : BitVec 32 := Scf.iv c0_i32_660 c1_i32_662 k0_t45
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off455 (i : grid0.Coords) : Fin 3 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_653 : BitVec 32 := 0#32
  let v571 : BitVec 32 := Scalar.addi v2 c0_i32_653
  let c0_i32_664 : BitVec 32 := 0#32
  ![22, v571.toNat, 0]
def k0_off456 (i : grid0.Coords) : Fin 3 → Nat :=
  let c21_i32_667 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_666 : BitVec 32 := 1#32
  let v582 : BitVec 32 := Scalar.addi v2 c1_i32_666
  let c0_i32_1171_r46 : BitVec 32 := 0#32
  ![21, v582.toNat, 0]
def k0_off457 (i : grid0.Coords) : Fin 3 → Nat :=
  let c21_i32_668 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_636 : BitVec 32 := 1#32
  let v556 : BitVec 32 := Scalar.addi v2 c1_i32_636
  let c0_i32_669 : BitVec 32 := 0#32
  ![21, v556.toNat, 0]
@[reducible] def k0_t46_loop : Scf.Loop 32 :=
  let c0_i32_673 : BitVec 32 := 0#32
  let c64_i32_674 : BitVec 32 := 64#32
  let v588 : BitVec 32 := Scalar.addi c0_i32_673 c64_i32_674
  let c1_i32_675 : BitVec 32 := 1#32
  ⟨c0_i32_673, v588, c1_i32_675⟩
def k0_off458 (k0_t46 : Fin k0_t46_loop.trips) : Fin 1 → Nat :=
  let c0_i32_673 : BitVec 32 := 0#32
  let c1_i32_675 : BitVec 32 := 1#32
  let arg22 : BitVec 32 := Scf.iv c0_i32_673 c1_i32_675 k0_t46
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk175 (v587 : IVec S16 32) (v1122 : IVec S16 32) : Prop :=
  (∀ a x, ((![v587, v1122] : Fin 2 → IVec S16 32) a x).toNat < S1x100000.size a)
instance k0_chk175.dec : ∀ (v587 : IVec S16 32) (v1122 : IVec S16 32), Decidable (k0_chk175 v587 v1122) := fun v587 v1122 => decidable_of_iff' _ (Iff.of_eq (k0_chk175.eq_1 v587 v1122))
theorem k0_idx175_inb : ∀ (v587 : IVec S16 32) (v1122 : IVec S16 32) (k0_hw175 : k0_chk175 v587 v1122), ∀ a x, ((![v587, v1122] : Fin 2 → IVec S16 32) a x).toNat < S1x100000.size a := fun v587 v1122 k0_hw175 => k0_hw175
def k0_off459 (k0_t46 : Fin k0_t46_loop.trips) : Fin 2 → Nat :=
  let c0_i32_1173 : BitVec 32 := 0#32
  let v1124 : Index := Scalar.indexCast c0_i32_1173
  let c0_i32_673 : BitVec 32 := 0#32
  let c1_i32_675 : BitVec 32 := 1#32
  let arg22 : BitVec 32 := Scf.iv c0_i32_673 c1_i32_675 k0_t46
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off460 (k0_t46 : Fin k0_t46_loop.trips) : Fin 1 → Nat :=
  let c0_i32_673 : BitVec 32 := 0#32
  let c1_i32_675 : BitVec 32 := 1#32
  let arg22 : BitVec 32 := Scf.iv c0_i32_673 c1_i32_675 k0_t46
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk176 (v587 : IVec S16 32) (v1130 : IVec S16 32) : Prop :=
  (∀ a x, ((![v587, v1130] : Fin 2 → IVec S16 32) a x).toNat < S1x100000.size a)
instance k0_chk176.dec : ∀ (v587 : IVec S16 32) (v1130 : IVec S16 32), Decidable (k0_chk176 v587 v1130) := fun v587 v1130 => decidable_of_iff' _ (Iff.of_eq (k0_chk176.eq_1 v587 v1130))
theorem k0_idx176_inb : ∀ (v587 : IVec S16 32) (v1130 : IVec S16 32) (k0_hw176 : k0_chk176 v587 v1130), ∀ a x, ((![v587, v1130] : Fin 2 → IVec S16 32) a x).toNat < S1x100000.size a := fun v587 v1130 k0_hw176 => k0_hw176
def k0_off461 (k0_t46 : Fin k0_t46_loop.trips) : Fin 2 → Nat :=
  let c0_i32_1176 : BitVec 32 := 0#32
  let v1132 : Index := Scalar.indexCast c0_i32_1176
  let c0_i32_673 : BitVec 32 := 0#32
  let c1_i32_675 : BitVec 32 := 1#32
  let arg22 : BitVec 32 := Scf.iv c0_i32_673 c1_i32_675 k0_t46
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off462 (k0_t46 : Fin k0_t46_loop.trips) : Fin 1 → Nat :=
  let c0_i32_673 : BitVec 32 := 0#32
  let c1_i32_675 : BitVec 32 := 1#32
  let arg22 : BitVec 32 := Scf.iv c0_i32_673 c1_i32_675 k0_t46
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk177 (v587 : IVec S16 32) (v1138 : IVec S16 32) : Prop :=
  (∀ a x, ((![v587, v1138] : Fin 2 → IVec S16 32) a x).toNat < S1x100000.size a)
instance k0_chk177.dec : ∀ (v587 : IVec S16 32) (v1138 : IVec S16 32), Decidable (k0_chk177 v587 v1138) := fun v587 v1138 => decidable_of_iff' _ (Iff.of_eq (k0_chk177.eq_1 v587 v1138))
theorem k0_idx177_inb : ∀ (v587 : IVec S16 32) (v1138 : IVec S16 32) (k0_hw177 : k0_chk177 v587 v1138), ∀ a x, ((![v587, v1138] : Fin 2 → IVec S16 32) a x).toNat < S1x100000.size a := fun v587 v1138 k0_hw177 => k0_hw177
def k0_off463 (k0_t46 : Fin k0_t46_loop.trips) : Fin 2 → Nat :=
  let c0_i32_1179 : BitVec 32 := 0#32
  let v1140 : Index := Scalar.indexCast c0_i32_1179
  let c0_i32_673 : BitVec 32 := 0#32
  let c1_i32_675 : BitVec 32 := 1#32
  let arg22 : BitVec 32 := Scf.iv c0_i32_673 c1_i32_675 k0_t46
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off464 (k0_t46 : Fin k0_t46_loop.trips) : Fin 1 → Nat :=
  let c0_i32_673 : BitVec 32 := 0#32
  let c1_i32_675 : BitVec 32 := 1#32
  let arg22 : BitVec 32 := Scf.iv c0_i32_673 c1_i32_675 k0_t46
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk178 (v587 : IVec S16 32) (v1146 : IVec S16 32) : Prop :=
  (∀ a x, ((![v587, v1146] : Fin 2 → IVec S16 32) a x).toNat < S1x100000.size a)
instance k0_chk178.dec : ∀ (v587 : IVec S16 32) (v1146 : IVec S16 32), Decidable (k0_chk178 v587 v1146) := fun v587 v1146 => decidable_of_iff' _ (Iff.of_eq (k0_chk178.eq_1 v587 v1146))
theorem k0_idx178_inb : ∀ (v587 : IVec S16 32) (v1146 : IVec S16 32) (k0_hw178 : k0_chk178 v587 v1146), ∀ a x, ((![v587, v1146] : Fin 2 → IVec S16 32) a x).toNat < S1x100000.size a := fun v587 v1146 k0_hw178 => k0_hw178
def k0_off465 (k0_t46 : Fin k0_t46_loop.trips) : Fin 2 → Nat :=
  let c0_i32_1181 : BitVec 32 := 0#32
  let v1148 : Index := Scalar.indexCast c0_i32_1181
  let c0_i32_673 : BitVec 32 := 0#32
  let c1_i32_675 : BitVec 32 := 1#32
  let arg22 : BitVec 32 := Scf.iv c0_i32_673 c1_i32_675 k0_t46
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off466 (i : grid0.Coords) (c1_i32_666 : BitVec 32) : Fin 3 → Nat :=
  let c22_i32_677 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v582 : BitVec 32 := Scalar.addi v2 c1_i32_666
  let c0_i32_678 : BitVec 32 := 0#32
  ![22, v582.toNat, 0]
def k0_off467 (i : grid0.Coords) : Fin 3 → Nat :=
  let c22_i32_684 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_683 : BitVec 32 := 0#32
  let v597 : BitVec 32 := Scalar.addi v2 c0_i32_683
  let c0_i32_1171_r47 : BitVec 32 := 0#32
  ![22, v597.toNat, 0]
@[reducible] def k0_t47_loop : Scf.Loop 32 :=
  let c0_i32_690 : BitVec 32 := 0#32
  let c64_i32_691 : BitVec 32 := 64#32
  let v603 : BitVec 32 := Scalar.addi c0_i32_690 c64_i32_691
  let c1_i32_692 : BitVec 32 := 1#32
  ⟨c0_i32_690, v603, c1_i32_692⟩
def k0_off468 (k0_t47 : Fin k0_t47_loop.trips) : Fin 1 → Nat :=
  let c0_i32_690 : BitVec 32 := 0#32
  let c1_i32_692 : BitVec 32 := 1#32
  let arg22 : BitVec 32 := Scf.iv c0_i32_690 c1_i32_692 k0_t47
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk179 (v602 : IVec S16 32) (v1122 : IVec S16 32) : Prop :=
  (∀ a x, ((![v602, v1122] : Fin 2 → IVec S16 32) a x).toNat < S1x100000.size a)
instance k0_chk179.dec : ∀ (v602 : IVec S16 32) (v1122 : IVec S16 32), Decidable (k0_chk179 v602 v1122) := fun v602 v1122 => decidable_of_iff' _ (Iff.of_eq (k0_chk179.eq_1 v602 v1122))
theorem k0_idx179_inb : ∀ (v602 : IVec S16 32) (v1122 : IVec S16 32) (k0_hw179 : k0_chk179 v602 v1122), ∀ a x, ((![v602, v1122] : Fin 2 → IVec S16 32) a x).toNat < S1x100000.size a := fun v602 v1122 k0_hw179 => k0_hw179
def k0_off469 (k0_t47 : Fin k0_t47_loop.trips) : Fin 2 → Nat :=
  let c0_i32_1173 : BitVec 32 := 0#32
  let v1124 : Index := Scalar.indexCast c0_i32_1173
  let c0_i32_690 : BitVec 32 := 0#32
  let c1_i32_692 : BitVec 32 := 1#32
  let arg22 : BitVec 32 := Scf.iv c0_i32_690 c1_i32_692 k0_t47
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off470 (k0_t47 : Fin k0_t47_loop.trips) : Fin 1 → Nat :=
  let c0_i32_690 : BitVec 32 := 0#32
  let c1_i32_692 : BitVec 32 := 1#32
  let arg22 : BitVec 32 := Scf.iv c0_i32_690 c1_i32_692 k0_t47
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk180 (v602 : IVec S16 32) (v1130 : IVec S16 32) : Prop :=
  (∀ a x, ((![v602, v1130] : Fin 2 → IVec S16 32) a x).toNat < S1x100000.size a)
instance k0_chk180.dec : ∀ (v602 : IVec S16 32) (v1130 : IVec S16 32), Decidable (k0_chk180 v602 v1130) := fun v602 v1130 => decidable_of_iff' _ (Iff.of_eq (k0_chk180.eq_1 v602 v1130))
theorem k0_idx180_inb : ∀ (v602 : IVec S16 32) (v1130 : IVec S16 32) (k0_hw180 : k0_chk180 v602 v1130), ∀ a x, ((![v602, v1130] : Fin 2 → IVec S16 32) a x).toNat < S1x100000.size a := fun v602 v1130 k0_hw180 => k0_hw180
def k0_off471 (k0_t47 : Fin k0_t47_loop.trips) : Fin 2 → Nat :=
  let c0_i32_1176 : BitVec 32 := 0#32
  let v1132 : Index := Scalar.indexCast c0_i32_1176
  let c0_i32_690 : BitVec 32 := 0#32
  let c1_i32_692 : BitVec 32 := 1#32
  let arg22 : BitVec 32 := Scf.iv c0_i32_690 c1_i32_692 k0_t47
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off472 (k0_t47 : Fin k0_t47_loop.trips) : Fin 1 → Nat :=
  let c0_i32_690 : BitVec 32 := 0#32
  let c1_i32_692 : BitVec 32 := 1#32
  let arg22 : BitVec 32 := Scf.iv c0_i32_690 c1_i32_692 k0_t47
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk181 (v602 : IVec S16 32) (v1138 : IVec S16 32) : Prop :=
  (∀ a x, ((![v602, v1138] : Fin 2 → IVec S16 32) a x).toNat < S1x100000.size a)
instance k0_chk181.dec : ∀ (v602 : IVec S16 32) (v1138 : IVec S16 32), Decidable (k0_chk181 v602 v1138) := fun v602 v1138 => decidable_of_iff' _ (Iff.of_eq (k0_chk181.eq_1 v602 v1138))
theorem k0_idx181_inb : ∀ (v602 : IVec S16 32) (v1138 : IVec S16 32) (k0_hw181 : k0_chk181 v602 v1138), ∀ a x, ((![v602, v1138] : Fin 2 → IVec S16 32) a x).toNat < S1x100000.size a := fun v602 v1138 k0_hw181 => k0_hw181
def k0_off473 (k0_t47 : Fin k0_t47_loop.trips) : Fin 2 → Nat :=
  let c0_i32_1179 : BitVec 32 := 0#32
  let v1140 : Index := Scalar.indexCast c0_i32_1179
  let c0_i32_690 : BitVec 32 := 0#32
  let c1_i32_692 : BitVec 32 := 1#32
  let arg22 : BitVec 32 := Scf.iv c0_i32_690 c1_i32_692 k0_t47
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off474 (k0_t47 : Fin k0_t47_loop.trips) : Fin 1 → Nat :=
  let c0_i32_690 : BitVec 32 := 0#32
  let c1_i32_692 : BitVec 32 := 1#32
  let arg22 : BitVec 32 := Scf.iv c0_i32_690 c1_i32_692 k0_t47
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk182 (v602 : IVec S16 32) (v1146 : IVec S16 32) : Prop :=
  (∀ a x, ((![v602, v1146] : Fin 2 → IVec S16 32) a x).toNat < S1x100000.size a)
instance k0_chk182.dec : ∀ (v602 : IVec S16 32) (v1146 : IVec S16 32), Decidable (k0_chk182 v602 v1146) := fun v602 v1146 => decidable_of_iff' _ (Iff.of_eq (k0_chk182.eq_1 v602 v1146))
theorem k0_idx182_inb : ∀ (v602 : IVec S16 32) (v1146 : IVec S16 32) (k0_hw182 : k0_chk182 v602 v1146), ∀ a x, ((![v602, v1146] : Fin 2 → IVec S16 32) a x).toNat < S1x100000.size a := fun v602 v1146 k0_hw182 => k0_hw182
def k0_off475 (k0_t47 : Fin k0_t47_loop.trips) : Fin 2 → Nat :=
  let c0_i32_1181 : BitVec 32 := 0#32
  let v1148 : Index := Scalar.indexCast c0_i32_1181
  let c0_i32_690 : BitVec 32 := 0#32
  let c1_i32_692 : BitVec 32 := 1#32
  let arg22 : BitVec 32 := Scf.iv c0_i32_690 c1_i32_692 k0_t47
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off476 (i : grid0.Coords) : Fin 3 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_683 : BitVec 32 := 0#32
  let v597 : BitVec 32 := Scalar.addi v2 c0_i32_683
  let c0_i32_694 : BitVec 32 := 0#32
  ![23, v597.toNat, 0]
def k0_off477 (i : grid0.Coords) : Fin 3 → Nat :=
  let c22_i32_697 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_696 : BitVec 32 := 1#32
  let v608 : BitVec 32 := Scalar.addi v2 c1_i32_696
  let c0_i32_1171_r48 : BitVec 32 := 0#32
  ![22, v608.toNat, 0]
def k0_off478 (i : grid0.Coords) : Fin 3 → Nat :=
  let c22_i32_698 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_666 : BitVec 32 := 1#32
  let v582 : BitVec 32 := Scalar.addi v2 c1_i32_666
  let c0_i32_699 : BitVec 32 := 0#32
  ![22, v582.toNat, 0]
@[reducible] def k0_t48_loop : Scf.Loop 32 :=
  let c0_i32_703 : BitVec 32 := 0#32
  let c64_i32_704 : BitVec 32 := 64#32
  let v614 : BitVec 32 := Scalar.addi c0_i32_703 c64_i32_704
  let c1_i32_705 : BitVec 32 := 1#32
  ⟨c0_i32_703, v614, c1_i32_705⟩
def k0_off479 (k0_t48 : Fin k0_t48_loop.trips) : Fin 1 → Nat :=
  let c0_i32_703 : BitVec 32 := 0#32
  let c1_i32_705 : BitVec 32 := 1#32
  let arg22 : BitVec 32 := Scf.iv c0_i32_703 c1_i32_705 k0_t48
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk183 (v613 : IVec S16 32) (v1122 : IVec S16 32) : Prop :=
  (∀ a x, ((![v613, v1122] : Fin 2 → IVec S16 32) a x).toNat < S1x100000.size a)
instance k0_chk183.dec : ∀ (v613 : IVec S16 32) (v1122 : IVec S16 32), Decidable (k0_chk183 v613 v1122) := fun v613 v1122 => decidable_of_iff' _ (Iff.of_eq (k0_chk183.eq_1 v613 v1122))
theorem k0_idx183_inb : ∀ (v613 : IVec S16 32) (v1122 : IVec S16 32) (k0_hw183 : k0_chk183 v613 v1122), ∀ a x, ((![v613, v1122] : Fin 2 → IVec S16 32) a x).toNat < S1x100000.size a := fun v613 v1122 k0_hw183 => k0_hw183
def k0_off480 (k0_t48 : Fin k0_t48_loop.trips) : Fin 2 → Nat :=
  let c0_i32_1173 : BitVec 32 := 0#32
  let v1124 : Index := Scalar.indexCast c0_i32_1173
  let c0_i32_703 : BitVec 32 := 0#32
  let c1_i32_705 : BitVec 32 := 1#32
  let arg22 : BitVec 32 := Scf.iv c0_i32_703 c1_i32_705 k0_t48
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off481 (k0_t48 : Fin k0_t48_loop.trips) : Fin 1 → Nat :=
  let c0_i32_703 : BitVec 32 := 0#32
  let c1_i32_705 : BitVec 32 := 1#32
  let arg22 : BitVec 32 := Scf.iv c0_i32_703 c1_i32_705 k0_t48
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk184 (v613 : IVec S16 32) (v1130 : IVec S16 32) : Prop :=
  (∀ a x, ((![v613, v1130] : Fin 2 → IVec S16 32) a x).toNat < S1x100000.size a)
instance k0_chk184.dec : ∀ (v613 : IVec S16 32) (v1130 : IVec S16 32), Decidable (k0_chk184 v613 v1130) := fun v613 v1130 => decidable_of_iff' _ (Iff.of_eq (k0_chk184.eq_1 v613 v1130))
theorem k0_idx184_inb : ∀ (v613 : IVec S16 32) (v1130 : IVec S16 32) (k0_hw184 : k0_chk184 v613 v1130), ∀ a x, ((![v613, v1130] : Fin 2 → IVec S16 32) a x).toNat < S1x100000.size a := fun v613 v1130 k0_hw184 => k0_hw184
def k0_off482 (k0_t48 : Fin k0_t48_loop.trips) : Fin 2 → Nat :=
  let c0_i32_1176 : BitVec 32 := 0#32
  let v1132 : Index := Scalar.indexCast c0_i32_1176
  let c0_i32_703 : BitVec 32 := 0#32
  let c1_i32_705 : BitVec 32 := 1#32
  let arg22 : BitVec 32 := Scf.iv c0_i32_703 c1_i32_705 k0_t48
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off483 (k0_t48 : Fin k0_t48_loop.trips) : Fin 1 → Nat :=
  let c0_i32_703 : BitVec 32 := 0#32
  let c1_i32_705 : BitVec 32 := 1#32
  let arg22 : BitVec 32 := Scf.iv c0_i32_703 c1_i32_705 k0_t48
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk185 (v613 : IVec S16 32) (v1138 : IVec S16 32) : Prop :=
  (∀ a x, ((![v613, v1138] : Fin 2 → IVec S16 32) a x).toNat < S1x100000.size a)
instance k0_chk185.dec : ∀ (v613 : IVec S16 32) (v1138 : IVec S16 32), Decidable (k0_chk185 v613 v1138) := fun v613 v1138 => decidable_of_iff' _ (Iff.of_eq (k0_chk185.eq_1 v613 v1138))
theorem k0_idx185_inb : ∀ (v613 : IVec S16 32) (v1138 : IVec S16 32) (k0_hw185 : k0_chk185 v613 v1138), ∀ a x, ((![v613, v1138] : Fin 2 → IVec S16 32) a x).toNat < S1x100000.size a := fun v613 v1138 k0_hw185 => k0_hw185
def k0_off484 (k0_t48 : Fin k0_t48_loop.trips) : Fin 2 → Nat :=
  let c0_i32_1179 : BitVec 32 := 0#32
  let v1140 : Index := Scalar.indexCast c0_i32_1179
  let c0_i32_703 : BitVec 32 := 0#32
  let c1_i32_705 : BitVec 32 := 1#32
  let arg22 : BitVec 32 := Scf.iv c0_i32_703 c1_i32_705 k0_t48
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off485 (k0_t48 : Fin k0_t48_loop.trips) : Fin 1 → Nat :=
  let c0_i32_703 : BitVec 32 := 0#32
  let c1_i32_705 : BitVec 32 := 1#32
  let arg22 : BitVec 32 := Scf.iv c0_i32_703 c1_i32_705 k0_t48
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk186 (v613 : IVec S16 32) (v1146 : IVec S16 32) : Prop :=
  (∀ a x, ((![v613, v1146] : Fin 2 → IVec S16 32) a x).toNat < S1x100000.size a)
instance k0_chk186.dec : ∀ (v613 : IVec S16 32) (v1146 : IVec S16 32), Decidable (k0_chk186 v613 v1146) := fun v613 v1146 => decidable_of_iff' _ (Iff.of_eq (k0_chk186.eq_1 v613 v1146))
theorem k0_idx186_inb : ∀ (v613 : IVec S16 32) (v1146 : IVec S16 32) (k0_hw186 : k0_chk186 v613 v1146), ∀ a x, ((![v613, v1146] : Fin 2 → IVec S16 32) a x).toNat < S1x100000.size a := fun v613 v1146 k0_hw186 => k0_hw186
def k0_off486 (k0_t48 : Fin k0_t48_loop.trips) : Fin 2 → Nat :=
  let c0_i32_1181 : BitVec 32 := 0#32
  let v1148 : Index := Scalar.indexCast c0_i32_1181
  let c0_i32_703 : BitVec 32 := 0#32
  let c1_i32_705 : BitVec 32 := 1#32
  let arg22 : BitVec 32 := Scf.iv c0_i32_703 c1_i32_705 k0_t48
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off487 (i : grid0.Coords) (c1_i32_696 : BitVec 32) : Fin 3 → Nat :=
  let c23_i32_707 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v608 : BitVec 32 := Scalar.addi v2 c1_i32_696
  let c0_i32_708 : BitVec 32 := 0#32
  ![23, v608.toNat, 0]
def k0_off488 (i : grid0.Coords) : Fin 3 → Nat :=
  let c23_i32_714 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_713 : BitVec 32 := 0#32
  let v623 : BitVec 32 := Scalar.addi v2 c0_i32_713
  let c0_i32_1171_r49 : BitVec 32 := 0#32
  ![23, v623.toNat, 0]
@[reducible] def k0_t49_loop : Scf.Loop 32 :=
  let c0_i32_720 : BitVec 32 := 0#32
  let c64_i32_721 : BitVec 32 := 64#32
  let v629 : BitVec 32 := Scalar.addi c0_i32_720 c64_i32_721
  let c1_i32_722 : BitVec 32 := 1#32
  ⟨c0_i32_720, v629, c1_i32_722⟩
def k0_off489 (k0_t49 : Fin k0_t49_loop.trips) : Fin 1 → Nat :=
  let c0_i32_720 : BitVec 32 := 0#32
  let c1_i32_722 : BitVec 32 := 1#32
  let arg22 : BitVec 32 := Scf.iv c0_i32_720 c1_i32_722 k0_t49
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk187 (v628 : IVec S16 32) (v1122 : IVec S16 32) : Prop :=
  (∀ a x, ((![v628, v1122] : Fin 2 → IVec S16 32) a x).toNat < S1x100000.size a)
instance k0_chk187.dec : ∀ (v628 : IVec S16 32) (v1122 : IVec S16 32), Decidable (k0_chk187 v628 v1122) := fun v628 v1122 => decidable_of_iff' _ (Iff.of_eq (k0_chk187.eq_1 v628 v1122))
theorem k0_idx187_inb : ∀ (v628 : IVec S16 32) (v1122 : IVec S16 32) (k0_hw187 : k0_chk187 v628 v1122), ∀ a x, ((![v628, v1122] : Fin 2 → IVec S16 32) a x).toNat < S1x100000.size a := fun v628 v1122 k0_hw187 => k0_hw187
def k0_off490 (k0_t49 : Fin k0_t49_loop.trips) : Fin 2 → Nat :=
  let c0_i32_1173 : BitVec 32 := 0#32
  let v1124 : Index := Scalar.indexCast c0_i32_1173
  let c0_i32_720 : BitVec 32 := 0#32
  let c1_i32_722 : BitVec 32 := 1#32
  let arg22 : BitVec 32 := Scf.iv c0_i32_720 c1_i32_722 k0_t49
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off491 (k0_t49 : Fin k0_t49_loop.trips) : Fin 1 → Nat :=
  let c0_i32_720 : BitVec 32 := 0#32
  let c1_i32_722 : BitVec 32 := 1#32
  let arg22 : BitVec 32 := Scf.iv c0_i32_720 c1_i32_722 k0_t49
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk188 (v628 : IVec S16 32) (v1130 : IVec S16 32) : Prop :=
  (∀ a x, ((![v628, v1130] : Fin 2 → IVec S16 32) a x).toNat < S1x100000.size a)
instance k0_chk188.dec : ∀ (v628 : IVec S16 32) (v1130 : IVec S16 32), Decidable (k0_chk188 v628 v1130) := fun v628 v1130 => decidable_of_iff' _ (Iff.of_eq (k0_chk188.eq_1 v628 v1130))
theorem k0_idx188_inb : ∀ (v628 : IVec S16 32) (v1130 : IVec S16 32) (k0_hw188 : k0_chk188 v628 v1130), ∀ a x, ((![v628, v1130] : Fin 2 → IVec S16 32) a x).toNat < S1x100000.size a := fun v628 v1130 k0_hw188 => k0_hw188
def k0_off492 (k0_t49 : Fin k0_t49_loop.trips) : Fin 2 → Nat :=
  let c0_i32_1176 : BitVec 32 := 0#32
  let v1132 : Index := Scalar.indexCast c0_i32_1176
  let c0_i32_720 : BitVec 32 := 0#32
  let c1_i32_722 : BitVec 32 := 1#32
  let arg22 : BitVec 32 := Scf.iv c0_i32_720 c1_i32_722 k0_t49
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off493 (k0_t49 : Fin k0_t49_loop.trips) : Fin 1 → Nat :=
  let c0_i32_720 : BitVec 32 := 0#32
  let c1_i32_722 : BitVec 32 := 1#32
  let arg22 : BitVec 32 := Scf.iv c0_i32_720 c1_i32_722 k0_t49
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk189 (v628 : IVec S16 32) (v1138 : IVec S16 32) : Prop :=
  (∀ a x, ((![v628, v1138] : Fin 2 → IVec S16 32) a x).toNat < S1x100000.size a)
instance k0_chk189.dec : ∀ (v628 : IVec S16 32) (v1138 : IVec S16 32), Decidable (k0_chk189 v628 v1138) := fun v628 v1138 => decidable_of_iff' _ (Iff.of_eq (k0_chk189.eq_1 v628 v1138))
theorem k0_idx189_inb : ∀ (v628 : IVec S16 32) (v1138 : IVec S16 32) (k0_hw189 : k0_chk189 v628 v1138), ∀ a x, ((![v628, v1138] : Fin 2 → IVec S16 32) a x).toNat < S1x100000.size a := fun v628 v1138 k0_hw189 => k0_hw189
def k0_off494 (k0_t49 : Fin k0_t49_loop.trips) : Fin 2 → Nat :=
  let c0_i32_1179 : BitVec 32 := 0#32
  let v1140 : Index := Scalar.indexCast c0_i32_1179
  let c0_i32_720 : BitVec 32 := 0#32
  let c1_i32_722 : BitVec 32 := 1#32
  let arg22 : BitVec 32 := Scf.iv c0_i32_720 c1_i32_722 k0_t49
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off495 (k0_t49 : Fin k0_t49_loop.trips) : Fin 1 → Nat :=
  let c0_i32_720 : BitVec 32 := 0#32
  let c1_i32_722 : BitVec 32 := 1#32
  let arg22 : BitVec 32 := Scf.iv c0_i32_720 c1_i32_722 k0_t49
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk190 (v628 : IVec S16 32) (v1146 : IVec S16 32) : Prop :=
  (∀ a x, ((![v628, v1146] : Fin 2 → IVec S16 32) a x).toNat < S1x100000.size a)
instance k0_chk190.dec : ∀ (v628 : IVec S16 32) (v1146 : IVec S16 32), Decidable (k0_chk190 v628 v1146) := fun v628 v1146 => decidable_of_iff' _ (Iff.of_eq (k0_chk190.eq_1 v628 v1146))
theorem k0_idx190_inb : ∀ (v628 : IVec S16 32) (v1146 : IVec S16 32) (k0_hw190 : k0_chk190 v628 v1146), ∀ a x, ((![v628, v1146] : Fin 2 → IVec S16 32) a x).toNat < S1x100000.size a := fun v628 v1146 k0_hw190 => k0_hw190
def k0_off496 (k0_t49 : Fin k0_t49_loop.trips) : Fin 2 → Nat :=
  let c0_i32_1181 : BitVec 32 := 0#32
  let v1148 : Index := Scalar.indexCast c0_i32_1181
  let c0_i32_720 : BitVec 32 := 0#32
  let c1_i32_722 : BitVec 32 := 1#32
  let arg22 : BitVec 32 := Scf.iv c0_i32_720 c1_i32_722 k0_t49
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off497 (i : grid0.Coords) : Fin 3 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_713 : BitVec 32 := 0#32
  let v623 : BitVec 32 := Scalar.addi v2 c0_i32_713
  let c0_i32_724 : BitVec 32 := 0#32
  ![24, v623.toNat, 0]
def k0_off498 (i : grid0.Coords) : Fin 3 → Nat :=
  let c23_i32_727 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_726 : BitVec 32 := 1#32
  let v634 : BitVec 32 := Scalar.addi v2 c1_i32_726
  let c0_i32_1171_r50 : BitVec 32 := 0#32
  ![23, v634.toNat, 0]
def k0_off499 (i : grid0.Coords) : Fin 3 → Nat :=
  let c23_i32_728 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_696 : BitVec 32 := 1#32
  let v608 : BitVec 32 := Scalar.addi v2 c1_i32_696
  let c0_i32_729 : BitVec 32 := 0#32
  ![23, v608.toNat, 0]
@[reducible] def k0_t50_loop : Scf.Loop 32 :=
  let c0_i32_733 : BitVec 32 := 0#32
  let c64_i32_734 : BitVec 32 := 64#32
  let v640 : BitVec 32 := Scalar.addi c0_i32_733 c64_i32_734
  let c1_i32_735 : BitVec 32 := 1#32
  ⟨c0_i32_733, v640, c1_i32_735⟩
def k0_off500 (k0_t50 : Fin k0_t50_loop.trips) : Fin 1 → Nat :=
  let c0_i32_733 : BitVec 32 := 0#32
  let c1_i32_735 : BitVec 32 := 1#32
  let arg22 : BitVec 32 := Scf.iv c0_i32_733 c1_i32_735 k0_t50
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk191 (v639 : IVec S16 32) (v1122 : IVec S16 32) : Prop :=
  (∀ a x, ((![v639, v1122] : Fin 2 → IVec S16 32) a x).toNat < S1x100000.size a)
instance k0_chk191.dec : ∀ (v639 : IVec S16 32) (v1122 : IVec S16 32), Decidable (k0_chk191 v639 v1122) := fun v639 v1122 => decidable_of_iff' _ (Iff.of_eq (k0_chk191.eq_1 v639 v1122))
theorem k0_idx191_inb : ∀ (v639 : IVec S16 32) (v1122 : IVec S16 32) (k0_hw191 : k0_chk191 v639 v1122), ∀ a x, ((![v639, v1122] : Fin 2 → IVec S16 32) a x).toNat < S1x100000.size a := fun v639 v1122 k0_hw191 => k0_hw191
def k0_off501 (k0_t50 : Fin k0_t50_loop.trips) : Fin 2 → Nat :=
  let c0_i32_1173 : BitVec 32 := 0#32
  let v1124 : Index := Scalar.indexCast c0_i32_1173
  let c0_i32_733 : BitVec 32 := 0#32
  let c1_i32_735 : BitVec 32 := 1#32
  let arg22 : BitVec 32 := Scf.iv c0_i32_733 c1_i32_735 k0_t50
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off502 (k0_t50 : Fin k0_t50_loop.trips) : Fin 1 → Nat :=
  let c0_i32_733 : BitVec 32 := 0#32
  let c1_i32_735 : BitVec 32 := 1#32
  let arg22 : BitVec 32 := Scf.iv c0_i32_733 c1_i32_735 k0_t50
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk192 (v639 : IVec S16 32) (v1130 : IVec S16 32) : Prop :=
  (∀ a x, ((![v639, v1130] : Fin 2 → IVec S16 32) a x).toNat < S1x100000.size a)
instance k0_chk192.dec : ∀ (v639 : IVec S16 32) (v1130 : IVec S16 32), Decidable (k0_chk192 v639 v1130) := fun v639 v1130 => decidable_of_iff' _ (Iff.of_eq (k0_chk192.eq_1 v639 v1130))
theorem k0_idx192_inb : ∀ (v639 : IVec S16 32) (v1130 : IVec S16 32) (k0_hw192 : k0_chk192 v639 v1130), ∀ a x, ((![v639, v1130] : Fin 2 → IVec S16 32) a x).toNat < S1x100000.size a := fun v639 v1130 k0_hw192 => k0_hw192
def k0_off503 (k0_t50 : Fin k0_t50_loop.trips) : Fin 2 → Nat :=
  let c0_i32_1176 : BitVec 32 := 0#32
  let v1132 : Index := Scalar.indexCast c0_i32_1176
  let c0_i32_733 : BitVec 32 := 0#32
  let c1_i32_735 : BitVec 32 := 1#32
  let arg22 : BitVec 32 := Scf.iv c0_i32_733 c1_i32_735 k0_t50
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off504 (k0_t50 : Fin k0_t50_loop.trips) : Fin 1 → Nat :=
  let c0_i32_733 : BitVec 32 := 0#32
  let c1_i32_735 : BitVec 32 := 1#32
  let arg22 : BitVec 32 := Scf.iv c0_i32_733 c1_i32_735 k0_t50
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk193 (v639 : IVec S16 32) (v1138 : IVec S16 32) : Prop :=
  (∀ a x, ((![v639, v1138] : Fin 2 → IVec S16 32) a x).toNat < S1x100000.size a)
instance k0_chk193.dec : ∀ (v639 : IVec S16 32) (v1138 : IVec S16 32), Decidable (k0_chk193 v639 v1138) := fun v639 v1138 => decidable_of_iff' _ (Iff.of_eq (k0_chk193.eq_1 v639 v1138))
theorem k0_idx193_inb : ∀ (v639 : IVec S16 32) (v1138 : IVec S16 32) (k0_hw193 : k0_chk193 v639 v1138), ∀ a x, ((![v639, v1138] : Fin 2 → IVec S16 32) a x).toNat < S1x100000.size a := fun v639 v1138 k0_hw193 => k0_hw193
def k0_off505 (k0_t50 : Fin k0_t50_loop.trips) : Fin 2 → Nat :=
  let c0_i32_1179 : BitVec 32 := 0#32
  let v1140 : Index := Scalar.indexCast c0_i32_1179
  let c0_i32_733 : BitVec 32 := 0#32
  let c1_i32_735 : BitVec 32 := 1#32
  let arg22 : BitVec 32 := Scf.iv c0_i32_733 c1_i32_735 k0_t50
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off506 (k0_t50 : Fin k0_t50_loop.trips) : Fin 1 → Nat :=
  let c0_i32_733 : BitVec 32 := 0#32
  let c1_i32_735 : BitVec 32 := 1#32
  let arg22 : BitVec 32 := Scf.iv c0_i32_733 c1_i32_735 k0_t50
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk194 (v639 : IVec S16 32) (v1146 : IVec S16 32) : Prop :=
  (∀ a x, ((![v639, v1146] : Fin 2 → IVec S16 32) a x).toNat < S1x100000.size a)
instance k0_chk194.dec : ∀ (v639 : IVec S16 32) (v1146 : IVec S16 32), Decidable (k0_chk194 v639 v1146) := fun v639 v1146 => decidable_of_iff' _ (Iff.of_eq (k0_chk194.eq_1 v639 v1146))
theorem k0_idx194_inb : ∀ (v639 : IVec S16 32) (v1146 : IVec S16 32) (k0_hw194 : k0_chk194 v639 v1146), ∀ a x, ((![v639, v1146] : Fin 2 → IVec S16 32) a x).toNat < S1x100000.size a := fun v639 v1146 k0_hw194 => k0_hw194
def k0_off507 (k0_t50 : Fin k0_t50_loop.trips) : Fin 2 → Nat :=
  let c0_i32_1181 : BitVec 32 := 0#32
  let v1148 : Index := Scalar.indexCast c0_i32_1181
  let c0_i32_733 : BitVec 32 := 0#32
  let c1_i32_735 : BitVec 32 := 1#32
  let arg22 : BitVec 32 := Scf.iv c0_i32_733 c1_i32_735 k0_t50
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off508 (i : grid0.Coords) (c1_i32_726 : BitVec 32) : Fin 3 → Nat :=
  let c24_i32_737 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v634 : BitVec 32 := Scalar.addi v2 c1_i32_726
  let c0_i32_738 : BitVec 32 := 0#32
  ![24, v634.toNat, 0]
def k0_off509 (i : grid0.Coords) : Fin 3 → Nat :=
  let c24_i32_744 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_743 : BitVec 32 := 0#32
  let v649 : BitVec 32 := Scalar.addi v2 c0_i32_743
  let c0_i32_1171_r51 : BitVec 32 := 0#32
  ![24, v649.toNat, 0]
@[reducible] def k0_t51_loop : Scf.Loop 32 :=
  let c0_i32_750 : BitVec 32 := 0#32
  let c64_i32_751 : BitVec 32 := 64#32
  let v655 : BitVec 32 := Scalar.addi c0_i32_750 c64_i32_751
  let c1_i32_752 : BitVec 32 := 1#32
  ⟨c0_i32_750, v655, c1_i32_752⟩
def k0_off510 (k0_t51 : Fin k0_t51_loop.trips) : Fin 1 → Nat :=
  let c0_i32_750 : BitVec 32 := 0#32
  let c1_i32_752 : BitVec 32 := 1#32
  let arg22 : BitVec 32 := Scf.iv c0_i32_750 c1_i32_752 k0_t51
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk195 (v654 : IVec S16 32) (v1122 : IVec S16 32) : Prop :=
  (∀ a x, ((![v654, v1122] : Fin 2 → IVec S16 32) a x).toNat < S1x100000.size a)
instance k0_chk195.dec : ∀ (v654 : IVec S16 32) (v1122 : IVec S16 32), Decidable (k0_chk195 v654 v1122) := fun v654 v1122 => decidable_of_iff' _ (Iff.of_eq (k0_chk195.eq_1 v654 v1122))
theorem k0_idx195_inb : ∀ (v654 : IVec S16 32) (v1122 : IVec S16 32) (k0_hw195 : k0_chk195 v654 v1122), ∀ a x, ((![v654, v1122] : Fin 2 → IVec S16 32) a x).toNat < S1x100000.size a := fun v654 v1122 k0_hw195 => k0_hw195
def k0_off511 (k0_t51 : Fin k0_t51_loop.trips) : Fin 2 → Nat :=
  let c0_i32_1173 : BitVec 32 := 0#32
  let v1124 : Index := Scalar.indexCast c0_i32_1173
  let c0_i32_750 : BitVec 32 := 0#32
  let c1_i32_752 : BitVec 32 := 1#32
  let arg22 : BitVec 32 := Scf.iv c0_i32_750 c1_i32_752 k0_t51
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off512 (k0_t51 : Fin k0_t51_loop.trips) : Fin 1 → Nat :=
  let c0_i32_750 : BitVec 32 := 0#32
  let c1_i32_752 : BitVec 32 := 1#32
  let arg22 : BitVec 32 := Scf.iv c0_i32_750 c1_i32_752 k0_t51
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk196 (v654 : IVec S16 32) (v1130 : IVec S16 32) : Prop :=
  (∀ a x, ((![v654, v1130] : Fin 2 → IVec S16 32) a x).toNat < S1x100000.size a)
instance k0_chk196.dec : ∀ (v654 : IVec S16 32) (v1130 : IVec S16 32), Decidable (k0_chk196 v654 v1130) := fun v654 v1130 => decidable_of_iff' _ (Iff.of_eq (k0_chk196.eq_1 v654 v1130))
theorem k0_idx196_inb : ∀ (v654 : IVec S16 32) (v1130 : IVec S16 32) (k0_hw196 : k0_chk196 v654 v1130), ∀ a x, ((![v654, v1130] : Fin 2 → IVec S16 32) a x).toNat < S1x100000.size a := fun v654 v1130 k0_hw196 => k0_hw196
def k0_off513 (k0_t51 : Fin k0_t51_loop.trips) : Fin 2 → Nat :=
  let c0_i32_1176 : BitVec 32 := 0#32
  let v1132 : Index := Scalar.indexCast c0_i32_1176
  let c0_i32_750 : BitVec 32 := 0#32
  let c1_i32_752 : BitVec 32 := 1#32
  let arg22 : BitVec 32 := Scf.iv c0_i32_750 c1_i32_752 k0_t51
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off514 (k0_t51 : Fin k0_t51_loop.trips) : Fin 1 → Nat :=
  let c0_i32_750 : BitVec 32 := 0#32
  let c1_i32_752 : BitVec 32 := 1#32
  let arg22 : BitVec 32 := Scf.iv c0_i32_750 c1_i32_752 k0_t51
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk197 (v654 : IVec S16 32) (v1138 : IVec S16 32) : Prop :=
  (∀ a x, ((![v654, v1138] : Fin 2 → IVec S16 32) a x).toNat < S1x100000.size a)
instance k0_chk197.dec : ∀ (v654 : IVec S16 32) (v1138 : IVec S16 32), Decidable (k0_chk197 v654 v1138) := fun v654 v1138 => decidable_of_iff' _ (Iff.of_eq (k0_chk197.eq_1 v654 v1138))
theorem k0_idx197_inb : ∀ (v654 : IVec S16 32) (v1138 : IVec S16 32) (k0_hw197 : k0_chk197 v654 v1138), ∀ a x, ((![v654, v1138] : Fin 2 → IVec S16 32) a x).toNat < S1x100000.size a := fun v654 v1138 k0_hw197 => k0_hw197
def k0_off515 (k0_t51 : Fin k0_t51_loop.trips) : Fin 2 → Nat :=
  let c0_i32_1179 : BitVec 32 := 0#32
  let v1140 : Index := Scalar.indexCast c0_i32_1179
  let c0_i32_750 : BitVec 32 := 0#32
  let c1_i32_752 : BitVec 32 := 1#32
  let arg22 : BitVec 32 := Scf.iv c0_i32_750 c1_i32_752 k0_t51
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off516 (k0_t51 : Fin k0_t51_loop.trips) : Fin 1 → Nat :=
  let c0_i32_750 : BitVec 32 := 0#32
  let c1_i32_752 : BitVec 32 := 1#32
  let arg22 : BitVec 32 := Scf.iv c0_i32_750 c1_i32_752 k0_t51
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk198 (v654 : IVec S16 32) (v1146 : IVec S16 32) : Prop :=
  (∀ a x, ((![v654, v1146] : Fin 2 → IVec S16 32) a x).toNat < S1x100000.size a)
instance k0_chk198.dec : ∀ (v654 : IVec S16 32) (v1146 : IVec S16 32), Decidable (k0_chk198 v654 v1146) := fun v654 v1146 => decidable_of_iff' _ (Iff.of_eq (k0_chk198.eq_1 v654 v1146))
theorem k0_idx198_inb : ∀ (v654 : IVec S16 32) (v1146 : IVec S16 32) (k0_hw198 : k0_chk198 v654 v1146), ∀ a x, ((![v654, v1146] : Fin 2 → IVec S16 32) a x).toNat < S1x100000.size a := fun v654 v1146 k0_hw198 => k0_hw198
def k0_off517 (k0_t51 : Fin k0_t51_loop.trips) : Fin 2 → Nat :=
  let c0_i32_1181 : BitVec 32 := 0#32
  let v1148 : Index := Scalar.indexCast c0_i32_1181
  let c0_i32_750 : BitVec 32 := 0#32
  let c1_i32_752 : BitVec 32 := 1#32
  let arg22 : BitVec 32 := Scf.iv c0_i32_750 c1_i32_752 k0_t51
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off518 (i : grid0.Coords) : Fin 3 → Nat :=
  let c25_i32 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_743 : BitVec 32 := 0#32
  let v649 : BitVec 32 := Scalar.addi v2 c0_i32_743
  let c0_i32_754 : BitVec 32 := 0#32
  ![25, v649.toNat, 0]
def k0_off519 (i : grid0.Coords) : Fin 3 → Nat :=
  let c24_i32_757 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_756 : BitVec 32 := 1#32
  let v660 : BitVec 32 := Scalar.addi v2 c1_i32_756
  let c0_i32_1171_r52 : BitVec 32 := 0#32
  ![24, v660.toNat, 0]
def k0_off520 (i : grid0.Coords) : Fin 3 → Nat :=
  let c24_i32_758 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_726 : BitVec 32 := 1#32
  let v634 : BitVec 32 := Scalar.addi v2 c1_i32_726
  let c0_i32_759 : BitVec 32 := 0#32
  ![24, v634.toNat, 0]
@[reducible] def k0_t52_loop : Scf.Loop 32 :=
  let c0_i32_763 : BitVec 32 := 0#32
  let c64_i32_764 : BitVec 32 := 64#32
  let v666 : BitVec 32 := Scalar.addi c0_i32_763 c64_i32_764
  let c1_i32_765 : BitVec 32 := 1#32
  ⟨c0_i32_763, v666, c1_i32_765⟩
def k0_off521 (k0_t52 : Fin k0_t52_loop.trips) : Fin 1 → Nat :=
  let c0_i32_763 : BitVec 32 := 0#32
  let c1_i32_765 : BitVec 32 := 1#32
  let arg22 : BitVec 32 := Scf.iv c0_i32_763 c1_i32_765 k0_t52
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk199 (v665 : IVec S16 32) (v1122 : IVec S16 32) : Prop :=
  (∀ a x, ((![v665, v1122] : Fin 2 → IVec S16 32) a x).toNat < S1x100000.size a)
instance k0_chk199.dec : ∀ (v665 : IVec S16 32) (v1122 : IVec S16 32), Decidable (k0_chk199 v665 v1122) := fun v665 v1122 => decidable_of_iff' _ (Iff.of_eq (k0_chk199.eq_1 v665 v1122))
theorem k0_idx199_inb : ∀ (v665 : IVec S16 32) (v1122 : IVec S16 32) (k0_hw199 : k0_chk199 v665 v1122), ∀ a x, ((![v665, v1122] : Fin 2 → IVec S16 32) a x).toNat < S1x100000.size a := fun v665 v1122 k0_hw199 => k0_hw199
def k0_off522 (k0_t52 : Fin k0_t52_loop.trips) : Fin 2 → Nat :=
  let c0_i32_1173 : BitVec 32 := 0#32
  let v1124 : Index := Scalar.indexCast c0_i32_1173
  let c0_i32_763 : BitVec 32 := 0#32
  let c1_i32_765 : BitVec 32 := 1#32
  let arg22 : BitVec 32 := Scf.iv c0_i32_763 c1_i32_765 k0_t52
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off523 (k0_t52 : Fin k0_t52_loop.trips) : Fin 1 → Nat :=
  let c0_i32_763 : BitVec 32 := 0#32
  let c1_i32_765 : BitVec 32 := 1#32
  let arg22 : BitVec 32 := Scf.iv c0_i32_763 c1_i32_765 k0_t52
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk200 (v665 : IVec S16 32) (v1130 : IVec S16 32) : Prop :=
  (∀ a x, ((![v665, v1130] : Fin 2 → IVec S16 32) a x).toNat < S1x100000.size a)
instance k0_chk200.dec : ∀ (v665 : IVec S16 32) (v1130 : IVec S16 32), Decidable (k0_chk200 v665 v1130) := fun v665 v1130 => decidable_of_iff' _ (Iff.of_eq (k0_chk200.eq_1 v665 v1130))
theorem k0_idx200_inb : ∀ (v665 : IVec S16 32) (v1130 : IVec S16 32) (k0_hw200 : k0_chk200 v665 v1130), ∀ a x, ((![v665, v1130] : Fin 2 → IVec S16 32) a x).toNat < S1x100000.size a := fun v665 v1130 k0_hw200 => k0_hw200
def k0_off524 (k0_t52 : Fin k0_t52_loop.trips) : Fin 2 → Nat :=
  let c0_i32_1176 : BitVec 32 := 0#32
  let v1132 : Index := Scalar.indexCast c0_i32_1176
  let c0_i32_763 : BitVec 32 := 0#32
  let c1_i32_765 : BitVec 32 := 1#32
  let arg22 : BitVec 32 := Scf.iv c0_i32_763 c1_i32_765 k0_t52
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off525 (k0_t52 : Fin k0_t52_loop.trips) : Fin 1 → Nat :=
  let c0_i32_763 : BitVec 32 := 0#32
  let c1_i32_765 : BitVec 32 := 1#32
  let arg22 : BitVec 32 := Scf.iv c0_i32_763 c1_i32_765 k0_t52
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk201 (v665 : IVec S16 32) (v1138 : IVec S16 32) : Prop :=
  (∀ a x, ((![v665, v1138] : Fin 2 → IVec S16 32) a x).toNat < S1x100000.size a)
instance k0_chk201.dec : ∀ (v665 : IVec S16 32) (v1138 : IVec S16 32), Decidable (k0_chk201 v665 v1138) := fun v665 v1138 => decidable_of_iff' _ (Iff.of_eq (k0_chk201.eq_1 v665 v1138))
theorem k0_idx201_inb : ∀ (v665 : IVec S16 32) (v1138 : IVec S16 32) (k0_hw201 : k0_chk201 v665 v1138), ∀ a x, ((![v665, v1138] : Fin 2 → IVec S16 32) a x).toNat < S1x100000.size a := fun v665 v1138 k0_hw201 => k0_hw201
def k0_off526 (k0_t52 : Fin k0_t52_loop.trips) : Fin 2 → Nat :=
  let c0_i32_1179 : BitVec 32 := 0#32
  let v1140 : Index := Scalar.indexCast c0_i32_1179
  let c0_i32_763 : BitVec 32 := 0#32
  let c1_i32_765 : BitVec 32 := 1#32
  let arg22 : BitVec 32 := Scf.iv c0_i32_763 c1_i32_765 k0_t52
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off527 (k0_t52 : Fin k0_t52_loop.trips) : Fin 1 → Nat :=
  let c0_i32_763 : BitVec 32 := 0#32
  let c1_i32_765 : BitVec 32 := 1#32
  let arg22 : BitVec 32 := Scf.iv c0_i32_763 c1_i32_765 k0_t52
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk202 (v665 : IVec S16 32) (v1146 : IVec S16 32) : Prop :=
  (∀ a x, ((![v665, v1146] : Fin 2 → IVec S16 32) a x).toNat < S1x100000.size a)
instance k0_chk202.dec : ∀ (v665 : IVec S16 32) (v1146 : IVec S16 32), Decidable (k0_chk202 v665 v1146) := fun v665 v1146 => decidable_of_iff' _ (Iff.of_eq (k0_chk202.eq_1 v665 v1146))
theorem k0_idx202_inb : ∀ (v665 : IVec S16 32) (v1146 : IVec S16 32) (k0_hw202 : k0_chk202 v665 v1146), ∀ a x, ((![v665, v1146] : Fin 2 → IVec S16 32) a x).toNat < S1x100000.size a := fun v665 v1146 k0_hw202 => k0_hw202
def k0_off528 (k0_t52 : Fin k0_t52_loop.trips) : Fin 2 → Nat :=
  let c0_i32_1181 : BitVec 32 := 0#32
  let v1148 : Index := Scalar.indexCast c0_i32_1181
  let c0_i32_763 : BitVec 32 := 0#32
  let c1_i32_765 : BitVec 32 := 1#32
  let arg22 : BitVec 32 := Scf.iv c0_i32_763 c1_i32_765 k0_t52
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off529 (i : grid0.Coords) (c1_i32_756 : BitVec 32) : Fin 3 → Nat :=
  let c25_i32_767 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v660 : BitVec 32 := Scalar.addi v2 c1_i32_756
  let c0_i32_768 : BitVec 32 := 0#32
  ![25, v660.toNat, 0]
def k0_off530 (i : grid0.Coords) : Fin 3 → Nat :=
  let c25_i32_773 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_772 : BitVec 32 := 0#32
  let v673 : BitVec 32 := Scalar.addi v2 c0_i32_772
  let c0_i32_1171_r53 : BitVec 32 := 0#32
  ![25, v673.toNat, 0]
@[reducible] def k0_t53_loop : Scf.Loop 32 :=
  let c0_i32_779 : BitVec 32 := 0#32
  let c64_i32_780 : BitVec 32 := 64#32
  let v679 : BitVec 32 := Scalar.addi c0_i32_779 c64_i32_780
  let c1_i32_781 : BitVec 32 := 1#32
  ⟨c0_i32_779, v679, c1_i32_781⟩
def k0_off531 (k0_t53 : Fin k0_t53_loop.trips) : Fin 1 → Nat :=
  let c0_i32_779 : BitVec 32 := 0#32
  let c1_i32_781 : BitVec 32 := 1#32
  let arg22 : BitVec 32 := Scf.iv c0_i32_779 c1_i32_781 k0_t53
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk203 (v678 : IVec S16 32) (v1122 : IVec S16 32) : Prop :=
  (∀ a x, ((![v678, v1122] : Fin 2 → IVec S16 32) a x).toNat < S1x100000.size a)
instance k0_chk203.dec : ∀ (v678 : IVec S16 32) (v1122 : IVec S16 32), Decidable (k0_chk203 v678 v1122) := fun v678 v1122 => decidable_of_iff' _ (Iff.of_eq (k0_chk203.eq_1 v678 v1122))
theorem k0_idx203_inb : ∀ (v678 : IVec S16 32) (v1122 : IVec S16 32) (k0_hw203 : k0_chk203 v678 v1122), ∀ a x, ((![v678, v1122] : Fin 2 → IVec S16 32) a x).toNat < S1x100000.size a := fun v678 v1122 k0_hw203 => k0_hw203
def k0_off532 (k0_t53 : Fin k0_t53_loop.trips) : Fin 2 → Nat :=
  let c0_i32_1173 : BitVec 32 := 0#32
  let v1124 : Index := Scalar.indexCast c0_i32_1173
  let c0_i32_779 : BitVec 32 := 0#32
  let c1_i32_781 : BitVec 32 := 1#32
  let arg22 : BitVec 32 := Scf.iv c0_i32_779 c1_i32_781 k0_t53
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off533 (k0_t53 : Fin k0_t53_loop.trips) : Fin 1 → Nat :=
  let c0_i32_779 : BitVec 32 := 0#32
  let c1_i32_781 : BitVec 32 := 1#32
  let arg22 : BitVec 32 := Scf.iv c0_i32_779 c1_i32_781 k0_t53
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk204 (v678 : IVec S16 32) (v1130 : IVec S16 32) : Prop :=
  (∀ a x, ((![v678, v1130] : Fin 2 → IVec S16 32) a x).toNat < S1x100000.size a)
instance k0_chk204.dec : ∀ (v678 : IVec S16 32) (v1130 : IVec S16 32), Decidable (k0_chk204 v678 v1130) := fun v678 v1130 => decidable_of_iff' _ (Iff.of_eq (k0_chk204.eq_1 v678 v1130))
theorem k0_idx204_inb : ∀ (v678 : IVec S16 32) (v1130 : IVec S16 32) (k0_hw204 : k0_chk204 v678 v1130), ∀ a x, ((![v678, v1130] : Fin 2 → IVec S16 32) a x).toNat < S1x100000.size a := fun v678 v1130 k0_hw204 => k0_hw204
def k0_off534 (k0_t53 : Fin k0_t53_loop.trips) : Fin 2 → Nat :=
  let c0_i32_1176 : BitVec 32 := 0#32
  let v1132 : Index := Scalar.indexCast c0_i32_1176
  let c0_i32_779 : BitVec 32 := 0#32
  let c1_i32_781 : BitVec 32 := 1#32
  let arg22 : BitVec 32 := Scf.iv c0_i32_779 c1_i32_781 k0_t53
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off535 (k0_t53 : Fin k0_t53_loop.trips) : Fin 1 → Nat :=
  let c0_i32_779 : BitVec 32 := 0#32
  let c1_i32_781 : BitVec 32 := 1#32
  let arg22 : BitVec 32 := Scf.iv c0_i32_779 c1_i32_781 k0_t53
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk205 (v678 : IVec S16 32) (v1138 : IVec S16 32) : Prop :=
  (∀ a x, ((![v678, v1138] : Fin 2 → IVec S16 32) a x).toNat < S1x100000.size a)
instance k0_chk205.dec : ∀ (v678 : IVec S16 32) (v1138 : IVec S16 32), Decidable (k0_chk205 v678 v1138) := fun v678 v1138 => decidable_of_iff' _ (Iff.of_eq (k0_chk205.eq_1 v678 v1138))
theorem k0_idx205_inb : ∀ (v678 : IVec S16 32) (v1138 : IVec S16 32) (k0_hw205 : k0_chk205 v678 v1138), ∀ a x, ((![v678, v1138] : Fin 2 → IVec S16 32) a x).toNat < S1x100000.size a := fun v678 v1138 k0_hw205 => k0_hw205
def k0_off536 (k0_t53 : Fin k0_t53_loop.trips) : Fin 2 → Nat :=
  let c0_i32_1179 : BitVec 32 := 0#32
  let v1140 : Index := Scalar.indexCast c0_i32_1179
  let c0_i32_779 : BitVec 32 := 0#32
  let c1_i32_781 : BitVec 32 := 1#32
  let arg22 : BitVec 32 := Scf.iv c0_i32_779 c1_i32_781 k0_t53
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off537 (k0_t53 : Fin k0_t53_loop.trips) : Fin 1 → Nat :=
  let c0_i32_779 : BitVec 32 := 0#32
  let c1_i32_781 : BitVec 32 := 1#32
  let arg22 : BitVec 32 := Scf.iv c0_i32_779 c1_i32_781 k0_t53
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk206 (v678 : IVec S16 32) (v1146 : IVec S16 32) : Prop :=
  (∀ a x, ((![v678, v1146] : Fin 2 → IVec S16 32) a x).toNat < S1x100000.size a)
instance k0_chk206.dec : ∀ (v678 : IVec S16 32) (v1146 : IVec S16 32), Decidable (k0_chk206 v678 v1146) := fun v678 v1146 => decidable_of_iff' _ (Iff.of_eq (k0_chk206.eq_1 v678 v1146))
theorem k0_idx206_inb : ∀ (v678 : IVec S16 32) (v1146 : IVec S16 32) (k0_hw206 : k0_chk206 v678 v1146), ∀ a x, ((![v678, v1146] : Fin 2 → IVec S16 32) a x).toNat < S1x100000.size a := fun v678 v1146 k0_hw206 => k0_hw206
def k0_off538 (k0_t53 : Fin k0_t53_loop.trips) : Fin 2 → Nat :=
  let c0_i32_1181 : BitVec 32 := 0#32
  let v1148 : Index := Scalar.indexCast c0_i32_1181
  let c0_i32_779 : BitVec 32 := 0#32
  let c1_i32_781 : BitVec 32 := 1#32
  let arg22 : BitVec 32 := Scf.iv c0_i32_779 c1_i32_781 k0_t53
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off539 (i : grid0.Coords) : Fin 3 → Nat :=
  let c26_i32 : BitVec 32 := 26#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_772 : BitVec 32 := 0#32
  let v673 : BitVec 32 := Scalar.addi v2 c0_i32_772
  let c0_i32_783 : BitVec 32 := 0#32
  ![26, v673.toNat, 0]
def k0_off540 (i : grid0.Coords) : Fin 3 → Nat :=
  let c25_i32_786 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_785 : BitVec 32 := 1#32
  let v684 : BitVec 32 := Scalar.addi v2 c1_i32_785
  let c0_i32_1171_r54 : BitVec 32 := 0#32
  ![25, v684.toNat, 0]
def k0_off541 (i : grid0.Coords) : Fin 3 → Nat :=
  let c25_i32_787 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_756 : BitVec 32 := 1#32
  let v660 : BitVec 32 := Scalar.addi v2 c1_i32_756
  let c0_i32_788 : BitVec 32 := 0#32
  ![25, v660.toNat, 0]
@[reducible] def k0_t54_loop : Scf.Loop 32 :=
  let c0_i32_792 : BitVec 32 := 0#32
  let c64_i32_793 : BitVec 32 := 64#32
  let v690 : BitVec 32 := Scalar.addi c0_i32_792 c64_i32_793
  let c1_i32_794 : BitVec 32 := 1#32
  ⟨c0_i32_792, v690, c1_i32_794⟩
def k0_off542 (k0_t54 : Fin k0_t54_loop.trips) : Fin 1 → Nat :=
  let c0_i32_792 : BitVec 32 := 0#32
  let c1_i32_794 : BitVec 32 := 1#32
  let arg22 : BitVec 32 := Scf.iv c0_i32_792 c1_i32_794 k0_t54
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1121 : Index := Scalar.indexCast v1120
  ![v1121.toNat]

def k0_chk207 (v689 : IVec S16 32) (v1122 : IVec S16 32) : Prop :=
  (∀ a x, ((![v689, v1122] : Fin 2 → IVec S16 32) a x).toNat < S1x100000.size a)
instance k0_chk207.dec : ∀ (v689 : IVec S16 32) (v1122 : IVec S16 32), Decidable (k0_chk207 v689 v1122) := fun v689 v1122 => decidable_of_iff' _ (Iff.of_eq (k0_chk207.eq_1 v689 v1122))
theorem k0_idx207_inb : ∀ (v689 : IVec S16 32) (v1122 : IVec S16 32) (k0_hw207 : k0_chk207 v689 v1122), ∀ a x, ((![v689, v1122] : Fin 2 → IVec S16 32) a x).toNat < S1x100000.size a := fun v689 v1122 k0_hw207 => k0_hw207
def k0_off543 (k0_t54 : Fin k0_t54_loop.trips) : Fin 2 → Nat :=
  let c0_i32_1173 : BitVec 32 := 0#32
  let v1124 : Index := Scalar.indexCast c0_i32_1173
  let c0_i32_792 : BitVec 32 := 0#32
  let c1_i32_794 : BitVec 32 := 1#32
  let arg22 : BitVec 32 := Scf.iv c0_i32_792 c1_i32_794 k0_t54
  let c64_i32_1171 : BitVec 32 := 64#32
  let v1119 : BitVec 32 := Scalar.muli arg22 c64_i32_1171
  let c0_i32_1172 : BitVec 32 := 0#32
  let v1120 : BitVec 32 := Scalar.addi v1119 c0_i32_1172
  let v1125 : Index := Scalar.indexCast v1120
  ![0, v1125.toNat]
def k0_off544 (k0_t54 : Fin k0_t54_loop.trips) : Fin 1 → Nat :=
  let c0_i32_792 : BitVec 32 := 0#32
  let c1_i32_794 : BitVec 32 := 1#32
  let arg22 : BitVec 32 := Scf.iv c0_i32_792 c1_i32_794 k0_t54
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1129 : Index := Scalar.indexCast v1128
  ![v1129.toNat]

def k0_chk208 (v689 : IVec S16 32) (v1130 : IVec S16 32) : Prop :=
  (∀ a x, ((![v689, v1130] : Fin 2 → IVec S16 32) a x).toNat < S1x100000.size a)
instance k0_chk208.dec : ∀ (v689 : IVec S16 32) (v1130 : IVec S16 32), Decidable (k0_chk208 v689 v1130) := fun v689 v1130 => decidable_of_iff' _ (Iff.of_eq (k0_chk208.eq_1 v689 v1130))
theorem k0_idx208_inb : ∀ (v689 : IVec S16 32) (v1130 : IVec S16 32) (k0_hw208 : k0_chk208 v689 v1130), ∀ a x, ((![v689, v1130] : Fin 2 → IVec S16 32) a x).toNat < S1x100000.size a := fun v689 v1130 k0_hw208 => k0_hw208
def k0_off545 (k0_t54 : Fin k0_t54_loop.trips) : Fin 2 → Nat :=
  let c0_i32_1176 : BitVec 32 := 0#32
  let v1132 : Index := Scalar.indexCast c0_i32_1176
  let c0_i32_792 : BitVec 32 := 0#32
  let c1_i32_794 : BitVec 32 := 1#32
  let arg22 : BitVec 32 := Scf.iv c0_i32_792 c1_i32_794 k0_t54
  let c64_i32_1174 : BitVec 32 := 64#32
  let v1127 : BitVec 32 := Scalar.muli arg22 c64_i32_1174
  let c16_i32_1175 : BitVec 32 := 16#32
  let v1128 : BitVec 32 := Scalar.addi v1127 c16_i32_1175
  let v1133 : Index := Scalar.indexCast v1128
  ![0, v1133.toNat]
def k0_off546 (k0_t54 : Fin k0_t54_loop.trips) : Fin 1 → Nat :=
  let c0_i32_792 : BitVec 32 := 0#32
  let c1_i32_794 : BitVec 32 := 1#32
  let arg22 : BitVec 32 := Scf.iv c0_i32_792 c1_i32_794 k0_t54
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1137 : Index := Scalar.indexCast v1136
  ![v1137.toNat]

def k0_chk209 (v689 : IVec S16 32) (v1138 : IVec S16 32) : Prop :=
  (∀ a x, ((![v689, v1138] : Fin 2 → IVec S16 32) a x).toNat < S1x100000.size a)
instance k0_chk209.dec : ∀ (v689 : IVec S16 32) (v1138 : IVec S16 32), Decidable (k0_chk209 v689 v1138) := fun v689 v1138 => decidable_of_iff' _ (Iff.of_eq (k0_chk209.eq_1 v689 v1138))
theorem k0_idx209_inb : ∀ (v689 : IVec S16 32) (v1138 : IVec S16 32) (k0_hw209 : k0_chk209 v689 v1138), ∀ a x, ((![v689, v1138] : Fin 2 → IVec S16 32) a x).toNat < S1x100000.size a := fun v689 v1138 k0_hw209 => k0_hw209
def k0_off547 (k0_t54 : Fin k0_t54_loop.trips) : Fin 2 → Nat :=
  let c0_i32_1179 : BitVec 32 := 0#32
  let v1140 : Index := Scalar.indexCast c0_i32_1179
  let c0_i32_792 : BitVec 32 := 0#32
  let c1_i32_794 : BitVec 32 := 1#32
  let arg22 : BitVec 32 := Scf.iv c0_i32_792 c1_i32_794 k0_t54
  let c64_i32_1177 : BitVec 32 := 64#32
  let v1135 : BitVec 32 := Scalar.muli arg22 c64_i32_1177
  let c32_i32_1178 : BitVec 32 := 32#32
  let v1136 : BitVec 32 := Scalar.addi v1135 c32_i32_1178
  let v1141 : Index := Scalar.indexCast v1136
  ![0, v1141.toNat]
def k0_off548 (k0_t54 : Fin k0_t54_loop.trips) : Fin 1 → Nat :=
  let c0_i32_792 : BitVec 32 := 0#32
  let c1_i32_794 : BitVec 32 := 1#32
  let arg22 : BitVec 32 := Scf.iv c0_i32_792 c1_i32_794 k0_t54
  let c64_i32_1180 : BitVec 32 := 64#32
  let v1143 : BitVec 32 := Scalar.muli arg22 c64_i32_1180
  let c48_i32 : BitVec 32 := 48#32
  let v1144 : BitVec 32 := Scalar.addi v1143 c48_i32
  let v1145 : Index := Scalar.indexCast v1144
  ![v1145.toNat]

def k0_chk210 (v689 : IVec S16 32) (v1146 : IVec S16 32) : Prop :=
  (∀ a x, ((![v689, v1146] : Fin 2 → IVec S16 32) a x).toNat < S1x100000.size a)
instance k0_chk210.dec : ∀ (v689 : IVec S16 32) (v1146 : IVec S16 32), Decidable (k0_chk210 v689 v1146) := fun v689 v1146 => decidable_of_iff' _ (Iff.of_eq (k0_chk210.eq_1 v689 v1146))
theorem k0_idx210_inb : ∀ (v689 : IVec S16 32) (v1146 : IVec S16 32) (k0_hw210 : k0_chk210 v689 v1146), ∀ a x, ((![v689, v1146] : Fin 2 → IVec S16 32) a x).toNat < S1x100000.size a := fun v689 v1146 k0_hw210 => k0_hw210
def k0_off549 (k0_t54 : Fin k0_t54_loop.trips) : Fin 2 → Nat :=
  let c0_i32_1181 : BitVec 32 := 0#32
  let v1148 : Index := Scalar.indexCast c0_i32_1181
  let c0_i32_792 : BitVec 32 := 0#32
  let c1_i32_794 : BitVec 32 := 1#32
  let arg22 : BitVec 32 := Scf.iv c0_i32_792 c1_i32_794 k0_t54
  let c64_i32_1180 : BitVec 32 := 64#32
  let v1143 : BitVec 32 := Scalar.muli arg22 c64_i32_1180
  let c48_i32 : BitVec 32 := 48#32
  let v1144 : BitVec 32 := Scalar.addi v1143 c48_i32
  let v1149 : Index := Scalar.indexCast v1144
  ![0, v1149.toNat]
def k0_off550 (i : grid0.Coords) : Fin 3 → Nat :=
  let c26_i32_796 : BitVec 32 := 26#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_785 : BitVec 32 := 1#32
  let v684 : BitVec 32 := Scalar.addi v2 c1_i32_785
  let c0_i32_797 : BitVec 32 := 0#32
  ![26, v684.toNat, 0]

def k0_chk211 (v703 : IVec S16 32) : Prop :=
  (∀ a x, ((![v703] : Fin 1 → IVec S16 32) a x).toNat < S832.size a) ∧
  (∀ a x, ((![v703] : Fin 1 → IVec S16 32) a x).toNat < S832.size a)
instance k0_chk211.dec : ∀ (v703 : IVec S16 32), Decidable (k0_chk211 v703) := fun v703 => decidable_of_iff' _ (Iff.of_eq (k0_chk211.eq_1 v703))
theorem k0_idx211_inb : ∀ (v703 : IVec S16 32) (k0_hw211 : k0_chk211 v703), ∀ a x, ((![v703] : Fin 1 → IVec S16 32) a x).toNat < S832.size a := fun v703 k0_hw211 => k0_hw211.1
theorem k0_idx212_inb : ∀ (v703 : IVec S16 32) (k0_hw211 : k0_chk211 v703), ∀ a x, ((![v703] : Fin 1 → IVec S16 32) a x).toNat < S832.size a := fun v703 k0_hw211 => k0_hw211.2
def k0_off551 (i : grid0.Coords) : Fin 3 → Nat :=
  let c26_i32_807 : BitVec 32 := 26#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_772 : BitVec 32 := 0#32
  let v673 : BitVec 32 := Scalar.addi v2 c0_i32_772
  let c0_i32_808 : BitVec 32 := 0#32
  ![26, v673.toNat, 0]
@[reducible] def k0_t55_loop : Scf.Loop 32 :=
  let c0_i32_811 : BitVec 32 := 0#32
  let c64_i32_812 : BitVec 32 := 64#32
  let v710 : BitVec 32 := Scalar.addi c0_i32_811 c64_i32_812
  let c1_i32_813 : BitVec 32 := 1#32
  ⟨c0_i32_811, v710, c1_i32_813⟩
def k0_off552 (k0_t55 : Fin k0_t55_loop.trips) (c0_i32_1172 : BitVec 32) : Fin 1 → Nat :=
  let c0_i32_811 : BitVec 32 := 0#32
  let c1_i32_813 : BitVec 32 := 1#32
  let arg22 : BitVec 32 := Scf.iv c0_i32_811 c1_i32_813 k0_t55
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off553 (k0_t55 : Fin k0_t55_loop.trips) (c0_i32_1172 : BitVec 32) : Fin 2 → Nat :=
  let c0_i32_1173 : BitVec 32 := 0#32
  let v1125 : Index := Scalar.indexCast c0_i32_1173
  let c0_i32_811 : BitVec 32 := 0#32
  let c1_i32_813 : BitVec 32 := 1#32
  let arg22 : BitVec 32 := Scf.iv c0_i32_811 c1_i32_813 k0_t55
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off554 (i : grid0.Coords) : Fin 3 → Nat :=
  let c27_i32 : BitVec 32 := 27#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_805 : BitVec 32 := 0#32
  let v701 : BitVec 32 := Scalar.addi v2 c0_i32_805
  let c0_i32_815 : BitVec 32 := 0#32
  ![27, v701.toNat, 0]

def k0_chk212 (v717 : IVec S16 32) : Prop :=
  (∀ a x, ((![v717] : Fin 1 → IVec S16 32) a x).toNat < S832.size a) ∧
  (∀ a x, ((![v717] : Fin 1 → IVec S16 32) a x).toNat < S832.size a)
instance k0_chk212.dec : ∀ (v717 : IVec S16 32), Decidable (k0_chk212 v717) := fun v717 => decidable_of_iff' _ (Iff.of_eq (k0_chk212.eq_1 v717))
theorem k0_idx213_inb : ∀ (v717 : IVec S16 32) (k0_hw212 : k0_chk212 v717), ∀ a x, ((![v717] : Fin 1 → IVec S16 32) a x).toNat < S832.size a := fun v717 k0_hw212 => k0_hw212.1
theorem k0_idx214_inb : ∀ (v717 : IVec S16 32) (k0_hw212 : k0_chk212 v717), ∀ a x, ((![v717] : Fin 1 → IVec S16 32) a x).toNat < S832.size a := fun v717 k0_hw212 => k0_hw212.2
def k0_off555 (i : grid0.Coords) : Fin 3 → Nat :=
  let c26_i32_819 : BitVec 32 := 26#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_785 : BitVec 32 := 1#32
  let v684 : BitVec 32 := Scalar.addi v2 c1_i32_785
  let c0_i32_820 : BitVec 32 := 0#32
  ![26, v684.toNat, 0]
@[reducible] def k0_t56_loop : Scf.Loop 32 :=
  let c0_i32_823 : BitVec 32 := 0#32
  let c64_i32_824 : BitVec 32 := 64#32
  let v724 : BitVec 32 := Scalar.addi c0_i32_823 c64_i32_824
  let c1_i32_825 : BitVec 32 := 1#32
  ⟨c0_i32_823, v724, c1_i32_825⟩
def k0_off556 (k0_t56 : Fin k0_t56_loop.trips) (c0_i32_1172 : BitVec 32) : Fin 1 → Nat :=
  let c0_i32_823 : BitVec 32 := 0#32
  let c1_i32_825 : BitVec 32 := 1#32
  let arg22 : BitVec 32 := Scf.iv c0_i32_823 c1_i32_825 k0_t56
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off557 (k0_t56 : Fin k0_t56_loop.trips) (c0_i32_1172 : BitVec 32) : Fin 2 → Nat :=
  let c0_i32_1173 : BitVec 32 := 0#32
  let v1125 : Index := Scalar.indexCast c0_i32_1173
  let c0_i32_823 : BitVec 32 := 0#32
  let c1_i32_825 : BitVec 32 := 1#32
  let arg22 : BitVec 32 := Scf.iv c0_i32_823 c1_i32_825 k0_t56
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off558 (i : grid0.Coords) : Fin 3 → Nat :=
  let c27_i32_827 : BitVec 32 := 27#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_817 : BitVec 32 := 1#32
  let v715 : BitVec 32 := Scalar.addi v2 c1_i32_817
  let c0_i32_828 : BitVec 32 := 0#32
  ![27, v715.toNat, 0]

def k0_chk213 (v735 : IVec S16 32) : Prop :=
  (∀ a x, ((![v735] : Fin 1 → IVec S16 32) a x).toNat < S832.size a) ∧
  (∀ a x, ((![v735] : Fin 1 → IVec S16 32) a x).toNat < S832.size a)
instance k0_chk213.dec : ∀ (v735 : IVec S16 32), Decidable (k0_chk213 v735) := fun v735 => decidable_of_iff' _ (Iff.of_eq (k0_chk213.eq_1 v735))
theorem k0_idx215_inb : ∀ (v735 : IVec S16 32) (k0_hw213 : k0_chk213 v735), ∀ a x, ((![v735] : Fin 1 → IVec S16 32) a x).toNat < S832.size a := fun v735 k0_hw213 => k0_hw213.1
theorem k0_idx216_inb : ∀ (v735 : IVec S16 32) (k0_hw213 : k0_chk213 v735), ∀ a x, ((![v735] : Fin 1 → IVec S16 32) a x).toNat < S832.size a := fun v735 k0_hw213 => k0_hw213.2
def k0_off559 (i : grid0.Coords) : Fin 3 → Nat :=
  let c27_i32_836 : BitVec 32 := 27#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_805 : BitVec 32 := 0#32
  let v701 : BitVec 32 := Scalar.addi v2 c0_i32_805
  let c0_i32_837 : BitVec 32 := 0#32
  ![27, v701.toNat, 0]
@[reducible] def k0_t57_loop : Scf.Loop 32 :=
  let c0_i32_840 : BitVec 32 := 0#32
  let c64_i32_841 : BitVec 32 := 64#32
  let v742 : BitVec 32 := Scalar.addi c0_i32_840 c64_i32_841
  let c1_i32_842 : BitVec 32 := 1#32
  ⟨c0_i32_840, v742, c1_i32_842⟩
def k0_off560 (k0_t57 : Fin k0_t57_loop.trips) (c0_i32_1172 : BitVec 32) : Fin 1 → Nat :=
  let c0_i32_840 : BitVec 32 := 0#32
  let c1_i32_842 : BitVec 32 := 1#32
  let arg22 : BitVec 32 := Scf.iv c0_i32_840 c1_i32_842 k0_t57
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off561 (k0_t57 : Fin k0_t57_loop.trips) (c0_i32_1172 : BitVec 32) : Fin 2 → Nat :=
  let c0_i32_1173 : BitVec 32 := 0#32
  let v1125 : Index := Scalar.indexCast c0_i32_1173
  let c0_i32_840 : BitVec 32 := 0#32
  let c1_i32_842 : BitVec 32 := 1#32
  let arg22 : BitVec 32 := Scf.iv c0_i32_840 c1_i32_842 k0_t57
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off562 (i : grid0.Coords) : Fin 3 → Nat :=
  let c28_i32 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_834 : BitVec 32 := 0#32
  let v733 : BitVec 32 := Scalar.addi v2 c0_i32_834
  let c0_i32_844 : BitVec 32 := 0#32
  ![28, v733.toNat, 0]

def k0_chk214 (v749 : IVec S16 32) : Prop :=
  (∀ a x, ((![v749] : Fin 1 → IVec S16 32) a x).toNat < S832.size a) ∧
  (∀ a x, ((![v749] : Fin 1 → IVec S16 32) a x).toNat < S832.size a)
instance k0_chk214.dec : ∀ (v749 : IVec S16 32), Decidable (k0_chk214 v749) := fun v749 => decidable_of_iff' _ (Iff.of_eq (k0_chk214.eq_1 v749))
theorem k0_idx217_inb : ∀ (v749 : IVec S16 32) (k0_hw214 : k0_chk214 v749), ∀ a x, ((![v749] : Fin 1 → IVec S16 32) a x).toNat < S832.size a := fun v749 k0_hw214 => k0_hw214.1
theorem k0_idx218_inb : ∀ (v749 : IVec S16 32) (k0_hw214 : k0_chk214 v749), ∀ a x, ((![v749] : Fin 1 → IVec S16 32) a x).toNat < S832.size a := fun v749 k0_hw214 => k0_hw214.2
def k0_off563 (i : grid0.Coords) : Fin 3 → Nat :=
  let c27_i32_848 : BitVec 32 := 27#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_817 : BitVec 32 := 1#32
  let v715 : BitVec 32 := Scalar.addi v2 c1_i32_817
  let c0_i32_849 : BitVec 32 := 0#32
  ![27, v715.toNat, 0]
@[reducible] def k0_t58_loop : Scf.Loop 32 :=
  let c0_i32_852 : BitVec 32 := 0#32
  let c64_i32_853 : BitVec 32 := 64#32
  let v756 : BitVec 32 := Scalar.addi c0_i32_852 c64_i32_853
  let c1_i32_854 : BitVec 32 := 1#32
  ⟨c0_i32_852, v756, c1_i32_854⟩
def k0_off564 (k0_t58 : Fin k0_t58_loop.trips) (c0_i32_1172 : BitVec 32) : Fin 1 → Nat :=
  let c0_i32_852 : BitVec 32 := 0#32
  let c1_i32_854 : BitVec 32 := 1#32
  let arg22 : BitVec 32 := Scf.iv c0_i32_852 c1_i32_854 k0_t58
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off565 (k0_t58 : Fin k0_t58_loop.trips) (c0_i32_1172 : BitVec 32) : Fin 2 → Nat :=
  let c0_i32_1173 : BitVec 32 := 0#32
  let v1125 : Index := Scalar.indexCast c0_i32_1173
  let c0_i32_852 : BitVec 32 := 0#32
  let c1_i32_854 : BitVec 32 := 1#32
  let arg22 : BitVec 32 := Scf.iv c0_i32_852 c1_i32_854 k0_t58
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off566 (i : grid0.Coords) : Fin 3 → Nat :=
  let c28_i32_856 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_846 : BitVec 32 := 1#32
  let v747 : BitVec 32 := Scalar.addi v2 c1_i32_846
  let c0_i32_857 : BitVec 32 := 0#32
  ![28, v747.toNat, 0]

def k0_chk215 (v767 : IVec S16 32) : Prop :=
  (∀ a x, ((![v767] : Fin 1 → IVec S16 32) a x).toNat < S832.size a) ∧
  (∀ a x, ((![v767] : Fin 1 → IVec S16 32) a x).toNat < S832.size a)
instance k0_chk215.dec : ∀ (v767 : IVec S16 32), Decidable (k0_chk215 v767) := fun v767 => decidable_of_iff' _ (Iff.of_eq (k0_chk215.eq_1 v767))
theorem k0_idx219_inb : ∀ (v767 : IVec S16 32) (k0_hw215 : k0_chk215 v767), ∀ a x, ((![v767] : Fin 1 → IVec S16 32) a x).toNat < S832.size a := fun v767 k0_hw215 => k0_hw215.1
theorem k0_idx220_inb : ∀ (v767 : IVec S16 32) (k0_hw215 : k0_chk215 v767), ∀ a x, ((![v767] : Fin 1 → IVec S16 32) a x).toNat < S832.size a := fun v767 k0_hw215 => k0_hw215.2
def k0_off567 (i : grid0.Coords) : Fin 3 → Nat :=
  let c28_i32_864 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_834 : BitVec 32 := 0#32
  let v733 : BitVec 32 := Scalar.addi v2 c0_i32_834
  let c0_i32_865 : BitVec 32 := 0#32
  ![28, v733.toNat, 0]
@[reducible] def k0_t59_loop : Scf.Loop 32 :=
  let c0_i32_868 : BitVec 32 := 0#32
  let c64_i32_869 : BitVec 32 := 64#32
  let v774 : BitVec 32 := Scalar.addi c0_i32_868 c64_i32_869
  let c1_i32_870 : BitVec 32 := 1#32
  ⟨c0_i32_868, v774, c1_i32_870⟩
def k0_off568 (k0_t59 : Fin k0_t59_loop.trips) (c0_i32_1172 : BitVec 32) : Fin 1 → Nat :=
  let c0_i32_868 : BitVec 32 := 0#32
  let c1_i32_870 : BitVec 32 := 1#32
  let arg22 : BitVec 32 := Scf.iv c0_i32_868 c1_i32_870 k0_t59
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off569 (k0_t59 : Fin k0_t59_loop.trips) (c0_i32_1172 : BitVec 32) : Fin 2 → Nat :=
  let c0_i32_1173 : BitVec 32 := 0#32
  let v1125 : Index := Scalar.indexCast c0_i32_1173
  let c0_i32_868 : BitVec 32 := 0#32
  let c1_i32_870 : BitVec 32 := 1#32
  let arg22 : BitVec 32 := Scf.iv c0_i32_868 c1_i32_870 k0_t59
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off570 (i : grid0.Coords) : Fin 3 → Nat :=
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_863 : BitVec 32 := 0#32
  let v765 : BitVec 32 := Scalar.addi v2 c0_i32_863
  let c0_i32_872 : BitVec 32 := 0#32
  ![29, v765.toNat, 0]

def k0_chk216 (v781 : IVec S16 32) : Prop :=
  (∀ a x, ((![v781] : Fin 1 → IVec S16 32) a x).toNat < S832.size a) ∧
  (∀ a x, ((![v781] : Fin 1 → IVec S16 32) a x).toNat < S832.size a)
instance k0_chk216.dec : ∀ (v781 : IVec S16 32), Decidable (k0_chk216 v781) := fun v781 => decidable_of_iff' _ (Iff.of_eq (k0_chk216.eq_1 v781))
theorem k0_idx221_inb : ∀ (v781 : IVec S16 32) (k0_hw216 : k0_chk216 v781), ∀ a x, ((![v781] : Fin 1 → IVec S16 32) a x).toNat < S832.size a := fun v781 k0_hw216 => k0_hw216.1
theorem k0_idx222_inb : ∀ (v781 : IVec S16 32) (k0_hw216 : k0_chk216 v781), ∀ a x, ((![v781] : Fin 1 → IVec S16 32) a x).toNat < S832.size a := fun v781 k0_hw216 => k0_hw216.2
def k0_off571 (i : grid0.Coords) : Fin 3 → Nat :=
  let c28_i32_876 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_846 : BitVec 32 := 1#32
  let v747 : BitVec 32 := Scalar.addi v2 c1_i32_846
  let c0_i32_877 : BitVec 32 := 0#32
  ![28, v747.toNat, 0]
@[reducible] def k0_t60_loop : Scf.Loop 32 :=
  let c0_i32_880 : BitVec 32 := 0#32
  let c64_i32_881 : BitVec 32 := 64#32
  let v788 : BitVec 32 := Scalar.addi c0_i32_880 c64_i32_881
  let c1_i32_882 : BitVec 32 := 1#32
  ⟨c0_i32_880, v788, c1_i32_882⟩
def k0_off572 (k0_t60 : Fin k0_t60_loop.trips) (c0_i32_1172 : BitVec 32) : Fin 1 → Nat :=
  let c0_i32_880 : BitVec 32 := 0#32
  let c1_i32_882 : BitVec 32 := 1#32
  let arg22 : BitVec 32 := Scf.iv c0_i32_880 c1_i32_882 k0_t60
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off573 (k0_t60 : Fin k0_t60_loop.trips) (c0_i32_1172 : BitVec 32) : Fin 2 → Nat :=
  let c0_i32_1173 : BitVec 32 := 0#32
  let v1125 : Index := Scalar.indexCast c0_i32_1173
  let c0_i32_880 : BitVec 32 := 0#32
  let c1_i32_882 : BitVec 32 := 1#32
  let arg22 : BitVec 32 := Scf.iv c0_i32_880 c1_i32_882 k0_t60
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off574 (i : grid0.Coords) : Fin 3 → Nat :=
  let c29_i32_884 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_874 : BitVec 32 := 1#32
  let v779 : BitVec 32 := Scalar.addi v2 c1_i32_874
  let c0_i32_885 : BitVec 32 := 0#32
  ![29, v779.toNat, 0]

def k0_chk217 (v799 : IVec S16 32) : Prop :=
  (∀ a x, ((![v799] : Fin 1 → IVec S16 32) a x).toNat < S832.size a) ∧
  (∀ a x, ((![v799] : Fin 1 → IVec S16 32) a x).toNat < S832.size a)
instance k0_chk217.dec : ∀ (v799 : IVec S16 32), Decidable (k0_chk217 v799) := fun v799 => decidable_of_iff' _ (Iff.of_eq (k0_chk217.eq_1 v799))
theorem k0_idx223_inb : ∀ (v799 : IVec S16 32) (k0_hw217 : k0_chk217 v799), ∀ a x, ((![v799] : Fin 1 → IVec S16 32) a x).toNat < S832.size a := fun v799 k0_hw217 => k0_hw217.1
theorem k0_idx224_inb : ∀ (v799 : IVec S16 32) (k0_hw217 : k0_chk217 v799), ∀ a x, ((![v799] : Fin 1 → IVec S16 32) a x).toNat < S832.size a := fun v799 k0_hw217 => k0_hw217.2
def k0_off575 (i : grid0.Coords) : Fin 3 → Nat :=
  let c29_i32_892 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_863 : BitVec 32 := 0#32
  let v765 : BitVec 32 := Scalar.addi v2 c0_i32_863
  let c0_i32_893 : BitVec 32 := 0#32
  ![29, v765.toNat, 0]
@[reducible] def k0_t61_loop : Scf.Loop 32 :=
  let c0_i32_896 : BitVec 32 := 0#32
  let c64_i32_897 : BitVec 32 := 64#32
  let v806 : BitVec 32 := Scalar.addi c0_i32_896 c64_i32_897
  let c1_i32_898 : BitVec 32 := 1#32
  ⟨c0_i32_896, v806, c1_i32_898⟩
def k0_off576 (k0_t61 : Fin k0_t61_loop.trips) (c0_i32_1172 : BitVec 32) : Fin 1 → Nat :=
  let c0_i32_896 : BitVec 32 := 0#32
  let c1_i32_898 : BitVec 32 := 1#32
  let arg22 : BitVec 32 := Scf.iv c0_i32_896 c1_i32_898 k0_t61
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off577 (k0_t61 : Fin k0_t61_loop.trips) (c0_i32_1172 : BitVec 32) : Fin 2 → Nat :=
  let c0_i32_1173 : BitVec 32 := 0#32
  let v1125 : Index := Scalar.indexCast c0_i32_1173
  let c0_i32_896 : BitVec 32 := 0#32
  let c1_i32_898 : BitVec 32 := 1#32
  let arg22 : BitVec 32 := Scf.iv c0_i32_896 c1_i32_898 k0_t61
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off578 (i : grid0.Coords) : Fin 3 → Nat :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_891 : BitVec 32 := 0#32
  let v797 : BitVec 32 := Scalar.addi v2 c0_i32_891
  let c0_i32_900 : BitVec 32 := 0#32
  ![30, v797.toNat, 0]

def k0_chk218 (v813 : IVec S16 32) : Prop :=
  (∀ a x, ((![v813] : Fin 1 → IVec S16 32) a x).toNat < S832.size a) ∧
  (∀ a x, ((![v813] : Fin 1 → IVec S16 32) a x).toNat < S832.size a)
instance k0_chk218.dec : ∀ (v813 : IVec S16 32), Decidable (k0_chk218 v813) := fun v813 => decidable_of_iff' _ (Iff.of_eq (k0_chk218.eq_1 v813))
theorem k0_idx225_inb : ∀ (v813 : IVec S16 32) (k0_hw218 : k0_chk218 v813), ∀ a x, ((![v813] : Fin 1 → IVec S16 32) a x).toNat < S832.size a := fun v813 k0_hw218 => k0_hw218.1
theorem k0_idx226_inb : ∀ (v813 : IVec S16 32) (k0_hw218 : k0_chk218 v813), ∀ a x, ((![v813] : Fin 1 → IVec S16 32) a x).toNat < S832.size a := fun v813 k0_hw218 => k0_hw218.2
def k0_off579 (i : grid0.Coords) : Fin 3 → Nat :=
  let c29_i32_904 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_874 : BitVec 32 := 1#32
  let v779 : BitVec 32 := Scalar.addi v2 c1_i32_874
  let c0_i32_905 : BitVec 32 := 0#32
  ![29, v779.toNat, 0]
@[reducible] def k0_t62_loop : Scf.Loop 32 :=
  let c0_i32_908 : BitVec 32 := 0#32
  let c64_i32_909 : BitVec 32 := 64#32
  let v820 : BitVec 32 := Scalar.addi c0_i32_908 c64_i32_909
  let c1_i32_910 : BitVec 32 := 1#32
  ⟨c0_i32_908, v820, c1_i32_910⟩
def k0_off580 (k0_t62 : Fin k0_t62_loop.trips) (c0_i32_1172 : BitVec 32) : Fin 1 → Nat :=
  let c0_i32_908 : BitVec 32 := 0#32
  let c1_i32_910 : BitVec 32 := 1#32
  let arg22 : BitVec 32 := Scf.iv c0_i32_908 c1_i32_910 k0_t62
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off581 (k0_t62 : Fin k0_t62_loop.trips) (c0_i32_1172 : BitVec 32) : Fin 2 → Nat :=
  let c0_i32_1173 : BitVec 32 := 0#32
  let v1125 : Index := Scalar.indexCast c0_i32_1173
  let c0_i32_908 : BitVec 32 := 0#32
  let c1_i32_910 : BitVec 32 := 1#32
  let arg22 : BitVec 32 := Scf.iv c0_i32_908 c1_i32_910 k0_t62
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off582 (i : grid0.Coords) : Fin 3 → Nat :=
  let c30_i32_912 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_902 : BitVec 32 := 1#32
  let v811 : BitVec 32 := Scalar.addi v2 c1_i32_902
  let c0_i32_913 : BitVec 32 := 0#32
  ![30, v811.toNat, 0]

def k0_chk219 (v831 : IVec S16 32) : Prop :=
  (∀ a x, ((![v831] : Fin 1 → IVec S16 32) a x).toNat < S832.size a) ∧
  (∀ a x, ((![v831] : Fin 1 → IVec S16 32) a x).toNat < S832.size a)
instance k0_chk219.dec : ∀ (v831 : IVec S16 32), Decidable (k0_chk219 v831) := fun v831 => decidable_of_iff' _ (Iff.of_eq (k0_chk219.eq_1 v831))
theorem k0_idx227_inb : ∀ (v831 : IVec S16 32) (k0_hw219 : k0_chk219 v831), ∀ a x, ((![v831] : Fin 1 → IVec S16 32) a x).toNat < S832.size a := fun v831 k0_hw219 => k0_hw219.1
theorem k0_idx228_inb : ∀ (v831 : IVec S16 32) (k0_hw219 : k0_chk219 v831), ∀ a x, ((![v831] : Fin 1 → IVec S16 32) a x).toNat < S832.size a := fun v831 k0_hw219 => k0_hw219.2
def k0_off583 (i : grid0.Coords) : Fin 3 → Nat :=
  let c30_i32_920 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_891 : BitVec 32 := 0#32
  let v797 : BitVec 32 := Scalar.addi v2 c0_i32_891
  let c0_i32_921 : BitVec 32 := 0#32
  ![30, v797.toNat, 0]
@[reducible] def k0_t63_loop : Scf.Loop 32 :=
  let c0_i32_924 : BitVec 32 := 0#32
  let c64_i32_925 : BitVec 32 := 64#32
  let v838 : BitVec 32 := Scalar.addi c0_i32_924 c64_i32_925
  let c1_i32_926 : BitVec 32 := 1#32
  ⟨c0_i32_924, v838, c1_i32_926⟩
def k0_off584 (k0_t63 : Fin k0_t63_loop.trips) (c0_i32_1172 : BitVec 32) : Fin 1 → Nat :=
  let c0_i32_924 : BitVec 32 := 0#32
  let c1_i32_926 : BitVec 32 := 1#32
  let arg22 : BitVec 32 := Scf.iv c0_i32_924 c1_i32_926 k0_t63
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off585 (k0_t63 : Fin k0_t63_loop.trips) (c0_i32_1172 : BitVec 32) : Fin 2 → Nat :=
  let c0_i32_1173 : BitVec 32 := 0#32
  let v1125 : Index := Scalar.indexCast c0_i32_1173
  let c0_i32_924 : BitVec 32 := 0#32
  let c1_i32_926 : BitVec 32 := 1#32
  let arg22 : BitVec 32 := Scf.iv c0_i32_924 c1_i32_926 k0_t63
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off586 (i : grid0.Coords) : Fin 3 → Nat :=
  let c31_i32 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_919 : BitVec 32 := 0#32
  let v829 : BitVec 32 := Scalar.addi v2 c0_i32_919
  let c0_i32_928 : BitVec 32 := 0#32
  ![31, v829.toNat, 0]

def k0_chk220 (v845 : IVec S16 32) : Prop :=
  (∀ a x, ((![v845] : Fin 1 → IVec S16 32) a x).toNat < S832.size a) ∧
  (∀ a x, ((![v845] : Fin 1 → IVec S16 32) a x).toNat < S832.size a)
instance k0_chk220.dec : ∀ (v845 : IVec S16 32), Decidable (k0_chk220 v845) := fun v845 => decidable_of_iff' _ (Iff.of_eq (k0_chk220.eq_1 v845))
theorem k0_idx229_inb : ∀ (v845 : IVec S16 32) (k0_hw220 : k0_chk220 v845), ∀ a x, ((![v845] : Fin 1 → IVec S16 32) a x).toNat < S832.size a := fun v845 k0_hw220 => k0_hw220.1
theorem k0_idx230_inb : ∀ (v845 : IVec S16 32) (k0_hw220 : k0_chk220 v845), ∀ a x, ((![v845] : Fin 1 → IVec S16 32) a x).toNat < S832.size a := fun v845 k0_hw220 => k0_hw220.2
def k0_off587 (i : grid0.Coords) : Fin 3 → Nat :=
  let c30_i32_932 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_902 : BitVec 32 := 1#32
  let v811 : BitVec 32 := Scalar.addi v2 c1_i32_902
  let c0_i32_933 : BitVec 32 := 0#32
  ![30, v811.toNat, 0]
@[reducible] def k0_t64_loop : Scf.Loop 32 :=
  let c0_i32_936 : BitVec 32 := 0#32
  let c64_i32_937 : BitVec 32 := 64#32
  let v852 : BitVec 32 := Scalar.addi c0_i32_936 c64_i32_937
  let c1_i32_938 : BitVec 32 := 1#32
  ⟨c0_i32_936, v852, c1_i32_938⟩
def k0_off588 (k0_t64 : Fin k0_t64_loop.trips) (c0_i32_1172 : BitVec 32) : Fin 1 → Nat :=
  let c0_i32_936 : BitVec 32 := 0#32
  let c1_i32_938 : BitVec 32 := 1#32
  let arg22 : BitVec 32 := Scf.iv c0_i32_936 c1_i32_938 k0_t64
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off589 (k0_t64 : Fin k0_t64_loop.trips) (c0_i32_1172 : BitVec 32) : Fin 2 → Nat :=
  let c0_i32_1173 : BitVec 32 := 0#32
  let v1125 : Index := Scalar.indexCast c0_i32_1173
  let c0_i32_936 : BitVec 32 := 0#32
  let c1_i32_938 : BitVec 32 := 1#32
  let arg22 : BitVec 32 := Scf.iv c0_i32_936 c1_i32_938 k0_t64
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off590 (i : grid0.Coords) : Fin 3 → Nat :=
  let c31_i32_940 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_930 : BitVec 32 := 1#32
  let v843 : BitVec 32 := Scalar.addi v2 c1_i32_930
  let c0_i32_941 : BitVec 32 := 0#32
  ![31, v843.toNat, 0]

def k0_chk221 (v863 : IVec S16 32) : Prop :=
  (∀ a x, ((![v863] : Fin 1 → IVec S16 32) a x).toNat < S832.size a) ∧
  (∀ a x, ((![v863] : Fin 1 → IVec S16 32) a x).toNat < S832.size a)
instance k0_chk221.dec : ∀ (v863 : IVec S16 32), Decidable (k0_chk221 v863) := fun v863 => decidable_of_iff' _ (Iff.of_eq (k0_chk221.eq_1 v863))
theorem k0_idx231_inb : ∀ (v863 : IVec S16 32) (k0_hw221 : k0_chk221 v863), ∀ a x, ((![v863] : Fin 1 → IVec S16 32) a x).toNat < S832.size a := fun v863 k0_hw221 => k0_hw221.1
theorem k0_idx232_inb : ∀ (v863 : IVec S16 32) (k0_hw221 : k0_chk221 v863), ∀ a x, ((![v863] : Fin 1 → IVec S16 32) a x).toNat < S832.size a := fun v863 k0_hw221 => k0_hw221.2
def k0_off591 (i : grid0.Coords) : Fin 3 → Nat :=
  let c31_i32_948 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_919 : BitVec 32 := 0#32
  let v829 : BitVec 32 := Scalar.addi v2 c0_i32_919
  let c0_i32_949 : BitVec 32 := 0#32
  ![31, v829.toNat, 0]
@[reducible] def k0_t65_loop : Scf.Loop 32 :=
  let c0_i32_952 : BitVec 32 := 0#32
  let c64_i32_953 : BitVec 32 := 64#32
  let v870 : BitVec 32 := Scalar.addi c0_i32_952 c64_i32_953
  let c1_i32_954 : BitVec 32 := 1#32
  ⟨c0_i32_952, v870, c1_i32_954⟩
def k0_off592 (k0_t65 : Fin k0_t65_loop.trips) (c0_i32_1172 : BitVec 32) : Fin 1 → Nat :=
  let c0_i32_952 : BitVec 32 := 0#32
  let c1_i32_954 : BitVec 32 := 1#32
  let arg22 : BitVec 32 := Scf.iv c0_i32_952 c1_i32_954 k0_t65
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off593 (k0_t65 : Fin k0_t65_loop.trips) (c0_i32_1172 : BitVec 32) : Fin 2 → Nat :=
  let c0_i32_1173 : BitVec 32 := 0#32
  let v1125 : Index := Scalar.indexCast c0_i32_1173
  let c0_i32_952 : BitVec 32 := 0#32
  let c1_i32_954 : BitVec 32 := 1#32
  let arg22 : BitVec 32 := Scf.iv c0_i32_952 c1_i32_954 k0_t65
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off594 (i : grid0.Coords) : Fin 3 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_947 : BitVec 32 := 0#32
  let v861 : BitVec 32 := Scalar.addi v2 c0_i32_947
  let c0_i32_956 : BitVec 32 := 0#32
  ![32, v861.toNat, 0]

def k0_chk222 (v877 : IVec S16 32) : Prop :=
  (∀ a x, ((![v877] : Fin 1 → IVec S16 32) a x).toNat < S832.size a) ∧
  (∀ a x, ((![v877] : Fin 1 → IVec S16 32) a x).toNat < S832.size a)
instance k0_chk222.dec : ∀ (v877 : IVec S16 32), Decidable (k0_chk222 v877) := fun v877 => decidable_of_iff' _ (Iff.of_eq (k0_chk222.eq_1 v877))
theorem k0_idx233_inb : ∀ (v877 : IVec S16 32) (k0_hw222 : k0_chk222 v877), ∀ a x, ((![v877] : Fin 1 → IVec S16 32) a x).toNat < S832.size a := fun v877 k0_hw222 => k0_hw222.1
theorem k0_idx234_inb : ∀ (v877 : IVec S16 32) (k0_hw222 : k0_chk222 v877), ∀ a x, ((![v877] : Fin 1 → IVec S16 32) a x).toNat < S832.size a := fun v877 k0_hw222 => k0_hw222.2
def k0_off595 (i : grid0.Coords) : Fin 3 → Nat :=
  let c31_i32_960 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_930 : BitVec 32 := 1#32
  let v843 : BitVec 32 := Scalar.addi v2 c1_i32_930
  let c0_i32_961 : BitVec 32 := 0#32
  ![31, v843.toNat, 0]
@[reducible] def k0_t66_loop : Scf.Loop 32 :=
  let c0_i32_964 : BitVec 32 := 0#32
  let c64_i32_965 : BitVec 32 := 64#32
  let v884 : BitVec 32 := Scalar.addi c0_i32_964 c64_i32_965
  let c1_i32_966 : BitVec 32 := 1#32
  ⟨c0_i32_964, v884, c1_i32_966⟩
def k0_off596 (k0_t66 : Fin k0_t66_loop.trips) (c0_i32_1172 : BitVec 32) : Fin 1 → Nat :=
  let c0_i32_964 : BitVec 32 := 0#32
  let c1_i32_966 : BitVec 32 := 1#32
  let arg22 : BitVec 32 := Scf.iv c0_i32_964 c1_i32_966 k0_t66
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off597 (k0_t66 : Fin k0_t66_loop.trips) (c0_i32_1172 : BitVec 32) : Fin 2 → Nat :=
  let c0_i32_1173 : BitVec 32 := 0#32
  let v1125 : Index := Scalar.indexCast c0_i32_1173
  let c0_i32_964 : BitVec 32 := 0#32
  let c1_i32_966 : BitVec 32 := 1#32
  let arg22 : BitVec 32 := Scf.iv c0_i32_964 c1_i32_966 k0_t66
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off598 (i : grid0.Coords) : Fin 3 → Nat :=
  let c32_i32_968 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_958 : BitVec 32 := 1#32
  let v875 : BitVec 32 := Scalar.addi v2 c1_i32_958
  let c0_i32_969 : BitVec 32 := 0#32
  ![32, v875.toNat, 0]

def k0_chk223 (v895 : IVec S16 32) : Prop :=
  (∀ a x, ((![v895] : Fin 1 → IVec S16 32) a x).toNat < S832.size a) ∧
  (∀ a x, ((![v895] : Fin 1 → IVec S16 32) a x).toNat < S832.size a)
instance k0_chk223.dec : ∀ (v895 : IVec S16 32), Decidable (k0_chk223 v895) := fun v895 => decidable_of_iff' _ (Iff.of_eq (k0_chk223.eq_1 v895))
theorem k0_idx235_inb : ∀ (v895 : IVec S16 32) (k0_hw223 : k0_chk223 v895), ∀ a x, ((![v895] : Fin 1 → IVec S16 32) a x).toNat < S832.size a := fun v895 k0_hw223 => k0_hw223.1
theorem k0_idx236_inb : ∀ (v895 : IVec S16 32) (k0_hw223 : k0_chk223 v895), ∀ a x, ((![v895] : Fin 1 → IVec S16 32) a x).toNat < S832.size a := fun v895 k0_hw223 => k0_hw223.2
def k0_off599 (i : grid0.Coords) : Fin 3 → Nat :=
  let c32_i32_976 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_947 : BitVec 32 := 0#32
  let v861 : BitVec 32 := Scalar.addi v2 c0_i32_947
  let c0_i32_977 : BitVec 32 := 0#32
  ![32, v861.toNat, 0]
@[reducible] def k0_t67_loop : Scf.Loop 32 :=
  let c0_i32_980 : BitVec 32 := 0#32
  let c64_i32_981 : BitVec 32 := 64#32
  let v902 : BitVec 32 := Scalar.addi c0_i32_980 c64_i32_981
  let c1_i32_982 : BitVec 32 := 1#32
  ⟨c0_i32_980, v902, c1_i32_982⟩
def k0_off600 (k0_t67 : Fin k0_t67_loop.trips) (c0_i32_1172 : BitVec 32) : Fin 1 → Nat :=
  let c0_i32_980 : BitVec 32 := 0#32
  let c1_i32_982 : BitVec 32 := 1#32
  let arg22 : BitVec 32 := Scf.iv c0_i32_980 c1_i32_982 k0_t67
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off601 (k0_t67 : Fin k0_t67_loop.trips) (c0_i32_1172 : BitVec 32) : Fin 2 → Nat :=
  let c0_i32_1173 : BitVec 32 := 0#32
  let v1125 : Index := Scalar.indexCast c0_i32_1173
  let c0_i32_980 : BitVec 32 := 0#32
  let c1_i32_982 : BitVec 32 := 1#32
  let arg22 : BitVec 32 := Scf.iv c0_i32_980 c1_i32_982 k0_t67
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off602 (i : grid0.Coords) : Fin 3 → Nat :=
  let c33_i32 : BitVec 32 := 33#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_975 : BitVec 32 := 0#32
  let v893 : BitVec 32 := Scalar.addi v2 c0_i32_975
  let c0_i32_984 : BitVec 32 := 0#32
  ![33, v893.toNat, 0]

def k0_chk224 (v909 : IVec S16 32) : Prop :=
  (∀ a x, ((![v909] : Fin 1 → IVec S16 32) a x).toNat < S832.size a) ∧
  (∀ a x, ((![v909] : Fin 1 → IVec S16 32) a x).toNat < S832.size a)
instance k0_chk224.dec : ∀ (v909 : IVec S16 32), Decidable (k0_chk224 v909) := fun v909 => decidable_of_iff' _ (Iff.of_eq (k0_chk224.eq_1 v909))
theorem k0_idx237_inb : ∀ (v909 : IVec S16 32) (k0_hw224 : k0_chk224 v909), ∀ a x, ((![v909] : Fin 1 → IVec S16 32) a x).toNat < S832.size a := fun v909 k0_hw224 => k0_hw224.1
theorem k0_idx238_inb : ∀ (v909 : IVec S16 32) (k0_hw224 : k0_chk224 v909), ∀ a x, ((![v909] : Fin 1 → IVec S16 32) a x).toNat < S832.size a := fun v909 k0_hw224 => k0_hw224.2
def k0_off603 (i : grid0.Coords) : Fin 3 → Nat :=
  let c32_i32_988 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_958 : BitVec 32 := 1#32
  let v875 : BitVec 32 := Scalar.addi v2 c1_i32_958
  let c0_i32_989 : BitVec 32 := 0#32
  ![32, v875.toNat, 0]
@[reducible] def k0_t68_loop : Scf.Loop 32 :=
  let c0_i32_992 : BitVec 32 := 0#32
  let c64_i32_993 : BitVec 32 := 64#32
  let v916 : BitVec 32 := Scalar.addi c0_i32_992 c64_i32_993
  let c1_i32_994 : BitVec 32 := 1#32
  ⟨c0_i32_992, v916, c1_i32_994⟩
def k0_off604 (k0_t68 : Fin k0_t68_loop.trips) (c0_i32_1172 : BitVec 32) : Fin 1 → Nat :=
  let c0_i32_992 : BitVec 32 := 0#32
  let c1_i32_994 : BitVec 32 := 1#32
  let arg22 : BitVec 32 := Scf.iv c0_i32_992 c1_i32_994 k0_t68
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off605 (k0_t68 : Fin k0_t68_loop.trips) (c0_i32_1172 : BitVec 32) : Fin 2 → Nat :=
  let c0_i32_1173 : BitVec 32 := 0#32
  let v1125 : Index := Scalar.indexCast c0_i32_1173
  let c0_i32_992 : BitVec 32 := 0#32
  let c1_i32_994 : BitVec 32 := 1#32
  let arg22 : BitVec 32 := Scf.iv c0_i32_992 c1_i32_994 k0_t68
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off606 (i : grid0.Coords) : Fin 3 → Nat :=
  let c33_i32_996 : BitVec 32 := 33#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_986 : BitVec 32 := 1#32
  let v907 : BitVec 32 := Scalar.addi v2 c1_i32_986
  let c0_i32_997 : BitVec 32 := 0#32
  ![33, v907.toNat, 0]

def k0_chk225 (v927 : IVec S16 32) : Prop :=
  (∀ a x, ((![v927] : Fin 1 → IVec S16 32) a x).toNat < S832.size a) ∧
  (∀ a x, ((![v927] : Fin 1 → IVec S16 32) a x).toNat < S832.size a)
instance k0_chk225.dec : ∀ (v927 : IVec S16 32), Decidable (k0_chk225 v927) := fun v927 => decidable_of_iff' _ (Iff.of_eq (k0_chk225.eq_1 v927))
theorem k0_idx239_inb : ∀ (v927 : IVec S16 32) (k0_hw225 : k0_chk225 v927), ∀ a x, ((![v927] : Fin 1 → IVec S16 32) a x).toNat < S832.size a := fun v927 k0_hw225 => k0_hw225.1
theorem k0_idx240_inb : ∀ (v927 : IVec S16 32) (k0_hw225 : k0_chk225 v927), ∀ a x, ((![v927] : Fin 1 → IVec S16 32) a x).toNat < S832.size a := fun v927 k0_hw225 => k0_hw225.2
def k0_off607 (i : grid0.Coords) : Fin 3 → Nat :=
  let c33_i32_1004 : BitVec 32 := 33#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_975 : BitVec 32 := 0#32
  let v893 : BitVec 32 := Scalar.addi v2 c0_i32_975
  let c0_i32_1005 : BitVec 32 := 0#32
  ![33, v893.toNat, 0]
@[reducible] def k0_t69_loop : Scf.Loop 32 :=
  let c0_i32_1008 : BitVec 32 := 0#32
  let c64_i32_1009 : BitVec 32 := 64#32
  let v934 : BitVec 32 := Scalar.addi c0_i32_1008 c64_i32_1009
  let c1_i32_1010 : BitVec 32 := 1#32
  ⟨c0_i32_1008, v934, c1_i32_1010⟩
def k0_off608 (k0_t69 : Fin k0_t69_loop.trips) (c0_i32_1172 : BitVec 32) : Fin 1 → Nat :=
  let c0_i32_1008 : BitVec 32 := 0#32
  let c1_i32_1010 : BitVec 32 := 1#32
  let arg22 : BitVec 32 := Scf.iv c0_i32_1008 c1_i32_1010 k0_t69
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off609 (k0_t69 : Fin k0_t69_loop.trips) (c0_i32_1172 : BitVec 32) : Fin 2 → Nat :=
  let c0_i32_1173 : BitVec 32 := 0#32
  let v1125 : Index := Scalar.indexCast c0_i32_1173
  let c0_i32_1008 : BitVec 32 := 0#32
  let c1_i32_1010 : BitVec 32 := 1#32
  let arg22 : BitVec 32 := Scf.iv c0_i32_1008 c1_i32_1010 k0_t69
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off610 (i : grid0.Coords) : Fin 3 → Nat :=
  let c34_i32 : BitVec 32 := 34#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1003 : BitVec 32 := 0#32
  let v925 : BitVec 32 := Scalar.addi v2 c0_i32_1003
  let c0_i32_1012 : BitVec 32 := 0#32
  ![34, v925.toNat, 0]

def k0_chk226 (v941 : IVec S16 32) : Prop :=
  (∀ a x, ((![v941] : Fin 1 → IVec S16 32) a x).toNat < S832.size a) ∧
  (∀ a x, ((![v941] : Fin 1 → IVec S16 32) a x).toNat < S832.size a)
instance k0_chk226.dec : ∀ (v941 : IVec S16 32), Decidable (k0_chk226 v941) := fun v941 => decidable_of_iff' _ (Iff.of_eq (k0_chk226.eq_1 v941))
theorem k0_idx241_inb : ∀ (v941 : IVec S16 32) (k0_hw226 : k0_chk226 v941), ∀ a x, ((![v941] : Fin 1 → IVec S16 32) a x).toNat < S832.size a := fun v941 k0_hw226 => k0_hw226.1
theorem k0_idx242_inb : ∀ (v941 : IVec S16 32) (k0_hw226 : k0_chk226 v941), ∀ a x, ((![v941] : Fin 1 → IVec S16 32) a x).toNat < S832.size a := fun v941 k0_hw226 => k0_hw226.2
def k0_off611 (i : grid0.Coords) : Fin 3 → Nat :=
  let c33_i32_1016 : BitVec 32 := 33#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_986 : BitVec 32 := 1#32
  let v907 : BitVec 32 := Scalar.addi v2 c1_i32_986
  let c0_i32_1017 : BitVec 32 := 0#32
  ![33, v907.toNat, 0]
@[reducible] def k0_t70_loop : Scf.Loop 32 :=
  let c0_i32_1020 : BitVec 32 := 0#32
  let c64_i32_1021 : BitVec 32 := 64#32
  let v948 : BitVec 32 := Scalar.addi c0_i32_1020 c64_i32_1021
  let c1_i32_1022 : BitVec 32 := 1#32
  ⟨c0_i32_1020, v948, c1_i32_1022⟩
def k0_off612 (k0_t70 : Fin k0_t70_loop.trips) (c0_i32_1172 : BitVec 32) : Fin 1 → Nat :=
  let c0_i32_1020 : BitVec 32 := 0#32
  let c1_i32_1022 : BitVec 32 := 1#32
  let arg22 : BitVec 32 := Scf.iv c0_i32_1020 c1_i32_1022 k0_t70
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off613 (k0_t70 : Fin k0_t70_loop.trips) (c0_i32_1172 : BitVec 32) : Fin 2 → Nat :=
  let c0_i32_1173 : BitVec 32 := 0#32
  let v1125 : Index := Scalar.indexCast c0_i32_1173
  let c0_i32_1020 : BitVec 32 := 0#32
  let c1_i32_1022 : BitVec 32 := 1#32
  let arg22 : BitVec 32 := Scf.iv c0_i32_1020 c1_i32_1022 k0_t70
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off614 (i : grid0.Coords) : Fin 3 → Nat :=
  let c34_i32_1024 : BitVec 32 := 34#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1014 : BitVec 32 := 1#32
  let v939 : BitVec 32 := Scalar.addi v2 c1_i32_1014
  let c0_i32_1025 : BitVec 32 := 0#32
  ![34, v939.toNat, 0]

def k0_chk227 (v959 : IVec S16 32) : Prop :=
  (∀ a x, ((![v959] : Fin 1 → IVec S16 32) a x).toNat < S832.size a) ∧
  (∀ a x, ((![v959] : Fin 1 → IVec S16 32) a x).toNat < S832.size a)
instance k0_chk227.dec : ∀ (v959 : IVec S16 32), Decidable (k0_chk227 v959) := fun v959 => decidable_of_iff' _ (Iff.of_eq (k0_chk227.eq_1 v959))
theorem k0_idx243_inb : ∀ (v959 : IVec S16 32) (k0_hw227 : k0_chk227 v959), ∀ a x, ((![v959] : Fin 1 → IVec S16 32) a x).toNat < S832.size a := fun v959 k0_hw227 => k0_hw227.1
theorem k0_idx244_inb : ∀ (v959 : IVec S16 32) (k0_hw227 : k0_chk227 v959), ∀ a x, ((![v959] : Fin 1 → IVec S16 32) a x).toNat < S832.size a := fun v959 k0_hw227 => k0_hw227.2
def k0_off615 (i : grid0.Coords) : Fin 3 → Nat :=
  let c34_i32_1032 : BitVec 32 := 34#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1003 : BitVec 32 := 0#32
  let v925 : BitVec 32 := Scalar.addi v2 c0_i32_1003
  let c0_i32_1033 : BitVec 32 := 0#32
  ![34, v925.toNat, 0]
@[reducible] def k0_t71_loop : Scf.Loop 32 :=
  let c0_i32_1036 : BitVec 32 := 0#32
  let c64_i32_1037 : BitVec 32 := 64#32
  let v966 : BitVec 32 := Scalar.addi c0_i32_1036 c64_i32_1037
  let c1_i32_1038 : BitVec 32 := 1#32
  ⟨c0_i32_1036, v966, c1_i32_1038⟩
def k0_off616 (k0_t71 : Fin k0_t71_loop.trips) (c0_i32_1172 : BitVec 32) : Fin 1 → Nat :=
  let c0_i32_1036 : BitVec 32 := 0#32
  let c1_i32_1038 : BitVec 32 := 1#32
  let arg22 : BitVec 32 := Scf.iv c0_i32_1036 c1_i32_1038 k0_t71
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off617 (k0_t71 : Fin k0_t71_loop.trips) (c0_i32_1172 : BitVec 32) : Fin 2 → Nat :=
  let c0_i32_1173 : BitVec 32 := 0#32
  let v1125 : Index := Scalar.indexCast c0_i32_1173
  let c0_i32_1036 : BitVec 32 := 0#32
  let c1_i32_1038 : BitVec 32 := 1#32
  let arg22 : BitVec 32 := Scf.iv c0_i32_1036 c1_i32_1038 k0_t71
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off618 (i : grid0.Coords) : Fin 3 → Nat :=
  let c35_i32 : BitVec 32 := 35#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1031 : BitVec 32 := 0#32
  let v957 : BitVec 32 := Scalar.addi v2 c0_i32_1031
  let c0_i32_1040 : BitVec 32 := 0#32
  ![35, v957.toNat, 0]

def k0_chk228 (v973 : IVec S16 32) : Prop :=
  (∀ a x, ((![v973] : Fin 1 → IVec S16 32) a x).toNat < S832.size a) ∧
  (∀ a x, ((![v973] : Fin 1 → IVec S16 32) a x).toNat < S832.size a)
instance k0_chk228.dec : ∀ (v973 : IVec S16 32), Decidable (k0_chk228 v973) := fun v973 => decidable_of_iff' _ (Iff.of_eq (k0_chk228.eq_1 v973))
theorem k0_idx245_inb : ∀ (v973 : IVec S16 32) (k0_hw228 : k0_chk228 v973), ∀ a x, ((![v973] : Fin 1 → IVec S16 32) a x).toNat < S832.size a := fun v973 k0_hw228 => k0_hw228.1
theorem k0_idx246_inb : ∀ (v973 : IVec S16 32) (k0_hw228 : k0_chk228 v973), ∀ a x, ((![v973] : Fin 1 → IVec S16 32) a x).toNat < S832.size a := fun v973 k0_hw228 => k0_hw228.2
def k0_off619 (i : grid0.Coords) : Fin 3 → Nat :=
  let c34_i32_1044 : BitVec 32 := 34#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1014 : BitVec 32 := 1#32
  let v939 : BitVec 32 := Scalar.addi v2 c1_i32_1014
  let c0_i32_1045 : BitVec 32 := 0#32
  ![34, v939.toNat, 0]
@[reducible] def k0_t72_loop : Scf.Loop 32 :=
  let c0_i32_1048 : BitVec 32 := 0#32
  let c64_i32_1049 : BitVec 32 := 64#32
  let v980 : BitVec 32 := Scalar.addi c0_i32_1048 c64_i32_1049
  let c1_i32_1050 : BitVec 32 := 1#32
  ⟨c0_i32_1048, v980, c1_i32_1050⟩
def k0_off620 (k0_t72 : Fin k0_t72_loop.trips) (c0_i32_1172 : BitVec 32) : Fin 1 → Nat :=
  let c0_i32_1048 : BitVec 32 := 0#32
  let c1_i32_1050 : BitVec 32 := 1#32
  let arg22 : BitVec 32 := Scf.iv c0_i32_1048 c1_i32_1050 k0_t72
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off621 (k0_t72 : Fin k0_t72_loop.trips) (c0_i32_1172 : BitVec 32) : Fin 2 → Nat :=
  let c0_i32_1173 : BitVec 32 := 0#32
  let v1125 : Index := Scalar.indexCast c0_i32_1173
  let c0_i32_1048 : BitVec 32 := 0#32
  let c1_i32_1050 : BitVec 32 := 1#32
  let arg22 : BitVec 32 := Scf.iv c0_i32_1048 c1_i32_1050 k0_t72
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off622 (i : grid0.Coords) : Fin 3 → Nat :=
  let c35_i32_1052 : BitVec 32 := 35#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1042 : BitVec 32 := 1#32
  let v971 : BitVec 32 := Scalar.addi v2 c1_i32_1042
  let c0_i32_1053 : BitVec 32 := 0#32
  ![35, v971.toNat, 0]

def k0_chk229 (v991 : IVec S16 32) : Prop :=
  (∀ a x, ((![v991] : Fin 1 → IVec S16 32) a x).toNat < S832.size a) ∧
  (∀ a x, ((![v991] : Fin 1 → IVec S16 32) a x).toNat < S832.size a)
instance k0_chk229.dec : ∀ (v991 : IVec S16 32), Decidable (k0_chk229 v991) := fun v991 => decidable_of_iff' _ (Iff.of_eq (k0_chk229.eq_1 v991))
theorem k0_idx247_inb : ∀ (v991 : IVec S16 32) (k0_hw229 : k0_chk229 v991), ∀ a x, ((![v991] : Fin 1 → IVec S16 32) a x).toNat < S832.size a := fun v991 k0_hw229 => k0_hw229.1
theorem k0_idx248_inb : ∀ (v991 : IVec S16 32) (k0_hw229 : k0_chk229 v991), ∀ a x, ((![v991] : Fin 1 → IVec S16 32) a x).toNat < S832.size a := fun v991 k0_hw229 => k0_hw229.2
def k0_off623 (i : grid0.Coords) : Fin 3 → Nat :=
  let c35_i32_1060 : BitVec 32 := 35#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1031 : BitVec 32 := 0#32
  let v957 : BitVec 32 := Scalar.addi v2 c0_i32_1031
  let c0_i32_1061 : BitVec 32 := 0#32
  ![35, v957.toNat, 0]
@[reducible] def k0_t73_loop : Scf.Loop 32 :=
  let c0_i32_1064 : BitVec 32 := 0#32
  let c64_i32_1065 : BitVec 32 := 64#32
  let v998 : BitVec 32 := Scalar.addi c0_i32_1064 c64_i32_1065
  let c1_i32_1066 : BitVec 32 := 1#32
  ⟨c0_i32_1064, v998, c1_i32_1066⟩
def k0_off624 (k0_t73 : Fin k0_t73_loop.trips) (c0_i32_1172 : BitVec 32) : Fin 1 → Nat :=
  let c0_i32_1064 : BitVec 32 := 0#32
  let c1_i32_1066 : BitVec 32 := 1#32
  let arg22 : BitVec 32 := Scf.iv c0_i32_1064 c1_i32_1066 k0_t73
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off625 (k0_t73 : Fin k0_t73_loop.trips) (c0_i32_1172 : BitVec 32) : Fin 2 → Nat :=
  let c0_i32_1173 : BitVec 32 := 0#32
  let v1125 : Index := Scalar.indexCast c0_i32_1173
  let c0_i32_1064 : BitVec 32 := 0#32
  let c1_i32_1066 : BitVec 32 := 1#32
  let arg22 : BitVec 32 := Scf.iv c0_i32_1064 c1_i32_1066 k0_t73
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off626 (i : grid0.Coords) : Fin 3 → Nat :=
  let c36_i32 : BitVec 32 := 36#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1059 : BitVec 32 := 0#32
  let v989 : BitVec 32 := Scalar.addi v2 c0_i32_1059
  let c0_i32_1068 : BitVec 32 := 0#32
  ![36, v989.toNat, 0]

def k0_chk230 (v1005 : IVec S16 32) : Prop :=
  (∀ a x, ((![v1005] : Fin 1 → IVec S16 32) a x).toNat < S832.size a) ∧
  (∀ a x, ((![v1005] : Fin 1 → IVec S16 32) a x).toNat < S832.size a)
instance k0_chk230.dec : ∀ (v1005 : IVec S16 32), Decidable (k0_chk230 v1005) := fun v1005 => decidable_of_iff' _ (Iff.of_eq (k0_chk230.eq_1 v1005))
theorem k0_idx249_inb : ∀ (v1005 : IVec S16 32) (k0_hw230 : k0_chk230 v1005), ∀ a x, ((![v1005] : Fin 1 → IVec S16 32) a x).toNat < S832.size a := fun v1005 k0_hw230 => k0_hw230.1
theorem k0_idx250_inb : ∀ (v1005 : IVec S16 32) (k0_hw230 : k0_chk230 v1005), ∀ a x, ((![v1005] : Fin 1 → IVec S16 32) a x).toNat < S832.size a := fun v1005 k0_hw230 => k0_hw230.2
def k0_off627 (i : grid0.Coords) : Fin 3 → Nat :=
  let c35_i32_1072 : BitVec 32 := 35#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1042 : BitVec 32 := 1#32
  let v971 : BitVec 32 := Scalar.addi v2 c1_i32_1042
  let c0_i32_1073 : BitVec 32 := 0#32
  ![35, v971.toNat, 0]
@[reducible] def k0_t74_loop : Scf.Loop 32 :=
  let c0_i32_1076 : BitVec 32 := 0#32
  let c64_i32_1077 : BitVec 32 := 64#32
  let v1012 : BitVec 32 := Scalar.addi c0_i32_1076 c64_i32_1077
  let c1_i32_1078 : BitVec 32 := 1#32
  ⟨c0_i32_1076, v1012, c1_i32_1078⟩
def k0_off628 (k0_t74 : Fin k0_t74_loop.trips) (c0_i32_1172 : BitVec 32) : Fin 1 → Nat :=
  let c0_i32_1076 : BitVec 32 := 0#32
  let c1_i32_1078 : BitVec 32 := 1#32
  let arg22 : BitVec 32 := Scf.iv c0_i32_1076 c1_i32_1078 k0_t74
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off629 (k0_t74 : Fin k0_t74_loop.trips) (c0_i32_1172 : BitVec 32) : Fin 2 → Nat :=
  let c0_i32_1173 : BitVec 32 := 0#32
  let v1125 : Index := Scalar.indexCast c0_i32_1173
  let c0_i32_1076 : BitVec 32 := 0#32
  let c1_i32_1078 : BitVec 32 := 1#32
  let arg22 : BitVec 32 := Scf.iv c0_i32_1076 c1_i32_1078 k0_t74
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off630 (i : grid0.Coords) : Fin 3 → Nat :=
  let c36_i32_1080 : BitVec 32 := 36#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1070 : BitVec 32 := 1#32
  let v1003 : BitVec 32 := Scalar.addi v2 c1_i32_1070
  let c0_i32_1081 : BitVec 32 := 0#32
  ![36, v1003.toNat, 0]

def k0_chk231 (v1023 : IVec S16 32) : Prop :=
  (∀ a x, ((![v1023] : Fin 1 → IVec S16 32) a x).toNat < S832.size a) ∧
  (∀ a x, ((![v1023] : Fin 1 → IVec S16 32) a x).toNat < S832.size a)
instance k0_chk231.dec : ∀ (v1023 : IVec S16 32), Decidable (k0_chk231 v1023) := fun v1023 => decidable_of_iff' _ (Iff.of_eq (k0_chk231.eq_1 v1023))
theorem k0_idx251_inb : ∀ (v1023 : IVec S16 32) (k0_hw231 : k0_chk231 v1023), ∀ a x, ((![v1023] : Fin 1 → IVec S16 32) a x).toNat < S832.size a := fun v1023 k0_hw231 => k0_hw231.1
theorem k0_idx252_inb : ∀ (v1023 : IVec S16 32) (k0_hw231 : k0_chk231 v1023), ∀ a x, ((![v1023] : Fin 1 → IVec S16 32) a x).toNat < S832.size a := fun v1023 k0_hw231 => k0_hw231.2
def k0_off631 (i : grid0.Coords) : Fin 3 → Nat :=
  let c36_i32_1088 : BitVec 32 := 36#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1059 : BitVec 32 := 0#32
  let v989 : BitVec 32 := Scalar.addi v2 c0_i32_1059
  let c0_i32_1089 : BitVec 32 := 0#32
  ![36, v989.toNat, 0]
@[reducible] def k0_t75_loop : Scf.Loop 32 :=
  let c0_i32_1092 : BitVec 32 := 0#32
  let c64_i32_1093 : BitVec 32 := 64#32
  let v1030 : BitVec 32 := Scalar.addi c0_i32_1092 c64_i32_1093
  let c1_i32_1094 : BitVec 32 := 1#32
  ⟨c0_i32_1092, v1030, c1_i32_1094⟩
def k0_off632 (k0_t75 : Fin k0_t75_loop.trips) (c0_i32_1172 : BitVec 32) : Fin 1 → Nat :=
  let c0_i32_1092 : BitVec 32 := 0#32
  let c1_i32_1094 : BitVec 32 := 1#32
  let arg22 : BitVec 32 := Scf.iv c0_i32_1092 c1_i32_1094 k0_t75
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off633 (k0_t75 : Fin k0_t75_loop.trips) (c0_i32_1172 : BitVec 32) : Fin 2 → Nat :=
  let c0_i32_1173 : BitVec 32 := 0#32
  let v1125 : Index := Scalar.indexCast c0_i32_1173
  let c0_i32_1092 : BitVec 32 := 0#32
  let c1_i32_1094 : BitVec 32 := 1#32
  let arg22 : BitVec 32 := Scf.iv c0_i32_1092 c1_i32_1094 k0_t75
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off634 (i : grid0.Coords) : Fin 3 → Nat :=
  let c37_i32 : BitVec 32 := 37#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1087 : BitVec 32 := 0#32
  let v1021 : BitVec 32 := Scalar.addi v2 c0_i32_1087
  let c0_i32_1096 : BitVec 32 := 0#32
  ![37, v1021.toNat, 0]

def k0_chk232 (v1037 : IVec S16 32) : Prop :=
  (∀ a x, ((![v1037] : Fin 1 → IVec S16 32) a x).toNat < S832.size a) ∧
  (∀ a x, ((![v1037] : Fin 1 → IVec S16 32) a x).toNat < S832.size a)
instance k0_chk232.dec : ∀ (v1037 : IVec S16 32), Decidable (k0_chk232 v1037) := fun v1037 => decidable_of_iff' _ (Iff.of_eq (k0_chk232.eq_1 v1037))
theorem k0_idx253_inb : ∀ (v1037 : IVec S16 32) (k0_hw232 : k0_chk232 v1037), ∀ a x, ((![v1037] : Fin 1 → IVec S16 32) a x).toNat < S832.size a := fun v1037 k0_hw232 => k0_hw232.1
theorem k0_idx254_inb : ∀ (v1037 : IVec S16 32) (k0_hw232 : k0_chk232 v1037), ∀ a x, ((![v1037] : Fin 1 → IVec S16 32) a x).toNat < S832.size a := fun v1037 k0_hw232 => k0_hw232.2
def k0_off635 (i : grid0.Coords) : Fin 3 → Nat :=
  let c36_i32_1100 : BitVec 32 := 36#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1070 : BitVec 32 := 1#32
  let v1003 : BitVec 32 := Scalar.addi v2 c1_i32_1070
  let c0_i32_1101 : BitVec 32 := 0#32
  ![36, v1003.toNat, 0]
@[reducible] def k0_t76_loop : Scf.Loop 32 :=
  let c0_i32_1104 : BitVec 32 := 0#32
  let c64_i32_1105 : BitVec 32 := 64#32
  let v1044 : BitVec 32 := Scalar.addi c0_i32_1104 c64_i32_1105
  let c1_i32_1106 : BitVec 32 := 1#32
  ⟨c0_i32_1104, v1044, c1_i32_1106⟩
def k0_off636 (k0_t76 : Fin k0_t76_loop.trips) (c0_i32_1172 : BitVec 32) : Fin 1 → Nat :=
  let c0_i32_1104 : BitVec 32 := 0#32
  let c1_i32_1106 : BitVec 32 := 1#32
  let arg22 : BitVec 32 := Scf.iv c0_i32_1104 c1_i32_1106 k0_t76
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off637 (k0_t76 : Fin k0_t76_loop.trips) (c0_i32_1172 : BitVec 32) : Fin 2 → Nat :=
  let c0_i32_1173 : BitVec 32 := 0#32
  let v1125 : Index := Scalar.indexCast c0_i32_1173
  let c0_i32_1104 : BitVec 32 := 0#32
  let c1_i32_1106 : BitVec 32 := 1#32
  let arg22 : BitVec 32 := Scf.iv c0_i32_1104 c1_i32_1106 k0_t76
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off638 (i : grid0.Coords) : Fin 3 → Nat :=
  let c37_i32_1108 : BitVec 32 := 37#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1098 : BitVec 32 := 1#32
  let v1035 : BitVec 32 := Scalar.addi v2 c1_i32_1098
  let c0_i32_1109 : BitVec 32 := 0#32
  ![37, v1035.toNat, 0]

def k0_chk233 (v1055 : IVec S16 32) : Prop :=
  (∀ a x, ((![v1055] : Fin 1 → IVec S16 32) a x).toNat < S832.size a) ∧
  (∀ a x, ((![v1055] : Fin 1 → IVec S16 32) a x).toNat < S832.size a)
instance k0_chk233.dec : ∀ (v1055 : IVec S16 32), Decidable (k0_chk233 v1055) := fun v1055 => decidable_of_iff' _ (Iff.of_eq (k0_chk233.eq_1 v1055))
theorem k0_idx255_inb : ∀ (v1055 : IVec S16 32) (k0_hw233 : k0_chk233 v1055), ∀ a x, ((![v1055] : Fin 1 → IVec S16 32) a x).toNat < S832.size a := fun v1055 k0_hw233 => k0_hw233.1
theorem k0_idx256_inb : ∀ (v1055 : IVec S16 32) (k0_hw233 : k0_chk233 v1055), ∀ a x, ((![v1055] : Fin 1 → IVec S16 32) a x).toNat < S832.size a := fun v1055 k0_hw233 => k0_hw233.2
def k0_off639 (i : grid0.Coords) : Fin 3 → Nat :=
  let c37_i32_1116 : BitVec 32 := 37#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1087 : BitVec 32 := 0#32
  let v1021 : BitVec 32 := Scalar.addi v2 c0_i32_1087
  let c0_i32_1117 : BitVec 32 := 0#32
  ![37, v1021.toNat, 0]
@[reducible] def k0_t77_loop : Scf.Loop 32 :=
  let c0_i32_1120 : BitVec 32 := 0#32
  let c64_i32_1121 : BitVec 32 := 64#32
  let v1062 : BitVec 32 := Scalar.addi c0_i32_1120 c64_i32_1121
  let c1_i32_1122 : BitVec 32 := 1#32
  ⟨c0_i32_1120, v1062, c1_i32_1122⟩
def k0_off640 (k0_t77 : Fin k0_t77_loop.trips) (c0_i32_1172 : BitVec 32) : Fin 1 → Nat :=
  let c0_i32_1120 : BitVec 32 := 0#32
  let c1_i32_1122 : BitVec 32 := 1#32
  let arg22 : BitVec 32 := Scf.iv c0_i32_1120 c1_i32_1122 k0_t77
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off641 (k0_t77 : Fin k0_t77_loop.trips) (c0_i32_1172 : BitVec 32) : Fin 2 → Nat :=
  let c0_i32_1173 : BitVec 32 := 0#32
  let v1125 : Index := Scalar.indexCast c0_i32_1173
  let c0_i32_1120 : BitVec 32 := 0#32
  let c1_i32_1122 : BitVec 32 := 1#32
  let arg22 : BitVec 32 := Scf.iv c0_i32_1120 c1_i32_1122 k0_t77
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off642 (i : grid0.Coords) : Fin 3 → Nat :=
  let c38_i32 : BitVec 32 := 38#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1115 : BitVec 32 := 0#32
  let v1053 : BitVec 32 := Scalar.addi v2 c0_i32_1115
  let c0_i32_1124 : BitVec 32 := 0#32
  ![38, v1053.toNat, 0]

def k0_chk234 (v1069 : IVec S16 32) : Prop :=
  (∀ a x, ((![v1069] : Fin 1 → IVec S16 32) a x).toNat < S832.size a) ∧
  (∀ a x, ((![v1069] : Fin 1 → IVec S16 32) a x).toNat < S832.size a)
instance k0_chk234.dec : ∀ (v1069 : IVec S16 32), Decidable (k0_chk234 v1069) := fun v1069 => decidable_of_iff' _ (Iff.of_eq (k0_chk234.eq_1 v1069))
theorem k0_idx257_inb : ∀ (v1069 : IVec S16 32) (k0_hw234 : k0_chk234 v1069), ∀ a x, ((![v1069] : Fin 1 → IVec S16 32) a x).toNat < S832.size a := fun v1069 k0_hw234 => k0_hw234.1
theorem k0_idx258_inb : ∀ (v1069 : IVec S16 32) (k0_hw234 : k0_chk234 v1069), ∀ a x, ((![v1069] : Fin 1 → IVec S16 32) a x).toNat < S832.size a := fun v1069 k0_hw234 => k0_hw234.2
def k0_off643 (i : grid0.Coords) : Fin 3 → Nat :=
  let c37_i32_1128 : BitVec 32 := 37#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1098 : BitVec 32 := 1#32
  let v1035 : BitVec 32 := Scalar.addi v2 c1_i32_1098
  let c0_i32_1129 : BitVec 32 := 0#32
  ![37, v1035.toNat, 0]
@[reducible] def k0_t78_loop : Scf.Loop 32 :=
  let c0_i32_1132 : BitVec 32 := 0#32
  let c64_i32_1133 : BitVec 32 := 64#32
  let v1076 : BitVec 32 := Scalar.addi c0_i32_1132 c64_i32_1133
  let c1_i32_1134 : BitVec 32 := 1#32
  ⟨c0_i32_1132, v1076, c1_i32_1134⟩
def k0_off644 (k0_t78 : Fin k0_t78_loop.trips) (c0_i32_1172 : BitVec 32) : Fin 1 → Nat :=
  let c0_i32_1132 : BitVec 32 := 0#32
  let c1_i32_1134 : BitVec 32 := 1#32
  let arg22 : BitVec 32 := Scf.iv c0_i32_1132 c1_i32_1134 k0_t78
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off645 (k0_t78 : Fin k0_t78_loop.trips) (c0_i32_1172 : BitVec 32) : Fin 2 → Nat :=
  let c0_i32_1173 : BitVec 32 := 0#32
  let v1125 : Index := Scalar.indexCast c0_i32_1173
  let c0_i32_1132 : BitVec 32 := 0#32
  let c1_i32_1134 : BitVec 32 := 1#32
  let arg22 : BitVec 32 := Scf.iv c0_i32_1132 c1_i32_1134 k0_t78
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off646 (i : grid0.Coords) : Fin 3 → Nat :=
  let c38_i32_1136 : BitVec 32 := 38#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1126 : BitVec 32 := 1#32
  let v1067 : BitVec 32 := Scalar.addi v2 c1_i32_1126
  let c0_i32_1137 : BitVec 32 := 0#32
  ![38, v1067.toNat, 0]

def k0_chk235 (v1085 : IVec S16 32) : Prop :=
  (∀ a x, ((![v1085] : Fin 1 → IVec S16 32) a x).toNat < S832.size a) ∧
  (∀ a x, ((![v1085] : Fin 1 → IVec S16 32) a x).toNat < S832.size a)
instance k0_chk235.dec : ∀ (v1085 : IVec S16 32), Decidable (k0_chk235 v1085) := fun v1085 => decidable_of_iff' _ (Iff.of_eq (k0_chk235.eq_1 v1085))
theorem k0_idx259_inb : ∀ (v1085 : IVec S16 32) (k0_hw235 : k0_chk235 v1085), ∀ a x, ((![v1085] : Fin 1 → IVec S16 32) a x).toNat < S832.size a := fun v1085 k0_hw235 => k0_hw235.1
theorem k0_idx260_inb : ∀ (v1085 : IVec S16 32) (k0_hw235 : k0_chk235 v1085), ∀ a x, ((![v1085] : Fin 1 → IVec S16 32) a x).toNat < S832.size a := fun v1085 k0_hw235 => k0_hw235.2
def k0_off647 (i : grid0.Coords) : Fin 3 → Nat :=
  let c38_i32_1142 : BitVec 32 := 38#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1115 : BitVec 32 := 0#32
  let v1053 : BitVec 32 := Scalar.addi v2 c0_i32_1115
  let c0_i32_1143 : BitVec 32 := 0#32
  ![38, v1053.toNat, 0]
@[reducible] def k0_t79_loop : Scf.Loop 32 :=
  let c0_i32_1146 : BitVec 32 := 0#32
  let c64_i32_1147 : BitVec 32 := 64#32
  let v1092 : BitVec 32 := Scalar.addi c0_i32_1146 c64_i32_1147
  let c1_i32_1148 : BitVec 32 := 1#32
  ⟨c0_i32_1146, v1092, c1_i32_1148⟩
def k0_off648 (k0_t79 : Fin k0_t79_loop.trips) (c0_i32_1172 : BitVec 32) : Fin 1 → Nat :=
  let c0_i32_1146 : BitVec 32 := 0#32
  let c1_i32_1148 : BitVec 32 := 1#32
  let arg22 : BitVec 32 := Scf.iv c0_i32_1146 c1_i32_1148 k0_t79
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off649 (k0_t79 : Fin k0_t79_loop.trips) (c0_i32_1172 : BitVec 32) : Fin 2 → Nat :=
  let c0_i32_1173 : BitVec 32 := 0#32
  let v1125 : Index := Scalar.indexCast c0_i32_1173
  let c0_i32_1146 : BitVec 32 := 0#32
  let c1_i32_1148 : BitVec 32 := 1#32
  let arg22 : BitVec 32 := Scf.iv c0_i32_1146 c1_i32_1148 k0_t79
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off650 (i : grid0.Coords) : Fin 3 → Nat :=
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_1141 : BitVec 32 := 0#32
  let v1083 : BitVec 32 := Scalar.addi v2 c0_i32_1141
  let c0_i32_1150 : BitVec 32 := 0#32
  ![39, v1083.toNat, 0]

def k0_chk236 (v1099 : IVec S16 32) : Prop :=
  (∀ a x, ((![v1099] : Fin 1 → IVec S16 32) a x).toNat < S832.size a) ∧
  (∀ a x, ((![v1099] : Fin 1 → IVec S16 32) a x).toNat < S832.size a)
instance k0_chk236.dec : ∀ (v1099 : IVec S16 32), Decidable (k0_chk236 v1099) := fun v1099 => decidable_of_iff' _ (Iff.of_eq (k0_chk236.eq_1 v1099))
theorem k0_idx261_inb : ∀ (v1099 : IVec S16 32) (k0_hw236 : k0_chk236 v1099), ∀ a x, ((![v1099] : Fin 1 → IVec S16 32) a x).toNat < S832.size a := fun v1099 k0_hw236 => k0_hw236.1
theorem k0_idx262_inb : ∀ (v1099 : IVec S16 32) (k0_hw236 : k0_chk236 v1099), ∀ a x, ((![v1099] : Fin 1 → IVec S16 32) a x).toNat < S832.size a := fun v1099 k0_hw236 => k0_hw236.2
def k0_off651 (i : grid0.Coords) : Fin 3 → Nat :=
  let c38_i32_1154 : BitVec 32 := 38#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_1126 : BitVec 32 := 1#32
  let v1067 : BitVec 32 := Scalar.addi v2 c1_i32_1126
  let c0_i32_1155 : BitVec 32 := 0#32
  ![38, v1067.toNat, 0]
@[reducible] def k0_t80_loop : Scf.Loop 32 :=
  let c0_i32_1158 : BitVec 32 := 0#32
  let c64_i32_1159 : BitVec 32 := 64#32
  let v1106 : BitVec 32 := Scalar.addi c0_i32_1158 c64_i32_1159
  let c1_i32_1160 : BitVec 32 := 1#32
  ⟨c0_i32_1158, v1106, c1_i32_1160⟩
def k0_off652 (k0_t80 : Fin k0_t80_loop.trips) (c0_i32_1172 : BitVec 32) : Fin 1 → Nat :=
  let c0_i32_1158 : BitVec 32 := 0#32
  let c1_i32_1160 : BitVec 32 := 1#32
  let arg22 : BitVec 32 := Scf.iv c0_i32_1158 c1_i32_1160 k0_t80
  let c64_i32_1171 : BitVec 32 := 64#32
  let v1119 : BitVec 32 := Scalar.muli arg22 c64_i32_1171
  let v1120 : BitVec 32 := Scalar.addi v1119 c0_i32_1172
  let v1121 : Index := Scalar.indexCast v1120
  ![v1121.toNat]
def k0_off653 (k0_t80 : Fin k0_t80_loop.trips) (c0_i32_1172 : BitVec 32) : Fin 2 → Nat :=
  let c0_i32_1173 : BitVec 32 := 0#32
  let v1125 : Index := Scalar.indexCast c0_i32_1173
  let c0_i32_1158 : BitVec 32 := 0#32
  let c1_i32_1160 : BitVec 32 := 1#32
  let arg22 : BitVec 32 := Scf.iv c0_i32_1158 c1_i32_1160 k0_t80
  let c64_i32_1171 : BitVec 32 := 64#32
  let v1119 : BitVec 32 := Scalar.muli arg22 c64_i32_1171
  let v1120 : BitVec 32 := Scalar.addi v1119 c0_i32_1172
  let v1126 : Index := Scalar.indexCast v1120
  ![0, v1126.toNat]
def k0_off654 (i : grid0.Coords) (c1_i32_1152 : BitVec 32) : Fin 3 → Nat :=
  let c39_i32_1162 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v1097 : BitVec 32 := Scalar.addi v2 c1_i32_1152
  let c0_i32_1163 : BitVec 32 := 0#32
  ![39, v1097.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x26_S26x4096_1_0 : S4096x26.Transposes [1, 0] S26x4096
  shapeCasts_S26x4096_S106496 : S26x4096.ShapeCasts S106496
  transposes_S4096x13_S13x4096_1_0 : S4096x13.Transposes [1, 0] S13x4096
  shapeCasts_S13x4096_S53248 : S13x4096.ShapeCasts S53248
  transposes_S26x100000x64_S26x64x100000_0_2_1 : S26x100000x64.Transposes [0, 2, 1] S26x64x100000
  shapeCasts_S13x64_S832 : S13x64.ShapeCasts S832
  shapeCasts_S1x1x64_S64 : S1x1x64.ShapeCasts S64
  h_S64 : 0 < S64.numel
  h_S1x16 : 0 < S1x16.numel
  shapeCasts_S1x16_S16 : S1x16.ShapeCasts S16
  shapeCasts_S16_S1x16 : S16.ShapeCasts S1x16
  squeezes_S1x1x4096_S1x4096 : S1x1x4096.Squeezes S1x4096
  inb_S106496_S4096_0 : ∀ a, (![0] : Fin 1 → Nat) a + S4096.size a ≤ S106496.size a
  inb_S106496_S4096_4096 : ∀ a, (![4096] : Fin 1 → Nat) a + S4096.size a ≤ S106496.size a
  squeezes_S1x1x100000_S1x100000 : S1x1x100000.Squeezes S1x100000
  h_S16 : 0 < S16.numel
  h_S1x100000 : 0 < S1x100000.numel
  inb_S106496_S4096_8192 : ∀ a, (![8192] : Fin 1 → Nat) a + S4096.size a ≤ S106496.size a
  inb_S106496_S4096_12288 : ∀ a, (![12288] : Fin 1 → Nat) a + S4096.size a ≤ S106496.size a
  inb_S106496_S4096_16384 : ∀ a, (![16384] : Fin 1 → Nat) a + S4096.size a ≤ S106496.size a
  inb_S106496_S4096_20480 : ∀ a, (![20480] : Fin 1 → Nat) a + S4096.size a ≤ S106496.size a
  inb_S106496_S4096_24576 : ∀ a, (![24576] : Fin 1 → Nat) a + S4096.size a ≤ S106496.size a
  inb_S106496_S4096_28672 : ∀ a, (![28672] : Fin 1 → Nat) a + S4096.size a ≤ S106496.size a
  inb_S106496_S4096_32768 : ∀ a, (![32768] : Fin 1 → Nat) a + S4096.size a ≤ S106496.size a
  inb_S106496_S4096_36864 : ∀ a, (![36864] : Fin 1 → Nat) a + S4096.size a ≤ S106496.size a
  inb_S106496_S4096_40960 : ∀ a, (![40960] : Fin 1 → Nat) a + S4096.size a ≤ S106496.size a
  inb_S106496_S4096_45056 : ∀ a, (![45056] : Fin 1 → Nat) a + S4096.size a ≤ S106496.size a
  inb_S106496_S4096_49152 : ∀ a, (![49152] : Fin 1 → Nat) a + S4096.size a ≤ S106496.size a
  inb_S106496_S4096_53248 : ∀ a, (![53248] : Fin 1 → Nat) a + S4096.size a ≤ S106496.size a
  inb_S106496_S4096_57344 : ∀ a, (![57344] : Fin 1 → Nat) a + S4096.size a ≤ S106496.size a
  inb_S106496_S4096_61440 : ∀ a, (![61440] : Fin 1 → Nat) a + S4096.size a ≤ S106496.size a
  inb_S106496_S4096_65536 : ∀ a, (![65536] : Fin 1 → Nat) a + S4096.size a ≤ S106496.size a
  inb_S106496_S4096_69632 : ∀ a, (![69632] : Fin 1 → Nat) a + S4096.size a ≤ S106496.size a
  inb_S106496_S4096_73728 : ∀ a, (![73728] : Fin 1 → Nat) a + S4096.size a ≤ S106496.size a
  inb_S106496_S4096_77824 : ∀ a, (![77824] : Fin 1 → Nat) a + S4096.size a ≤ S106496.size a
  inb_S106496_S4096_81920 : ∀ a, (![81920] : Fin 1 → Nat) a + S4096.size a ≤ S106496.size a
  inb_S106496_S4096_86016 : ∀ a, (![86016] : Fin 1 → Nat) a + S4096.size a ≤ S106496.size a
  inb_S106496_S4096_90112 : ∀ a, (![90112] : Fin 1 → Nat) a + S4096.size a ≤ S106496.size a
  inb_S106496_S4096_94208 : ∀ a, (![94208] : Fin 1 → Nat) a + S4096.size a ≤ S106496.size a
  inb_S106496_S4096_98304 : ∀ a, (![98304] : Fin 1 → Nat) a + S4096.size a ≤ S106496.size a
  inb_S106496_S4096_102400 : ∀ a, (![102400] : Fin 1 → Nat) a + S4096.size a ≤ S106496.size a
  inb_S53248_S4096_0 : ∀ a, (![0] : Fin 1 → Nat) a + S4096.size a ≤ S53248.size a
  inb_S53248_S4096_4096 : ∀ a, (![4096] : Fin 1 → Nat) a + S4096.size a ≤ S53248.size a
  h_S832 : 0 < S832.numel
  inb_S53248_S4096_8192 : ∀ a, (![8192] : Fin 1 → Nat) a + S4096.size a ≤ S53248.size a
  inb_S53248_S4096_12288 : ∀ a, (![12288] : Fin 1 → Nat) a + S4096.size a ≤ S53248.size a
  inb_S53248_S4096_16384 : ∀ a, (![16384] : Fin 1 → Nat) a + S4096.size a ≤ S53248.size a
  inb_S53248_S4096_20480 : ∀ a, (![20480] : Fin 1 → Nat) a + S4096.size a ≤ S53248.size a
  inb_S53248_S4096_24576 : ∀ a, (![24576] : Fin 1 → Nat) a + S4096.size a ≤ S53248.size a
  inb_S53248_S4096_28672 : ∀ a, (![28672] : Fin 1 → Nat) a + S4096.size a ≤ S53248.size a
  inb_S53248_S4096_32768 : ∀ a, (![32768] : Fin 1 → Nat) a + S4096.size a ≤ S53248.size a
  inb_S53248_S4096_36864 : ∀ a, (![36864] : Fin 1 → Nat) a + S4096.size a ≤ S53248.size a
  inb_S53248_S4096_40960 : ∀ a, (![40960] : Fin 1 → Nat) a + S4096.size a ≤ S53248.size a
  inb_S53248_S4096_45056 : ∀ a, (![45056] : Fin 1 → Nat) a + S4096.size a ≤ S53248.size a
  inb_S53248_S4096_49152 : ∀ a, (![49152] : Fin 1 → Nat) a + S4096.size a ≤ S53248.size a
  transposes_S40x64x4096_S4096x40x64_2_0_1 : S40x64x4096.Transposes [2, 0, 1] S4096x40x64
  hcc0_scratch10 : 0 + S_.numel ≤ 58
  hcc0_scratch11 : 1 + S_.numel ≤ 58
  hcc0_scratch12 : 2 + S_.numel ≤ 58
  hcc0_scoped0 : 3 + S_.numel ≤ 58
  hcc0_scoped1 : 4 + S_.numel ≤ 58
  hcc0_scoped2 : 5 + S_.numel ≤ 58
  hcc0_scoped3 : 6 + S_.numel ≤ 58
  hcc0_scoped4 : 7 + S_.numel ≤ 58
  hcc0_scoped5 : 8 + S_.numel ≤ 58
  hcc0_scoped6 : 9 + S_.numel ≤ 58
  hcc0_scoped7 : 10 + S_.numel ≤ 58
  hcc0_scoped8 : 11 + S_.numel ≤ 58
  hcc0_scoped9 : 12 + S_.numel ≤ 58
  hcc0_scoped10 : 13 + S_.numel ≤ 58
  hcc0_scoped11 : 14 + S_.numel ≤ 58
  hcc0_scoped12 : 15 + S_.numel ≤ 58
  hcc0_scoped13 : 16 + S_.numel ≤ 58
  hcc0_scoped14 : 17 + S_.numel ≤ 58
  hcc0_scoped15 : 18 + S_.numel ≤ 58
  hcc0_scoped16 : 19 + S_.numel ≤ 58
  hcc0_scoped17 : 20 + S_.numel ≤ 58
  hcc0_scoped18 : 21 + S_.numel ≤ 58
  hcc0_scoped19 : 22 + S_.numel ≤ 58
  hcc0_scoped20 : 23 + S_.numel ≤ 58
  hcc0_scoped21 : 24 + S_.numel ≤ 58
  hcc0_scoped22 : 25 + S_.numel ≤ 58
  hcc0_scoped23 : 26 + S_.numel ≤ 58
  hcc0_scoped24 : 27 + S_.numel ≤ 58
  hcc0_scoped25 : 28 + S_.numel ≤ 58
  hcc0_scoped26 : 29 + S_.numel ≤ 58
  hcc0_scoped27 : 30 + S_.numel ≤ 58
  hcc0_scoped28 : 31 + S_.numel ≤ 58
  hcc0_scoped29 : 32 + S_.numel ≤ 58
  hcc0_scoped30 : 33 + S_.numel ≤ 58
  hcc0_scoped31 : 34 + S_.numel ≤ 58
  hcc0_scoped32 : 35 + S_.numel ≤ 58
  hcc0_scoped33 : 36 + S_.numel ≤ 58
  hcc0_scoped34 : 37 + S_.numel ≤ 58
  hcc0_scoped35 : 38 + S_.numel ≤ 58
  hcc0_scoped36 : 39 + S_.numel ≤ 58
  hcc0_scoped37 : 40 + S_.numel ≤ 58
  hcc0_scoped38 : 41 + S_.numel ≤ 58
  hcc0_scoped39 : 42 + S_.numel ≤ 58
  hcc0_scoped40 : 43 + S_.numel ≤ 58
  hcc0_scoped41 : 44 + S_.numel ≤ 58
  hcc0_scoped42 : 45 + S_.numel ≤ 58
  hcc0_scoped43 : 46 + S_.numel ≤ 58
  hcc0_scoped44 : 47 + S_.numel ≤ 58
  hcc0_scoped45 : 48 + S_.numel ≤ 58
  hcc0_scoped46 : 49 + S_.numel ≤ 58
  hcc0_scoped47 : 50 + S_.numel ≤ 58
  hcc0_scoped48 : 51 + S_.numel ≤ 58
  hcc0_scoped49 : 52 + S_.numel ≤ 58
  hcc0_scoped50 : 53 + S_.numel ≤ 58
  hcc0_scoped51 : 54 + S_.numel ≤ 58
  hcc0_scoped52 : 55 + S_.numel ≤ 58
  hcc0_scoped53 : 56 + S_.numel ≤ 58
  hcc0_scoped54 : 57 + S_.numel ≤ 58
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ (r : Fin 4), ∀ a, (k0_off1 k0_t1 (BitVec.ofNat 32 (16 * r.val))) a + S1x16.size a ≤ S1x4096.size a
  k0_off2_inb : ∀ i : grid0.Coords, ∀ a, (k0_off2 i) a + S1x1x4096.size a ≤ S40x64x4096.size a
  k0_t2_ok : k0_t2_loop.OK
  k0_off3_inb : ∀ k0_t2 : Fin k0_t2_loop.trips, ∀ (r : Fin 4), ∀ a, (k0_off3 k0_t2 (BitVec.ofNat 32 (16 * r.val))) a + S1x16.size a ≤ S1x4096.size a
  k0_off4_inb : ∀ i : grid0.Coords, ∀ (r : Fin 2), ∀ a, (k0_off4 i (BitVec.ofNat 32 r.val)) a + S1x1x4096.size a ≤ S40x64x4096.size a
  k0_off5_inb : ∀ i : grid0.Coords, ∀ a, (k0_off5 i) a + S1x1x100000.size a ≤ S26x64x100000.size a
  k0_t3_ok : k0_t3_loop.OK
  k0_off6_inb : ∀ k0_t3 : Fin k0_t3_loop.trips, ∀ a, (k0_off6 k0_t3) a + S16.size a ≤ S4096.size a
  k0_off7_inb : ∀ k0_t3 : Fin k0_t3_loop.trips, ∀ a, (k0_off7 k0_t3) a + S1x16.size a ≤ S1x4096.size a
  k0_off8_inb : ∀ k0_t3 : Fin k0_t3_loop.trips, ∀ a, (k0_off8 k0_t3) a + S16.size a ≤ S4096.size a
  k0_off9_inb : ∀ k0_t3 : Fin k0_t3_loop.trips, ∀ a, (k0_off9 k0_t3) a + S1x16.size a ≤ S1x4096.size a
  k0_off10_inb : ∀ k0_t3 : Fin k0_t3_loop.trips, ∀ a, (k0_off10 k0_t3) a + S16.size a ≤ S4096.size a
  k0_off11_inb : ∀ k0_t3 : Fin k0_t3_loop.trips, ∀ a, (k0_off11 k0_t3) a + S1x16.size a ≤ S1x4096.size a
  k0_off12_inb : ∀ k0_t3 : Fin k0_t3_loop.trips, ∀ a, (k0_off12 k0_t3) a + S16.size a ≤ S4096.size a
  k0_off13_inb : ∀ k0_t3 : Fin k0_t3_loop.trips, ∀ a, (k0_off13 k0_t3) a + S1x16.size a ≤ S1x4096.size a
  k0_off14_inb : ∀ i : grid0.Coords, ∀ a, (k0_off14 i) a + S1x1x4096.size a ≤ S40x64x4096.size a
  k0_off15_inb : ∀ i : grid0.Coords, ∀ a, (k0_off15 i) a + S1x1x100000.size a ≤ S26x64x100000.size a
  k0_off16_inb : ∀ i : grid0.Coords, ∀ a, (k0_off16 i) a + S1x1x4096.size a ≤ S40x64x4096.size a
  k0_t4_ok : k0_t4_loop.OK
  k0_off17_inb : ∀ k0_t4 : Fin k0_t4_loop.trips, ∀ a, (k0_off17 k0_t4) a + S16.size a ≤ S4096.size a
  k0_off18_inb : ∀ k0_t4 : Fin k0_t4_loop.trips, ∀ a, (k0_off18 k0_t4) a + S1x16.size a ≤ S1x4096.size a
  k0_off19_inb : ∀ k0_t4 : Fin k0_t4_loop.trips, ∀ a, (k0_off19 k0_t4) a + S16.size a ≤ S4096.size a
  k0_off20_inb : ∀ k0_t4 : Fin k0_t4_loop.trips, ∀ a, (k0_off20 k0_t4) a + S1x16.size a ≤ S1x4096.size a
  k0_off21_inb : ∀ k0_t4 : Fin k0_t4_loop.trips, ∀ a, (k0_off21 k0_t4) a + S16.size a ≤ S4096.size a
  k0_off22_inb : ∀ k0_t4 : Fin k0_t4_loop.trips, ∀ a, (k0_off22 k0_t4) a + S1x16.size a ≤ S1x4096.size a
  k0_off23_inb : ∀ k0_t4 : Fin k0_t4_loop.trips, ∀ a, (k0_off23 k0_t4) a + S16.size a ≤ S4096.size a
  k0_off24_inb : ∀ k0_t4 : Fin k0_t4_loop.trips, ∀ a, (k0_off24 k0_t4) a + S1x16.size a ≤ S1x4096.size a
  k0_off25_inb : ∀ i : grid0.Coords, ∀ (r : Fin 2), ∀ a, (k0_off25 i (BitVec.ofNat 32 r.val)) a + S1x1x4096.size a ≤ S40x64x4096.size a
  k0_off26_inb : ∀ i : grid0.Coords, ∀ a, (k0_off26 i) a + S1x1x100000.size a ≤ S26x64x100000.size a
  k0_t5_ok : k0_t5_loop.OK
  k0_off27_inb : ∀ k0_t5 : Fin k0_t5_loop.trips, ∀ a, (k0_off27 k0_t5) a + S16.size a ≤ S4096.size a
  k0_off28_inb : ∀ k0_t5 : Fin k0_t5_loop.trips, ∀ a, (k0_off28 k0_t5) a + S1x16.size a ≤ S1x4096.size a
  k0_off29_inb : ∀ k0_t5 : Fin k0_t5_loop.trips, ∀ a, (k0_off29 k0_t5) a + S16.size a ≤ S4096.size a
  k0_off30_inb : ∀ k0_t5 : Fin k0_t5_loop.trips, ∀ a, (k0_off30 k0_t5) a + S1x16.size a ≤ S1x4096.size a
  k0_off31_inb : ∀ k0_t5 : Fin k0_t5_loop.trips, ∀ a, (k0_off31 k0_t5) a + S16.size a ≤ S4096.size a
  k0_off32_inb : ∀ k0_t5 : Fin k0_t5_loop.trips, ∀ a, (k0_off32 k0_t5) a + S1x16.size a ≤ S1x4096.size a
  k0_off33_inb : ∀ k0_t5 : Fin k0_t5_loop.trips, ∀ a, (k0_off33 k0_t5) a + S16.size a ≤ S4096.size a
  k0_off34_inb : ∀ k0_t5 : Fin k0_t5_loop.trips, ∀ a, (k0_off34 k0_t5) a + S1x16.size a ≤ S1x4096.size a
  k0_off35_inb : ∀ i : grid0.Coords, ∀ a, (k0_off35 i) a + S1x1x4096.size a ≤ S40x64x4096.size a
  k0_off36_inb : ∀ i : grid0.Coords, ∀ a, (k0_off36 i) a + S1x1x100000.size a ≤ S26x64x100000.size a
  k0_off37_inb : ∀ i : grid0.Coords, ∀ a, (k0_off37 i) a + S1x1x4096.size a ≤ S40x64x4096.size a
  k0_t6_ok : k0_t6_loop.OK
  k0_off38_inb : ∀ k0_t6 : Fin k0_t6_loop.trips, ∀ a, (k0_off38 k0_t6) a + S16.size a ≤ S4096.size a
  k0_off39_inb : ∀ k0_t6 : Fin k0_t6_loop.trips, ∀ a, (k0_off39 k0_t6) a + S1x16.size a ≤ S1x4096.size a
  k0_off40_inb : ∀ k0_t6 : Fin k0_t6_loop.trips, ∀ a, (k0_off40 k0_t6) a + S16.size a ≤ S4096.size a
  k0_off41_inb : ∀ k0_t6 : Fin k0_t6_loop.trips, ∀ a, (k0_off41 k0_t6) a + S1x16.size a ≤ S1x4096.size a
  k0_off42_inb : ∀ k0_t6 : Fin k0_t6_loop.trips, ∀ a, (k0_off42 k0_t6) a + S16.size a ≤ S4096.size a
  k0_off43_inb : ∀ k0_t6 : Fin k0_t6_loop.trips, ∀ a, (k0_off43 k0_t6) a + S1x16.size a ≤ S1x4096.size a
  k0_off44_inb : ∀ k0_t6 : Fin k0_t6_loop.trips, ∀ a, (k0_off44 k0_t6) a + S16.size a ≤ S4096.size a
  k0_off45_inb : ∀ k0_t6 : Fin k0_t6_loop.trips, ∀ a, (k0_off45 k0_t6) a + S1x16.size a ≤ S1x4096.size a
  k0_off46_inb : ∀ i : grid0.Coords, ∀ (r : Fin 2), ∀ a, (k0_off46 i (BitVec.ofNat 32 r.val)) a + S1x1x4096.size a ≤ S40x64x4096.size a
  k0_off47_inb : ∀ i : grid0.Coords, ∀ a, (k0_off47 i) a + S1x1x100000.size a ≤ S26x64x100000.size a
  k0_t7_ok : k0_t7_loop.OK
  k0_off48_inb : ∀ k0_t7 : Fin k0_t7_loop.trips, ∀ a, (k0_off48 k0_t7) a + S16.size a ≤ S4096.size a
  k0_off49_inb : ∀ k0_t7 : Fin k0_t7_loop.trips, ∀ a, (k0_off49 k0_t7) a + S1x16.size a ≤ S1x4096.size a
  k0_off50_inb : ∀ k0_t7 : Fin k0_t7_loop.trips, ∀ a, (k0_off50 k0_t7) a + S16.size a ≤ S4096.size a
  k0_off51_inb : ∀ k0_t7 : Fin k0_t7_loop.trips, ∀ a, (k0_off51 k0_t7) a + S1x16.size a ≤ S1x4096.size a
  k0_off52_inb : ∀ k0_t7 : Fin k0_t7_loop.trips, ∀ a, (k0_off52 k0_t7) a + S16.size a ≤ S4096.size a
  k0_off53_inb : ∀ k0_t7 : Fin k0_t7_loop.trips, ∀ a, (k0_off53 k0_t7) a + S1x16.size a ≤ S1x4096.size a
  k0_off54_inb : ∀ k0_t7 : Fin k0_t7_loop.trips, ∀ a, (k0_off54 k0_t7) a + S16.size a ≤ S4096.size a
  k0_off55_inb : ∀ k0_t7 : Fin k0_t7_loop.trips, ∀ a, (k0_off55 k0_t7) a + S1x16.size a ≤ S1x4096.size a
  k0_off56_inb : ∀ i : grid0.Coords, ∀ a, (k0_off56 i) a + S1x1x4096.size a ≤ S40x64x4096.size a
  k0_off57_inb : ∀ i : grid0.Coords, ∀ a, (k0_off57 i) a + S1x1x100000.size a ≤ S26x64x100000.size a
  k0_off58_inb : ∀ i : grid0.Coords, ∀ a, (k0_off58 i) a + S1x1x4096.size a ≤ S40x64x4096.size a
  k0_t8_ok : k0_t8_loop.OK
  k0_off59_inb : ∀ k0_t8 : Fin k0_t8_loop.trips, ∀ a, (k0_off59 k0_t8) a + S16.size a ≤ S4096.size a
  k0_off60_inb : ∀ k0_t8 : Fin k0_t8_loop.trips, ∀ a, (k0_off60 k0_t8) a + S1x16.size a ≤ S1x4096.size a
  k0_off61_inb : ∀ k0_t8 : Fin k0_t8_loop.trips, ∀ a, (k0_off61 k0_t8) a + S16.size a ≤ S4096.size a
  k0_off62_inb : ∀ k0_t8 : Fin k0_t8_loop.trips, ∀ a, (k0_off62 k0_t8) a + S1x16.size a ≤ S1x4096.size a
  k0_off63_inb : ∀ k0_t8 : Fin k0_t8_loop.trips, ∀ a, (k0_off63 k0_t8) a + S16.size a ≤ S4096.size a
  k0_off64_inb : ∀ k0_t8 : Fin k0_t8_loop.trips, ∀ a, (k0_off64 k0_t8) a + S1x16.size a ≤ S1x4096.size a
  k0_off65_inb : ∀ k0_t8 : Fin k0_t8_loop.trips, ∀ a, (k0_off65 k0_t8) a + S16.size a ≤ S4096.size a
  k0_off66_inb : ∀ k0_t8 : Fin k0_t8_loop.trips, ∀ a, (k0_off66 k0_t8) a + S1x16.size a ≤ S1x4096.size a
  k0_off67_inb : ∀ i : grid0.Coords, ∀ (r : Fin 2), ∀ a, (k0_off67 i (BitVec.ofNat 32 r.val)) a + S1x1x4096.size a ≤ S40x64x4096.size a
  k0_off68_inb : ∀ i : grid0.Coords, ∀ a, (k0_off68 i) a + S1x1x100000.size a ≤ S26x64x100000.size a
  k0_t9_ok : k0_t9_loop.OK
  k0_off69_inb : ∀ k0_t9 : Fin k0_t9_loop.trips, ∀ a, (k0_off69 k0_t9) a + S16.size a ≤ S4096.size a
  k0_off70_inb : ∀ k0_t9 : Fin k0_t9_loop.trips, ∀ a, (k0_off70 k0_t9) a + S1x16.size a ≤ S1x4096.size a
  k0_off71_inb : ∀ k0_t9 : Fin k0_t9_loop.trips, ∀ a, (k0_off71 k0_t9) a + S16.size a ≤ S4096.size a
  k0_off72_inb : ∀ k0_t9 : Fin k0_t9_loop.trips, ∀ a, (k0_off72 k0_t9) a + S1x16.size a ≤ S1x4096.size a
  k0_off73_inb : ∀ k0_t9 : Fin k0_t9_loop.trips, ∀ a, (k0_off73 k0_t9) a + S16.size a ≤ S4096.size a
  k0_off74_inb : ∀ k0_t9 : Fin k0_t9_loop.trips, ∀ a, (k0_off74 k0_t9) a + S1x16.size a ≤ S1x4096.size a
  k0_off75_inb : ∀ k0_t9 : Fin k0_t9_loop.trips, ∀ a, (k0_off75 k0_t9) a + S16.size a ≤ S4096.size a
  k0_off76_inb : ∀ k0_t9 : Fin k0_t9_loop.trips, ∀ a, (k0_off76 k0_t9) a + S1x16.size a ≤ S1x4096.size a
  k0_off77_inb : ∀ i : grid0.Coords, ∀ a, (k0_off77 i) a + S1x1x4096.size a ≤ S40x64x4096.size a
  k0_off78_inb : ∀ i : grid0.Coords, ∀ a, (k0_off78 i) a + S1x1x100000.size a ≤ S26x64x100000.size a
  k0_off79_inb : ∀ i : grid0.Coords, ∀ a, (k0_off79 i) a + S1x1x4096.size a ≤ S40x64x4096.size a
  k0_t10_ok : k0_t10_loop.OK
  k0_off80_inb : ∀ k0_t10 : Fin k0_t10_loop.trips, ∀ a, (k0_off80 k0_t10) a + S16.size a ≤ S4096.size a
  k0_off81_inb : ∀ k0_t10 : Fin k0_t10_loop.trips, ∀ a, (k0_off81 k0_t10) a + S1x16.size a ≤ S1x4096.size a
  k0_off82_inb : ∀ k0_t10 : Fin k0_t10_loop.trips, ∀ a, (k0_off82 k0_t10) a + S16.size a ≤ S4096.size a
  k0_off83_inb : ∀ k0_t10 : Fin k0_t10_loop.trips, ∀ a, (k0_off83 k0_t10) a + S1x16.size a ≤ S1x4096.size a
  k0_off84_inb : ∀ k0_t10 : Fin k0_t10_loop.trips, ∀ a, (k0_off84 k0_t10) a + S16.size a ≤ S4096.size a
  k0_off85_inb : ∀ k0_t10 : Fin k0_t10_loop.trips, ∀ a, (k0_off85 k0_t10) a + S1x16.size a ≤ S1x4096.size a
  k0_off86_inb : ∀ k0_t10 : Fin k0_t10_loop.trips, ∀ a, (k0_off86 k0_t10) a + S16.size a ≤ S4096.size a
  k0_off87_inb : ∀ k0_t10 : Fin k0_t10_loop.trips, ∀ a, (k0_off87 k0_t10) a + S1x16.size a ≤ S1x4096.size a
  k0_off88_inb : ∀ i : grid0.Coords, ∀ (r : Fin 2), ∀ a, (k0_off88 i (BitVec.ofNat 32 r.val)) a + S1x1x4096.size a ≤ S40x64x4096.size a
  k0_off89_inb : ∀ i : grid0.Coords, ∀ a, (k0_off89 i) a + S1x1x100000.size a ≤ S26x64x100000.size a
  k0_t11_ok : k0_t11_loop.OK
  k0_off90_inb : ∀ k0_t11 : Fin k0_t11_loop.trips, ∀ a, (k0_off90 k0_t11) a + S16.size a ≤ S4096.size a
  k0_off91_inb : ∀ k0_t11 : Fin k0_t11_loop.trips, ∀ a, (k0_off91 k0_t11) a + S1x16.size a ≤ S1x4096.size a
  k0_off92_inb : ∀ k0_t11 : Fin k0_t11_loop.trips, ∀ a, (k0_off92 k0_t11) a + S16.size a ≤ S4096.size a
  k0_off93_inb : ∀ k0_t11 : Fin k0_t11_loop.trips, ∀ a, (k0_off93 k0_t11) a + S1x16.size a ≤ S1x4096.size a
  k0_off94_inb : ∀ k0_t11 : Fin k0_t11_loop.trips, ∀ a, (k0_off94 k0_t11) a + S16.size a ≤ S4096.size a
  k0_off95_inb : ∀ k0_t11 : Fin k0_t11_loop.trips, ∀ a, (k0_off95 k0_t11) a + S1x16.size a ≤ S1x4096.size a
  k0_off96_inb : ∀ k0_t11 : Fin k0_t11_loop.trips, ∀ a, (k0_off96 k0_t11) a + S16.size a ≤ S4096.size a
  k0_off97_inb : ∀ k0_t11 : Fin k0_t11_loop.trips, ∀ a, (k0_off97 k0_t11) a + S1x16.size a ≤ S1x4096.size a
  k0_off98_inb : ∀ i : grid0.Coords, ∀ a, (k0_off98 i) a + S1x1x4096.size a ≤ S40x64x4096.size a
  k0_off99_inb : ∀ i : grid0.Coords, ∀ a, (k0_off99 i) a + S1x1x100000.size a ≤ S26x64x100000.size a
  k0_off100_inb : ∀ i : grid0.Coords, ∀ a, (k0_off100 i) a + S1x1x4096.size a ≤ S40x64x4096.size a
  k0_t12_ok : k0_t12_loop.OK
  k0_off101_inb : ∀ k0_t12 : Fin k0_t12_loop.trips, ∀ a, (k0_off101 k0_t12) a + S16.size a ≤ S4096.size a
  k0_off102_inb : ∀ k0_t12 : Fin k0_t12_loop.trips, ∀ a, (k0_off102 k0_t12) a + S1x16.size a ≤ S1x4096.size a
  k0_off103_inb : ∀ k0_t12 : Fin k0_t12_loop.trips, ∀ a, (k0_off103 k0_t12) a + S16.size a ≤ S4096.size a
  k0_off104_inb : ∀ k0_t12 : Fin k0_t12_loop.trips, ∀ a, (k0_off104 k0_t12) a + S1x16.size a ≤ S1x4096.size a
  k0_off105_inb : ∀ k0_t12 : Fin k0_t12_loop.trips, ∀ a, (k0_off105 k0_t12) a + S16.size a ≤ S4096.size a
  k0_off106_inb : ∀ k0_t12 : Fin k0_t12_loop.trips, ∀ a, (k0_off106 k0_t12) a + S1x16.size a ≤ S1x4096.size a
  k0_off107_inb : ∀ k0_t12 : Fin k0_t12_loop.trips, ∀ a, (k0_off107 k0_t12) a + S16.size a ≤ S4096.size a
  k0_off108_inb : ∀ k0_t12 : Fin k0_t12_loop.trips, ∀ a, (k0_off108 k0_t12) a + S1x16.size a ≤ S1x4096.size a
  k0_off109_inb : ∀ i : grid0.Coords, ∀ (r : Fin 2), ∀ a, (k0_off109 i (BitVec.ofNat 32 r.val)) a + S1x1x4096.size a ≤ S40x64x4096.size a
  k0_off110_inb : ∀ i : grid0.Coords, ∀ a, (k0_off110 i) a + S1x1x100000.size a ≤ S26x64x100000.size a
  k0_t13_ok : k0_t13_loop.OK
  k0_off111_inb : ∀ k0_t13 : Fin k0_t13_loop.trips, ∀ a, (k0_off111 k0_t13) a + S16.size a ≤ S4096.size a
  k0_off112_inb : ∀ k0_t13 : Fin k0_t13_loop.trips, ∀ a, (k0_off112 k0_t13) a + S1x16.size a ≤ S1x4096.size a
  k0_off113_inb : ∀ k0_t13 : Fin k0_t13_loop.trips, ∀ a, (k0_off113 k0_t13) a + S16.size a ≤ S4096.size a
  k0_off114_inb : ∀ k0_t13 : Fin k0_t13_loop.trips, ∀ a, (k0_off114 k0_t13) a + S1x16.size a ≤ S1x4096.size a
  k0_off115_inb : ∀ k0_t13 : Fin k0_t13_loop.trips, ∀ a, (k0_off115 k0_t13) a + S16.size a ≤ S4096.size a
  k0_off116_inb : ∀ k0_t13 : Fin k0_t13_loop.trips, ∀ a, (k0_off116 k0_t13) a + S1x16.size a ≤ S1x4096.size a
  k0_off117_inb : ∀ k0_t13 : Fin k0_t13_loop.trips, ∀ a, (k0_off117 k0_t13) a + S16.size a ≤ S4096.size a
  k0_off118_inb : ∀ k0_t13 : Fin k0_t13_loop.trips, ∀ a, (k0_off118 k0_t13) a + S1x16.size a ≤ S1x4096.size a
  k0_off119_inb : ∀ i : grid0.Coords, ∀ a, (k0_off119 i) a + S1x1x4096.size a ≤ S40x64x4096.size a
  k0_off120_inb : ∀ i : grid0.Coords, ∀ a, (k0_off120 i) a + S1x1x100000.size a ≤ S26x64x100000.size a
  k0_off121_inb : ∀ i : grid0.Coords, ∀ a, (k0_off121 i) a + S1x1x4096.size a ≤ S40x64x4096.size a
  k0_t14_ok : k0_t14_loop.OK
  k0_off122_inb : ∀ k0_t14 : Fin k0_t14_loop.trips, ∀ a, (k0_off122 k0_t14) a + S16.size a ≤ S4096.size a
  k0_off123_inb : ∀ k0_t14 : Fin k0_t14_loop.trips, ∀ a, (k0_off123 k0_t14) a + S1x16.size a ≤ S1x4096.size a
  k0_off124_inb : ∀ k0_t14 : Fin k0_t14_loop.trips, ∀ a, (k0_off124 k0_t14) a + S16.size a ≤ S4096.size a
  k0_off125_inb : ∀ k0_t14 : Fin k0_t14_loop.trips, ∀ a, (k0_off125 k0_t14) a + S1x16.size a ≤ S1x4096.size a
  k0_off126_inb : ∀ k0_t14 : Fin k0_t14_loop.trips, ∀ a, (k0_off126 k0_t14) a + S16.size a ≤ S4096.size a
  k0_off127_inb : ∀ k0_t14 : Fin k0_t14_loop.trips, ∀ a, (k0_off127 k0_t14) a + S1x16.size a ≤ S1x4096.size a
  k0_off128_inb : ∀ k0_t14 : Fin k0_t14_loop.trips, ∀ a, (k0_off128 k0_t14) a + S16.size a ≤ S4096.size a
  k0_off129_inb : ∀ k0_t14 : Fin k0_t14_loop.trips, ∀ a, (k0_off129 k0_t14) a + S1x16.size a ≤ S1x4096.size a
  k0_off130_inb : ∀ i : grid0.Coords, ∀ (r : Fin 2), ∀ a, (k0_off130 i (BitVec.ofNat 32 r.val)) a + S1x1x4096.size a ≤ S40x64x4096.size a
  k0_off131_inb : ∀ i : grid0.Coords, ∀ a, (k0_off131 i) a + S1x1x100000.size a ≤ S26x64x100000.size a
  k0_t15_ok : k0_t15_loop.OK
  k0_off132_inb : ∀ k0_t15 : Fin k0_t15_loop.trips, ∀ a, (k0_off132 k0_t15) a + S16.size a ≤ S4096.size a
  k0_off133_inb : ∀ k0_t15 : Fin k0_t15_loop.trips, ∀ a, (k0_off133 k0_t15) a + S1x16.size a ≤ S1x4096.size a
  k0_off134_inb : ∀ k0_t15 : Fin k0_t15_loop.trips, ∀ a, (k0_off134 k0_t15) a + S16.size a ≤ S4096.size a
  k0_off135_inb : ∀ k0_t15 : Fin k0_t15_loop.trips, ∀ a, (k0_off135 k0_t15) a + S1x16.size a ≤ S1x4096.size a
  k0_off136_inb : ∀ k0_t15 : Fin k0_t15_loop.trips, ∀ a, (k0_off136 k0_t15) a + S16.size a ≤ S4096.size a
  k0_off137_inb : ∀ k0_t15 : Fin k0_t15_loop.trips, ∀ a, (k0_off137 k0_t15) a + S1x16.size a ≤ S1x4096.size a
  k0_off138_inb : ∀ k0_t15 : Fin k0_t15_loop.trips, ∀ a, (k0_off138 k0_t15) a + S16.size a ≤ S4096.size a
  k0_off139_inb : ∀ k0_t15 : Fin k0_t15_loop.trips, ∀ a, (k0_off139 k0_t15) a + S1x16.size a ≤ S1x4096.size a
  k0_off140_inb : ∀ i : grid0.Coords, ∀ a, (k0_off140 i) a + S1x1x4096.size a ≤ S40x64x4096.size a
  k0_off141_inb : ∀ i : grid0.Coords, ∀ a, (k0_off141 i) a + S1x1x100000.size a ≤ S26x64x100000.size a
  k0_off142_inb : ∀ i : grid0.Coords, ∀ a, (k0_off142 i) a + S1x1x4096.size a ≤ S40x64x4096.size a
  k0_t16_ok : k0_t16_loop.OK
  k0_off143_inb : ∀ k0_t16 : Fin k0_t16_loop.trips, ∀ a, (k0_off143 k0_t16) a + S16.size a ≤ S4096.size a
  k0_off144_inb : ∀ k0_t16 : Fin k0_t16_loop.trips, ∀ a, (k0_off144 k0_t16) a + S1x16.size a ≤ S1x4096.size a
  k0_off145_inb : ∀ k0_t16 : Fin k0_t16_loop.trips, ∀ a, (k0_off145 k0_t16) a + S16.size a ≤ S4096.size a
  k0_off146_inb : ∀ k0_t16 : Fin k0_t16_loop.trips, ∀ a, (k0_off146 k0_t16) a + S1x16.size a ≤ S1x4096.size a
  k0_off147_inb : ∀ k0_t16 : Fin k0_t16_loop.trips, ∀ a, (k0_off147 k0_t16) a + S16.size a ≤ S4096.size a
  k0_off148_inb : ∀ k0_t16 : Fin k0_t16_loop.trips, ∀ a, (k0_off148 k0_t16) a + S1x16.size a ≤ S1x4096.size a
  k0_off149_inb : ∀ k0_t16 : Fin k0_t16_loop.trips, ∀ a, (k0_off149 k0_t16) a + S16.size a ≤ S4096.size a
  k0_off150_inb : ∀ k0_t16 : Fin k0_t16_loop.trips, ∀ a, (k0_off150 k0_t16) a + S1x16.size a ≤ S1x4096.size a
  k0_off151_inb : ∀ i : grid0.Coords, ∀ (r : Fin 2), ∀ a, (k0_off151 i (BitVec.ofNat 32 r.val)) a + S1x1x4096.size a ≤ S40x64x4096.size a
  k0_off152_inb : ∀ i : grid0.Coords, ∀ a, (k0_off152 i) a + S1x1x100000.size a ≤ S26x64x100000.size a
  k0_t17_ok : k0_t17_loop.OK
  k0_off153_inb : ∀ k0_t17 : Fin k0_t17_loop.trips, ∀ a, (k0_off153 k0_t17) a + S16.size a ≤ S4096.size a
  k0_off154_inb : ∀ k0_t17 : Fin k0_t17_loop.trips, ∀ a, (k0_off154 k0_t17) a + S1x16.size a ≤ S1x4096.size a
  k0_off155_inb : ∀ k0_t17 : Fin k0_t17_loop.trips, ∀ a, (k0_off155 k0_t17) a + S16.size a ≤ S4096.size a
  k0_off156_inb : ∀ k0_t17 : Fin k0_t17_loop.trips, ∀ a, (k0_off156 k0_t17) a + S1x16.size a ≤ S1x4096.size a
  k0_off157_inb : ∀ k0_t17 : Fin k0_t17_loop.trips, ∀ a, (k0_off157 k0_t17) a + S16.size a ≤ S4096.size a
  k0_off158_inb : ∀ k0_t17 : Fin k0_t17_loop.trips, ∀ a, (k0_off158 k0_t17) a + S1x16.size a ≤ S1x4096.size a
  k0_off159_inb : ∀ k0_t17 : Fin k0_t17_loop.trips, ∀ a, (k0_off159 k0_t17) a + S16.size a ≤ S4096.size a
  k0_off160_inb : ∀ k0_t17 : Fin k0_t17_loop.trips, ∀ a, (k0_off160 k0_t17) a + S1x16.size a ≤ S1x4096.size a
  k0_off161_inb : ∀ i : grid0.Coords, ∀ a, (k0_off161 i) a + S1x1x4096.size a ≤ S40x64x4096.size a
  k0_off162_inb : ∀ i : grid0.Coords, ∀ a, (k0_off162 i) a + S1x1x100000.size a ≤ S26x64x100000.size a
  k0_off163_inb : ∀ i : grid0.Coords, ∀ a, (k0_off163 i) a + S1x1x4096.size a ≤ S40x64x4096.size a
  k0_t18_ok : k0_t18_loop.OK
  k0_off164_inb : ∀ k0_t18 : Fin k0_t18_loop.trips, ∀ a, (k0_off164 k0_t18) a + S16.size a ≤ S4096.size a
  k0_off165_inb : ∀ k0_t18 : Fin k0_t18_loop.trips, ∀ a, (k0_off165 k0_t18) a + S1x16.size a ≤ S1x4096.size a
  k0_off166_inb : ∀ k0_t18 : Fin k0_t18_loop.trips, ∀ a, (k0_off166 k0_t18) a + S16.size a ≤ S4096.size a
  k0_off167_inb : ∀ k0_t18 : Fin k0_t18_loop.trips, ∀ a, (k0_off167 k0_t18) a + S1x16.size a ≤ S1x4096.size a
  k0_off168_inb : ∀ k0_t18 : Fin k0_t18_loop.trips, ∀ a, (k0_off168 k0_t18) a + S16.size a ≤ S4096.size a
  k0_off169_inb : ∀ k0_t18 : Fin k0_t18_loop.trips, ∀ a, (k0_off169 k0_t18) a + S1x16.size a ≤ S1x4096.size a
  k0_off170_inb : ∀ k0_t18 : Fin k0_t18_loop.trips, ∀ a, (k0_off170 k0_t18) a + S16.size a ≤ S4096.size a
  k0_off171_inb : ∀ k0_t18 : Fin k0_t18_loop.trips, ∀ a, (k0_off171 k0_t18) a + S1x16.size a ≤ S1x4096.size a
  k0_off172_inb : ∀ i : grid0.Coords, ∀ (r : Fin 2), ∀ a, (k0_off172 i (BitVec.ofNat 32 r.val)) a + S1x1x4096.size a ≤ S40x64x4096.size a
  k0_off173_inb : ∀ i : grid0.Coords, ∀ a, (k0_off173 i) a + S1x1x100000.size a ≤ S26x64x100000.size a
  k0_t19_ok : k0_t19_loop.OK
  k0_off174_inb : ∀ k0_t19 : Fin k0_t19_loop.trips, ∀ a, (k0_off174 k0_t19) a + S16.size a ≤ S4096.size a
  k0_off175_inb : ∀ k0_t19 : Fin k0_t19_loop.trips, ∀ a, (k0_off175 k0_t19) a + S1x16.size a ≤ S1x4096.size a
  k0_off176_inb : ∀ k0_t19 : Fin k0_t19_loop.trips, ∀ a, (k0_off176 k0_t19) a + S16.size a ≤ S4096.size a
  k0_off177_inb : ∀ k0_t19 : Fin k0_t19_loop.trips, ∀ a, (k0_off177 k0_t19) a + S1x16.size a ≤ S1x4096.size a
  k0_off178_inb : ∀ k0_t19 : Fin k0_t19_loop.trips, ∀ a, (k0_off178 k0_t19) a + S16.size a ≤ S4096.size a
  k0_off179_inb : ∀ k0_t19 : Fin k0_t19_loop.trips, ∀ a, (k0_off179 k0_t19) a + S1x16.size a ≤ S1x4096.size a
  k0_off180_inb : ∀ k0_t19 : Fin k0_t19_loop.trips, ∀ a, (k0_off180 k0_t19) a + S16.size a ≤ S4096.size a
  k0_off181_inb : ∀ k0_t19 : Fin k0_t19_loop.trips, ∀ a, (k0_off181 k0_t19) a + S1x16.size a ≤ S1x4096.size a
  k0_off182_inb : ∀ i : grid0.Coords, ∀ a, (k0_off182 i) a + S1x1x4096.size a ≤ S40x64x4096.size a
  k0_off183_inb : ∀ i : grid0.Coords, ∀ a, (k0_off183 i) a + S1x1x100000.size a ≤ S26x64x100000.size a
  k0_off184_inb : ∀ i : grid0.Coords, ∀ a, (k0_off184 i) a + S1x1x4096.size a ≤ S40x64x4096.size a
  k0_t20_ok : k0_t20_loop.OK
  k0_off185_inb : ∀ k0_t20 : Fin k0_t20_loop.trips, ∀ a, (k0_off185 k0_t20) a + S16.size a ≤ S4096.size a
  k0_off186_inb : ∀ k0_t20 : Fin k0_t20_loop.trips, ∀ a, (k0_off186 k0_t20) a + S1x16.size a ≤ S1x4096.size a
  k0_off187_inb : ∀ k0_t20 : Fin k0_t20_loop.trips, ∀ a, (k0_off187 k0_t20) a + S16.size a ≤ S4096.size a
  k0_off188_inb : ∀ k0_t20 : Fin k0_t20_loop.trips, ∀ a, (k0_off188 k0_t20) a + S1x16.size a ≤ S1x4096.size a
  k0_off189_inb : ∀ k0_t20 : Fin k0_t20_loop.trips, ∀ a, (k0_off189 k0_t20) a + S16.size a ≤ S4096.size a
  k0_off190_inb : ∀ k0_t20 : Fin k0_t20_loop.trips, ∀ a, (k0_off190 k0_t20) a + S1x16.size a ≤ S1x4096.size a
  k0_off191_inb : ∀ k0_t20 : Fin k0_t20_loop.trips, ∀ a, (k0_off191 k0_t20) a + S16.size a ≤ S4096.size a
  k0_off192_inb : ∀ k0_t20 : Fin k0_t20_loop.trips, ∀ a, (k0_off192 k0_t20) a + S1x16.size a ≤ S1x4096.size a
  k0_off193_inb : ∀ i : grid0.Coords, ∀ (r : Fin 2), ∀ a, (k0_off193 i (BitVec.ofNat 32 r.val)) a + S1x1x4096.size a ≤ S40x64x4096.size a
  k0_off194_inb : ∀ i : grid0.Coords, ∀ a, (k0_off194 i) a + S1x1x100000.size a ≤ S26x64x100000.size a
  k0_t21_ok : k0_t21_loop.OK
  k0_off195_inb : ∀ k0_t21 : Fin k0_t21_loop.trips, ∀ a, (k0_off195 k0_t21) a + S16.size a ≤ S4096.size a
  k0_off196_inb : ∀ k0_t21 : Fin k0_t21_loop.trips, ∀ a, (k0_off196 k0_t21) a + S1x16.size a ≤ S1x4096.size a
  k0_off197_inb : ∀ k0_t21 : Fin k0_t21_loop.trips, ∀ a, (k0_off197 k0_t21) a + S16.size a ≤ S4096.size a
  k0_off198_inb : ∀ k0_t21 : Fin k0_t21_loop.trips, ∀ a, (k0_off198 k0_t21) a + S1x16.size a ≤ S1x4096.size a
  k0_off199_inb : ∀ k0_t21 : Fin k0_t21_loop.trips, ∀ a, (k0_off199 k0_t21) a + S16.size a ≤ S4096.size a
  k0_off200_inb : ∀ k0_t21 : Fin k0_t21_loop.trips, ∀ a, (k0_off200 k0_t21) a + S1x16.size a ≤ S1x4096.size a
  k0_off201_inb : ∀ k0_t21 : Fin k0_t21_loop.trips, ∀ a, (k0_off201 k0_t21) a + S16.size a ≤ S4096.size a
  k0_off202_inb : ∀ k0_t21 : Fin k0_t21_loop.trips, ∀ a, (k0_off202 k0_t21) a + S1x16.size a ≤ S1x4096.size a
  k0_off203_inb : ∀ i : grid0.Coords, ∀ a, (k0_off203 i) a + S1x1x4096.size a ≤ S40x64x4096.size a
  k0_off204_inb : ∀ i : grid0.Coords, ∀ a, (k0_off204 i) a + S1x1x100000.size a ≤ S26x64x100000.size a
  k0_off205_inb : ∀ i : grid0.Coords, ∀ a, (k0_off205 i) a + S1x1x4096.size a ≤ S40x64x4096.size a
  k0_t22_ok : k0_t22_loop.OK
  k0_off206_inb : ∀ k0_t22 : Fin k0_t22_loop.trips, ∀ a, (k0_off206 k0_t22) a + S16.size a ≤ S4096.size a
  k0_off207_inb : ∀ k0_t22 : Fin k0_t22_loop.trips, ∀ a, (k0_off207 k0_t22) a + S1x16.size a ≤ S1x4096.size a
  k0_off208_inb : ∀ k0_t22 : Fin k0_t22_loop.trips, ∀ a, (k0_off208 k0_t22) a + S16.size a ≤ S4096.size a
  k0_off209_inb : ∀ k0_t22 : Fin k0_t22_loop.trips, ∀ a, (k0_off209 k0_t22) a + S1x16.size a ≤ S1x4096.size a
  k0_off210_inb : ∀ k0_t22 : Fin k0_t22_loop.trips, ∀ a, (k0_off210 k0_t22) a + S16.size a ≤ S4096.size a
  k0_off211_inb : ∀ k0_t22 : Fin k0_t22_loop.trips, ∀ a, (k0_off211 k0_t22) a + S1x16.size a ≤ S1x4096.size a
  k0_off212_inb : ∀ k0_t22 : Fin k0_t22_loop.trips, ∀ a, (k0_off212 k0_t22) a + S16.size a ≤ S4096.size a
  k0_off213_inb : ∀ k0_t22 : Fin k0_t22_loop.trips, ∀ a, (k0_off213 k0_t22) a + S1x16.size a ≤ S1x4096.size a
  k0_off214_inb : ∀ i : grid0.Coords, ∀ (r : Fin 2), ∀ a, (k0_off214 i (BitVec.ofNat 32 r.val)) a + S1x1x4096.size a ≤ S40x64x4096.size a
  k0_off215_inb : ∀ i : grid0.Coords, ∀ a, (k0_off215 i) a + S1x1x100000.size a ≤ S26x64x100000.size a
  k0_t23_ok : k0_t23_loop.OK
  k0_off216_inb : ∀ k0_t23 : Fin k0_t23_loop.trips, ∀ a, (k0_off216 k0_t23) a + S16.size a ≤ S4096.size a
  k0_off217_inb : ∀ k0_t23 : Fin k0_t23_loop.trips, ∀ a, (k0_off217 k0_t23) a + S1x16.size a ≤ S1x4096.size a
  k0_off218_inb : ∀ k0_t23 : Fin k0_t23_loop.trips, ∀ a, (k0_off218 k0_t23) a + S16.size a ≤ S4096.size a
  k0_off219_inb : ∀ k0_t23 : Fin k0_t23_loop.trips, ∀ a, (k0_off219 k0_t23) a + S1x16.size a ≤ S1x4096.size a
  k0_off220_inb : ∀ k0_t23 : Fin k0_t23_loop.trips, ∀ a, (k0_off220 k0_t23) a + S16.size a ≤ S4096.size a
  k0_off221_inb : ∀ k0_t23 : Fin k0_t23_loop.trips, ∀ a, (k0_off221 k0_t23) a + S1x16.size a ≤ S1x4096.size a
  k0_off222_inb : ∀ k0_t23 : Fin k0_t23_loop.trips, ∀ a, (k0_off222 k0_t23) a + S16.size a ≤ S4096.size a
  k0_off223_inb : ∀ k0_t23 : Fin k0_t23_loop.trips, ∀ a, (k0_off223 k0_t23) a + S1x16.size a ≤ S1x4096.size a
  k0_off224_inb : ∀ i : grid0.Coords, ∀ a, (k0_off224 i) a + S1x1x4096.size a ≤ S40x64x4096.size a
  k0_off225_inb : ∀ i : grid0.Coords, ∀ a, (k0_off225 i) a + S1x1x100000.size a ≤ S26x64x100000.size a
  k0_off226_inb : ∀ i : grid0.Coords, ∀ a, (k0_off226 i) a + S1x1x4096.size a ≤ S40x64x4096.size a
  k0_t24_ok : k0_t24_loop.OK
  k0_off227_inb : ∀ k0_t24 : Fin k0_t24_loop.trips, ∀ a, (k0_off227 k0_t24) a + S16.size a ≤ S4096.size a
  k0_off228_inb : ∀ k0_t24 : Fin k0_t24_loop.trips, ∀ a, (k0_off228 k0_t24) a + S1x16.size a ≤ S1x4096.size a
  k0_off229_inb : ∀ k0_t24 : Fin k0_t24_loop.trips, ∀ a, (k0_off229 k0_t24) a + S16.size a ≤ S4096.size a
  k0_off230_inb : ∀ k0_t24 : Fin k0_t24_loop.trips, ∀ a, (k0_off230 k0_t24) a + S1x16.size a ≤ S1x4096.size a
  k0_off231_inb : ∀ k0_t24 : Fin k0_t24_loop.trips, ∀ a, (k0_off231 k0_t24) a + S16.size a ≤ S4096.size a
  k0_off232_inb : ∀ k0_t24 : Fin k0_t24_loop.trips, ∀ a, (k0_off232 k0_t24) a + S1x16.size a ≤ S1x4096.size a
  k0_off233_inb : ∀ k0_t24 : Fin k0_t24_loop.trips, ∀ a, (k0_off233 k0_t24) a + S16.size a ≤ S4096.size a
  k0_off234_inb : ∀ k0_t24 : Fin k0_t24_loop.trips, ∀ a, (k0_off234 k0_t24) a + S1x16.size a ≤ S1x4096.size a
  k0_off235_inb : ∀ i : grid0.Coords, ∀ (r : Fin 2), ∀ a, (k0_off235 i (BitVec.ofNat 32 r.val)) a + S1x1x4096.size a ≤ S40x64x4096.size a
  k0_off236_inb : ∀ i : grid0.Coords, ∀ a, (k0_off236 i) a + S1x1x100000.size a ≤ S26x64x100000.size a
  k0_t25_ok : k0_t25_loop.OK
  k0_off237_inb : ∀ k0_t25 : Fin k0_t25_loop.trips, ∀ a, (k0_off237 k0_t25) a + S16.size a ≤ S4096.size a
  k0_off238_inb : ∀ k0_t25 : Fin k0_t25_loop.trips, ∀ a, (k0_off238 k0_t25) a + S1x16.size a ≤ S1x4096.size a
  k0_off239_inb : ∀ k0_t25 : Fin k0_t25_loop.trips, ∀ a, (k0_off239 k0_t25) a + S16.size a ≤ S4096.size a
  k0_off240_inb : ∀ k0_t25 : Fin k0_t25_loop.trips, ∀ a, (k0_off240 k0_t25) a + S1x16.size a ≤ S1x4096.size a
  k0_off241_inb : ∀ k0_t25 : Fin k0_t25_loop.trips, ∀ a, (k0_off241 k0_t25) a + S16.size a ≤ S4096.size a
  k0_off242_inb : ∀ k0_t25 : Fin k0_t25_loop.trips, ∀ a, (k0_off242 k0_t25) a + S1x16.size a ≤ S1x4096.size a
  k0_off243_inb : ∀ k0_t25 : Fin k0_t25_loop.trips, ∀ a, (k0_off243 k0_t25) a + S16.size a ≤ S4096.size a
  k0_off244_inb : ∀ k0_t25 : Fin k0_t25_loop.trips, ∀ a, (k0_off244 k0_t25) a + S1x16.size a ≤ S1x4096.size a
  k0_off245_inb : ∀ i : grid0.Coords, ∀ a, (k0_off245 i) a + S1x1x4096.size a ≤ S40x64x4096.size a
  k0_off246_inb : ∀ i : grid0.Coords, ∀ a, (k0_off246 i) a + S1x1x100000.size a ≤ S26x64x100000.size a
  k0_off247_inb : ∀ i : grid0.Coords, ∀ a, (k0_off247 i) a + S1x1x4096.size a ≤ S40x64x4096.size a
  k0_t26_ok : k0_t26_loop.OK
  k0_off248_inb : ∀ k0_t26 : Fin k0_t26_loop.trips, ∀ a, (k0_off248 k0_t26) a + S16.size a ≤ S4096.size a
  k0_off249_inb : ∀ k0_t26 : Fin k0_t26_loop.trips, ∀ a, (k0_off249 k0_t26) a + S1x16.size a ≤ S1x4096.size a
  k0_off250_inb : ∀ k0_t26 : Fin k0_t26_loop.trips, ∀ a, (k0_off250 k0_t26) a + S16.size a ≤ S4096.size a
  k0_off251_inb : ∀ k0_t26 : Fin k0_t26_loop.trips, ∀ a, (k0_off251 k0_t26) a + S1x16.size a ≤ S1x4096.size a
  k0_off252_inb : ∀ k0_t26 : Fin k0_t26_loop.trips, ∀ a, (k0_off252 k0_t26) a + S16.size a ≤ S4096.size a
  k0_off253_inb : ∀ k0_t26 : Fin k0_t26_loop.trips, ∀ a, (k0_off253 k0_t26) a + S1x16.size a ≤ S1x4096.size a
  k0_off254_inb : ∀ k0_t26 : Fin k0_t26_loop.trips, ∀ a, (k0_off254 k0_t26) a + S16.size a ≤ S4096.size a
  k0_off255_inb : ∀ k0_t26 : Fin k0_t26_loop.trips, ∀ a, (k0_off255 k0_t26) a + S1x16.size a ≤ S1x4096.size a
  k0_off256_inb : ∀ i : grid0.Coords, ∀ (r : Fin 2), ∀ a, (k0_off256 i (BitVec.ofNat 32 r.val)) a + S1x1x4096.size a ≤ S40x64x4096.size a
  k0_off257_inb : ∀ i : grid0.Coords, ∀ a, (k0_off257 i) a + S1x1x100000.size a ≤ S26x64x100000.size a
  k0_t27_ok : k0_t27_loop.OK
  k0_off258_inb : ∀ k0_t27 : Fin k0_t27_loop.trips, ∀ a, (k0_off258 k0_t27) a + S16.size a ≤ S4096.size a
  k0_off259_inb : ∀ k0_t27 : Fin k0_t27_loop.trips, ∀ a, (k0_off259 k0_t27) a + S1x16.size a ≤ S1x4096.size a
  k0_off260_inb : ∀ k0_t27 : Fin k0_t27_loop.trips, ∀ a, (k0_off260 k0_t27) a + S16.size a ≤ S4096.size a
  k0_off261_inb : ∀ k0_t27 : Fin k0_t27_loop.trips, ∀ a, (k0_off261 k0_t27) a + S1x16.size a ≤ S1x4096.size a
  k0_off262_inb : ∀ k0_t27 : Fin k0_t27_loop.trips, ∀ a, (k0_off262 k0_t27) a + S16.size a ≤ S4096.size a
  k0_off263_inb : ∀ k0_t27 : Fin k0_t27_loop.trips, ∀ a, (k0_off263 k0_t27) a + S1x16.size a ≤ S1x4096.size a
  k0_off264_inb : ∀ k0_t27 : Fin k0_t27_loop.trips, ∀ a, (k0_off264 k0_t27) a + S16.size a ≤ S4096.size a
  k0_off265_inb : ∀ k0_t27 : Fin k0_t27_loop.trips, ∀ a, (k0_off265 k0_t27) a + S1x16.size a ≤ S1x4096.size a
  k0_off266_inb : ∀ i : grid0.Coords, ∀ a, (k0_off266 i) a + S1x1x4096.size a ≤ S40x64x4096.size a
  k0_off267_inb : ∀ i : grid0.Coords, ∀ a, (k0_off267 i) a + S1x1x100000.size a ≤ S26x64x100000.size a
  k0_off268_inb : ∀ i : grid0.Coords, ∀ a, (k0_off268 i) a + S1x1x4096.size a ≤ S40x64x4096.size a
  k0_t28_ok : k0_t28_loop.OK
  k0_off269_inb : ∀ k0_t28 : Fin k0_t28_loop.trips, ∀ a, (k0_off269 k0_t28) a + S16.size a ≤ S4096.size a
  k0_off270_inb : ∀ k0_t28 : Fin k0_t28_loop.trips, ∀ a, (k0_off270 k0_t28) a + S1x16.size a ≤ S1x4096.size a
  k0_off271_inb : ∀ k0_t28 : Fin k0_t28_loop.trips, ∀ a, (k0_off271 k0_t28) a + S16.size a ≤ S4096.size a
  k0_off272_inb : ∀ k0_t28 : Fin k0_t28_loop.trips, ∀ a, (k0_off272 k0_t28) a + S1x16.size a ≤ S1x4096.size a
  k0_off273_inb : ∀ k0_t28 : Fin k0_t28_loop.trips, ∀ a, (k0_off273 k0_t28) a + S16.size a ≤ S4096.size a
  k0_off274_inb : ∀ k0_t28 : Fin k0_t28_loop.trips, ∀ a, (k0_off274 k0_t28) a + S1x16.size a ≤ S1x4096.size a
  k0_off275_inb : ∀ k0_t28 : Fin k0_t28_loop.trips, ∀ a, (k0_off275 k0_t28) a + S16.size a ≤ S4096.size a
  k0_off276_inb : ∀ k0_t28 : Fin k0_t28_loop.trips, ∀ a, (k0_off276 k0_t28) a + S1x16.size a ≤ S1x4096.size a
  k0_off277_inb : ∀ i : grid0.Coords, ∀ (r : Fin 2), ∀ a, (k0_off277 i (BitVec.ofNat 32 r.val)) a + S1x1x4096.size a ≤ S40x64x4096.size a
  k0_off278_inb : ∀ i : grid0.Coords, ∀ a, (k0_off278 i) a + S1x1x100000.size a ≤ S26x64x100000.size a
  k0_t29_ok : k0_t29_loop.OK
  k0_off279_inb : ∀ k0_t29 : Fin k0_t29_loop.trips, ∀ a, (k0_off279 k0_t29) a + S16.size a ≤ S4096.size a
  k0_off280_inb : ∀ k0_t29 : Fin k0_t29_loop.trips, ∀ a, (k0_off280 k0_t29) a + S1x16.size a ≤ S1x4096.size a
  k0_off281_inb : ∀ k0_t29 : Fin k0_t29_loop.trips, ∀ a, (k0_off281 k0_t29) a + S16.size a ≤ S4096.size a
  k0_off282_inb : ∀ k0_t29 : Fin k0_t29_loop.trips, ∀ a, (k0_off282 k0_t29) a + S1x16.size a ≤ S1x4096.size a
  k0_off283_inb : ∀ k0_t29 : Fin k0_t29_loop.trips, ∀ a, (k0_off283 k0_t29) a + S16.size a ≤ S4096.size a
  k0_off284_inb : ∀ k0_t29 : Fin k0_t29_loop.trips, ∀ a, (k0_off284 k0_t29) a + S1x16.size a ≤ S1x4096.size a
  k0_off285_inb : ∀ k0_t29 : Fin k0_t29_loop.trips, ∀ a, (k0_off285 k0_t29) a + S16.size a ≤ S4096.size a
  k0_off286_inb : ∀ k0_t29 : Fin k0_t29_loop.trips, ∀ a, (k0_off286 k0_t29) a + S1x16.size a ≤ S1x4096.size a
  k0_off287_inb : ∀ i : grid0.Coords, ∀ a, (k0_off287 i) a + S1x1x4096.size a ≤ S40x64x4096.size a
  k0_off288_inb : ∀ i : grid0.Coords, ∀ a, (k0_off288 i) a + S1x1x100000.size a ≤ S26x64x100000.size a
  k0_off289_inb : ∀ i : grid0.Coords, ∀ a, (k0_off289 i) a + S1x1x4096.size a ≤ S40x64x4096.size a
  k0_t30_ok : k0_t30_loop.OK
  k0_off290_inb : ∀ k0_t30 : Fin k0_t30_loop.trips, ∀ a, (k0_off290 k0_t30) a + S16.size a ≤ S4096.size a
  k0_off291_inb : ∀ k0_t30 : Fin k0_t30_loop.trips, ∀ a, (k0_off291 k0_t30) a + S1x16.size a ≤ S1x4096.size a
  k0_off292_inb : ∀ k0_t30 : Fin k0_t30_loop.trips, ∀ a, (k0_off292 k0_t30) a + S16.size a ≤ S4096.size a
  k0_off293_inb : ∀ k0_t30 : Fin k0_t30_loop.trips, ∀ a, (k0_off293 k0_t30) a + S1x16.size a ≤ S1x4096.size a
  k0_off294_inb : ∀ k0_t30 : Fin k0_t30_loop.trips, ∀ a, (k0_off294 k0_t30) a + S16.size a ≤ S4096.size a
  k0_off295_inb : ∀ k0_t30 : Fin k0_t30_loop.trips, ∀ a, (k0_off295 k0_t30) a + S1x16.size a ≤ S1x4096.size a
  k0_off296_inb : ∀ k0_t30 : Fin k0_t30_loop.trips, ∀ a, (k0_off296 k0_t30) a + S16.size a ≤ S4096.size a
  k0_off297_inb : ∀ k0_t30 : Fin k0_t30_loop.trips, ∀ a, (k0_off297 k0_t30) a + S1x16.size a ≤ S1x4096.size a
  k0_off298_inb : ∀ i : grid0.Coords, ∀ (r : Fin 2), ∀ a, (k0_off298 i (BitVec.ofNat 32 r.val)) a + S1x1x4096.size a ≤ S40x64x4096.size a
  k0_off299_inb : ∀ i : grid0.Coords, ∀ a, (k0_off299 i) a + S1x1x100000.size a ≤ S26x64x100000.size a
  k0_t31_ok : k0_t31_loop.OK
  k0_off300_inb : ∀ k0_t31 : Fin k0_t31_loop.trips, ∀ a, (k0_off300 k0_t31) a + S16.size a ≤ S4096.size a
  k0_off301_inb : ∀ k0_t31 : Fin k0_t31_loop.trips, ∀ a, (k0_off301 k0_t31) a + S1x16.size a ≤ S1x4096.size a
  k0_off302_inb : ∀ k0_t31 : Fin k0_t31_loop.trips, ∀ a, (k0_off302 k0_t31) a + S16.size a ≤ S4096.size a
  k0_off303_inb : ∀ k0_t31 : Fin k0_t31_loop.trips, ∀ a, (k0_off303 k0_t31) a + S1x16.size a ≤ S1x4096.size a
  k0_off304_inb : ∀ k0_t31 : Fin k0_t31_loop.trips, ∀ a, (k0_off304 k0_t31) a + S16.size a ≤ S4096.size a
  k0_off305_inb : ∀ k0_t31 : Fin k0_t31_loop.trips, ∀ a, (k0_off305 k0_t31) a + S1x16.size a ≤ S1x4096.size a
  k0_off306_inb : ∀ k0_t31 : Fin k0_t31_loop.trips, ∀ a, (k0_off306 k0_t31) a + S16.size a ≤ S4096.size a
  k0_off307_inb : ∀ k0_t31 : Fin k0_t31_loop.trips, ∀ a, (k0_off307 k0_t31) a + S1x16.size a ≤ S1x4096.size a
  k0_off308_inb : ∀ i : grid0.Coords, ∀ a, (k0_off308 i) a + S1x1x4096.size a ≤ S40x64x4096.size a
  k0_off309_inb : ∀ i : grid0.Coords, ∀ a, (k0_off309 i) a + S1x1x100000.size a ≤ S26x64x100000.size a
  k0_off310_inb : ∀ i : grid0.Coords, ∀ a, (k0_off310 i) a + S1x1x4096.size a ≤ S40x64x4096.size a
  k0_t32_ok : k0_t32_loop.OK
  k0_off311_inb : ∀ k0_t32 : Fin k0_t32_loop.trips, ∀ a, (k0_off311 k0_t32) a + S16.size a ≤ S4096.size a
  k0_off312_inb : ∀ k0_t32 : Fin k0_t32_loop.trips, ∀ a, (k0_off312 k0_t32) a + S1x16.size a ≤ S1x4096.size a
  k0_off313_inb : ∀ k0_t32 : Fin k0_t32_loop.trips, ∀ a, (k0_off313 k0_t32) a + S16.size a ≤ S4096.size a
  k0_off314_inb : ∀ k0_t32 : Fin k0_t32_loop.trips, ∀ a, (k0_off314 k0_t32) a + S1x16.size a ≤ S1x4096.size a
  k0_off315_inb : ∀ k0_t32 : Fin k0_t32_loop.trips, ∀ a, (k0_off315 k0_t32) a + S16.size a ≤ S4096.size a
  k0_off316_inb : ∀ k0_t32 : Fin k0_t32_loop.trips, ∀ a, (k0_off316 k0_t32) a + S1x16.size a ≤ S1x4096.size a
  k0_off317_inb : ∀ k0_t32 : Fin k0_t32_loop.trips, ∀ a, (k0_off317 k0_t32) a + S16.size a ≤ S4096.size a
  k0_off318_inb : ∀ k0_t32 : Fin k0_t32_loop.trips, ∀ a, (k0_off318 k0_t32) a + S1x16.size a ≤ S1x4096.size a
  k0_off319_inb : ∀ i : grid0.Coords, ∀ (r : Fin 2), ∀ a, (k0_off319 i (BitVec.ofNat 32 r.val)) a + S1x1x4096.size a ≤ S40x64x4096.size a
  k0_off320_inb : ∀ i : grid0.Coords, ∀ a, (k0_off320 i) a + S1x1x100000.size a ≤ S26x64x100000.size a
  k0_t33_ok : k0_t33_loop.OK
  k0_off321_inb : ∀ k0_t33 : Fin k0_t33_loop.trips, ∀ a, (k0_off321 k0_t33) a + S16.size a ≤ S4096.size a
  k0_off322_inb : ∀ k0_t33 : Fin k0_t33_loop.trips, ∀ a, (k0_off322 k0_t33) a + S1x16.size a ≤ S1x4096.size a
  k0_off323_inb : ∀ k0_t33 : Fin k0_t33_loop.trips, ∀ a, (k0_off323 k0_t33) a + S16.size a ≤ S4096.size a
  k0_off324_inb : ∀ k0_t33 : Fin k0_t33_loop.trips, ∀ a, (k0_off324 k0_t33) a + S1x16.size a ≤ S1x4096.size a
  k0_off325_inb : ∀ k0_t33 : Fin k0_t33_loop.trips, ∀ a, (k0_off325 k0_t33) a + S16.size a ≤ S4096.size a
  k0_off326_inb : ∀ k0_t33 : Fin k0_t33_loop.trips, ∀ a, (k0_off326 k0_t33) a + S1x16.size a ≤ S1x4096.size a
  k0_off327_inb : ∀ k0_t33 : Fin k0_t33_loop.trips, ∀ a, (k0_off327 k0_t33) a + S16.size a ≤ S4096.size a
  k0_off328_inb : ∀ k0_t33 : Fin k0_t33_loop.trips, ∀ a, (k0_off328 k0_t33) a + S1x16.size a ≤ S1x4096.size a
  k0_off329_inb : ∀ i : grid0.Coords, ∀ a, (k0_off329 i) a + S1x1x4096.size a ≤ S40x64x4096.size a
  k0_off330_inb : ∀ i : grid0.Coords, ∀ a, (k0_off330 i) a + S1x1x100000.size a ≤ S26x64x100000.size a
  k0_off331_inb : ∀ i : grid0.Coords, ∀ a, (k0_off331 i) a + S1x1x4096.size a ≤ S40x64x4096.size a
  k0_t34_ok : k0_t34_loop.OK
  k0_off332_inb : ∀ k0_t34 : Fin k0_t34_loop.trips, ∀ a, (k0_off332 k0_t34) a + S16.size a ≤ S4096.size a
  k0_off333_inb : ∀ k0_t34 : Fin k0_t34_loop.trips, ∀ a, (k0_off333 k0_t34) a + S1x16.size a ≤ S1x4096.size a
  k0_off334_inb : ∀ k0_t34 : Fin k0_t34_loop.trips, ∀ a, (k0_off334 k0_t34) a + S16.size a ≤ S4096.size a
  k0_off335_inb : ∀ k0_t34 : Fin k0_t34_loop.trips, ∀ a, (k0_off335 k0_t34) a + S1x16.size a ≤ S1x4096.size a
  k0_off336_inb : ∀ k0_t34 : Fin k0_t34_loop.trips, ∀ a, (k0_off336 k0_t34) a + S16.size a ≤ S4096.size a
  k0_off337_inb : ∀ k0_t34 : Fin k0_t34_loop.trips, ∀ a, (k0_off337 k0_t34) a + S1x16.size a ≤ S1x4096.size a
  k0_off338_inb : ∀ k0_t34 : Fin k0_t34_loop.trips, ∀ a, (k0_off338 k0_t34) a + S16.size a ≤ S4096.size a
  k0_off339_inb : ∀ k0_t34 : Fin k0_t34_loop.trips, ∀ a, (k0_off339 k0_t34) a + S1x16.size a ≤ S1x4096.size a
  k0_off340_inb : ∀ i : grid0.Coords, ∀ (r : Fin 2), ∀ a, (k0_off340 i (BitVec.ofNat 32 r.val)) a + S1x1x4096.size a ≤ S40x64x4096.size a
  k0_off341_inb : ∀ i : grid0.Coords, ∀ a, (k0_off341 i) a + S1x1x100000.size a ≤ S26x64x100000.size a
  k0_t35_ok : k0_t35_loop.OK
  k0_off342_inb : ∀ k0_t35 : Fin k0_t35_loop.trips, ∀ a, (k0_off342 k0_t35) a + S16.size a ≤ S4096.size a
  k0_off343_inb : ∀ k0_t35 : Fin k0_t35_loop.trips, ∀ a, (k0_off343 k0_t35) a + S1x16.size a ≤ S1x4096.size a
  k0_off344_inb : ∀ k0_t35 : Fin k0_t35_loop.trips, ∀ a, (k0_off344 k0_t35) a + S16.size a ≤ S4096.size a
  k0_off345_inb : ∀ k0_t35 : Fin k0_t35_loop.trips, ∀ a, (k0_off345 k0_t35) a + S1x16.size a ≤ S1x4096.size a
  k0_off346_inb : ∀ k0_t35 : Fin k0_t35_loop.trips, ∀ a, (k0_off346 k0_t35) a + S16.size a ≤ S4096.size a
  k0_off347_inb : ∀ k0_t35 : Fin k0_t35_loop.trips, ∀ a, (k0_off347 k0_t35) a + S1x16.size a ≤ S1x4096.size a
  k0_off348_inb : ∀ k0_t35 : Fin k0_t35_loop.trips, ∀ a, (k0_off348 k0_t35) a + S16.size a ≤ S4096.size a
  k0_off349_inb : ∀ k0_t35 : Fin k0_t35_loop.trips, ∀ a, (k0_off349 k0_t35) a + S1x16.size a ≤ S1x4096.size a
  k0_off350_inb : ∀ i : grid0.Coords, ∀ a, (k0_off350 i) a + S1x1x4096.size a ≤ S40x64x4096.size a
  k0_off351_inb : ∀ i : grid0.Coords, ∀ a, (k0_off351 i) a + S1x1x100000.size a ≤ S26x64x100000.size a
  k0_off352_inb : ∀ i : grid0.Coords, ∀ a, (k0_off352 i) a + S1x1x4096.size a ≤ S40x64x4096.size a
  k0_t36_ok : k0_t36_loop.OK
  k0_off353_inb : ∀ k0_t36 : Fin k0_t36_loop.trips, ∀ a, (k0_off353 k0_t36) a + S16.size a ≤ S4096.size a
  k0_off354_inb : ∀ k0_t36 : Fin k0_t36_loop.trips, ∀ a, (k0_off354 k0_t36) a + S1x16.size a ≤ S1x4096.size a
  k0_off355_inb : ∀ k0_t36 : Fin k0_t36_loop.trips, ∀ a, (k0_off355 k0_t36) a + S16.size a ≤ S4096.size a
  k0_off356_inb : ∀ k0_t36 : Fin k0_t36_loop.trips, ∀ a, (k0_off356 k0_t36) a + S1x16.size a ≤ S1x4096.size a
  k0_off357_inb : ∀ k0_t36 : Fin k0_t36_loop.trips, ∀ a, (k0_off357 k0_t36) a + S16.size a ≤ S4096.size a
  k0_off358_inb : ∀ k0_t36 : Fin k0_t36_loop.trips, ∀ a, (k0_off358 k0_t36) a + S1x16.size a ≤ S1x4096.size a
  k0_off359_inb : ∀ k0_t36 : Fin k0_t36_loop.trips, ∀ a, (k0_off359 k0_t36) a + S16.size a ≤ S4096.size a
  k0_off360_inb : ∀ k0_t36 : Fin k0_t36_loop.trips, ∀ a, (k0_off360 k0_t36) a + S1x16.size a ≤ S1x4096.size a
  k0_off361_inb : ∀ i : grid0.Coords, ∀ (r : Fin 2), ∀ a, (k0_off361 i (BitVec.ofNat 32 r.val)) a + S1x1x4096.size a ≤ S40x64x4096.size a
  k0_off362_inb : ∀ i : grid0.Coords, ∀ a, (k0_off362 i) a + S1x1x100000.size a ≤ S26x64x100000.size a
  k0_t37_ok : k0_t37_loop.OK
  k0_off363_inb : ∀ k0_t37 : Fin k0_t37_loop.trips, ∀ a, (k0_off363 k0_t37) a + S16.size a ≤ S4096.size a
  k0_off364_inb : ∀ k0_t37 : Fin k0_t37_loop.trips, ∀ a, (k0_off364 k0_t37) a + S1x16.size a ≤ S1x4096.size a
  k0_off365_inb : ∀ k0_t37 : Fin k0_t37_loop.trips, ∀ a, (k0_off365 k0_t37) a + S16.size a ≤ S4096.size a
  k0_off366_inb : ∀ k0_t37 : Fin k0_t37_loop.trips, ∀ a, (k0_off366 k0_t37) a + S1x16.size a ≤ S1x4096.size a
  k0_off367_inb : ∀ k0_t37 : Fin k0_t37_loop.trips, ∀ a, (k0_off367 k0_t37) a + S16.size a ≤ S4096.size a
  k0_off368_inb : ∀ k0_t37 : Fin k0_t37_loop.trips, ∀ a, (k0_off368 k0_t37) a + S1x16.size a ≤ S1x4096.size a
  k0_off369_inb : ∀ k0_t37 : Fin k0_t37_loop.trips, ∀ a, (k0_off369 k0_t37) a + S16.size a ≤ S4096.size a
  k0_off370_inb : ∀ k0_t37 : Fin k0_t37_loop.trips, ∀ a, (k0_off370 k0_t37) a + S1x16.size a ≤ S1x4096.size a
  k0_off371_inb : ∀ i : grid0.Coords, ∀ a, (k0_off371 i) a + S1x1x4096.size a ≤ S40x64x4096.size a
  k0_off372_inb : ∀ i : grid0.Coords, ∀ a, (k0_off372 i) a + S1x1x100000.size a ≤ S26x64x100000.size a
  k0_off373_inb : ∀ i : grid0.Coords, ∀ a, (k0_off373 i) a + S1x1x4096.size a ≤ S40x64x4096.size a
  k0_t38_ok : k0_t38_loop.OK
  k0_off374_inb : ∀ k0_t38 : Fin k0_t38_loop.trips, ∀ a, (k0_off374 k0_t38) a + S16.size a ≤ S4096.size a
  k0_off375_inb : ∀ k0_t38 : Fin k0_t38_loop.trips, ∀ a, (k0_off375 k0_t38) a + S1x16.size a ≤ S1x4096.size a
  k0_off376_inb : ∀ k0_t38 : Fin k0_t38_loop.trips, ∀ a, (k0_off376 k0_t38) a + S16.size a ≤ S4096.size a
  k0_off377_inb : ∀ k0_t38 : Fin k0_t38_loop.trips, ∀ a, (k0_off377 k0_t38) a + S1x16.size a ≤ S1x4096.size a
  k0_off378_inb : ∀ k0_t38 : Fin k0_t38_loop.trips, ∀ a, (k0_off378 k0_t38) a + S16.size a ≤ S4096.size a
  k0_off379_inb : ∀ k0_t38 : Fin k0_t38_loop.trips, ∀ a, (k0_off379 k0_t38) a + S1x16.size a ≤ S1x4096.size a
  k0_off380_inb : ∀ k0_t38 : Fin k0_t38_loop.trips, ∀ a, (k0_off380 k0_t38) a + S16.size a ≤ S4096.size a
  k0_off381_inb : ∀ k0_t38 : Fin k0_t38_loop.trips, ∀ a, (k0_off381 k0_t38) a + S1x16.size a ≤ S1x4096.size a
  k0_off382_inb : ∀ i : grid0.Coords, ∀ (r : Fin 2), ∀ a, (k0_off382 i (BitVec.ofNat 32 r.val)) a + S1x1x4096.size a ≤ S40x64x4096.size a
  k0_off383_inb : ∀ i : grid0.Coords, ∀ a, (k0_off383 i) a + S1x1x100000.size a ≤ S26x64x100000.size a
  k0_t39_ok : k0_t39_loop.OK
  k0_off384_inb : ∀ k0_t39 : Fin k0_t39_loop.trips, ∀ a, (k0_off384 k0_t39) a + S16.size a ≤ S4096.size a
  k0_off385_inb : ∀ k0_t39 : Fin k0_t39_loop.trips, ∀ a, (k0_off385 k0_t39) a + S1x16.size a ≤ S1x4096.size a
  k0_off386_inb : ∀ k0_t39 : Fin k0_t39_loop.trips, ∀ a, (k0_off386 k0_t39) a + S16.size a ≤ S4096.size a
  k0_off387_inb : ∀ k0_t39 : Fin k0_t39_loop.trips, ∀ a, (k0_off387 k0_t39) a + S1x16.size a ≤ S1x4096.size a
  k0_off388_inb : ∀ k0_t39 : Fin k0_t39_loop.trips, ∀ a, (k0_off388 k0_t39) a + S16.size a ≤ S4096.size a
  k0_off389_inb : ∀ k0_t39 : Fin k0_t39_loop.trips, ∀ a, (k0_off389 k0_t39) a + S1x16.size a ≤ S1x4096.size a
  k0_off390_inb : ∀ k0_t39 : Fin k0_t39_loop.trips, ∀ a, (k0_off390 k0_t39) a + S16.size a ≤ S4096.size a
  k0_off391_inb : ∀ k0_t39 : Fin k0_t39_loop.trips, ∀ a, (k0_off391 k0_t39) a + S1x16.size a ≤ S1x4096.size a
  k0_off392_inb : ∀ i : grid0.Coords, ∀ a, (k0_off392 i) a + S1x1x4096.size a ≤ S40x64x4096.size a
  k0_off393_inb : ∀ i : grid0.Coords, ∀ a, (k0_off393 i) a + S1x1x100000.size a ≤ S26x64x100000.size a
  k0_off394_inb : ∀ i : grid0.Coords, ∀ a, (k0_off394 i) a + S1x1x4096.size a ≤ S40x64x4096.size a
  k0_t40_ok : k0_t40_loop.OK
  k0_off395_inb : ∀ k0_t40 : Fin k0_t40_loop.trips, ∀ a, (k0_off395 k0_t40) a + S16.size a ≤ S4096.size a
  k0_off396_inb : ∀ k0_t40 : Fin k0_t40_loop.trips, ∀ a, (k0_off396 k0_t40) a + S1x16.size a ≤ S1x4096.size a
  k0_off397_inb : ∀ k0_t40 : Fin k0_t40_loop.trips, ∀ a, (k0_off397 k0_t40) a + S16.size a ≤ S4096.size a
  k0_off398_inb : ∀ k0_t40 : Fin k0_t40_loop.trips, ∀ a, (k0_off398 k0_t40) a + S1x16.size a ≤ S1x4096.size a
  k0_off399_inb : ∀ k0_t40 : Fin k0_t40_loop.trips, ∀ a, (k0_off399 k0_t40) a + S16.size a ≤ S4096.size a
  k0_off400_inb : ∀ k0_t40 : Fin k0_t40_loop.trips, ∀ a, (k0_off400 k0_t40) a + S1x16.size a ≤ S1x4096.size a
  k0_off401_inb : ∀ k0_t40 : Fin k0_t40_loop.trips, ∀ a, (k0_off401 k0_t40) a + S16.size a ≤ S4096.size a
  k0_off402_inb : ∀ k0_t40 : Fin k0_t40_loop.trips, ∀ a, (k0_off402 k0_t40) a + S1x16.size a ≤ S1x4096.size a
  k0_off403_inb : ∀ i : grid0.Coords, ∀ (r : Fin 2), ∀ a, (k0_off403 i (BitVec.ofNat 32 r.val)) a + S1x1x4096.size a ≤ S40x64x4096.size a
  k0_off404_inb : ∀ i : grid0.Coords, ∀ a, (k0_off404 i) a + S1x1x100000.size a ≤ S26x64x100000.size a
  k0_t41_ok : k0_t41_loop.OK
  k0_off405_inb : ∀ k0_t41 : Fin k0_t41_loop.trips, ∀ a, (k0_off405 k0_t41) a + S16.size a ≤ S4096.size a
  k0_off406_inb : ∀ k0_t41 : Fin k0_t41_loop.trips, ∀ a, (k0_off406 k0_t41) a + S1x16.size a ≤ S1x4096.size a
  k0_off407_inb : ∀ k0_t41 : Fin k0_t41_loop.trips, ∀ a, (k0_off407 k0_t41) a + S16.size a ≤ S4096.size a
  k0_off408_inb : ∀ k0_t41 : Fin k0_t41_loop.trips, ∀ a, (k0_off408 k0_t41) a + S1x16.size a ≤ S1x4096.size a
  k0_off409_inb : ∀ k0_t41 : Fin k0_t41_loop.trips, ∀ a, (k0_off409 k0_t41) a + S16.size a ≤ S4096.size a
  k0_off410_inb : ∀ k0_t41 : Fin k0_t41_loop.trips, ∀ a, (k0_off410 k0_t41) a + S1x16.size a ≤ S1x4096.size a
  k0_off411_inb : ∀ k0_t41 : Fin k0_t41_loop.trips, ∀ a, (k0_off411 k0_t41) a + S16.size a ≤ S4096.size a
  k0_off412_inb : ∀ k0_t41 : Fin k0_t41_loop.trips, ∀ a, (k0_off412 k0_t41) a + S1x16.size a ≤ S1x4096.size a
  k0_off413_inb : ∀ i : grid0.Coords, ∀ a, (k0_off413 i) a + S1x1x4096.size a ≤ S40x64x4096.size a
  k0_off414_inb : ∀ i : grid0.Coords, ∀ a, (k0_off414 i) a + S1x1x100000.size a ≤ S26x64x100000.size a
  k0_off415_inb : ∀ i : grid0.Coords, ∀ a, (k0_off415 i) a + S1x1x4096.size a ≤ S40x64x4096.size a
  k0_t42_ok : k0_t42_loop.OK
  k0_off416_inb : ∀ k0_t42 : Fin k0_t42_loop.trips, ∀ a, (k0_off416 k0_t42) a + S16.size a ≤ S4096.size a
  k0_off417_inb : ∀ k0_t42 : Fin k0_t42_loop.trips, ∀ a, (k0_off417 k0_t42) a + S1x16.size a ≤ S1x4096.size a
  k0_off418_inb : ∀ k0_t42 : Fin k0_t42_loop.trips, ∀ a, (k0_off418 k0_t42) a + S16.size a ≤ S4096.size a
  k0_off419_inb : ∀ k0_t42 : Fin k0_t42_loop.trips, ∀ a, (k0_off419 k0_t42) a + S1x16.size a ≤ S1x4096.size a
  k0_off420_inb : ∀ k0_t42 : Fin k0_t42_loop.trips, ∀ a, (k0_off420 k0_t42) a + S16.size a ≤ S4096.size a
  k0_off421_inb : ∀ k0_t42 : Fin k0_t42_loop.trips, ∀ a, (k0_off421 k0_t42) a + S1x16.size a ≤ S1x4096.size a
  k0_off422_inb : ∀ k0_t42 : Fin k0_t42_loop.trips, ∀ a, (k0_off422 k0_t42) a + S16.size a ≤ S4096.size a
  k0_off423_inb : ∀ k0_t42 : Fin k0_t42_loop.trips, ∀ a, (k0_off423 k0_t42) a + S1x16.size a ≤ S1x4096.size a
  k0_off424_inb : ∀ i : grid0.Coords, ∀ (r : Fin 2), ∀ a, (k0_off424 i (BitVec.ofNat 32 r.val)) a + S1x1x4096.size a ≤ S40x64x4096.size a
  k0_off425_inb : ∀ i : grid0.Coords, ∀ a, (k0_off425 i) a + S1x1x100000.size a ≤ S26x64x100000.size a
  k0_t43_ok : k0_t43_loop.OK
  k0_off426_inb : ∀ k0_t43 : Fin k0_t43_loop.trips, ∀ a, (k0_off426 k0_t43) a + S16.size a ≤ S4096.size a
  k0_off427_inb : ∀ k0_t43 : Fin k0_t43_loop.trips, ∀ a, (k0_off427 k0_t43) a + S1x16.size a ≤ S1x4096.size a
  k0_off428_inb : ∀ k0_t43 : Fin k0_t43_loop.trips, ∀ a, (k0_off428 k0_t43) a + S16.size a ≤ S4096.size a
  k0_off429_inb : ∀ k0_t43 : Fin k0_t43_loop.trips, ∀ a, (k0_off429 k0_t43) a + S1x16.size a ≤ S1x4096.size a
  k0_off430_inb : ∀ k0_t43 : Fin k0_t43_loop.trips, ∀ a, (k0_off430 k0_t43) a + S16.size a ≤ S4096.size a
  k0_off431_inb : ∀ k0_t43 : Fin k0_t43_loop.trips, ∀ a, (k0_off431 k0_t43) a + S1x16.size a ≤ S1x4096.size a
  k0_off432_inb : ∀ k0_t43 : Fin k0_t43_loop.trips, ∀ a, (k0_off432 k0_t43) a + S16.size a ≤ S4096.size a
  k0_off433_inb : ∀ k0_t43 : Fin k0_t43_loop.trips, ∀ a, (k0_off433 k0_t43) a + S1x16.size a ≤ S1x4096.size a
  k0_off434_inb : ∀ i : grid0.Coords, ∀ a, (k0_off434 i) a + S1x1x4096.size a ≤ S40x64x4096.size a
  k0_off435_inb : ∀ i : grid0.Coords, ∀ a, (k0_off435 i) a + S1x1x100000.size a ≤ S26x64x100000.size a
  k0_off436_inb : ∀ i : grid0.Coords, ∀ a, (k0_off436 i) a + S1x1x4096.size a ≤ S40x64x4096.size a
  k0_t44_ok : k0_t44_loop.OK
  k0_off437_inb : ∀ k0_t44 : Fin k0_t44_loop.trips, ∀ a, (k0_off437 k0_t44) a + S16.size a ≤ S4096.size a
  k0_off438_inb : ∀ k0_t44 : Fin k0_t44_loop.trips, ∀ a, (k0_off438 k0_t44) a + S1x16.size a ≤ S1x4096.size a
  k0_off439_inb : ∀ k0_t44 : Fin k0_t44_loop.trips, ∀ a, (k0_off439 k0_t44) a + S16.size a ≤ S4096.size a
  k0_off440_inb : ∀ k0_t44 : Fin k0_t44_loop.trips, ∀ a, (k0_off440 k0_t44) a + S1x16.size a ≤ S1x4096.size a
  k0_off441_inb : ∀ k0_t44 : Fin k0_t44_loop.trips, ∀ a, (k0_off441 k0_t44) a + S16.size a ≤ S4096.size a
  k0_off442_inb : ∀ k0_t44 : Fin k0_t44_loop.trips, ∀ a, (k0_off442 k0_t44) a + S1x16.size a ≤ S1x4096.size a
  k0_off443_inb : ∀ k0_t44 : Fin k0_t44_loop.trips, ∀ a, (k0_off443 k0_t44) a + S16.size a ≤ S4096.size a
  k0_off444_inb : ∀ k0_t44 : Fin k0_t44_loop.trips, ∀ a, (k0_off444 k0_t44) a + S1x16.size a ≤ S1x4096.size a
  k0_off445_inb : ∀ i : grid0.Coords, ∀ (r : Fin 2), ∀ a, (k0_off445 i (BitVec.ofNat 32 r.val)) a + S1x1x4096.size a ≤ S40x64x4096.size a
  k0_off446_inb : ∀ i : grid0.Coords, ∀ a, (k0_off446 i) a + S1x1x100000.size a ≤ S26x64x100000.size a
  k0_t45_ok : k0_t45_loop.OK
  k0_off447_inb : ∀ k0_t45 : Fin k0_t45_loop.trips, ∀ a, (k0_off447 k0_t45) a + S16.size a ≤ S4096.size a
  k0_off448_inb : ∀ k0_t45 : Fin k0_t45_loop.trips, ∀ a, (k0_off448 k0_t45) a + S1x16.size a ≤ S1x4096.size a
  k0_off449_inb : ∀ k0_t45 : Fin k0_t45_loop.trips, ∀ a, (k0_off449 k0_t45) a + S16.size a ≤ S4096.size a
  k0_off450_inb : ∀ k0_t45 : Fin k0_t45_loop.trips, ∀ a, (k0_off450 k0_t45) a + S1x16.size a ≤ S1x4096.size a
  k0_off451_inb : ∀ k0_t45 : Fin k0_t45_loop.trips, ∀ a, (k0_off451 k0_t45) a + S16.size a ≤ S4096.size a
  k0_off452_inb : ∀ k0_t45 : Fin k0_t45_loop.trips, ∀ a, (k0_off452 k0_t45) a + S1x16.size a ≤ S1x4096.size a
  k0_off453_inb : ∀ k0_t45 : Fin k0_t45_loop.trips, ∀ a, (k0_off453 k0_t45) a + S16.size a ≤ S4096.size a
  k0_off454_inb : ∀ k0_t45 : Fin k0_t45_loop.trips, ∀ a, (k0_off454 k0_t45) a + S1x16.size a ≤ S1x4096.size a
  k0_off455_inb : ∀ i : grid0.Coords, ∀ a, (k0_off455 i) a + S1x1x4096.size a ≤ S40x64x4096.size a
  k0_off456_inb : ∀ i : grid0.Coords, ∀ a, (k0_off456 i) a + S1x1x100000.size a ≤ S26x64x100000.size a
  k0_off457_inb : ∀ i : grid0.Coords, ∀ a, (k0_off457 i) a + S1x1x4096.size a ≤ S40x64x4096.size a
  k0_t46_ok : k0_t46_loop.OK
  k0_off458_inb : ∀ k0_t46 : Fin k0_t46_loop.trips, ∀ a, (k0_off458 k0_t46) a + S16.size a ≤ S4096.size a
  k0_off459_inb : ∀ k0_t46 : Fin k0_t46_loop.trips, ∀ a, (k0_off459 k0_t46) a + S1x16.size a ≤ S1x4096.size a
  k0_off460_inb : ∀ k0_t46 : Fin k0_t46_loop.trips, ∀ a, (k0_off460 k0_t46) a + S16.size a ≤ S4096.size a
  k0_off461_inb : ∀ k0_t46 : Fin k0_t46_loop.trips, ∀ a, (k0_off461 k0_t46) a + S1x16.size a ≤ S1x4096.size a
  k0_off462_inb : ∀ k0_t46 : Fin k0_t46_loop.trips, ∀ a, (k0_off462 k0_t46) a + S16.size a ≤ S4096.size a
  k0_off463_inb : ∀ k0_t46 : Fin k0_t46_loop.trips, ∀ a, (k0_off463 k0_t46) a + S1x16.size a ≤ S1x4096.size a
  k0_off464_inb : ∀ k0_t46 : Fin k0_t46_loop.trips, ∀ a, (k0_off464 k0_t46) a + S16.size a ≤ S4096.size a
  k0_off465_inb : ∀ k0_t46 : Fin k0_t46_loop.trips, ∀ a, (k0_off465 k0_t46) a + S1x16.size a ≤ S1x4096.size a
  k0_off466_inb : ∀ i : grid0.Coords, ∀ (r : Fin 2), ∀ a, (k0_off466 i (BitVec.ofNat 32 r.val)) a + S1x1x4096.size a ≤ S40x64x4096.size a
  k0_off467_inb : ∀ i : grid0.Coords, ∀ a, (k0_off467 i) a + S1x1x100000.size a ≤ S26x64x100000.size a
  k0_t47_ok : k0_t47_loop.OK
  k0_off468_inb : ∀ k0_t47 : Fin k0_t47_loop.trips, ∀ a, (k0_off468 k0_t47) a + S16.size a ≤ S4096.size a
  k0_off469_inb : ∀ k0_t47 : Fin k0_t47_loop.trips, ∀ a, (k0_off469 k0_t47) a + S1x16.size a ≤ S1x4096.size a
  k0_off470_inb : ∀ k0_t47 : Fin k0_t47_loop.trips, ∀ a, (k0_off470 k0_t47) a + S16.size a ≤ S4096.size a
  k0_off471_inb : ∀ k0_t47 : Fin k0_t47_loop.trips, ∀ a, (k0_off471 k0_t47) a + S1x16.size a ≤ S1x4096.size a
  k0_off472_inb : ∀ k0_t47 : Fin k0_t47_loop.trips, ∀ a, (k0_off472 k0_t47) a + S16.size a ≤ S4096.size a
  k0_off473_inb : ∀ k0_t47 : Fin k0_t47_loop.trips, ∀ a, (k0_off473 k0_t47) a + S1x16.size a ≤ S1x4096.size a
  k0_off474_inb : ∀ k0_t47 : Fin k0_t47_loop.trips, ∀ a, (k0_off474 k0_t47) a + S16.size a ≤ S4096.size a
  k0_off475_inb : ∀ k0_t47 : Fin k0_t47_loop.trips, ∀ a, (k0_off475 k0_t47) a + S1x16.size a ≤ S1x4096.size a
  k0_off476_inb : ∀ i : grid0.Coords, ∀ a, (k0_off476 i) a + S1x1x4096.size a ≤ S40x64x4096.size a
  k0_off477_inb : ∀ i : grid0.Coords, ∀ a, (k0_off477 i) a + S1x1x100000.size a ≤ S26x64x100000.size a
  k0_off478_inb : ∀ i : grid0.Coords, ∀ a, (k0_off478 i) a + S1x1x4096.size a ≤ S40x64x4096.size a
  k0_t48_ok : k0_t48_loop.OK
  k0_off479_inb : ∀ k0_t48 : Fin k0_t48_loop.trips, ∀ a, (k0_off479 k0_t48) a + S16.size a ≤ S4096.size a
  k0_off480_inb : ∀ k0_t48 : Fin k0_t48_loop.trips, ∀ a, (k0_off480 k0_t48) a + S1x16.size a ≤ S1x4096.size a
  k0_off481_inb : ∀ k0_t48 : Fin k0_t48_loop.trips, ∀ a, (k0_off481 k0_t48) a + S16.size a ≤ S4096.size a
  k0_off482_inb : ∀ k0_t48 : Fin k0_t48_loop.trips, ∀ a, (k0_off482 k0_t48) a + S1x16.size a ≤ S1x4096.size a
  k0_off483_inb : ∀ k0_t48 : Fin k0_t48_loop.trips, ∀ a, (k0_off483 k0_t48) a + S16.size a ≤ S4096.size a
  k0_off484_inb : ∀ k0_t48 : Fin k0_t48_loop.trips, ∀ a, (k0_off484 k0_t48) a + S1x16.size a ≤ S1x4096.size a
  k0_off485_inb : ∀ k0_t48 : Fin k0_t48_loop.trips, ∀ a, (k0_off485 k0_t48) a + S16.size a ≤ S4096.size a
  k0_off486_inb : ∀ k0_t48 : Fin k0_t48_loop.trips, ∀ a, (k0_off486 k0_t48) a + S1x16.size a ≤ S1x4096.size a
  k0_off487_inb : ∀ i : grid0.Coords, ∀ (r : Fin 2), ∀ a, (k0_off487 i (BitVec.ofNat 32 r.val)) a + S1x1x4096.size a ≤ S40x64x4096.size a
  k0_off488_inb : ∀ i : grid0.Coords, ∀ a, (k0_off488 i) a + S1x1x100000.size a ≤ S26x64x100000.size a
  k0_t49_ok : k0_t49_loop.OK
  k0_off489_inb : ∀ k0_t49 : Fin k0_t49_loop.trips, ∀ a, (k0_off489 k0_t49) a + S16.size a ≤ S4096.size a
  k0_off490_inb : ∀ k0_t49 : Fin k0_t49_loop.trips, ∀ a, (k0_off490 k0_t49) a + S1x16.size a ≤ S1x4096.size a
  k0_off491_inb : ∀ k0_t49 : Fin k0_t49_loop.trips, ∀ a, (k0_off491 k0_t49) a + S16.size a ≤ S4096.size a
  k0_off492_inb : ∀ k0_t49 : Fin k0_t49_loop.trips, ∀ a, (k0_off492 k0_t49) a + S1x16.size a ≤ S1x4096.size a
  k0_off493_inb : ∀ k0_t49 : Fin k0_t49_loop.trips, ∀ a, (k0_off493 k0_t49) a + S16.size a ≤ S4096.size a
  k0_off494_inb : ∀ k0_t49 : Fin k0_t49_loop.trips, ∀ a, (k0_off494 k0_t49) a + S1x16.size a ≤ S1x4096.size a
  k0_off495_inb : ∀ k0_t49 : Fin k0_t49_loop.trips, ∀ a, (k0_off495 k0_t49) a + S16.size a ≤ S4096.size a
  k0_off496_inb : ∀ k0_t49 : Fin k0_t49_loop.trips, ∀ a, (k0_off496 k0_t49) a + S1x16.size a ≤ S1x4096.size a
  k0_off497_inb : ∀ i : grid0.Coords, ∀ a, (k0_off497 i) a + S1x1x4096.size a ≤ S40x64x4096.size a
  k0_off498_inb : ∀ i : grid0.Coords, ∀ a, (k0_off498 i) a + S1x1x100000.size a ≤ S26x64x100000.size a
  k0_off499_inb : ∀ i : grid0.Coords, ∀ a, (k0_off499 i) a + S1x1x4096.size a ≤ S40x64x4096.size a
  k0_t50_ok : k0_t50_loop.OK
  k0_off500_inb : ∀ k0_t50 : Fin k0_t50_loop.trips, ∀ a, (k0_off500 k0_t50) a + S16.size a ≤ S4096.size a
  k0_off501_inb : ∀ k0_t50 : Fin k0_t50_loop.trips, ∀ a, (k0_off501 k0_t50) a + S1x16.size a ≤ S1x4096.size a
  k0_off502_inb : ∀ k0_t50 : Fin k0_t50_loop.trips, ∀ a, (k0_off502 k0_t50) a + S16.size a ≤ S4096.size a
  k0_off503_inb : ∀ k0_t50 : Fin k0_t50_loop.trips, ∀ a, (k0_off503 k0_t50) a + S1x16.size a ≤ S1x4096.size a
  k0_off504_inb : ∀ k0_t50 : Fin k0_t50_loop.trips, ∀ a, (k0_off504 k0_t50) a + S16.size a ≤ S4096.size a
  k0_off505_inb : ∀ k0_t50 : Fin k0_t50_loop.trips, ∀ a, (k0_off505 k0_t50) a + S1x16.size a ≤ S1x4096.size a
  k0_off506_inb : ∀ k0_t50 : Fin k0_t50_loop.trips, ∀ a, (k0_off506 k0_t50) a + S16.size a ≤ S4096.size a
  k0_off507_inb : ∀ k0_t50 : Fin k0_t50_loop.trips, ∀ a, (k0_off507 k0_t50) a + S1x16.size a ≤ S1x4096.size a
  k0_off508_inb : ∀ i : grid0.Coords, ∀ (r : Fin 2), ∀ a, (k0_off508 i (BitVec.ofNat 32 r.val)) a + S1x1x4096.size a ≤ S40x64x4096.size a
  k0_off509_inb : ∀ i : grid0.Coords, ∀ a, (k0_off509 i) a + S1x1x100000.size a ≤ S26x64x100000.size a
  k0_t51_ok : k0_t51_loop.OK
  k0_off510_inb : ∀ k0_t51 : Fin k0_t51_loop.trips, ∀ a, (k0_off510 k0_t51) a + S16.size a ≤ S4096.size a
  k0_off511_inb : ∀ k0_t51 : Fin k0_t51_loop.trips, ∀ a, (k0_off511 k0_t51) a + S1x16.size a ≤ S1x4096.size a
  k0_off512_inb : ∀ k0_t51 : Fin k0_t51_loop.trips, ∀ a, (k0_off512 k0_t51) a + S16.size a ≤ S4096.size a
  k0_off513_inb : ∀ k0_t51 : Fin k0_t51_loop.trips, ∀ a, (k0_off513 k0_t51) a + S1x16.size a ≤ S1x4096.size a
  k0_off514_inb : ∀ k0_t51 : Fin k0_t51_loop.trips, ∀ a, (k0_off514 k0_t51) a + S16.size a ≤ S4096.size a
  k0_off515_inb : ∀ k0_t51 : Fin k0_t51_loop.trips, ∀ a, (k0_off515 k0_t51) a + S1x16.size a ≤ S1x4096.size a
  k0_off516_inb : ∀ k0_t51 : Fin k0_t51_loop.trips, ∀ a, (k0_off516 k0_t51) a + S16.size a ≤ S4096.size a
  k0_off517_inb : ∀ k0_t51 : Fin k0_t51_loop.trips, ∀ a, (k0_off517 k0_t51) a + S1x16.size a ≤ S1x4096.size a
  k0_off518_inb : ∀ i : grid0.Coords, ∀ a, (k0_off518 i) a + S1x1x4096.size a ≤ S40x64x4096.size a
  k0_off519_inb : ∀ i : grid0.Coords, ∀ a, (k0_off519 i) a + S1x1x100000.size a ≤ S26x64x100000.size a
  k0_off520_inb : ∀ i : grid0.Coords, ∀ a, (k0_off520 i) a + S1x1x4096.size a ≤ S40x64x4096.size a
  k0_t52_ok : k0_t52_loop.OK
  k0_off521_inb : ∀ k0_t52 : Fin k0_t52_loop.trips, ∀ a, (k0_off521 k0_t52) a + S16.size a ≤ S4096.size a
  k0_off522_inb : ∀ k0_t52 : Fin k0_t52_loop.trips, ∀ a, (k0_off522 k0_t52) a + S1x16.size a ≤ S1x4096.size a
  k0_off523_inb : ∀ k0_t52 : Fin k0_t52_loop.trips, ∀ a, (k0_off523 k0_t52) a + S16.size a ≤ S4096.size a
  k0_off524_inb : ∀ k0_t52 : Fin k0_t52_loop.trips, ∀ a, (k0_off524 k0_t52) a + S1x16.size a ≤ S1x4096.size a
  k0_off525_inb : ∀ k0_t52 : Fin k0_t52_loop.trips, ∀ a, (k0_off525 k0_t52) a + S16.size a ≤ S4096.size a
  k0_off526_inb : ∀ k0_t52 : Fin k0_t52_loop.trips, ∀ a, (k0_off526 k0_t52) a + S1x16.size a ≤ S1x4096.size a
  k0_off527_inb : ∀ k0_t52 : Fin k0_t52_loop.trips, ∀ a, (k0_off527 k0_t52) a + S16.size a ≤ S4096.size a
  k0_off528_inb : ∀ k0_t52 : Fin k0_t52_loop.trips, ∀ a, (k0_off528 k0_t52) a + S1x16.size a ≤ S1x4096.size a
  k0_off529_inb : ∀ i : grid0.Coords, ∀ (r : Fin 2), ∀ a, (k0_off529 i (BitVec.ofNat 32 r.val)) a + S1x1x4096.size a ≤ S40x64x4096.size a
  k0_off530_inb : ∀ i : grid0.Coords, ∀ a, (k0_off530 i) a + S1x1x100000.size a ≤ S26x64x100000.size a
  k0_t53_ok : k0_t53_loop.OK
  k0_off531_inb : ∀ k0_t53 : Fin k0_t53_loop.trips, ∀ a, (k0_off531 k0_t53) a + S16.size a ≤ S4096.size a
  k0_off532_inb : ∀ k0_t53 : Fin k0_t53_loop.trips, ∀ a, (k0_off532 k0_t53) a + S1x16.size a ≤ S1x4096.size a
  k0_off533_inb : ∀ k0_t53 : Fin k0_t53_loop.trips, ∀ a, (k0_off533 k0_t53) a + S16.size a ≤ S4096.size a
  k0_off534_inb : ∀ k0_t53 : Fin k0_t53_loop.trips, ∀ a, (k0_off534 k0_t53) a + S1x16.size a ≤ S1x4096.size a
  k0_off535_inb : ∀ k0_t53 : Fin k0_t53_loop.trips, ∀ a, (k0_off535 k0_t53) a + S16.size a ≤ S4096.size a
  k0_off536_inb : ∀ k0_t53 : Fin k0_t53_loop.trips, ∀ a, (k0_off536 k0_t53) a + S1x16.size a ≤ S1x4096.size a
  k0_off537_inb : ∀ k0_t53 : Fin k0_t53_loop.trips, ∀ a, (k0_off537 k0_t53) a + S16.size a ≤ S4096.size a
  k0_off538_inb : ∀ k0_t53 : Fin k0_t53_loop.trips, ∀ a, (k0_off538 k0_t53) a + S1x16.size a ≤ S1x4096.size a
  k0_off539_inb : ∀ i : grid0.Coords, ∀ a, (k0_off539 i) a + S1x1x4096.size a ≤ S40x64x4096.size a
  k0_off540_inb : ∀ i : grid0.Coords, ∀ a, (k0_off540 i) a + S1x1x100000.size a ≤ S26x64x100000.size a
  k0_off541_inb : ∀ i : grid0.Coords, ∀ a, (k0_off541 i) a + S1x1x4096.size a ≤ S40x64x4096.size a
  k0_t54_ok : k0_t54_loop.OK
  k0_off542_inb : ∀ k0_t54 : Fin k0_t54_loop.trips, ∀ a, (k0_off542 k0_t54) a + S16.size a ≤ S4096.size a
  k0_off543_inb : ∀ k0_t54 : Fin k0_t54_loop.trips, ∀ a, (k0_off543 k0_t54) a + S1x16.size a ≤ S1x4096.size a
  k0_off544_inb : ∀ k0_t54 : Fin k0_t54_loop.trips, ∀ a, (k0_off544 k0_t54) a + S16.size a ≤ S4096.size a
  k0_off545_inb : ∀ k0_t54 : Fin k0_t54_loop.trips, ∀ a, (k0_off545 k0_t54) a + S1x16.size a ≤ S1x4096.size a
  k0_off546_inb : ∀ k0_t54 : Fin k0_t54_loop.trips, ∀ a, (k0_off546 k0_t54) a + S16.size a ≤ S4096.size a
  k0_off547_inb : ∀ k0_t54 : Fin k0_t54_loop.trips, ∀ a, (k0_off547 k0_t54) a + S1x16.size a ≤ S1x4096.size a
  k0_off548_inb : ∀ k0_t54 : Fin k0_t54_loop.trips, ∀ a, (k0_off548 k0_t54) a + S16.size a ≤ S4096.size a
  k0_off549_inb : ∀ k0_t54 : Fin k0_t54_loop.trips, ∀ a, (k0_off549 k0_t54) a + S1x16.size a ≤ S1x4096.size a
  k0_off550_inb : ∀ i : grid0.Coords, ∀ a, (k0_off550 i) a + S1x1x4096.size a ≤ S40x64x4096.size a
  k0_off551_inb : ∀ i : grid0.Coords, ∀ a, (k0_off551 i) a + S1x1x4096.size a ≤ S40x64x4096.size a
  k0_t55_ok : k0_t55_loop.OK
  k0_off552_inb : ∀ k0_t55 : Fin k0_t55_loop.trips, ∀ (r : Fin 4), ∀ a, (k0_off552 k0_t55 (BitVec.ofNat 32 (16 * r.val))) a + S16.size a ≤ S4096.size a
  k0_off553_inb : ∀ k0_t55 : Fin k0_t55_loop.trips, ∀ (r : Fin 4), ∀ a, (k0_off553 k0_t55 (BitVec.ofNat 32 (16 * r.val))) a + S1x16.size a ≤ S1x4096.size a
  k0_off554_inb : ∀ i : grid0.Coords, ∀ a, (k0_off554 i) a + S1x1x4096.size a ≤ S40x64x4096.size a
  k0_off555_inb : ∀ i : grid0.Coords, ∀ a, (k0_off555 i) a + S1x1x4096.size a ≤ S40x64x4096.size a
  k0_t56_ok : k0_t56_loop.OK
  k0_off556_inb : ∀ k0_t56 : Fin k0_t56_loop.trips, ∀ (r : Fin 4), ∀ a, (k0_off556 k0_t56 (BitVec.ofNat 32 (16 * r.val))) a + S16.size a ≤ S4096.size a
  k0_off557_inb : ∀ k0_t56 : Fin k0_t56_loop.trips, ∀ (r : Fin 4), ∀ a, (k0_off557 k0_t56 (BitVec.ofNat 32 (16 * r.val))) a + S1x16.size a ≤ S1x4096.size a
  k0_off558_inb : ∀ i : grid0.Coords, ∀ a, (k0_off558 i) a + S1x1x4096.size a ≤ S40x64x4096.size a
  k0_off559_inb : ∀ i : grid0.Coords, ∀ a, (k0_off559 i) a + S1x1x4096.size a ≤ S40x64x4096.size a
  k0_t57_ok : k0_t57_loop.OK
  k0_off560_inb : ∀ k0_t57 : Fin k0_t57_loop.trips, ∀ (r : Fin 4), ∀ a, (k0_off560 k0_t57 (BitVec.ofNat 32 (16 * r.val))) a + S16.size a ≤ S4096.size a
  k0_off561_inb : ∀ k0_t57 : Fin k0_t57_loop.trips, ∀ (r : Fin 4), ∀ a, (k0_off561 k0_t57 (BitVec.ofNat 32 (16 * r.val))) a + S1x16.size a ≤ S1x4096.size a
  k0_off562_inb : ∀ i : grid0.Coords, ∀ a, (k0_off562 i) a + S1x1x4096.size a ≤ S40x64x4096.size a
  k0_off563_inb : ∀ i : grid0.Coords, ∀ a, (k0_off563 i) a + S1x1x4096.size a ≤ S40x64x4096.size a
  k0_t58_ok : k0_t58_loop.OK
  k0_off564_inb : ∀ k0_t58 : Fin k0_t58_loop.trips, ∀ (r : Fin 4), ∀ a, (k0_off564 k0_t58 (BitVec.ofNat 32 (16 * r.val))) a + S16.size a ≤ S4096.size a
  k0_off565_inb : ∀ k0_t58 : Fin k0_t58_loop.trips, ∀ (r : Fin 4), ∀ a, (k0_off565 k0_t58 (BitVec.ofNat 32 (16 * r.val))) a + S1x16.size a ≤ S1x4096.size a
  k0_off566_inb : ∀ i : grid0.Coords, ∀ a, (k0_off566 i) a + S1x1x4096.size a ≤ S40x64x4096.size a
  k0_off567_inb : ∀ i : grid0.Coords, ∀ a, (k0_off567 i) a + S1x1x4096.size a ≤ S40x64x4096.size a
  k0_t59_ok : k0_t59_loop.OK
  k0_off568_inb : ∀ k0_t59 : Fin k0_t59_loop.trips, ∀ (r : Fin 4), ∀ a, (k0_off568 k0_t59 (BitVec.ofNat 32 (16 * r.val))) a + S16.size a ≤ S4096.size a
  k0_off569_inb : ∀ k0_t59 : Fin k0_t59_loop.trips, ∀ (r : Fin 4), ∀ a, (k0_off569 k0_t59 (BitVec.ofNat 32 (16 * r.val))) a + S1x16.size a ≤ S1x4096.size a
  k0_off570_inb : ∀ i : grid0.Coords, ∀ a, (k0_off570 i) a + S1x1x4096.size a ≤ S40x64x4096.size a
  k0_off571_inb : ∀ i : grid0.Coords, ∀ a, (k0_off571 i) a + S1x1x4096.size a ≤ S40x64x4096.size a
  k0_t60_ok : k0_t60_loop.OK
  k0_off572_inb : ∀ k0_t60 : Fin k0_t60_loop.trips, ∀ (r : Fin 4), ∀ a, (k0_off572 k0_t60 (BitVec.ofNat 32 (16 * r.val))) a + S16.size a ≤ S4096.size a
  k0_off573_inb : ∀ k0_t60 : Fin k0_t60_loop.trips, ∀ (r : Fin 4), ∀ a, (k0_off573 k0_t60 (BitVec.ofNat 32 (16 * r.val))) a + S1x16.size a ≤ S1x4096.size a
  k0_off574_inb : ∀ i : grid0.Coords, ∀ a, (k0_off574 i) a + S1x1x4096.size a ≤ S40x64x4096.size a
  k0_off575_inb : ∀ i : grid0.Coords, ∀ a, (k0_off575 i) a + S1x1x4096.size a ≤ S40x64x4096.size a
  k0_t61_ok : k0_t61_loop.OK
  k0_off576_inb : ∀ k0_t61 : Fin k0_t61_loop.trips, ∀ (r : Fin 4), ∀ a, (k0_off576 k0_t61 (BitVec.ofNat 32 (16 * r.val))) a + S16.size a ≤ S4096.size a
  k0_off577_inb : ∀ k0_t61 : Fin k0_t61_loop.trips, ∀ (r : Fin 4), ∀ a, (k0_off577 k0_t61 (BitVec.ofNat 32 (16 * r.val))) a + S1x16.size a ≤ S1x4096.size a
  k0_off578_inb : ∀ i : grid0.Coords, ∀ a, (k0_off578 i) a + S1x1x4096.size a ≤ S40x64x4096.size a
  k0_off579_inb : ∀ i : grid0.Coords, ∀ a, (k0_off579 i) a + S1x1x4096.size a ≤ S40x64x4096.size a
  k0_t62_ok : k0_t62_loop.OK
  k0_off580_inb : ∀ k0_t62 : Fin k0_t62_loop.trips, ∀ (r : Fin 4), ∀ a, (k0_off580 k0_t62 (BitVec.ofNat 32 (16 * r.val))) a + S16.size a ≤ S4096.size a
  k0_off581_inb : ∀ k0_t62 : Fin k0_t62_loop.trips, ∀ (r : Fin 4), ∀ a, (k0_off581 k0_t62 (BitVec.ofNat 32 (16 * r.val))) a + S1x16.size a ≤ S1x4096.size a
  k0_off582_inb : ∀ i : grid0.Coords, ∀ a, (k0_off582 i) a + S1x1x4096.size a ≤ S40x64x4096.size a
  k0_off583_inb : ∀ i : grid0.Coords, ∀ a, (k0_off583 i) a + S1x1x4096.size a ≤ S40x64x4096.size a
  k0_t63_ok : k0_t63_loop.OK
  k0_off584_inb : ∀ k0_t63 : Fin k0_t63_loop.trips, ∀ (r : Fin 4), ∀ a, (k0_off584 k0_t63 (BitVec.ofNat 32 (16 * r.val))) a + S16.size a ≤ S4096.size a
  k0_off585_inb : ∀ k0_t63 : Fin k0_t63_loop.trips, ∀ (r : Fin 4), ∀ a, (k0_off585 k0_t63 (BitVec.ofNat 32 (16 * r.val))) a + S1x16.size a ≤ S1x4096.size a
  k0_off586_inb : ∀ i : grid0.Coords, ∀ a, (k0_off586 i) a + S1x1x4096.size a ≤ S40x64x4096.size a
  k0_off587_inb : ∀ i : grid0.Coords, ∀ a, (k0_off587 i) a + S1x1x4096.size a ≤ S40x64x4096.size a
  k0_t64_ok : k0_t64_loop.OK
  k0_off588_inb : ∀ k0_t64 : Fin k0_t64_loop.trips, ∀ (r : Fin 4), ∀ a, (k0_off588 k0_t64 (BitVec.ofNat 32 (16 * r.val))) a + S16.size a ≤ S4096.size a
  k0_off589_inb : ∀ k0_t64 : Fin k0_t64_loop.trips, ∀ (r : Fin 4), ∀ a, (k0_off589 k0_t64 (BitVec.ofNat 32 (16 * r.val))) a + S1x16.size a ≤ S1x4096.size a
  k0_off590_inb : ∀ i : grid0.Coords, ∀ a, (k0_off590 i) a + S1x1x4096.size a ≤ S40x64x4096.size a
  k0_off591_inb : ∀ i : grid0.Coords, ∀ a, (k0_off591 i) a + S1x1x4096.size a ≤ S40x64x4096.size a
  k0_t65_ok : k0_t65_loop.OK
  k0_off592_inb : ∀ k0_t65 : Fin k0_t65_loop.trips, ∀ (r : Fin 4), ∀ a, (k0_off592 k0_t65 (BitVec.ofNat 32 (16 * r.val))) a + S16.size a ≤ S4096.size a
  k0_off593_inb : ∀ k0_t65 : Fin k0_t65_loop.trips, ∀ (r : Fin 4), ∀ a, (k0_off593 k0_t65 (BitVec.ofNat 32 (16 * r.val))) a + S1x16.size a ≤ S1x4096.size a
  k0_off594_inb : ∀ i : grid0.Coords, ∀ a, (k0_off594 i) a + S1x1x4096.size a ≤ S40x64x4096.size a
  k0_off595_inb : ∀ i : grid0.Coords, ∀ a, (k0_off595 i) a + S1x1x4096.size a ≤ S40x64x4096.size a
  k0_t66_ok : k0_t66_loop.OK
  k0_off596_inb : ∀ k0_t66 : Fin k0_t66_loop.trips, ∀ (r : Fin 4), ∀ a, (k0_off596 k0_t66 (BitVec.ofNat 32 (16 * r.val))) a + S16.size a ≤ S4096.size a
  k0_off597_inb : ∀ k0_t66 : Fin k0_t66_loop.trips, ∀ (r : Fin 4), ∀ a, (k0_off597 k0_t66 (BitVec.ofNat 32 (16 * r.val))) a + S1x16.size a ≤ S1x4096.size a
  k0_off598_inb : ∀ i : grid0.Coords, ∀ a, (k0_off598 i) a + S1x1x4096.size a ≤ S40x64x4096.size a
  k0_off599_inb : ∀ i : grid0.Coords, ∀ a, (k0_off599 i) a + S1x1x4096.size a ≤ S40x64x4096.size a
  k0_t67_ok : k0_t67_loop.OK
  k0_off600_inb : ∀ k0_t67 : Fin k0_t67_loop.trips, ∀ (r : Fin 4), ∀ a, (k0_off600 k0_t67 (BitVec.ofNat 32 (16 * r.val))) a + S16.size a ≤ S4096.size a
  k0_off601_inb : ∀ k0_t67 : Fin k0_t67_loop.trips, ∀ (r : Fin 4), ∀ a, (k0_off601 k0_t67 (BitVec.ofNat 32 (16 * r.val))) a + S1x16.size a ≤ S1x4096.size a
  k0_off602_inb : ∀ i : grid0.Coords, ∀ a, (k0_off602 i) a + S1x1x4096.size a ≤ S40x64x4096.size a
  k0_off603_inb : ∀ i : grid0.Coords, ∀ a, (k0_off603 i) a + S1x1x4096.size a ≤ S40x64x4096.size a
  k0_t68_ok : k0_t68_loop.OK
  k0_off604_inb : ∀ k0_t68 : Fin k0_t68_loop.trips, ∀ (r : Fin 4), ∀ a, (k0_off604 k0_t68 (BitVec.ofNat 32 (16 * r.val))) a + S16.size a ≤ S4096.size a
  k0_off605_inb : ∀ k0_t68 : Fin k0_t68_loop.trips, ∀ (r : Fin 4), ∀ a, (k0_off605 k0_t68 (BitVec.ofNat 32 (16 * r.val))) a + S1x16.size a ≤ S1x4096.size a
  k0_off606_inb : ∀ i : grid0.Coords, ∀ a, (k0_off606 i) a + S1x1x4096.size a ≤ S40x64x4096.size a
  k0_off607_inb : ∀ i : grid0.Coords, ∀ a, (k0_off607 i) a + S1x1x4096.size a ≤ S40x64x4096.size a
  k0_t69_ok : k0_t69_loop.OK
  k0_off608_inb : ∀ k0_t69 : Fin k0_t69_loop.trips, ∀ (r : Fin 4), ∀ a, (k0_off608 k0_t69 (BitVec.ofNat 32 (16 * r.val))) a + S16.size a ≤ S4096.size a
  k0_off609_inb : ∀ k0_t69 : Fin k0_t69_loop.trips, ∀ (r : Fin 4), ∀ a, (k0_off609 k0_t69 (BitVec.ofNat 32 (16 * r.val))) a + S1x16.size a ≤ S1x4096.size a
  k0_off610_inb : ∀ i : grid0.Coords, ∀ a, (k0_off610 i) a + S1x1x4096.size a ≤ S40x64x4096.size a
  k0_off611_inb : ∀ i : grid0.Coords, ∀ a, (k0_off611 i) a + S1x1x4096.size a ≤ S40x64x4096.size a
  k0_t70_ok : k0_t70_loop.OK
  k0_off612_inb : ∀ k0_t70 : Fin k0_t70_loop.trips, ∀ (r : Fin 4), ∀ a, (k0_off612 k0_t70 (BitVec.ofNat 32 (16 * r.val))) a + S16.size a ≤ S4096.size a
  k0_off613_inb : ∀ k0_t70 : Fin k0_t70_loop.trips, ∀ (r : Fin 4), ∀ a, (k0_off613 k0_t70 (BitVec.ofNat 32 (16 * r.val))) a + S1x16.size a ≤ S1x4096.size a
  k0_off614_inb : ∀ i : grid0.Coords, ∀ a, (k0_off614 i) a + S1x1x4096.size a ≤ S40x64x4096.size a
  k0_off615_inb : ∀ i : grid0.Coords, ∀ a, (k0_off615 i) a + S1x1x4096.size a ≤ S40x64x4096.size a
  k0_t71_ok : k0_t71_loop.OK
  k0_off616_inb : ∀ k0_t71 : Fin k0_t71_loop.trips, ∀ (r : Fin 4), ∀ a, (k0_off616 k0_t71 (BitVec.ofNat 32 (16 * r.val))) a + S16.size a ≤ S4096.size a
  k0_off617_inb : ∀ k0_t71 : Fin k0_t71_loop.trips, ∀ (r : Fin 4), ∀ a, (k0_off617 k0_t71 (BitVec.ofNat 32 (16 * r.val))) a + S1x16.size a ≤ S1x4096.size a
  k0_off618_inb : ∀ i : grid0.Coords, ∀ a, (k0_off618 i) a + S1x1x4096.size a ≤ S40x64x4096.size a
  k0_off619_inb : ∀ i : grid0.Coords, ∀ a, (k0_off619 i) a + S1x1x4096.size a ≤ S40x64x4096.size a
  k0_t72_ok : k0_t72_loop.OK
  k0_off620_inb : ∀ k0_t72 : Fin k0_t72_loop.trips, ∀ (r : Fin 4), ∀ a, (k0_off620 k0_t72 (BitVec.ofNat 32 (16 * r.val))) a + S16.size a ≤ S4096.size a
  k0_off621_inb : ∀ k0_t72 : Fin k0_t72_loop.trips, ∀ (r : Fin 4), ∀ a, (k0_off621 k0_t72 (BitVec.ofNat 32 (16 * r.val))) a + S1x16.size a ≤ S1x4096.size a
  k0_off622_inb : ∀ i : grid0.Coords, ∀ a, (k0_off622 i) a + S1x1x4096.size a ≤ S40x64x4096.size a
  k0_off623_inb : ∀ i : grid0.Coords, ∀ a, (k0_off623 i) a + S1x1x4096.size a ≤ S40x64x4096.size a
  k0_t73_ok : k0_t73_loop.OK
  k0_off624_inb : ∀ k0_t73 : Fin k0_t73_loop.trips, ∀ (r : Fin 4), ∀ a, (k0_off624 k0_t73 (BitVec.ofNat 32 (16 * r.val))) a + S16.size a ≤ S4096.size a
  k0_off625_inb : ∀ k0_t73 : Fin k0_t73_loop.trips, ∀ (r : Fin 4), ∀ a, (k0_off625 k0_t73 (BitVec.ofNat 32 (16 * r.val))) a + S1x16.size a ≤ S1x4096.size a
  k0_off626_inb : ∀ i : grid0.Coords, ∀ a, (k0_off626 i) a + S1x1x4096.size a ≤ S40x64x4096.size a
  k0_off627_inb : ∀ i : grid0.Coords, ∀ a, (k0_off627 i) a + S1x1x4096.size a ≤ S40x64x4096.size a
  k0_t74_ok : k0_t74_loop.OK
  k0_off628_inb : ∀ k0_t74 : Fin k0_t74_loop.trips, ∀ (r : Fin 4), ∀ a, (k0_off628 k0_t74 (BitVec.ofNat 32 (16 * r.val))) a + S16.size a ≤ S4096.size a
  k0_off629_inb : ∀ k0_t74 : Fin k0_t74_loop.trips, ∀ (r : Fin 4), ∀ a, (k0_off629 k0_t74 (BitVec.ofNat 32 (16 * r.val))) a + S1x16.size a ≤ S1x4096.size a
  k0_off630_inb : ∀ i : grid0.Coords, ∀ a, (k0_off630 i) a + S1x1x4096.size a ≤ S40x64x4096.size a
  k0_off631_inb : ∀ i : grid0.Coords, ∀ a, (k0_off631 i) a + S1x1x4096.size a ≤ S40x64x4096.size a
  k0_t75_ok : k0_t75_loop.OK
  k0_off632_inb : ∀ k0_t75 : Fin k0_t75_loop.trips, ∀ (r : Fin 4), ∀ a, (k0_off632 k0_t75 (BitVec.ofNat 32 (16 * r.val))) a + S16.size a ≤ S4096.size a
  k0_off633_inb : ∀ k0_t75 : Fin k0_t75_loop.trips, ∀ (r : Fin 4), ∀ a, (k0_off633 k0_t75 (BitVec.ofNat 32 (16 * r.val))) a + S1x16.size a ≤ S1x4096.size a
  k0_off634_inb : ∀ i : grid0.Coords, ∀ a, (k0_off634 i) a + S1x1x4096.size a ≤ S40x64x4096.size a
  k0_off635_inb : ∀ i : grid0.Coords, ∀ a, (k0_off635 i) a + S1x1x4096.size a ≤ S40x64x4096.size a
  k0_t76_ok : k0_t76_loop.OK
  k0_off636_inb : ∀ k0_t76 : Fin k0_t76_loop.trips, ∀ (r : Fin 4), ∀ a, (k0_off636 k0_t76 (BitVec.ofNat 32 (16 * r.val))) a + S16.size a ≤ S4096.size a
  k0_off637_inb : ∀ k0_t76 : Fin k0_t76_loop.trips, ∀ (r : Fin 4), ∀ a, (k0_off637 k0_t76 (BitVec.ofNat 32 (16 * r.val))) a + S1x16.size a ≤ S1x4096.size a
  k0_off638_inb : ∀ i : grid0.Coords, ∀ a, (k0_off638 i) a + S1x1x4096.size a ≤ S40x64x4096.size a
  k0_off639_inb : ∀ i : grid0.Coords, ∀ a, (k0_off639 i) a + S1x1x4096.size a ≤ S40x64x4096.size a
  k0_t77_ok : k0_t77_loop.OK
  k0_off640_inb : ∀ k0_t77 : Fin k0_t77_loop.trips, ∀ (r : Fin 4), ∀ a, (k0_off640 k0_t77 (BitVec.ofNat 32 (16 * r.val))) a + S16.size a ≤ S4096.size a
  k0_off641_inb : ∀ k0_t77 : Fin k0_t77_loop.trips, ∀ (r : Fin 4), ∀ a, (k0_off641 k0_t77 (BitVec.ofNat 32 (16 * r.val))) a + S1x16.size a ≤ S1x4096.size a
  k0_off642_inb : ∀ i : grid0.Coords, ∀ a, (k0_off642 i) a + S1x1x4096.size a ≤ S40x64x4096.size a
  k0_off643_inb : ∀ i : grid0.Coords, ∀ a, (k0_off643 i) a + S1x1x4096.size a ≤ S40x64x4096.size a
  k0_t78_ok : k0_t78_loop.OK
  k0_off644_inb : ∀ k0_t78 : Fin k0_t78_loop.trips, ∀ (r : Fin 4), ∀ a, (k0_off644 k0_t78 (BitVec.ofNat 32 (16 * r.val))) a + S16.size a ≤ S4096.size a
  k0_off645_inb : ∀ k0_t78 : Fin k0_t78_loop.trips, ∀ (r : Fin 4), ∀ a, (k0_off645 k0_t78 (BitVec.ofNat 32 (16 * r.val))) a + S1x16.size a ≤ S1x4096.size a
  k0_off646_inb : ∀ i : grid0.Coords, ∀ a, (k0_off646 i) a + S1x1x4096.size a ≤ S40x64x4096.size a
  k0_off647_inb : ∀ i : grid0.Coords, ∀ a, (k0_off647 i) a + S1x1x4096.size a ≤ S40x64x4096.size a
  k0_t79_ok : k0_t79_loop.OK
  k0_off648_inb : ∀ k0_t79 : Fin k0_t79_loop.trips, ∀ (r : Fin 4), ∀ a, (k0_off648 k0_t79 (BitVec.ofNat 32 (16 * r.val))) a + S16.size a ≤ S4096.size a
  k0_off649_inb : ∀ k0_t79 : Fin k0_t79_loop.trips, ∀ (r : Fin 4), ∀ a, (k0_off649 k0_t79 (BitVec.ofNat 32 (16 * r.val))) a + S1x16.size a ≤ S1x4096.size a
  k0_off650_inb : ∀ i : grid0.Coords, ∀ a, (k0_off650 i) a + S1x1x4096.size a ≤ S40x64x4096.size a
  k0_off651_inb : ∀ i : grid0.Coords, ∀ a, (k0_off651 i) a + S1x1x4096.size a ≤ S40x64x4096.size a
  k0_t80_ok : k0_t80_loop.OK
  k0_off652_inb : ∀ k0_t80 : Fin k0_t80_loop.trips, ∀ (r : Fin 4), ∀ a, (k0_off652 k0_t80 (BitVec.ofNat 32 (16 * r.val))) a + S16.size a ≤ S4096.size a
  k0_off653_inb : ∀ k0_t80 : Fin k0_t80_loop.trips, ∀ (r : Fin 4), ∀ a, (k0_off653 k0_t80 (BitVec.ofNat 32 (16 * r.val))) a + S1x16.size a ≤ S1x4096.size a
  k0_off654_inb : ∀ i : grid0.Coords, ∀ (r : Fin 2), ∀ a, (k0_off654 i (BitVec.ofNat 32 r.val)) a + S1x1x4096.size a ≤ S40x64x4096.size a

variable [Facts₀]

abbrev cc0_scratch10 : DmaSems sig S_ := SemArray.consecutive 0 S_ hcc0_scratch10
abbrev cc0_scratch11 : DmaSems sig S_ := SemArray.consecutive 1 S_ hcc0_scratch11
abbrev cc0_scratch12 : DmaSems sig S_ := SemArray.consecutive 2 S_ hcc0_scratch12
abbrev cc0_scoped0 : DmaSems sig S_ := SemArray.consecutive 3 S_ hcc0_scoped0
abbrev cc0_scoped1 : DmaSems sig S_ := SemArray.consecutive 4 S_ hcc0_scoped1
abbrev cc0_scoped2 : DmaSems sig S_ := SemArray.consecutive 5 S_ hcc0_scoped2
abbrev cc0_scoped3 : DmaSems sig S_ := SemArray.consecutive 6 S_ hcc0_scoped3
abbrev cc0_scoped4 : DmaSems sig S_ := SemArray.consecutive 7 S_ hcc0_scoped4
abbrev cc0_scoped5 : DmaSems sig S_ := SemArray.consecutive 8 S_ hcc0_scoped5
abbrev cc0_scoped6 : DmaSems sig S_ := SemArray.consecutive 9 S_ hcc0_scoped6
abbrev cc0_scoped7 : DmaSems sig S_ := SemArray.consecutive 10 S_ hcc0_scoped7
abbrev cc0_scoped8 : DmaSems sig S_ := SemArray.consecutive 11 S_ hcc0_scoped8
abbrev cc0_scoped9 : DmaSems sig S_ := SemArray.consecutive 12 S_ hcc0_scoped9
abbrev cc0_scoped10 : DmaSems sig S_ := SemArray.consecutive 13 S_ hcc0_scoped10
abbrev cc0_scoped11 : DmaSems sig S_ := SemArray.consecutive 14 S_ hcc0_scoped11
abbrev cc0_scoped12 : DmaSems sig S_ := SemArray.consecutive 15 S_ hcc0_scoped12
abbrev cc0_scoped13 : DmaSems sig S_ := SemArray.consecutive 16 S_ hcc0_scoped13
abbrev cc0_scoped14 : DmaSems sig S_ := SemArray.consecutive 17 S_ hcc0_scoped14
abbrev cc0_scoped15 : DmaSems sig S_ := SemArray.consecutive 18 S_ hcc0_scoped15
abbrev cc0_scoped16 : DmaSems sig S_ := SemArray.consecutive 19 S_ hcc0_scoped16
abbrev cc0_scoped17 : DmaSems sig S_ := SemArray.consecutive 20 S_ hcc0_scoped17
abbrev cc0_scoped18 : DmaSems sig S_ := SemArray.consecutive 21 S_ hcc0_scoped18
abbrev cc0_scoped19 : DmaSems sig S_ := SemArray.consecutive 22 S_ hcc0_scoped19
abbrev cc0_scoped20 : DmaSems sig S_ := SemArray.consecutive 23 S_ hcc0_scoped20
abbrev cc0_scoped21 : DmaSems sig S_ := SemArray.consecutive 24 S_ hcc0_scoped21
abbrev cc0_scoped22 : DmaSems sig S_ := SemArray.consecutive 25 S_ hcc0_scoped22
abbrev cc0_scoped23 : DmaSems sig S_ := SemArray.consecutive 26 S_ hcc0_scoped23
abbrev cc0_scoped24 : DmaSems sig S_ := SemArray.consecutive 27 S_ hcc0_scoped24
abbrev cc0_scoped25 : DmaSems sig S_ := SemArray.consecutive 28 S_ hcc0_scoped25
abbrev cc0_scoped26 : DmaSems sig S_ := SemArray.consecutive 29 S_ hcc0_scoped26
abbrev cc0_scoped27 : DmaSems sig S_ := SemArray.consecutive 30 S_ hcc0_scoped27
abbrev cc0_scoped28 : DmaSems sig S_ := SemArray.consecutive 31 S_ hcc0_scoped28
abbrev cc0_scoped29 : DmaSems sig S_ := SemArray.consecutive 32 S_ hcc0_scoped29
abbrev cc0_scoped30 : DmaSems sig S_ := SemArray.consecutive 33 S_ hcc0_scoped30
abbrev cc0_scoped31 : DmaSems sig S_ := SemArray.consecutive 34 S_ hcc0_scoped31
abbrev cc0_scoped32 : DmaSems sig S_ := SemArray.consecutive 35 S_ hcc0_scoped32
abbrev cc0_scoped33 : DmaSems sig S_ := SemArray.consecutive 36 S_ hcc0_scoped33
abbrev cc0_scoped34 : DmaSems sig S_ := SemArray.consecutive 37 S_ hcc0_scoped34
abbrev cc0_scoped35 : DmaSems sig S_ := SemArray.consecutive 38 S_ hcc0_scoped35
abbrev cc0_scoped36 : DmaSems sig S_ := SemArray.consecutive 39 S_ hcc0_scoped36
abbrev cc0_scoped37 : DmaSems sig S_ := SemArray.consecutive 40 S_ hcc0_scoped37
abbrev cc0_scoped38 : DmaSems sig S_ := SemArray.consecutive 41 S_ hcc0_scoped38
abbrev cc0_scoped39 : DmaSems sig S_ := SemArray.consecutive 42 S_ hcc0_scoped39
abbrev cc0_scoped40 : DmaSems sig S_ := SemArray.consecutive 43 S_ hcc0_scoped40
abbrev cc0_scoped41 : DmaSems sig S_ := SemArray.consecutive 44 S_ hcc0_scoped41
abbrev cc0_scoped42 : DmaSems sig S_ := SemArray.consecutive 45 S_ hcc0_scoped42
abbrev cc0_scoped43 : DmaSems sig S_ := SemArray.consecutive 46 S_ hcc0_scoped43
abbrev cc0_scoped44 : DmaSems sig S_ := SemArray.consecutive 47 S_ hcc0_scoped44
abbrev cc0_scoped45 : DmaSems sig S_ := SemArray.consecutive 48 S_ hcc0_scoped45
abbrev cc0_scoped46 : DmaSems sig S_ := SemArray.consecutive 49 S_ hcc0_scoped46
abbrev cc0_scoped47 : DmaSems sig S_ := SemArray.consecutive 50 S_ hcc0_scoped47
abbrev cc0_scoped48 : DmaSems sig S_ := SemArray.consecutive 51 S_ hcc0_scoped48
abbrev cc0_scoped49 : DmaSems sig S_ := SemArray.consecutive 52 S_ hcc0_scoped49
abbrev cc0_scoped50 : DmaSems sig S_ := SemArray.consecutive 53 S_ hcc0_scoped50
abbrev cc0_scoped51 : DmaSems sig S_ := SemArray.consecutive 54 S_ hcc0_scoped51
abbrev cc0_scoped52 : DmaSems sig S_ := SemArray.consecutive 55 S_ hcc0_scoped52
abbrev cc0_scoped53 : DmaSems sig S_ := SemArray.consecutive 56 S_ hcc0_scoped53
abbrev cc0_scoped54 : DmaSems sig S_ := SemArray.consecutive 57 S_ hcc0_scoped54

class Facts : Prop extends Facts₀ where

variable [Facts]
-- ==== ReferenceIdeal.lean ====
abbrev S4096x26 : Shape := ⟨2, ![4096, 26]⟩
abbrev S4096x13 : Shape := ⟨2, ![4096, 13]⟩
abbrev S26x100000x64 : Shape := ⟨3, ![26, 100000, 64]⟩
abbrev S13x64 : Shape := ⟨2, ![13, 64]⟩
abbrev S1x1x64 : Shape := ⟨3, ![1, 1, 64]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x64 : Shape := ⟨3, ![4096, 26, 64]⟩
abbrev S4096x13x1 : Shape := ⟨3, ![4096, 13, 1]⟩
abbrev S1x13x64 : Shape := ⟨3, ![1, 13, 64]⟩
abbrev S4096x13x64 : Shape := ⟨3, ![4096, 13, 64]⟩
abbrev S4096x1x64 : Shape := ⟨3, ![4096, 1, 64]⟩
abbrev S4096x40x64 : Shape := ⟨3, ![4096, 40, 64]⟩

abbrev nBuf : Space → Nat
  | .hbm => 37
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x13, .f32⟩
  | .hbm, ⟨2, _⟩ => ⟨S26x100000x64, .f32⟩
  | .hbm, ⟨3, _⟩ => ⟨S13x64, .f32⟩
  | .hbm, ⟨4, _⟩ => ⟨S13x64, .f32⟩
  | .hbm, ⟨5, _⟩ => ⟨S1x1x64, .f32⟩
  | .hbm, ⟨6, _⟩ => ⟨S26, .i32⟩
  | .hbm, ⟨7, _⟩ => ⟨S1x26, .i32⟩
  | .hbm, ⟨8, _⟩ => ⟨S_, .i32⟩
  | .hbm, ⟨9, _⟩ => ⟨S1x26, .i32⟩
  | .hbm, ⟨10, _⟩ => ⟨S1x26, .i1⟩
  | .hbm, ⟨11, _⟩ => ⟨S_, .i32⟩
  | .hbm, ⟨12, _⟩ => ⟨S1x26, .i32⟩
  | .hbm, ⟨13, _⟩ => ⟨S1x26, .i32⟩
  | .hbm, ⟨14, _⟩ => ⟨S1x26, .i32⟩
  | .hbm, ⟨15, _⟩ => ⟨S_, .i32⟩
  | .hbm, ⟨16, _⟩ => ⟨S4096x26, .i32⟩
  | .hbm, ⟨17, _⟩ => ⟨S4096x26, .i1⟩
  | .hbm, ⟨18, _⟩ => ⟨S_, .i32⟩
  | .hbm, ⟨19, _⟩ => ⟨S4096x26, .i32⟩
  | .hbm, ⟨20, _⟩ => ⟨S4096x26, .i32⟩
  | .hbm, ⟨21, _⟩ => ⟨S4096x26, .i32⟩
  | .hbm, ⟨22, _⟩ => ⟨S4096x26, .i32⟩
  | .hbm, ⟨23, _⟩ => ⟨S4096x26x1, .i32⟩
  | .hbm, ⟨24, _⟩ => ⟨S4096x26x1, .i32⟩
  | .hbm, ⟨25, _⟩ => ⟨S4096x26x2, .i32⟩
  | .hbm, ⟨26, _⟩ => ⟨S4096x26x64, .f32⟩
  | .hbm, ⟨27, _⟩ => ⟨S4096x13x1, .f32⟩
  | .hbm, ⟨28, _⟩ => ⟨S1x13x64, .f32⟩
  | .hbm, ⟨29, _⟩ => ⟨S4096x13x64, .f32⟩
  | .hbm, ⟨30, _⟩ => ⟨S4096x13x64, .f32⟩
  | .hbm, ⟨31, _⟩ => ⟨S4096x13x64, .f32⟩
  | .hbm, ⟨32, _⟩ => ⟨S1x13x64, .f32⟩
  | .hbm, ⟨33, _⟩ => ⟨S4096x13x64, .f32⟩
  | .hbm, ⟨34, _⟩ => ⟨S4096x13x64, .f32⟩
  | .hbm, ⟨35, _⟩ => ⟨S4096x1x64, .f32⟩
  | .hbm, ⟨36, _⟩ => ⟨S4096x40x64, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  bcast_S4096x13_S4096x13x1_0_1 : S4096x13.BroadcastsInDim S4096x13x1 (![0, 1] : Fin 2 → Fin S4096x13x1.rank)
  bcast_S13x64_S1x13x64_1_2 : S13x64.BroadcastsInDim S1x13x64 (![1, 2] : Fin 2 → Fin S1x13x64.rank)
  bcast_S4096x13x1_S4096x13x64_0_1_2 : S4096x13x1.BroadcastsInDim S4096x13x64 (![0, 1, 2] : Fin 3 → Fin S4096x13x64.rank)
  bcast_S1x13x64_S4096x13x64_0_1_2 : S1x13x64.BroadcastsInDim S4096x13x64 (![0, 1, 2] : Fin 3 → Fin S4096x13x64.rank)
  bcast_S1x1x64_S4096x1x64_0_1_2 : S1x1x64.BroadcastsInDim S4096x1x64 (![0, 1, 2] : Fin 3 → Fin S4096x1x64.rank)
  concatenates_S4096x1x64_S4096x26x64_S4096x13x64_S4096x40x64_d1 : Shape.Concatenates [S4096x1x64, S4096x26x64, S4096x13x64] S4096x40x64 1
  gather_S26x100000x64_S4096x26x2_S4096x26x64_2_01_n_n_01_2_1164_wf : GatherDims.WF S26x100000x64 S4096x26x2 S4096x26x64 [2] [0, 1] [] [0, 1] [] 2 ![1, 1, 64]

variable [Facts₀]

def gather_S26x100000x64_S4096x26x2_S4096x26x64_2_01_n_n_01_2_1164 : GatherDims S26x100000x64 S4096x26x2 S4096x26x64 where
  offsetDims := [2]
  collapsedSliceDims := [0, 1]
  operandBatchingDims := []
  startIndicesBatchingDims := []
  startIndexMap := [0, 1]
  indexVectorDim := 2
  sliceSizes := ![1, 1, 64]
  wf := gather_S26x100000x64_S4096x26x2_S4096x26x64_2_01_n_n_01_2_1164_wf

class Facts : Prop extends Facts₀ where

variable [Facts]
-- ==== Proof.KI.Iface.lean ====
/-
  The tokenizer kernel's task, as assertions. A vector subcore with number `w = 2·subcore + core` (32 of them)
  fills the two feature rows `2w` and `2w+1` of every token of the transposed result `outT : [40, 64, 4096]`:
  token 0 is the class vector, tokens 1..26 the embedding columns gathered at the batch's category words, tokens
  27..39 the numeric columns times their weight plus their bias. It READS the six operand arrays whole (a read
  share each) and OWNS its two rows of every token of `outT`.
-/
import proofs.«207382_g17746804867166_cont_8to1_1179_25_alg».proof.KernelIdeal
import proofs.«207382_g17746804867166_cont_8to1_1179_25_alg».proof.Proof.Gen.KernelIdeal
import Idealize.ShloMosaic.Lib.SparseCore.Launch
import Idealize.ShloMosaic.Lib.Pipeline.Kit
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

/-- The six operand arrays and the result array of the call, as locations of device `d`. -/
abbrev catL (d : Dev nD) : Loc nD τ sig := (SparseCore.T d).loc main_v1
abbrev numL (d : Dev nD) : Loc nD τ sig := (SparseCore.T d).loc main_v3
abbrev embL (d : Dev nD) : Loc nD τ sig := (SparseCore.T d).loc main_v4
abbrev wL (d : Dev nD) : Loc nD τ sig := (SparseCore.T d).loc main_v5
abbrev bL (d : Dev nD) : Loc nD τ sig := (SparseCore.T d).loc main_v6
abbrev clsL (d : Dev nD) : Loc nD τ sig := (SparseCore.T d).loc main_v7
abbrev outL (d : Dev nD) : Loc nD τ sig := (SparseCore.T d).loc main_v8

/-- The contents of the six operand arrays: the category words flattened column by column, the numeric values
    likewise, the embedding tables with the vocabulary axis last, the weights, biases and class vector flat. -/
structure Arrs (F : FTy → Type) where
  cat : IVec S106496 32
  num : FVec F S53248 .f32
  emb : FVec F S26x64x100000 .f32
  w : FVec F S832 .f32
  b : FVec F S832 .f32
  cls : FVec F S64 .f32

/-- A category word as a vocabulary index (any word out of range reads entry 0: the precondition excludes it). -/
def vocab (v : BitVec 32) : Fin 100000 := if h : v.toNat < 100000 then ⟨v.toNat, h⟩ else ⟨0, by decide⟩

/-- Entry `(tok, r, n)` of the transposed result: the class vector's entry `r` for token 0; for token `1 + i`
    (`i < 26`) entry `(i, r, cat[i·4096 + n])` of the tables; for token `27 + j` the numeric value `num[j·4096 + n]`
    times `w[64 j + r]` plus `b[64 j + r]`. -/
def GT [FloatOps F] (A : Arrs F) : FVec F S40x64x4096 .f32 := fun x =>
  if h0 : (x 0).val = 0 then A.cls (ValueIdx.ix1 ⟨(x 1).val, (x 1).isLt⟩)
  else if h1 : (x 0).val ≤ 26 then
    A.emb (ValueIdx.ix3 (⟨(x 0).val - 1, by omega⟩ : Fin 26) (⟨(x 1).val, (x 1).isLt⟩ : Fin 64)
      (vocab (A.cat (ValueIdx.ix1 (⟨((x 0).val - 1) * 4096 + (x 2).val, by have := (x 2).isLt; simp at this; omega⟩ : Fin 106496)))))
  else
    FloatOps.addf
      (FloatOps.mulf (A.num (ValueIdx.ix1 (⟨((x 0).val - 27) * 4096 + (x 2).val, by have := (x 0).isLt; have := (x 2).isLt; simp at *; omega⟩ : Fin 53248)))
        (A.w (ValueIdx.ix1 (⟨((x 0).val - 27) * 64 + (x 1).val, by have := (x 0).isLt; have := (x 1).isLt; simp at *; omega⟩ : Fin 832))))
      (A.b (ValueIdx.ix1 (⟨((x 0).val - 27) * 64 + (x 1).val, by have := (x 0).isLt; have := (x 1).isLt; simp at *; omega⟩ : Fin 832)))

/-- The two feature rows `2w`, `2w+1` of every token: what task `w` writes. -/
def oSet (w : Fin 32) : Finset S40x64x4096.Idx := Finset.univ.filter fun x => (x 1).val / 2 = w.val

/-- The task's number from its SparseCore and vector subcore: `2·subcore + core`. -/
def widOf (c : Fin 2) (i : Fin 16) : Fin 32 := ⟨i.val * 2 + c.val, by omega⟩

/-- A task's read share of an operand array. -/
abbrev rsh (w : Fin 32) : PosShare TreeShare := Transfers.shareTok fullShare 32 w

variable [FloatOps F]

/-- What task `w` on device `d` is handed: a read share of each operand array at `A`, and its rows of the result
    array at `fo` (what the array held before the call). -/
def tileIn (A : Arrs F) (fo : FVec F S40x64x4096 .f32) (d : Dev nD) (w : Fin 32) : sProp 𝕄 :=
  iprop((catL d ↦{rsh w} (A.cat : Buf (Elt F) (catL d))) ∗ (numL d ↦{rsh w} (A.num : Buf (Elt F) (numL d)))
    ∗ (embL d ↦{rsh w} (A.emb : Buf (Elt F) (embL d))) ∗ (wL d ↦{rsh w} (A.w : Buf (Elt F) (wL d)))
    ∗ (bL d ↦{rsh w} (A.b : Buf (Elt F) (bL d))) ∗ (clsL d ↦{rsh w} (A.cls : Buf (Elt F) (clsL d)))
    ∗ (outL d ↦[oSet w]{fullShare} (fo : Buf (Elt F) (outL d))))

/-- What it hands back: the read shares, and its rows of the result array at `GT A`. -/
def tileOut (A : Arrs F) (d : Dev nD) (w : Fin 32) : sProp 𝕄 :=
  iprop((catL d ↦{rsh w} (A.cat : Buf (Elt F) (catL d))) ∗ (numL d ↦{rsh w} (A.num : Buf (Elt F) (numL d)))
    ∗ (embL d ↦{rsh w} (A.emb : Buf (Elt F) (embL d))) ∗ (wL d ↦{rsh w} (A.w : Buf (Elt F) (wL d)))
    ∗ (bL d ↦{rsh w} (A.b : Buf (Elt F) (bL d))) ∗ (clsL d ↦{rsh w} (A.cls : Buf (Elt F) (clsL d)))
    ∗ (outL d ↦[oSet w]{fullShare} (GT A : Buf (Elt F) (outL d))))

/-- The one call's payloads: a SparseCore is handed its sixteen tasks' operands and hands back their results; the
    tasks' proofs consume nothing of the launch's. -/
def P (A : Dev nD → Arrs F) (fo : Dev nD → FVec F S40x64x4096 .f32) : (K (F := F)).Pay (nD := nD) (Val := Elt F) (Name := ℕ) (U := UU) where
  st := fun q d c => match q with | 0 => bigSep Finset.univ fun i : Fin ((K (F := F)).nSub 0) => tileIn (A d) (fo d) d (widOf (Fin.cast nCore_zero c) (Fin.cast nSub_zero i))
  dn := fun q d c => match q with | 0 => bigSep Finset.univ fun i : Fin ((K (F := F)).nSub 0) => tileOut (A d) d (widOf (Fin.cast nCore_zero c) (Fin.cast nSub_zero i))
  go := fun q d c i => match q with | 0 => tileIn (A d) (fo d) d (widOf (Fin.cast nCore_zero c) (Fin.cast nSub_zero i))
  td := fun q d c i => match q with | 0 => tileOut (A d) d (widOf (Fin.cast nCore_zero c) (Fin.cast nSub_zero i))
  x := fun _ _ => iprop(emp)

/-! ## The task's program and its obligation -/

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

abbrev cV (L : grid0.Coords) : Fin τ.nSC := (L 0).castLE hcore0
abbrev jV (L : grid0.Coords) : Fin τ.nSub := (L 1).castLE hsub0
/-- The task's number at grid point `L`. -/
def widL (L : grid0.Coords) : Fin 32 := widOf (Fin.cast bound_zero (L 0)) (Fin.cast bound_one (L 1))

/-- The kernel function at grid point `L`, on the whole arrays and the subcore's scratch, as the body table calls it. -/
abbrev kern (L : grid0.Coords) := cc0__tokenize (F := F) L (Memref.whole main_v1_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54

/-- The task at every grid point: from its operands and the subcore's scoped storage to its results, every category
    word a vocabulary index. -/
def TileBody (A : Arrs F) (fo : FVec F S40x64x4096 .f32) : Prop :=
  ∀ (d : Dev nD) (L : grid0.Coords) (O : CellTallies nD τ sig (HIx 1)) (W : Waits sig (HIx 1)), (∀ g, O g none = 0) →
    iprop(levAts (K (F := F)).L (K (F := F)).lev ∗ emp ∗ tileIn A fo d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kern (F := F) L)
          fun _ => iprop(tileOut A d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KI.Launch.lean ====
/-
  The launch of the tokenizer call, first part: the facts the launch theorem asks of the four handshake semaphores
  and the signature; the call's payloads field by field; that they can be stored inside the handshakes' cells; how
  a SparseCore's payload is, by definition, its sixteen tasks' payloads side by side; and the launch element of the
  ghost state, which is the handshakes' rounds alone (the transfers' counters are dropped: the tasks need no schedule).
-/
import proofs.«207382_g17746804867166_cont_8to1_1179_25_alg».proof.Proof.KI.Iface
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The facts of the launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## The payloads, field by field -/

variable (A : Dev nD → Arrs F) (fo : Dev nD → FVec F S40x64x4096 .f32)

theorem P_st (d : Dev nD) (c : Fin ((K (F := F)).nCore 0)) :
    (P A fo).st 0 d c = bigSep Finset.univ fun i : Fin ((K (F := F)).nSub 0) => tileIn (A d) (fo d) d (widOf (Fin.cast nCore_zero c) (Fin.cast nSub_zero i)) := rfl
theorem P_dn (d : Dev nD) (c : Fin ((K (F := F)).nCore 0)) :
    (P A fo).dn 0 d c = bigSep Finset.univ fun i : Fin ((K (F := F)).nSub 0) => tileOut (A d) d (widOf (Fin.cast nCore_zero c) (Fin.cast nSub_zero i)) := rfl
theorem P_go (d : Dev nD) (c : Fin ((K (F := F)).nCore 0)) (i : Fin ((K (F := F)).nSub 0)) :
    (P A fo).go 0 d c i = tileIn (A d) (fo d) d (widOf (Fin.cast nCore_zero c) (Fin.cast nSub_zero i)) := rfl
theorem P_td (d : Dev nD) (c : Fin ((K (F := F)).nCore 0)) (i : Fin ((K (F := F)).nSub 0)) :
    (P A fo).td 0 d c i = tileOut (A d) d (widOf (Fin.cast nCore_zero c) (Fin.cast nSub_zero i)) := rfl
theorem P_x (q : Fin 1) (thr : Thread nD τ) : (P A fo).x q thr = iprop(emp) := rfl
theorem P_ox : (P A fo).ox = fun _ _ => 0 := rfl

/-! ## They are storable -/

instance tileIn_storable (a : Arrs F) (f : FVec F S40x64x4096 .f32) (d : Dev nD) (w : Fin 32) :
    BI.Storable (upEmb : UEmb _ 𝕄) (tileIn a f d w) := by unfold tileIn; infer_instance
instance tileOut_storable (a : Arrs F) (d : Dev nD) (w : Fin 32) :
    BI.Storable (upEmb : UEmb _ 𝕄) (tileOut a d w) := by unfold tileOut; infer_instance

instance P_storable : (P A fo).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## A SparseCore's payload is its tasks' -/

theorem vecSplit : (K (F := F)).VecSplit' (P A fo) 0 := by
  intro d c
  rw [P_st, P_dn]
  simp only [P_go, P_td]
  iintro H; imodintro
  isplitl [H]; · iexact H
  iintro H; iexact H

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A fo).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KI.LaunchTile.lean ====
/-
  The launch of the tokenizer call, second part: the task's obligation as the launch theorem states it, from the
  task's proof at a symbolic grid point. The body table's entry for a vector subcore is the kernel function at the
  grid point of that subcore's coordinates; the grid point's task number and thread are the call's own by unfolding.
-/
import proofs.«207382_g17746804867166_cont_8to1_1179_25_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (A : Dev nD → Arrs F) (fo : Dev nD → FVec F S40x64x4096 .f32)

/-- The body table on a vector subcore: the kernel function at the subcore's grid point, inside the grid. -/
theorem defs₀_vector (c : Fin τ.nSC) (s : Fin τ.nSub) :
    defs₀ (F := F) (.scVector c s) 0 () = SparseCore.onTile hcore0 hsub0 (fun c s => kern (F := F) (coordsV c s)) ⟨⟩ c s := rfl

omit [FloatOps F] in
/-- The recorded waits a task leaves are among those the launch theorem admits. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task number at the grid point of SparseCore `c`, subcore `i` of the call's grid is `2 i + c`. -/
theorem widL_grid (c : Fin ((K (F := F)).nCore 0)) (i : Fin ((K (F := F)).nSub 0))
    (hc : ((K (F := F)).core 0 c).val < grid0.bound 0) (hi : ((K (F := F)).sub 0 i).val < grid0.bound 1) :
    widL (coordsV ⟨((K (F := F)).core 0 c).val, hc⟩ ⟨((K (F := F)).sub 0 i).val, hi⟩) = widOf (Fin.cast nCore_zero c) (Fin.cast nSub_zero i) := rfl

theorem tileObl (hbody : ∀ d, TileBody (A d) (fo d)) : (K (F := F)).TileObl (D (F := F)) 𝒱 (P A fo) v₀ 0 := by
  intro d c i O W hO _ _
  -- the tasks owe nothing for a protocol of their own
  simp only [P_ox, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [← widL_grid c i hc.1 hc.2]
  exact (hbody d d (coordsV ⟨_, hc.1⟩ ⟨_, hc.2⟩) O W hO).trans (wp_mono frame _ _ fun _ => obl_post)

end Cert.Proof.KI

end
-- ==== Proof.KI.LaunchSplit.lean ====
/-
  The launch of the tokenizer call, third part: how the TensorCore's whole arrays become the thirty-two tasks'
  payloads and come back. Each operand array is read by every task at once, so it goes out as thirty-two read
  shares, the remainder staying behind; the result array goes out as the thirty-two pairs of feature rows, which are
  pairwise disjoint and cover it; and a family over the task numbers is the same family over SparseCore and subcore,
  the number `2 i + c` running through `0 … 31` exactly once.
-/
import proofs.«207382_g17746804867166_cont_8to1_1179_25_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Task numbers: `(c, i) ↦ 2 i + c` is a bijection onto `Fin 32` -/

theorem widOf_injective : Function.Injective fun p : Fin 2 × Fin 16 => widOf p.1 p.2 := by
  rintro ⟨c, i⟩ ⟨c', i'⟩ h
  have h' : i.val * 2 + c.val = i'.val * 2 + c'.val := congrArg Fin.val h
  have hc := c.isLt; have hc' := c'.isLt
  have h1 : c = c' := Fin.ext (by omega)
  have h2 : i = i' := Fin.ext (by omega)
  rw [h1, h2]

theorem widOf_image : (Finset.univ : Finset (Fin 32)) = (Finset.univ : Finset (Fin 2 × Fin 16)).image fun p => widOf p.1 p.2 := by
  ext w
  simp only [Finset.mem_univ, Finset.mem_image, true_and, true_iff]
  have hw := w.isLt
  exact ⟨(⟨w.val % 2, by omega⟩, ⟨w.val / 2, by omega⟩), Fin.ext (show w.val / 2 * 2 + w.val % 2 = w.val by omega)⟩

/-- A family over the task numbers, regrouped by SparseCore and subcore. -/
theorem bigSep_wid {M : Type} [URA M] (Φ : Fin 32 → sProp M) :
    bigSep Finset.univ Φ = bigSep Finset.univ fun c : Fin 2 => bigSep Finset.univ fun i : Fin 16 => Φ (widOf c i) := by
  rw [widOf_image, SparseCore.bigSep_image_of_injOn widOf_injective.injOn, ← Finset.univ_product_univ, SparseCore.bigSep_product]

/-- The call's grid is `2 × 16`. -/
theorem bigSep_grid (Φ : Fin 2 → Fin 16 → sProp 𝕄) :
    (bigSep Finset.univ fun c : Fin ((K (F := F)).nCore 0) => bigSep Finset.univ fun i : Fin ((K (F := F)).nSub 0) => Φ (Fin.cast nCore_zero c) (Fin.cast nSub_zero i))
      = bigSep Finset.univ fun c : Fin 2 => bigSep Finset.univ fun i : Fin 16 => Φ c i :=
  bigSep_congr fun _ _ => bigSep_congr fun _ _ => congrArg₂ Φ (Fin.ext rfl) (Fin.ext rfl)

/-! ## The result array's rows -/

theorem oSet_disjoint : ∀ w ∈ (Finset.univ : Finset (Fin 32)), ∀ w' ∈ (Finset.univ : Finset (Fin 32)), w ≠ w' → Disjoint (oSet w) (oSet w') := by
  intro w _ w' _ h
  rw [Finset.disjoint_left]
  intro x hx hx'
  simp only [oSet, Finset.mem_filter, Finset.mem_univ, true_and] at hx hx'
  exact h (Fin.ext (hx.symm.trans hx'))

theorem oSet_cover : (Finset.univ : Finset (Fin 32)).biUnion oSet = Finset.univ := by
  ext x
  simp only [Finset.mem_biUnion, Finset.mem_univ, true_and, iff_true]
  have hx : (x 1).val < 64 := (x 1).isLt
  exact ⟨⟨(x 1).val / 2, by omega⟩, by simp only [oSet, Finset.mem_filter, Finset.mem_univ, true_and]⟩

/-- The result array whole is its thirty-two pairs of rows. -/
theorem out_rows (d : Dev nD) (f : Buf (Elt F) (outL d)) :
    (outL d ↦{fullShare} f : sProp 𝕄) = bigSep Finset.univ fun w : Fin 32 => outL d ↦[oSet w]{fullShare} f := by
  rw [← pointsTo_biUnion Finset.univ (ℓ := outL d) oSet oSet_disjoint, oSet_cover]; try rfl

variable [FloatOps F]

/-! ## From the whole arrays to the tasks' payloads and back -/

/-- What stays with the TensorCore across the call: the remainder of each operand array's share. -/
def kept (a : Arrs F) (d : Dev nD) : sProp 𝕄 :=
  iprop((catL d ↦{Transfers.shareDrop fullShare 32} (a.cat : Buf (Elt F) (catL d))) ∗ (numL d ↦{Transfers.shareDrop fullShare 32} (a.num : Buf (Elt F) (numL d)))
    ∗ (embL d ↦{Transfers.shareDrop fullShare 32} (a.emb : Buf (Elt F) (embL d))) ∗ (wL d ↦{Transfers.shareDrop fullShare 32} (a.w : Buf (Elt F) (wL d)))
    ∗ (bL d ↦{Transfers.shareDrop fullShare 32} (a.b : Buf (Elt F) (bL d))) ∗ (clsL d ↦{Transfers.shareDrop fullShare 32} (a.cls : Buf (Elt F) (clsL d))))

/-- The seven arrays whole, the operands at `a`, the result array at `f`. -/
def whole (a : Arrs F) (f : FVec F S40x64x4096 .f32) (d : Dev nD) : sProp 𝕄 :=
  iprop((catL d ↦{fullShare} (a.cat : Buf (Elt F) (catL d))) ∗ (numL d ↦{fullShare} (a.num : Buf (Elt F) (numL d)))
    ∗ (embL d ↦{fullShare} (a.emb : Buf (Elt F) (embL d))) ∗ (wL d ↦{fullShare} (a.w : Buf (Elt F) (wL d)))
    ∗ (bL d ↦{fullShare} (a.b : Buf (Elt F) (bL d))) ∗ (clsL d ↦{fullShare} (a.cls : Buf (Elt F) (clsL d)))
    ∗ (outL d ↦{fullShare} (f : Buf (Elt F) (outL d))))

theorem tiles_in (a : Arrs F) (f : FVec F S40x64x4096 .f32) (d : Dev nD) :
    (bigSep Finset.univ fun w : Fin 32 => tileIn a f d w)
      = iprop((bigSep Finset.univ fun w : Fin 32 => catL d ↦{rsh w} (a.cat : Buf (Elt F) (catL d))) ∗ (bigSep Finset.univ fun w : Fin 32 => numL d ↦{rsh w} (a.num : Buf (Elt F) (numL d)))
        ∗ (bigSep Finset.univ fun w : Fin 32 => embL d ↦{rsh w} (a.emb : Buf (Elt F) (embL d))) ∗ (bigSep Finset.univ fun w : Fin 32 => wL d ↦{rsh w} (a.w : Buf (Elt F) (wL d)))
        ∗ (bigSep Finset.univ fun w : Fin 32 => bL d ↦{rsh w} (a.b : Buf (Elt F) (bL d))) ∗ (bigSep Finset.univ fun w : Fin 32 => clsL d ↦{rsh w} (a.cls : Buf (Elt F) (clsL d)))
        ∗ (bigSep Finset.univ fun w : Fin 32 => outL d ↦[oSet w]{fullShare} (f : Buf (Elt F) (outL d)))) := by
  unfold tileIn
  rw [bigSep_sep', bigSep_sep', bigSep_sep', bigSep_sep', bigSep_sep', bigSep_sep']

theorem tiles_out (a : Arrs F) (d : Dev nD) :
    (bigSep Finset.univ fun w : Fin 32 => tileOut a d w)
      = iprop((bigSep Finset.univ fun w : Fin 32 => catL d ↦{rsh w} (a.cat : Buf (Elt F) (catL d))) ∗ (bigSep Finset.univ fun w : Fin 32 => numL d ↦{rsh w} (a.num : Buf (Elt F) (numL d)))
        ∗ (bigSep Finset.univ fun w : Fin 32 => embL d ↦{rsh w} (a.emb : Buf (Elt F) (embL d))) ∗ (bigSep Finset.univ fun w : Fin 32 => wL d ↦{rsh w} (a.w : Buf (Elt F) (wL d)))
        ∗ (bigSep Finset.univ fun w : Fin 32 => bL d ↦{rsh w} (a.b : Buf (Elt F) (bL d))) ∗ (bigSep Finset.univ fun w : Fin 32 => clsL d ↦{rsh w} (a.cls : Buf (Elt F) (clsL d)))
        ∗ (bigSep Finset.univ fun w : Fin 32 => outL d ↦[oSet w]{fullShare} (GT a : Buf (Elt F) (outL d)))) := by
  unfold tileOut
  rw [bigSep_sep', bigSep_sep', bigSep_sep', bigSep_sep', bigSep_sep', bigSep_sep']

/-- Out: every operand array split into its read shares, the result array into its rows. -/
theorem split_all (a : Arrs F) (f : FVec F S40x64x4096 .f32) (d : Dev nD) :
    whole a f d ⊢ iprop(kept a d ∗ bigSep Finset.univ fun w : Fin 32 => tileIn a f d w) := by
  rw [tiles_in]; unfold whole kept
  rw [out_rows]
  iintro ⟨H1, H2, H3, H4, H5, H6, H7⟩
  ihave H1 := (Transfers.pointsTo_toks_split fullShare 32) $$ H1
  ihave H2 := (Transfers.pointsTo_toks_split fullShare 32) $$ H2
  ihave H3 := (Transfers.pointsTo_toks_split fullShare 32) $$ H3
  ihave H4 := (Transfers.pointsTo_toks_split fullShare 32) $$ H4
  ihave H5 := (Transfers.pointsTo_toks_split fullShare 32) $$ H5
  ihave H6 := (Transfers.pointsTo_toks_split fullShare 32) $$ H6
  icases H1 with ⟨K1, T1⟩; icases H2 with ⟨K2, T2⟩; icases H3 with ⟨K3, T3⟩
  icases H4 with ⟨K4, T4⟩; icases H5 with ⟨K5, T5⟩; icases H6 with ⟨K6, T6⟩
  isplitl [K1 K2 K3 K4 K5 K6]
  · isplitl [K1]; · iexact K1
    isplitl [K2]; · iexact K2
    isplitl [K3]; · iexact K3
    isplitl [K4]; · iexact K4
    isplitl [K5]; · iexact K5
    iexact K6
  isplitl [T1]; · iexact T1
  isplitl [T2]; · iexact T2
  isplitl [T3]; · iexact T3
  isplitl [T4]; · iexact T4
  isplitl [T5]; · iexact T5
  isplitl [T6]; · iexact T6
  iexact H7

/-- Back: the read shares rejoin their remainders, the rows — all at the one function `GT a` — the result array. -/
theorem join_all (a : Arrs F) (d : Dev nD) :
    iprop(kept a d ∗ bigSep Finset.univ fun w : Fin 32 => tileOut a d w) ⊢ whole a (GT a) d := by
  rw [tiles_out]; unfold whole kept
  rw [out_rows]
  iintro ⟨⟨K1, K2, K3, K4, K5, K6⟩, T1, T2, T3, T4, T5, T6, H7⟩
  isplitl [K1 T1]
  · iapply (Transfers.pointsTo_toks_join fullShare 32); isplitl [K1] <;> iassumption
  isplitl [K2 T2]
  · iapply (Transfers.pointsTo_toks_join fullShare 32); isplitl [K2] <;> iassumption
  isplitl [K3 T3]
  · iapply (Transfers.pointsTo_toks_join fullShare 32); isplitl [K3] <;> iassumption
  isplitl [K4 T4]
  · iapply (Transfers.pointsTo_toks_join fullShare 32); isplitl [K4] <;> iassumption
  isplitl [K5 T5]
  · iapply (Transfers.pointsTo_toks_join fullShare 32); isplitl [K5] <;> iassumption
  isplitl [K6 T6]
  · iapply (Transfers.pointsTo_toks_join fullShare 32); isplitl [K6] <;> iassumption
  iexact H7

/-! ## The call's payloads are the tasks' -/

variable (A : Dev nD → Arrs F) (fo : Dev nD → FVec F S40x64x4096 .f32)

theorem st0_eq (d : Dev nD) :
    (bigSep Finset.univ fun c : Fin ((K (F := F)).nCore 0) => (P A fo).st 0 d c) = bigSep Finset.univ fun w : Fin 32 => tileIn (A d) (fo d) d w := by
  simp only [P_st]
  rw [bigSep_wid, bigSep_grid (F := F) fun c i => tileIn (A d) (fo d) d (widOf c i)]

theorem dn0_eq (d : Dev nD) :
    (bigSep Finset.univ fun c : Fin ((K (F := F)).nCore 0) => (P A fo).dn 0 d c) = bigSep Finset.univ fun w : Fin 32 => tileOut (A d) d w := by
  simp only [P_dn]
  rw [bigSep_wid, bigSep_grid (F := F) fun c i => tileOut (A d) d (widOf c i)]

end Cert.Proof.KI

end
-- ==== Proof.KI.LaunchHost.lean ====
/-
  The launch of the tokenizer call, fourth part: @main's host operations. Eight of them — two transposes each followed
  by a flattening, one transpose of the tables, three flattenings — fill the six operand arrays from the six argument
  arrays before the call; one transpose fills the result from the call's result array after it. Each operand array's
  contents before the call is the operation's own function applied to the argument array's launch contents; no
  operation writes an argument array or the call's result array.
-/
import proofs.«207382_g17746804867166_cont_8to1_1179_25_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after seq)

variable [FloatOps F]

/-! ## The contents of the operand arrays before the call, and of the result after it -/

variable (m : (ℓ : Loc nD τ sig) → Buf (Elt F) ℓ)

/-- The six operand arrays after the host operations: each printed operation's function at the argument's launch contents. -/
def Apre (d : Dev nD) : Arrs F where
  cat := shapeCast S106496 (transpose S26x4096 [1, 0] (m ((SparseCore.T d).loc main_arg0)) transposes_S4096x26_S26x4096_1_0) shapeCasts_S26x4096_S106496
  num := shapeCast S53248 (transpose S13x4096 [1, 0] (m ((SparseCore.T d).loc main_arg1)) transposes_S4096x13_S13x4096_1_0) shapeCasts_S13x4096_S53248
  emb := transpose S26x64x100000 [0, 2, 1] (m ((SparseCore.T d).loc main_arg2)) transposes_S26x100000x64_S26x64x100000_0_2_1
  w := shapeCast S832 (m ((SparseCore.T d).loc main_arg3)) shapeCasts_S13x64_S832
  b := shapeCast S832 (m ((SparseCore.T d).loc main_arg4)) shapeCasts_S13x64_S832
  cls := shapeCast S64 (m ((SparseCore.T d).loc main_arg5)) shapeCasts_S1x1x64_S64

/-- What the call's result array holds at launch. -/
def fo₀ (d : Dev nD) : FVec F S40x64x4096 .f32 := m (outL d)

/-- The program's result: the call's result `GT` of those operands, tokens and features behind the batch axis. -/
def outFinal (d : Dev nD) : FVec F S4096x40x64 .f32 :=
  transpose S4096x40x64 [2, 0, 1] (GT (Apre m d)) transposes_S40x64x4096_S4096x40x64_2_0_1

/-! ## The operations -/

abbrev op1 : HloOp τ sig (Elt F) := StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev op2 : HloOp τ sig (Elt F) := StableHlo.reshape main_v0 main_v1 rfl shapeCasts_S26x4096_S106496
abbrev op3 : HloOp τ sig (Elt F) := StableHlo.unary main_arg1 main_v2 ((transpose S13x4096 [1, 0] · transposes_S4096x13_S13x4096_1_0) : (⟨S4096x13, .f32⟩ : BufTy).Contents (Elt F) → (⟨S13x4096, .f32⟩ : BufTy).Contents (Elt F))
abbrev op4 : HloOp τ sig (Elt F) := StableHlo.reshape main_v2 main_v3 rfl shapeCasts_S13x4096_S53248
abbrev op5 : HloOp τ sig (Elt F) := StableHlo.unary main_arg2 main_v4 ((transpose S26x64x100000 [0, 2, 1] · transposes_S26x100000x64_S26x64x100000_0_2_1) : (⟨S26x100000x64, .f32⟩ : BufTy).Contents (Elt F) → (⟨S26x64x100000, .f32⟩ : BufTy).Contents (Elt F))
abbrev op6 : HloOp τ sig (Elt F) := StableHlo.reshape main_arg3 main_v5 rfl shapeCasts_S13x64_S832
abbrev op7 : HloOp τ sig (Elt F) := StableHlo.reshape main_arg4 main_v6 rfl shapeCasts_S13x64_S832
abbrev op8 : HloOp τ sig (Elt F) := StableHlo.reshape main_arg5 main_v7 rfl shapeCasts_S1x1x64_S64
abbrev op9 : HloOp τ sig (Elt F) := StableHlo.unary main_v8 main_v9 ((transpose S4096x40x64 [2, 0, 1] · transposes_S40x64x4096_S4096x40x64_2_0_1) : (⟨S40x64x4096, .f32⟩ : BufTy).Contents (Elt F) → (⟨S4096x40x64, .f32⟩ : BufTy).Contents (Elt F))

/-- The operations before the call, in order. -/
def ops8 : List (HloOp τ sig (Elt F)) := [op1, op2, op3, op4, op5, op6, op7, op8]

/-- The call and what follows it. -/
def tailP (d : Dev nD) : Prog (TpuEff nD τ sig (Elt F) (SparseCore.Sig (ΛP (F := F)) 1) .tc) PUnit := do
  (K (F := F)).run d 0
  hlo rfl (op9 (F := F)) (fun _ => .ret ⟨⟩)
  pure ⟨⟩

/-- @main is the eight operations, then the call and the last operation. -/
theorem main_eq (d : Dev nD) : main (F := F) d = (seq (ops8 (F := F)) >>= fun _ => tailP d) := rfl

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

/-- The launch contents of device `d`'s arrays, and their contents after the eight operations. -/
def V0 (d : Dev nD) : Valuation τ sig (Elt F) := fun b => m (d, b)
def V8 (d : Dev nD) : Valuation τ sig (Elt F) := after (ops8 (F := F)) (V0 m d)

theorem V8_v1 (d : Dev nD) : V8 m d v1' = (Apre m d).cat := by
  unfold V8 ops8; after_results; rfl
theorem V8_v3 (d : Dev nD) : V8 m d v3' = (Apre m d).num := by
  unfold V8 ops8; after_results; rfl
theorem V8_v4 (d : Dev nD) : V8 m d v4' = (Apre m d).emb := by
  unfold V8 ops8; after_results; rfl
theorem V8_v5 (d : Dev nD) : V8 m d v5' = (Apre m d).w := by
  unfold V8 ops8; after_results; rfl
theorem V8_v6 (d : Dev nD) : V8 m d v6' = (Apre m d).b := by
  unfold V8 ops8; after_results; rfl
theorem V8_v7 (d : Dev nD) : V8 m d v7' = (Apre m d).cls := by
  unfold V8 ops8; after_results; rfl
theorem V8_v8 (d : Dev nD) : V8 m d v8' = fo₀ m d := by
  unfold V8 ops8; after_results; rfl
theorem V8_a0 (d : Dev nD) : V8 m d a0' = m ((SparseCore.T d).loc main_arg0) := by
  unfold V8 ops8; after_results; rfl
theorem V8_a1 (d : Dev nD) : V8 m d a1' = m ((SparseCore.T d).loc main_arg1) := by
  unfold V8 ops8; after_results; rfl
theorem V8_a2 (d : Dev nD) : V8 m d a2' = m ((SparseCore.T d).loc main_arg2) := by
  unfold V8 ops8; after_results; rfl
theorem V8_a3 (d : Dev nD) : V8 m d a3' = m ((SparseCore.T d).loc main_arg3) := by
  unfold V8 ops8; after_results; rfl
theorem V8_a4 (d : Dev nD) : V8 m d a4' = m ((SparseCore.T d).loc main_arg4) := by
  unfold V8 ops8; after_results; rfl
theorem V8_a5 (d : Dev nD) : V8 m d a5' = m ((SparseCore.T d).loc main_arg5) := by
  unfold V8 ops8; after_results; rfl

end Cert.Proof.KI

end
-- ==== Proof.KI.LaunchArr.lean ====
/-
  The launch of the tokenizer call, fifth part: the TensorCore's sixteen arrays as one held set for the host
  operations, and one by one for the call. After the eight operations the six argument arrays hold their launch
  contents, the six operand arrays the operations' values, the call's result array its launch contents. For the last
  operation the call's result array and the program's result array are held as a pair.
-/
import proofs.«207382_g17746804867166_cont_8to1_1179_25_alg».proof.Proof.KI.LaunchSplit
import proofs.«207382_g17746804867166_cont_8to1_1179_25_alg».proof.Proof.KI.LaunchHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after seq)

variable [FloatOps F]

variable (m : (ℓ : Loc nD τ sig) → Buf (Elt F) ℓ)

/-- The TensorCore's arrays: none is scoped. -/
abbrev S16 : Finset (DevRef τ sig) := {a0', a1', a2', a3', a4', a5', v0', v1', v2', v3', v4', v5', v6', v7', v8', v9'}

omit [FloatOps F] in
theorem held_S16 (d : Dev nD) (W : Valuation τ sig (Elt F)) :
    (held (T d) S16 W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ ((SparseCore.T d).loc main_arg3 ↦{fullShare} W a3')
      ∗ ((SparseCore.T d).loc main_arg4 ↦{fullShare} W a4') ∗ ((SparseCore.T d).loc main_arg5 ↦{fullShare} W a5')
      ∗ ((SparseCore.T d).loc main_v0 ↦{fullShare} W v0') ∗ (catL d ↦{fullShare} W v1') ∗ ((SparseCore.T d).loc main_v2 ↦{fullShare} W v2')
      ∗ (numL d ↦{fullShare} W v3') ∗ (embL d ↦{fullShare} W v4') ∗ (wL d ↦{fullShare} W v5') ∗ (bL d ↦{fullShare} W v6')
      ∗ (clsL d ↦{fullShare} W v7') ∗ (outL d ↦{fullShare} W v8') ∗ ((SparseCore.T d).loc main_v9 ↦{fullShare} W v9')) := by
  unfold held S16
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_v0 ↦{fullShare} W main_v0) ∗ (catL d ↦{fullShare} W main_v1) ∗ ((SparseCore.T d).loc main_v2 ↦{fullShare} W main_v2)
      ∗ (numL d ↦{fullShare} W main_v3) ∗ (embL d ↦{fullShare} W main_v4) ∗ (wL d ↦{fullShare} W main_v5) ∗ (bL d ↦{fullShare} W main_v6)
      ∗ (clsL d ↦{fullShare} W main_v7) ∗ (outL d ↦{fullShare} W main_v8) ∗ ((SparseCore.T d).loc main_v9 ↦{fullShare} W main_v9)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6, main_v7, main_v8, main_v9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the launch deals the TensorCore is its sixteen arrays held at their launch contents. -/
theorem unscoped_held (d : Dev nD) : (unscopedBufs d (fun b => m ((SparseCore.T d).loc b)) : sProp 𝕄) = held (T d) S16 (V0 m d) := by
  rw [unscopedBufs_eq, held_S16]; rfl

theorem hS8 : ∀ op ∈ (ops8 (F := F)), op.bufs ⊆ S16 := by
  intro op hop
  simp only [ops8, List.mem_cons, List.not_mem_nil, or_false] at hop
  rcases hop with rfl | rfl | rfl | rfl | rfl | rfl | rfl | rfl
  · exact show ({a0', v0'} : Finset (DevRef τ sig)) ⊆ S16 by decide
  · exact show ({v0', v1'} : Finset (DevRef τ sig)) ⊆ S16 by decide
  · exact show ({a1', v2'} : Finset (DevRef τ sig)) ⊆ S16 by decide
  · exact show ({v2', v3'} : Finset (DevRef τ sig)) ⊆ S16 by decide
  · exact show ({a2', v4'} : Finset (DevRef τ sig)) ⊆ S16 by decide
  · exact show ({a3', v5'} : Finset (DevRef τ sig)) ⊆ S16 by decide
  · exact show ({a4', v6'} : Finset (DevRef τ sig)) ⊆ S16 by decide
  · exact show ({a5', v7'} : Finset (DevRef τ sig)) ⊆ S16 by decide

theorem hf8 : ∀ op ∈ (ops8 (F := F)), op.fresh = ∅ := by
  intro op hop
  simp only [ops8, List.mem_cons, List.not_mem_nil, or_false] at hop
  rcases hop with rfl | rfl | rfl | rfl | rfl | rfl | rfl | rfl <;> rfl

/-- The six argument arrays at their launch contents. -/
def args (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5)))

/-- After the eight operations: the arguments unchanged, the call's seven arrays whole at `Apre` and the result array's
    launch contents, and the program's result array at whatever it holds. -/
theorem held16_out (d : Dev nD) :
    (held (T d) S16 (V8 m d) : sProp 𝕄)
      ⊢ iprop(args m d ∗ whole (Apre m d) (fo₀ m d) d ∗ ((SparseCore.T d).loc main_v9 ↦{fullShare} V8 m d v9')) := by
  rw [held_S16, V8_v1, V8_v3, V8_v4, V8_v5, V8_v6, V8_v7, V8_v8, V8_a0, V8_a1, V8_a2, V8_a3, V8_a4, V8_a5]
  unfold args whole
  iintro ⟨A0, A1, A2, A3, A4, A5, -, X1, -, X3, X4, X5, X6, X7, X8, X9⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [X1 X3 X4 X5 X6 X7 X8]
  · isplitl [X1]; · iexact X1
    isplitl [X3]; · iexact X3
    isplitl [X4]; · iexact X4
    isplitl [X5]; · iexact X5
    isplitl [X6]; · iexact X6
    isplitl [X7]; · iexact X7
    iexact X8
  iexact X9

/-! ## The last operation's pair -/

abbrev S2 : Finset (DevRef τ sig) := {v8', v9'}

omit [FloatOps F] in
theorem held_S2 (d : Dev nD) (W : Valuation τ sig (Elt F)) :
    (held (T d) S2 W : sProp 𝕄) = iprop((outL d ↦{fullShare} W v8') ∗ ((SparseCore.T d).loc main_v9 ↦{fullShare} W v9')) := by
  unfold held S2
  rw [SparseCore.bigSep_insert' (by decide), bigSep_singleton]

theorem hS9 : (op9 (F := F)).bufs ⊆ S2 := show ({v8', v9'} : Finset (DevRef τ sig)) ⊆ S2 by decide

/-- After the call: the call's result array at `GT`, everything else as after the eight operations. -/
def V9 (d : Dev nD) : Valuation τ sig (Elt F) := Function.update (V8 m d) v8' (GT (Apre m d))

theorem V9_v8 (d : Dev nD) : V9 m d v8' = GT (Apre m d) := Function.update_self _ _ _
theorem V9_v9 (d : Dev nD) : V9 m d v9' = V8 m d v9' := Function.update_of_ne (show v9' ≠ v8' by decide) _ _

/-- The last operation's value. -/
theorem R9_v9 (d : Dev nD) : (op9 (F := F)).result (V9 m d) v9' = outFinal m d := by
  rw [StableHlo.unary_result, V9_v8]; rfl

end Cert.Proof.KI

end
-- ==== Proof.KI.LaunchMain.lean ====
/-
  The launch of the tokenizer call, sixth part: @main on the TensorCore. The eight host operations run over the
  sixteen arrays held whole; the call hands the thirty-two tasks their read shares of the six operand arrays and their
  rows of the result array, and takes them back with the rows written; the last operation transposes the joined
  result. The six argument arrays are never written.
-/
import proofs.«207382_g17746804867166_cont_8to1_1179_25_alg».proof.Proof.KI.LaunchArr

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after seq wp_seq)

variable [FloatOps F]

variable (m : (ℓ : Loc nD τ sig) → Buf (Elt F) ℓ) (ρ : Dev nD → PrngReg)

/-- What @main leaves the claim: the argument arrays at their launch contents, the result array at `outFinal`. -/
def FIN (d : Dev nD) : sProp 𝕄 :=
  iprop(args m d ∗ ((SparseCore.T d).loc main_v9 ↦{fullShare} (outFinal m d : Buf (Elt F) ((SparseCore.T d).loc main_v9))))

/-- The call and the last operation, from the arrays as the eight operations left them. -/
theorem wp_tail (κ : GSem nD τ sig → ℕ) (d : Dev nD) :
    iprop((K (F := F)).ctx EH (P (Apre m) (fo₀ m)) κ ∗ (K (F := F)).tcSt EH d 0 ∗ boundary (SparseCore.T d) ∗ (held (T d) S16 (V8 m d) : sProp 𝕄))
      ⊢ wp frame (wpE ((K (F := F)).defs (D (F := F))) 𝒱 (SparseCore.T d) none) Set.univ (tailP (F := F) d)
          fun _ => iprop((K (F := F)).tcSt EH d 1 ∗ FIN m d) := by
  simp only [tailP, wp_bind, wp_pure]
  iintro ⟨#Hctx, Hst, Hb, Hheld⟩
  ihave Hh := (held16_out m d) $$ Hheld
  icases Hh with ⟨Hargs, Hw, X9⟩
  ihave Hs := (split_all (Apre m d) (fo₀ m d) d) $$ Hw
  icases Hs with ⟨Hkept, Htiles⟩
  -- the call: every task its read shares and its rows, and back
  iapply ((K (F := F)).wp_run (D (F := F)) 𝒱 (EH := EH) (P := P (Apre m) (fo₀ m)) κ d 0) $$ [Hst Htiles Hb Hargs Hkept X9]
  isplitr; · iexact Hctx
  isplitl [Hst]; · iexact Hst
  isplitl [Htiles]
  · rw [st0_eq]; iexact Htiles
  iintro ⟨Hst, Hdn⟩
  ihave Hdn' := (Entails.of_eq (dn0_eq (Apre m) (fo₀ m) d)) $$ Hdn
  ihave Hw := (join_all (Apre m d) d) $$ [Hkept Hdn']
  · isplitl [Hkept] <;> iassumption
  unfold whole
  icases Hw with ⟨-, -, -, -, -, -, Ho⟩
  -- the last operation, over the call's result array and the program's
  iapply (wp_hlo_within 𝒱 (SparseCore.T d) none Set.univ (op := op9) (S := S2) hS9 (V := V9 m d)) $$ [Hb Ho X9]
  · isplitl [Hb]; · iexact Hb
    rw [held_S2, V9_v8, V9_v9]
    isplitl [Ho]; · iexact Ho
    iexact X9
  iintro ⟨Hb, Hheld⟩
  ihave Hh := (Entails.of_eq (held_S2 (F := F) d _)) $$ Hheld
  icases Hh with ⟨-, Hr⟩
  rw [wp_ret]; imodintro; imodintro
  isplitl [Hst]; · iexact Hst
  unfold FIN
  isplitl [Hargs]; · iexact Hargs
  rw [← R9_v9]; iexact Hr

/-- @main on device `d`'s TensorCore. -/
theorem hmain (κ : GSem nD τ sig → ℕ) (d : Dev nD) :
    iprop((K (F := F)).ctx EH (P (Apre m) (fo₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d S16 (fun _ => tailP (F := F) d) (ops8 (F := F)) hS8 hf8 (V0 m d)) $$ [Hb Hheld]
  · isplitl [Hb]; · iexact Hb
    iexact Hheld
  iintro ⟨Hb, Hheld⟩
  iapply (wp_tail m κ d)
  isplitr; · iexact Hctx
  isplitl [Hst]; · iexact Hst
  isplitl [Hb]; · iexact Hb
  iexact Hheld

end Cert.Proof.KI

end
-- ==== Proof.KI.LaunchRun.lean ====
/-
  The launch of the tokenizer call, last part: the final memory read through what @main leaves, and the program's run.
  Every weakly fair execution of the thirty-five threads ends; at its end the program's result array holds `outFinal`
  — the transposed `GT` of the operand arrays the host operations made — and the six argument arrays are unchanged;
  given the task's proof at a symbolic grid point.
-/
import proofs.«207382_g17746804867166_cont_8to1_1179_25_alg».proof.Proof.KI.LaunchTile
import proofs.«207382_g17746804867166_cont_8to1_1179_25_alg».proof.Proof.KI.LaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-- What the final memory must read on device `d`. -/
def fq (d : Dev nD) (s' : Phys nD τ sig (Elt F)) : Prop :=
  s'.mem.mem ((SparseCore.T d).loc main_v9) = outFinal m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)

theorem hfin (d : Dev nD) (s' : Phys nD τ sig (Elt F)) : iprop(FIN m d ∗ SI s') ⊢ (⌜fq m d s'⌝ : sProp 𝕄) := by
  unfold FIN args
  iintro ⟨⟨⟨A0, A1, A2, A3, A4, A5⟩, R⟩, HSI⟩
  ihave H := (persistent_entails_right (SI_pointsTo_agree (st := s') (ℓ := (SparseCore.T d).loc main_arg0) (I := Finset.univ) (q := fullShare) (f := m ((SparseCore.T d).loc main_arg0)))) $$ [HSI A0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI A1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI A2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI A3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI A4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI A5]
  · isplitl [HSI] <;> iassumption
  icases H with ⟨%h5, HSI, -⟩
  ihave H := (SI_pointsTo_agree (st := s') (ℓ := (SparseCore.T d).loc main_v9) (I := Finset.univ) (q := fullShare) (f := (outFinal m d : Buf (Elt F) ((SparseCore.T d).loc main_v9)))) $$ [HSI R]
  · isplitl [HSI] <;> iassumption
  icases H with %h9
  ipureintro
  exact ⟨funext fun i => h9 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

/-! ## The program's run -/

/-- The run's post: on every device the result array at `outFinal`, the six argument arrays unchanged. -/
def QC : PUnit × MemSt nD τ sig (Elt F) → Prop := fun r => ∀ c : Dev nD,
  r.2.mem ((SparseCore.T c).loc main_v9) = outFinal m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem run_main [∀ e, Nonempty (Elt F e)] (hbody : ∀ d, TileBody (Apre m d) (fo₀ m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Apre m) (fo₀ m)) facts v₀
    (fun q hq => match q with | 0 => nomatch hq)
    (fun q _ => match q with | 0 => tileObl (Apre m) (fo₀ m) hbody)
    (fun q _ => match q with | 0 => SparseCore.Cfg.VecSplit.of_plain (vecSplit (Apre m) (fo₀ m)))
    m ρ main (fun _ => iprop(emp)) (FIN m) (u₀ (F := F)) (sep_elim_left.trans (hu₀ (Apre m) (fo₀ m))) (hmain m ρ) (fq m) (hfin m) (QC m) (fun _ h => h)

end Cert.Proof.KI

end
-- ==== Proof.KI.Rows.lean ====
/-
  The result array `outT : [40, 64, 4096]` row by row. Row `(t, r)` — token `t`, feature row `r` — is the set of its
  indices `(t, r, n)`, `n < 4096`. The kernel writes each staging row `[1, 4096]` into ONE such row, addressed as the
  unit-stride rectangle at offsets `(t, r, 0)` with sizes `(1, 1, 4096)`, its leading unit axis dropped: that view's
  elements are exactly row `(t, r)`. A task owns the rows `(t, 2w)` and `(t, 2w + 1)` of every token `t`: its share of the
  array is the disjoint union of those 80 rows.
-/
import proofs.«207382_g17746804867166_cont_8to1_1179_25_alg».proof.Proof.KI.Iface

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## A row and the view that addresses it -/

/-- Row `(t, r)` of the `[40, 64, 4096]` array: the indices `(t, r, n)`. -/
def rowT (t : Fin 40) (r : Fin 64) : Finset S40x64x4096.Idx :=
  Finset.univ.filter fun x => (x 0).val = t.val ∧ (x 1).val = r.val

theorem mem_rowT {t : Fin 40} {r : Fin 64} {x : S40x64x4096.Idx} : x ∈ rowT t r ↔ (x 0).val = t.val ∧ (x 1).val = r.val := by
  simp [rowT]

/-- The `[1, 4096]` view of the result array at offsets `OFF` with sizes `(1, 1, 4096)`, as the kernel slices it. -/
abbrev dstRow (OFF : Fin 3 → Nat) (INB : ∀ a, OFF a + S1x1x4096.size a ≤ S40x64x4096.size a) :
    Memref sig .scVector .hbm S1x4096 .f32 :=
  ((Memref.whole main_v8_scv : Memref sig .scVector .hbm S40x64x4096 .f32).slice
    (Rect.unit (s := S40x64x4096) OFF S1x1x4096.size INB) (fun _ => rfl)).squeeze S1x4096 squeezes_S1x1x4096_S1x4096

/-- The unit-stride rectangle at `(t, r, 0)` with sizes `(1, 1, 4096)` is row `(t, r)`. -/
theorem rect_set_eq_rowT (OFF : Fin 3 → Nat) (INB : ∀ a, OFF a + S1x1x4096.size a ≤ S40x64x4096.size a)
    (t : Fin 40) (r : Fin 64) (hoff : OFF = ![t.val, r.val, 0]) :
    (Rect.unit (s := S40x64x4096) OFF S1x1x4096.size INB).set = rowT t r := by
  subst hoff
  ext x
  rw [Rect.mem_set_unit, mem_rowT]
  constructor
  · intro h
    have h0 : t.val ≤ (x 0).val ∧ (x 0).val < t.val + 1 := h 0
    have h1 : r.val ≤ (x 1).val ∧ (x 1).val < r.val + 1 := h 1
    omega
  · rintro ⟨e0, e1⟩ a
    match a with
    | ⟨0, _⟩ => show t.val ≤ (x 0).val ∧ (x 0).val < t.val + 1; omega
    | ⟨1, _⟩ => show r.val ≤ (x 1).val ∧ (x 1).val < r.val + 1; omega
    | ⟨2, _⟩ =>
      have h2 : (x 2).val < 4096 := (x 2).isLt
      show 0 ≤ (x 2).val ∧ (x 2).val < 0 + 4096
      omega

/-- THE DESTINATION'S ELEMENTS: the view at offsets `(t, r, 0)` holds exactly row `(t, r)`. -/
theorem dstRow_set (OFF : Fin 3 → Nat) (INB : ∀ a, OFF a + S1x1x4096.size a ≤ S40x64x4096.size a)
    (t : Fin 40) (r : Fin 64) (hoff : OFF = ![t.val, r.val, 0]) : (dstRow OFF INB).view.set = rowT t r := by
  show (((View.whole (main_v8_scv : Ref sig .scVector)).slice (Rect.unit (s := S40x64x4096) OFF S1x1x4096.size INB)).reshape
    S1x4096 squeezes_S1x1x4096_S1x4096.numel_eq).set = _
  rw [View.set_reshape, View.set_slice_whole]
  exact rect_set_eq_rowT OFF INB t r hoff

/-- The destination is the result array's location on every thread of the device. -/
theorem dstRow_loc (OFF : Fin 3 → Nat) (INB : ∀ a, OFF a + S1x1x4096.size a ≤ S40x64x4096.size a) (d : Dev nD)
    (L : grid0.Coords) : (dstRow OFF INB).view.loc (V d (cV L) (jV L)) = outL d := rfl

/-! ## A task's two rows of a token -/

/-- The task's number at a grid point: twice the subcore plus the core. -/
theorem widL_val (L : grid0.Coords) : (widL L).val = (L 1).val * 2 + (L 0).val := rfl

/-- Feature row `2w + dd` of the task `w` at grid point `L`. -/
def rowOf (L : grid0.Coords) (dd : Fin 2) : Fin 64 :=
  ⟨2 * (widL L).val + dd.val, by have := (widL L).isLt; have := dd.isLt; omega⟩

theorem rowOf_val (L : grid0.Coords) (dd : Fin 2) : (rowOf L dd).val = 2 * (widL L).val + dd.val := rfl

/-- The offsets the kernel computes, `(tok, 4·subcore + 2·core + dd, 0)`, are those of row `(tok, 2w + dd)`. -/
theorem row_off_eq (L : grid0.Coords) (tok : Fin 40) (dd : Fin 2) :
    (![tok.val, 4 * (L 1).val + 2 * (L 0).val + dd.val, 0] : Fin 3 → Nat) = ![tok.val, (rowOf L dd).val, 0] := by
  have e : (rowOf L dd).val = 4 * (L 1).val + 2 * (L 0).val + dd.val := by
    rw [rowOf_val, widL_val]; omega
  rw [e]

end Cert.Proof.KI

end
-- ==== Proof.KI.RowsTable.lean ====
/-
  The 80 destination rows of a task, one per token and per feature row of its pair: each as the view the kernel
  addresses it by — the result array sliced at the offsets the kernel computes at grid point `L`, sizes `(1, 1, 4096)`,
  the leading unit axis dropped —, its offsets in closed form, `(tok, 2w + dd, 0)`, and the set of its elements, row
  `(tok, 2w + dd)`.
-/
import proofs.«207382_g17746804867166_cont_8to1_1179_25_alg».proof.Proof.KI.Rows

noncomputable section

namespace Cert.Proof.KI

open Cert.KernelIdeal Cert.KernelIdeal.Gen
open Idealize.ShloMosaic

abbrev dst_0_0 (L : grid0.Coords) : Memref sig .scVector .hbm S1x4096 .f32 :=
  ((Memref.whole main_v8_scv : Memref sig .scVector .hbm S40x64x4096 .f32).slice (Rect.unit (s := S40x64x4096) (k0_off2 L) S1x1x4096.size (k0_off2_inb L)) (fun _ => rfl)).squeeze S1x4096 squeezes_S1x1x4096_S1x4096
theorem dst_hoff_0_0 (L : grid0.Coords) : (k0_off2 L) = ![0, (rowOf L (⟨0, by decide⟩ : Fin 2)).val, 0] :=
  (k0_off2_eq L).trans (row_off_eq L (⟨0, by decide⟩ : Fin 40) (⟨0, by decide⟩ : Fin 2))
theorem dst_set_0_0 (L : grid0.Coords) : (dst_0_0 L).view.set = rowT (⟨0, by decide⟩ : Fin 40) (rowOf L (⟨0, by decide⟩ : Fin 2)) :=
  dstRow_set _ _ _ _ (dst_hoff_0_0 L)

abbrev dst_0_1 (L : grid0.Coords) : Memref sig .scVector .hbm S1x4096 .f32 :=
  ((Memref.whole main_v8_scv : Memref sig .scVector .hbm S40x64x4096 .f32).slice (Rect.unit (s := S40x64x4096) (k0_off4 L 1#32) S1x1x4096.size (k0_off4_inb L 1)) (fun _ => rfl)).squeeze S1x4096 squeezes_S1x1x4096_S1x4096
theorem dst_hoff_0_1 (L : grid0.Coords) : (k0_off4 L 1#32) = ![0, (rowOf L (⟨1, by decide⟩ : Fin 2)).val, 0] :=
  (k0_off4_eq L (⟨1, by decide⟩ : Fin 2)).trans (row_off_eq L (⟨0, by decide⟩ : Fin 40) (⟨1, by decide⟩ : Fin 2))
theorem dst_set_0_1 (L : grid0.Coords) : (dst_0_1 L).view.set = rowT (⟨0, by decide⟩ : Fin 40) (rowOf L (⟨1, by decide⟩ : Fin 2)) :=
  dstRow_set _ _ _ _ (dst_hoff_0_1 L)

abbrev dst_1_0 (L : grid0.Coords) : Memref sig .scVector .hbm S1x4096 .f32 :=
  ((Memref.whole main_v8_scv : Memref sig .scVector .hbm S40x64x4096 .f32).slice (Rect.unit (s := S40x64x4096) (k0_off14 L) S1x1x4096.size (k0_off14_inb L)) (fun _ => rfl)).squeeze S1x4096 squeezes_S1x1x4096_S1x4096
theorem dst_hoff_1_0 (L : grid0.Coords) : (k0_off14 L) = ![1, (rowOf L (⟨0, by decide⟩ : Fin 2)).val, 0] :=
  (k0_off14_eq L).trans (row_off_eq L (⟨1, by decide⟩ : Fin 40) (⟨0, by decide⟩ : Fin 2))
theorem dst_set_1_0 (L : grid0.Coords) : (dst_1_0 L).view.set = rowT (⟨1, by decide⟩ : Fin 40) (rowOf L (⟨0, by decide⟩ : Fin 2)) :=
  dstRow_set _ _ _ _ (dst_hoff_1_0 L)

abbrev dst_1_1 (L : grid0.Coords) : Memref sig .scVector .hbm S1x4096 .f32 :=
  ((Memref.whole main_v8_scv : Memref sig .scVector .hbm S40x64x4096 .f32).slice (Rect.unit (s := S40x64x4096) (k0_off25 L 1#32) S1x1x4096.size (k0_off25_inb L 1)) (fun _ => rfl)).squeeze S1x4096 squeezes_S1x1x4096_S1x4096
theorem dst_hoff_1_1 (L : grid0.Coords) : (k0_off25 L 1#32) = ![1, (rowOf L (⟨1, by decide⟩ : Fin 2)).val, 0] :=
  (k0_off25_eq L (⟨1, by decide⟩ : Fin 2)).trans (row_off_eq L (⟨1, by decide⟩ : Fin 40) (⟨1, by decide⟩ : Fin 2))
theorem dst_set_1_1 (L : grid0.Coords) : (dst_1_1 L).view.set = rowT (⟨1, by decide⟩ : Fin 40) (rowOf L (⟨1, by decide⟩ : Fin 2)) :=
  dstRow_set _ _ _ _ (dst_hoff_1_1 L)

abbrev dst_2_0 (L : grid0.Coords) : Memref sig .scVector .hbm S1x4096 .f32 :=
  ((Memref.whole main_v8_scv : Memref sig .scVector .hbm S40x64x4096 .f32).slice (Rect.unit (s := S40x64x4096) (k0_off35 L) S1x1x4096.size (k0_off35_inb L)) (fun _ => rfl)).squeeze S1x4096 squeezes_S1x1x4096_S1x4096
theorem dst_hoff_2_0 (L : grid0.Coords) : (k0_off35 L) = ![2, (rowOf L (⟨0, by decide⟩ : Fin 2)).val, 0] :=
  (k0_off35_eq L).trans (row_off_eq L (⟨2, by decide⟩ : Fin 40) (⟨0, by decide⟩ : Fin 2))
theorem dst_set_2_0 (L : grid0.Coords) : (dst_2_0 L).view.set = rowT (⟨2, by decide⟩ : Fin 40) (rowOf L (⟨0, by decide⟩ : Fin 2)) :=
  dstRow_set _ _ _ _ (dst_hoff_2_0 L)

abbrev dst_2_1 (L : grid0.Coords) : Memref sig .scVector .hbm S1x4096 .f32 :=
  ((Memref.whole main_v8_scv : Memref sig .scVector .hbm S40x64x4096 .f32).slice (Rect.unit (s := S40x64x4096) (k0_off46 L 1#32) S1x1x4096.size (k0_off46_inb L 1)) (fun _ => rfl)).squeeze S1x4096 squeezes_S1x1x4096_S1x4096
theorem dst_hoff_2_1 (L : grid0.Coords) : (k0_off46 L 1#32) = ![2, (rowOf L (⟨1, by decide⟩ : Fin 2)).val, 0] :=
  (k0_off46_eq L (⟨1, by decide⟩ : Fin 2)).trans (row_off_eq L (⟨2, by decide⟩ : Fin 40) (⟨1, by decide⟩ : Fin 2))
theorem dst_set_2_1 (L : grid0.Coords) : (dst_2_1 L).view.set = rowT (⟨2, by decide⟩ : Fin 40) (rowOf L (⟨1, by decide⟩ : Fin 2)) :=
  dstRow_set _ _ _ _ (dst_hoff_2_1 L)

abbrev dst_3_0 (L : grid0.Coords) : Memref sig .scVector .hbm S1x4096 .f32 :=
  ((Memref.whole main_v8_scv : Memref sig .scVector .hbm S40x64x4096 .f32).slice (Rect.unit (s := S40x64x4096) (k0_off56 L) S1x1x4096.size (k0_off56_inb L)) (fun _ => rfl)).squeeze S1x4096 squeezes_S1x1x4096_S1x4096
theorem dst_hoff_3_0 (L : grid0.Coords) : (k0_off56 L) = ![3, (rowOf L (⟨0, by decide⟩ : Fin 2)).val, 0] :=
  (k0_off56_eq L).trans (row_off_eq L (⟨3, by decide⟩ : Fin 40) (⟨0, by decide⟩ : Fin 2))
theorem dst_set_3_0 (L : grid0.Coords) : (dst_3_0 L).view.set = rowT (⟨3, by decide⟩ : Fin 40) (rowOf L (⟨0, by decide⟩ : Fin 2)) :=
  dstRow_set _ _ _ _ (dst_hoff_3_0 L)

abbrev dst_3_1 (L : grid0.Coords) : Memref sig .scVector .hbm S1x4096 .f32 :=
  ((Memref.whole main_v8_scv : Memref sig .scVector .hbm S40x64x4096 .f32).slice (Rect.unit (s := S40x64x4096) (k0_off67 L 1#32) S1x1x4096.size (k0_off67_inb L 1)) (fun _ => rfl)).squeeze S1x4096 squeezes_S1x1x4096_S1x4096
theorem dst_hoff_3_1 (L : grid0.Coords) : (k0_off67 L 1#32) = ![3, (rowOf L (⟨1, by decide⟩ : Fin 2)).val, 0] :=
  (k0_off67_eq L (⟨1, by decide⟩ : Fin 2)).trans (row_off_eq L (⟨3, by decide⟩ : Fin 40) (⟨1, by decide⟩ : Fin 2))
theorem dst_set_3_1 (L : grid0.Coords) : (dst_3_1 L).view.set = rowT (⟨3, by decide⟩ : Fin 40) (rowOf L (⟨1, by decide⟩ : Fin 2)) :=
  dstRow_set _ _ _ _ (dst_hoff_3_1 L)

abbrev dst_4_0 (L : grid0.Coords) : Memref sig .scVector .hbm S1x4096 .f32 :=
  ((Memref.whole main_v8_scv : Memref sig .scVector .hbm S40x64x4096 .f32).slice (Rect.unit (s := S40x64x4096) (k0_off77 L) S1x1x4096.size (k0_off77_inb L)) (fun _ => rfl)).squeeze S1x4096 squeezes_S1x1x4096_S1x4096
theorem dst_hoff_4_0 (L : grid0.Coords) : (k0_off77 L) = ![4, (rowOf L (⟨0, by decide⟩ : Fin 2)).val, 0] :=
  (k0_off77_eq L).trans (row_off_eq L (⟨4, by decide⟩ : Fin 40) (⟨0, by decide⟩ : Fin 2))
theorem dst_set_4_0 (L : grid0.Coords) : (dst_4_0 L).view.set = rowT (⟨4, by decide⟩ : Fin 40) (rowOf L (⟨0, by decide⟩ : Fin 2)) :=
  dstRow_set _ _ _ _ (dst_hoff_4_0 L)

abbrev dst_4_1 (L : grid0.Coords) : Memref sig .scVector .hbm S1x4096 .f32 :=
  ((Memref.whole main_v8_scv : Memref sig .scVector .hbm S40x64x4096 .f32).slice (Rect.unit (s := S40x64x4096) (k0_off88 L 1#32) S1x1x4096.size (k0_off88_inb L 1)) (fun _ => rfl)).squeeze S1x4096 squeezes_S1x1x4096_S1x4096
theorem dst_hoff_4_1 (L : grid0.Coords) : (k0_off88 L 1#32) = ![4, (rowOf L (⟨1, by decide⟩ : Fin 2)).val, 0] :=
  (k0_off88_eq L (⟨1, by decide⟩ : Fin 2)).trans (row_off_eq L (⟨4, by decide⟩ : Fin 40) (⟨1, by decide⟩ : Fin 2))
theorem dst_set_4_1 (L : grid0.Coords) : (dst_4_1 L).view.set = rowT (⟨4, by decide⟩ : Fin 40) (rowOf L (⟨1, by decide⟩ : Fin 2)) :=
  dstRow_set _ _ _ _ (dst_hoff_4_1 L)

abbrev dst_5_0 (L : grid0.Coords) : Memref sig .scVector .hbm S1x4096 .f32 :=
  ((Memref.whole main_v8_scv : Memref sig .scVector .hbm S40x64x4096 .f32).slice (Rect.unit (s := S40x64x4096) (k0_off98 L) S1x1x4096.size (k0_off98_inb L)) (fun _ => rfl)).squeeze S1x4096 squeezes_S1x1x4096_S1x4096
theorem dst_hoff_5_0 (L : grid0.Coords) : (k0_off98 L) = ![5, (rowOf L (⟨0, by decide⟩ : Fin 2)).val, 0] :=
  (k0_off98_eq L).trans (row_off_eq L (⟨5, by decide⟩ : Fin 40) (⟨0, by decide⟩ : Fin 2))
theorem dst_set_5_0 (L : grid0.Coords) : (dst_5_0 L).view.set = rowT (⟨5, by decide⟩ : Fin 40) (rowOf L (⟨0, by decide⟩ : Fin 2)) :=
  dstRow_set _ _ _ _ (dst_hoff_5_0 L)

abbrev dst_5_1 (L : grid0.Coords) : Memref sig .scVector .hbm S1x4096 .f32 :=
  ((Memref.whole main_v8_scv : Memref sig .scVector .hbm S40x64x4096 .f32).slice (Rect.unit (s := S40x64x4096) (k0_off109 L 1#32) S1x1x4096.size (k0_off109_inb L 1)) (fun _ => rfl)).squeeze S1x4096 squeezes_S1x1x4096_S1x4096
theorem dst_hoff_5_1 (L : grid0.Coords) : (k0_off109 L 1#32) = ![5, (rowOf L (⟨1, by decide⟩ : Fin 2)).val, 0] :=
  (k0_off109_eq L (⟨1, by decide⟩ : Fin 2)).trans (row_off_eq L (⟨5, by decide⟩ : Fin 40) (⟨1, by decide⟩ : Fin 2))
theorem dst_set_5_1 (L : grid0.Coords) : (dst_5_1 L).view.set = rowT (⟨5, by decide⟩ : Fin 40) (rowOf L (⟨1, by decide⟩ : Fin 2)) :=
  dstRow_set _ _ _ _ (dst_hoff_5_1 L)

abbrev dst_6_0 (L : grid0.Coords) : Memref sig .scVector .hbm S1x4096 .f32 :=
  ((Memref.whole main_v8_scv : Memref sig .scVector .hbm S40x64x4096 .f32).slice (Rect.unit (s := S40x64x4096) (k0_off119 L) S1x1x4096.size (k0_off119_inb L)) (fun _ => rfl)).squeeze S1x4096 squeezes_S1x1x4096_S1x4096
theorem dst_hoff_6_0 (L : grid0.Coords) : (k0_off119 L) = ![6, (rowOf L (⟨0, by decide⟩ : Fin 2)).val, 0] :=
  (k0_off119_eq L).trans (row_off_eq L (⟨6, by decide⟩ : Fin 40) (⟨0, by decide⟩ : Fin 2))
theorem dst_set_6_0 (L : grid0.Coords) : (dst_6_0 L).view.set = rowT (⟨6, by decide⟩ : Fin 40) (rowOf L (⟨0, by decide⟩ : Fin 2)) :=
  dstRow_set _ _ _ _ (dst_hoff_6_0 L)

abbrev dst_6_1 (L : grid0.Coords) : Memref sig .scVector .hbm S1x4096 .f32 :=
  ((Memref.whole main_v8_scv : Memref sig .scVector .hbm S40x64x4096 .f32).slice (Rect.unit (s := S40x64x4096) (k0_off130 L 1#32) S1x1x4096.size (k0_off130_inb L 1)) (fun _ => rfl)).squeeze S1x4096 squeezes_S1x1x4096_S1x4096
theorem dst_hoff_6_1 (L : grid0.Coords) : (k0_off130 L 1#32) = ![6, (rowOf L (⟨1, by decide⟩ : Fin 2)).val, 0] :=
  (k0_off130_eq L (⟨1, by decide⟩ : Fin 2)).trans (row_off_eq L (⟨6, by decide⟩ : Fin 40) (⟨1, by decide⟩ : Fin 2))
theorem dst_set_6_1 (L : grid0.Coords) : (dst_6_1 L).view.set = rowT (⟨6, by decide⟩ : Fin 40) (rowOf L (⟨1, by decide⟩ : Fin 2)) :=
  dstRow_set _ _ _ _ (dst_hoff_6_1 L)

abbrev dst_7_0 (L : grid0.Coords) : Memref sig .scVector .hbm S1x4096 .f32 :=
  ((Memref.whole main_v8_scv : Memref sig .scVector .hbm S40x64x4096 .f32).slice (Rect.unit (s := S40x64x4096) (k0_off140 L) S1x1x4096.size (k0_off140_inb L)) (fun _ => rfl)).squeeze S1x4096 squeezes_S1x1x4096_S1x4096
theorem dst_hoff_7_0 (L : grid0.Coords) : (k0_off140 L) = ![7, (rowOf L (⟨0, by decide⟩ : Fin 2)).val, 0] :=
  (k0_off140_eq L).trans (row_off_eq L (⟨7, by decide⟩ : Fin 40) (⟨0, by decide⟩ : Fin 2))
theorem dst_set_7_0 (L : grid0.Coords) : (dst_7_0 L).view.set = rowT (⟨7, by decide⟩ : Fin 40) (rowOf L (⟨0, by decide⟩ : Fin 2)) :=
  dstRow_set _ _ _ _ (dst_hoff_7_0 L)

abbrev dst_7_1 (L : grid0.Coords) : Memref sig .scVector .hbm S1x4096 .f32 :=
  ((Memref.whole main_v8_scv : Memref sig .scVector .hbm S40x64x4096 .f32).slice (Rect.unit (s := S40x64x4096) (k0_off151 L 1#32) S1x1x4096.size (k0_off151_inb L 1)) (fun _ => rfl)).squeeze S1x4096 squeezes_S1x1x4096_S1x4096
theorem dst_hoff_7_1 (L : grid0.Coords) : (k0_off151 L 1#32) = ![7, (rowOf L (⟨1, by decide⟩ : Fin 2)).val, 0] :=
  (k0_off151_eq L (⟨1, by decide⟩ : Fin 2)).trans (row_off_eq L (⟨7, by decide⟩ : Fin 40) (⟨1, by decide⟩ : Fin 2))
theorem dst_set_7_1 (L : grid0.Coords) : (dst_7_1 L).view.set = rowT (⟨7, by decide⟩ : Fin 40) (rowOf L (⟨1, by decide⟩ : Fin 2)) :=
  dstRow_set _ _ _ _ (dst_hoff_7_1 L)

abbrev dst_8_0 (L : grid0.Coords) : Memref sig .scVector .hbm S1x4096 .f32 :=
  ((Memref.whole main_v8_scv : Memref sig .scVector .hbm S40x64x4096 .f32).slice (Rect.unit (s := S40x64x4096) (k0_off161 L) S1x1x4096.size (k0_off161_inb L)) (fun _ => rfl)).squeeze S1x4096 squeezes_S1x1x4096_S1x4096
theorem dst_hoff_8_0 (L : grid0.Coords) : (k0_off161 L) = ![8, (rowOf L (⟨0, by decide⟩ : Fin 2)).val, 0] :=
  (k0_off161_eq L).trans (row_off_eq L (⟨8, by decide⟩ : Fin 40) (⟨0, by decide⟩ : Fin 2))
theorem dst_set_8_0 (L : grid0.Coords) : (dst_8_0 L).view.set = rowT (⟨8, by decide⟩ : Fin 40) (rowOf L (⟨0, by decide⟩ : Fin 2)) :=
  dstRow_set _ _ _ _ (dst_hoff_8_0 L)

abbrev dst_8_1 (L : grid0.Coords) : Memref sig .scVector .hbm S1x4096 .f32 :=
  ((Memref.whole main_v8_scv : Memref sig .scVector .hbm S40x64x4096 .f32).slice (Rect.unit (s := S40x64x4096) (k0_off172 L 1#32) S1x1x4096.size (k0_off172_inb L 1)) (fun _ => rfl)).squeeze S1x4096 squeezes_S1x1x4096_S1x4096
theorem dst_hoff_8_1 (L : grid0.Coords) : (k0_off172 L 1#32) = ![8, (rowOf L (⟨1, by decide⟩ : Fin 2)).val, 0] :=
  (k0_off172_eq L (⟨1, by decide⟩ : Fin 2)).trans (row_off_eq L (⟨8, by decide⟩ : Fin 40) (⟨1, by decide⟩ : Fin 2))
theorem dst_set_8_1 (L : grid0.Coords) : (dst_8_1 L).view.set = rowT (⟨8, by decide⟩ : Fin 40) (rowOf L (⟨1, by decide⟩ : Fin 2)) :=
  dstRow_set _ _ _ _ (dst_hoff_8_1 L)

abbrev dst_9_0 (L : grid0.Coords) : Memref sig .scVector .hbm S1x4096 .f32 :=
  ((Memref.whole main_v8_scv : Memref sig .scVector .hbm S40x64x4096 .f32).slice (Rect.unit (s := S40x64x4096) (k0_off182 L) S1x1x4096.size (k0_off182_inb L)) (fun _ => rfl)).squeeze S1x4096 squeezes_S1x1x4096_S1x4096
theorem dst_hoff_9_0 (L : grid0.Coords) : (k0_off182 L) = ![9, (rowOf L (⟨0, by decide⟩ : Fin 2)).val, 0] :=
  (k0_off182_eq L).trans (row_off_eq L (⟨9, by decide⟩ : Fin 40) (⟨0, by decide⟩ : Fin 2))
theorem dst_set_9_0 (L : grid0.Coords) : (dst_9_0 L).view.set = rowT (⟨9, by decide⟩ : Fin 40) (rowOf L (⟨0, by decide⟩ : Fin 2)) :=
  dstRow_set _ _ _ _ (dst_hoff_9_0 L)

abbrev dst_9_1 (L : grid0.Coords) : Memref sig .scVector .hbm S1x4096 .f32 :=
  ((Memref.whole main_v8_scv : Memref sig .scVector .hbm S40x64x4096 .f32).slice (Rect.unit (s := S40x64x4096) (k0_off193 L 1#32) S1x1x4096.size (k0_off193_inb L 1)) (fun _ => rfl)).squeeze S1x4096 squeezes_S1x1x4096_S1x4096
theorem dst_hoff_9_1 (L : grid0.Coords) : (k0_off193 L 1#32) = ![9, (rowOf L (⟨1, by decide⟩ : Fin 2)).val, 0] :=
  (k0_off193_eq L (⟨1, by decide⟩ : Fin 2)).trans (row_off_eq L (⟨9, by decide⟩ : Fin 40) (⟨1, by decide⟩ : Fin 2))
theorem dst_set_9_1 (L : grid0.Coords) : (dst_9_1 L).view.set = rowT (⟨9, by decide⟩ : Fin 40) (rowOf L (⟨1, by decide⟩ : Fin 2)) :=
  dstRow_set _ _ _ _ (dst_hoff_9_1 L)

abbrev dst_10_0 (L : grid0.Coords) : Memref sig .scVector .hbm S1x4096 .f32 :=
  ((Memref.whole main_v8_scv : Memref sig .scVector .hbm S40x64x4096 .f32).slice (Rect.unit (s := S40x64x4096) (k0_off203 L) S1x1x4096.size (k0_off203_inb L)) (fun _ => rfl)).squeeze S1x4096 squeezes_S1x1x4096_S1x4096
theorem dst_hoff_10_0 (L : grid0.Coords) : (k0_off203 L) = ![10, (rowOf L (⟨0, by decide⟩ : Fin 2)).val, 0] :=
  (k0_off203_eq L).trans (row_off_eq L (⟨10, by decide⟩ : Fin 40) (⟨0, by decide⟩ : Fin 2))
theorem dst_set_10_0 (L : grid0.Coords) : (dst_10_0 L).view.set = rowT (⟨10, by decide⟩ : Fin 40) (rowOf L (⟨0, by decide⟩ : Fin 2)) :=
  dstRow_set _ _ _ _ (dst_hoff_10_0 L)

abbrev dst_10_1 (L : grid0.Coords) : Memref sig .scVector .hbm S1x4096 .f32 :=
  ((Memref.whole main_v8_scv : Memref sig .scVector .hbm S40x64x4096 .f32).slice (Rect.unit (s := S40x64x4096) (k0_off214 L 1#32) S1x1x4096.size (k0_off214_inb L 1)) (fun _ => rfl)).squeeze S1x4096 squeezes_S1x1x4096_S1x4096
theorem dst_hoff_10_1 (L : grid0.Coords) : (k0_off214 L 1#32) = ![10, (rowOf L (⟨1, by decide⟩ : Fin 2)).val, 0] :=
  (k0_off214_eq L (⟨1, by decide⟩ : Fin 2)).trans (row_off_eq L (⟨10, by decide⟩ : Fin 40) (⟨1, by decide⟩ : Fin 2))
theorem dst_set_10_1 (L : grid0.Coords) : (dst_10_1 L).view.set = rowT (⟨10, by decide⟩ : Fin 40) (rowOf L (⟨1, by decide⟩ : Fin 2)) :=
  dstRow_set _ _ _ _ (dst_hoff_10_1 L)

abbrev dst_11_0 (L : grid0.Coords) : Memref sig .scVector .hbm S1x4096 .f32 :=
  ((Memref.whole main_v8_scv : Memref sig .scVector .hbm S40x64x4096 .f32).slice (Rect.unit (s := S40x64x4096) (k0_off224 L) S1x1x4096.size (k0_off224_inb L)) (fun _ => rfl)).squeeze S1x4096 squeezes_S1x1x4096_S1x4096
theorem dst_hoff_11_0 (L : grid0.Coords) : (k0_off224 L) = ![11, (rowOf L (⟨0, by decide⟩ : Fin 2)).val, 0] :=
  (k0_off224_eq L).trans (row_off_eq L (⟨11, by decide⟩ : Fin 40) (⟨0, by decide⟩ : Fin 2))
theorem dst_set_11_0 (L : grid0.Coords) : (dst_11_0 L).view.set = rowT (⟨11, by decide⟩ : Fin 40) (rowOf L (⟨0, by decide⟩ : Fin 2)) :=
  dstRow_set _ _ _ _ (dst_hoff_11_0 L)

abbrev dst_11_1 (L : grid0.Coords) : Memref sig .scVector .hbm S1x4096 .f32 :=
  ((Memref.whole main_v8_scv : Memref sig .scVector .hbm S40x64x4096 .f32).slice (Rect.unit (s := S40x64x4096) (k0_off235 L 1#32) S1x1x4096.size (k0_off235_inb L 1)) (fun _ => rfl)).squeeze S1x4096 squeezes_S1x1x4096_S1x4096
theorem dst_hoff_11_1 (L : grid0.Coords) : (k0_off235 L 1#32) = ![11, (rowOf L (⟨1, by decide⟩ : Fin 2)).val, 0] :=
  (k0_off235_eq L (⟨1, by decide⟩ : Fin 2)).trans (row_off_eq L (⟨11, by decide⟩ : Fin 40) (⟨1, by decide⟩ : Fin 2))
theorem dst_set_11_1 (L : grid0.Coords) : (dst_11_1 L).view.set = rowT (⟨11, by decide⟩ : Fin 40) (rowOf L (⟨1, by decide⟩ : Fin 2)) :=
  dstRow_set _ _ _ _ (dst_hoff_11_1 L)

abbrev dst_12_0 (L : grid0.Coords) : Memref sig .scVector .hbm S1x4096 .f32 :=
  ((Memref.whole main_v8_scv : Memref sig .scVector .hbm S40x64x4096 .f32).slice (Rect.unit (s := S40x64x4096) (k0_off245 L) S1x1x4096.size (k0_off245_inb L)) (fun _ => rfl)).squeeze S1x4096 squeezes_S1x1x4096_S1x4096
theorem dst_hoff_12_0 (L : grid0.Coords) : (k0_off245 L) = ![12, (rowOf L (⟨0, by decide⟩ : Fin 2)).val, 0] :=
  (k0_off245_eq L).trans (row_off_eq L (⟨12, by decide⟩ : Fin 40) (⟨0, by decide⟩ : Fin 2))
theorem dst_set_12_0 (L : grid0.Coords) : (dst_12_0 L).view.set = rowT (⟨12, by decide⟩ : Fin 40) (rowOf L (⟨0, by decide⟩ : Fin 2)) :=
  dstRow_set _ _ _ _ (dst_hoff_12_0 L)

abbrev dst_12_1 (L : grid0.Coords) : Memref sig .scVector .hbm S1x4096 .f32 :=
  ((Memref.whole main_v8_scv : Memref sig .scVector .hbm S40x64x4096 .f32).slice (Rect.unit (s := S40x64x4096) (k0_off256 L 1#32) S1x1x4096.size (k0_off256_inb L 1)) (fun _ => rfl)).squeeze S1x4096 squeezes_S1x1x4096_S1x4096
theorem dst_hoff_12_1 (L : grid0.Coords) : (k0_off256 L 1#32) = ![12, (rowOf L (⟨1, by decide⟩ : Fin 2)).val, 0] :=
  (k0_off256_eq L (⟨1, by decide⟩ : Fin 2)).trans (row_off_eq L (⟨12, by decide⟩ : Fin 40) (⟨1, by decide⟩ : Fin 2))
theorem dst_set_12_1 (L : grid0.Coords) : (dst_12_1 L).view.set = rowT (⟨12, by decide⟩ : Fin 40) (rowOf L (⟨1, by decide⟩ : Fin 2)) :=
  dstRow_set _ _ _ _ (dst_hoff_12_1 L)

abbrev dst_13_0 (L : grid0.Coords) : Memref sig .scVector .hbm S1x4096 .f32 :=
  ((Memref.whole main_v8_scv : Memref sig .scVector .hbm S40x64x4096 .f32).slice (Rect.unit (s := S40x64x4096) (k0_off266 L) S1x1x4096.size (k0_off266_inb L)) (fun _ => rfl)).squeeze S1x4096 squeezes_S1x1x4096_S1x4096
theorem dst_hoff_13_0 (L : grid0.Coords) : (k0_off266 L) = ![13, (rowOf L (⟨0, by decide⟩ : Fin 2)).val, 0] :=
  (k0_off266_eq L).trans (row_off_eq L (⟨13, by decide⟩ : Fin 40) (⟨0, by decide⟩ : Fin 2))
theorem dst_set_13_0 (L : grid0.Coords) : (dst_13_0 L).view.set = rowT (⟨13, by decide⟩ : Fin 40) (rowOf L (⟨0, by decide⟩ : Fin 2)) :=
  dstRow_set _ _ _ _ (dst_hoff_13_0 L)

abbrev dst_13_1 (L : grid0.Coords) : Memref sig .scVector .hbm S1x4096 .f32 :=
  ((Memref.whole main_v8_scv : Memref sig .scVector .hbm S40x64x4096 .f32).slice (Rect.unit (s := S40x64x4096) (k0_off277 L 1#32) S1x1x4096.size (k0_off277_inb L 1)) (fun _ => rfl)).squeeze S1x4096 squeezes_S1x1x4096_S1x4096
theorem dst_hoff_13_1 (L : grid0.Coords) : (k0_off277 L 1#32) = ![13, (rowOf L (⟨1, by decide⟩ : Fin 2)).val, 0] :=
  (k0_off277_eq L (⟨1, by decide⟩ : Fin 2)).trans (row_off_eq L (⟨13, by decide⟩ : Fin 40) (⟨1, by decide⟩ : Fin 2))
theorem dst_set_13_1 (L : grid0.Coords) : (dst_13_1 L).view.set = rowT (⟨13, by decide⟩ : Fin 40) (rowOf L (⟨1, by decide⟩ : Fin 2)) :=
  dstRow_set _ _ _ _ (dst_hoff_13_1 L)

abbrev dst_14_0 (L : grid0.Coords) : Memref sig .scVector .hbm S1x4096 .f32 :=
  ((Memref.whole main_v8_scv : Memref sig .scVector .hbm S40x64x4096 .f32).slice (Rect.unit (s := S40x64x4096) (k0_off287 L) S1x1x4096.size (k0_off287_inb L)) (fun _ => rfl)).squeeze S1x4096 squeezes_S1x1x4096_S1x4096
theorem dst_hoff_14_0 (L : grid0.Coords) : (k0_off287 L) = ![14, (rowOf L (⟨0, by decide⟩ : Fin 2)).val, 0] :=
  (k0_off287_eq L).trans (row_off_eq L (⟨14, by decide⟩ : Fin 40) (⟨0, by decide⟩ : Fin 2))
theorem dst_set_14_0 (L : grid0.Coords) : (dst_14_0 L).view.set = rowT (⟨14, by decide⟩ : Fin 40) (rowOf L (⟨0, by decide⟩ : Fin 2)) :=
  dstRow_set _ _ _ _ (dst_hoff_14_0 L)

abbrev dst_14_1 (L : grid0.Coords) : Memref sig .scVector .hbm S1x4096 .f32 :=
  ((Memref.whole main_v8_scv : Memref sig .scVector .hbm S40x64x4096 .f32).slice (Rect.unit (s := S40x64x4096) (k0_off298 L 1#32) S1x1x4096.size (k0_off298_inb L 1)) (fun _ => rfl)).squeeze S1x4096 squeezes_S1x1x4096_S1x4096
theorem dst_hoff_14_1 (L : grid0.Coords) : (k0_off298 L 1#32) = ![14, (rowOf L (⟨1, by decide⟩ : Fin 2)).val, 0] :=
  (k0_off298_eq L (⟨1, by decide⟩ : Fin 2)).trans (row_off_eq L (⟨14, by decide⟩ : Fin 40) (⟨1, by decide⟩ : Fin 2))
theorem dst_set_14_1 (L : grid0.Coords) : (dst_14_1 L).view.set = rowT (⟨14, by decide⟩ : Fin 40) (rowOf L (⟨1, by decide⟩ : Fin 2)) :=
  dstRow_set _ _ _ _ (dst_hoff_14_1 L)

abbrev dst_15_0 (L : grid0.Coords) : Memref sig .scVector .hbm S1x4096 .f32 :=
  ((Memref.whole main_v8_scv : Memref sig .scVector .hbm S40x64x4096 .f32).slice (Rect.unit (s := S40x64x4096) (k0_off308 L) S1x1x4096.size (k0_off308_inb L)) (fun _ => rfl)).squeeze S1x4096 squeezes_S1x1x4096_S1x4096
theorem dst_hoff_15_0 (L : grid0.Coords) : (k0_off308 L) = ![15, (rowOf L (⟨0, by decide⟩ : Fin 2)).val, 0] :=
  (k0_off308_eq L).trans (row_off_eq L (⟨15, by decide⟩ : Fin 40) (⟨0, by decide⟩ : Fin 2))
theorem dst_set_15_0 (L : grid0.Coords) : (dst_15_0 L).view.set = rowT (⟨15, by decide⟩ : Fin 40) (rowOf L (⟨0, by decide⟩ : Fin 2)) :=
  dstRow_set _ _ _ _ (dst_hoff_15_0 L)

abbrev dst_15_1 (L : grid0.Coords) : Memref sig .scVector .hbm S1x4096 .f32 :=
  ((Memref.whole main_v8_scv : Memref sig .scVector .hbm S40x64x4096 .f32).slice (Rect.unit (s := S40x64x4096) (k0_off319 L 1#32) S1x1x4096.size (k0_off319_inb L 1)) (fun _ => rfl)).squeeze S1x4096 squeezes_S1x1x4096_S1x4096
theorem dst_hoff_15_1 (L : grid0.Coords) : (k0_off319 L 1#32) = ![15, (rowOf L (⟨1, by decide⟩ : Fin 2)).val, 0] :=
  (k0_off319_eq L (⟨1, by decide⟩ : Fin 2)).trans (row_off_eq L (⟨15, by decide⟩ : Fin 40) (⟨1, by decide⟩ : Fin 2))
theorem dst_set_15_1 (L : grid0.Coords) : (dst_15_1 L).view.set = rowT (⟨15, by decide⟩ : Fin 40) (rowOf L (⟨1, by decide⟩ : Fin 2)) :=
  dstRow_set _ _ _ _ (dst_hoff_15_1 L)

abbrev dst_16_0 (L : grid0.Coords) : Memref sig .scVector .hbm S1x4096 .f32 :=
  ((Memref.whole main_v8_scv : Memref sig .scVector .hbm S40x64x4096 .f32).slice (Rect.unit (s := S40x64x4096) (k0_off329 L) S1x1x4096.size (k0_off329_inb L)) (fun _ => rfl)).squeeze S1x4096 squeezes_S1x1x4096_S1x4096
theorem dst_hoff_16_0 (L : grid0.Coords) : (k0_off329 L) = ![16, (rowOf L (⟨0, by decide⟩ : Fin 2)).val, 0] :=
  (k0_off329_eq L).trans (row_off_eq L (⟨16, by decide⟩ : Fin 40) (⟨0, by decide⟩ : Fin 2))
theorem dst_set_16_0 (L : grid0.Coords) : (dst_16_0 L).view.set = rowT (⟨16, by decide⟩ : Fin 40) (rowOf L (⟨0, by decide⟩ : Fin 2)) :=
  dstRow_set _ _ _ _ (dst_hoff_16_0 L)

abbrev dst_16_1 (L : grid0.Coords) : Memref sig .scVector .hbm S1x4096 .f32 :=
  ((Memref.whole main_v8_scv : Memref sig .scVector .hbm S40x64x4096 .f32).slice (Rect.unit (s := S40x64x4096) (k0_off340 L 1#32) S1x1x4096.size (k0_off340_inb L 1)) (fun _ => rfl)).squeeze S1x4096 squeezes_S1x1x4096_S1x4096
theorem dst_hoff_16_1 (L : grid0.Coords) : (k0_off340 L 1#32) = ![16, (rowOf L (⟨1, by decide⟩ : Fin 2)).val, 0] :=
  (k0_off340_eq L (⟨1, by decide⟩ : Fin 2)).trans (row_off_eq L (⟨16, by decide⟩ : Fin 40) (⟨1, by decide⟩ : Fin 2))
theorem dst_set_16_1 (L : grid0.Coords) : (dst_16_1 L).view.set = rowT (⟨16, by decide⟩ : Fin 40) (rowOf L (⟨1, by decide⟩ : Fin 2)) :=
  dstRow_set _ _ _ _ (dst_hoff_16_1 L)

abbrev dst_17_0 (L : grid0.Coords) : Memref sig .scVector .hbm S1x4096 .f32 :=
  ((Memref.whole main_v8_scv : Memref sig .scVector .hbm S40x64x4096 .f32).slice (Rect.unit (s := S40x64x4096) (k0_off350 L) S1x1x4096.size (k0_off350_inb L)) (fun _ => rfl)).squeeze S1x4096 squeezes_S1x1x4096_S1x4096
theorem dst_hoff_17_0 (L : grid0.Coords) : (k0_off350 L) = ![17, (rowOf L (⟨0, by decide⟩ : Fin 2)).val, 0] :=
  (k0_off350_eq L).trans (row_off_eq L (⟨17, by decide⟩ : Fin 40) (⟨0, by decide⟩ : Fin 2))
theorem dst_set_17_0 (L : grid0.Coords) : (dst_17_0 L).view.set = rowT (⟨17, by decide⟩ : Fin 40) (rowOf L (⟨0, by decide⟩ : Fin 2)) :=
  dstRow_set _ _ _ _ (dst_hoff_17_0 L)

abbrev dst_17_1 (L : grid0.Coords) : Memref sig .scVector .hbm S1x4096 .f32 :=
  ((Memref.whole main_v8_scv : Memref sig .scVector .hbm S40x64x4096 .f32).slice (Rect.unit (s := S40x64x4096) (k0_off361 L 1#32) S1x1x4096.size (k0_off361_inb L 1)) (fun _ => rfl)).squeeze S1x4096 squeezes_S1x1x4096_S1x4096
theorem dst_hoff_17_1 (L : grid0.Coords) : (k0_off361 L 1#32) = ![17, (rowOf L (⟨1, by decide⟩ : Fin 2)).val, 0] :=
  (k0_off361_eq L (⟨1, by decide⟩ : Fin 2)).trans (row_off_eq L (⟨17, by decide⟩ : Fin 40) (⟨1, by decide⟩ : Fin 2))
theorem dst_set_17_1 (L : grid0.Coords) : (dst_17_1 L).view.set = rowT (⟨17, by decide⟩ : Fin 40) (rowOf L (⟨1, by decide⟩ : Fin 2)) :=
  dstRow_set _ _ _ _ (dst_hoff_17_1 L)

abbrev dst_18_0 (L : grid0.Coords) : Memref sig .scVector .hbm S1x4096 .f32 :=
  ((Memref.whole main_v8_scv : Memref sig .scVector .hbm S40x64x4096 .f32).slice (Rect.unit (s := S40x64x4096) (k0_off371 L) S1x1x4096.size (k0_off371_inb L)) (fun _ => rfl)).squeeze S1x4096 squeezes_S1x1x4096_S1x4096
theorem dst_hoff_18_0 (L : grid0.Coords) : (k0_off371 L) = ![18, (rowOf L (⟨0, by decide⟩ : Fin 2)).val, 0] :=
  (k0_off371_eq L).trans (row_off_eq L (⟨18, by decide⟩ : Fin 40) (⟨0, by decide⟩ : Fin 2))
theorem dst_set_18_0 (L : grid0.Coords) : (dst_18_0 L).view.set = rowT (⟨18, by decide⟩ : Fin 40) (rowOf L (⟨0, by decide⟩ : Fin 2)) :=
  dstRow_set _ _ _ _ (dst_hoff_18_0 L)

abbrev dst_18_1 (L : grid0.Coords) : Memref sig .scVector .hbm S1x4096 .f32 :=
  ((Memref.whole main_v8_scv : Memref sig .scVector .hbm S40x64x4096 .f32).slice (Rect.unit (s := S40x64x4096) (k0_off382 L 1#32) S1x1x4096.size (k0_off382_inb L 1)) (fun _ => rfl)).squeeze S1x4096 squeezes_S1x1x4096_S1x4096
theorem dst_hoff_18_1 (L : grid0.Coords) : (k0_off382 L 1#32) = ![18, (rowOf L (⟨1, by decide⟩ : Fin 2)).val, 0] :=
  (k0_off382_eq L (⟨1, by decide⟩ : Fin 2)).trans (row_off_eq L (⟨18, by decide⟩ : Fin 40) (⟨1, by decide⟩ : Fin 2))
theorem dst_set_18_1 (L : grid0.Coords) : (dst_18_1 L).view.set = rowT (⟨18, by decide⟩ : Fin 40) (rowOf L (⟨1, by decide⟩ : Fin 2)) :=
  dstRow_set _ _ _ _ (dst_hoff_18_1 L)

abbrev dst_19_0 (L : grid0.Coords) : Memref sig .scVector .hbm S1x4096 .f32 :=
  ((Memref.whole main_v8_scv : Memref sig .scVector .hbm S40x64x4096 .f32).slice (Rect.unit (s := S40x64x4096) (k0_off392 L) S1x1x4096.size (k0_off392_inb L)) (fun _ => rfl)).squeeze S1x4096 squeezes_S1x1x4096_S1x4096
theorem dst_hoff_19_0 (L : grid0.Coords) : (k0_off392 L) = ![19, (rowOf L (⟨0, by decide⟩ : Fin 2)).val, 0] :=
  (k0_off392_eq L).trans (row_off_eq L (⟨19, by decide⟩ : Fin 40) (⟨0, by decide⟩ : Fin 2))
theorem dst_set_19_0 (L : grid0.Coords) : (dst_19_0 L).view.set = rowT (⟨19, by decide⟩ : Fin 40) (rowOf L (⟨0, by decide⟩ : Fin 2)) :=
  dstRow_set _ _ _ _ (dst_hoff_19_0 L)

abbrev dst_19_1 (L : grid0.Coords) : Memref sig .scVector .hbm S1x4096 .f32 :=
  ((Memref.whole main_v8_scv : Memref sig .scVector .hbm S40x64x4096 .f32).slice (Rect.unit (s := S40x64x4096) (k0_off403 L 1#32) S1x1x4096.size (k0_off403_inb L 1)) (fun _ => rfl)).squeeze S1x4096 squeezes_S1x1x4096_S1x4096
theorem dst_hoff_19_1 (L : grid0.Coords) : (k0_off403 L 1#32) = ![19, (rowOf L (⟨1, by decide⟩ : Fin 2)).val, 0] :=
  (k0_off403_eq L (⟨1, by decide⟩ : Fin 2)).trans (row_off_eq L (⟨19, by decide⟩ : Fin 40) (⟨1, by decide⟩ : Fin 2))
theorem dst_set_19_1 (L : grid0.Coords) : (dst_19_1 L).view.set = rowT (⟨19, by decide⟩ : Fin 40) (rowOf L (⟨1, by decide⟩ : Fin 2)) :=
  dstRow_set _ _ _ _ (dst_hoff_19_1 L)

abbrev dst_20_0 (L : grid0.Coords) : Memref sig .scVector .hbm S1x4096 .f32 :=
  ((Memref.whole main_v8_scv : Memref sig .scVector .hbm S40x64x4096 .f32).slice (Rect.unit (s := S40x64x4096) (k0_off413 L) S1x1x4096.size (k0_off413_inb L)) (fun _ => rfl)).squeeze S1x4096 squeezes_S1x1x4096_S1x4096
theorem dst_hoff_20_0 (L : grid0.Coords) : (k0_off413 L) = ![20, (rowOf L (⟨0, by decide⟩ : Fin 2)).val, 0] :=
  (k0_off413_eq L).trans (row_off_eq L (⟨20, by decide⟩ : Fin 40) (⟨0, by decide⟩ : Fin 2))
theorem dst_set_20_0 (L : grid0.Coords) : (dst_20_0 L).view.set = rowT (⟨20, by decide⟩ : Fin 40) (rowOf L (⟨0, by decide⟩ : Fin 2)) :=
  dstRow_set _ _ _ _ (dst_hoff_20_0 L)

abbrev dst_20_1 (L : grid0.Coords) : Memref sig .scVector .hbm S1x4096 .f32 :=
  ((Memref.whole main_v8_scv : Memref sig .scVector .hbm S40x64x4096 .f32).slice (Rect.unit (s := S40x64x4096) (k0_off424 L 1#32) S1x1x4096.size (k0_off424_inb L 1)) (fun _ => rfl)).squeeze S1x4096 squeezes_S1x1x4096_S1x4096
theorem dst_hoff_20_1 (L : grid0.Coords) : (k0_off424 L 1#32) = ![20, (rowOf L (⟨1, by decide⟩ : Fin 2)).val, 0] :=
  (k0_off424_eq L (⟨1, by decide⟩ : Fin 2)).trans (row_off_eq L (⟨20, by decide⟩ : Fin 40) (⟨1, by decide⟩ : Fin 2))
theorem dst_set_20_1 (L : grid0.Coords) : (dst_20_1 L).view.set = rowT (⟨20, by decide⟩ : Fin 40) (rowOf L (⟨1, by decide⟩ : Fin 2)) :=
  dstRow_set _ _ _ _ (dst_hoff_20_1 L)

abbrev dst_21_0 (L : grid0.Coords) : Memref sig .scVector .hbm S1x4096 .f32 :=
  ((Memref.whole main_v8_scv : Memref sig .scVector .hbm S40x64x4096 .f32).slice (Rect.unit (s := S40x64x4096) (k0_off434 L) S1x1x4096.size (k0_off434_inb L)) (fun _ => rfl)).squeeze S1x4096 squeezes_S1x1x4096_S1x4096
theorem dst_hoff_21_0 (L : grid0.Coords) : (k0_off434 L) = ![21, (rowOf L (⟨0, by decide⟩ : Fin 2)).val, 0] :=
  (k0_off434_eq L).trans (row_off_eq L (⟨21, by decide⟩ : Fin 40) (⟨0, by decide⟩ : Fin 2))
theorem dst_set_21_0 (L : grid0.Coords) : (dst_21_0 L).view.set = rowT (⟨21, by decide⟩ : Fin 40) (rowOf L (⟨0, by decide⟩ : Fin 2)) :=
  dstRow_set _ _ _ _ (dst_hoff_21_0 L)

abbrev dst_21_1 (L : grid0.Coords) : Memref sig .scVector .hbm S1x4096 .f32 :=
  ((Memref.whole main_v8_scv : Memref sig .scVector .hbm S40x64x4096 .f32).slice (Rect.unit (s := S40x64x4096) (k0_off445 L 1#32) S1x1x4096.size (k0_off445_inb L 1)) (fun _ => rfl)).squeeze S1x4096 squeezes_S1x1x4096_S1x4096
theorem dst_hoff_21_1 (L : grid0.Coords) : (k0_off445 L 1#32) = ![21, (rowOf L (⟨1, by decide⟩ : Fin 2)).val, 0] :=
  (k0_off445_eq L (⟨1, by decide⟩ : Fin 2)).trans (row_off_eq L (⟨21, by decide⟩ : Fin 40) (⟨1, by decide⟩ : Fin 2))
theorem dst_set_21_1 (L : grid0.Coords) : (dst_21_1 L).view.set = rowT (⟨21, by decide⟩ : Fin 40) (rowOf L (⟨1, by decide⟩ : Fin 2)) :=
  dstRow_set _ _ _ _ (dst_hoff_21_1 L)

abbrev dst_22_0 (L : grid0.Coords) : Memref sig .scVector .hbm S1x4096 .f32 :=
  ((Memref.whole main_v8_scv : Memref sig .scVector .hbm S40x64x4096 .f32).slice (Rect.unit (s := S40x64x4096) (k0_off455 L) S1x1x4096.size (k0_off455_inb L)) (fun _ => rfl)).squeeze S1x4096 squeezes_S1x1x4096_S1x4096
theorem dst_hoff_22_0 (L : grid0.Coords) : (k0_off455 L) = ![22, (rowOf L (⟨0, by decide⟩ : Fin 2)).val, 0] :=
  (k0_off455_eq L).trans (row_off_eq L (⟨22, by decide⟩ : Fin 40) (⟨0, by decide⟩ : Fin 2))
theorem dst_set_22_0 (L : grid0.Coords) : (dst_22_0 L).view.set = rowT (⟨22, by decide⟩ : Fin 40) (rowOf L (⟨0, by decide⟩ : Fin 2)) :=
  dstRow_set _ _ _ _ (dst_hoff_22_0 L)

abbrev dst_22_1 (L : grid0.Coords) : Memref sig .scVector .hbm S1x4096 .f32 :=
  ((Memref.whole main_v8_scv : Memref sig .scVector .hbm S40x64x4096 .f32).slice (Rect.unit (s := S40x64x4096) (k0_off466 L 1#32) S1x1x4096.size (k0_off466_inb L 1)) (fun _ => rfl)).squeeze S1x4096 squeezes_S1x1x4096_S1x4096
theorem dst_hoff_22_1 (L : grid0.Coords) : (k0_off466 L 1#32) = ![22, (rowOf L (⟨1, by decide⟩ : Fin 2)).val, 0] :=
  (k0_off466_eq L (⟨1, by decide⟩ : Fin 2)).trans (row_off_eq L (⟨22, by decide⟩ : Fin 40) (⟨1, by decide⟩ : Fin 2))
theorem dst_set_22_1 (L : grid0.Coords) : (dst_22_1 L).view.set = rowT (⟨22, by decide⟩ : Fin 40) (rowOf L (⟨1, by decide⟩ : Fin 2)) :=
  dstRow_set _ _ _ _ (dst_hoff_22_1 L)

abbrev dst_23_0 (L : grid0.Coords) : Memref sig .scVector .hbm S1x4096 .f32 :=
  ((Memref.whole main_v8_scv : Memref sig .scVector .hbm S40x64x4096 .f32).slice (Rect.unit (s := S40x64x4096) (k0_off476 L) S1x1x4096.size (k0_off476_inb L)) (fun _ => rfl)).squeeze S1x4096 squeezes_S1x1x4096_S1x4096
theorem dst_hoff_23_0 (L : grid0.Coords) : (k0_off476 L) = ![23, (rowOf L (⟨0, by decide⟩ : Fin 2)).val, 0] :=
  (k0_off476_eq L).trans (row_off_eq L (⟨23, by decide⟩ : Fin 40) (⟨0, by decide⟩ : Fin 2))
theorem dst_set_23_0 (L : grid0.Coords) : (dst_23_0 L).view.set = rowT (⟨23, by decide⟩ : Fin 40) (rowOf L (⟨0, by decide⟩ : Fin 2)) :=
  dstRow_set _ _ _ _ (dst_hoff_23_0 L)

abbrev dst_23_1 (L : grid0.Coords) : Memref sig .scVector .hbm S1x4096 .f32 :=
  ((Memref.whole main_v8_scv : Memref sig .scVector .hbm S40x64x4096 .f32).slice (Rect.unit (s := S40x64x4096) (k0_off487 L 1#32) S1x1x4096.size (k0_off487_inb L 1)) (fun _ => rfl)).squeeze S1x4096 squeezes_S1x1x4096_S1x4096
theorem dst_hoff_23_1 (L : grid0.Coords) : (k0_off487 L 1#32) = ![23, (rowOf L (⟨1, by decide⟩ : Fin 2)).val, 0] :=
  (k0_off487_eq L (⟨1, by decide⟩ : Fin 2)).trans (row_off_eq L (⟨23, by decide⟩ : Fin 40) (⟨1, by decide⟩ : Fin 2))
theorem dst_set_23_1 (L : grid0.Coords) : (dst_23_1 L).view.set = rowT (⟨23, by decide⟩ : Fin 40) (rowOf L (⟨1, by decide⟩ : Fin 2)) :=
  dstRow_set _ _ _ _ (dst_hoff_23_1 L)

abbrev dst_24_0 (L : grid0.Coords) : Memref sig .scVector .hbm S1x4096 .f32 :=
  ((Memref.whole main_v8_scv : Memref sig .scVector .hbm S40x64x4096 .f32).slice (Rect.unit (s := S40x64x4096) (k0_off497 L) S1x1x4096.size (k0_off497_inb L)) (fun _ => rfl)).squeeze S1x4096 squeezes_S1x1x4096_S1x4096
theorem dst_hoff_24_0 (L : grid0.Coords) : (k0_off497 L) = ![24, (rowOf L (⟨0, by decide⟩ : Fin 2)).val, 0] :=
  (k0_off497_eq L).trans (row_off_eq L (⟨24, by decide⟩ : Fin 40) (⟨0, by decide⟩ : Fin 2))
theorem dst_set_24_0 (L : grid0.Coords) : (dst_24_0 L).view.set = rowT (⟨24, by decide⟩ : Fin 40) (rowOf L (⟨0, by decide⟩ : Fin 2)) :=
  dstRow_set _ _ _ _ (dst_hoff_24_0 L)

abbrev dst_24_1 (L : grid0.Coords) : Memref sig .scVector .hbm S1x4096 .f32 :=
  ((Memref.whole main_v8_scv : Memref sig .scVector .hbm S40x64x4096 .f32).slice (Rect.unit (s := S40x64x4096) (k0_off508 L 1#32) S1x1x4096.size (k0_off508_inb L 1)) (fun _ => rfl)).squeeze S1x4096 squeezes_S1x1x4096_S1x4096
theorem dst_hoff_24_1 (L : grid0.Coords) : (k0_off508 L 1#32) = ![24, (rowOf L (⟨1, by decide⟩ : Fin 2)).val, 0] :=
  (k0_off508_eq L (⟨1, by decide⟩ : Fin 2)).trans (row_off_eq L (⟨24, by decide⟩ : Fin 40) (⟨1, by decide⟩ : Fin 2))
theorem dst_set_24_1 (L : grid0.Coords) : (dst_24_1 L).view.set = rowT (⟨24, by decide⟩ : Fin 40) (rowOf L (⟨1, by decide⟩ : Fin 2)) :=
  dstRow_set _ _ _ _ (dst_hoff_24_1 L)

abbrev dst_25_0 (L : grid0.Coords) : Memref sig .scVector .hbm S1x4096 .f32 :=
  ((Memref.whole main_v8_scv : Memref sig .scVector .hbm S40x64x4096 .f32).slice (Rect.unit (s := S40x64x4096) (k0_off518 L) S1x1x4096.size (k0_off518_inb L)) (fun _ => rfl)).squeeze S1x4096 squeezes_S1x1x4096_S1x4096
theorem dst_hoff_25_0 (L : grid0.Coords) : (k0_off518 L) = ![25, (rowOf L (⟨0, by decide⟩ : Fin 2)).val, 0] :=
  (k0_off518_eq L).trans (row_off_eq L (⟨25, by decide⟩ : Fin 40) (⟨0, by decide⟩ : Fin 2))
theorem dst_set_25_0 (L : grid0.Coords) : (dst_25_0 L).view.set = rowT (⟨25, by decide⟩ : Fin 40) (rowOf L (⟨0, by decide⟩ : Fin 2)) :=
  dstRow_set _ _ _ _ (dst_hoff_25_0 L)

abbrev dst_25_1 (L : grid0.Coords) : Memref sig .scVector .hbm S1x4096 .f32 :=
  ((Memref.whole main_v8_scv : Memref sig .scVector .hbm S40x64x4096 .f32).slice (Rect.unit (s := S40x64x4096) (k0_off529 L 1#32) S1x1x4096.size (k0_off529_inb L 1)) (fun _ => rfl)).squeeze S1x4096 squeezes_S1x1x4096_S1x4096
theorem dst_hoff_25_1 (L : grid0.Coords) : (k0_off529 L 1#32) = ![25, (rowOf L (⟨1, by decide⟩ : Fin 2)).val, 0] :=
  (k0_off529_eq L (⟨1, by decide⟩ : Fin 2)).trans (row_off_eq L (⟨25, by decide⟩ : Fin 40) (⟨1, by decide⟩ : Fin 2))
theorem dst_set_25_1 (L : grid0.Coords) : (dst_25_1 L).view.set = rowT (⟨25, by decide⟩ : Fin 40) (rowOf L (⟨1, by decide⟩ : Fin 2)) :=
  dstRow_set _ _ _ _ (dst_hoff_25_1 L)

abbrev dst_26_0 (L : grid0.Coords) : Memref sig .scVector .hbm S1x4096 .f32 :=
  ((Memref.whole main_v8_scv : Memref sig .scVector .hbm S40x64x4096 .f32).slice (Rect.unit (s := S40x64x4096) (k0_off539 L) S1x1x4096.size (k0_off539_inb L)) (fun _ => rfl)).squeeze S1x4096 squeezes_S1x1x4096_S1x4096
theorem dst_hoff_26_0 (L : grid0.Coords) : (k0_off539 L) = ![26, (rowOf L (⟨0, by decide⟩ : Fin 2)).val, 0] :=
  (k0_off539_eq L).trans (row_off_eq L (⟨26, by decide⟩ : Fin 40) (⟨0, by decide⟩ : Fin 2))
theorem dst_set_26_0 (L : grid0.Coords) : (dst_26_0 L).view.set = rowT (⟨26, by decide⟩ : Fin 40) (rowOf L (⟨0, by decide⟩ : Fin 2)) :=
  dstRow_set _ _ _ _ (dst_hoff_26_0 L)

abbrev dst_26_1 (L : grid0.Coords) : Memref sig .scVector .hbm S1x4096 .f32 :=
  ((Memref.whole main_v8_scv : Memref sig .scVector .hbm S40x64x4096 .f32).slice (Rect.unit (s := S40x64x4096) (k0_off550 L) S1x1x4096.size (k0_off550_inb L)) (fun _ => rfl)).squeeze S1x4096 squeezes_S1x1x4096_S1x4096
theorem dst_hoff_26_1 (L : grid0.Coords) : (k0_off550 L) = ![26, (rowOf L (⟨1, by decide⟩ : Fin 2)).val, 0] :=
  (k0_off550_eq L).trans (row_off_eq L (⟨26, by decide⟩ : Fin 40) (⟨1, by decide⟩ : Fin 2))
theorem dst_set_26_1 (L : grid0.Coords) : (dst_26_1 L).view.set = rowT (⟨26, by decide⟩ : Fin 40) (rowOf L (⟨1, by decide⟩ : Fin 2)) :=
  dstRow_set _ _ _ _ (dst_hoff_26_1 L)

abbrev dst_27_0 (L : grid0.Coords) : Memref sig .scVector .hbm S1x4096 .f32 :=
  ((Memref.whole main_v8_scv : Memref sig .scVector .hbm S40x64x4096 .f32).slice (Rect.unit (s := S40x64x4096) (k0_off554 L) S1x1x4096.size (k0_off554_inb L)) (fun _ => rfl)).squeeze S1x4096 squeezes_S1x1x4096_S1x4096
theorem dst_hoff_27_0 (L : grid0.Coords) : (k0_off554 L) = ![27, (rowOf L (⟨0, by decide⟩ : Fin 2)).val, 0] :=
  (k0_off554_eq L).trans (row_off_eq L (⟨27, by decide⟩ : Fin 40) (⟨0, by decide⟩ : Fin 2))
theorem dst_set_27_0 (L : grid0.Coords) : (dst_27_0 L).view.set = rowT (⟨27, by decide⟩ : Fin 40) (rowOf L (⟨0, by decide⟩ : Fin 2)) :=
  dstRow_set _ _ _ _ (dst_hoff_27_0 L)

abbrev dst_27_1 (L : grid0.Coords) : Memref sig .scVector .hbm S1x4096 .f32 :=
  ((Memref.whole main_v8_scv : Memref sig .scVector .hbm S40x64x4096 .f32).slice (Rect.unit (s := S40x64x4096) (k0_off558 L) S1x1x4096.size (k0_off558_inb L)) (fun _ => rfl)).squeeze S1x4096 squeezes_S1x1x4096_S1x4096
theorem dst_hoff_27_1 (L : grid0.Coords) : (k0_off558 L) = ![27, (rowOf L (⟨1, by decide⟩ : Fin 2)).val, 0] :=
  (k0_off558_eq L).trans (row_off_eq L (⟨27, by decide⟩ : Fin 40) (⟨1, by decide⟩ : Fin 2))
theorem dst_set_27_1 (L : grid0.Coords) : (dst_27_1 L).view.set = rowT (⟨27, by decide⟩ : Fin 40) (rowOf L (⟨1, by decide⟩ : Fin 2)) :=
  dstRow_set _ _ _ _ (dst_hoff_27_1 L)

abbrev dst_28_0 (L : grid0.Coords) : Memref sig .scVector .hbm S1x4096 .f32 :=
  ((Memref.whole main_v8_scv : Memref sig .scVector .hbm S40x64x4096 .f32).slice (Rect.unit (s := S40x64x4096) (k0_off562 L) S1x1x4096.size (k0_off562_inb L)) (fun _ => rfl)).squeeze S1x4096 squeezes_S1x1x4096_S1x4096
theorem dst_hoff_28_0 (L : grid0.Coords) : (k0_off562 L) = ![28, (rowOf L (⟨0, by decide⟩ : Fin 2)).val, 0] :=
  (k0_off562_eq L).trans (row_off_eq L (⟨28, by decide⟩ : Fin 40) (⟨0, by decide⟩ : Fin 2))
theorem dst_set_28_0 (L : grid0.Coords) : (dst_28_0 L).view.set = rowT (⟨28, by decide⟩ : Fin 40) (rowOf L (⟨0, by decide⟩ : Fin 2)) :=
  dstRow_set _ _ _ _ (dst_hoff_28_0 L)

abbrev dst_28_1 (L : grid0.Coords) : Memref sig .scVector .hbm S1x4096 .f32 :=
  ((Memref.whole main_v8_scv : Memref sig .scVector .hbm S40x64x4096 .f32).slice (Rect.unit (s := S40x64x4096) (k0_off566 L) S1x1x4096.size (k0_off566_inb L)) (fun _ => rfl)).squeeze S1x4096 squeezes_S1x1x4096_S1x4096
theorem dst_hoff_28_1 (L : grid0.Coords) : (k0_off566 L) = ![28, (rowOf L (⟨1, by decide⟩ : Fin 2)).val, 0] :=
  (k0_off566_eq L).trans (row_off_eq L (⟨28, by decide⟩ : Fin 40) (⟨1, by decide⟩ : Fin 2))
theorem dst_set_28_1 (L : grid0.Coords) : (dst_28_1 L).view.set = rowT (⟨28, by decide⟩ : Fin 40) (rowOf L (⟨1, by decide⟩ : Fin 2)) :=
  dstRow_set _ _ _ _ (dst_hoff_28_1 L)

abbrev dst_29_0 (L : grid0.Coords) : Memref sig .scVector .hbm S1x4096 .f32 :=
  ((Memref.whole main_v8_scv : Memref sig .scVector .hbm S40x64x4096 .f32).slice (Rect.unit (s := S40x64x4096) (k0_off570 L) S1x1x4096.size (k0_off570_inb L)) (fun _ => rfl)).squeeze S1x4096 squeezes_S1x1x4096_S1x4096
theorem dst_hoff_29_0 (L : grid0.Coords) : (k0_off570 L) = ![29, (rowOf L (⟨0, by decide⟩ : Fin 2)).val, 0] :=
  (k0_off570_eq L).trans (row_off_eq L (⟨29, by decide⟩ : Fin 40) (⟨0, by decide⟩ : Fin 2))
theorem dst_set_29_0 (L : grid0.Coords) : (dst_29_0 L).view.set = rowT (⟨29, by decide⟩ : Fin 40) (rowOf L (⟨0, by decide⟩ : Fin 2)) :=
  dstRow_set _ _ _ _ (dst_hoff_29_0 L)

abbrev dst_29_1 (L : grid0.Coords) : Memref sig .scVector .hbm S1x4096 .f32 :=
  ((Memref.whole main_v8_scv : Memref sig .scVector .hbm S40x64x4096 .f32).slice (Rect.unit (s := S40x64x4096) (k0_off574 L) S1x1x4096.size (k0_off574_inb L)) (fun _ => rfl)).squeeze S1x4096 squeezes_S1x1x4096_S1x4096
theorem dst_hoff_29_1 (L : grid0.Coords) : (k0_off574 L) = ![29, (rowOf L (⟨1, by decide⟩ : Fin 2)).val, 0] :=
  (k0_off574_eq L).trans (row_off_eq L (⟨29, by decide⟩ : Fin 40) (⟨1, by decide⟩ : Fin 2))
theorem dst_set_29_1 (L : grid0.Coords) : (dst_29_1 L).view.set = rowT (⟨29, by decide⟩ : Fin 40) (rowOf L (⟨1, by decide⟩ : Fin 2)) :=
  dstRow_set _ _ _ _ (dst_hoff_29_1 L)

abbrev dst_30_0 (L : grid0.Coords) : Memref sig .scVector .hbm S1x4096 .f32 :=
  ((Memref.whole main_v8_scv : Memref sig .scVector .hbm S40x64x4096 .f32).slice (Rect.unit (s := S40x64x4096) (k0_off578 L) S1x1x4096.size (k0_off578_inb L)) (fun _ => rfl)).squeeze S1x4096 squeezes_S1x1x4096_S1x4096
theorem dst_hoff_30_0 (L : grid0.Coords) : (k0_off578 L) = ![30, (rowOf L (⟨0, by decide⟩ : Fin 2)).val, 0] :=
  (k0_off578_eq L).trans (row_off_eq L (⟨30, by decide⟩ : Fin 40) (⟨0, by decide⟩ : Fin 2))
theorem dst_set_30_0 (L : grid0.Coords) : (dst_30_0 L).view.set = rowT (⟨30, by decide⟩ : Fin 40) (rowOf L (⟨0, by decide⟩ : Fin 2)) :=
  dstRow_set _ _ _ _ (dst_hoff_30_0 L)

abbrev dst_30_1 (L : grid0.Coords) : Memref sig .scVector .hbm S1x4096 .f32 :=
  ((Memref.whole main_v8_scv : Memref sig .scVector .hbm S40x64x4096 .f32).slice (Rect.unit (s := S40x64x4096) (k0_off582 L) S1x1x4096.size (k0_off582_inb L)) (fun _ => rfl)).squeeze S1x4096 squeezes_S1x1x4096_S1x4096
theorem dst_hoff_30_1 (L : grid0.Coords) : (k0_off582 L) = ![30, (rowOf L (⟨1, by decide⟩ : Fin 2)).val, 0] :=
  (k0_off582_eq L).trans (row_off_eq L (⟨30, by decide⟩ : Fin 40) (⟨1, by decide⟩ : Fin 2))
theorem dst_set_30_1 (L : grid0.Coords) : (dst_30_1 L).view.set = rowT (⟨30, by decide⟩ : Fin 40) (rowOf L (⟨1, by decide⟩ : Fin 2)) :=
  dstRow_set _ _ _ _ (dst_hoff_30_1 L)

abbrev dst_31_0 (L : grid0.Coords) : Memref sig .scVector .hbm S1x4096 .f32 :=
  ((Memref.whole main_v8_scv : Memref sig .scVector .hbm S40x64x4096 .f32).slice (Rect.unit (s := S40x64x4096) (k0_off586 L) S1x1x4096.size (k0_off586_inb L)) (fun _ => rfl)).squeeze S1x4096 squeezes_S1x1x4096_S1x4096
theorem dst_hoff_31_0 (L : grid0.Coords) : (k0_off586 L) = ![31, (rowOf L (⟨0, by decide⟩ : Fin 2)).val, 0] :=
  (k0_off586_eq L).trans (row_off_eq L (⟨31, by decide⟩ : Fin 40) (⟨0, by decide⟩ : Fin 2))
theorem dst_set_31_0 (L : grid0.Coords) : (dst_31_0 L).view.set = rowT (⟨31, by decide⟩ : Fin 40) (rowOf L (⟨0, by decide⟩ : Fin 2)) :=
  dstRow_set _ _ _ _ (dst_hoff_31_0 L)

abbrev dst_31_1 (L : grid0.Coords) : Memref sig .scVector .hbm S1x4096 .f32 :=
  ((Memref.whole main_v8_scv : Memref sig .scVector .hbm S40x64x4096 .f32).slice (Rect.unit (s := S40x64x4096) (k0_off590 L) S1x1x4096.size (k0_off590_inb L)) (fun _ => rfl)).squeeze S1x4096 squeezes_S1x1x4096_S1x4096
theorem dst_hoff_31_1 (L : grid0.Coords) : (k0_off590 L) = ![31, (rowOf L (⟨1, by decide⟩ : Fin 2)).val, 0] :=
  (k0_off590_eq L).trans (row_off_eq L (⟨31, by decide⟩ : Fin 40) (⟨1, by decide⟩ : Fin 2))
theorem dst_set_31_1 (L : grid0.Coords) : (dst_31_1 L).view.set = rowT (⟨31, by decide⟩ : Fin 40) (rowOf L (⟨1, by decide⟩ : Fin 2)) :=
  dstRow_set _ _ _ _ (dst_hoff_31_1 L)

abbrev dst_32_0 (L : grid0.Coords) : Memref sig .scVector .hbm S1x4096 .f32 :=
  ((Memref.whole main_v8_scv : Memref sig .scVector .hbm S40x64x4096 .f32).slice (Rect.unit (s := S40x64x4096) (k0_off594 L) S1x1x4096.size (k0_off594_inb L)) (fun _ => rfl)).squeeze S1x4096 squeezes_S1x1x4096_S1x4096
theorem dst_hoff_32_0 (L : grid0.Coords) : (k0_off594 L) = ![32, (rowOf L (⟨0, by decide⟩ : Fin 2)).val, 0] :=
  (k0_off594_eq L).trans (row_off_eq L (⟨32, by decide⟩ : Fin 40) (⟨0, by decide⟩ : Fin 2))
theorem dst_set_32_0 (L : grid0.Coords) : (dst_32_0 L).view.set = rowT (⟨32, by decide⟩ : Fin 40) (rowOf L (⟨0, by decide⟩ : Fin 2)) :=
  dstRow_set _ _ _ _ (dst_hoff_32_0 L)

abbrev dst_32_1 (L : grid0.Coords) : Memref sig .scVector .hbm S1x4096 .f32 :=
  ((Memref.whole main_v8_scv : Memref sig .scVector .hbm S40x64x4096 .f32).slice (Rect.unit (s := S40x64x4096) (k0_off598 L) S1x1x4096.size (k0_off598_inb L)) (fun _ => rfl)).squeeze S1x4096 squeezes_S1x1x4096_S1x4096
theorem dst_hoff_32_1 (L : grid0.Coords) : (k0_off598 L) = ![32, (rowOf L (⟨1, by decide⟩ : Fin 2)).val, 0] :=
  (k0_off598_eq L).trans (row_off_eq L (⟨32, by decide⟩ : Fin 40) (⟨1, by decide⟩ : Fin 2))
theorem dst_set_32_1 (L : grid0.Coords) : (dst_32_1 L).view.set = rowT (⟨32, by decide⟩ : Fin 40) (rowOf L (⟨1, by decide⟩ : Fin 2)) :=
  dstRow_set _ _ _ _ (dst_hoff_32_1 L)

abbrev dst_33_0 (L : grid0.Coords) : Memref sig .scVector .hbm S1x4096 .f32 :=
  ((Memref.whole main_v8_scv : Memref sig .scVector .hbm S40x64x4096 .f32).slice (Rect.unit (s := S40x64x4096) (k0_off602 L) S1x1x4096.size (k0_off602_inb L)) (fun _ => rfl)).squeeze S1x4096 squeezes_S1x1x4096_S1x4096
theorem dst_hoff_33_0 (L : grid0.Coords) : (k0_off602 L) = ![33, (rowOf L (⟨0, by decide⟩ : Fin 2)).val, 0] :=
  (k0_off602_eq L).trans (row_off_eq L (⟨33, by decide⟩ : Fin 40) (⟨0, by decide⟩ : Fin 2))
theorem dst_set_33_0 (L : grid0.Coords) : (dst_33_0 L).view.set = rowT (⟨33, by decide⟩ : Fin 40) (rowOf L (⟨0, by decide⟩ : Fin 2)) :=
  dstRow_set _ _ _ _ (dst_hoff_33_0 L)

abbrev dst_33_1 (L : grid0.Coords) : Memref sig .scVector .hbm S1x4096 .f32 :=
  ((Memref.whole main_v8_scv : Memref sig .scVector .hbm S40x64x4096 .f32).slice (Rect.unit (s := S40x64x4096) (k0_off606 L) S1x1x4096.size (k0_off606_inb L)) (fun _ => rfl)).squeeze S1x4096 squeezes_S1x1x4096_S1x4096
theorem dst_hoff_33_1 (L : grid0.Coords) : (k0_off606 L) = ![33, (rowOf L (⟨1, by decide⟩ : Fin 2)).val, 0] :=
  (k0_off606_eq L).trans (row_off_eq L (⟨33, by decide⟩ : Fin 40) (⟨1, by decide⟩ : Fin 2))
theorem dst_set_33_1 (L : grid0.Coords) : (dst_33_1 L).view.set = rowT (⟨33, by decide⟩ : Fin 40) (rowOf L (⟨1, by decide⟩ : Fin 2)) :=
  dstRow_set _ _ _ _ (dst_hoff_33_1 L)

abbrev dst_34_0 (L : grid0.Coords) : Memref sig .scVector .hbm S1x4096 .f32 :=
  ((Memref.whole main_v8_scv : Memref sig .scVector .hbm S40x64x4096 .f32).slice (Rect.unit (s := S40x64x4096) (k0_off610 L) S1x1x4096.size (k0_off610_inb L)) (fun _ => rfl)).squeeze S1x4096 squeezes_S1x1x4096_S1x4096
theorem dst_hoff_34_0 (L : grid0.Coords) : (k0_off610 L) = ![34, (rowOf L (⟨0, by decide⟩ : Fin 2)).val, 0] :=
  (k0_off610_eq L).trans (row_off_eq L (⟨34, by decide⟩ : Fin 40) (⟨0, by decide⟩ : Fin 2))
theorem dst_set_34_0 (L : grid0.Coords) : (dst_34_0 L).view.set = rowT (⟨34, by decide⟩ : Fin 40) (rowOf L (⟨0, by decide⟩ : Fin 2)) :=
  dstRow_set _ _ _ _ (dst_hoff_34_0 L)

abbrev dst_34_1 (L : grid0.Coords) : Memref sig .scVector .hbm S1x4096 .f32 :=
  ((Memref.whole main_v8_scv : Memref sig .scVector .hbm S40x64x4096 .f32).slice (Rect.unit (s := S40x64x4096) (k0_off614 L) S1x1x4096.size (k0_off614_inb L)) (fun _ => rfl)).squeeze S1x4096 squeezes_S1x1x4096_S1x4096
theorem dst_hoff_34_1 (L : grid0.Coords) : (k0_off614 L) = ![34, (rowOf L (⟨1, by decide⟩ : Fin 2)).val, 0] :=
  (k0_off614_eq L).trans (row_off_eq L (⟨34, by decide⟩ : Fin 40) (⟨1, by decide⟩ : Fin 2))
theorem dst_set_34_1 (L : grid0.Coords) : (dst_34_1 L).view.set = rowT (⟨34, by decide⟩ : Fin 40) (rowOf L (⟨1, by decide⟩ : Fin 2)) :=
  dstRow_set _ _ _ _ (dst_hoff_34_1 L)

abbrev dst_35_0 (L : grid0.Coords) : Memref sig .scVector .hbm S1x4096 .f32 :=
  ((Memref.whole main_v8_scv : Memref sig .scVector .hbm S40x64x4096 .f32).slice (Rect.unit (s := S40x64x4096) (k0_off618 L) S1x1x4096.size (k0_off618_inb L)) (fun _ => rfl)).squeeze S1x4096 squeezes_S1x1x4096_S1x4096
theorem dst_hoff_35_0 (L : grid0.Coords) : (k0_off618 L) = ![35, (rowOf L (⟨0, by decide⟩ : Fin 2)).val, 0] :=
  (k0_off618_eq L).trans (row_off_eq L (⟨35, by decide⟩ : Fin 40) (⟨0, by decide⟩ : Fin 2))
theorem dst_set_35_0 (L : grid0.Coords) : (dst_35_0 L).view.set = rowT (⟨35, by decide⟩ : Fin 40) (rowOf L (⟨0, by decide⟩ : Fin 2)) :=
  dstRow_set _ _ _ _ (dst_hoff_35_0 L)

abbrev dst_35_1 (L : grid0.Coords) : Memref sig .scVector .hbm S1x4096 .f32 :=
  ((Memref.whole main_v8_scv : Memref sig .scVector .hbm S40x64x4096 .f32).slice (Rect.unit (s := S40x64x4096) (k0_off622 L) S1x1x4096.size (k0_off622_inb L)) (fun _ => rfl)).squeeze S1x4096 squeezes_S1x1x4096_S1x4096
theorem dst_hoff_35_1 (L : grid0.Coords) : (k0_off622 L) = ![35, (rowOf L (⟨1, by decide⟩ : Fin 2)).val, 0] :=
  (k0_off622_eq L).trans (row_off_eq L (⟨35, by decide⟩ : Fin 40) (⟨1, by decide⟩ : Fin 2))
theorem dst_set_35_1 (L : grid0.Coords) : (dst_35_1 L).view.set = rowT (⟨35, by decide⟩ : Fin 40) (rowOf L (⟨1, by decide⟩ : Fin 2)) :=
  dstRow_set _ _ _ _ (dst_hoff_35_1 L)

abbrev dst_36_0 (L : grid0.Coords) : Memref sig .scVector .hbm S1x4096 .f32 :=
  ((Memref.whole main_v8_scv : Memref sig .scVector .hbm S40x64x4096 .f32).slice (Rect.unit (s := S40x64x4096) (k0_off626 L) S1x1x4096.size (k0_off626_inb L)) (fun _ => rfl)).squeeze S1x4096 squeezes_S1x1x4096_S1x4096
theorem dst_hoff_36_0 (L : grid0.Coords) : (k0_off626 L) = ![36, (rowOf L (⟨0, by decide⟩ : Fin 2)).val, 0] :=
  (k0_off626_eq L).trans (row_off_eq L (⟨36, by decide⟩ : Fin 40) (⟨0, by decide⟩ : Fin 2))
theorem dst_set_36_0 (L : grid0.Coords) : (dst_36_0 L).view.set = rowT (⟨36, by decide⟩ : Fin 40) (rowOf L (⟨0, by decide⟩ : Fin 2)) :=
  dstRow_set _ _ _ _ (dst_hoff_36_0 L)

abbrev dst_36_1 (L : grid0.Coords) : Memref sig .scVector .hbm S1x4096 .f32 :=
  ((Memref.whole main_v8_scv : Memref sig .scVector .hbm S40x64x4096 .f32).slice (Rect.unit (s := S40x64x4096) (k0_off630 L) S1x1x4096.size (k0_off630_inb L)) (fun _ => rfl)).squeeze S1x4096 squeezes_S1x1x4096_S1x4096
theorem dst_hoff_36_1 (L : grid0.Coords) : (k0_off630 L) = ![36, (rowOf L (⟨1, by decide⟩ : Fin 2)).val, 0] :=
  (k0_off630_eq L).trans (row_off_eq L (⟨36, by decide⟩ : Fin 40) (⟨1, by decide⟩ : Fin 2))
theorem dst_set_36_1 (L : grid0.Coords) : (dst_36_1 L).view.set = rowT (⟨36, by decide⟩ : Fin 40) (rowOf L (⟨1, by decide⟩ : Fin 2)) :=
  dstRow_set _ _ _ _ (dst_hoff_36_1 L)

abbrev dst_37_0 (L : grid0.Coords) : Memref sig .scVector .hbm S1x4096 .f32 :=
  ((Memref.whole main_v8_scv : Memref sig .scVector .hbm S40x64x4096 .f32).slice (Rect.unit (s := S40x64x4096) (k0_off634 L) S1x1x4096.size (k0_off634_inb L)) (fun _ => rfl)).squeeze S1x4096 squeezes_S1x1x4096_S1x4096
theorem dst_hoff_37_0 (L : grid0.Coords) : (k0_off634 L) = ![37, (rowOf L (⟨0, by decide⟩ : Fin 2)).val, 0] :=
  (k0_off634_eq L).trans (row_off_eq L (⟨37, by decide⟩ : Fin 40) (⟨0, by decide⟩ : Fin 2))
theorem dst_set_37_0 (L : grid0.Coords) : (dst_37_0 L).view.set = rowT (⟨37, by decide⟩ : Fin 40) (rowOf L (⟨0, by decide⟩ : Fin 2)) :=
  dstRow_set _ _ _ _ (dst_hoff_37_0 L)

abbrev dst_37_1 (L : grid0.Coords) : Memref sig .scVector .hbm S1x4096 .f32 :=
  ((Memref.whole main_v8_scv : Memref sig .scVector .hbm S40x64x4096 .f32).slice (Rect.unit (s := S40x64x4096) (k0_off638 L) S1x1x4096.size (k0_off638_inb L)) (fun _ => rfl)).squeeze S1x4096 squeezes_S1x1x4096_S1x4096
theorem dst_hoff_37_1 (L : grid0.Coords) : (k0_off638 L) = ![37, (rowOf L (⟨1, by decide⟩ : Fin 2)).val, 0] :=
  (k0_off638_eq L).trans (row_off_eq L (⟨37, by decide⟩ : Fin 40) (⟨1, by decide⟩ : Fin 2))
theorem dst_set_37_1 (L : grid0.Coords) : (dst_37_1 L).view.set = rowT (⟨37, by decide⟩ : Fin 40) (rowOf L (⟨1, by decide⟩ : Fin 2)) :=
  dstRow_set _ _ _ _ (dst_hoff_37_1 L)

abbrev dst_38_0 (L : grid0.Coords) : Memref sig .scVector .hbm S1x4096 .f32 :=
  ((Memref.whole main_v8_scv : Memref sig .scVector .hbm S40x64x4096 .f32).slice (Rect.unit (s := S40x64x4096) (k0_off642 L) S1x1x4096.size (k0_off642_inb L)) (fun _ => rfl)).squeeze S1x4096 squeezes_S1x1x4096_S1x4096
theorem dst_hoff_38_0 (L : grid0.Coords) : (k0_off642 L) = ![38, (rowOf L (⟨0, by decide⟩ : Fin 2)).val, 0] :=
  (k0_off642_eq L).trans (row_off_eq L (⟨38, by decide⟩ : Fin 40) (⟨0, by decide⟩ : Fin 2))
theorem dst_set_38_0 (L : grid0.Coords) : (dst_38_0 L).view.set = rowT (⟨38, by decide⟩ : Fin 40) (rowOf L (⟨0, by decide⟩ : Fin 2)) :=
  dstRow_set _ _ _ _ (dst_hoff_38_0 L)

abbrev dst_38_1 (L : grid0.Coords) : Memref sig .scVector .hbm S1x4096 .f32 :=
  ((Memref.whole main_v8_scv : Memref sig .scVector .hbm S40x64x4096 .f32).slice (Rect.unit (s := S40x64x4096) (k0_off646 L) S1x1x4096.size (k0_off646_inb L)) (fun _ => rfl)).squeeze S1x4096 squeezes_S1x1x4096_S1x4096
theorem dst_hoff_38_1 (L : grid0.Coords) : (k0_off646 L) = ![38, (rowOf L (⟨1, by decide⟩ : Fin 2)).val, 0] :=
  (k0_off646_eq L).trans (row_off_eq L (⟨38, by decide⟩ : Fin 40) (⟨1, by decide⟩ : Fin 2))
theorem dst_set_38_1 (L : grid0.Coords) : (dst_38_1 L).view.set = rowT (⟨38, by decide⟩ : Fin 40) (rowOf L (⟨1, by decide⟩ : Fin 2)) :=
  dstRow_set _ _ _ _ (dst_hoff_38_1 L)

abbrev dst_39_0 (L : grid0.Coords) : Memref sig .scVector .hbm S1x4096 .f32 :=
  ((Memref.whole main_v8_scv : Memref sig .scVector .hbm S40x64x4096 .f32).slice (Rect.unit (s := S40x64x4096) (k0_off650 L) S1x1x4096.size (k0_off650_inb L)) (fun _ => rfl)).squeeze S1x4096 squeezes_S1x1x4096_S1x4096
theorem dst_hoff_39_0 (L : grid0.Coords) : (k0_off650 L) = ![39, (rowOf L (⟨0, by decide⟩ : Fin 2)).val, 0] :=
  (k0_off650_eq L).trans (row_off_eq L (⟨39, by decide⟩ : Fin 40) (⟨0, by decide⟩ : Fin 2))
theorem dst_set_39_0 (L : grid0.Coords) : (dst_39_0 L).view.set = rowT (⟨39, by decide⟩ : Fin 40) (rowOf L (⟨0, by decide⟩ : Fin 2)) :=
  dstRow_set _ _ _ _ (dst_hoff_39_0 L)

abbrev dst_39_1 (L : grid0.Coords) : Memref sig .scVector .hbm S1x4096 .f32 :=
  ((Memref.whole main_v8_scv : Memref sig .scVector .hbm S40x64x4096 .f32).slice (Rect.unit (s := S40x64x4096) (k0_off654 L 1#32) S1x1x4096.size (k0_off654_inb L 1)) (fun _ => rfl)).squeeze S1x4096 squeezes_S1x1x4096_S1x4096
theorem dst_hoff_39_1 (L : grid0.Coords) : (k0_off654 L 1#32) = ![39, (rowOf L (⟨1, by decide⟩ : Fin 2)).val, 0] :=
  (k0_off654_eq L (⟨1, by decide⟩ : Fin 2)).trans (row_off_eq L (⟨39, by decide⟩ : Fin 40) (⟨1, by decide⟩ : Fin 2))
theorem dst_set_39_1 (L : grid0.Coords) : (dst_39_1 L).view.set = rowT (⟨39, by decide⟩ : Fin 40) (rowOf L (⟨1, by decide⟩ : Fin 2)) :=
  dstRow_set _ _ _ _ (dst_hoff_39_1 L)

end Cert.Proof.KI

end
-- ==== Proof.KI.BodyPure.lean ====
/-
  Pure facts the task's loops cite. A category word below the vocabulary size is an admissible index of a table row:
  the indexed load's two index vectors — all zeros on the row axis, the words on the vocabulary axis — are inside the
  `1 × 100000` scratch. Words stay below the vocabulary size through a load from a scratch that holds such words, and
  through the copy of a block of the category array into such a scratch.
-/
import proofs.«207382_g17746804867166_cont_8to1_1179_25_alg».proof.Proof.KI.Iface

noncomputable section

namespace Cert.Proof.KI

open Cert.KernelIdeal Cert.KernelIdeal.Gen

open Idealize.ShloMosaic

variable {F : FTy → Type}

/-- Row index zero and a vocabulary index below `100000` name an element of a `1 × 100000` array. -/
theorem chk_cat (v : IVec S16 32) (hv : ∀ x, (v x).toNat < 100000) :
    ∀ a x, ((![broadcast S16 (0#32 : BitVec 32), v] : Fin 2 → IVec S16 32) a x).toNat < S1x100000.size a := by
  refine Fin.forall_fin_two.mpr ⟨fun x => ?_, fun x => ?_⟩
  · show (0#32 : BitVec 32).toNat < 1
    decide
  · exact hv x

/-- A load from the first category scratch reads words the scratch holds. -/
theorem readAt_range1 (fc : IVec S4096 32) (hfc : ∀ y, (fc y).toNat < 100000) (r : LoadRect S4096) :
    ∀ x, ((Memref.whole cc0_scratch1 : Memref sig .scVector .vmem S4096 .i32).view.readAt (Elt F) r fc x).toNat < 100000 :=
  fun x => hfc (r.idx x)

/-- A load from the second category scratch reads words the scratch holds. -/
theorem readAt_range2 (fc : IVec S4096 32) (hfc : ∀ y, (fc y).toNat < 100000) (r : LoadRect S4096) :
    ∀ x, ((Memref.whole cc0_scratch2 : Memref sig .scVector .vmem S4096 .i32).view.readAt (Elt F) r fc x).toNat < 100000 :=
  fun x => hfc (r.idx x)

variable [FloatOps F]

/-- The first category scratch after a block of the category array is copied over it whole holds that block's words. -/
theorem dma_range1 (A : Arrs F) (hcat : ∀ j, (A.cat j).toNat < 100000) (off : Fin 1 → Nat) (h : ∀ a, off a + S4096.size a ≤ S106496.size a)
    (f0 : IVec S4096 32) :
    ∀ y, (((Memref.whole cc0_scratch1 : Memref sig .scVector .vmem S4096 .i32).view.write (Elt F) f0
        ((ReadAs.same : ReadAs (Elt F) S4096 .i32 S4096 .i32).apply
          (((Memref.whole main_v1_scv : Memref sig .scVector .hbm S106496 .i32).slice (Rect.unit (s := S106496) off S4096.size h) (fun _ => rfl)).view.read (Elt F) A.cat))
        Finset.univ) y).toNat < 100000 := by
  intro y
  show (((View.whole (cc0_scratch1 : Ref sig .scVector)).write (Elt F) f0 _ Finset.univ) y).toNat < 100000
  rw [View.write_whole_univ]
  exact hcat _

/-- The second category scratch likewise. -/
theorem dma_range2 (A : Arrs F) (hcat : ∀ j, (A.cat j).toNat < 100000) (off : Fin 1 → Nat) (h : ∀ a, off a + S4096.size a ≤ S106496.size a)
    (f0 : IVec S4096 32) :
    ∀ y, (((Memref.whole cc0_scratch2 : Memref sig .scVector .vmem S4096 .i32).view.write (Elt F) f0
        ((ReadAs.same : ReadAs (Elt F) S4096 .i32 S4096 .i32).apply
          (((Memref.whole main_v1_scv : Memref sig .scVector .hbm S106496 .i32).slice (Rect.unit (s := S106496) off S4096.size h) (fun _ => rfl)).view.read (Elt F) A.cat))
        Finset.univ) y).toNat < 100000 := by
  intro y
  show (((View.whole (cc0_scratch2 : Ref sig .scVector)).write (Elt F) f0 _ Finset.univ) y).toNat < 100000
  rw [View.write_whole_univ]
  exact hcat _

end Cert.Proof.KI

end
-- ==== Proof.KI.BodyCtx.lean ====
/-
  The task's staging of the result rows, as assertions: the 80 destination rows (40 tokens, two feature rows each)
  of the transposed result array, each held by exactly the elements its copy writes; and the index facts of the
  words the body computes from the grid point alone.
-/
import proofs.«207382_g17746804867166_cont_8to1_1179_25_alg».proof.Proof.KI.RowsTable
import proofs.«207382_g17746804867166_cont_8to1_1179_25_alg».proof.Proof.KI.BodyPure

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The vector subcore at grid point `L` of device `d`. -/
abbrev thr (d : Dev nD) (L : grid0.Coords) : Thread nD τ := V d (cV L) (jV L)

/-- The word `2·(2·subcore + core) + r`, as the body computes it. -/
abbrev rowWord (L : grid0.Coords) (r : BitVec 32) : BitVec 32 :=
  Scalar.addi (Scalar.muli (Scalar.addi (Scalar.muli (BitVec.ofNat 32 (L 1).val) 2#32) (BitVec.ofNat 32 (L 0).val)) 2#32) r

/-- The class vector's entry a task splats is one of its 64: the index `2·wid + r` is below 64. -/
theorem chk_cls0 : ∀ L : grid0.Coords, k0_chk1 (broadcast S16 (rowWord L 0#32)) := by decide +kernel
theorem chk_cls1 : ∀ L : grid0.Coords, k0_chk1 (broadcast S16 (rowWord L 1#32)) := by decide +kernel

/-- The weight and bias entry of numeric column `j` a task reads is one of the 832: `64 j + 2·wid + r < 832`. -/
theorem chk_num : ∀ (j : Fin 13) (r : Fin 2) (L : grid0.Coords), ∀ a x,
    ((![broadcast S16 (Scalar.addi (BitVec.ofNat 32 (64 * j.val)) (rowWord L (BitVec.ofNat 32 r.val)))] : Fin 1 → IVec S16 32) a x).toNat < S832.size a := by
  decide +kernel

/-- The waits a run records beyond `W` are all on the task's own (index-free) semaphores. -/
def OkW (W W' : Waits sig (HIx 1)) : Prop := ∀ p ∈ W', p ∈ W ∨ p.2 = none
theorem OkW.refl (W : Waits sig (HIx 1)) : OkW W W := fun _ hp => .inl hp
theorem OkW.insert {W W' : Waits sig (HIx 1)} (s : SemLoc sig) (h : OkW W W') : OkW W (insert (s, (default : HIx 1)) W') := by
  intro p hp
  rcases Finset.mem_insert.mp hp with rfl | hp
  · exact .inr rfl
  · exact h p hp

set_option maxHeartbeats 4000000 in
/-- The 80 destination rows at the contents `fo` the result array held before the call. -/
def rowsIn (fo : FVec F S40x64x4096 .f32) (d : Dev nD) (L : grid0.Coords) : sProp 𝕄 :=
  iprop(((dst_0_0 L).view.loc (thr d L) ↦[(dst_0_0 L).view.set]{fullShare} fo)
    ∗ ((dst_0_1 L).view.loc (thr d L) ↦[(dst_0_1 L).view.set]{fullShare} fo)
    ∗ ((dst_1_0 L).view.loc (thr d L) ↦[(dst_1_0 L).view.set]{fullShare} fo)
    ∗ ((dst_1_1 L).view.loc (thr d L) ↦[(dst_1_1 L).view.set]{fullShare} fo)
    ∗ ((dst_2_0 L).view.loc (thr d L) ↦[(dst_2_0 L).view.set]{fullShare} fo)
    ∗ ((dst_2_1 L).view.loc (thr d L) ↦[(dst_2_1 L).view.set]{fullShare} fo)
    ∗ ((dst_3_0 L).view.loc (thr d L) ↦[(dst_3_0 L).view.set]{fullShare} fo)
    ∗ ((dst_3_1 L).view.loc (thr d L) ↦[(dst_3_1 L).view.set]{fullShare} fo)
    ∗ ((dst_4_0 L).view.loc (thr d L) ↦[(dst_4_0 L).view.set]{fullShare} fo)
    ∗ ((dst_4_1 L).view.loc (thr d L) ↦[(dst_4_1 L).view.set]{fullShare} fo)
    ∗ ((dst_5_0 L).view.loc (thr d L) ↦[(dst_5_0 L).view.set]{fullShare} fo)
    ∗ ((dst_5_1 L).view.loc (thr d L) ↦[(dst_5_1 L).view.set]{fullShare} fo)
    ∗ ((dst_6_0 L).view.loc (thr d L) ↦[(dst_6_0 L).view.set]{fullShare} fo)
    ∗ ((dst_6_1 L).view.loc (thr d L) ↦[(dst_6_1 L).view.set]{fullShare} fo)
    ∗ ((dst_7_0 L).view.loc (thr d L) ↦[(dst_7_0 L).view.set]{fullShare} fo)
    ∗ ((dst_7_1 L).view.loc (thr d L) ↦[(dst_7_1 L).view.set]{fullShare} fo)
    ∗ ((dst_8_0 L).view.loc (thr d L) ↦[(dst_8_0 L).view.set]{fullShare} fo)
    ∗ ((dst_8_1 L).view.loc (thr d L) ↦[(dst_8_1 L).view.set]{fullShare} fo)
    ∗ ((dst_9_0 L).view.loc (thr d L) ↦[(dst_9_0 L).view.set]{fullShare} fo)
    ∗ ((dst_9_1 L).view.loc (thr d L) ↦[(dst_9_1 L).view.set]{fullShare} fo)
    ∗ ((dst_10_0 L).view.loc (thr d L) ↦[(dst_10_0 L).view.set]{fullShare} fo)
    ∗ ((dst_10_1 L).view.loc (thr d L) ↦[(dst_10_1 L).view.set]{fullShare} fo)
    ∗ ((dst_11_0 L).view.loc (thr d L) ↦[(dst_11_0 L).view.set]{fullShare} fo)
    ∗ ((dst_11_1 L).view.loc (thr d L) ↦[(dst_11_1 L).view.set]{fullShare} fo)
    ∗ ((dst_12_0 L).view.loc (thr d L) ↦[(dst_12_0 L).view.set]{fullShare} fo)
    ∗ ((dst_12_1 L).view.loc (thr d L) ↦[(dst_12_1 L).view.set]{fullShare} fo)
    ∗ ((dst_13_0 L).view.loc (thr d L) ↦[(dst_13_0 L).view.set]{fullShare} fo)
    ∗ ((dst_13_1 L).view.loc (thr d L) ↦[(dst_13_1 L).view.set]{fullShare} fo)
    ∗ ((dst_14_0 L).view.loc (thr d L) ↦[(dst_14_0 L).view.set]{fullShare} fo)
    ∗ ((dst_14_1 L).view.loc (thr d L) ↦[(dst_14_1 L).view.set]{fullShare} fo)
    ∗ ((dst_15_0 L).view.loc (thr d L) ↦[(dst_15_0 L).view.set]{fullShare} fo)
    ∗ ((dst_15_1 L).view.loc (thr d L) ↦[(dst_15_1 L).view.set]{fullShare} fo)
    ∗ ((dst_16_0 L).view.loc (thr d L) ↦[(dst_16_0 L).view.set]{fullShare} fo)
    ∗ ((dst_16_1 L).view.loc (thr d L) ↦[(dst_16_1 L).view.set]{fullShare} fo)
    ∗ ((dst_17_0 L).view.loc (thr d L) ↦[(dst_17_0 L).view.set]{fullShare} fo)
    ∗ ((dst_17_1 L).view.loc (thr d L) ↦[(dst_17_1 L).view.set]{fullShare} fo)
    ∗ ((dst_18_0 L).view.loc (thr d L) ↦[(dst_18_0 L).view.set]{fullShare} fo)
    ∗ ((dst_18_1 L).view.loc (thr d L) ↦[(dst_18_1 L).view.set]{fullShare} fo)
    ∗ ((dst_19_0 L).view.loc (thr d L) ↦[(dst_19_0 L).view.set]{fullShare} fo)
    ∗ ((dst_19_1 L).view.loc (thr d L) ↦[(dst_19_1 L).view.set]{fullShare} fo)
    ∗ ((dst_20_0 L).view.loc (thr d L) ↦[(dst_20_0 L).view.set]{fullShare} fo)
    ∗ ((dst_20_1 L).view.loc (thr d L) ↦[(dst_20_1 L).view.set]{fullShare} fo)
    ∗ ((dst_21_0 L).view.loc (thr d L) ↦[(dst_21_0 L).view.set]{fullShare} fo)
    ∗ ((dst_21_1 L).view.loc (thr d L) ↦[(dst_21_1 L).view.set]{fullShare} fo)
    ∗ ((dst_22_0 L).view.loc (thr d L) ↦[(dst_22_0 L).view.set]{fullShare} fo)
    ∗ ((dst_22_1 L).view.loc (thr d L) ↦[(dst_22_1 L).view.set]{fullShare} fo)
    ∗ ((dst_23_0 L).view.loc (thr d L) ↦[(dst_23_0 L).view.set]{fullShare} fo)
    ∗ ((dst_23_1 L).view.loc (thr d L) ↦[(dst_23_1 L).view.set]{fullShare} fo)
    ∗ ((dst_24_0 L).view.loc (thr d L) ↦[(dst_24_0 L).view.set]{fullShare} fo)
    ∗ ((dst_24_1 L).view.loc (thr d L) ↦[(dst_24_1 L).view.set]{fullShare} fo)
    ∗ ((dst_25_0 L).view.loc (thr d L) ↦[(dst_25_0 L).view.set]{fullShare} fo)
    ∗ ((dst_25_1 L).view.loc (thr d L) ↦[(dst_25_1 L).view.set]{fullShare} fo)
    ∗ ((dst_26_0 L).view.loc (thr d L) ↦[(dst_26_0 L).view.set]{fullShare} fo)
    ∗ ((dst_26_1 L).view.loc (thr d L) ↦[(dst_26_1 L).view.set]{fullShare} fo)
    ∗ ((dst_27_0 L).view.loc (thr d L) ↦[(dst_27_0 L).view.set]{fullShare} fo)
    ∗ ((dst_27_1 L).view.loc (thr d L) ↦[(dst_27_1 L).view.set]{fullShare} fo)
    ∗ ((dst_28_0 L).view.loc (thr d L) ↦[(dst_28_0 L).view.set]{fullShare} fo)
    ∗ ((dst_28_1 L).view.loc (thr d L) ↦[(dst_28_1 L).view.set]{fullShare} fo)
    ∗ ((dst_29_0 L).view.loc (thr d L) ↦[(dst_29_0 L).view.set]{fullShare} fo)
    ∗ ((dst_29_1 L).view.loc (thr d L) ↦[(dst_29_1 L).view.set]{fullShare} fo)
    ∗ ((dst_30_0 L).view.loc (thr d L) ↦[(dst_30_0 L).view.set]{fullShare} fo)
    ∗ ((dst_30_1 L).view.loc (thr d L) ↦[(dst_30_1 L).view.set]{fullShare} fo)
    ∗ ((dst_31_0 L).view.loc (thr d L) ↦[(dst_31_0 L).view.set]{fullShare} fo)
    ∗ ((dst_31_1 L).view.loc (thr d L) ↦[(dst_31_1 L).view.set]{fullShare} fo)
    ∗ ((dst_32_0 L).view.loc (thr d L) ↦[(dst_32_0 L).view.set]{fullShare} fo)
    ∗ ((dst_32_1 L).view.loc (thr d L) ↦[(dst_32_1 L).view.set]{fullShare} fo)
    ∗ ((dst_33_0 L).view.loc (thr d L) ↦[(dst_33_0 L).view.set]{fullShare} fo)
    ∗ ((dst_33_1 L).view.loc (thr d L) ↦[(dst_33_1 L).view.set]{fullShare} fo)
    ∗ ((dst_34_0 L).view.loc (thr d L) ↦[(dst_34_0 L).view.set]{fullShare} fo)
    ∗ ((dst_34_1 L).view.loc (thr d L) ↦[(dst_34_1 L).view.set]{fullShare} fo)
    ∗ ((dst_35_0 L).view.loc (thr d L) ↦[(dst_35_0 L).view.set]{fullShare} fo)
    ∗ ((dst_35_1 L).view.loc (thr d L) ↦[(dst_35_1 L).view.set]{fullShare} fo)
    ∗ ((dst_36_0 L).view.loc (thr d L) ↦[(dst_36_0 L).view.set]{fullShare} fo)
    ∗ ((dst_36_1 L).view.loc (thr d L) ↦[(dst_36_1 L).view.set]{fullShare} fo)
    ∗ ((dst_37_0 L).view.loc (thr d L) ↦[(dst_37_0 L).view.set]{fullShare} fo)
    ∗ ((dst_37_1 L).view.loc (thr d L) ↦[(dst_37_1 L).view.set]{fullShare} fo)
    ∗ ((dst_38_0 L).view.loc (thr d L) ↦[(dst_38_0 L).view.set]{fullShare} fo)
    ∗ ((dst_38_1 L).view.loc (thr d L) ↦[(dst_38_1 L).view.set]{fullShare} fo)
    ∗ ((dst_39_0 L).view.loc (thr d L) ↦[(dst_39_0 L).view.set]{fullShare} fo)
    ∗ ((dst_39_1 L).view.loc (thr d L) ↦[(dst_39_1 L).view.set]{fullShare} fo))

set_option maxHeartbeats 4000000 in
/-- The 80 destination rows, each at some contents. -/
def rowsSome (d : Dev nD) (L : grid0.Coords) : sProp 𝕄 :=
  iprop((∃ g, (dst_0_0 L).view.loc (thr d L) ↦[(dst_0_0 L).view.set]{fullShare} g)
    ∗ (∃ g, (dst_0_1 L).view.loc (thr d L) ↦[(dst_0_1 L).view.set]{fullShare} g)
    ∗ (∃ g, (dst_1_0 L).view.loc (thr d L) ↦[(dst_1_0 L).view.set]{fullShare} g)
    ∗ (∃ g, (dst_1_1 L).view.loc (thr d L) ↦[(dst_1_1 L).view.set]{fullShare} g)
    ∗ (∃ g, (dst_2_0 L).view.loc (thr d L) ↦[(dst_2_0 L).view.set]{fullShare} g)
    ∗ (∃ g, (dst_2_1 L).view.loc (thr d L) ↦[(dst_2_1 L).view.set]{fullShare} g)
    ∗ (∃ g, (dst_3_0 L).view.loc (thr d L) ↦[(dst_3_0 L).view.set]{fullShare} g)
    ∗ (∃ g, (dst_3_1 L).view.loc (thr d L) ↦[(dst_3_1 L).view.set]{fullShare} g)
    ∗ (∃ g, (dst_4_0 L).view.loc (thr d L) ↦[(dst_4_0 L).view.set]{fullShare} g)
    ∗ (∃ g, (dst_4_1 L).view.loc (thr d L) ↦[(dst_4_1 L).view.set]{fullShare} g)
    ∗ (∃ g, (dst_5_0 L).view.loc (thr d L) ↦[(dst_5_0 L).view.set]{fullShare} g)
    ∗ (∃ g, (dst_5_1 L).view.loc (thr d L) ↦[(dst_5_1 L).view.set]{fullShare} g)
    ∗ (∃ g, (dst_6_0 L).view.loc (thr d L) ↦[(dst_6_0 L).view.set]{fullShare} g)
    ∗ (∃ g, (dst_6_1 L).view.loc (thr d L) ↦[(dst_6_1 L).view.set]{fullShare} g)
    ∗ (∃ g, (dst_7_0 L).view.loc (thr d L) ↦[(dst_7_0 L).view.set]{fullShare} g)
    ∗ (∃ g, (dst_7_1 L).view.loc (thr d L) ↦[(dst_7_1 L).view.set]{fullShare} g)
    ∗ (∃ g, (dst_8_0 L).view.loc (thr d L) ↦[(dst_8_0 L).view.set]{fullShare} g)
    ∗ (∃ g, (dst_8_1 L).view.loc (thr d L) ↦[(dst_8_1 L).view.set]{fullShare} g)
    ∗ (∃ g, (dst_9_0 L).view.loc (thr d L) ↦[(dst_9_0 L).view.set]{fullShare} g)
    ∗ (∃ g, (dst_9_1 L).view.loc (thr d L) ↦[(dst_9_1 L).view.set]{fullShare} g)
    ∗ (∃ g, (dst_10_0 L).view.loc (thr d L) ↦[(dst_10_0 L).view.set]{fullShare} g)
    ∗ (∃ g, (dst_10_1 L).view.loc (thr d L) ↦[(dst_10_1 L).view.set]{fullShare} g)
    ∗ (∃ g, (dst_11_0 L).view.loc (thr d L) ↦[(dst_11_0 L).view.set]{fullShare} g)
    ∗ (∃ g, (dst_11_1 L).view.loc (thr d L) ↦[(dst_11_1 L).view.set]{fullShare} g)
    ∗ (∃ g, (dst_12_0 L).view.loc (thr d L) ↦[(dst_12_0 L).view.set]{fullShare} g)
    ∗ (∃ g, (dst_12_1 L).view.loc (thr d L) ↦[(dst_12_1 L).view.set]{fullShare} g)
    ∗ (∃ g, (dst_13_0 L).view.loc (thr d L) ↦[(dst_13_0 L).view.set]{fullShare} g)
    ∗ (∃ g, (dst_13_1 L).view.loc (thr d L) ↦[(dst_13_1 L).view.set]{fullShare} g)
    ∗ (∃ g, (dst_14_0 L).view.loc (thr d L) ↦[(dst_14_0 L).view.set]{fullShare} g)
    ∗ (∃ g, (dst_14_1 L).view.loc (thr d L) ↦[(dst_14_1 L).view.set]{fullShare} g)
    ∗ (∃ g, (dst_15_0 L).view.loc (thr d L) ↦[(dst_15_0 L).view.set]{fullShare} g)
    ∗ (∃ g, (dst_15_1 L).view.loc (thr d L) ↦[(dst_15_1 L).view.set]{fullShare} g)
    ∗ (∃ g, (dst_16_0 L).view.loc (thr d L) ↦[(dst_16_0 L).view.set]{fullShare} g)
    ∗ (∃ g, (dst_16_1 L).view.loc (thr d L) ↦[(dst_16_1 L).view.set]{fullShare} g)
    ∗ (∃ g, (dst_17_0 L).view.loc (thr d L) ↦[(dst_17_0 L).view.set]{fullShare} g)
    ∗ (∃ g, (dst_17_1 L).view.loc (thr d L) ↦[(dst_17_1 L).view.set]{fullShare} g)
    ∗ (∃ g, (dst_18_0 L).view.loc (thr d L) ↦[(dst_18_0 L).view.set]{fullShare} g)
    ∗ (∃ g, (dst_18_1 L).view.loc (thr d L) ↦[(dst_18_1 L).view.set]{fullShare} g)
    ∗ (∃ g, (dst_19_0 L).view.loc (thr d L) ↦[(dst_19_0 L).view.set]{fullShare} g)
    ∗ (∃ g, (dst_19_1 L).view.loc (thr d L) ↦[(dst_19_1 L).view.set]{fullShare} g)
    ∗ (∃ g, (dst_20_0 L).view.loc (thr d L) ↦[(dst_20_0 L).view.set]{fullShare} g)
    ∗ (∃ g, (dst_20_1 L).view.loc (thr d L) ↦[(dst_20_1 L).view.set]{fullShare} g)
    ∗ (∃ g, (dst_21_0 L).view.loc (thr d L) ↦[(dst_21_0 L).view.set]{fullShare} g)
    ∗ (∃ g, (dst_21_1 L).view.loc (thr d L) ↦[(dst_21_1 L).view.set]{fullShare} g)
    ∗ (∃ g, (dst_22_0 L).view.loc (thr d L) ↦[(dst_22_0 L).view.set]{fullShare} g)
    ∗ (∃ g, (dst_22_1 L).view.loc (thr d L) ↦[(dst_22_1 L).view.set]{fullShare} g)
    ∗ (∃ g, (dst_23_0 L).view.loc (thr d L) ↦[(dst_23_0 L).view.set]{fullShare} g)
    ∗ (∃ g, (dst_23_1 L).view.loc (thr d L) ↦[(dst_23_1 L).view.set]{fullShare} g)
    ∗ (∃ g, (dst_24_0 L).view.loc (thr d L) ↦[(dst_24_0 L).view.set]{fullShare} g)
    ∗ (∃ g, (dst_24_1 L).view.loc (thr d L) ↦[(dst_24_1 L).view.set]{fullShare} g)
    ∗ (∃ g, (dst_25_0 L).view.loc (thr d L) ↦[(dst_25_0 L).view.set]{fullShare} g)
    ∗ (∃ g, (dst_25_1 L).view.loc (thr d L) ↦[(dst_25_1 L).view.set]{fullShare} g)
    ∗ (∃ g, (dst_26_0 L).view.loc (thr d L) ↦[(dst_26_0 L).view.set]{fullShare} g)
    ∗ (∃ g, (dst_26_1 L).view.loc (thr d L) ↦[(dst_26_1 L).view.set]{fullShare} g)
    ∗ (∃ g, (dst_27_0 L).view.loc (thr d L) ↦[(dst_27_0 L).view.set]{fullShare} g)
    ∗ (∃ g, (dst_27_1 L).view.loc (thr d L) ↦[(dst_27_1 L).view.set]{fullShare} g)
    ∗ (∃ g, (dst_28_0 L).view.loc (thr d L) ↦[(dst_28_0 L).view.set]{fullShare} g)
    ∗ (∃ g, (dst_28_1 L).view.loc (thr d L) ↦[(dst_28_1 L).view.set]{fullShare} g)
    ∗ (∃ g, (dst_29_0 L).view.loc (thr d L) ↦[(dst_29_0 L).view.set]{fullShare} g)
    ∗ (∃ g, (dst_29_1 L).view.loc (thr d L) ↦[(dst_29_1 L).view.set]{fullShare} g)
    ∗ (∃ g, (dst_30_0 L).view.loc (thr d L) ↦[(dst_30_0 L).view.set]{fullShare} g)
    ∗ (∃ g, (dst_30_1 L).view.loc (thr d L) ↦[(dst_30_1 L).view.set]{fullShare} g)
    ∗ (∃ g, (dst_31_0 L).view.loc (thr d L) ↦[(dst_31_0 L).view.set]{fullShare} g)
    ∗ (∃ g, (dst_31_1 L).view.loc (thr d L) ↦[(dst_31_1 L).view.set]{fullShare} g)
    ∗ (∃ g, (dst_32_0 L).view.loc (thr d L) ↦[(dst_32_0 L).view.set]{fullShare} g)
    ∗ (∃ g, (dst_32_1 L).view.loc (thr d L) ↦[(dst_32_1 L).view.set]{fullShare} g)
    ∗ (∃ g, (dst_33_0 L).view.loc (thr d L) ↦[(dst_33_0 L).view.set]{fullShare} g)
    ∗ (∃ g, (dst_33_1 L).view.loc (thr d L) ↦[(dst_33_1 L).view.set]{fullShare} g)
    ∗ (∃ g, (dst_34_0 L).view.loc (thr d L) ↦[(dst_34_0 L).view.set]{fullShare} g)
    ∗ (∃ g, (dst_34_1 L).view.loc (thr d L) ↦[(dst_34_1 L).view.set]{fullShare} g)
    ∗ (∃ g, (dst_35_0 L).view.loc (thr d L) ↦[(dst_35_0 L).view.set]{fullShare} g)
    ∗ (∃ g, (dst_35_1 L).view.loc (thr d L) ↦[(dst_35_1 L).view.set]{fullShare} g)
    ∗ (∃ g, (dst_36_0 L).view.loc (thr d L) ↦[(dst_36_0 L).view.set]{fullShare} g)
    ∗ (∃ g, (dst_36_1 L).view.loc (thr d L) ↦[(dst_36_1 L).view.set]{fullShare} g)
    ∗ (∃ g, (dst_37_0 L).view.loc (thr d L) ↦[(dst_37_0 L).view.set]{fullShare} g)
    ∗ (∃ g, (dst_37_1 L).view.loc (thr d L) ↦[(dst_37_1 L).view.set]{fullShare} g)
    ∗ (∃ g, (dst_38_0 L).view.loc (thr d L) ↦[(dst_38_0 L).view.set]{fullShare} g)
    ∗ (∃ g, (dst_38_1 L).view.loc (thr d L) ↦[(dst_38_1 L).view.set]{fullShare} g)
    ∗ (∃ g, (dst_39_0 L).view.loc (thr d L) ↦[(dst_39_0 L).view.set]{fullShare} g)
    ∗ (∃ g, (dst_39_1 L).view.loc (thr d L) ↦[(dst_39_1 L).view.set]{fullShare} g))

end Cert.Proof.KI

end
-- ==== Proof.KI.BodyCtxV.lean ====
/-
  The 80 destination rows once the task has written them: each at contents that agree, on the row, with the one
  whole-array function `GT A`.
-/
import proofs.«207382_g17746804867166_cont_8to1_1179_25_alg».proof.Proof.KI.BodyCtx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 8000000 in
/-- The 80 destination rows, each at contents equal to `GT A` on the row. -/
def rowsDone (A : Arrs F) (d : Dev nD) (L : grid0.Coords) : sProp 𝕄 :=
  iprop((∃ g : Buf (Elt F) ((dst_0_0 L).view.loc (thr d L)), ⌜∀ x ∈ (dst_0_0 L).view.set, g x = (GT A : Buf (Elt F) (outL d)) x⌝ ∗ ((dst_0_0 L).view.loc (thr d L) ↦[(dst_0_0 L).view.set]{fullShare} g))
    ∗ (∃ g : Buf (Elt F) ((dst_0_1 L).view.loc (thr d L)), ⌜∀ x ∈ (dst_0_1 L).view.set, g x = (GT A : Buf (Elt F) (outL d)) x⌝ ∗ ((dst_0_1 L).view.loc (thr d L) ↦[(dst_0_1 L).view.set]{fullShare} g))
    ∗ (∃ g : Buf (Elt F) ((dst_1_0 L).view.loc (thr d L)), ⌜∀ x ∈ (dst_1_0 L).view.set, g x = (GT A : Buf (Elt F) (outL d)) x⌝ ∗ ((dst_1_0 L).view.loc (thr d L) ↦[(dst_1_0 L).view.set]{fullShare} g))
    ∗ (∃ g : Buf (Elt F) ((dst_1_1 L).view.loc (thr d L)), ⌜∀ x ∈ (dst_1_1 L).view.set, g x = (GT A : Buf (Elt F) (outL d)) x⌝ ∗ ((dst_1_1 L).view.loc (thr d L) ↦[(dst_1_1 L).view.set]{fullShare} g))
    ∗ (∃ g : Buf (Elt F) ((dst_2_0 L).view.loc (thr d L)), ⌜∀ x ∈ (dst_2_0 L).view.set, g x = (GT A : Buf (Elt F) (outL d)) x⌝ ∗ ((dst_2_0 L).view.loc (thr d L) ↦[(dst_2_0 L).view.set]{fullShare} g))
    ∗ (∃ g : Buf (Elt F) ((dst_2_1 L).view.loc (thr d L)), ⌜∀ x ∈ (dst_2_1 L).view.set, g x = (GT A : Buf (Elt F) (outL d)) x⌝ ∗ ((dst_2_1 L).view.loc (thr d L) ↦[(dst_2_1 L).view.set]{fullShare} g))
    ∗ (∃ g : Buf (Elt F) ((dst_3_0 L).view.loc (thr d L)), ⌜∀ x ∈ (dst_3_0 L).view.set, g x = (GT A : Buf (Elt F) (outL d)) x⌝ ∗ ((dst_3_0 L).view.loc (thr d L) ↦[(dst_3_0 L).view.set]{fullShare} g))
    ∗ (∃ g : Buf (Elt F) ((dst_3_1 L).view.loc (thr d L)), ⌜∀ x ∈ (dst_3_1 L).view.set, g x = (GT A : Buf (Elt F) (outL d)) x⌝ ∗ ((dst_3_1 L).view.loc (thr d L) ↦[(dst_3_1 L).view.set]{fullShare} g))
    ∗ (∃ g : Buf (Elt F) ((dst_4_0 L).view.loc (thr d L)), ⌜∀ x ∈ (dst_4_0 L).view.set, g x = (GT A : Buf (Elt F) (outL d)) x⌝ ∗ ((dst_4_0 L).view.loc (thr d L) ↦[(dst_4_0 L).view.set]{fullShare} g))
    ∗ (∃ g : Buf (Elt F) ((dst_4_1 L).view.loc (thr d L)), ⌜∀ x ∈ (dst_4_1 L).view.set, g x = (GT A : Buf (Elt F) (outL d)) x⌝ ∗ ((dst_4_1 L).view.loc (thr d L) ↦[(dst_4_1 L).view.set]{fullShare} g))
    ∗ (∃ g : Buf (Elt F) ((dst_5_0 L).view.loc (thr d L)), ⌜∀ x ∈ (dst_5_0 L).view.set, g x = (GT A : Buf (Elt F) (outL d)) x⌝ ∗ ((dst_5_0 L).view.loc (thr d L) ↦[(dst_5_0 L).view.set]{fullShare} g))
    ∗ (∃ g : Buf (Elt F) ((dst_5_1 L).view.loc (thr d L)), ⌜∀ x ∈ (dst_5_1 L).view.set, g x = (GT A : Buf (Elt F) (outL d)) x⌝ ∗ ((dst_5_1 L).view.loc (thr d L) ↦[(dst_5_1 L).view.set]{fullShare} g))
    ∗ (∃ g : Buf (Elt F) ((dst_6_0 L).view.loc (thr d L)), ⌜∀ x ∈ (dst_6_0 L).view.set, g x = (GT A : Buf (Elt F) (outL d)) x⌝ ∗ ((dst_6_0 L).view.loc (thr d L) ↦[(dst_6_0 L).view.set]{fullShare} g))
    ∗ (∃ g : Buf (Elt F) ((dst_6_1 L).view.loc (thr d L)), ⌜∀ x ∈ (dst_6_1 L).view.set, g x = (GT A : Buf (Elt F) (outL d)) x⌝ ∗ ((dst_6_1 L).view.loc (thr d L) ↦[(dst_6_1 L).view.set]{fullShare} g))
    ∗ (∃ g : Buf (Elt F) ((dst_7_0 L).view.loc (thr d L)), ⌜∀ x ∈ (dst_7_0 L).view.set, g x = (GT A : Buf (Elt F) (outL d)) x⌝ ∗ ((dst_7_0 L).view.loc (thr d L) ↦[(dst_7_0 L).view.set]{fullShare} g))
    ∗ (∃ g : Buf (Elt F) ((dst_7_1 L).view.loc (thr d L)), ⌜∀ x ∈ (dst_7_1 L).view.set, g x = (GT A : Buf (Elt F) (outL d)) x⌝ ∗ ((dst_7_1 L).view.loc (thr d L) ↦[(dst_7_1 L).view.set]{fullShare} g))
    ∗ (∃ g : Buf (Elt F) ((dst_8_0 L).view.loc (thr d L)), ⌜∀ x ∈ (dst_8_0 L).view.set, g x = (GT A : Buf (Elt F) (outL d)) x⌝ ∗ ((dst_8_0 L).view.loc (thr d L) ↦[(dst_8_0 L).view.set]{fullShare} g))
    ∗ (∃ g : Buf (Elt F) ((dst_8_1 L).view.loc (thr d L)), ⌜∀ x ∈ (dst_8_1 L).view.set, g x = (GT A : Buf (Elt F) (outL d)) x⌝ ∗ ((dst_8_1 L).view.loc (thr d L) ↦[(dst_8_1 L).view.set]{fullShare} g))
    ∗ (∃ g : Buf (Elt F) ((dst_9_0 L).view.loc (thr d L)), ⌜∀ x ∈ (dst_9_0 L).view.set, g x = (GT A : Buf (Elt F) (outL d)) x⌝ ∗ ((dst_9_0 L).view.loc (thr d L) ↦[(dst_9_0 L).view.set]{fullShare} g))
    ∗ (∃ g : Buf (Elt F) ((dst_9_1 L).view.loc (thr d L)), ⌜∀ x ∈ (dst_9_1 L).view.set, g x = (GT A : Buf (Elt F) (outL d)) x⌝ ∗ ((dst_9_1 L).view.loc (thr d L) ↦[(dst_9_1 L).view.set]{fullShare} g))
    ∗ (∃ g : Buf (Elt F) ((dst_10_0 L).view.loc (thr d L)), ⌜∀ x ∈ (dst_10_0 L).view.set, g x = (GT A : Buf (Elt F) (outL d)) x⌝ ∗ ((dst_10_0 L).view.loc (thr d L) ↦[(dst_10_0 L).view.set]{fullShare} g))
    ∗ (∃ g : Buf (Elt F) ((dst_10_1 L).view.loc (thr d L)), ⌜∀ x ∈ (dst_10_1 L).view.set, g x = (GT A : Buf (Elt F) (outL d)) x⌝ ∗ ((dst_10_1 L).view.loc (thr d L) ↦[(dst_10_1 L).view.set]{fullShare} g))
    ∗ (∃ g : Buf (Elt F) ((dst_11_0 L).view.loc (thr d L)), ⌜∀ x ∈ (dst_11_0 L).view.set, g x = (GT A : Buf (Elt F) (outL d)) x⌝ ∗ ((dst_11_0 L).view.loc (thr d L) ↦[(dst_11_0 L).view.set]{fullShare} g))
    ∗ (∃ g : Buf (Elt F) ((dst_11_1 L).view.loc (thr d L)), ⌜∀ x ∈ (dst_11_1 L).view.set, g x = (GT A : Buf (Elt F) (outL d)) x⌝ ∗ ((dst_11_1 L).view.loc (thr d L) ↦[(dst_11_1 L).view.set]{fullShare} g))
    ∗ (∃ g : Buf (Elt F) ((dst_12_0 L).view.loc (thr d L)), ⌜∀ x ∈ (dst_12_0 L).view.set, g x = (GT A : Buf (Elt F) (outL d)) x⌝ ∗ ((dst_12_0 L).view.loc (thr d L) ↦[(dst_12_0 L).view.set]{fullShare} g))
    ∗ (∃ g : Buf (Elt F) ((dst_12_1 L).view.loc (thr d L)), ⌜∀ x ∈ (dst_12_1 L).view.set, g x = (GT A : Buf (Elt F) (outL d)) x⌝ ∗ ((dst_12_1 L).view.loc (thr d L) ↦[(dst_12_1 L).view.set]{fullShare} g))
    ∗ (∃ g : Buf (Elt F) ((dst_13_0 L).view.loc (thr d L)), ⌜∀ x ∈ (dst_13_0 L).view.set, g x = (GT A : Buf (Elt F) (outL d)) x⌝ ∗ ((dst_13_0 L).view.loc (thr d L) ↦[(dst_13_0 L).view.set]{fullShare} g))
    ∗ (∃ g : Buf (Elt F) ((dst_13_1 L).view.loc (thr d L)), ⌜∀ x ∈ (dst_13_1 L).view.set, g x = (GT A : Buf (Elt F) (outL d)) x⌝ ∗ ((dst_13_1 L).view.loc (thr d L) ↦[(dst_13_1 L).view.set]{fullShare} g))
    ∗ (∃ g : Buf (Elt F) ((dst_14_0 L).view.loc (thr d L)), ⌜∀ x ∈ (dst_14_0 L).view.set, g x = (GT A : Buf (Elt F) (outL d)) x⌝ ∗ ((dst_14_0 L).view.loc (thr d L) ↦[(dst_14_0 L).view.set]{fullShare} g))
    ∗ (∃ g : Buf (Elt F) ((dst_14_1 L).view.loc (thr d L)), ⌜∀ x ∈ (dst_14_1 L).view.set, g x = (GT A : Buf (Elt F) (outL d)) x⌝ ∗ ((dst_14_1 L).view.loc (thr d L) ↦[(dst_14_1 L).view.set]{fullShare} g))
    ∗ (∃ g : Buf (Elt F) ((dst_15_0 L).view.loc (thr d L)), ⌜∀ x ∈ (dst_15_0 L).view.set, g x = (GT A : Buf (Elt F) (outL d)) x⌝ ∗ ((dst_15_0 L).view.loc (thr d L) ↦[(dst_15_0 L).view.set]{fullShare} g))
    ∗ (∃ g : Buf (Elt F) ((dst_15_1 L).view.loc (thr d L)), ⌜∀ x ∈ (dst_15_1 L).view.set, g x = (GT A : Buf (Elt F) (outL d)) x⌝ ∗ ((dst_15_1 L).view.loc (thr d L) ↦[(dst_15_1 L).view.set]{fullShare} g))
    ∗ (∃ g : Buf (Elt F) ((dst_16_0 L).view.loc (thr d L)), ⌜∀ x ∈ (dst_16_0 L).view.set, g x = (GT A : Buf (Elt F) (outL d)) x⌝ ∗ ((dst_16_0 L).view.loc (thr d L) ↦[(dst_16_0 L).view.set]{fullShare} g))
    ∗ (∃ g : Buf (Elt F) ((dst_16_1 L).view.loc (thr d L)), ⌜∀ x ∈ (dst_16_1 L).view.set, g x = (GT A : Buf (Elt F) (outL d)) x⌝ ∗ ((dst_16_1 L).view.loc (thr d L) ↦[(dst_16_1 L).view.set]{fullShare} g))
    ∗ (∃ g : Buf (Elt F) ((dst_17_0 L).view.loc (thr d L)), ⌜∀ x ∈ (dst_17_0 L).view.set, g x = (GT A : Buf (Elt F) (outL d)) x⌝ ∗ ((dst_17_0 L).view.loc (thr d L) ↦[(dst_17_0 L).view.set]{fullShare} g))
    ∗ (∃ g : Buf (Elt F) ((dst_17_1 L).view.loc (thr d L)), ⌜∀ x ∈ (dst_17_1 L).view.set, g x = (GT A : Buf (Elt F) (outL d)) x⌝ ∗ ((dst_17_1 L).view.loc (thr d L) ↦[(dst_17_1 L).view.set]{fullShare} g))
    ∗ (∃ g : Buf (Elt F) ((dst_18_0 L).view.loc (thr d L)), ⌜∀ x ∈ (dst_18_0 L).view.set, g x = (GT A : Buf (Elt F) (outL d)) x⌝ ∗ ((dst_18_0 L).view.loc (thr d L) ↦[(dst_18_0 L).view.set]{fullShare} g))
    ∗ (∃ g : Buf (Elt F) ((dst_18_1 L).view.loc (thr d L)), ⌜∀ x ∈ (dst_18_1 L).view.set, g x = (GT A : Buf (Elt F) (outL d)) x⌝ ∗ ((dst_18_1 L).view.loc (thr d L) ↦[(dst_18_1 L).view.set]{fullShare} g))
    ∗ (∃ g : Buf (Elt F) ((dst_19_0 L).view.loc (thr d L)), ⌜∀ x ∈ (dst_19_0 L).view.set, g x = (GT A : Buf (Elt F) (outL d)) x⌝ ∗ ((dst_19_0 L).view.loc (thr d L) ↦[(dst_19_0 L).view.set]{fullShare} g))
    ∗ (∃ g : Buf (Elt F) ((dst_19_1 L).view.loc (thr d L)), ⌜∀ x ∈ (dst_19_1 L).view.set, g x = (GT A : Buf (Elt F) (outL d)) x⌝ ∗ ((dst_19_1 L).view.loc (thr d L) ↦[(dst_19_1 L).view.set]{fullShare} g))
    ∗ (∃ g : Buf (Elt F) ((dst_20_0 L).view.loc (thr d L)), ⌜∀ x ∈ (dst_20_0 L).view.set, g x = (GT A : Buf (Elt F) (outL d)) x⌝ ∗ ((dst_20_0 L).view.loc (thr d L) ↦[(dst_20_0 L).view.set]{fullShare} g))
    ∗ (∃ g : Buf (Elt F) ((dst_20_1 L).view.loc (thr d L)), ⌜∀ x ∈ (dst_20_1 L).view.set, g x = (GT A : Buf (Elt F) (outL d)) x⌝ ∗ ((dst_20_1 L).view.loc (thr d L) ↦[(dst_20_1 L).view.set]{fullShare} g))
    ∗ (∃ g : Buf (Elt F) ((dst_21_0 L).view.loc (thr d L)), ⌜∀ x ∈ (dst_21_0 L).view.set, g x = (GT A : Buf (Elt F) (outL d)) x⌝ ∗ ((dst_21_0 L).view.loc (thr d L) ↦[(dst_21_0 L).view.set]{fullShare} g))
    ∗ (∃ g : Buf (Elt F) ((dst_21_1 L).view.loc (thr d L)), ⌜∀ x ∈ (dst_21_1 L).view.set, g x = (GT A : Buf (Elt F) (outL d)) x⌝ ∗ ((dst_21_1 L).view.loc (thr d L) ↦[(dst_21_1 L).view.set]{fullShare} g))
    ∗ (∃ g : Buf (Elt F) ((dst_22_0 L).view.loc (thr d L)), ⌜∀ x ∈ (dst_22_0 L).view.set, g x = (GT A : Buf (Elt F) (outL d)) x⌝ ∗ ((dst_22_0 L).view.loc (thr d L) ↦[(dst_22_0 L).view.set]{fullShare} g))
    ∗ (∃ g : Buf (Elt F) ((dst_22_1 L).view.loc (thr d L)), ⌜∀ x ∈ (dst_22_1 L).view.set, g x = (GT A : Buf (Elt F) (outL d)) x⌝ ∗ ((dst_22_1 L).view.loc (thr d L) ↦[(dst_22_1 L).view.set]{fullShare} g))
    ∗ (∃ g : Buf (Elt F) ((dst_23_0 L).view.loc (thr d L)), ⌜∀ x ∈ (dst_23_0 L).view.set, g x = (GT A : Buf (Elt F) (outL d)) x⌝ ∗ ((dst_23_0 L).view.loc (thr d L) ↦[(dst_23_0 L).view.set]{fullShare} g))
    ∗ (∃ g : Buf (Elt F) ((dst_23_1 L).view.loc (thr d L)), ⌜∀ x ∈ (dst_23_1 L).view.set, g x = (GT A : Buf (Elt F) (outL d)) x⌝ ∗ ((dst_23_1 L).view.loc (thr d L) ↦[(dst_23_1 L).view.set]{fullShare} g))
    ∗ (∃ g : Buf (Elt F) ((dst_24_0 L).view.loc (thr d L)), ⌜∀ x ∈ (dst_24_0 L).view.set, g x = (GT A : Buf (Elt F) (outL d)) x⌝ ∗ ((dst_24_0 L).view.loc (thr d L) ↦[(dst_24_0 L).view.set]{fullShare} g))
    ∗ (∃ g : Buf (Elt F) ((dst_24_1 L).view.loc (thr d L)), ⌜∀ x ∈ (dst_24_1 L).view.set, g x = (GT A : Buf (Elt F) (outL d)) x⌝ ∗ ((dst_24_1 L).view.loc (thr d L) ↦[(dst_24_1 L).view.set]{fullShare} g))
    ∗ (∃ g : Buf (Elt F) ((dst_25_0 L).view.loc (thr d L)), ⌜∀ x ∈ (dst_25_0 L).view.set, g x = (GT A : Buf (Elt F) (outL d)) x⌝ ∗ ((dst_25_0 L).view.loc (thr d L) ↦[(dst_25_0 L).view.set]{fullShare} g))
    ∗ (∃ g : Buf (Elt F) ((dst_25_1 L).view.loc (thr d L)), ⌜∀ x ∈ (dst_25_1 L).view.set, g x = (GT A : Buf (Elt F) (outL d)) x⌝ ∗ ((dst_25_1 L).view.loc (thr d L) ↦[(dst_25_1 L).view.set]{fullShare} g))
    ∗ (∃ g : Buf (Elt F) ((dst_26_0 L).view.loc (thr d L)), ⌜∀ x ∈ (dst_26_0 L).view.set, g x = (GT A : Buf (Elt F) (outL d)) x⌝ ∗ ((dst_26_0 L).view.loc (thr d L) ↦[(dst_26_0 L).view.set]{fullShare} g))
    ∗ (∃ g : Buf (Elt F) ((dst_26_1 L).view.loc (thr d L)), ⌜∀ x ∈ (dst_26_1 L).view.set, g x = (GT A : Buf (Elt F) (outL d)) x⌝ ∗ ((dst_26_1 L).view.loc (thr d L) ↦[(dst_26_1 L).view.set]{fullShare} g))
    ∗ (∃ g : Buf (Elt F) ((dst_27_0 L).view.loc (thr d L)), ⌜∀ x ∈ (dst_27_0 L).view.set, g x = (GT A : Buf (Elt F) (outL d)) x⌝ ∗ ((dst_27_0 L).view.loc (thr d L) ↦[(dst_27_0 L).view.set]{fullShare} g))
    ∗ (∃ g : Buf (Elt F) ((dst_27_1 L).view.loc (thr d L)), ⌜∀ x ∈ (dst_27_1 L).view.set, g x = (GT A : Buf (Elt F) (outL d)) x⌝ ∗ ((dst_27_1 L).view.loc (thr d L) ↦[(dst_27_1 L).view.set]{fullShare} g))
    ∗ (∃ g : Buf (Elt F) ((dst_28_0 L).view.loc (thr d L)), ⌜∀ x ∈ (dst_28_0 L).view.set, g x = (GT A : Buf (Elt F) (outL d)) x⌝ ∗ ((dst_28_0 L).view.loc (thr d L) ↦[(dst_28_0 L).view.set]{fullShare} g))
    ∗ (∃ g : Buf (Elt F) ((dst_28_1 L).view.loc (thr d L)), ⌜∀ x ∈ (dst_28_1 L).view.set, g x = (GT A : Buf (Elt F) (outL d)) x⌝ ∗ ((dst_28_1 L).view.loc (thr d L) ↦[(dst_28_1 L).view.set]{fullShare} g))
    ∗ (∃ g : Buf (Elt F) ((dst_29_0 L).view.loc (thr d L)), ⌜∀ x ∈ (dst_29_0 L).view.set, g x = (GT A : Buf (Elt F) (outL d)) x⌝ ∗ ((dst_29_0 L).view.loc (thr d L) ↦[(dst_29_0 L).view.set]{fullShare} g))
    ∗ (∃ g : Buf (Elt F) ((dst_29_1 L).view.loc (thr d L)), ⌜∀ x ∈ (dst_29_1 L).view.set, g x = (GT A : Buf (Elt F) (outL d)) x⌝ ∗ ((dst_29_1 L).view.loc (thr d L) ↦[(dst_29_1 L).view.set]{fullShare} g))
    ∗ (∃ g : Buf (Elt F) ((dst_30_0 L).view.loc (thr d L)), ⌜∀ x ∈ (dst_30_0 L).view.set, g x = (GT A : Buf (Elt F) (outL d)) x⌝ ∗ ((dst_30_0 L).view.loc (thr d L) ↦[(dst_30_0 L).view.set]{fullShare} g))
    ∗ (∃ g : Buf (Elt F) ((dst_30_1 L).view.loc (thr d L)), ⌜∀ x ∈ (dst_30_1 L).view.set, g x = (GT A : Buf (Elt F) (outL d)) x⌝ ∗ ((dst_30_1 L).view.loc (thr d L) ↦[(dst_30_1 L).view.set]{fullShare} g))
    ∗ (∃ g : Buf (Elt F) ((dst_31_0 L).view.loc (thr d L)), ⌜∀ x ∈ (dst_31_0 L).view.set, g x = (GT A : Buf (Elt F) (outL d)) x⌝ ∗ ((dst_31_0 L).view.loc (thr d L) ↦[(dst_31_0 L).view.set]{fullShare} g))
    ∗ (∃ g : Buf (Elt F) ((dst_31_1 L).view.loc (thr d L)), ⌜∀ x ∈ (dst_31_1 L).view.set, g x = (GT A : Buf (Elt F) (outL d)) x⌝ ∗ ((dst_31_1 L).view.loc (thr d L) ↦[(dst_31_1 L).view.set]{fullShare} g))
    ∗ (∃ g : Buf (Elt F) ((dst_32_0 L).view.loc (thr d L)), ⌜∀ x ∈ (dst_32_0 L).view.set, g x = (GT A : Buf (Elt F) (outL d)) x⌝ ∗ ((dst_32_0 L).view.loc (thr d L) ↦[(dst_32_0 L).view.set]{fullShare} g))
    ∗ (∃ g : Buf (Elt F) ((dst_32_1 L).view.loc (thr d L)), ⌜∀ x ∈ (dst_32_1 L).view.set, g x = (GT A : Buf (Elt F) (outL d)) x⌝ ∗ ((dst_32_1 L).view.loc (thr d L) ↦[(dst_32_1 L).view.set]{fullShare} g))
    ∗ (∃ g : Buf (Elt F) ((dst_33_0 L).view.loc (thr d L)), ⌜∀ x ∈ (dst_33_0 L).view.set, g x = (GT A : Buf (Elt F) (outL d)) x⌝ ∗ ((dst_33_0 L).view.loc (thr d L) ↦[(dst_33_0 L).view.set]{fullShare} g))
    ∗ (∃ g : Buf (Elt F) ((dst_33_1 L).view.loc (thr d L)), ⌜∀ x ∈ (dst_33_1 L).view.set, g x = (GT A : Buf (Elt F) (outL d)) x⌝ ∗ ((dst_33_1 L).view.loc (thr d L) ↦[(dst_33_1 L).view.set]{fullShare} g))
    ∗ (∃ g : Buf (Elt F) ((dst_34_0 L).view.loc (thr d L)), ⌜∀ x ∈ (dst_34_0 L).view.set, g x = (GT A : Buf (Elt F) (outL d)) x⌝ ∗ ((dst_34_0 L).view.loc (thr d L) ↦[(dst_34_0 L).view.set]{fullShare} g))
    ∗ (∃ g : Buf (Elt F) ((dst_34_1 L).view.loc (thr d L)), ⌜∀ x ∈ (dst_34_1 L).view.set, g x = (GT A : Buf (Elt F) (outL d)) x⌝ ∗ ((dst_34_1 L).view.loc (thr d L) ↦[(dst_34_1 L).view.set]{fullShare} g))
    ∗ (∃ g : Buf (Elt F) ((dst_35_0 L).view.loc (thr d L)), ⌜∀ x ∈ (dst_35_0 L).view.set, g x = (GT A : Buf (Elt F) (outL d)) x⌝ ∗ ((dst_35_0 L).view.loc (thr d L) ↦[(dst_35_0 L).view.set]{fullShare} g))
    ∗ (∃ g : Buf (Elt F) ((dst_35_1 L).view.loc (thr d L)), ⌜∀ x ∈ (dst_35_1 L).view.set, g x = (GT A : Buf (Elt F) (outL d)) x⌝ ∗ ((dst_35_1 L).view.loc (thr d L) ↦[(dst_35_1 L).view.set]{fullShare} g))
    ∗ (∃ g : Buf (Elt F) ((dst_36_0 L).view.loc (thr d L)), ⌜∀ x ∈ (dst_36_0 L).view.set, g x = (GT A : Buf (Elt F) (outL d)) x⌝ ∗ ((dst_36_0 L).view.loc (thr d L) ↦[(dst_36_0 L).view.set]{fullShare} g))
    ∗ (∃ g : Buf (Elt F) ((dst_36_1 L).view.loc (thr d L)), ⌜∀ x ∈ (dst_36_1 L).view.set, g x = (GT A : Buf (Elt F) (outL d)) x⌝ ∗ ((dst_36_1 L).view.loc (thr d L) ↦[(dst_36_1 L).view.set]{fullShare} g))
    ∗ (∃ g : Buf (Elt F) ((dst_37_0 L).view.loc (thr d L)), ⌜∀ x ∈ (dst_37_0 L).view.set, g x = (GT A : Buf (Elt F) (outL d)) x⌝ ∗ ((dst_37_0 L).view.loc (thr d L) ↦[(dst_37_0 L).view.set]{fullShare} g))
    ∗ (∃ g : Buf (Elt F) ((dst_37_1 L).view.loc (thr d L)), ⌜∀ x ∈ (dst_37_1 L).view.set, g x = (GT A : Buf (Elt F) (outL d)) x⌝ ∗ ((dst_37_1 L).view.loc (thr d L) ↦[(dst_37_1 L).view.set]{fullShare} g))
    ∗ (∃ g : Buf (Elt F) ((dst_38_0 L).view.loc (thr d L)), ⌜∀ x ∈ (dst_38_0 L).view.set, g x = (GT A : Buf (Elt F) (outL d)) x⌝ ∗ ((dst_38_0 L).view.loc (thr d L) ↦[(dst_38_0 L).view.set]{fullShare} g))
    ∗ (∃ g : Buf (Elt F) ((dst_38_1 L).view.loc (thr d L)), ⌜∀ x ∈ (dst_38_1 L).view.set, g x = (GT A : Buf (Elt F) (outL d)) x⌝ ∗ ((dst_38_1 L).view.loc (thr d L) ↦[(dst_38_1 L).view.set]{fullShare} g))
    ∗ (∃ g : Buf (Elt F) ((dst_39_0 L).view.loc (thr d L)), ⌜∀ x ∈ (dst_39_0 L).view.set, g x = (GT A : Buf (Elt F) (outL d)) x⌝ ∗ ((dst_39_0 L).view.loc (thr d L) ↦[(dst_39_0 L).view.set]{fullShare} g))
    ∗ (∃ g : Buf (Elt F) ((dst_39_1 L).view.loc (thr d L)), ⌜∀ x ∈ (dst_39_1 L).view.set, g x = (GT A : Buf (Elt F) (outL d)) x⌝ ∗ ((dst_39_1 L).view.loc (thr d L) ↦[(dst_39_1 L).view.set]{fullShare} g)))

end Cert.Proof.KI

end
-- ==== Proof.KI.Scoped.lean ====
/-
  A vector subcore's scoped storage, opened into the pieces the task's body names: its ten scratch
  buffers, each whole at some contents, and its fifty-eight DMA semaphore cells, each at zero; whatever else the
  subcore's scope holds stays behind one opaque remainder. The opening is an equation, so it closes again.

  The argument: an iterated separating conjunction over a finite set `s` is, for any duplicate-free list `l` of
  members of `s`, the right-nested conjunction of the list's summands and the iterated conjunction over `s` without
  the list (induction on the list, one member split off at a time). The two lists here are literal; that they are
  duplicate-free, scoped and the subcore's own is decided on the literal signature.
-/
import proofs.«207382_g17746804867166_cont_8to1_1179_25_alg».proof.Proof.KI.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

/-! ## Right-nested conjunctions of a list, and a finite set's conjunction split along a list -/

section Chain

variable {M : Type} [URA M]

/-- `P₁ ∗ ⋯ ∗ Pₙ ∗ R`, nested to the right. -/
def chain : List (sProp M) → sProp M → sProp M
  | [], R => R
  | P :: l, R => iprop(P ∗ chain l R)

theorem sep_assoc_eq (P Q R : sProp M) : iprop((P ∗ Q) ∗ R) = iprop(P ∗ Q ∗ R) :=
  Std.Associative.assoc (op := fun a b : sProp M => BI.sep a b) P Q R
theorem sep_comm_eq (P Q : sProp M) : iprop(P ∗ Q) = iprop(Q ∗ P) :=
  Std.Commutative.comm (op := fun a b : sProp M => BI.sep a b) P Q
theorem sep_left_comm_eq (P Q R : sProp M) : iprop(P ∗ Q ∗ R) = iprop(Q ∗ P ∗ R) := by
  rw [← sep_assoc_eq, sep_comm_eq P Q, sep_assoc_eq]

/-- A further conjunct on the right goes to the end of the chain. -/
theorem chain_sep (l : List (sProp M)) (R X : sProp M) : iprop(chain l R ∗ X) = chain l iprop(R ∗ X) := by
  induction l with
  | nil => rfl
  | cons P l ih =>
    show iprop((P ∗ chain l R) ∗ X) = iprop(P ∗ chain l iprop(R ∗ X))
    rw [← ih]; exact sep_assoc_eq _ _ _

/-- A further conjunct on the left goes to the head of the chain's end. -/
theorem sep_chain (l : List (sProp M)) (R X : sProp M) : iprop(X ∗ chain l R) = chain l iprop(X ∗ R) := by
  induction l with
  | nil => rfl
  | cons P l ih =>
    show iprop(X ∗ P ∗ chain l R) = iprop(P ∗ chain l iprop(X ∗ R))
    rw [← ih]; exact sep_left_comm_eq _ _ _

/-- Two chains side by side are one chain, the first's summands, then the second's, then both ends. -/
theorem chain_sep_chain (l l' : List (sProp M)) (R R' : sProp M) :
    iprop(chain l R ∗ chain l' R') = chain l (chain l' iprop(R ∗ R')) :=
  (chain_sep l R _).trans (congrArg (chain l) (sep_chain l' R' R))

/-- The conjunction over a finite set, split along a duplicate-free list of its members. -/
theorem bigSep_chain {I : Type} [DecidableEq I] (Φ : I → sProp M) (l : List I) (hl : l.Nodup) (s : Finset I) (hs : ∀ x ∈ l, x ∈ s) :
    bigSep s Φ = chain (l.map Φ) (bigSep (s \ l.toFinset) Φ) := by
  induction l generalizing s with
  | nil => rw [List.toFinset_nil, Finset.sdiff_empty]; rfl
  | cons x l ih =>
    have hx : x ∉ l := (List.nodup_cons.mp hl).1
    rw [SparseCore.bigSep_erase' (hs x List.mem_cons_self),
      ih (List.nodup_cons.mp hl).2 (s.erase x) fun y hy =>
        Finset.mem_erase.mpr ⟨fun e => hx (e ▸ hy), hs y (List.mem_cons_of_mem _ hy)⟩]
    have e : s.erase x \ l.toFinset = s \ (x :: l).toFinset := by
      ext y; simp only [Finset.mem_sdiff, Finset.mem_erase, List.toFinset_cons, Finset.mem_insert, List.mem_toFinset]; tauto
    rw [e]; rfl

end Chain

variable {F : FTy → Type}

local notation "𝕄" => MT nD τ sig (HIx 1) (Elt F) ℕ UU ℕ

/-! ## The two literal lists -/

/-- The task's ten scratch buffers. -/
def bufRefs : List (Ref sig .scVector) :=
  [cc0_scratch0, cc0_scratch1, cc0_scratch2, cc0_scratch3, cc0_scratch4, cc0_scratch5, cc0_scratch6, cc0_scratch7, cc0_scratch8, cc0_scratch9]

/-- The task's fifty-eight DMA semaphores: the three scratch operands', then the fifty-five regions'. -/
def dmaSems : List (DmaSem sig) :=
  [cc0_scratch10.sem, cc0_scratch11.sem, cc0_scratch12.sem, cc0_scoped0.sem, cc0_scoped1.sem, cc0_scoped2.sem,
   cc0_scoped3.sem, cc0_scoped4.sem, cc0_scoped5.sem, cc0_scoped6.sem, cc0_scoped7.sem, cc0_scoped8.sem,
   cc0_scoped9.sem, cc0_scoped10.sem, cc0_scoped11.sem, cc0_scoped12.sem, cc0_scoped13.sem, cc0_scoped14.sem,
   cc0_scoped15.sem, cc0_scoped16.sem, cc0_scoped17.sem, cc0_scoped18.sem, cc0_scoped19.sem, cc0_scoped20.sem,
   cc0_scoped21.sem, cc0_scoped22.sem, cc0_scoped23.sem, cc0_scoped24.sem, cc0_scoped25.sem, cc0_scoped26.sem,
   cc0_scoped27.sem, cc0_scoped28.sem, cc0_scoped29.sem, cc0_scoped30.sem, cc0_scoped31.sem, cc0_scoped32.sem,
   cc0_scoped33.sem, cc0_scoped34.sem, cc0_scoped35.sem, cc0_scoped36.sem, cc0_scoped37.sem, cc0_scoped38.sem,
   cc0_scoped39.sem, cc0_scoped40.sem, cc0_scoped41.sem, cc0_scoped42.sem, cc0_scoped43.sem, cc0_scoped44.sem,
   cc0_scoped45.sem, cc0_scoped46.sem, cc0_scoped47.sem, cc0_scoped48.sem, cc0_scoped49.sem, cc0_scoped50.sem,
   cc0_scoped51.sem, cc0_scoped52.sem, cc0_scoped53.sem, cc0_scoped54.sem]

theorem bufRefs_nodup : bufRefs.Nodup := by decide
theorem dmaSems_nodup : dmaSems.Nodup := by decide
/-- Every one of them is scoped on a vector subcore. -/
theorem dmaSems_scoped : ∀ s ∈ dmaSems, (SemLoc.dma s : SemLoc sig).isScoped .scVector = true := by decide

/-- The buffers as a vector subcore's, -/
def bufL (c : Fin τ.nSC) (i : Fin τ.nSub) : List (DevRef τ sig) := bufRefs.map (Proc.scVector c i).devRef
/-- the semaphores as its cells. -/
def semL (d : Dev nD) (c : Fin τ.nSC) (i : Fin τ.nSub) : List (GSem nD τ sig) := dmaSems.map fun s => (V d c i, SemLoc.dma s)

theorem bufL_nodup (c : Fin τ.nSC) (i : Fin τ.nSub) : (bufL c i).Nodup :=
  bufRefs_nodup.map (Proc.devRef_injective _)
theorem semL_nodup (d : Dev nD) (c : Fin τ.nSC) (i : Fin τ.nSub) : (semL d c i).Nodup :=
  dmaSems_nodup.map fun _ _ e => SemLoc.dma.inj (Prod.mk.inj e).2

/-- Each buffer is the subcore's own, -/
theorem bufL_own (c : Fin τ.nSC) (i : Fin τ.nSub) : ∀ b ∈ bufL c i, b ∈ ownRefs (sig := sig) (Proc.scVector c i) := by
  intro b hb
  obtain ⟨r, hr, rfl⟩ := List.mem_map.mp hb
  refine SparseCore.Cfg.mem_ownRefs_of_owner ?_
  simp only [bufRefs, List.mem_cons, List.not_mem_nil, or_false] at hr
  rcases hr with rfl | rfl | rfl | rfl | rfl | rfl | rfl | rfl | rfl | rfl <;> rfl
/-- each cell one of its own scoped cells. -/
theorem semL_own (d : Dev nD) (c : Fin τ.nSC) (i : Fin τ.nSub) : ∀ g ∈ semL d c i, g ∈ ownCells (V d c i) := by
  intro g hg
  obtain ⟨s, hs, rfl⟩ := List.mem_map.mp hg
  exact mem_ownCells.mpr ⟨rfl, dmaSems_scoped s hs⟩

/-! ## The subcore's scoped storage, opened and closed -/

/-- What the subcore's scope holds beyond the task's buffers and semaphores: its other buffers, whole at some
    contents, and its other scoped cells, at zero. -/
def restV (d : Dev nD) (c : Fin τ.nSC) (i : Fin τ.nSub) : sProp 𝕄 :=
  iprop(bigSep (ownRefs (sig := sig) (Proc.scVector c i) \ (bufL c i).toFinset) (fun b => iprop(∃ f, ((d, b) : Loc nD τ sig) ↦{fullShare} f))
    ∗ bigSep (ownCells (V d c i) \ (semL d c i).toFinset) fun g => semVal g 0)

/-- The subcore's scoped storage is the ten buffers, the fifty-eight cells, and the rest. -/
theorem scoped_eq (hF : (K (F := F)).Facts) (d : Dev nD) (c : Fin τ.nSC) (i : Fin τ.nSub) :
    (iprop(scopedBufs (V d c i) ∗ scopedSems0 (V d c i)) : sProp 𝕄)
      = iprop((∃ f, (V d c i).loc cc0_scratch0 ↦{fullShare} f) ∗ (∃ f, (V d c i).loc cc0_scratch1 ↦{fullShare} f) ∗ (∃ f, (V d c i).loc cc0_scratch2 ↦{fullShare} f) ∗
      (∃ f, (V d c i).loc cc0_scratch3 ↦{fullShare} f) ∗ (∃ f, (V d c i).loc cc0_scratch4 ↦{fullShare} f) ∗ (∃ f, (V d c i).loc cc0_scratch5 ↦{fullShare} f) ∗
      (∃ f, (V d c i).loc cc0_scratch6 ↦{fullShare} f) ∗ (∃ f, (V d c i).loc cc0_scratch7 ↦{fullShare} f) ∗ (∃ f, (V d c i).loc cc0_scratch8 ↦{fullShare} f) ∗
      (∃ f, (V d c i).loc cc0_scratch9 ↦{fullShare} f) ∗ semVal (V d c i, SemLoc.dma cc0_scratch10.sem) 0 ∗ semVal (V d c i, SemLoc.dma cc0_scratch11.sem) 0 ∗
      semVal (V d c i, SemLoc.dma cc0_scratch12.sem) 0 ∗ semVal (V d c i, SemLoc.dma cc0_scoped0.sem) 0 ∗ semVal (V d c i, SemLoc.dma cc0_scoped1.sem) 0 ∗
      semVal (V d c i, SemLoc.dma cc0_scoped2.sem) 0 ∗ semVal (V d c i, SemLoc.dma cc0_scoped3.sem) 0 ∗ semVal (V d c i, SemLoc.dma cc0_scoped4.sem) 0 ∗
      semVal (V d c i, SemLoc.dma cc0_scoped5.sem) 0 ∗ semVal (V d c i, SemLoc.dma cc0_scoped6.sem) 0 ∗ semVal (V d c i, SemLoc.dma cc0_scoped7.sem) 0 ∗
      semVal (V d c i, SemLoc.dma cc0_scoped8.sem) 0 ∗ semVal (V d c i, SemLoc.dma cc0_scoped9.sem) 0 ∗ semVal (V d c i, SemLoc.dma cc0_scoped10.sem) 0 ∗
      semVal (V d c i, SemLoc.dma cc0_scoped11.sem) 0 ∗ semVal (V d c i, SemLoc.dma cc0_scoped12.sem) 0 ∗ semVal (V d c i, SemLoc.dma cc0_scoped13.sem) 0 ∗
      semVal (V d c i, SemLoc.dma cc0_scoped14.sem) 0 ∗ semVal (V d c i, SemLoc.dma cc0_scoped15.sem) 0 ∗ semVal (V d c i, SemLoc.dma cc0_scoped16.sem) 0 ∗
      semVal (V d c i, SemLoc.dma cc0_scoped17.sem) 0 ∗ semVal (V d c i, SemLoc.dma cc0_scoped18.sem) 0 ∗ semVal (V d c i, SemLoc.dma cc0_scoped19.sem) 0 ∗
      semVal (V d c i, SemLoc.dma cc0_scoped20.sem) 0 ∗ semVal (V d c i, SemLoc.dma cc0_scoped21.sem) 0 ∗ semVal (V d c i, SemLoc.dma cc0_scoped22.sem) 0 ∗
      semVal (V d c i, SemLoc.dma cc0_scoped23.sem) 0 ∗ semVal (V d c i, SemLoc.dma cc0_scoped24.sem) 0 ∗ semVal (V d c i, SemLoc.dma cc0_scoped25.sem) 0 ∗
      semVal (V d c i, SemLoc.dma cc0_scoped26.sem) 0 ∗ semVal (V d c i, SemLoc.dma cc0_scoped27.sem) 0 ∗ semVal (V d c i, SemLoc.dma cc0_scoped28.sem) 0 ∗
      semVal (V d c i, SemLoc.dma cc0_scoped29.sem) 0 ∗ semVal (V d c i, SemLoc.dma cc0_scoped30.sem) 0 ∗ semVal (V d c i, SemLoc.dma cc0_scoped31.sem) 0 ∗
      semVal (V d c i, SemLoc.dma cc0_scoped32.sem) 0 ∗ semVal (V d c i, SemLoc.dma cc0_scoped33.sem) 0 ∗ semVal (V d c i, SemLoc.dma cc0_scoped34.sem) 0 ∗
      semVal (V d c i, SemLoc.dma cc0_scoped35.sem) 0 ∗ semVal (V d c i, SemLoc.dma cc0_scoped36.sem) 0 ∗ semVal (V d c i, SemLoc.dma cc0_scoped37.sem) 0 ∗
      semVal (V d c i, SemLoc.dma cc0_scoped38.sem) 0 ∗ semVal (V d c i, SemLoc.dma cc0_scoped39.sem) 0 ∗ semVal (V d c i, SemLoc.dma cc0_scoped40.sem) 0 ∗
      semVal (V d c i, SemLoc.dma cc0_scoped41.sem) 0 ∗ semVal (V d c i, SemLoc.dma cc0_scoped42.sem) 0 ∗ semVal (V d c i, SemLoc.dma cc0_scoped43.sem) 0 ∗
      semVal (V d c i, SemLoc.dma cc0_scoped44.sem) 0 ∗ semVal (V d c i, SemLoc.dma cc0_scoped45.sem) 0 ∗ semVal (V d c i, SemLoc.dma cc0_scoped46.sem) 0 ∗
      semVal (V d c i, SemLoc.dma cc0_scoped47.sem) 0 ∗ semVal (V d c i, SemLoc.dma cc0_scoped48.sem) 0 ∗ semVal (V d c i, SemLoc.dma cc0_scoped49.sem) 0 ∗
      semVal (V d c i, SemLoc.dma cc0_scoped50.sem) 0 ∗ semVal (V d c i, SemLoc.dma cc0_scoped51.sem) 0 ∗ semVal (V d c i, SemLoc.dma cc0_scoped52.sem) 0 ∗
      semVal (V d c i, SemLoc.dma cc0_scoped53.sem) 0 ∗ semVal (V d c i, SemLoc.dma cc0_scoped54.sem) 0 ∗ restV d c i) := by
  rw [(K (F := F)).scopedBufs_V hF d c i, SparseCore.Cfg.scopedSems0_V (Val := Elt F) d c i]
  unfold SparseCore.Cfg.ownBufs SparseCore.Cfg.ownSems0
  rw [bigSep_chain _ (bufL c i) (bufL_nodup c i) _ (bufL_own c i), bigSep_chain _ (semL d c i) (semL_nodup d c i) _ (semL_own d c i),
    chain_sep_chain]
  rfl

theorem scoped_open (hF : (K (F := F)).Facts) (d : Dev nD) (c : Fin τ.nSC) (i : Fin τ.nSub) :
    (iprop(scopedBufs (V d c i) ∗ scopedSems0 (V d c i)) : sProp 𝕄)
      ⊢ iprop((∃ f, (V d c i).loc cc0_scratch0 ↦{fullShare} f) ∗ (∃ f, (V d c i).loc cc0_scratch1 ↦{fullShare} f) ∗ (∃ f, (V d c i).loc cc0_scratch2 ↦{fullShare} f) ∗
      (∃ f, (V d c i).loc cc0_scratch3 ↦{fullShare} f) ∗ (∃ f, (V d c i).loc cc0_scratch4 ↦{fullShare} f) ∗ (∃ f, (V d c i).loc cc0_scratch5 ↦{fullShare} f) ∗
      (∃ f, (V d c i).loc cc0_scratch6 ↦{fullShare} f) ∗ (∃ f, (V d c i).loc cc0_scratch7 ↦{fullShare} f) ∗ (∃ f, (V d c i).loc cc0_scratch8 ↦{fullShare} f) ∗
      (∃ f, (V d c i).loc cc0_scratch9 ↦{fullShare} f) ∗ semVal (V d c i, SemLoc.dma cc0_scratch10.sem) 0 ∗ semVal (V d c i, SemLoc.dma cc0_scratch11.sem) 0 ∗
      semVal (V d c i, SemLoc.dma cc0_scratch12.sem) 0 ∗ semVal (V d c i, SemLoc.dma cc0_scoped0.sem) 0 ∗ semVal (V d c i, SemLoc.dma cc0_scoped1.sem) 0 ∗
      semVal (V d c i, SemLoc.dma cc0_scoped2.sem) 0 ∗ semVal (V d c i, SemLoc.dma cc0_scoped3.sem) 0 ∗ semVal (V d c i, SemLoc.dma cc0_scoped4.sem) 0 ∗
      semVal (V d c i, SemLoc.dma cc0_scoped5.sem) 0 ∗ semVal (V d c i, SemLoc.dma cc0_scoped6.sem) 0 ∗ semVal (V d c i, SemLoc.dma cc0_scoped7.sem) 0 ∗
      semVal (V d c i, SemLoc.dma cc0_scoped8.sem) 0 ∗ semVal (V d c i, SemLoc.dma cc0_scoped9.sem) 0 ∗ semVal (V d c i, SemLoc.dma cc0_scoped10.sem) 0 ∗
      semVal (V d c i, SemLoc.dma cc0_scoped11.sem) 0 ∗ semVal (V d c i, SemLoc.dma cc0_scoped12.sem) 0 ∗ semVal (V d c i, SemLoc.dma cc0_scoped13.sem) 0 ∗
      semVal (V d c i, SemLoc.dma cc0_scoped14.sem) 0 ∗ semVal (V d c i, SemLoc.dma cc0_scoped15.sem) 0 ∗ semVal (V d c i, SemLoc.dma cc0_scoped16.sem) 0 ∗
      semVal (V d c i, SemLoc.dma cc0_scoped17.sem) 0 ∗ semVal (V d c i, SemLoc.dma cc0_scoped18.sem) 0 ∗ semVal (V d c i, SemLoc.dma cc0_scoped19.sem) 0 ∗
      semVal (V d c i, SemLoc.dma cc0_scoped20.sem) 0 ∗ semVal (V d c i, SemLoc.dma cc0_scoped21.sem) 0 ∗ semVal (V d c i, SemLoc.dma cc0_scoped22.sem) 0 ∗
      semVal (V d c i, SemLoc.dma cc0_scoped23.sem) 0 ∗ semVal (V d c i, SemLoc.dma cc0_scoped24.sem) 0 ∗ semVal (V d c i, SemLoc.dma cc0_scoped25.sem) 0 ∗
      semVal (V d c i, SemLoc.dma cc0_scoped26.sem) 0 ∗ semVal (V d c i, SemLoc.dma cc0_scoped27.sem) 0 ∗ semVal (V d c i, SemLoc.dma cc0_scoped28.sem) 0 ∗
      semVal (V d c i, SemLoc.dma cc0_scoped29.sem) 0 ∗ semVal (V d c i, SemLoc.dma cc0_scoped30.sem) 0 ∗ semVal (V d c i, SemLoc.dma cc0_scoped31.sem) 0 ∗
      semVal (V d c i, SemLoc.dma cc0_scoped32.sem) 0 ∗ semVal (V d c i, SemLoc.dma cc0_scoped33.sem) 0 ∗ semVal (V d c i, SemLoc.dma cc0_scoped34.sem) 0 ∗
      semVal (V d c i, SemLoc.dma cc0_scoped35.sem) 0 ∗ semVal (V d c i, SemLoc.dma cc0_scoped36.sem) 0 ∗ semVal (V d c i, SemLoc.dma cc0_scoped37.sem) 0 ∗
      semVal (V d c i, SemLoc.dma cc0_scoped38.sem) 0 ∗ semVal (V d c i, SemLoc.dma cc0_scoped39.sem) 0 ∗ semVal (V d c i, SemLoc.dma cc0_scoped40.sem) 0 ∗
      semVal (V d c i, SemLoc.dma cc0_scoped41.sem) 0 ∗ semVal (V d c i, SemLoc.dma cc0_scoped42.sem) 0 ∗ semVal (V d c i, SemLoc.dma cc0_scoped43.sem) 0 ∗
      semVal (V d c i, SemLoc.dma cc0_scoped44.sem) 0 ∗ semVal (V d c i, SemLoc.dma cc0_scoped45.sem) 0 ∗ semVal (V d c i, SemLoc.dma cc0_scoped46.sem) 0 ∗
      semVal (V d c i, SemLoc.dma cc0_scoped47.sem) 0 ∗ semVal (V d c i, SemLoc.dma cc0_scoped48.sem) 0 ∗ semVal (V d c i, SemLoc.dma cc0_scoped49.sem) 0 ∗
      semVal (V d c i, SemLoc.dma cc0_scoped50.sem) 0 ∗ semVal (V d c i, SemLoc.dma cc0_scoped51.sem) 0 ∗ semVal (V d c i, SemLoc.dma cc0_scoped52.sem) 0 ∗
      semVal (V d c i, SemLoc.dma cc0_scoped53.sem) 0 ∗ semVal (V d c i, SemLoc.dma cc0_scoped54.sem) 0 ∗ restV d c i) := by
  rw [scoped_eq hF d c i]

theorem scoped_close (hF : (K (F := F)).Facts) (d : Dev nD) (c : Fin τ.nSC) (i : Fin τ.nSub) :
    (iprop((∃ f, (V d c i).loc cc0_scratch0 ↦{fullShare} f) ∗ (∃ f, (V d c i).loc cc0_scratch1 ↦{fullShare} f) ∗ (∃ f, (V d c i).loc cc0_scratch2 ↦{fullShare} f) ∗
      (∃ f, (V d c i).loc cc0_scratch3 ↦{fullShare} f) ∗ (∃ f, (V d c i).loc cc0_scratch4 ↦{fullShare} f) ∗ (∃ f, (V d c i).loc cc0_scratch5 ↦{fullShare} f) ∗
      (∃ f, (V d c i).loc cc0_scratch6 ↦{fullShare} f) ∗ (∃ f, (V d c i).loc cc0_scratch7 ↦{fullShare} f) ∗ (∃ f, (V d c i).loc cc0_scratch8 ↦{fullShare} f) ∗
      (∃ f, (V d c i).loc cc0_scratch9 ↦{fullShare} f) ∗ semVal (V d c i, SemLoc.dma cc0_scratch10.sem) 0 ∗ semVal (V d c i, SemLoc.dma cc0_scratch11.sem) 0 ∗
      semVal (V d c i, SemLoc.dma cc0_scratch12.sem) 0 ∗ semVal (V d c i, SemLoc.dma cc0_scoped0.sem) 0 ∗ semVal (V d c i, SemLoc.dma cc0_scoped1.sem) 0 ∗
      semVal (V d c i, SemLoc.dma cc0_scoped2.sem) 0 ∗ semVal (V d c i, SemLoc.dma cc0_scoped3.sem) 0 ∗ semVal (V d c i, SemLoc.dma cc0_scoped4.sem) 0 ∗
      semVal (V d c i, SemLoc.dma cc0_scoped5.sem) 0 ∗ semVal (V d c i, SemLoc.dma cc0_scoped6.sem) 0 ∗ semVal (V d c i, SemLoc.dma cc0_scoped7.sem) 0 ∗
      semVal (V d c i, SemLoc.dma cc0_scoped8.sem) 0 ∗ semVal (V d c i, SemLoc.dma cc0_scoped9.sem) 0 ∗ semVal (V d c i, SemLoc.dma cc0_scoped10.sem) 0 ∗
      semVal (V d c i, SemLoc.dma cc0_scoped11.sem) 0 ∗ semVal (V d c i, SemLoc.dma cc0_scoped12.sem) 0 ∗ semVal (V d c i, SemLoc.dma cc0_scoped13.sem) 0 ∗
      semVal (V d c i, SemLoc.dma cc0_scoped14.sem) 0 ∗ semVal (V d c i, SemLoc.dma cc0_scoped15.sem) 0 ∗ semVal (V d c i, SemLoc.dma cc0_scoped16.sem) 0 ∗
      semVal (V d c i, SemLoc.dma cc0_scoped17.sem) 0 ∗ semVal (V d c i, SemLoc.dma cc0_scoped18.sem) 0 ∗ semVal (V d c i, SemLoc.dma cc0_scoped19.sem) 0 ∗
      semVal (V d c i, SemLoc.dma cc0_scoped20.sem) 0 ∗ semVal (V d c i, SemLoc.dma cc0_scoped21.sem) 0 ∗ semVal (V d c i, SemLoc.dma cc0_scoped22.sem) 0 ∗
      semVal (V d c i, SemLoc.dma cc0_scoped23.sem) 0 ∗ semVal (V d c i, SemLoc.dma cc0_scoped24.sem) 0 ∗ semVal (V d c i, SemLoc.dma cc0_scoped25.sem) 0 ∗
      semVal (V d c i, SemLoc.dma cc0_scoped26.sem) 0 ∗ semVal (V d c i, SemLoc.dma cc0_scoped27.sem) 0 ∗ semVal (V d c i, SemLoc.dma cc0_scoped28.sem) 0 ∗
      semVal (V d c i, SemLoc.dma cc0_scoped29.sem) 0 ∗ semVal (V d c i, SemLoc.dma cc0_scoped30.sem) 0 ∗ semVal (V d c i, SemLoc.dma cc0_scoped31.sem) 0 ∗
      semVal (V d c i, SemLoc.dma cc0_scoped32.sem) 0 ∗ semVal (V d c i, SemLoc.dma cc0_scoped33.sem) 0 ∗ semVal (V d c i, SemLoc.dma cc0_scoped34.sem) 0 ∗
      semVal (V d c i, SemLoc.dma cc0_scoped35.sem) 0 ∗ semVal (V d c i, SemLoc.dma cc0_scoped36.sem) 0 ∗ semVal (V d c i, SemLoc.dma cc0_scoped37.sem) 0 ∗
      semVal (V d c i, SemLoc.dma cc0_scoped38.sem) 0 ∗ semVal (V d c i, SemLoc.dma cc0_scoped39.sem) 0 ∗ semVal (V d c i, SemLoc.dma cc0_scoped40.sem) 0 ∗
      semVal (V d c i, SemLoc.dma cc0_scoped41.sem) 0 ∗ semVal (V d c i, SemLoc.dma cc0_scoped42.sem) 0 ∗ semVal (V d c i, SemLoc.dma cc0_scoped43.sem) 0 ∗
      semVal (V d c i, SemLoc.dma cc0_scoped44.sem) 0 ∗ semVal (V d c i, SemLoc.dma cc0_scoped45.sem) 0 ∗ semVal (V d c i, SemLoc.dma cc0_scoped46.sem) 0 ∗
      semVal (V d c i, SemLoc.dma cc0_scoped47.sem) 0 ∗ semVal (V d c i, SemLoc.dma cc0_scoped48.sem) 0 ∗ semVal (V d c i, SemLoc.dma cc0_scoped49.sem) 0 ∗
      semVal (V d c i, SemLoc.dma cc0_scoped50.sem) 0 ∗ semVal (V d c i, SemLoc.dma cc0_scoped51.sem) 0 ∗ semVal (V d c i, SemLoc.dma cc0_scoped52.sem) 0 ∗
      semVal (V d c i, SemLoc.dma cc0_scoped53.sem) 0 ∗ semVal (V d c i, SemLoc.dma cc0_scoped54.sem) 0 ∗ restV d c i) : sProp 𝕄)
      ⊢ iprop(scopedBufs (V d c i) ∗ scopedSems0 (V d c i)) := by
  rw [scoped_eq hF d c i]

end Cert.Proof.KI

end
-- ==== Proof.KI.Enter.lean ====
/-
  The task's entry and exit. At entry the task holds its operands, its rows of the result array and its subcore's
  scoped storage; the body reads every buffer through the whole-buffer view of the reference that names it, so the entry
  restates each points-to over that view's location (the same location: the equations are definitional), opens the scoped
  storage into the ten scratch buffers, the fifty-eight semaphore cells at zero and the rest, and trades the level
  assignment for the evidence that the task may wait, at the kernels' own index, under whatever it owes. The exit is the
  converse for the postcondition, the scratch buffers at any contents.
-/
import proofs.«207382_g17746804867166_cont_8to1_1179_25_alg».proof.Proof.KI.Scoped

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## A buffer through the whole-buffer view of its reference is the buffer -/

omit [FloatOps F] in
theorem pts_cat (d : Dev nD) (L : grid0.Coords) (S : Finset (Idx (catL d))) (q : PosShare TreeShare) (f : Buf (Elt F) (catL d)) :
    ((Memref.whole main_v1_scv : Memref sig .scVector .hbm S106496 .i32).view.loc (V d (cV L) (jV L)) ↦[S]{q} f : sProp 𝕄) = catL d ↦[S]{q} f := rfl
omit [FloatOps F] in
theorem pts_num (d : Dev nD) (L : grid0.Coords) (S : Finset (Idx (numL d))) (q : PosShare TreeShare) (f : Buf (Elt F) (numL d)) :
    ((Memref.whole main_v3_scv : Memref sig .scVector .hbm S53248 .f32).view.loc (V d (cV L) (jV L)) ↦[S]{q} f : sProp 𝕄) = numL d ↦[S]{q} f := rfl
omit [FloatOps F] in
theorem pts_emb (d : Dev nD) (L : grid0.Coords) (S : Finset (Idx (embL d))) (q : PosShare TreeShare) (f : Buf (Elt F) (embL d)) :
    ((Memref.whole main_v4_scv : Memref sig .scVector .hbm S26x64x100000 .f32).view.loc (V d (cV L) (jV L)) ↦[S]{q} f : sProp 𝕄) = embL d ↦[S]{q} f := rfl
omit [FloatOps F] in
theorem pts_w (d : Dev nD) (L : grid0.Coords) (S : Finset (Idx (wL d))) (q : PosShare TreeShare) (f : Buf (Elt F) (wL d)) :
    ((Memref.whole main_v5_scv : Memref sig .scVector .hbm S832 .f32).view.loc (V d (cV L) (jV L)) ↦[S]{q} f : sProp 𝕄) = wL d ↦[S]{q} f := rfl
omit [FloatOps F] in
theorem pts_b (d : Dev nD) (L : grid0.Coords) (S : Finset (Idx (bL d))) (q : PosShare TreeShare) (f : Buf (Elt F) (bL d)) :
    ((Memref.whole main_v6_scv : Memref sig .scVector .hbm S832 .f32).view.loc (V d (cV L) (jV L)) ↦[S]{q} f : sProp 𝕄) = bL d ↦[S]{q} f := rfl
omit [FloatOps F] in
theorem pts_cls (d : Dev nD) (L : grid0.Coords) (S : Finset (Idx (clsL d))) (q : PosShare TreeShare) (f : Buf (Elt F) (clsL d)) :
    ((Memref.whole main_v7_scv : Memref sig .scVector .hbm S64 .f32).view.loc (V d (cV L) (jV L)) ↦[S]{q} f : sProp 𝕄) = clsL d ↦[S]{q} f := rfl
omit [FloatOps F] in
theorem pts_out (d : Dev nD) (L : grid0.Coords) (S : Finset (Idx (outL d))) (q : PosShare TreeShare) (f : Buf (Elt F) (outL d)) :
    ((Memref.whole main_v8_scv : Memref sig .scVector .hbm S40x64x4096 .f32).view.loc (V d (cV L) (jV L)) ↦[S]{q} f : sProp 𝕄) = outL d ↦[S]{q} f := rfl
omit [FloatOps F] in
theorem pts_s0 (d : Dev nD) (c : Fin τ.nSC) (i : Fin τ.nSub) (f : Buf (Elt F) ((V d c i).loc cc0_scratch0)) :
    ((Memref.whole cc0_scratch0 : Memref sig .scVector .vmem S1x100000 .f32).view.loc (V d c i) ↦{fullShare} f : sProp 𝕄) = (V d c i).loc cc0_scratch0 ↦{fullShare} f := rfl
omit [FloatOps F] in
theorem pts_s1 (d : Dev nD) (c : Fin τ.nSC) (i : Fin τ.nSub) (f : Buf (Elt F) ((V d c i).loc cc0_scratch1)) :
    ((Memref.whole cc0_scratch1 : Memref sig .scVector .vmem S4096 .i32).view.loc (V d c i) ↦{fullShare} f : sProp 𝕄) = (V d c i).loc cc0_scratch1 ↦{fullShare} f := rfl
omit [FloatOps F] in
theorem pts_s2 (d : Dev nD) (c : Fin τ.nSC) (i : Fin τ.nSub) (f : Buf (Elt F) ((V d c i).loc cc0_scratch2)) :
    ((Memref.whole cc0_scratch2 : Memref sig .scVector .vmem S4096 .i32).view.loc (V d c i) ↦{fullShare} f : sProp 𝕄) = (V d c i).loc cc0_scratch2 ↦{fullShare} f := rfl
omit [FloatOps F] in
theorem pts_s3 (d : Dev nD) (c : Fin τ.nSC) (i : Fin τ.nSub) (f : Buf (Elt F) ((V d c i).loc cc0_scratch3)) :
    ((Memref.whole cc0_scratch3 : Memref sig .scVector .vmem S4096 .f32).view.loc (V d c i) ↦{fullShare} f : sProp 𝕄) = (V d c i).loc cc0_scratch3 ↦{fullShare} f := rfl
omit [FloatOps F] in
theorem pts_s4 (d : Dev nD) (c : Fin τ.nSC) (i : Fin τ.nSub) (f : Buf (Elt F) ((V d c i).loc cc0_scratch4)) :
    ((Memref.whole cc0_scratch4 : Memref sig .scVector .vmem S4096 .f32).view.loc (V d c i) ↦{fullShare} f : sProp 𝕄) = (V d c i).loc cc0_scratch4 ↦{fullShare} f := rfl
omit [FloatOps F] in
theorem pts_s5 (d : Dev nD) (c : Fin τ.nSC) (i : Fin τ.nSub) (f : Buf (Elt F) ((V d c i).loc cc0_scratch5)) :
    ((Memref.whole cc0_scratch5 : Memref sig .scVector .vmem S1x4096 .f32).view.loc (V d c i) ↦{fullShare} f : sProp 𝕄) = (V d c i).loc cc0_scratch5 ↦{fullShare} f := rfl
omit [FloatOps F] in
theorem pts_s6 (d : Dev nD) (c : Fin τ.nSC) (i : Fin τ.nSub) (f : Buf (Elt F) ((V d c i).loc cc0_scratch6)) :
    ((Memref.whole cc0_scratch6 : Memref sig .scVector .vmem S1x4096 .f32).view.loc (V d c i) ↦{fullShare} f : sProp 𝕄) = (V d c i).loc cc0_scratch6 ↦{fullShare} f := rfl
omit [FloatOps F] in
theorem pts_s7 (d : Dev nD) (c : Fin τ.nSC) (i : Fin τ.nSub) (f : Buf (Elt F) ((V d c i).loc cc0_scratch7)) :
    ((Memref.whole cc0_scratch7 : Memref sig .scVector .vmem S832 .f32).view.loc (V d c i) ↦{fullShare} f : sProp 𝕄) = (V d c i).loc cc0_scratch7 ↦{fullShare} f := rfl
omit [FloatOps F] in
theorem pts_s8 (d : Dev nD) (c : Fin τ.nSC) (i : Fin τ.nSub) (f : Buf (Elt F) ((V d c i).loc cc0_scratch8)) :
    ((Memref.whole cc0_scratch8 : Memref sig .scVector .vmem S832 .f32).view.loc (V d c i) ↦{fullShare} f : sProp 𝕄) = (V d c i).loc cc0_scratch8 ↦{fullShare} f := rfl
omit [FloatOps F] in
theorem pts_s9 (d : Dev nD) (c : Fin τ.nSC) (i : Fin τ.nSub) (f : Buf (Elt F) ((V d c i).loc cc0_scratch9)) :
    ((Memref.whole cc0_scratch9 : Memref sig .scVector .vmem S64 .f32).view.loc (V d c i) ↦{fullShare} f : sProp 𝕄) = (V d c i).loc cc0_scratch9 ↦{fullShare} f := rfl

omit [FloatOps F] in
theorem ex_s0 (d : Dev nD) (c : Fin τ.nSC) (i : Fin τ.nSub) :
    (iprop(∃ f, (Memref.whole cc0_scratch0 : Memref sig .scVector .vmem S1x100000 .f32).view.loc (V d c i) ↦{fullShare} f) : sProp 𝕄) = iprop(∃ f, (V d c i).loc cc0_scratch0 ↦{fullShare} f) := rfl
omit [FloatOps F] in
theorem ex_s1 (d : Dev nD) (c : Fin τ.nSC) (i : Fin τ.nSub) :
    (iprop(∃ f, (Memref.whole cc0_scratch1 : Memref sig .scVector .vmem S4096 .i32).view.loc (V d c i) ↦{fullShare} f) : sProp 𝕄) = iprop(∃ f, (V d c i).loc cc0_scratch1 ↦{fullShare} f) := rfl
omit [FloatOps F] in
theorem ex_s2 (d : Dev nD) (c : Fin τ.nSC) (i : Fin τ.nSub) :
    (iprop(∃ f, (Memref.whole cc0_scratch2 : Memref sig .scVector .vmem S4096 .i32).view.loc (V d c i) ↦{fullShare} f) : sProp 𝕄) = iprop(∃ f, (V d c i).loc cc0_scratch2 ↦{fullShare} f) := rfl
omit [FloatOps F] in
theorem ex_s3 (d : Dev nD) (c : Fin τ.nSC) (i : Fin τ.nSub) :
    (iprop(∃ f, (Memref.whole cc0_scratch3 : Memref sig .scVector .vmem S4096 .f32).view.loc (V d c i) ↦{fullShare} f) : sProp 𝕄) = iprop(∃ f, (V d c i).loc cc0_scratch3 ↦{fullShare} f) := rfl
omit [FloatOps F] in
theorem ex_s4 (d : Dev nD) (c : Fin τ.nSC) (i : Fin τ.nSub) :
    (iprop(∃ f, (Memref.whole cc0_scratch4 : Memref sig .scVector .vmem S4096 .f32).view.loc (V d c i) ↦{fullShare} f) : sProp 𝕄) = iprop(∃ f, (V d c i).loc cc0_scratch4 ↦{fullShare} f) := rfl
omit [FloatOps F] in
theorem ex_s5 (d : Dev nD) (c : Fin τ.nSC) (i : Fin τ.nSub) :
    (iprop(∃ f, (Memref.whole cc0_scratch5 : Memref sig .scVector .vmem S1x4096 .f32).view.loc (V d c i) ↦{fullShare} f) : sProp 𝕄) = iprop(∃ f, (V d c i).loc cc0_scratch5 ↦{fullShare} f) := rfl
omit [FloatOps F] in
theorem ex_s6 (d : Dev nD) (c : Fin τ.nSC) (i : Fin τ.nSub) :
    (iprop(∃ f, (Memref.whole cc0_scratch6 : Memref sig .scVector .vmem S1x4096 .f32).view.loc (V d c i) ↦{fullShare} f) : sProp 𝕄) = iprop(∃ f, (V d c i).loc cc0_scratch6 ↦{fullShare} f) := rfl
omit [FloatOps F] in
theorem ex_s7 (d : Dev nD) (c : Fin τ.nSC) (i : Fin τ.nSub) :
    (iprop(∃ f, (Memref.whole cc0_scratch7 : Memref sig .scVector .vmem S832 .f32).view.loc (V d c i) ↦{fullShare} f) : sProp 𝕄) = iprop(∃ f, (V d c i).loc cc0_scratch7 ↦{fullShare} f) := rfl
omit [FloatOps F] in
theorem ex_s8 (d : Dev nD) (c : Fin τ.nSC) (i : Fin τ.nSub) :
    (iprop(∃ f, (Memref.whole cc0_scratch8 : Memref sig .scVector .vmem S832 .f32).view.loc (V d c i) ↦{fullShare} f) : sProp 𝕄) = iprop(∃ f, (V d c i).loc cc0_scratch8 ↦{fullShare} f) := rfl
omit [FloatOps F] in
theorem ex_s9 (d : Dev nD) (c : Fin τ.nSC) (i : Fin τ.nSub) :
    (iprop(∃ f, (Memref.whole cc0_scratch9 : Memref sig .scVector .vmem S64 .f32).view.loc (V d c i) ↦{fullShare} f) : sProp 𝕄) = iprop(∃ f, (V d c i).loc cc0_scratch9 ↦{fullShare} f) := rfl

/-! ## The scoped storage as one chain -/

omit [FloatOps F] in
/-- The subcore's scoped storage: the chain of its ten scratch buffers, then of its fifty-eight cells, then the rest. -/
theorem scoped_chain (hF : (K (F := F)).Facts) (d : Dev nD) (c : Fin τ.nSC) (i : Fin τ.nSub) :
    (iprop(scopedBufs (V d c i) ∗ scopedSems0 (V d c i)) : sProp 𝕄)
      = chain ((bufL c i).map fun b => iprop(∃ f, ((d, b) : Loc nD τ sig) ↦{fullShare} f))
          (chain ((semL d c i).map fun g => semVal g 0) (restV d c i)) :=
  (scoped_eq hF d c i).trans rfl

omit [FloatOps F] in
theorem sep_congr {P P' Q Q' : sProp 𝕄} (h₁ : P = P') (h₂ : Q = Q') : iprop(P ∗ Q) = iprop(P' ∗ Q') := by subst h₁ h₂; rfl

/-! ## Entry -/

/-- The entry's resources with the scoped storage as a chain, the task's debt at its end. -/
theorem enter_chain (hF : (K (F := F)).Facts) (A : Arrs F) (fo : FVec F S40x64x4096 .f32) (d : Dev nD) (L : grid0.Coords)
    (O : CellTallies nD τ sig (HIx 1)) (W : Waits sig (HIx 1)) :
    (iprop(tileIn A fo d (widL L) ∗ scopedBufs (V d (cV L) (jV L)) ∗ scopedSems0 (V d (cV L) (jV L)) ∗ owes (V d (cV L) (jV L)) O W) : sProp 𝕄)
      = iprop((catL d ↦{rsh (widL L)} (A.cat : Buf (Elt F) (catL d))) ∗ (numL d ↦{rsh (widL L)} (A.num : Buf (Elt F) (numL d)))
          ∗ (embL d ↦{rsh (widL L)} (A.emb : Buf (Elt F) (embL d))) ∗ (wL d ↦{rsh (widL L)} (A.w : Buf (Elt F) (wL d)))
          ∗ (bL d ↦{rsh (widL L)} (A.b : Buf (Elt F) (bL d))) ∗ (clsL d ↦{rsh (widL L)} (A.cls : Buf (Elt F) (clsL d)))
          ∗ (outL d ↦[oSet (widL L)]{fullShare} (fo : Buf (Elt F) (outL d)))
          ∗ chain ((bufL (cV L) (jV L)).map fun b => iprop(∃ f, ((d, b) : Loc nD τ sig) ↦{fullShare} f))
            (chain ((semL d (cV L) (jV L)).map fun g => semVal g 0) iprop(restV d (cV L) (jV L) ∗ owes (V d (cV L) (jV L)) O W))) := by
  unfold tileIn
  rw [← sep_assoc_eq (scopedBufs (V d (cV L) (jV L))), scoped_chain hF, chain_sep, chain_sep]
  rw [sep_assoc_eq, sep_assoc_eq, sep_assoc_eq, sep_assoc_eq, sep_assoc_eq, sep_assoc_eq]

/-- What the task holds at entry beside the level assignment, with every buffer through its view and the scoped storage opened. -/
theorem enter_eq (hF : (K (F := F)).Facts) (A : Arrs F) (fo : FVec F S40x64x4096 .f32) (d : Dev nD) (L : grid0.Coords)
    (O : CellTallies nD τ sig (HIx 1)) (W : Waits sig (HIx 1)) :
    (iprop(tileIn A fo d (widL L) ∗ scopedBufs (V d (cV L) (jV L)) ∗ scopedSems0 (V d (cV L) (jV L)) ∗ owes (V d (cV L) (jV L)) O W) : sProp 𝕄)
      = iprop(((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (fo : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L) ∗ owes (V d (cV L) (jV L)) O W) := by
  refine (enter_chain hF A fo d L O W).trans (Eq.trans ?_ (sep_congr (pts_cat d L _ _ _) (sep_congr (pts_num d L _ _ _) (sep_congr (pts_emb d L _ _ _) (sep_congr (pts_w d L _ _ _)
      (sep_congr (pts_b d L _ _ _) (sep_congr (pts_cls d L _ _ _) (sep_congr (pts_out d L _ _ _)
      (sep_congr (ex_s0 d _ _) (sep_congr (ex_s1 d _ _) (sep_congr (ex_s2 d _ _) (sep_congr (ex_s3 d _ _) (sep_congr (ex_s4 d _ _) (sep_congr (ex_s5 d _ _) (sep_congr (ex_s6 d _ _) (sep_congr (ex_s7 d _ _) (sep_congr (ex_s8 d _ _) (sep_congr (ex_s9 d _ _)
      rfl))))))))))))))))).symm)
  rfl

theorem body_enter (hF : (K (F := F)).Facts) (A : Arrs F) (fo : FVec F S40x64x4096 .f32) (d : Dev nD) (L : grid0.Coords)
    (O : CellTallies nD τ sig (HIx 1)) (W : Waits sig (HIx 1)) (hO : ∀ g, O g none = 0) :
    (iprop(levAts (K (F := F)).L (K (F := F)).lev ∗ emp ∗ tileIn A fo d (widL L)
        ∗ scopedBufs (V d (cV L) (jV L)) ∗ scopedSems0 (V d (cV L) (jV L)) ∗ owes (V d (cV L) (jV L)) O W) : sProp 𝕄)
      ⊢ iprop(Transfers.MayWaits (V d (cV L) (jV L)) (none : HIx 1) O
        ∗ ((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (fo : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L) ∗ owes (V d (cV L) (jV L)) O W) := by
  rw [← enter_eq hF A fo d L O W]
  exact _root_.Idealize.SL.BI.sep_mono ((K (F := F)).mayWaits_none (thr := V d (cV L) (jV L)) hO) _root_.Idealize.SL.BI.emp_sep_elim

/-! ## Exit -/

/-- The postcondition's resources with the scoped storage as a chain. -/
theorem exit_chain (hF : (K (F := F)).Facts) (A : Arrs F) (d : Dev nD) (L : grid0.Coords) :
    (iprop(tileOut A d (widL L) ∗ scopedBufs (V d (cV L) (jV L)) ∗ scopedSems0 (V d (cV L) (jV L))) : sProp 𝕄)
      = iprop((catL d ↦{rsh (widL L)} (A.cat : Buf (Elt F) (catL d))) ∗ (numL d ↦{rsh (widL L)} (A.num : Buf (Elt F) (numL d)))
          ∗ (embL d ↦{rsh (widL L)} (A.emb : Buf (Elt F) (embL d))) ∗ (wL d ↦{rsh (widL L)} (A.w : Buf (Elt F) (wL d)))
          ∗ (bL d ↦{rsh (widL L)} (A.b : Buf (Elt F) (bL d))) ∗ (clsL d ↦{rsh (widL L)} (A.cls : Buf (Elt F) (clsL d)))
          ∗ (outL d ↦[oSet (widL L)]{fullShare} (GT A : Buf (Elt F) (outL d)))
          ∗ chain ((bufL (cV L) (jV L)).map fun b => iprop(∃ f, ((d, b) : Loc nD τ sig) ↦{fullShare} f))
            (chain ((semL d (cV L) (jV L)).map fun g => semVal g 0) (restV d (cV L) (jV L)))) := by
  unfold tileOut
  rw [scoped_chain hF]
  rw [sep_assoc_eq, sep_assoc_eq, sep_assoc_eq, sep_assoc_eq, sep_assoc_eq, sep_assoc_eq]

/-- The postcondition's resources, with every buffer through its view and the scoped storage opened. -/
theorem exit_eq (hF : (K (F := F)).Facts) (A : Arrs F) (d : Dev nD) (L : grid0.Coords) :
    (iprop(tileOut A d (widL L) ∗ scopedBufs (V d (cV L) (jV L)) ∗ scopedSems0 (V d (cV L) (jV L))) : sProp 𝕄)
      = iprop(((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (GT A : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L)) := by
  refine (exit_chain hF A d L).trans (Eq.trans ?_ (sep_congr (pts_cat d L _ _ _) (sep_congr (pts_num d L _ _ _) (sep_congr (pts_emb d L _ _ _) (sep_congr (pts_w d L _ _ _)
      (sep_congr (pts_b d L _ _ _) (sep_congr (pts_cls d L _ _ _) (sep_congr (pts_out d L _ _ _)
      (sep_congr (ex_s0 d _ _) (sep_congr (ex_s1 d _ _) (sep_congr (ex_s2 d _ _) (sep_congr (ex_s3 d _ _) (sep_congr (ex_s4 d _ _) (sep_congr (ex_s5 d _ _) (sep_congr (ex_s6 d _ _) (sep_congr (ex_s7 d _ _) (sep_congr (ex_s8 d _ _) (sep_congr (ex_s9 d _ _)
      rfl))))))))))))))))).symm)
  rfl

theorem body_exit (hF : (K (F := F)).Facts) (A : Arrs F) (d : Dev nD) (L : grid0.Coords) :
    (iprop(((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (GT A : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L)) : sProp 𝕄)
      ⊢ iprop(tileOut A d (widL L) ∗ scopedBufs (V d (cV L) (jV L)) ∗ scopedSems0 (V d (cV L) (jV L))) := by
  rw [exit_eq hF A d L]

end Cert.Proof.KI

end
-- ==== Proof.KI.RowsWrite.lean ====
/-
  What a copy into a destination row leaves in the result array. The view at offsets `(t, r, 0)`, sizes `(1, 1, 4096)`,
  its leading unit axis dropped, places its index `(0, n)` at the array's `(t, r, n)`. So writing a `[1, 4096]` payload
  through it, on every index, puts the payload's entry `(0, n)` at `(t, r, n)` and changes nothing off row `(t, r)`.
-/
import proofs.«207382_g17746804867166_cont_8to1_1179_25_alg».proof.Proof.KI.Rows

noncomputable section

namespace Cert.Proof.KI

open Cert.KernelIdeal Cert.KernelIdeal.Gen

open Idealize.ShloMosaic Idealize.ShloMosaic.ValueIdx

variable {F : FTy → Type}

/-- Where the destination places its index `(0, n)`: at `(t, r, n)`. -/
theorem dstRow_emb (OFF : Fin 3 → Nat) (INB : ∀ a, OFF a + S1x1x4096.size a ≤ S40x64x4096.size a)
    (t : Fin 40) (r : Fin 64) (hoff : OFF = ![t.val, r.val, 0]) (n : Fin 4096) :
    (dstRow OFF INB).view.emb (ix2 (0 : Fin 1) n) = ix3 t r n := by
  subst hoff
  show (Rect.unit (s := S40x64x4096) ![t.val, r.val, 0] S1x1x4096.size INB).emb
    (Shape.reshapeEquiv squeezes_S1x1x4096_S1x4096.numel_eq (ix2 (0 : Fin 1) n)) = ix3 t r n
  have e : Shape.reshapeEquiv squeezes_S1x1x4096_S1x4096.numel_eq (ix2 (0 : Fin 1) n)
      = (ix3 (0 : Fin 1) (0 : Fin 1) n : S1x1x4096.Idx) :=
    Shape.reshapeEquiv_eq_of_rowMajor _ (by rw [Shape.rowMajor_val_three, Shape.rowMajor_val_two]; rfl)
  rw [e]
  funext a
  refine Fin.ext ?_
  match a with
  | ⟨0, _⟩ => show t.val + 1 * 0 = t.val; omega
  | ⟨1, _⟩ => show r.val + 1 * 0 = r.val; omega
  | ⟨2, _⟩ => show 0 + 1 * n.val = n.val; omega

/-- ON THE ROW a copy leaves the payload: entry `(0, n)` at `(t, r, n)`. -/
theorem dstRow_write_of_mem (OFF : Fin 3 → Nat) (INB : ∀ a, OFF a + S1x1x4096.size a ≤ S40x64x4096.size a)
    (t : Fin 40) (r : Fin 64) (hoff : OFF = ![t.val, r.val, 0])
    (f : (dstRow OFF INB).view.ty.Contents (Elt F)) (p : Vec F S1x4096 .f32) (x : S40x64x4096.Idx) (hx : x ∈ rowT t r) :
    (dstRow OFF INB).view.write (Elt F) f p Finset.univ x = p (ix2 (0 : Fin 1) (⟨(x 2).val, (x 2).isLt⟩ : Fin 4096)) := by
  rw [mem_rowT] at hx
  have ex : (dstRow OFF INB).view.emb (ix2 (0 : Fin 1) (⟨(x 2).val, (x 2).isLt⟩ : Fin 4096)) = x := by
    rw [dstRow_emb OFF INB t r hoff]
    funext a
    refine Fin.ext ?_
    match a with
    | ⟨0, _⟩ => exact hx.1.symm
    | ⟨1, _⟩ => exact hx.2.symm
    | ⟨2, _⟩ => rfl
  have h := View.write_emb_of_mem (v := (dstRow OFF INB).view) (Val := Elt F) f p
    (Finset.mem_univ (ix2 (0 : Fin 1) (⟨(x 2).val, (x 2).isLt⟩ : Fin 4096)))
  rw [ex] at h
  exact h

/-- OFF THE ROW a copy changes nothing. -/
theorem dstRow_write_of_not_mem (OFF : Fin 3 → Nat) (INB : ∀ a, OFF a + S1x1x4096.size a ≤ S40x64x4096.size a)
    (t : Fin 40) (r : Fin 64) (hoff : OFF = ![t.val, r.val, 0])
    (f : (dstRow OFF INB).view.ty.Contents (Elt F)) (p : Vec F S1x4096 .f32) (x : S40x64x4096.Idx) (hx : x ∉ rowT t r) :
    (dstRow OFF INB).view.write (Elt F) f p Finset.univ x = f x :=
  View.write_of_not_mem f p Finset.univ (by rw [View.setOn_univ, dstRow_set OFF INB t r hoff]; exact hx)

end Cert.Proof.KI

end
-- ==== Proof.KI.Spec.lean ====
/-
  The staging rows' values. A task fills a staging row `[1, 4096]` for each token and each feature row `r` of its pair,
  then copies it into row `(token, r)` of the transposed result. What each staging row must hold, as a function of
  the operand arrays `A`:
    • the class token's row: the class vector's entry `r` at every position;
    • category field `i`'s row: at position `n` the entry `(i, r, cat[i·4096 + n])` of the tables;
    • numeric field `j`'s row: at position `n` the value `num[j·4096 + n] · w[64 j + r] + b[64 j + r]`.
  These are the result's specification `GT A` read along a row. Beside them, what the scratch buffers hold after
  their fetches: a field's 4096 category words, a field's 4096 numeric values, one table's row `r` over the vocabulary.
-/
import proofs.«207382_g17746804867166_cont_8to1_1179_25_alg».proof.Proof.KI.RowsWrite

noncomputable section

namespace Cert.Proof.KI

open Cert.KernelIdeal Cert.KernelIdeal.Gen

open Idealize.ShloMosaic Idealize.ShloMosaic.ValueIdx

variable {F : FTy → Type}

/-! ## Flat positions -/

/-- Position `n` of field `i` in the flat category array. -/
def catIdx (i : Fin 26) (n : Fin 4096) : Fin 106496 := ⟨i.val * 4096 + n.val, by have := i.isLt; have := n.isLt; omega⟩
/-- Position `n` of field `j` in the flat numeric array. -/
def numIdx (j : Fin 13) (n : Fin 4096) : Fin 53248 := ⟨j.val * 4096 + n.val, by have := j.isLt; have := n.isLt; omega⟩
/-- Entry `(j, r)` of the flat weights (and biases). -/
def wIdx (j : Fin 13) (r : Fin 64) : Fin 832 := ⟨j.val * 64 + r.val, by have := j.isLt; have := r.isLt; omega⟩

theorem catIdx_val (i : Fin 26) (n : Fin 4096) : (catIdx i n).val = i.val * 4096 + n.val := rfl
theorem numIdx_val (j : Fin 13) (n : Fin 4096) : (numIdx j n).val = j.val * 4096 + n.val := rfl
theorem wIdx_val (j : Fin 13) (r : Fin 64) : (wIdx j r).val = j.val * 64 + r.val := rfl

/-! ## What the scratch buffers hold -/

/-- Field `i`'s 4096 category words. -/
def catSlice (A : Arrs F) (i : Fin 26) : IVec S4096 32 := fun y => A.cat (ix1 (catIdx i ⟨(y 0).val, (y 0).isLt⟩))
/-- Field `j`'s 4096 numeric values. -/
def numSlice (A : Arrs F) (j : Fin 13) : FVec F S4096 .f32 := fun y => A.num (ix1 (numIdx j ⟨(y 0).val, (y 0).isLt⟩))
/-- Row `r` of table `i`, over the vocabulary. -/
def colRow (A : Arrs F) (i : Fin 26) (r : Fin 64) : FVec F S1x100000 .f32 :=
  fun y => A.emb (ix3 i r (⟨(y 1).val, (y 1).isLt⟩ : Fin 100000))

theorem catSlice_apply (A : Arrs F) (i : Fin 26) (n : Fin 4096) : catSlice A i (ix1 n) = A.cat (ix1 (catIdx i n)) := rfl
theorem numSlice_apply (A : Arrs F) (j : Fin 13) (n : Fin 4096) : numSlice A j (ix1 n) = A.num (ix1 (numIdx j n)) := rfl
theorem colRow_apply (A : Arrs F) (i : Fin 26) (r : Fin 64) (u : Fin 1) (v : Fin 100000) :
    colRow A i r (ix2 u v) = A.emb (ix3 i r v) := rfl

/-! ## The staging rows -/

/-- The class token's staging row for feature row `r`. -/
def rowCls (A : Arrs F) (r : Fin 64) : FVec F S1x4096 .f32 := fun _ => A.cls (ix1 r)

/-- Category field `i`'s staging row for feature row `r`. -/
def rowCat (A : Arrs F) (i : Fin 26) (r : Fin 64) : FVec F S1x4096 .f32 :=
  fun y => A.emb (ix3 i r (vocab (A.cat (ix1 (catIdx i ⟨(y 1).val, (y 1).isLt⟩)))))

/-- Numeric field `j`'s staging row for feature row `r`. -/
def rowNum [FloatOps F] (A : Arrs F) (j : Fin 13) (r : Fin 64) : FVec F S1x4096 .f32 :=
  fun y => FloatOps.addf (FloatOps.mulf (A.num (ix1 (numIdx j ⟨(y 1).val, (y 1).isLt⟩))) (A.w (ix1 (wIdx j r))))
    (A.b (ix1 (wIdx j r)))

theorem rowCls_apply (A : Arrs F) (r : Fin 64) (y : S1x4096.Idx) : rowCls A r y = A.cls (ix1 r) := rfl
theorem rowCat_apply (A : Arrs F) (i : Fin 26) (r : Fin 64) (u : Fin 1) (n : Fin 4096) :
    rowCat A i r (ix2 u n) = A.emb (ix3 i r (vocab (A.cat (ix1 (catIdx i n))))) := rfl
theorem rowNum_apply [FloatOps F] (A : Arrs F) (j : Fin 13) (r : Fin 64) (u : Fin 1) (n : Fin 4096) :
    rowNum A j r (ix2 u n)
      = FloatOps.addf (FloatOps.mulf (A.num (ix1 (numIdx j n))) (A.w (ix1 (wIdx j r)))) (A.b (ix1 (wIdx j r))) := rfl

/-- A category word in range names its own vocabulary entry. -/
theorem vocab_of_lt (v : BitVec 32) (h : v.toNat < 100000) : vocab v = ⟨v.toNat, h⟩ := by
  unfold vocab; rw [dif_pos h]

/-! ## The specification along a row -/

section GTRows
variable [FloatOps F] (A : Arrs F) (r : Fin 64) (n : Fin 4096)

/-- Token 0's row `r` is the class token's staging row. -/
theorem GT_cls : GT A (ix3 (⟨0, by decide⟩ : Fin 40) r n) = rowCls A r (ix2 (0 : Fin 1) n) := by
  unfold GT
  rw [dif_pos (show ((⟨0, by decide⟩ : Fin 40).val = 0) from rfl)]
  rfl

/-- Token `1 + i`'s row `r` is category field `i`'s staging row. -/
theorem GT_cat (i : Fin 26) (hlt : 1 + i.val < 40) :
    GT A (ix3 (⟨1 + i.val, hlt⟩ : Fin 40) r n) = rowCat A i r (ix2 (0 : Fin 1) n) := by
  unfold GT
  have e : ∀ p : 1 + i.val - 1 < 26, (⟨1 + i.val - 1, p⟩ : Fin 26) = i := fun p => Fin.ext (by show 1 + i.val - 1 = i.val; omega)
  have e' : ∀ p : (1 + i.val - 1) * 4096 + n.val < 106496, (⟨(1 + i.val - 1) * 4096 + n.val, p⟩ : Fin 106496) = catIdx i n :=
    fun p => Fin.ext (by show (1 + i.val - 1) * 4096 + n.val = i.val * 4096 + n.val; rw [Nat.add_sub_cancel_left])
  rw [dif_neg (show ¬ (1 + i.val = 0) by omega), dif_pos (show 1 + i.val ≤ 26 by have := i.isLt; omega)]
  show A.emb (ix3 (⟨1 + i.val - 1, _⟩ : Fin 26) r (vocab (A.cat (ix1 (⟨(1 + i.val - 1) * 4096 + n.val, _⟩ : Fin 106496))))) = _
  rw [e, e']
  rfl

/-- Token `27 + j`'s row `r` is numeric field `j`'s staging row. -/
theorem GT_num (j : Fin 13) (hlt : 27 + j.val < 40) :
    GT A (ix3 (⟨27 + j.val, hlt⟩ : Fin 40) r n) = rowNum A j r (ix2 (0 : Fin 1) n) := by
  unfold GT
  have e1 : ∀ p : (27 + j.val - 27) * 4096 + n.val < 53248, (⟨(27 + j.val - 27) * 4096 + n.val, p⟩ : Fin 53248) = numIdx j n :=
    fun p => Fin.ext (by show (27 + j.val - 27) * 4096 + n.val = j.val * 4096 + n.val; rw [Nat.add_sub_cancel_left])
  have e2 : ∀ p : (27 + j.val - 27) * 64 + r.val < 832, (⟨(27 + j.val - 27) * 64 + r.val, p⟩ : Fin 832) = wIdx j r :=
    fun p => Fin.ext (by show (27 + j.val - 27) * 64 + r.val = j.val * 64 + r.val; rw [Nat.add_sub_cancel_left])
  rw [dif_neg (show ¬ (27 + j.val = 0) by omega), dif_neg (show ¬ (27 + j.val ≤ 26) by omega)]
  show FloatOps.addf (FloatOps.mulf (A.num (ix1 (⟨(27 + j.val - 27) * 4096 + n.val, _⟩ : Fin 53248)))
      (A.w (ix1 (⟨(27 + j.val - 27) * 64 + r.val, _⟩ : Fin 832)))) (A.b (ix1 (⟨(27 + j.val - 27) * 64 + r.val, _⟩ : Fin 832))) = _
  rw [e1, e2]
  rfl

end GTRows

end Cert.Proof.KI

end
-- ==== Proof.KI.Fetch.lean ====
/-
  What the transfers move. A transfer into a whole scratch buffer leaves there what its source view reads; and the
  final transfer of a staging row into a destination row of the result leaves the staging row's entry `(0, n)` at
  `(t, r, n)`. The sources the kernel reads: the weights, biases and class vector whole; a field's 4096 words of the flat
  category array (the slice at offset `4096 i`) and of the flat numeric array; one table row — the embedding array
  `[26, 64, 100000]` sliced at `(i, r, 0)` with sizes `(1, 1, 100000)`, its leading unit axis dropped.
-/
import proofs.«207382_g17746804867166_cont_8to1_1179_25_alg».proof.Proof.KI.Spec

noncomputable section

namespace Cert.Proof.KI

open Cert.KernelIdeal Cert.KernelIdeal.Gen

open Idealize.ShloMosaic Idealize.ShloMosaic.ValueIdx

variable {F : FTy → Type}

/-! ## The final row -/

/-- An index of row `(t, r)` is where the destination places its own index `(0, n)`. -/
theorem dstRow_emb_of_mem (OFF : Fin 3 → Nat) (INB : ∀ a, OFF a + S1x1x4096.size a ≤ S40x64x4096.size a)
    (t : Fin 40) (r : Fin 64) (hoff : OFF = ![t.val, r.val, 0]) (x : S40x64x4096.Idx) (hx : x ∈ rowT t r) :
    (dstRow OFF INB).view.emb (ix2 (0 : Fin 1) (⟨(x 2).val, (x 2).isLt⟩ : Fin 4096)) = x := by
  rw [mem_rowT] at hx
  rw [dstRow_emb OFF INB t r hoff]
  funext a
  refine Fin.ext ?_
  match a with
  | ⟨0, _⟩ => exact hx.1.symm
  | ⟨1, _⟩ => exact hx.2.symm
  | ⟨2, _⟩ => rfl

/-- ON THE ROW, one whole-row piece written through the destination leaves the payload's entry `(0, n)` at `(t, r, n)`,
    whatever the array held. -/
theorem dstRow_writes_whole_of_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (p : (Rect.whole S1x4096).shape.Idx → Elt F .f32)
    (x : S40x64x4096.Idx) (hx : x ∈ rowT t r) :
    (dstRow OFF INB).view.writes (Elt F) g0 [⟨Rect.whole S1x4096, p⟩] x
      = p (ix2 (0 : Fin 1) (⟨(x 2).val, (x 2).isLt⟩ : Fin 4096)) := by
  rw [View.writes_singleton]
  have ex : ((dstRow OFF INB).view.slice (Rect.whole S1x4096)).emb (ix2 (0 : Fin 1) (⟨(x 2).val, (x 2).isLt⟩ : Fin 4096)) = x := by
    show (dstRow OFF INB).view.emb ((Rect.whole S1x4096).emb (ix2 (0 : Fin 1) (⟨(x 2).val, (x 2).isLt⟩ : Fin 4096))) = x
    rw [Rect.emb_whole_apply]
    exact dstRow_emb_of_mem OFF INB t r hoff x hx
  have h := View.write_emb_of_mem (v := (dstRow OFF INB).view.slice (Rect.whole S1x4096)) (Val := Elt F) g0 p
    (Finset.mem_univ (ix2 (0 : Fin 1) (⟨(x 2).val, (x 2).isLt⟩ : Fin 4096)))
  rw [ex] at h
  exact h

/-- OFF THE ROW it changes nothing. -/
theorem dstRow_writes_whole_of_not_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (p : (Rect.whole S1x4096).shape.Idx → Elt F .f32)
    (x : S40x64x4096.Idx) (hx : x ∉ rowT t r) :
    (dstRow OFF INB).view.writes (Elt F) g0 [⟨Rect.whole S1x4096, p⟩] x = g0 x := by
  rw [View.writes_singleton]
  have hn : x ∉ ((dstRow OFF INB).view.slice (Rect.whole S1x4096)).setOn Finset.univ := by
    rw [View.setOn_univ]
    intro hm
    exact hx (by rw [← dstRow_set OFF INB t r hoff]; exact View.set_slice_subset _ _ hm)
  exact View.write_of_not_mem (v := (dstRow OFF INB).view.slice (Rect.whole S1x4096)) (Val := Elt F) g0 p Finset.univ hn

/-- The final copy out of the first staging row. -/
theorem dstRow_copy5_of_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (f' : (Memref.whole cc0_scratch5 : Memref sig .scVector .vmem S1x4096 .f32).view.ty.Contents (Elt F))
    (x : S40x64x4096.Idx) (hx : x ∈ rowT t r) :
    (dstRow OFF INB).view.writes (Elt F) g0 [⟨Rect.whole S1x4096, ReadAs.same.apply
        (View.read (Elt F) (Memref.whole cc0_scratch5 : Memref sig .scVector .vmem S1x4096 .f32).view f')⟩] x
      = f' (ix2 (0 : Fin 1) (⟨(x 2).val, (x 2).isLt⟩ : Fin 4096)) :=
  dstRow_writes_whole_of_mem OFF INB t r hoff g0 _ x hx

/-- The final copy out of the second staging row. -/
theorem dstRow_copy6_of_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (f' : (Memref.whole cc0_scratch6 : Memref sig .scVector .vmem S1x4096 .f32).view.ty.Contents (Elt F))
    (x : S40x64x4096.Idx) (hx : x ∈ rowT t r) :
    (dstRow OFF INB).view.writes (Elt F) g0 [⟨Rect.whole S1x4096, ReadAs.same.apply
        (View.read (Elt F) (Memref.whole cc0_scratch6 : Memref sig .scVector .vmem S1x4096 .f32).view f')⟩] x
      = f' (ix2 (0 : Fin 1) (⟨(x 2).val, (x 2).isLt⟩ : Fin 4096)) :=
  dstRow_writes_whole_of_mem OFF INB t r hoff g0 _ x hx

/-! ## The fetches' sources -/

/-- A field's 4096 words of the flat category array. -/
theorem catSrc_read (A : Arrs F) (i : Fin 26) (off : Fin 1 → Nat) (h : ∀ a, off a + S4096.size a ≤ S106496.size a)
    (hoff : off = ![4096 * i.val]) :
    ((Memref.whole main_v1_scv : Memref sig .scVector .hbm S106496 .i32).slice
        (Rect.unit (s := S106496) off S4096.size h) (fun _ => rfl)).view.read (Elt F) A.cat = catSlice A i := by
  subst hoff
  funext y
  show A.cat ((Rect.unit (s := S106496) ![4096 * i.val] S4096.size h).emb y) = A.cat (ix1 (catIdx i ⟨(y 0).val, (y 0).isLt⟩))
  refine congrArg A.cat (funext fun a => Fin.ext ?_)
  match a with
  | ⟨0, _⟩ => show 4096 * i.val + 1 * (y 0).val = i.val * 4096 + (y 0).val; omega

/-- A field's 4096 values of the flat numeric array. -/
theorem numSrc_read (A : Arrs F) (j : Fin 13) (off : Fin 1 → Nat) (h : ∀ a, off a + S4096.size a ≤ S53248.size a)
    (hoff : off = ![4096 * j.val]) :
    ((Memref.whole main_v3_scv : Memref sig .scVector .hbm S53248 .f32).slice
        (Rect.unit (s := S53248) off S4096.size h) (fun _ => rfl)).view.read (Elt F) A.num = numSlice A j := by
  subst hoff
  funext y
  show A.num ((Rect.unit (s := S53248) ![4096 * j.val] S4096.size h).emb y) = A.num (ix1 (numIdx j ⟨(y 0).val, (y 0).isLt⟩))
  refine congrArg A.num (funext fun a => Fin.ext ?_)
  match a with
  | ⟨0, _⟩ => show 4096 * j.val + 1 * (y 0).val = j.val * 4096 + (y 0).val; omega

/-- Row `r` of table `i`, over the vocabulary. -/
theorem colSrc_read (A : Arrs F) (i : Fin 26) (r : Fin 64) (OFF : Fin 3 → Nat)
    (INB : ∀ a, OFF a + S1x1x100000.size a ≤ S26x64x100000.size a) (hoff : OFF = ![i.val, r.val, 0]) :
    (((Memref.whole main_v4_scv : Memref sig .scVector .hbm S26x64x100000 .f32).slice
        (Rect.unit (s := S26x64x100000) OFF S1x1x100000.size INB) (fun _ => rfl)).squeeze S1x100000
          squeezes_S1x1x100000_S1x100000).view.read (Elt F) A.emb = colRow A i r := by
  subst hoff
  funext y
  have hy0 : (y 0).val = 0 := by have : (y 0).val < 1 := (y 0).isLt; omega
  show A.emb ((Rect.unit (s := S26x64x100000) ![i.val, r.val, 0] S1x1x100000.size INB).emb
    (Shape.reshapeEquiv squeezes_S1x1x100000_S1x100000.numel_eq y)) = A.emb (ix3 i r (⟨(y 1).val, (y 1).isLt⟩ : Fin 100000))
  have e : Shape.reshapeEquiv squeezes_S1x1x100000_S1x100000.numel_eq y
      = (ix3 (0 : Fin 1) (0 : Fin 1) (⟨(y 1).val, (y 1).isLt⟩ : Fin 100000) : S1x1x100000.Idx) :=
    Shape.reshapeEquiv_eq_of_rowMajor _ (by
      rw [Shape.rowMajor_val_three, Shape.rowMajor_val_two]
      show (0 * 1 + 0) * 100000 + (y 1).val = (y 0).val * 100000 + (y 1).val
      rw [hy0])
  rw [e]
  refine congrArg A.emb (funext fun a => Fin.ext ?_)
  match a with
  | ⟨0, _⟩ => show i.val + 1 * 0 = i.val; omega
  | ⟨1, _⟩ => show r.val + 1 * 0 = r.val; omega
  | ⟨2, _⟩ => show 0 + 1 * (y 1).val = (y 1).val; omega

/-! ## The fetched scratch buffers -/

/-- A transfer into a whole buffer leaves its payload there. -/
theorem fetch_whole (b : Ref sig .scVector) (f0 w : b.ty.Contents (Elt F)) :
    (Memref.whole b).view.write (Elt F) f0 w Finset.univ = w := View.write_whole_univ b f0 w

section Fetched
variable (A : Arrs F)

/-- The weights, fetched whole. -/
theorem fetch_w (f0 : (Memref.whole cc0_scratch7 : Memref sig .scVector .vmem S832 .f32).view.ty.Contents (Elt F)) :
    (Memref.whole cc0_scratch7 : Memref sig .scVector .vmem S832 .f32).view.write (Elt F) f0
      (ReadAs.same.apply (View.read (Elt F) (Memref.whole main_v5_scv : Memref sig .scVector .hbm S832 .f32).view A.w)) Finset.univ = A.w :=
  View.write_whole_univ cc0_scratch7 f0 _

/-- The biases, fetched whole. -/
theorem fetch_b (f0 : (Memref.whole cc0_scratch8 : Memref sig .scVector .vmem S832 .f32).view.ty.Contents (Elt F)) :
    (Memref.whole cc0_scratch8 : Memref sig .scVector .vmem S832 .f32).view.write (Elt F) f0
      (ReadAs.same.apply (View.read (Elt F) (Memref.whole main_v6_scv : Memref sig .scVector .hbm S832 .f32).view A.b)) Finset.univ = A.b :=
  View.write_whole_univ cc0_scratch8 f0 _

/-- The class vector, fetched whole. -/
theorem fetch_cls (f0 : (Memref.whole cc0_scratch9 : Memref sig .scVector .vmem S64 .f32).view.ty.Contents (Elt F)) :
    (Memref.whole cc0_scratch9 : Memref sig .scVector .vmem S64 .f32).view.write (Elt F) f0
      (ReadAs.same.apply (View.read (Elt F) (Memref.whole main_v7_scv : Memref sig .scVector .hbm S64 .f32).view A.cls)) Finset.univ = A.cls :=
  View.write_whole_univ cc0_scratch9 f0 _

end Fetched

/-! ## A finished row -/

section Done
variable (OFF : Fin 3 → Nat) (INB : ∀ a, OFF a + S1x1x4096.size a ≤ S40x64x4096.size a)
  (t : Fin 40) (r : Fin 64)

/-- An index of row `(t, r)` by its coordinates. -/
theorem eq_ix3_of_mem_rowT (x : S40x64x4096.Idx) (hx : x ∈ rowT t r) : x = ix3 t r (⟨(x 2).val, (x 2).isLt⟩ : Fin 4096) := by
  rw [mem_rowT] at hx
  funext a
  refine Fin.ext ?_
  match a with
  | ⟨0, _⟩ => exact hx.1
  | ⟨1, _⟩ => exact hx.2
  | ⟨2, _⟩ => rfl

/-- A staging row that holds `row`, copied into row `(t, r)`, leaves there a function `G` that is `row` along that row (the
    first staging row). -/
theorem row_done5 (hoff : OFF = ![t.val, r.val, 0]) (g0 : (dstRow OFF INB).view.ty.Contents (Elt F)) (f' : FVec F S1x4096 .f32) (row : S1x4096.Idx → F .f32)
    (G : FVec F S40x64x4096 .f32) (hf' : ∀ y, f' y = row y) (hG : ∀ n : Fin 4096, G (ix3 t r n) = row (ix2 (0 : Fin 1) n)) :
    ∀ x ∈ (dstRow OFF INB).view.set,
      (dstRow OFF INB).view.writes (Elt F) g0 [⟨Rect.whole S1x4096, ReadAs.same.apply
        (View.read (Elt F) (Memref.whole cc0_scratch5 : Memref sig .scVector .vmem S1x4096 .f32).view f')⟩] x = G x := by
  intro x hx
  rw [dstRow_set OFF INB t r hoff] at hx
  rw [dstRow_copy5_of_mem OFF INB t r hoff g0 f' x hx, hf', ← hG]
  exact congrArg G (eq_ix3_of_mem_rowT t r x hx).symm

/-- The same out of the second staging row. -/
theorem row_done6 (hoff : OFF = ![t.val, r.val, 0]) (g0 : (dstRow OFF INB).view.ty.Contents (Elt F)) (f' : FVec F S1x4096 .f32) (row : S1x4096.Idx → F .f32)
    (G : FVec F S40x64x4096 .f32) (hf' : ∀ y, f' y = row y) (hG : ∀ n : Fin 4096, G (ix3 t r n) = row (ix2 (0 : Fin 1) n)) :
    ∀ x ∈ (dstRow OFF INB).view.set,
      (dstRow OFF INB).view.writes (Elt F) g0 [⟨Rect.whole S1x4096, ReadAs.same.apply
        (View.read (Elt F) (Memref.whole cc0_scratch6 : Memref sig .scVector .vmem S1x4096 .f32).view f')⟩] x = G x := by
  intro x hx
  rw [dstRow_set OFF INB t r hoff] at hx
  rw [dstRow_copy6_of_mem OFF INB t r hoff g0 f' x hx, hf', ← hG]
  exact congrArg G (eq_ix3_of_mem_rowT t r x hx).symm

end Done

/-- Every word of a fetched field is a vocabulary index when every category word is. -/
theorem catSlice_range (A : Arrs F) (hcat : ∀ j, (A.cat j).toNat < 100000) (i : Fin 26) :
    ∀ y, (catSlice A i y).toNat < 100000 := fun y => hcat _

end Cert.Proof.KI

end
-- ==== Proof.KI.Step.lean ====
/-
  One trip of a fill loop. A staging row `[1, 4096]` is filled 64 positions per trip: trip `k` stores four pieces of 16
  lanes at positions `64k`, `64k + 16`, `64k + 32`, `64k + 48`. If before the trip the row agrees with a function `row` below
  position `64k`, and each piece's lane `l` is `row` at its position, then after the trip the row agrees with `row` below
  `64 (k + 1)`: positions below `64k` lie under no piece and keep their contents; every other position below
  `64 (k + 1)` lies under one piece and reads its payload.
-/
import proofs.«207382_g17746804867166_cont_8to1_1179_25_alg».proof.Proof.KI.Spec

noncomputable section

namespace Cert.Proof.KI

open Cert.KernelIdeal Cert.KernelIdeal.Gen

open Idealize.ShloMosaic Idealize.ShloMosaic.ValueIdx

variable {F : FTy → Type}

/-! ## A 16-lane piece of the staging row -/

/-- Where a 16-lane piece at position `m` places its lane `l`: at position `m + l`. -/
theorem unit16_emb (o : Fin 2 → Nat) (m : Nat) (ho : o = ![0, m]) (inb : ∀ a, o a + S1x16.size a ≤ S1x4096.size a)
    (x : S1x16.Idx) (h : m + (x 1).val < 4096) :
    (Rect.unit (s := S1x4096) o S1x16.size inb).emb x = ix2 (0 : Fin 1) (⟨m + (x 1).val, h⟩ : Fin 4096) := by
  subst ho
  have hx0 : (x 0).val = 0 := by have : (x 0).val < 1 := (x 0).isLt; omega
  funext a
  refine Fin.ext ?_
  match a with
  | ⟨0, _⟩ => show 0 + 1 * (x 0).val = 0; omega
  | ⟨1, _⟩ => show m + 1 * (x 1).val = m + (x 1).val; omega

/-- The positions a 16-lane piece at position `m` covers. -/
theorem mem_unit16 (o : Fin 2 → Nat) (m : Nat) (ho : o = ![0, m]) (inb : ∀ a, o a + S1x16.size a ≤ S1x4096.size a)
    (y : S1x4096.Idx) : y ∈ (Rect.unit (s := S1x4096) o S1x16.size inb).set ↔ m ≤ (y 1).val ∧ (y 1).val < m + 16 := by
  subst ho
  have hy0 : (y 0).val = 0 := by have : (y 0).val < 1 := (y 0).isLt; omega
  rw [Rect.mem_set_unit]
  constructor
  · intro h
    have h1 : m ≤ (y 1).val ∧ (y 1).val < m + 16 := h 1
    exact h1
  · intro h a
    match a with
    | ⟨0, _⟩ => show 0 ≤ (y 0).val ∧ (y 0).val < 0 + 1; omega
    | ⟨1, _⟩ => show m ≤ (y 1).val ∧ (y 1).val < m + 16; exact h

/-- A piece at position `m` whose top is in the row. -/
theorem unit16_top (o : Fin 2 → Nat) (m : Nat) (ho : o = ![0, m]) (inb : ∀ a, o a + S1x16.size a ≤ S1x4096.size a) :
    m + 16 ≤ 4096 := by
  subst ho
  have h1 : m + 16 ≤ 4096 := inb 1
  exact h1

/-! ## The trip -/

section Trip
variable {sp : Space} (v : View sig .scVector sp S1x4096 .f32)

/-- ONE TRIP: four 16-lane pieces at `64k, 64k + 16, 64k + 32, 64k + 48` (the last store first), each holding `row` at its
    positions, extend agreement with `row` from below `64k` to below `64 (k + 1)`. -/
theorem step4 (f : v.ty.Contents (Elt F)) (row : S1x4096.Idx → Elt F .f32) (k : Nat)
    (o0 o1 o2 o3 : Fin 2 → Nat) (m0 m1 m2 m3 : Nat)
    (i0 : ∀ a, o0 a + S1x16.size a ≤ S1x4096.size a) (i1 : ∀ a, o1 a + S1x16.size a ≤ S1x4096.size a)
    (i2 : ∀ a, o2 a + S1x16.size a ≤ S1x4096.size a) (i3 : ∀ a, o3 a + S1x16.size a ≤ S1x4096.size a)
    (h0 : o0 = ![0, m0]) (h1 : o1 = ![0, m1]) (h2 : o2 = ![0, m2]) (h3 : o3 = ![0, m3])
    (e0 : m0 = 64 * k) (e1 : m1 = 64 * k + 16) (e2 : m2 = 64 * k + 32) (e3 : m3 = 64 * k + 48)
    (p0 p1 p2 p3 : S1x16.Idx → Elt F .f32)
    (hp0 : ∀ (x : S1x16.Idx) (h : m0 + (x 1).val < 4096), p0 x = row (ix2 (0 : Fin 1) (⟨m0 + (x 1).val, h⟩ : Fin 4096)))
    (hp1 : ∀ (x : S1x16.Idx) (h : m1 + (x 1).val < 4096), p1 x = row (ix2 (0 : Fin 1) (⟨m1 + (x 1).val, h⟩ : Fin 4096)))
    (hp2 : ∀ (x : S1x16.Idx) (h : m2 + (x 1).val < 4096), p2 x = row (ix2 (0 : Fin 1) (⟨m2 + (x 1).val, h⟩ : Fin 4096)))
    (hp3 : ∀ (x : S1x16.Idx) (h : m3 + (x 1).val < 4096), p3 x = row (ix2 (0 : Fin 1) (⟨m3 + (x 1).val, h⟩ : Fin 4096)))
    (hf : ∀ y : S1x4096.Idx, (y 1).val < 64 * k → v.read (Elt F) f y = row y) :
    ∀ y : S1x4096.Idx, (y 1).val < 64 * (k + 1) →
      v.read (Elt F) (v.writes (Elt F) f
        [⟨Rect.unit (s := S1x4096) o3 S1x16.size i3, p3⟩, ⟨Rect.unit (s := S1x4096) o2 S1x16.size i2, p2⟩,
         ⟨Rect.unit (s := S1x4096) o1 S1x16.size i1, p1⟩, ⟨Rect.unit (s := S1x4096) o0 S1x16.size i0, p0⟩]) y = row y := by
  intro y hy
  have t0 := unit16_top o0 m0 h0 i0
  have t1 := unit16_top o1 m1 h1 i1
  have t2 := unit16_top o2 m2 h2 i2
  have t3 := unit16_top o3 m3 h3 i3
  by_cases hlo : (y 1).val < 64 * k
  · rw [View.read_writes_apply_of_forall_not_mem v f y _ (fun p hp => ?_)]
    · exact hf y hlo
    · simp only [List.mem_cons, List.not_mem_nil, or_false] at hp
      rcases hp with rfl | rfl | rfl | rfl
      · rw [mem_unit16 o3 m3 h3 i3]; omega
      · rw [mem_unit16 o2 m2 h2 i2]; omega
      · rw [mem_unit16 o1 m1 h1 i1]; omega
      · rw [mem_unit16 o0 m0 h0 i0]; omega
  · refine View.read_writes_apply_of_pieces v f row _ (fun p hp x => ?_) y ?_
    · simp only [List.mem_cons, List.not_mem_nil, or_false] at hp
      rcases hp with rfl | rfl | rfl | rfl
      · have hx : (x 1).val < 16 := (x 1).isLt
        have hb : m3 + (x 1).val < 4096 := by omega
        show p3 x = row ((Rect.unit (s := S1x4096) o3 S1x16.size i3).emb x)
        rw [unit16_emb o3 m3 h3 i3 x hb]; exact hp3 x hb
      · have hx : (x 1).val < 16 := (x 1).isLt
        have hb : m2 + (x 1).val < 4096 := by omega
        show p2 x = row ((Rect.unit (s := S1x4096) o2 S1x16.size i2).emb x)
        rw [unit16_emb o2 m2 h2 i2 x hb]; exact hp2 x hb
      · have hx : (x 1).val < 16 := (x 1).isLt
        have hb : m1 + (x 1).val < 4096 := by omega
        show p1 x = row ((Rect.unit (s := S1x4096) o1 S1x16.size i1).emb x)
        rw [unit16_emb o1 m1 h1 i1 x hb]; exact hp1 x hb
      · have hx : (x 1).val < 16 := (x 1).isLt
        have hb : m0 + (x 1).val < 4096 := by omega
        show p0 x = row ((Rect.unit (s := S1x4096) o0 S1x16.size i0).emb x)
        rw [unit16_emb o0 m0 h0 i0 x hb]; exact hp0 x hb
    · by_cases c3 : m3 ≤ (y 1).val
      · exact ⟨_, List.mem_cons_self, (mem_unit16 o3 m3 h3 i3 y).2 ⟨c3, by omega⟩⟩
      · by_cases c2 : m2 ≤ (y 1).val
        · exact ⟨_, List.mem_cons_of_mem _ List.mem_cons_self, (mem_unit16 o2 m2 h2 i2 y).2 ⟨c2, by omega⟩⟩
        · by_cases c1 : m1 ≤ (y 1).val
          · exact ⟨_, List.mem_cons_of_mem _ (List.mem_cons_of_mem _ List.mem_cons_self), (mem_unit16 o1 m1 h1 i1 y).2 ⟨c1, by omega⟩⟩
          · exact ⟨_, List.mem_cons_of_mem _ (List.mem_cons_of_mem _ (List.mem_cons_of_mem _ List.mem_cons_self)),
              (mem_unit16 o0 m0 h0 i0 y).2 ⟨by omega, by omega⟩⟩

end Trip

end Cert.Proof.KI

end
-- ==== Proof.KI.StepCat.lean ====
/-
  One trip of a category field's fill loop. Each of the trip's four pieces gathers, out of the fetched table row (row `r`
  of table `i` over the vocabulary), the 16 entries at the 16 category words the fetched field holds at the piece's
  position. When every category word is a vocabulary index, lane `l` of the piece at position `m` is the category row's
  entry at `m + l`; so a trip extends the staging row's agreement with the category row by 64 positions.
-/
import proofs.«207382_g17746804867166_cont_8to1_1179_25_alg».proof.Proof.KI.Step

noncomputable section

namespace Cert.Proof.KI

open Cert.KernelIdeal Cert.KernelIdeal.Gen

open Idealize.ShloMosaic Idealize.ShloMosaic.ValueIdx

variable {F : FTy → Type}

/-! ## A category piece -/

section Cat
variable {spc spi : Space} (vcol : View sig .scVector spc S1x100000 .f32) (vc : View sig .scVector spi S4096 .i32)

/-- The 16 table entries gathered at the 16 category words at position `c` of the fetched field: row 0 of the fetched table
    row at those words, as a `[1, 16]` piece. -/
abbrev catPay (fcol : vcol.ty.Contents (Elt F)) (fc : vc.ty.Contents (Elt F)) (c : Fin 1 → Nat)
    (ic : ∀ a, c a + S16.size a ≤ S4096.size a)
    (hr : ∀ a x, ((![broadcast S16 0#32, vc.readAt (Elt F) (Rect.unit (s := S4096) c S16.size ic).toLoadRect fc] : Fin 2 → IVec S16 32) a x).toNat
      < S1x100000.size a)
    (hs : S16.ShapeCasts S1x16) : S1x16.Idx → Elt F .f32 :=
  shapeCast S1x16 (loadIdx (vcol.readAt (Elt F) (LoadRect.whole S1x100000) fcol)
    ![broadcast S16 0#32, vc.readAt (Elt F) (Rect.unit (s := S4096) c S16.size ic).toLoadRect fc] hr) hs

/-- Lane `l` of the piece at position `m` is the category row's entry at `m + l`. -/
theorem catPay_apply (A : Arrs F) (i : Fin 26) (r : Fin 64)
    (fcol : vcol.ty.Contents (Elt F)) (hcol : vcol.read (Elt F) fcol = colRow A i r)
    (fc : vc.ty.Contents (Elt F)) (hcat : vc.read (Elt F) fc = catSlice A i)
    (hlt : ∀ n : Fin 4096, (A.cat (ix1 (catIdx i n))).toNat < 100000)
    (c : Fin 1 → Nat) (m : Nat) (hc : c = ![m]) (ic : ∀ a, c a + S16.size a ≤ S4096.size a)
    (hr : ∀ a x, ((![broadcast S16 0#32, vc.readAt (Elt F) (Rect.unit (s := S4096) c S16.size ic).toLoadRect fc] : Fin 2 → IVec S16 32) a x).toNat
      < S1x100000.size a)
    (hs : S16.ShapeCasts S1x16) (x : S1x16.Idx) (h : m + (x 1).val < 4096) :
    catPay vcol vc fcol fc c ic hr hs x = rowCat A i r (ix2 (0 : Fin 1) (⟨m + (x 1).val, h⟩ : Fin 4096)) := by
  have hx0 : (x 0).val = 0 := by have : (x 0).val < 1 := (x 0).isLt; omega
  have hx1 : (x 1).val < 16 := (x 1).isLt
  -- the lane
  have el : Shape.reshapeEquiv hs x = (ix1 (⟨(x 1).val, hx1⟩ : Fin 16) : S16.Idx) :=
    Shape.reshapeEquiv_eq_of_rowMajor hs (by
      rw [Shape.rowMajor_val_one, Shape.rowMajor_val_two]
      show (x 1).val = (x 0).val * 16 + (x 1).val
      rw [hx0]; omega)
  show loadIdx (vcol.readAt (Elt F) (LoadRect.whole S1x100000) fcol)
      ![broadcast S16 0#32, vc.readAt (Elt F) (Rect.unit (s := S4096) c S16.size ic).toLoadRect fc] hr
      (Shape.reshapeEquiv hs x) = _
  rw [el]
  -- the word the lane reads
  have hw : vc.readAt (Elt F) (Rect.unit (s := S4096) c S16.size ic).toLoadRect fc (ix1 (⟨(x 1).val, hx1⟩ : Fin 16))
      = A.cat (ix1 (catIdx i (⟨m + (x 1).val, h⟩ : Fin 4096))) := by
    rw [View.readAt_apply, hcat]
    subst hc
    refine congrArg A.cat (congrArg ix1 (congrArg (catIdx i) (Fin.ext ?_)))
    show m + 1 * (x 1).val = m + (x 1).val
    omega
  rw [rowCat_apply, vocab_of_lt _ (hlt _)]
  show vcol.readAt (Elt F) (LoadRect.whole S1x100000) fcol (idxAt _ hr (ix1 (⟨(x 1).val, hx1⟩ : Fin 16))) = _
  rw [View.readAt_apply, hcol]
  refine congrArg A.emb (congrArg (ix3 i r) (Fin.ext ?_))
  show 0 + 1 * (vc.readAt (Elt F) (Rect.unit (s := S4096) c S16.size ic).toLoadRect fc (ix1 (⟨(x 1).val, hx1⟩ : Fin 16))).toNat
    = (A.cat (ix1 (catIdx i (⟨m + (x 1).val, h⟩ : Fin 4096)))).toNat
  rw [hw]; omega

/-- ONE TRIP OF A CATEGORY LOOP, through any views of the staging row, the fetched table row and the fetched field. -/
theorem stepCat {spo : Space} (voc : View sig .scVector spo S1x4096 .f32) (A : Arrs F) (i : Fin 26) (r : Fin 64)
    (f : voc.ty.Contents (Elt F))
    (fcol : vcol.ty.Contents (Elt F)) (hcol : vcol.read (Elt F) fcol = colRow A i r)
    (fc : vc.ty.Contents (Elt F)) (hcat : vc.read (Elt F) fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, vc.readAt (Elt F) (Rect.unit (s := S4096) c0 S16.size ic0).toLoadRect fc] : Fin 2 → IVec S16 32) a x).toNat < S1x100000.size a) (hr1 : ∀ a x, ((![broadcast S16 0#32, vc.readAt (Elt F) (Rect.unit (s := S4096) c1 S16.size ic1).toLoadRect fc] : Fin 2 → IVec S16 32) a x).toNat < S1x100000.size a)
    (hr2 : ∀ a x, ((![broadcast S16 0#32, vc.readAt (Elt F) (Rect.unit (s := S4096) c2 S16.size ic2).toLoadRect fc] : Fin 2 → IVec S16 32) a x).toNat < S1x100000.size a) (hr3 : ∀ a x, ((![broadcast S16 0#32, vc.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → voc.read (Elt F) f y = rowCat A i r y) :
    ∀ y : S1x4096.Idx, (y 1).val < 64 * (k + 1) →
      voc.read (Elt F) (voc.writes (Elt F) f
        [⟨Rect.unit (s := S1x4096) o3 S1x16.size io3, catPay vcol vc fcol fc c3 ic3 hr3 hs3⟩,
         ⟨Rect.unit (s := S1x4096) o2 S1x16.size io2, catPay vcol vc fcol fc c2 ic2 hr2 hs2⟩,
         ⟨Rect.unit (s := S1x4096) o1 S1x16.size io1, catPay vcol vc fcol fc c1 ic1 hr1 hs1⟩,
         ⟨Rect.unit (s := S1x4096) o0 S1x16.size io0, catPay vcol vc fcol fc c0 ic0 hr0 hs0⟩]) y = rowCat A i r y :=
  step4 voc f (rowCat A i r) k o0 o1 o2 o3 m0 m1 m2 m3 io0 io1 io2 io3 ho0 ho1 ho2 ho3 e0 e1 e2 e3 _ _ _ _
    (fun x h => catPay_apply vcol vc A i r fcol hcol fc hcat hlt c0 m0 hc0 ic0 hr0 hs0 x h)
    (fun x h => catPay_apply vcol vc A i r fcol hcol fc hcat hlt c1 m1 hc1 ic1 hr1 hs1 x h)
    (fun x h => catPay_apply vcol vc A i r fcol hcol fc hcat hlt c2 m2 hc2 ic2 hr2 hs2 x h)
    (fun x h => catPay_apply vcol vc A i r fcol hcol fc hcat hlt c3 m3 hc3 ic3 hr3 hs3 x h) hf

end Cat

/-- The same on the whole scratch buffers: staging row A, field buffer A. -/
theorem stepCat_5_1 (A : Arrs F) (i : Fin 26) (r : Fin 64)
    (f : (Memref.whole cc0_scratch5).view.ty.Contents (Elt F))
    (fcol : (Memref.whole cc0_scratch0).view.ty.Contents (Elt F)) (hcol : fcol = colRow A i r)
    (fc : (Memref.whole cc0_scratch1).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch1).view.readAt (Elt F) (Rect.unit (s := S4096) c0 S16.size ic0).toLoadRect fc] : Fin 2 → IVec S16 32) a x).toNat < S1x100000.size a) (hr1 : ∀ a x, ((![broadcast S16 0#32, (Memref.whole cc0_scratch1).view.readAt (Elt F) (Rect.unit (s := S4096) c1 S16.size ic1).toLoadRect fc] : Fin 2 → IVec S16 32) a x).toNat < S1x100000.size a)
    (hr2 : ∀ a x, ((![broadcast S16 0#32, (Memref.whole cc0_scratch1).view.readAt (Elt F) (Rect.unit (s := S4096) c2 S16.size ic2).toLoadRect fc] : Fin 2 → IVec S16 32) a x).toNat < S1x100000.size a) (hr3 : ∀ a x, ((![broadcast S16 0#32, (Memref.whole cc0_scratch1).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch5).view.writes (Elt F) f
        [⟨Rect.unit (s := S1x4096) o3 S1x16.size io3, catPay (Memref.whole cc0_scratch0).view (Memref.whole cc0_scratch1).view fcol fc c3 ic3 hr3 hs3⟩,
         ⟨Rect.unit (s := S1x4096) o2 S1x16.size io2, catPay (Memref.whole cc0_scratch0).view (Memref.whole cc0_scratch1).view fcol fc c2 ic2 hr2 hs2⟩,
         ⟨Rect.unit (s := S1x4096) o1 S1x16.size io1, catPay (Memref.whole cc0_scratch0).view (Memref.whole cc0_scratch1).view fcol fc c1 ic1 hr1 hs1⟩,
         ⟨Rect.unit (s := S1x4096) o0 S1x16.size io0, catPay (Memref.whole cc0_scratch0).view (Memref.whole cc0_scratch1).view fcol fc c0 ic0 hr0 hs0⟩] y = rowCat A i r y :=
  stepCat (Memref.whole cc0_scratch0).view (Memref.whole cc0_scratch1).view (Memref.whole cc0_scratch5).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

/-- The same on the whole scratch buffers: staging row A, field buffer B. -/
theorem stepCat_5_2 (A : Arrs F) (i : Fin 26) (r : Fin 64)
    (f : (Memref.whole cc0_scratch5).view.ty.Contents (Elt F))
    (fcol : (Memref.whole cc0_scratch0).view.ty.Contents (Elt F)) (hcol : fcol = colRow A i r)
    (fc : (Memref.whole cc0_scratch2).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch2).view.readAt (Elt F) (Rect.unit (s := S4096) c0 S16.size ic0).toLoadRect fc] : Fin 2 → IVec S16 32) a x).toNat < S1x100000.size a) (hr1 : ∀ a x, ((![broadcast S16 0#32, (Memref.whole cc0_scratch2).view.readAt (Elt F) (Rect.unit (s := S4096) c1 S16.size ic1).toLoadRect fc] : Fin 2 → IVec S16 32) a x).toNat < S1x100000.size a)
    (hr2 : ∀ a x, ((![broadcast S16 0#32, (Memref.whole cc0_scratch2).view.readAt (Elt F) (Rect.unit (s := S4096) c2 S16.size ic2).toLoadRect fc] : Fin 2 → IVec S16 32) a x).toNat < S1x100000.size a) (hr3 : ∀ a x, ((![broadcast S16 0#32, (Memref.whole cc0_scratch2).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch5).view.writes (Elt F) f
        [⟨Rect.unit (s := S1x4096) o3 S1x16.size io3, catPay (Memref.whole cc0_scratch0).view (Memref.whole cc0_scratch2).view fcol fc c3 ic3 hr3 hs3⟩,
         ⟨Rect.unit (s := S1x4096) o2 S1x16.size io2, catPay (Memref.whole cc0_scratch0).view (Memref.whole cc0_scratch2).view fcol fc c2 ic2 hr2 hs2⟩,
         ⟨Rect.unit (s := S1x4096) o1 S1x16.size io1, catPay (Memref.whole cc0_scratch0).view (Memref.whole cc0_scratch2).view fcol fc c1 ic1 hr1 hs1⟩,
         ⟨Rect.unit (s := S1x4096) o0 S1x16.size io0, catPay (Memref.whole cc0_scratch0).view (Memref.whole cc0_scratch2).view fcol fc c0 ic0 hr0 hs0⟩] y = rowCat A i r y :=
  stepCat (Memref.whole cc0_scratch0).view (Memref.whole cc0_scratch2).view (Memref.whole cc0_scratch5).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

/-- The same on the whole scratch buffers: staging row B, field buffer A. -/
theorem stepCat_6_1 (A : Arrs F) (i : Fin 26) (r : Fin 64)
    (f : (Memref.whole cc0_scratch6).view.ty.Contents (Elt F))
    (fcol : (Memref.whole cc0_scratch0).view.ty.Contents (Elt F)) (hcol : fcol = colRow A i r)
    (fc : (Memref.whole cc0_scratch1).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch1).view.readAt (Elt F) (Rect.unit (s := S4096) c0 S16.size ic0).toLoadRect fc] : Fin 2 → IVec S16 32) a x).toNat < S1x100000.size a) (hr1 : ∀ a x, ((![broadcast S16 0#32, (Memref.whole cc0_scratch1).view.readAt (Elt F) (Rect.unit (s := S4096) c1 S16.size ic1).toLoadRect fc] : Fin 2 → IVec S16 32) a x).toNat < S1x100000.size a)
    (hr2 : ∀ a x, ((![broadcast S16 0#32, (Memref.whole cc0_scratch1).view.readAt (Elt F) (Rect.unit (s := S4096) c2 S16.size ic2).toLoadRect fc] : Fin 2 → IVec S16 32) a x).toNat < S1x100000.size a) (hr3 : ∀ a x, ((![broadcast S16 0#32, (Memref.whole cc0_scratch1).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch6).view.writes (Elt F) f
        [⟨Rect.unit (s := S1x4096) o3 S1x16.size io3, catPay (Memref.whole cc0_scratch0).view (Memref.whole cc0_scratch1).view fcol fc c3 ic3 hr3 hs3⟩,
         ⟨Rect.unit (s := S1x4096) o2 S1x16.size io2, catPay (Memref.whole cc0_scratch0).view (Memref.whole cc0_scratch1).view fcol fc c2 ic2 hr2 hs2⟩,
         ⟨Rect.unit (s := S1x4096) o1 S1x16.size io1, catPay (Memref.whole cc0_scratch0).view (Memref.whole cc0_scratch1).view fcol fc c1 ic1 hr1 hs1⟩,
         ⟨Rect.unit (s := S1x4096) o0 S1x16.size io0, catPay (Memref.whole cc0_scratch0).view (Memref.whole cc0_scratch1).view fcol fc c0 ic0 hr0 hs0⟩] y = rowCat A i r y :=
  stepCat (Memref.whole cc0_scratch0).view (Memref.whole cc0_scratch1).view (Memref.whole cc0_scratch6).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

/-- The same on the whole scratch buffers: staging row B, field buffer B. -/
theorem stepCat_6_2 (A : Arrs F) (i : Fin 26) (r : Fin 64)
    (f : (Memref.whole cc0_scratch6).view.ty.Contents (Elt F))
    (fcol : (Memref.whole cc0_scratch0).view.ty.Contents (Elt F)) (hcol : fcol = colRow A i r)
    (fc : (Memref.whole cc0_scratch2).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch2).view.readAt (Elt F) (Rect.unit (s := S4096) c0 S16.size ic0).toLoadRect fc] : Fin 2 → IVec S16 32) a x).toNat < S1x100000.size a) (hr1 : ∀ a x, ((![broadcast S16 0#32, (Memref.whole cc0_scratch2).view.readAt (Elt F) (Rect.unit (s := S4096) c1 S16.size ic1).toLoadRect fc] : Fin 2 → IVec S16 32) a x).toNat < S1x100000.size a)
    (hr2 : ∀ a x, ((![broadcast S16 0#32, (Memref.whole cc0_scratch2).view.readAt (Elt F) (Rect.unit (s := S4096) c2 S16.size ic2).toLoadRect fc] : Fin 2 → IVec S16 32) a x).toNat < S1x100000.size a) (hr3 : ∀ a x, ((![broadcast S16 0#32, (Memref.whole cc0_scratch2).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch6).view.writes (Elt F) f
        [⟨Rect.unit (s := S1x4096) o3 S1x16.size io3, catPay (Memref.whole cc0_scratch0).view (Memref.whole cc0_scratch2).view fcol fc c3 ic3 hr3 hs3⟩,
         ⟨Rect.unit (s := S1x4096) o2 S1x16.size io2, catPay (Memref.whole cc0_scratch0).view (Memref.whole cc0_scratch2).view fcol fc c2 ic2 hr2 hs2⟩,
         ⟨Rect.unit (s := S1x4096) o1 S1x16.size io1, catPay (Memref.whole cc0_scratch0).view (Memref.whole cc0_scratch2).view fcol fc c1 ic1 hr1 hs1⟩,
         ⟨Rect.unit (s := S1x4096) o0 S1x16.size io0, catPay (Memref.whole cc0_scratch0).view (Memref.whole cc0_scratch2).view fcol fc c0 ic0 hr0 hs0⟩] y = rowCat A i r y :=
  stepCat (Memref.whole cc0_scratch0).view (Memref.whole cc0_scratch2).view (Memref.whole cc0_scratch6).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

end Cert.Proof.KI

end
-- ==== Proof.KI.StepCls.lean ====
/-
  One trip of the class token's fill loop, and the splat vectors. A lane-indexed load at ONE word `w` broadcast over the 16
  lanes reads the same entry `w` of a flat array in every lane: that is how the kernel gets the class vector's entry `r`
  (and, for a numeric field, the weight and the bias `64 j + r`) as a 16-lane vector. Every piece of a class trip stores
  that one vector, so the trip extends the staging row's agreement with the constant row by 64 positions.
-/
import proofs.«207382_g17746804867166_cont_8to1_1179_25_alg».proof.Proof.KI.Step

noncomputable section

namespace Cert.Proof.KI

open Cert.KernelIdeal Cert.KernelIdeal.Gen

open Idealize.ShloMosaic Idealize.ShloMosaic.ValueIdx

variable {F : FTy → Type}

/-! ## A splat out of a flat array -/

/-- A lane-indexed load of a flat array `[n]` at one word `w` in every lane reads entry `w` in every lane. -/
theorem splat_apply {n : Nat} {sps : Space} (vs : View sig .scVector sps ⟨1, ![n]⟩ .f32) (fs : vs.ty.Contents (Elt F))
    (a : (⟨1, ![n]⟩ : Shape).Idx → Elt F .f32) (ha : vs.read (Elt F) fs = a) (w : BitVec 32) (q : Fin n) (hw : w.toNat = q.val)
    (hr : ∀ b x, ((![broadcast S16 w] : Fin 1 → IVec S16 32) b x).toNat < (⟨1, ![n]⟩ : Shape).size b) (l : S16.Idx) :
    loadIdx (vs.readAt (Elt F) (LoadRect.whole ⟨1, ![n]⟩) fs) ![broadcast S16 w] hr l = a (ix1 q) := by
  show vs.readAt (Elt F) (LoadRect.whole ⟨1, ![n]⟩) fs (idxAt _ hr l) = _
  rw [View.readAt_apply, ha]
  refine congrArg a (funext fun b => Fin.ext ?_)
  match b with
  | ⟨0, _⟩ => show 0 + 1 * w.toNat = q.val; omega

/-- The class vector's splat as the kernel computes it: the lane-indexed load, at the word `w` in every lane, of the class
    scratch as its fetch left it. -/
theorem clsPay_apply (A : Arrs F) (f9 : FVec F S64 .f32) (w : BitVec 32) (r : Fin 64) (hw : w.toNat = r.val)
    (h : ∀ a x, ((![broadcast S16 w] : Fin 1 → IVec S16 32) a x).toNat < S64.size a) :
    ∀ x, loadIdx (View.readAt (Elt F) (Memref.whole cc0_scratch9 : Memref sig .scVector .vmem S64 .f32).view (LoadRect.whole S64)
        (View.write (Elt F) (Memref.whole cc0_scratch9 : Memref sig .scVector .vmem S64 .f32).view f9
          (ReadAs.same.apply (View.read (Elt F) (Memref.whole main_v7_scv : Memref sig .scVector .hbm S64 .f32).view A.cls)) Finset.univ))
      ![broadcast S16 w] h x = A.cls (ix1 r) :=
  fun x => splat_apply (Memref.whole cc0_scratch9 : Memref sig .scVector .vmem S64 .f32).view
    (View.write (Elt F) (Memref.whole cc0_scratch9 : Memref sig .scVector .vmem S64 .f32).view f9
      (ReadAs.same.apply (View.read (Elt F) (Memref.whole main_v7_scv : Memref sig .scVector .hbm S64 .f32).view A.cls)) Finset.univ)
    A.cls ((View.read_whole (Val := Elt F) cc0_scratch9 _).trans (View.write_whole_univ (Val := Elt F) cc0_scratch9 f9 A.cls)) w r hw h x

/-- The weight splat: the lane-indexed load of the fetched weights at the word `64 j + r` in every lane. -/
theorem numW_apply (A : Arrs F) (j : Fin 13) (r : Fin 64)
    (fw : (Memref.whole cc0_scratch7 : Memref sig .scVector .vmem S832 .f32).view.ty.Contents (Elt F)) (hfw : fw = A.w)
    (w : BitVec 32) (hw : w.toNat = 64 * j.val + r.val)
    (h : ∀ a x, ((![broadcast S16 w] : Fin 1 → IVec S16 32) a x).toNat < S832.size a) :
    ∀ x, loadIdx (View.readAt (Elt F) (Memref.whole cc0_scratch7 : Memref sig .scVector .vmem S832 .f32).view (LoadRect.whole S832) fw)
      ![broadcast S16 w] h x = A.w (ix1 (wIdx j r)) :=
  fun x => splat_apply (Memref.whole cc0_scratch7 : Memref sig .scVector .vmem S832 .f32).view fw A.w hfw w (wIdx j r)
    (by rw [hw, wIdx_val]; omega) h x

/-- The bias splat: the same out of the fetched biases. -/
theorem numB_apply (A : Arrs F) (j : Fin 13) (r : Fin 64)
    (fb : (Memref.whole cc0_scratch8 : Memref sig .scVector .vmem S832 .f32).view.ty.Contents (Elt F)) (hfb : fb = A.b)
    (w : BitVec 32) (hw : w.toNat = 64 * j.val + r.val)
    (h : ∀ a x, ((![broadcast S16 w] : Fin 1 → IVec S16 32) a x).toNat < S832.size a) :
    ∀ x, loadIdx (View.readAt (Elt F) (Memref.whole cc0_scratch8 : Memref sig .scVector .vmem S832 .f32).view (LoadRect.whole S832) fb)
      ![broadcast S16 w] h x = A.b (ix1 (wIdx j r)) :=
  fun x => splat_apply (Memref.whole cc0_scratch8 : Memref sig .scVector .vmem S832 .f32).view fb A.b hfb w (wIdx j r)
    (by rw [hw, wIdx_val]; omega) h x

/-! ## A class piece -/

/-- A piece that stores one vector whose every lane is the class vector's entry `r` holds the class row. -/
theorem clsPiece_apply (A : Arrs F) (r : Fin 64) (pv : S16.Idx → Elt F .f32) (hpv : ∀ l, pv l = A.cls (ix1 r))
    (hs : S16.ShapeCasts S1x16) (m : Nat) (x : S1x16.Idx) (h : m + (x 1).val < 4096) :
    shapeCast S1x16 pv hs x = rowCls A r (ix2 (0 : Fin 1) (⟨m + (x 1).val, h⟩ : Fin 4096)) := by
  show pv (Shape.reshapeEquiv hs x) = _
  rw [hpv]
  rfl

section Cls

/-- ONE TRIP OF THE CLASS LOOP, through any view of the staging row. -/
theorem stepCls {spo : Space} (voc : View sig .scVector spo S1x4096 .f32) (A : Arrs F) (r : Fin 64)
    (f : voc.ty.Contents (Elt F)) (pv : S16.Idx → Elt F .f32) (hpv : ∀ l, pv l = A.cls (ix1 r)) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (hs0 hs1 hs2 hs3 : S16.ShapeCasts S1x16)
    (hf : ∀ y : S1x4096.Idx, (y 1).val < 64 * k → voc.read (Elt F) f y = rowCls A r y) :
    ∀ y : S1x4096.Idx, (y 1).val < 64 * (k + 1) →
      voc.read (Elt F) (voc.writes (Elt F) f
        [⟨Rect.unit (s := S1x4096) o3 S1x16.size io3, shapeCast S1x16 pv hs3⟩, ⟨Rect.unit (s := S1x4096) o2 S1x16.size io2, shapeCast S1x16 pv hs2⟩,
         ⟨Rect.unit (s := S1x4096) o1 S1x16.size io1, shapeCast S1x16 pv hs1⟩, ⟨Rect.unit (s := S1x4096) o0 S1x16.size io0, shapeCast S1x16 pv hs0⟩]) y = rowCls A r y :=
  step4 voc f (rowCls A r) k o0 o1 o2 o3 m0 m1 m2 m3 io0 io1 io2 io3 ho0 ho1 ho2 ho3 e0 e1 e2 e3 _ _ _ _
    (fun x h => clsPiece_apply A r pv hpv hs0 m0 x h) (fun x h => clsPiece_apply A r pv hpv hs1 m1 x h)
    (fun x h => clsPiece_apply A r pv hpv hs2 m2 x h) (fun x h => clsPiece_apply A r pv hpv hs3 m3 x h) hf

/-- The same on the whole staging row A. -/
theorem stepCls_5 (A : Arrs F) (r : Fin 64)
    (f : (Memref.whole cc0_scratch5).view.ty.Contents (Elt F)) (pv : S16.Idx → Elt F .f32) (hpv : ∀ l, pv l = A.cls (ix1 r)) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (hs0 hs1 hs2 hs3 : S16.ShapeCasts S1x16)
    (hf : ∀ y : S1x4096.Idx, (y 1).val < 64 * k → f y = rowCls A r y) :
    ∀ y : S1x4096.Idx, (y 1).val < 64 * (k + 1) →
      (Memref.whole cc0_scratch5).view.writes (Elt F) f
        [⟨Rect.unit (s := S1x4096) o3 S1x16.size io3, shapeCast S1x16 pv hs3⟩, ⟨Rect.unit (s := S1x4096) o2 S1x16.size io2, shapeCast S1x16 pv hs2⟩,
         ⟨Rect.unit (s := S1x4096) o1 S1x16.size io1, shapeCast S1x16 pv hs1⟩, ⟨Rect.unit (s := S1x4096) o0 S1x16.size io0, shapeCast S1x16 pv hs0⟩] y = rowCls A r y :=
  stepCls (Memref.whole cc0_scratch5).view A r f pv hpv k o0 o1 o2 o3 m0 m1 m2 m3 io0 io1 io2 io3 ho0 ho1 ho2 ho3 e0 e1 e2 e3 hs0 hs1 hs2 hs3 hf

/-- The same on the whole staging row B. -/
theorem stepCls_6 (A : Arrs F) (r : Fin 64)
    (f : (Memref.whole cc0_scratch6).view.ty.Contents (Elt F)) (pv : S16.Idx → Elt F .f32) (hpv : ∀ l, pv l = A.cls (ix1 r)) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (hs0 hs1 hs2 hs3 : S16.ShapeCasts S1x16)
    (hf : ∀ y : S1x4096.Idx, (y 1).val < 64 * k → f y = rowCls A r y) :
    ∀ y : S1x4096.Idx, (y 1).val < 64 * (k + 1) →
      (Memref.whole cc0_scratch6).view.writes (Elt F) f
        [⟨Rect.unit (s := S1x4096) o3 S1x16.size io3, shapeCast S1x16 pv hs3⟩, ⟨Rect.unit (s := S1x4096) o2 S1x16.size io2, shapeCast S1x16 pv hs2⟩,
         ⟨Rect.unit (s := S1x4096) o1 S1x16.size io1, shapeCast S1x16 pv hs1⟩, ⟨Rect.unit (s := S1x4096) o0 S1x16.size io0, shapeCast S1x16 pv hs0⟩] y = rowCls A r y :=
  stepCls (Memref.whole cc0_scratch6).view A r f pv hpv k o0 o1 o2 o3 m0 m1 m2 m3 io0 io1 io2 io3 ho0 ho1 ho2 ho3 e0 e1 e2 e3 hs0 hs1 hs2 hs3 hf

end Cls

end Cert.Proof.KI

end
-- ==== Proof.KI.StepNum.lean ====
/-
  One trip of a numeric field's fill loop. Each piece is the 16 numeric values the fetched field holds at the piece's
  position, times a weight vector, plus a bias vector, lane by lane; when every lane of the weight vector is `w[64 j + r]`
  and every lane of the bias vector is `b[64 j + r]`, lane `l` of the piece at position `m` is the numeric row's entry at
  `m + l`; so a trip extends the staging row's agreement with the numeric row by 64 positions.
-/
import proofs.«207382_g17746804867166_cont_8to1_1179_25_alg».proof.Proof.KI.Step

noncomputable section

namespace Cert.Proof.KI

open Cert.KernelIdeal Cert.KernelIdeal.Gen

open Idealize.ShloMosaic Idealize.ShloMosaic.ValueIdx

variable {F : FTy → Type}

variable [FloatOps F]

section Num
variable {spn : Space} (vn : View sig .scVector spn S4096 .f32)

/-- Lane `l` of the 16 values at position `m` of the fetched field is the field's value at `m + l`. -/
theorem numLane_apply (A : Arrs F) (j : Fin 13) (fn : vn.ty.Contents (Elt F)) (hnum : vn.read (Elt F) fn = numSlice A j)
    (c : Fin 1 → Nat) (m : Nat) (hc : c = ![m]) (ic : ∀ a, c a + S16.size a ≤ S4096.size a) (l : Fin 16) (h : m + l.val < 4096) :
    vn.readAt (Elt F) (Rect.unit (s := S4096) c S16.size ic).toLoadRect fn (ix1 l) = A.num (ix1 (numIdx j (⟨m + l.val, h⟩ : Fin 4096))) := by
  rw [View.readAt_apply, hnum]
  subst hc
  refine congrArg A.num (congrArg ix1 (congrArg (numIdx j) (Fin.ext ?_)))
  show m + 1 * l.val = m + l.val
  omega

/-- The piece a numeric trip stores at position `c`: the field's 16 values there times `ws` plus `bs`, as `[1, 16]`. -/
abbrev numPay (fn : vn.ty.Contents (Elt F)) (c : Fin 1 → Nat) (ic : ∀ a, c a + S16.size a ≤ S4096.size a)
    (ws bs : FVec F S16 .f32) (hs : S16.ShapeCasts S1x16) : S1x16.Idx → Elt F .f32 :=
  shapeCast S1x16 (addf (mulf (vn.readAt (Elt F) (Rect.unit (s := S4096) c S16.size ic).toLoadRect fn) ws) bs) hs

/-- Lane `l` of the piece at position `m` is the numeric row's entry at `m + l`. -/
theorem numPay_apply (A : Arrs F) (j : Fin 13) (r : Fin 64) (fn : vn.ty.Contents (Elt F)) (hnum : vn.read (Elt F) fn = numSlice A j)
    (ws bs : FVec F S16 .f32) (hws : ∀ l, ws l = A.w (ix1 (wIdx j r))) (hbs : ∀ l, bs l = A.b (ix1 (wIdx j r)))
    (c : Fin 1 → Nat) (m : Nat) (hc : c = ![m]) (ic : ∀ a, c a + S16.size a ≤ S4096.size a)
    (hs : S16.ShapeCasts S1x16) (x : S1x16.Idx) (h : m + (x 1).val < 4096) :
    numPay vn fn c ic ws bs hs x = rowNum A j r (ix2 (0 : Fin 1) (⟨m + (x 1).val, h⟩ : Fin 4096)) := by
  have hx0 : (x 0).val = 0 := by have : (x 0).val < 1 := (x 0).isLt; omega
  have hx1 : (x 1).val < 16 := (x 1).isLt
  have el : Shape.reshapeEquiv hs x = (ix1 (⟨(x 1).val, hx1⟩ : Fin 16) : S16.Idx) :=
    Shape.reshapeEquiv_eq_of_rowMajor hs (by
      rw [Shape.rowMajor_val_one, Shape.rowMajor_val_two]
      show (x 1).val = (x 0).val * 16 + (x 1).val
      rw [hx0]; omega)
  show FloatOps.addf (FloatOps.mulf (vn.readAt (Elt F) (Rect.unit (s := S4096) c S16.size ic).toLoadRect fn (Shape.reshapeEquiv hs x))
    (ws (Shape.reshapeEquiv hs x))) (bs (Shape.reshapeEquiv hs x)) = _
  rw [el, hws, hbs, numLane_apply vn A j fn hnum c m hc ic (⟨(x 1).val, hx1⟩ : Fin 16) h, rowNum_apply]

/-- ONE TRIP OF A NUMERIC LOOP, through any views of the staging row and the fetched field. -/
theorem stepNum {spo : Space} (voc : View sig .scVector spo S1x4096 .f32) (A : Arrs F) (j : Fin 13) (r : Fin 64)
    (f : voc.ty.Contents (Elt F)) (fn : vn.ty.Contents (Elt F)) (hnum : vn.read (Elt F) fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → voc.read (Elt F) f y = rowNum A j r y) :
    ∀ y : S1x4096.Idx, (y 1).val < 64 * (k + 1) →
      voc.read (Elt F) (voc.writes (Elt F) f
        [⟨Rect.unit (s := S1x4096) o3 S1x16.size io3, numPay vn fn c3 ic3 ws bs hs3⟩, ⟨Rect.unit (s := S1x4096) o2 S1x16.size io2, numPay vn fn c2 ic2 ws bs hs2⟩,
         ⟨Rect.unit (s := S1x4096) o1 S1x16.size io1, numPay vn fn c1 ic1 ws bs hs1⟩, ⟨Rect.unit (s := S1x4096) o0 S1x16.size io0, numPay vn fn c0 ic0 ws bs hs0⟩]) y = rowNum A j r y :=
  step4 voc f (rowNum A j r) k o0 o1 o2 o3 m0 m1 m2 m3 io0 io1 io2 io3 ho0 ho1 ho2 ho3 e0 e1 e2 e3 _ _ _ _
    (fun x h => numPay_apply vn A j r fn hnum ws bs hws hbs c0 m0 hc0 ic0 hs0 x h)
    (fun x h => numPay_apply vn A j r fn hnum ws bs hws hbs c1 m1 hc1 ic1 hs1 x h)
    (fun x h => numPay_apply vn A j r fn hnum ws bs hws hbs c2 m2 hc2 ic2 hs2 x h)
    (fun x h => numPay_apply vn A j r fn hnum ws bs hws hbs c3 m3 hc3 ic3 hs3 x h) hf

end Num

/-- The same on the whole scratch buffers: staging row A, field buffer A. -/
theorem stepNum_5_3 (A : Arrs F) (j : Fin 13) (r : Fin 64)
    (f : (Memref.whole cc0_scratch5).view.ty.Contents (Elt F)) (fn : (Memref.whole cc0_scratch3).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch5).view.writes (Elt F) f
        [⟨Rect.unit (s := S1x4096) o3 S1x16.size io3, numPay (Memref.whole cc0_scratch3).view fn c3 ic3 ws bs hs3⟩, ⟨Rect.unit (s := S1x4096) o2 S1x16.size io2, numPay (Memref.whole cc0_scratch3).view fn c2 ic2 ws bs hs2⟩,
         ⟨Rect.unit (s := S1x4096) o1 S1x16.size io1, numPay (Memref.whole cc0_scratch3).view fn c1 ic1 ws bs hs1⟩, ⟨Rect.unit (s := S1x4096) o0 S1x16.size io0, numPay (Memref.whole cc0_scratch3).view fn c0 ic0 ws bs hs0⟩] y = rowNum A j r y :=
  stepNum (Memref.whole cc0_scratch3).view (Memref.whole cc0_scratch5).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

/-- The same on the whole scratch buffers: staging row A, field buffer B. -/
theorem stepNum_5_4 (A : Arrs F) (j : Fin 13) (r : Fin 64)
    (f : (Memref.whole cc0_scratch5).view.ty.Contents (Elt F)) (fn : (Memref.whole cc0_scratch4).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch5).view.writes (Elt F) f
        [⟨Rect.unit (s := S1x4096) o3 S1x16.size io3, numPay (Memref.whole cc0_scratch4).view fn c3 ic3 ws bs hs3⟩, ⟨Rect.unit (s := S1x4096) o2 S1x16.size io2, numPay (Memref.whole cc0_scratch4).view fn c2 ic2 ws bs hs2⟩,
         ⟨Rect.unit (s := S1x4096) o1 S1x16.size io1, numPay (Memref.whole cc0_scratch4).view fn c1 ic1 ws bs hs1⟩, ⟨Rect.unit (s := S1x4096) o0 S1x16.size io0, numPay (Memref.whole cc0_scratch4).view fn c0 ic0 ws bs hs0⟩] y = rowNum A j r y :=
  stepNum (Memref.whole cc0_scratch4).view (Memref.whole cc0_scratch5).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

/-- The same on the whole scratch buffers: staging row B, field buffer A. -/
theorem stepNum_6_3 (A : Arrs F) (j : Fin 13) (r : Fin 64)
    (f : (Memref.whole cc0_scratch6).view.ty.Contents (Elt F)) (fn : (Memref.whole cc0_scratch3).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch6).view.writes (Elt F) f
        [⟨Rect.unit (s := S1x4096) o3 S1x16.size io3, numPay (Memref.whole cc0_scratch3).view fn c3 ic3 ws bs hs3⟩, ⟨Rect.unit (s := S1x4096) o2 S1x16.size io2, numPay (Memref.whole cc0_scratch3).view fn c2 ic2 ws bs hs2⟩,
         ⟨Rect.unit (s := S1x4096) o1 S1x16.size io1, numPay (Memref.whole cc0_scratch3).view fn c1 ic1 ws bs hs1⟩, ⟨Rect.unit (s := S1x4096) o0 S1x16.size io0, numPay (Memref.whole cc0_scratch3).view fn c0 ic0 ws bs hs0⟩] y = rowNum A j r y :=
  stepNum (Memref.whole cc0_scratch3).view (Memref.whole cc0_scratch6).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

/-- The same on the whole scratch buffers: staging row B, field buffer B. -/
theorem stepNum_6_4 (A : Arrs F) (j : Fin 13) (r : Fin 64)
    (f : (Memref.whole cc0_scratch6).view.ty.Contents (Elt F)) (fn : (Memref.whole cc0_scratch4).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch6).view.writes (Elt F) f
        [⟨Rect.unit (s := S1x4096) o3 S1x16.size io3, numPay (Memref.whole cc0_scratch4).view fn c3 ic3 ws bs hs3⟩, ⟨Rect.unit (s := S1x4096) o2 S1x16.size io2, numPay (Memref.whole cc0_scratch4).view fn c2 ic2 ws bs hs2⟩,
         ⟨Rect.unit (s := S1x4096) o1 S1x16.size io1, numPay (Memref.whole cc0_scratch4).view fn c1 ic1 ws bs hs1⟩, ⟨Rect.unit (s := S1x4096) o0 S1x16.size io0, numPay (Memref.whole cc0_scratch4).view fn c0 ic0 ws bs hs0⟩] y = rowNum A j r y :=
  stepNum (Memref.whole cc0_scratch4).view (Memref.whole cc0_scratch6).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

end Cert.Proof.KI

end
-- ==== Proof.KI.ColTable.lean ====
/-
  The 52 table rows a task fetches, one per category field and per feature row of its pair: the offsets at which the
  kernel slices the embedding array `[26, 64, 100000]` at grid point `L`, in closed form: `(i, 2w + dd, 0)`.
-/
import proofs.«207382_g17746804867166_cont_8to1_1179_25_alg».proof.Proof.KI.Rows

noncomputable section

namespace Cert.Proof.KI

open Cert.KernelIdeal Cert.KernelIdeal.Gen
open Idealize.ShloMosaic

theorem col_hoff_0_0 (L : grid0.Coords) : (k0_off5 L) = ![0, (rowOf L (⟨0, by decide⟩ : Fin 2)).val, 0] :=
  (k0_off5_eq L).trans (row_off_eq L (⟨0, by decide⟩ : Fin 40) (⟨0, by decide⟩ : Fin 2))

theorem col_hoff_0_1 (L : grid0.Coords) : (k0_off15 L) = ![0, (rowOf L (⟨1, by decide⟩ : Fin 2)).val, 0] :=
  (k0_off15_eq L).trans (row_off_eq L (⟨0, by decide⟩ : Fin 40) (⟨1, by decide⟩ : Fin 2))

theorem col_hoff_1_0 (L : grid0.Coords) : (k0_off26 L) = ![1, (rowOf L (⟨0, by decide⟩ : Fin 2)).val, 0] :=
  (k0_off26_eq L).trans (row_off_eq L (⟨1, by decide⟩ : Fin 40) (⟨0, by decide⟩ : Fin 2))

theorem col_hoff_1_1 (L : grid0.Coords) : (k0_off36 L) = ![1, (rowOf L (⟨1, by decide⟩ : Fin 2)).val, 0] :=
  (k0_off36_eq L).trans (row_off_eq L (⟨1, by decide⟩ : Fin 40) (⟨1, by decide⟩ : Fin 2))

theorem col_hoff_2_0 (L : grid0.Coords) : (k0_off47 L) = ![2, (rowOf L (⟨0, by decide⟩ : Fin 2)).val, 0] :=
  (k0_off47_eq L).trans (row_off_eq L (⟨2, by decide⟩ : Fin 40) (⟨0, by decide⟩ : Fin 2))

theorem col_hoff_2_1 (L : grid0.Coords) : (k0_off57 L) = ![2, (rowOf L (⟨1, by decide⟩ : Fin 2)).val, 0] :=
  (k0_off57_eq L).trans (row_off_eq L (⟨2, by decide⟩ : Fin 40) (⟨1, by decide⟩ : Fin 2))

theorem col_hoff_3_0 (L : grid0.Coords) : (k0_off68 L) = ![3, (rowOf L (⟨0, by decide⟩ : Fin 2)).val, 0] :=
  (k0_off68_eq L).trans (row_off_eq L (⟨3, by decide⟩ : Fin 40) (⟨0, by decide⟩ : Fin 2))

theorem col_hoff_3_1 (L : grid0.Coords) : (k0_off78 L) = ![3, (rowOf L (⟨1, by decide⟩ : Fin 2)).val, 0] :=
  (k0_off78_eq L).trans (row_off_eq L (⟨3, by decide⟩ : Fin 40) (⟨1, by decide⟩ : Fin 2))

theorem col_hoff_4_0 (L : grid0.Coords) : (k0_off89 L) = ![4, (rowOf L (⟨0, by decide⟩ : Fin 2)).val, 0] :=
  (k0_off89_eq L).trans (row_off_eq L (⟨4, by decide⟩ : Fin 40) (⟨0, by decide⟩ : Fin 2))

theorem col_hoff_4_1 (L : grid0.Coords) : (k0_off99 L) = ![4, (rowOf L (⟨1, by decide⟩ : Fin 2)).val, 0] :=
  (k0_off99_eq L).trans (row_off_eq L (⟨4, by decide⟩ : Fin 40) (⟨1, by decide⟩ : Fin 2))

theorem col_hoff_5_0 (L : grid0.Coords) : (k0_off110 L) = ![5, (rowOf L (⟨0, by decide⟩ : Fin 2)).val, 0] :=
  (k0_off110_eq L).trans (row_off_eq L (⟨5, by decide⟩ : Fin 40) (⟨0, by decide⟩ : Fin 2))

theorem col_hoff_5_1 (L : grid0.Coords) : (k0_off120 L) = ![5, (rowOf L (⟨1, by decide⟩ : Fin 2)).val, 0] :=
  (k0_off120_eq L).trans (row_off_eq L (⟨5, by decide⟩ : Fin 40) (⟨1, by decide⟩ : Fin 2))

theorem col_hoff_6_0 (L : grid0.Coords) : (k0_off131 L) = ![6, (rowOf L (⟨0, by decide⟩ : Fin 2)).val, 0] :=
  (k0_off131_eq L).trans (row_off_eq L (⟨6, by decide⟩ : Fin 40) (⟨0, by decide⟩ : Fin 2))

theorem col_hoff_6_1 (L : grid0.Coords) : (k0_off141 L) = ![6, (rowOf L (⟨1, by decide⟩ : Fin 2)).val, 0] :=
  (k0_off141_eq L).trans (row_off_eq L (⟨6, by decide⟩ : Fin 40) (⟨1, by decide⟩ : Fin 2))

theorem col_hoff_7_0 (L : grid0.Coords) : (k0_off152 L) = ![7, (rowOf L (⟨0, by decide⟩ : Fin 2)).val, 0] :=
  (k0_off152_eq L).trans (row_off_eq L (⟨7, by decide⟩ : Fin 40) (⟨0, by decide⟩ : Fin 2))

theorem col_hoff_7_1 (L : grid0.Coords) : (k0_off162 L) = ![7, (rowOf L (⟨1, by decide⟩ : Fin 2)).val, 0] :=
  (k0_off162_eq L).trans (row_off_eq L (⟨7, by decide⟩ : Fin 40) (⟨1, by decide⟩ : Fin 2))

theorem col_hoff_8_0 (L : grid0.Coords) : (k0_off173 L) = ![8, (rowOf L (⟨0, by decide⟩ : Fin 2)).val, 0] :=
  (k0_off173_eq L).trans (row_off_eq L (⟨8, by decide⟩ : Fin 40) (⟨0, by decide⟩ : Fin 2))

theorem col_hoff_8_1 (L : grid0.Coords) : (k0_off183 L) = ![8, (rowOf L (⟨1, by decide⟩ : Fin 2)).val, 0] :=
  (k0_off183_eq L).trans (row_off_eq L (⟨8, by decide⟩ : Fin 40) (⟨1, by decide⟩ : Fin 2))

theorem col_hoff_9_0 (L : grid0.Coords) : (k0_off194 L) = ![9, (rowOf L (⟨0, by decide⟩ : Fin 2)).val, 0] :=
  (k0_off194_eq L).trans (row_off_eq L (⟨9, by decide⟩ : Fin 40) (⟨0, by decide⟩ : Fin 2))

theorem col_hoff_9_1 (L : grid0.Coords) : (k0_off204 L) = ![9, (rowOf L (⟨1, by decide⟩ : Fin 2)).val, 0] :=
  (k0_off204_eq L).trans (row_off_eq L (⟨9, by decide⟩ : Fin 40) (⟨1, by decide⟩ : Fin 2))

theorem col_hoff_10_0 (L : grid0.Coords) : (k0_off215 L) = ![10, (rowOf L (⟨0, by decide⟩ : Fin 2)).val, 0] :=
  (k0_off215_eq L).trans (row_off_eq L (⟨10, by decide⟩ : Fin 40) (⟨0, by decide⟩ : Fin 2))

theorem col_hoff_10_1 (L : grid0.Coords) : (k0_off225 L) = ![10, (rowOf L (⟨1, by decide⟩ : Fin 2)).val, 0] :=
  (k0_off225_eq L).trans (row_off_eq L (⟨10, by decide⟩ : Fin 40) (⟨1, by decide⟩ : Fin 2))

theorem col_hoff_11_0 (L : grid0.Coords) : (k0_off236 L) = ![11, (rowOf L (⟨0, by decide⟩ : Fin 2)).val, 0] :=
  (k0_off236_eq L).trans (row_off_eq L (⟨11, by decide⟩ : Fin 40) (⟨0, by decide⟩ : Fin 2))

theorem col_hoff_11_1 (L : grid0.Coords) : (k0_off246 L) = ![11, (rowOf L (⟨1, by decide⟩ : Fin 2)).val, 0] :=
  (k0_off246_eq L).trans (row_off_eq L (⟨11, by decide⟩ : Fin 40) (⟨1, by decide⟩ : Fin 2))

theorem col_hoff_12_0 (L : grid0.Coords) : (k0_off257 L) = ![12, (rowOf L (⟨0, by decide⟩ : Fin 2)).val, 0] :=
  (k0_off257_eq L).trans (row_off_eq L (⟨12, by decide⟩ : Fin 40) (⟨0, by decide⟩ : Fin 2))

theorem col_hoff_12_1 (L : grid0.Coords) : (k0_off267 L) = ![12, (rowOf L (⟨1, by decide⟩ : Fin 2)).val, 0] :=
  (k0_off267_eq L).trans (row_off_eq L (⟨12, by decide⟩ : Fin 40) (⟨1, by decide⟩ : Fin 2))

theorem col_hoff_13_0 (L : grid0.Coords) : (k0_off278 L) = ![13, (rowOf L (⟨0, by decide⟩ : Fin 2)).val, 0] :=
  (k0_off278_eq L).trans (row_off_eq L (⟨13, by decide⟩ : Fin 40) (⟨0, by decide⟩ : Fin 2))

theorem col_hoff_13_1 (L : grid0.Coords) : (k0_off288 L) = ![13, (rowOf L (⟨1, by decide⟩ : Fin 2)).val, 0] :=
  (k0_off288_eq L).trans (row_off_eq L (⟨13, by decide⟩ : Fin 40) (⟨1, by decide⟩ : Fin 2))

theorem col_hoff_14_0 (L : grid0.Coords) : (k0_off299 L) = ![14, (rowOf L (⟨0, by decide⟩ : Fin 2)).val, 0] :=
  (k0_off299_eq L).trans (row_off_eq L (⟨14, by decide⟩ : Fin 40) (⟨0, by decide⟩ : Fin 2))

theorem col_hoff_14_1 (L : grid0.Coords) : (k0_off309 L) = ![14, (rowOf L (⟨1, by decide⟩ : Fin 2)).val, 0] :=
  (k0_off309_eq L).trans (row_off_eq L (⟨14, by decide⟩ : Fin 40) (⟨1, by decide⟩ : Fin 2))

theorem col_hoff_15_0 (L : grid0.Coords) : (k0_off320 L) = ![15, (rowOf L (⟨0, by decide⟩ : Fin 2)).val, 0] :=
  (k0_off320_eq L).trans (row_off_eq L (⟨15, by decide⟩ : Fin 40) (⟨0, by decide⟩ : Fin 2))

theorem col_hoff_15_1 (L : grid0.Coords) : (k0_off330 L) = ![15, (rowOf L (⟨1, by decide⟩ : Fin 2)).val, 0] :=
  (k0_off330_eq L).trans (row_off_eq L (⟨15, by decide⟩ : Fin 40) (⟨1, by decide⟩ : Fin 2))

theorem col_hoff_16_0 (L : grid0.Coords) : (k0_off341 L) = ![16, (rowOf L (⟨0, by decide⟩ : Fin 2)).val, 0] :=
  (k0_off341_eq L).trans (row_off_eq L (⟨16, by decide⟩ : Fin 40) (⟨0, by decide⟩ : Fin 2))

theorem col_hoff_16_1 (L : grid0.Coords) : (k0_off351 L) = ![16, (rowOf L (⟨1, by decide⟩ : Fin 2)).val, 0] :=
  (k0_off351_eq L).trans (row_off_eq L (⟨16, by decide⟩ : Fin 40) (⟨1, by decide⟩ : Fin 2))

theorem col_hoff_17_0 (L : grid0.Coords) : (k0_off362 L) = ![17, (rowOf L (⟨0, by decide⟩ : Fin 2)).val, 0] :=
  (k0_off362_eq L).trans (row_off_eq L (⟨17, by decide⟩ : Fin 40) (⟨0, by decide⟩ : Fin 2))

theorem col_hoff_17_1 (L : grid0.Coords) : (k0_off372 L) = ![17, (rowOf L (⟨1, by decide⟩ : Fin 2)).val, 0] :=
  (k0_off372_eq L).trans (row_off_eq L (⟨17, by decide⟩ : Fin 40) (⟨1, by decide⟩ : Fin 2))

theorem col_hoff_18_0 (L : grid0.Coords) : (k0_off383 L) = ![18, (rowOf L (⟨0, by decide⟩ : Fin 2)).val, 0] :=
  (k0_off383_eq L).trans (row_off_eq L (⟨18, by decide⟩ : Fin 40) (⟨0, by decide⟩ : Fin 2))

theorem col_hoff_18_1 (L : grid0.Coords) : (k0_off393 L) = ![18, (rowOf L (⟨1, by decide⟩ : Fin 2)).val, 0] :=
  (k0_off393_eq L).trans (row_off_eq L (⟨18, by decide⟩ : Fin 40) (⟨1, by decide⟩ : Fin 2))

theorem col_hoff_19_0 (L : grid0.Coords) : (k0_off404 L) = ![19, (rowOf L (⟨0, by decide⟩ : Fin 2)).val, 0] :=
  (k0_off404_eq L).trans (row_off_eq L (⟨19, by decide⟩ : Fin 40) (⟨0, by decide⟩ : Fin 2))

theorem col_hoff_19_1 (L : grid0.Coords) : (k0_off414 L) = ![19, (rowOf L (⟨1, by decide⟩ : Fin 2)).val, 0] :=
  (k0_off414_eq L).trans (row_off_eq L (⟨19, by decide⟩ : Fin 40) (⟨1, by decide⟩ : Fin 2))

theorem col_hoff_20_0 (L : grid0.Coords) : (k0_off425 L) = ![20, (rowOf L (⟨0, by decide⟩ : Fin 2)).val, 0] :=
  (k0_off425_eq L).trans (row_off_eq L (⟨20, by decide⟩ : Fin 40) (⟨0, by decide⟩ : Fin 2))

theorem col_hoff_20_1 (L : grid0.Coords) : (k0_off435 L) = ![20, (rowOf L (⟨1, by decide⟩ : Fin 2)).val, 0] :=
  (k0_off435_eq L).trans (row_off_eq L (⟨20, by decide⟩ : Fin 40) (⟨1, by decide⟩ : Fin 2))

theorem col_hoff_21_0 (L : grid0.Coords) : (k0_off446 L) = ![21, (rowOf L (⟨0, by decide⟩ : Fin 2)).val, 0] :=
  (k0_off446_eq L).trans (row_off_eq L (⟨21, by decide⟩ : Fin 40) (⟨0, by decide⟩ : Fin 2))

theorem col_hoff_21_1 (L : grid0.Coords) : (k0_off456 L) = ![21, (rowOf L (⟨1, by decide⟩ : Fin 2)).val, 0] :=
  (k0_off456_eq L).trans (row_off_eq L (⟨21, by decide⟩ : Fin 40) (⟨1, by decide⟩ : Fin 2))

theorem col_hoff_22_0 (L : grid0.Coords) : (k0_off467 L) = ![22, (rowOf L (⟨0, by decide⟩ : Fin 2)).val, 0] :=
  (k0_off467_eq L).trans (row_off_eq L (⟨22, by decide⟩ : Fin 40) (⟨0, by decide⟩ : Fin 2))

theorem col_hoff_22_1 (L : grid0.Coords) : (k0_off477 L) = ![22, (rowOf L (⟨1, by decide⟩ : Fin 2)).val, 0] :=
  (k0_off477_eq L).trans (row_off_eq L (⟨22, by decide⟩ : Fin 40) (⟨1, by decide⟩ : Fin 2))

theorem col_hoff_23_0 (L : grid0.Coords) : (k0_off488 L) = ![23, (rowOf L (⟨0, by decide⟩ : Fin 2)).val, 0] :=
  (k0_off488_eq L).trans (row_off_eq L (⟨23, by decide⟩ : Fin 40) (⟨0, by decide⟩ : Fin 2))

theorem col_hoff_23_1 (L : grid0.Coords) : (k0_off498 L) = ![23, (rowOf L (⟨1, by decide⟩ : Fin 2)).val, 0] :=
  (k0_off498_eq L).trans (row_off_eq L (⟨23, by decide⟩ : Fin 40) (⟨1, by decide⟩ : Fin 2))

theorem col_hoff_24_0 (L : grid0.Coords) : (k0_off509 L) = ![24, (rowOf L (⟨0, by decide⟩ : Fin 2)).val, 0] :=
  (k0_off509_eq L).trans (row_off_eq L (⟨24, by decide⟩ : Fin 40) (⟨0, by decide⟩ : Fin 2))

theorem col_hoff_24_1 (L : grid0.Coords) : (k0_off519 L) = ![24, (rowOf L (⟨1, by decide⟩ : Fin 2)).val, 0] :=
  (k0_off519_eq L).trans (row_off_eq L (⟨24, by decide⟩ : Fin 40) (⟨1, by decide⟩ : Fin 2))

theorem col_hoff_25_0 (L : grid0.Coords) : (k0_off530 L) = ![25, (rowOf L (⟨0, by decide⟩ : Fin 2)).val, 0] :=
  (k0_off530_eq L).trans (row_off_eq L (⟨25, by decide⟩ : Fin 40) (⟨0, by decide⟩ : Fin 2))

theorem col_hoff_25_1 (L : grid0.Coords) : (k0_off540 L) = ![25, (rowOf L (⟨1, by decide⟩ : Fin 2)).val, 0] :=
  (k0_off540_eq L).trans (row_off_eq L (⟨25, by decide⟩ : Fin 40) (⟨1, by decide⟩ : Fin 2))

end Cert.Proof.KI

end
-- ==== Proof.KI.Body.lean ====
/-
  One task's body, run emit by emit: the class token's two rows, the 26 category tokens' (each row a table row
  gathered at the batch's category words), the 13 numeric tokens' (value times weight plus bias); every staging row
  is filled by a counted loop and copied into its destination row of the result, two copies in flight at most.
-/
import proofs.«207382_g17746804867166_cont_8to1_1179_25_alg».proof.Proof.KI.BodyCtxV
import proofs.«207382_g17746804867166_cont_8to1_1179_25_alg».proof.Proof.KI.Enter
import proofs.«207382_g17746804867166_cont_8to1_1179_25_alg».proof.Proof.KI.Fetch
import proofs.«207382_g17746804867166_cont_8to1_1179_25_alg».proof.Proof.KI.StepCat
import proofs.«207382_g17746804867166_cont_8to1_1179_25_alg».proof.Proof.KI.StepCls
import proofs.«207382_g17746804867166_cont_8to1_1179_25_alg».proof.Proof.KI.StepNum
import proofs.«207382_g17746804867166_cont_8to1_1179_25_alg».proof.Proof.KI.ColTable
import proofs.«207382_g17746804867166_cont_8to1_1179_25_alg».proof.Proof.Gen.KernelIdeal.Skeleton
import Idealize.ShloMosaic.Lib.SparseCore.Ops
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- Sixteen words loaded from a category scratch whose words are vocabulary indices, beside the row index zero, name
    entries of the one-row column buffer. -/
theorem chk_cat_rd1 (v0 : IVec S16 32) (hv0 : v0 = broadcast S16 (0#32 : BitVec 32)) (fc : IVec S4096 32) (hfc : ∀ y, (fc y).toNat < 100000)
    (off : Fin 1 → Nat) (h : ∀ a, off a + S16.size a ≤ S4096.size a) :
    ∀ a x, ((![v0, (Memref.whole cc0_scratch1 : Memref sig .scVector .vmem S4096 .i32).view.readAt (Elt F) (Rect.unit (s := S4096) off S16.size h).toLoadRect fc] : Fin 2 → IVec S16 32) a x).toNat < S1x100000.size a := by
  subst hv0
  exact chk_cat _ (readAt_range1 (F := F) fc hfc (Rect.unit (s := S4096) off S16.size h).toLoadRect)

/-- Sixteen words loaded from a category scratch whose words are vocabulary indices, beside the row index zero, name
    entries of the one-row column buffer. -/
theorem chk_cat_rd2 (v0 : IVec S16 32) (hv0 : v0 = broadcast S16 (0#32 : BitVec 32)) (fc : IVec S4096 32) (hfc : ∀ y, (fc y).toNat < 100000)
    (off : Fin 1 → Nat) (h : ∀ a, off a + S16.size a ≤ S4096.size a) :
    ∀ a x, ((![v0, (Memref.whole cc0_scratch2 : Memref sig .scVector .vmem S4096 .i32).view.readAt (Elt F) (Rect.unit (s := S4096) off S16.size h).toLoadRect fc] : Fin 2 → IVec S16 32) a x).toNat < S1x100000.size a := by
  subst hv0
  exact chk_cat _ (readAt_range2 (F := F) fc hfc (Rect.unit (s := S4096) off S16.size h).toLoadRect)

/-- The word of a task's feature row is the row's number; the word of its weight entry the entry's. -/
theorem rowWord_toNat0 : ∀ L : grid0.Coords, (rowWord L 0#32).toNat = (rowOf L (⟨0, by decide⟩ : Fin 2)).val := by decide +kernel
theorem rowWord_toNat1 : ∀ L : grid0.Coords, (rowWord L 1#32).toNat = (rowOf L (⟨1, by decide⟩ : Fin 2)).val := by decide +kernel
theorem numWord_toNat : ∀ (j : Fin 13) (r : Fin 2) (L : grid0.Coords),
    (Scalar.addi (BitVec.ofNat 32 (64 * j.val)) (rowWord L (BitVec.ofNat 32 r.val))).toNat = 64 * j.val + (rowOf L r).val := by decide +kernel

/-! ## The fill loops' invariants: the staging row's first 64·k entries are the row's -/

def invCls0 (A : Arrs F) (d : Dev nD) (L : grid0.Coords) (k : Nat) (_ : PUnit) : sProp 𝕄 :=
  iprop(∃ f, ((Memref.whole cc0_scratch5 : Memref sig .scVector .vmem S1x4096 .f32).view.loc (thr d L) ↦{fullShare} f) ∗ ⌜∀ y : S1x4096.Idx, (y 1).val < 64 * k → (f : FVec F S1x4096 .f32) y = rowCls A (rowOf L (⟨0, by decide⟩ : Fin 2)) y⌝)
def invCls1 (A : Arrs F) (d : Dev nD) (L : grid0.Coords) (k : Nat) (_ : PUnit) : sProp 𝕄 :=
  iprop(∃ f, ((Memref.whole cc0_scratch6 : Memref sig .scVector .vmem S1x4096 .f32).view.loc (thr d L) ↦{fullShare} f) ∗ ⌜∀ y : S1x4096.Idx, (y 1).val < 64 * k → (f : FVec F S1x4096 .f32) y = rowCls A (rowOf L (⟨1, by decide⟩ : Fin 2)) y⌝)
def invCat15 (A : Arrs F) (i : Fin 26) (dd : Fin 2) (d : Dev nD) (L : grid0.Coords) (k : Nat) (_ : PUnit) : sProp 𝕄 :=
  iprop((∃ fc, ((Memref.whole cc0_scratch1 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowCat A i (rowOf L dd) y⌝))
def invCat16 (A : Arrs F) (i : Fin 26) (dd : Fin 2) (d : Dev nD) (L : grid0.Coords) (k : Nat) (_ : PUnit) : sProp 𝕄 :=
  iprop((∃ fc, ((Memref.whole cc0_scratch1 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowCat A i (rowOf L dd) y⌝))
def invCat25 (A : Arrs F) (i : Fin 26) (dd : Fin 2) (d : Dev nD) (L : grid0.Coords) (k : Nat) (_ : PUnit) : sProp 𝕄 :=
  iprop((∃ fc, ((Memref.whole cc0_scratch2 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowCat A i (rowOf L dd) y⌝))
def invCat26 (A : Arrs F) (i : Fin 26) (dd : Fin 2) (d : Dev nD) (L : grid0.Coords) (k : Nat) (_ : PUnit) : sProp 𝕄 :=
  iprop((∃ fc, ((Memref.whole cc0_scratch2 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowCat A i (rowOf L dd) y⌝))
def invNum35 (A : Arrs F) (j : Fin 13) (dd : Fin 2) (d : Dev nD) (L : grid0.Coords) (k : Nat) (_ : PUnit) : sProp 𝕄 :=
  iprop((∃ fn, ((Memref.whole cc0_scratch3 : Memref sig .scVector .vmem S4096 .f32).view.loc (thr d L) ↦{fullShare} fn) ∗ ⌜(fn : FVec F S4096 .f32) = numSlice A j⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowNum A j (rowOf L dd) y⌝))
def invNum36 (A : Arrs F) (j : Fin 13) (dd : Fin 2) (d : Dev nD) (L : grid0.Coords) (k : Nat) (_ : PUnit) : sProp 𝕄 :=
  iprop((∃ fn, ((Memref.whole cc0_scratch3 : Memref sig .scVector .vmem S4096 .f32).view.loc (thr d L) ↦{fullShare} fn) ∗ ⌜(fn : FVec F S4096 .f32) = numSlice A j⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowNum A j (rowOf L dd) y⌝))
def invNum45 (A : Arrs F) (j : Fin 13) (dd : Fin 2) (d : Dev nD) (L : grid0.Coords) (k : Nat) (_ : PUnit) : sProp 𝕄 :=
  iprop((∃ fn, ((Memref.whole cc0_scratch4 : Memref sig .scVector .vmem S4096 .f32).view.loc (thr d L) ↦{fullShare} fn) ∗ ⌜(fn : FVec F S4096 .f32) = numSlice A j⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowNum A j (rowOf L dd) y⌝))
def invNum46 (A : Arrs F) (j : Fin 13) (dd : Fin 2) (d : Dev nD) (L : grid0.Coords) (k : Nat) (_ : PUnit) : sProp 𝕄 :=
  iprop((∃ fn, ((Memref.whole cc0_scratch4 : Memref sig .scVector .vmem S4096 .f32).view.loc (thr d L) ↦{fullShare} fn) ∗ ⌜(fn : FVec F S4096 .f32) = numSlice A j⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowNum A j (rowOf L dd) y⌝))

/-! ## The run -/

/-- What the task starts from: the right to wait, the six operands (a read share each), its 80 destination rows, the ten
    scratch buffers, the 58 semaphores at zero, the rest of the subcore's scoped storage, what it owes. -/
def tilePre (A : Arrs F) (fo : FVec F S40x64x4096 .f32) (d : Dev nD) (L : grid0.Coords)
    (O : CellTallies nD τ sig (HIx 1)) (W : Waits sig (HIx 1))
    (f0 : FVec F S1x100000 .f32) (f1 f2 : IVec S4096 32) (f3 f4 : FVec F S4096 .f32) (f5 f6 : FVec F S1x4096 .f32)
    (f7 f8 : FVec F S832 .f32) (f9 : FVec F S64 .f32) : sProp 𝕄 :=
  iprop(Transfers.MayWaits (thr d L) (none : HIx 1) O
    ∗ ((Memref.whole main_v1_scv : Memref sig .scVector .hbm S106496 .i32).view.loc (thr d L) ↦{rsh (widL L)} A.cat)
    ∗ ((Memref.whole main_v3_scv : Memref sig .scVector .hbm S53248 .f32).view.loc (thr d L) ↦{rsh (widL L)} A.num)
    ∗ ((Memref.whole main_v4_scv : Memref sig .scVector .hbm S26x64x100000 .f32).view.loc (thr d L) ↦{rsh (widL L)} A.emb)
    ∗ ((Memref.whole main_v5_scv : Memref sig .scVector .hbm S832 .f32).view.loc (thr d L) ↦{rsh (widL L)} A.w)
    ∗ ((Memref.whole main_v6_scv : Memref sig .scVector .hbm S832 .f32).view.loc (thr d L) ↦{rsh (widL L)} A.b)
    ∗ ((Memref.whole main_v7_scv : Memref sig .scVector .hbm S64 .f32).view.loc (thr d L) ↦{rsh (widL L)} A.cls)
    ∗ rowsIn fo d L
    ∗ ((Memref.whole cc0_scratch0 : Memref sig .scVector .vmem S1x100000 .f32).view.loc (thr d L) ↦{fullShare} f0)
    ∗ ((Memref.whole cc0_scratch1 : Memref sig .scVector .vmem S4096 .i32).view.loc (thr d L) ↦{fullShare} f1)
    ∗ ((Memref.whole cc0_scratch2 : Memref sig .scVector .vmem S4096 .i32).view.loc (thr d L) ↦{fullShare} f2)
    ∗ ((Memref.whole cc0_scratch3 : Memref sig .scVector .vmem S4096 .f32).view.loc (thr d L) ↦{fullShare} f3)
    ∗ ((Memref.whole cc0_scratch4 : Memref sig .scVector .vmem S4096 .f32).view.loc (thr d L) ↦{fullShare} f4)
    ∗ ((Memref.whole cc0_scratch5 : Memref sig .scVector .vmem S1x4096 .f32).view.loc (thr d L) ↦{fullShare} f5)
    ∗ ((Memref.whole cc0_scratch6 : Memref sig .scVector .vmem S1x4096 .f32).view.loc (thr d L) ↦{fullShare} f6)
    ∗ ((Memref.whole cc0_scratch7 : Memref sig .scVector .vmem S832 .f32).view.loc (thr d L) ↦{fullShare} f7)
    ∗ ((Memref.whole cc0_scratch8 : Memref sig .scVector .vmem S832 .f32).view.loc (thr d L) ↦{fullShare} f8)
    ∗ ((Memref.whole cc0_scratch9 : Memref sig .scVector .vmem S64 .f32).view.loc (thr d L) ↦{fullShare} f9)
    ∗ semVal (thr d L, SemLoc.dma cc0_scratch10.sem) 0
    ∗ semVal (thr d L, SemLoc.dma cc0_scratch11.sem) 0
    ∗ semVal (thr d L, SemLoc.dma cc0_scratch12.sem) 0
    ∗ semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0
    ∗ semVal (thr d L, SemLoc.dma cc0_scoped4.sem) 0
    ∗ semVal (thr d L, SemLoc.dma cc0_scoped5.sem) 0
    ∗ semVal (thr d L, SemLoc.dma cc0_scoped6.sem) 0
    ∗ semVal (thr d L, SemLoc.dma cc0_scoped7.sem) 0
    ∗ semVal (thr d L, SemLoc.dma cc0_scoped8.sem) 0
    ∗ semVal (thr d L, SemLoc.dma cc0_scoped9.sem) 0
    ∗ semVal (thr d L, SemLoc.dma cc0_scoped10.sem) 0
    ∗ semVal (thr d L, SemLoc.dma cc0_scoped11.sem) 0
    ∗ semVal (thr d L, SemLoc.dma cc0_scoped12.sem) 0
    ∗ semVal (thr d L, SemLoc.dma cc0_scoped13.sem) 0
    ∗ semVal (thr d L, SemLoc.dma cc0_scoped14.sem) 0
    ∗ semVal (thr d L, SemLoc.dma cc0_scoped15.sem) 0
    ∗ semVal (thr d L, SemLoc.dma cc0_scoped16.sem) 0
    ∗ semVal (thr d L, SemLoc.dma cc0_scoped17.sem) 0
    ∗ semVal (thr d L, SemLoc.dma cc0_scoped18.sem) 0
    ∗ semVal (thr d L, SemLoc.dma cc0_scoped19.sem) 0
    ∗ semVal (thr d L, SemLoc.dma cc0_scoped20.sem) 0
    ∗ semVal (thr d L, SemLoc.dma cc0_scoped21.sem) 0
    ∗ semVal (thr d L, SemLoc.dma cc0_scoped22.sem) 0
    ∗ semVal (thr d L, SemLoc.dma cc0_scoped23.sem) 0
    ∗ semVal (thr d L, SemLoc.dma cc0_scoped24.sem) 0
    ∗ semVal (thr d L, SemLoc.dma cc0_scoped25.sem) 0
    ∗ semVal (thr d L, SemLoc.dma cc0_scoped26.sem) 0
    ∗ semVal (thr d L, SemLoc.dma cc0_scoped27.sem) 0
    ∗ semVal (thr d L, SemLoc.dma cc0_scoped28.sem) 0
    ∗ semVal (thr d L, SemLoc.dma cc0_scoped29.sem) 0
    ∗ semVal (thr d L, SemLoc.dma cc0_scoped30.sem) 0
    ∗ semVal (thr d L, SemLoc.dma cc0_scoped31.sem) 0
    ∗ semVal (thr d L, SemLoc.dma cc0_scoped32.sem) 0
    ∗ semVal (thr d L, SemLoc.dma cc0_scoped33.sem) 0
    ∗ semVal (thr d L, SemLoc.dma cc0_scoped34.sem) 0
    ∗ semVal (thr d L, SemLoc.dma cc0_scoped35.sem) 0
    ∗ semVal (thr d L, SemLoc.dma cc0_scoped36.sem) 0
    ∗ semVal (thr d L, SemLoc.dma cc0_scoped37.sem) 0
    ∗ semVal (thr d L, SemLoc.dma cc0_scoped38.sem) 0
    ∗ semVal (thr d L, SemLoc.dma cc0_scoped39.sem) 0
    ∗ semVal (thr d L, SemLoc.dma cc0_scoped40.sem) 0
    ∗ semVal (thr d L, SemLoc.dma cc0_scoped41.sem) 0
    ∗ semVal (thr d L, SemLoc.dma cc0_scoped42.sem) 0
    ∗ semVal (thr d L, SemLoc.dma cc0_scoped43.sem) 0
    ∗ semVal (thr d L, SemLoc.dma cc0_scoped44.sem) 0
    ∗ semVal (thr d L, SemLoc.dma cc0_scoped45.sem) 0
    ∗ semVal (thr d L, SemLoc.dma cc0_scoped46.sem) 0
    ∗ semVal (thr d L, SemLoc.dma cc0_scoped47.sem) 0
    ∗ semVal (thr d L, SemLoc.dma cc0_scoped48.sem) 0
    ∗ semVal (thr d L, SemLoc.dma cc0_scoped49.sem) 0
    ∗ semVal (thr d L, SemLoc.dma cc0_scoped50.sem) 0
    ∗ semVal (thr d L, SemLoc.dma cc0_scoped51.sem) 0
    ∗ semVal (thr d L, SemLoc.dma cc0_scoped52.sem) 0
    ∗ semVal (thr d L, SemLoc.dma cc0_scoped53.sem) 0
    ∗ semVal (thr d L, SemLoc.dma cc0_scoped54.sem) 0
    ∗ restV d (cV L) (jV L)
    ∗ owes (thr d L) O W)

/-- What it ends with: the waits it recorded, the operands back, every destination row written with the result's values,
    the scratch at some contents, the semaphores at zero again. -/
def tilePost (A : Arrs F) (d : Dev nD) (L : grid0.Coords) (O : CellTallies nD τ sig (HIx 1)) (W : Waits sig (HIx 1)) : sProp 𝕄 :=
  iprop((∃ W', ⌜OkW W W'⌝ ∗ owes (thr d L) O W')
    ∗ ((Memref.whole main_v1_scv : Memref sig .scVector .hbm S106496 .i32).view.loc (thr d L) ↦{rsh (widL L)} A.cat)
    ∗ ((Memref.whole main_v3_scv : Memref sig .scVector .hbm S53248 .f32).view.loc (thr d L) ↦{rsh (widL L)} A.num)
    ∗ ((Memref.whole main_v4_scv : Memref sig .scVector .hbm S26x64x100000 .f32).view.loc (thr d L) ↦{rsh (widL L)} A.emb)
    ∗ ((Memref.whole main_v5_scv : Memref sig .scVector .hbm S832 .f32).view.loc (thr d L) ↦{rsh (widL L)} A.w)
    ∗ ((Memref.whole main_v6_scv : Memref sig .scVector .hbm S832 .f32).view.loc (thr d L) ↦{rsh (widL L)} A.b)
    ∗ ((Memref.whole main_v7_scv : Memref sig .scVector .hbm S64 .f32).view.loc (thr d L) ↦{rsh (widL L)} A.cls)
    ∗ rowsDone A d L
    ∗ (∃ f, (Memref.whole cc0_scratch0 : Memref sig .scVector .vmem S1x100000 .f32).view.loc (thr d L) ↦{fullShare} f)
    ∗ (∃ f, (Memref.whole cc0_scratch1 : Memref sig .scVector .vmem S4096 .i32).view.loc (thr d L) ↦{fullShare} f)
    ∗ (∃ f, (Memref.whole cc0_scratch2 : Memref sig .scVector .vmem S4096 .i32).view.loc (thr d L) ↦{fullShare} f)
    ∗ (∃ f, (Memref.whole cc0_scratch3 : Memref sig .scVector .vmem S4096 .f32).view.loc (thr d L) ↦{fullShare} f)
    ∗ (∃ f, (Memref.whole cc0_scratch4 : Memref sig .scVector .vmem S4096 .f32).view.loc (thr d L) ↦{fullShare} f)
    ∗ (∃ f, (Memref.whole cc0_scratch5 : Memref sig .scVector .vmem S1x4096 .f32).view.loc (thr d L) ↦{fullShare} f)
    ∗ (∃ f, (Memref.whole cc0_scratch6 : Memref sig .scVector .vmem S1x4096 .f32).view.loc (thr d L) ↦{fullShare} f)
    ∗ (∃ f, (Memref.whole cc0_scratch7 : Memref sig .scVector .vmem S832 .f32).view.loc (thr d L) ↦{fullShare} f)
    ∗ (∃ f, (Memref.whole cc0_scratch8 : Memref sig .scVector .vmem S832 .f32).view.loc (thr d L) ↦{fullShare} f)
    ∗ (∃ f, (Memref.whole cc0_scratch9 : Memref sig .scVector .vmem S64 .f32).view.loc (thr d L) ↦{fullShare} f)
    ∗ semVal (thr d L, SemLoc.dma cc0_scratch10.sem) 0
    ∗ semVal (thr d L, SemLoc.dma cc0_scratch11.sem) 0
    ∗ semVal (thr d L, SemLoc.dma cc0_scratch12.sem) 0
    ∗ semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0
    ∗ semVal (thr d L, SemLoc.dma cc0_scoped4.sem) 0
    ∗ semVal (thr d L, SemLoc.dma cc0_scoped5.sem) 0
    ∗ semVal (thr d L, SemLoc.dma cc0_scoped6.sem) 0
    ∗ semVal (thr d L, SemLoc.dma cc0_scoped7.sem) 0
    ∗ semVal (thr d L, SemLoc.dma cc0_scoped8.sem) 0
    ∗ semVal (thr d L, SemLoc.dma cc0_scoped9.sem) 0
    ∗ semVal (thr d L, SemLoc.dma cc0_scoped10.sem) 0
    ∗ semVal (thr d L, SemLoc.dma cc0_scoped11.sem) 0
    ∗ semVal (thr d L, SemLoc.dma cc0_scoped12.sem) 0
    ∗ semVal (thr d L, SemLoc.dma cc0_scoped13.sem) 0
    ∗ semVal (thr d L, SemLoc.dma cc0_scoped14.sem) 0
    ∗ semVal (thr d L, SemLoc.dma cc0_scoped15.sem) 0
    ∗ semVal (thr d L, SemLoc.dma cc0_scoped16.sem) 0
    ∗ semVal (thr d L, SemLoc.dma cc0_scoped17.sem) 0
    ∗ semVal (thr d L, SemLoc.dma cc0_scoped18.sem) 0
    ∗ semVal (thr d L, SemLoc.dma cc0_scoped19.sem) 0
    ∗ semVal (thr d L, SemLoc.dma cc0_scoped20.sem) 0
    ∗ semVal (thr d L, SemLoc.dma cc0_scoped21.sem) 0
    ∗ semVal (thr d L, SemLoc.dma cc0_scoped22.sem) 0
    ∗ semVal (thr d L, SemLoc.dma cc0_scoped23.sem) 0
    ∗ semVal (thr d L, SemLoc.dma cc0_scoped24.sem) 0
    ∗ semVal (thr d L, SemLoc.dma cc0_scoped25.sem) 0
    ∗ semVal (thr d L, SemLoc.dma cc0_scoped26.sem) 0
    ∗ semVal (thr d L, SemLoc.dma cc0_scoped27.sem) 0
    ∗ semVal (thr d L, SemLoc.dma cc0_scoped28.sem) 0
    ∗ semVal (thr d L, SemLoc.dma cc0_scoped29.sem) 0
    ∗ semVal (thr d L, SemLoc.dma cc0_scoped30.sem) 0
    ∗ semVal (thr d L, SemLoc.dma cc0_scoped31.sem) 0
    ∗ semVal (thr d L, SemLoc.dma cc0_scoped32.sem) 0
    ∗ semVal (thr d L, SemLoc.dma cc0_scoped33.sem) 0
    ∗ semVal (thr d L, SemLoc.dma cc0_scoped34.sem) 0
    ∗ semVal (thr d L, SemLoc.dma cc0_scoped35.sem) 0
    ∗ semVal (thr d L, SemLoc.dma cc0_scoped36.sem) 0
    ∗ semVal (thr d L, SemLoc.dma cc0_scoped37.sem) 0
    ∗ semVal (thr d L, SemLoc.dma cc0_scoped38.sem) 0
    ∗ semVal (thr d L, SemLoc.dma cc0_scoped39.sem) 0
    ∗ semVal (thr d L, SemLoc.dma cc0_scoped40.sem) 0
    ∗ semVal (thr d L, SemLoc.dma cc0_scoped41.sem) 0
    ∗ semVal (thr d L, SemLoc.dma cc0_scoped42.sem) 0
    ∗ semVal (thr d L, SemLoc.dma cc0_scoped43.sem) 0
    ∗ semVal (thr d L, SemLoc.dma cc0_scoped44.sem) 0
    ∗ semVal (thr d L, SemLoc.dma cc0_scoped45.sem) 0
    ∗ semVal (thr d L, SemLoc.dma cc0_scoped46.sem) 0
    ∗ semVal (thr d L, SemLoc.dma cc0_scoped47.sem) 0
    ∗ semVal (thr d L, SemLoc.dma cc0_scoped48.sem) 0
    ∗ semVal (thr d L, SemLoc.dma cc0_scoped49.sem) 0
    ∗ semVal (thr d L, SemLoc.dma cc0_scoped50.sem) 0
    ∗ semVal (thr d L, SemLoc.dma cc0_scoped51.sem) 0
    ∗ semVal (thr d L, SemLoc.dma cc0_scoped52.sem) 0
    ∗ semVal (thr d L, SemLoc.dma cc0_scoped53.sem) 0
    ∗ semVal (thr d L, SemLoc.dma cc0_scoped54.sem) 0
    ∗ restV d (cV L) (jV L))

set_option maxHeartbeats 0 in
/-- The task at grid point `L`, run. -/
theorem tile_run (A : Arrs F) (hcat : ∀ j, (A.cat j).toNat < 100000) (fo : FVec F S40x64x4096 .f32) (d : Dev nD) (L : grid0.Coords)
    (O : CellTallies nD τ sig (HIx 1)) (W : Waits sig (HIx 1))
    (f0 : FVec F S1x100000 .f32) (f1 f2 : IVec S4096 32) (f3 f4 : FVec F S4096 .f32) (f5 f6 : FVec F S1x4096 .f32)
    (f7 f8 : FVec F S832 .f32) (f9 : FVec F S64 .f32) :
    tilePre A fo d L O W f0 f1 f2 f3 f4 f5 f6 f7 f8 f9
      ⊢ wp frame (wpE (defs₀ (F := F)) 𝒱₀ (thr d L) none) Set.univ (kern (F := F) L) fun _ => tilePost A d L O W := by
  unfold tilePre tilePost
  unfold kern; rw [cc0__tokenize_eq_skeleton]; unfold cc0__tokenize_skel
  unfold rowsIn
  iintro ⟨Hmw, Hcat, Hnum, Hemb, Hw, Hb, Hcls, ⟨Hr0_0, Hr0_1, Hr1_0, Hr1_1, Hr2_0, Hr2_1, Hr3_0, Hr3_1, Hr4_0, Hr4_1, Hr5_0, Hr5_1, Hr6_0, Hr6_1, Hr7_0, Hr7_1, Hr8_0, Hr8_1, Hr9_0, Hr9_1, Hr10_0, Hr10_1, Hr11_0, Hr11_1, Hr12_0, Hr12_1, Hr13_0, Hr13_1, Hr14_0, Hr14_1, Hr15_0, Hr15_1, Hr16_0, Hr16_1, Hr17_0, Hr17_1, Hr18_0, Hr18_1, Hr19_0, Hr19_1, Hr20_0, Hr20_1, Hr21_0, Hr21_1, Hr22_0, Hr22_1, Hr23_0, Hr23_1, Hr24_0, Hr24_1, Hr25_0, Hr25_1, Hr26_0, Hr26_1, Hr27_0, Hr27_1, Hr28_0, Hr28_1, Hr29_0, Hr29_1, Hr30_0, Hr30_1, Hr31_0, Hr31_1, Hr32_0, Hr32_1, Hr33_0, Hr33_1, Hr34_0, Hr34_1, Hr35_0, Hr35_1, Hr36_0, Hr36_1, Hr37_0, Hr37_1, Hr38_0, Hr38_1, Hr39_0, Hr39_1⟩, H0, H1, H2, H3, H4, H5, H6, H7, H8, H9, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hrest, HO⟩
  -- token 0, row 0: the class entry splat over the staging row
  sl_exec_parts (disch := exact chk_cls0 L)
  try unfold SparseCore.vectorLoadIdx
  sl_exec_parts (disch := exact chk_cls0 L)
  sl_for (invCls0 (F := F) A d L) $$ [H5]
  case region =>
    intro k _
    unfold invCls0
    iintro ⟨%f, Ho, %hf⟩
    sl_exec
    sl_step
    iexists _; isplitl [Ho]; · iexact Ho
    ipureintro
    exact stepCls_5 A (rowOf L (⟨0, by decide⟩ : Fin 2)) _ _ (clsPay_apply A _ _ (rowOf L (⟨0, by decide⟩ : Fin 2)) (rowWord_toNat0 L) _) k.val _ _ _ _ _ _ _ _ _ _ _ _ ClosedOff.eq ClosedOff.eq ClosedOff.eq ClosedOff.eq rfl rfl rfl rfl _ _ _ _ hf
  · unfold invCls0; iexists _; isplitl [H5]; · iexact H5
    ipureintro; intro y hy; exact absurd hy (by omega)
  iintro %_ HI
  unfold invCls0
  icases HI with ⟨%fo_0_0, H5, %hfo_0_0⟩
  -- token 0, row 1: the class entry splat over the staging row
  sl_exec_parts (disch := exact chk_cls1 L)
  try unfold SparseCore.vectorLoadIdx
  sl_exec_parts (disch := exact chk_cls1 L)
  sl_for (invCls1 (F := F) A d L) $$ [H6]
  case region =>
    intro k _
    unfold invCls1
    iintro ⟨%f, Ho, %hf⟩
    sl_exec
    sl_step
    iexists _; isplitl [Ho]; · iexact Ho
    ipureintro
    exact stepCls_6 A (rowOf L (⟨1, by decide⟩ : Fin 2)) _ _ (clsPay_apply A _ _ (rowOf L (⟨1, by decide⟩ : Fin 2)) (rowWord_toNat1 L) _) k.val _ _ _ _ _ _ _ _ _ _ _ _ ClosedOff.eq ClosedOff.eq ClosedOff.eq ClosedOff.eq rfl rfl rfl rfl _ _ _ _ hf
  · unfold invCls1; iexists _; isplitl [H6]; · iexact H6
    ipureintro; intro y hy; exact absurd hy (by omega)
  iintro %_ HI
  unfold invCls1
  icases HI with ⟨%fo_0_1, H6, %hfo_0_1⟩
  -- token 1, row 0: column 0's table row gathered at the batch's category words
  sl_exec_parts
  try unfold SparseCore.vectorLoadIdx
  sl_exec_parts
  sl_for (invCat15 (F := F) A (⟨0, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨0, by decide⟩ : Fin 26)) (catSlice_range A hcat (⟨0, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨0, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨0, by decide⟩ : Fin 26) _ _ rfl)
    isplitl [H0]
    · iexists _; isplitl [H0]; · iexact H0
      ipureintro; exact (fetch_whole cc0_scratch0 _ _).trans (colSrc_read A (⟨0, by decide⟩ : Fin 26) (rowOf L (⟨0, by decide⟩ : Fin 2)) _ _ (col_hoff_0_0 L))
    iexists _; isplitl [H5]; · iexact H5
    ipureintro; intro y hy; exact absurd hy (by omega)
  iintro %_ HI
  unfold invCat15
  icases HI with ⟨⟨%fc_0_0, H1, %hfc_0_0⟩, ⟨%fcol_0_0, H0, %hfcol_0_0⟩, ⟨%fo_1_0, H5, %hfo_1_0⟩⟩
  subst hfc_0_0; subst hfcol_0_0
  -- token 1, row 1: column 0's table row gathered at the batch's category words
  sl_exec_parts
  try unfold SparseCore.vectorLoadIdx
  sl_exec_parts
  sl_for (invCat16 (F := F) A (⟨0, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨0, by decide⟩ : Fin 26)) (catSlice_range A hcat (⟨0, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨0, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨0, by decide⟩ : Fin 26) (rowOf L (⟨1, by decide⟩ : Fin 2)) _ _ (col_hoff_0_1 L))
    iexists _; isplitl [H6]; · iexact H6
    ipureintro; intro y hy; exact absurd hy (by omega)
  iintro %_ HI
  unfold invCat16
  icases HI with ⟨⟨%fc_0_1, H1, %hfc_0_1⟩, ⟨%fcol_0_1, H0, %hfcol_0_1⟩, ⟨%fo_1_1, H6, %hfo_1_1⟩⟩
  subst hfc_0_1; subst hfcol_0_1
  -- token 2, row 0: column 1's table row gathered at the batch's category words
  sl_exec_parts
  try unfold SparseCore.vectorLoadIdx
  sl_exec_parts
  sl_for (invCat25 (F := F) A (⟨1, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨1, by decide⟩ : Fin 26)) (catSlice_range A hcat (⟨1, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨1, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨1, by decide⟩ : Fin 26) _ _ rfl)
    isplitl [H0]
    · iexists _; isplitl [H0]; · iexact H0
      ipureintro; exact (fetch_whole cc0_scratch0 _ _).trans (colSrc_read A (⟨1, by decide⟩ : Fin 26) (rowOf L (⟨0, by decide⟩ : Fin 2)) _ _ (col_hoff_1_0 L))
    iexists _; isplitl [H5]; · iexact H5
    ipureintro; intro y hy; exact absurd hy (by omega)
  iintro %_ HI
  unfold invCat25
  icases HI with ⟨⟨%fc_1_0, H2, %hfc_1_0⟩, ⟨%fcol_1_0, H0, %hfcol_1_0⟩, ⟨%fo_2_0, H5, %hfo_2_0⟩⟩
  subst hfc_1_0; subst hfcol_1_0
  -- token 2, row 1: column 1's table row gathered at the batch's category words
  sl_exec_parts
  try unfold SparseCore.vectorLoadIdx
  sl_exec_parts
  sl_for (invCat26 (F := F) A (⟨1, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨1, by decide⟩ : Fin 26)) (catSlice_range A hcat (⟨1, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨1, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨1, by decide⟩ : Fin 26) (rowOf L (⟨1, by decide⟩ : Fin 2)) _ _ (col_hoff_1_1 L))
    iexists _; isplitl [H6]; · iexact H6
    ipureintro; intro y hy; exact absurd hy (by omega)
  iintro %_ HI
  unfold invCat26
  icases HI with ⟨⟨%fc_1_1, H2, %hfc_1_1⟩, ⟨%fcol_1_1, H0, %hfcol_1_1⟩, ⟨%fo_2_1, H6, %hfo_2_1⟩⟩
  subst hfc_1_1; subst hfcol_1_1
  -- token 3, row 0: column 2's table row gathered at the batch's category words
  sl_exec_parts
  try unfold SparseCore.vectorLoadIdx
  sl_exec_parts
  sl_for (invCat15 (F := F) A (⟨2, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨2, by decide⟩ : Fin 26)) (catSlice_range A hcat (⟨2, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨2, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨2, by decide⟩ : Fin 26) _ _ rfl)
    isplitl [H0]
    · iexists _; isplitl [H0]; · iexact H0
      ipureintro; exact (fetch_whole cc0_scratch0 _ _).trans (colSrc_read A (⟨2, by decide⟩ : Fin 26) (rowOf L (⟨0, by decide⟩ : Fin 2)) _ _ (col_hoff_2_0 L))
    iexists _; isplitl [H5]; · iexact H5
    ipureintro; intro y hy; exact absurd hy (by omega)
  iintro %_ HI
  unfold invCat15
  icases HI with ⟨⟨%fc_2_0, H1, %hfc_2_0⟩, ⟨%fcol_2_0, H0, %hfcol_2_0⟩, ⟨%fo_3_0, H5, %hfo_3_0⟩⟩
  subst hfc_2_0; subst hfcol_2_0
  -- token 3, row 1: column 2's table row gathered at the batch's category words
  sl_exec_parts
  try unfold SparseCore.vectorLoadIdx
  sl_exec_parts
  sl_for (invCat16 (F := F) A (⟨2, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨2, by decide⟩ : Fin 26)) (catSlice_range A hcat (⟨2, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨2, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨2, by decide⟩ : Fin 26) (rowOf L (⟨1, by decide⟩ : Fin 2)) _ _ (col_hoff_2_1 L))
    iexists _; isplitl [H6]; · iexact H6
    ipureintro; intro y hy; exact absurd hy (by omega)
  iintro %_ HI
  unfold invCat16
  icases HI with ⟨⟨%fc_2_1, H1, %hfc_2_1⟩, ⟨%fcol_2_1, H0, %hfcol_2_1⟩, ⟨%fo_3_1, H6, %hfo_3_1⟩⟩
  subst hfc_2_1; subst hfcol_2_1
  -- token 4, row 0: column 3's table row gathered at the batch's category words
  sl_exec_parts
  try unfold SparseCore.vectorLoadIdx
  sl_exec_parts
  sl_for (invCat25 (F := F) A (⟨3, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨3, by decide⟩ : Fin 26)) (catSlice_range A hcat (⟨3, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨3, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨3, by decide⟩ : Fin 26) _ _ rfl)
    isplitl [H0]
    · iexists _; isplitl [H0]; · iexact H0
      ipureintro; exact (fetch_whole cc0_scratch0 _ _).trans (colSrc_read A (⟨3, by decide⟩ : Fin 26) (rowOf L (⟨0, by decide⟩ : Fin 2)) _ _ (col_hoff_3_0 L))
    iexists _; isplitl [H5]; · iexact H5
    ipureintro; intro y hy; exact absurd hy (by omega)
  iintro %_ HI
  unfold invCat25
  icases HI with ⟨⟨%fc_3_0, H2, %hfc_3_0⟩, ⟨%fcol_3_0, H0, %hfcol_3_0⟩, ⟨%fo_4_0, H5, %hfo_4_0⟩⟩
  subst hfc_3_0; subst hfcol_3_0
  -- token 4, row 1: column 3's table row gathered at the batch's category words
  sl_exec_parts
  try unfold SparseCore.vectorLoadIdx
  sl_exec_parts
  sl_for (invCat26 (F := F) A (⟨3, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨3, by decide⟩ : Fin 26)) (catSlice_range A hcat (⟨3, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨3, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨3, by decide⟩ : Fin 26) (rowOf L (⟨1, by decide⟩ : Fin 2)) _ _ (col_hoff_3_1 L))
    iexists _; isplitl [H6]; · iexact H6
    ipureintro; intro y hy; exact absurd hy (by omega)
  iintro %_ HI
  unfold invCat26
  icases HI with ⟨⟨%fc_3_1, H2, %hfc_3_1⟩, ⟨%fcol_3_1, H0, %hfcol_3_1⟩, ⟨%fo_4_1, H6, %hfo_4_1⟩⟩
  subst hfc_3_1; subst hfcol_3_1
  -- token 5, row 0: column 4's table row gathered at the batch's category words
  sl_exec_parts
  try unfold SparseCore.vectorLoadIdx
  sl_exec_parts
  sl_for (invCat15 (F := F) A (⟨4, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨4, by decide⟩ : Fin 26)) (catSlice_range A hcat (⟨4, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨4, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨4, by decide⟩ : Fin 26) _ _ rfl)
    isplitl [H0]
    · iexists _; isplitl [H0]; · iexact H0
      ipureintro; exact (fetch_whole cc0_scratch0 _ _).trans (colSrc_read A (⟨4, by decide⟩ : Fin 26) (rowOf L (⟨0, by decide⟩ : Fin 2)) _ _ (col_hoff_4_0 L))
    iexists _; isplitl [H5]; · iexact H5
    ipureintro; intro y hy; exact absurd hy (by omega)
  iintro %_ HI
  unfold invCat15
  icases HI with ⟨⟨%fc_4_0, H1, %hfc_4_0⟩, ⟨%fcol_4_0, H0, %hfcol_4_0⟩, ⟨%fo_5_0, H5, %hfo_5_0⟩⟩
  subst hfc_4_0; subst hfcol_4_0
  -- token 5, row 1: column 4's table row gathered at the batch's category words
  sl_exec_parts
  try unfold SparseCore.vectorLoadIdx
  sl_exec_parts
  sl_for (invCat16 (F := F) A (⟨4, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨4, by decide⟩ : Fin 26)) (catSlice_range A hcat (⟨4, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨4, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨4, by decide⟩ : Fin 26) (rowOf L (⟨1, by decide⟩ : Fin 2)) _ _ (col_hoff_4_1 L))
    iexists _; isplitl [H6]; · iexact H6
    ipureintro; intro y hy; exact absurd hy (by omega)
  iintro %_ HI
  unfold invCat16
  icases HI with ⟨⟨%fc_4_1, H1, %hfc_4_1⟩, ⟨%fcol_4_1, H0, %hfcol_4_1⟩, ⟨%fo_5_1, H6, %hfo_5_1⟩⟩
  subst hfc_4_1; subst hfcol_4_1
  -- token 6, row 0: column 5's table row gathered at the batch's category words
  sl_exec_parts
  try unfold SparseCore.vectorLoadIdx
  sl_exec_parts
  sl_for (invCat25 (F := F) A (⟨5, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨5, by decide⟩ : Fin 26)) (catSlice_range A hcat (⟨5, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨5, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨5, by decide⟩ : Fin 26) _ _ rfl)
    isplitl [H0]
    · iexists _; isplitl [H0]; · iexact H0
      ipureintro; exact (fetch_whole cc0_scratch0 _ _).trans (colSrc_read A (⟨5, by decide⟩ : Fin 26) (rowOf L (⟨0, by decide⟩ : Fin 2)) _ _ (col_hoff_5_0 L))
    iexists _; isplitl [H5]; · iexact H5
    ipureintro; intro y hy; exact absurd hy (by omega)
  iintro %_ HI
  unfold invCat25
  icases HI with ⟨⟨%fc_5_0, H2, %hfc_5_0⟩, ⟨%fcol_5_0, H0, %hfcol_5_0⟩, ⟨%fo_6_0, H5, %hfo_6_0⟩⟩
  subst hfc_5_0; subst hfcol_5_0
  -- token 6, row 1: column 5's table row gathered at the batch's category words
  sl_exec_parts
  try unfold SparseCore.vectorLoadIdx
  sl_exec_parts
  sl_for (invCat26 (F := F) A (⟨5, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨5, by decide⟩ : Fin 26)) (catSlice_range A hcat (⟨5, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨5, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨5, by decide⟩ : Fin 26) (rowOf L (⟨1, by decide⟩ : Fin 2)) _ _ (col_hoff_5_1 L))
    iexists _; isplitl [H6]; · iexact H6
    ipureintro; intro y hy; exact absurd hy (by omega)
  iintro %_ HI
  unfold invCat26
  icases HI with ⟨⟨%fc_5_1, H2, %hfc_5_1⟩, ⟨%fcol_5_1, H0, %hfcol_5_1⟩, ⟨%fo_6_1, H6, %hfo_6_1⟩⟩
  subst hfc_5_1; subst hfcol_5_1
  -- token 7, row 0: column 6's table row gathered at the batch's category words
  sl_exec_parts
  try unfold SparseCore.vectorLoadIdx
  sl_exec_parts
  sl_for (invCat15 (F := F) A (⟨6, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨6, by decide⟩ : Fin 26)) (catSlice_range A hcat (⟨6, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨6, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨6, by decide⟩ : Fin 26) _ _ rfl)
    isplitl [H0]
    · iexists _; isplitl [H0]; · iexact H0
      ipureintro; exact (fetch_whole cc0_scratch0 _ _).trans (colSrc_read A (⟨6, by decide⟩ : Fin 26) (rowOf L (⟨0, by decide⟩ : Fin 2)) _ _ (col_hoff_6_0 L))
    iexists _; isplitl [H5]; · iexact H5
    ipureintro; intro y hy; exact absurd hy (by omega)
  iintro %_ HI
  unfold invCat15
  icases HI with ⟨⟨%fc_6_0, H1, %hfc_6_0⟩, ⟨%fcol_6_0, H0, %hfcol_6_0⟩, ⟨%fo_7_0, H5, %hfo_7_0⟩⟩
  subst hfc_6_0; subst hfcol_6_0
  -- token 7, row 1: column 6's table row gathered at the batch's category words
  sl_exec_parts
  try unfold SparseCore.vectorLoadIdx
  sl_exec_parts
  sl_for (invCat16 (F := F) A (⟨6, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨6, by decide⟩ : Fin 26)) (catSlice_range A hcat (⟨6, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨6, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨6, by decide⟩ : Fin 26) (rowOf L (⟨1, by decide⟩ : Fin 2)) _ _ (col_hoff_6_1 L))
    iexists _; isplitl [H6]; · iexact H6
    ipureintro; intro y hy; exact absurd hy (by omega)
  iintro %_ HI
  unfold invCat16
  icases HI with ⟨⟨%fc_6_1, H1, %hfc_6_1⟩, ⟨%fcol_6_1, H0, %hfcol_6_1⟩, ⟨%fo_7_1, H6, %hfo_7_1⟩⟩
  subst hfc_6_1; subst hfcol_6_1
  -- token 8, row 0: column 7's table row gathered at the batch's category words
  sl_exec_parts
  try unfold SparseCore.vectorLoadIdx
  sl_exec_parts
  sl_for (invCat25 (F := F) A (⟨7, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨7, by decide⟩ : Fin 26)) (catSlice_range A hcat (⟨7, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨7, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨7, by decide⟩ : Fin 26) _ _ rfl)
    isplitl [H0]
    · iexists _; isplitl [H0]; · iexact H0
      ipureintro; exact (fetch_whole cc0_scratch0 _ _).trans (colSrc_read A (⟨7, by decide⟩ : Fin 26) (rowOf L (⟨0, by decide⟩ : Fin 2)) _ _ (col_hoff_7_0 L))
    iexists _; isplitl [H5]; · iexact H5
    ipureintro; intro y hy; exact absurd hy (by omega)
  iintro %_ HI
  unfold invCat25
  icases HI with ⟨⟨%fc_7_0, H2, %hfc_7_0⟩, ⟨%fcol_7_0, H0, %hfcol_7_0⟩, ⟨%fo_8_0, H5, %hfo_8_0⟩⟩
  subst hfc_7_0; subst hfcol_7_0
  -- token 8, row 1: column 7's table row gathered at the batch's category words
  sl_exec_parts
  try unfold SparseCore.vectorLoadIdx
  sl_exec_parts
  sl_for (invCat26 (F := F) A (⟨7, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨7, by decide⟩ : Fin 26)) (catSlice_range A hcat (⟨7, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨7, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨7, by decide⟩ : Fin 26) (rowOf L (⟨1, by decide⟩ : Fin 2)) _ _ (col_hoff_7_1 L))
    iexists _; isplitl [H6]; · iexact H6
    ipureintro; intro y hy; exact absurd hy (by omega)
  iintro %_ HI
  unfold invCat26
  icases HI with ⟨⟨%fc_7_1, H2, %hfc_7_1⟩, ⟨%fcol_7_1, H0, %hfcol_7_1⟩, ⟨%fo_8_1, H6, %hfo_8_1⟩⟩
  subst hfc_7_1; subst hfcol_7_1
  -- token 9, row 0: column 8's table row gathered at the batch's category words
  sl_exec_parts
  try unfold SparseCore.vectorLoadIdx
  sl_exec_parts
  sl_for (invCat15 (F := F) A (⟨8, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨8, by decide⟩ : Fin 26)) (catSlice_range A hcat (⟨8, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨8, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨8, by decide⟩ : Fin 26) _ _ rfl)
    isplitl [H0]
    · iexists _; isplitl [H0]; · iexact H0
      ipureintro; exact (fetch_whole cc0_scratch0 _ _).trans (colSrc_read A (⟨8, by decide⟩ : Fin 26) (rowOf L (⟨0, by decide⟩ : Fin 2)) _ _ (col_hoff_8_0 L))
    iexists _; isplitl [H5]; · iexact H5
    ipureintro; intro y hy; exact absurd hy (by omega)
  iintro %_ HI
  unfold invCat15
  icases HI with ⟨⟨%fc_8_0, H1, %hfc_8_0⟩, ⟨%fcol_8_0, H0, %hfcol_8_0⟩, ⟨%fo_9_0, H5, %hfo_9_0⟩⟩
  subst hfc_8_0; subst hfcol_8_0
  -- token 9, row 1: column 8's table row gathered at the batch's category words
  sl_exec_parts
  try unfold SparseCore.vectorLoadIdx
  sl_exec_parts
  sl_for (invCat16 (F := F) A (⟨8, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨8, by decide⟩ : Fin 26)) (catSlice_range A hcat (⟨8, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨8, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨8, by decide⟩ : Fin 26) (rowOf L (⟨1, by decide⟩ : Fin 2)) _ _ (col_hoff_8_1 L))
    iexists _; isplitl [H6]; · iexact H6
    ipureintro; intro y hy; exact absurd hy (by omega)
  iintro %_ HI
  unfold invCat16
  icases HI with ⟨⟨%fc_8_1, H1, %hfc_8_1⟩, ⟨%fcol_8_1, H0, %hfcol_8_1⟩, ⟨%fo_9_1, H6, %hfo_9_1⟩⟩
  subst hfc_8_1; subst hfcol_8_1
  -- token 10, row 0: column 9's table row gathered at the batch's category words
  sl_exec_parts
  try unfold SparseCore.vectorLoadIdx
  sl_exec_parts
  sl_for (invCat25 (F := F) A (⟨9, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨9, by decide⟩ : Fin 26)) (catSlice_range A hcat (⟨9, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨9, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨9, by decide⟩ : Fin 26) _ _ rfl)
    isplitl [H0]
    · iexists _; isplitl [H0]; · iexact H0
      ipureintro; exact (fetch_whole cc0_scratch0 _ _).trans (colSrc_read A (⟨9, by decide⟩ : Fin 26) (rowOf L (⟨0, by decide⟩ : Fin 2)) _ _ (col_hoff_9_0 L))
    iexists _; isplitl [H5]; · iexact H5
    ipureintro; intro y hy; exact absurd hy (by omega)
  iintro %_ HI
  unfold invCat25
  icases HI with ⟨⟨%fc_9_0, H2, %hfc_9_0⟩, ⟨%fcol_9_0, H0, %hfcol_9_0⟩, ⟨%fo_10_0, H5, %hfo_10_0⟩⟩
  subst hfc_9_0; subst hfcol_9_0
  -- token 10, row 1: column 9's table row gathered at the batch's category words
  sl_exec_parts
  try unfold SparseCore.vectorLoadIdx
  sl_exec_parts
  sl_for (invCat26 (F := F) A (⟨9, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨9, by decide⟩ : Fin 26)) (catSlice_range A hcat (⟨9, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨9, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨9, by decide⟩ : Fin 26) (rowOf L (⟨1, by decide⟩ : Fin 2)) _ _ (col_hoff_9_1 L))
    iexists _; isplitl [H6]; · iexact H6
    ipureintro; intro y hy; exact absurd hy (by omega)
  iintro %_ HI
  unfold invCat26
  icases HI with ⟨⟨%fc_9_1, H2, %hfc_9_1⟩, ⟨%fcol_9_1, H0, %hfcol_9_1⟩, ⟨%fo_10_1, H6, %hfo_10_1⟩⟩
  subst hfc_9_1; subst hfcol_9_1
  -- token 11, row 0: column 10's table row gathered at the batch's category words
  sl_exec_parts
  try unfold SparseCore.vectorLoadIdx
  sl_exec_parts
  sl_for (invCat15 (F := F) A (⟨10, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨10, by decide⟩ : Fin 26)) (catSlice_range A hcat (⟨10, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨10, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨10, by decide⟩ : Fin 26) _ _ rfl)
    isplitl [H0]
    · iexists _; isplitl [H0]; · iexact H0
      ipureintro; exact (fetch_whole cc0_scratch0 _ _).trans (colSrc_read A (⟨10, by decide⟩ : Fin 26) (rowOf L (⟨0, by decide⟩ : Fin 2)) _ _ (col_hoff_10_0 L))
    iexists _; isplitl [H5]; · iexact H5
    ipureintro; intro y hy; exact absurd hy (by omega)
  iintro %_ HI
  unfold invCat15
  icases HI with ⟨⟨%fc_10_0, H1, %hfc_10_0⟩, ⟨%fcol_10_0, H0, %hfcol_10_0⟩, ⟨%fo_11_0, H5, %hfo_11_0⟩⟩
  subst hfc_10_0; subst hfcol_10_0
  -- token 11, row 1: column 10's table row gathered at the batch's category words
  sl_exec_parts
  try unfold SparseCore.vectorLoadIdx
  sl_exec_parts
  sl_for (invCat16 (F := F) A (⟨10, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨10, by decide⟩ : Fin 26)) (catSlice_range A hcat (⟨10, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨10, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨10, by decide⟩ : Fin 26) (rowOf L (⟨1, by decide⟩ : Fin 2)) _ _ (col_hoff_10_1 L))
    iexists _; isplitl [H6]; · iexact H6
    ipureintro; intro y hy; exact absurd hy (by omega)
  iintro %_ HI
  unfold invCat16
  icases HI with ⟨⟨%fc_10_1, H1, %hfc_10_1⟩, ⟨%fcol_10_1, H0, %hfcol_10_1⟩, ⟨%fo_11_1, H6, %hfo_11_1⟩⟩
  subst hfc_10_1; subst hfcol_10_1
  -- token 12, row 0: column 11's table row gathered at the batch's category words
  sl_exec_parts
  try unfold SparseCore.vectorLoadIdx
  sl_exec_parts
  sl_for (invCat25 (F := F) A (⟨11, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨11, by decide⟩ : Fin 26)) (catSlice_range A hcat (⟨11, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨11, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨11, by decide⟩ : Fin 26) _ _ rfl)
    isplitl [H0]
    · iexists _; isplitl [H0]; · iexact H0
      ipureintro; exact (fetch_whole cc0_scratch0 _ _).trans (colSrc_read A (⟨11, by decide⟩ : Fin 26) (rowOf L (⟨0, by decide⟩ : Fin 2)) _ _ (col_hoff_11_0 L))
    iexists _; isplitl [H5]; · iexact H5
    ipureintro; intro y hy; exact absurd hy (by omega)
  iintro %_ HI
  unfold invCat25
  icases HI with ⟨⟨%fc_11_0, H2, %hfc_11_0⟩, ⟨%fcol_11_0, H0, %hfcol_11_0⟩, ⟨%fo_12_0, H5, %hfo_12_0⟩⟩
  subst hfc_11_0; subst hfcol_11_0
  -- token 12, row 1: column 11's table row gathered at the batch's category words
  sl_exec_parts
  try unfold SparseCore.vectorLoadIdx
  sl_exec_parts
  sl_for (invCat26 (F := F) A (⟨11, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨11, by decide⟩ : Fin 26)) (catSlice_range A hcat (⟨11, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨11, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨11, by decide⟩ : Fin 26) (rowOf L (⟨1, by decide⟩ : Fin 2)) _ _ (col_hoff_11_1 L))
    iexists _; isplitl [H6]; · iexact H6
    ipureintro; intro y hy; exact absurd hy (by omega)
  iintro %_ HI
  unfold invCat26
  icases HI with ⟨⟨%fc_11_1, H2, %hfc_11_1⟩, ⟨%fcol_11_1, H0, %hfcol_11_1⟩, ⟨%fo_12_1, H6, %hfo_12_1⟩⟩
  subst hfc_11_1; subst hfcol_11_1
  -- token 13, row 0: column 12's table row gathered at the batch's category words
  sl_exec_parts
  try unfold SparseCore.vectorLoadIdx
  sl_exec_parts
  sl_for (invCat15 (F := F) A (⟨12, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨12, by decide⟩ : Fin 26)) (catSlice_range A hcat (⟨12, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨12, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨12, by decide⟩ : Fin 26) _ _ rfl)
    isplitl [H0]
    · iexists _; isplitl [H0]; · iexact H0
      ipureintro; exact (fetch_whole cc0_scratch0 _ _).trans (colSrc_read A (⟨12, by decide⟩ : Fin 26) (rowOf L (⟨0, by decide⟩ : Fin 2)) _ _ (col_hoff_12_0 L))
    iexists _; isplitl [H5]; · iexact H5
    ipureintro; intro y hy; exact absurd hy (by omega)
  iintro %_ HI
  unfold invCat15
  icases HI with ⟨⟨%fc_12_0, H1, %hfc_12_0⟩, ⟨%fcol_12_0, H0, %hfcol_12_0⟩, ⟨%fo_13_0, H5, %hfo_13_0⟩⟩
  subst hfc_12_0; subst hfcol_12_0
  -- token 13, row 1: column 12's table row gathered at the batch's category words
  sl_exec_parts
  try unfold SparseCore.vectorLoadIdx
  sl_exec_parts
  sl_for (invCat16 (F := F) A (⟨12, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨12, by decide⟩ : Fin 26)) (catSlice_range A hcat (⟨12, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨12, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨12, by decide⟩ : Fin 26) (rowOf L (⟨1, by decide⟩ : Fin 2)) _ _ (col_hoff_12_1 L))
    iexists _; isplitl [H6]; · iexact H6
    ipureintro; intro y hy; exact absurd hy (by omega)
  iintro %_ HI
  unfold invCat16
  icases HI with ⟨⟨%fc_12_1, H1, %hfc_12_1⟩, ⟨%fcol_12_1, H0, %hfcol_12_1⟩, ⟨%fo_13_1, H6, %hfo_13_1⟩⟩
  subst hfc_12_1; subst hfcol_12_1
  -- token 14, row 0: column 13's table row gathered at the batch's category words
  sl_exec_parts
  try unfold SparseCore.vectorLoadIdx
  sl_exec_parts
  sl_for (invCat25 (F := F) A (⟨13, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨13, by decide⟩ : Fin 26)) (catSlice_range A hcat (⟨13, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨13, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨13, by decide⟩ : Fin 26) _ _ rfl)
    isplitl [H0]
    · iexists _; isplitl [H0]; · iexact H0
      ipureintro; exact (fetch_whole cc0_scratch0 _ _).trans (colSrc_read A (⟨13, by decide⟩ : Fin 26) (rowOf L (⟨0, by decide⟩ : Fin 2)) _ _ (col_hoff_13_0 L))
    iexists _; isplitl [H5]; · iexact H5
    ipureintro; intro y hy; exact absurd hy (by omega)
  iintro %_ HI
  unfold invCat25
  icases HI with ⟨⟨%fc_13_0, H2, %hfc_13_0⟩, ⟨%fcol_13_0, H0, %hfcol_13_0⟩, ⟨%fo_14_0, H5, %hfo_14_0⟩⟩
  subst hfc_13_0; subst hfcol_13_0
  -- token 14, row 1: column 13's table row gathered at the batch's category words
  sl_exec_parts
  try unfold SparseCore.vectorLoadIdx
  sl_exec_parts
  sl_for (invCat26 (F := F) A (⟨13, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨13, by decide⟩ : Fin 26)) (catSlice_range A hcat (⟨13, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨13, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨13, by decide⟩ : Fin 26) (rowOf L (⟨1, by decide⟩ : Fin 2)) _ _ (col_hoff_13_1 L))
    iexists _; isplitl [H6]; · iexact H6
    ipureintro; intro y hy; exact absurd hy (by omega)
  iintro %_ HI
  unfold invCat26
  icases HI with ⟨⟨%fc_13_1, H2, %hfc_13_1⟩, ⟨%fcol_13_1, H0, %hfcol_13_1⟩, ⟨%fo_14_1, H6, %hfo_14_1⟩⟩
  subst hfc_13_1; subst hfcol_13_1
  -- token 15, row 0: column 14's table row gathered at the batch's category words
  sl_exec_parts
  try unfold SparseCore.vectorLoadIdx
  sl_exec_parts
  sl_for (invCat15 (F := F) A (⟨14, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨14, by decide⟩ : Fin 26)) (catSlice_range A hcat (⟨14, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨14, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨14, by decide⟩ : Fin 26) _ _ rfl)
    isplitl [H0]
    · iexists _; isplitl [H0]; · iexact H0
      ipureintro; exact (fetch_whole cc0_scratch0 _ _).trans (colSrc_read A (⟨14, by decide⟩ : Fin 26) (rowOf L (⟨0, by decide⟩ : Fin 2)) _ _ (col_hoff_14_0 L))
    iexists _; isplitl [H5]; · iexact H5
    ipureintro; intro y hy; exact absurd hy (by omega)
  iintro %_ HI
  unfold invCat15
  icases HI with ⟨⟨%fc_14_0, H1, %hfc_14_0⟩, ⟨%fcol_14_0, H0, %hfcol_14_0⟩, ⟨%fo_15_0, H5, %hfo_15_0⟩⟩
  subst hfc_14_0; subst hfcol_14_0
  -- token 15, row 1: column 14's table row gathered at the batch's category words
  sl_exec_parts
  try unfold SparseCore.vectorLoadIdx
  sl_exec_parts
  sl_for (invCat16 (F := F) A (⟨14, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨14, by decide⟩ : Fin 26)) (catSlice_range A hcat (⟨14, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨14, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨14, by decide⟩ : Fin 26) (rowOf L (⟨1, by decide⟩ : Fin 2)) _ _ (col_hoff_14_1 L))
    iexists _; isplitl [H6]; · iexact H6
    ipureintro; intro y hy; exact absurd hy (by omega)
  iintro %_ HI
  unfold invCat16
  icases HI with ⟨⟨%fc_14_1, H1, %hfc_14_1⟩, ⟨%fcol_14_1, H0, %hfcol_14_1⟩, ⟨%fo_15_1, H6, %hfo_15_1⟩⟩
  subst hfc_14_1; subst hfcol_14_1
  -- token 16, row 0: column 15's table row gathered at the batch's category words
  sl_exec_parts
  try unfold SparseCore.vectorLoadIdx
  sl_exec_parts
  sl_for (invCat25 (F := F) A (⟨15, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨15, by decide⟩ : Fin 26)) (catSlice_range A hcat (⟨15, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨15, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨15, by decide⟩ : Fin 26) _ _ rfl)
    isplitl [H0]
    · iexists _; isplitl [H0]; · iexact H0
      ipureintro; exact (fetch_whole cc0_scratch0 _ _).trans (colSrc_read A (⟨15, by decide⟩ : Fin 26) (rowOf L (⟨0, by decide⟩ : Fin 2)) _ _ (col_hoff_15_0 L))
    iexists _; isplitl [H5]; · iexact H5
    ipureintro; intro y hy; exact absurd hy (by omega)
  iintro %_ HI
  unfold invCat25
  icases HI with ⟨⟨%fc_15_0, H2, %hfc_15_0⟩, ⟨%fcol_15_0, H0, %hfcol_15_0⟩, ⟨%fo_16_0, H5, %hfo_16_0⟩⟩
  subst hfc_15_0; subst hfcol_15_0
  -- token 16, row 1: column 15's table row gathered at the batch's category words
  sl_exec_parts
  try unfold SparseCore.vectorLoadIdx
  sl_exec_parts
  sl_for (invCat26 (F := F) A (⟨15, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨15, by decide⟩ : Fin 26)) (catSlice_range A hcat (⟨15, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨15, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨15, by decide⟩ : Fin 26) (rowOf L (⟨1, by decide⟩ : Fin 2)) _ _ (col_hoff_15_1 L))
    iexists _; isplitl [H6]; · iexact H6
    ipureintro; intro y hy; exact absurd hy (by omega)
  iintro %_ HI
  unfold invCat26
  icases HI with ⟨⟨%fc_15_1, H2, %hfc_15_1⟩, ⟨%fcol_15_1, H0, %hfcol_15_1⟩, ⟨%fo_16_1, H6, %hfo_16_1⟩⟩
  subst hfc_15_1; subst hfcol_15_1
  -- token 17, row 0: column 16's table row gathered at the batch's category words
  sl_exec_parts
  try unfold SparseCore.vectorLoadIdx
  sl_exec_parts
  sl_for (invCat15 (F := F) A (⟨16, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨16, by decide⟩ : Fin 26)) (catSlice_range A hcat (⟨16, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨16, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨16, by decide⟩ : Fin 26) _ _ rfl)
    isplitl [H0]
    · iexists _; isplitl [H0]; · iexact H0
      ipureintro; exact (fetch_whole cc0_scratch0 _ _).trans (colSrc_read A (⟨16, by decide⟩ : Fin 26) (rowOf L (⟨0, by decide⟩ : Fin 2)) _ _ (col_hoff_16_0 L))
    iexists _; isplitl [H5]; · iexact H5
    ipureintro; intro y hy; exact absurd hy (by omega)
  iintro %_ HI
  unfold invCat15
  icases HI with ⟨⟨%fc_16_0, H1, %hfc_16_0⟩, ⟨%fcol_16_0, H0, %hfcol_16_0⟩, ⟨%fo_17_0, H5, %hfo_17_0⟩⟩
  subst hfc_16_0; subst hfcol_16_0
  -- token 17, row 1: column 16's table row gathered at the batch's category words
  sl_exec_parts
  try unfold SparseCore.vectorLoadIdx
  sl_exec_parts
  sl_for (invCat16 (F := F) A (⟨16, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨16, by decide⟩ : Fin 26)) (catSlice_range A hcat (⟨16, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨16, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨16, by decide⟩ : Fin 26) (rowOf L (⟨1, by decide⟩ : Fin 2)) _ _ (col_hoff_16_1 L))
    iexists _; isplitl [H6]; · iexact H6
    ipureintro; intro y hy; exact absurd hy (by omega)
  iintro %_ HI
  unfold invCat16
  icases HI with ⟨⟨%fc_16_1, H1, %hfc_16_1⟩, ⟨%fcol_16_1, H0, %hfcol_16_1⟩, ⟨%fo_17_1, H6, %hfo_17_1⟩⟩
  subst hfc_16_1; subst hfcol_16_1
  -- token 18, row 0: column 17's table row gathered at the batch's category words
  sl_exec_parts
  try unfold SparseCore.vectorLoadIdx
  sl_exec_parts
  sl_for (invCat25 (F := F) A (⟨17, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨17, by decide⟩ : Fin 26)) (catSlice_range A hcat (⟨17, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨17, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨17, by decide⟩ : Fin 26) _ _ rfl)
    isplitl [H0]
    · iexists _; isplitl [H0]; · iexact H0
      ipureintro; exact (fetch_whole cc0_scratch0 _ _).trans (colSrc_read A (⟨17, by decide⟩ : Fin 26) (rowOf L (⟨0, by decide⟩ : Fin 2)) _ _ (col_hoff_17_0 L))
    iexists _; isplitl [H5]; · iexact H5
    ipureintro; intro y hy; exact absurd hy (by omega)
  iintro %_ HI
  unfold invCat25
  icases HI with ⟨⟨%fc_17_0, H2, %hfc_17_0⟩, ⟨%fcol_17_0, H0, %hfcol_17_0⟩, ⟨%fo_18_0, H5, %hfo_18_0⟩⟩
  subst hfc_17_0; subst hfcol_17_0
  -- token 18, row 1: column 17's table row gathered at the batch's category words
  sl_exec_parts
  try unfold SparseCore.vectorLoadIdx
  sl_exec_parts
  sl_for (invCat26 (F := F) A (⟨17, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨17, by decide⟩ : Fin 26)) (catSlice_range A hcat (⟨17, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨17, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨17, by decide⟩ : Fin 26) (rowOf L (⟨1, by decide⟩ : Fin 2)) _ _ (col_hoff_17_1 L))
    iexists _; isplitl [H6]; · iexact H6
    ipureintro; intro y hy; exact absurd hy (by omega)
  iintro %_ HI
  unfold invCat26
  icases HI with ⟨⟨%fc_17_1, H2, %hfc_17_1⟩, ⟨%fcol_17_1, H0, %hfcol_17_1⟩, ⟨%fo_18_1, H6, %hfo_18_1⟩⟩
  subst hfc_17_1; subst hfcol_17_1
  -- token 19, row 0: column 18's table row gathered at the batch's category words
  sl_exec_parts
  try unfold SparseCore.vectorLoadIdx
  sl_exec_parts
  sl_for (invCat15 (F := F) A (⟨18, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨18, by decide⟩ : Fin 26)) (catSlice_range A hcat (⟨18, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨18, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨18, by decide⟩ : Fin 26) _ _ rfl)
    isplitl [H0]
    · iexists _; isplitl [H0]; · iexact H0
      ipureintro; exact (fetch_whole cc0_scratch0 _ _).trans (colSrc_read A (⟨18, by decide⟩ : Fin 26) (rowOf L (⟨0, by decide⟩ : Fin 2)) _ _ (col_hoff_18_0 L))
    iexists _; isplitl [H5]; · iexact H5
    ipureintro; intro y hy; exact absurd hy (by omega)
  iintro %_ HI
  unfold invCat15
  icases HI with ⟨⟨%fc_18_0, H1, %hfc_18_0⟩, ⟨%fcol_18_0, H0, %hfcol_18_0⟩, ⟨%fo_19_0, H5, %hfo_19_0⟩⟩
  subst hfc_18_0; subst hfcol_18_0
  -- token 19, row 1: column 18's table row gathered at the batch's category words
  sl_exec_parts
  try unfold SparseCore.vectorLoadIdx
  sl_exec_parts
  sl_for (invCat16 (F := F) A (⟨18, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨18, by decide⟩ : Fin 26)) (catSlice_range A hcat (⟨18, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨18, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨18, by decide⟩ : Fin 26) (rowOf L (⟨1, by decide⟩ : Fin 2)) _ _ (col_hoff_18_1 L))
    iexists _; isplitl [H6]; · iexact H6
    ipureintro; intro y hy; exact absurd hy (by omega)
  iintro %_ HI
  unfold invCat16
  icases HI with ⟨⟨%fc_18_1, H1, %hfc_18_1⟩, ⟨%fcol_18_1, H0, %hfcol_18_1⟩, ⟨%fo_19_1, H6, %hfo_19_1⟩⟩
  subst hfc_18_1; subst hfcol_18_1
  -- token 20, row 0: column 19's table row gathered at the batch's category words
  sl_exec_parts
  try unfold SparseCore.vectorLoadIdx
  sl_exec_parts
  sl_for (invCat25 (F := F) A (⟨19, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨19, by decide⟩ : Fin 26)) (catSlice_range A hcat (⟨19, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨19, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨19, by decide⟩ : Fin 26) _ _ rfl)
    isplitl [H0]
    · iexists _; isplitl [H0]; · iexact H0
      ipureintro; exact (fetch_whole cc0_scratch0 _ _).trans (colSrc_read A (⟨19, by decide⟩ : Fin 26) (rowOf L (⟨0, by decide⟩ : Fin 2)) _ _ (col_hoff_19_0 L))
    iexists _; isplitl [H5]; · iexact H5
    ipureintro; intro y hy; exact absurd hy (by omega)
  iintro %_ HI
  unfold invCat25
  icases HI with ⟨⟨%fc_19_0, H2, %hfc_19_0⟩, ⟨%fcol_19_0, H0, %hfcol_19_0⟩, ⟨%fo_20_0, H5, %hfo_20_0⟩⟩
  subst hfc_19_0; subst hfcol_19_0
  -- token 20, row 1: column 19's table row gathered at the batch's category words
  sl_exec_parts
  try unfold SparseCore.vectorLoadIdx
  sl_exec_parts
  sl_for (invCat26 (F := F) A (⟨19, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨19, by decide⟩ : Fin 26)) (catSlice_range A hcat (⟨19, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨19, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨19, by decide⟩ : Fin 26) (rowOf L (⟨1, by decide⟩ : Fin 2)) _ _ (col_hoff_19_1 L))
    iexists _; isplitl [H6]; · iexact H6
    ipureintro; intro y hy; exact absurd hy (by omega)
  iintro %_ HI
  unfold invCat26
  icases HI with ⟨⟨%fc_19_1, H2, %hfc_19_1⟩, ⟨%fcol_19_1, H0, %hfcol_19_1⟩, ⟨%fo_20_1, H6, %hfo_20_1⟩⟩
  subst hfc_19_1; subst hfcol_19_1
  -- token 21, row 0: column 20's table row gathered at the batch's category words
  sl_exec_parts
  try unfold SparseCore.vectorLoadIdx
  sl_exec_parts
  sl_for (invCat15 (F := F) A (⟨20, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨20, by decide⟩ : Fin 26)) (catSlice_range A hcat (⟨20, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨20, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨20, by decide⟩ : Fin 26) _ _ rfl)
    isplitl [H0]
    · iexists _; isplitl [H0]; · iexact H0
      ipureintro; exact (fetch_whole cc0_scratch0 _ _).trans (colSrc_read A (⟨20, by decide⟩ : Fin 26) (rowOf L (⟨0, by decide⟩ : Fin 2)) _ _ (col_hoff_20_0 L))
    iexists _; isplitl [H5]; · iexact H5
    ipureintro; intro y hy; exact absurd hy (by omega)
  iintro %_ HI
  unfold invCat15
  icases HI with ⟨⟨%fc_20_0, H1, %hfc_20_0⟩, ⟨%fcol_20_0, H0, %hfcol_20_0⟩, ⟨%fo_21_0, H5, %hfo_21_0⟩⟩
  subst hfc_20_0; subst hfcol_20_0
  -- token 21, row 1: column 20's table row gathered at the batch's category words
  sl_exec_parts
  try unfold SparseCore.vectorLoadIdx
  sl_exec_parts
  sl_for (invCat16 (F := F) A (⟨20, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨20, by decide⟩ : Fin 26)) (catSlice_range A hcat (⟨20, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨20, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨20, by decide⟩ : Fin 26) (rowOf L (⟨1, by decide⟩ : Fin 2)) _ _ (col_hoff_20_1 L))
    iexists _; isplitl [H6]; · iexact H6
    ipureintro; intro y hy; exact absurd hy (by omega)
  iintro %_ HI
  unfold invCat16
  icases HI with ⟨⟨%fc_20_1, H1, %hfc_20_1⟩, ⟨%fcol_20_1, H0, %hfcol_20_1⟩, ⟨%fo_21_1, H6, %hfo_21_1⟩⟩
  subst hfc_20_1; subst hfcol_20_1
  -- token 22, row 0: column 21's table row gathered at the batch's category words
  sl_exec_parts
  try unfold SparseCore.vectorLoadIdx
  sl_exec_parts
  sl_for (invCat25 (F := F) A (⟨21, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨21, by decide⟩ : Fin 26)) (catSlice_range A hcat (⟨21, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨21, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨21, by decide⟩ : Fin 26) _ _ rfl)
    isplitl [H0]
    · iexists _; isplitl [H0]; · iexact H0
      ipureintro; exact (fetch_whole cc0_scratch0 _ _).trans (colSrc_read A (⟨21, by decide⟩ : Fin 26) (rowOf L (⟨0, by decide⟩ : Fin 2)) _ _ (col_hoff_21_0 L))
    iexists _; isplitl [H5]; · iexact H5
    ipureintro; intro y hy; exact absurd hy (by omega)
  iintro %_ HI
  unfold invCat25
  icases HI with ⟨⟨%fc_21_0, H2, %hfc_21_0⟩, ⟨%fcol_21_0, H0, %hfcol_21_0⟩, ⟨%fo_22_0, H5, %hfo_22_0⟩⟩
  subst hfc_21_0; subst hfcol_21_0
  -- token 22, row 1: column 21's table row gathered at the batch's category words
  sl_exec_parts
  try unfold SparseCore.vectorLoadIdx
  sl_exec_parts
  sl_for (invCat26 (F := F) A (⟨21, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨21, by decide⟩ : Fin 26)) (catSlice_range A hcat (⟨21, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨21, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨21, by decide⟩ : Fin 26) (rowOf L (⟨1, by decide⟩ : Fin 2)) _ _ (col_hoff_21_1 L))
    iexists _; isplitl [H6]; · iexact H6
    ipureintro; intro y hy; exact absurd hy (by omega)
  iintro %_ HI
  unfold invCat26
  icases HI with ⟨⟨%fc_21_1, H2, %hfc_21_1⟩, ⟨%fcol_21_1, H0, %hfcol_21_1⟩, ⟨%fo_22_1, H6, %hfo_22_1⟩⟩
  subst hfc_21_1; subst hfcol_21_1
  -- token 23, row 0: column 22's table row gathered at the batch's category words
  sl_exec_parts
  try unfold SparseCore.vectorLoadIdx
  sl_exec_parts
  sl_for (invCat15 (F := F) A (⟨22, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨22, by decide⟩ : Fin 26)) (catSlice_range A hcat (⟨22, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨22, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨22, by decide⟩ : Fin 26) _ _ rfl)
    isplitl [H0]
    · iexists _; isplitl [H0]; · iexact H0
      ipureintro; exact (fetch_whole cc0_scratch0 _ _).trans (colSrc_read A (⟨22, by decide⟩ : Fin 26) (rowOf L (⟨0, by decide⟩ : Fin 2)) _ _ (col_hoff_22_0 L))
    iexists _; isplitl [H5]; · iexact H5
    ipureintro; intro y hy; exact absurd hy (by omega)
  iintro %_ HI
  unfold invCat15
  icases HI with ⟨⟨%fc_22_0, H1, %hfc_22_0⟩, ⟨%fcol_22_0, H0, %hfcol_22_0⟩, ⟨%fo_23_0, H5, %hfo_23_0⟩⟩
  subst hfc_22_0; subst hfcol_22_0
  -- token 23, row 1: column 22's table row gathered at the batch's category words
  sl_exec_parts
  try unfold SparseCore.vectorLoadIdx
  sl_exec_parts
  sl_for (invCat16 (F := F) A (⟨22, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨22, by decide⟩ : Fin 26)) (catSlice_range A hcat (⟨22, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨22, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨22, by decide⟩ : Fin 26) (rowOf L (⟨1, by decide⟩ : Fin 2)) _ _ (col_hoff_22_1 L))
    iexists _; isplitl [H6]; · iexact H6
    ipureintro; intro y hy; exact absurd hy (by omega)
  iintro %_ HI
  unfold invCat16
  icases HI with ⟨⟨%fc_22_1, H1, %hfc_22_1⟩, ⟨%fcol_22_1, H0, %hfcol_22_1⟩, ⟨%fo_23_1, H6, %hfo_23_1⟩⟩
  subst hfc_22_1; subst hfcol_22_1
  -- token 24, row 0: column 23's table row gathered at the batch's category words
  sl_exec_parts
  try unfold SparseCore.vectorLoadIdx
  sl_exec_parts
  sl_for (invCat25 (F := F) A (⟨23, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨23, by decide⟩ : Fin 26)) (catSlice_range A hcat (⟨23, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨23, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨23, by decide⟩ : Fin 26) _ _ rfl)
    isplitl [H0]
    · iexists _; isplitl [H0]; · iexact H0
      ipureintro; exact (fetch_whole cc0_scratch0 _ _).trans (colSrc_read A (⟨23, by decide⟩ : Fin 26) (rowOf L (⟨0, by decide⟩ : Fin 2)) _ _ (col_hoff_23_0 L))
    iexists _; isplitl [H5]; · iexact H5
    ipureintro; intro y hy; exact absurd hy (by omega)
  iintro %_ HI
  unfold invCat25
  icases HI with ⟨⟨%fc_23_0, H2, %hfc_23_0⟩, ⟨%fcol_23_0, H0, %hfcol_23_0⟩, ⟨%fo_24_0, H5, %hfo_24_0⟩⟩
  subst hfc_23_0; subst hfcol_23_0
  -- token 24, row 1: column 23's table row gathered at the batch's category words
  sl_exec_parts
  try unfold SparseCore.vectorLoadIdx
  sl_exec_parts
  sl_for (invCat26 (F := F) A (⟨23, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨23, by decide⟩ : Fin 26)) (catSlice_range A hcat (⟨23, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨23, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨23, by decide⟩ : Fin 26) (rowOf L (⟨1, by decide⟩ : Fin 2)) _ _ (col_hoff_23_1 L))
    iexists _; isplitl [H6]; · iexact H6
    ipureintro; intro y hy; exact absurd hy (by omega)
  iintro %_ HI
  unfold invCat26
  icases HI with ⟨⟨%fc_23_1, H2, %hfc_23_1⟩, ⟨%fcol_23_1, H0, %hfcol_23_1⟩, ⟨%fo_24_1, H6, %hfo_24_1⟩⟩
  subst hfc_23_1; subst hfcol_23_1
  -- token 25, row 0: column 24's table row gathered at the batch's category words
  sl_exec_parts
  try unfold SparseCore.vectorLoadIdx
  sl_exec_parts
  sl_for (invCat15 (F := F) A (⟨24, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨24, by decide⟩ : Fin 26)) (catSlice_range A hcat (⟨24, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨24, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨24, by decide⟩ : Fin 26) _ _ rfl)
    isplitl [H0]
    · iexists _; isplitl [H0]; · iexact H0
      ipureintro; exact (fetch_whole cc0_scratch0 _ _).trans (colSrc_read A (⟨24, by decide⟩ : Fin 26) (rowOf L (⟨0, by decide⟩ : Fin 2)) _ _ (col_hoff_24_0 L))
    iexists _; isplitl [H5]; · iexact H5
    ipureintro; intro y hy; exact absurd hy (by omega)
  iintro %_ HI
  unfold invCat15
  icases HI with ⟨⟨%fc_24_0, H1, %hfc_24_0⟩, ⟨%fcol_24_0, H0, %hfcol_24_0⟩, ⟨%fo_25_0, H5, %hfo_25_0⟩⟩
  subst hfc_24_0; subst hfcol_24_0
  -- token 25, row 1: column 24's table row gathered at the batch's category words
  sl_exec_parts
  try unfold SparseCore.vectorLoadIdx
  sl_exec_parts
  sl_for (invCat16 (F := F) A (⟨24, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨24, by decide⟩ : Fin 26)) (catSlice_range A hcat (⟨24, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨24, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨24, by decide⟩ : Fin 26) (rowOf L (⟨1, by decide⟩ : Fin 2)) _ _ (col_hoff_24_1 L))
    iexists _; isplitl [H6]; · iexact H6
    ipureintro; intro y hy; exact absurd hy (by omega)
  iintro %_ HI
  unfold invCat16
  icases HI with ⟨⟨%fc_24_1, H1, %hfc_24_1⟩, ⟨%fcol_24_1, H0, %hfcol_24_1⟩, ⟨%fo_25_1, H6, %hfo_25_1⟩⟩
  subst hfc_24_1; subst hfcol_24_1
  -- token 26, row 0: column 25's table row gathered at the batch's category words
  sl_exec_parts
  try unfold SparseCore.vectorLoadIdx
  sl_exec_parts
  sl_for (invCat25 (F := F) A (⟨25, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨25, by decide⟩ : Fin 26)) (catSlice_range A hcat (⟨25, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨25, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨25, by decide⟩ : Fin 26) _ _ rfl)
    isplitl [H0]
    · iexists _; isplitl [H0]; · iexact H0
      ipureintro; exact (fetch_whole cc0_scratch0 _ _).trans (colSrc_read A (⟨25, by decide⟩ : Fin 26) (rowOf L (⟨0, by decide⟩ : Fin 2)) _ _ (col_hoff_25_0 L))
    iexists _; isplitl [H5]; · iexact H5
    ipureintro; intro y hy; exact absurd hy (by omega)
  iintro %_ HI
  unfold invCat25
  icases HI with ⟨⟨%fc_25_0, H2, %hfc_25_0⟩, ⟨%fcol_25_0, H0, %hfcol_25_0⟩, ⟨%fo_26_0, H5, %hfo_26_0⟩⟩
  subst hfc_25_0; subst hfcol_25_0
  -- token 26, row 1: column 25's table row gathered at the batch's category words
  sl_exec_parts
  try unfold SparseCore.vectorLoadIdx
  sl_exec_parts
  sl_for (invCat26 (F := F) A (⟨25, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨25, by decide⟩ : Fin 26)) (catSlice_range A hcat (⟨25, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨25, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨25, by decide⟩ : Fin 26) (rowOf L (⟨1, by decide⟩ : Fin 2)) _ _ (col_hoff_25_1 L))
    iexists _; isplitl [H6]; · iexact H6
    ipureintro; intro y hy; exact absurd hy (by omega)
  iintro %_ HI
  unfold invCat26
  icases HI with ⟨⟨%fc_25_1, H2, %hfc_25_1⟩, ⟨%fcol_25_1, H0, %hfcol_25_1⟩, ⟨%fo_26_1, H6, %hfo_26_1⟩⟩
  subst hfc_25_1; subst hfcol_25_1
  -- token 27, row 0: numeric column 0 times its weight plus its bias
  sl_exec_parts (disch := exact ⟨chk_num (⟨0, by decide⟩ : Fin 13) (⟨0, by decide⟩ : Fin 2) L, chk_num (⟨0, by decide⟩ : Fin 13) (⟨0, by decide⟩ : Fin 2) L⟩)
  try unfold SparseCore.vectorLoadIdx
  sl_exec_parts (disch := exact ⟨chk_num (⟨0, by decide⟩ : Fin 13) (⟨0, by decide⟩ : Fin 2) L, chk_num (⟨0, by decide⟩ : Fin 13) (⟨0, by decide⟩ : Fin 2) L⟩)
  sl_for (invNum35 (F := F) A (⟨0, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨0, by decide⟩ : Fin 13) (rowOf L (⟨0, by decide⟩ : Fin 2)) _ _ rfl _ _ (numW_apply A (⟨0, by decide⟩ : Fin 13) (rowOf L (⟨0, by decide⟩ : Fin 2)) _ (fetch_w A _) _ (numWord_toNat (⟨0, by decide⟩ : Fin 13) (⟨0, by decide⟩ : Fin 2) L) _) (numB_apply A (⟨0, by decide⟩ : Fin 13) (rowOf L (⟨0, by decide⟩ : Fin 2)) _ (fetch_b A _) _ (numWord_toNat (⟨0, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨0, by decide⟩ : Fin 13) _ _ rfl)
    iexists _; isplitl [H5]; · iexact H5
    ipureintro; intro y hy; exact absurd hy (by omega)
  iintro %_ HI
  unfold invNum35
  icases HI with ⟨⟨%fn_0_0, H3, %hfn_0_0⟩, ⟨%fo_27_0, H5, %hfo_27_0⟩⟩
  subst hfn_0_0
  -- token 27, row 1: numeric column 0 times its weight plus its bias
  sl_exec_parts (disch := exact ⟨chk_num (⟨0, by decide⟩ : Fin 13) (⟨1, by decide⟩ : Fin 2) L, chk_num (⟨0, by decide⟩ : Fin 13) (⟨1, by decide⟩ : Fin 2) L⟩)
  try unfold SparseCore.vectorLoadIdx
  sl_exec_parts (disch := exact ⟨chk_num (⟨0, by decide⟩ : Fin 13) (⟨1, by decide⟩ : Fin 2) L, chk_num (⟨0, by decide⟩ : Fin 13) (⟨1, by decide⟩ : Fin 2) L⟩)
  sl_for (invNum36 (F := F) A (⟨0, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨0, by decide⟩ : Fin 13) (rowOf L (⟨1, by decide⟩ : Fin 2)) _ _ rfl _ _ (numW_apply A (⟨0, by decide⟩ : Fin 13) (rowOf L (⟨1, by decide⟩ : Fin 2)) _ (fetch_w A _) _ (numWord_toNat (⟨0, by decide⟩ : Fin 13) (⟨1, by decide⟩ : Fin 2) L) _) (numB_apply A (⟨0, by decide⟩ : Fin 13) (rowOf L (⟨1, by decide⟩ : Fin 2)) _ (fetch_b A _) _ (numWord_toNat (⟨0, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_0_1, H3, %hfn_0_1⟩, ⟨%fo_27_1, H6, %hfo_27_1⟩⟩
  subst hfn_0_1
  -- token 28, row 0: numeric column 1 times its weight plus its bias
  sl_exec_parts (disch := exact ⟨chk_num (⟨1, by decide⟩ : Fin 13) (⟨0, by decide⟩ : Fin 2) L, chk_num (⟨1, by decide⟩ : Fin 13) (⟨0, by decide⟩ : Fin 2) L⟩)
  try unfold SparseCore.vectorLoadIdx
  sl_exec_parts (disch := exact ⟨chk_num (⟨1, by decide⟩ : Fin 13) (⟨0, by decide⟩ : Fin 2) L, chk_num (⟨1, by decide⟩ : Fin 13) (⟨0, by decide⟩ : Fin 2) L⟩)
  sl_for (invNum45 (F := F) A (⟨1, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨1, by decide⟩ : Fin 13) (rowOf L (⟨0, by decide⟩ : Fin 2)) _ _ rfl _ _ (numW_apply A (⟨1, by decide⟩ : Fin 13) (rowOf L (⟨0, by decide⟩ : Fin 2)) _ (fetch_w A _) _ (numWord_toNat (⟨1, by decide⟩ : Fin 13) (⟨0, by decide⟩ : Fin 2) L) _) (numB_apply A (⟨1, by decide⟩ : Fin 13) (rowOf L (⟨0, by decide⟩ : Fin 2)) _ (fetch_b A _) _ (numWord_toNat (⟨1, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨1, by decide⟩ : Fin 13) _ _ rfl)
    iexists _; isplitl [H5]; · iexact H5
    ipureintro; intro y hy; exact absurd hy (by omega)
  iintro %_ HI
  unfold invNum45
  icases HI with ⟨⟨%fn_1_0, H4, %hfn_1_0⟩, ⟨%fo_28_0, H5, %hfo_28_0⟩⟩
  subst hfn_1_0
  -- token 28, row 1: numeric column 1 times its weight plus its bias
  sl_exec_parts (disch := exact ⟨chk_num (⟨1, by decide⟩ : Fin 13) (⟨1, by decide⟩ : Fin 2) L, chk_num (⟨1, by decide⟩ : Fin 13) (⟨1, by decide⟩ : Fin 2) L⟩)
  try unfold SparseCore.vectorLoadIdx
  sl_exec_parts (disch := exact ⟨chk_num (⟨1, by decide⟩ : Fin 13) (⟨1, by decide⟩ : Fin 2) L, chk_num (⟨1, by decide⟩ : Fin 13) (⟨1, by decide⟩ : Fin 2) L⟩)
  sl_for (invNum46 (F := F) A (⟨1, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨1, by decide⟩ : Fin 13) (rowOf L (⟨1, by decide⟩ : Fin 2)) _ _ rfl _ _ (numW_apply A (⟨1, by decide⟩ : Fin 13) (rowOf L (⟨1, by decide⟩ : Fin 2)) _ (fetch_w A _) _ (numWord_toNat (⟨1, by decide⟩ : Fin 13) (⟨1, by decide⟩ : Fin 2) L) _) (numB_apply A (⟨1, by decide⟩ : Fin 13) (rowOf L (⟨1, by decide⟩ : Fin 2)) _ (fetch_b A _) _ (numWord_toNat (⟨1, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_1_1, H4, %hfn_1_1⟩, ⟨%fo_28_1, H6, %hfo_28_1⟩⟩
  subst hfn_1_1
  -- token 29, row 0: numeric column 2 times its weight plus its bias
  sl_exec_parts (disch := exact ⟨chk_num (⟨2, by decide⟩ : Fin 13) (⟨0, by decide⟩ : Fin 2) L, chk_num (⟨2, by decide⟩ : Fin 13) (⟨0, by decide⟩ : Fin 2) L⟩)
  try unfold SparseCore.vectorLoadIdx
  sl_exec_parts (disch := exact ⟨chk_num (⟨2, by decide⟩ : Fin 13) (⟨0, by decide⟩ : Fin 2) L, chk_num (⟨2, by decide⟩ : Fin 13) (⟨0, by decide⟩ : Fin 2) L⟩)
  sl_for (invNum35 (F := F) A (⟨2, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨2, by decide⟩ : Fin 13) (rowOf L (⟨0, by decide⟩ : Fin 2)) _ _ rfl _ _ (numW_apply A (⟨2, by decide⟩ : Fin 13) (rowOf L (⟨0, by decide⟩ : Fin 2)) _ (fetch_w A _) _ (numWord_toNat (⟨2, by decide⟩ : Fin 13) (⟨0, by decide⟩ : Fin 2) L) _) (numB_apply A (⟨2, by decide⟩ : Fin 13) (rowOf L (⟨0, by decide⟩ : Fin 2)) _ (fetch_b A _) _ (numWord_toNat (⟨2, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨2, by decide⟩ : Fin 13) _ _ rfl)
    iexists _; isplitl [H5]; · iexact H5
    ipureintro; intro y hy; exact absurd hy (by omega)
  iintro %_ HI
  unfold invNum35
  icases HI with ⟨⟨%fn_2_0, H3, %hfn_2_0⟩, ⟨%fo_29_0, H5, %hfo_29_0⟩⟩
  subst hfn_2_0
  -- token 29, row 1: numeric column 2 times its weight plus its bias
  sl_exec_parts (disch := exact ⟨chk_num (⟨2, by decide⟩ : Fin 13) (⟨1, by decide⟩ : Fin 2) L, chk_num (⟨2, by decide⟩ : Fin 13) (⟨1, by decide⟩ : Fin 2) L⟩)
  try unfold SparseCore.vectorLoadIdx
  sl_exec_parts (disch := exact ⟨chk_num (⟨2, by decide⟩ : Fin 13) (⟨1, by decide⟩ : Fin 2) L, chk_num (⟨2, by decide⟩ : Fin 13) (⟨1, by decide⟩ : Fin 2) L⟩)
  sl_for (invNum36 (F := F) A (⟨2, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨2, by decide⟩ : Fin 13) (rowOf L (⟨1, by decide⟩ : Fin 2)) _ _ rfl _ _ (numW_apply A (⟨2, by decide⟩ : Fin 13) (rowOf L (⟨1, by decide⟩ : Fin 2)) _ (fetch_w A _) _ (numWord_toNat (⟨2, by decide⟩ : Fin 13) (⟨1, by decide⟩ : Fin 2) L) _) (numB_apply A (⟨2, by decide⟩ : Fin 13) (rowOf L (⟨1, by decide⟩ : Fin 2)) _ (fetch_b A _) _ (numWord_toNat (⟨2, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_2_1, H3, %hfn_2_1⟩, ⟨%fo_29_1, H6, %hfo_29_1⟩⟩
  subst hfn_2_1
  -- token 30, row 0: numeric column 3 times its weight plus its bias
  sl_exec_parts (disch := exact ⟨chk_num (⟨3, by decide⟩ : Fin 13) (⟨0, by decide⟩ : Fin 2) L, chk_num (⟨3, by decide⟩ : Fin 13) (⟨0, by decide⟩ : Fin 2) L⟩)
  try unfold SparseCore.vectorLoadIdx
  sl_exec_parts (disch := exact ⟨chk_num (⟨3, by decide⟩ : Fin 13) (⟨0, by decide⟩ : Fin 2) L, chk_num (⟨3, by decide⟩ : Fin 13) (⟨0, by decide⟩ : Fin 2) L⟩)
  sl_for (invNum45 (F := F) A (⟨3, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨3, by decide⟩ : Fin 13) (rowOf L (⟨0, by decide⟩ : Fin 2)) _ _ rfl _ _ (numW_apply A (⟨3, by decide⟩ : Fin 13) (rowOf L (⟨0, by decide⟩ : Fin 2)) _ (fetch_w A _) _ (numWord_toNat (⟨3, by decide⟩ : Fin 13) (⟨0, by decide⟩ : Fin 2) L) _) (numB_apply A (⟨3, by decide⟩ : Fin 13) (rowOf L (⟨0, by decide⟩ : Fin 2)) _ (fetch_b A _) _ (numWord_toNat (⟨3, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨3, by decide⟩ : Fin 13) _ _ rfl)
    iexists _; isplitl [H5]; · iexact H5
    ipureintro; intro y hy; exact absurd hy (by omega)
  iintro %_ HI
  unfold invNum45
  icases HI with ⟨⟨%fn_3_0, H4, %hfn_3_0⟩, ⟨%fo_30_0, H5, %hfo_30_0⟩⟩
  subst hfn_3_0
  -- token 30, row 1: numeric column 3 times its weight plus its bias
  sl_exec_parts (disch := exact ⟨chk_num (⟨3, by decide⟩ : Fin 13) (⟨1, by decide⟩ : Fin 2) L, chk_num (⟨3, by decide⟩ : Fin 13) (⟨1, by decide⟩ : Fin 2) L⟩)
  try unfold SparseCore.vectorLoadIdx
  sl_exec_parts (disch := exact ⟨chk_num (⟨3, by decide⟩ : Fin 13) (⟨1, by decide⟩ : Fin 2) L, chk_num (⟨3, by decide⟩ : Fin 13) (⟨1, by decide⟩ : Fin 2) L⟩)
  sl_for (invNum46 (F := F) A (⟨3, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨3, by decide⟩ : Fin 13) (rowOf L (⟨1, by decide⟩ : Fin 2)) _ _ rfl _ _ (numW_apply A (⟨3, by decide⟩ : Fin 13) (rowOf L (⟨1, by decide⟩ : Fin 2)) _ (fetch_w A _) _ (numWord_toNat (⟨3, by decide⟩ : Fin 13) (⟨1, by decide⟩ : Fin 2) L) _) (numB_apply A (⟨3, by decide⟩ : Fin 13) (rowOf L (⟨1, by decide⟩ : Fin 2)) _ (fetch_b A _) _ (numWord_toNat (⟨3, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_3_1, H4, %hfn_3_1⟩, ⟨%fo_30_1, H6, %hfo_30_1⟩⟩
  subst hfn_3_1
  -- token 31, row 0: numeric column 4 times its weight plus its bias
  sl_exec_parts (disch := exact ⟨chk_num (⟨4, by decide⟩ : Fin 13) (⟨0, by decide⟩ : Fin 2) L, chk_num (⟨4, by decide⟩ : Fin 13) (⟨0, by decide⟩ : Fin 2) L⟩)
  try unfold SparseCore.vectorLoadIdx
  sl_exec_parts (disch := exact ⟨chk_num (⟨4, by decide⟩ : Fin 13) (⟨0, by decide⟩ : Fin 2) L, chk_num (⟨4, by decide⟩ : Fin 13) (⟨0, by decide⟩ : Fin 2) L⟩)
  sl_for (invNum35 (F := F) A (⟨4, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨4, by decide⟩ : Fin 13) (rowOf L (⟨0, by decide⟩ : Fin 2)) _ _ rfl _ _ (numW_apply A (⟨4, by decide⟩ : Fin 13) (rowOf L (⟨0, by decide⟩ : Fin 2)) _ (fetch_w A _) _ (numWord_toNat (⟨4, by decide⟩ : Fin 13) (⟨0, by decide⟩ : Fin 2) L) _) (numB_apply A (⟨4, by decide⟩ : Fin 13) (rowOf L (⟨0, by decide⟩ : Fin 2)) _ (fetch_b A _) _ (numWord_toNat (⟨4, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨4, by decide⟩ : Fin 13) _ _ rfl)
    iexists _; isplitl [H5]; · iexact H5
    ipureintro; intro y hy; exact absurd hy (by omega)
  iintro %_ HI
  unfold invNum35
  icases HI with ⟨⟨%fn_4_0, H3, %hfn_4_0⟩, ⟨%fo_31_0, H5, %hfo_31_0⟩⟩
  subst hfn_4_0
  -- token 31, row 1: numeric column 4 times its weight plus its bias
  sl_exec_parts (disch := exact ⟨chk_num (⟨4, by decide⟩ : Fin 13) (⟨1, by decide⟩ : Fin 2) L, chk_num (⟨4, by decide⟩ : Fin 13) (⟨1, by decide⟩ : Fin 2) L⟩)
  try unfold SparseCore.vectorLoadIdx
  sl_exec_parts (disch := exact ⟨chk_num (⟨4, by decide⟩ : Fin 13) (⟨1, by decide⟩ : Fin 2) L, chk_num (⟨4, by decide⟩ : Fin 13) (⟨1, by decide⟩ : Fin 2) L⟩)
  sl_for (invNum36 (F := F) A (⟨4, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨4, by decide⟩ : Fin 13) (rowOf L (⟨1, by decide⟩ : Fin 2)) _ _ rfl _ _ (numW_apply A (⟨4, by decide⟩ : Fin 13) (rowOf L (⟨1, by decide⟩ : Fin 2)) _ (fetch_w A _) _ (numWord_toNat (⟨4, by decide⟩ : Fin 13) (⟨1, by decide⟩ : Fin 2) L) _) (numB_apply A (⟨4, by decide⟩ : Fin 13) (rowOf L (⟨1, by decide⟩ : Fin 2)) _ (fetch_b A _) _ (numWord_toNat (⟨4, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_4_1, H3, %hfn_4_1⟩, ⟨%fo_31_1, H6, %hfo_31_1⟩⟩
  subst hfn_4_1
  -- token 32, row 0: numeric column 5 times its weight plus its bias
  sl_exec_parts (disch := exact ⟨chk_num (⟨5, by decide⟩ : Fin 13) (⟨0, by decide⟩ : Fin 2) L, chk_num (⟨5, by decide⟩ : Fin 13) (⟨0, by decide⟩ : Fin 2) L⟩)
  try unfold SparseCore.vectorLoadIdx
  sl_exec_parts (disch := exact ⟨chk_num (⟨5, by decide⟩ : Fin 13) (⟨0, by decide⟩ : Fin 2) L, chk_num (⟨5, by decide⟩ : Fin 13) (⟨0, by decide⟩ : Fin 2) L⟩)
  sl_for (invNum45 (F := F) A (⟨5, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨5, by decide⟩ : Fin 13) (rowOf L (⟨0, by decide⟩ : Fin 2)) _ _ rfl _ _ (numW_apply A (⟨5, by decide⟩ : Fin 13) (rowOf L (⟨0, by decide⟩ : Fin 2)) _ (fetch_w A _) _ (numWord_toNat (⟨5, by decide⟩ : Fin 13) (⟨0, by decide⟩ : Fin 2) L) _) (numB_apply A (⟨5, by decide⟩ : Fin 13) (rowOf L (⟨0, by decide⟩ : Fin 2)) _ (fetch_b A _) _ (numWord_toNat (⟨5, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨5, by decide⟩ : Fin 13) _ _ rfl)
    iexists _; isplitl [H5]; · iexact H5
    ipureintro; intro y hy; exact absurd hy (by omega)
  iintro %_ HI
  unfold invNum45
  icases HI with ⟨⟨%fn_5_0, H4, %hfn_5_0⟩, ⟨%fo_32_0, H5, %hfo_32_0⟩⟩
  subst hfn_5_0
  -- token 32, row 1: numeric column 5 times its weight plus its bias
  sl_exec_parts (disch := exact ⟨chk_num (⟨5, by decide⟩ : Fin 13) (⟨1, by decide⟩ : Fin 2) L, chk_num (⟨5, by decide⟩ : Fin 13) (⟨1, by decide⟩ : Fin 2) L⟩)
  try unfold SparseCore.vectorLoadIdx
  sl_exec_parts (disch := exact ⟨chk_num (⟨5, by decide⟩ : Fin 13) (⟨1, by decide⟩ : Fin 2) L, chk_num (⟨5, by decide⟩ : Fin 13) (⟨1, by decide⟩ : Fin 2) L⟩)
  sl_for (invNum46 (F := F) A (⟨5, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨5, by decide⟩ : Fin 13) (rowOf L (⟨1, by decide⟩ : Fin 2)) _ _ rfl _ _ (numW_apply A (⟨5, by decide⟩ : Fin 13) (rowOf L (⟨1, by decide⟩ : Fin 2)) _ (fetch_w A _) _ (numWord_toNat (⟨5, by decide⟩ : Fin 13) (⟨1, by decide⟩ : Fin 2) L) _) (numB_apply A (⟨5, by decide⟩ : Fin 13) (rowOf L (⟨1, by decide⟩ : Fin 2)) _ (fetch_b A _) _ (numWord_toNat (⟨5, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_5_1, H4, %hfn_5_1⟩, ⟨%fo_32_1, H6, %hfo_32_1⟩⟩
  subst hfn_5_1
  -- token 33, row 0: numeric column 6 times its weight plus its bias
  sl_exec_parts (disch := exact ⟨chk_num (⟨6, by decide⟩ : Fin 13) (⟨0, by decide⟩ : Fin 2) L, chk_num (⟨6, by decide⟩ : Fin 13) (⟨0, by decide⟩ : Fin 2) L⟩)
  try unfold SparseCore.vectorLoadIdx
  sl_exec_parts (disch := exact ⟨chk_num (⟨6, by decide⟩ : Fin 13) (⟨0, by decide⟩ : Fin 2) L, chk_num (⟨6, by decide⟩ : Fin 13) (⟨0, by decide⟩ : Fin 2) L⟩)
  sl_for (invNum35 (F := F) A (⟨6, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨6, by decide⟩ : Fin 13) (rowOf L (⟨0, by decide⟩ : Fin 2)) _ _ rfl _ _ (numW_apply A (⟨6, by decide⟩ : Fin 13) (rowOf L (⟨0, by decide⟩ : Fin 2)) _ (fetch_w A _) _ (numWord_toNat (⟨6, by decide⟩ : Fin 13) (⟨0, by decide⟩ : Fin 2) L) _) (numB_apply A (⟨6, by decide⟩ : Fin 13) (rowOf L (⟨0, by decide⟩ : Fin 2)) _ (fetch_b A _) _ (numWord_toNat (⟨6, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨6, by decide⟩ : Fin 13) _ _ rfl)
    iexists _; isplitl [H5]; · iexact H5
    ipureintro; intro y hy; exact absurd hy (by omega)
  iintro %_ HI
  unfold invNum35
  icases HI with ⟨⟨%fn_6_0, H3, %hfn_6_0⟩, ⟨%fo_33_0, H5, %hfo_33_0⟩⟩
  subst hfn_6_0
  -- token 33, row 1: numeric column 6 times its weight plus its bias
  sl_exec_parts (disch := exact ⟨chk_num (⟨6, by decide⟩ : Fin 13) (⟨1, by decide⟩ : Fin 2) L, chk_num (⟨6, by decide⟩ : Fin 13) (⟨1, by decide⟩ : Fin 2) L⟩)
  try unfold SparseCore.vectorLoadIdx
  sl_exec_parts (disch := exact ⟨chk_num (⟨6, by decide⟩ : Fin 13) (⟨1, by decide⟩ : Fin 2) L, chk_num (⟨6, by decide⟩ : Fin 13) (⟨1, by decide⟩ : Fin 2) L⟩)
  sl_for (invNum36 (F := F) A (⟨6, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨6, by decide⟩ : Fin 13) (rowOf L (⟨1, by decide⟩ : Fin 2)) _ _ rfl _ _ (numW_apply A (⟨6, by decide⟩ : Fin 13) (rowOf L (⟨1, by decide⟩ : Fin 2)) _ (fetch_w A _) _ (numWord_toNat (⟨6, by decide⟩ : Fin 13) (⟨1, by decide⟩ : Fin 2) L) _) (numB_apply A (⟨6, by decide⟩ : Fin 13) (rowOf L (⟨1, by decide⟩ : Fin 2)) _ (fetch_b A _) _ (numWord_toNat (⟨6, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_6_1, H3, %hfn_6_1⟩, ⟨%fo_33_1, H6, %hfo_33_1⟩⟩
  subst hfn_6_1
  -- token 34, row 0: numeric column 7 times its weight plus its bias
  sl_exec_parts (disch := exact ⟨chk_num (⟨7, by decide⟩ : Fin 13) (⟨0, by decide⟩ : Fin 2) L, chk_num (⟨7, by decide⟩ : Fin 13) (⟨0, by decide⟩ : Fin 2) L⟩)
  try unfold SparseCore.vectorLoadIdx
  sl_exec_parts (disch := exact ⟨chk_num (⟨7, by decide⟩ : Fin 13) (⟨0, by decide⟩ : Fin 2) L, chk_num (⟨7, by decide⟩ : Fin 13) (⟨0, by decide⟩ : Fin 2) L⟩)
  sl_for (invNum45 (F := F) A (⟨7, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨7, by decide⟩ : Fin 13) (rowOf L (⟨0, by decide⟩ : Fin 2)) _ _ rfl _ _ (numW_apply A (⟨7, by decide⟩ : Fin 13) (rowOf L (⟨0, by decide⟩ : Fin 2)) _ (fetch_w A _) _ (numWord_toNat (⟨7, by decide⟩ : Fin 13) (⟨0, by decide⟩ : Fin 2) L) _) (numB_apply A (⟨7, by decide⟩ : Fin 13) (rowOf L (⟨0, by decide⟩ : Fin 2)) _ (fetch_b A _) _ (numWord_toNat (⟨7, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨7, by decide⟩ : Fin 13) _ _ rfl)
    iexists _; isplitl [H5]; · iexact H5
    ipureintro; intro y hy; exact absurd hy (by omega)
  iintro %_ HI
  unfold invNum45
  icases HI with ⟨⟨%fn_7_0, H4, %hfn_7_0⟩, ⟨%fo_34_0, H5, %hfo_34_0⟩⟩
  subst hfn_7_0
  -- token 34, row 1: numeric column 7 times its weight plus its bias
  sl_exec_parts (disch := exact ⟨chk_num (⟨7, by decide⟩ : Fin 13) (⟨1, by decide⟩ : Fin 2) L, chk_num (⟨7, by decide⟩ : Fin 13) (⟨1, by decide⟩ : Fin 2) L⟩)
  try unfold SparseCore.vectorLoadIdx
  sl_exec_parts (disch := exact ⟨chk_num (⟨7, by decide⟩ : Fin 13) (⟨1, by decide⟩ : Fin 2) L, chk_num (⟨7, by decide⟩ : Fin 13) (⟨1, by decide⟩ : Fin 2) L⟩)
  sl_for (invNum46 (F := F) A (⟨7, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨7, by decide⟩ : Fin 13) (rowOf L (⟨1, by decide⟩ : Fin 2)) _ _ rfl _ _ (numW_apply A (⟨7, by decide⟩ : Fin 13) (rowOf L (⟨1, by decide⟩ : Fin 2)) _ (fetch_w A _) _ (numWord_toNat (⟨7, by decide⟩ : Fin 13) (⟨1, by decide⟩ : Fin 2) L) _) (numB_apply A (⟨7, by decide⟩ : Fin 13) (rowOf L (⟨1, by decide⟩ : Fin 2)) _ (fetch_b A _) _ (numWord_toNat (⟨7, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_7_1, H4, %hfn_7_1⟩, ⟨%fo_34_1, H6, %hfo_34_1⟩⟩
  subst hfn_7_1
  -- token 35, row 0: numeric column 8 times its weight plus its bias
  sl_exec_parts (disch := exact ⟨chk_num (⟨8, by decide⟩ : Fin 13) (⟨0, by decide⟩ : Fin 2) L, chk_num (⟨8, by decide⟩ : Fin 13) (⟨0, by decide⟩ : Fin 2) L⟩)
  try unfold SparseCore.vectorLoadIdx
  sl_exec_parts (disch := exact ⟨chk_num (⟨8, by decide⟩ : Fin 13) (⟨0, by decide⟩ : Fin 2) L, chk_num (⟨8, by decide⟩ : Fin 13) (⟨0, by decide⟩ : Fin 2) L⟩)
  sl_for (invNum35 (F := F) A (⟨8, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨8, by decide⟩ : Fin 13) (rowOf L (⟨0, by decide⟩ : Fin 2)) _ _ rfl _ _ (numW_apply A (⟨8, by decide⟩ : Fin 13) (rowOf L (⟨0, by decide⟩ : Fin 2)) _ (fetch_w A _) _ (numWord_toNat (⟨8, by decide⟩ : Fin 13) (⟨0, by decide⟩ : Fin 2) L) _) (numB_apply A (⟨8, by decide⟩ : Fin 13) (rowOf L (⟨0, by decide⟩ : Fin 2)) _ (fetch_b A _) _ (numWord_toNat (⟨8, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨8, by decide⟩ : Fin 13) _ _ rfl)
    iexists _; isplitl [H5]; · iexact H5
    ipureintro; intro y hy; exact absurd hy (by omega)
  iintro %_ HI
  unfold invNum35
  icases HI with ⟨⟨%fn_8_0, H3, %hfn_8_0⟩, ⟨%fo_35_0, H5, %hfo_35_0⟩⟩
  subst hfn_8_0
  -- token 35, row 1: numeric column 8 times its weight plus its bias
  sl_exec_parts (disch := exact ⟨chk_num (⟨8, by decide⟩ : Fin 13) (⟨1, by decide⟩ : Fin 2) L, chk_num (⟨8, by decide⟩ : Fin 13) (⟨1, by decide⟩ : Fin 2) L⟩)
  try unfold SparseCore.vectorLoadIdx
  sl_exec_parts (disch := exact ⟨chk_num (⟨8, by decide⟩ : Fin 13) (⟨1, by decide⟩ : Fin 2) L, chk_num (⟨8, by decide⟩ : Fin 13) (⟨1, by decide⟩ : Fin 2) L⟩)
  sl_for (invNum36 (F := F) A (⟨8, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨8, by decide⟩ : Fin 13) (rowOf L (⟨1, by decide⟩ : Fin 2)) _ _ rfl _ _ (numW_apply A (⟨8, by decide⟩ : Fin 13) (rowOf L (⟨1, by decide⟩ : Fin 2)) _ (fetch_w A _) _ (numWord_toNat (⟨8, by decide⟩ : Fin 13) (⟨1, by decide⟩ : Fin 2) L) _) (numB_apply A (⟨8, by decide⟩ : Fin 13) (rowOf L (⟨1, by decide⟩ : Fin 2)) _ (fetch_b A _) _ (numWord_toNat (⟨8, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_8_1, H3, %hfn_8_1⟩, ⟨%fo_35_1, H6, %hfo_35_1⟩⟩
  subst hfn_8_1
  -- token 36, row 0: numeric column 9 times its weight plus its bias
  sl_exec_parts (disch := exact ⟨chk_num (⟨9, by decide⟩ : Fin 13) (⟨0, by decide⟩ : Fin 2) L, chk_num (⟨9, by decide⟩ : Fin 13) (⟨0, by decide⟩ : Fin 2) L⟩)
  try unfold SparseCore.vectorLoadIdx
  sl_exec_parts (disch := exact ⟨chk_num (⟨9, by decide⟩ : Fin 13) (⟨0, by decide⟩ : Fin 2) L, chk_num (⟨9, by decide⟩ : Fin 13) (⟨0, by decide⟩ : Fin 2) L⟩)
  sl_for (invNum45 (F := F) A (⟨9, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨9, by decide⟩ : Fin 13) (rowOf L (⟨0, by decide⟩ : Fin 2)) _ _ rfl _ _ (numW_apply A (⟨9, by decide⟩ : Fin 13) (rowOf L (⟨0, by decide⟩ : Fin 2)) _ (fetch_w A _) _ (numWord_toNat (⟨9, by decide⟩ : Fin 13) (⟨0, by decide⟩ : Fin 2) L) _) (numB_apply A (⟨9, by decide⟩ : Fin 13) (rowOf L (⟨0, by decide⟩ : Fin 2)) _ (fetch_b A _) _ (numWord_toNat (⟨9, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨9, by decide⟩ : Fin 13) _ _ rfl)
    iexists _; isplitl [H5]; · iexact H5
    ipureintro; intro y hy; exact absurd hy (by omega)
  iintro %_ HI
  unfold invNum45
  icases HI with ⟨⟨%fn_9_0, H4, %hfn_9_0⟩, ⟨%fo_36_0, H5, %hfo_36_0⟩⟩
  subst hfn_9_0
  -- token 36, row 1: numeric column 9 times its weight plus its bias
  sl_exec_parts (disch := exact ⟨chk_num (⟨9, by decide⟩ : Fin 13) (⟨1, by decide⟩ : Fin 2) L, chk_num (⟨9, by decide⟩ : Fin 13) (⟨1, by decide⟩ : Fin 2) L⟩)
  try unfold SparseCore.vectorLoadIdx
  sl_exec_parts (disch := exact ⟨chk_num (⟨9, by decide⟩ : Fin 13) (⟨1, by decide⟩ : Fin 2) L, chk_num (⟨9, by decide⟩ : Fin 13) (⟨1, by decide⟩ : Fin 2) L⟩)
  sl_for (invNum46 (F := F) A (⟨9, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨9, by decide⟩ : Fin 13) (rowOf L (⟨1, by decide⟩ : Fin 2)) _ _ rfl _ _ (numW_apply A (⟨9, by decide⟩ : Fin 13) (rowOf L (⟨1, by decide⟩ : Fin 2)) _ (fetch_w A _) _ (numWord_toNat (⟨9, by decide⟩ : Fin 13) (⟨1, by decide⟩ : Fin 2) L) _) (numB_apply A (⟨9, by decide⟩ : Fin 13) (rowOf L (⟨1, by decide⟩ : Fin 2)) _ (fetch_b A _) _ (numWord_toNat (⟨9, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_9_1, H4, %hfn_9_1⟩, ⟨%fo_36_1, H6, %hfo_36_1⟩⟩
  subst hfn_9_1
  -- token 37, row 0: numeric column 10 times its weight plus its bias
  sl_exec_parts (disch := exact ⟨chk_num (⟨10, by decide⟩ : Fin 13) (⟨0, by decide⟩ : Fin 2) L, chk_num (⟨10, by decide⟩ : Fin 13) (⟨0, by decide⟩ : Fin 2) L⟩)
  try unfold SparseCore.vectorLoadIdx
  sl_exec_parts (disch := exact ⟨chk_num (⟨10, by decide⟩ : Fin 13) (⟨0, by decide⟩ : Fin 2) L, chk_num (⟨10, by decide⟩ : Fin 13) (⟨0, by decide⟩ : Fin 2) L⟩)
  sl_for (invNum35 (F := F) A (⟨10, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨10, by decide⟩ : Fin 13) (rowOf L (⟨0, by decide⟩ : Fin 2)) _ _ rfl _ _ (numW_apply A (⟨10, by decide⟩ : Fin 13) (rowOf L (⟨0, by decide⟩ : Fin 2)) _ (fetch_w A _) _ (numWord_toNat (⟨10, by decide⟩ : Fin 13) (⟨0, by decide⟩ : Fin 2) L) _) (numB_apply A (⟨10, by decide⟩ : Fin 13) (rowOf L (⟨0, by decide⟩ : Fin 2)) _ (fetch_b A _) _ (numWord_toNat (⟨10, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨10, by decide⟩ : Fin 13) _ _ rfl)
    iexists _; isplitl [H5]; · iexact H5
    ipureintro; intro y hy; exact absurd hy (by omega)
  iintro %_ HI
  unfold invNum35
  icases HI with ⟨⟨%fn_10_0, H3, %hfn_10_0⟩, ⟨%fo_37_0, H5, %hfo_37_0⟩⟩
  subst hfn_10_0
  -- token 37, row 1: numeric column 10 times its weight plus its bias
  sl_exec_parts (disch := exact ⟨chk_num (⟨10, by decide⟩ : Fin 13) (⟨1, by decide⟩ : Fin 2) L, chk_num (⟨10, by decide⟩ : Fin 13) (⟨1, by decide⟩ : Fin 2) L⟩)
  try unfold SparseCore.vectorLoadIdx
  sl_exec_parts (disch := exact ⟨chk_num (⟨10, by decide⟩ : Fin 13) (⟨1, by decide⟩ : Fin 2) L, chk_num (⟨10, by decide⟩ : Fin 13) (⟨1, by decide⟩ : Fin 2) L⟩)
  sl_for (invNum36 (F := F) A (⟨10, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨10, by decide⟩ : Fin 13) (rowOf L (⟨1, by decide⟩ : Fin 2)) _ _ rfl _ _ (numW_apply A (⟨10, by decide⟩ : Fin 13) (rowOf L (⟨1, by decide⟩ : Fin 2)) _ (fetch_w A _) _ (numWord_toNat (⟨10, by decide⟩ : Fin 13) (⟨1, by decide⟩ : Fin 2) L) _) (numB_apply A (⟨10, by decide⟩ : Fin 13) (rowOf L (⟨1, by decide⟩ : Fin 2)) _ (fetch_b A _) _ (numWord_toNat (⟨10, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_10_1, H3, %hfn_10_1⟩, ⟨%fo_37_1, H6, %hfo_37_1⟩⟩
  subst hfn_10_1
  -- token 38, row 0: numeric column 11 times its weight plus its bias
  sl_exec_parts (disch := exact ⟨chk_num (⟨11, by decide⟩ : Fin 13) (⟨0, by decide⟩ : Fin 2) L, chk_num (⟨11, by decide⟩ : Fin 13) (⟨0, by decide⟩ : Fin 2) L⟩)
  try unfold SparseCore.vectorLoadIdx
  sl_exec_parts (disch := exact ⟨chk_num (⟨11, by decide⟩ : Fin 13) (⟨0, by decide⟩ : Fin 2) L, chk_num (⟨11, by decide⟩ : Fin 13) (⟨0, by decide⟩ : Fin 2) L⟩)
  sl_for (invNum45 (F := F) A (⟨11, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨11, by decide⟩ : Fin 13) (rowOf L (⟨0, by decide⟩ : Fin 2)) _ _ rfl _ _ (numW_apply A (⟨11, by decide⟩ : Fin 13) (rowOf L (⟨0, by decide⟩ : Fin 2)) _ (fetch_w A _) _ (numWord_toNat (⟨11, by decide⟩ : Fin 13) (⟨0, by decide⟩ : Fin 2) L) _) (numB_apply A (⟨11, by decide⟩ : Fin 13) (rowOf L (⟨0, by decide⟩ : Fin 2)) _ (fetch_b A _) _ (numWord_toNat (⟨11, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨11, by decide⟩ : Fin 13) _ _ rfl)
    iexists _; isplitl [H5]; · iexact H5
    ipureintro; intro y hy; exact absurd hy (by omega)
  iintro %_ HI
  unfold invNum45
  icases HI with ⟨⟨%fn_11_0, H4, %hfn_11_0⟩, ⟨%fo_38_0, H5, %hfo_38_0⟩⟩
  subst hfn_11_0
  -- token 38, row 1: numeric column 11 times its weight plus its bias
  sl_exec_parts (disch := exact ⟨chk_num (⟨11, by decide⟩ : Fin 13) (⟨1, by decide⟩ : Fin 2) L, chk_num (⟨11, by decide⟩ : Fin 13) (⟨1, by decide⟩ : Fin 2) L⟩)
  try unfold SparseCore.vectorLoadIdx
  sl_exec_parts (disch := exact ⟨chk_num (⟨11, by decide⟩ : Fin 13) (⟨1, by decide⟩ : Fin 2) L, chk_num (⟨11, by decide⟩ : Fin 13) (⟨1, by decide⟩ : Fin 2) L⟩)
  sl_for (invNum46 (F := F) A (⟨11, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨11, by decide⟩ : Fin 13) (rowOf L (⟨1, by decide⟩ : Fin 2)) _ _ rfl _ _ (numW_apply A (⟨11, by decide⟩ : Fin 13) (rowOf L (⟨1, by decide⟩ : Fin 2)) _ (fetch_w A _) _ (numWord_toNat (⟨11, by decide⟩ : Fin 13) (⟨1, by decide⟩ : Fin 2) L) _) (numB_apply A (⟨11, by decide⟩ : Fin 13) (rowOf L (⟨1, by decide⟩ : Fin 2)) _ (fetch_b A _) _ (numWord_toNat (⟨11, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_11_1, H4, %hfn_11_1⟩, ⟨%fo_38_1, H6, %hfo_38_1⟩⟩
  subst hfn_11_1
  -- token 39, row 0: numeric column 12 times its weight plus its bias
  sl_exec_parts (disch := exact ⟨chk_num (⟨12, by decide⟩ : Fin 13) (⟨0, by decide⟩ : Fin 2) L, chk_num (⟨12, by decide⟩ : Fin 13) (⟨0, by decide⟩ : Fin 2) L⟩)
  try unfold SparseCore.vectorLoadIdx
  sl_exec_parts (disch := exact ⟨chk_num (⟨12, by decide⟩ : Fin 13) (⟨0, by decide⟩ : Fin 2) L, chk_num (⟨12, by decide⟩ : Fin 13) (⟨0, by decide⟩ : Fin 2) L⟩)
  sl_for (invNum35 (F := F) A (⟨12, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨12, by decide⟩ : Fin 13) (rowOf L (⟨0, by decide⟩ : Fin 2)) _ _ rfl _ _ (numW_apply A (⟨12, by decide⟩ : Fin 13) (rowOf L (⟨0, by decide⟩ : Fin 2)) _ (fetch_w A _) _ (numWord_toNat (⟨12, by decide⟩ : Fin 13) (⟨0, by decide⟩ : Fin 2) L) _) (numB_apply A (⟨12, by decide⟩ : Fin 13) (rowOf L (⟨0, by decide⟩ : Fin 2)) _ (fetch_b A _) _ (numWord_toNat (⟨12, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨12, by decide⟩ : Fin 13) _ _ rfl)
    iexists _; isplitl [H5]; · iexact H5
    ipureintro; intro y hy; exact absurd hy (by omega)
  iintro %_ HI
  unfold invNum35
  icases HI with ⟨⟨%fn_12_0, H3, %hfn_12_0⟩, ⟨%fo_39_0, H5, %hfo_39_0⟩⟩
  subst hfn_12_0
  -- token 39, row 1: numeric column 12 times its weight plus its bias
  sl_exec_parts (disch := exact ⟨chk_num (⟨12, by decide⟩ : Fin 13) (⟨1, by decide⟩ : Fin 2) L, chk_num (⟨12, by decide⟩ : Fin 13) (⟨1, by decide⟩ : Fin 2) L⟩)
  try unfold SparseCore.vectorLoadIdx
  sl_exec_parts (disch := exact ⟨chk_num (⟨12, by decide⟩ : Fin 13) (⟨1, by decide⟩ : Fin 2) L, chk_num (⟨12, by decide⟩ : Fin 13) (⟨1, by decide⟩ : Fin 2) L⟩)
  sl_for (invNum36 (F := F) A (⟨12, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨12, by decide⟩ : Fin 13) (rowOf L (⟨1, by decide⟩ : Fin 2)) _ _ rfl _ _ (numW_apply A (⟨12, by decide⟩ : Fin 13) (rowOf L (⟨1, by decide⟩ : Fin 2)) _ (fetch_w A _) _ (numWord_toNat (⟨12, by decide⟩ : Fin 13) (⟨1, by decide⟩ : Fin 2) L) _) (numB_apply A (⟨12, by decide⟩ : Fin 13) (rowOf L (⟨1, by decide⟩ : Fin 2)) _ (fetch_b A _) _ (numWord_toNat (⟨12, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_12_1, H3, %hfn_12_1⟩, ⟨%fo_39_1, H6, %hfo_39_1⟩⟩
  subst hfn_12_1
  -- the last two copies out, their waits, the return
  sl_exec_parts
  sl_step
  unfold rowsDone
  isplitl [HO]
  · iexists _; isplitr
    swap
    · iexact HO
    · ipureintro; repeat (first | exact OkW.refl _ | apply OkW.insert)
  isplitl [Hcat]; · iexact Hcat
  isplitl [Hnum]; · iexact Hnum
  isplitl [Hemb]; · iexact Hemb
  isplitl [Hw]; · iexact Hw
  isplitl [Hb]; · iexact Hb
  isplitl [Hcls]; · iexact Hcls
  isplitl [Hr0_0 Hr0_1 Hr1_0 Hr1_1 Hr2_0 Hr2_1 Hr3_0 Hr3_1 Hr4_0 Hr4_1 Hr5_0 Hr5_1 Hr6_0 Hr6_1 Hr7_0 Hr7_1 Hr8_0 Hr8_1 Hr9_0 Hr9_1 Hr10_0 Hr10_1 Hr11_0 Hr11_1 Hr12_0 Hr12_1 Hr13_0 Hr13_1 Hr14_0 Hr14_1 Hr15_0 Hr15_1 Hr16_0 Hr16_1 Hr17_0 Hr17_1 Hr18_0 Hr18_1 Hr19_0 Hr19_1 Hr20_0 Hr20_1 Hr21_0 Hr21_1 Hr22_0 Hr22_1 Hr23_0 Hr23_1 Hr24_0 Hr24_1 Hr25_0 Hr25_1 Hr26_0 Hr26_1 Hr27_0 Hr27_1 Hr28_0 Hr28_1 Hr29_0 Hr29_1 Hr30_0 Hr30_1 Hr31_0 Hr31_1 Hr32_0 Hr32_1 Hr33_0 Hr33_1 Hr34_0 Hr34_1 Hr35_0 Hr35_1 Hr36_0 Hr36_1 Hr37_0 Hr37_1 Hr38_0 Hr38_1 Hr39_0 Hr39_1]
  · isplitl [Hr0_0]
    · iexists _; isplitr
      swap
      · iexact Hr0_0
      · ipureintro
        exact row_done5 _ _ (⟨0, by decide⟩ : Fin 40) (rowOf L (⟨0, by decide⟩ : Fin 2)) (dst_hoff_0_0 L) _ fo_0_0 (rowCls A (rowOf L (⟨0, by decide⟩ : Fin 2))) (GT A) (fun y => hfo_0_0 y (y 1).isLt) (fun n => GT_cls A (rowOf L (⟨0, by decide⟩ : Fin 2)) n)
    isplitl [Hr0_1]
    · iexists _; isplitr
      swap
      · iexact Hr0_1
      · ipureintro
        exact row_done6 _ _ (⟨0, by decide⟩ : Fin 40) (rowOf L (⟨1, by decide⟩ : Fin 2)) (dst_hoff_0_1 L) _ fo_0_1 (rowCls A (rowOf L (⟨1, by decide⟩ : Fin 2))) (GT A) (fun y => hfo_0_1 y (y 1).isLt) (fun n => GT_cls A (rowOf L (⟨1, by decide⟩ : Fin 2)) n)
    isplitl [Hr1_0]
    · iexists _; isplitr
      swap
      · iexact Hr1_0
      · ipureintro
        exact row_done5 _ _ (⟨1, by decide⟩ : Fin 40) (rowOf L (⟨0, by decide⟩ : Fin 2)) (dst_hoff_1_0 L) _ fo_1_0 (rowCat A (⟨0, by decide⟩ : Fin 26) (rowOf L (⟨0, by decide⟩ : Fin 2))) (GT A) (fun y => hfo_1_0 y (y 1).isLt) (fun n => GT_cat A (rowOf L (⟨0, by decide⟩ : Fin 2)) n (⟨0, by decide⟩ : Fin 26) (by decide))
    isplitl [Hr1_1]
    · iexists _; isplitr
      swap
      · iexact Hr1_1
      · ipureintro
        exact row_done6 _ _ (⟨1, by decide⟩ : Fin 40) (rowOf L (⟨1, by decide⟩ : Fin 2)) (dst_hoff_1_1 L) _ fo_1_1 (rowCat A (⟨0, by decide⟩ : Fin 26) (rowOf L (⟨1, by decide⟩ : Fin 2))) (GT A) (fun y => hfo_1_1 y (y 1).isLt) (fun n => GT_cat A (rowOf L (⟨1, by decide⟩ : Fin 2)) n (⟨0, by decide⟩ : Fin 26) (by decide))
    isplitl [Hr2_0]
    · iexists _; isplitr
      swap
      · iexact Hr2_0
      · ipureintro
        exact row_done5 _ _ (⟨2, by decide⟩ : Fin 40) (rowOf L (⟨0, by decide⟩ : Fin 2)) (dst_hoff_2_0 L) _ fo_2_0 (rowCat A (⟨1, by decide⟩ : Fin 26) (rowOf L (⟨0, by decide⟩ : Fin 2))) (GT A) (fun y => hfo_2_0 y (y 1).isLt) (fun n => GT_cat A (rowOf L (⟨0, by decide⟩ : Fin 2)) n (⟨1, by decide⟩ : Fin 26) (by decide))
    isplitl [Hr2_1]
    · iexists _; isplitr
      swap
      · iexact Hr2_1
      · ipureintro
        exact row_done6 _ _ (⟨2, by decide⟩ : Fin 40) (rowOf L (⟨1, by decide⟩ : Fin 2)) (dst_hoff_2_1 L) _ fo_2_1 (rowCat A (⟨1, by decide⟩ : Fin 26) (rowOf L (⟨1, by decide⟩ : Fin 2))) (GT A) (fun y => hfo_2_1 y (y 1).isLt) (fun n => GT_cat A (rowOf L (⟨1, by decide⟩ : Fin 2)) n (⟨1, by decide⟩ : Fin 26) (by decide))
    isplitl [Hr3_0]
    · iexists _; isplitr
      swap
      · iexact Hr3_0
      · ipureintro
        exact row_done5 _ _ (⟨3, by decide⟩ : Fin 40) (rowOf L (⟨0, by decide⟩ : Fin 2)) (dst_hoff_3_0 L) _ fo_3_0 (rowCat A (⟨2, by decide⟩ : Fin 26) (rowOf L (⟨0, by decide⟩ : Fin 2))) (GT A) (fun y => hfo_3_0 y (y 1).isLt) (fun n => GT_cat A (rowOf L (⟨0, by decide⟩ : Fin 2)) n (⟨2, by decide⟩ : Fin 26) (by decide))
    isplitl [Hr3_1]
    · iexists _; isplitr
      swap
      · iexact Hr3_1
      · ipureintro
        exact row_done6 _ _ (⟨3, by decide⟩ : Fin 40) (rowOf L (⟨1, by decide⟩ : Fin 2)) (dst_hoff_3_1 L) _ fo_3_1 (rowCat A (⟨2, by decide⟩ : Fin 26) (rowOf L (⟨1, by decide⟩ : Fin 2))) (GT A) (fun y => hfo_3_1 y (y 1).isLt) (fun n => GT_cat A (rowOf L (⟨1, by decide⟩ : Fin 2)) n (⟨2, by decide⟩ : Fin 26) (by decide))
    isplitl [Hr4_0]
    · iexists _; isplitr
      swap
      · iexact Hr4_0
      · ipureintro
        exact row_done5 _ _ (⟨4, by decide⟩ : Fin 40) (rowOf L (⟨0, by decide⟩ : Fin 2)) (dst_hoff_4_0 L) _ fo_4_0 (rowCat A (⟨3, by decide⟩ : Fin 26) (rowOf L (⟨0, by decide⟩ : Fin 2))) (GT A) (fun y => hfo_4_0 y (y 1).isLt) (fun n => GT_cat A (rowOf L (⟨0, by decide⟩ : Fin 2)) n (⟨3, by decide⟩ : Fin 26) (by decide))
    isplitl [Hr4_1]
    · iexists _; isplitr
      swap
      · iexact Hr4_1
      · ipureintro
        exact row_done6 _ _ (⟨4, by decide⟩ : Fin 40) (rowOf L (⟨1, by decide⟩ : Fin 2)) (dst_hoff_4_1 L) _ fo_4_1 (rowCat A (⟨3, by decide⟩ : Fin 26) (rowOf L (⟨1, by decide⟩ : Fin 2))) (GT A) (fun y => hfo_4_1 y (y 1).isLt) (fun n => GT_cat A (rowOf L (⟨1, by decide⟩ : Fin 2)) n (⟨3, by decide⟩ : Fin 26) (by decide))
    isplitl [Hr5_0]
    · iexists _; isplitr
      swap
      · iexact Hr5_0
      · ipureintro
        exact row_done5 _ _ (⟨5, by decide⟩ : Fin 40) (rowOf L (⟨0, by decide⟩ : Fin 2)) (dst_hoff_5_0 L) _ fo_5_0 (rowCat A (⟨4, by decide⟩ : Fin 26) (rowOf L (⟨0, by decide⟩ : Fin 2))) (GT A) (fun y => hfo_5_0 y (y 1).isLt) (fun n => GT_cat A (rowOf L (⟨0, by decide⟩ : Fin 2)) n (⟨4, by decide⟩ : Fin 26) (by decide))
    isplitl [Hr5_1]
    · iexists _; isplitr
      swap
      · iexact Hr5_1
      · ipureintro
        exact row_done6 _ _ (⟨5, by decide⟩ : Fin 40) (rowOf L (⟨1, by decide⟩ : Fin 2)) (dst_hoff_5_1 L) _ fo_5_1 (rowCat A (⟨4, by decide⟩ : Fin 26) (rowOf L (⟨1, by decide⟩ : Fin 2))) (GT A) (fun y => hfo_5_1 y (y 1).isLt) (fun n => GT_cat A (rowOf L (⟨1, by decide⟩ : Fin 2)) n (⟨4, by decide⟩ : Fin 26) (by decide))
    isplitl [Hr6_0]
    · iexists _; isplitr
      swap
      · iexact Hr6_0
      · ipureintro
        exact row_done5 _ _ (⟨6, by decide⟩ : Fin 40) (rowOf L (⟨0, by decide⟩ : Fin 2)) (dst_hoff_6_0 L) _ fo_6_0 (rowCat A (⟨5, by decide⟩ : Fin 26) (rowOf L (⟨0, by decide⟩ : Fin 2))) (GT A) (fun y => hfo_6_0 y (y 1).isLt) (fun n => GT_cat A (rowOf L (⟨0, by decide⟩ : Fin 2)) n (⟨5, by decide⟩ : Fin 26) (by decide))
    isplitl [Hr6_1]
    · iexists _; isplitr
      swap
      · iexact Hr6_1
      · ipureintro
        exact row_done6 _ _ (⟨6, by decide⟩ : Fin 40) (rowOf L (⟨1, by decide⟩ : Fin 2)) (dst_hoff_6_1 L) _ fo_6_1 (rowCat A (⟨5, by decide⟩ : Fin 26) (rowOf L (⟨1, by decide⟩ : Fin 2))) (GT A) (fun y => hfo_6_1 y (y 1).isLt) (fun n => GT_cat A (rowOf L (⟨1, by decide⟩ : Fin 2)) n (⟨5, by decide⟩ : Fin 26) (by decide))
    isplitl [Hr7_0]
    · iexists _; isplitr
      swap
      · iexact Hr7_0
      · ipureintro
        exact row_done5 _ _ (⟨7, by decide⟩ : Fin 40) (rowOf L (⟨0, by decide⟩ : Fin 2)) (dst_hoff_7_0 L) _ fo_7_0 (rowCat A (⟨6, by decide⟩ : Fin 26) (rowOf L (⟨0, by decide⟩ : Fin 2))) (GT A) (fun y => hfo_7_0 y (y 1).isLt) (fun n => GT_cat A (rowOf L (⟨0, by decide⟩ : Fin 2)) n (⟨6, by decide⟩ : Fin 26) (by decide))
    isplitl [Hr7_1]
    · iexists _; isplitr
      swap
      · iexact Hr7_1
      · ipureintro
        exact row_done6 _ _ (⟨7, by decide⟩ : Fin 40) (rowOf L (⟨1, by decide⟩ : Fin 2)) (dst_hoff_7_1 L) _ fo_7_1 (rowCat A (⟨6, by decide⟩ : Fin 26) (rowOf L (⟨1, by decide⟩ : Fin 2))) (GT A) (fun y => hfo_7_1 y (y 1).isLt) (fun n => GT_cat A (rowOf L (⟨1, by decide⟩ : Fin 2)) n (⟨6, by decide⟩ : Fin 26) (by decide))
    isplitl [Hr8_0]
    · iexists _; isplitr
      swap
      · iexact Hr8_0
      · ipureintro
        exact row_done5 _ _ (⟨8, by decide⟩ : Fin 40) (rowOf L (⟨0, by decide⟩ : Fin 2)) (dst_hoff_8_0 L) _ fo_8_0 (rowCat A (⟨7, by decide⟩ : Fin 26) (rowOf L (⟨0, by decide⟩ : Fin 2))) (GT A) (fun y => hfo_8_0 y (y 1).isLt) (fun n => GT_cat A (rowOf L (⟨0, by decide⟩ : Fin 2)) n (⟨7, by decide⟩ : Fin 26) (by decide))
    isplitl [Hr8_1]
    · iexists _; isplitr
      swap
      · iexact Hr8_1
      · ipureintro
        exact row_done6 _ _ (⟨8, by decide⟩ : Fin 40) (rowOf L (⟨1, by decide⟩ : Fin 2)) (dst_hoff_8_1 L) _ fo_8_1 (rowCat A (⟨7, by decide⟩ : Fin 26) (rowOf L (⟨1, by decide⟩ : Fin 2))) (GT A) (fun y => hfo_8_1 y (y 1).isLt) (fun n => GT_cat A (rowOf L (⟨1, by decide⟩ : Fin 2)) n (⟨7, by decide⟩ : Fin 26) (by decide))
    isplitl [Hr9_0]
    · iexists _; isplitr
      swap
      · iexact Hr9_0
      · ipureintro
        exact row_done5 _ _ (⟨9, by decide⟩ : Fin 40) (rowOf L (⟨0, by decide⟩ : Fin 2)) (dst_hoff_9_0 L) _ fo_9_0 (rowCat A (⟨8, by decide⟩ : Fin 26) (rowOf L (⟨0, by decide⟩ : Fin 2))) (GT A) (fun y => hfo_9_0 y (y 1).isLt) (fun n => GT_cat A (rowOf L (⟨0, by decide⟩ : Fin 2)) n (⟨8, by decide⟩ : Fin 26) (by decide))
    isplitl [Hr9_1]
    · iexists _; isplitr
      swap
      · iexact Hr9_1
      · ipureintro
        exact row_done6 _ _ (⟨9, by decide⟩ : Fin 40) (rowOf L (⟨1, by decide⟩ : Fin 2)) (dst_hoff_9_1 L) _ fo_9_1 (rowCat A (⟨8, by decide⟩ : Fin 26) (rowOf L (⟨1, by decide⟩ : Fin 2))) (GT A) (fun y => hfo_9_1 y (y 1).isLt) (fun n => GT_cat A (rowOf L (⟨1, by decide⟩ : Fin 2)) n (⟨8, by decide⟩ : Fin 26) (by decide))
    isplitl [Hr10_0]
    · iexists _; isplitr
      swap
      · iexact Hr10_0
      · ipureintro
        exact row_done5 _ _ (⟨10, by decide⟩ : Fin 40) (rowOf L (⟨0, by decide⟩ : Fin 2)) (dst_hoff_10_0 L) _ fo_10_0 (rowCat A (⟨9, by decide⟩ : Fin 26) (rowOf L (⟨0, by decide⟩ : Fin 2))) (GT A) (fun y => hfo_10_0 y (y 1).isLt) (fun n => GT_cat A (rowOf L (⟨0, by decide⟩ : Fin 2)) n (⟨9, by decide⟩ : Fin 26) (by decide))
    isplitl [Hr10_1]
    · iexists _; isplitr
      swap
      · iexact Hr10_1
      · ipureintro
        exact row_done6 _ _ (⟨10, by decide⟩ : Fin 40) (rowOf L (⟨1, by decide⟩ : Fin 2)) (dst_hoff_10_1 L) _ fo_10_1 (rowCat A (⟨9, by decide⟩ : Fin 26) (rowOf L (⟨1, by decide⟩ : Fin 2))) (GT A) (fun y => hfo_10_1 y (y 1).isLt) (fun n => GT_cat A (rowOf L (⟨1, by decide⟩ : Fin 2)) n (⟨9, by decide⟩ : Fin 26) (by decide))
    isplitl [Hr11_0]
    · iexists _; isplitr
      swap
      · iexact Hr11_0
      · ipureintro
        exact row_done5 _ _ (⟨11, by decide⟩ : Fin 40) (rowOf L (⟨0, by decide⟩ : Fin 2)) (dst_hoff_11_0 L) _ fo_11_0 (rowCat A (⟨10, by decide⟩ : Fin 26) (rowOf L (⟨0, by decide⟩ : Fin 2))) (GT A) (fun y => hfo_11_0 y (y 1).isLt) (fun n => GT_cat A (rowOf L (⟨0, by decide⟩ : Fin 2)) n (⟨10, by decide⟩ : Fin 26) (by decide))
    isplitl [Hr11_1]
    · iexists _; isplitr
      swap
      · iexact Hr11_1
      · ipureintro
        exact row_done6 _ _ (⟨11, by decide⟩ : Fin 40) (rowOf L (⟨1, by decide⟩ : Fin 2)) (dst_hoff_11_1 L) _ fo_11_1 (rowCat A (⟨10, by decide⟩ : Fin 26) (rowOf L (⟨1, by decide⟩ : Fin 2))) (GT A) (fun y => hfo_11_1 y (y 1).isLt) (fun n => GT_cat A (rowOf L (⟨1, by decide⟩ : Fin 2)) n (⟨10, by decide⟩ : Fin 26) (by decide))
    isplitl [Hr12_0]
    · iexists _; isplitr
      swap
      · iexact Hr12_0
      · ipureintro
        exact row_done5 _ _ (⟨12, by decide⟩ : Fin 40) (rowOf L (⟨0, by decide⟩ : Fin 2)) (dst_hoff_12_0 L) _ fo_12_0 (rowCat A (⟨11, by decide⟩ : Fin 26) (rowOf L (⟨0, by decide⟩ : Fin 2))) (GT A) (fun y => hfo_12_0 y (y 1).isLt) (fun n => GT_cat A (rowOf L (⟨0, by decide⟩ : Fin 2)) n (⟨11, by decide⟩ : Fin 26) (by decide))
    isplitl [Hr12_1]
    · iexists _; isplitr
      swap
      · iexact Hr12_1
      · ipureintro
        exact row_done6 _ _ (⟨12, by decide⟩ : Fin 40) (rowOf L (⟨1, by decide⟩ : Fin 2)) (dst_hoff_12_1 L) _ fo_12_1 (rowCat A (⟨11, by decide⟩ : Fin 26) (rowOf L (⟨1, by decide⟩ : Fin 2))) (GT A) (fun y => hfo_12_1 y (y 1).isLt) (fun n => GT_cat A (rowOf L (⟨1, by decide⟩ : Fin 2)) n (⟨11, by decide⟩ : Fin 26) (by decide))
    isplitl [Hr13_0]
    · iexists _; isplitr
      swap
      · iexact Hr13_0
      · ipureintro
        exact row_done5 _ _ (⟨13, by decide⟩ : Fin 40) (rowOf L (⟨0, by decide⟩ : Fin 2)) (dst_hoff_13_0 L) _ fo_13_0 (rowCat A (⟨12, by decide⟩ : Fin 26) (rowOf L (⟨0, by decide⟩ : Fin 2))) (GT A) (fun y => hfo_13_0 y (y 1).isLt) (fun n => GT_cat A (rowOf L (⟨0, by decide⟩ : Fin 2)) n (⟨12, by decide⟩ : Fin 26) (by decide))
    isplitl [Hr13_1]
    · iexists _; isplitr
      swap
      · iexact Hr13_1
      · ipureintro
        exact row_done6 _ _ (⟨13, by decide⟩ : Fin 40) (rowOf L (⟨1, by decide⟩ : Fin 2)) (dst_hoff_13_1 L) _ fo_13_1 (rowCat A (⟨12, by decide⟩ : Fin 26) (rowOf L (⟨1, by decide⟩ : Fin 2))) (GT A) (fun y => hfo_13_1 y (y 1).isLt) (fun n => GT_cat A (rowOf L (⟨1, by decide⟩ : Fin 2)) n (⟨12, by decide⟩ : Fin 26) (by decide))
    isplitl [Hr14_0]
    · iexists _; isplitr
      swap
      · iexact Hr14_0
      · ipureintro
        exact row_done5 _ _ (⟨14, by decide⟩ : Fin 40) (rowOf L (⟨0, by decide⟩ : Fin 2)) (dst_hoff_14_0 L) _ fo_14_0 (rowCat A (⟨13, by decide⟩ : Fin 26) (rowOf L (⟨0, by decide⟩ : Fin 2))) (GT A) (fun y => hfo_14_0 y (y 1).isLt) (fun n => GT_cat A (rowOf L (⟨0, by decide⟩ : Fin 2)) n (⟨13, by decide⟩ : Fin 26) (by decide))
    isplitl [Hr14_1]
    · iexists _; isplitr
      swap
      · iexact Hr14_1
      · ipureintro
        exact row_done6 _ _ (⟨14, by decide⟩ : Fin 40) (rowOf L (⟨1, by decide⟩ : Fin 2)) (dst_hoff_14_1 L) _ fo_14_1 (rowCat A (⟨13, by decide⟩ : Fin 26) (rowOf L (⟨1, by decide⟩ : Fin 2))) (GT A) (fun y => hfo_14_1 y (y 1).isLt) (fun n => GT_cat A (rowOf L (⟨1, by decide⟩ : Fin 2)) n (⟨13, by decide⟩ : Fin 26) (by decide))
    isplitl [Hr15_0]
    · iexists _; isplitr
      swap
      · iexact Hr15_0
      · ipureintro
        exact row_done5 _ _ (⟨15, by decide⟩ : Fin 40) (rowOf L (⟨0, by decide⟩ : Fin 2)) (dst_hoff_15_0 L) _ fo_15_0 (rowCat A (⟨14, by decide⟩ : Fin 26) (rowOf L (⟨0, by decide⟩ : Fin 2))) (GT A) (fun y => hfo_15_0 y (y 1).isLt) (fun n => GT_cat A (rowOf L (⟨0, by decide⟩ : Fin 2)) n (⟨14, by decide⟩ : Fin 26) (by decide))
    isplitl [Hr15_1]
    · iexists _; isplitr
      swap
      · iexact Hr15_1
      · ipureintro
        exact row_done6 _ _ (⟨15, by decide⟩ : Fin 40) (rowOf L (⟨1, by decide⟩ : Fin 2)) (dst_hoff_15_1 L) _ fo_15_1 (rowCat A (⟨14, by decide⟩ : Fin 26) (rowOf L (⟨1, by decide⟩ : Fin 2))) (GT A) (fun y => hfo_15_1 y (y 1).isLt) (fun n => GT_cat A (rowOf L (⟨1, by decide⟩ : Fin 2)) n (⟨14, by decide⟩ : Fin 26) (by decide))
    isplitl [Hr16_0]
    · iexists _; isplitr
      swap
      · iexact Hr16_0
      · ipureintro
        exact row_done5 _ _ (⟨16, by decide⟩ : Fin 40) (rowOf L (⟨0, by decide⟩ : Fin 2)) (dst_hoff_16_0 L) _ fo_16_0 (rowCat A (⟨15, by decide⟩ : Fin 26) (rowOf L (⟨0, by decide⟩ : Fin 2))) (GT A) (fun y => hfo_16_0 y (y 1).isLt) (fun n => GT_cat A (rowOf L (⟨0, by decide⟩ : Fin 2)) n (⟨15, by decide⟩ : Fin 26) (by decide))
    isplitl [Hr16_1]
    · iexists _; isplitr
      swap
      · iexact Hr16_1
      · ipureintro
        exact row_done6 _ _ (⟨16, by decide⟩ : Fin 40) (rowOf L (⟨1, by decide⟩ : Fin 2)) (dst_hoff_16_1 L) _ fo_16_1 (rowCat A (⟨15, by decide⟩ : Fin 26) (rowOf L (⟨1, by decide⟩ : Fin 2))) (GT A) (fun y => hfo_16_1 y (y 1).isLt) (fun n => GT_cat A (rowOf L (⟨1, by decide⟩ : Fin 2)) n (⟨15, by decide⟩ : Fin 26) (by decide))
    isplitl [Hr17_0]
    · iexists _; isplitr
      swap
      · iexact Hr17_0
      · ipureintro
        exact row_done5 _ _ (⟨17, by decide⟩ : Fin 40) (rowOf L (⟨0, by decide⟩ : Fin 2)) (dst_hoff_17_0 L) _ fo_17_0 (rowCat A (⟨16, by decide⟩ : Fin 26) (rowOf L (⟨0, by decide⟩ : Fin 2))) (GT A) (fun y => hfo_17_0 y (y 1).isLt) (fun n => GT_cat A (rowOf L (⟨0, by decide⟩ : Fin 2)) n (⟨16, by decide⟩ : Fin 26) (by decide))
    isplitl [Hr17_1]
    · iexists _; isplitr
      swap
      · iexact Hr17_1
      · ipureintro
        exact row_done6 _ _ (⟨17, by decide⟩ : Fin 40) (rowOf L (⟨1, by decide⟩ : Fin 2)) (dst_hoff_17_1 L) _ fo_17_1 (rowCat A (⟨16, by decide⟩ : Fin 26) (rowOf L (⟨1, by decide⟩ : Fin 2))) (GT A) (fun y => hfo_17_1 y (y 1).isLt) (fun n => GT_cat A (rowOf L (⟨1, by decide⟩ : Fin 2)) n (⟨16, by decide⟩ : Fin 26) (by decide))
    isplitl [Hr18_0]
    · iexists _; isplitr
      swap
      · iexact Hr18_0
      · ipureintro
        exact row_done5 _ _ (⟨18, by decide⟩ : Fin 40) (rowOf L (⟨0, by decide⟩ : Fin 2)) (dst_hoff_18_0 L) _ fo_18_0 (rowCat A (⟨17, by decide⟩ : Fin 26) (rowOf L (⟨0, by decide⟩ : Fin 2))) (GT A) (fun y => hfo_18_0 y (y 1).isLt) (fun n => GT_cat A (rowOf L (⟨0, by decide⟩ : Fin 2)) n (⟨17, by decide⟩ : Fin 26) (by decide))
    isplitl [Hr18_1]
    · iexists _; isplitr
      swap
      · iexact Hr18_1
      · ipureintro
        exact row_done6 _ _ (⟨18, by decide⟩ : Fin 40) (rowOf L (⟨1, by decide⟩ : Fin 2)) (dst_hoff_18_1 L) _ fo_18_1 (rowCat A (⟨17, by decide⟩ : Fin 26) (rowOf L (⟨1, by decide⟩ : Fin 2))) (GT A) (fun y => hfo_18_1 y (y 1).isLt) (fun n => GT_cat A (rowOf L (⟨1, by decide⟩ : Fin 2)) n (⟨17, by decide⟩ : Fin 26) (by decide))
    isplitl [Hr19_0]
    · iexists _; isplitr
      swap
      · iexact Hr19_0
      · ipureintro
        exact row_done5 _ _ (⟨19, by decide⟩ : Fin 40) (rowOf L (⟨0, by decide⟩ : Fin 2)) (dst_hoff_19_0 L) _ fo_19_0 (rowCat A (⟨18, by decide⟩ : Fin 26) (rowOf L (⟨0, by decide⟩ : Fin 2))) (GT A) (fun y => hfo_19_0 y (y 1).isLt) (fun n => GT_cat A (rowOf L (⟨0, by decide⟩ : Fin 2)) n (⟨18, by decide⟩ : Fin 26) (by decide))
    isplitl [Hr19_1]
    · iexists _; isplitr
      swap
      · iexact Hr19_1
      · ipureintro
        exact row_done6 _ _ (⟨19, by decide⟩ : Fin 40) (rowOf L (⟨1, by decide⟩ : Fin 2)) (dst_hoff_19_1 L) _ fo_19_1 (rowCat A (⟨18, by decide⟩ : Fin 26) (rowOf L (⟨1, by decide⟩ : Fin 2))) (GT A) (fun y => hfo_19_1 y (y 1).isLt) (fun n => GT_cat A (rowOf L (⟨1, by decide⟩ : Fin 2)) n (⟨18, by decide⟩ : Fin 26) (by decide))
    isplitl [Hr20_0]
    · iexists _; isplitr
      swap
      · iexact Hr20_0
      · ipureintro
        exact row_done5 _ _ (⟨20, by decide⟩ : Fin 40) (rowOf L (⟨0, by decide⟩ : Fin 2)) (dst_hoff_20_0 L) _ fo_20_0 (rowCat A (⟨19, by decide⟩ : Fin 26) (rowOf L (⟨0, by decide⟩ : Fin 2))) (GT A) (fun y => hfo_20_0 y (y 1).isLt) (fun n => GT_cat A (rowOf L (⟨0, by decide⟩ : Fin 2)) n (⟨19, by decide⟩ : Fin 26) (by decide))
    isplitl [Hr20_1]
    · iexists _; isplitr
      swap
      · iexact Hr20_1
      · ipureintro
        exact row_done6 _ _ (⟨20, by decide⟩ : Fin 40) (rowOf L (⟨1, by decide⟩ : Fin 2)) (dst_hoff_20_1 L) _ fo_20_1 (rowCat A (⟨19, by decide⟩ : Fin 26) (rowOf L (⟨1, by decide⟩ : Fin 2))) (GT A) (fun y => hfo_20_1 y (y 1).isLt) (fun n => GT_cat A (rowOf L (⟨1, by decide⟩ : Fin 2)) n (⟨19, by decide⟩ : Fin 26) (by decide))
    isplitl [Hr21_0]
    · iexists _; isplitr
      swap
      · iexact Hr21_0
      · ipureintro
        exact row_done5 _ _ (⟨21, by decide⟩ : Fin 40) (rowOf L (⟨0, by decide⟩ : Fin 2)) (dst_hoff_21_0 L) _ fo_21_0 (rowCat A (⟨20, by decide⟩ : Fin 26) (rowOf L (⟨0, by decide⟩ : Fin 2))) (GT A) (fun y => hfo_21_0 y (y 1).isLt) (fun n => GT_cat A (rowOf L (⟨0, by decide⟩ : Fin 2)) n (⟨20, by decide⟩ : Fin 26) (by decide))
    isplitl [Hr21_1]
    · iexists _; isplitr
      swap
      · iexact Hr21_1
      · ipureintro
        exact row_done6 _ _ (⟨21, by decide⟩ : Fin 40) (rowOf L (⟨1, by decide⟩ : Fin 2)) (dst_hoff_21_1 L) _ fo_21_1 (rowCat A (⟨20, by decide⟩ : Fin 26) (rowOf L (⟨1, by decide⟩ : Fin 2))) (GT A) (fun y => hfo_21_1 y (y 1).isLt) (fun n => GT_cat A (rowOf L (⟨1, by decide⟩ : Fin 2)) n (⟨20, by decide⟩ : Fin 26) (by decide))
    isplitl [Hr22_0]
    · iexists _; isplitr
      swap
      · iexact Hr22_0
      · ipureintro
        exact row_done5 _ _ (⟨22, by decide⟩ : Fin 40) (rowOf L (⟨0, by decide⟩ : Fin 2)) (dst_hoff_22_0 L) _ fo_22_0 (rowCat A (⟨21, by decide⟩ : Fin 26) (rowOf L (⟨0, by decide⟩ : Fin 2))) (GT A) (fun y => hfo_22_0 y (y 1).isLt) (fun n => GT_cat A (rowOf L (⟨0, by decide⟩ : Fin 2)) n (⟨21, by decide⟩ : Fin 26) (by decide))
    isplitl [Hr22_1]
    · iexists _; isplitr
      swap
      · iexact Hr22_1
      · ipureintro
        exact row_done6 _ _ (⟨22, by decide⟩ : Fin 40) (rowOf L (⟨1, by decide⟩ : Fin 2)) (dst_hoff_22_1 L) _ fo_22_1 (rowCat A (⟨21, by decide⟩ : Fin 26) (rowOf L (⟨1, by decide⟩ : Fin 2))) (GT A) (fun y => hfo_22_1 y (y 1).isLt) (fun n => GT_cat A (rowOf L (⟨1, by decide⟩ : Fin 2)) n (⟨21, by decide⟩ : Fin 26) (by decide))
    isplitl [Hr23_0]
    · iexists _; isplitr
      swap
      · iexact Hr23_0
      · ipureintro
        exact row_done5 _ _ (⟨23, by decide⟩ : Fin 40) (rowOf L (⟨0, by decide⟩ : Fin 2)) (dst_hoff_23_0 L) _ fo_23_0 (rowCat A (⟨22, by decide⟩ : Fin 26) (rowOf L (⟨0, by decide⟩ : Fin 2))) (GT A) (fun y => hfo_23_0 y (y 1).isLt) (fun n => GT_cat A (rowOf L (⟨0, by decide⟩ : Fin 2)) n (⟨22, by decide⟩ : Fin 26) (by decide))
    isplitl [Hr23_1]
    · iexists _; isplitr
      swap
      · iexact Hr23_1
      · ipureintro
        exact row_done6 _ _ (⟨23, by decide⟩ : Fin 40) (rowOf L (⟨1, by decide⟩ : Fin 2)) (dst_hoff_23_1 L) _ fo_23_1 (rowCat A (⟨22, by decide⟩ : Fin 26) (rowOf L (⟨1, by decide⟩ : Fin 2))) (GT A) (fun y => hfo_23_1 y (y 1).isLt) (fun n => GT_cat A (rowOf L (⟨1, by decide⟩ : Fin 2)) n (⟨22, by decide⟩ : Fin 26) (by decide))
    isplitl [Hr24_0]
    · iexists _; isplitr
      swap
      · iexact Hr24_0
      · ipureintro
        exact row_done5 _ _ (⟨24, by decide⟩ : Fin 40) (rowOf L (⟨0, by decide⟩ : Fin 2)) (dst_hoff_24_0 L) _ fo_24_0 (rowCat A (⟨23, by decide⟩ : Fin 26) (rowOf L (⟨0, by decide⟩ : Fin 2))) (GT A) (fun y => hfo_24_0 y (y 1).isLt) (fun n => GT_cat A (rowOf L (⟨0, by decide⟩ : Fin 2)) n (⟨23, by decide⟩ : Fin 26) (by decide))
    isplitl [Hr24_1]
    · iexists _; isplitr
      swap
      · iexact Hr24_1
      · ipureintro
        exact row_done6 _ _ (⟨24, by decide⟩ : Fin 40) (rowOf L (⟨1, by decide⟩ : Fin 2)) (dst_hoff_24_1 L) _ fo_24_1 (rowCat A (⟨23, by decide⟩ : Fin 26) (rowOf L (⟨1, by decide⟩ : Fin 2))) (GT A) (fun y => hfo_24_1 y (y 1).isLt) (fun n => GT_cat A (rowOf L (⟨1, by decide⟩ : Fin 2)) n (⟨23, by decide⟩ : Fin 26) (by decide))
    isplitl [Hr25_0]
    · iexists _; isplitr
      swap
      · iexact Hr25_0
      · ipureintro
        exact row_done5 _ _ (⟨25, by decide⟩ : Fin 40) (rowOf L (⟨0, by decide⟩ : Fin 2)) (dst_hoff_25_0 L) _ fo_25_0 (rowCat A (⟨24, by decide⟩ : Fin 26) (rowOf L (⟨0, by decide⟩ : Fin 2))) (GT A) (fun y => hfo_25_0 y (y 1).isLt) (fun n => GT_cat A (rowOf L (⟨0, by decide⟩ : Fin 2)) n (⟨24, by decide⟩ : Fin 26) (by decide))
    isplitl [Hr25_1]
    · iexists _; isplitr
      swap
      · iexact Hr25_1
      · ipureintro
        exact row_done6 _ _ (⟨25, by decide⟩ : Fin 40) (rowOf L (⟨1, by decide⟩ : Fin 2)) (dst_hoff_25_1 L) _ fo_25_1 (rowCat A (⟨24, by decide⟩ : Fin 26) (rowOf L (⟨1, by decide⟩ : Fin 2))) (GT A) (fun y => hfo_25_1 y (y 1).isLt) (fun n => GT_cat A (rowOf L (⟨1, by decide⟩ : Fin 2)) n (⟨24, by decide⟩ : Fin 26) (by decide))
    isplitl [Hr26_0]
    · iexists _; isplitr
      swap
      · iexact Hr26_0
      · ipureintro
        exact row_done5 _ _ (⟨26, by decide⟩ : Fin 40) (rowOf L (⟨0, by decide⟩ : Fin 2)) (dst_hoff_26_0 L) _ fo_26_0 (rowCat A (⟨25, by decide⟩ : Fin 26) (rowOf L (⟨0, by decide⟩ : Fin 2))) (GT A) (fun y => hfo_26_0 y (y 1).isLt) (fun n => GT_cat A (rowOf L (⟨0, by decide⟩ : Fin 2)) n (⟨25, by decide⟩ : Fin 26) (by decide))
    isplitl [Hr26_1]
    · iexists _; isplitr
      swap
      · iexact Hr26_1
      · ipureintro
        exact row_done6 _ _ (⟨26, by decide⟩ : Fin 40) (rowOf L (⟨1, by decide⟩ : Fin 2)) (dst_hoff_26_1 L) _ fo_26_1 (rowCat A (⟨25, by decide⟩ : Fin 26) (rowOf L (⟨1, by decide⟩ : Fin 2))) (GT A) (fun y => hfo_26_1 y (y 1).isLt) (fun n => GT_cat A (rowOf L (⟨1, by decide⟩ : Fin 2)) n (⟨25, by decide⟩ : Fin 26) (by decide))
    isplitl [Hr27_0]
    · iexists _; isplitr
      swap
      · iexact Hr27_0
      · ipureintro
        exact row_done5 _ _ (⟨27, by decide⟩ : Fin 40) (rowOf L (⟨0, by decide⟩ : Fin 2)) (dst_hoff_27_0 L) _ fo_27_0 (rowNum A (⟨0, by decide⟩ : Fin 13) (rowOf L (⟨0, by decide⟩ : Fin 2))) (GT A) (fun y => hfo_27_0 y (y 1).isLt) (fun n => GT_num A (rowOf L (⟨0, by decide⟩ : Fin 2)) n (⟨0, by decide⟩ : Fin 13) (by decide))
    isplitl [Hr27_1]
    · iexists _; isplitr
      swap
      · iexact Hr27_1
      · ipureintro
        exact row_done6 _ _ (⟨27, by decide⟩ : Fin 40) (rowOf L (⟨1, by decide⟩ : Fin 2)) (dst_hoff_27_1 L) _ fo_27_1 (rowNum A (⟨0, by decide⟩ : Fin 13) (rowOf L (⟨1, by decide⟩ : Fin 2))) (GT A) (fun y => hfo_27_1 y (y 1).isLt) (fun n => GT_num A (rowOf L (⟨1, by decide⟩ : Fin 2)) n (⟨0, by decide⟩ : Fin 13) (by decide))
    isplitl [Hr28_0]
    · iexists _; isplitr
      swap
      · iexact Hr28_0
      · ipureintro
        exact row_done5 _ _ (⟨28, by decide⟩ : Fin 40) (rowOf L (⟨0, by decide⟩ : Fin 2)) (dst_hoff_28_0 L) _ fo_28_0 (rowNum A (⟨1, by decide⟩ : Fin 13) (rowOf L (⟨0, by decide⟩ : Fin 2))) (GT A) (fun y => hfo_28_0 y (y 1).isLt) (fun n => GT_num A (rowOf L (⟨0, by decide⟩ : Fin 2)) n (⟨1, by decide⟩ : Fin 13) (by decide))
    isplitl [Hr28_1]
    · iexists _; isplitr
      swap
      · iexact Hr28_1
      · ipureintro
        exact row_done6 _ _ (⟨28, by decide⟩ : Fin 40) (rowOf L (⟨1, by decide⟩ : Fin 2)) (dst_hoff_28_1 L) _ fo_28_1 (rowNum A (⟨1, by decide⟩ : Fin 13) (rowOf L (⟨1, by decide⟩ : Fin 2))) (GT A) (fun y => hfo_28_1 y (y 1).isLt) (fun n => GT_num A (rowOf L (⟨1, by decide⟩ : Fin 2)) n (⟨1, by decide⟩ : Fin 13) (by decide))
    isplitl [Hr29_0]
    · iexists _; isplitr
      swap
      · iexact Hr29_0
      · ipureintro
        exact row_done5 _ _ (⟨29, by decide⟩ : Fin 40) (rowOf L (⟨0, by decide⟩ : Fin 2)) (dst_hoff_29_0 L) _ fo_29_0 (rowNum A (⟨2, by decide⟩ : Fin 13) (rowOf L (⟨0, by decide⟩ : Fin 2))) (GT A) (fun y => hfo_29_0 y (y 1).isLt) (fun n => GT_num A (rowOf L (⟨0, by decide⟩ : Fin 2)) n (⟨2, by decide⟩ : Fin 13) (by decide))
    isplitl [Hr29_1]
    · iexists _; isplitr
      swap
      · iexact Hr29_1
      · ipureintro
        exact row_done6 _ _ (⟨29, by decide⟩ : Fin 40) (rowOf L (⟨1, by decide⟩ : Fin 2)) (dst_hoff_29_1 L) _ fo_29_1 (rowNum A (⟨2, by decide⟩ : Fin 13) (rowOf L (⟨1, by decide⟩ : Fin 2))) (GT A) (fun y => hfo_29_1 y (y 1).isLt) (fun n => GT_num A (rowOf L (⟨1, by decide⟩ : Fin 2)) n (⟨2, by decide⟩ : Fin 13) (by decide))
    isplitl [Hr30_0]
    · iexists _; isplitr
      swap
      · iexact Hr30_0
      · ipureintro
        exact row_done5 _ _ (⟨30, by decide⟩ : Fin 40) (rowOf L (⟨0, by decide⟩ : Fin 2)) (dst_hoff_30_0 L) _ fo_30_0 (rowNum A (⟨3, by decide⟩ : Fin 13) (rowOf L (⟨0, by decide⟩ : Fin 2))) (GT A) (fun y => hfo_30_0 y (y 1).isLt) (fun n => GT_num A (rowOf L (⟨0, by decide⟩ : Fin 2)) n (⟨3, by decide⟩ : Fin 13) (by decide))
    isplitl [Hr30_1]
    · iexists _; isplitr
      swap
      · iexact Hr30_1
      · ipureintro
        exact row_done6 _ _ (⟨30, by decide⟩ : Fin 40) (rowOf L (⟨1, by decide⟩ : Fin 2)) (dst_hoff_30_1 L) _ fo_30_1 (rowNum A (⟨3, by decide⟩ : Fin 13) (rowOf L (⟨1, by decide⟩ : Fin 2))) (GT A) (fun y => hfo_30_1 y (y 1).isLt) (fun n => GT_num A (rowOf L (⟨1, by decide⟩ : Fin 2)) n (⟨3, by decide⟩ : Fin 13) (by decide))
    isplitl [Hr31_0]
    · iexists _; isplitr
      swap
      · iexact Hr31_0
      · ipureintro
        exact row_done5 _ _ (⟨31, by decide⟩ : Fin 40) (rowOf L (⟨0, by decide⟩ : Fin 2)) (dst_hoff_31_0 L) _ fo_31_0 (rowNum A (⟨4, by decide⟩ : Fin 13) (rowOf L (⟨0, by decide⟩ : Fin 2))) (GT A) (fun y => hfo_31_0 y (y 1).isLt) (fun n => GT_num A (rowOf L (⟨0, by decide⟩ : Fin 2)) n (⟨4, by decide⟩ : Fin 13) (by decide))
    isplitl [Hr31_1]
    · iexists _; isplitr
      swap
      · iexact Hr31_1
      · ipureintro
        exact row_done6 _ _ (⟨31, by decide⟩ : Fin 40) (rowOf L (⟨1, by decide⟩ : Fin 2)) (dst_hoff_31_1 L) _ fo_31_1 (rowNum A (⟨4, by decide⟩ : Fin 13) (rowOf L (⟨1, by decide⟩ : Fin 2))) (GT A) (fun y => hfo_31_1 y (y 1).isLt) (fun n => GT_num A (rowOf L (⟨1, by decide⟩ : Fin 2)) n (⟨4, by decide⟩ : Fin 13) (by decide))
    isplitl [Hr32_0]
    · iexists _; isplitr
      swap
      · iexact Hr32_0
      · ipureintro
        exact row_done5 _ _ (⟨32, by decide⟩ : Fin 40) (rowOf L (⟨0, by decide⟩ : Fin 2)) (dst_hoff_32_0 L) _ fo_32_0 (rowNum A (⟨5, by decide⟩ : Fin 13) (rowOf L (⟨0, by decide⟩ : Fin 2))) (GT A) (fun y => hfo_32_0 y (y 1).isLt) (fun n => GT_num A (rowOf L (⟨0, by decide⟩ : Fin 2)) n (⟨5, by decide⟩ : Fin 13) (by decide))
    isplitl [Hr32_1]
    · iexists _; isplitr
      swap
      · iexact Hr32_1
      · ipureintro
        exact row_done6 _ _ (⟨32, by decide⟩ : Fin 40) (rowOf L (⟨1, by decide⟩ : Fin 2)) (dst_hoff_32_1 L) _ fo_32_1 (rowNum A (⟨5, by decide⟩ : Fin 13) (rowOf L (⟨1, by decide⟩ : Fin 2))) (GT A) (fun y => hfo_32_1 y (y 1).isLt) (fun n => GT_num A (rowOf L (⟨1, by decide⟩ : Fin 2)) n (⟨5, by decide⟩ : Fin 13) (by decide))
    isplitl [Hr33_0]
    · iexists _; isplitr
      swap
      · iexact Hr33_0
      · ipureintro
        exact row_done5 _ _ (⟨33, by decide⟩ : Fin 40) (rowOf L (⟨0, by decide⟩ : Fin 2)) (dst_hoff_33_0 L) _ fo_33_0 (rowNum A (⟨6, by decide⟩ : Fin 13) (rowOf L (⟨0, by decide⟩ : Fin 2))) (GT A) (fun y => hfo_33_0 y (y 1).isLt) (fun n => GT_num A (rowOf L (⟨0, by decide⟩ : Fin 2)) n (⟨6, by decide⟩ : Fin 13) (by decide))
    isplitl [Hr33_1]
    · iexists _; isplitr
      swap
      · iexact Hr33_1
      · ipureintro
        exact row_done6 _ _ (⟨33, by decide⟩ : Fin 40) (rowOf L (⟨1, by decide⟩ : Fin 2)) (dst_hoff_33_1 L) _ fo_33_1 (rowNum A (⟨6, by decide⟩ : Fin 13) (rowOf L (⟨1, by decide⟩ : Fin 2))) (GT A) (fun y => hfo_33_1 y (y 1).isLt) (fun n => GT_num A (rowOf L (⟨1, by decide⟩ : Fin 2)) n (⟨6, by decide⟩ : Fin 13) (by decide))
    isplitl [Hr34_0]
    · iexists _; isplitr
      swap
      · iexact Hr34_0
      · ipureintro
        exact row_done5 _ _ (⟨34, by decide⟩ : Fin 40) (rowOf L (⟨0, by decide⟩ : Fin 2)) (dst_hoff_34_0 L) _ fo_34_0 (rowNum A (⟨7, by decide⟩ : Fin 13) (rowOf L (⟨0, by decide⟩ : Fin 2))) (GT A) (fun y => hfo_34_0 y (y 1).isLt) (fun n => GT_num A (rowOf L (⟨0, by decide⟩ : Fin 2)) n (⟨7, by decide⟩ : Fin 13) (by decide))
    isplitl [Hr34_1]
    · iexists _; isplitr
      swap
      · iexact Hr34_1
      · ipureintro
        exact row_done6 _ _ (⟨34, by decide⟩ : Fin 40) (rowOf L (⟨1, by decide⟩ : Fin 2)) (dst_hoff_34_1 L) _ fo_34_1 (rowNum A (⟨7, by decide⟩ : Fin 13) (rowOf L (⟨1, by decide⟩ : Fin 2))) (GT A) (fun y => hfo_34_1 y (y 1).isLt) (fun n => GT_num A (rowOf L (⟨1, by decide⟩ : Fin 2)) n (⟨7, by decide⟩ : Fin 13) (by decide))
    isplitl [Hr35_0]
    · iexists _; isplitr
      swap
      · iexact Hr35_0
      · ipureintro
        exact row_done5 _ _ (⟨35, by decide⟩ : Fin 40) (rowOf L (⟨0, by decide⟩ : Fin 2)) (dst_hoff_35_0 L) _ fo_35_0 (rowNum A (⟨8, by decide⟩ : Fin 13) (rowOf L (⟨0, by decide⟩ : Fin 2))) (GT A) (fun y => hfo_35_0 y (y 1).isLt) (fun n => GT_num A (rowOf L (⟨0, by decide⟩ : Fin 2)) n (⟨8, by decide⟩ : Fin 13) (by decide))
    isplitl [Hr35_1]
    · iexists _; isplitr
      swap
      · iexact Hr35_1
      · ipureintro
        exact row_done6 _ _ (⟨35, by decide⟩ : Fin 40) (rowOf L (⟨1, by decide⟩ : Fin 2)) (dst_hoff_35_1 L) _ fo_35_1 (rowNum A (⟨8, by decide⟩ : Fin 13) (rowOf L (⟨1, by decide⟩ : Fin 2))) (GT A) (fun y => hfo_35_1 y (y 1).isLt) (fun n => GT_num A (rowOf L (⟨1, by decide⟩ : Fin 2)) n (⟨8, by decide⟩ : Fin 13) (by decide))
    isplitl [Hr36_0]
    · iexists _; isplitr
      swap
      · iexact Hr36_0
      · ipureintro
        exact row_done5 _ _ (⟨36, by decide⟩ : Fin 40) (rowOf L (⟨0, by decide⟩ : Fin 2)) (dst_hoff_36_0 L) _ fo_36_0 (rowNum A (⟨9, by decide⟩ : Fin 13) (rowOf L (⟨0, by decide⟩ : Fin 2))) (GT A) (fun y => hfo_36_0 y (y 1).isLt) (fun n => GT_num A (rowOf L (⟨0, by decide⟩ : Fin 2)) n (⟨9, by decide⟩ : Fin 13) (by decide))
    isplitl [Hr36_1]
    · iexists _; isplitr
      swap
      · iexact Hr36_1
      · ipureintro
        exact row_done6 _ _ (⟨36, by decide⟩ : Fin 40) (rowOf L (⟨1, by decide⟩ : Fin 2)) (dst_hoff_36_1 L) _ fo_36_1 (rowNum A (⟨9, by decide⟩ : Fin 13) (rowOf L (⟨1, by decide⟩ : Fin 2))) (GT A) (fun y => hfo_36_1 y (y 1).isLt) (fun n => GT_num A (rowOf L (⟨1, by decide⟩ : Fin 2)) n (⟨9, by decide⟩ : Fin 13) (by decide))
    isplitl [Hr37_0]
    · iexists _; isplitr
      swap
      · iexact Hr37_0
      · ipureintro
        exact row_done5 _ _ (⟨37, by decide⟩ : Fin 40) (rowOf L (⟨0, by decide⟩ : Fin 2)) (dst_hoff_37_0 L) _ fo_37_0 (rowNum A (⟨10, by decide⟩ : Fin 13) (rowOf L (⟨0, by decide⟩ : Fin 2))) (GT A) (fun y => hfo_37_0 y (y 1).isLt) (fun n => GT_num A (rowOf L (⟨0, by decide⟩ : Fin 2)) n (⟨10, by decide⟩ : Fin 13) (by decide))
    isplitl [Hr37_1]
    · iexists _; isplitr
      swap
      · iexact Hr37_1
      · ipureintro
        exact row_done6 _ _ (⟨37, by decide⟩ : Fin 40) (rowOf L (⟨1, by decide⟩ : Fin 2)) (dst_hoff_37_1 L) _ fo_37_1 (rowNum A (⟨10, by decide⟩ : Fin 13) (rowOf L (⟨1, by decide⟩ : Fin 2))) (GT A) (fun y => hfo_37_1 y (y 1).isLt) (fun n => GT_num A (rowOf L (⟨1, by decide⟩ : Fin 2)) n (⟨10, by decide⟩ : Fin 13) (by decide))
    isplitl [Hr38_0]
    · iexists _; isplitr
      swap
      · iexact Hr38_0
      · ipureintro
        exact row_done5 _ _ (⟨38, by decide⟩ : Fin 40) (rowOf L (⟨0, by decide⟩ : Fin 2)) (dst_hoff_38_0 L) _ fo_38_0 (rowNum A (⟨11, by decide⟩ : Fin 13) (rowOf L (⟨0, by decide⟩ : Fin 2))) (GT A) (fun y => hfo_38_0 y (y 1).isLt) (fun n => GT_num A (rowOf L (⟨0, by decide⟩ : Fin 2)) n (⟨11, by decide⟩ : Fin 13) (by decide))
    isplitl [Hr38_1]
    · iexists _; isplitr
      swap
      · iexact Hr38_1
      · ipureintro
        exact row_done6 _ _ (⟨38, by decide⟩ : Fin 40) (rowOf L (⟨1, by decide⟩ : Fin 2)) (dst_hoff_38_1 L) _ fo_38_1 (rowNum A (⟨11, by decide⟩ : Fin 13) (rowOf L (⟨1, by decide⟩ : Fin 2))) (GT A) (fun y => hfo_38_1 y (y 1).isLt) (fun n => GT_num A (rowOf L (⟨1, by decide⟩ : Fin 2)) n (⟨11, by decide⟩ : Fin 13) (by decide))
    isplitl [Hr39_0]
    · iexists _; isplitr
      swap
      · iexact Hr39_0
      · ipureintro
        exact row_done5 _ _ (⟨39, by decide⟩ : Fin 40) (rowOf L (⟨0, by decide⟩ : Fin 2)) (dst_hoff_39_0 L) _ fo_39_0 (rowNum A (⟨12, by decide⟩ : Fin 13) (rowOf L (⟨0, by decide⟩ : Fin 2))) (GT A) (fun y => hfo_39_0 y (y 1).isLt) (fun n => GT_num A (rowOf L (⟨0, by decide⟩ : Fin 2)) n (⟨12, by decide⟩ : Fin 13) (by decide))
    iexists _; isplitr
    swap
    · iexact Hr39_1
    · ipureintro
      exact row_done6 _ _ (⟨39, by decide⟩ : Fin 40) (rowOf L (⟨1, by decide⟩ : Fin 2)) (dst_hoff_39_1 L) _ fo_39_1 (rowNum A (⟨12, by decide⟩ : Fin 13) (rowOf L (⟨1, by decide⟩ : Fin 2))) (GT A) (fun y => hfo_39_1 y (y 1).isLt) (fun n => GT_num A (rowOf L (⟨1, by decide⟩ : Fin 2)) n (⟨12, by decide⟩ : Fin 13) (by decide))
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  isplitl [Hs26]; · iexact Hs26
  isplitl [Hs27]; · iexact Hs27
  isplitl [Hs28]; · iexact Hs28
  isplitl [Hs29]; · iexact Hs29
  isplitl [Hs30]; · iexact Hs30
  isplitl [Hs31]; · iexact Hs31
  isplitl [Hs32]; · iexact Hs32
  isplitl [Hs33]; · iexact Hs33
  isplitl [Hs34]; · iexact Hs34
  isplitl [Hs35]; · iexact Hs35
  isplitl [Hs36]; · iexact Hs36
  isplitl [Hs37]; · iexact Hs37
  isplitl [Hs38]; · iexact Hs38
  isplitl [Hs39]; · iexact Hs39
  isplitl [Hs40]; · iexact Hs40
  isplitl [Hs41]; · iexact Hs41
  isplitl [Hs42]; · iexact Hs42
  isplitl [Hs43]; · iexact Hs43
  isplitl [Hs44]; · iexact Hs44
  isplitl [Hs45]; · iexact Hs45
  isplitl [Hs46]; · iexact Hs46
  isplitl [Hs47]; · iexact Hs47
  isplitl [Hs48]; · iexact Hs48
  isplitl [Hs49]; · iexact Hs49
  isplitl [Hs50]; · iexact Hs50
  isplitl [Hs51]; · iexact Hs51
  isplitl [Hs52]; · iexact Hs52
  isplitl [Hs53]; · iexact Hs53
  isplitl [Hs54]; · iexact Hs54
  isplitl [Hs55]; · iexact Hs55
  isplitl [Hs56]; · iexact Hs56
  isplitl [Hs57]; · iexact Hs57
  iexact Hrest

end Cert.Proof.KI

end
-- ==== Proof.KI.RowsSplit.lean ====
/-
  A task's share of the result array, row by row. Task `w` owns the indices whose feature row is `2w` or `2w + 1`; that
  set is the disjoint union, over the 40 tokens `t` and `dd ∈ {0, 1}`, of the rows `(t, 2w + dd)`. So the task's points-to
  splits into 80 row points-tos, and 80 rows, each holding values that agree with one function `G` on that row, join
  into the task's share held at `G`.
-/
import proofs.«207382_g17746804867166_cont_8to1_1179_25_alg».proof.Proof.KI.Rows

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Row `(t, 2w + dd)` of task `w`, indexed by the pair `(t, dd)`. -/
def rowW (w : Fin 32) (p : Fin 40 × Fin 2) : Finset S40x64x4096.Idx :=
  rowT p.1 ⟨2 * w.val + p.2.val, by have := w.isLt; have := p.2.isLt; omega⟩

theorem mem_rowW {w : Fin 32} {p : Fin 40 × Fin 2} {x : S40x64x4096.Idx} :
    x ∈ rowW w p ↔ (x 0).val = p.1.val ∧ (x 1).val = 2 * w.val + p.2.val := mem_rowT

/-- At a grid point the pair's row is the row the kernel addresses. -/
theorem rowW_widL (L : grid0.Coords) (t : Fin 40) (dd : Fin 2) : rowW (widL L) (t, dd) = rowT t (rowOf L dd) := rfl

/-- Different pairs name disjoint rows. -/
theorem rowW_disjoint (w : Fin 32) :
    ∀ p ∈ (Finset.univ : Finset (Fin 40 × Fin 2)), ∀ p' ∈ (Finset.univ : Finset (Fin 40 × Fin 2)), p ≠ p' →
      Disjoint (rowW w p) (rowW w p') := by
  intro p _ p' _ hne
  rw [Finset.disjoint_left]
  intro x hx hx'
  rw [mem_rowW] at hx hx'
  apply hne
  refine Prod.ext (Fin.ext (by omega)) (Fin.ext (by omega))

/-- The rows of a task cover its share. -/
theorem rowW_cover (w : Fin 32) : (Finset.univ : Finset (Fin 40 × Fin 2)).biUnion (rowW w) = oSet w := by
  ext x
  have h0 : (x 0).val < 40 := (x 0).isLt
  simp only [Finset.mem_biUnion, Finset.mem_univ, true_and, mem_rowW, oSet, Finset.mem_filter]
  constructor
  · rintro ⟨p, -, e1⟩
    have := p.2.isLt
    omega
  · intro h
    exact ⟨(⟨(x 0).val, h0⟩, ⟨(x 1).val % 2, Nat.mod_lt _ (by decide)⟩), rfl, by show (x 1).val = 2 * w.val + (x 1).val % 2; omega⟩

/-- THE SPLIT: a task's share of the result array is its 80 rows. -/
theorem oSet_split (d : Dev nD) (w : Fin 32) (f : Buf (Elt F) (outL d)) :
    (outL d ↦[oSet w]{fullShare} f : sProp 𝕄)
      = bigSep (Finset.univ : Finset (Fin 40 × Fin 2)) fun p => outL d ↦[rowW w p]{fullShare} f := by
  rw [← rowW_cover w, pointsTo_biUnion Finset.univ (ℓ := outL d) (rowW w) (rowW_disjoint w)]

/-- THE JOIN: 80 rows, each at values that agree with `G` on that row, are the task's share at `G`. -/
theorem oSet_join (d : Dev nD) (w : Fin 32) (G : Buf (Elt F) (outL d)) :
    (bigSep (Finset.univ : Finset (Fin 40 × Fin 2)) fun p =>
        iprop(∃ g : Buf (Elt F) (outL d), ⌜∀ x ∈ rowW w p, g x = G x⌝ ∗ outL d ↦[rowW w p]{fullShare} g))
      ⊢ (outL d ↦[oSet w]{fullShare} G : sProp 𝕄) := by
  rw [oSet_split]
  refine bigSep_mono fun p _ => ?_
  show _ ⊢ (outL d ↦[rowW w p]{fullShare} G : sProp 𝕄)
  iintro ⟨%g, %hg, H⟩
  rw [show (outL d ↦[rowW w p]{fullShare} G : sProp 𝕄) = outL d ↦[rowW w p]{fullShare} g from (pointsTo_congr hg).symm]
  iexact H

end Cert.Proof.KI

end
-- ==== Proof.KI.RowsChain.lean ====
/-
  Right-nested conjunctions are equal when their summands are, one by one.
-/
import proofs.«207382_g17746804867166_cont_8to1_1179_25_alg».proof.Proof.KI.Scoped

noncomputable section

namespace Cert.Proof.KI

open Idealize.SL Idealize.SL.RA Idealize.SL.BI
open scoped Idealize.SL.BI
open Idealize.SL.BI.BIBase Idealize.SL.BI.Laws Idealize.SL.ProofMode Idealize.SL.Sem

/-- Equal heads and equal tails give equal chains. -/
theorem chain_congr {M : Type} [URA M] {P P' : sProp M} {l l' : List (sProp M)} {R R' : sProp M}
    (hP : P = P') (h : chain l R = chain l' R') : chain (P :: l) R = chain (P' :: l') R' := by
  show iprop(P ∗ chain l R) = iprop(P' ∗ chain l' R')
  rw [hP, h]

/-- The empty chain is its end. -/
theorem chain_nil_congr {M : Type} [URA M] {R R' : sProp M} (h : R = R') : chain [] R = chain [] R' := by
  rw [h]

end Cert.Proof.KI

end
-- ==== Proof.KI.RowsJoinTable.lean ====
/-
  The 80 destination rows of a task in the order the kernel's table lists them (token major, then the feature row of the
  pair): the list of the first 79 pairs `(token, dd)` and the last pair, and, for any assertion `X` of a set of indices,
  the right-nested conjunction of `X` at the 80 destination views' element sets as the same conjunction at the rows
  `(token, 2w + dd)` — one set equation per row (`dst_set_t_dd`).
-/
import proofs.«207382_g17746804867166_cont_8to1_1179_25_alg».proof.Proof.KI.RowsTable
import proofs.«207382_g17746804867166_cont_8to1_1179_25_alg».proof.Proof.KI.RowsSplit
import proofs.«207382_g17746804867166_cont_8to1_1179_25_alg».proof.Proof.KI.RowsChain

noncomputable section

namespace Cert.Proof.KI

open Cert.KernelIdeal Cert.KernelIdeal.Gen
open Idealize.ShloMosaic
open Idealize.SL Idealize.SL.RA Idealize.SL.BI

/-- The first 79 pairs, in table order. -/
def pairs79 : List (Fin 40 × Fin 2) :=
  [((⟨0, by decide⟩ : Fin 40), (⟨0, by decide⟩ : Fin 2)),
   ((⟨0, by decide⟩ : Fin 40), (⟨1, by decide⟩ : Fin 2)),
   ((⟨1, by decide⟩ : Fin 40), (⟨0, by decide⟩ : Fin 2)),
   ((⟨1, by decide⟩ : Fin 40), (⟨1, by decide⟩ : Fin 2)),
   ((⟨2, by decide⟩ : Fin 40), (⟨0, by decide⟩ : Fin 2)),
   ((⟨2, by decide⟩ : Fin 40), (⟨1, by decide⟩ : Fin 2)),
   ((⟨3, by decide⟩ : Fin 40), (⟨0, by decide⟩ : Fin 2)),
   ((⟨3, by decide⟩ : Fin 40), (⟨1, by decide⟩ : Fin 2)),
   ((⟨4, by decide⟩ : Fin 40), (⟨0, by decide⟩ : Fin 2)),
   ((⟨4, by decide⟩ : Fin 40), (⟨1, by decide⟩ : Fin 2)),
   ((⟨5, by decide⟩ : Fin 40), (⟨0, by decide⟩ : Fin 2)),
   ((⟨5, by decide⟩ : Fin 40), (⟨1, by decide⟩ : Fin 2)),
   ((⟨6, by decide⟩ : Fin 40), (⟨0, by decide⟩ : Fin 2)),
   ((⟨6, by decide⟩ : Fin 40), (⟨1, by decide⟩ : Fin 2)),
   ((⟨7, by decide⟩ : Fin 40), (⟨0, by decide⟩ : Fin 2)),
   ((⟨7, by decide⟩ : Fin 40), (⟨1, by decide⟩ : Fin 2)),
   ((⟨8, by decide⟩ : Fin 40), (⟨0, by decide⟩ : Fin 2)),
   ((⟨8, by decide⟩ : Fin 40), (⟨1, by decide⟩ : Fin 2)),
   ((⟨9, by decide⟩ : Fin 40), (⟨0, by decide⟩ : Fin 2)),
   ((⟨9, by decide⟩ : Fin 40), (⟨1, by decide⟩ : Fin 2)),
   ((⟨10, by decide⟩ : Fin 40), (⟨0, by decide⟩ : Fin 2)),
   ((⟨10, by decide⟩ : Fin 40), (⟨1, by decide⟩ : Fin 2)),
   ((⟨11, by decide⟩ : Fin 40), (⟨0, by decide⟩ : Fin 2)),
   ((⟨11, by decide⟩ : Fin 40), (⟨1, by decide⟩ : Fin 2)),
   ((⟨12, by decide⟩ : Fin 40), (⟨0, by decide⟩ : Fin 2)),
   ((⟨12, by decide⟩ : Fin 40), (⟨1, by decide⟩ : Fin 2)),
   ((⟨13, by decide⟩ : Fin 40), (⟨0, by decide⟩ : Fin 2)),
   ((⟨13, by decide⟩ : Fin 40), (⟨1, by decide⟩ : Fin 2)),
   ((⟨14, by decide⟩ : Fin 40), (⟨0, by decide⟩ : Fin 2)),
   ((⟨14, by decide⟩ : Fin 40), (⟨1, by decide⟩ : Fin 2)),
   ((⟨15, by decide⟩ : Fin 40), (⟨0, by decide⟩ : Fin 2)),
   ((⟨15, by decide⟩ : Fin 40), (⟨1, by decide⟩ : Fin 2)),
   ((⟨16, by decide⟩ : Fin 40), (⟨0, by decide⟩ : Fin 2)),
   ((⟨16, by decide⟩ : Fin 40), (⟨1, by decide⟩ : Fin 2)),
   ((⟨17, by decide⟩ : Fin 40), (⟨0, by decide⟩ : Fin 2)),
   ((⟨17, by decide⟩ : Fin 40), (⟨1, by decide⟩ : Fin 2)),
   ((⟨18, by decide⟩ : Fin 40), (⟨0, by decide⟩ : Fin 2)),
   ((⟨18, by decide⟩ : Fin 40), (⟨1, by decide⟩ : Fin 2)),
   ((⟨19, by decide⟩ : Fin 40), (⟨0, by decide⟩ : Fin 2)),
   ((⟨19, by decide⟩ : Fin 40), (⟨1, by decide⟩ : Fin 2)),
   ((⟨20, by decide⟩ : Fin 40), (⟨0, by decide⟩ : Fin 2)),
   ((⟨20, by decide⟩ : Fin 40), (⟨1, by decide⟩ : Fin 2)),
   ((⟨21, by decide⟩ : Fin 40), (⟨0, by decide⟩ : Fin 2)),
   ((⟨21, by decide⟩ : Fin 40), (⟨1, by decide⟩ : Fin 2)),
   ((⟨22, by decide⟩ : Fin 40), (⟨0, by decide⟩ : Fin 2)),
   ((⟨22, by decide⟩ : Fin 40), (⟨1, by decide⟩ : Fin 2)),
   ((⟨23, by decide⟩ : Fin 40), (⟨0, by decide⟩ : Fin 2)),
   ((⟨23, by decide⟩ : Fin 40), (⟨1, by decide⟩ : Fin 2)),
   ((⟨24, by decide⟩ : Fin 40), (⟨0, by decide⟩ : Fin 2)),
   ((⟨24, by decide⟩ : Fin 40), (⟨1, by decide⟩ : Fin 2)),
   ((⟨25, by decide⟩ : Fin 40), (⟨0, by decide⟩ : Fin 2)),
   ((⟨25, by decide⟩ : Fin 40), (⟨1, by decide⟩ : Fin 2)),
   ((⟨26, by decide⟩ : Fin 40), (⟨0, by decide⟩ : Fin 2)),
   ((⟨26, by decide⟩ : Fin 40), (⟨1, by decide⟩ : Fin 2)),
   ((⟨27, by decide⟩ : Fin 40), (⟨0, by decide⟩ : Fin 2)),
   ((⟨27, by decide⟩ : Fin 40), (⟨1, by decide⟩ : Fin 2)),
   ((⟨28, by decide⟩ : Fin 40), (⟨0, by decide⟩ : Fin 2)),
   ((⟨28, by decide⟩ : Fin 40), (⟨1, by decide⟩ : Fin 2)),
   ((⟨29, by decide⟩ : Fin 40), (⟨0, by decide⟩ : Fin 2)),
   ((⟨29, by decide⟩ : Fin 40), (⟨1, by decide⟩ : Fin 2)),
   ((⟨30, by decide⟩ : Fin 40), (⟨0, by decide⟩ : Fin 2)),
   ((⟨30, by decide⟩ : Fin 40), (⟨1, by decide⟩ : Fin 2)),
   ((⟨31, by decide⟩ : Fin 40), (⟨0, by decide⟩ : Fin 2)),
   ((⟨31, by decide⟩ : Fin 40), (⟨1, by decide⟩ : Fin 2)),
   ((⟨32, by decide⟩ : Fin 40), (⟨0, by decide⟩ : Fin 2)),
   ((⟨32, by decide⟩ : Fin 40), (⟨1, by decide⟩ : Fin 2)),
   ((⟨33, by decide⟩ : Fin 40), (⟨0, by decide⟩ : Fin 2)),
   ((⟨33, by decide⟩ : Fin 40), (⟨1, by decide⟩ : Fin 2)),
   ((⟨34, by decide⟩ : Fin 40), (⟨0, by decide⟩ : Fin 2)),
   ((⟨34, by decide⟩ : Fin 40), (⟨1, by decide⟩ : Fin 2)),
   ((⟨35, by decide⟩ : Fin 40), (⟨0, by decide⟩ : Fin 2)),
   ((⟨35, by decide⟩ : Fin 40), (⟨1, by decide⟩ : Fin 2)),
   ((⟨36, by decide⟩ : Fin 40), (⟨0, by decide⟩ : Fin 2)),
   ((⟨36, by decide⟩ : Fin 40), (⟨1, by decide⟩ : Fin 2)),
   ((⟨37, by decide⟩ : Fin 40), (⟨0, by decide⟩ : Fin 2)),
   ((⟨37, by decide⟩ : Fin 40), (⟨1, by decide⟩ : Fin 2)),
   ((⟨38, by decide⟩ : Fin 40), (⟨0, by decide⟩ : Fin 2)),
   ((⟨38, by decide⟩ : Fin 40), (⟨1, by decide⟩ : Fin 2)),
   ((⟨39, by decide⟩ : Fin 40), (⟨0, by decide⟩ : Fin 2))]

/-- The last pair. -/
abbrev pairLast : Fin 40 × Fin 2 := ((⟨39, by decide⟩ : Fin 40), (⟨1, by decide⟩ : Fin 2))

/-- The conjunction at the destination views' element sets is the conjunction at the rows `(token, 2w + dd)`: row by row. -/
theorem rows_chain_sets {M : Type} [URA M] (X : Finset S40x64x4096.Idx → sProp M) (L : grid0.Coords) :
    chain [X (dst_0_0 L).view.set,
        X (dst_0_1 L).view.set,
        X (dst_1_0 L).view.set,
        X (dst_1_1 L).view.set,
        X (dst_2_0 L).view.set,
        X (dst_2_1 L).view.set,
        X (dst_3_0 L).view.set,
        X (dst_3_1 L).view.set,
        X (dst_4_0 L).view.set,
        X (dst_4_1 L).view.set,
        X (dst_5_0 L).view.set,
        X (dst_5_1 L).view.set,
        X (dst_6_0 L).view.set,
        X (dst_6_1 L).view.set,
        X (dst_7_0 L).view.set,
        X (dst_7_1 L).view.set,
        X (dst_8_0 L).view.set,
        X (dst_8_1 L).view.set,
        X (dst_9_0 L).view.set,
        X (dst_9_1 L).view.set,
        X (dst_10_0 L).view.set,
        X (dst_10_1 L).view.set,
        X (dst_11_0 L).view.set,
        X (dst_11_1 L).view.set,
        X (dst_12_0 L).view.set,
        X (dst_12_1 L).view.set,
        X (dst_13_0 L).view.set,
        X (dst_13_1 L).view.set,
        X (dst_14_0 L).view.set,
        X (dst_14_1 L).view.set,
        X (dst_15_0 L).view.set,
        X (dst_15_1 L).view.set,
        X (dst_16_0 L).view.set,
        X (dst_16_1 L).view.set,
        X (dst_17_0 L).view.set,
        X (dst_17_1 L).view.set,
        X (dst_18_0 L).view.set,
        X (dst_18_1 L).view.set,
        X (dst_19_0 L).view.set,
        X (dst_19_1 L).view.set,
        X (dst_20_0 L).view.set,
        X (dst_20_1 L).view.set,
        X (dst_21_0 L).view.set,
        X (dst_21_1 L).view.set,
        X (dst_22_0 L).view.set,
        X (dst_22_1 L).view.set,
        X (dst_23_0 L).view.set,
        X (dst_23_1 L).view.set,
        X (dst_24_0 L).view.set,
        X (dst_24_1 L).view.set,
        X (dst_25_0 L).view.set,
        X (dst_25_1 L).view.set,
        X (dst_26_0 L).view.set,
        X (dst_26_1 L).view.set,
        X (dst_27_0 L).view.set,
        X (dst_27_1 L).view.set,
        X (dst_28_0 L).view.set,
        X (dst_28_1 L).view.set,
        X (dst_29_0 L).view.set,
        X (dst_29_1 L).view.set,
        X (dst_30_0 L).view.set,
        X (dst_30_1 L).view.set,
        X (dst_31_0 L).view.set,
        X (dst_31_1 L).view.set,
        X (dst_32_0 L).view.set,
        X (dst_32_1 L).view.set,
        X (dst_33_0 L).view.set,
        X (dst_33_1 L).view.set,
        X (dst_34_0 L).view.set,
        X (dst_34_1 L).view.set,
        X (dst_35_0 L).view.set,
        X (dst_35_1 L).view.set,
        X (dst_36_0 L).view.set,
        X (dst_36_1 L).view.set,
        X (dst_37_0 L).view.set,
        X (dst_37_1 L).view.set,
        X (dst_38_0 L).view.set,
        X (dst_38_1 L).view.set,
        X (dst_39_0 L).view.set]
        (X (dst_39_1 L).view.set)
      = chain [X (rowT (⟨0, by decide⟩ : Fin 40) (rowOf L (⟨0, by decide⟩ : Fin 2))),
        X (rowT (⟨0, by decide⟩ : Fin 40) (rowOf L (⟨1, by decide⟩ : Fin 2))),
        X (rowT (⟨1, by decide⟩ : Fin 40) (rowOf L (⟨0, by decide⟩ : Fin 2))),
        X (rowT (⟨1, by decide⟩ : Fin 40) (rowOf L (⟨1, by decide⟩ : Fin 2))),
        X (rowT (⟨2, by decide⟩ : Fin 40) (rowOf L (⟨0, by decide⟩ : Fin 2))),
        X (rowT (⟨2, by decide⟩ : Fin 40) (rowOf L (⟨1, by decide⟩ : Fin 2))),
        X (rowT (⟨3, by decide⟩ : Fin 40) (rowOf L (⟨0, by decide⟩ : Fin 2))),
        X (rowT (⟨3, by decide⟩ : Fin 40) (rowOf L (⟨1, by decide⟩ : Fin 2))),
        X (rowT (⟨4, by decide⟩ : Fin 40) (rowOf L (⟨0, by decide⟩ : Fin 2))),
        X (rowT (⟨4, by decide⟩ : Fin 40) (rowOf L (⟨1, by decide⟩ : Fin 2))),
        X (rowT (⟨5, by decide⟩ : Fin 40) (rowOf L (⟨0, by decide⟩ : Fin 2))),
        X (rowT (⟨5, by decide⟩ : Fin 40) (rowOf L (⟨1, by decide⟩ : Fin 2))),
        X (rowT (⟨6, by decide⟩ : Fin 40) (rowOf L (⟨0, by decide⟩ : Fin 2))),
        X (rowT (⟨6, by decide⟩ : Fin 40) (rowOf L (⟨1, by decide⟩ : Fin 2))),
        X (rowT (⟨7, by decide⟩ : Fin 40) (rowOf L (⟨0, by decide⟩ : Fin 2))),
        X (rowT (⟨7, by decide⟩ : Fin 40) (rowOf L (⟨1, by decide⟩ : Fin 2))),
        X (rowT (⟨8, by decide⟩ : Fin 40) (rowOf L (⟨0, by decide⟩ : Fin 2))),
        X (rowT (⟨8, by decide⟩ : Fin 40) (rowOf L (⟨1, by decide⟩ : Fin 2))),
        X (rowT (⟨9, by decide⟩ : Fin 40) (rowOf L (⟨0, by decide⟩ : Fin 2))),
        X (rowT (⟨9, by decide⟩ : Fin 40) (rowOf L (⟨1, by decide⟩ : Fin 2))),
        X (rowT (⟨10, by decide⟩ : Fin 40) (rowOf L (⟨0, by decide⟩ : Fin 2))),
        X (rowT (⟨10, by decide⟩ : Fin 40) (rowOf L (⟨1, by decide⟩ : Fin 2))),
        X (rowT (⟨11, by decide⟩ : Fin 40) (rowOf L (⟨0, by decide⟩ : Fin 2))),
        X (rowT (⟨11, by decide⟩ : Fin 40) (rowOf L (⟨1, by decide⟩ : Fin 2))),
        X (rowT (⟨12, by decide⟩ : Fin 40) (rowOf L (⟨0, by decide⟩ : Fin 2))),
        X (rowT (⟨12, by decide⟩ : Fin 40) (rowOf L (⟨1, by decide⟩ : Fin 2))),
        X (rowT (⟨13, by decide⟩ : Fin 40) (rowOf L (⟨0, by decide⟩ : Fin 2))),
        X (rowT (⟨13, by decide⟩ : Fin 40) (rowOf L (⟨1, by decide⟩ : Fin 2))),
        X (rowT (⟨14, by decide⟩ : Fin 40) (rowOf L (⟨0, by decide⟩ : Fin 2))),
        X (rowT (⟨14, by decide⟩ : Fin 40) (rowOf L (⟨1, by decide⟩ : Fin 2))),
        X (rowT (⟨15, by decide⟩ : Fin 40) (rowOf L (⟨0, by decide⟩ : Fin 2))),
        X (rowT (⟨15, by decide⟩ : Fin 40) (rowOf L (⟨1, by decide⟩ : Fin 2))),
        X (rowT (⟨16, by decide⟩ : Fin 40) (rowOf L (⟨0, by decide⟩ : Fin 2))),
        X (rowT (⟨16, by decide⟩ : Fin 40) (rowOf L (⟨1, by decide⟩ : Fin 2))),
        X (rowT (⟨17, by decide⟩ : Fin 40) (rowOf L (⟨0, by decide⟩ : Fin 2))),
        X (rowT (⟨17, by decide⟩ : Fin 40) (rowOf L (⟨1, by decide⟩ : Fin 2))),
        X (rowT (⟨18, by decide⟩ : Fin 40) (rowOf L (⟨0, by decide⟩ : Fin 2))),
        X (rowT (⟨18, by decide⟩ : Fin 40) (rowOf L (⟨1, by decide⟩ : Fin 2))),
        X (rowT (⟨19, by decide⟩ : Fin 40) (rowOf L (⟨0, by decide⟩ : Fin 2))),
        X (rowT (⟨19, by decide⟩ : Fin 40) (rowOf L (⟨1, by decide⟩ : Fin 2))),
        X (rowT (⟨20, by decide⟩ : Fin 40) (rowOf L (⟨0, by decide⟩ : Fin 2))),
        X (rowT (⟨20, by decide⟩ : Fin 40) (rowOf L (⟨1, by decide⟩ : Fin 2))),
        X (rowT (⟨21, by decide⟩ : Fin 40) (rowOf L (⟨0, by decide⟩ : Fin 2))),
        X (rowT (⟨21, by decide⟩ : Fin 40) (rowOf L (⟨1, by decide⟩ : Fin 2))),
        X (rowT (⟨22, by decide⟩ : Fin 40) (rowOf L (⟨0, by decide⟩ : Fin 2))),
        X (rowT (⟨22, by decide⟩ : Fin 40) (rowOf L (⟨1, by decide⟩ : Fin 2))),
        X (rowT (⟨23, by decide⟩ : Fin 40) (rowOf L (⟨0, by decide⟩ : Fin 2))),
        X (rowT (⟨23, by decide⟩ : Fin 40) (rowOf L (⟨1, by decide⟩ : Fin 2))),
        X (rowT (⟨24, by decide⟩ : Fin 40) (rowOf L (⟨0, by decide⟩ : Fin 2))),
        X (rowT (⟨24, by decide⟩ : Fin 40) (rowOf L (⟨1, by decide⟩ : Fin 2))),
        X (rowT (⟨25, by decide⟩ : Fin 40) (rowOf L (⟨0, by decide⟩ : Fin 2))),
        X (rowT (⟨25, by decide⟩ : Fin 40) (rowOf L (⟨1, by decide⟩ : Fin 2))),
        X (rowT (⟨26, by decide⟩ : Fin 40) (rowOf L (⟨0, by decide⟩ : Fin 2))),
        X (rowT (⟨26, by decide⟩ : Fin 40) (rowOf L (⟨1, by decide⟩ : Fin 2))),
        X (rowT (⟨27, by decide⟩ : Fin 40) (rowOf L (⟨0, by decide⟩ : Fin 2))),
        X (rowT (⟨27, by decide⟩ : Fin 40) (rowOf L (⟨1, by decide⟩ : Fin 2))),
        X (rowT (⟨28, by decide⟩ : Fin 40) (rowOf L (⟨0, by decide⟩ : Fin 2))),
        X (rowT (⟨28, by decide⟩ : Fin 40) (rowOf L (⟨1, by decide⟩ : Fin 2))),
        X (rowT (⟨29, by decide⟩ : Fin 40) (rowOf L (⟨0, by decide⟩ : Fin 2))),
        X (rowT (⟨29, by decide⟩ : Fin 40) (rowOf L (⟨1, by decide⟩ : Fin 2))),
        X (rowT (⟨30, by decide⟩ : Fin 40) (rowOf L (⟨0, by decide⟩ : Fin 2))),
        X (rowT (⟨30, by decide⟩ : Fin 40) (rowOf L (⟨1, by decide⟩ : Fin 2))),
        X (rowT (⟨31, by decide⟩ : Fin 40) (rowOf L (⟨0, by decide⟩ : Fin 2))),
        X (rowT (⟨31, by decide⟩ : Fin 40) (rowOf L (⟨1, by decide⟩ : Fin 2))),
        X (rowT (⟨32, by decide⟩ : Fin 40) (rowOf L (⟨0, by decide⟩ : Fin 2))),
        X (rowT (⟨32, by decide⟩ : Fin 40) (rowOf L (⟨1, by decide⟩ : Fin 2))),
        X (rowT (⟨33, by decide⟩ : Fin 40) (rowOf L (⟨0, by decide⟩ : Fin 2))),
        X (rowT (⟨33, by decide⟩ : Fin 40) (rowOf L (⟨1, by decide⟩ : Fin 2))),
        X (rowT (⟨34, by decide⟩ : Fin 40) (rowOf L (⟨0, by decide⟩ : Fin 2))),
        X (rowT (⟨34, by decide⟩ : Fin 40) (rowOf L (⟨1, by decide⟩ : Fin 2))),
        X (rowT (⟨35, by decide⟩ : Fin 40) (rowOf L (⟨0, by decide⟩ : Fin 2))),
        X (rowT (⟨35, by decide⟩ : Fin 40) (rowOf L (⟨1, by decide⟩ : Fin 2))),
        X (rowT (⟨36, by decide⟩ : Fin 40) (rowOf L (⟨0, by decide⟩ : Fin 2))),
        X (rowT (⟨36, by decide⟩ : Fin 40) (rowOf L (⟨1, by decide⟩ : Fin 2))),
        X (rowT (⟨37, by decide⟩ : Fin 40) (rowOf L (⟨0, by decide⟩ : Fin 2))),
        X (rowT (⟨37, by decide⟩ : Fin 40) (rowOf L (⟨1, by decide⟩ : Fin 2))),
        X (rowT (⟨38, by decide⟩ : Fin 40) (rowOf L (⟨0, by decide⟩ : Fin 2))),
        X (rowT (⟨38, by decide⟩ : Fin 40) (rowOf L (⟨1, by decide⟩ : Fin 2))),
        X (rowT (⟨39, by decide⟩ : Fin 40) (rowOf L (⟨0, by decide⟩ : Fin 2)))]
        (X (rowT (⟨39, by decide⟩ : Fin 40) (rowOf L (⟨1, by decide⟩ : Fin 2)))) :=
  chain_congr (congrArg X (dst_set_0_0 L)) <|
  chain_congr (congrArg X (dst_set_0_1 L)) <|
  chain_congr (congrArg X (dst_set_1_0 L)) <|
  chain_congr (congrArg X (dst_set_1_1 L)) <|
  chain_congr (congrArg X (dst_set_2_0 L)) <|
  chain_congr (congrArg X (dst_set_2_1 L)) <|
  chain_congr (congrArg X (dst_set_3_0 L)) <|
  chain_congr (congrArg X (dst_set_3_1 L)) <|
  chain_congr (congrArg X (dst_set_4_0 L)) <|
  chain_congr (congrArg X (dst_set_4_1 L)) <|
  chain_congr (congrArg X (dst_set_5_0 L)) <|
  chain_congr (congrArg X (dst_set_5_1 L)) <|
  chain_congr (congrArg X (dst_set_6_0 L)) <|
  chain_congr (congrArg X (dst_set_6_1 L)) <|
  chain_congr (congrArg X (dst_set_7_0 L)) <|
  chain_congr (congrArg X (dst_set_7_1 L)) <|
  chain_congr (congrArg X (dst_set_8_0 L)) <|
  chain_congr (congrArg X (dst_set_8_1 L)) <|
  chain_congr (congrArg X (dst_set_9_0 L)) <|
  chain_congr (congrArg X (dst_set_9_1 L)) <|
  chain_congr (congrArg X (dst_set_10_0 L)) <|
  chain_congr (congrArg X (dst_set_10_1 L)) <|
  chain_congr (congrArg X (dst_set_11_0 L)) <|
  chain_congr (congrArg X (dst_set_11_1 L)) <|
  chain_congr (congrArg X (dst_set_12_0 L)) <|
  chain_congr (congrArg X (dst_set_12_1 L)) <|
  chain_congr (congrArg X (dst_set_13_0 L)) <|
  chain_congr (congrArg X (dst_set_13_1 L)) <|
  chain_congr (congrArg X (dst_set_14_0 L)) <|
  chain_congr (congrArg X (dst_set_14_1 L)) <|
  chain_congr (congrArg X (dst_set_15_0 L)) <|
  chain_congr (congrArg X (dst_set_15_1 L)) <|
  chain_congr (congrArg X (dst_set_16_0 L)) <|
  chain_congr (congrArg X (dst_set_16_1 L)) <|
  chain_congr (congrArg X (dst_set_17_0 L)) <|
  chain_congr (congrArg X (dst_set_17_1 L)) <|
  chain_congr (congrArg X (dst_set_18_0 L)) <|
  chain_congr (congrArg X (dst_set_18_1 L)) <|
  chain_congr (congrArg X (dst_set_19_0 L)) <|
  chain_congr (congrArg X (dst_set_19_1 L)) <|
  chain_congr (congrArg X (dst_set_20_0 L)) <|
  chain_congr (congrArg X (dst_set_20_1 L)) <|
  chain_congr (congrArg X (dst_set_21_0 L)) <|
  chain_congr (congrArg X (dst_set_21_1 L)) <|
  chain_congr (congrArg X (dst_set_22_0 L)) <|
  chain_congr (congrArg X (dst_set_22_1 L)) <|
  chain_congr (congrArg X (dst_set_23_0 L)) <|
  chain_congr (congrArg X (dst_set_23_1 L)) <|
  chain_congr (congrArg X (dst_set_24_0 L)) <|
  chain_congr (congrArg X (dst_set_24_1 L)) <|
  chain_congr (congrArg X (dst_set_25_0 L)) <|
  chain_congr (congrArg X (dst_set_25_1 L)) <|
  chain_congr (congrArg X (dst_set_26_0 L)) <|
  chain_congr (congrArg X (dst_set_26_1 L)) <|
  chain_congr (congrArg X (dst_set_27_0 L)) <|
  chain_congr (congrArg X (dst_set_27_1 L)) <|
  chain_congr (congrArg X (dst_set_28_0 L)) <|
  chain_congr (congrArg X (dst_set_28_1 L)) <|
  chain_congr (congrArg X (dst_set_29_0 L)) <|
  chain_congr (congrArg X (dst_set_29_1 L)) <|
  chain_congr (congrArg X (dst_set_30_0 L)) <|
  chain_congr (congrArg X (dst_set_30_1 L)) <|
  chain_congr (congrArg X (dst_set_31_0 L)) <|
  chain_congr (congrArg X (dst_set_31_1 L)) <|
  chain_congr (congrArg X (dst_set_32_0 L)) <|
  chain_congr (congrArg X (dst_set_32_1 L)) <|
  chain_congr (congrArg X (dst_set_33_0 L)) <|
  chain_congr (congrArg X (dst_set_33_1 L)) <|
  chain_congr (congrArg X (dst_set_34_0 L)) <|
  chain_congr (congrArg X (dst_set_34_1 L)) <|
  chain_congr (congrArg X (dst_set_35_0 L)) <|
  chain_congr (congrArg X (dst_set_35_1 L)) <|
  chain_congr (congrArg X (dst_set_36_0 L)) <|
  chain_congr (congrArg X (dst_set_36_1 L)) <|
  chain_congr (congrArg X (dst_set_37_0 L)) <|
  chain_congr (congrArg X (dst_set_37_1 L)) <|
  chain_congr (congrArg X (dst_set_38_0 L)) <|
  chain_congr (congrArg X (dst_set_38_1 L)) <|
  chain_congr (congrArg X (dst_set_39_0 L)) <|
  chain_nil_congr (congrArg X (dst_set_39_1 L))

/-- The rows `(token, 2w + dd)` in table order are the task's rows along the list of pairs. -/
theorem rows_chain_pairs {M : Type} [URA M] (X : Finset S40x64x4096.Idx → sProp M) (L : grid0.Coords) :
    chain [X (rowT (⟨0, by decide⟩ : Fin 40) (rowOf L (⟨0, by decide⟩ : Fin 2))),
        X (rowT (⟨0, by decide⟩ : Fin 40) (rowOf L (⟨1, by decide⟩ : Fin 2))),
        X (rowT (⟨1, by decide⟩ : Fin 40) (rowOf L (⟨0, by decide⟩ : Fin 2))),
        X (rowT (⟨1, by decide⟩ : Fin 40) (rowOf L (⟨1, by decide⟩ : Fin 2))),
        X (rowT (⟨2, by decide⟩ : Fin 40) (rowOf L (⟨0, by decide⟩ : Fin 2))),
        X (rowT (⟨2, by decide⟩ : Fin 40) (rowOf L (⟨1, by decide⟩ : Fin 2))),
        X (rowT (⟨3, by decide⟩ : Fin 40) (rowOf L (⟨0, by decide⟩ : Fin 2))),
        X (rowT (⟨3, by decide⟩ : Fin 40) (rowOf L (⟨1, by decide⟩ : Fin 2))),
        X (rowT (⟨4, by decide⟩ : Fin 40) (rowOf L (⟨0, by decide⟩ : Fin 2))),
        X (rowT (⟨4, by decide⟩ : Fin 40) (rowOf L (⟨1, by decide⟩ : Fin 2))),
        X (rowT (⟨5, by decide⟩ : Fin 40) (rowOf L (⟨0, by decide⟩ : Fin 2))),
        X (rowT (⟨5, by decide⟩ : Fin 40) (rowOf L (⟨1, by decide⟩ : Fin 2))),
        X (rowT (⟨6, by decide⟩ : Fin 40) (rowOf L (⟨0, by decide⟩ : Fin 2))),
        X (rowT (⟨6, by decide⟩ : Fin 40) (rowOf L (⟨1, by decide⟩ : Fin 2))),
        X (rowT (⟨7, by decide⟩ : Fin 40) (rowOf L (⟨0, by decide⟩ : Fin 2))),
        X (rowT (⟨7, by decide⟩ : Fin 40) (rowOf L (⟨1, by decide⟩ : Fin 2))),
        X (rowT (⟨8, by decide⟩ : Fin 40) (rowOf L (⟨0, by decide⟩ : Fin 2))),
        X (rowT (⟨8, by decide⟩ : Fin 40) (rowOf L (⟨1, by decide⟩ : Fin 2))),
        X (rowT (⟨9, by decide⟩ : Fin 40) (rowOf L (⟨0, by decide⟩ : Fin 2))),
        X (rowT (⟨9, by decide⟩ : Fin 40) (rowOf L (⟨1, by decide⟩ : Fin 2))),
        X (rowT (⟨10, by decide⟩ : Fin 40) (rowOf L (⟨0, by decide⟩ : Fin 2))),
        X (rowT (⟨10, by decide⟩ : Fin 40) (rowOf L (⟨1, by decide⟩ : Fin 2))),
        X (rowT (⟨11, by decide⟩ : Fin 40) (rowOf L (⟨0, by decide⟩ : Fin 2))),
        X (rowT (⟨11, by decide⟩ : Fin 40) (rowOf L (⟨1, by decide⟩ : Fin 2))),
        X (rowT (⟨12, by decide⟩ : Fin 40) (rowOf L (⟨0, by decide⟩ : Fin 2))),
        X (rowT (⟨12, by decide⟩ : Fin 40) (rowOf L (⟨1, by decide⟩ : Fin 2))),
        X (rowT (⟨13, by decide⟩ : Fin 40) (rowOf L (⟨0, by decide⟩ : Fin 2))),
        X (rowT (⟨13, by decide⟩ : Fin 40) (rowOf L (⟨1, by decide⟩ : Fin 2))),
        X (rowT (⟨14, by decide⟩ : Fin 40) (rowOf L (⟨0, by decide⟩ : Fin 2))),
        X (rowT (⟨14, by decide⟩ : Fin 40) (rowOf L (⟨1, by decide⟩ : Fin 2))),
        X (rowT (⟨15, by decide⟩ : Fin 40) (rowOf L (⟨0, by decide⟩ : Fin 2))),
        X (rowT (⟨15, by decide⟩ : Fin 40) (rowOf L (⟨1, by decide⟩ : Fin 2))),
        X (rowT (⟨16, by decide⟩ : Fin 40) (rowOf L (⟨0, by decide⟩ : Fin 2))),
        X (rowT (⟨16, by decide⟩ : Fin 40) (rowOf L (⟨1, by decide⟩ : Fin 2))),
        X (rowT (⟨17, by decide⟩ : Fin 40) (rowOf L (⟨0, by decide⟩ : Fin 2))),
        X (rowT (⟨17, by decide⟩ : Fin 40) (rowOf L (⟨1, by decide⟩ : Fin 2))),
        X (rowT (⟨18, by decide⟩ : Fin 40) (rowOf L (⟨0, by decide⟩ : Fin 2))),
        X (rowT (⟨18, by decide⟩ : Fin 40) (rowOf L (⟨1, by decide⟩ : Fin 2))),
        X (rowT (⟨19, by decide⟩ : Fin 40) (rowOf L (⟨0, by decide⟩ : Fin 2))),
        X (rowT (⟨19, by decide⟩ : Fin 40) (rowOf L (⟨1, by decide⟩ : Fin 2))),
        X (rowT (⟨20, by decide⟩ : Fin 40) (rowOf L (⟨0, by decide⟩ : Fin 2))),
        X (rowT (⟨20, by decide⟩ : Fin 40) (rowOf L (⟨1, by decide⟩ : Fin 2))),
        X (rowT (⟨21, by decide⟩ : Fin 40) (rowOf L (⟨0, by decide⟩ : Fin 2))),
        X (rowT (⟨21, by decide⟩ : Fin 40) (rowOf L (⟨1, by decide⟩ : Fin 2))),
        X (rowT (⟨22, by decide⟩ : Fin 40) (rowOf L (⟨0, by decide⟩ : Fin 2))),
        X (rowT (⟨22, by decide⟩ : Fin 40) (rowOf L (⟨1, by decide⟩ : Fin 2))),
        X (rowT (⟨23, by decide⟩ : Fin 40) (rowOf L (⟨0, by decide⟩ : Fin 2))),
        X (rowT (⟨23, by decide⟩ : Fin 40) (rowOf L (⟨1, by decide⟩ : Fin 2))),
        X (rowT (⟨24, by decide⟩ : Fin 40) (rowOf L (⟨0, by decide⟩ : Fin 2))),
        X (rowT (⟨24, by decide⟩ : Fin 40) (rowOf L (⟨1, by decide⟩ : Fin 2))),
        X (rowT (⟨25, by decide⟩ : Fin 40) (rowOf L (⟨0, by decide⟩ : Fin 2))),
        X (rowT (⟨25, by decide⟩ : Fin 40) (rowOf L (⟨1, by decide⟩ : Fin 2))),
        X (rowT (⟨26, by decide⟩ : Fin 40) (rowOf L (⟨0, by decide⟩ : Fin 2))),
        X (rowT (⟨26, by decide⟩ : Fin 40) (rowOf L (⟨1, by decide⟩ : Fin 2))),
        X (rowT (⟨27, by decide⟩ : Fin 40) (rowOf L (⟨0, by decide⟩ : Fin 2))),
        X (rowT (⟨27, by decide⟩ : Fin 40) (rowOf L (⟨1, by decide⟩ : Fin 2))),
        X (rowT (⟨28, by decide⟩ : Fin 40) (rowOf L (⟨0, by decide⟩ : Fin 2))),
        X (rowT (⟨28, by decide⟩ : Fin 40) (rowOf L (⟨1, by decide⟩ : Fin 2))),
        X (rowT (⟨29, by decide⟩ : Fin 40) (rowOf L (⟨0, by decide⟩ : Fin 2))),
        X (rowT (⟨29, by decide⟩ : Fin 40) (rowOf L (⟨1, by decide⟩ : Fin 2))),
        X (rowT (⟨30, by decide⟩ : Fin 40) (rowOf L (⟨0, by decide⟩ : Fin 2))),
        X (rowT (⟨30, by decide⟩ : Fin 40) (rowOf L (⟨1, by decide⟩ : Fin 2))),
        X (rowT (⟨31, by decide⟩ : Fin 40) (rowOf L (⟨0, by decide⟩ : Fin 2))),
        X (rowT (⟨31, by decide⟩ : Fin 40) (rowOf L (⟨1, by decide⟩ : Fin 2))),
        X (rowT (⟨32, by decide⟩ : Fin 40) (rowOf L (⟨0, by decide⟩ : Fin 2))),
        X (rowT (⟨32, by decide⟩ : Fin 40) (rowOf L (⟨1, by decide⟩ : Fin 2))),
        X (rowT (⟨33, by decide⟩ : Fin 40) (rowOf L (⟨0, by decide⟩ : Fin 2))),
        X (rowT (⟨33, by decide⟩ : Fin 40) (rowOf L (⟨1, by decide⟩ : Fin 2))),
        X (rowT (⟨34, by decide⟩ : Fin 40) (rowOf L (⟨0, by decide⟩ : Fin 2))),
        X (rowT (⟨34, by decide⟩ : Fin 40) (rowOf L (⟨1, by decide⟩ : Fin 2))),
        X (rowT (⟨35, by decide⟩ : Fin 40) (rowOf L (⟨0, by decide⟩ : Fin 2))),
        X (rowT (⟨35, by decide⟩ : Fin 40) (rowOf L (⟨1, by decide⟩ : Fin 2))),
        X (rowT (⟨36, by decide⟩ : Fin 40) (rowOf L (⟨0, by decide⟩ : Fin 2))),
        X (rowT (⟨36, by decide⟩ : Fin 40) (rowOf L (⟨1, by decide⟩ : Fin 2))),
        X (rowT (⟨37, by decide⟩ : Fin 40) (rowOf L (⟨0, by decide⟩ : Fin 2))),
        X (rowT (⟨37, by decide⟩ : Fin 40) (rowOf L (⟨1, by decide⟩ : Fin 2))),
        X (rowT (⟨38, by decide⟩ : Fin 40) (rowOf L (⟨0, by decide⟩ : Fin 2))),
        X (rowT (⟨38, by decide⟩ : Fin 40) (rowOf L (⟨1, by decide⟩ : Fin 2))),
        X (rowT (⟨39, by decide⟩ : Fin 40) (rowOf L (⟨0, by decide⟩ : Fin 2)))]
        (X (rowT (⟨39, by decide⟩ : Fin 40) (rowOf L (⟨1, by decide⟩ : Fin 2))))
      = chain (pairs79.map fun p => X (rowW (widL L) p)) (X (rowW (widL L) pairLast)) := rfl

end Cert.Proof.KI

end
-- ==== Proof.KI.RowsJoin.lean ====
/-
  A task's share of the result array and its 80 destination rows. The share `oSet w` is the disjoint union of the rows
  `(t, 2w + dd)` over the 80 pairs `(t, dd)`; the iterated conjunction over the pairs is the right-nested conjunction
  along the table's list of them (79 pairs, then the last: the list has no repetition and misses only the last pair);
  and each row is the element set of the destination view the kernel addresses it by. So the share at `fo` is the 80
  destination rows at `fo`, and 80 destination rows, each at contents equal to `GT A` on the row, are the share at `GT A`.
-/
import proofs.«207382_g17746804867166_cont_8to1_1179_25_alg».proof.Proof.KI.BodyCtxV
import proofs.«207382_g17746804867166_cont_8to1_1179_25_alg».proof.Proof.KI.RowsJoinTable

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The 80 pairs, along the table's list -/

theorem pairs79_nodup : pairs79.Nodup := by decide

theorem pairs79_rest : (Finset.univ : Finset (Fin 40 × Fin 2)) \ pairs79.toFinset = {pairLast} := by decide

/-- The conjunction over the 80 pairs, right-nested in table order. -/
theorem bigSep_pairs {M : Type} [URA M] (Φ : Fin 40 × Fin 2 → sProp M) :
    bigSep Finset.univ Φ = chain (pairs79.map Φ) (Φ pairLast) := by
  rw [bigSep_chain Φ pairs79 pairs79_nodup Finset.univ (fun _ _ => Finset.mem_univ _), pairs79_rest, bigSep_singleton]

/-- An assertion of a set of indices, over the task's 80 rows: right-nested over the destination views' element sets. -/
theorem bigSep_rows {M : Type} [URA M] (X : Finset S40x64x4096.Idx → sProp M) (L : grid0.Coords) :
    (bigSep Finset.univ fun p : Fin 40 × Fin 2 => X (rowW (widL L) p))
      = chain (pairs79.map fun p => X (rowW (widL L) p)) (X (rowW (widL L) pairLast)) :=
  bigSep_pairs fun p => X (rowW (widL L) p)

/-- The same conjunction at the destination views' element sets, in table order. -/
theorem rows_chain {M : Type} [URA M] (X : Finset S40x64x4096.Idx → sProp M) (L : grid0.Coords) :
    chain [X (dst_0_0 L).view.set, X (dst_0_1 L).view.set, X (dst_1_0 L).view.set, X (dst_1_1 L).view.set, X (dst_2_0 L).view.set, X (dst_2_1 L).view.set,
        X (dst_3_0 L).view.set, X (dst_3_1 L).view.set, X (dst_4_0 L).view.set, X (dst_4_1 L).view.set, X (dst_5_0 L).view.set, X (dst_5_1 L).view.set,
        X (dst_6_0 L).view.set, X (dst_6_1 L).view.set, X (dst_7_0 L).view.set, X (dst_7_1 L).view.set, X (dst_8_0 L).view.set, X (dst_8_1 L).view.set,
        X (dst_9_0 L).view.set, X (dst_9_1 L).view.set, X (dst_10_0 L).view.set, X (dst_10_1 L).view.set, X (dst_11_0 L).view.set, X (dst_11_1 L).view.set,
        X (dst_12_0 L).view.set, X (dst_12_1 L).view.set, X (dst_13_0 L).view.set, X (dst_13_1 L).view.set, X (dst_14_0 L).view.set, X (dst_14_1 L).view.set,
        X (dst_15_0 L).view.set, X (dst_15_1 L).view.set, X (dst_16_0 L).view.set, X (dst_16_1 L).view.set, X (dst_17_0 L).view.set, X (dst_17_1 L).view.set,
        X (dst_18_0 L).view.set, X (dst_18_1 L).view.set, X (dst_19_0 L).view.set, X (dst_19_1 L).view.set, X (dst_20_0 L).view.set, X (dst_20_1 L).view.set,
        X (dst_21_0 L).view.set, X (dst_21_1 L).view.set, X (dst_22_0 L).view.set, X (dst_22_1 L).view.set, X (dst_23_0 L).view.set, X (dst_23_1 L).view.set,
        X (dst_24_0 L).view.set, X (dst_24_1 L).view.set, X (dst_25_0 L).view.set, X (dst_25_1 L).view.set, X (dst_26_0 L).view.set, X (dst_26_1 L).view.set,
        X (dst_27_0 L).view.set, X (dst_27_1 L).view.set, X (dst_28_0 L).view.set, X (dst_28_1 L).view.set, X (dst_29_0 L).view.set, X (dst_29_1 L).view.set,
        X (dst_30_0 L).view.set, X (dst_30_1 L).view.set, X (dst_31_0 L).view.set, X (dst_31_1 L).view.set, X (dst_32_0 L).view.set, X (dst_32_1 L).view.set,
        X (dst_33_0 L).view.set, X (dst_33_1 L).view.set, X (dst_34_0 L).view.set, X (dst_34_1 L).view.set, X (dst_35_0 L).view.set, X (dst_35_1 L).view.set,
        X (dst_36_0 L).view.set, X (dst_36_1 L).view.set, X (dst_37_0 L).view.set, X (dst_37_1 L).view.set, X (dst_38_0 L).view.set, X (dst_38_1 L).view.set,
        X (dst_39_0 L).view.set] (X (dst_39_1 L).view.set)
      = chain (pairs79.map fun p => X (rowW (widL L) p)) (X (rowW (widL L) pairLast)) :=
  (rows_chain_sets X L).trans (rows_chain_pairs X L)

/-! ## The share and the rows -/

set_option maxHeartbeats 8000000 in
/-- The task's share at `fo` is its 80 destination rows at `fo`. -/
theorem rows_split (fo : FVec F S40x64x4096 .f32) (d : Dev nD) (L : grid0.Coords) :
    (outL d ↦[oSet (widL L)]{fullShare} (fo : Buf (Elt F) (outL d)) : sProp 𝕄) ⊢ rowsIn fo d L := by
  rw [oSet_split]
  refine Entails.of_eq ?_
  refine (bigSep_rows (fun s => (outL d ↦[s]{fullShare} (fo : Buf (Elt F) (outL d)) : sProp 𝕄)) L).trans ?_
  refine (rows_chain (fun s => (outL d ↦[s]{fullShare} (fo : Buf (Elt F) (outL d)) : sProp 𝕄)) L).symm.trans ?_
  unfold rowsIn
  rfl

set_option maxHeartbeats 8000000 in
/-- 80 destination rows, each at contents equal to `GT A` on the row, are the task's share at `GT A`. -/
theorem rows_join (A : Arrs F) (d : Dev nD) (L : grid0.Coords) :
    rowsDone A d L ⊢ (outL d ↦[oSet (widL L)]{fullShare} (GT A : Buf (Elt F) (outL d)) : sProp 𝕄) := by
  refine Entails.trans (Entails.of_eq ?_) (oSet_join d (widL L) (GT A : Buf (Elt F) (outL d)))
  refine Eq.trans ?_ (bigSep_rows (fun s => (iprop(∃ g : Buf (Elt F) (outL d), ⌜∀ x ∈ s, g x = (GT A : Buf (Elt F) (outL d)) x⌝ ∗ (outL d ↦[s]{fullShare} g)) : sProp 𝕄)) L).symm
  refine Eq.trans ?_ (rows_chain (fun s => (iprop(∃ g : Buf (Elt F) (outL d), ⌜∀ x ∈ s, g x = (GT A : Buf (Elt F) (outL d)) x⌝ ∗ (outL d ↦[s]{fullShare} g)) : sProp 𝕄)) L)
  unfold rowsDone
  rfl

end Cert.Proof.KI

end
-- ==== Proof.KI.Tile.lean ====
/-
  The body obligation of a vector subcore's task: the subcore's scoped storage is opened into its scratch buffers and
  semaphores, the task's rows of the result array into the 80 destination rows, the task is run, and everything is put
  back — the rows joined at the one whole-array function `GT A`.
-/
import proofs.«207382_g17746804867166_cont_8to1_1179_25_alg».proof.Proof.KI.Body
import proofs.«207382_g17746804867166_cont_8to1_1179_25_alg».proof.Proof.KI.RowsJoin

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- From what the run leaves to the obligation's postcondition: the 80 rows joined, the scoped storage closed. -/
theorem exit_conv (hF : (K (F := F)).Facts) (A : Arrs F) (d : Dev nD) (L : grid0.Coords)
    (O : CellTallies nD τ sig (HIx 1)) (W : Waits sig (HIx 1)) :
    tilePost A d L O W ⊢ (iprop(tileOut A d (widL L) ∗ scopedBufs (V d (cV L) (jV L)) ∗ scopedSems0 (V d (cV L) (jV L))
      ∗ ∃ W', ⌜∀ p ∈ W', p ∈ W ∨ p.2 = none⌝ ∗ owes (V d (cV L) (jV L)) O W') : sProp 𝕄) := by
  unfold tilePost
  iintro ⟨⟨%W', %hW', HO⟩, Hcat, Hnum, Hemb, Hw, Hb, Hcls, Hrows, Htail⟩
  ihave Hout := (rows_join A d L) $$ Hrows
  ihave Hout' := (Entails.of_eq (pts_out d L _ _ _).symm) $$ Hout
  ihave Hx := (body_exit hF A d L) $$ [Hcat Hnum Hemb Hw Hb Hcls Hout' Htail]
  · isplitl [Hcat]; · iexact Hcat
    isplitl [Hnum]; · iexact Hnum
    isplitl [Hemb]; · iexact Hemb
    isplitl [Hw]; · iexact Hw
    isplitl [Hb]; · iexact Hb
    isplitl [Hcls]; · iexact Hcls
    isplitl [Hout']; · iexact Hout'
    iexact Htail
  icases Hx with ⟨Hto, Hsb, Hss⟩
  isplitl [Hto]; · iexact Hto
  isplitl [Hsb]; · iexact Hsb
  isplitl [Hss]; · iexact Hss
  iexists W'; isplitr
  · ipureintro; exact hW'
  · iexact HO

/-- The task at every grid point, every category word a vocabulary index. -/
theorem tile_body (hF : (K (F := F)).Facts) (A : Arrs F) (hcat : ∀ j, (A.cat j).toNat < 100000) (fo : FVec F S40x64x4096 .f32) :
    TileBody A fo := by
  intro d L O W hO
  refine (body_enter hF A fo d L O W hO).trans ?_
  iintro ⟨Hmw, Hcat, Hnum, Hemb, Hw, Hb, Hcls, Hout, ⟨%f0, H0⟩, ⟨%f1, H1⟩, ⟨%f2, H2⟩, ⟨%f3, H3⟩, ⟨%f4, H4⟩, ⟨%f5, H5⟩, ⟨%f6, H6⟩,
    ⟨%f7, H7⟩, ⟨%f8, H8⟩, ⟨%f9, H9⟩, Htail⟩
  ihave Hout' := (Entails.of_eq (pts_out d L _ _ _)) $$ Hout
  ihave Hrows := (rows_split fo d L) $$ Hout'
  iapply ((tile_run A hcat fo d L O W f0 f1 f2 f3 f4 f5 f6 f7 f8 f9).trans (wp_mono frame _ _ fun _ => exit_conv hF A d L O W))
  unfold tilePre
  isplitl [Hmw]; · iexact Hmw
  isplitl [Hcat]; · iexact Hcat
  isplitl [Hnum]; · iexact Hnum
  isplitl [Hemb]; · iexact Hemb
  isplitl [Hw]; · iexact Hw
  isplitl [Hb]; · iexact Hb
  isplitl [Hcls]; · iexact Hcls
  isplitl [Hrows]; · iexact Hrows
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Htail

end Cert.Proof.KI

end
-- ==== Proof.HostRead.lean ====
/-
  The host operations around the kernel call, each read at an index by coordinates. Before the call the program
  re-lays its arguments: `cat` [4096, 26] is transposed and flattened, so that element `i * 4096 + n` of the flat array
  is `cat[n, i]`; `num` [4096, 13] likewise; the embedding tables [26, 100000, 64] have their last two axes swapped,
  so that element `(i, d, v)` is `emb[i, v, d]`; the weights and biases [13, 64] are flattened row-major, element
  `j * 64 + d` being `w[j, d]`; the class token [1, 1, 64] is flattened to [64]. After the call the result [40, 64, 4096]
  is re-laid to [4096, 40, 64]: element `(n, tok, d)` is the call's `(tok, d, n)`.
  Every statement is for an arbitrary element type and for ANY proof of the shape relation the operation takes.
-/
import Idealize.ShloMosaic.Lib.ValueLayout

noncomputable section

namespace Cert.Proof.Host

open Idealize.ShloMosaic Idealize.ShloMosaic.ValueIdx

abbrev S4096x26 : Shape := ⟨2, ![4096, 26]⟩
abbrev S4096x13 : Shape := ⟨2, ![4096, 13]⟩
abbrev S26x100000x64 : Shape := ⟨3, ![26, 100000, 64]⟩
abbrev S13x64 : Shape := ⟨2, ![13, 64]⟩
abbrev S1x1x64 : Shape := ⟨3, ![1, 1, 64]⟩
abbrev S26x4096 : Shape := ⟨2, ![26, 4096]⟩
abbrev S106496 : Shape := ⟨1, ![106496]⟩
abbrev S13x4096 : Shape := ⟨2, ![13, 4096]⟩
abbrev S53248 : Shape := ⟨1, ![53248]⟩
abbrev S26x64x100000 : Shape := ⟨3, ![26, 64, 100000]⟩
abbrev S832 : Shape := ⟨1, ![832]⟩
abbrev S64 : Shape := ⟨1, ![64]⟩
abbrev S40x64x4096 : Shape := ⟨3, ![40, 64, 4096]⟩
abbrev S4096x40x64 : Shape := ⟨3, ![4096, 40, 64]⟩

variable {α : Type}

/-- `cat` transposed and flattened: element `i * 4096 + n` is `cat[n, i]`. -/
theorem catT_apply (cat : S4096x26.Idx → α) (ht : S4096x26.Transposes [1, 0] S26x4096) (hc : S26x4096.ShapeCasts S106496)
    (i : Fin 26) (n : Fin 4096) (hlt : i.val * 4096 + n.val < 106496) :
    shapeCast S106496 (transpose S26x4096 [1, 0] cat ht) hc (ix1 ⟨i.val * 4096 + n.val, hlt⟩) = cat (ix2 n i) := by
  rw [shapeCast_apply _ hc _ (ix2 i n) (by rw [Shape.rowMajor_val_two, Shape.rowMajor_val_one]; rfl)]
  exact transpose_ix2_apply cat ht i n

/-- The same at any index of the flat array: element `k` is `cat[k % 4096, k / 4096]`. -/
theorem catT_apply_flat (cat : S4096x26.Idx → α) (ht : S4096x26.Transposes [1, 0] S26x4096) (hc : S26x4096.ShapeCasts S106496)
    (k : Fin 106496) :
    shapeCast S106496 (transpose S26x4096 [1, 0] cat ht) hc (ix1 k)
      = cat (ix2 (⟨k.val % 4096, Nat.mod_lt _ (by decide)⟩ : Fin 4096) (⟨k.val / 4096, by have := k.isLt; omega⟩ : Fin 26)) := by
  rw [shapeCast_apply _ hc _ (ix2 (⟨k.val / 4096, by have := k.isLt; omega⟩ : Fin 26) (⟨k.val % 4096, Nat.mod_lt _ (by decide)⟩ : Fin 4096))
    (by rw [Shape.rowMajor_val_two, Shape.rowMajor_val_one]; show k.val / 4096 * 4096 + k.val % 4096 = k.val; omega)]
  exact transpose_ix2_apply cat ht _ _

/-- `num` transposed and flattened: element `j * 4096 + n` is `num[n, j]`. -/
theorem numT_apply (num : S4096x13.Idx → α) (ht : S4096x13.Transposes [1, 0] S13x4096) (hc : S13x4096.ShapeCasts S53248)
    (j : Fin 13) (n : Fin 4096) (hlt : j.val * 4096 + n.val < 53248) :
    shapeCast S53248 (transpose S13x4096 [1, 0] num ht) hc (ix1 ⟨j.val * 4096 + n.val, hlt⟩) = num (ix2 n j) := by
  rw [shapeCast_apply _ hc _ (ix2 j n) (by rw [Shape.rowMajor_val_two, Shape.rowMajor_val_one]; rfl)]
  exact transpose_ix2_apply num ht j n

/-- The same at any index of the flat array: element `k` is `num[k % 4096, k / 4096]`. -/
theorem numT_apply_flat (num : S4096x13.Idx → α) (ht : S4096x13.Transposes [1, 0] S13x4096) (hc : S13x4096.ShapeCasts S53248)
    (k : Fin 53248) :
    shapeCast S53248 (transpose S13x4096 [1, 0] num ht) hc (ix1 k)
      = num (ix2 (⟨k.val % 4096, Nat.mod_lt _ (by decide)⟩ : Fin 4096) (⟨k.val / 4096, by have := k.isLt; omega⟩ : Fin 13)) := by
  rw [shapeCast_apply _ hc _ (ix2 (⟨k.val / 4096, by have := k.isLt; omega⟩ : Fin 13) (⟨k.val % 4096, Nat.mod_lt _ (by decide)⟩ : Fin 4096))
    (by rw [Shape.rowMajor_val_two, Shape.rowMajor_val_one]; show k.val / 4096 * 4096 + k.val % 4096 = k.val; omega)]
  exact transpose_ix2_apply num ht _ _

/-- The embedding tables with their last two axes swapped: element `(i, d, v)` is `emb[i, v, d]`. -/
theorem embT_apply (emb : S26x100000x64.Idx → α) (ht : S26x100000x64.Transposes [0, 2, 1] S26x64x100000)
    (i : Fin 26) (d : Fin 64) (v : Fin 100000) :
    transpose S26x64x100000 [0, 2, 1] emb ht (ix3 i d v) = emb (ix3 i v d) :=
  transpose_ix3_021_apply emb ht i d v

/-- A [13, 64] array flattened row-major: element `j * 64 + d` is `w[j, d]`. -/
theorem flat832_apply (w : S13x64.Idx → α) (hc : S13x64.ShapeCasts S832) (j : Fin 13) (d : Fin 64)
    (hlt : j.val * 64 + d.val < 832) :
    shapeCast S832 w hc (ix1 ⟨j.val * 64 + d.val, hlt⟩) = w (ix2 j d) :=
  shapeCast_apply w hc _ (ix2 j d) (by rw [Shape.rowMajor_val_two, Shape.rowMajor_val_one]; rfl)

/-- The same at any index of the flat array: element `k` is `w[k / 64, k % 64]`. -/
theorem flat832_apply_flat (w : S13x64.Idx → α) (hc : S13x64.ShapeCasts S832) (k : Fin 832) :
    shapeCast S832 w hc (ix1 k)
      = w (ix2 (⟨k.val / 64, by have := k.isLt; omega⟩ : Fin 13) (⟨k.val % 64, Nat.mod_lt _ (by decide)⟩ : Fin 64)) :=
  shapeCast_apply w hc _ _ (by rw [Shape.rowMajor_val_two, Shape.rowMajor_val_one]; show k.val / 64 * 64 + k.val % 64 = k.val; omega)

/-- The class token [1, 1, 64] flattened: element `d` is `cls[0, 0, d]`. -/
theorem flat64_apply (cls : S1x1x64.Idx → α) (hc : S1x1x64.ShapeCasts S64) (d : Fin 64) :
    shapeCast S64 cls hc (ix1 d) = cls (ix3 (0 : Fin 1) (0 : Fin 1) d) :=
  shapeCast_apply cls hc _ (ix3 (0 : Fin 1) (0 : Fin 1) d) (by
    rw [Shape.rowMajor_val_three, Shape.rowMajor_val_one]
    show (0 * 1 + 0) * 64 + d.val = d.val
    omega)

/-- The result re-laid after the call: element `(n, tok, d)` is the call's `(tok, d, n)`. -/
theorem outT_apply (Y : S40x64x4096.Idx → α) (ht : S40x64x4096.Transposes [2, 0, 1] S4096x40x64)
    (n : Fin 4096) (tok : Fin 40) (d : Fin 64) :
    transpose S4096x40x64 [2, 0, 1] Y ht (ix3 n tok d) = Y (ix3 tok d n) :=
  transpose_apply _ Y ht _ _ fun c => match c with | ⟨0, _⟩ => rfl | ⟨1, _⟩ => rfl | ⟨2, _⟩ => rfl

end Cert.Proof.Host

end
-- ==== Proof.PreRange.lean ====
/-
  The precondition's integer range, decoded. The precondition `input_domain` ends in the conjunction, over every
  word of `cat`, of `0 ≤ cat` and `cat ≤ 99999`, both SIGNED comparisons of 32-bit words. When the whole predicate is 1,
  every word of `cat` is, read unsigned, below 100000: a word that is nonnegative as a signed number reads the
  same signed and unsigned, and it is at most 99999.
-/
import proofs.«207382_g17746804867166_cont_8to1_1179_25_alg».proof.Pre_input_domain
import proofs.«207382_g17746804867166_cont_8to1_1179_25_alg».proof.Proof.Gen.Pre_input_domain
import Idealize.ShloMosaic.Lib.ReduceAll
import Idealize.ShloMosaic.Lib.ValueIdx

noncomputable section

namespace Cert.Proof.PreRange

open Idealize.ShloMosaic
open Cert.Pre_input_domain

/-- The rank-0 shape has one index. -/
instance : Subsingleton S_.Idx := ⟨fun a b => funext fun d => d.elim0⟩

/-- A 32-bit word between 0 and 99999 as a signed number is below 100000 as an unsigned one. -/
theorem toNat_lt_of_signed_range (v : BitVec 32)
    (h0 : IntOp.cmpi .sge v 0#32 = 1#1) (h1 : IntOp.cmpi .sle v 99999#32 = 1#1) : v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  rw [BitVec.toInt_eq_toNat_cond] at h0 h1
  have := v.isLt
  split at h0 <;> omega

/-- THE PRECONDITION DECODED: when `input_domain` holds, every word of `cat` names a row of a 100000-row table. -/
theorem cat_range {F : FTy → Type} [FloatOps F]
    (a0 : IVec S4096x26 32) (a1 : FVec F S4096x13 .f32) (a2 : FVec F S26x100000x64 .f32)
    (a3 : FVec F S13x64 .f32) (a4 : FVec F S13x64 .f32) (a5 : FVec F S1x1x64 .f32)
    (h : Cert.Pre_input_domain.fn (F := F) a0 a1 a2 a3 a4 a5 = fun _ => 1#1) :
    ∀ idx : S4096x26.Idx, (a0 idx).toNat < 100000 := by
  intro idx
  have e := congrFun h ValueIdx.ix0
  dsimp only [Cert.Pre_input_domain.fn, Cert.Pre_input_domain.fn_part1] at e
  -- the last conjunct of the chain of ands is the conjunction over all of `cat`
  have e29 := (IntOp.andi_eq_one.1 e).2
  have e28 := Host.reduce_andi_all _ _ _ _ _ e29 idx
  obtain ⟨h0, h1⟩ := IntOp.andi_eq_one.1 e28
  exact toNat_lt_of_signed_range (a0 idx) h0 h1

end Cert.Proof.PreRange

end
-- ==== Proof.KI.PreCat.lean ====
/-
  The category words the call reads are vocabulary indices. The first operand array of the call is the category
  argument transposed and flattened: its element `k` is the argument's element `(k % 4096, k / 4096)`. The
  precondition makes every word of the argument, read unsigned, less than 100000; so is every word of the operand.
-/
import proofs.«207382_g17746804867166_cont_8to1_1179_25_alg».proof.Proof.KI.LaunchHost
import proofs.«207382_g17746804867166_cont_8to1_1179_25_alg».proof.Proof.HostRead
import proofs.«207382_g17746804867166_cont_8to1_1179_25_alg».proof.Proof.PreRange

noncomputable section

namespace Cert.Proof.KI

open Cert.KernelIdeal Cert.KernelIdeal.Gen

open Idealize.ShloMosaic

variable {F : FTy → Type} [FloatOps F]

/-- Under the precondition, every word of the call's category operand is below 100000. -/
theorem apre_cat_range [hPre_input_domain : Cert.Pre_input_domain.Facts] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1))
    (d : Dev nD) : ∀ j, ((Apre m d).cat j).toNat < 100000 := by
  intro j
  obtain ⟨k, rfl⟩ : ∃ k : Fin 106496, j = ValueIdx.ix1 k := ⟨j 0, ValueIdx.eq_ix1 j⟩
  have hr := Cert.Proof.PreRange.cat_range (F := F) _ _ _ _ _ _ (h d)
  have e := Cert.Proof.Host.catT_apply_flat (m ((SparseCore.T d).loc main_arg0)) transposes_S4096x26_S26x4096_1_0 shapeCasts_S26x4096_S106496 k
  exact lt_of_eq_of_lt (congrArg BitVec.toNat e) (hr _)

end Cert.Proof.KI

end
-- ==== Proof.KB.Iface.lean ====
/-
  The tokenizer kernel's task, as assertions. A vector subcore with number `w = 2·subcore + core` (32 of them)
  fills the two feature rows `2w` and `2w+1` of every token of the transposed result `outT : [40, 64, 4096]`:
  token 0 is the class vector, tokens 1..26 the embedding columns gathered at the batch's category words, tokens
  27..39 the numeric columns times their weight plus their bias. It READS the six operand arrays whole (a read
  share each) and OWNS its two rows of every token of `outT`.
-/
import proofs.«207382_g17746804867166_cont_8to1_1179_25_alg».proof.Kernel
import proofs.«207382_g17746804867166_cont_8to1_1179_25_alg».proof.Proof.Gen.Kernel
import Idealize.ShloMosaic.Lib.SparseCore.Launch
import Idealize.ShloMosaic.Lib.Pipeline.Kit
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

/-- The six operand arrays and the result array of the call, as locations of device `d`. -/
abbrev catL (d : Dev nD) : Loc nD τ sig := (SparseCore.T d).loc main_v1
abbrev numL (d : Dev nD) : Loc nD τ sig := (SparseCore.T d).loc main_v3
abbrev embL (d : Dev nD) : Loc nD τ sig := (SparseCore.T d).loc main_v4
abbrev wL (d : Dev nD) : Loc nD τ sig := (SparseCore.T d).loc main_v5
abbrev bL (d : Dev nD) : Loc nD τ sig := (SparseCore.T d).loc main_v6
abbrev clsL (d : Dev nD) : Loc nD τ sig := (SparseCore.T d).loc main_v7
abbrev outL (d : Dev nD) : Loc nD τ sig := (SparseCore.T d).loc main_v8

/-- The contents of the six operand arrays: the category words flattened column by column, the numeric values
    likewise, the embedding tables with the vocabulary axis last, the weights, biases and class vector flat. -/
structure Arrs (F : FTy → Type) where
  cat : IVec S106496 32
  num : FVec F S53248 .f32
  emb : FVec F S26x64x100000 .f32
  w : FVec F S832 .f32
  b : FVec F S832 .f32
  cls : FVec F S64 .f32

/-- A category word as a vocabulary index (any word out of range reads entry 0: the precondition excludes it). -/
def vocab (v : BitVec 32) : Fin 100000 := if h : v.toNat < 100000 then ⟨v.toNat, h⟩ else ⟨0, by decide⟩

/-- Entry `(tok, r, n)` of the transposed result: the class vector's entry `r` for token 0; for token `1 + i`
    (`i < 26`) entry `(i, r, cat[i·4096 + n])` of the tables; for token `27 + j` the numeric value `num[j·4096 + n]`
    times `w[64 j + r]` plus `b[64 j + r]`. -/
def GT [FloatOps F] (A : Arrs F) : FVec F S40x64x4096 .f32 := fun x =>
  if h0 : (x 0).val = 0 then A.cls (ValueIdx.ix1 ⟨(x 1).val, (x 1).isLt⟩)
  else if h1 : (x 0).val ≤ 26 then
    A.emb (ValueIdx.ix3 (⟨(x 0).val - 1, by omega⟩ : Fin 26) (⟨(x 1).val, (x 1).isLt⟩ : Fin 64)
      (vocab (A.cat (ValueIdx.ix1 (⟨((x 0).val - 1) * 4096 + (x 2).val, by have := (x 2).isLt; simp at this; omega⟩ : Fin 106496)))))
  else
    FloatOps.addf
      (FloatOps.mulf (A.num (ValueIdx.ix1 (⟨((x 0).val - 27) * 4096 + (x 2).val, by have := (x 0).isLt; have := (x 2).isLt; simp at *; omega⟩ : Fin 53248)))
        (A.w (ValueIdx.ix1 (⟨((x 0).val - 27) * 64 + (x 1).val, by have := (x 0).isLt; have := (x 1).isLt; simp at *; omega⟩ : Fin 832))))
      (A.b (ValueIdx.ix1 (⟨((x 0).val - 27) * 64 + (x 1).val, by have := (x 0).isLt; have := (x 1).isLt; simp at *; omega⟩ : Fin 832)))

/-- The two feature rows `2w`, `2w+1` of every token: what task `w` writes. -/
def oSet (w : Fin 32) : Finset S40x64x4096.Idx := Finset.univ.filter fun x => (x 1).val / 2 = w.val

/-- The task's number from its SparseCore and vector subcore: `2·subcore + core`. -/
def widOf (c : Fin 2) (i : Fin 16) : Fin 32 := ⟨i.val * 2 + c.val, by omega⟩

/-- A task's read share of an operand array. -/
abbrev rsh (w : Fin 32) : PosShare TreeShare := Transfers.shareTok fullShare 32 w

variable [FloatOps F]

/-- What task `w` on device `d` is handed: a read share of each operand array at `A`, and its rows of the result
    array at `fo` (what the array held before the call). -/
def tileIn (A : Arrs F) (fo : FVec F S40x64x4096 .f32) (d : Dev nD) (w : Fin 32) : sProp 𝕄 :=
  iprop((catL d ↦{rsh w} (A.cat : Buf (Elt F) (catL d))) ∗ (numL d ↦{rsh w} (A.num : Buf (Elt F) (numL d)))
    ∗ (embL d ↦{rsh w} (A.emb : Buf (Elt F) (embL d))) ∗ (wL d ↦{rsh w} (A.w : Buf (Elt F) (wL d)))
    ∗ (bL d ↦{rsh w} (A.b : Buf (Elt F) (bL d))) ∗ (clsL d ↦{rsh w} (A.cls : Buf (Elt F) (clsL d)))
    ∗ (outL d ↦[oSet w]{fullShare} (fo : Buf (Elt F) (outL d))))

/-- What it hands back: the read shares, and its rows of the result array at `GT A`. -/
def tileOut (A : Arrs F) (d : Dev nD) (w : Fin 32) : sProp 𝕄 :=
  iprop((catL d ↦{rsh w} (A.cat : Buf (Elt F) (catL d))) ∗ (numL d ↦{rsh w} (A.num : Buf (Elt F) (numL d)))
    ∗ (embL d ↦{rsh w} (A.emb : Buf (Elt F) (embL d))) ∗ (wL d ↦{rsh w} (A.w : Buf (Elt F) (wL d)))
    ∗ (bL d ↦{rsh w} (A.b : Buf (Elt F) (bL d))) ∗ (clsL d ↦{rsh w} (A.cls : Buf (Elt F) (clsL d)))
    ∗ (outL d ↦[oSet w]{fullShare} (GT A : Buf (Elt F) (outL d))))

/-- The one call's payloads: a SparseCore is handed its sixteen tasks' operands and hands back their results; the
    tasks' proofs consume nothing of the launch's. -/
def P (A : Dev nD → Arrs F) (fo : Dev nD → FVec F S40x64x4096 .f32) : (K (F := F)).Pay (nD := nD) (Val := Elt F) (Name := ℕ) (U := UU) where
  st := fun q d c => match q with | 0 => bigSep Finset.univ fun i : Fin ((K (F := F)).nSub 0) => tileIn (A d) (fo d) d (widOf (Fin.cast nCore_zero c) (Fin.cast nSub_zero i))
  dn := fun q d c => match q with | 0 => bigSep Finset.univ fun i : Fin ((K (F := F)).nSub 0) => tileOut (A d) d (widOf (Fin.cast nCore_zero c) (Fin.cast nSub_zero i))
  go := fun q d c i => match q with | 0 => tileIn (A d) (fo d) d (widOf (Fin.cast nCore_zero c) (Fin.cast nSub_zero i))
  td := fun q d c i => match q with | 0 => tileOut (A d) d (widOf (Fin.cast nCore_zero c) (Fin.cast nSub_zero i))
  x := fun _ _ => iprop(emp)

/-! ## The task's program and its obligation -/

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

abbrev cV (L : grid0.Coords) : Fin τ.nSC := (L 0).castLE hcore0
abbrev jV (L : grid0.Coords) : Fin τ.nSub := (L 1).castLE hsub0
/-- The task's number at grid point `L`. -/
def widL (L : grid0.Coords) : Fin 32 := widOf (Fin.cast bound_zero (L 0)) (Fin.cast bound_one (L 1))

/-- The kernel function at grid point `L`, on the whole arrays and the subcore's scratch, as the body table calls it. -/
abbrev kern (L : grid0.Coords) := cc0__tokenize (F := F) L (Memref.whole main_v1_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54

/-- The task at every grid point: from its operands and the subcore's scoped storage to its results, every category
    word a vocabulary index. -/
def TileBody (A : Arrs F) (fo : FVec F S40x64x4096 .f32) : Prop :=
  ∀ (d : Dev nD) (L : grid0.Coords) (O : CellTallies nD τ sig (HIx 1)) (W : Waits sig (HIx 1)), (∀ g, O g none = 0) →
    iprop(levAts (K (F := F)).L (K (F := F)).lev ∗ emp ∗ tileIn A fo d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kern (F := F) L)
          fun _ => iprop(tileOut A d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KB.Launch.lean ====
/-
  The launch of the tokenizer call, first part: the facts the launch theorem asks of the four handshake semaphores
  and the signature; the call's payloads field by field; that they can be stored inside the handshakes' cells; how
  a SparseCore's payload is, by definition, its sixteen tasks' payloads side by side; and the launch element of the
  ghost state, which is the handshakes' rounds alone (the transfers' counters are dropped: the tasks need no schedule).
-/
import proofs.«207382_g17746804867166_cont_8to1_1179_25_alg».proof.Proof.KB.Iface
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The facts of the launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## The payloads, field by field -/

variable (A : Dev nD → Arrs F) (fo : Dev nD → FVec F S40x64x4096 .f32)

theorem P_st (d : Dev nD) (c : Fin ((K (F := F)).nCore 0)) :
    (P A fo).st 0 d c = bigSep Finset.univ fun i : Fin ((K (F := F)).nSub 0) => tileIn (A d) (fo d) d (widOf (Fin.cast nCore_zero c) (Fin.cast nSub_zero i)) := rfl
theorem P_dn (d : Dev nD) (c : Fin ((K (F := F)).nCore 0)) :
    (P A fo).dn 0 d c = bigSep Finset.univ fun i : Fin ((K (F := F)).nSub 0) => tileOut (A d) d (widOf (Fin.cast nCore_zero c) (Fin.cast nSub_zero i)) := rfl
theorem P_go (d : Dev nD) (c : Fin ((K (F := F)).nCore 0)) (i : Fin ((K (F := F)).nSub 0)) :
    (P A fo).go 0 d c i = tileIn (A d) (fo d) d (widOf (Fin.cast nCore_zero c) (Fin.cast nSub_zero i)) := rfl
theorem P_td (d : Dev nD) (c : Fin ((K (F := F)).nCore 0)) (i : Fin ((K (F := F)).nSub 0)) :
    (P A fo).td 0 d c i = tileOut (A d) d (widOf (Fin.cast nCore_zero c) (Fin.cast nSub_zero i)) := rfl
theorem P_x (q : Fin 1) (thr : Thread nD τ) : (P A fo).x q thr = iprop(emp) := rfl
theorem P_ox : (P A fo).ox = fun _ _ => 0 := rfl

/-! ## They are storable -/

instance tileIn_storable (a : Arrs F) (f : FVec F S40x64x4096 .f32) (d : Dev nD) (w : Fin 32) :
    BI.Storable (upEmb : UEmb _ 𝕄) (tileIn a f d w) := by unfold tileIn; infer_instance
instance tileOut_storable (a : Arrs F) (d : Dev nD) (w : Fin 32) :
    BI.Storable (upEmb : UEmb _ 𝕄) (tileOut a d w) := by unfold tileOut; infer_instance

instance P_storable : (P A fo).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## A SparseCore's payload is its tasks' -/

theorem vecSplit : (K (F := F)).VecSplit' (P A fo) 0 := by
  intro d c
  rw [P_st, P_dn]
  simp only [P_go, P_td]
  iintro H; imodintro
  isplitl [H]; · iexact H
  iintro H; iexact H

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A fo).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KB.LaunchTile.lean ====
/-
  The launch of the tokenizer call, second part: the task's obligation as the launch theorem states it, from the
  task's proof at a symbolic grid point. The body table's entry for a vector subcore is the kernel function at the
  grid point of that subcore's coordinates; the grid point's task number and thread are the call's own by unfolding.
-/
import proofs.«207382_g17746804867166_cont_8to1_1179_25_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (A : Dev nD → Arrs F) (fo : Dev nD → FVec F S40x64x4096 .f32)

/-- The body table on a vector subcore: the kernel function at the subcore's grid point, inside the grid. -/
theorem defs₀_vector (c : Fin τ.nSC) (s : Fin τ.nSub) :
    defs₀ (F := F) (.scVector c s) 0 () = SparseCore.onTile hcore0 hsub0 (fun c s => kern (F := F) (coordsV c s)) ⟨⟩ c s := rfl

omit [FloatOps F] in
/-- The recorded waits a task leaves are among those the launch theorem admits. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task number at the grid point of SparseCore `c`, subcore `i` of the call's grid is `2 i + c`. -/
theorem widL_grid (c : Fin ((K (F := F)).nCore 0)) (i : Fin ((K (F := F)).nSub 0))
    (hc : ((K (F := F)).core 0 c).val < grid0.bound 0) (hi : ((K (F := F)).sub 0 i).val < grid0.bound 1) :
    widL (coordsV ⟨((K (F := F)).core 0 c).val, hc⟩ ⟨((K (F := F)).sub 0 i).val, hi⟩) = widOf (Fin.cast nCore_zero c) (Fin.cast nSub_zero i) := rfl

theorem tileObl (hbody : ∀ d, TileBody (A d) (fo d)) : (K (F := F)).TileObl (D (F := F)) 𝒱 (P A fo) v₀ 0 := by
  intro d c i O W hO _ _
  -- the tasks owe nothing for a protocol of their own
  simp only [P_ox, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [← widL_grid c i hc.1 hc.2]
  exact (hbody d d (coordsV ⟨_, hc.1⟩ ⟨_, hc.2⟩) O W hO).trans (wp_mono frame _ _ fun _ => obl_post)

end Cert.Proof.KB

end
-- ==== Proof.KB.LaunchSplit.lean ====
/-
  The launch of the tokenizer call, third part: how the TensorCore's whole arrays become the thirty-two tasks'
  payloads and come back. Each operand array is read by every task at once, so it goes out as thirty-two read
  shares, the remainder staying behind; the result array goes out as the thirty-two pairs of feature rows, which are
  pairwise disjoint and cover it; and a family over the task numbers is the same family over SparseCore and subcore,
  the number `2 i + c` running through `0 … 31` exactly once.
-/
import proofs.«207382_g17746804867166_cont_8to1_1179_25_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Task numbers: `(c, i) ↦ 2 i + c` is a bijection onto `Fin 32` -/

theorem widOf_injective : Function.Injective fun p : Fin 2 × Fin 16 => widOf p.1 p.2 := by
  rintro ⟨c, i⟩ ⟨c', i'⟩ h
  have h' : i.val * 2 + c.val = i'.val * 2 + c'.val := congrArg Fin.val h
  have hc := c.isLt; have hc' := c'.isLt
  have h1 : c = c' := Fin.ext (by omega)
  have h2 : i = i' := Fin.ext (by omega)
  rw [h1, h2]

theorem widOf_image : (Finset.univ : Finset (Fin 32)) = (Finset.univ : Finset (Fin 2 × Fin 16)).image fun p => widOf p.1 p.2 := by
  ext w
  simp only [Finset.mem_univ, Finset.mem_image, true_and, true_iff]
  have hw := w.isLt
  exact ⟨(⟨w.val % 2, by omega⟩, ⟨w.val / 2, by omega⟩), Fin.ext (show w.val / 2 * 2 + w.val % 2 = w.val by omega)⟩

/-- A family over the task numbers, regrouped by SparseCore and subcore. -/
theorem bigSep_wid {M : Type} [URA M] (Φ : Fin 32 → sProp M) :
    bigSep Finset.univ Φ = bigSep Finset.univ fun c : Fin 2 => bigSep Finset.univ fun i : Fin 16 => Φ (widOf c i) := by
  rw [widOf_image, SparseCore.bigSep_image_of_injOn widOf_injective.injOn, ← Finset.univ_product_univ, SparseCore.bigSep_product]

/-- The call's grid is `2 × 16`. -/
theorem bigSep_grid (Φ : Fin 2 → Fin 16 → sProp 𝕄) :
    (bigSep Finset.univ fun c : Fin ((K (F := F)).nCore 0) => bigSep Finset.univ fun i : Fin ((K (F := F)).nSub 0) => Φ (Fin.cast nCore_zero c) (Fin.cast nSub_zero i))
      = bigSep Finset.univ fun c : Fin 2 => bigSep Finset.univ fun i : Fin 16 => Φ c i :=
  bigSep_congr fun _ _ => bigSep_congr fun _ _ => congrArg₂ Φ (Fin.ext rfl) (Fin.ext rfl)

/-! ## The result array's rows -/

theorem oSet_disjoint : ∀ w ∈ (Finset.univ : Finset (Fin 32)), ∀ w' ∈ (Finset.univ : Finset (Fin 32)), w ≠ w' → Disjoint (oSet w) (oSet w') := by
  intro w _ w' _ h
  rw [Finset.disjoint_left]
  intro x hx hx'
  simp only [oSet, Finset.mem_filter, Finset.mem_univ, true_and] at hx hx'
  exact h (Fin.ext (hx.symm.trans hx'))

theorem oSet_cover : (Finset.univ : Finset (Fin 32)).biUnion oSet = Finset.univ := by
  ext x
  simp only [Finset.mem_biUnion, Finset.mem_univ, true_and, iff_true]
  have hx : (x 1).val < 64 := (x 1).isLt
  exact ⟨⟨(x 1).val / 2, by omega⟩, by simp only [oSet, Finset.mem_filter, Finset.mem_univ, true_and]⟩

/-- The result array whole is its thirty-two pairs of rows. -/
theorem out_rows (d : Dev nD) (f : Buf (Elt F) (outL d)) :
    (outL d ↦{fullShare} f : sProp 𝕄) = bigSep Finset.univ fun w : Fin 32 => outL d ↦[oSet w]{fullShare} f := by
  rw [← pointsTo_biUnion Finset.univ (ℓ := outL d) oSet oSet_disjoint, oSet_cover]; try rfl

variable [FloatOps F]

/-! ## From the whole arrays to the tasks' payloads and back -/

/-- What stays with the TensorCore across the call: the remainder of each operand array's share. -/
def kept (a : Arrs F) (d : Dev nD) : sProp 𝕄 :=
  iprop((catL d ↦{Transfers.shareDrop fullShare 32} (a.cat : Buf (Elt F) (catL d))) ∗ (numL d ↦{Transfers.shareDrop fullShare 32} (a.num : Buf (Elt F) (numL d)))
    ∗ (embL d ↦{Transfers.shareDrop fullShare 32} (a.emb : Buf (Elt F) (embL d))) ∗ (wL d ↦{Transfers.shareDrop fullShare 32} (a.w : Buf (Elt F) (wL d)))
    ∗ (bL d ↦{Transfers.shareDrop fullShare 32} (a.b : Buf (Elt F) (bL d))) ∗ (clsL d ↦{Transfers.shareDrop fullShare 32} (a.cls : Buf (Elt F) (clsL d))))

/-- The seven arrays whole, the operands at `a`, the result array at `f`. -/
def whole (a : Arrs F) (f : FVec F S40x64x4096 .f32) (d : Dev nD) : sProp 𝕄 :=
  iprop((catL d ↦{fullShare} (a.cat : Buf (Elt F) (catL d))) ∗ (numL d ↦{fullShare} (a.num : Buf (Elt F) (numL d)))
    ∗ (embL d ↦{fullShare} (a.emb : Buf (Elt F) (embL d))) ∗ (wL d ↦{fullShare} (a.w : Buf (Elt F) (wL d)))
    ∗ (bL d ↦{fullShare} (a.b : Buf (Elt F) (bL d))) ∗ (clsL d ↦{fullShare} (a.cls : Buf (Elt F) (clsL d)))
    ∗ (outL d ↦{fullShare} (f : Buf (Elt F) (outL d))))

theorem tiles_in (a : Arrs F) (f : FVec F S40x64x4096 .f32) (d : Dev nD) :
    (bigSep Finset.univ fun w : Fin 32 => tileIn a f d w)
      = iprop((bigSep Finset.univ fun w : Fin 32 => catL d ↦{rsh w} (a.cat : Buf (Elt F) (catL d))) ∗ (bigSep Finset.univ fun w : Fin 32 => numL d ↦{rsh w} (a.num : Buf (Elt F) (numL d)))
        ∗ (bigSep Finset.univ fun w : Fin 32 => embL d ↦{rsh w} (a.emb : Buf (Elt F) (embL d))) ∗ (bigSep Finset.univ fun w : Fin 32 => wL d ↦{rsh w} (a.w : Buf (Elt F) (wL d)))
        ∗ (bigSep Finset.univ fun w : Fin 32 => bL d ↦{rsh w} (a.b : Buf (Elt F) (bL d))) ∗ (bigSep Finset.univ fun w : Fin 32 => clsL d ↦{rsh w} (a.cls : Buf (Elt F) (clsL d)))
        ∗ (bigSep Finset.univ fun w : Fin 32 => outL d ↦[oSet w]{fullShare} (f : Buf (Elt F) (outL d)))) := by
  unfold tileIn
  rw [bigSep_sep', bigSep_sep', bigSep_sep', bigSep_sep', bigSep_sep', bigSep_sep']

theorem tiles_out (a : Arrs F) (d : Dev nD) :
    (bigSep Finset.univ fun w : Fin 32 => tileOut a d w)
      = iprop((bigSep Finset.univ fun w : Fin 32 => catL d ↦{rsh w} (a.cat : Buf (Elt F) (catL d))) ∗ (bigSep Finset.univ fun w : Fin 32 => numL d ↦{rsh w} (a.num : Buf (Elt F) (numL d)))
        ∗ (bigSep Finset.univ fun w : Fin 32 => embL d ↦{rsh w} (a.emb : Buf (Elt F) (embL d))) ∗ (bigSep Finset.univ fun w : Fin 32 => wL d ↦{rsh w} (a.w : Buf (Elt F) (wL d)))
        ∗ (bigSep Finset.univ fun w : Fin 32 => bL d ↦{rsh w} (a.b : Buf (Elt F) (bL d))) ∗ (bigSep Finset.univ fun w : Fin 32 => clsL d ↦{rsh w} (a.cls : Buf (Elt F) (clsL d)))
        ∗ (bigSep Finset.univ fun w : Fin 32 => outL d ↦[oSet w]{fullShare} (GT a : Buf (Elt F) (outL d)))) := by
  unfold tileOut
  rw [bigSep_sep', bigSep_sep', bigSep_sep', bigSep_sep', bigSep_sep', bigSep_sep']

/-- Out: every operand array split into its read shares, the result array into its rows. -/
theorem split_all (a : Arrs F) (f : FVec F S40x64x4096 .f32) (d : Dev nD) :
    whole a f d ⊢ iprop(kept a d ∗ bigSep Finset.univ fun w : Fin 32 => tileIn a f d w) := by
  rw [tiles_in]; unfold whole kept
  rw [out_rows]
  iintro ⟨H1, H2, H3, H4, H5, H6, H7⟩
  ihave H1 := (Transfers.pointsTo_toks_split fullShare 32) $$ H1
  ihave H2 := (Transfers.pointsTo_toks_split fullShare 32) $$ H2
  ihave H3 := (Transfers.pointsTo_toks_split fullShare 32) $$ H3
  ihave H4 := (Transfers.pointsTo_toks_split fullShare 32) $$ H4
  ihave H5 := (Transfers.pointsTo_toks_split fullShare 32) $$ H5
  ihave H6 := (Transfers.pointsTo_toks_split fullShare 32) $$ H6
  icases H1 with ⟨K1, T1⟩; icases H2 with ⟨K2, T2⟩; icases H3 with ⟨K3, T3⟩
  icases H4 with ⟨K4, T4⟩; icases H5 with ⟨K5, T5⟩; icases H6 with ⟨K6, T6⟩
  isplitl [K1 K2 K3 K4 K5 K6]
  · isplitl [K1]; · iexact K1
    isplitl [K2]; · iexact K2
    isplitl [K3]; · iexact K3
    isplitl [K4]; · iexact K4
    isplitl [K5]; · iexact K5
    iexact K6
  isplitl [T1]; · iexact T1
  isplitl [T2]; · iexact T2
  isplitl [T3]; · iexact T3
  isplitl [T4]; · iexact T4
  isplitl [T5]; · iexact T5
  isplitl [T6]; · iexact T6
  iexact H7

/-- Back: the read shares rejoin their remainders, the rows — all at the one function `GT a` — the result array. -/
theorem join_all (a : Arrs F) (d : Dev nD) :
    iprop(kept a d ∗ bigSep Finset.univ fun w : Fin 32 => tileOut a d w) ⊢ whole a (GT a) d := by
  rw [tiles_out]; unfold whole kept
  rw [out_rows]
  iintro ⟨⟨K1, K2, K3, K4, K5, K6⟩, T1, T2, T3, T4, T5, T6, H7⟩
  isplitl [K1 T1]
  · iapply (Transfers.pointsTo_toks_join fullShare 32); isplitl [K1] <;> iassumption
  isplitl [K2 T2]
  · iapply (Transfers.pointsTo_toks_join fullShare 32); isplitl [K2] <;> iassumption
  isplitl [K3 T3]
  · iapply (Transfers.pointsTo_toks_join fullShare 32); isplitl [K3] <;> iassumption
  isplitl [K4 T4]
  · iapply (Transfers.pointsTo_toks_join fullShare 32); isplitl [K4] <;> iassumption
  isplitl [K5 T5]
  · iapply (Transfers.pointsTo_toks_join fullShare 32); isplitl [K5] <;> iassumption
  isplitl [K6 T6]
  · iapply (Transfers.pointsTo_toks_join fullShare 32); isplitl [K6] <;> iassumption
  iexact H7

/-! ## The call's payloads are the tasks' -/

variable (A : Dev nD → Arrs F) (fo : Dev nD → FVec F S40x64x4096 .f32)

theorem st0_eq (d : Dev nD) :
    (bigSep Finset.univ fun c : Fin ((K (F := F)).nCore 0) => (P A fo).st 0 d c) = bigSep Finset.univ fun w : Fin 32 => tileIn (A d) (fo d) d w := by
  simp only [P_st]
  rw [bigSep_wid, bigSep_grid (F := F) fun c i => tileIn (A d) (fo d) d (widOf c i)]

theorem dn0_eq (d : Dev nD) :
    (bigSep Finset.univ fun c : Fin ((K (F := F)).nCore 0) => (P A fo).dn 0 d c) = bigSep Finset.univ fun w : Fin 32 => tileOut (A d) d w := by
  simp only [P_dn]
  rw [bigSep_wid, bigSep_grid (F := F) fun c i => tileOut (A d) d (widOf c i)]

end Cert.Proof.KB

end
-- ==== Proof.KB.LaunchHost.lean ====
/-
  The launch of the tokenizer call, fourth part: @main's host operations. Eight of them — two transposes each followed
  by a flattening, one transpose of the tables, three flattenings — fill the six operand arrays from the six argument
  arrays before the call; one transpose fills the result from the call's result array after it. Each operand array's
  contents before the call is the operation's own function applied to the argument array's launch contents; no
  operation writes an argument array or the call's result array.
-/
import proofs.«207382_g17746804867166_cont_8to1_1179_25_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after seq)

variable [FloatOps F]

/-! ## The contents of the operand arrays before the call, and of the result after it -/

variable (m : (ℓ : Loc nD τ sig) → Buf (Elt F) ℓ)

/-- The six operand arrays after the host operations: each printed operation's function at the argument's launch contents. -/
def Apre (d : Dev nD) : Arrs F where
  cat := shapeCast S106496 (transpose S26x4096 [1, 0] (m ((SparseCore.T d).loc main_arg0)) transposes_S4096x26_S26x4096_1_0) shapeCasts_S26x4096_S106496
  num := shapeCast S53248 (transpose S13x4096 [1, 0] (m ((SparseCore.T d).loc main_arg1)) transposes_S4096x13_S13x4096_1_0) shapeCasts_S13x4096_S53248
  emb := transpose S26x64x100000 [0, 2, 1] (m ((SparseCore.T d).loc main_arg2)) transposes_S26x100000x64_S26x64x100000_0_2_1
  w := shapeCast S832 (m ((SparseCore.T d).loc main_arg3)) shapeCasts_S13x64_S832
  b := shapeCast S832 (m ((SparseCore.T d).loc main_arg4)) shapeCasts_S13x64_S832
  cls := shapeCast S64 (m ((SparseCore.T d).loc main_arg5)) shapeCasts_S1x1x64_S64

/-- What the call's result array holds at launch. -/
def fo₀ (d : Dev nD) : FVec F S40x64x4096 .f32 := m (outL d)

/-- The program's result: the call's result `GT` of those operands, tokens and features behind the batch axis. -/
def outFinal (d : Dev nD) : FVec F S4096x40x64 .f32 :=
  transpose S4096x40x64 [2, 0, 1] (GT (Apre m d)) transposes_S40x64x4096_S4096x40x64_2_0_1

/-! ## The operations -/

abbrev op1 : HloOp τ sig (Elt F) := StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev op2 : HloOp τ sig (Elt F) := StableHlo.reshape main_v0 main_v1 rfl shapeCasts_S26x4096_S106496
abbrev op3 : HloOp τ sig (Elt F) := StableHlo.unary main_arg1 main_v2 ((transpose S13x4096 [1, 0] · transposes_S4096x13_S13x4096_1_0) : (⟨S4096x13, .f32⟩ : BufTy).Contents (Elt F) → (⟨S13x4096, .f32⟩ : BufTy).Contents (Elt F))
abbrev op4 : HloOp τ sig (Elt F) := StableHlo.reshape main_v2 main_v3 rfl shapeCasts_S13x4096_S53248
abbrev op5 : HloOp τ sig (Elt F) := StableHlo.unary main_arg2 main_v4 ((transpose S26x64x100000 [0, 2, 1] · transposes_S26x100000x64_S26x64x100000_0_2_1) : (⟨S26x100000x64, .f32⟩ : BufTy).Contents (Elt F) → (⟨S26x64x100000, .f32⟩ : BufTy).Contents (Elt F))
abbrev op6 : HloOp τ sig (Elt F) := StableHlo.reshape main_arg3 main_v5 rfl shapeCasts_S13x64_S832
abbrev op7 : HloOp τ sig (Elt F) := StableHlo.reshape main_arg4 main_v6 rfl shapeCasts_S13x64_S832
abbrev op8 : HloOp τ sig (Elt F) := StableHlo.reshape main_arg5 main_v7 rfl shapeCasts_S1x1x64_S64
abbrev op9 : HloOp τ sig (Elt F) := StableHlo.unary main_v8 main_v9 ((transpose S4096x40x64 [2, 0, 1] · transposes_S40x64x4096_S4096x40x64_2_0_1) : (⟨S40x64x4096, .f32⟩ : BufTy).Contents (Elt F) → (⟨S4096x40x64, .f32⟩ : BufTy).Contents (Elt F))

/-- The operations before the call, in order. -/
def ops8 : List (HloOp τ sig (Elt F)) := [op1, op2, op3, op4, op5, op6, op7, op8]

/-- The call and what follows it. -/
def tailP (d : Dev nD) : Prog (TpuEff nD τ sig (Elt F) (SparseCore.Sig (ΛP (F := F)) 1) .tc) PUnit := do
  (K (F := F)).run d 0
  hlo rfl (op9 (F := F)) (fun _ => .ret ⟨⟩)
  pure ⟨⟩

/-- @main is the eight operations, then the call and the last operation. -/
theorem main_eq (d : Dev nD) : main (F := F) d = (seq (ops8 (F := F)) >>= fun _ => tailP d) := rfl

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

/-- The launch contents of device `d`'s arrays, and their contents after the eight operations. -/
def V0 (d : Dev nD) : Valuation τ sig (Elt F) := fun b => m (d, b)
def V8 (d : Dev nD) : Valuation τ sig (Elt F) := after (ops8 (F := F)) (V0 m d)

theorem V8_v1 (d : Dev nD) : V8 m d v1' = (Apre m d).cat := by
  unfold V8 ops8; after_results; rfl
theorem V8_v3 (d : Dev nD) : V8 m d v3' = (Apre m d).num := by
  unfold V8 ops8; after_results; rfl
theorem V8_v4 (d : Dev nD) : V8 m d v4' = (Apre m d).emb := by
  unfold V8 ops8; after_results; rfl
theorem V8_v5 (d : Dev nD) : V8 m d v5' = (Apre m d).w := by
  unfold V8 ops8; after_results; rfl
theorem V8_v6 (d : Dev nD) : V8 m d v6' = (Apre m d).b := by
  unfold V8 ops8; after_results; rfl
theorem V8_v7 (d : Dev nD) : V8 m d v7' = (Apre m d).cls := by
  unfold V8 ops8; after_results; rfl
theorem V8_v8 (d : Dev nD) : V8 m d v8' = fo₀ m d := by
  unfold V8 ops8; after_results; rfl
theorem V8_a0 (d : Dev nD) : V8 m d a0' = m ((SparseCore.T d).loc main_arg0) := by
  unfold V8 ops8; after_results; rfl
theorem V8_a1 (d : Dev nD) : V8 m d a1' = m ((SparseCore.T d).loc main_arg1) := by
  unfold V8 ops8; after_results; rfl
theorem V8_a2 (d : Dev nD) : V8 m d a2' = m ((SparseCore.T d).loc main_arg2) := by
  unfold V8 ops8; after_results; rfl
theorem V8_a3 (d : Dev nD) : V8 m d a3' = m ((SparseCore.T d).loc main_arg3) := by
  unfold V8 ops8; after_results; rfl
theorem V8_a4 (d : Dev nD) : V8 m d a4' = m ((SparseCore.T d).loc main_arg4) := by
  unfold V8 ops8; after_results; rfl
theorem V8_a5 (d : Dev nD) : V8 m d a5' = m ((SparseCore.T d).loc main_arg5) := by
  unfold V8 ops8; after_results; rfl

end Cert.Proof.KB

end
-- ==== Proof.KB.LaunchArr.lean ====
/-
  The launch of the tokenizer call, fifth part: the TensorCore's sixteen arrays as one held set for the host
  operations, and one by one for the call. After the eight operations the six argument arrays hold their launch
  contents, the six operand arrays the operations' values, the call's result array its launch contents. For the last
  operation the call's result array and the program's result array are held as a pair.
-/
import proofs.«207382_g17746804867166_cont_8to1_1179_25_alg».proof.Proof.KB.LaunchSplit
import proofs.«207382_g17746804867166_cont_8to1_1179_25_alg».proof.Proof.KB.LaunchHost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after seq)

variable [FloatOps F]

variable (m : (ℓ : Loc nD τ sig) → Buf (Elt F) ℓ)

/-- The TensorCore's arrays: none is scoped. -/
abbrev S16 : Finset (DevRef τ sig) := {a0', a1', a2', a3', a4', a5', v0', v1', v2', v3', v4', v5', v6', v7', v8', v9'}

omit [FloatOps F] in
theorem held_S16 (d : Dev nD) (W : Valuation τ sig (Elt F)) :
    (held (T d) S16 W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ ((SparseCore.T d).loc main_arg3 ↦{fullShare} W a3')
      ∗ ((SparseCore.T d).loc main_arg4 ↦{fullShare} W a4') ∗ ((SparseCore.T d).loc main_arg5 ↦{fullShare} W a5')
      ∗ ((SparseCore.T d).loc main_v0 ↦{fullShare} W v0') ∗ (catL d ↦{fullShare} W v1') ∗ ((SparseCore.T d).loc main_v2 ↦{fullShare} W v2')
      ∗ (numL d ↦{fullShare} W v3') ∗ (embL d ↦{fullShare} W v4') ∗ (wL d ↦{fullShare} W v5') ∗ (bL d ↦{fullShare} W v6')
      ∗ (clsL d ↦{fullShare} W v7') ∗ (outL d ↦{fullShare} W v8') ∗ ((SparseCore.T d).loc main_v9 ↦{fullShare} W v9')) := by
  unfold held S16
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_v0 ↦{fullShare} W main_v0) ∗ (catL d ↦{fullShare} W main_v1) ∗ ((SparseCore.T d).loc main_v2 ↦{fullShare} W main_v2)
      ∗ (numL d ↦{fullShare} W main_v3) ∗ (embL d ↦{fullShare} W main_v4) ∗ (wL d ↦{fullShare} W main_v5) ∗ (bL d ↦{fullShare} W main_v6)
      ∗ (clsL d ↦{fullShare} W main_v7) ∗ (outL d ↦{fullShare} W main_v8) ∗ ((SparseCore.T d).loc main_v9 ↦{fullShare} W main_v9)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6, main_v7, main_v8, main_v9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the launch deals the TensorCore is its sixteen arrays held at their launch contents. -/
theorem unscoped_held (d : Dev nD) : (unscopedBufs d (fun b => m ((SparseCore.T d).loc b)) : sProp 𝕄) = held (T d) S16 (V0 m d) := by
  rw [unscopedBufs_eq, held_S16]; rfl

theorem hS8 : ∀ op ∈ (ops8 (F := F)), op.bufs ⊆ S16 := by
  intro op hop
  simp only [ops8, List.mem_cons, List.not_mem_nil, or_false] at hop
  rcases hop with rfl | rfl | rfl | rfl | rfl | rfl | rfl | rfl
  · exact show ({a0', v0'} : Finset (DevRef τ sig)) ⊆ S16 by decide
  · exact show ({v0', v1'} : Finset (DevRef τ sig)) ⊆ S16 by decide
  · exact show ({a1', v2'} : Finset (DevRef τ sig)) ⊆ S16 by decide
  · exact show ({v2', v3'} : Finset (DevRef τ sig)) ⊆ S16 by decide
  · exact show ({a2', v4'} : Finset (DevRef τ sig)) ⊆ S16 by decide
  · exact show ({a3', v5'} : Finset (DevRef τ sig)) ⊆ S16 by decide
  · exact show ({a4', v6'} : Finset (DevRef τ sig)) ⊆ S16 by decide
  · exact show ({a5', v7'} : Finset (DevRef τ sig)) ⊆ S16 by decide

theorem hf8 : ∀ op ∈ (ops8 (F := F)), op.fresh = ∅ := by
  intro op hop
  simp only [ops8, List.mem_cons, List.not_mem_nil, or_false] at hop
  rcases hop with rfl | rfl | rfl | rfl | rfl | rfl | rfl | rfl <;> rfl

/-- The six argument arrays at their launch contents. -/
def args (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5)))

/-- After the eight operations: the arguments unchanged, the call's seven arrays whole at `Apre` and the result array's
    launch contents, and the program's result array at whatever it holds. -/
theorem held16_out (d : Dev nD) :
    (held (T d) S16 (V8 m d) : sProp 𝕄)
      ⊢ iprop(args m d ∗ whole (Apre m d) (fo₀ m d) d ∗ ((SparseCore.T d).loc main_v9 ↦{fullShare} V8 m d v9')) := by
  rw [held_S16, V8_v1, V8_v3, V8_v4, V8_v5, V8_v6, V8_v7, V8_v8, V8_a0, V8_a1, V8_a2, V8_a3, V8_a4, V8_a5]
  unfold args whole
  iintro ⟨A0, A1, A2, A3, A4, A5, -, X1, -, X3, X4, X5, X6, X7, X8, X9⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [X1 X3 X4 X5 X6 X7 X8]
  · isplitl [X1]; · iexact X1
    isplitl [X3]; · iexact X3
    isplitl [X4]; · iexact X4
    isplitl [X5]; · iexact X5
    isplitl [X6]; · iexact X6
    isplitl [X7]; · iexact X7
    iexact X8
  iexact X9

/-! ## The last operation's pair -/

abbrev S2 : Finset (DevRef τ sig) := {v8', v9'}

omit [FloatOps F] in
theorem held_S2 (d : Dev nD) (W : Valuation τ sig (Elt F)) :
    (held (T d) S2 W : sProp 𝕄) = iprop((outL d ↦{fullShare} W v8') ∗ ((SparseCore.T d).loc main_v9 ↦{fullShare} W v9')) := by
  unfold held S2
  rw [SparseCore.bigSep_insert' (by decide), bigSep_singleton]

theorem hS9 : (op9 (F := F)).bufs ⊆ S2 := show ({v8', v9'} : Finset (DevRef τ sig)) ⊆ S2 by decide

/-- After the call: the call's result array at `GT`, everything else as after the eight operations. -/
def V9 (d : Dev nD) : Valuation τ sig (Elt F) := Function.update (V8 m d) v8' (GT (Apre m d))

theorem V9_v8 (d : Dev nD) : V9 m d v8' = GT (Apre m d) := Function.update_self _ _ _
theorem V9_v9 (d : Dev nD) : V9 m d v9' = V8 m d v9' := Function.update_of_ne (show v9' ≠ v8' by decide) _ _

/-- The last operation's value. -/
theorem R9_v9 (d : Dev nD) : (op9 (F := F)).result (V9 m d) v9' = outFinal m d := by
  rw [StableHlo.unary_result, V9_v8]; rfl

end Cert.Proof.KB

end
-- ==== Proof.KB.LaunchMain.lean ====
/-
  The launch of the tokenizer call, sixth part: @main on the TensorCore. The eight host operations run over the
  sixteen arrays held whole; the call hands the thirty-two tasks their read shares of the six operand arrays and their
  rows of the result array, and takes them back with the rows written; the last operation transposes the joined
  result. The six argument arrays are never written.
-/
import proofs.«207382_g17746804867166_cont_8to1_1179_25_alg».proof.Proof.KB.LaunchArr

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo (after seq wp_seq)

variable [FloatOps F]

variable (m : (ℓ : Loc nD τ sig) → Buf (Elt F) ℓ) (ρ : Dev nD → PrngReg)

/-- What @main leaves the claim: the argument arrays at their launch contents, the result array at `outFinal`. -/
def FIN (d : Dev nD) : sProp 𝕄 :=
  iprop(args m d ∗ ((SparseCore.T d).loc main_v9 ↦{fullShare} (outFinal m d : Buf (Elt F) ((SparseCore.T d).loc main_v9))))

/-- The call and the last operation, from the arrays as the eight operations left them. -/
theorem wp_tail (κ : GSem nD τ sig → ℕ) (d : Dev nD) :
    iprop((K (F := F)).ctx EH (P (Apre m) (fo₀ m)) κ ∗ (K (F := F)).tcSt EH d 0 ∗ boundary (SparseCore.T d) ∗ (held (T d) S16 (V8 m d) : sProp 𝕄))
      ⊢ wp frame (wpE ((K (F := F)).defs (D (F := F))) 𝒱 (SparseCore.T d) none) Set.univ (tailP (F := F) d)
          fun _ => iprop((K (F := F)).tcSt EH d 1 ∗ FIN m d) := by
  simp only [tailP, wp_bind, wp_pure]
  iintro ⟨#Hctx, Hst, Hb, Hheld⟩
  ihave Hh := (held16_out m d) $$ Hheld
  icases Hh with ⟨Hargs, Hw, X9⟩
  ihave Hs := (split_all (Apre m d) (fo₀ m d) d) $$ Hw
  icases Hs with ⟨Hkept, Htiles⟩
  -- the call: every task its read shares and its rows, and back
  iapply ((K (F := F)).wp_run (D (F := F)) 𝒱 (EH := EH) (P := P (Apre m) (fo₀ m)) κ d 0) $$ [Hst Htiles Hb Hargs Hkept X9]
  isplitr; · iexact Hctx
  isplitl [Hst]; · iexact Hst
  isplitl [Htiles]
  · rw [st0_eq]; iexact Htiles
  iintro ⟨Hst, Hdn⟩
  ihave Hdn' := (Entails.of_eq (dn0_eq (Apre m) (fo₀ m) d)) $$ Hdn
  ihave Hw := (join_all (Apre m d) d) $$ [Hkept Hdn']
  · isplitl [Hkept] <;> iassumption
  unfold whole
  icases Hw with ⟨-, -, -, -, -, -, Ho⟩
  -- the last operation, over the call's result array and the program's
  iapply (wp_hlo_within 𝒱 (SparseCore.T d) none Set.univ (op := op9) (S := S2) hS9 (V := V9 m d)) $$ [Hb Ho X9]
  · isplitl [Hb]; · iexact Hb
    rw [held_S2, V9_v8, V9_v9]
    isplitl [Ho]; · iexact Ho
    iexact X9
  iintro ⟨Hb, Hheld⟩
  ihave Hh := (Entails.of_eq (held_S2 (F := F) d _)) $$ Hheld
  icases Hh with ⟨-, Hr⟩
  rw [wp_ret]; imodintro; imodintro
  isplitl [Hst]; · iexact Hst
  unfold FIN
  isplitl [Hargs]; · iexact Hargs
  rw [← R9_v9]; iexact Hr

/-- @main on device `d`'s TensorCore. -/
theorem hmain (κ : GSem nD τ sig → ℕ) (d : Dev nD) :
    iprop((K (F := F)).ctx EH (P (Apre m) (fo₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d S16 (fun _ => tailP (F := F) d) (ops8 (F := F)) hS8 hf8 (V0 m d)) $$ [Hb Hheld]
  · isplitl [Hb]; · iexact Hb
    iexact Hheld
  iintro ⟨Hb, Hheld⟩
  iapply (wp_tail m κ d)
  isplitr; · iexact Hctx
  isplitl [Hst]; · iexact Hst
  isplitl [Hb]; · iexact Hb
  iexact Hheld

end Cert.Proof.KB

end
-- ==== Proof.KB.LaunchRun.lean ====
/-
  The launch of the tokenizer call, last part: the final memory read through what @main leaves, and the program's run.
  Every weakly fair execution of the thirty-five threads ends; at its end the program's result array holds `outFinal`
  — the transposed `GT` of the operand arrays the host operations made — and the six argument arrays are unchanged;
  given the task's proof at a symbolic grid point.
-/
import proofs.«207382_g17746804867166_cont_8to1_1179_25_alg».proof.Proof.KB.LaunchTile
import proofs.«207382_g17746804867166_cont_8to1_1179_25_alg».proof.Proof.KB.LaunchMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-- What the final memory must read on device `d`. -/
def fq (d : Dev nD) (s' : Phys nD τ sig (Elt F)) : Prop :=
  s'.mem.mem ((SparseCore.T d).loc main_v9) = outFinal m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)

theorem hfin (d : Dev nD) (s' : Phys nD τ sig (Elt F)) : iprop(FIN m d ∗ SI s') ⊢ (⌜fq m d s'⌝ : sProp 𝕄) := by
  unfold FIN args
  iintro ⟨⟨⟨A0, A1, A2, A3, A4, A5⟩, R⟩, HSI⟩
  ihave H := (persistent_entails_right (SI_pointsTo_agree (st := s') (ℓ := (SparseCore.T d).loc main_arg0) (I := Finset.univ) (q := fullShare) (f := m ((SparseCore.T d).loc main_arg0)))) $$ [HSI A0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI A1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI A2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI A3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI A4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI A5]
  · isplitl [HSI] <;> iassumption
  icases H with ⟨%h5, HSI, -⟩
  ihave H := (SI_pointsTo_agree (st := s') (ℓ := (SparseCore.T d).loc main_v9) (I := Finset.univ) (q := fullShare) (f := (outFinal m d : Buf (Elt F) ((SparseCore.T d).loc main_v9)))) $$ [HSI R]
  · isplitl [HSI] <;> iassumption
  icases H with %h9
  ipureintro
  exact ⟨funext fun i => h9 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

/-! ## The program's run -/

/-- The run's post: on every device the result array at `outFinal`, the six argument arrays unchanged. -/
def QC : PUnit × MemSt nD τ sig (Elt F) → Prop := fun r => ∀ c : Dev nD,
  r.2.mem ((SparseCore.T c).loc main_v9) = outFinal m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem run_main [∀ e, Nonempty (Elt F e)] (hbody : ∀ d, TileBody (Apre m d) (fo₀ m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Apre m) (fo₀ m)) facts v₀
    (fun q hq => match q with | 0 => nomatch hq)
    (fun q _ => match q with | 0 => tileObl (Apre m) (fo₀ m) hbody)
    (fun q _ => match q with | 0 => SparseCore.Cfg.VecSplit.of_plain (vecSplit (Apre m) (fo₀ m)))
    m ρ main (fun _ => iprop(emp)) (FIN m) (u₀ (F := F)) (sep_elim_left.trans (hu₀ (Apre m) (fo₀ m))) (hmain m ρ) (fq m) (hfin m) (QC m) (fun _ h => h)

end Cert.Proof.KB

end
-- ==== Proof.KB.Rows.lean ====
/-
  The result array `outT : [40, 64, 4096]` row by row. Row `(t, r)` — token `t`, feature row `r` — is the set of its
  indices `(t, r, n)`, `n < 4096`. The kernel writes each staging row `[1, 4096]` into ONE such row, addressed as the
  unit-stride rectangle at offsets `(t, r, 0)` with sizes `(1, 1, 4096)`, its leading unit axis dropped: that view's
  elements are exactly row `(t, r)`. A task owns the rows `(t, 2w)` and `(t, 2w + 1)` of every token `t`: its share of the
  array is the disjoint union of those 80 rows.
-/
import proofs.«207382_g17746804867166_cont_8to1_1179_25_alg».proof.Proof.KB.Iface

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## A row and the view that addresses it -/

/-- Row `(t, r)` of the `[40, 64, 4096]` array: the indices `(t, r, n)`. -/
def rowT (t : Fin 40) (r : Fin 64) : Finset S40x64x4096.Idx :=
  Finset.univ.filter fun x => (x 0).val = t.val ∧ (x 1).val = r.val

theorem mem_rowT {t : Fin 40} {r : Fin 64} {x : S40x64x4096.Idx} : x ∈ rowT t r ↔ (x 0).val = t.val ∧ (x 1).val = r.val := by
  simp [rowT]

/-- The `[1, 4096]` view of the result array at offsets `OFF` with sizes `(1, 1, 4096)`, as the kernel slices it. -/
abbrev dstRow (OFF : Fin 3 → Nat) (INB : ∀ a, OFF a + S1x1x4096.size a ≤ S40x64x4096.size a) :
    Memref sig .scVector .hbm S1x4096 .f32 :=
  ((Memref.whole main_v8_scv : Memref sig .scVector .hbm S40x64x4096 .f32).slice
    (Rect.unit (s := S40x64x4096) OFF S1x1x4096.size INB) (fun _ => rfl)).squeeze S1x4096 squeezes_S1x1x4096_S1x4096

/-- The unit-stride rectangle at `(t, r, 0)` with sizes `(1, 1, 4096)` is row `(t, r)`. -/
theorem rect_set_eq_rowT (OFF : Fin 3 → Nat) (INB : ∀ a, OFF a + S1x1x4096.size a ≤ S40x64x4096.size a)
    (t : Fin 40) (r : Fin 64) (hoff : OFF = ![t.val, r.val, 0]) :
    (Rect.unit (s := S40x64x4096) OFF S1x1x4096.size INB).set = rowT t r := by
  subst hoff
  ext x
  rw [Rect.mem_set_unit, mem_rowT]
  constructor
  · intro h
    have h0 : t.val ≤ (x 0).val ∧ (x 0).val < t.val + 1 := h 0
    have h1 : r.val ≤ (x 1).val ∧ (x 1).val < r.val + 1 := h 1
    omega
  · rintro ⟨e0, e1⟩ a
    match a with
    | ⟨0, _⟩ => show t.val ≤ (x 0).val ∧ (x 0).val < t.val + 1; omega
    | ⟨1, _⟩ => show r.val ≤ (x 1).val ∧ (x 1).val < r.val + 1; omega
    | ⟨2, _⟩ =>
      have h2 : (x 2).val < 4096 := (x 2).isLt
      show 0 ≤ (x 2).val ∧ (x 2).val < 0 + 4096
      omega

/-- THE DESTINATION'S ELEMENTS: the view at offsets `(t, r, 0)` holds exactly row `(t, r)`. -/
theorem dstRow_set (OFF : Fin 3 → Nat) (INB : ∀ a, OFF a + S1x1x4096.size a ≤ S40x64x4096.size a)
    (t : Fin 40) (r : Fin 64) (hoff : OFF = ![t.val, r.val, 0]) : (dstRow OFF INB).view.set = rowT t r := by
  show (((View.whole (main_v8_scv : Ref sig .scVector)).slice (Rect.unit (s := S40x64x4096) OFF S1x1x4096.size INB)).reshape
    S1x4096 squeezes_S1x1x4096_S1x4096.numel_eq).set = _
  rw [View.set_reshape, View.set_slice_whole]
  exact rect_set_eq_rowT OFF INB t r hoff

/-- The destination is the result array's location on every thread of the device. -/
theorem dstRow_loc (OFF : Fin 3 → Nat) (INB : ∀ a, OFF a + S1x1x4096.size a ≤ S40x64x4096.size a) (d : Dev nD)
    (L : grid0.Coords) : (dstRow OFF INB).view.loc (V d (cV L) (jV L)) = outL d := rfl

/-! ## A task's two rows of a token -/

/-- The task's number at a grid point: twice the subcore plus the core. -/
theorem widL_val (L : grid0.Coords) : (widL L).val = (L 1).val * 2 + (L 0).val := rfl

/-- Feature row `2w + dd` of the task `w` at grid point `L`. -/
def rowOf (L : grid0.Coords) (dd : Fin 2) : Fin 64 :=
  ⟨2 * (widL L).val + dd.val, by have := (widL L).isLt; have := dd.isLt; omega⟩

theorem rowOf_val (L : grid0.Coords) (dd : Fin 2) : (rowOf L dd).val = 2 * (widL L).val + dd.val := rfl

/-- The offsets the kernel computes, `(tok, 4·subcore + 2·core + dd, 0)`, are those of row `(tok, 2w + dd)`. -/
theorem row_off_eq (L : grid0.Coords) (tok : Fin 40) (dd : Fin 2) :
    (![tok.val, 4 * (L 1).val + 2 * (L 0).val + dd.val, 0] : Fin 3 → Nat) = ![tok.val, (rowOf L dd).val, 0] := by
  have e : (rowOf L dd).val = 4 * (L 1).val + 2 * (L 0).val + dd.val := by
    rw [rowOf_val, widL_val]; omega
  rw [e]

end Cert.Proof.KB

end
-- ==== Proof.KB.RowsTable.lean ====
/-
  The 80 destination rows of a task, one per token and per feature row of its pair: each as the view the kernel
  addresses it by — the result array sliced at the offsets the kernel computes at grid point `L`, sizes `(1, 1, 4096)`,
  the leading unit axis dropped —, its offsets in closed form, `(tok, 2w + dd, 0)`, and the set of its elements, row
  `(tok, 2w + dd)`.
-/
import proofs.«207382_g17746804867166_cont_8to1_1179_25_alg».proof.Proof.KB.Rows

noncomputable section

namespace Cert.Proof.KB

open Cert.Kernel Cert.Kernel.Gen
open Idealize.ShloMosaic

abbrev dst_0_0 (L : grid0.Coords) : Memref sig .scVector .hbm S1x4096 .f32 :=
  ((Memref.whole main_v8_scv : Memref sig .scVector .hbm S40x64x4096 .f32).slice (Rect.unit (s := S40x64x4096) (k0_off2 L) S1x1x4096.size (k0_off2_inb L)) (fun _ => rfl)).squeeze S1x4096 squeezes_S1x1x4096_S1x4096
theorem dst_hoff_0_0 (L : grid0.Coords) : (k0_off2 L) = ![0, (rowOf L (⟨0, by decide⟩ : Fin 2)).val, 0] :=
  (k0_off2_eq L).trans (row_off_eq L (⟨0, by decide⟩ : Fin 40) (⟨0, by decide⟩ : Fin 2))
theorem dst_set_0_0 (L : grid0.Coords) : (dst_0_0 L).view.set = rowT (⟨0, by decide⟩ : Fin 40) (rowOf L (⟨0, by decide⟩ : Fin 2)) :=
  dstRow_set _ _ _ _ (dst_hoff_0_0 L)

abbrev dst_0_1 (L : grid0.Coords) : Memref sig .scVector .hbm S1x4096 .f32 :=
  ((Memref.whole main_v8_scv : Memref sig .scVector .hbm S40x64x4096 .f32).slice (Rect.unit (s := S40x64x4096) (k0_off4 L 1#32) S1x1x4096.size (k0_off4_inb L 1)) (fun _ => rfl)).squeeze S1x4096 squeezes_S1x1x4096_S1x4096
theorem dst_hoff_0_1 (L : grid0.Coords) : (k0_off4 L 1#32) = ![0, (rowOf L (⟨1, by decide⟩ : Fin 2)).val, 0] :=
  (k0_off4_eq L (⟨1, by decide⟩ : Fin 2)).trans (row_off_eq L (⟨0, by decide⟩ : Fin 40) (⟨1, by decide⟩ : Fin 2))
theorem dst_set_0_1 (L : grid0.Coords) : (dst_0_1 L).view.set = rowT (⟨0, by decide⟩ : Fin 40) (rowOf L (⟨1, by decide⟩ : Fin 2)) :=
  dstRow_set _ _ _ _ (dst_hoff_0_1 L)

abbrev dst_1_0 (L : grid0.Coords) : Memref sig .scVector .hbm S1x4096 .f32 :=
  ((Memref.whole main_v8_scv : Memref sig .scVector .hbm S40x64x4096 .f32).slice (Rect.unit (s := S40x64x4096) (k0_off14 L) S1x1x4096.size (k0_off14_inb L)) (fun _ => rfl)).squeeze S1x4096 squeezes_S1x1x4096_S1x4096
theorem dst_hoff_1_0 (L : grid0.Coords) : (k0_off14 L) = ![1, (rowOf L (⟨0, by decide⟩ : Fin 2)).val, 0] :=
  (k0_off14_eq L).trans (row_off_eq L (⟨1, by decide⟩ : Fin 40) (⟨0, by decide⟩ : Fin 2))
theorem dst_set_1_0 (L : grid0.Coords) : (dst_1_0 L).view.set = rowT (⟨1, by decide⟩ : Fin 40) (rowOf L (⟨0, by decide⟩ : Fin 2)) :=
  dstRow_set _ _ _ _ (dst_hoff_1_0 L)

abbrev dst_1_1 (L : grid0.Coords) : Memref sig .scVector .hbm S1x4096 .f32 :=
  ((Memref.whole main_v8_scv : Memref sig .scVector .hbm S40x64x4096 .f32).slice (Rect.unit (s := S40x64x4096) (k0_off25 L 1#32) S1x1x4096.size (k0_off25_inb L 1)) (fun _ => rfl)).squeeze S1x4096 squeezes_S1x1x4096_S1x4096
theorem dst_hoff_1_1 (L : grid0.Coords) : (k0_off25 L 1#32) = ![1, (rowOf L (⟨1, by decide⟩ : Fin 2)).val, 0] :=
  (k0_off25_eq L (⟨1, by decide⟩ : Fin 2)).trans (row_off_eq L (⟨1, by decide⟩ : Fin 40) (⟨1, by decide⟩ : Fin 2))
theorem dst_set_1_1 (L : grid0.Coords) : (dst_1_1 L).view.set = rowT (⟨1, by decide⟩ : Fin 40) (rowOf L (⟨1, by decide⟩ : Fin 2)) :=
  dstRow_set _ _ _ _ (dst_hoff_1_1 L)

abbrev dst_2_0 (L : grid0.Coords) : Memref sig .scVector .hbm S1x4096 .f32 :=
  ((Memref.whole main_v8_scv : Memref sig .scVector .hbm S40x64x4096 .f32).slice (Rect.unit (s := S40x64x4096) (k0_off35 L) S1x1x4096.size (k0_off35_inb L)) (fun _ => rfl)).squeeze S1x4096 squeezes_S1x1x4096_S1x4096
theorem dst_hoff_2_0 (L : grid0.Coords) : (k0_off35 L) = ![2, (rowOf L (⟨0, by decide⟩ : Fin 2)).val, 0] :=
  (k0_off35_eq L).trans (row_off_eq L (⟨2, by decide⟩ : Fin 40) (⟨0, by decide⟩ : Fin 2))
theorem dst_set_2_0 (L : grid0.Coords) : (dst_2_0 L).view.set = rowT (⟨2, by decide⟩ : Fin 40) (rowOf L (⟨0, by decide⟩ : Fin 2)) :=
  dstRow_set _ _ _ _ (dst_hoff_2_0 L)

abbrev dst_2_1 (L : grid0.Coords) : Memref sig .scVector .hbm S1x4096 .f32 :=
  ((Memref.whole main_v8_scv : Memref sig .scVector .hbm S40x64x4096 .f32).slice (Rect.unit (s := S40x64x4096) (k0_off46 L 1#32) S1x1x4096.size (k0_off46_inb L 1)) (fun _ => rfl)).squeeze S1x4096 squeezes_S1x1x4096_S1x4096
theorem dst_hoff_2_1 (L : grid0.Coords) : (k0_off46 L 1#32) = ![2, (rowOf L (⟨1, by decide⟩ : Fin 2)).val, 0] :=
  (k0_off46_eq L (⟨1, by decide⟩ : Fin 2)).trans (row_off_eq L (⟨2, by decide⟩ : Fin 40) (⟨1, by decide⟩ : Fin 2))
theorem dst_set_2_1 (L : grid0.Coords) : (dst_2_1 L).view.set = rowT (⟨2, by decide⟩ : Fin 40) (rowOf L (⟨1, by decide⟩ : Fin 2)) :=
  dstRow_set _ _ _ _ (dst_hoff_2_1 L)

abbrev dst_3_0 (L : grid0.Coords) : Memref sig .scVector .hbm S1x4096 .f32 :=
  ((Memref.whole main_v8_scv : Memref sig .scVector .hbm S40x64x4096 .f32).slice (Rect.unit (s := S40x64x4096) (k0_off56 L) S1x1x4096.size (k0_off56_inb L)) (fun _ => rfl)).squeeze S1x4096 squeezes_S1x1x4096_S1x4096
theorem dst_hoff_3_0 (L : grid0.Coords) : (k0_off56 L) = ![3, (rowOf L (⟨0, by decide⟩ : Fin 2)).val, 0] :=
  (k0_off56_eq L).trans (row_off_eq L (⟨3, by decide⟩ : Fin 40) (⟨0, by decide⟩ : Fin 2))
theorem dst_set_3_0 (L : grid0.Coords) : (dst_3_0 L).view.set = rowT (⟨3, by decide⟩ : Fin 40) (rowOf L (⟨0, by decide⟩ : Fin 2)) :=
  dstRow_set _ _ _ _ (dst_hoff_3_0 L)

abbrev dst_3_1 (L : grid0.Coords) : Memref sig .scVector .hbm S1x4096 .f32 :=
  ((Memref.whole main_v8_scv : Memref sig .scVector .hbm S40x64x4096 .f32).slice (Rect.unit (s := S40x64x4096) (k0_off67 L 1#32) S1x1x4096.size (k0_off67_inb L 1)) (fun _ => rfl)).squeeze S1x4096 squeezes_S1x1x4096_S1x4096
theorem dst_hoff_3_1 (L : grid0.Coords) : (k0_off67 L 1#32) = ![3, (rowOf L (⟨1, by decide⟩ : Fin 2)).val, 0] :=
  (k0_off67_eq L (⟨1, by decide⟩ : Fin 2)).trans (row_off_eq L (⟨3, by decide⟩ : Fin 40) (⟨1, by decide⟩ : Fin 2))
theorem dst_set_3_1 (L : grid0.Coords) : (dst_3_1 L).view.set = rowT (⟨3, by decide⟩ : Fin 40) (rowOf L (⟨1, by decide⟩ : Fin 2)) :=
  dstRow_set _ _ _ _ (dst_hoff_3_1 L)

abbrev dst_4_0 (L : grid0.Coords) : Memref sig .scVector .hbm S1x4096 .f32 :=
  ((Memref.whole main_v8_scv : Memref sig .scVector .hbm S40x64x4096 .f32).slice (Rect.unit (s := S40x64x4096) (k0_off77 L) S1x1x4096.size (k0_off77_inb L)) (fun _ => rfl)).squeeze S1x4096 squeezes_S1x1x4096_S1x4096
theorem dst_hoff_4_0 (L : grid0.Coords) : (k0_off77 L) = ![4, (rowOf L (⟨0, by decide⟩ : Fin 2)).val, 0] :=
  (k0_off77_eq L).trans (row_off_eq L (⟨4, by decide⟩ : Fin 40) (⟨0, by decide⟩ : Fin 2))
theorem dst_set_4_0 (L : grid0.Coords) : (dst_4_0 L).view.set = rowT (⟨4, by decide⟩ : Fin 40) (rowOf L (⟨0, by decide⟩ : Fin 2)) :=
  dstRow_set _ _ _ _ (dst_hoff_4_0 L)

abbrev dst_4_1 (L : grid0.Coords) : Memref sig .scVector .hbm S1x4096 .f32 :=
  ((Memref.whole main_v8_scv : Memref sig .scVector .hbm S40x64x4096 .f32).slice (Rect.unit (s := S40x64x4096) (k0_off88 L 1#32) S1x1x4096.size (k0_off88_inb L 1)) (fun _ => rfl)).squeeze S1x4096 squeezes_S1x1x4096_S1x4096
theorem dst_hoff_4_1 (L : grid0.Coords) : (k0_off88 L 1#32) = ![4, (rowOf L (⟨1, by decide⟩ : Fin 2)).val, 0] :=
  (k0_off88_eq L (⟨1, by decide⟩ : Fin 2)).trans (row_off_eq L (⟨4, by decide⟩ : Fin 40) (⟨1, by decide⟩ : Fin 2))
theorem dst_set_4_1 (L : grid0.Coords) : (dst_4_1 L).view.set = rowT (⟨4, by decide⟩ : Fin 40) (rowOf L (⟨1, by decide⟩ : Fin 2)) :=
  dstRow_set _ _ _ _ (dst_hoff_4_1 L)

abbrev dst_5_0 (L : grid0.Coords) : Memref sig .scVector .hbm S1x4096 .f32 :=
  ((Memref.whole main_v8_scv : Memref sig .scVector .hbm S40x64x4096 .f32).slice (Rect.unit (s := S40x64x4096) (k0_off98 L) S1x1x4096.size (k0_off98_inb L)) (fun _ => rfl)).squeeze S1x4096 squeezes_S1x1x4096_S1x4096
theorem dst_hoff_5_0 (L : grid0.Coords) : (k0_off98 L) = ![5, (rowOf L (⟨0, by decide⟩ : Fin 2)).val, 0] :=
  (k0_off98_eq L).trans (row_off_eq L (⟨5, by decide⟩ : Fin 40) (⟨0, by decide⟩ : Fin 2))
theorem dst_set_5_0 (L : grid0.Coords) : (dst_5_0 L).view.set = rowT (⟨5, by decide⟩ : Fin 40) (rowOf L (⟨0, by decide⟩ : Fin 2)) :=
  dstRow_set _ _ _ _ (dst_hoff_5_0 L)

abbrev dst_5_1 (L : grid0.Coords) : Memref sig .scVector .hbm S1x4096 .f32 :=
  ((Memref.whole main_v8_scv : Memref sig .scVector .hbm S40x64x4096 .f32).slice (Rect.unit (s := S40x64x4096) (k0_off109 L 1#32) S1x1x4096.size (k0_off109_inb L 1)) (fun _ => rfl)).squeeze S1x4096 squeezes_S1x1x4096_S1x4096
theorem dst_hoff_5_1 (L : grid0.Coords) : (k0_off109 L 1#32) = ![5, (rowOf L (⟨1, by decide⟩ : Fin 2)).val, 0] :=
  (k0_off109_eq L (⟨1, by decide⟩ : Fin 2)).trans (row_off_eq L (⟨5, by decide⟩ : Fin 40) (⟨1, by decide⟩ : Fin 2))
theorem dst_set_5_1 (L : grid0.Coords) : (dst_5_1 L).view.set = rowT (⟨5, by decide⟩ : Fin 40) (rowOf L (⟨1, by decide⟩ : Fin 2)) :=
  dstRow_set _ _ _ _ (dst_hoff_5_1 L)

abbrev dst_6_0 (L : grid0.Coords) : Memref sig .scVector .hbm S1x4096 .f32 :=
  ((Memref.whole main_v8_scv : Memref sig .scVector .hbm S40x64x4096 .f32).slice (Rect.unit (s := S40x64x4096) (k0_off119 L) S1x1x4096.size (k0_off119_inb L)) (fun _ => rfl)).squeeze S1x4096 squeezes_S1x1x4096_S1x4096
theorem dst_hoff_6_0 (L : grid0.Coords) : (k0_off119 L) = ![6, (rowOf L (⟨0, by decide⟩ : Fin 2)).val, 0] :=
  (k0_off119_eq L).trans (row_off_eq L (⟨6, by decide⟩ : Fin 40) (⟨0, by decide⟩ : Fin 2))
theorem dst_set_6_0 (L : grid0.Coords) : (dst_6_0 L).view.set = rowT (⟨6, by decide⟩ : Fin 40) (rowOf L (⟨0, by decide⟩ : Fin 2)) :=
  dstRow_set _ _ _ _ (dst_hoff_6_0 L)

abbrev dst_6_1 (L : grid0.Coords) : Memref sig .scVector .hbm S1x4096 .f32 :=
  ((Memref.whole main_v8_scv : Memref sig .scVector .hbm S40x64x4096 .f32).slice (Rect.unit (s := S40x64x4096) (k0_off130 L 1#32) S1x1x4096.size (k0_off130_inb L 1)) (fun _ => rfl)).squeeze S1x4096 squeezes_S1x1x4096_S1x4096
theorem dst_hoff_6_1 (L : grid0.Coords) : (k0_off130 L 1#32) = ![6, (rowOf L (⟨1, by decide⟩ : Fin 2)).val, 0] :=
  (k0_off130_eq L (⟨1, by decide⟩ : Fin 2)).trans (row_off_eq L (⟨6, by decide⟩ : Fin 40) (⟨1, by decide⟩ : Fin 2))
theorem dst_set_6_1 (L : grid0.Coords) : (dst_6_1 L).view.set = rowT (⟨6, by decide⟩ : Fin 40) (rowOf L (⟨1, by decide⟩ : Fin 2)) :=
  dstRow_set _ _ _ _ (dst_hoff_6_1 L)

abbrev dst_7_0 (L : grid0.Coords) : Memref sig .scVector .hbm S1x4096 .f32 :=
  ((Memref.whole main_v8_scv : Memref sig .scVector .hbm S40x64x4096 .f32).slice (Rect.unit (s := S40x64x4096) (k0_off140 L) S1x1x4096.size (k0_off140_inb L)) (fun _ => rfl)).squeeze S1x4096 squeezes_S1x1x4096_S1x4096
theorem dst_hoff_7_0 (L : grid0.Coords) : (k0_off140 L) = ![7, (rowOf L (⟨0, by decide⟩ : Fin 2)).val, 0] :=
  (k0_off140_eq L).trans (row_off_eq L (⟨7, by decide⟩ : Fin 40) (⟨0, by decide⟩ : Fin 2))
theorem dst_set_7_0 (L : grid0.Coords) : (dst_7_0 L).view.set = rowT (⟨7, by decide⟩ : Fin 40) (rowOf L (⟨0, by decide⟩ : Fin 2)) :=
  dstRow_set _ _ _ _ (dst_hoff_7_0 L)

abbrev dst_7_1 (L : grid0.Coords) : Memref sig .scVector .hbm S1x4096 .f32 :=
  ((Memref.whole main_v8_scv : Memref sig .scVector .hbm S40x64x4096 .f32).slice (Rect.unit (s := S40x64x4096) (k0_off151 L 1#32) S1x1x4096.size (k0_off151_inb L 1)) (fun _ => rfl)).squeeze S1x4096 squeezes_S1x1x4096_S1x4096
theorem dst_hoff_7_1 (L : grid0.Coords) : (k0_off151 L 1#32) = ![7, (rowOf L (⟨1, by decide⟩ : Fin 2)).val, 0] :=
  (k0_off151_eq L (⟨1, by decide⟩ : Fin 2)).trans (row_off_eq L (⟨7, by decide⟩ : Fin 40) (⟨1, by decide⟩ : Fin 2))
theorem dst_set_7_1 (L : grid0.Coords) : (dst_7_1 L).view.set = rowT (⟨7, by decide⟩ : Fin 40) (rowOf L (⟨1, by decide⟩ : Fin 2)) :=
  dstRow_set _ _ _ _ (dst_hoff_7_1 L)

abbrev dst_8_0 (L : grid0.Coords) : Memref sig .scVector .hbm S1x4096 .f32 :=
  ((Memref.whole main_v8_scv : Memref sig .scVector .hbm S40x64x4096 .f32).slice (Rect.unit (s := S40x64x4096) (k0_off161 L) S1x1x4096.size (k0_off161_inb L)) (fun _ => rfl)).squeeze S1x4096 squeezes_S1x1x4096_S1x4096
theorem dst_hoff_8_0 (L : grid0.Coords) : (k0_off161 L) = ![8, (rowOf L (⟨0, by decide⟩ : Fin 2)).val, 0] :=
  (k0_off161_eq L).trans (row_off_eq L (⟨8, by decide⟩ : Fin 40) (⟨0, by decide⟩ : Fin 2))
theorem dst_set_8_0 (L : grid0.Coords) : (dst_8_0 L).view.set = rowT (⟨8, by decide⟩ : Fin 40) (rowOf L (⟨0, by decide⟩ : Fin 2)) :=
  dstRow_set _ _ _ _ (dst_hoff_8_0 L)

abbrev dst_8_1 (L : grid0.Coords) : Memref sig .scVector .hbm S1x4096 .f32 :=
  ((Memref.whole main_v8_scv : Memref sig .scVector .hbm S40x64x4096 .f32).slice (Rect.unit (s := S40x64x4096) (k0_off172 L 1#32) S1x1x4096.size (k0_off172_inb L 1)) (fun _ => rfl)).squeeze S1x4096 squeezes_S1x1x4096_S1x4096
theorem dst_hoff_8_1 (L : grid0.Coords) : (k0_off172 L 1#32) = ![8, (rowOf L (⟨1, by decide⟩ : Fin 2)).val, 0] :=
  (k0_off172_eq L (⟨1, by decide⟩ : Fin 2)).trans (row_off_eq L (⟨8, by decide⟩ : Fin 40) (⟨1, by decide⟩ : Fin 2))
theorem dst_set_8_1 (L : grid0.Coords) : (dst_8_1 L).view.set = rowT (⟨8, by decide⟩ : Fin 40) (rowOf L (⟨1, by decide⟩ : Fin 2)) :=
  dstRow_set _ _ _ _ (dst_hoff_8_1 L)

abbrev dst_9_0 (L : grid0.Coords) : Memref sig .scVector .hbm S1x4096 .f32 :=
  ((Memref.whole main_v8_scv : Memref sig .scVector .hbm S40x64x4096 .f32).slice (Rect.unit (s := S40x64x4096) (k0_off182 L) S1x1x4096.size (k0_off182_inb L)) (fun _ => rfl)).squeeze S1x4096 squeezes_S1x1x4096_S1x4096
theorem dst_hoff_9_0 (L : grid0.Coords) : (k0_off182 L) = ![9, (rowOf L (⟨0, by decide⟩ : Fin 2)).val, 0] :=
  (k0_off182_eq L).trans (row_off_eq L (⟨9, by decide⟩ : Fin 40) (⟨0, by decide⟩ : Fin 2))
theorem dst_set_9_0 (L : grid0.Coords) : (dst_9_0 L).view.set = rowT (⟨9, by decide⟩ : Fin 40) (rowOf L (⟨0, by decide⟩ : Fin 2)) :=
  dstRow_set _ _ _ _ (dst_hoff_9_0 L)

abbrev dst_9_1 (L : grid0.Coords) : Memref sig .scVector .hbm S1x4096 .f32 :=
  ((Memref.whole main_v8_scv : Memref sig .scVector .hbm S40x64x4096 .f32).slice (Rect.unit (s := S40x64x4096) (k0_off193 L 1#32) S1x1x4096.size (k0_off193_inb L 1)) (fun _ => rfl)).squeeze S1x4096 squeezes_S1x1x4096_S1x4096
theorem dst_hoff_9_1 (L : grid0.Coords) : (k0_off193 L 1#32) = ![9, (rowOf L (⟨1, by decide⟩ : Fin 2)).val, 0] :=
  (k0_off193_eq L (⟨1, by decide⟩ : Fin 2)).trans (row_off_eq L (⟨9, by decide⟩ : Fin 40) (⟨1, by decide⟩ : Fin 2))
theorem dst_set_9_1 (L : grid0.Coords) : (dst_9_1 L).view.set = rowT (⟨9, by decide⟩ : Fin 40) (rowOf L (⟨1, by decide⟩ : Fin 2)) :=
  dstRow_set _ _ _ _ (dst_hoff_9_1 L)

abbrev dst_10_0 (L : grid0.Coords) : Memref sig .scVector .hbm S1x4096 .f32 :=
  ((Memref.whole main_v8_scv : Memref sig .scVector .hbm S40x64x4096 .f32).slice (Rect.unit (s := S40x64x4096) (k0_off203 L) S1x1x4096.size (k0_off203_inb L)) (fun _ => rfl)).squeeze S1x4096 squeezes_S1x1x4096_S1x4096
theorem dst_hoff_10_0 (L : grid0.Coords) : (k0_off203 L) = ![10, (rowOf L (⟨0, by decide⟩ : Fin 2)).val, 0] :=
  (k0_off203_eq L).trans (row_off_eq L (⟨10, by decide⟩ : Fin 40) (⟨0, by decide⟩ : Fin 2))
theorem dst_set_10_0 (L : grid0.Coords) : (dst_10_0 L).view.set = rowT (⟨10, by decide⟩ : Fin 40) (rowOf L (⟨0, by decide⟩ : Fin 2)) :=
  dstRow_set _ _ _ _ (dst_hoff_10_0 L)

abbrev dst_10_1 (L : grid0.Coords) : Memref sig .scVector .hbm S1x4096 .f32 :=
  ((Memref.whole main_v8_scv : Memref sig .scVector .hbm S40x64x4096 .f32).slice (Rect.unit (s := S40x64x4096) (k0_off214 L 1#32) S1x1x4096.size (k0_off214_inb L 1)) (fun _ => rfl)).squeeze S1x4096 squeezes_S1x1x4096_S1x4096
theorem dst_hoff_10_1 (L : grid0.Coords) : (k0_off214 L 1#32) = ![10, (rowOf L (⟨1, by decide⟩ : Fin 2)).val, 0] :=
  (k0_off214_eq L (⟨1, by decide⟩ : Fin 2)).trans (row_off_eq L (⟨10, by decide⟩ : Fin 40) (⟨1, by decide⟩ : Fin 2))
theorem dst_set_10_1 (L : grid0.Coords) : (dst_10_1 L).view.set = rowT (⟨10, by decide⟩ : Fin 40) (rowOf L (⟨1, by decide⟩ : Fin 2)) :=
  dstRow_set _ _ _ _ (dst_hoff_10_1 L)

abbrev dst_11_0 (L : grid0.Coords) : Memref sig .scVector .hbm S1x4096 .f32 :=
  ((Memref.whole main_v8_scv : Memref sig .scVector .hbm S40x64x4096 .f32).slice (Rect.unit (s := S40x64x4096) (k0_off224 L) S1x1x4096.size (k0_off224_inb L)) (fun _ => rfl)).squeeze S1x4096 squeezes_S1x1x4096_S1x4096
theorem dst_hoff_11_0 (L : grid0.Coords) : (k0_off224 L) = ![11, (rowOf L (⟨0, by decide⟩ : Fin 2)).val, 0] :=
  (k0_off224_eq L).trans (row_off_eq L (⟨11, by decide⟩ : Fin 40) (⟨0, by decide⟩ : Fin 2))
theorem dst_set_11_0 (L : grid0.Coords) : (dst_11_0 L).view.set = rowT (⟨11, by decide⟩ : Fin 40) (rowOf L (⟨0, by decide⟩ : Fin 2)) :=
  dstRow_set _ _ _ _ (dst_hoff_11_0 L)

abbrev dst_11_1 (L : grid0.Coords) : Memref sig .scVector .hbm S1x4096 .f32 :=
  ((Memref.whole main_v8_scv : Memref sig .scVector .hbm S40x64x4096 .f32).slice (Rect.unit (s := S40x64x4096) (k0_off235 L 1#32) S1x1x4096.size (k0_off235_inb L 1)) (fun _ => rfl)).squeeze S1x4096 squeezes_S1x1x4096_S1x4096
theorem dst_hoff_11_1 (L : grid0.Coords) : (k0_off235 L 1#32) = ![11, (rowOf L (⟨1, by decide⟩ : Fin 2)).val, 0] :=
  (k0_off235_eq L (⟨1, by decide⟩ : Fin 2)).trans (row_off_eq L (⟨11, by decide⟩ : Fin 40) (⟨1, by decide⟩ : Fin 2))
theorem dst_set_11_1 (L : grid0.Coords) : (dst_11_1 L).view.set = rowT (⟨11, by decide⟩ : Fin 40) (rowOf L (⟨1, by decide⟩ : Fin 2)) :=
  dstRow_set _ _ _ _ (dst_hoff_11_1 L)

abbrev dst_12_0 (L : grid0.Coords) : Memref sig .scVector .hbm S1x4096 .f32 :=
  ((Memref.whole main_v8_scv : Memref sig .scVector .hbm S40x64x4096 .f32).slice (Rect.unit (s := S40x64x4096) (k0_off245 L) S1x1x4096.size (k0_off245_inb L)) (fun _ => rfl)).squeeze S1x4096 squeezes_S1x1x4096_S1x4096
theorem dst_hoff_12_0 (L : grid0.Coords) : (k0_off245 L) = ![12, (rowOf L (⟨0, by decide⟩ : Fin 2)).val, 0] :=
  (k0_off245_eq L).trans (row_off_eq L (⟨12, by decide⟩ : Fin 40) (⟨0, by decide⟩ : Fin 2))
theorem dst_set_12_0 (L : grid0.Coords) : (dst_12_0 L).view.set = rowT (⟨12, by decide⟩ : Fin 40) (rowOf L (⟨0, by decide⟩ : Fin 2)) :=
  dstRow_set _ _ _ _ (dst_hoff_12_0 L)

abbrev dst_12_1 (L : grid0.Coords) : Memref sig .scVector .hbm S1x4096 .f32 :=
  ((Memref.whole main_v8_scv : Memref sig .scVector .hbm S40x64x4096 .f32).slice (Rect.unit (s := S40x64x4096) (k0_off256 L 1#32) S1x1x4096.size (k0_off256_inb L 1)) (fun _ => rfl)).squeeze S1x4096 squeezes_S1x1x4096_S1x4096
theorem dst_hoff_12_1 (L : grid0.Coords) : (k0_off256 L 1#32) = ![12, (rowOf L (⟨1, by decide⟩ : Fin 2)).val, 0] :=
  (k0_off256_eq L (⟨1, by decide⟩ : Fin 2)).trans (row_off_eq L (⟨12, by decide⟩ : Fin 40) (⟨1, by decide⟩ : Fin 2))
theorem dst_set_12_1 (L : grid0.Coords) : (dst_12_1 L).view.set = rowT (⟨12, by decide⟩ : Fin 40) (rowOf L (⟨1, by decide⟩ : Fin 2)) :=
  dstRow_set _ _ _ _ (dst_hoff_12_1 L)

abbrev dst_13_0 (L : grid0.Coords) : Memref sig .scVector .hbm S1x4096 .f32 :=
  ((Memref.whole main_v8_scv : Memref sig .scVector .hbm S40x64x4096 .f32).slice (Rect.unit (s := S40x64x4096) (k0_off266 L) S1x1x4096.size (k0_off266_inb L)) (fun _ => rfl)).squeeze S1x4096 squeezes_S1x1x4096_S1x4096
theorem dst_hoff_13_0 (L : grid0.Coords) : (k0_off266 L) = ![13, (rowOf L (⟨0, by decide⟩ : Fin 2)).val, 0] :=
  (k0_off266_eq L).trans (row_off_eq L (⟨13, by decide⟩ : Fin 40) (⟨0, by decide⟩ : Fin 2))
theorem dst_set_13_0 (L : grid0.Coords) : (dst_13_0 L).view.set = rowT (⟨13, by decide⟩ : Fin 40) (rowOf L (⟨0, by decide⟩ : Fin 2)) :=
  dstRow_set _ _ _ _ (dst_hoff_13_0 L)

abbrev dst_13_1 (L : grid0.Coords) : Memref sig .scVector .hbm S1x4096 .f32 :=
  ((Memref.whole main_v8_scv : Memref sig .scVector .hbm S40x64x4096 .f32).slice (Rect.unit (s := S40x64x4096) (k0_off277 L 1#32) S1x1x4096.size (k0_off277_inb L 1)) (fun _ => rfl)).squeeze S1x4096 squeezes_S1x1x4096_S1x4096
theorem dst_hoff_13_1 (L : grid0.Coords) : (k0_off277 L 1#32) = ![13, (rowOf L (⟨1, by decide⟩ : Fin 2)).val, 0] :=
  (k0_off277_eq L (⟨1, by decide⟩ : Fin 2)).trans (row_off_eq L (⟨13, by decide⟩ : Fin 40) (⟨1, by decide⟩ : Fin 2))
theorem dst_set_13_1 (L : grid0.Coords) : (dst_13_1 L).view.set = rowT (⟨13, by decide⟩ : Fin 40) (rowOf L (⟨1, by decide⟩ : Fin 2)) :=
  dstRow_set _ _ _ _ (dst_hoff_13_1 L)

abbrev dst_14_0 (L : grid0.Coords) : Memref sig .scVector .hbm S1x4096 .f32 :=
  ((Memref.whole main_v8_scv : Memref sig .scVector .hbm S40x64x4096 .f32).slice (Rect.unit (s := S40x64x4096) (k0_off287 L) S1x1x4096.size (k0_off287_inb L)) (fun _ => rfl)).squeeze S1x4096 squeezes_S1x1x4096_S1x4096
theorem dst_hoff_14_0 (L : grid0.Coords) : (k0_off287 L) = ![14, (rowOf L (⟨0, by decide⟩ : Fin 2)).val, 0] :=
  (k0_off287_eq L).trans (row_off_eq L (⟨14, by decide⟩ : Fin 40) (⟨0, by decide⟩ : Fin 2))
theorem dst_set_14_0 (L : grid0.Coords) : (dst_14_0 L).view.set = rowT (⟨14, by decide⟩ : Fin 40) (rowOf L (⟨0, by decide⟩ : Fin 2)) :=
  dstRow_set _ _ _ _ (dst_hoff_14_0 L)

abbrev dst_14_1 (L : grid0.Coords) : Memref sig .scVector .hbm S1x4096 .f32 :=
  ((Memref.whole main_v8_scv : Memref sig .scVector .hbm S40x64x4096 .f32).slice (Rect.unit (s := S40x64x4096) (k0_off298 L 1#32) S1x1x4096.size (k0_off298_inb L 1)) (fun _ => rfl)).squeeze S1x4096 squeezes_S1x1x4096_S1x4096
theorem dst_hoff_14_1 (L : grid0.Coords) : (k0_off298 L 1#32) = ![14, (rowOf L (⟨1, by decide⟩ : Fin 2)).val, 0] :=
  (k0_off298_eq L (⟨1, by decide⟩ : Fin 2)).trans (row_off_eq L (⟨14, by decide⟩ : Fin 40) (⟨1, by decide⟩ : Fin 2))
theorem dst_set_14_1 (L : grid0.Coords) : (dst_14_1 L).view.set = rowT (⟨14, by decide⟩ : Fin 40) (rowOf L (⟨1, by decide⟩ : Fin 2)) :=
  dstRow_set _ _ _ _ (dst_hoff_14_1 L)

abbrev dst_15_0 (L : grid0.Coords) : Memref sig .scVector .hbm S1x4096 .f32 :=
  ((Memref.whole main_v8_scv : Memref sig .scVector .hbm S40x64x4096 .f32).slice (Rect.unit (s := S40x64x4096) (k0_off308 L) S1x1x4096.size (k0_off308_inb L)) (fun _ => rfl)).squeeze S1x4096 squeezes_S1x1x4096_S1x4096
theorem dst_hoff_15_0 (L : grid0.Coords) : (k0_off308 L) = ![15, (rowOf L (⟨0, by decide⟩ : Fin 2)).val, 0] :=
  (k0_off308_eq L).trans (row_off_eq L (⟨15, by decide⟩ : Fin 40) (⟨0, by decide⟩ : Fin 2))
theorem dst_set_15_0 (L : grid0.Coords) : (dst_15_0 L).view.set = rowT (⟨15, by decide⟩ : Fin 40) (rowOf L (⟨0, by decide⟩ : Fin 2)) :=
  dstRow_set _ _ _ _ (dst_hoff_15_0 L)

abbrev dst_15_1 (L : grid0.Coords) : Memref sig .scVector .hbm S1x4096 .f32 :=
  ((Memref.whole main_v8_scv : Memref sig .scVector .hbm S40x64x4096 .f32).slice (Rect.unit (s := S40x64x4096) (k0_off319 L 1#32) S1x1x4096.size (k0_off319_inb L 1)) (fun _ => rfl)).squeeze S1x4096 squeezes_S1x1x4096_S1x4096
theorem dst_hoff_15_1 (L : grid0.Coords) : (k0_off319 L 1#32) = ![15, (rowOf L (⟨1, by decide⟩ : Fin 2)).val, 0] :=
  (k0_off319_eq L (⟨1, by decide⟩ : Fin 2)).trans (row_off_eq L (⟨15, by decide⟩ : Fin 40) (⟨1, by decide⟩ : Fin 2))
theorem dst_set_15_1 (L : grid0.Coords) : (dst_15_1 L).view.set = rowT (⟨15, by decide⟩ : Fin 40) (rowOf L (⟨1, by decide⟩ : Fin 2)) :=
  dstRow_set _ _ _ _ (dst_hoff_15_1 L)

abbrev dst_16_0 (L : grid0.Coords) : Memref sig .scVector .hbm S1x4096 .f32 :=
  ((Memref.whole main_v8_scv : Memref sig .scVector .hbm S40x64x4096 .f32).slice (Rect.unit (s := S40x64x4096) (k0_off329 L) S1x1x4096.size (k0_off329_inb L)) (fun _ => rfl)).squeeze S1x4096 squeezes_S1x1x4096_S1x4096
theorem dst_hoff_16_0 (L : grid0.Coords) : (k0_off329 L) = ![16, (rowOf L (⟨0, by decide⟩ : Fin 2)).val, 0] :=
  (k0_off329_eq L).trans (row_off_eq L (⟨16, by decide⟩ : Fin 40) (⟨0, by decide⟩ : Fin 2))
theorem dst_set_16_0 (L : grid0.Coords) : (dst_16_0 L).view.set = rowT (⟨16, by decide⟩ : Fin 40) (rowOf L (⟨0, by decide⟩ : Fin 2)) :=
  dstRow_set _ _ _ _ (dst_hoff_16_0 L)

abbrev dst_16_1 (L : grid0.Coords) : Memref sig .scVector .hbm S1x4096 .f32 :=
  ((Memref.whole main_v8_scv : Memref sig .scVector .hbm S40x64x4096 .f32).slice (Rect.unit (s := S40x64x4096) (k0_off340 L 1#32) S1x1x4096.size (k0_off340_inb L 1)) (fun _ => rfl)).squeeze S1x4096 squeezes_S1x1x4096_S1x4096
theorem dst_hoff_16_1 (L : grid0.Coords) : (k0_off340 L 1#32) = ![16, (rowOf L (⟨1, by decide⟩ : Fin 2)).val, 0] :=
  (k0_off340_eq L (⟨1, by decide⟩ : Fin 2)).trans (row_off_eq L (⟨16, by decide⟩ : Fin 40) (⟨1, by decide⟩ : Fin 2))
theorem dst_set_16_1 (L : grid0.Coords) : (dst_16_1 L).view.set = rowT (⟨16, by decide⟩ : Fin 40) (rowOf L (⟨1, by decide⟩ : Fin 2)) :=
  dstRow_set _ _ _ _ (dst_hoff_16_1 L)

abbrev dst_17_0 (L : grid0.Coords) : Memref sig .scVector .hbm S1x4096 .f32 :=
  ((Memref.whole main_v8_scv : Memref sig .scVector .hbm S40x64x4096 .f32).slice (Rect.unit (s := S40x64x4096) (k0_off350 L) S1x1x4096.size (k0_off350_inb L)) (fun _ => rfl)).squeeze S1x4096 squeezes_S1x1x4096_S1x4096
theorem dst_hoff_17_0 (L : grid0.Coords) : (k0_off350 L) = ![17, (rowOf L (⟨0, by decide⟩ : Fin 2)).val, 0] :=
  (k0_off350_eq L).trans (row_off_eq L (⟨17, by decide⟩ : Fin 40) (⟨0, by decide⟩ : Fin 2))
theorem dst_set_17_0 (L : grid0.Coords) : (dst_17_0 L).view.set = rowT (⟨17, by decide⟩ : Fin 40) (rowOf L (⟨0, by decide⟩ : Fin 2)) :=
  dstRow_set _ _ _ _ (dst_hoff_17_0 L)

abbrev dst_17_1 (L : grid0.Coords) : Memref sig .scVector .hbm S1x4096 .f32 :=
  ((Memref.whole main_v8_scv : Memref sig .scVector .hbm S40x64x4096 .f32).slice (Rect.unit (s := S40x64x4096) (k0_off361 L 1#32) S1x1x4096.size (k0_off361_inb L 1)) (fun _ => rfl)).squeeze S1x4096 squeezes_S1x1x4096_S1x4096
theorem dst_hoff_17_1 (L : grid0.Coords) : (k0_off361 L 1#32) = ![17, (rowOf L (⟨1, by decide⟩ : Fin 2)).val, 0] :=
  (k0_off361_eq L (⟨1, by decide⟩ : Fin 2)).trans (row_off_eq L (⟨17, by decide⟩ : Fin 40) (⟨1, by decide⟩ : Fin 2))
theorem dst_set_17_1 (L : grid0.Coords) : (dst_17_1 L).view.set = rowT (⟨17, by decide⟩ : Fin 40) (rowOf L (⟨1, by decide⟩ : Fin 2)) :=
  dstRow_set _ _ _ _ (dst_hoff_17_1 L)

abbrev dst_18_0 (L : grid0.Coords) : Memref sig .scVector .hbm S1x4096 .f32 :=
  ((Memref.whole main_v8_scv : Memref sig .scVector .hbm S40x64x4096 .f32).slice (Rect.unit (s := S40x64x4096) (k0_off371 L) S1x1x4096.size (k0_off371_inb L)) (fun _ => rfl)).squeeze S1x4096 squeezes_S1x1x4096_S1x4096
theorem dst_hoff_18_0 (L : grid0.Coords) : (k0_off371 L) = ![18, (rowOf L (⟨0, by decide⟩ : Fin 2)).val, 0] :=
  (k0_off371_eq L).trans (row_off_eq L (⟨18, by decide⟩ : Fin 40) (⟨0, by decide⟩ : Fin 2))
theorem dst_set_18_0 (L : grid0.Coords) : (dst_18_0 L).view.set = rowT (⟨18, by decide⟩ : Fin 40) (rowOf L (⟨0, by decide⟩ : Fin 2)) :=
  dstRow_set _ _ _ _ (dst_hoff_18_0 L)

abbrev dst_18_1 (L : grid0.Coords) : Memref sig .scVector .hbm S1x4096 .f32 :=
  ((Memref.whole main_v8_scv : Memref sig .scVector .hbm S40x64x4096 .f32).slice (Rect.unit (s := S40x64x4096) (k0_off382 L 1#32) S1x1x4096.size (k0_off382_inb L 1)) (fun _ => rfl)).squeeze S1x4096 squeezes_S1x1x4096_S1x4096
theorem dst_hoff_18_1 (L : grid0.Coords) : (k0_off382 L 1#32) = ![18, (rowOf L (⟨1, by decide⟩ : Fin 2)).val, 0] :=
  (k0_off382_eq L (⟨1, by decide⟩ : Fin 2)).trans (row_off_eq L (⟨18, by decide⟩ : Fin 40) (⟨1, by decide⟩ : Fin 2))
theorem dst_set_18_1 (L : grid0.Coords) : (dst_18_1 L).view.set = rowT (⟨18, by decide⟩ : Fin 40) (rowOf L (⟨1, by decide⟩ : Fin 2)) :=
  dstRow_set _ _ _ _ (dst_hoff_18_1 L)

abbrev dst_19_0 (L : grid0.Coords) : Memref sig .scVector .hbm S1x4096 .f32 :=
  ((Memref.whole main_v8_scv : Memref sig .scVector .hbm S40x64x4096 .f32).slice (Rect.unit (s := S40x64x4096) (k0_off392 L) S1x1x4096.size (k0_off392_inb L)) (fun _ => rfl)).squeeze S1x4096 squeezes_S1x1x4096_S1x4096
theorem dst_hoff_19_0 (L : grid0.Coords) : (k0_off392 L) = ![19, (rowOf L (⟨0, by decide⟩ : Fin 2)).val, 0] :=
  (k0_off392_eq L).trans (row_off_eq L (⟨19, by decide⟩ : Fin 40) (⟨0, by decide⟩ : Fin 2))
theorem dst_set_19_0 (L : grid0.Coords) : (dst_19_0 L).view.set = rowT (⟨19, by decide⟩ : Fin 40) (rowOf L (⟨0, by decide⟩ : Fin 2)) :=
  dstRow_set _ _ _ _ (dst_hoff_19_0 L)

abbrev dst_19_1 (L : grid0.Coords) : Memref sig .scVector .hbm S1x4096 .f32 :=
  ((Memref.whole main_v8_scv : Memref sig .scVector .hbm S40x64x4096 .f32).slice (Rect.unit (s := S40x64x4096) (k0_off403 L 1#32) S1x1x4096.size (k0_off403_inb L 1)) (fun _ => rfl)).squeeze S1x4096 squeezes_S1x1x4096_S1x4096
theorem dst_hoff_19_1 (L : grid0.Coords) : (k0_off403 L 1#32) = ![19, (rowOf L (⟨1, by decide⟩ : Fin 2)).val, 0] :=
  (k0_off403_eq L (⟨1, by decide⟩ : Fin 2)).trans (row_off_eq L (⟨19, by decide⟩ : Fin 40) (⟨1, by decide⟩ : Fin 2))
theorem dst_set_19_1 (L : grid0.Coords) : (dst_19_1 L).view.set = rowT (⟨19, by decide⟩ : Fin 40) (rowOf L (⟨1, by decide⟩ : Fin 2)) :=
  dstRow_set _ _ _ _ (dst_hoff_19_1 L)

abbrev dst_20_0 (L : grid0.Coords) : Memref sig .scVector .hbm S1x4096 .f32 :=
  ((Memref.whole main_v8_scv : Memref sig .scVector .hbm S40x64x4096 .f32).slice (Rect.unit (s := S40x64x4096) (k0_off413 L) S1x1x4096.size (k0_off413_inb L)) (fun _ => rfl)).squeeze S1x4096 squeezes_S1x1x4096_S1x4096
theorem dst_hoff_20_0 (L : grid0.Coords) : (k0_off413 L) = ![20, (rowOf L (⟨0, by decide⟩ : Fin 2)).val, 0] :=
  (k0_off413_eq L).trans (row_off_eq L (⟨20, by decide⟩ : Fin 40) (⟨0, by decide⟩ : Fin 2))
theorem dst_set_20_0 (L : grid0.Coords) : (dst_20_0 L).view.set = rowT (⟨20, by decide⟩ : Fin 40) (rowOf L (⟨0, by decide⟩ : Fin 2)) :=
  dstRow_set _ _ _ _ (dst_hoff_20_0 L)

abbrev dst_20_1 (L : grid0.Coords) : Memref sig .scVector .hbm S1x4096 .f32 :=
  ((Memref.whole main_v8_scv : Memref sig .scVector .hbm S40x64x4096 .f32).slice (Rect.unit (s := S40x64x4096) (k0_off424 L 1#32) S1x1x4096.size (k0_off424_inb L 1)) (fun _ => rfl)).squeeze S1x4096 squeezes_S1x1x4096_S1x4096
theorem dst_hoff_20_1 (L : grid0.Coords) : (k0_off424 L 1#32) = ![20, (rowOf L (⟨1, by decide⟩ : Fin 2)).val, 0] :=
  (k0_off424_eq L (⟨1, by decide⟩ : Fin 2)).trans (row_off_eq L (⟨20, by decide⟩ : Fin 40) (⟨1, by decide⟩ : Fin 2))
theorem dst_set_20_1 (L : grid0.Coords) : (dst_20_1 L).view.set = rowT (⟨20, by decide⟩ : Fin 40) (rowOf L (⟨1, by decide⟩ : Fin 2)) :=
  dstRow_set _ _ _ _ (dst_hoff_20_1 L)

abbrev dst_21_0 (L : grid0.Coords) : Memref sig .scVector .hbm S1x4096 .f32 :=
  ((Memref.whole main_v8_scv : Memref sig .scVector .hbm S40x64x4096 .f32).slice (Rect.unit (s := S40x64x4096) (k0_off434 L) S1x1x4096.size (k0_off434_inb L)) (fun _ => rfl)).squeeze S1x4096 squeezes_S1x1x4096_S1x4096
theorem dst_hoff_21_0 (L : grid0.Coords) : (k0_off434 L) = ![21, (rowOf L (⟨0, by decide⟩ : Fin 2)).val, 0] :=
  (k0_off434_eq L).trans (row_off_eq L (⟨21, by decide⟩ : Fin 40) (⟨0, by decide⟩ : Fin 2))
theorem dst_set_21_0 (L : grid0.Coords) : (dst_21_0 L).view.set = rowT (⟨21, by decide⟩ : Fin 40) (rowOf L (⟨0, by decide⟩ : Fin 2)) :=
  dstRow_set _ _ _ _ (dst_hoff_21_0 L)

abbrev dst_21_1 (L : grid0.Coords) : Memref sig .scVector .hbm S1x4096 .f32 :=
  ((Memref.whole main_v8_scv : Memref sig .scVector .hbm S40x64x4096 .f32).slice (Rect.unit (s := S40x64x4096) (k0_off445 L 1#32) S1x1x4096.size (k0_off445_inb L 1)) (fun _ => rfl)).squeeze S1x4096 squeezes_S1x1x4096_S1x4096
theorem dst_hoff_21_1 (L : grid0.Coords) : (k0_off445 L 1#32) = ![21, (rowOf L (⟨1, by decide⟩ : Fin 2)).val, 0] :=
  (k0_off445_eq L (⟨1, by decide⟩ : Fin 2)).trans (row_off_eq L (⟨21, by decide⟩ : Fin 40) (⟨1, by decide⟩ : Fin 2))
theorem dst_set_21_1 (L : grid0.Coords) : (dst_21_1 L).view.set = rowT (⟨21, by decide⟩ : Fin 40) (rowOf L (⟨1, by decide⟩ : Fin 2)) :=
  dstRow_set _ _ _ _ (dst_hoff_21_1 L)

abbrev dst_22_0 (L : grid0.Coords) : Memref sig .scVector .hbm S1x4096 .f32 :=
  ((Memref.whole main_v8_scv : Memref sig .scVector .hbm S40x64x4096 .f32).slice (Rect.unit (s := S40x64x4096) (k0_off455 L) S1x1x4096.size (k0_off455_inb L)) (fun _ => rfl)).squeeze S1x4096 squeezes_S1x1x4096_S1x4096
theorem dst_hoff_22_0 (L : grid0.Coords) : (k0_off455 L) = ![22, (rowOf L (⟨0, by decide⟩ : Fin 2)).val, 0] :=
  (k0_off455_eq L).trans (row_off_eq L (⟨22, by decide⟩ : Fin 40) (⟨0, by decide⟩ : Fin 2))
theorem dst_set_22_0 (L : grid0.Coords) : (dst_22_0 L).view.set = rowT (⟨22, by decide⟩ : Fin 40) (rowOf L (⟨0, by decide⟩ : Fin 2)) :=
  dstRow_set _ _ _ _ (dst_hoff_22_0 L)

abbrev dst_22_1 (L : grid0.Coords) : Memref sig .scVector .hbm S1x4096 .f32 :=
  ((Memref.whole main_v8_scv : Memref sig .scVector .hbm S40x64x4096 .f32).slice (Rect.unit (s := S40x64x4096) (k0_off466 L 1#32) S1x1x4096.size (k0_off466_inb L 1)) (fun _ => rfl)).squeeze S1x4096 squeezes_S1x1x4096_S1x4096
theorem dst_hoff_22_1 (L : grid0.Coords) : (k0_off466 L 1#32) = ![22, (rowOf L (⟨1, by decide⟩ : Fin 2)).val, 0] :=
  (k0_off466_eq L (⟨1, by decide⟩ : Fin 2)).trans (row_off_eq L (⟨22, by decide⟩ : Fin 40) (⟨1, by decide⟩ : Fin 2))
theorem dst_set_22_1 (L : grid0.Coords) : (dst_22_1 L).view.set = rowT (⟨22, by decide⟩ : Fin 40) (rowOf L (⟨1, by decide⟩ : Fin 2)) :=
  dstRow_set _ _ _ _ (dst_hoff_22_1 L)

abbrev dst_23_0 (L : grid0.Coords) : Memref sig .scVector .hbm S1x4096 .f32 :=
  ((Memref.whole main_v8_scv : Memref sig .scVector .hbm S40x64x4096 .f32).slice (Rect.unit (s := S40x64x4096) (k0_off476 L) S1x1x4096.size (k0_off476_inb L)) (fun _ => rfl)).squeeze S1x4096 squeezes_S1x1x4096_S1x4096
theorem dst_hoff_23_0 (L : grid0.Coords) : (k0_off476 L) = ![23, (rowOf L (⟨0, by decide⟩ : Fin 2)).val, 0] :=
  (k0_off476_eq L).trans (row_off_eq L (⟨23, by decide⟩ : Fin 40) (⟨0, by decide⟩ : Fin 2))
theorem dst_set_23_0 (L : grid0.Coords) : (dst_23_0 L).view.set = rowT (⟨23, by decide⟩ : Fin 40) (rowOf L (⟨0, by decide⟩ : Fin 2)) :=
  dstRow_set _ _ _ _ (dst_hoff_23_0 L)

abbrev dst_23_1 (L : grid0.Coords) : Memref sig .scVector .hbm S1x4096 .f32 :=
  ((Memref.whole main_v8_scv : Memref sig .scVector .hbm S40x64x4096 .f32).slice (Rect.unit (s := S40x64x4096) (k0_off487 L 1#32) S1x1x4096.size (k0_off487_inb L 1)) (fun _ => rfl)).squeeze S1x4096 squeezes_S1x1x4096_S1x4096
theorem dst_hoff_23_1 (L : grid0.Coords) : (k0_off487 L 1#32) = ![23, (rowOf L (⟨1, by decide⟩ : Fin 2)).val, 0] :=
  (k0_off487_eq L (⟨1, by decide⟩ : Fin 2)).trans (row_off_eq L (⟨23, by decide⟩ : Fin 40) (⟨1, by decide⟩ : Fin 2))
theorem dst_set_23_1 (L : grid0.Coords) : (dst_23_1 L).view.set = rowT (⟨23, by decide⟩ : Fin 40) (rowOf L (⟨1, by decide⟩ : Fin 2)) :=
  dstRow_set _ _ _ _ (dst_hoff_23_1 L)

abbrev dst_24_0 (L : grid0.Coords) : Memref sig .scVector .hbm S1x4096 .f32 :=
  ((Memref.whole main_v8_scv : Memref sig .scVector .hbm S40x64x4096 .f32).slice (Rect.unit (s := S40x64x4096) (k0_off497 L) S1x1x4096.size (k0_off497_inb L)) (fun _ => rfl)).squeeze S1x4096 squeezes_S1x1x4096_S1x4096
theorem dst_hoff_24_0 (L : grid0.Coords) : (k0_off497 L) = ![24, (rowOf L (⟨0, by decide⟩ : Fin 2)).val, 0] :=
  (k0_off497_eq L).trans (row_off_eq L (⟨24, by decide⟩ : Fin 40) (⟨0, by decide⟩ : Fin 2))
theorem dst_set_24_0 (L : grid0.Coords) : (dst_24_0 L).view.set = rowT (⟨24, by decide⟩ : Fin 40) (rowOf L (⟨0, by decide⟩ : Fin 2)) :=
  dstRow_set _ _ _ _ (dst_hoff_24_0 L)

abbrev dst_24_1 (L : grid0.Coords) : Memref sig .scVector .hbm S1x4096 .f32 :=
  ((Memref.whole main_v8_scv : Memref sig .scVector .hbm S40x64x4096 .f32).slice (Rect.unit (s := S40x64x4096) (k0_off508 L 1#32) S1x1x4096.size (k0_off508_inb L 1)) (fun _ => rfl)).squeeze S1x4096 squeezes_S1x1x4096_S1x4096
theorem dst_hoff_24_1 (L : grid0.Coords) : (k0_off508 L 1#32) = ![24, (rowOf L (⟨1, by decide⟩ : Fin 2)).val, 0] :=
  (k0_off508_eq L (⟨1, by decide⟩ : Fin 2)).trans (row_off_eq L (⟨24, by decide⟩ : Fin 40) (⟨1, by decide⟩ : Fin 2))
theorem dst_set_24_1 (L : grid0.Coords) : (dst_24_1 L).view.set = rowT (⟨24, by decide⟩ : Fin 40) (rowOf L (⟨1, by decide⟩ : Fin 2)) :=
  dstRow_set _ _ _ _ (dst_hoff_24_1 L)

abbrev dst_25_0 (L : grid0.Coords) : Memref sig .scVector .hbm S1x4096 .f32 :=
  ((Memref.whole main_v8_scv : Memref sig .scVector .hbm S40x64x4096 .f32).slice (Rect.unit (s := S40x64x4096) (k0_off518 L) S1x1x4096.size (k0_off518_inb L)) (fun _ => rfl)).squeeze S1x4096 squeezes_S1x1x4096_S1x4096
theorem dst_hoff_25_0 (L : grid0.Coords) : (k0_off518 L) = ![25, (rowOf L (⟨0, by decide⟩ : Fin 2)).val, 0] :=
  (k0_off518_eq L).trans (row_off_eq L (⟨25, by decide⟩ : Fin 40) (⟨0, by decide⟩ : Fin 2))
theorem dst_set_25_0 (L : grid0.Coords) : (dst_25_0 L).view.set = rowT (⟨25, by decide⟩ : Fin 40) (rowOf L (⟨0, by decide⟩ : Fin 2)) :=
  dstRow_set _ _ _ _ (dst_hoff_25_0 L)

abbrev dst_25_1 (L : grid0.Coords) : Memref sig .scVector .hbm S1x4096 .f32 :=
  ((Memref.whole main_v8_scv : Memref sig .scVector .hbm S40x64x4096 .f32).slice (Rect.unit (s := S40x64x4096) (k0_off529 L 1#32) S1x1x4096.size (k0_off529_inb L 1)) (fun _ => rfl)).squeeze S1x4096 squeezes_S1x1x4096_S1x4096
theorem dst_hoff_25_1 (L : grid0.Coords) : (k0_off529 L 1#32) = ![25, (rowOf L (⟨1, by decide⟩ : Fin 2)).val, 0] :=
  (k0_off529_eq L (⟨1, by decide⟩ : Fin 2)).trans (row_off_eq L (⟨25, by decide⟩ : Fin 40) (⟨1, by decide⟩ : Fin 2))
theorem dst_set_25_1 (L : grid0.Coords) : (dst_25_1 L).view.set = rowT (⟨25, by decide⟩ : Fin 40) (rowOf L (⟨1, by decide⟩ : Fin 2)) :=
  dstRow_set _ _ _ _ (dst_hoff_25_1 L)

abbrev dst_26_0 (L : grid0.Coords) : Memref sig .scVector .hbm S1x4096 .f32 :=
  ((Memref.whole main_v8_scv : Memref sig .scVector .hbm S40x64x4096 .f32).slice (Rect.unit (s := S40x64x4096) (k0_off539 L) S1x1x4096.size (k0_off539_inb L)) (fun _ => rfl)).squeeze S1x4096 squeezes_S1x1x4096_S1x4096
theorem dst_hoff_26_0 (L : grid0.Coords) : (k0_off539 L) = ![26, (rowOf L (⟨0, by decide⟩ : Fin 2)).val, 0] :=
  (k0_off539_eq L).trans (row_off_eq L (⟨26, by decide⟩ : Fin 40) (⟨0, by decide⟩ : Fin 2))
theorem dst_set_26_0 (L : grid0.Coords) : (dst_26_0 L).view.set = rowT (⟨26, by decide⟩ : Fin 40) (rowOf L (⟨0, by decide⟩ : Fin 2)) :=
  dstRow_set _ _ _ _ (dst_hoff_26_0 L)

abbrev dst_26_1 (L : grid0.Coords) : Memref sig .scVector .hbm S1x4096 .f32 :=
  ((Memref.whole main_v8_scv : Memref sig .scVector .hbm S40x64x4096 .f32).slice (Rect.unit (s := S40x64x4096) (k0_off550 L) S1x1x4096.size (k0_off550_inb L)) (fun _ => rfl)).squeeze S1x4096 squeezes_S1x1x4096_S1x4096
theorem dst_hoff_26_1 (L : grid0.Coords) : (k0_off550 L) = ![26, (rowOf L (⟨1, by decide⟩ : Fin 2)).val, 0] :=
  (k0_off550_eq L).trans (row_off_eq L (⟨26, by decide⟩ : Fin 40) (⟨1, by decide⟩ : Fin 2))
theorem dst_set_26_1 (L : grid0.Coords) : (dst_26_1 L).view.set = rowT (⟨26, by decide⟩ : Fin 40) (rowOf L (⟨1, by decide⟩ : Fin 2)) :=
  dstRow_set _ _ _ _ (dst_hoff_26_1 L)

abbrev dst_27_0 (L : grid0.Coords) : Memref sig .scVector .hbm S1x4096 .f32 :=
  ((Memref.whole main_v8_scv : Memref sig .scVector .hbm S40x64x4096 .f32).slice (Rect.unit (s := S40x64x4096) (k0_off554 L) S1x1x4096.size (k0_off554_inb L)) (fun _ => rfl)).squeeze S1x4096 squeezes_S1x1x4096_S1x4096
theorem dst_hoff_27_0 (L : grid0.Coords) : (k0_off554 L) = ![27, (rowOf L (⟨0, by decide⟩ : Fin 2)).val, 0] :=
  (k0_off554_eq L).trans (row_off_eq L (⟨27, by decide⟩ : Fin 40) (⟨0, by decide⟩ : Fin 2))
theorem dst_set_27_0 (L : grid0.Coords) : (dst_27_0 L).view.set = rowT (⟨27, by decide⟩ : Fin 40) (rowOf L (⟨0, by decide⟩ : Fin 2)) :=
  dstRow_set _ _ _ _ (dst_hoff_27_0 L)

abbrev dst_27_1 (L : grid0.Coords) : Memref sig .scVector .hbm S1x4096 .f32 :=
  ((Memref.whole main_v8_scv : Memref sig .scVector .hbm S40x64x4096 .f32).slice (Rect.unit (s := S40x64x4096) (k0_off558 L) S1x1x4096.size (k0_off558_inb L)) (fun _ => rfl)).squeeze S1x4096 squeezes_S1x1x4096_S1x4096
theorem dst_hoff_27_1 (L : grid0.Coords) : (k0_off558 L) = ![27, (rowOf L (⟨1, by decide⟩ : Fin 2)).val, 0] :=
  (k0_off558_eq L).trans (row_off_eq L (⟨27, by decide⟩ : Fin 40) (⟨1, by decide⟩ : Fin 2))
theorem dst_set_27_1 (L : grid0.Coords) : (dst_27_1 L).view.set = rowT (⟨27, by decide⟩ : Fin 40) (rowOf L (⟨1, by decide⟩ : Fin 2)) :=
  dstRow_set _ _ _ _ (dst_hoff_27_1 L)

abbrev dst_28_0 (L : grid0.Coords) : Memref sig .scVector .hbm S1x4096 .f32 :=
  ((Memref.whole main_v8_scv : Memref sig .scVector .hbm S40x64x4096 .f32).slice (Rect.unit (s := S40x64x4096) (k0_off562 L) S1x1x4096.size (k0_off562_inb L)) (fun _ => rfl)).squeeze S1x4096 squeezes_S1x1x4096_S1x4096
theorem dst_hoff_28_0 (L : grid0.Coords) : (k0_off562 L) = ![28, (rowOf L (⟨0, by decide⟩ : Fin 2)).val, 0] :=
  (k0_off562_eq L).trans (row_off_eq L (⟨28, by decide⟩ : Fin 40) (⟨0, by decide⟩ : Fin 2))
theorem dst_set_28_0 (L : grid0.Coords) : (dst_28_0 L).view.set = rowT (⟨28, by decide⟩ : Fin 40) (rowOf L (⟨0, by decide⟩ : Fin 2)) :=
  dstRow_set _ _ _ _ (dst_hoff_28_0 L)

abbrev dst_28_1 (L : grid0.Coords) : Memref sig .scVector .hbm S1x4096 .f32 :=
  ((Memref.whole main_v8_scv : Memref sig .scVector .hbm S40x64x4096 .f32).slice (Rect.unit (s := S40x64x4096) (k0_off566 L) S1x1x4096.size (k0_off566_inb L)) (fun _ => rfl)).squeeze S1x4096 squeezes_S1x1x4096_S1x4096
theorem dst_hoff_28_1 (L : grid0.Coords) : (k0_off566 L) = ![28, (rowOf L (⟨1, by decide⟩ : Fin 2)).val, 0] :=
  (k0_off566_eq L).trans (row_off_eq L (⟨28, by decide⟩ : Fin 40) (⟨1, by decide⟩ : Fin 2))
theorem dst_set_28_1 (L : grid0.Coords) : (dst_28_1 L).view.set = rowT (⟨28, by decide⟩ : Fin 40) (rowOf L (⟨1, by decide⟩ : Fin 2)) :=
  dstRow_set _ _ _ _ (dst_hoff_28_1 L)

abbrev dst_29_0 (L : grid0.Coords) : Memref sig .scVector .hbm S1x4096 .f32 :=
  ((Memref.whole main_v8_scv : Memref sig .scVector .hbm S40x64x4096 .f32).slice (Rect.unit (s := S40x64x4096) (k0_off570 L) S1x1x4096.size (k0_off570_inb L)) (fun _ => rfl)).squeeze S1x4096 squeezes_S1x1x4096_S1x4096
theorem dst_hoff_29_0 (L : grid0.Coords) : (k0_off570 L) = ![29, (rowOf L (⟨0, by decide⟩ : Fin 2)).val, 0] :=
  (k0_off570_eq L).trans (row_off_eq L (⟨29, by decide⟩ : Fin 40) (⟨0, by decide⟩ : Fin 2))
theorem dst_set_29_0 (L : grid0.Coords) : (dst_29_0 L).view.set = rowT (⟨29, by decide⟩ : Fin 40) (rowOf L (⟨0, by decide⟩ : Fin 2)) :=
  dstRow_set _ _ _ _ (dst_hoff_29_0 L)

abbrev dst_29_1 (L : grid0.Coords) : Memref sig .scVector .hbm S1x4096 .f32 :=
  ((Memref.whole main_v8_scv : Memref sig .scVector .hbm S40x64x4096 .f32).slice (Rect.unit (s := S40x64x4096) (k0_off574 L) S1x1x4096.size (k0_off574_inb L)) (fun _ => rfl)).squeeze S1x4096 squeezes_S1x1x4096_S1x4096
theorem dst_hoff_29_1 (L : grid0.Coords) : (k0_off574 L) = ![29, (rowOf L (⟨1, by decide⟩ : Fin 2)).val, 0] :=
  (k0_off574_eq L).trans (row_off_eq L (⟨29, by decide⟩ : Fin 40) (⟨1, by decide⟩ : Fin 2))
theorem dst_set_29_1 (L : grid0.Coords) : (dst_29_1 L).view.set = rowT (⟨29, by decide⟩ : Fin 40) (rowOf L (⟨1, by decide⟩ : Fin 2)) :=
  dstRow_set _ _ _ _ (dst_hoff_29_1 L)

abbrev dst_30_0 (L : grid0.Coords) : Memref sig .scVector .hbm S1x4096 .f32 :=
  ((Memref.whole main_v8_scv : Memref sig .scVector .hbm S40x64x4096 .f32).slice (Rect.unit (s := S40x64x4096) (k0_off578 L) S1x1x4096.size (k0_off578_inb L)) (fun _ => rfl)).squeeze S1x4096 squeezes_S1x1x4096_S1x4096
theorem dst_hoff_30_0 (L : grid0.Coords) : (k0_off578 L) = ![30, (rowOf L (⟨0, by decide⟩ : Fin 2)).val, 0] :=
  (k0_off578_eq L).trans (row_off_eq L (⟨30, by decide⟩ : Fin 40) (⟨0, by decide⟩ : Fin 2))
theorem dst_set_30_0 (L : grid0.Coords) : (dst_30_0 L).view.set = rowT (⟨30, by decide⟩ : Fin 40) (rowOf L (⟨0, by decide⟩ : Fin 2)) :=
  dstRow_set _ _ _ _ (dst_hoff_30_0 L)

abbrev dst_30_1 (L : grid0.Coords) : Memref sig .scVector .hbm S1x4096 .f32 :=
  ((Memref.whole main_v8_scv : Memref sig .scVector .hbm S40x64x4096 .f32).slice (Rect.unit (s := S40x64x4096) (k0_off582 L) S1x1x4096.size (k0_off582_inb L)) (fun _ => rfl)).squeeze S1x4096 squeezes_S1x1x4096_S1x4096
theorem dst_hoff_30_1 (L : grid0.Coords) : (k0_off582 L) = ![30, (rowOf L (⟨1, by decide⟩ : Fin 2)).val, 0] :=
  (k0_off582_eq L).trans (row_off_eq L (⟨30, by decide⟩ : Fin 40) (⟨1, by decide⟩ : Fin 2))
theorem dst_set_30_1 (L : grid0.Coords) : (dst_30_1 L).view.set = rowT (⟨30, by decide⟩ : Fin 40) (rowOf L (⟨1, by decide⟩ : Fin 2)) :=
  dstRow_set _ _ _ _ (dst_hoff_30_1 L)

abbrev dst_31_0 (L : grid0.Coords) : Memref sig .scVector .hbm S1x4096 .f32 :=
  ((Memref.whole main_v8_scv : Memref sig .scVector .hbm S40x64x4096 .f32).slice (Rect.unit (s := S40x64x4096) (k0_off586 L) S1x1x4096.size (k0_off586_inb L)) (fun _ => rfl)).squeeze S1x4096 squeezes_S1x1x4096_S1x4096
theorem dst_hoff_31_0 (L : grid0.Coords) : (k0_off586 L) = ![31, (rowOf L (⟨0, by decide⟩ : Fin 2)).val, 0] :=
  (k0_off586_eq L).trans (row_off_eq L (⟨31, by decide⟩ : Fin 40) (⟨0, by decide⟩ : Fin 2))
theorem dst_set_31_0 (L : grid0.Coords) : (dst_31_0 L).view.set = rowT (⟨31, by decide⟩ : Fin 40) (rowOf L (⟨0, by decide⟩ : Fin 2)) :=
  dstRow_set _ _ _ _ (dst_hoff_31_0 L)

abbrev dst_31_1 (L : grid0.Coords) : Memref sig .scVector .hbm S1x4096 .f32 :=
  ((Memref.whole main_v8_scv : Memref sig .scVector .hbm S40x64x4096 .f32).slice (Rect.unit (s := S40x64x4096) (k0_off590 L) S1x1x4096.size (k0_off590_inb L)) (fun _ => rfl)).squeeze S1x4096 squeezes_S1x1x4096_S1x4096
theorem dst_hoff_31_1 (L : grid0.Coords) : (k0_off590 L) = ![31, (rowOf L (⟨1, by decide⟩ : Fin 2)).val, 0] :=
  (k0_off590_eq L).trans (row_off_eq L (⟨31, by decide⟩ : Fin 40) (⟨1, by decide⟩ : Fin 2))
theorem dst_set_31_1 (L : grid0.Coords) : (dst_31_1 L).view.set = rowT (⟨31, by decide⟩ : Fin 40) (rowOf L (⟨1, by decide⟩ : Fin 2)) :=
  dstRow_set _ _ _ _ (dst_hoff_31_1 L)

abbrev dst_32_0 (L : grid0.Coords) : Memref sig .scVector .hbm S1x4096 .f32 :=
  ((Memref.whole main_v8_scv : Memref sig .scVector .hbm S40x64x4096 .f32).slice (Rect.unit (s := S40x64x4096) (k0_off594 L) S1x1x4096.size (k0_off594_inb L)) (fun _ => rfl)).squeeze S1x4096 squeezes_S1x1x4096_S1x4096
theorem dst_hoff_32_0 (L : grid0.Coords) : (k0_off594 L) = ![32, (rowOf L (⟨0, by decide⟩ : Fin 2)).val, 0] :=
  (k0_off594_eq L).trans (row_off_eq L (⟨32, by decide⟩ : Fin 40) (⟨0, by decide⟩ : Fin 2))
theorem dst_set_32_0 (L : grid0.Coords) : (dst_32_0 L).view.set = rowT (⟨32, by decide⟩ : Fin 40) (rowOf L (⟨0, by decide⟩ : Fin 2)) :=
  dstRow_set _ _ _ _ (dst_hoff_32_0 L)

abbrev dst_32_1 (L : grid0.Coords) : Memref sig .scVector .hbm S1x4096 .f32 :=
  ((Memref.whole main_v8_scv : Memref sig .scVector .hbm S40x64x4096 .f32).slice (Rect.unit (s := S40x64x4096) (k0_off598 L) S1x1x4096.size (k0_off598_inb L)) (fun _ => rfl)).squeeze S1x4096 squeezes_S1x1x4096_S1x4096
theorem dst_hoff_32_1 (L : grid0.Coords) : (k0_off598 L) = ![32, (rowOf L (⟨1, by decide⟩ : Fin 2)).val, 0] :=
  (k0_off598_eq L).trans (row_off_eq L (⟨32, by decide⟩ : Fin 40) (⟨1, by decide⟩ : Fin 2))
theorem dst_set_32_1 (L : grid0.Coords) : (dst_32_1 L).view.set = rowT (⟨32, by decide⟩ : Fin 40) (rowOf L (⟨1, by decide⟩ : Fin 2)) :=
  dstRow_set _ _ _ _ (dst_hoff_32_1 L)

abbrev dst_33_0 (L : grid0.Coords) : Memref sig .scVector .hbm S1x4096 .f32 :=
  ((Memref.whole main_v8_scv : Memref sig .scVector .hbm S40x64x4096 .f32).slice (Rect.unit (s := S40x64x4096) (k0_off602 L) S1x1x4096.size (k0_off602_inb L)) (fun _ => rfl)).squeeze S1x4096 squeezes_S1x1x4096_S1x4096
theorem dst_hoff_33_0 (L : grid0.Coords) : (k0_off602 L) = ![33, (rowOf L (⟨0, by decide⟩ : Fin 2)).val, 0] :=
  (k0_off602_eq L).trans (row_off_eq L (⟨33, by decide⟩ : Fin 40) (⟨0, by decide⟩ : Fin 2))
theorem dst_set_33_0 (L : grid0.Coords) : (dst_33_0 L).view.set = rowT (⟨33, by decide⟩ : Fin 40) (rowOf L (⟨0, by decide⟩ : Fin 2)) :=
  dstRow_set _ _ _ _ (dst_hoff_33_0 L)

abbrev dst_33_1 (L : grid0.Coords) : Memref sig .scVector .hbm S1x4096 .f32 :=
  ((Memref.whole main_v8_scv : Memref sig .scVector .hbm S40x64x4096 .f32).slice (Rect.unit (s := S40x64x4096) (k0_off606 L) S1x1x4096.size (k0_off606_inb L)) (fun _ => rfl)).squeeze S1x4096 squeezes_S1x1x4096_S1x4096
theorem dst_hoff_33_1 (L : grid0.Coords) : (k0_off606 L) = ![33, (rowOf L (⟨1, by decide⟩ : Fin 2)).val, 0] :=
  (k0_off606_eq L).trans (row_off_eq L (⟨33, by decide⟩ : Fin 40) (⟨1, by decide⟩ : Fin 2))
theorem dst_set_33_1 (L : grid0.Coords) : (dst_33_1 L).view.set = rowT (⟨33, by decide⟩ : Fin 40) (rowOf L (⟨1, by decide⟩ : Fin 2)) :=
  dstRow_set _ _ _ _ (dst_hoff_33_1 L)

abbrev dst_34_0 (L : grid0.Coords) : Memref sig .scVector .hbm S1x4096 .f32 :=
  ((Memref.whole main_v8_scv : Memref sig .scVector .hbm S40x64x4096 .f32).slice (Rect.unit (s := S40x64x4096) (k0_off610 L) S1x1x4096.size (k0_off610_inb L)) (fun _ => rfl)).squeeze S1x4096 squeezes_S1x1x4096_S1x4096
theorem dst_hoff_34_0 (L : grid0.Coords) : (k0_off610 L) = ![34, (rowOf L (⟨0, by decide⟩ : Fin 2)).val, 0] :=
  (k0_off610_eq L).trans (row_off_eq L (⟨34, by decide⟩ : Fin 40) (⟨0, by decide⟩ : Fin 2))
theorem dst_set_34_0 (L : grid0.Coords) : (dst_34_0 L).view.set = rowT (⟨34, by decide⟩ : Fin 40) (rowOf L (⟨0, by decide⟩ : Fin 2)) :=
  dstRow_set _ _ _ _ (dst_hoff_34_0 L)

abbrev dst_34_1 (L : grid0.Coords) : Memref sig .scVector .hbm S1x4096 .f32 :=
  ((Memref.whole main_v8_scv : Memref sig .scVector .hbm S40x64x4096 .f32).slice (Rect.unit (s := S40x64x4096) (k0_off614 L) S1x1x4096.size (k0_off614_inb L)) (fun _ => rfl)).squeeze S1x4096 squeezes_S1x1x4096_S1x4096
theorem dst_hoff_34_1 (L : grid0.Coords) : (k0_off614 L) = ![34, (rowOf L (⟨1, by decide⟩ : Fin 2)).val, 0] :=
  (k0_off614_eq L).trans (row_off_eq L (⟨34, by decide⟩ : Fin 40) (⟨1, by decide⟩ : Fin 2))
theorem dst_set_34_1 (L : grid0.Coords) : (dst_34_1 L).view.set = rowT (⟨34, by decide⟩ : Fin 40) (rowOf L (⟨1, by decide⟩ : Fin 2)) :=
  dstRow_set _ _ _ _ (dst_hoff_34_1 L)

abbrev dst_35_0 (L : grid0.Coords) : Memref sig .scVector .hbm S1x4096 .f32 :=
  ((Memref.whole main_v8_scv : Memref sig .scVector .hbm S40x64x4096 .f32).slice (Rect.unit (s := S40x64x4096) (k0_off618 L) S1x1x4096.size (k0_off618_inb L)) (fun _ => rfl)).squeeze S1x4096 squeezes_S1x1x4096_S1x4096
theorem dst_hoff_35_0 (L : grid0.Coords) : (k0_off618 L) = ![35, (rowOf L (⟨0, by decide⟩ : Fin 2)).val, 0] :=
  (k0_off618_eq L).trans (row_off_eq L (⟨35, by decide⟩ : Fin 40) (⟨0, by decide⟩ : Fin 2))
theorem dst_set_35_0 (L : grid0.Coords) : (dst_35_0 L).view.set = rowT (⟨35, by decide⟩ : Fin 40) (rowOf L (⟨0, by decide⟩ : Fin 2)) :=
  dstRow_set _ _ _ _ (dst_hoff_35_0 L)

abbrev dst_35_1 (L : grid0.Coords) : Memref sig .scVector .hbm S1x4096 .f32 :=
  ((Memref.whole main_v8_scv : Memref sig .scVector .hbm S40x64x4096 .f32).slice (Rect.unit (s := S40x64x4096) (k0_off622 L) S1x1x4096.size (k0_off622_inb L)) (fun _ => rfl)).squeeze S1x4096 squeezes_S1x1x4096_S1x4096
theorem dst_hoff_35_1 (L : grid0.Coords) : (k0_off622 L) = ![35, (rowOf L (⟨1, by decide⟩ : Fin 2)).val, 0] :=
  (k0_off622_eq L).trans (row_off_eq L (⟨35, by decide⟩ : Fin 40) (⟨1, by decide⟩ : Fin 2))
theorem dst_set_35_1 (L : grid0.Coords) : (dst_35_1 L).view.set = rowT (⟨35, by decide⟩ : Fin 40) (rowOf L (⟨1, by decide⟩ : Fin 2)) :=
  dstRow_set _ _ _ _ (dst_hoff_35_1 L)

abbrev dst_36_0 (L : grid0.Coords) : Memref sig .scVector .hbm S1x4096 .f32 :=
  ((Memref.whole main_v8_scv : Memref sig .scVector .hbm S40x64x4096 .f32).slice (Rect.unit (s := S40x64x4096) (k0_off626 L) S1x1x4096.size (k0_off626_inb L)) (fun _ => rfl)).squeeze S1x4096 squeezes_S1x1x4096_S1x4096
theorem dst_hoff_36_0 (L : grid0.Coords) : (k0_off626 L) = ![36, (rowOf L (⟨0, by decide⟩ : Fin 2)).val, 0] :=
  (k0_off626_eq L).trans (row_off_eq L (⟨36, by decide⟩ : Fin 40) (⟨0, by decide⟩ : Fin 2))
theorem dst_set_36_0 (L : grid0.Coords) : (dst_36_0 L).view.set = rowT (⟨36, by decide⟩ : Fin 40) (rowOf L (⟨0, by decide⟩ : Fin 2)) :=
  dstRow_set _ _ _ _ (dst_hoff_36_0 L)

abbrev dst_36_1 (L : grid0.Coords) : Memref sig .scVector .hbm S1x4096 .f32 :=
  ((Memref.whole main_v8_scv : Memref sig .scVector .hbm S40x64x4096 .f32).slice (Rect.unit (s := S40x64x4096) (k0_off630 L) S1x1x4096.size (k0_off630_inb L)) (fun _ => rfl)).squeeze S1x4096 squeezes_S1x1x4096_S1x4096
theorem dst_hoff_36_1 (L : grid0.Coords) : (k0_off630 L) = ![36, (rowOf L (⟨1, by decide⟩ : Fin 2)).val, 0] :=
  (k0_off630_eq L).trans (row_off_eq L (⟨36, by decide⟩ : Fin 40) (⟨1, by decide⟩ : Fin 2))
theorem dst_set_36_1 (L : grid0.Coords) : (dst_36_1 L).view.set = rowT (⟨36, by decide⟩ : Fin 40) (rowOf L (⟨1, by decide⟩ : Fin 2)) :=
  dstRow_set _ _ _ _ (dst_hoff_36_1 L)

abbrev dst_37_0 (L : grid0.Coords) : Memref sig .scVector .hbm S1x4096 .f32 :=
  ((Memref.whole main_v8_scv : Memref sig .scVector .hbm S40x64x4096 .f32).slice (Rect.unit (s := S40x64x4096) (k0_off634 L) S1x1x4096.size (k0_off634_inb L)) (fun _ => rfl)).squeeze S1x4096 squeezes_S1x1x4096_S1x4096
theorem dst_hoff_37_0 (L : grid0.Coords) : (k0_off634 L) = ![37, (rowOf L (⟨0, by decide⟩ : Fin 2)).val, 0] :=
  (k0_off634_eq L).trans (row_off_eq L (⟨37, by decide⟩ : Fin 40) (⟨0, by decide⟩ : Fin 2))
theorem dst_set_37_0 (L : grid0.Coords) : (dst_37_0 L).view.set = rowT (⟨37, by decide⟩ : Fin 40) (rowOf L (⟨0, by decide⟩ : Fin 2)) :=
  dstRow_set _ _ _ _ (dst_hoff_37_0 L)

abbrev dst_37_1 (L : grid0.Coords) : Memref sig .scVector .hbm S1x4096 .f32 :=
  ((Memref.whole main_v8_scv : Memref sig .scVector .hbm S40x64x4096 .f32).slice (Rect.unit (s := S40x64x4096) (k0_off638 L) S1x1x4096.size (k0_off638_inb L)) (fun _ => rfl)).squeeze S1x4096 squeezes_S1x1x4096_S1x4096
theorem dst_hoff_37_1 (L : grid0.Coords) : (k0_off638 L) = ![37, (rowOf L (⟨1, by decide⟩ : Fin 2)).val, 0] :=
  (k0_off638_eq L).trans (row_off_eq L (⟨37, by decide⟩ : Fin 40) (⟨1, by decide⟩ : Fin 2))
theorem dst_set_37_1 (L : grid0.Coords) : (dst_37_1 L).view.set = rowT (⟨37, by decide⟩ : Fin 40) (rowOf L (⟨1, by decide⟩ : Fin 2)) :=
  dstRow_set _ _ _ _ (dst_hoff_37_1 L)

abbrev dst_38_0 (L : grid0.Coords) : Memref sig .scVector .hbm S1x4096 .f32 :=
  ((Memref.whole main_v8_scv : Memref sig .scVector .hbm S40x64x4096 .f32).slice (Rect.unit (s := S40x64x4096) (k0_off642 L) S1x1x4096.size (k0_off642_inb L)) (fun _ => rfl)).squeeze S1x4096 squeezes_S1x1x4096_S1x4096
theorem dst_hoff_38_0 (L : grid0.Coords) : (k0_off642 L) = ![38, (rowOf L (⟨0, by decide⟩ : Fin 2)).val, 0] :=
  (k0_off642_eq L).trans (row_off_eq L (⟨38, by decide⟩ : Fin 40) (⟨0, by decide⟩ : Fin 2))
theorem dst_set_38_0 (L : grid0.Coords) : (dst_38_0 L).view.set = rowT (⟨38, by decide⟩ : Fin 40) (rowOf L (⟨0, by decide⟩ : Fin 2)) :=
  dstRow_set _ _ _ _ (dst_hoff_38_0 L)

abbrev dst_38_1 (L : grid0.Coords) : Memref sig .scVector .hbm S1x4096 .f32 :=
  ((Memref.whole main_v8_scv : Memref sig .scVector .hbm S40x64x4096 .f32).slice (Rect.unit (s := S40x64x4096) (k0_off646 L) S1x1x4096.size (k0_off646_inb L)) (fun _ => rfl)).squeeze S1x4096 squeezes_S1x1x4096_S1x4096
theorem dst_hoff_38_1 (L : grid0.Coords) : (k0_off646 L) = ![38, (rowOf L (⟨1, by decide⟩ : Fin 2)).val, 0] :=
  (k0_off646_eq L).trans (row_off_eq L (⟨38, by decide⟩ : Fin 40) (⟨1, by decide⟩ : Fin 2))
theorem dst_set_38_1 (L : grid0.Coords) : (dst_38_1 L).view.set = rowT (⟨38, by decide⟩ : Fin 40) (rowOf L (⟨1, by decide⟩ : Fin 2)) :=
  dstRow_set _ _ _ _ (dst_hoff_38_1 L)

abbrev dst_39_0 (L : grid0.Coords) : Memref sig .scVector .hbm S1x4096 .f32 :=
  ((Memref.whole main_v8_scv : Memref sig .scVector .hbm S40x64x4096 .f32).slice (Rect.unit (s := S40x64x4096) (k0_off650 L) S1x1x4096.size (k0_off650_inb L)) (fun _ => rfl)).squeeze S1x4096 squeezes_S1x1x4096_S1x4096
theorem dst_hoff_39_0 (L : grid0.Coords) : (k0_off650 L) = ![39, (rowOf L (⟨0, by decide⟩ : Fin 2)).val, 0] :=
  (k0_off650_eq L).trans (row_off_eq L (⟨39, by decide⟩ : Fin 40) (⟨0, by decide⟩ : Fin 2))
theorem dst_set_39_0 (L : grid0.Coords) : (dst_39_0 L).view.set = rowT (⟨39, by decide⟩ : Fin 40) (rowOf L (⟨0, by decide⟩ : Fin 2)) :=
  dstRow_set _ _ _ _ (dst_hoff_39_0 L)

abbrev dst_39_1 (L : grid0.Coords) : Memref sig .scVector .hbm S1x4096 .f32 :=
  ((Memref.whole main_v8_scv : Memref sig .scVector .hbm S40x64x4096 .f32).slice (Rect.unit (s := S40x64x4096) (k0_off654 L 1#32) S1x1x4096.size (k0_off654_inb L 1)) (fun _ => rfl)).squeeze S1x4096 squeezes_S1x1x4096_S1x4096
theorem dst_hoff_39_1 (L : grid0.Coords) : (k0_off654 L 1#32) = ![39, (rowOf L (⟨1, by decide⟩ : Fin 2)).val, 0] :=
  (k0_off654_eq L (⟨1, by decide⟩ : Fin 2)).trans (row_off_eq L (⟨39, by decide⟩ : Fin 40) (⟨1, by decide⟩ : Fin 2))
theorem dst_set_39_1 (L : grid0.Coords) : (dst_39_1 L).view.set = rowT (⟨39, by decide⟩ : Fin 40) (rowOf L (⟨1, by decide⟩ : Fin 2)) :=
  dstRow_set _ _ _ _ (dst_hoff_39_1 L)

end Cert.Proof.KB

end
-- ==== Proof.KB.BodyPure.lean ====
/-
  Pure facts the task's loops cite. A category word below the vocabulary size is an admissible index of a table row:
  the indexed load's two index vectors — all zeros on the row axis, the words on the vocabulary axis — are inside the
  `1 × 100000` scratch. Words stay below the vocabulary size through a load from a scratch that holds such words, and
  through the copy of a block of the category array into such a scratch.
-/
import proofs.«207382_g17746804867166_cont_8to1_1179_25_alg».proof.Proof.KB.Iface

noncomputable section

namespace Cert.Proof.KB

open Cert.Kernel Cert.Kernel.Gen

open Idealize.ShloMosaic

variable {F : FTy → Type}

/-- Row index zero and a vocabulary index below `100000` name an element of a `1 × 100000` array. -/
theorem chk_cat (v : IVec S16 32) (hv : ∀ x, (v x).toNat < 100000) :
    ∀ a x, ((![broadcast S16 (0#32 : BitVec 32), v] : Fin 2 → IVec S16 32) a x).toNat < S1x100000.size a := by
  refine Fin.forall_fin_two.mpr ⟨fun x => ?_, fun x => ?_⟩
  · show (0#32 : BitVec 32).toNat < 1
    decide
  · exact hv x

/-- A load from the first category scratch reads words the scratch holds. -/
theorem readAt_range1 (fc : IVec S4096 32) (hfc : ∀ y, (fc y).toNat < 100000) (r : LoadRect S4096) :
    ∀ x, ((Memref.whole cc0_scratch1 : Memref sig .scVector .vmem S4096 .i32).view.readAt (Elt F) r fc x).toNat < 100000 :=
  fun x => hfc (r.idx x)

/-- A load from the second category scratch reads words the scratch holds. -/
theorem readAt_range2 (fc : IVec S4096 32) (hfc : ∀ y, (fc y).toNat < 100000) (r : LoadRect S4096) :
    ∀ x, ((Memref.whole cc0_scratch2 : Memref sig .scVector .vmem S4096 .i32).view.readAt (Elt F) r fc x).toNat < 100000 :=
  fun x => hfc (r.idx x)

variable [FloatOps F]

/-- The first category scratch after a block of the category array is copied over it whole holds that block's words. -/
theorem dma_range1 (A : Arrs F) (hcat : ∀ j, (A.cat j).toNat < 100000) (off : Fin 1 → Nat) (h : ∀ a, off a + S4096.size a ≤ S106496.size a)
    (f0 : IVec S4096 32) :
    ∀ y, (((Memref.whole cc0_scratch1 : Memref sig .scVector .vmem S4096 .i32).view.write (Elt F) f0
        ((ReadAs.same : ReadAs (Elt F) S4096 .i32 S4096 .i32).apply
          (((Memref.whole main_v1_scv : Memref sig .scVector .hbm S106496 .i32).slice (Rect.unit (s := S106496) off S4096.size h) (fun _ => rfl)).view.read (Elt F) A.cat))
        Finset.univ) y).toNat < 100000 := by
  intro y
  show (((View.whole (cc0_scratch1 : Ref sig .scVector)).write (Elt F) f0 _ Finset.univ) y).toNat < 100000
  rw [View.write_whole_univ]
  exact hcat _

/-- The second category scratch likewise. -/
theorem dma_range2 (A : Arrs F) (hcat : ∀ j, (A.cat j).toNat < 100000) (off : Fin 1 → Nat) (h : ∀ a, off a + S4096.size a ≤ S106496.size a)
    (f0 : IVec S4096 32) :
    ∀ y, (((Memref.whole cc0_scratch2 : Memref sig .scVector .vmem S4096 .i32).view.write (Elt F) f0
        ((ReadAs.same : ReadAs (Elt F) S4096 .i32 S4096 .i32).apply
          (((Memref.whole main_v1_scv : Memref sig .scVector .hbm S106496 .i32).slice (Rect.unit (s := S106496) off S4096.size h) (fun _ => rfl)).view.read (Elt F) A.cat))
        Finset.univ) y).toNat < 100000 := by
  intro y
  show (((View.whole (cc0_scratch2 : Ref sig .scVector)).write (Elt F) f0 _ Finset.univ) y).toNat < 100000
  rw [View.write_whole_univ]
  exact hcat _

end Cert.Proof.KB

end
-- ==== Proof.KB.BodyCtx.lean ====
/-
  The task's staging of the result rows, as assertions: the 80 destination rows (40 tokens, two feature rows each)
  of the transposed result array, each held by exactly the elements its copy writes; and the index facts of the
  words the body computes from the grid point alone.
-/
import proofs.«207382_g17746804867166_cont_8to1_1179_25_alg».proof.Proof.KB.RowsTable
import proofs.«207382_g17746804867166_cont_8to1_1179_25_alg».proof.Proof.KB.BodyPure

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The vector subcore at grid point `L` of device `d`. -/
abbrev thr (d : Dev nD) (L : grid0.Coords) : Thread nD τ := V d (cV L) (jV L)

/-- The word `2·(2·subcore + core) + r`, as the body computes it. -/
abbrev rowWord (L : grid0.Coords) (r : BitVec 32) : BitVec 32 :=
  Scalar.addi (Scalar.muli (Scalar.addi (Scalar.muli (BitVec.ofNat 32 (L 1).val) 2#32) (BitVec.ofNat 32 (L 0).val)) 2#32) r

/-- The class vector's entry a task splats is one of its 64: the index `2·wid + r` is below 64. -/
theorem chk_cls0 : ∀ L : grid0.Coords, k0_chk1 (broadcast S16 (rowWord L 0#32)) := by decide +kernel
theorem chk_cls1 : ∀ L : grid0.Coords, k0_chk1 (broadcast S16 (rowWord L 1#32)) := by decide +kernel

/-- The weight and bias entry of numeric column `j` a task reads is one of the 832: `64 j + 2·wid + r < 832`. -/
theorem chk_num : ∀ (j : Fin 13) (r : Fin 2) (L : grid0.Coords), ∀ a x,
    ((![broadcast S16 (Scalar.addi (BitVec.ofNat 32 (64 * j.val)) (rowWord L (BitVec.ofNat 32 r.val)))] : Fin 1 → IVec S16 32) a x).toNat < S832.size a := by
  decide +kernel

/-- The waits a run records beyond `W` are all on the task's own (index-free) semaphores. -/
def OkW (W W' : Waits sig (HIx 1)) : Prop := ∀ p ∈ W', p ∈ W ∨ p.2 = none
theorem OkW.refl (W : Waits sig (HIx 1)) : OkW W W := fun _ hp => .inl hp
theorem OkW.insert {W W' : Waits sig (HIx 1)} (s : SemLoc sig) (h : OkW W W') : OkW W (insert (s, (default : HIx 1)) W') := by
  intro p hp
  rcases Finset.mem_insert.mp hp with rfl | hp
  · exact .inr rfl
  · exact h p hp

set_option maxHeartbeats 4000000 in
/-- The 80 destination rows at the contents `fo` the result array held before the call. -/
def rowsIn (fo : FVec F S40x64x4096 .f32) (d : Dev nD) (L : grid0.Coords) : sProp 𝕄 :=
  iprop(((dst_0_0 L).view.loc (thr d L) ↦[(dst_0_0 L).view.set]{fullShare} fo)
    ∗ ((dst_0_1 L).view.loc (thr d L) ↦[(dst_0_1 L).view.set]{fullShare} fo)
    ∗ ((dst_1_0 L).view.loc (thr d L) ↦[(dst_1_0 L).view.set]{fullShare} fo)
    ∗ ((dst_1_1 L).view.loc (thr d L) ↦[(dst_1_1 L).view.set]{fullShare} fo)
    ∗ ((dst_2_0 L).view.loc (thr d L) ↦[(dst_2_0 L).view.set]{fullShare} fo)
    ∗ ((dst_2_1 L).view.loc (thr d L) ↦[(dst_2_1 L).view.set]{fullShare} fo)
    ∗ ((dst_3_0 L).view.loc (thr d L) ↦[(dst_3_0 L).view.set]{fullShare} fo)
    ∗ ((dst_3_1 L).view.loc (thr d L) ↦[(dst_3_1 L).view.set]{fullShare} fo)
    ∗ ((dst_4_0 L).view.loc (thr d L) ↦[(dst_4_0 L).view.set]{fullShare} fo)
    ∗ ((dst_4_1 L).view.loc (thr d L) ↦[(dst_4_1 L).view.set]{fullShare} fo)
    ∗ ((dst_5_0 L).view.loc (thr d L) ↦[(dst_5_0 L).view.set]{fullShare} fo)
    ∗ ((dst_5_1 L).view.loc (thr d L) ↦[(dst_5_1 L).view.set]{fullShare} fo)
    ∗ ((dst_6_0 L).view.loc (thr d L) ↦[(dst_6_0 L).view.set]{fullShare} fo)
    ∗ ((dst_6_1 L).view.loc (thr d L) ↦[(dst_6_1 L).view.set]{fullShare} fo)
    ∗ ((dst_7_0 L).view.loc (thr d L) ↦[(dst_7_0 L).view.set]{fullShare} fo)
    ∗ ((dst_7_1 L).view.loc (thr d L) ↦[(dst_7_1 L).view.set]{fullShare} fo)
    ∗ ((dst_8_0 L).view.loc (thr d L) ↦[(dst_8_0 L).view.set]{fullShare} fo)
    ∗ ((dst_8_1 L).view.loc (thr d L) ↦[(dst_8_1 L).view.set]{fullShare} fo)
    ∗ ((dst_9_0 L).view.loc (thr d L) ↦[(dst_9_0 L).view.set]{fullShare} fo)
    ∗ ((dst_9_1 L).view.loc (thr d L) ↦[(dst_9_1 L).view.set]{fullShare} fo)
    ∗ ((dst_10_0 L).view.loc (thr d L) ↦[(dst_10_0 L).view.set]{fullShare} fo)
    ∗ ((dst_10_1 L).view.loc (thr d L) ↦[(dst_10_1 L).view.set]{fullShare} fo)
    ∗ ((dst_11_0 L).view.loc (thr d L) ↦[(dst_11_0 L).view.set]{fullShare} fo)
    ∗ ((dst_11_1 L).view.loc (thr d L) ↦[(dst_11_1 L).view.set]{fullShare} fo)
    ∗ ((dst_12_0 L).view.loc (thr d L) ↦[(dst_12_0 L).view.set]{fullShare} fo)
    ∗ ((dst_12_1 L).view.loc (thr d L) ↦[(dst_12_1 L).view.set]{fullShare} fo)
    ∗ ((dst_13_0 L).view.loc (thr d L) ↦[(dst_13_0 L).view.set]{fullShare} fo)
    ∗ ((dst_13_1 L).view.loc (thr d L) ↦[(dst_13_1 L).view.set]{fullShare} fo)
    ∗ ((dst_14_0 L).view.loc (thr d L) ↦[(dst_14_0 L).view.set]{fullShare} fo)
    ∗ ((dst_14_1 L).view.loc (thr d L) ↦[(dst_14_1 L).view.set]{fullShare} fo)
    ∗ ((dst_15_0 L).view.loc (thr d L) ↦[(dst_15_0 L).view.set]{fullShare} fo)
    ∗ ((dst_15_1 L).view.loc (thr d L) ↦[(dst_15_1 L).view.set]{fullShare} fo)
    ∗ ((dst_16_0 L).view.loc (thr d L) ↦[(dst_16_0 L).view.set]{fullShare} fo)
    ∗ ((dst_16_1 L).view.loc (thr d L) ↦[(dst_16_1 L).view.set]{fullShare} fo)
    ∗ ((dst_17_0 L).view.loc (thr d L) ↦[(dst_17_0 L).view.set]{fullShare} fo)
    ∗ ((dst_17_1 L).view.loc (thr d L) ↦[(dst_17_1 L).view.set]{fullShare} fo)
    ∗ ((dst_18_0 L).view.loc (thr d L) ↦[(dst_18_0 L).view.set]{fullShare} fo)
    ∗ ((dst_18_1 L).view.loc (thr d L) ↦[(dst_18_1 L).view.set]{fullShare} fo)
    ∗ ((dst_19_0 L).view.loc (thr d L) ↦[(dst_19_0 L).view.set]{fullShare} fo)
    ∗ ((dst_19_1 L).view.loc (thr d L) ↦[(dst_19_1 L).view.set]{fullShare} fo)
    ∗ ((dst_20_0 L).view.loc (thr d L) ↦[(dst_20_0 L).view.set]{fullShare} fo)
    ∗ ((dst_20_1 L).view.loc (thr d L) ↦[(dst_20_1 L).view.set]{fullShare} fo)
    ∗ ((dst_21_0 L).view.loc (thr d L) ↦[(dst_21_0 L).view.set]{fullShare} fo)
    ∗ ((dst_21_1 L).view.loc (thr d L) ↦[(dst_21_1 L).view.set]{fullShare} fo)
    ∗ ((dst_22_0 L).view.loc (thr d L) ↦[(dst_22_0 L).view.set]{fullShare} fo)
    ∗ ((dst_22_1 L).view.loc (thr d L) ↦[(dst_22_1 L).view.set]{fullShare} fo)
    ∗ ((dst_23_0 L).view.loc (thr d L) ↦[(dst_23_0 L).view.set]{fullShare} fo)
    ∗ ((dst_23_1 L).view.loc (thr d L) ↦[(dst_23_1 L).view.set]{fullShare} fo)
    ∗ ((dst_24_0 L).view.loc (thr d L) ↦[(dst_24_0 L).view.set]{fullShare} fo)
    ∗ ((dst_24_1 L).view.loc (thr d L) ↦[(dst_24_1 L).view.set]{fullShare} fo)
    ∗ ((dst_25_0 L).view.loc (thr d L) ↦[(dst_25_0 L).view.set]{fullShare} fo)
    ∗ ((dst_25_1 L).view.loc (thr d L) ↦[(dst_25_1 L).view.set]{fullShare} fo)
    ∗ ((dst_26_0 L).view.loc (thr d L) ↦[(dst_26_0 L).view.set]{fullShare} fo)
    ∗ ((dst_26_1 L).view.loc (thr d L) ↦[(dst_26_1 L).view.set]{fullShare} fo)
    ∗ ((dst_27_0 L).view.loc (thr d L) ↦[(dst_27_0 L).view.set]{fullShare} fo)
    ∗ ((dst_27_1 L).view.loc (thr d L) ↦[(dst_27_1 L).view.set]{fullShare} fo)
    ∗ ((dst_28_0 L).view.loc (thr d L) ↦[(dst_28_0 L).view.set]{fullShare} fo)
    ∗ ((dst_28_1 L).view.loc (thr d L) ↦[(dst_28_1 L).view.set]{fullShare} fo)
    ∗ ((dst_29_0 L).view.loc (thr d L) ↦[(dst_29_0 L).view.set]{fullShare} fo)
    ∗ ((dst_29_1 L).view.loc (thr d L) ↦[(dst_29_1 L).view.set]{fullShare} fo)
    ∗ ((dst_30_0 L).view.loc (thr d L) ↦[(dst_30_0 L).view.set]{fullShare} fo)
    ∗ ((dst_30_1 L).view.loc (thr d L) ↦[(dst_30_1 L).view.set]{fullShare} fo)
    ∗ ((dst_31_0 L).view.loc (thr d L) ↦[(dst_31_0 L).view.set]{fullShare} fo)
    ∗ ((dst_31_1 L).view.loc (thr d L) ↦[(dst_31_1 L).view.set]{fullShare} fo)
    ∗ ((dst_32_0 L).view.loc (thr d L) ↦[(dst_32_0 L).view.set]{fullShare} fo)
    ∗ ((dst_32_1 L).view.loc (thr d L) ↦[(dst_32_1 L).view.set]{fullShare} fo)
    ∗ ((dst_33_0 L).view.loc (thr d L) ↦[(dst_33_0 L).view.set]{fullShare} fo)
    ∗ ((dst_33_1 L).view.loc (thr d L) ↦[(dst_33_1 L).view.set]{fullShare} fo)
    ∗ ((dst_34_0 L).view.loc (thr d L) ↦[(dst_34_0 L).view.set]{fullShare} fo)
    ∗ ((dst_34_1 L).view.loc (thr d L) ↦[(dst_34_1 L).view.set]{fullShare} fo)
    ∗ ((dst_35_0 L).view.loc (thr d L) ↦[(dst_35_0 L).view.set]{fullShare} fo)
    ∗ ((dst_35_1 L).view.loc (thr d L) ↦[(dst_35_1 L).view.set]{fullShare} fo)
    ∗ ((dst_36_0 L).view.loc (thr d L) ↦[(dst_36_0 L).view.set]{fullShare} fo)
    ∗ ((dst_36_1 L).view.loc (thr d L) ↦[(dst_36_1 L).view.set]{fullShare} fo)
    ∗ ((dst_37_0 L).view.loc (thr d L) ↦[(dst_37_0 L).view.set]{fullShare} fo)
    ∗ ((dst_37_1 L).view.loc (thr d L) ↦[(dst_37_1 L).view.set]{fullShare} fo)
    ∗ ((dst_38_0 L).view.loc (thr d L) ↦[(dst_38_0 L).view.set]{fullShare} fo)
    ∗ ((dst_38_1 L).view.loc (thr d L) ↦[(dst_38_1 L).view.set]{fullShare} fo)
    ∗ ((dst_39_0 L).view.loc (thr d L) ↦[(dst_39_0 L).view.set]{fullShare} fo)
    ∗ ((dst_39_1 L).view.loc (thr d L) ↦[(dst_39_1 L).view.set]{fullShare} fo))

set_option maxHeartbeats 4000000 in
/-- The 80 destination rows, each at some contents. -/
def rowsSome (d : Dev nD) (L : grid0.Coords) : sProp 𝕄 :=
  iprop((∃ g, (dst_0_0 L).view.loc (thr d L) ↦[(dst_0_0 L).view.set]{fullShare} g)
    ∗ (∃ g, (dst_0_1 L).view.loc (thr d L) ↦[(dst_0_1 L).view.set]{fullShare} g)
    ∗ (∃ g, (dst_1_0 L).view.loc (thr d L) ↦[(dst_1_0 L).view.set]{fullShare} g)
    ∗ (∃ g, (dst_1_1 L).view.loc (thr d L) ↦[(dst_1_1 L).view.set]{fullShare} g)
    ∗ (∃ g, (dst_2_0 L).view.loc (thr d L) ↦[(dst_2_0 L).view.set]{fullShare} g)
    ∗ (∃ g, (dst_2_1 L).view.loc (thr d L) ↦[(dst_2_1 L).view.set]{fullShare} g)
    ∗ (∃ g, (dst_3_0 L).view.loc (thr d L) ↦[(dst_3_0 L).view.set]{fullShare} g)
    ∗ (∃ g, (dst_3_1 L).view.loc (thr d L) ↦[(dst_3_1 L).view.set]{fullShare} g)
    ∗ (∃ g, (dst_4_0 L).view.loc (thr d L) ↦[(dst_4_0 L).view.set]{fullShare} g)
    ∗ (∃ g, (dst_4_1 L).view.loc (thr d L) ↦[(dst_4_1 L).view.set]{fullShare} g)
    ∗ (∃ g, (dst_5_0 L).view.loc (thr d L) ↦[(dst_5_0 L).view.set]{fullShare} g)
    ∗ (∃ g, (dst_5_1 L).view.loc (thr d L) ↦[(dst_5_1 L).view.set]{fullShare} g)
    ∗ (∃ g, (dst_6_0 L).view.loc (thr d L) ↦[(dst_6_0 L).view.set]{fullShare} g)
    ∗ (∃ g, (dst_6_1 L).view.loc (thr d L) ↦[(dst_6_1 L).view.set]{fullShare} g)
    ∗ (∃ g, (dst_7_0 L).view.loc (thr d L) ↦[(dst_7_0 L).view.set]{fullShare} g)
    ∗ (∃ g, (dst_7_1 L).view.loc (thr d L) ↦[(dst_7_1 L).view.set]{fullShare} g)
    ∗ (∃ g, (dst_8_0 L).view.loc (thr d L) ↦[(dst_8_0 L).view.set]{fullShare} g)
    ∗ (∃ g, (dst_8_1 L).view.loc (thr d L) ↦[(dst_8_1 L).view.set]{fullShare} g)
    ∗ (∃ g, (dst_9_0 L).view.loc (thr d L) ↦[(dst_9_0 L).view.set]{fullShare} g)
    ∗ (∃ g, (dst_9_1 L).view.loc (thr d L) ↦[(dst_9_1 L).view.set]{fullShare} g)
    ∗ (∃ g, (dst_10_0 L).view.loc (thr d L) ↦[(dst_10_0 L).view.set]{fullShare} g)
    ∗ (∃ g, (dst_10_1 L).view.loc (thr d L) ↦[(dst_10_1 L).view.set]{fullShare} g)
    ∗ (∃ g, (dst_11_0 L).view.loc (thr d L) ↦[(dst_11_0 L).view.set]{fullShare} g)
    ∗ (∃ g, (dst_11_1 L).view.loc (thr d L) ↦[(dst_11_1 L).view.set]{fullShare} g)
    ∗ (∃ g, (dst_12_0 L).view.loc (thr d L) ↦[(dst_12_0 L).view.set]{fullShare} g)
    ∗ (∃ g, (dst_12_1 L).view.loc (thr d L) ↦[(dst_12_1 L).view.set]{fullShare} g)
    ∗ (∃ g, (dst_13_0 L).view.loc (thr d L) ↦[(dst_13_0 L).view.set]{fullShare} g)
    ∗ (∃ g, (dst_13_1 L).view.loc (thr d L) ↦[(dst_13_1 L).view.set]{fullShare} g)
    ∗ (∃ g, (dst_14_0 L).view.loc (thr d L) ↦[(dst_14_0 L).view.set]{fullShare} g)
    ∗ (∃ g, (dst_14_1 L).view.loc (thr d L) ↦[(dst_14_1 L).view.set]{fullShare} g)
    ∗ (∃ g, (dst_15_0 L).view.loc (thr d L) ↦[(dst_15_0 L).view.set]{fullShare} g)
    ∗ (∃ g, (dst_15_1 L).view.loc (thr d L) ↦[(dst_15_1 L).view.set]{fullShare} g)
    ∗ (∃ g, (dst_16_0 L).view.loc (thr d L) ↦[(dst_16_0 L).view.set]{fullShare} g)
    ∗ (∃ g, (dst_16_1 L).view.loc (thr d L) ↦[(dst_16_1 L).view.set]{fullShare} g)
    ∗ (∃ g, (dst_17_0 L).view.loc (thr d L) ↦[(dst_17_0 L).view.set]{fullShare} g)
    ∗ (∃ g, (dst_17_1 L).view.loc (thr d L) ↦[(dst_17_1 L).view.set]{fullShare} g)
    ∗ (∃ g, (dst_18_0 L).view.loc (thr d L) ↦[(dst_18_0 L).view.set]{fullShare} g)
    ∗ (∃ g, (dst_18_1 L).view.loc (thr d L) ↦[(dst_18_1 L).view.set]{fullShare} g)
    ∗ (∃ g, (dst_19_0 L).view.loc (thr d L) ↦[(dst_19_0 L).view.set]{fullShare} g)
    ∗ (∃ g, (dst_19_1 L).view.loc (thr d L) ↦[(dst_19_1 L).view.set]{fullShare} g)
    ∗ (∃ g, (dst_20_0 L).view.loc (thr d L) ↦[(dst_20_0 L).view.set]{fullShare} g)
    ∗ (∃ g, (dst_20_1 L).view.loc (thr d L) ↦[(dst_20_1 L).view.set]{fullShare} g)
    ∗ (∃ g, (dst_21_0 L).view.loc (thr d L) ↦[(dst_21_0 L).view.set]{fullShare} g)
    ∗ (∃ g, (dst_21_1 L).view.loc (thr d L) ↦[(dst_21_1 L).view.set]{fullShare} g)
    ∗ (∃ g, (dst_22_0 L).view.loc (thr d L) ↦[(dst_22_0 L).view.set]{fullShare} g)
    ∗ (∃ g, (dst_22_1 L).view.loc (thr d L) ↦[(dst_22_1 L).view.set]{fullShare} g)
    ∗ (∃ g, (dst_23_0 L).view.loc (thr d L) ↦[(dst_23_0 L).view.set]{fullShare} g)
    ∗ (∃ g, (dst_23_1 L).view.loc (thr d L) ↦[(dst_23_1 L).view.set]{fullShare} g)
    ∗ (∃ g, (dst_24_0 L).view.loc (thr d L) ↦[(dst_24_0 L).view.set]{fullShare} g)
    ∗ (∃ g, (dst_24_1 L).view.loc (thr d L) ↦[(dst_24_1 L).view.set]{fullShare} g)
    ∗ (∃ g, (dst_25_0 L).view.loc (thr d L) ↦[(dst_25_0 L).view.set]{fullShare} g)
    ∗ (∃ g, (dst_25_1 L).view.loc (thr d L) ↦[(dst_25_1 L).view.set]{fullShare} g)
    ∗ (∃ g, (dst_26_0 L).view.loc (thr d L) ↦[(dst_26_0 L).view.set]{fullShare} g)
    ∗ (∃ g, (dst_26_1 L).view.loc (thr d L) ↦[(dst_26_1 L).view.set]{fullShare} g)
    ∗ (∃ g, (dst_27_0 L).view.loc (thr d L) ↦[(dst_27_0 L).view.set]{fullShare} g)
    ∗ (∃ g, (dst_27_1 L).view.loc (thr d L) ↦[(dst_27_1 L).view.set]{fullShare} g)
    ∗ (∃ g, (dst_28_0 L).view.loc (thr d L) ↦[(dst_28_0 L).view.set]{fullShare} g)
    ∗ (∃ g, (dst_28_1 L).view.loc (thr d L) ↦[(dst_28_1 L).view.set]{fullShare} g)
    ∗ (∃ g, (dst_29_0 L).view.loc (thr d L) ↦[(dst_29_0 L).view.set]{fullShare} g)
    ∗ (∃ g, (dst_29_1 L).view.loc (thr d L) ↦[(dst_29_1 L).view.set]{fullShare} g)
    ∗ (∃ g, (dst_30_0 L).view.loc (thr d L) ↦[(dst_30_0 L).view.set]{fullShare} g)
    ∗ (∃ g, (dst_30_1 L).view.loc (thr d L) ↦[(dst_30_1 L).view.set]{fullShare} g)
    ∗ (∃ g, (dst_31_0 L).view.loc (thr d L) ↦[(dst_31_0 L).view.set]{fullShare} g)
    ∗ (∃ g, (dst_31_1 L).view.loc (thr d L) ↦[(dst_31_1 L).view.set]{fullShare} g)
    ∗ (∃ g, (dst_32_0 L).view.loc (thr d L) ↦[(dst_32_0 L).view.set]{fullShare} g)
    ∗ (∃ g, (dst_32_1 L).view.loc (thr d L) ↦[(dst_32_1 L).view.set]{fullShare} g)
    ∗ (∃ g, (dst_33_0 L).view.loc (thr d L) ↦[(dst_33_0 L).view.set]{fullShare} g)
    ∗ (∃ g, (dst_33_1 L).view.loc (thr d L) ↦[(dst_33_1 L).view.set]{fullShare} g)
    ∗ (∃ g, (dst_34_0 L).view.loc (thr d L) ↦[(dst_34_0 L).view.set]{fullShare} g)
    ∗ (∃ g, (dst_34_1 L).view.loc (thr d L) ↦[(dst_34_1 L).view.set]{fullShare} g)
    ∗ (∃ g, (dst_35_0 L).view.loc (thr d L) ↦[(dst_35_0 L).view.set]{fullShare} g)
    ∗ (∃ g, (dst_35_1 L).view.loc (thr d L) ↦[(dst_35_1 L).view.set]{fullShare} g)
    ∗ (∃ g, (dst_36_0 L).view.loc (thr d L) ↦[(dst_36_0 L).view.set]{fullShare} g)
    ∗ (∃ g, (dst_36_1 L).view.loc (thr d L) ↦[(dst_36_1 L).view.set]{fullShare} g)
    ∗ (∃ g, (dst_37_0 L).view.loc (thr d L) ↦[(dst_37_0 L).view.set]{fullShare} g)
    ∗ (∃ g, (dst_37_1 L).view.loc (thr d L) ↦[(dst_37_1 L).view.set]{fullShare} g)
    ∗ (∃ g, (dst_38_0 L).view.loc (thr d L) ↦[(dst_38_0 L).view.set]{fullShare} g)
    ∗ (∃ g, (dst_38_1 L).view.loc (thr d L) ↦[(dst_38_1 L).view.set]{fullShare} g)
    ∗ (∃ g, (dst_39_0 L).view.loc (thr d L) ↦[(dst_39_0 L).view.set]{fullShare} g)
    ∗ (∃ g, (dst_39_1 L).view.loc (thr d L) ↦[(dst_39_1 L).view.set]{fullShare} g))

end Cert.Proof.KB

end
-- ==== Proof.KB.BodyCtxV.lean ====
/-
  The 80 destination rows once the task has written them: each at contents that agree, on the row, with the one
  whole-array function `GT A`.
-/
import proofs.«207382_g17746804867166_cont_8to1_1179_25_alg».proof.Proof.KB.BodyCtx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 8000000 in
/-- The 80 destination rows, each at contents equal to `GT A` on the row. -/
def rowsDone (A : Arrs F) (d : Dev nD) (L : grid0.Coords) : sProp 𝕄 :=
  iprop((∃ g : Buf (Elt F) ((dst_0_0 L).view.loc (thr d L)), ⌜∀ x ∈ (dst_0_0 L).view.set, g x = (GT A : Buf (Elt F) (outL d)) x⌝ ∗ ((dst_0_0 L).view.loc (thr d L) ↦[(dst_0_0 L).view.set]{fullShare} g))
    ∗ (∃ g : Buf (Elt F) ((dst_0_1 L).view.loc (thr d L)), ⌜∀ x ∈ (dst_0_1 L).view.set, g x = (GT A : Buf (Elt F) (outL d)) x⌝ ∗ ((dst_0_1 L).view.loc (thr d L) ↦[(dst_0_1 L).view.set]{fullShare} g))
    ∗ (∃ g : Buf (Elt F) ((dst_1_0 L).view.loc (thr d L)), ⌜∀ x ∈ (dst_1_0 L).view.set, g x = (GT A : Buf (Elt F) (outL d)) x⌝ ∗ ((dst_1_0 L).view.loc (thr d L) ↦[(dst_1_0 L).view.set]{fullShare} g))
    ∗ (∃ g : Buf (Elt F) ((dst_1_1 L).view.loc (thr d L)), ⌜∀ x ∈ (dst_1_1 L).view.set, g x = (GT A : Buf (Elt F) (outL d)) x⌝ ∗ ((dst_1_1 L).view.loc (thr d L) ↦[(dst_1_1 L).view.set]{fullShare} g))
    ∗ (∃ g : Buf (Elt F) ((dst_2_0 L).view.loc (thr d L)), ⌜∀ x ∈ (dst_2_0 L).view.set, g x = (GT A : Buf (Elt F) (outL d)) x⌝ ∗ ((dst_2_0 L).view.loc (thr d L) ↦[(dst_2_0 L).view.set]{fullShare} g))
    ∗ (∃ g : Buf (Elt F) ((dst_2_1 L).view.loc (thr d L)), ⌜∀ x ∈ (dst_2_1 L).view.set, g x = (GT A : Buf (Elt F) (outL d)) x⌝ ∗ ((dst_2_1 L).view.loc (thr d L) ↦[(dst_2_1 L).view.set]{fullShare} g))
    ∗ (∃ g : Buf (Elt F) ((dst_3_0 L).view.loc (thr d L)), ⌜∀ x ∈ (dst_3_0 L).view.set, g x = (GT A : Buf (Elt F) (outL d)) x⌝ ∗ ((dst_3_0 L).view.loc (thr d L) ↦[(dst_3_0 L).view.set]{fullShare} g))
    ∗ (∃ g : Buf (Elt F) ((dst_3_1 L).view.loc (thr d L)), ⌜∀ x ∈ (dst_3_1 L).view.set, g x = (GT A : Buf (Elt F) (outL d)) x⌝ ∗ ((dst_3_1 L).view.loc (thr d L) ↦[(dst_3_1 L).view.set]{fullShare} g))
    ∗ (∃ g : Buf (Elt F) ((dst_4_0 L).view.loc (thr d L)), ⌜∀ x ∈ (dst_4_0 L).view.set, g x = (GT A : Buf (Elt F) (outL d)) x⌝ ∗ ((dst_4_0 L).view.loc (thr d L) ↦[(dst_4_0 L).view.set]{fullShare} g))
    ∗ (∃ g : Buf (Elt F) ((dst_4_1 L).view.loc (thr d L)), ⌜∀ x ∈ (dst_4_1 L).view.set, g x = (GT A : Buf (Elt F) (outL d)) x⌝ ∗ ((dst_4_1 L).view.loc (thr d L) ↦[(dst_4_1 L).view.set]{fullShare} g))
    ∗ (∃ g : Buf (Elt F) ((dst_5_0 L).view.loc (thr d L)), ⌜∀ x ∈ (dst_5_0 L).view.set, g x = (GT A : Buf (Elt F) (outL d)) x⌝ ∗ ((dst_5_0 L).view.loc (thr d L) ↦[(dst_5_0 L).view.set]{fullShare} g))
    ∗ (∃ g : Buf (Elt F) ((dst_5_1 L).view.loc (thr d L)), ⌜∀ x ∈ (dst_5_1 L).view.set, g x = (GT A : Buf (Elt F) (outL d)) x⌝ ∗ ((dst_5_1 L).view.loc (thr d L) ↦[(dst_5_1 L).view.set]{fullShare} g))
    ∗ (∃ g : Buf (Elt F) ((dst_6_0 L).view.loc (thr d L)), ⌜∀ x ∈ (dst_6_0 L).view.set, g x = (GT A : Buf (Elt F) (outL d)) x⌝ ∗ ((dst_6_0 L).view.loc (thr d L) ↦[(dst_6_0 L).view.set]{fullShare} g))
    ∗ (∃ g : Buf (Elt F) ((dst_6_1 L).view.loc (thr d L)), ⌜∀ x ∈ (dst_6_1 L).view.set, g x = (GT A : Buf (Elt F) (outL d)) x⌝ ∗ ((dst_6_1 L).view.loc (thr d L) ↦[(dst_6_1 L).view.set]{fullShare} g))
    ∗ (∃ g : Buf (Elt F) ((dst_7_0 L).view.loc (thr d L)), ⌜∀ x ∈ (dst_7_0 L).view.set, g x = (GT A : Buf (Elt F) (outL d)) x⌝ ∗ ((dst_7_0 L).view.loc (thr d L) ↦[(dst_7_0 L).view.set]{fullShare} g))
    ∗ (∃ g : Buf (Elt F) ((dst_7_1 L).view.loc (thr d L)), ⌜∀ x ∈ (dst_7_1 L).view.set, g x = (GT A : Buf (Elt F) (outL d)) x⌝ ∗ ((dst_7_1 L).view.loc (thr d L) ↦[(dst_7_1 L).view.set]{fullShare} g))
    ∗ (∃ g : Buf (Elt F) ((dst_8_0 L).view.loc (thr d L)), ⌜∀ x ∈ (dst_8_0 L).view.set, g x = (GT A : Buf (Elt F) (outL d)) x⌝ ∗ ((dst_8_0 L).view.loc (thr d L) ↦[(dst_8_0 L).view.set]{fullShare} g))
    ∗ (∃ g : Buf (Elt F) ((dst_8_1 L).view.loc (thr d L)), ⌜∀ x ∈ (dst_8_1 L).view.set, g x = (GT A : Buf (Elt F) (outL d)) x⌝ ∗ ((dst_8_1 L).view.loc (thr d L) ↦[(dst_8_1 L).view.set]{fullShare} g))
    ∗ (∃ g : Buf (Elt F) ((dst_9_0 L).view.loc (thr d L)), ⌜∀ x ∈ (dst_9_0 L).view.set, g x = (GT A : Buf (Elt F) (outL d)) x⌝ ∗ ((dst_9_0 L).view.loc (thr d L) ↦[(dst_9_0 L).view.set]{fullShare} g))
    ∗ (∃ g : Buf (Elt F) ((dst_9_1 L).view.loc (thr d L)), ⌜∀ x ∈ (dst_9_1 L).view.set, g x = (GT A : Buf (Elt F) (outL d)) x⌝ ∗ ((dst_9_1 L).view.loc (thr d L) ↦[(dst_9_1 L).view.set]{fullShare} g))
    ∗ (∃ g : Buf (Elt F) ((dst_10_0 L).view.loc (thr d L)), ⌜∀ x ∈ (dst_10_0 L).view.set, g x = (GT A : Buf (Elt F) (outL d)) x⌝ ∗ ((dst_10_0 L).view.loc (thr d L) ↦[(dst_10_0 L).view.set]{fullShare} g))
    ∗ (∃ g : Buf (Elt F) ((dst_10_1 L).view.loc (thr d L)), ⌜∀ x ∈ (dst_10_1 L).view.set, g x = (GT A : Buf (Elt F) (outL d)) x⌝ ∗ ((dst_10_1 L).view.loc (thr d L) ↦[(dst_10_1 L).view.set]{fullShare} g))
    ∗ (∃ g : Buf (Elt F) ((dst_11_0 L).view.loc (thr d L)), ⌜∀ x ∈ (dst_11_0 L).view.set, g x = (GT A : Buf (Elt F) (outL d)) x⌝ ∗ ((dst_11_0 L).view.loc (thr d L) ↦[(dst_11_0 L).view.set]{fullShare} g))
    ∗ (∃ g : Buf (Elt F) ((dst_11_1 L).view.loc (thr d L)), ⌜∀ x ∈ (dst_11_1 L).view.set, g x = (GT A : Buf (Elt F) (outL d)) x⌝ ∗ ((dst_11_1 L).view.loc (thr d L) ↦[(dst_11_1 L).view.set]{fullShare} g))
    ∗ (∃ g : Buf (Elt F) ((dst_12_0 L).view.loc (thr d L)), ⌜∀ x ∈ (dst_12_0 L).view.set, g x = (GT A : Buf (Elt F) (outL d)) x⌝ ∗ ((dst_12_0 L).view.loc (thr d L) ↦[(dst_12_0 L).view.set]{fullShare} g))
    ∗ (∃ g : Buf (Elt F) ((dst_12_1 L).view.loc (thr d L)), ⌜∀ x ∈ (dst_12_1 L).view.set, g x = (GT A : Buf (Elt F) (outL d)) x⌝ ∗ ((dst_12_1 L).view.loc (thr d L) ↦[(dst_12_1 L).view.set]{fullShare} g))
    ∗ (∃ g : Buf (Elt F) ((dst_13_0 L).view.loc (thr d L)), ⌜∀ x ∈ (dst_13_0 L).view.set, g x = (GT A : Buf (Elt F) (outL d)) x⌝ ∗ ((dst_13_0 L).view.loc (thr d L) ↦[(dst_13_0 L).view.set]{fullShare} g))
    ∗ (∃ g : Buf (Elt F) ((dst_13_1 L).view.loc (thr d L)), ⌜∀ x ∈ (dst_13_1 L).view.set, g x = (GT A : Buf (Elt F) (outL d)) x⌝ ∗ ((dst_13_1 L).view.loc (thr d L) ↦[(dst_13_1 L).view.set]{fullShare} g))
    ∗ (∃ g : Buf (Elt F) ((dst_14_0 L).view.loc (thr d L)), ⌜∀ x ∈ (dst_14_0 L).view.set, g x = (GT A : Buf (Elt F) (outL d)) x⌝ ∗ ((dst_14_0 L).view.loc (thr d L) ↦[(dst_14_0 L).view.set]{fullShare} g))
    ∗ (∃ g : Buf (Elt F) ((dst_14_1 L).view.loc (thr d L)), ⌜∀ x ∈ (dst_14_1 L).view.set, g x = (GT A : Buf (Elt F) (outL d)) x⌝ ∗ ((dst_14_1 L).view.loc (thr d L) ↦[(dst_14_1 L).view.set]{fullShare} g))
    ∗ (∃ g : Buf (Elt F) ((dst_15_0 L).view.loc (thr d L)), ⌜∀ x ∈ (dst_15_0 L).view.set, g x = (GT A : Buf (Elt F) (outL d)) x⌝ ∗ ((dst_15_0 L).view.loc (thr d L) ↦[(dst_15_0 L).view.set]{fullShare} g))
    ∗ (∃ g : Buf (Elt F) ((dst_15_1 L).view.loc (thr d L)), ⌜∀ x ∈ (dst_15_1 L).view.set, g x = (GT A : Buf (Elt F) (outL d)) x⌝ ∗ ((dst_15_1 L).view.loc (thr d L) ↦[(dst_15_1 L).view.set]{fullShare} g))
    ∗ (∃ g : Buf (Elt F) ((dst_16_0 L).view.loc (thr d L)), ⌜∀ x ∈ (dst_16_0 L).view.set, g x = (GT A : Buf (Elt F) (outL d)) x⌝ ∗ ((dst_16_0 L).view.loc (thr d L) ↦[(dst_16_0 L).view.set]{fullShare} g))
    ∗ (∃ g : Buf (Elt F) ((dst_16_1 L).view.loc (thr d L)), ⌜∀ x ∈ (dst_16_1 L).view.set, g x = (GT A : Buf (Elt F) (outL d)) x⌝ ∗ ((dst_16_1 L).view.loc (thr d L) ↦[(dst_16_1 L).view.set]{fullShare} g))
    ∗ (∃ g : Buf (Elt F) ((dst_17_0 L).view.loc (thr d L)), ⌜∀ x ∈ (dst_17_0 L).view.set, g x = (GT A : Buf (Elt F) (outL d)) x⌝ ∗ ((dst_17_0 L).view.loc (thr d L) ↦[(dst_17_0 L).view.set]{fullShare} g))
    ∗ (∃ g : Buf (Elt F) ((dst_17_1 L).view.loc (thr d L)), ⌜∀ x ∈ (dst_17_1 L).view.set, g x = (GT A : Buf (Elt F) (outL d)) x⌝ ∗ ((dst_17_1 L).view.loc (thr d L) ↦[(dst_17_1 L).view.set]{fullShare} g))
    ∗ (∃ g : Buf (Elt F) ((dst_18_0 L).view.loc (thr d L)), ⌜∀ x ∈ (dst_18_0 L).view.set, g x = (GT A : Buf (Elt F) (outL d)) x⌝ ∗ ((dst_18_0 L).view.loc (thr d L) ↦[(dst_18_0 L).view.set]{fullShare} g))
    ∗ (∃ g : Buf (Elt F) ((dst_18_1 L).view.loc (thr d L)), ⌜∀ x ∈ (dst_18_1 L).view.set, g x = (GT A : Buf (Elt F) (outL d)) x⌝ ∗ ((dst_18_1 L).view.loc (thr d L) ↦[(dst_18_1 L).view.set]{fullShare} g))
    ∗ (∃ g : Buf (Elt F) ((dst_19_0 L).view.loc (thr d L)), ⌜∀ x ∈ (dst_19_0 L).view.set, g x = (GT A : Buf (Elt F) (outL d)) x⌝ ∗ ((dst_19_0 L).view.loc (thr d L) ↦[(dst_19_0 L).view.set]{fullShare} g))
    ∗ (∃ g : Buf (Elt F) ((dst_19_1 L).view.loc (thr d L)), ⌜∀ x ∈ (dst_19_1 L).view.set, g x = (GT A : Buf (Elt F) (outL d)) x⌝ ∗ ((dst_19_1 L).view.loc (thr d L) ↦[(dst_19_1 L).view.set]{fullShare} g))
    ∗ (∃ g : Buf (Elt F) ((dst_20_0 L).view.loc (thr d L)), ⌜∀ x ∈ (dst_20_0 L).view.set, g x = (GT A : Buf (Elt F) (outL d)) x⌝ ∗ ((dst_20_0 L).view.loc (thr d L) ↦[(dst_20_0 L).view.set]{fullShare} g))
    ∗ (∃ g : Buf (Elt F) ((dst_20_1 L).view.loc (thr d L)), ⌜∀ x ∈ (dst_20_1 L).view.set, g x = (GT A : Buf (Elt F) (outL d)) x⌝ ∗ ((dst_20_1 L).view.loc (thr d L) ↦[(dst_20_1 L).view.set]{fullShare} g))
    ∗ (∃ g : Buf (Elt F) ((dst_21_0 L).view.loc (thr d L)), ⌜∀ x ∈ (dst_21_0 L).view.set, g x = (GT A : Buf (Elt F) (outL d)) x⌝ ∗ ((dst_21_0 L).view.loc (thr d L) ↦[(dst_21_0 L).view.set]{fullShare} g))
    ∗ (∃ g : Buf (Elt F) ((dst_21_1 L).view.loc (thr d L)), ⌜∀ x ∈ (dst_21_1 L).view.set, g x = (GT A : Buf (Elt F) (outL d)) x⌝ ∗ ((dst_21_1 L).view.loc (thr d L) ↦[(dst_21_1 L).view.set]{fullShare} g))
    ∗ (∃ g : Buf (Elt F) ((dst_22_0 L).view.loc (thr d L)), ⌜∀ x ∈ (dst_22_0 L).view.set, g x = (GT A : Buf (Elt F) (outL d)) x⌝ ∗ ((dst_22_0 L).view.loc (thr d L) ↦[(dst_22_0 L).view.set]{fullShare} g))
    ∗ (∃ g : Buf (Elt F) ((dst_22_1 L).view.loc (thr d L)), ⌜∀ x ∈ (dst_22_1 L).view.set, g x = (GT A : Buf (Elt F) (outL d)) x⌝ ∗ ((dst_22_1 L).view.loc (thr d L) ↦[(dst_22_1 L).view.set]{fullShare} g))
    ∗ (∃ g : Buf (Elt F) ((dst_23_0 L).view.loc (thr d L)), ⌜∀ x ∈ (dst_23_0 L).view.set, g x = (GT A : Buf (Elt F) (outL d)) x⌝ ∗ ((dst_23_0 L).view.loc (thr d L) ↦[(dst_23_0 L).view.set]{fullShare} g))
    ∗ (∃ g : Buf (Elt F) ((dst_23_1 L).view.loc (thr d L)), ⌜∀ x ∈ (dst_23_1 L).view.set, g x = (GT A : Buf (Elt F) (outL d)) x⌝ ∗ ((dst_23_1 L).view.loc (thr d L) ↦[(dst_23_1 L).view.set]{fullShare} g))
    ∗ (∃ g : Buf (Elt F) ((dst_24_0 L).view.loc (thr d L)), ⌜∀ x ∈ (dst_24_0 L).view.set, g x = (GT A : Buf (Elt F) (outL d)) x⌝ ∗ ((dst_24_0 L).view.loc (thr d L) ↦[(dst_24_0 L).view.set]{fullShare} g))
    ∗ (∃ g : Buf (Elt F) ((dst_24_1 L).view.loc (thr d L)), ⌜∀ x ∈ (dst_24_1 L).view.set, g x = (GT A : Buf (Elt F) (outL d)) x⌝ ∗ ((dst_24_1 L).view.loc (thr d L) ↦[(dst_24_1 L).view.set]{fullShare} g))
    ∗ (∃ g : Buf (Elt F) ((dst_25_0 L).view.loc (thr d L)), ⌜∀ x ∈ (dst_25_0 L).view.set, g x = (GT A : Buf (Elt F) (outL d)) x⌝ ∗ ((dst_25_0 L).view.loc (thr d L) ↦[(dst_25_0 L).view.set]{fullShare} g))
    ∗ (∃ g : Buf (Elt F) ((dst_25_1 L).view.loc (thr d L)), ⌜∀ x ∈ (dst_25_1 L).view.set, g x = (GT A : Buf (Elt F) (outL d)) x⌝ ∗ ((dst_25_1 L).view.loc (thr d L) ↦[(dst_25_1 L).view.set]{fullShare} g))
    ∗ (∃ g : Buf (Elt F) ((dst_26_0 L).view.loc (thr d L)), ⌜∀ x ∈ (dst_26_0 L).view.set, g x = (GT A : Buf (Elt F) (outL d)) x⌝ ∗ ((dst_26_0 L).view.loc (thr d L) ↦[(dst_26_0 L).view.set]{fullShare} g))
    ∗ (∃ g : Buf (Elt F) ((dst_26_1 L).view.loc (thr d L)), ⌜∀ x ∈ (dst_26_1 L).view.set, g x = (GT A : Buf (Elt F) (outL d)) x⌝ ∗ ((dst_26_1 L).view.loc (thr d L) ↦[(dst_26_1 L).view.set]{fullShare} g))
    ∗ (∃ g : Buf (Elt F) ((dst_27_0 L).view.loc (thr d L)), ⌜∀ x ∈ (dst_27_0 L).view.set, g x = (GT A : Buf (Elt F) (outL d)) x⌝ ∗ ((dst_27_0 L).view.loc (thr d L) ↦[(dst_27_0 L).view.set]{fullShare} g))
    ∗ (∃ g : Buf (Elt F) ((dst_27_1 L).view.loc (thr d L)), ⌜∀ x ∈ (dst_27_1 L).view.set, g x = (GT A : Buf (Elt F) (outL d)) x⌝ ∗ ((dst_27_1 L).view.loc (thr d L) ↦[(dst_27_1 L).view.set]{fullShare} g))
    ∗ (∃ g : Buf (Elt F) ((dst_28_0 L).view.loc (thr d L)), ⌜∀ x ∈ (dst_28_0 L).view.set, g x = (GT A : Buf (Elt F) (outL d)) x⌝ ∗ ((dst_28_0 L).view.loc (thr d L) ↦[(dst_28_0 L).view.set]{fullShare} g))
    ∗ (∃ g : Buf (Elt F) ((dst_28_1 L).view.loc (thr d L)), ⌜∀ x ∈ (dst_28_1 L).view.set, g x = (GT A : Buf (Elt F) (outL d)) x⌝ ∗ ((dst_28_1 L).view.loc (thr d L) ↦[(dst_28_1 L).view.set]{fullShare} g))
    ∗ (∃ g : Buf (Elt F) ((dst_29_0 L).view.loc (thr d L)), ⌜∀ x ∈ (dst_29_0 L).view.set, g x = (GT A : Buf (Elt F) (outL d)) x⌝ ∗ ((dst_29_0 L).view.loc (thr d L) ↦[(dst_29_0 L).view.set]{fullShare} g))
    ∗ (∃ g : Buf (Elt F) ((dst_29_1 L).view.loc (thr d L)), ⌜∀ x ∈ (dst_29_1 L).view.set, g x = (GT A : Buf (Elt F) (outL d)) x⌝ ∗ ((dst_29_1 L).view.loc (thr d L) ↦[(dst_29_1 L).view.set]{fullShare} g))
    ∗ (∃ g : Buf (Elt F) ((dst_30_0 L).view.loc (thr d L)), ⌜∀ x ∈ (dst_30_0 L).view.set, g x = (GT A : Buf (Elt F) (outL d)) x⌝ ∗ ((dst_30_0 L).view.loc (thr d L) ↦[(dst_30_0 L).view.set]{fullShare} g))
    ∗ (∃ g : Buf (Elt F) ((dst_30_1 L).view.loc (thr d L)), ⌜∀ x ∈ (dst_30_1 L).view.set, g x = (GT A : Buf (Elt F) (outL d)) x⌝ ∗ ((dst_30_1 L).view.loc (thr d L) ↦[(dst_30_1 L).view.set]{fullShare} g))
    ∗ (∃ g : Buf (Elt F) ((dst_31_0 L).view.loc (thr d L)), ⌜∀ x ∈ (dst_31_0 L).view.set, g x = (GT A : Buf (Elt F) (outL d)) x⌝ ∗ ((dst_31_0 L).view.loc (thr d L) ↦[(dst_31_0 L).view.set]{fullShare} g))
    ∗ (∃ g : Buf (Elt F) ((dst_31_1 L).view.loc (thr d L)), ⌜∀ x ∈ (dst_31_1 L).view.set, g x = (GT A : Buf (Elt F) (outL d)) x⌝ ∗ ((dst_31_1 L).view.loc (thr d L) ↦[(dst_31_1 L).view.set]{fullShare} g))
    ∗ (∃ g : Buf (Elt F) ((dst_32_0 L).view.loc (thr d L)), ⌜∀ x ∈ (dst_32_0 L).view.set, g x = (GT A : Buf (Elt F) (outL d)) x⌝ ∗ ((dst_32_0 L).view.loc (thr d L) ↦[(dst_32_0 L).view.set]{fullShare} g))
    ∗ (∃ g : Buf (Elt F) ((dst_32_1 L).view.loc (thr d L)), ⌜∀ x ∈ (dst_32_1 L).view.set, g x = (GT A : Buf (Elt F) (outL d)) x⌝ ∗ ((dst_32_1 L).view.loc (thr d L) ↦[(dst_32_1 L).view.set]{fullShare} g))
    ∗ (∃ g : Buf (Elt F) ((dst_33_0 L).view.loc (thr d L)), ⌜∀ x ∈ (dst_33_0 L).view.set, g x = (GT A : Buf (Elt F) (outL d)) x⌝ ∗ ((dst_33_0 L).view.loc (thr d L) ↦[(dst_33_0 L).view.set]{fullShare} g))
    ∗ (∃ g : Buf (Elt F) ((dst_33_1 L).view.loc (thr d L)), ⌜∀ x ∈ (dst_33_1 L).view.set, g x = (GT A : Buf (Elt F) (outL d)) x⌝ ∗ ((dst_33_1 L).view.loc (thr d L) ↦[(dst_33_1 L).view.set]{fullShare} g))
    ∗ (∃ g : Buf (Elt F) ((dst_34_0 L).view.loc (thr d L)), ⌜∀ x ∈ (dst_34_0 L).view.set, g x = (GT A : Buf (Elt F) (outL d)) x⌝ ∗ ((dst_34_0 L).view.loc (thr d L) ↦[(dst_34_0 L).view.set]{fullShare} g))
    ∗ (∃ g : Buf (Elt F) ((dst_34_1 L).view.loc (thr d L)), ⌜∀ x ∈ (dst_34_1 L).view.set, g x = (GT A : Buf (Elt F) (outL d)) x⌝ ∗ ((dst_34_1 L).view.loc (thr d L) ↦[(dst_34_1 L).view.set]{fullShare} g))
    ∗ (∃ g : Buf (Elt F) ((dst_35_0 L).view.loc (thr d L)), ⌜∀ x ∈ (dst_35_0 L).view.set, g x = (GT A : Buf (Elt F) (outL d)) x⌝ ∗ ((dst_35_0 L).view.loc (thr d L) ↦[(dst_35_0 L).view.set]{fullShare} g))
    ∗ (∃ g : Buf (Elt F) ((dst_35_1 L).view.loc (thr d L)), ⌜∀ x ∈ (dst_35_1 L).view.set, g x = (GT A : Buf (Elt F) (outL d)) x⌝ ∗ ((dst_35_1 L).view.loc (thr d L) ↦[(dst_35_1 L).view.set]{fullShare} g))
    ∗ (∃ g : Buf (Elt F) ((dst_36_0 L).view.loc (thr d L)), ⌜∀ x ∈ (dst_36_0 L).view.set, g x = (GT A : Buf (Elt F) (outL d)) x⌝ ∗ ((dst_36_0 L).view.loc (thr d L) ↦[(dst_36_0 L).view.set]{fullShare} g))
    ∗ (∃ g : Buf (Elt F) ((dst_36_1 L).view.loc (thr d L)), ⌜∀ x ∈ (dst_36_1 L).view.set, g x = (GT A : Buf (Elt F) (outL d)) x⌝ ∗ ((dst_36_1 L).view.loc (thr d L) ↦[(dst_36_1 L).view.set]{fullShare} g))
    ∗ (∃ g : Buf (Elt F) ((dst_37_0 L).view.loc (thr d L)), ⌜∀ x ∈ (dst_37_0 L).view.set, g x = (GT A : Buf (Elt F) (outL d)) x⌝ ∗ ((dst_37_0 L).view.loc (thr d L) ↦[(dst_37_0 L).view.set]{fullShare} g))
    ∗ (∃ g : Buf (Elt F) ((dst_37_1 L).view.loc (thr d L)), ⌜∀ x ∈ (dst_37_1 L).view.set, g x = (GT A : Buf (Elt F) (outL d)) x⌝ ∗ ((dst_37_1 L).view.loc (thr d L) ↦[(dst_37_1 L).view.set]{fullShare} g))
    ∗ (∃ g : Buf (Elt F) ((dst_38_0 L).view.loc (thr d L)), ⌜∀ x ∈ (dst_38_0 L).view.set, g x = (GT A : Buf (Elt F) (outL d)) x⌝ ∗ ((dst_38_0 L).view.loc (thr d L) ↦[(dst_38_0 L).view.set]{fullShare} g))
    ∗ (∃ g : Buf (Elt F) ((dst_38_1 L).view.loc (thr d L)), ⌜∀ x ∈ (dst_38_1 L).view.set, g x = (GT A : Buf (Elt F) (outL d)) x⌝ ∗ ((dst_38_1 L).view.loc (thr d L) ↦[(dst_38_1 L).view.set]{fullShare} g))
    ∗ (∃ g : Buf (Elt F) ((dst_39_0 L).view.loc (thr d L)), ⌜∀ x ∈ (dst_39_0 L).view.set, g x = (GT A : Buf (Elt F) (outL d)) x⌝ ∗ ((dst_39_0 L).view.loc (thr d L) ↦[(dst_39_0 L).view.set]{fullShare} g))
    ∗ (∃ g : Buf (Elt F) ((dst_39_1 L).view.loc (thr d L)), ⌜∀ x ∈ (dst_39_1 L).view.set, g x = (GT A : Buf (Elt F) (outL d)) x⌝ ∗ ((dst_39_1 L).view.loc (thr d L) ↦[(dst_39_1 L).view.set]{fullShare} g)))

end Cert.Proof.KB

end
-- ==== Proof.KB.Scoped.lean ====
/-
  A vector subcore's scoped storage, opened into the pieces the task's body names: its ten scratch
  buffers, each whole at some contents, and its fifty-eight DMA semaphore cells, each at zero; whatever else the
  subcore's scope holds stays behind one opaque remainder. The opening is an equation, so it closes again.

  The argument: an iterated separating conjunction over a finite set `s` is, for any duplicate-free list `l` of
  members of `s`, the right-nested conjunction of the list's summands and the iterated conjunction over `s` without
  the list (induction on the list, one member split off at a time). The two lists here are literal; that they are
  duplicate-free, scoped and the subcore's own is decided on the literal signature.
-/
import proofs.«207382_g17746804867166_cont_8to1_1179_25_alg».proof.Proof.KB.Iface

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

/-! ## Right-nested conjunctions of a list, and a finite set's conjunction split along a list -/

section Chain

variable {M : Type} [URA M]

/-- `P₁ ∗ ⋯ ∗ Pₙ ∗ R`, nested to the right. -/
def chain : List (sProp M) → sProp M → sProp M
  | [], R => R
  | P :: l, R => iprop(P ∗ chain l R)

theorem sep_assoc_eq (P Q R : sProp M) : iprop((P ∗ Q) ∗ R) = iprop(P ∗ Q ∗ R) :=
  Std.Associative.assoc (op := fun a b : sProp M => BI.sep a b) P Q R
theorem sep_comm_eq (P Q : sProp M) : iprop(P ∗ Q) = iprop(Q ∗ P) :=
  Std.Commutative.comm (op := fun a b : sProp M => BI.sep a b) P Q
theorem sep_left_comm_eq (P Q R : sProp M) : iprop(P ∗ Q ∗ R) = iprop(Q ∗ P ∗ R) := by
  rw [← sep_assoc_eq, sep_comm_eq P Q, sep_assoc_eq]

/-- A further conjunct on the right goes to the end of the chain. -/
theorem chain_sep (l : List (sProp M)) (R X : sProp M) : iprop(chain l R ∗ X) = chain l iprop(R ∗ X) := by
  induction l with
  | nil => rfl
  | cons P l ih =>
    show iprop((P ∗ chain l R) ∗ X) = iprop(P ∗ chain l iprop(R ∗ X))
    rw [← ih]; exact sep_assoc_eq _ _ _

/-- A further conjunct on the left goes to the head of the chain's end. -/
theorem sep_chain (l : List (sProp M)) (R X : sProp M) : iprop(X ∗ chain l R) = chain l iprop(X ∗ R) := by
  induction l with
  | nil => rfl
  | cons P l ih =>
    show iprop(X ∗ P ∗ chain l R) = iprop(P ∗ chain l iprop(X ∗ R))
    rw [← ih]; exact sep_left_comm_eq _ _ _

/-- Two chains side by side are one chain, the first's summands, then the second's, then both ends. -/
theorem chain_sep_chain (l l' : List (sProp M)) (R R' : sProp M) :
    iprop(chain l R ∗ chain l' R') = chain l (chain l' iprop(R ∗ R')) :=
  (chain_sep l R _).trans (congrArg (chain l) (sep_chain l' R' R))

/-- The conjunction over a finite set, split along a duplicate-free list of its members. -/
theorem bigSep_chain {I : Type} [DecidableEq I] (Φ : I → sProp M) (l : List I) (hl : l.Nodup) (s : Finset I) (hs : ∀ x ∈ l, x ∈ s) :
    bigSep s Φ = chain (l.map Φ) (bigSep (s \ l.toFinset) Φ) := by
  induction l generalizing s with
  | nil => rw [List.toFinset_nil, Finset.sdiff_empty]; rfl
  | cons x l ih =>
    have hx : x ∉ l := (List.nodup_cons.mp hl).1
    rw [SparseCore.bigSep_erase' (hs x List.mem_cons_self),
      ih (List.nodup_cons.mp hl).2 (s.erase x) fun y hy =>
        Finset.mem_erase.mpr ⟨fun e => hx (e ▸ hy), hs y (List.mem_cons_of_mem _ hy)⟩]
    have e : s.erase x \ l.toFinset = s \ (x :: l).toFinset := by
      ext y; simp only [Finset.mem_sdiff, Finset.mem_erase, List.toFinset_cons, Finset.mem_insert, List.mem_toFinset]; tauto
    rw [e]; rfl

end Chain

variable {F : FTy → Type}

local notation "𝕄" => MT nD τ sig (HIx 1) (Elt F) ℕ UU ℕ

/-! ## The two literal lists -/

/-- The task's ten scratch buffers. -/
def bufRefs : List (Ref sig .scVector) :=
  [cc0_scratch0, cc0_scratch1, cc0_scratch2, cc0_scratch3, cc0_scratch4, cc0_scratch5, cc0_scratch6, cc0_scratch7, cc0_scratch8, cc0_scratch9]

/-- The task's fifty-eight DMA semaphores: the three scratch operands', then the fifty-five regions'. -/
def dmaSems : List (DmaSem sig) :=
  [cc0_scratch10.sem, cc0_scratch11.sem, cc0_scratch12.sem, cc0_scoped0.sem, cc0_scoped1.sem, cc0_scoped2.sem,
   cc0_scoped3.sem, cc0_scoped4.sem, cc0_scoped5.sem, cc0_scoped6.sem, cc0_scoped7.sem, cc0_scoped8.sem,
   cc0_scoped9.sem, cc0_scoped10.sem, cc0_scoped11.sem, cc0_scoped12.sem, cc0_scoped13.sem, cc0_scoped14.sem,
   cc0_scoped15.sem, cc0_scoped16.sem, cc0_scoped17.sem, cc0_scoped18.sem, cc0_scoped19.sem, cc0_scoped20.sem,
   cc0_scoped21.sem, cc0_scoped22.sem, cc0_scoped23.sem, cc0_scoped24.sem, cc0_scoped25.sem, cc0_scoped26.sem,
   cc0_scoped27.sem, cc0_scoped28.sem, cc0_scoped29.sem, cc0_scoped30.sem, cc0_scoped31.sem, cc0_scoped32.sem,
   cc0_scoped33.sem, cc0_scoped34.sem, cc0_scoped35.sem, cc0_scoped36.sem, cc0_scoped37.sem, cc0_scoped38.sem,
   cc0_scoped39.sem, cc0_scoped40.sem, cc0_scoped41.sem, cc0_scoped42.sem, cc0_scoped43.sem, cc0_scoped44.sem,
   cc0_scoped45.sem, cc0_scoped46.sem, cc0_scoped47.sem, cc0_scoped48.sem, cc0_scoped49.sem, cc0_scoped50.sem,
   cc0_scoped51.sem, cc0_scoped52.sem, cc0_scoped53.sem, cc0_scoped54.sem]

theorem bufRefs_nodup : bufRefs.Nodup := by decide
theorem dmaSems_nodup : dmaSems.Nodup := by decide
/-- Every one of them is scoped on a vector subcore. -/
theorem dmaSems_scoped : ∀ s ∈ dmaSems, (SemLoc.dma s : SemLoc sig).isScoped .scVector = true := by decide

/-- The buffers as a vector subcore's, -/
def bufL (c : Fin τ.nSC) (i : Fin τ.nSub) : List (DevRef τ sig) := bufRefs.map (Proc.scVector c i).devRef
/-- the semaphores as its cells. -/
def semL (d : Dev nD) (c : Fin τ.nSC) (i : Fin τ.nSub) : List (GSem nD τ sig) := dmaSems.map fun s => (V d c i, SemLoc.dma s)

theorem bufL_nodup (c : Fin τ.nSC) (i : Fin τ.nSub) : (bufL c i).Nodup :=
  bufRefs_nodup.map (Proc.devRef_injective _)
theorem semL_nodup (d : Dev nD) (c : Fin τ.nSC) (i : Fin τ.nSub) : (semL d c i).Nodup :=
  dmaSems_nodup.map fun _ _ e => SemLoc.dma.inj (Prod.mk.inj e).2

/-- Each buffer is the subcore's own, -/
theorem bufL_own (c : Fin τ.nSC) (i : Fin τ.nSub) : ∀ b ∈ bufL c i, b ∈ ownRefs (sig := sig) (Proc.scVector c i) := by
  intro b hb
  obtain ⟨r, hr, rfl⟩ := List.mem_map.mp hb
  refine SparseCore.Cfg.mem_ownRefs_of_owner ?_
  simp only [bufRefs, List.mem_cons, List.not_mem_nil, or_false] at hr
  rcases hr with rfl | rfl | rfl | rfl | rfl | rfl | rfl | rfl | rfl | rfl <;> rfl
/-- each cell one of its own scoped cells. -/
theorem semL_own (d : Dev nD) (c : Fin τ.nSC) (i : Fin τ.nSub) : ∀ g ∈ semL d c i, g ∈ ownCells (V d c i) := by
  intro g hg
  obtain ⟨s, hs, rfl⟩ := List.mem_map.mp hg
  exact mem_ownCells.mpr ⟨rfl, dmaSems_scoped s hs⟩

/-! ## The subcore's scoped storage, opened and closed -/

/-- What the subcore's scope holds beyond the task's buffers and semaphores: its other buffers, whole at some
    contents, and its other scoped cells, at zero. -/
def restV (d : Dev nD) (c : Fin τ.nSC) (i : Fin τ.nSub) : sProp 𝕄 :=
  iprop(bigSep (ownRefs (sig := sig) (Proc.scVector c i) \ (bufL c i).toFinset) (fun b => iprop(∃ f, ((d, b) : Loc nD τ sig) ↦{fullShare} f))
    ∗ bigSep (ownCells (V d c i) \ (semL d c i).toFinset) fun g => semVal g 0)

/-- The subcore's scoped storage is the ten buffers, the fifty-eight cells, and the rest. -/
theorem scoped_eq (hF : (K (F := F)).Facts) (d : Dev nD) (c : Fin τ.nSC) (i : Fin τ.nSub) :
    (iprop(scopedBufs (V d c i) ∗ scopedSems0 (V d c i)) : sProp 𝕄)
      = iprop((∃ f, (V d c i).loc cc0_scratch0 ↦{fullShare} f) ∗ (∃ f, (V d c i).loc cc0_scratch1 ↦{fullShare} f) ∗ (∃ f, (V d c i).loc cc0_scratch2 ↦{fullShare} f) ∗
      (∃ f, (V d c i).loc cc0_scratch3 ↦{fullShare} f) ∗ (∃ f, (V d c i).loc cc0_scratch4 ↦{fullShare} f) ∗ (∃ f, (V d c i).loc cc0_scratch5 ↦{fullShare} f) ∗
      (∃ f, (V d c i).loc cc0_scratch6 ↦{fullShare} f) ∗ (∃ f, (V d c i).loc cc0_scratch7 ↦{fullShare} f) ∗ (∃ f, (V d c i).loc cc0_scratch8 ↦{fullShare} f) ∗
      (∃ f, (V d c i).loc cc0_scratch9 ↦{fullShare} f) ∗ semVal (V d c i, SemLoc.dma cc0_scratch10.sem) 0 ∗ semVal (V d c i, SemLoc.dma cc0_scratch11.sem) 0 ∗
      semVal (V d c i, SemLoc.dma cc0_scratch12.sem) 0 ∗ semVal (V d c i, SemLoc.dma cc0_scoped0.sem) 0 ∗ semVal (V d c i, SemLoc.dma cc0_scoped1.sem) 0 ∗
      semVal (V d c i, SemLoc.dma cc0_scoped2.sem) 0 ∗ semVal (V d c i, SemLoc.dma cc0_scoped3.sem) 0 ∗ semVal (V d c i, SemLoc.dma cc0_scoped4.sem) 0 ∗
      semVal (V d c i, SemLoc.dma cc0_scoped5.sem) 0 ∗ semVal (V d c i, SemLoc.dma cc0_scoped6.sem) 0 ∗ semVal (V d c i, SemLoc.dma cc0_scoped7.sem) 0 ∗
      semVal (V d c i, SemLoc.dma cc0_scoped8.sem) 0 ∗ semVal (V d c i, SemLoc.dma cc0_scoped9.sem) 0 ∗ semVal (V d c i, SemLoc.dma cc0_scoped10.sem) 0 ∗
      semVal (V d c i, SemLoc.dma cc0_scoped11.sem) 0 ∗ semVal (V d c i, SemLoc.dma cc0_scoped12.sem) 0 ∗ semVal (V d c i, SemLoc.dma cc0_scoped13.sem) 0 ∗
      semVal (V d c i, SemLoc.dma cc0_scoped14.sem) 0 ∗ semVal (V d c i, SemLoc.dma cc0_scoped15.sem) 0 ∗ semVal (V d c i, SemLoc.dma cc0_scoped16.sem) 0 ∗
      semVal (V d c i, SemLoc.dma cc0_scoped17.sem) 0 ∗ semVal (V d c i, SemLoc.dma cc0_scoped18.sem) 0 ∗ semVal (V d c i, SemLoc.dma cc0_scoped19.sem) 0 ∗
      semVal (V d c i, SemLoc.dma cc0_scoped20.sem) 0 ∗ semVal (V d c i, SemLoc.dma cc0_scoped21.sem) 0 ∗ semVal (V d c i, SemLoc.dma cc0_scoped22.sem) 0 ∗
      semVal (V d c i, SemLoc.dma cc0_scoped23.sem) 0 ∗ semVal (V d c i, SemLoc.dma cc0_scoped24.sem) 0 ∗ semVal (V d c i, SemLoc.dma cc0_scoped25.sem) 0 ∗
      semVal (V d c i, SemLoc.dma cc0_scoped26.sem) 0 ∗ semVal (V d c i, SemLoc.dma cc0_scoped27.sem) 0 ∗ semVal (V d c i, SemLoc.dma cc0_scoped28.sem) 0 ∗
      semVal (V d c i, SemLoc.dma cc0_scoped29.sem) 0 ∗ semVal (V d c i, SemLoc.dma cc0_scoped30.sem) 0 ∗ semVal (V d c i, SemLoc.dma cc0_scoped31.sem) 0 ∗
      semVal (V d c i, SemLoc.dma cc0_scoped32.sem) 0 ∗ semVal (V d c i, SemLoc.dma cc0_scoped33.sem) 0 ∗ semVal (V d c i, SemLoc.dma cc0_scoped34.sem) 0 ∗
      semVal (V d c i, SemLoc.dma cc0_scoped35.sem) 0 ∗ semVal (V d c i, SemLoc.dma cc0_scoped36.sem) 0 ∗ semVal (V d c i, SemLoc.dma cc0_scoped37.sem) 0 ∗
      semVal (V d c i, SemLoc.dma cc0_scoped38.sem) 0 ∗ semVal (V d c i, SemLoc.dma cc0_scoped39.sem) 0 ∗ semVal (V d c i, SemLoc.dma cc0_scoped40.sem) 0 ∗
      semVal (V d c i, SemLoc.dma cc0_scoped41.sem) 0 ∗ semVal (V d c i, SemLoc.dma cc0_scoped42.sem) 0 ∗ semVal (V d c i, SemLoc.dma cc0_scoped43.sem) 0 ∗
      semVal (V d c i, SemLoc.dma cc0_scoped44.sem) 0 ∗ semVal (V d c i, SemLoc.dma cc0_scoped45.sem) 0 ∗ semVal (V d c i, SemLoc.dma cc0_scoped46.sem) 0 ∗
      semVal (V d c i, SemLoc.dma cc0_scoped47.sem) 0 ∗ semVal (V d c i, SemLoc.dma cc0_scoped48.sem) 0 ∗ semVal (V d c i, SemLoc.dma cc0_scoped49.sem) 0 ∗
      semVal (V d c i, SemLoc.dma cc0_scoped50.sem) 0 ∗ semVal (V d c i, SemLoc.dma cc0_scoped51.sem) 0 ∗ semVal (V d c i, SemLoc.dma cc0_scoped52.sem) 0 ∗
      semVal (V d c i, SemLoc.dma cc0_scoped53.sem) 0 ∗ semVal (V d c i, SemLoc.dma cc0_scoped54.sem) 0 ∗ restV d c i) := by
  rw [(K (F := F)).scopedBufs_V hF d c i, SparseCore.Cfg.scopedSems0_V (Val := Elt F) d c i]
  unfold SparseCore.Cfg.ownBufs SparseCore.Cfg.ownSems0
  rw [bigSep_chain _ (bufL c i) (bufL_nodup c i) _ (bufL_own c i), bigSep_chain _ (semL d c i) (semL_nodup d c i) _ (semL_own d c i),
    chain_sep_chain]
  rfl

theorem scoped_open (hF : (K (F := F)).Facts) (d : Dev nD) (c : Fin τ.nSC) (i : Fin τ.nSub) :
    (iprop(scopedBufs (V d c i) ∗ scopedSems0 (V d c i)) : sProp 𝕄)
      ⊢ iprop((∃ f, (V d c i).loc cc0_scratch0 ↦{fullShare} f) ∗ (∃ f, (V d c i).loc cc0_scratch1 ↦{fullShare} f) ∗ (∃ f, (V d c i).loc cc0_scratch2 ↦{fullShare} f) ∗
      (∃ f, (V d c i).loc cc0_scratch3 ↦{fullShare} f) ∗ (∃ f, (V d c i).loc cc0_scratch4 ↦{fullShare} f) ∗ (∃ f, (V d c i).loc cc0_scratch5 ↦{fullShare} f) ∗
      (∃ f, (V d c i).loc cc0_scratch6 ↦{fullShare} f) ∗ (∃ f, (V d c i).loc cc0_scratch7 ↦{fullShare} f) ∗ (∃ f, (V d c i).loc cc0_scratch8 ↦{fullShare} f) ∗
      (∃ f, (V d c i).loc cc0_scratch9 ↦{fullShare} f) ∗ semVal (V d c i, SemLoc.dma cc0_scratch10.sem) 0 ∗ semVal (V d c i, SemLoc.dma cc0_scratch11.sem) 0 ∗
      semVal (V d c i, SemLoc.dma cc0_scratch12.sem) 0 ∗ semVal (V d c i, SemLoc.dma cc0_scoped0.sem) 0 ∗ semVal (V d c i, SemLoc.dma cc0_scoped1.sem) 0 ∗
      semVal (V d c i, SemLoc.dma cc0_scoped2.sem) 0 ∗ semVal (V d c i, SemLoc.dma cc0_scoped3.sem) 0 ∗ semVal (V d c i, SemLoc.dma cc0_scoped4.sem) 0 ∗
      semVal (V d c i, SemLoc.dma cc0_scoped5.sem) 0 ∗ semVal (V d c i, SemLoc.dma cc0_scoped6.sem) 0 ∗ semVal (V d c i, SemLoc.dma cc0_scoped7.sem) 0 ∗
      semVal (V d c i, SemLoc.dma cc0_scoped8.sem) 0 ∗ semVal (V d c i, SemLoc.dma cc0_scoped9.sem) 0 ∗ semVal (V d c i, SemLoc.dma cc0_scoped10.sem) 0 ∗
      semVal (V d c i, SemLoc.dma cc0_scoped11.sem) 0 ∗ semVal (V d c i, SemLoc.dma cc0_scoped12.sem) 0 ∗ semVal (V d c i, SemLoc.dma cc0_scoped13.sem) 0 ∗
      semVal (V d c i, SemLoc.dma cc0_scoped14.sem) 0 ∗ semVal (V d c i, SemLoc.dma cc0_scoped15.sem) 0 ∗ semVal (V d c i, SemLoc.dma cc0_scoped16.sem) 0 ∗
      semVal (V d c i, SemLoc.dma cc0_scoped17.sem) 0 ∗ semVal (V d c i, SemLoc.dma cc0_scoped18.sem) 0 ∗ semVal (V d c i, SemLoc.dma cc0_scoped19.sem) 0 ∗
      semVal (V d c i, SemLoc.dma cc0_scoped20.sem) 0 ∗ semVal (V d c i, SemLoc.dma cc0_scoped21.sem) 0 ∗ semVal (V d c i, SemLoc.dma cc0_scoped22.sem) 0 ∗
      semVal (V d c i, SemLoc.dma cc0_scoped23.sem) 0 ∗ semVal (V d c i, SemLoc.dma cc0_scoped24.sem) 0 ∗ semVal (V d c i, SemLoc.dma cc0_scoped25.sem) 0 ∗
      semVal (V d c i, SemLoc.dma cc0_scoped26.sem) 0 ∗ semVal (V d c i, SemLoc.dma cc0_scoped27.sem) 0 ∗ semVal (V d c i, SemLoc.dma cc0_scoped28.sem) 0 ∗
      semVal (V d c i, SemLoc.dma cc0_scoped29.sem) 0 ∗ semVal (V d c i, SemLoc.dma cc0_scoped30.sem) 0 ∗ semVal (V d c i, SemLoc.dma cc0_scoped31.sem) 0 ∗
      semVal (V d c i, SemLoc.dma cc0_scoped32.sem) 0 ∗ semVal (V d c i, SemLoc.dma cc0_scoped33.sem) 0 ∗ semVal (V d c i, SemLoc.dma cc0_scoped34.sem) 0 ∗
      semVal (V d c i, SemLoc.dma cc0_scoped35.sem) 0 ∗ semVal (V d c i, SemLoc.dma cc0_scoped36.sem) 0 ∗ semVal (V d c i, SemLoc.dma cc0_scoped37.sem) 0 ∗
      semVal (V d c i, SemLoc.dma cc0_scoped38.sem) 0 ∗ semVal (V d c i, SemLoc.dma cc0_scoped39.sem) 0 ∗ semVal (V d c i, SemLoc.dma cc0_scoped40.sem) 0 ∗
      semVal (V d c i, SemLoc.dma cc0_scoped41.sem) 0 ∗ semVal (V d c i, SemLoc.dma cc0_scoped42.sem) 0 ∗ semVal (V d c i, SemLoc.dma cc0_scoped43.sem) 0 ∗
      semVal (V d c i, SemLoc.dma cc0_scoped44.sem) 0 ∗ semVal (V d c i, SemLoc.dma cc0_scoped45.sem) 0 ∗ semVal (V d c i, SemLoc.dma cc0_scoped46.sem) 0 ∗
      semVal (V d c i, SemLoc.dma cc0_scoped47.sem) 0 ∗ semVal (V d c i, SemLoc.dma cc0_scoped48.sem) 0 ∗ semVal (V d c i, SemLoc.dma cc0_scoped49.sem) 0 ∗
      semVal (V d c i, SemLoc.dma cc0_scoped50.sem) 0 ∗ semVal (V d c i, SemLoc.dma cc0_scoped51.sem) 0 ∗ semVal (V d c i, SemLoc.dma cc0_scoped52.sem) 0 ∗
      semVal (V d c i, SemLoc.dma cc0_scoped53.sem) 0 ∗ semVal (V d c i, SemLoc.dma cc0_scoped54.sem) 0 ∗ restV d c i) := by
  rw [scoped_eq hF d c i]

theorem scoped_close (hF : (K (F := F)).Facts) (d : Dev nD) (c : Fin τ.nSC) (i : Fin τ.nSub) :
    (iprop((∃ f, (V d c i).loc cc0_scratch0 ↦{fullShare} f) ∗ (∃ f, (V d c i).loc cc0_scratch1 ↦{fullShare} f) ∗ (∃ f, (V d c i).loc cc0_scratch2 ↦{fullShare} f) ∗
      (∃ f, (V d c i).loc cc0_scratch3 ↦{fullShare} f) ∗ (∃ f, (V d c i).loc cc0_scratch4 ↦{fullShare} f) ∗ (∃ f, (V d c i).loc cc0_scratch5 ↦{fullShare} f) ∗
      (∃ f, (V d c i).loc cc0_scratch6 ↦{fullShare} f) ∗ (∃ f, (V d c i).loc cc0_scratch7 ↦{fullShare} f) ∗ (∃ f, (V d c i).loc cc0_scratch8 ↦{fullShare} f) ∗
      (∃ f, (V d c i).loc cc0_scratch9 ↦{fullShare} f) ∗ semVal (V d c i, SemLoc.dma cc0_scratch10.sem) 0 ∗ semVal (V d c i, SemLoc.dma cc0_scratch11.sem) 0 ∗
      semVal (V d c i, SemLoc.dma cc0_scratch12.sem) 0 ∗ semVal (V d c i, SemLoc.dma cc0_scoped0.sem) 0 ∗ semVal (V d c i, SemLoc.dma cc0_scoped1.sem) 0 ∗
      semVal (V d c i, SemLoc.dma cc0_scoped2.sem) 0 ∗ semVal (V d c i, SemLoc.dma cc0_scoped3.sem) 0 ∗ semVal (V d c i, SemLoc.dma cc0_scoped4.sem) 0 ∗
      semVal (V d c i, SemLoc.dma cc0_scoped5.sem) 0 ∗ semVal (V d c i, SemLoc.dma cc0_scoped6.sem) 0 ∗ semVal (V d c i, SemLoc.dma cc0_scoped7.sem) 0 ∗
      semVal (V d c i, SemLoc.dma cc0_scoped8.sem) 0 ∗ semVal (V d c i, SemLoc.dma cc0_scoped9.sem) 0 ∗ semVal (V d c i, SemLoc.dma cc0_scoped10.sem) 0 ∗
      semVal (V d c i, SemLoc.dma cc0_scoped11.sem) 0 ∗ semVal (V d c i, SemLoc.dma cc0_scoped12.sem) 0 ∗ semVal (V d c i, SemLoc.dma cc0_scoped13.sem) 0 ∗
      semVal (V d c i, SemLoc.dma cc0_scoped14.sem) 0 ∗ semVal (V d c i, SemLoc.dma cc0_scoped15.sem) 0 ∗ semVal (V d c i, SemLoc.dma cc0_scoped16.sem) 0 ∗
      semVal (V d c i, SemLoc.dma cc0_scoped17.sem) 0 ∗ semVal (V d c i, SemLoc.dma cc0_scoped18.sem) 0 ∗ semVal (V d c i, SemLoc.dma cc0_scoped19.sem) 0 ∗
      semVal (V d c i, SemLoc.dma cc0_scoped20.sem) 0 ∗ semVal (V d c i, SemLoc.dma cc0_scoped21.sem) 0 ∗ semVal (V d c i, SemLoc.dma cc0_scoped22.sem) 0 ∗
      semVal (V d c i, SemLoc.dma cc0_scoped23.sem) 0 ∗ semVal (V d c i, SemLoc.dma cc0_scoped24.sem) 0 ∗ semVal (V d c i, SemLoc.dma cc0_scoped25.sem) 0 ∗
      semVal (V d c i, SemLoc.dma cc0_scoped26.sem) 0 ∗ semVal (V d c i, SemLoc.dma cc0_scoped27.sem) 0 ∗ semVal (V d c i, SemLoc.dma cc0_scoped28.sem) 0 ∗
      semVal (V d c i, SemLoc.dma cc0_scoped29.sem) 0 ∗ semVal (V d c i, SemLoc.dma cc0_scoped30.sem) 0 ∗ semVal (V d c i, SemLoc.dma cc0_scoped31.sem) 0 ∗
      semVal (V d c i, SemLoc.dma cc0_scoped32.sem) 0 ∗ semVal (V d c i, SemLoc.dma cc0_scoped33.sem) 0 ∗ semVal (V d c i, SemLoc.dma cc0_scoped34.sem) 0 ∗
      semVal (V d c i, SemLoc.dma cc0_scoped35.sem) 0 ∗ semVal (V d c i, SemLoc.dma cc0_scoped36.sem) 0 ∗ semVal (V d c i, SemLoc.dma cc0_scoped37.sem) 0 ∗
      semVal (V d c i, SemLoc.dma cc0_scoped38.sem) 0 ∗ semVal (V d c i, SemLoc.dma cc0_scoped39.sem) 0 ∗ semVal (V d c i, SemLoc.dma cc0_scoped40.sem) 0 ∗
      semVal (V d c i, SemLoc.dma cc0_scoped41.sem) 0 ∗ semVal (V d c i, SemLoc.dma cc0_scoped42.sem) 0 ∗ semVal (V d c i, SemLoc.dma cc0_scoped43.sem) 0 ∗
      semVal (V d c i, SemLoc.dma cc0_scoped44.sem) 0 ∗ semVal (V d c i, SemLoc.dma cc0_scoped45.sem) 0 ∗ semVal (V d c i, SemLoc.dma cc0_scoped46.sem) 0 ∗
      semVal (V d c i, SemLoc.dma cc0_scoped47.sem) 0 ∗ semVal (V d c i, SemLoc.dma cc0_scoped48.sem) 0 ∗ semVal (V d c i, SemLoc.dma cc0_scoped49.sem) 0 ∗
      semVal (V d c i, SemLoc.dma cc0_scoped50.sem) 0 ∗ semVal (V d c i, SemLoc.dma cc0_scoped51.sem) 0 ∗ semVal (V d c i, SemLoc.dma cc0_scoped52.sem) 0 ∗
      semVal (V d c i, SemLoc.dma cc0_scoped53.sem) 0 ∗ semVal (V d c i, SemLoc.dma cc0_scoped54.sem) 0 ∗ restV d c i) : sProp 𝕄)
      ⊢ iprop(scopedBufs (V d c i) ∗ scopedSems0 (V d c i)) := by
  rw [scoped_eq hF d c i]

end Cert.Proof.KB

end
-- ==== Proof.KB.Enter.lean ====
/-
  The task's entry and exit. At entry the task holds its operands, its rows of the result array and its subcore's
  scoped storage; the body reads every buffer through the whole-buffer view of the reference that names it, so the entry
  restates each points-to over that view's location (the same location: the equations are definitional), opens the scoped
  storage into the ten scratch buffers, the fifty-eight semaphore cells at zero and the rest, and trades the level
  assignment for the evidence that the task may wait, at the kernels' own index, under whatever it owes. The exit is the
  converse for the postcondition, the scratch buffers at any contents.
-/
import proofs.«207382_g17746804867166_cont_8to1_1179_25_alg».proof.Proof.KB.Scoped

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## A buffer through the whole-buffer view of its reference is the buffer -/

omit [FloatOps F] in
theorem pts_cat (d : Dev nD) (L : grid0.Coords) (S : Finset (Idx (catL d))) (q : PosShare TreeShare) (f : Buf (Elt F) (catL d)) :
    ((Memref.whole main_v1_scv : Memref sig .scVector .hbm S106496 .i32).view.loc (V d (cV L) (jV L)) ↦[S]{q} f : sProp 𝕄) = catL d ↦[S]{q} f := rfl
omit [FloatOps F] in
theorem pts_num (d : Dev nD) (L : grid0.Coords) (S : Finset (Idx (numL d))) (q : PosShare TreeShare) (f : Buf (Elt F) (numL d)) :
    ((Memref.whole main_v3_scv : Memref sig .scVector .hbm S53248 .f32).view.loc (V d (cV L) (jV L)) ↦[S]{q} f : sProp 𝕄) = numL d ↦[S]{q} f := rfl
omit [FloatOps F] in
theorem pts_emb (d : Dev nD) (L : grid0.Coords) (S : Finset (Idx (embL d))) (q : PosShare TreeShare) (f : Buf (Elt F) (embL d)) :
    ((Memref.whole main_v4_scv : Memref sig .scVector .hbm S26x64x100000 .f32).view.loc (V d (cV L) (jV L)) ↦[S]{q} f : sProp 𝕄) = embL d ↦[S]{q} f := rfl
omit [FloatOps F] in
theorem pts_w (d : Dev nD) (L : grid0.Coords) (S : Finset (Idx (wL d))) (q : PosShare TreeShare) (f : Buf (Elt F) (wL d)) :
    ((Memref.whole main_v5_scv : Memref sig .scVector .hbm S832 .f32).view.loc (V d (cV L) (jV L)) ↦[S]{q} f : sProp 𝕄) = wL d ↦[S]{q} f := rfl
omit [FloatOps F] in
theorem pts_b (d : Dev nD) (L : grid0.Coords) (S : Finset (Idx (bL d))) (q : PosShare TreeShare) (f : Buf (Elt F) (bL d)) :
    ((Memref.whole main_v6_scv : Memref sig .scVector .hbm S832 .f32).view.loc (V d (cV L) (jV L)) ↦[S]{q} f : sProp 𝕄) = bL d ↦[S]{q} f := rfl
omit [FloatOps F] in
theorem pts_cls (d : Dev nD) (L : grid0.Coords) (S : Finset (Idx (clsL d))) (q : PosShare TreeShare) (f : Buf (Elt F) (clsL d)) :
    ((Memref.whole main_v7_scv : Memref sig .scVector .hbm S64 .f32).view.loc (V d (cV L) (jV L)) ↦[S]{q} f : sProp 𝕄) = clsL d ↦[S]{q} f := rfl
omit [FloatOps F] in
theorem pts_out (d : Dev nD) (L : grid0.Coords) (S : Finset (Idx (outL d))) (q : PosShare TreeShare) (f : Buf (Elt F) (outL d)) :
    ((Memref.whole main_v8_scv : Memref sig .scVector .hbm S40x64x4096 .f32).view.loc (V d (cV L) (jV L)) ↦[S]{q} f : sProp 𝕄) = outL d ↦[S]{q} f := rfl
omit [FloatOps F] in
theorem pts_s0 (d : Dev nD) (c : Fin τ.nSC) (i : Fin τ.nSub) (f : Buf (Elt F) ((V d c i).loc cc0_scratch0)) :
    ((Memref.whole cc0_scratch0 : Memref sig .scVector .vmem S1x100000 .f32).view.loc (V d c i) ↦{fullShare} f : sProp 𝕄) = (V d c i).loc cc0_scratch0 ↦{fullShare} f := rfl
omit [FloatOps F] in
theorem pts_s1 (d : Dev nD) (c : Fin τ.nSC) (i : Fin τ.nSub) (f : Buf (Elt F) ((V d c i).loc cc0_scratch1)) :
    ((Memref.whole cc0_scratch1 : Memref sig .scVector .vmem S4096 .i32).view.loc (V d c i) ↦{fullShare} f : sProp 𝕄) = (V d c i).loc cc0_scratch1 ↦{fullShare} f := rfl
omit [FloatOps F] in
theorem pts_s2 (d : Dev nD) (c : Fin τ.nSC) (i : Fin τ.nSub) (f : Buf (Elt F) ((V d c i).loc cc0_scratch2)) :
    ((Memref.whole cc0_scratch2 : Memref sig .scVector .vmem S4096 .i32).view.loc (V d c i) ↦{fullShare} f : sProp 𝕄) = (V d c i).loc cc0_scratch2 ↦{fullShare} f := rfl
omit [FloatOps F] in
theorem pts_s3 (d : Dev nD) (c : Fin τ.nSC) (i : Fin τ.nSub) (f : Buf (Elt F) ((V d c i).loc cc0_scratch3)) :
    ((Memref.whole cc0_scratch3 : Memref sig .scVector .vmem S4096 .f32).view.loc (V d c i) ↦{fullShare} f : sProp 𝕄) = (V d c i).loc cc0_scratch3 ↦{fullShare} f := rfl
omit [FloatOps F] in
theorem pts_s4 (d : Dev nD) (c : Fin τ.nSC) (i : Fin τ.nSub) (f : Buf (Elt F) ((V d c i).loc cc0_scratch4)) :
    ((Memref.whole cc0_scratch4 : Memref sig .scVector .vmem S4096 .f32).view.loc (V d c i) ↦{fullShare} f : sProp 𝕄) = (V d c i).loc cc0_scratch4 ↦{fullShare} f := rfl
omit [FloatOps F] in
theorem pts_s5 (d : Dev nD) (c : Fin τ.nSC) (i : Fin τ.nSub) (f : Buf (Elt F) ((V d c i).loc cc0_scratch5)) :
    ((Memref.whole cc0_scratch5 : Memref sig .scVector .vmem S1x4096 .f32).view.loc (V d c i) ↦{fullShare} f : sProp 𝕄) = (V d c i).loc cc0_scratch5 ↦{fullShare} f := rfl
omit [FloatOps F] in
theorem pts_s6 (d : Dev nD) (c : Fin τ.nSC) (i : Fin τ.nSub) (f : Buf (Elt F) ((V d c i).loc cc0_scratch6)) :
    ((Memref.whole cc0_scratch6 : Memref sig .scVector .vmem S1x4096 .f32).view.loc (V d c i) ↦{fullShare} f : sProp 𝕄) = (V d c i).loc cc0_scratch6 ↦{fullShare} f := rfl
omit [FloatOps F] in
theorem pts_s7 (d : Dev nD) (c : Fin τ.nSC) (i : Fin τ.nSub) (f : Buf (Elt F) ((V d c i).loc cc0_scratch7)) :
    ((Memref.whole cc0_scratch7 : Memref sig .scVector .vmem S832 .f32).view.loc (V d c i) ↦{fullShare} f : sProp 𝕄) = (V d c i).loc cc0_scratch7 ↦{fullShare} f := rfl
omit [FloatOps F] in
theorem pts_s8 (d : Dev nD) (c : Fin τ.nSC) (i : Fin τ.nSub) (f : Buf (Elt F) ((V d c i).loc cc0_scratch8)) :
    ((Memref.whole cc0_scratch8 : Memref sig .scVector .vmem S832 .f32).view.loc (V d c i) ↦{fullShare} f : sProp 𝕄) = (V d c i).loc cc0_scratch8 ↦{fullShare} f := rfl
omit [FloatOps F] in
theorem pts_s9 (d : Dev nD) (c : Fin τ.nSC) (i : Fin τ.nSub) (f : Buf (Elt F) ((V d c i).loc cc0_scratch9)) :
    ((Memref.whole cc0_scratch9 : Memref sig .scVector .vmem S64 .f32).view.loc (V d c i) ↦{fullShare} f : sProp 𝕄) = (V d c i).loc cc0_scratch9 ↦{fullShare} f := rfl

omit [FloatOps F] in
theorem ex_s0 (d : Dev nD) (c : Fin τ.nSC) (i : Fin τ.nSub) :
    (iprop(∃ f, (Memref.whole cc0_scratch0 : Memref sig .scVector .vmem S1x100000 .f32).view.loc (V d c i) ↦{fullShare} f) : sProp 𝕄) = iprop(∃ f, (V d c i).loc cc0_scratch0 ↦{fullShare} f) := rfl
omit [FloatOps F] in
theorem ex_s1 (d : Dev nD) (c : Fin τ.nSC) (i : Fin τ.nSub) :
    (iprop(∃ f, (Memref.whole cc0_scratch1 : Memref sig .scVector .vmem S4096 .i32).view.loc (V d c i) ↦{fullShare} f) : sProp 𝕄) = iprop(∃ f, (V d c i).loc cc0_scratch1 ↦{fullShare} f) := rfl
omit [FloatOps F] in
theorem ex_s2 (d : Dev nD) (c : Fin τ.nSC) (i : Fin τ.nSub) :
    (iprop(∃ f, (Memref.whole cc0_scratch2 : Memref sig .scVector .vmem S4096 .i32).view.loc (V d c i) ↦{fullShare} f) : sProp 𝕄) = iprop(∃ f, (V d c i).loc cc0_scratch2 ↦{fullShare} f) := rfl
omit [FloatOps F] in
theorem ex_s3 (d : Dev nD) (c : Fin τ.nSC) (i : Fin τ.nSub) :
    (iprop(∃ f, (Memref.whole cc0_scratch3 : Memref sig .scVector .vmem S4096 .f32).view.loc (V d c i) ↦{fullShare} f) : sProp 𝕄) = iprop(∃ f, (V d c i).loc cc0_scratch3 ↦{fullShare} f) := rfl
omit [FloatOps F] in
theorem ex_s4 (d : Dev nD) (c : Fin τ.nSC) (i : Fin τ.nSub) :
    (iprop(∃ f, (Memref.whole cc0_scratch4 : Memref sig .scVector .vmem S4096 .f32).view.loc (V d c i) ↦{fullShare} f) : sProp 𝕄) = iprop(∃ f, (V d c i).loc cc0_scratch4 ↦{fullShare} f) := rfl
omit [FloatOps F] in
theorem ex_s5 (d : Dev nD) (c : Fin τ.nSC) (i : Fin τ.nSub) :
    (iprop(∃ f, (Memref.whole cc0_scratch5 : Memref sig .scVector .vmem S1x4096 .f32).view.loc (V d c i) ↦{fullShare} f) : sProp 𝕄) = iprop(∃ f, (V d c i).loc cc0_scratch5 ↦{fullShare} f) := rfl
omit [FloatOps F] in
theorem ex_s6 (d : Dev nD) (c : Fin τ.nSC) (i : Fin τ.nSub) :
    (iprop(∃ f, (Memref.whole cc0_scratch6 : Memref sig .scVector .vmem S1x4096 .f32).view.loc (V d c i) ↦{fullShare} f) : sProp 𝕄) = iprop(∃ f, (V d c i).loc cc0_scratch6 ↦{fullShare} f) := rfl
omit [FloatOps F] in
theorem ex_s7 (d : Dev nD) (c : Fin τ.nSC) (i : Fin τ.nSub) :
    (iprop(∃ f, (Memref.whole cc0_scratch7 : Memref sig .scVector .vmem S832 .f32).view.loc (V d c i) ↦{fullShare} f) : sProp 𝕄) = iprop(∃ f, (V d c i).loc cc0_scratch7 ↦{fullShare} f) := rfl
omit [FloatOps F] in
theorem ex_s8 (d : Dev nD) (c : Fin τ.nSC) (i : Fin τ.nSub) :
    (iprop(∃ f, (Memref.whole cc0_scratch8 : Memref sig .scVector .vmem S832 .f32).view.loc (V d c i) ↦{fullShare} f) : sProp 𝕄) = iprop(∃ f, (V d c i).loc cc0_scratch8 ↦{fullShare} f) := rfl
omit [FloatOps F] in
theorem ex_s9 (d : Dev nD) (c : Fin τ.nSC) (i : Fin τ.nSub) :
    (iprop(∃ f, (Memref.whole cc0_scratch9 : Memref sig .scVector .vmem S64 .f32).view.loc (V d c i) ↦{fullShare} f) : sProp 𝕄) = iprop(∃ f, (V d c i).loc cc0_scratch9 ↦{fullShare} f) := rfl

/-! ## The scoped storage as one chain -/

omit [FloatOps F] in
/-- The subcore's scoped storage: the chain of its ten scratch buffers, then of its fifty-eight cells, then the rest. -/
theorem scoped_chain (hF : (K (F := F)).Facts) (d : Dev nD) (c : Fin τ.nSC) (i : Fin τ.nSub) :
    (iprop(scopedBufs (V d c i) ∗ scopedSems0 (V d c i)) : sProp 𝕄)
      = chain ((bufL c i).map fun b => iprop(∃ f, ((d, b) : Loc nD τ sig) ↦{fullShare} f))
          (chain ((semL d c i).map fun g => semVal g 0) (restV d c i)) :=
  (scoped_eq hF d c i).trans rfl

omit [FloatOps F] in
theorem sep_congr {P P' Q Q' : sProp 𝕄} (h₁ : P = P') (h₂ : Q = Q') : iprop(P ∗ Q) = iprop(P' ∗ Q') := by subst h₁ h₂; rfl

/-! ## Entry -/

/-- The entry's resources with the scoped storage as a chain, the task's debt at its end. -/
theorem enter_chain (hF : (K (F := F)).Facts) (A : Arrs F) (fo : FVec F S40x64x4096 .f32) (d : Dev nD) (L : grid0.Coords)
    (O : CellTallies nD τ sig (HIx 1)) (W : Waits sig (HIx 1)) :
    (iprop(tileIn A fo d (widL L) ∗ scopedBufs (V d (cV L) (jV L)) ∗ scopedSems0 (V d (cV L) (jV L)) ∗ owes (V d (cV L) (jV L)) O W) : sProp 𝕄)
      = iprop((catL d ↦{rsh (widL L)} (A.cat : Buf (Elt F) (catL d))) ∗ (numL d ↦{rsh (widL L)} (A.num : Buf (Elt F) (numL d)))
          ∗ (embL d ↦{rsh (widL L)} (A.emb : Buf (Elt F) (embL d))) ∗ (wL d ↦{rsh (widL L)} (A.w : Buf (Elt F) (wL d)))
          ∗ (bL d ↦{rsh (widL L)} (A.b : Buf (Elt F) (bL d))) ∗ (clsL d ↦{rsh (widL L)} (A.cls : Buf (Elt F) (clsL d)))
          ∗ (outL d ↦[oSet (widL L)]{fullShare} (fo : Buf (Elt F) (outL d)))
          ∗ chain ((bufL (cV L) (jV L)).map fun b => iprop(∃ f, ((d, b) : Loc nD τ sig) ↦{fullShare} f))
            (chain ((semL d (cV L) (jV L)).map fun g => semVal g 0) iprop(restV d (cV L) (jV L) ∗ owes (V d (cV L) (jV L)) O W))) := by
  unfold tileIn
  rw [← sep_assoc_eq (scopedBufs (V d (cV L) (jV L))), scoped_chain hF, chain_sep, chain_sep]
  rw [sep_assoc_eq, sep_assoc_eq, sep_assoc_eq, sep_assoc_eq, sep_assoc_eq, sep_assoc_eq]

/-- What the task holds at entry beside the level assignment, with every buffer through its view and the scoped storage opened. -/
theorem enter_eq (hF : (K (F := F)).Facts) (A : Arrs F) (fo : FVec F S40x64x4096 .f32) (d : Dev nD) (L : grid0.Coords)
    (O : CellTallies nD τ sig (HIx 1)) (W : Waits sig (HIx 1)) :
    (iprop(tileIn A fo d (widL L) ∗ scopedBufs (V d (cV L) (jV L)) ∗ scopedSems0 (V d (cV L) (jV L)) ∗ owes (V d (cV L) (jV L)) O W) : sProp 𝕄)
      = iprop(((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (fo : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L) ∗ owes (V d (cV L) (jV L)) O W) := by
  refine (enter_chain hF A fo d L O W).trans (Eq.trans ?_ (sep_congr (pts_cat d L _ _ _) (sep_congr (pts_num d L _ _ _) (sep_congr (pts_emb d L _ _ _) (sep_congr (pts_w d L _ _ _)
      (sep_congr (pts_b d L _ _ _) (sep_congr (pts_cls d L _ _ _) (sep_congr (pts_out d L _ _ _)
      (sep_congr (ex_s0 d _ _) (sep_congr (ex_s1 d _ _) (sep_congr (ex_s2 d _ _) (sep_congr (ex_s3 d _ _) (sep_congr (ex_s4 d _ _) (sep_congr (ex_s5 d _ _) (sep_congr (ex_s6 d _ _) (sep_congr (ex_s7 d _ _) (sep_congr (ex_s8 d _ _) (sep_congr (ex_s9 d _ _)
      rfl))))))))))))))))).symm)
  rfl

theorem body_enter (hF : (K (F := F)).Facts) (A : Arrs F) (fo : FVec F S40x64x4096 .f32) (d : Dev nD) (L : grid0.Coords)
    (O : CellTallies nD τ sig (HIx 1)) (W : Waits sig (HIx 1)) (hO : ∀ g, O g none = 0) :
    (iprop(levAts (K (F := F)).L (K (F := F)).lev ∗ emp ∗ tileIn A fo d (widL L)
        ∗ scopedBufs (V d (cV L) (jV L)) ∗ scopedSems0 (V d (cV L) (jV L)) ∗ owes (V d (cV L) (jV L)) O W) : sProp 𝕄)
      ⊢ iprop(Transfers.MayWaits (V d (cV L) (jV L)) (none : HIx 1) O
        ∗ ((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (fo : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L) ∗ owes (V d (cV L) (jV L)) O W) := by
  rw [← enter_eq hF A fo d L O W]
  exact _root_.Idealize.SL.BI.sep_mono ((K (F := F)).mayWaits_none (thr := V d (cV L) (jV L)) hO) _root_.Idealize.SL.BI.emp_sep_elim

/-! ## Exit -/

/-- The postcondition's resources with the scoped storage as a chain. -/
theorem exit_chain (hF : (K (F := F)).Facts) (A : Arrs F) (d : Dev nD) (L : grid0.Coords) :
    (iprop(tileOut A d (widL L) ∗ scopedBufs (V d (cV L) (jV L)) ∗ scopedSems0 (V d (cV L) (jV L))) : sProp 𝕄)
      = iprop((catL d ↦{rsh (widL L)} (A.cat : Buf (Elt F) (catL d))) ∗ (numL d ↦{rsh (widL L)} (A.num : Buf (Elt F) (numL d)))
          ∗ (embL d ↦{rsh (widL L)} (A.emb : Buf (Elt F) (embL d))) ∗ (wL d ↦{rsh (widL L)} (A.w : Buf (Elt F) (wL d)))
          ∗ (bL d ↦{rsh (widL L)} (A.b : Buf (Elt F) (bL d))) ∗ (clsL d ↦{rsh (widL L)} (A.cls : Buf (Elt F) (clsL d)))
          ∗ (outL d ↦[oSet (widL L)]{fullShare} (GT A : Buf (Elt F) (outL d)))
          ∗ chain ((bufL (cV L) (jV L)).map fun b => iprop(∃ f, ((d, b) : Loc nD τ sig) ↦{fullShare} f))
            (chain ((semL d (cV L) (jV L)).map fun g => semVal g 0) (restV d (cV L) (jV L)))) := by
  unfold tileOut
  rw [scoped_chain hF]
  rw [sep_assoc_eq, sep_assoc_eq, sep_assoc_eq, sep_assoc_eq, sep_assoc_eq, sep_assoc_eq]

/-- The postcondition's resources, with every buffer through its view and the scoped storage opened. -/
theorem exit_eq (hF : (K (F := F)).Facts) (A : Arrs F) (d : Dev nD) (L : grid0.Coords) :
    (iprop(tileOut A d (widL L) ∗ scopedBufs (V d (cV L) (jV L)) ∗ scopedSems0 (V d (cV L) (jV L))) : sProp 𝕄)
      = iprop(((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (GT A : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L)) := by
  refine (exit_chain hF A d L).trans (Eq.trans ?_ (sep_congr (pts_cat d L _ _ _) (sep_congr (pts_num d L _ _ _) (sep_congr (pts_emb d L _ _ _) (sep_congr (pts_w d L _ _ _)
      (sep_congr (pts_b d L _ _ _) (sep_congr (pts_cls d L _ _ _) (sep_congr (pts_out d L _ _ _)
      (sep_congr (ex_s0 d _ _) (sep_congr (ex_s1 d _ _) (sep_congr (ex_s2 d _ _) (sep_congr (ex_s3 d _ _) (sep_congr (ex_s4 d _ _) (sep_congr (ex_s5 d _ _) (sep_congr (ex_s6 d _ _) (sep_congr (ex_s7 d _ _) (sep_congr (ex_s8 d _ _) (sep_congr (ex_s9 d _ _)
      rfl))))))))))))))))).symm)
  rfl

theorem body_exit (hF : (K (F := F)).Facts) (A : Arrs F) (d : Dev nD) (L : grid0.Coords) :
    (iprop(((Memref.whole main_v1_scv : Memref sig .scVector .hbm S106496 .i32).view.loc (V d (cV L) (jV L)) ↦{rsh (widL L)} (A.cat : Buf (Elt F) (catL d)))
        ∗ ((Memref.whole main_v3_scv : Memref sig .scVector .hbm S53248 .f32).view.loc (V d (cV L) (jV L)) ↦{rsh (widL L)} (A.num : Buf (Elt F) (numL d)))
        ∗ ((Memref.whole main_v4_scv : Memref sig .scVector .hbm S26x64x100000 .f32).view.loc (V d (cV L) (jV L)) ↦{rsh (widL L)} (A.emb : Buf (Elt F) (embL d)))
        ∗ ((Memref.whole main_v5_scv : Memref sig .scVector .hbm S832 .f32).view.loc (V d (cV L) (jV L)) ↦{rsh (widL L)} (A.w : Buf (Elt F) (wL d)))
        ∗ ((Memref.whole main_v6_scv : Memref sig .scVector .hbm S832 .f32).view.loc (V d (cV L) (jV L)) ↦{rsh (widL L)} (A.b : Buf (Elt F) (bL d)))
        ∗ ((Memref.whole main_v7_scv : Memref sig .scVector .hbm S64 .f32).view.loc (V d (cV L) (jV L)) ↦{rsh (widL L)} (A.cls : Buf (Elt F) (clsL d)))
        ∗ ((Memref.whole main_v8_scv : Memref sig .scVector .hbm S40x64x4096 .f32).view.loc (V d (cV L) (jV L)) ↦[oSet (widL L)]{fullShare} (GT A : Buf (Elt F) (outL d)))
        ∗ (∃ f, (Memref.whole cc0_scratch0 : Memref sig .scVector .vmem S1x100000 .f32).view.loc (V d (cV L) (jV L)) ↦{fullShare} f)
        ∗ (∃ f, (Memref.whole cc0_scratch1 : Memref sig .scVector .vmem S4096 .i32).view.loc (V d (cV L) (jV L)) ↦{fullShare} f)
        ∗ (∃ f, (Memref.whole cc0_scratch2 : Memref sig .scVector .vmem S4096 .i32).view.loc (V d (cV L) (jV L)) ↦{fullShare} f)
        ∗ (∃ f, (Memref.whole cc0_scratch3 : Memref sig .scVector .vmem S4096 .f32).view.loc (V d (cV L) (jV L)) ↦{fullShare} f)
        ∗ (∃ f, (Memref.whole cc0_scratch4 : Memref sig .scVector .vmem S4096 .f32).view.loc (V d (cV L) (jV L)) ↦{fullShare} f)
        ∗ (∃ f, (Memref.whole cc0_scratch5 : Memref sig .scVector .vmem S1x4096 .f32).view.loc (V d (cV L) (jV L)) ↦{fullShare} f)
        ∗ (∃ f, (Memref.whole cc0_scratch6 : Memref sig .scVector .vmem S1x4096 .f32).view.loc (V d (cV L) (jV L)) ↦{fullShare} f)
        ∗ (∃ f, (Memref.whole cc0_scratch7 : Memref sig .scVector .vmem S832 .f32).view.loc (V d (cV L) (jV L)) ↦{fullShare} f)
        ∗ (∃ f, (Memref.whole cc0_scratch8 : Memref sig .scVector .vmem S832 .f32).view.loc (V d (cV L) (jV L)) ↦{fullShare} f)
        ∗ (∃ f, (Memref.whole cc0_scratch9 : Memref sig .scVector .vmem S64 .f32).view.loc (V d (cV L) (jV L)) ↦{fullShare} f)
        ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
        ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0
        ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
        ∗ semVal (V d (cV L) (jV L), SemLoc.dma cc0_scoped6.sem) 0 ∗ semVal (V d (cV L) (jV L), SemLoc.dma cc0_scoped7.sem) 0 ∗ semVal (V d (cV L) (jV L), SemLoc.dma cc0_scoped8.sem) 0
        ∗ semVal (V d (cV L) (jV L), SemLoc.dma cc0_scoped9.sem) 0 ∗ semVal (V d (cV L) (jV L), SemLoc.dma cc0_scoped10.sem) 0 ∗ semVal (V d (cV L) (jV L), SemLoc.dma cc0_scoped11.sem) 0
        ∗ semVal (V d (cV L) (jV L), SemLoc.dma cc0_scoped12.sem) 0 ∗ semVal (V d (cV L) (jV L), SemLoc.dma cc0_scoped13.sem) 0 ∗ semVal (V d (cV L) (jV L), SemLoc.dma cc0_scoped14.sem) 0
        ∗ semVal (V d (cV L) (jV L), SemLoc.dma cc0_scoped15.sem) 0 ∗ semVal (V d (cV L) (jV L), SemLoc.dma cc0_scoped16.sem) 0 ∗ semVal (V d (cV L) (jV L), SemLoc.dma cc0_scoped17.sem) 0
        ∗ semVal (V d (cV L) (jV L), SemLoc.dma cc0_scoped18.sem) 0 ∗ semVal (V d (cV L) (jV L), SemLoc.dma cc0_scoped19.sem) 0 ∗ semVal (V d (cV L) (jV L), SemLoc.dma cc0_scoped20.sem) 0
        ∗ semVal (V d (cV L) (jV L), SemLoc.dma cc0_scoped21.sem) 0 ∗ semVal (V d (cV L) (jV L), SemLoc.dma cc0_scoped22.sem) 0 ∗ semVal (V d (cV L) (jV L), SemLoc.dma cc0_scoped23.sem) 0
        ∗ semVal (V d (cV L) (jV L), SemLoc.dma cc0_scoped24.sem) 0 ∗ semVal (V d (cV L) (jV L), SemLoc.dma cc0_scoped25.sem) 0 ∗ semVal (V d (cV L) (jV L), SemLoc.dma cc0_scoped26.sem) 0
        ∗ semVal (V d (cV L) (jV L), SemLoc.dma cc0_scoped27.sem) 0 ∗ semVal (V d (cV L) (jV L), SemLoc.dma cc0_scoped28.sem) 0 ∗ semVal (V d (cV L) (jV L), SemLoc.dma cc0_scoped29.sem) 0
        ∗ semVal (V d (cV L) (jV L), SemLoc.dma cc0_scoped30.sem) 0 ∗ semVal (V d (cV L) (jV L), SemLoc.dma cc0_scoped31.sem) 0 ∗ semVal (V d (cV L) (jV L), SemLoc.dma cc0_scoped32.sem) 0
        ∗ semVal (V d (cV L) (jV L), SemLoc.dma cc0_scoped33.sem) 0 ∗ semVal (V d (cV L) (jV L), SemLoc.dma cc0_scoped34.sem) 0 ∗ semVal (V d (cV L) (jV L), SemLoc.dma cc0_scoped35.sem) 0
        ∗ semVal (V d (cV L) (jV L), SemLoc.dma cc0_scoped36.sem) 0 ∗ semVal (V d (cV L) (jV L), SemLoc.dma cc0_scoped37.sem) 0 ∗ semVal (V d (cV L) (jV L), SemLoc.dma cc0_scoped38.sem) 0
        ∗ semVal (V d (cV L) (jV L), SemLoc.dma cc0_scoped39.sem) 0 ∗ semVal (V d (cV L) (jV L), SemLoc.dma cc0_scoped40.sem) 0 ∗ semVal (V d (cV L) (jV L), SemLoc.dma cc0_scoped41.sem) 0
        ∗ semVal (V d (cV L) (jV L), SemLoc.dma cc0_scoped42.sem) 0 ∗ semVal (V d (cV L) (jV L), SemLoc.dma cc0_scoped43.sem) 0 ∗ semVal (V d (cV L) (jV L), SemLoc.dma cc0_scoped44.sem) 0
        ∗ semVal (V d (cV L) (jV L), SemLoc.dma cc0_scoped45.sem) 0 ∗ semVal (V d (cV L) (jV L), SemLoc.dma cc0_scoped46.sem) 0 ∗ semVal (V d (cV L) (jV L), SemLoc.dma cc0_scoped47.sem) 0
        ∗ semVal (V d (cV L) (jV L), SemLoc.dma cc0_scoped48.sem) 0 ∗ semVal (V d (cV L) (jV L), SemLoc.dma cc0_scoped49.sem) 0 ∗ semVal (V d (cV L) (jV L), SemLoc.dma cc0_scoped50.sem) 0
        ∗ semVal (V d (cV L) (jV L), SemLoc.dma cc0_scoped51.sem) 0 ∗ semVal (V d (cV L) (jV L), SemLoc.dma cc0_scoped52.sem) 0 ∗ semVal (V d (cV L) (jV L), SemLoc.dma cc0_scoped53.sem) 0
        ∗ semVal (V d (cV L) (jV L), SemLoc.dma cc0_scoped54.sem) 0
        ∗ restV d (cV L) (jV L)) : sProp 𝕄)
      ⊢ iprop(tileOut A d (widL L) ∗ scopedBufs (V d (cV L) (jV L)) ∗ scopedSems0 (V d (cV L) (jV L))) := by
  rw [exit_eq hF A d L]

end Cert.Proof.KB

end
-- ==== Proof.KB.RowsWrite.lean ====
/-
  What a copy into a destination row leaves in the result array. The view at offsets `(t, r, 0)`, sizes `(1, 1, 4096)`,
  its leading unit axis dropped, places its index `(0, n)` at the array's `(t, r, n)`. So writing a `[1, 4096]` payload
  through it, on every index, puts the payload's entry `(0, n)` at `(t, r, n)` and changes nothing off row `(t, r)`.
-/
import proofs.«207382_g17746804867166_cont_8to1_1179_25_alg».proof.Proof.KB.Rows

noncomputable section

namespace Cert.Proof.KB

open Cert.Kernel Cert.Kernel.Gen

open Idealize.ShloMosaic Idealize.ShloMosaic.ValueIdx

variable {F : FTy → Type}

/-- Where the destination places its index `(0, n)`: at `(t, r, n)`. -/
theorem dstRow_emb (OFF : Fin 3 → Nat) (INB : ∀ a, OFF a + S1x1x4096.size a ≤ S40x64x4096.size a)
    (t : Fin 40) (r : Fin 64) (hoff : OFF = ![t.val, r.val, 0]) (n : Fin 4096) :
    (dstRow OFF INB).view.emb (ix2 (0 : Fin 1) n) = ix3 t r n := by
  subst hoff
  show (Rect.unit (s := S40x64x4096) ![t.val, r.val, 0] S1x1x4096.size INB).emb
    (Shape.reshapeEquiv squeezes_S1x1x4096_S1x4096.numel_eq (ix2 (0 : Fin 1) n)) = ix3 t r n
  have e : Shape.reshapeEquiv squeezes_S1x1x4096_S1x4096.numel_eq (ix2 (0 : Fin 1) n)
      = (ix3 (0 : Fin 1) (0 : Fin 1) n : S1x1x4096.Idx) :=
    Shape.reshapeEquiv_eq_of_rowMajor _ (by rw [Shape.rowMajor_val_three, Shape.rowMajor_val_two]; rfl)
  rw [e]
  funext a
  refine Fin.ext ?_
  match a with
  | ⟨0, _⟩ => show t.val + 1 * 0 = t.val; omega
  | ⟨1, _⟩ => show r.val + 1 * 0 = r.val; omega
  | ⟨2, _⟩ => show 0 + 1 * n.val = n.val; omega

/-- ON THE ROW a copy leaves the payload: entry `(0, n)` at `(t, r, n)`. -/
theorem dstRow_write_of_mem (OFF : Fin 3 → Nat) (INB : ∀ a, OFF a + S1x1x4096.size a ≤ S40x64x4096.size a)
    (t : Fin 40) (r : Fin 64) (hoff : OFF = ![t.val, r.val, 0])
    (f : (dstRow OFF INB).view.ty.Contents (Elt F)) (p : Vec F S1x4096 .f32) (x : S40x64x4096.Idx) (hx : x ∈ rowT t r) :
    (dstRow OFF INB).view.write (Elt F) f p Finset.univ x = p (ix2 (0 : Fin 1) (⟨(x 2).val, (x 2).isLt⟩ : Fin 4096)) := by
  rw [mem_rowT] at hx
  have ex : (dstRow OFF INB).view.emb (ix2 (0 : Fin 1) (⟨(x 2).val, (x 2).isLt⟩ : Fin 4096)) = x := by
    rw [dstRow_emb OFF INB t r hoff]
    funext a
    refine Fin.ext ?_
    match a with
    | ⟨0, _⟩ => exact hx.1.symm
    | ⟨1, _⟩ => exact hx.2.symm
    | ⟨2, _⟩ => rfl
  have h := View.write_emb_of_mem (v := (dstRow OFF INB).view) (Val := Elt F) f p
    (Finset.mem_univ (ix2 (0 : Fin 1) (⟨(x 2).val, (x 2).isLt⟩ : Fin 4096)))
  rw [ex] at h
  exact h

/-- OFF THE ROW a copy changes nothing. -/
theorem dstRow_write_of_not_mem (OFF : Fin 3 → Nat) (INB : ∀ a, OFF a + S1x1x4096.size a ≤ S40x64x4096.size a)
    (t : Fin 40) (r : Fin 64) (hoff : OFF = ![t.val, r.val, 0])
    (f : (dstRow OFF INB).view.ty.Contents (Elt F)) (p : Vec F S1x4096 .f32) (x : S40x64x4096.Idx) (hx : x ∉ rowT t r) :
    (dstRow OFF INB).view.write (Elt F) f p Finset.univ x = f x :=
  View.write_of_not_mem f p Finset.univ (by rw [View.setOn_univ, dstRow_set OFF INB t r hoff]; exact hx)

end Cert.Proof.KB

end
-- ==== Proof.KB.Spec.lean ====
/-
  The staging rows' values. A task fills a staging row `[1, 4096]` for each token and each feature row `r` of its pair,
  then copies it into row `(token, r)` of the transposed result. What each staging row must hold, as a function of
  the operand arrays `A`:
    • the class token's row: the class vector's entry `r` at every position;
    • category field `i`'s row: at position `n` the entry `(i, r, cat[i·4096 + n])` of the tables;
    • numeric field `j`'s row: at position `n` the value `num[j·4096 + n] · w[64 j + r] + b[64 j + r]`.
  These are the result's specification `GT A` read along a row. Beside them, what the scratch buffers hold after
  their fetches: a field's 4096 category words, a field's 4096 numeric values, one table's row `r` over the vocabulary.
-/
import proofs.«207382_g17746804867166_cont_8to1_1179_25_alg».proof.Proof.KB.RowsWrite

noncomputable section

namespace Cert.Proof.KB

open Cert.Kernel Cert.Kernel.Gen

open Idealize.ShloMosaic Idealize.ShloMosaic.ValueIdx

variable {F : FTy → Type}

/-! ## Flat positions -/

/-- Position `n` of field `i` in the flat category array. -/
def catIdx (i : Fin 26) (n : Fin 4096) : Fin 106496 := ⟨i.val * 4096 + n.val, by have := i.isLt; have := n.isLt; omega⟩
/-- Position `n` of field `j` in the flat numeric array. -/
def numIdx (j : Fin 13) (n : Fin 4096) : Fin 53248 := ⟨j.val * 4096 + n.val, by have := j.isLt; have := n.isLt; omega⟩
/-- Entry `(j, r)` of the flat weights (and biases). -/
def wIdx (j : Fin 13) (r : Fin 64) : Fin 832 := ⟨j.val * 64 + r.val, by have := j.isLt; have := r.isLt; omega⟩

theorem catIdx_val (i : Fin 26) (n : Fin 4096) : (catIdx i n).val = i.val * 4096 + n.val := rfl
theorem numIdx_val (j : Fin 13) (n : Fin 4096) : (numIdx j n).val = j.val * 4096 + n.val := rfl
theorem wIdx_val (j : Fin 13) (r : Fin 64) : (wIdx j r).val = j.val * 64 + r.val := rfl

/-! ## What the scratch buffers hold -/

/-- Field `i`'s 4096 category words. -/
def catSlice (A : Arrs F) (i : Fin 26) : IVec S4096 32 := fun y => A.cat (ix1 (catIdx i ⟨(y 0).val, (y 0).isLt⟩))
/-- Field `j`'s 4096 numeric values. -/
def numSlice (A : Arrs F) (j : Fin 13) : FVec F S4096 .f32 := fun y => A.num (ix1 (numIdx j ⟨(y 0).val, (y 0).isLt⟩))
/-- Row `r` of table `i`, over the vocabulary. -/
def colRow (A : Arrs F) (i : Fin 26) (r : Fin 64) : FVec F S1x100000 .f32 :=
  fun y => A.emb (ix3 i r (⟨(y 1).val, (y 1).isLt⟩ : Fin 100000))

theorem catSlice_apply (A : Arrs F) (i : Fin 26) (n : Fin 4096) : catSlice A i (ix1 n) = A.cat (ix1 (catIdx i n)) := rfl
theorem numSlice_apply (A : Arrs F) (j : Fin 13) (n : Fin 4096) : numSlice A j (ix1 n) = A.num (ix1 (numIdx j n)) := rfl
theorem colRow_apply (A : Arrs F) (i : Fin 26) (r : Fin 64) (u : Fin 1) (v : Fin 100000) :
    colRow A i r (ix2 u v) = A.emb (ix3 i r v) := rfl

/-! ## The staging rows -/

/-- The class token's staging row for feature row `r`. -/
def rowCls (A : Arrs F) (r : Fin 64) : FVec F S1x4096 .f32 := fun _ => A.cls (ix1 r)

/-- Category field `i`'s staging row for feature row `r`. -/
def rowCat (A : Arrs F) (i : Fin 26) (r : Fin 64) : FVec F S1x4096 .f32 :=
  fun y => A.emb (ix3 i r (vocab (A.cat (ix1 (catIdx i ⟨(y 1).val, (y 1).isLt⟩)))))

/-- Numeric field `j`'s staging row for feature row `r`. -/
def rowNum [FloatOps F] (A : Arrs F) (j : Fin 13) (r : Fin 64) : FVec F S1x4096 .f32 :=
  fun y => FloatOps.addf (FloatOps.mulf (A.num (ix1 (numIdx j ⟨(y 1).val, (y 1).isLt⟩))) (A.w (ix1 (wIdx j r))))
    (A.b (ix1 (wIdx j r)))

theorem rowCls_apply (A : Arrs F) (r : Fin 64) (y : S1x4096.Idx) : rowCls A r y = A.cls (ix1 r) := rfl
theorem rowCat_apply (A : Arrs F) (i : Fin 26) (r : Fin 64) (u : Fin 1) (n : Fin 4096) :
    rowCat A i r (ix2 u n) = A.emb (ix3 i r (vocab (A.cat (ix1 (catIdx i n))))) := rfl
theorem rowNum_apply [FloatOps F] (A : Arrs F) (j : Fin 13) (r : Fin 64) (u : Fin 1) (n : Fin 4096) :
    rowNum A j r (ix2 u n)
      = FloatOps.addf (FloatOps.mulf (A.num (ix1 (numIdx j n))) (A.w (ix1 (wIdx j r)))) (A.b (ix1 (wIdx j r))) := rfl

/-- A category word in range names its own vocabulary entry. -/
theorem vocab_of_lt (v : BitVec 32) (h : v.toNat < 100000) : vocab v = ⟨v.toNat, h⟩ := by
  unfold vocab; rw [dif_pos h]

/-! ## The specification along a row -/

section GTRows
variable [FloatOps F] (A : Arrs F) (r : Fin 64) (n : Fin 4096)

/-- Token 0's row `r` is the class token's staging row. -/
theorem GT_cls : GT A (ix3 (⟨0, by decide⟩ : Fin 40) r n) = rowCls A r (ix2 (0 : Fin 1) n) := by
  unfold GT
  rw [dif_pos (show ((⟨0, by decide⟩ : Fin 40).val = 0) from rfl)]
  rfl

/-- Token `1 + i`'s row `r` is category field `i`'s staging row. -/
theorem GT_cat (i : Fin 26) (hlt : 1 + i.val < 40) :
    GT A (ix3 (⟨1 + i.val, hlt⟩ : Fin 40) r n) = rowCat A i r (ix2 (0 : Fin 1) n) := by
  unfold GT
  have e : ∀ p : 1 + i.val - 1 < 26, (⟨1 + i.val - 1, p⟩ : Fin 26) = i := fun p => Fin.ext (by show 1 + i.val - 1 = i.val; omega)
  have e' : ∀ p : (1 + i.val - 1) * 4096 + n.val < 106496, (⟨(1 + i.val - 1) * 4096 + n.val, p⟩ : Fin 106496) = catIdx i n :=
    fun p => Fin.ext (by show (1 + i.val - 1) * 4096 + n.val = i.val * 4096 + n.val; rw [Nat.add_sub_cancel_left])
  rw [dif_neg (show ¬ (1 + i.val = 0) by omega), dif_pos (show 1 + i.val ≤ 26 by have := i.isLt; omega)]
  show A.emb (ix3 (⟨1 + i.val - 1, _⟩ : Fin 26) r (vocab (A.cat (ix1 (⟨(1 + i.val - 1) * 4096 + n.val, _⟩ : Fin 106496))))) = _
  rw [e, e']
  rfl

/-- Token `27 + j`'s row `r` is numeric field `j`'s staging row. -/
theorem GT_num (j : Fin 13) (hlt : 27 + j.val < 40) :
    GT A (ix3 (⟨27 + j.val, hlt⟩ : Fin 40) r n) = rowNum A j r (ix2 (0 : Fin 1) n) := by
  unfold GT
  have e1 : ∀ p : (27 + j.val - 27) * 4096 + n.val < 53248, (⟨(27 + j.val - 27) * 4096 + n.val, p⟩ : Fin 53248) = numIdx j n :=
    fun p => Fin.ext (by show (27 + j.val - 27) * 4096 + n.val = j.val * 4096 + n.val; rw [Nat.add_sub_cancel_left])
  have e2 : ∀ p : (27 + j.val - 27) * 64 + r.val < 832, (⟨(27 + j.val - 27) * 64 + r.val, p⟩ : Fin 832) = wIdx j r :=
    fun p => Fin.ext (by show (27 + j.val - 27) * 64 + r.val = j.val * 64 + r.val; rw [Nat.add_sub_cancel_left])
  rw [dif_neg (show ¬ (27 + j.val = 0) by omega), dif_neg (show ¬ (27 + j.val ≤ 26) by omega)]
  show FloatOps.addf (FloatOps.mulf (A.num (ix1 (⟨(27 + j.val - 27) * 4096 + n.val, _⟩ : Fin 53248)))
      (A.w (ix1 (⟨(27 + j.val - 27) * 64 + r.val, _⟩ : Fin 832)))) (A.b (ix1 (⟨(27 + j.val - 27) * 64 + r.val, _⟩ : Fin 832))) = _
  rw [e1, e2]
  rfl

end GTRows

end Cert.Proof.KB

end
-- ==== Proof.KB.Fetch.lean ====
/-
  What the transfers move. A transfer into a whole scratch buffer leaves there what its source view reads; and the
  final transfer of a staging row into a destination row of the result leaves the staging row's entry `(0, n)` at
  `(t, r, n)`. The sources the kernel reads: the weights, biases and class vector whole; a field's 4096 words of the flat
  category array (the slice at offset `4096 i`) and of the flat numeric array; one table row — the embedding array
  `[26, 64, 100000]` sliced at `(i, r, 0)` with sizes `(1, 1, 100000)`, its leading unit axis dropped.
-/
import proofs.«207382_g17746804867166_cont_8to1_1179_25_alg».proof.Proof.KB.Spec

noncomputable section

namespace Cert.Proof.KB

open Cert.Kernel Cert.Kernel.Gen

open Idealize.ShloMosaic Idealize.ShloMosaic.ValueIdx

variable {F : FTy → Type}

/-! ## The final row -/

/-- An index of row `(t, r)` is where the destination places its own index `(0, n)`. -/
theorem dstRow_emb_of_mem (OFF : Fin 3 → Nat) (INB : ∀ a, OFF a + S1x1x4096.size a ≤ S40x64x4096.size a)
    (t : Fin 40) (r : Fin 64) (hoff : OFF = ![t.val, r.val, 0]) (x : S40x64x4096.Idx) (hx : x ∈ rowT t r) :
    (dstRow OFF INB).view.emb (ix2 (0 : Fin 1) (⟨(x 2).val, (x 2).isLt⟩ : Fin 4096)) = x := by
  rw [mem_rowT] at hx
  rw [dstRow_emb OFF INB t r hoff]
  funext a
  refine Fin.ext ?_
  match a with
  | ⟨0, _⟩ => exact hx.1.symm
  | ⟨1, _⟩ => exact hx.2.symm
  | ⟨2, _⟩ => rfl

/-- ON THE ROW, one whole-row piece written through the destination leaves the payload's entry `(0, n)` at `(t, r, n)`,
    whatever the array held. -/
theorem dstRow_writes_whole_of_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (p : (Rect.whole S1x4096).shape.Idx → Elt F .f32)
    (x : S40x64x4096.Idx) (hx : x ∈ rowT t r) :
    (dstRow OFF INB).view.writes (Elt F) g0 [⟨Rect.whole S1x4096, p⟩] x
      = p (ix2 (0 : Fin 1) (⟨(x 2).val, (x 2).isLt⟩ : Fin 4096)) := by
  rw [View.writes_singleton]
  have ex : ((dstRow OFF INB).view.slice (Rect.whole S1x4096)).emb (ix2 (0 : Fin 1) (⟨(x 2).val, (x 2).isLt⟩ : Fin 4096)) = x := by
    show (dstRow OFF INB).view.emb ((Rect.whole S1x4096).emb (ix2 (0 : Fin 1) (⟨(x 2).val, (x 2).isLt⟩ : Fin 4096))) = x
    rw [Rect.emb_whole_apply]
    exact dstRow_emb_of_mem OFF INB t r hoff x hx
  have h := View.write_emb_of_mem (v := (dstRow OFF INB).view.slice (Rect.whole S1x4096)) (Val := Elt F) g0 p
    (Finset.mem_univ (ix2 (0 : Fin 1) (⟨(x 2).val, (x 2).isLt⟩ : Fin 4096)))
  rw [ex] at h
  exact h

/-- OFF THE ROW it changes nothing. -/
theorem dstRow_writes_whole_of_not_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (p : (Rect.whole S1x4096).shape.Idx → Elt F .f32)
    (x : S40x64x4096.Idx) (hx : x ∉ rowT t r) :
    (dstRow OFF INB).view.writes (Elt F) g0 [⟨Rect.whole S1x4096, p⟩] x = g0 x := by
  rw [View.writes_singleton]
  have hn : x ∉ ((dstRow OFF INB).view.slice (Rect.whole S1x4096)).setOn Finset.univ := by
    rw [View.setOn_univ]
    intro hm
    exact hx (by rw [← dstRow_set OFF INB t r hoff]; exact View.set_slice_subset _ _ hm)
  exact View.write_of_not_mem (v := (dstRow OFF INB).view.slice (Rect.whole S1x4096)) (Val := Elt F) g0 p Finset.univ hn

/-- The final copy out of the first staging row. -/
theorem dstRow_copy5_of_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (f' : (Memref.whole cc0_scratch5 : Memref sig .scVector .vmem S1x4096 .f32).view.ty.Contents (Elt F))
    (x : S40x64x4096.Idx) (hx : x ∈ rowT t r) :
    (dstRow OFF INB).view.writes (Elt F) g0 [⟨Rect.whole S1x4096, ReadAs.same.apply
        (View.read (Elt F) (Memref.whole cc0_scratch5 : Memref sig .scVector .vmem S1x4096 .f32).view f')⟩] x
      = f' (ix2 (0 : Fin 1) (⟨(x 2).val, (x 2).isLt⟩ : Fin 4096)) :=
  dstRow_writes_whole_of_mem OFF INB t r hoff g0 _ x hx

/-- The final copy out of the second staging row. -/
theorem dstRow_copy6_of_mem (OFF : Fin 3 → Nat) (INB : ∀ a, OFF a + S1x1x4096.size a ≤ S40x64x4096.size a)
    (t : Fin 40) (r : Fin 64) (hoff : OFF = ![t.val, r.val, 0])
    (g0 : (dstRow OFF INB).view.ty.Contents (Elt F)) (f' : (Memref.whole cc0_scratch6 : Memref sig .scVector .vmem S1x4096 .f32).view.ty.Contents (Elt F))
    (x : S40x64x4096.Idx) (hx : x ∈ rowT t r) :
    (dstRow OFF INB).view.writes (Elt F) g0 [⟨Rect.whole S1x4096, ReadAs.same.apply
        (View.read (Elt F) (Memref.whole cc0_scratch6 : Memref sig .scVector .vmem S1x4096 .f32).view f')⟩] x
      = f' (ix2 (0 : Fin 1) (⟨(x 2).val, (x 2).isLt⟩ : Fin 4096)) :=
  dstRow_writes_whole_of_mem OFF INB t r hoff g0 _ x hx

/-! ## The fetches' sources -/

/-- A field's 4096 words of the flat category array. -/
theorem catSrc_read (A : Arrs F) (i : Fin 26) (off : Fin 1 → Nat) (h : ∀ a, off a + S4096.size a ≤ S106496.size a)
    (hoff : off = ![4096 * i.val]) :
    ((Memref.whole main_v1_scv : Memref sig .scVector .hbm S106496 .i32).slice
        (Rect.unit (s := S106496) off S4096.size h) (fun _ => rfl)).view.read (Elt F) A.cat = catSlice A i := by
  subst hoff
  funext y
  show A.cat ((Rect.unit (s := S106496) ![4096 * i.val] S4096.size h).emb y) = A.cat (ix1 (catIdx i ⟨(y 0).val, (y 0).isLt⟩))
  refine congrArg A.cat (funext fun a => Fin.ext ?_)
  match a with
  | ⟨0, _⟩ => show 4096 * i.val + 1 * (y 0).val = i.val * 4096 + (y 0).val; omega

/-- A field's 4096 values of the flat numeric array. -/
theorem numSrc_read (A : Arrs F) (j : Fin 13) (off : Fin 1 → Nat) (h : ∀ a, off a + S4096.size a ≤ S53248.size a)
    (hoff : off = ![4096 * j.val]) :
    ((Memref.whole main_v3_scv : Memref sig .scVector .hbm S53248 .f32).slice
        (Rect.unit (s := S53248) off S4096.size h) (fun _ => rfl)).view.read (Elt F) A.num = numSlice A j := by
  subst hoff
  funext y
  show A.num ((Rect.unit (s := S53248) ![4096 * j.val] S4096.size h).emb y) = A.num (ix1 (numIdx j ⟨(y 0).val, (y 0).isLt⟩))
  refine congrArg A.num (funext fun a => Fin.ext ?_)
  match a with
  | ⟨0, _⟩ => show 4096 * j.val + 1 * (y 0).val = j.val * 4096 + (y 0).val; omega

/-- Row `r` of table `i`, over the vocabulary. -/
theorem colSrc_read (A : Arrs F) (i : Fin 26) (r : Fin 64) (OFF : Fin 3 → Nat)
    (INB : ∀ a, OFF a + S1x1x100000.size a ≤ S26x64x100000.size a) (hoff : OFF = ![i.val, r.val, 0]) :
    (((Memref.whole main_v4_scv : Memref sig .scVector .hbm S26x64x100000 .f32).slice
        (Rect.unit (s := S26x64x100000) OFF S1x1x100000.size INB) (fun _ => rfl)).squeeze S1x100000
          squeezes_S1x1x100000_S1x100000).view.read (Elt F) A.emb = colRow A i r := by
  subst hoff
  funext y
  have hy0 : (y 0).val = 0 := by have : (y 0).val < 1 := (y 0).isLt; omega
  show A.emb ((Rect.unit (s := S26x64x100000) ![i.val, r.val, 0] S1x1x100000.size INB).emb
    (Shape.reshapeEquiv squeezes_S1x1x100000_S1x100000.numel_eq y)) = A.emb (ix3 i r (⟨(y 1).val, (y 1).isLt⟩ : Fin 100000))
  have e : Shape.reshapeEquiv squeezes_S1x1x100000_S1x100000.numel_eq y
      = (ix3 (0 : Fin 1) (0 : Fin 1) (⟨(y 1).val, (y 1).isLt⟩ : Fin 100000) : S1x1x100000.Idx) :=
    Shape.reshapeEquiv_eq_of_rowMajor _ (by
      rw [Shape.rowMajor_val_three, Shape.rowMajor_val_two]
      show (0 * 1 + 0) * 100000 + (y 1).val = (y 0).val * 100000 + (y 1).val
      rw [hy0])
  rw [e]
  refine congrArg A.emb (funext fun a => Fin.ext ?_)
  match a with
  | ⟨0, _⟩ => show i.val + 1 * 0 = i.val; omega
  | ⟨1, _⟩ => show r.val + 1 * 0 = r.val; omega
  | ⟨2, _⟩ => show 0 + 1 * (y 1).val = (y 1).val; omega

/-! ## The fetched scratch buffers -/

/-- A transfer into a whole buffer leaves its payload there. -/
theorem fetch_whole (b : Ref sig .scVector) (f0 w : b.ty.Contents (Elt F)) :
    (Memref.whole b).view.write (Elt F) f0 w Finset.univ = w := View.write_whole_univ b f0 w

section Fetched
variable (A : Arrs F)

/-- The weights, fetched whole. -/
theorem fetch_w (f0 : (Memref.whole cc0_scratch7 : Memref sig .scVector .vmem S832 .f32).view.ty.Contents (Elt F)) :
    (Memref.whole cc0_scratch7 : Memref sig .scVector .vmem S832 .f32).view.write (Elt F) f0
      (ReadAs.same.apply (View.read (Elt F) (Memref.whole main_v5_scv : Memref sig .scVector .hbm S832 .f32).view A.w)) Finset.univ = A.w :=
  View.write_whole_univ cc0_scratch7 f0 _

/-- The biases, fetched whole. -/
theorem fetch_b (f0 : (Memref.whole cc0_scratch8 : Memref sig .scVector .vmem S832 .f32).view.ty.Contents (Elt F)) :
    (Memref.whole cc0_scratch8 : Memref sig .scVector .vmem S832 .f32).view.write (Elt F) f0
      (ReadAs.same.apply (View.read (Elt F) (Memref.whole main_v6_scv : Memref sig .scVector .hbm S832 .f32).view A.b)) Finset.univ = A.b :=
  View.write_whole_univ cc0_scratch8 f0 _

/-- The class vector, fetched whole. -/
theorem fetch_cls (f0 : (Memref.whole cc0_scratch9 : Memref sig .scVector .vmem S64 .f32).view.ty.Contents (Elt F)) :
    (Memref.whole cc0_scratch9 : Memref sig .scVector .vmem S64 .f32).view.write (Elt F) f0
      (ReadAs.same.apply (View.read (Elt F) (Memref.whole main_v7_scv : Memref sig .scVector .hbm S64 .f32).view A.cls)) Finset.univ = A.cls :=
  View.write_whole_univ cc0_scratch9 f0 _

end Fetched

/-! ## A finished row -/

section Done
variable (OFF : Fin 3 → Nat) (INB : ∀ a, OFF a + S1x1x4096.size a ≤ S40x64x4096.size a)
  (t : Fin 40) (r : Fin 64)

/-- An index of row `(t, r)` by its coordinates. -/
theorem eq_ix3_of_mem_rowT (x : S40x64x4096.Idx) (hx : x ∈ rowT t r) : x = ix3 t r (⟨(x 2).val, (x 2).isLt⟩ : Fin 4096) := by
  rw [mem_rowT] at hx
  funext a
  refine Fin.ext ?_
  match a with
  | ⟨0, _⟩ => exact hx.1
  | ⟨1, _⟩ => exact hx.2
  | ⟨2, _⟩ => rfl

/-- A staging row that holds `row`, copied into row `(t, r)`, leaves there a function `G` that is `row` along that row (the
    first staging row). -/
theorem row_done5 (hoff : OFF = ![t.val, r.val, 0]) (g0 : (dstRow OFF INB).view.ty.Contents (Elt F)) (f' : FVec F S1x4096 .f32) (row : S1x4096.Idx → F .f32)
    (G : FVec F S40x64x4096 .f32) (hf' : ∀ y, f' y = row y) (hG : ∀ n : Fin 4096, G (ix3 t r n) = row (ix2 (0 : Fin 1) n)) :
    ∀ x ∈ (dstRow OFF INB).view.set,
      (dstRow OFF INB).view.writes (Elt F) g0 [⟨Rect.whole S1x4096, ReadAs.same.apply
        (View.read (Elt F) (Memref.whole cc0_scratch5 : Memref sig .scVector .vmem S1x4096 .f32).view f')⟩] x = G x := by
  intro x hx
  rw [dstRow_set OFF INB t r hoff] at hx
  rw [dstRow_copy5_of_mem OFF INB t r hoff g0 f' x hx, hf', ← hG]
  exact congrArg G (eq_ix3_of_mem_rowT t r x hx).symm

/-- The same out of the second staging row. -/
theorem row_done6 (hoff : OFF = ![t.val, r.val, 0]) (g0 : (dstRow OFF INB).view.ty.Contents (Elt F)) (f' : FVec F S1x4096 .f32) (row : S1x4096.Idx → F .f32)
    (G : FVec F S40x64x4096 .f32) (hf' : ∀ y, f' y = row y) (hG : ∀ n : Fin 4096, G (ix3 t r n) = row (ix2 (0 : Fin 1) n)) :
    ∀ x ∈ (dstRow OFF INB).view.set,
      (dstRow OFF INB).view.writes (Elt F) g0 [⟨Rect.whole S1x4096, ReadAs.same.apply
        (View.read (Elt F) (Memref.whole cc0_scratch6 : Memref sig .scVector .vmem S1x4096 .f32).view f')⟩] x = G x := by
  intro x hx
  rw [dstRow_set OFF INB t r hoff] at hx
  rw [dstRow_copy6_of_mem OFF INB t r hoff g0 f' x hx, hf', ← hG]
  exact congrArg G (eq_ix3_of_mem_rowT t r x hx).symm

end Done

/-- Every word of a fetched field is a vocabulary index when every category word is. -/
theorem catSlice_range (A : Arrs F) (hcat : ∀ j, (A.cat j).toNat < 100000) (i : Fin 26) :
    ∀ y, (catSlice A i y).toNat < 100000 := fun y => hcat _

end Cert.Proof.KB

end
-- ==== Proof.KB.Step.lean ====
/-
  One trip of a fill loop. A staging row `[1, 4096]` is filled 64 positions per trip: trip `k` stores four pieces of 16
  lanes at positions `64k`, `64k + 16`, `64k + 32`, `64k + 48`. If before the trip the row agrees with a function `row` below
  position `64k`, and each piece's lane `l` is `row` at its position, then after the trip the row agrees with `row` below
  `64 (k + 1)`: positions below `64k` lie under no piece and keep their contents; every other position below
  `64 (k + 1)` lies under one piece and reads its payload.
-/
import proofs.«207382_g17746804867166_cont_8to1_1179_25_alg».proof.Proof.KB.Spec

noncomputable section

namespace Cert.Proof.KB

open Cert.Kernel Cert.Kernel.Gen

open Idealize.ShloMosaic Idealize.ShloMosaic.ValueIdx

variable {F : FTy → Type}

/-! ## A 16-lane piece of the staging row -/

/-- Where a 16-lane piece at position `m` places its lane `l`: at position `m + l`. -/
theorem unit16_emb (o : Fin 2 → Nat) (m : Nat) (ho : o = ![0, m]) (inb : ∀ a, o a + S1x16.size a ≤ S1x4096.size a)
    (x : S1x16.Idx) (h : m + (x 1).val < 4096) :
    (Rect.unit (s := S1x4096) o S1x16.size inb).emb x = ix2 (0 : Fin 1) (⟨m + (x 1).val, h⟩ : Fin 4096) := by
  subst ho
  have hx0 : (x 0).val = 0 := by have : (x 0).val < 1 := (x 0).isLt; omega
  funext a
  refine Fin.ext ?_
  match a with
  | ⟨0, _⟩ => show 0 + 1 * (x 0).val = 0; omega
  | ⟨1, _⟩ => show m + 1 * (x 1).val = m + (x 1).val; omega

/-- The positions a 16-lane piece at position `m` covers. -/
theorem mem_unit16 (o : Fin 2 → Nat) (m : Nat) (ho : o = ![0, m]) (inb : ∀ a, o a + S1x16.size a ≤ S1x4096.size a)
    (y : S1x4096.Idx) : y ∈ (Rect.unit (s := S1x4096) o S1x16.size inb).set ↔ m ≤ (y 1).val ∧ (y 1).val < m + 16 := by
  subst ho
  have hy0 : (y 0).val = 0 := by have : (y 0).val < 1 := (y 0).isLt; omega
  rw [Rect.mem_set_unit]
  constructor
  · intro h
    have h1 : m ≤ (y 1).val ∧ (y 1).val < m + 16 := h 1
    exact h1
  · intro h a
    match a with
    | ⟨0, _⟩ => show 0 ≤ (y 0).val ∧ (y 0).val < 0 + 1; omega
    | ⟨1, _⟩ => show m ≤ (y 1).val ∧ (y 1).val < m + 16; exact h

/-- A piece at position `m` whose top is in the row. -/
theorem unit16_top (o : Fin 2 → Nat) (m : Nat) (ho : o = ![0, m]) (inb : ∀ a, o a + S1x16.size a ≤ S1x4096.size a) :
    m + 16 ≤ 4096 := by
  subst ho
  have h1 : m + 16 ≤ 4096 := inb 1
  exact h1

/-! ## The trip -/

section Trip
variable {sp : Space} (v : View sig .scVector sp S1x4096 .f32)

/-- ONE TRIP: four 16-lane pieces at `64k, 64k + 16, 64k + 32, 64k + 48` (the last store first), each holding `row` at its
    positions, extend agreement with `row` from below `64k` to below `64 (k + 1)`. -/
theorem step4 (f : v.ty.Contents (Elt F)) (row : S1x4096.Idx → Elt F .f32) (k : Nat)
    (o0 o1 o2 o3 : Fin 2 → Nat) (m0 m1 m2 m3 : Nat)
    (i0 : ∀ a, o0 a + S1x16.size a ≤ S1x4096.size a) (i1 : ∀ a, o1 a + S1x16.size a ≤ S1x4096.size a)
    (i2 : ∀ a, o2 a + S1x16.size a ≤ S1x4096.size a) (i3 : ∀ a, o3 a + S1x16.size a ≤ S1x4096.size a)
    (h0 : o0 = ![0, m0]) (h1 : o1 = ![0, m1]) (h2 : o2 = ![0, m2]) (h3 : o3 = ![0, m3])
    (e0 : m0 = 64 * k) (e1 : m1 = 64 * k + 16) (e2 : m2 = 64 * k + 32) (e3 : m3 = 64 * k + 48)
    (p0 p1 p2 p3 : S1x16.Idx → Elt F .f32)
    (hp0 : ∀ (x : S1x16.Idx) (h : m0 + (x 1).val < 4096), p0 x = row (ix2 (0 : Fin 1) (⟨m0 + (x 1).val, h⟩ : Fin 4096)))
    (hp1 : ∀ (x : S1x16.Idx) (h : m1 + (x 1).val < 4096), p1 x = row (ix2 (0 : Fin 1) (⟨m1 + (x 1).val, h⟩ : Fin 4096)))
    (hp2 : ∀ (x : S1x16.Idx) (h : m2 + (x 1).val < 4096), p2 x = row (ix2 (0 : Fin 1) (⟨m2 + (x 1).val, h⟩ : Fin 4096)))
    (hp3 : ∀ (x : S1x16.Idx) (h : m3 + (x 1).val < 4096), p3 x = row (ix2 (0 : Fin 1) (⟨m3 + (x 1).val, h⟩ : Fin 4096)))
    (hf : ∀ y : S1x4096.Idx, (y 1).val < 64 * k → v.read (Elt F) f y = row y) :
    ∀ y : S1x4096.Idx, (y 1).val < 64 * (k + 1) →
      v.read (Elt F) (v.writes (Elt F) f
        [⟨Rect.unit (s := S1x4096) o3 S1x16.size i3, p3⟩, ⟨Rect.unit (s := S1x4096) o2 S1x16.size i2, p2⟩,
         ⟨Rect.unit (s := S1x4096) o1 S1x16.size i1, p1⟩, ⟨Rect.unit (s := S1x4096) o0 S1x16.size i0, p0⟩]) y = row y := by
  intro y hy
  have t0 := unit16_top o0 m0 h0 i0
  have t1 := unit16_top o1 m1 h1 i1
  have t2 := unit16_top o2 m2 h2 i2
  have t3 := unit16_top o3 m3 h3 i3
  by_cases hlo : (y 1).val < 64 * k
  · rw [View.read_writes_apply_of_forall_not_mem v f y _ (fun p hp => ?_)]
    · exact hf y hlo
    · simp only [List.mem_cons, List.not_mem_nil, or_false] at hp
      rcases hp with rfl | rfl | rfl | rfl
      · rw [mem_unit16 o3 m3 h3 i3]; omega
      · rw [mem_unit16 o2 m2 h2 i2]; omega
      · rw [mem_unit16 o1 m1 h1 i1]; omega
      · rw [mem_unit16 o0 m0 h0 i0]; omega
  · refine View.read_writes_apply_of_pieces v f row _ (fun p hp x => ?_) y ?_
    · simp only [List.mem_cons, List.not_mem_nil, or_false] at hp
      rcases hp with rfl | rfl | rfl | rfl
      · have hx : (x 1).val < 16 := (x 1).isLt
        have hb : m3 + (x 1).val < 4096 := by omega
        show p3 x = row ((Rect.unit (s := S1x4096) o3 S1x16.size i3).emb x)
        rw [unit16_emb o3 m3 h3 i3 x hb]; exact hp3 x hb
      · have hx : (x 1).val < 16 := (x 1).isLt
        have hb : m2 + (x 1).val < 4096 := by omega
        show p2 x = row ((Rect.unit (s := S1x4096) o2 S1x16.size i2).emb x)
        rw [unit16_emb o2 m2 h2 i2 x hb]; exact hp2 x hb
      · have hx : (x 1).val < 16 := (x 1).isLt
        have hb : m1 + (x 1).val < 4096 := by omega
        show p1 x = row ((Rect.unit (s := S1x4096) o1 S1x16.size i1).emb x)
        rw [unit16_emb o1 m1 h1 i1 x hb]; exact hp1 x hb
      · have hx : (x 1).val < 16 := (x 1).isLt
        have hb : m0 + (x 1).val < 4096 := by omega
        show p0 x = row ((Rect.unit (s := S1x4096) o0 S1x16.size i0).emb x)
        rw [unit16_emb o0 m0 h0 i0 x hb]; exact hp0 x hb
    · by_cases c3 : m3 ≤ (y 1).val
      · exact ⟨_, List.mem_cons_self, (mem_unit16 o3 m3 h3 i3 y).2 ⟨c3, by omega⟩⟩
      · by_cases c2 : m2 ≤ (y 1).val
        · exact ⟨_, List.mem_cons_of_mem _ List.mem_cons_self, (mem_unit16 o2 m2 h2 i2 y).2 ⟨c2, by omega⟩⟩
        · by_cases c1 : m1 ≤ (y 1).val
          · exact ⟨_, List.mem_cons_of_mem _ (List.mem_cons_of_mem _ List.mem_cons_self), (mem_unit16 o1 m1 h1 i1 y).2 ⟨c1, by omega⟩⟩
          · exact ⟨_, List.mem_cons_of_mem _ (List.mem_cons_of_mem _ (List.mem_cons_of_mem _ List.mem_cons_self)),
              (mem_unit16 o0 m0 h0 i0 y).2 ⟨by omega, by omega⟩⟩

end Trip

end Cert.Proof.KB

end
-- ==== Proof.KB.StepCat.lean ====
/-
  One trip of a category field's fill loop. Each of the trip's four pieces gathers, out of the fetched table row (row `r`
  of table `i` over the vocabulary), the 16 entries at the 16 category words the fetched field holds at the piece's
  position. When every category word is a vocabulary index, lane `l` of the piece at position `m` is the category row's
  entry at `m + l`; so a trip extends the staging row's agreement with the category row by 64 positions.
-/
import proofs.«207382_g17746804867166_cont_8to1_1179_25_alg».proof.Proof.KB.Step

noncomputable section

namespace Cert.Proof.KB

open Cert.Kernel Cert.Kernel.Gen

open Idealize.ShloMosaic Idealize.ShloMosaic.ValueIdx

variable {F : FTy → Type}

/-! ## A category piece -/

section Cat
variable {spc spi : Space} (vcol : View sig .scVector spc S1x100000 .f32) (vc : View sig .scVector spi S4096 .i32)

/-- The 16 table entries gathered at the 16 category words at position `c` of the fetched field: row 0 of the fetched table
    row at those words, as a `[1, 16]` piece. -/
abbrev catPay (fcol : vcol.ty.Contents (Elt F)) (fc : vc.ty.Contents (Elt F)) (c : Fin 1 → Nat)
    (ic : ∀ a, c a + S16.size a ≤ S4096.size a)
    (hr : ∀ a x, ((![broadcast S16 0#32, vc.readAt (Elt F) (Rect.unit (s := S4096) c S16.size ic).toLoadRect fc] : Fin 2 → IVec S16 32) a x).toNat
      < S1x100000.size a)
    (hs : S16.ShapeCasts S1x16) : S1x16.Idx → Elt F .f32 :=
  shapeCast S1x16 (loadIdx (vcol.readAt (Elt F) (LoadRect.whole S1x100000) fcol)
    ![broadcast S16 0#32, vc.readAt (Elt F) (Rect.unit (s := S4096) c S16.size ic).toLoadRect fc] hr) hs

/-- Lane `l` of the piece at position `m` is the category row's entry at `m + l`. -/
theorem catPay_apply (A : Arrs F) (i : Fin 26) (r : Fin 64)
    (fcol : vcol.ty.Contents (Elt F)) (hcol : vcol.read (Elt F) fcol = colRow A i r)
    (fc : vc.ty.Contents (Elt F)) (hcat : vc.read (Elt F) fc = catSlice A i)
    (hlt : ∀ n : Fin 4096, (A.cat (ix1 (catIdx i n))).toNat < 100000)
    (c : Fin 1 → Nat) (m : Nat) (hc : c = ![m]) (ic : ∀ a, c a + S16.size a ≤ S4096.size a)
    (hr : ∀ a x, ((![broadcast S16 0#32, vc.readAt (Elt F) (Rect.unit (s := S4096) c S16.size ic).toLoadRect fc] : Fin 2 → IVec S16 32) a x).toNat
      < S1x100000.size a)
    (hs : S16.ShapeCasts S1x16) (x : S1x16.Idx) (h : m + (x 1).val < 4096) :
    catPay vcol vc fcol fc c ic hr hs x = rowCat A i r (ix2 (0 : Fin 1) (⟨m + (x 1).val, h⟩ : Fin 4096)) := by
  have hx0 : (x 0).val = 0 := by have : (x 0).val < 1 := (x 0).isLt; omega
  have hx1 : (x 1).val < 16 := (x 1).isLt
  -- the lane
  have el : Shape.reshapeEquiv hs x = (ix1 (⟨(x 1).val, hx1⟩ : Fin 16) : S16.Idx) :=
    Shape.reshapeEquiv_eq_of_rowMajor hs (by
      rw [Shape.rowMajor_val_one, Shape.rowMajor_val_two]
      show (x 1).val = (x 0).val * 16 + (x 1).val
      rw [hx0]; omega)
  show loadIdx (vcol.readAt (Elt F) (LoadRect.whole S1x100000) fcol)
      ![broadcast S16 0#32, vc.readAt (Elt F) (Rect.unit (s := S4096) c S16.size ic).toLoadRect fc] hr
      (Shape.reshapeEquiv hs x) = _
  rw [el]
  -- the word the lane reads
  have hw : vc.readAt (Elt F) (Rect.unit (s := S4096) c S16.size ic).toLoadRect fc (ix1 (⟨(x 1).val, hx1⟩ : Fin 16))
      = A.cat (ix1 (catIdx i (⟨m + (x 1).val, h⟩ : Fin 4096))) := by
    rw [View.readAt_apply, hcat]
    subst hc
    refine congrArg A.cat (congrArg ix1 (congrArg (catIdx i) (Fin.ext ?_)))
    show m + 1 * (x 1).val = m + (x 1).val
    omega
  rw [rowCat_apply, vocab_of_lt _ (hlt _)]
  show vcol.readAt (Elt F) (LoadRect.whole S1x100000) fcol (idxAt _ hr (ix1 (⟨(x 1).val, hx1⟩ : Fin 16))) = _
  rw [View.readAt_apply, hcol]
  refine congrArg A.emb (congrArg (ix3 i r) (Fin.ext ?_))
  show 0 + 1 * (vc.readAt (Elt F) (Rect.unit (s := S4096) c S16.size ic).toLoadRect fc (ix1 (⟨(x 1).val, hx1⟩ : Fin 16))).toNat
    = (A.cat (ix1 (catIdx i (⟨m + (x 1).val, h⟩ : Fin 4096)))).toNat
  rw [hw]; omega

/-- ONE TRIP OF A CATEGORY LOOP, through any views of the staging row, the fetched table row and the fetched field. -/
theorem stepCat {spo : Space} (voc : View sig .scVector spo S1x4096 .f32) (A : Arrs F) (i : Fin 26) (r : Fin 64)
    (f : voc.ty.Contents (Elt F))
    (fcol : vcol.ty.Contents (Elt F)) (hcol : vcol.read (Elt F) fcol = colRow A i r)
    (fc : vc.ty.Contents (Elt F)) (hcat : vc.read (Elt F) fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, vc.readAt (Elt F) (Rect.unit (s := S4096) c0 S16.size ic0).toLoadRect fc] : Fin 2 → IVec S16 32) a x).toNat < S1x100000.size a) (hr1 : ∀ a x, ((![broadcast S16 0#32, vc.readAt (Elt F) (Rect.unit (s := S4096) c1 S16.size ic1).toLoadRect fc] : Fin 2 → IVec S16 32) a x).toNat < S1x100000.size a)
    (hr2 : ∀ a x, ((![broadcast S16 0#32, vc.readAt (Elt F) (Rect.unit (s := S4096) c2 S16.size ic2).toLoadRect fc] : Fin 2 → IVec S16 32) a x).toNat < S1x100000.size a) (hr3 : ∀ a x, ((![broadcast S16 0#32, vc.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → voc.read (Elt F) f y = rowCat A i r y) :
    ∀ y : S1x4096.Idx, (y 1).val < 64 * (k + 1) →
      voc.read (Elt F) (voc.writes (Elt F) f
        [⟨Rect.unit (s := S1x4096) o3 S1x16.size io3, catPay vcol vc fcol fc c3 ic3 hr3 hs3⟩,
         ⟨Rect.unit (s := S1x4096) o2 S1x16.size io2, catPay vcol vc fcol fc c2 ic2 hr2 hs2⟩,
         ⟨Rect.unit (s := S1x4096) o1 S1x16.size io1, catPay vcol vc fcol fc c1 ic1 hr1 hs1⟩,
         ⟨Rect.unit (s := S1x4096) o0 S1x16.size io0, catPay vcol vc fcol fc c0 ic0 hr0 hs0⟩]) y = rowCat A i r y :=
  step4 voc f (rowCat A i r) k o0 o1 o2 o3 m0 m1 m2 m3 io0 io1 io2 io3 ho0 ho1 ho2 ho3 e0 e1 e2 e3 _ _ _ _
    (fun x h => catPay_apply vcol vc A i r fcol hcol fc hcat hlt c0 m0 hc0 ic0 hr0 hs0 x h)
    (fun x h => catPay_apply vcol vc A i r fcol hcol fc hcat hlt c1 m1 hc1 ic1 hr1 hs1 x h)
    (fun x h => catPay_apply vcol vc A i r fcol hcol fc hcat hlt c2 m2 hc2 ic2 hr2 hs2 x h)
    (fun x h => catPay_apply vcol vc A i r fcol hcol fc hcat hlt c3 m3 hc3 ic3 hr3 hs3 x h) hf

end Cat

/-- The same on the whole scratch buffers: staging row A, field buffer A. -/
theorem stepCat_5_1 (A : Arrs F) (i : Fin 26) (r : Fin 64)
    (f : (Memref.whole cc0_scratch5).view.ty.Contents (Elt F))
    (fcol : (Memref.whole cc0_scratch0).view.ty.Contents (Elt F)) (hcol : fcol = colRow A i r)
    (fc : (Memref.whole cc0_scratch1).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch1).view.readAt (Elt F) (Rect.unit (s := S4096) c0 S16.size ic0).toLoadRect fc] : Fin 2 → IVec S16 32) a x).toNat < S1x100000.size a) (hr1 : ∀ a x, ((![broadcast S16 0#32, (Memref.whole cc0_scratch1).view.readAt (Elt F) (Rect.unit (s := S4096) c1 S16.size ic1).toLoadRect fc] : Fin 2 → IVec S16 32) a x).toNat < S1x100000.size a)
    (hr2 : ∀ a x, ((![broadcast S16 0#32, (Memref.whole cc0_scratch1).view.readAt (Elt F) (Rect.unit (s := S4096) c2 S16.size ic2).toLoadRect fc] : Fin 2 → IVec S16 32) a x).toNat < S1x100000.size a) (hr3 : ∀ a x, ((![broadcast S16 0#32, (Memref.whole cc0_scratch1).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch5).view.writes (Elt F) f
        [⟨Rect.unit (s := S1x4096) o3 S1x16.size io3, catPay (Memref.whole cc0_scratch0).view (Memref.whole cc0_scratch1).view fcol fc c3 ic3 hr3 hs3⟩,
         ⟨Rect.unit (s := S1x4096) o2 S1x16.size io2, catPay (Memref.whole cc0_scratch0).view (Memref.whole cc0_scratch1).view fcol fc c2 ic2 hr2 hs2⟩,
         ⟨Rect.unit (s := S1x4096) o1 S1x16.size io1, catPay (Memref.whole cc0_scratch0).view (Memref.whole cc0_scratch1).view fcol fc c1 ic1 hr1 hs1⟩,
         ⟨Rect.unit (s := S1x4096) o0 S1x16.size io0, catPay (Memref.whole cc0_scratch0).view (Memref.whole cc0_scratch1).view fcol fc c0 ic0 hr0 hs0⟩] y = rowCat A i r y :=
  stepCat (Memref.whole cc0_scratch0).view (Memref.whole cc0_scratch1).view (Memref.whole cc0_scratch5).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

/-- The same on the whole scratch buffers: staging row A, field buffer B. -/
theorem stepCat_5_2 (A : Arrs F) (i : Fin 26) (r : Fin 64)
    (f : (Memref.whole cc0_scratch5).view.ty.Contents (Elt F))
    (fcol : (Memref.whole cc0_scratch0).view.ty.Contents (Elt F)) (hcol : fcol = colRow A i r)
    (fc : (Memref.whole cc0_scratch2).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch2).view.readAt (Elt F) (Rect.unit (s := S4096) c0 S16.size ic0).toLoadRect fc] : Fin 2 → IVec S16 32) a x).toNat < S1x100000.size a) (hr1 : ∀ a x, ((![broadcast S16 0#32, (Memref.whole cc0_scratch2).view.readAt (Elt F) (Rect.unit (s := S4096) c1 S16.size ic1).toLoadRect fc] : Fin 2 → IVec S16 32) a x).toNat < S1x100000.size a)
    (hr2 : ∀ a x, ((![broadcast S16 0#32, (Memref.whole cc0_scratch2).view.readAt (Elt F) (Rect.unit (s := S4096) c2 S16.size ic2).toLoadRect fc] : Fin 2 → IVec S16 32) a x).toNat < S1x100000.size a) (hr3 : ∀ a x, ((![broadcast S16 0#32, (Memref.whole cc0_scratch2).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch5).view.writes (Elt F) f
        [⟨Rect.unit (s := S1x4096) o3 S1x16.size io3, catPay (Memref.whole cc0_scratch0).view (Memref.whole cc0_scratch2).view fcol fc c3 ic3 hr3 hs3⟩,
         ⟨Rect.unit (s := S1x4096) o2 S1x16.size io2, catPay (Memref.whole cc0_scratch0).view (Memref.whole cc0_scratch2).view fcol fc c2 ic2 hr2 hs2⟩,
         ⟨Rect.unit (s := S1x4096) o1 S1x16.size io1, catPay (Memref.whole cc0_scratch0).view (Memref.whole cc0_scratch2).view fcol fc c1 ic1 hr1 hs1⟩,
         ⟨Rect.unit (s := S1x4096) o0 S1x16.size io0, catPay (Memref.whole cc0_scratch0).view (Memref.whole cc0_scratch2).view fcol fc c0 ic0 hr0 hs0⟩] y = rowCat A i r y :=
  stepCat (Memref.whole cc0_scratch0).view (Memref.whole cc0_scratch2).view (Memref.whole cc0_scratch5).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

/-- The same on the whole scratch buffers: staging row B, field buffer A. -/
theorem stepCat_6_1 (A : Arrs F) (i : Fin 26) (r : Fin 64)
    (f : (Memref.whole cc0_scratch6).view.ty.Contents (Elt F))
    (fcol : (Memref.whole cc0_scratch0).view.ty.Contents (Elt F)) (hcol : fcol = colRow A i r)
    (fc : (Memref.whole cc0_scratch1).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch1).view.readAt (Elt F) (Rect.unit (s := S4096) c0 S16.size ic0).toLoadRect fc] : Fin 2 → IVec S16 32) a x).toNat < S1x100000.size a) (hr1 : ∀ a x, ((![broadcast S16 0#32, (Memref.whole cc0_scratch1).view.readAt (Elt F) (Rect.unit (s := S4096) c1 S16.size ic1).toLoadRect fc] : Fin 2 → IVec S16 32) a x).toNat < S1x100000.size a)
    (hr2 : ∀ a x, ((![broadcast S16 0#32, (Memref.whole cc0_scratch1).view.readAt (Elt F) (Rect.unit (s := S4096) c2 S16.size ic2).toLoadRect fc] : Fin 2 → IVec S16 32) a x).toNat < S1x100000.size a) (hr3 : ∀ a x, ((![broadcast S16 0#32, (Memref.whole cc0_scratch1).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch6).view.writes (Elt F) f
        [⟨Rect.unit (s := S1x4096) o3 S1x16.size io3, catPay (Memref.whole cc0_scratch0).view (Memref.whole cc0_scratch1).view fcol fc c3 ic3 hr3 hs3⟩,
         ⟨Rect.unit (s := S1x4096) o2 S1x16.size io2, catPay (Memref.whole cc0_scratch0).view (Memref.whole cc0_scratch1).view fcol fc c2 ic2 hr2 hs2⟩,
         ⟨Rect.unit (s := S1x4096) o1 S1x16.size io1, catPay (Memref.whole cc0_scratch0).view (Memref.whole cc0_scratch1).view fcol fc c1 ic1 hr1 hs1⟩,
         ⟨Rect.unit (s := S1x4096) o0 S1x16.size io0, catPay (Memref.whole cc0_scratch0).view (Memref.whole cc0_scratch1).view fcol fc c0 ic0 hr0 hs0⟩] y = rowCat A i r y :=
  stepCat (Memref.whole cc0_scratch0).view (Memref.whole cc0_scratch1).view (Memref.whole cc0_scratch6).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

/-- The same on the whole scratch buffers: staging row B, field buffer B. -/
theorem stepCat_6_2 (A : Arrs F) (i : Fin 26) (r : Fin 64)
    (f : (Memref.whole cc0_scratch6).view.ty.Contents (Elt F))
    (fcol : (Memref.whole cc0_scratch0).view.ty.Contents (Elt F)) (hcol : fcol = colRow A i r)
    (fc : (Memref.whole cc0_scratch2).view.ty.Contents (Elt F)) (hcat : fc = catSlice A i)
    (hlt : ∀ n : Fin 4096, (A.cat (ix1 (catIdx i n))).toNat < 100000) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hr0 : ∀ a x, ((![broadcast S16 0#32, (Memref.whole cc0_scratch2).view.readAt (Elt F) (Rect.unit (s := S4096) c0 S16.size ic0).toLoadRect fc] : Fin 2 → IVec S16 32) a x).toNat < S1x100000.size a) (hr1 : ∀ a x, ((![broadcast S16 0#32, (Memref.whole cc0_scratch2).view.readAt (Elt F) (Rect.unit (s := S4096) c1 S16.size ic1).toLoadRect fc] : Fin 2 → IVec S16 32) a x).toNat < S1x100000.size a)
    (hr2 : ∀ a x, ((![broadcast S16 0#32, (Memref.whole cc0_scratch2).view.readAt (Elt F) (Rect.unit (s := S4096) c2 S16.size ic2).toLoadRect fc] : Fin 2 → IVec S16 32) a x).toNat < S1x100000.size a) (hr3 : ∀ a x, ((![broadcast S16 0#32, (Memref.whole cc0_scratch2).view.readAt (Elt F) (Rect.unit (s := S4096) c3 S16.size ic3).toLoadRect fc] : Fin 2 → IVec S16 32) a x).toNat < S1x100000.size a)
    (hs0 hs1 hs2 hs3 : S16.ShapeCasts S1x16)
    (hf : ∀ y : S1x4096.Idx, (y 1).val < 64 * k → f y = rowCat A i r y) :
    ∀ y : S1x4096.Idx, (y 1).val < 64 * (k + 1) →
      (Memref.whole cc0_scratch6).view.writes (Elt F) f
        [⟨Rect.unit (s := S1x4096) o3 S1x16.size io3, catPay (Memref.whole cc0_scratch0).view (Memref.whole cc0_scratch2).view fcol fc c3 ic3 hr3 hs3⟩,
         ⟨Rect.unit (s := S1x4096) o2 S1x16.size io2, catPay (Memref.whole cc0_scratch0).view (Memref.whole cc0_scratch2).view fcol fc c2 ic2 hr2 hs2⟩,
         ⟨Rect.unit (s := S1x4096) o1 S1x16.size io1, catPay (Memref.whole cc0_scratch0).view (Memref.whole cc0_scratch2).view fcol fc c1 ic1 hr1 hs1⟩,
         ⟨Rect.unit (s := S1x4096) o0 S1x16.size io0, catPay (Memref.whole cc0_scratch0).view (Memref.whole cc0_scratch2).view fcol fc c0 ic0 hr0 hs0⟩] y = rowCat A i r y :=
  stepCat (Memref.whole cc0_scratch0).view (Memref.whole cc0_scratch2).view (Memref.whole cc0_scratch6).view A i r f fcol hcol fc hcat hlt k o0 o1 o2 o3 m0 m1 m2 m3 io0 io1 io2 io3
    ho0 ho1 ho2 ho3 e0 e1 e2 e3 c0 c1 c2 c3 ic0 ic1 ic2 ic3 hc0 hc1 hc2 hc3 hr0 hr1 hr2 hr3 hs0 hs1 hs2 hs3 hf

end Cert.Proof.KB

end
-- ==== Proof.KB.StepCls.lean ====
/-
  One trip of the class token's fill loop, and the splat vectors. A lane-indexed load at ONE word `w` broadcast over the 16
  lanes reads the same entry `w` of a flat array in every lane: that is how the kernel gets the class vector's entry `r`
  (and, for a numeric field, the weight and the bias `64 j + r`) as a 16-lane vector. Every piece of a class trip stores
  that one vector, so the trip extends the staging row's agreement with the constant row by 64 positions.
-/
import proofs.«207382_g17746804867166_cont_8to1_1179_25_alg».proof.Proof.KB.Step

noncomputable section

namespace Cert.Proof.KB

open Cert.Kernel Cert.Kernel.Gen

open Idealize.ShloMosaic Idealize.ShloMosaic.ValueIdx

variable {F : FTy → Type}

/-! ## A splat out of a flat array -/

/-- A lane-indexed load of a flat array `[n]` at one word `w` in every lane reads entry `w` in every lane. -/
theorem splat_apply {n : Nat} {sps : Space} (vs : View sig .scVector sps ⟨1, ![n]⟩ .f32) (fs : vs.ty.Contents (Elt F))
    (a : (⟨1, ![n]⟩ : Shape).Idx → Elt F .f32) (ha : vs.read (Elt F) fs = a) (w : BitVec 32) (q : Fin n) (hw : w.toNat = q.val)
    (hr : ∀ b x, ((![broadcast S16 w] : Fin 1 → IVec S16 32) b x).toNat < (⟨1, ![n]⟩ : Shape).size b) (l : S16.Idx) :
    loadIdx (vs.readAt (Elt F) (LoadRect.whole ⟨1, ![n]⟩) fs) ![broadcast S16 w] hr l = a (ix1 q) := by
  show vs.readAt (Elt F) (LoadRect.whole ⟨1, ![n]⟩) fs (idxAt _ hr l) = _
  rw [View.readAt_apply, ha]
  refine congrArg a (funext fun b => Fin.ext ?_)
  match b with
  | ⟨0, _⟩ => show 0 + 1 * w.toNat = q.val; omega

/-- The class vector's splat as the kernel computes it: the lane-indexed load, at the word `w` in every lane, of the class
    scratch as its fetch left it. -/
theorem clsPay_apply (A : Arrs F) (f9 : FVec F S64 .f32) (w : BitVec 32) (r : Fin 64) (hw : w.toNat = r.val)
    (h : ∀ a x, ((![broadcast S16 w] : Fin 1 → IVec S16 32) a x).toNat < S64.size a) :
    ∀ x, loadIdx (View.readAt (Elt F) (Memref.whole cc0_scratch9 : Memref sig .scVector .vmem S64 .f32).view (LoadRect.whole S64)
        (View.write (Elt F) (Memref.whole cc0_scratch9 : Memref sig .scVector .vmem S64 .f32).view f9
          (ReadAs.same.apply (View.read (Elt F) (Memref.whole main_v7_scv : Memref sig .scVector .hbm S64 .f32).view A.cls)) Finset.univ))
      ![broadcast S16 w] h x = A.cls (ix1 r) :=
  fun x => splat_apply (Memref.whole cc0_scratch9 : Memref sig .scVector .vmem S64 .f32).view
    (View.write (Elt F) (Memref.whole cc0_scratch9 : Memref sig .scVector .vmem S64 .f32).view f9
      (ReadAs.same.apply (View.read (Elt F) (Memref.whole main_v7_scv : Memref sig .scVector .hbm S64 .f32).view A.cls)) Finset.univ)
    A.cls ((View.read_whole (Val := Elt F) cc0_scratch9 _).trans (View.write_whole_univ (Val := Elt F) cc0_scratch9 f9 A.cls)) w r hw h x

/-- The weight splat: the lane-indexed load of the fetched weights at the word `64 j + r` in every lane. -/
theorem numW_apply (A : Arrs F) (j : Fin 13) (r : Fin 64)
    (fw : (Memref.whole cc0_scratch7 : Memref sig .scVector .vmem S832 .f32).view.ty.Contents (Elt F)) (hfw : fw = A.w)
    (w : BitVec 32) (hw : w.toNat = 64 * j.val + r.val)
    (h : ∀ a x, ((![broadcast S16 w] : Fin 1 → IVec S16 32) a x).toNat < S832.size a) :
    ∀ x, loadIdx (View.readAt (Elt F) (Memref.whole cc0_scratch7 : Memref sig .scVector .vmem S832 .f32).view (LoadRect.whole S832) fw)
      ![broadcast S16 w] h x = A.w (ix1 (wIdx j r)) :=
  fun x => splat_apply (Memref.whole cc0_scratch7 : Memref sig .scVector .vmem S832 .f32).view fw A.w hfw w (wIdx j r)
    (by rw [hw, wIdx_val]; omega) h x

/-- The bias splat: the same out of the fetched biases. -/
theorem numB_apply (A : Arrs F) (j : Fin 13) (r : Fin 64)
    (fb : (Memref.whole cc0_scratch8 : Memref sig .scVector .vmem S832 .f32).view.ty.Contents (Elt F)) (hfb : fb = A.b)
    (w : BitVec 32) (hw : w.toNat = 64 * j.val + r.val)
    (h : ∀ a x, ((![broadcast S16 w] : Fin 1 → IVec S16 32) a x).toNat < S832.size a) :
    ∀ x, loadIdx (View.readAt (Elt F) (Memref.whole cc0_scratch8 : Memref sig .scVector .vmem S832 .f32).view (LoadRect.whole S832) fb)
      ![broadcast S16 w] h x = A.b (ix1 (wIdx j r)) :=
  fun x => splat_apply (Memref.whole cc0_scratch8 : Memref sig .scVector .vmem S832 .f32).view fb A.b hfb w (wIdx j r)
    (by rw [hw, wIdx_val]; omega) h x

/-! ## A class piece -/

/-- A piece that stores one vector whose every lane is the class vector's entry `r` holds the class row. -/
theorem clsPiece_apply (A : Arrs F) (r : Fin 64) (pv : S16.Idx → Elt F .f32) (hpv : ∀ l, pv l = A.cls (ix1 r))
    (hs : S16.ShapeCasts S1x16) (m : Nat) (x : S1x16.Idx) (h : m + (x 1).val < 4096) :
    shapeCast S1x16 pv hs x = rowCls A r (ix2 (0 : Fin 1) (⟨m + (x 1).val, h⟩ : Fin 4096)) := by
  show pv (Shape.reshapeEquiv hs x) = _
  rw [hpv]
  rfl

section Cls

/-- ONE TRIP OF THE CLASS LOOP, through any view of the staging row. -/
theorem stepCls {spo : Space} (voc : View sig .scVector spo S1x4096 .f32) (A : Arrs F) (r : Fin 64)
    (f : voc.ty.Contents (Elt F)) (pv : S16.Idx → Elt F .f32) (hpv : ∀ l, pv l = A.cls (ix1 r)) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (hs0 hs1 hs2 hs3 : S16.ShapeCasts S1x16)
    (hf : ∀ y : S1x4096.Idx, (y 1).val < 64 * k → voc.read (Elt F) f y = rowCls A r y) :
    ∀ y : S1x4096.Idx, (y 1).val < 64 * (k + 1) →
      voc.read (Elt F) (voc.writes (Elt F) f
        [⟨Rect.unit (s := S1x4096) o3 S1x16.size io3, shapeCast S1x16 pv hs3⟩, ⟨Rect.unit (s := S1x4096) o2 S1x16.size io2, shapeCast S1x16 pv hs2⟩,
         ⟨Rect.unit (s := S1x4096) o1 S1x16.size io1, shapeCast S1x16 pv hs1⟩, ⟨Rect.unit (s := S1x4096) o0 S1x16.size io0, shapeCast S1x16 pv hs0⟩]) y = rowCls A r y :=
  step4 voc f (rowCls A r) k o0 o1 o2 o3 m0 m1 m2 m3 io0 io1 io2 io3 ho0 ho1 ho2 ho3 e0 e1 e2 e3 _ _ _ _
    (fun x h => clsPiece_apply A r pv hpv hs0 m0 x h) (fun x h => clsPiece_apply A r pv hpv hs1 m1 x h)
    (fun x h => clsPiece_apply A r pv hpv hs2 m2 x h) (fun x h => clsPiece_apply A r pv hpv hs3 m3 x h) hf

/-- The same on the whole staging row A. -/
theorem stepCls_5 (A : Arrs F) (r : Fin 64)
    (f : (Memref.whole cc0_scratch5).view.ty.Contents (Elt F)) (pv : S16.Idx → Elt F .f32) (hpv : ∀ l, pv l = A.cls (ix1 r)) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (hs0 hs1 hs2 hs3 : S16.ShapeCasts S1x16)
    (hf : ∀ y : S1x4096.Idx, (y 1).val < 64 * k → f y = rowCls A r y) :
    ∀ y : S1x4096.Idx, (y 1).val < 64 * (k + 1) →
      (Memref.whole cc0_scratch5).view.writes (Elt F) f
        [⟨Rect.unit (s := S1x4096) o3 S1x16.size io3, shapeCast S1x16 pv hs3⟩, ⟨Rect.unit (s := S1x4096) o2 S1x16.size io2, shapeCast S1x16 pv hs2⟩,
         ⟨Rect.unit (s := S1x4096) o1 S1x16.size io1, shapeCast S1x16 pv hs1⟩, ⟨Rect.unit (s := S1x4096) o0 S1x16.size io0, shapeCast S1x16 pv hs0⟩] y = rowCls A r y :=
  stepCls (Memref.whole cc0_scratch5).view A r f pv hpv k o0 o1 o2 o3 m0 m1 m2 m3 io0 io1 io2 io3 ho0 ho1 ho2 ho3 e0 e1 e2 e3 hs0 hs1 hs2 hs3 hf

/-- The same on the whole staging row B. -/
theorem stepCls_6 (A : Arrs F) (r : Fin 64)
    (f : (Memref.whole cc0_scratch6).view.ty.Contents (Elt F)) (pv : S16.Idx → Elt F .f32) (hpv : ∀ l, pv l = A.cls (ix1 r)) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (hs0 hs1 hs2 hs3 : S16.ShapeCasts S1x16)
    (hf : ∀ y : S1x4096.Idx, (y 1).val < 64 * k → f y = rowCls A r y) :
    ∀ y : S1x4096.Idx, (y 1).val < 64 * (k + 1) →
      (Memref.whole cc0_scratch6).view.writes (Elt F) f
        [⟨Rect.unit (s := S1x4096) o3 S1x16.size io3, shapeCast S1x16 pv hs3⟩, ⟨Rect.unit (s := S1x4096) o2 S1x16.size io2, shapeCast S1x16 pv hs2⟩,
         ⟨Rect.unit (s := S1x4096) o1 S1x16.size io1, shapeCast S1x16 pv hs1⟩, ⟨Rect.unit (s := S1x4096) o0 S1x16.size io0, shapeCast S1x16 pv hs0⟩] y = rowCls A r y :=
  stepCls (Memref.whole cc0_scratch6).view A r f pv hpv k o0 o1 o2 o3 m0 m1 m2 m3 io0 io1 io2 io3 ho0 ho1 ho2 ho3 e0 e1 e2 e3 hs0 hs1 hs2 hs3 hf

end Cls

end Cert.Proof.KB

end
-- ==== Proof.KB.StepNum.lean ====
/-
  One trip of a numeric field's fill loop. Each piece is the 16 numeric values the fetched field holds at the piece's
  position, times a weight vector, plus a bias vector, lane by lane; when every lane of the weight vector is `w[64 j + r]`
  and every lane of the bias vector is `b[64 j + r]`, lane `l` of the piece at position `m` is the numeric row's entry at
  `m + l`; so a trip extends the staging row's agreement with the numeric row by 64 positions.
-/
import proofs.«207382_g17746804867166_cont_8to1_1179_25_alg».proof.Proof.KB.Step

noncomputable section

namespace Cert.Proof.KB

open Cert.Kernel Cert.Kernel.Gen

open Idealize.ShloMosaic Idealize.ShloMosaic.ValueIdx

variable {F : FTy → Type}

variable [FloatOps F]

section Num
variable {spn : Space} (vn : View sig .scVector spn S4096 .f32)

/-- Lane `l` of the 16 values at position `m` of the fetched field is the field's value at `m + l`. -/
theorem numLane_apply (A : Arrs F) (j : Fin 13) (fn : vn.ty.Contents (Elt F)) (hnum : vn.read (Elt F) fn = numSlice A j)
    (c : Fin 1 → Nat) (m : Nat) (hc : c = ![m]) (ic : ∀ a, c a + S16.size a ≤ S4096.size a) (l : Fin 16) (h : m + l.val < 4096) :
    vn.readAt (Elt F) (Rect.unit (s := S4096) c S16.size ic).toLoadRect fn (ix1 l) = A.num (ix1 (numIdx j (⟨m + l.val, h⟩ : Fin 4096))) := by
  rw [View.readAt_apply, hnum]
  subst hc
  refine congrArg A.num (congrArg ix1 (congrArg (numIdx j) (Fin.ext ?_)))
  show m + 1 * l.val = m + l.val
  omega

/-- The piece a numeric trip stores at position `c`: the field's 16 values there times `ws` plus `bs`, as `[1, 16]`. -/
abbrev numPay (fn : vn.ty.Contents (Elt F)) (c : Fin 1 → Nat) (ic : ∀ a, c a + S16.size a ≤ S4096.size a)
    (ws bs : FVec F S16 .f32) (hs : S16.ShapeCasts S1x16) : S1x16.Idx → Elt F .f32 :=
  shapeCast S1x16 (addf (mulf (vn.readAt (Elt F) (Rect.unit (s := S4096) c S16.size ic).toLoadRect fn) ws) bs) hs

/-- Lane `l` of the piece at position `m` is the numeric row's entry at `m + l`. -/
theorem numPay_apply (A : Arrs F) (j : Fin 13) (r : Fin 64) (fn : vn.ty.Contents (Elt F)) (hnum : vn.read (Elt F) fn = numSlice A j)
    (ws bs : FVec F S16 .f32) (hws : ∀ l, ws l = A.w (ix1 (wIdx j r))) (hbs : ∀ l, bs l = A.b (ix1 (wIdx j r)))
    (c : Fin 1 → Nat) (m : Nat) (hc : c = ![m]) (ic : ∀ a, c a + S16.size a ≤ S4096.size a)
    (hs : S16.ShapeCasts S1x16) (x : S1x16.Idx) (h : m + (x 1).val < 4096) :
    numPay vn fn c ic ws bs hs x = rowNum A j r (ix2 (0 : Fin 1) (⟨m + (x 1).val, h⟩ : Fin 4096)) := by
  have hx0 : (x 0).val = 0 := by have : (x 0).val < 1 := (x 0).isLt; omega
  have hx1 : (x 1).val < 16 := (x 1).isLt
  have el : Shape.reshapeEquiv hs x = (ix1 (⟨(x 1).val, hx1⟩ : Fin 16) : S16.Idx) :=
    Shape.reshapeEquiv_eq_of_rowMajor hs (by
      rw [Shape.rowMajor_val_one, Shape.rowMajor_val_two]
      show (x 1).val = (x 0).val * 16 + (x 1).val
      rw [hx0]; omega)
  show FloatOps.addf (FloatOps.mulf (vn.readAt (Elt F) (Rect.unit (s := S4096) c S16.size ic).toLoadRect fn (Shape.reshapeEquiv hs x))
    (ws (Shape.reshapeEquiv hs x))) (bs (Shape.reshapeEquiv hs x)) = _
  rw [el, hws, hbs, numLane_apply vn A j fn hnum c m hc ic (⟨(x 1).val, hx1⟩ : Fin 16) h, rowNum_apply]

/-- ONE TRIP OF A NUMERIC LOOP, through any views of the staging row and the fetched field. -/
theorem stepNum {spo : Space} (voc : View sig .scVector spo S1x4096 .f32) (A : Arrs F) (j : Fin 13) (r : Fin 64)
    (f : voc.ty.Contents (Elt F)) (fn : vn.ty.Contents (Elt F)) (hnum : vn.read (Elt F) fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → voc.read (Elt F) f y = rowNum A j r y) :
    ∀ y : S1x4096.Idx, (y 1).val < 64 * (k + 1) →
      voc.read (Elt F) (voc.writes (Elt F) f
        [⟨Rect.unit (s := S1x4096) o3 S1x16.size io3, numPay vn fn c3 ic3 ws bs hs3⟩, ⟨Rect.unit (s := S1x4096) o2 S1x16.size io2, numPay vn fn c2 ic2 ws bs hs2⟩,
         ⟨Rect.unit (s := S1x4096) o1 S1x16.size io1, numPay vn fn c1 ic1 ws bs hs1⟩, ⟨Rect.unit (s := S1x4096) o0 S1x16.size io0, numPay vn fn c0 ic0 ws bs hs0⟩]) y = rowNum A j r y :=
  step4 voc f (rowNum A j r) k o0 o1 o2 o3 m0 m1 m2 m3 io0 io1 io2 io3 ho0 ho1 ho2 ho3 e0 e1 e2 e3 _ _ _ _
    (fun x h => numPay_apply vn A j r fn hnum ws bs hws hbs c0 m0 hc0 ic0 hs0 x h)
    (fun x h => numPay_apply vn A j r fn hnum ws bs hws hbs c1 m1 hc1 ic1 hs1 x h)
    (fun x h => numPay_apply vn A j r fn hnum ws bs hws hbs c2 m2 hc2 ic2 hs2 x h)
    (fun x h => numPay_apply vn A j r fn hnum ws bs hws hbs c3 m3 hc3 ic3 hs3 x h) hf

end Num

/-- The same on the whole scratch buffers: staging row A, field buffer A. -/
theorem stepNum_5_3 (A : Arrs F) (j : Fin 13) (r : Fin 64)
    (f : (Memref.whole cc0_scratch5).view.ty.Contents (Elt F)) (fn : (Memref.whole cc0_scratch3).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch5).view.writes (Elt F) f
        [⟨Rect.unit (s := S1x4096) o3 S1x16.size io3, numPay (Memref.whole cc0_scratch3).view fn c3 ic3 ws bs hs3⟩, ⟨Rect.unit (s := S1x4096) o2 S1x16.size io2, numPay (Memref.whole cc0_scratch3).view fn c2 ic2 ws bs hs2⟩,
         ⟨Rect.unit (s := S1x4096) o1 S1x16.size io1, numPay (Memref.whole cc0_scratch3).view fn c1 ic1 ws bs hs1⟩, ⟨Rect.unit (s := S1x4096) o0 S1x16.size io0, numPay (Memref.whole cc0_scratch3).view fn c0 ic0 ws bs hs0⟩] y = rowNum A j r y :=
  stepNum (Memref.whole cc0_scratch3).view (Memref.whole cc0_scratch5).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

/-- The same on the whole scratch buffers: staging row A, field buffer B. -/
theorem stepNum_5_4 (A : Arrs F) (j : Fin 13) (r : Fin 64)
    (f : (Memref.whole cc0_scratch5).view.ty.Contents (Elt F)) (fn : (Memref.whole cc0_scratch4).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch5).view.writes (Elt F) f
        [⟨Rect.unit (s := S1x4096) o3 S1x16.size io3, numPay (Memref.whole cc0_scratch4).view fn c3 ic3 ws bs hs3⟩, ⟨Rect.unit (s := S1x4096) o2 S1x16.size io2, numPay (Memref.whole cc0_scratch4).view fn c2 ic2 ws bs hs2⟩,
         ⟨Rect.unit (s := S1x4096) o1 S1x16.size io1, numPay (Memref.whole cc0_scratch4).view fn c1 ic1 ws bs hs1⟩, ⟨Rect.unit (s := S1x4096) o0 S1x16.size io0, numPay (Memref.whole cc0_scratch4).view fn c0 ic0 ws bs hs0⟩] y = rowNum A j r y :=
  stepNum (Memref.whole cc0_scratch4).view (Memref.whole cc0_scratch5).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

/-- The same on the whole scratch buffers: staging row B, field buffer A. -/
theorem stepNum_6_3 (A : Arrs F) (j : Fin 13) (r : Fin 64)
    (f : (Memref.whole cc0_scratch6).view.ty.Contents (Elt F)) (fn : (Memref.whole cc0_scratch3).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch6).view.writes (Elt F) f
        [⟨Rect.unit (s := S1x4096) o3 S1x16.size io3, numPay (Memref.whole cc0_scratch3).view fn c3 ic3 ws bs hs3⟩, ⟨Rect.unit (s := S1x4096) o2 S1x16.size io2, numPay (Memref.whole cc0_scratch3).view fn c2 ic2 ws bs hs2⟩,
         ⟨Rect.unit (s := S1x4096) o1 S1x16.size io1, numPay (Memref.whole cc0_scratch3).view fn c1 ic1 ws bs hs1⟩, ⟨Rect.unit (s := S1x4096) o0 S1x16.size io0, numPay (Memref.whole cc0_scratch3).view fn c0 ic0 ws bs hs0⟩] y = rowNum A j r y :=
  stepNum (Memref.whole cc0_scratch3).view (Memref.whole cc0_scratch6).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

/-- The same on the whole scratch buffers: staging row B, field buffer B. -/
theorem stepNum_6_4 (A : Arrs F) (j : Fin 13) (r : Fin 64)
    (f : (Memref.whole cc0_scratch6).view.ty.Contents (Elt F)) (fn : (Memref.whole cc0_scratch4).view.ty.Contents (Elt F)) (hnum : fn = numSlice A j)
    (ws bs : FVec F S16 .f32) (hws : ∀ l, ws l = A.w (ix1 (wIdx j r))) (hbs : ∀ l, bs l = A.b (ix1 (wIdx j r))) (k : Nat)
    (o0 o1 o2 o3 : Fin 2 → Nat) (m0 m1 m2 m3 : Nat)
    (io0 : ∀ a, o0 a + S1x16.size a ≤ S1x4096.size a) (io1 : ∀ a, o1 a + S1x16.size a ≤ S1x4096.size a)
    (io2 : ∀ a, o2 a + S1x16.size a ≤ S1x4096.size a) (io3 : ∀ a, o3 a + S1x16.size a ≤ S1x4096.size a)
    (ho0 : o0 = ![0, m0]) (ho1 : o1 = ![0, m1]) (ho2 : o2 = ![0, m2]) (ho3 : o3 = ![0, m3])
    (e0 : m0 = 64 * k) (e1 : m1 = 64 * k + 16) (e2 : m2 = 64 * k + 32) (e3 : m3 = 64 * k + 48)
    (c0 c1 c2 c3 : Fin 1 → Nat)
    (ic0 : ∀ a, c0 a + S16.size a ≤ S4096.size a) (ic1 : ∀ a, c1 a + S16.size a ≤ S4096.size a)
    (ic2 : ∀ a, c2 a + S16.size a ≤ S4096.size a) (ic3 : ∀ a, c3 a + S16.size a ≤ S4096.size a)
    (hc0 : c0 = ![m0]) (hc1 : c1 = ![m1]) (hc2 : c2 = ![m2]) (hc3 : c3 = ![m3])
    (hs0 hs1 hs2 hs3 : S16.ShapeCasts S1x16)
    (hf : ∀ y : S1x4096.Idx, (y 1).val < 64 * k → f y = rowNum A j r y) :
    ∀ y : S1x4096.Idx, (y 1).val < 64 * (k + 1) →
      (Memref.whole cc0_scratch6).view.writes (Elt F) f
        [⟨Rect.unit (s := S1x4096) o3 S1x16.size io3, numPay (Memref.whole cc0_scratch4).view fn c3 ic3 ws bs hs3⟩, ⟨Rect.unit (s := S1x4096) o2 S1x16.size io2, numPay (Memref.whole cc0_scratch4).view fn c2 ic2 ws bs hs2⟩,
         ⟨Rect.unit (s := S1x4096) o1 S1x16.size io1, numPay (Memref.whole cc0_scratch4).view fn c1 ic1 ws bs hs1⟩, ⟨Rect.unit (s := S1x4096) o0 S1x16.size io0, numPay (Memref.whole cc0_scratch4).view fn c0 ic0 ws bs hs0⟩] y = rowNum A j r y :=
  stepNum (Memref.whole cc0_scratch4).view (Memref.whole cc0_scratch6).view A j r f fn hnum ws bs hws hbs k o0 o1 o2 o3 m0 m1 m2 m3 io0 io1 io2 io3
    ho0 ho1 ho2 ho3 e0 e1 e2 e3 c0 c1 c2 c3 ic0 ic1 ic2 ic3 hc0 hc1 hc2 hc3 hs0 hs1 hs2 hs3 hf

end Cert.Proof.KB

end
-- ==== Proof.KB.ColTable.lean ====
/-
  The 52 table rows a task fetches, one per category field and per feature row of its pair: the offsets at which the
  kernel slices the embedding array `[26, 64, 100000]` at grid point `L`, in closed form: `(i, 2w + dd, 0)`.
-/
import proofs.«207382_g17746804867166_cont_8to1_1179_25_alg».proof.Proof.KB.Rows

noncomputable section

namespace Cert.Proof.KB

open Cert.Kernel Cert.Kernel.Gen
open Idealize.ShloMosaic

theorem col_hoff_0_0 (L : grid0.Coords) : (k0_off5 L) = ![0, (rowOf L (⟨0, by decide⟩ : Fin 2)).val, 0] :=
  (k0_off5_eq L).trans (row_off_eq L (⟨0, by decide⟩ : Fin 40) (⟨0, by decide⟩ : Fin 2))

theorem col_hoff_0_1 (L : grid0.Coords) : (k0_off15 L) = ![0, (rowOf L (⟨1, by decide⟩ : Fin 2)).val, 0] :=
  (k0_off15_eq L).trans (row_off_eq L (⟨0, by decide⟩ : Fin 40) (⟨1, by decide⟩ : Fin 2))

theorem col_hoff_1_0 (L : grid0.Coords) : (k0_off26 L) = ![1, (rowOf L (⟨0, by decide⟩ : Fin 2)).val, 0] :=
  (k0_off26_eq L).trans (row_off_eq L (⟨1, by decide⟩ : Fin 40) (⟨0, by decide⟩ : Fin 2))

theorem col_hoff_1_1 (L : grid0.Coords) : (k0_off36 L) = ![1, (rowOf L (⟨1, by decide⟩ : Fin 2)).val, 0] :=
  (k0_off36_eq L).trans (row_off_eq L (⟨1, by decide⟩ : Fin 40) (⟨1, by decide⟩ : Fin 2))

theorem col_hoff_2_0 (L : grid0.Coords) : (k0_off47 L) = ![2, (rowOf L (⟨0, by decide⟩ : Fin 2)).val, 0] :=
  (k0_off47_eq L).trans (row_off_eq L (⟨2, by decide⟩ : Fin 40) (⟨0, by decide⟩ : Fin 2))

theorem col_hoff_2_1 (L : grid0.Coords) : (k0_off57 L) = ![2, (rowOf L (⟨1, by decide⟩ : Fin 2)).val, 0] :=
  (k0_off57_eq L).trans (row_off_eq L (⟨2, by decide⟩ : Fin 40) (⟨1, by decide⟩ : Fin 2))

theorem col_hoff_3_0 (L : grid0.Coords) : (k0_off68 L) = ![3, (rowOf L (⟨0, by decide⟩ : Fin 2)).val, 0] :=
  (k0_off68_eq L).trans (row_off_eq L (⟨3, by decide⟩ : Fin 40) (⟨0, by decide⟩ : Fin 2))

theorem col_hoff_3_1 (L : grid0.Coords) : (k0_off78 L) = ![3, (rowOf L (⟨1, by decide⟩ : Fin 2)).val, 0] :=
  (k0_off78_eq L).trans (row_off_eq L (⟨3, by decide⟩ : Fin 40) (⟨1, by decide⟩ : Fin 2))

theorem col_hoff_4_0 (L : grid0.Coords) : (k0_off89 L) = ![4, (rowOf L (⟨0, by decide⟩ : Fin 2)).val, 0] :=
  (k0_off89_eq L).trans (row_off_eq L (⟨4, by decide⟩ : Fin 40) (⟨0, by decide⟩ : Fin 2))

theorem col_hoff_4_1 (L : grid0.Coords) : (k0_off99 L) = ![4, (rowOf L (⟨1, by decide⟩ : Fin 2)).val, 0] :=
  (k0_off99_eq L).trans (row_off_eq L (⟨4, by decide⟩ : Fin 40) (⟨1, by decide⟩ : Fin 2))

theorem col_hoff_5_0 (L : grid0.Coords) : (k0_off110 L) = ![5, (rowOf L (⟨0, by decide⟩ : Fin 2)).val, 0] :=
  (k0_off110_eq L).trans (row_off_eq L (⟨5, by decide⟩ : Fin 40) (⟨0, by decide⟩ : Fin 2))

theorem col_hoff_5_1 (L : grid0.Coords) : (k0_off120 L) = ![5, (rowOf L (⟨1, by decide⟩ : Fin 2)).val, 0] :=
  (k0_off120_eq L).trans (row_off_eq L (⟨5, by decide⟩ : Fin 40) (⟨1, by decide⟩ : Fin 2))

theorem col_hoff_6_0 (L : grid0.Coords) : (k0_off131 L) = ![6, (rowOf L (⟨0, by decide⟩ : Fin 2)).val, 0] :=
  (k0_off131_eq L).trans (row_off_eq L (⟨6, by decide⟩ : Fin 40) (⟨0, by decide⟩ : Fin 2))

theorem col_hoff_6_1 (L : grid0.Coords) : (k0_off141 L) = ![6, (rowOf L (⟨1, by decide⟩ : Fin 2)).val, 0] :=
  (k0_off141_eq L).trans (row_off_eq L (⟨6, by decide⟩ : Fin 40) (⟨1, by decide⟩ : Fin 2))

theorem col_hoff_7_0 (L : grid0.Coords) : (k0_off152 L) = ![7, (rowOf L (⟨0, by decide⟩ : Fin 2)).val, 0] :=
  (k0_off152_eq L).trans (row_off_eq L (⟨7, by decide⟩ : Fin 40) (⟨0, by decide⟩ : Fin 2))

theorem col_hoff_7_1 (L : grid0.Coords) : (k0_off162 L) = ![7, (rowOf L (⟨1, by decide⟩ : Fin 2)).val, 0] :=
  (k0_off162_eq L).trans (row_off_eq L (⟨7, by decide⟩ : Fin 40) (⟨1, by decide⟩ : Fin 2))

theorem col_hoff_8_0 (L : grid0.Coords) : (k0_off173 L) = ![8, (rowOf L (⟨0, by decide⟩ : Fin 2)).val, 0] :=
  (k0_off173_eq L).trans (row_off_eq L (⟨8, by decide⟩ : Fin 40) (⟨0, by decide⟩ : Fin 2))

theorem col_hoff_8_1 (L : grid0.Coords) : (k0_off183 L) = ![8, (rowOf L (⟨1, by decide⟩ : Fin 2)).val, 0] :=
  (k0_off183_eq L).trans (row_off_eq L (⟨8, by decide⟩ : Fin 40) (⟨1, by decide⟩ : Fin 2))

theorem col_hoff_9_0 (L : grid0.Coords) : (k0_off194 L) = ![9, (rowOf L (⟨0, by decide⟩ : Fin 2)).val, 0] :=
  (k0_off194_eq L).trans (row_off_eq L (⟨9, by decide⟩ : Fin 40) (⟨0, by decide⟩ : Fin 2))

theorem col_hoff_9_1 (L : grid0.Coords) : (k0_off204 L) = ![9, (rowOf L (⟨1, by decide⟩ : Fin 2)).val, 0] :=
  (k0_off204_eq L).trans (row_off_eq L (⟨9, by decide⟩ : Fin 40) (⟨1, by decide⟩ : Fin 2))

theorem col_hoff_10_0 (L : grid0.Coords) : (k0_off215 L) = ![10, (rowOf L (⟨0, by decide⟩ : Fin 2)).val, 0] :=
  (k0_off215_eq L).trans (row_off_eq L (⟨10, by decide⟩ : Fin 40) (⟨0, by decide⟩ : Fin 2))

theorem col_hoff_10_1 (L : grid0.Coords) : (k0_off225 L) = ![10, (rowOf L (⟨1, by decide⟩ : Fin 2)).val, 0] :=
  (k0_off225_eq L).trans (row_off_eq L (⟨10, by decide⟩ : Fin 40) (⟨1, by decide⟩ : Fin 2))

theorem col_hoff_11_0 (L : grid0.Coords) : (k0_off236 L) = ![11, (rowOf L (⟨0, by decide⟩ : Fin 2)).val, 0] :=
  (k0_off236_eq L).trans (row_off_eq L (⟨11, by decide⟩ : Fin 40) (⟨0, by decide⟩ : Fin 2))

theorem col_hoff_11_1 (L : grid0.Coords) : (k0_off246 L) = ![11, (rowOf L (⟨1, by decide⟩ : Fin 2)).val, 0] :=
  (k0_off246_eq L).trans (row_off_eq L (⟨11, by decide⟩ : Fin 40) (⟨1, by decide⟩ : Fin 2))

theorem col_hoff_12_0 (L : grid0.Coords) : (k0_off257 L) = ![12, (rowOf L (⟨0, by decide⟩ : Fin 2)).val, 0] :=
  (k0_off257_eq L).trans (row_off_eq L (⟨12, by decide⟩ : Fin 40) (⟨0, by decide⟩ : Fin 2))

theorem col_hoff_12_1 (L : grid0.Coords) : (k0_off267 L) = ![12, (rowOf L (⟨1, by decide⟩ : Fin 2)).val, 0] :=
  (k0_off267_eq L).trans (row_off_eq L (⟨12, by decide⟩ : Fin 40) (⟨1, by decide⟩ : Fin 2))

theorem col_hoff_13_0 (L : grid0.Coords) : (k0_off278 L) = ![13, (rowOf L (⟨0, by decide⟩ : Fin 2)).val, 0] :=
  (k0_off278_eq L).trans (row_off_eq L (⟨13, by decide⟩ : Fin 40) (⟨0, by decide⟩ : Fin 2))

theorem col_hoff_13_1 (L : grid0.Coords) : (k0_off288 L) = ![13, (rowOf L (⟨1, by decide⟩ : Fin 2)).val, 0] :=
  (k0_off288_eq L).trans (row_off_eq L (⟨13, by decide⟩ : Fin 40) (⟨1, by decide⟩ : Fin 2))

theorem col_hoff_14_0 (L : grid0.Coords) : (k0_off299 L) = ![14, (rowOf L (⟨0, by decide⟩ : Fin 2)).val, 0] :=
  (k0_off299_eq L).trans (row_off_eq L (⟨14, by decide⟩ : Fin 40) (⟨0, by decide⟩ : Fin 2))

theorem col_hoff_14_1 (L : grid0.Coords) : (k0_off309 L) = ![14, (rowOf L (⟨1, by decide⟩ : Fin 2)).val, 0] :=
  (k0_off309_eq L).trans (row_off_eq L (⟨14, by decide⟩ : Fin 40) (⟨1, by decide⟩ : Fin 2))

theorem col_hoff_15_0 (L : grid0.Coords) : (k0_off320 L) = ![15, (rowOf L (⟨0, by decide⟩ : Fin 2)).val, 0] :=
  (k0_off320_eq L).trans (row_off_eq L (⟨15, by decide⟩ : Fin 40) (⟨0, by decide⟩ : Fin 2))

theorem col_hoff_15_1 (L : grid0.Coords) : (k0_off330 L) = ![15, (rowOf L (⟨1, by decide⟩ : Fin 2)).val, 0] :=
  (k0_off330_eq L).trans (row_off_eq L (⟨15, by decide⟩ : Fin 40) (⟨1, by decide⟩ : Fin 2))

theorem col_hoff_16_0 (L : grid0.Coords) : (k0_off341 L) = ![16, (rowOf L (⟨0, by decide⟩ : Fin 2)).val, 0] :=
  (k0_off341_eq L).trans (row_off_eq L (⟨16, by decide⟩ : Fin 40) (⟨0, by decide⟩ : Fin 2))

theorem col_hoff_16_1 (L : grid0.Coords) : (k0_off351 L) = ![16, (rowOf L (⟨1, by decide⟩ : Fin 2)).val, 0] :=
  (k0_off351_eq L).trans (row_off_eq L (⟨16, by decide⟩ : Fin 40) (⟨1, by decide⟩ : Fin 2))

theorem col_hoff_17_0 (L : grid0.Coords) : (k0_off362 L) = ![17, (rowOf L (⟨0, by decide⟩ : Fin 2)).val, 0] :=
  (k0_off362_eq L).trans (row_off_eq L (⟨17, by decide⟩ : Fin 40) (⟨0, by decide⟩ : Fin 2))

theorem col_hoff_17_1 (L : grid0.Coords) : (k0_off372 L) = ![17, (rowOf L (⟨1, by decide⟩ : Fin 2)).val, 0] :=
  (k0_off372_eq L).trans (row_off_eq L (⟨17, by decide⟩ : Fin 40) (⟨1, by decide⟩ : Fin 2))

theorem col_hoff_18_0 (L : grid0.Coords) : (k0_off383 L) = ![18, (rowOf L (⟨0, by decide⟩ : Fin 2)).val, 0] :=
  (k0_off383_eq L).trans (row_off_eq L (⟨18, by decide⟩ : Fin 40) (⟨0, by decide⟩ : Fin 2))

theorem col_hoff_18_1 (L : grid0.Coords) : (k0_off393 L) = ![18, (rowOf L (⟨1, by decide⟩ : Fin 2)).val, 0] :=
  (k0_off393_eq L).trans (row_off_eq L (⟨18, by decide⟩ : Fin 40) (⟨1, by decide⟩ : Fin 2))

theorem col_hoff_19_0 (L : grid0.Coords) : (k0_off404 L) = ![19, (rowOf L (⟨0, by decide⟩ : Fin 2)).val, 0] :=
  (k0_off404_eq L).trans (row_off_eq L (⟨19, by decide⟩ : Fin 40) (⟨0, by decide⟩ : Fin 2))

theorem col_hoff_19_1 (L : grid0.Coords) : (k0_off414 L) = ![19, (rowOf L (⟨1, by decide⟩ : Fin 2)).val, 0] :=
  (k0_off414_eq L).trans (row_off_eq L (⟨19, by decide⟩ : Fin 40) (⟨1, by decide⟩ : Fin 2))

theorem col_hoff_20_0 (L : grid0.Coords) : (k0_off425 L) = ![20, (rowOf L (⟨0, by decide⟩ : Fin 2)).val, 0] :=
  (k0_off425_eq L).trans (row_off_eq L (⟨20, by decide⟩ : Fin 40) (⟨0, by decide⟩ : Fin 2))

theorem col_hoff_20_1 (L : grid0.Coords) : (k0_off435 L) = ![20, (rowOf L (⟨1, by decide⟩ : Fin 2)).val, 0] :=
  (k0_off435_eq L).trans (row_off_eq L (⟨20, by decide⟩ : Fin 40) (⟨1, by decide⟩ : Fin 2))

theorem col_hoff_21_0 (L : grid0.Coords) : (k0_off446 L) = ![21, (rowOf L (⟨0, by decide⟩ : Fin 2)).val, 0] :=
  (k0_off446_eq L).trans (row_off_eq L (⟨21, by decide⟩ : Fin 40) (⟨0, by decide⟩ : Fin 2))

theorem col_hoff_21_1 (L : grid0.Coords) : (k0_off456 L) = ![21, (rowOf L (⟨1, by decide⟩ : Fin 2)).val, 0] :=
  (k0_off456_eq L).trans (row_off_eq L (⟨21, by decide⟩ : Fin 40) (⟨1, by decide⟩ : Fin 2))

theorem col_hoff_22_0 (L : grid0.Coords) : (k0_off467 L) = ![22, (rowOf L (⟨0, by decide⟩ : Fin 2)).val, 0] :=
  (k0_off467_eq L).trans (row_off_eq L (⟨22, by decide⟩ : Fin 40) (⟨0, by decide⟩ : Fin 2))

theorem col_hoff_22_1 (L : grid0.Coords) : (k0_off477 L) = ![22, (rowOf L (⟨1, by decide⟩ : Fin 2)).val, 0] :=
  (k0_off477_eq L).trans (row_off_eq L (⟨22, by decide⟩ : Fin 40) (⟨1, by decide⟩ : Fin 2))

theorem col_hoff_23_0 (L : grid0.Coords) : (k0_off488 L) = ![23, (rowOf L (⟨0, by decide⟩ : Fin 2)).val, 0] :=
  (k0_off488_eq L).trans (row_off_eq L (⟨23, by decide⟩ : Fin 40) (⟨0, by decide⟩ : Fin 2))

theorem col_hoff_23_1 (L : grid0.Coords) : (k0_off498 L) = ![23, (rowOf L (⟨1, by decide⟩ : Fin 2)).val, 0] :=
  (k0_off498_eq L).trans (row_off_eq L (⟨23, by decide⟩ : Fin 40) (⟨1, by decide⟩ : Fin 2))

theorem col_hoff_24_0 (L : grid0.Coords) : (k0_off509 L) = ![24, (rowOf L (⟨0, by decide⟩ : Fin 2)).val, 0] :=
  (k0_off509_eq L).trans (row_off_eq L (⟨24, by decide⟩ : Fin 40) (⟨0, by decide⟩ : Fin 2))

theorem col_hoff_24_1 (L : grid0.Coords) : (k0_off519 L) = ![24, (rowOf L (⟨1, by decide⟩ : Fin 2)).val, 0] :=
  (k0_off519_eq L).trans (row_off_eq L (⟨24, by decide⟩ : Fin 40) (⟨1, by decide⟩ : Fin 2))

theorem col_hoff_25_0 (L : grid0.Coords) : (k0_off530 L) = ![25, (rowOf L (⟨0, by decide⟩ : Fin 2)).val, 0] :=
  (k0_off530_eq L).trans (row_off_eq L (⟨25, by decide⟩ : Fin 40) (⟨0, by decide⟩ : Fin 2))

theorem col_hoff_25_1 (L : grid0.Coords) : (k0_off540 L) = ![25, (rowOf L (⟨1, by decide⟩ : Fin 2)).val, 0] :=
  (k0_off540_eq L).trans (row_off_eq L (⟨25, by decide⟩ : Fin 40) (⟨1, by decide⟩ : Fin 2))

end Cert.Proof.KB

end
-- ==== Proof.KB.Body.lean ====
/-
  One task's body, run emit by emit: the class token's two rows, the 26 category tokens' (each row a table row
  gathered at the batch's category words), the 13 numeric tokens' (value times weight plus bias); every staging row
  is filled by a counted loop and copied into its destination row of the result, two copies in flight at most.
-/
import proofs.«207382_g17746804867166_cont_8to1_1179_25_alg».proof.Proof.KB.BodyCtxV
import proofs.«207382_g17746804867166_cont_8to1_1179_25_alg».proof.Proof.KB.Enter
import proofs.«207382_g17746804867166_cont_8to1_1179_25_alg».proof.Proof.KB.Fetch
import proofs.«207382_g17746804867166_cont_8to1_1179_25_alg».proof.Proof.KB.StepCat
import proofs.«207382_g17746804867166_cont_8to1_1179_25_alg».proof.Proof.KB.StepCls
import proofs.«207382_g17746804867166_cont_8to1_1179_25_alg».proof.Proof.KB.StepNum
import proofs.«207382_g17746804867166_cont_8to1_1179_25_alg».proof.Proof.KB.ColTable
import proofs.«207382_g17746804867166_cont_8to1_1179_25_alg».proof.Proof.Gen.Kernel.Skeleton
import Idealize.ShloMosaic.Lib.SparseCore.Ops
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- Sixteen words loaded from a category scratch whose words are vocabulary indices, beside the row index zero, name
    entries of the one-row column buffer. -/
theorem chk_cat_rd1 (v0 : IVec S16 32) (hv0 : v0 = broadcast S16 (0#32 : BitVec 32)) (fc : IVec S4096 32) (hfc : ∀ y, (fc y).toNat < 100000)
    (off : Fin 1 → Nat) (h : ∀ a, off a + S16.size a ≤ S4096.size a) :
    ∀ a x, ((![v0, (Memref.whole cc0_scratch1 : Memref sig .scVector .vmem S4096 .i32).view.readAt (Elt F) (Rect.unit (s := S4096) off S16.size h).toLoadRect fc] : Fin 2 → IVec S16 32) a x).toNat < S1x100000.size a := by
  subst hv0
  exact chk_cat _ (readAt_range1 (F := F) fc hfc (Rect.unit (s := S4096) off S16.size h).toLoadRect)

/-- Sixteen words loaded from a category scratch whose words are vocabulary indices, beside the row index zero, name
    entries of the one-row column buffer. -/
theorem chk_cat_rd2 (v0 : IVec S16 32) (hv0 : v0 = broadcast S16 (0#32 : BitVec 32)) (fc : IVec S4096 32) (hfc : ∀ y, (fc y).toNat < 100000)
    (off : Fin 1 → Nat) (h : ∀ a, off a + S16.size a ≤ S4096.size a) :
    ∀ a x, ((![v0, (Memref.whole cc0_scratch2 : Memref sig .scVector .vmem S4096 .i32).view.readAt (Elt F) (Rect.unit (s := S4096) off S16.size h).toLoadRect fc] : Fin 2 → IVec S16 32) a x).toNat < S1x100000.size a := by
  subst hv0
  exact chk_cat _ (readAt_range2 (F := F) fc hfc (Rect.unit (s := S4096) off S16.size h).toLoadRect)

/-- The word of a task's feature row is the row's number; the word of its weight entry the entry's. -/
theorem rowWord_toNat0 : ∀ L : grid0.Coords, (rowWord L 0#32).toNat = (rowOf L (⟨0, by decide⟩ : Fin 2)).val := by decide +kernel
theorem rowWord_toNat1 : ∀ L : grid0.Coords, (rowWord L 1#32).toNat = (rowOf L (⟨1, by decide⟩ : Fin 2)).val := by decide +kernel
theorem numWord_toNat : ∀ (j : Fin 13) (r : Fin 2) (L : grid0.Coords),
    (Scalar.addi (BitVec.ofNat 32 (64 * j.val)) (rowWord L (BitVec.ofNat 32 r.val))).toNat = 64 * j.val + (rowOf L r).val := by decide +kernel

/-! ## The fill loops' invariants: the staging row's first 64·k entries are the row's -/

def invCls0 (A : Arrs F) (d : Dev nD) (L : grid0.Coords) (k : Nat) (_ : PUnit) : sProp 𝕄 :=
  iprop(∃ f, ((Memref.whole cc0_scratch5 : Memref sig .scVector .vmem S1x4096 .f32).view.loc (thr d L) ↦{fullShare} f) ∗ ⌜∀ y : S1x4096.Idx, (y 1).val < 64 * k → (f : FVec F S1x4096 .f32) y = rowCls A (rowOf L (⟨0, by decide⟩ : Fin 2)) y⌝)
def invCls1 (A : Arrs F) (d : Dev nD) (L : grid0.Coords) (k : Nat) (_ : PUnit) : sProp 𝕄 :=
  iprop(∃ f, ((Memref.whole cc0_scratch6 : Memref sig .scVector .vmem S1x4096 .f32).view.loc (thr d L) ↦{fullShare} f) ∗ ⌜∀ y : S1x4096.Idx, (y 1).val < 64 * k → (f : FVec F S1x4096 .f32) y = rowCls A (rowOf L (⟨1, by decide⟩ : Fin 2)) y⌝)
def invCat15 (A : Arrs F) (i : Fin 26) (dd : Fin 2) (d : Dev nD) (L : grid0.Coords) (k : Nat) (_ : PUnit) : sProp 𝕄 :=
  iprop((∃ fc, ((Memref.whole cc0_scratch1 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowCat A i (rowOf L dd) y⌝))
def invCat16 (A : Arrs F) (i : Fin 26) (dd : Fin 2) (d : Dev nD) (L : grid0.Coords) (k : Nat) (_ : PUnit) : sProp 𝕄 :=
  iprop((∃ fc, ((Memref.whole cc0_scratch1 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowCat A i (rowOf L dd) y⌝))
def invCat25 (A : Arrs F) (i : Fin 26) (dd : Fin 2) (d : Dev nD) (L : grid0.Coords) (k : Nat) (_ : PUnit) : sProp 𝕄 :=
  iprop((∃ fc, ((Memref.whole cc0_scratch2 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowCat A i (rowOf L dd) y⌝))
def invCat26 (A : Arrs F) (i : Fin 26) (dd : Fin 2) (d : Dev nD) (L : grid0.Coords) (k : Nat) (_ : PUnit) : sProp 𝕄 :=
  iprop((∃ fc, ((Memref.whole cc0_scratch2 : Memref sig .scVector .vmem S4096 .i32).view.loc (thr d L) ↦{fullShare} fc) ∗ ⌜(fc : IVec S4096 32) = catSlice A i⌝)
    ∗ (∃ fcol, ((Memref.whole cc0_scratch0 : Memref sig .scVector .vmem S1x100000 .f32).view.loc (thr d L) ↦{fullShare} fcol) ∗ ⌜(fcol : FVec F S1x100000 .f32) = colRow A i (rowOf L dd)⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowCat A i (rowOf L dd) y⌝))
def invNum35 (A : Arrs F) (j : Fin 13) (dd : Fin 2) (d : Dev nD) (L : grid0.Coords) (k : Nat) (_ : PUnit) : sProp 𝕄 :=
  iprop((∃ fn, ((Memref.whole cc0_scratch3 : Memref sig .scVector .vmem S4096 .f32).view.loc (thr d L) ↦{fullShare} fn) ∗ ⌜(fn : FVec F S4096 .f32) = numSlice A j⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowNum A j (rowOf L dd) y⌝))
def invNum36 (A : Arrs F) (j : Fin 13) (dd : Fin 2) (d : Dev nD) (L : grid0.Coords) (k : Nat) (_ : PUnit) : sProp 𝕄 :=
  iprop((∃ fn, ((Memref.whole cc0_scratch3 : Memref sig .scVector .vmem S4096 .f32).view.loc (thr d L) ↦{fullShare} fn) ∗ ⌜(fn : FVec F S4096 .f32) = numSlice A j⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowNum A j (rowOf L dd) y⌝))
def invNum45 (A : Arrs F) (j : Fin 13) (dd : Fin 2) (d : Dev nD) (L : grid0.Coords) (k : Nat) (_ : PUnit) : sProp 𝕄 :=
  iprop((∃ fn, ((Memref.whole cc0_scratch4 : Memref sig .scVector .vmem S4096 .f32).view.loc (thr d L) ↦{fullShare} fn) ∗ ⌜(fn : FVec F S4096 .f32) = numSlice A j⌝)
    ∗ (∃ f, ((Memref.whole cc0_scratch5 : Memref sig .scVector .vmem S1x4096 .f32).view.loc (thr d L) ↦{fullShare} f) ∗ ⌜∀ y : S1x4096.Idx, (y 1).val < 64 * k → (f : FVec F S1x4096 .f32) y = rowNum A j (rowOf L dd) y⌝))
def invNum46 (A : Arrs F) (j : Fin 13) (dd : Fin 2) (d : Dev nD) (L : grid0.Coords) (k : Nat) (_ : PUnit) : sProp 𝕄 :=
  iprop((∃ fn, ((Memref.whole cc0_scratch4 : Memref sig .scVector .vmem S4096 .f32).view.loc (thr d L) ↦{fullShare} fn) ∗ ⌜(fn : FVec F S4096 .f32) = numSlice A j⌝)
    ∗ (∃ f, ((Memref.whole cc0_scratch6 : Memref sig .scVector .vmem S1x4096 .f32).view.loc (thr d L) ↦{fullShare} f) ∗ ⌜∀ y : S1x4096.Idx, (y 1).val < 64 * k → (f : FVec F S1x4096 .f32) y = rowNum A j (rowOf L dd) y⌝))

/-! ## The run -/

/-- What the task starts from: the right to wait, the six operands (a read share each), its 80 destination rows, the ten
    scratch buffers, the 58 semaphores at zero, the rest of the subcore's scoped storage, what it owes. -/
def tilePre (A : Arrs F) (fo : FVec F S40x64x4096 .f32) (d : Dev nD) (L : grid0.Coords)
    (O : CellTallies nD τ sig (HIx 1)) (W : Waits sig (HIx 1))
    (f0 : FVec F S1x100000 .f32) (f1 f2 : IVec S4096 32) (f3 f4 : FVec F S4096 .f32) (f5 f6 : FVec F S1x4096 .f32)
    (f7 f8 : FVec F S832 .f32) (f9 : FVec F S64 .f32) : sProp 𝕄 :=
  iprop(Transfers.MayWaits (thr d L) (none : HIx 1) O
    ∗ ((Memref.whole main_v1_scv : Memref sig .scVector .hbm S106496 .i32).view.loc (thr d L) ↦{rsh (widL L)} A.cat)
    ∗ ((Memref.whole main_v3_scv : Memref sig .scVector .hbm S53248 .f32).view.loc (thr d L) ↦{rsh (widL L)} A.num)
    ∗ ((Memref.whole main_v4_scv : Memref sig .scVector .hbm S26x64x100000 .f32).view.loc (thr d L) ↦{rsh (widL L)} A.emb)
    ∗ ((Memref.whole main_v5_scv : Memref sig .scVector .hbm S832 .f32).view.loc (thr d L) ↦{rsh (widL L)} A.w)
    ∗ ((Memref.whole main_v6_scv : Memref sig .scVector .hbm S832 .f32).view.loc (thr d L) ↦{rsh (widL L)} A.b)
    ∗ ((Memref.whole main_v7_scv : Memref sig .scVector .hbm S64 .f32).view.loc (thr d L) ↦{rsh (widL L)} A.cls)
    ∗ rowsIn fo d L
    ∗ ((Memref.whole cc0_scratch0 : Memref sig .scVector .vmem S1x100000 .f32).view.loc (thr d L) ↦{fullShare} f0)
    ∗ ((Memref.whole cc0_scratch1 : Memref sig .scVector .vmem S4096 .i32).view.loc (thr d L) ↦{fullShare} f1)
    ∗ ((Memref.whole cc0_scratch2 : Memref sig .scVector .vmem S4096 .i32).view.loc (thr d L) ↦{fullShare} f2)
    ∗ ((Memref.whole cc0_scratch3 : Memref sig .scVector .vmem S4096 .f32).view.loc (thr d L) ↦{fullShare} f3)
    ∗ ((Memref.whole cc0_scratch4 : Memref sig .scVector .vmem S4096 .f32).view.loc (thr d L) ↦{fullShare} f4)
    ∗ ((Memref.whole cc0_scratch5 : Memref sig .scVector .vmem S1x4096 .f32).view.loc (thr d L) ↦{fullShare} f5)
    ∗ ((Memref.whole cc0_scratch6 : Memref sig .scVector .vmem S1x4096 .f32).view.loc (thr d L) ↦{fullShare} f6)
    ∗ ((Memref.whole cc0_scratch7 : Memref sig .scVector .vmem S832 .f32).view.loc (thr d L) ↦{fullShare} f7)
    ∗ ((Memref.whole cc0_scratch8 : Memref sig .scVector .vmem S832 .f32).view.loc (thr d L) ↦{fullShare} f8)
    ∗ ((Memref.whole cc0_scratch9 : Memref sig .scVector .vmem S64 .f32).view.loc (thr d L) ↦{fullShare} f9)
    ∗ semVal (thr d L, SemLoc.dma cc0_scratch10.sem) 0
    ∗ semVal (thr d L, SemLoc.dma cc0_scratch11.sem) 0
    ∗ semVal (thr d L, SemLoc.dma cc0_scratch12.sem) 0
    ∗ semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0
    ∗ semVal (thr d L, SemLoc.dma cc0_scoped4.sem) 0
    ∗ semVal (thr d L, SemLoc.dma cc0_scoped5.sem) 0
    ∗ semVal (thr d L, SemLoc.dma cc0_scoped6.sem) 0
    ∗ semVal (thr d L, SemLoc.dma cc0_scoped7.sem) 0
    ∗ semVal (thr d L, SemLoc.dma cc0_scoped8.sem) 0
    ∗ semVal (thr d L, SemLoc.dma cc0_scoped9.sem) 0
    ∗ semVal (thr d L, SemLoc.dma cc0_scoped10.sem) 0
    ∗ semVal (thr d L, SemLoc.dma cc0_scoped11.sem) 0
    ∗ semVal (thr d L, SemLoc.dma cc0_scoped12.sem) 0
    ∗ semVal (thr d L, SemLoc.dma cc0_scoped13.sem) 0
    ∗ semVal (thr d L, SemLoc.dma cc0_scoped14.sem) 0
    ∗ semVal (thr d L, SemLoc.dma cc0_scoped15.sem) 0
    ∗ semVal (thr d L, SemLoc.dma cc0_scoped16.sem) 0
    ∗ semVal (thr d L, SemLoc.dma cc0_scoped17.sem) 0
    ∗ semVal (thr d L, SemLoc.dma cc0_scoped18.sem) 0
    ∗ semVal (thr d L, SemLoc.dma cc0_scoped19.sem) 0
    ∗ semVal (thr d L, SemLoc.dma cc0_scoped20.sem) 0
    ∗ semVal (thr d L, SemLoc.dma cc0_scoped21.sem) 0
    ∗ semVal (thr d L, SemLoc.dma cc0_scoped22.sem) 0
    ∗ semVal (thr d L, SemLoc.dma cc0_scoped23.sem) 0
    ∗ semVal (thr d L, SemLoc.dma cc0_scoped24.sem) 0
    ∗ semVal (thr d L, SemLoc.dma cc0_scoped25.sem) 0
    ∗ semVal (thr d L, SemLoc.dma cc0_scoped26.sem) 0
    ∗ semVal (thr d L, SemLoc.dma cc0_scoped27.sem) 0
    ∗ semVal (thr d L, SemLoc.dma cc0_scoped28.sem) 0
    ∗ semVal (thr d L, SemLoc.dma cc0_scoped29.sem) 0
    ∗ semVal (thr d L, SemLoc.dma cc0_scoped30.sem) 0
    ∗ semVal (thr d L, SemLoc.dma cc0_scoped31.sem) 0
    ∗ semVal (thr d L, SemLoc.dma cc0_scoped32.sem) 0
    ∗ semVal (thr d L, SemLoc.dma cc0_scoped33.sem) 0
    ∗ semVal (thr d L, SemLoc.dma cc0_scoped34.sem) 0
    ∗ semVal (thr d L, SemLoc.dma cc0_scoped35.sem) 0
    ∗ semVal (thr d L, SemLoc.dma cc0_scoped36.sem) 0
    ∗ semVal (thr d L, SemLoc.dma cc0_scoped37.sem) 0
    ∗ semVal (thr d L, SemLoc.dma cc0_scoped38.sem) 0
    ∗ semVal (thr d L, SemLoc.dma cc0_scoped39.sem) 0
    ∗ semVal (thr d L, SemLoc.dma cc0_scoped40.sem) 0
    ∗ semVal (thr d L, SemLoc.dma cc0_scoped41.sem) 0
    ∗ semVal (thr d L, SemLoc.dma cc0_scoped42.sem) 0
    ∗ semVal (thr d L, SemLoc.dma cc0_scoped43.sem) 0
    ∗ semVal (thr d L, SemLoc.dma cc0_scoped44.sem) 0
    ∗ semVal (thr d L, SemLoc.dma cc0_scoped45.sem) 0
    ∗ semVal (thr d L, SemLoc.dma cc0_scoped46.sem) 0
    ∗ semVal (thr d L, SemLoc.dma cc0_scoped47.sem) 0
    ∗ semVal (thr d L, SemLoc.dma cc0_scoped48.sem) 0
    ∗ semVal (thr d L, SemLoc.dma cc0_scoped49.sem) 0
    ∗ semVal (thr d L, SemLoc.dma cc0_scoped50.sem) 0
    ∗ semVal (thr d L, SemLoc.dma cc0_scoped51.sem) 0
    ∗ semVal (thr d L, SemLoc.dma cc0_scoped52.sem) 0
    ∗ semVal (thr d L, SemLoc.dma cc0_scoped53.sem) 0
    ∗ semVal (thr d L, SemLoc.dma cc0_scoped54.sem) 0
    ∗ restV d (cV L) (jV L)
    ∗ owes (thr d L) O W)

/-- What it ends with: the waits it recorded, the operands back, every destination row written with the result's values,
    the scratch at some contents, the semaphores at zero again. -/
def tilePost (A : Arrs F) (d : Dev nD) (L : grid0.Coords) (O : CellTallies nD τ sig (HIx 1)) (W : Waits sig (HIx 1)) : sProp 𝕄 :=
  iprop((∃ W', ⌜OkW W W'⌝ ∗ owes (thr d L) O W')
    ∗ ((Memref.whole main_v1_scv : Memref sig .scVector .hbm S106496 .i32).view.loc (thr d L) ↦{rsh (widL L)} A.cat)
    ∗ ((Memref.whole main_v3_scv : Memref sig .scVector .hbm S53248 .f32).view.loc (thr d L) ↦{rsh (widL L)} A.num)
    ∗ ((Memref.whole main_v4_scv : Memref sig .scVector .hbm S26x64x100000 .f32).view.loc (thr d L) ↦{rsh (widL L)} A.emb)
    ∗ ((Memref.whole main_v5_scv : Memref sig .scVector .hbm S832 .f32).view.loc (thr d L) ↦{rsh (widL L)} A.w)
    ∗ ((Memref.whole main_v6_scv : Memref sig .scVector .hbm S832 .f32).view.loc (thr d L) ↦{rsh (widL L)} A.b)
    ∗ ((Memref.whole main_v7_scv : Memref sig .scVector .hbm S64 .f32).view.loc (thr d L) ↦{rsh (widL L)} A.cls)
    ∗ rowsDone A d L
    ∗ (∃ f, (Memref.whole cc0_scratch0 : Memref sig .scVector .vmem S1x100000 .f32).view.loc (thr d L) ↦{fullShare} f)
    ∗ (∃ f, (Memref.whole cc0_scratch1 : Memref sig .scVector .vmem S4096 .i32).view.loc (thr d L) ↦{fullShare} f)
    ∗ (∃ f, (Memref.whole cc0_scratch2 : Memref sig .scVector .vmem S4096 .i32).view.loc (thr d L) ↦{fullShare} f)
    ∗ (∃ f, (Memref.whole cc0_scratch3 : Memref sig .scVector .vmem S4096 .f32).view.loc (thr d L) ↦{fullShare} f)
    ∗ (∃ f, (Memref.whole cc0_scratch4 : Memref sig .scVector .vmem S4096 .f32).view.loc (thr d L) ↦{fullShare} f)
    ∗ (∃ f, (Memref.whole cc0_scratch5 : Memref sig .scVector .vmem S1x4096 .f32).view.loc (thr d L) ↦{fullShare} f)
    ∗ (∃ f, (Memref.whole cc0_scratch6 : Memref sig .scVector .vmem S1x4096 .f32).view.loc (thr d L) ↦{fullShare} f)
    ∗ (∃ f, (Memref.whole cc0_scratch7 : Memref sig .scVector .vmem S832 .f32).view.loc (thr d L) ↦{fullShare} f)
    ∗ (∃ f, (Memref.whole cc0_scratch8 : Memref sig .scVector .vmem S832 .f32).view.loc (thr d L) ↦{fullShare} f)
    ∗ (∃ f, (Memref.whole cc0_scratch9 : Memref sig .scVector .vmem S64 .f32).view.loc (thr d L) ↦{fullShare} f)
    ∗ semVal (thr d L, SemLoc.dma cc0_scratch10.sem) 0
    ∗ semVal (thr d L, SemLoc.dma cc0_scratch11.sem) 0
    ∗ semVal (thr d L, SemLoc.dma cc0_scratch12.sem) 0
    ∗ semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0
    ∗ semVal (thr d L, SemLoc.dma cc0_scoped4.sem) 0
    ∗ semVal (thr d L, SemLoc.dma cc0_scoped5.sem) 0
    ∗ semVal (thr d L, SemLoc.dma cc0_scoped6.sem) 0
    ∗ semVal (thr d L, SemLoc.dma cc0_scoped7.sem) 0
    ∗ semVal (thr d L, SemLoc.dma cc0_scoped8.sem) 0
    ∗ semVal (thr d L, SemLoc.dma cc0_scoped9.sem) 0
    ∗ semVal (thr d L, SemLoc.dma cc0_scoped10.sem) 0
    ∗ semVal (thr d L, SemLoc.dma cc0_scoped11.sem) 0
    ∗ semVal (thr d L, SemLoc.dma cc0_scoped12.sem) 0
    ∗ semVal (thr d L, SemLoc.dma cc0_scoped13.sem) 0
    ∗ semVal (thr d L, SemLoc.dma cc0_scoped14.sem) 0
    ∗ semVal (thr d L, SemLoc.dma cc0_scoped15.sem) 0
    ∗ semVal (thr d L, SemLoc.dma cc0_scoped16.sem) 0
    ∗ semVal (thr d L, SemLoc.dma cc0_scoped17.sem) 0
    ∗ semVal (thr d L, SemLoc.dma cc0_scoped18.sem) 0
    ∗ semVal (thr d L, SemLoc.dma cc0_scoped19.sem) 0
    ∗ semVal (thr d L, SemLoc.dma cc0_scoped20.sem) 0
    ∗ semVal (thr d L, SemLoc.dma cc0_scoped21.sem) 0
    ∗ semVal (thr d L, SemLoc.dma cc0_scoped22.sem) 0
    ∗ semVal (thr d L, SemLoc.dma cc0_scoped23.sem) 0
    ∗ semVal (thr d L, SemLoc.dma cc0_scoped24.sem) 0
    ∗ semVal (thr d L, SemLoc.dma cc0_scoped25.sem) 0
    ∗ semVal (thr d L, SemLoc.dma cc0_scoped26.sem) 0
    ∗ semVal (thr d L, SemLoc.dma cc0_scoped27.sem) 0
    ∗ semVal (thr d L, SemLoc.dma cc0_scoped28.sem) 0
    ∗ semVal (thr d L, SemLoc.dma cc0_scoped29.sem) 0
    ∗ semVal (thr d L, SemLoc.dma cc0_scoped30.sem) 0
    ∗ semVal (thr d L, SemLoc.dma cc0_scoped31.sem) 0
    ∗ semVal (thr d L, SemLoc.dma cc0_scoped32.sem) 0
    ∗ semVal (thr d L, SemLoc.dma cc0_scoped33.sem) 0
    ∗ semVal (thr d L, SemLoc.dma cc0_scoped34.sem) 0
    ∗ semVal (thr d L, SemLoc.dma cc0_scoped35.sem) 0
    ∗ semVal (thr d L, SemLoc.dma cc0_scoped36.sem) 0
    ∗ semVal (thr d L, SemLoc.dma cc0_scoped37.sem) 0
    ∗ semVal (thr d L, SemLoc.dma cc0_scoped38.sem) 0
    ∗ semVal (thr d L, SemLoc.dma cc0_scoped39.sem) 0
    ∗ semVal (thr d L, SemLoc.dma cc0_scoped40.sem) 0
    ∗ semVal (thr d L, SemLoc.dma cc0_scoped41.sem) 0
    ∗ semVal (thr d L, SemLoc.dma cc0_scoped42.sem) 0
    ∗ semVal (thr d L, SemLoc.dma cc0_scoped43.sem) 0
    ∗ semVal (thr d L, SemLoc.dma cc0_scoped44.sem) 0
    ∗ semVal (thr d L, SemLoc.dma cc0_scoped45.sem) 0
    ∗ semVal (thr d L, SemLoc.dma cc0_scoped46.sem) 0
    ∗ semVal (thr d L, SemLoc.dma cc0_scoped47.sem) 0
    ∗ semVal (thr d L, SemLoc.dma cc0_scoped48.sem) 0
    ∗ semVal (thr d L, SemLoc.dma cc0_scoped49.sem) 0
    ∗ semVal (thr d L, SemLoc.dma cc0_scoped50.sem) 0
    ∗ semVal (thr d L, SemLoc.dma cc0_scoped51.sem) 0
    ∗ semVal (thr d L, SemLoc.dma cc0_scoped52.sem) 0
    ∗ semVal (thr d L, SemLoc.dma cc0_scoped53.sem) 0
    ∗ semVal (thr d L, SemLoc.dma cc0_scoped54.sem) 0
    ∗ restV d (cV L) (jV L))

set_option maxHeartbeats 0 in
/-- The task at grid point `L`, run. -/
theorem tile_run (A : Arrs F) (hcat : ∀ j, (A.cat j).toNat < 100000) (fo : FVec F S40x64x4096 .f32) (d : Dev nD) (L : grid0.Coords)
    (O : CellTallies nD τ sig (HIx 1)) (W : Waits sig (HIx 1))
    (f0 : FVec F S1x100000 .f32) (f1 f2 : IVec S4096 32) (f3 f4 : FVec F S4096 .f32) (f5 f6 : FVec F S1x4096 .f32)
    (f7 f8 : FVec F S832 .f32) (f9 : FVec F S64 .f32) :
    tilePre A fo d L O W f0 f1 f2 f3 f4 f5 f6 f7 f8 f9
      ⊢ wp frame (wpE (defs₀ (F := F)) 𝒱₀ (thr d L) none) Set.univ (kern (F := F) L) fun _ => tilePost A d L O W := by
  unfold tilePre tilePost
  unfold kern; rw [cc0__tokenize_eq_skeleton]; unfold cc0__tokenize_skel
  unfold rowsIn
  iintro ⟨Hmw, Hcat, Hnum, Hemb, Hw, Hb, Hcls, ⟨Hr0_0, Hr0_1, Hr1_0, Hr1_1, Hr2_0, Hr2_1, Hr3_0, Hr3_1, Hr4_0, Hr4_1, Hr5_0, Hr5_1, Hr6_0, Hr6_1, Hr7_0, Hr7_1, Hr8_0, Hr8_1, Hr9_0, Hr9_1, Hr10_0, Hr10_1, Hr11_0, Hr11_1, Hr12_0, Hr12_1, Hr13_0, Hr13_1, Hr14_0, Hr14_1, Hr15_0, Hr15_1, Hr16_0, Hr16_1, Hr17_0, Hr17_1, Hr18_0, Hr18_1, Hr19_0, Hr19_1, Hr20_0, Hr20_1, Hr21_0, Hr21_1, Hr22_0, Hr22_1, Hr23_0, Hr23_1, Hr24_0, Hr24_1, Hr25_0, Hr25_1, Hr26_0, Hr26_1, Hr27_0, Hr27_1, Hr28_0, Hr28_1, Hr29_0, Hr29_1, Hr30_0, Hr30_1, Hr31_0, Hr31_1, Hr32_0, Hr32_1, Hr33_0, Hr33_1, Hr34_0, Hr34_1, Hr35_0, Hr35_1, Hr36_0, Hr36_1, Hr37_0, Hr37_1, Hr38_0, Hr38_1, Hr39_0, Hr39_1⟩, H0, H1, H2, H3, H4, H5, H6, H7, H8, H9, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hrest, HO⟩
  -- token 0, row 0: the class entry splat over the staging row
  sl_exec_parts (disch := exact chk_cls0 L)
  try unfold SparseCore.vectorLoadIdx
  sl_exec_parts (disch := exact chk_cls0 L)
  sl_for (invCls0 (F := F) A d L) $$ [H5]
  case region =>
    intro k _
    unfold invCls0
    iintro ⟨%f, Ho, %hf⟩
    sl_exec
    sl_step
    iexists _; isplitl [Ho]; · iexact Ho
    ipureintro
    exact stepCls_5 A (rowOf L (⟨0, by decide⟩ : Fin 2)) _ _ (clsPay_apply A _ _ (rowOf L (⟨0, by decide⟩ : Fin 2)) (rowWord_toNat0 L) _) k.val _ _ _ _ _ _ _ _ _ _ _ _ ClosedOff.eq ClosedOff.eq ClosedOff.eq ClosedOff.eq rfl rfl rfl rfl _ _ _ _ hf
  · unfold invCls0; iexists _; isplitl [H5]; · iexact H5
    ipureintro; intro y hy; exact absurd hy (by omega)
  iintro %_ HI
  unfold invCls0
  icases HI with ⟨%fo_0_0, H5, %hfo_0_0⟩
  -- token 0, row 1: the class entry splat over the staging row
  sl_exec_parts (disch := exact chk_cls1 L)
  try unfold SparseCore.vectorLoadIdx
  sl_exec_parts (disch := exact chk_cls1 L)
  sl_for (invCls1 (F := F) A d L) $$ [H6]
  case region =>
    intro k _
    unfold invCls1
    iintro ⟨%f, Ho, %hf⟩
    sl_exec
    sl_step
    iexists _; isplitl [Ho]; · iexact Ho
    ipureintro
    exact stepCls_6 A (rowOf L (⟨1, by decide⟩ : Fin 2)) _ _ (clsPay_apply A _ _ (rowOf L (⟨1, by decide⟩ : Fin 2)) (rowWord_toNat1 L) _) k.val _ _ _ _ _ _ _ _ _ _ _ _ ClosedOff.eq ClosedOff.eq ClosedOff.eq ClosedOff.eq rfl rfl rfl rfl _ _ _ _ hf
  · unfold invCls1; iexists _; isplitl [H6]; · iexact H6
    ipureintro; intro y hy; exact absurd hy (by omega)
  iintro %_ HI
  unfold invCls1
  icases HI with ⟨%fo_0_1, H6, %hfo_0_1⟩
  -- token 1, row 0: column 0's table row gathered at the batch's category words
  sl_exec_parts
  try unfold SparseCore.vectorLoadIdx
  sl_exec_parts
  sl_for (invCat15 (F := F) A (⟨0, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨0, by decide⟩ : Fin 26)) (catSlice_range A hcat (⟨0, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨0, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨0, by decide⟩ : Fin 26) _ _ rfl)
    isplitl [H0]
    · iexists _; isplitl [H0]; · iexact H0
      ipureintro; exact (fetch_whole cc0_scratch0 _ _).trans (colSrc_read A (⟨0, by decide⟩ : Fin 26) (rowOf L (⟨0, by decide⟩ : Fin 2)) _ _ (col_hoff_0_0 L))
    iexists _; isplitl [H5]; · iexact H5
    ipureintro; intro y hy; exact absurd hy (by omega)
  iintro %_ HI
  unfold invCat15
  icases HI with ⟨⟨%fc_0_0, H1, %hfc_0_0⟩, ⟨%fcol_0_0, H0, %hfcol_0_0⟩, ⟨%fo_1_0, H5, %hfo_1_0⟩⟩
  subst hfc_0_0; subst hfcol_0_0
  -- token 1, row 1: column 0's table row gathered at the batch's category words
  sl_exec_parts
  try unfold SparseCore.vectorLoadIdx
  sl_exec_parts
  sl_for (invCat16 (F := F) A (⟨0, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨0, by decide⟩ : Fin 26)) (catSlice_range A hcat (⟨0, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨0, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨0, by decide⟩ : Fin 26) (rowOf L (⟨1, by decide⟩ : Fin 2)) _ _ (col_hoff_0_1 L))
    iexists _; isplitl [H6]; · iexact H6
    ipureintro; intro y hy; exact absurd hy (by omega)
  iintro %_ HI
  unfold invCat16
  icases HI with ⟨⟨%fc_0_1, H1, %hfc_0_1⟩, ⟨%fcol_0_1, H0, %hfcol_0_1⟩, ⟨%fo_1_1, H6, %hfo_1_1⟩⟩
  subst hfc_0_1; subst hfcol_0_1
  -- token 2, row 0: column 1's table row gathered at the batch's category words
  sl_exec_parts
  try unfold SparseCore.vectorLoadIdx
  sl_exec_parts
  sl_for (invCat25 (F := F) A (⟨1, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨1, by decide⟩ : Fin 26)) (catSlice_range A hcat (⟨1, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨1, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨1, by decide⟩ : Fin 26) _ _ rfl)
    isplitl [H0]
    · iexists _; isplitl [H0]; · iexact H0
      ipureintro; exact (fetch_whole cc0_scratch0 _ _).trans (colSrc_read A (⟨1, by decide⟩ : Fin 26) (rowOf L (⟨0, by decide⟩ : Fin 2)) _ _ (col_hoff_1_0 L))
    iexists _; isplitl [H5]; · iexact H5
    ipureintro; intro y hy; exact absurd hy (by omega)
  iintro %_ HI
  unfold invCat25
  icases HI with ⟨⟨%fc_1_0, H2, %hfc_1_0⟩, ⟨%fcol_1_0, H0, %hfcol_1_0⟩, ⟨%fo_2_0, H5, %hfo_2_0⟩⟩
  subst hfc_1_0; subst hfcol_1_0
  -- token 2, row 1: column 1's table row gathered at the batch's category words
  sl_exec_parts
  try unfold SparseCore.vectorLoadIdx
  sl_exec_parts
  sl_for (invCat26 (F := F) A (⟨1, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨1, by decide⟩ : Fin 26)) (catSlice_range A hcat (⟨1, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨1, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨1, by decide⟩ : Fin 26) (rowOf L (⟨1, by decide⟩ : Fin 2)) _ _ (col_hoff_1_1 L))
    iexists _; isplitl [H6]; · iexact H6
    ipureintro; intro y hy; exact absurd hy (by omega)
  iintro %_ HI
  unfold invCat26
  icases HI with ⟨⟨%fc_1_1, H2, %hfc_1_1⟩, ⟨%fcol_1_1, H0, %hfcol_1_1⟩, ⟨%fo_2_1, H6, %hfo_2_1⟩⟩
  subst hfc_1_1; subst hfcol_1_1
  -- token 3, row 0: column 2's table row gathered at the batch's category words
  sl_exec_parts
  try unfold SparseCore.vectorLoadIdx
  sl_exec_parts
  sl_for (invCat15 (F := F) A (⟨2, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨2, by decide⟩ : Fin 26)) (catSlice_range A hcat (⟨2, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨2, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨2, by decide⟩ : Fin 26) _ _ rfl)
    isplitl [H0]
    · iexists _; isplitl [H0]; · iexact H0
      ipureintro; exact (fetch_whole cc0_scratch0 _ _).trans (colSrc_read A (⟨2, by decide⟩ : Fin 26) (rowOf L (⟨0, by decide⟩ : Fin 2)) _ _ (col_hoff_2_0 L))
    iexists _; isplitl [H5]; · iexact H5
    ipureintro; intro y hy; exact absurd hy (by omega)
  iintro %_ HI
  unfold invCat15
  icases HI with ⟨⟨%fc_2_0, H1, %hfc_2_0⟩, ⟨%fcol_2_0, H0, %hfcol_2_0⟩, ⟨%fo_3_0, H5, %hfo_3_0⟩⟩
  subst hfc_2_0; subst hfcol_2_0
  -- token 3, row 1: column 2's table row gathered at the batch's category words
  sl_exec_parts
  try unfold SparseCore.vectorLoadIdx
  sl_exec_parts
  sl_for (invCat16 (F := F) A (⟨2, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨2, by decide⟩ : Fin 26)) (catSlice_range A hcat (⟨2, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨2, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨2, by decide⟩ : Fin 26) (rowOf L (⟨1, by decide⟩ : Fin 2)) _ _ (col_hoff_2_1 L))
    iexists _; isplitl [H6]; · iexact H6
    ipureintro; intro y hy; exact absurd hy (by omega)
  iintro %_ HI
  unfold invCat16
  icases HI with ⟨⟨%fc_2_1, H1, %hfc_2_1⟩, ⟨%fcol_2_1, H0, %hfcol_2_1⟩, ⟨%fo_3_1, H6, %hfo_3_1⟩⟩
  subst hfc_2_1; subst hfcol_2_1
  -- token 4, row 0: column 3's table row gathered at the batch's category words
  sl_exec_parts
  try unfold SparseCore.vectorLoadIdx
  sl_exec_parts
  sl_for (invCat25 (F := F) A (⟨3, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨3, by decide⟩ : Fin 26)) (catSlice_range A hcat (⟨3, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨3, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨3, by decide⟩ : Fin 26) _ _ rfl)
    isplitl [H0]
    · iexists _; isplitl [H0]; · iexact H0
      ipureintro; exact (fetch_whole cc0_scratch0 _ _).trans (colSrc_read A (⟨3, by decide⟩ : Fin 26) (rowOf L (⟨0, by decide⟩ : Fin 2)) _ _ (col_hoff_3_0 L))
    iexists _; isplitl [H5]; · iexact H5
    ipureintro; intro y hy; exact absurd hy (by omega)
  iintro %_ HI
  unfold invCat25
  icases HI with ⟨⟨%fc_3_0, H2, %hfc_3_0⟩, ⟨%fcol_3_0, H0, %hfcol_3_0⟩, ⟨%fo_4_0, H5, %hfo_4_0⟩⟩
  subst hfc_3_0; subst hfcol_3_0
  -- token 4, row 1: column 3's table row gathered at the batch's category words
  sl_exec_parts
  try unfold SparseCore.vectorLoadIdx
  sl_exec_parts
  sl_for (invCat26 (F := F) A (⟨3, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨3, by decide⟩ : Fin 26)) (catSlice_range A hcat (⟨3, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨3, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨3, by decide⟩ : Fin 26) (rowOf L (⟨1, by decide⟩ : Fin 2)) _ _ (col_hoff_3_1 L))
    iexists _; isplitl [H6]; · iexact H6
    ipureintro; intro y hy; exact absurd hy (by omega)
  iintro %_ HI
  unfold invCat26
  icases HI with ⟨⟨%fc_3_1, H2, %hfc_3_1⟩, ⟨%fcol_3_1, H0, %hfcol_3_1⟩, ⟨%fo_4_1, H6, %hfo_4_1⟩⟩
  subst hfc_3_1; subst hfcol_3_1
  -- token 5, row 0: column 4's table row gathered at the batch's category words
  sl_exec_parts
  try unfold SparseCore.vectorLoadIdx
  sl_exec_parts
  sl_for (invCat15 (F := F) A (⟨4, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨4, by decide⟩ : Fin 26)) (catSlice_range A hcat (⟨4, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨4, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨4, by decide⟩ : Fin 26) _ _ rfl)
    isplitl [H0]
    · iexists _; isplitl [H0]; · iexact H0
      ipureintro; exact (fetch_whole cc0_scratch0 _ _).trans (colSrc_read A (⟨4, by decide⟩ : Fin 26) (rowOf L (⟨0, by decide⟩ : Fin 2)) _ _ (col_hoff_4_0 L))
    iexists _; isplitl [H5]; · iexact H5
    ipureintro; intro y hy; exact absurd hy (by omega)
  iintro %_ HI
  unfold invCat15
  icases HI with ⟨⟨%fc_4_0, H1, %hfc_4_0⟩, ⟨%fcol_4_0, H0, %hfcol_4_0⟩, ⟨%fo_5_0, H5, %hfo_5_0⟩⟩
  subst hfc_4_0; subst hfcol_4_0
  -- token 5, row 1: column 4's table row gathered at the batch's category words
  sl_exec_parts
  try unfold SparseCore.vectorLoadIdx
  sl_exec_parts
  sl_for (invCat16 (F := F) A (⟨4, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨4, by decide⟩ : Fin 26)) (catSlice_range A hcat (⟨4, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨4, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨4, by decide⟩ : Fin 26) (rowOf L (⟨1, by decide⟩ : Fin 2)) _ _ (col_hoff_4_1 L))
    iexists _; isplitl [H6]; · iexact H6
    ipureintro; intro y hy; exact absurd hy (by omega)
  iintro %_ HI
  unfold invCat16
  icases HI with ⟨⟨%fc_4_1, H1, %hfc_4_1⟩, ⟨%fcol_4_1, H0, %hfcol_4_1⟩, ⟨%fo_5_1, H6, %hfo_5_1⟩⟩
  subst hfc_4_1; subst hfcol_4_1
  -- token 6, row 0: column 5's table row gathered at the batch's category words
  sl_exec_parts
  try unfold SparseCore.vectorLoadIdx
  sl_exec_parts
  sl_for (invCat25 (F := F) A (⟨5, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨5, by decide⟩ : Fin 26)) (catSlice_range A hcat (⟨5, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨5, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨5, by decide⟩ : Fin 26) _ _ rfl)
    isplitl [H0]
    · iexists _; isplitl [H0]; · iexact H0
      ipureintro; exact (fetch_whole cc0_scratch0 _ _).trans (colSrc_read A (⟨5, by decide⟩ : Fin 26) (rowOf L (⟨0, by decide⟩ : Fin 2)) _ _ (col_hoff_5_0 L))
    iexists _; isplitl [H5]; · iexact H5
    ipureintro; intro y hy; exact absurd hy (by omega)
  iintro %_ HI
  unfold invCat25
  icases HI with ⟨⟨%fc_5_0, H2, %hfc_5_0⟩, ⟨%fcol_5_0, H0, %hfcol_5_0⟩, ⟨%fo_6_0, H5, %hfo_6_0⟩⟩
  subst hfc_5_0; subst hfcol_5_0
  -- token 6, row 1: column 5's table row gathered at the batch's category words
  sl_exec_parts
  try unfold SparseCore.vectorLoadIdx
  sl_exec_parts
  sl_for (invCat26 (F := F) A (⟨5, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨5, by decide⟩ : Fin 26)) (catSlice_range A hcat (⟨5, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨5, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨5, by decide⟩ : Fin 26) (rowOf L (⟨1, by decide⟩ : Fin 2)) _ _ (col_hoff_5_1 L))
    iexists _; isplitl [H6]; · iexact H6
    ipureintro; intro y hy; exact absurd hy (by omega)
  iintro %_ HI
  unfold invCat26
  icases HI with ⟨⟨%fc_5_1, H2, %hfc_5_1⟩, ⟨%fcol_5_1, H0, %hfcol_5_1⟩, ⟨%fo_6_1, H6, %hfo_6_1⟩⟩
  subst hfc_5_1; subst hfcol_5_1
  -- token 7, row 0: column 6's table row gathered at the batch's category words
  sl_exec_parts
  try unfold SparseCore.vectorLoadIdx
  sl_exec_parts
  sl_for (invCat15 (F := F) A (⟨6, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨6, by decide⟩ : Fin 26)) (catSlice_range A hcat (⟨6, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨6, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨6, by decide⟩ : Fin 26) _ _ rfl)
    isplitl [H0]
    · iexists _; isplitl [H0]; · iexact H0
      ipureintro; exact (fetch_whole cc0_scratch0 _ _).trans (colSrc_read A (⟨6, by decide⟩ : Fin 26) (rowOf L (⟨0, by decide⟩ : Fin 2)) _ _ (col_hoff_6_0 L))
    iexists _; isplitl [H5]; · iexact H5
    ipureintro; intro y hy; exact absurd hy (by omega)
  iintro %_ HI
  unfold invCat15
  icases HI with ⟨⟨%fc_6_0, H1, %hfc_6_0⟩, ⟨%fcol_6_0, H0, %hfcol_6_0⟩, ⟨%fo_7_0, H5, %hfo_7_0⟩⟩
  subst hfc_6_0; subst hfcol_6_0
  -- token 7, row 1: column 6's table row gathered at the batch's category words
  sl_exec_parts
  try unfold SparseCore.vectorLoadIdx
  sl_exec_parts
  sl_for (invCat16 (F := F) A (⟨6, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨6, by decide⟩ : Fin 26)) (catSlice_range A hcat (⟨6, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨6, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨6, by decide⟩ : Fin 26) (rowOf L (⟨1, by decide⟩ : Fin 2)) _ _ (col_hoff_6_1 L))
    iexists _; isplitl [H6]; · iexact H6
    ipureintro; intro y hy; exact absurd hy (by omega)
  iintro %_ HI
  unfold invCat16
  icases HI with ⟨⟨%fc_6_1, H1, %hfc_6_1⟩, ⟨%fcol_6_1, H0, %hfcol_6_1⟩, ⟨%fo_7_1, H6, %hfo_7_1⟩⟩
  subst hfc_6_1; subst hfcol_6_1
  -- token 8, row 0: column 7's table row gathered at the batch's category words
  sl_exec_parts
  try unfold SparseCore.vectorLoadIdx
  sl_exec_parts
  sl_for (invCat25 (F := F) A (⟨7, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨7, by decide⟩ : Fin 26)) (catSlice_range A hcat (⟨7, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨7, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨7, by decide⟩ : Fin 26) _ _ rfl)
    isplitl [H0]
    · iexists _; isplitl [H0]; · iexact H0
      ipureintro; exact (fetch_whole cc0_scratch0 _ _).trans (colSrc_read A (⟨7, by decide⟩ : Fin 26) (rowOf L (⟨0, by decide⟩ : Fin 2)) _ _ (col_hoff_7_0 L))
    iexists _; isplitl [H5]; · iexact H5
    ipureintro; intro y hy; exact absurd hy (by omega)
  iintro %_ HI
  unfold invCat25
  icases HI with ⟨⟨%fc_7_0, H2, %hfc_7_0⟩, ⟨%fcol_7_0, H0, %hfcol_7_0⟩, ⟨%fo_8_0, H5, %hfo_8_0⟩⟩
  subst hfc_7_0; subst hfcol_7_0
  -- token 8, row 1: column 7's table row gathered at the batch's category words
  sl_exec_parts
  try unfold SparseCore.vectorLoadIdx
  sl_exec_parts
  sl_for (invCat26 (F := F) A (⟨7, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨7, by decide⟩ : Fin 26)) (catSlice_range A hcat (⟨7, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨7, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨7, by decide⟩ : Fin 26) (rowOf L (⟨1, by decide⟩ : Fin 2)) _ _ (col_hoff_7_1 L))
    iexists _; isplitl [H6]; · iexact H6
    ipureintro; intro y hy; exact absurd hy (by omega)
  iintro %_ HI
  unfold invCat26
  icases HI with ⟨⟨%fc_7_1, H2, %hfc_7_1⟩, ⟨%fcol_7_1, H0, %hfcol_7_1⟩, ⟨%fo_8_1, H6, %hfo_8_1⟩⟩
  subst hfc_7_1; subst hfcol_7_1
  -- token 9, row 0: column 8's table row gathered at the batch's category words
  sl_exec_parts
  try unfold SparseCore.vectorLoadIdx
  sl_exec_parts
  sl_for (invCat15 (F := F) A (⟨8, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨8, by decide⟩ : Fin 26)) (catSlice_range A hcat (⟨8, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨8, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨8, by decide⟩ : Fin 26) _ _ rfl)
    isplitl [H0]
    · iexists _; isplitl [H0]; · iexact H0
      ipureintro; exact (fetch_whole cc0_scratch0 _ _).trans (colSrc_read A (⟨8, by decide⟩ : Fin 26) (rowOf L (⟨0, by decide⟩ : Fin 2)) _ _ (col_hoff_8_0 L))
    iexists _; isplitl [H5]; · iexact H5
    ipureintro; intro y hy; exact absurd hy (by omega)
  iintro %_ HI
  unfold invCat15
  icases HI with ⟨⟨%fc_8_0, H1, %hfc_8_0⟩, ⟨%fcol_8_0, H0, %hfcol_8_0⟩, ⟨%fo_9_0, H5, %hfo_9_0⟩⟩
  subst hfc_8_0; subst hfcol_8_0
  -- token 9, row 1: column 8's table row gathered at the batch's category words
  sl_exec_parts
  try unfold SparseCore.vectorLoadIdx
  sl_exec_parts
  sl_for (invCat16 (F := F) A (⟨8, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨8, by decide⟩ : Fin 26)) (catSlice_range A hcat (⟨8, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨8, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨8, by decide⟩ : Fin 26) (rowOf L (⟨1, by decide⟩ : Fin 2)) _ _ (col_hoff_8_1 L))
    iexists _; isplitl [H6]; · iexact H6
    ipureintro; intro y hy; exact absurd hy (by omega)
  iintro %_ HI
  unfold invCat16
  icases HI with ⟨⟨%fc_8_1, H1, %hfc_8_1⟩, ⟨%fcol_8_1, H0, %hfcol_8_1⟩, ⟨%fo_9_1, H6, %hfo_9_1⟩⟩
  subst hfc_8_1; subst hfcol_8_1
  -- token 10, row 0: column 9's table row gathered at the batch's category words
  sl_exec_parts
  try unfold SparseCore.vectorLoadIdx
  sl_exec_parts
  sl_for (invCat25 (F := F) A (⟨9, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨9, by decide⟩ : Fin 26)) (catSlice_range A hcat (⟨9, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨9, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨9, by decide⟩ : Fin 26) _ _ rfl)
    isplitl [H0]
    · iexists _; isplitl [H0]; · iexact H0
      ipureintro; exact (fetch_whole cc0_scratch0 _ _).trans (colSrc_read A (⟨9, by decide⟩ : Fin 26) (rowOf L (⟨0, by decide⟩ : Fin 2)) _ _ (col_hoff_9_0 L))
    iexists _; isplitl [H5]; · iexact H5
    ipureintro; intro y hy; exact absurd hy (by omega)
  iintro %_ HI
  unfold invCat25
  icases HI with ⟨⟨%fc_9_0, H2, %hfc_9_0⟩, ⟨%fcol_9_0, H0, %hfcol_9_0⟩, ⟨%fo_10_0, H5, %hfo_10_0⟩⟩
  subst hfc_9_0; subst hfcol_9_0
  -- token 10, row 1: column 9's table row gathered at the batch's category words
  sl_exec_parts
  try unfold SparseCore.vectorLoadIdx
  sl_exec_parts
  sl_for (invCat26 (F := F) A (⟨9, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨9, by decide⟩ : Fin 26)) (catSlice_range A hcat (⟨9, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨9, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨9, by decide⟩ : Fin 26) (rowOf L (⟨1, by decide⟩ : Fin 2)) _ _ (col_hoff_9_1 L))
    iexists _; isplitl [H6]; · iexact H6
    ipureintro; intro y hy; exact absurd hy (by omega)
  iintro %_ HI
  unfold invCat26
  icases HI with ⟨⟨%fc_9_1, H2, %hfc_9_1⟩, ⟨%fcol_9_1, H0, %hfcol_9_1⟩, ⟨%fo_10_1, H6, %hfo_10_1⟩⟩
  subst hfc_9_1; subst hfcol_9_1
  -- token 11, row 0: column 10's table row gathered at the batch's category words
  sl_exec_parts
  try unfold SparseCore.vectorLoadIdx
  sl_exec_parts
  sl_for (invCat15 (F := F) A (⟨10, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨10, by decide⟩ : Fin 26)) (catSlice_range A hcat (⟨10, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨10, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨10, by decide⟩ : Fin 26) _ _ rfl)
    isplitl [H0]
    · iexists _; isplitl [H0]; · iexact H0
      ipureintro; exact (fetch_whole cc0_scratch0 _ _).trans (colSrc_read A (⟨10, by decide⟩ : Fin 26) (rowOf L (⟨0, by decide⟩ : Fin 2)) _ _ (col_hoff_10_0 L))
    iexists _; isplitl [H5]; · iexact H5
    ipureintro; intro y hy; exact absurd hy (by omega)
  iintro %_ HI
  unfold invCat15
  icases HI with ⟨⟨%fc_10_0, H1, %hfc_10_0⟩, ⟨%fcol_10_0, H0, %hfcol_10_0⟩, ⟨%fo_11_0, H5, %hfo_11_0⟩⟩
  subst hfc_10_0; subst hfcol_10_0
  -- token 11, row 1: column 10's table row gathered at the batch's category words
  sl_exec_parts
  try unfold SparseCore.vectorLoadIdx
  sl_exec_parts
  sl_for (invCat16 (F := F) A (⟨10, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨10, by decide⟩ : Fin 26)) (catSlice_range A hcat (⟨10, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨10, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨10, by decide⟩ : Fin 26) (rowOf L (⟨1, by decide⟩ : Fin 2)) _ _ (col_hoff_10_1 L))
    iexists _; isplitl [H6]; · iexact H6
    ipureintro; intro y hy; exact absurd hy (by omega)
  iintro %_ HI
  unfold invCat16
  icases HI with ⟨⟨%fc_10_1, H1, %hfc_10_1⟩, ⟨%fcol_10_1, H0, %hfcol_10_1⟩, ⟨%fo_11_1, H6, %hfo_11_1⟩⟩
  subst hfc_10_1; subst hfcol_10_1
  -- token 12, row 0: column 11's table row gathered at the batch's category words
  sl_exec_parts
  try unfold SparseCore.vectorLoadIdx
  sl_exec_parts
  sl_for (invCat25 (F := F) A (⟨11, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨11, by decide⟩ : Fin 26)) (catSlice_range A hcat (⟨11, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨11, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨11, by decide⟩ : Fin 26) _ _ rfl)
    isplitl [H0]
    · iexists _; isplitl [H0]; · iexact H0
      ipureintro; exact (fetch_whole cc0_scratch0 _ _).trans (colSrc_read A (⟨11, by decide⟩ : Fin 26) (rowOf L (⟨0, by decide⟩ : Fin 2)) _ _ (col_hoff_11_0 L))
    iexists _; isplitl [H5]; · iexact H5
    ipureintro; intro y hy; exact absurd hy (by omega)
  iintro %_ HI
  unfold invCat25
  icases HI with ⟨⟨%fc_11_0, H2, %hfc_11_0⟩, ⟨%fcol_11_0, H0, %hfcol_11_0⟩, ⟨%fo_12_0, H5, %hfo_12_0⟩⟩
  subst hfc_11_0; subst hfcol_11_0
  -- token 12, row 1: column 11's table row gathered at the batch's category words
  sl_exec_parts
  try unfold SparseCore.vectorLoadIdx
  sl_exec_parts
  sl_for (invCat26 (F := F) A (⟨11, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨11, by decide⟩ : Fin 26)) (catSlice_range A hcat (⟨11, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨11, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨11, by decide⟩ : Fin 26) (rowOf L (⟨1, by decide⟩ : Fin 2)) _ _ (col_hoff_11_1 L))
    iexists _; isplitl [H6]; · iexact H6
    ipureintro; intro y hy; exact absurd hy (by omega)
  iintro %_ HI
  unfold invCat26
  icases HI with ⟨⟨%fc_11_1, H2, %hfc_11_1⟩, ⟨%fcol_11_1, H0, %hfcol_11_1⟩, ⟨%fo_12_1, H6, %hfo_12_1⟩⟩
  subst hfc_11_1; subst hfcol_11_1
  -- token 13, row 0: column 12's table row gathered at the batch's category words
  sl_exec_parts
  try unfold SparseCore.vectorLoadIdx
  sl_exec_parts
  sl_for (invCat15 (F := F) A (⟨12, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨12, by decide⟩ : Fin 26)) (catSlice_range A hcat (⟨12, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨12, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨12, by decide⟩ : Fin 26) _ _ rfl)
    isplitl [H0]
    · iexists _; isplitl [H0]; · iexact H0
      ipureintro; exact (fetch_whole cc0_scratch0 _ _).trans (colSrc_read A (⟨12, by decide⟩ : Fin 26) (rowOf L (⟨0, by decide⟩ : Fin 2)) _ _ (col_hoff_12_0 L))
    iexists _; isplitl [H5]; · iexact H5
    ipureintro; intro y hy; exact absurd hy (by omega)
  iintro %_ HI
  unfold invCat15
  icases HI with ⟨⟨%fc_12_0, H1, %hfc_12_0⟩, ⟨%fcol_12_0, H0, %hfcol_12_0⟩, ⟨%fo_13_0, H5, %hfo_13_0⟩⟩
  subst hfc_12_0; subst hfcol_12_0
  -- token 13, row 1: column 12's table row gathered at the batch's category words
  sl_exec_parts
  try unfold SparseCore.vectorLoadIdx
  sl_exec_parts
  sl_for (invCat16 (F := F) A (⟨12, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨12, by decide⟩ : Fin 26)) (catSlice_range A hcat (⟨12, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨12, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨12, by decide⟩ : Fin 26) (rowOf L (⟨1, by decide⟩ : Fin 2)) _ _ (col_hoff_12_1 L))
    iexists _; isplitl [H6]; · iexact H6
    ipureintro; intro y hy; exact absurd hy (by omega)
  iintro %_ HI
  unfold invCat16
  icases HI with ⟨⟨%fc_12_1, H1, %hfc_12_1⟩, ⟨%fcol_12_1, H0, %hfcol_12_1⟩, ⟨%fo_13_1, H6, %hfo_13_1⟩⟩
  subst hfc_12_1; subst hfcol_12_1
  -- token 14, row 0: column 13's table row gathered at the batch's category words
  sl_exec_parts
  try unfold SparseCore.vectorLoadIdx
  sl_exec_parts
  sl_for (invCat25 (F := F) A (⟨13, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨13, by decide⟩ : Fin 26)) (catSlice_range A hcat (⟨13, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨13, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨13, by decide⟩ : Fin 26) _ _ rfl)
    isplitl [H0]
    · iexists _; isplitl [H0]; · iexact H0
      ipureintro; exact (fetch_whole cc0_scratch0 _ _).trans (colSrc_read A (⟨13, by decide⟩ : Fin 26) (rowOf L (⟨0, by decide⟩ : Fin 2)) _ _ (col_hoff_13_0 L))
    iexists _; isplitl [H5]; · iexact H5
    ipureintro; intro y hy; exact absurd hy (by omega)
  iintro %_ HI
  unfold invCat25
  icases HI with ⟨⟨%fc_13_0, H2, %hfc_13_0⟩, ⟨%fcol_13_0, H0, %hfcol_13_0⟩, ⟨%fo_14_0, H5, %hfo_14_0⟩⟩
  subst hfc_13_0; subst hfcol_13_0
  -- token 14, row 1: column 13's table row gathered at the batch's category words
  sl_exec_parts
  try unfold SparseCore.vectorLoadIdx
  sl_exec_parts
  sl_for (invCat26 (F := F) A (⟨13, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨13, by decide⟩ : Fin 26)) (catSlice_range A hcat (⟨13, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨13, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨13, by decide⟩ : Fin 26) (rowOf L (⟨1, by decide⟩ : Fin 2)) _ _ (col_hoff_13_1 L))
    iexists _; isplitl [H6]; · iexact H6
    ipureintro; intro y hy; exact absurd hy (by omega)
  iintro %_ HI
  unfold invCat26
  icases HI with ⟨⟨%fc_13_1, H2, %hfc_13_1⟩, ⟨%fcol_13_1, H0, %hfcol_13_1⟩, ⟨%fo_14_1, H6, %hfo_14_1⟩⟩
  subst hfc_13_1; subst hfcol_13_1
  -- token 15, row 0: column 14's table row gathered at the batch's category words
  sl_exec_parts
  try unfold SparseCore.vectorLoadIdx
  sl_exec_parts
  sl_for (invCat15 (F := F) A (⟨14, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨14, by decide⟩ : Fin 26)) (catSlice_range A hcat (⟨14, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨14, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨14, by decide⟩ : Fin 26) _ _ rfl)
    isplitl [H0]
    · iexists _; isplitl [H0]; · iexact H0
      ipureintro; exact (fetch_whole cc0_scratch0 _ _).trans (colSrc_read A (⟨14, by decide⟩ : Fin 26) (rowOf L (⟨0, by decide⟩ : Fin 2)) _ _ (col_hoff_14_0 L))
    iexists _; isplitl [H5]; · iexact H5
    ipureintro; intro y hy; exact absurd hy (by omega)
  iintro %_ HI
  unfold invCat15
  icases HI with ⟨⟨%fc_14_0, H1, %hfc_14_0⟩, ⟨%fcol_14_0, H0, %hfcol_14_0⟩, ⟨%fo_15_0, H5, %hfo_15_0⟩⟩
  subst hfc_14_0; subst hfcol_14_0
  -- token 15, row 1: column 14's table row gathered at the batch's category words
  sl_exec_parts
  try unfold SparseCore.vectorLoadIdx
  sl_exec_parts
  sl_for (invCat16 (F := F) A (⟨14, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨14, by decide⟩ : Fin 26)) (catSlice_range A hcat (⟨14, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨14, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨14, by decide⟩ : Fin 26) (rowOf L (⟨1, by decide⟩ : Fin 2)) _ _ (col_hoff_14_1 L))
    iexists _; isplitl [H6]; · iexact H6
    ipureintro; intro y hy; exact absurd hy (by omega)
  iintro %_ HI
  unfold invCat16
  icases HI with ⟨⟨%fc_14_1, H1, %hfc_14_1⟩, ⟨%fcol_14_1, H0, %hfcol_14_1⟩, ⟨%fo_15_1, H6, %hfo_15_1⟩⟩
  subst hfc_14_1; subst hfcol_14_1
  -- token 16, row 0: column 15's table row gathered at the batch's category words
  sl_exec_parts
  try unfold SparseCore.vectorLoadIdx
  sl_exec_parts
  sl_for (invCat25 (F := F) A (⟨15, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨15, by decide⟩ : Fin 26)) (catSlice_range A hcat (⟨15, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨15, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨15, by decide⟩ : Fin 26) _ _ rfl)
    isplitl [H0]
    · iexists _; isplitl [H0]; · iexact H0
      ipureintro; exact (fetch_whole cc0_scratch0 _ _).trans (colSrc_read A (⟨15, by decide⟩ : Fin 26) (rowOf L (⟨0, by decide⟩ : Fin 2)) _ _ (col_hoff_15_0 L))
    iexists _; isplitl [H5]; · iexact H5
    ipureintro; intro y hy; exact absurd hy (by omega)
  iintro %_ HI
  unfold invCat25
  icases HI with ⟨⟨%fc_15_0, H2, %hfc_15_0⟩, ⟨%fcol_15_0, H0, %hfcol_15_0⟩, ⟨%fo_16_0, H5, %hfo_16_0⟩⟩
  subst hfc_15_0; subst hfcol_15_0
  -- token 16, row 1: column 15's table row gathered at the batch's category words
  sl_exec_parts
  try unfold SparseCore.vectorLoadIdx
  sl_exec_parts
  sl_for (invCat26 (F := F) A (⟨15, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨15, by decide⟩ : Fin 26)) (catSlice_range A hcat (⟨15, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨15, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨15, by decide⟩ : Fin 26) (rowOf L (⟨1, by decide⟩ : Fin 2)) _ _ (col_hoff_15_1 L))
    iexists _; isplitl [H6]; · iexact H6
    ipureintro; intro y hy; exact absurd hy (by omega)
  iintro %_ HI
  unfold invCat26
  icases HI with ⟨⟨%fc_15_1, H2, %hfc_15_1⟩, ⟨%fcol_15_1, H0, %hfcol_15_1⟩, ⟨%fo_16_1, H6, %hfo_16_1⟩⟩
  subst hfc_15_1; subst hfcol_15_1
  -- token 17, row 0: column 16's table row gathered at the batch's category words
  sl_exec_parts
  try unfold SparseCore.vectorLoadIdx
  sl_exec_parts
  sl_for (invCat15 (F := F) A (⟨16, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨16, by decide⟩ : Fin 26)) (catSlice_range A hcat (⟨16, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨16, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨16, by decide⟩ : Fin 26) _ _ rfl)
    isplitl [H0]
    · iexists _; isplitl [H0]; · iexact H0
      ipureintro; exact (fetch_whole cc0_scratch0 _ _).trans (colSrc_read A (⟨16, by decide⟩ : Fin 26) (rowOf L (⟨0, by decide⟩ : Fin 2)) _ _ (col_hoff_16_0 L))
    iexists _; isplitl [H5]; · iexact H5
    ipureintro; intro y hy; exact absurd hy (by omega)
  iintro %_ HI
  unfold invCat15
  icases HI with ⟨⟨%fc_16_0, H1, %hfc_16_0⟩, ⟨%fcol_16_0, H0, %hfcol_16_0⟩, ⟨%fo_17_0, H5, %hfo_17_0⟩⟩
  subst hfc_16_0; subst hfcol_16_0
  -- token 17, row 1: column 16's table row gathered at the batch's category words
  sl_exec_parts
  try unfold SparseCore.vectorLoadIdx
  sl_exec_parts
  sl_for (invCat16 (F := F) A (⟨16, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨16, by decide⟩ : Fin 26)) (catSlice_range A hcat (⟨16, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨16, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨16, by decide⟩ : Fin 26) (rowOf L (⟨1, by decide⟩ : Fin 2)) _ _ (col_hoff_16_1 L))
    iexists _; isplitl [H6]; · iexact H6
    ipureintro; intro y hy; exact absurd hy (by omega)
  iintro %_ HI
  unfold invCat16
  icases HI with ⟨⟨%fc_16_1, H1, %hfc_16_1⟩, ⟨%fcol_16_1, H0, %hfcol_16_1⟩, ⟨%fo_17_1, H6, %hfo_17_1⟩⟩
  subst hfc_16_1; subst hfcol_16_1
  -- token 18, row 0: column 17's table row gathered at the batch's category words
  sl_exec_parts
  try unfold SparseCore.vectorLoadIdx
  sl_exec_parts
  sl_for (invCat25 (F := F) A (⟨17, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨17, by decide⟩ : Fin 26)) (catSlice_range A hcat (⟨17, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨17, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨17, by decide⟩ : Fin 26) _ _ rfl)
    isplitl [H0]
    · iexists _; isplitl [H0]; · iexact H0
      ipureintro; exact (fetch_whole cc0_scratch0 _ _).trans (colSrc_read A (⟨17, by decide⟩ : Fin 26) (rowOf L (⟨0, by decide⟩ : Fin 2)) _ _ (col_hoff_17_0 L))
    iexists _; isplitl [H5]; · iexact H5
    ipureintro; intro y hy; exact absurd hy (by omega)
  iintro %_ HI
  unfold invCat25
  icases HI with ⟨⟨%fc_17_0, H2, %hfc_17_0⟩, ⟨%fcol_17_0, H0, %hfcol_17_0⟩, ⟨%fo_18_0, H5, %hfo_18_0⟩⟩
  subst hfc_17_0; subst hfcol_17_0
  -- token 18, row 1: column 17's table row gathered at the batch's category words
  sl_exec_parts
  try unfold SparseCore.vectorLoadIdx
  sl_exec_parts
  sl_for (invCat26 (F := F) A (⟨17, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨17, by decide⟩ : Fin 26)) (catSlice_range A hcat (⟨17, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨17, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨17, by decide⟩ : Fin 26) (rowOf L (⟨1, by decide⟩ : Fin 2)) _ _ (col_hoff_17_1 L))
    iexists _; isplitl [H6]; · iexact H6
    ipureintro; intro y hy; exact absurd hy (by omega)
  iintro %_ HI
  unfold invCat26
  icases HI with ⟨⟨%fc_17_1, H2, %hfc_17_1⟩, ⟨%fcol_17_1, H0, %hfcol_17_1⟩, ⟨%fo_18_1, H6, %hfo_18_1⟩⟩
  subst hfc_17_1; subst hfcol_17_1
  -- token 19, row 0: column 18's table row gathered at the batch's category words
  sl_exec_parts
  try unfold SparseCore.vectorLoadIdx
  sl_exec_parts
  sl_for (invCat15 (F := F) A (⟨18, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨18, by decide⟩ : Fin 26)) (catSlice_range A hcat (⟨18, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨18, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨18, by decide⟩ : Fin 26) _ _ rfl)
    isplitl [H0]
    · iexists _; isplitl [H0]; · iexact H0
      ipureintro; exact (fetch_whole cc0_scratch0 _ _).trans (colSrc_read A (⟨18, by decide⟩ : Fin 26) (rowOf L (⟨0, by decide⟩ : Fin 2)) _ _ (col_hoff_18_0 L))
    iexists _; isplitl [H5]; · iexact H5
    ipureintro; intro y hy; exact absurd hy (by omega)
  iintro %_ HI
  unfold invCat15
  icases HI with ⟨⟨%fc_18_0, H1, %hfc_18_0⟩, ⟨%fcol_18_0, H0, %hfcol_18_0⟩, ⟨%fo_19_0, H5, %hfo_19_0⟩⟩
  subst hfc_18_0; subst hfcol_18_0
  -- token 19, row 1: column 18's table row gathered at the batch's category words
  sl_exec_parts
  try unfold SparseCore.vectorLoadIdx
  sl_exec_parts
  sl_for (invCat16 (F := F) A (⟨18, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨18, by decide⟩ : Fin 26)) (catSlice_range A hcat (⟨18, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨18, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨18, by decide⟩ : Fin 26) (rowOf L (⟨1, by decide⟩ : Fin 2)) _ _ (col_hoff_18_1 L))
    iexists _; isplitl [H6]; · iexact H6
    ipureintro; intro y hy; exact absurd hy (by omega)
  iintro %_ HI
  unfold invCat16
  icases HI with ⟨⟨%fc_18_1, H1, %hfc_18_1⟩, ⟨%fcol_18_1, H0, %hfcol_18_1⟩, ⟨%fo_19_1, H6, %hfo_19_1⟩⟩
  subst hfc_18_1; subst hfcol_18_1
  -- token 20, row 0: column 19's table row gathered at the batch's category words
  sl_exec_parts
  try unfold SparseCore.vectorLoadIdx
  sl_exec_parts
  sl_for (invCat25 (F := F) A (⟨19, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨19, by decide⟩ : Fin 26)) (catSlice_range A hcat (⟨19, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨19, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨19, by decide⟩ : Fin 26) _ _ rfl)
    isplitl [H0]
    · iexists _; isplitl [H0]; · iexact H0
      ipureintro; exact (fetch_whole cc0_scratch0 _ _).trans (colSrc_read A (⟨19, by decide⟩ : Fin 26) (rowOf L (⟨0, by decide⟩ : Fin 2)) _ _ (col_hoff_19_0 L))
    iexists _; isplitl [H5]; · iexact H5
    ipureintro; intro y hy; exact absurd hy (by omega)
  iintro %_ HI
  unfold invCat25
  icases HI with ⟨⟨%fc_19_0, H2, %hfc_19_0⟩, ⟨%fcol_19_0, H0, %hfcol_19_0⟩, ⟨%fo_20_0, H5, %hfo_20_0⟩⟩
  subst hfc_19_0; subst hfcol_19_0
  -- token 20, row 1: column 19's table row gathered at the batch's category words
  sl_exec_parts
  try unfold SparseCore.vectorLoadIdx
  sl_exec_parts
  sl_for (invCat26 (F := F) A (⟨19, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨19, by decide⟩ : Fin 26)) (catSlice_range A hcat (⟨19, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨19, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨19, by decide⟩ : Fin 26) (rowOf L (⟨1, by decide⟩ : Fin 2)) _ _ (col_hoff_19_1 L))
    iexists _; isplitl [H6]; · iexact H6
    ipureintro; intro y hy; exact absurd hy (by omega)
  iintro %_ HI
  unfold invCat26
  icases HI with ⟨⟨%fc_19_1, H2, %hfc_19_1⟩, ⟨%fcol_19_1, H0, %hfcol_19_1⟩, ⟨%fo_20_1, H6, %hfo_20_1⟩⟩
  subst hfc_19_1; subst hfcol_19_1
  -- token 21, row 0: column 20's table row gathered at the batch's category words
  sl_exec_parts
  try unfold SparseCore.vectorLoadIdx
  sl_exec_parts
  sl_for (invCat15 (F := F) A (⟨20, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨20, by decide⟩ : Fin 26)) (catSlice_range A hcat (⟨20, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨20, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨20, by decide⟩ : Fin 26) _ _ rfl)
    isplitl [H0]
    · iexists _; isplitl [H0]; · iexact H0
      ipureintro; exact (fetch_whole cc0_scratch0 _ _).trans (colSrc_read A (⟨20, by decide⟩ : Fin 26) (rowOf L (⟨0, by decide⟩ : Fin 2)) _ _ (col_hoff_20_0 L))
    iexists _; isplitl [H5]; · iexact H5
    ipureintro; intro y hy; exact absurd hy (by omega)
  iintro %_ HI
  unfold invCat15
  icases HI with ⟨⟨%fc_20_0, H1, %hfc_20_0⟩, ⟨%fcol_20_0, H0, %hfcol_20_0⟩, ⟨%fo_21_0, H5, %hfo_21_0⟩⟩
  subst hfc_20_0; subst hfcol_20_0
  -- token 21, row 1: column 20's table row gathered at the batch's category words
  sl_exec_parts
  try unfold SparseCore.vectorLoadIdx
  sl_exec_parts
  sl_for (invCat16 (F := F) A (⟨20, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨20, by decide⟩ : Fin 26)) (catSlice_range A hcat (⟨20, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨20, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨20, by decide⟩ : Fin 26) (rowOf L (⟨1, by decide⟩ : Fin 2)) _ _ (col_hoff_20_1 L))
    iexists _; isplitl [H6]; · iexact H6
    ipureintro; intro y hy; exact absurd hy (by omega)
  iintro %_ HI
  unfold invCat16
  icases HI with ⟨⟨%fc_20_1, H1, %hfc_20_1⟩, ⟨%fcol_20_1, H0, %hfcol_20_1⟩, ⟨%fo_21_1, H6, %hfo_21_1⟩⟩
  subst hfc_20_1; subst hfcol_20_1
  -- token 22, row 0: column 21's table row gathered at the batch's category words
  sl_exec_parts
  try unfold SparseCore.vectorLoadIdx
  sl_exec_parts
  sl_for (invCat25 (F := F) A (⟨21, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨21, by decide⟩ : Fin 26)) (catSlice_range A hcat (⟨21, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨21, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨21, by decide⟩ : Fin 26) _ _ rfl)
    isplitl [H0]
    · iexists _; isplitl [H0]; · iexact H0
      ipureintro; exact (fetch_whole cc0_scratch0 _ _).trans (colSrc_read A (⟨21, by decide⟩ : Fin 26) (rowOf L (⟨0, by decide⟩ : Fin 2)) _ _ (col_hoff_21_0 L))
    iexists _; isplitl [H5]; · iexact H5
    ipureintro; intro y hy; exact absurd hy (by omega)
  iintro %_ HI
  unfold invCat25
  icases HI with ⟨⟨%fc_21_0, H2, %hfc_21_0⟩, ⟨%fcol_21_0, H0, %hfcol_21_0⟩, ⟨%fo_22_0, H5, %hfo_22_0⟩⟩
  subst hfc_21_0; subst hfcol_21_0
  -- token 22, row 1: column 21's table row gathered at the batch's category words
  sl_exec_parts
  try unfold SparseCore.vectorLoadIdx
  sl_exec_parts
  sl_for (invCat26 (F := F) A (⟨21, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨21, by decide⟩ : Fin 26)) (catSlice_range A hcat (⟨21, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨21, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨21, by decide⟩ : Fin 26) (rowOf L (⟨1, by decide⟩ : Fin 2)) _ _ (col_hoff_21_1 L))
    iexists _; isplitl [H6]; · iexact H6
    ipureintro; intro y hy; exact absurd hy (by omega)
  iintro %_ HI
  unfold invCat26
  icases HI with ⟨⟨%fc_21_1, H2, %hfc_21_1⟩, ⟨%fcol_21_1, H0, %hfcol_21_1⟩, ⟨%fo_22_1, H6, %hfo_22_1⟩⟩
  subst hfc_21_1; subst hfcol_21_1
  -- token 23, row 0: column 22's table row gathered at the batch's category words
  sl_exec_parts
  try unfold SparseCore.vectorLoadIdx
  sl_exec_parts
  sl_for (invCat15 (F := F) A (⟨22, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨22, by decide⟩ : Fin 26)) (catSlice_range A hcat (⟨22, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨22, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨22, by decide⟩ : Fin 26) _ _ rfl)
    isplitl [H0]
    · iexists _; isplitl [H0]; · iexact H0
      ipureintro; exact (fetch_whole cc0_scratch0 _ _).trans (colSrc_read A (⟨22, by decide⟩ : Fin 26) (rowOf L (⟨0, by decide⟩ : Fin 2)) _ _ (col_hoff_22_0 L))
    iexists _; isplitl [H5]; · iexact H5
    ipureintro; intro y hy; exact absurd hy (by omega)
  iintro %_ HI
  unfold invCat15
  icases HI with ⟨⟨%fc_22_0, H1, %hfc_22_0⟩, ⟨%fcol_22_0, H0, %hfcol_22_0⟩, ⟨%fo_23_0, H5, %hfo_23_0⟩⟩
  subst hfc_22_0; subst hfcol_22_0
  -- token 23, row 1: column 22's table row gathered at the batch's category words
  sl_exec_parts
  try unfold SparseCore.vectorLoadIdx
  sl_exec_parts
  sl_for (invCat16 (F := F) A (⟨22, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨22, by decide⟩ : Fin 26)) (catSlice_range A hcat (⟨22, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨22, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨22, by decide⟩ : Fin 26) (rowOf L (⟨1, by decide⟩ : Fin 2)) _ _ (col_hoff_22_1 L))
    iexists _; isplitl [H6]; · iexact H6
    ipureintro; intro y hy; exact absurd hy (by omega)
  iintro %_ HI
  unfold invCat16
  icases HI with ⟨⟨%fc_22_1, H1, %hfc_22_1⟩, ⟨%fcol_22_1, H0, %hfcol_22_1⟩, ⟨%fo_23_1, H6, %hfo_23_1⟩⟩
  subst hfc_22_1; subst hfcol_22_1
  -- token 24, row 0: column 23's table row gathered at the batch's category words
  sl_exec_parts
  try unfold SparseCore.vectorLoadIdx
  sl_exec_parts
  sl_for (invCat25 (F := F) A (⟨23, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨23, by decide⟩ : Fin 26)) (catSlice_range A hcat (⟨23, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨23, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨23, by decide⟩ : Fin 26) _ _ rfl)
    isplitl [H0]
    · iexists _; isplitl [H0]; · iexact H0
      ipureintro; exact (fetch_whole cc0_scratch0 _ _).trans (colSrc_read A (⟨23, by decide⟩ : Fin 26) (rowOf L (⟨0, by decide⟩ : Fin 2)) _ _ (col_hoff_23_0 L))
    iexists _; isplitl [H5]; · iexact H5
    ipureintro; intro y hy; exact absurd hy (by omega)
  iintro %_ HI
  unfold invCat25
  icases HI with ⟨⟨%fc_23_0, H2, %hfc_23_0⟩, ⟨%fcol_23_0, H0, %hfcol_23_0⟩, ⟨%fo_24_0, H5, %hfo_24_0⟩⟩
  subst hfc_23_0; subst hfcol_23_0
  -- token 24, row 1: column 23's table row gathered at the batch's category words
  sl_exec_parts
  try unfold SparseCore.vectorLoadIdx
  sl_exec_parts
  sl_for (invCat26 (F := F) A (⟨23, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨23, by decide⟩ : Fin 26)) (catSlice_range A hcat (⟨23, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨23, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨23, by decide⟩ : Fin 26) (rowOf L (⟨1, by decide⟩ : Fin 2)) _ _ (col_hoff_23_1 L))
    iexists _; isplitl [H6]; · iexact H6
    ipureintro; intro y hy; exact absurd hy (by omega)
  iintro %_ HI
  unfold invCat26
  icases HI with ⟨⟨%fc_23_1, H2, %hfc_23_1⟩, ⟨%fcol_23_1, H0, %hfcol_23_1⟩, ⟨%fo_24_1, H6, %hfo_24_1⟩⟩
  subst hfc_23_1; subst hfcol_23_1
  -- token 25, row 0: column 24's table row gathered at the batch's category words
  sl_exec_parts
  try unfold SparseCore.vectorLoadIdx
  sl_exec_parts
  sl_for (invCat15 (F := F) A (⟨24, by decide⟩ : Fin 26) (⟨0, by decide⟩ : Fin 2) d L) $$ [H1 H0 H5]
  case region =>
    intro k _
    unfold invCat15
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨24, by decide⟩ : Fin 26)) (catSlice_range A hcat (⟨24, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_1 A (⟨24, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat15
    isplitl [H1]
    · iexists _; isplitl [H1]; · iexact H1
      ipureintro; exact (fetch_whole cc0_scratch1 _ _).trans (catSrc_read A (⟨24, by decide⟩ : Fin 26) _ _ rfl)
    isplitl [H0]
    · iexists _; isplitl [H0]; · iexact H0
      ipureintro; exact (fetch_whole cc0_scratch0 _ _).trans (colSrc_read A (⟨24, by decide⟩ : Fin 26) (rowOf L (⟨0, by decide⟩ : Fin 2)) _ _ (col_hoff_24_0 L))
    iexists _; isplitl [H5]; · iexact H5
    ipureintro; intro y hy; exact absurd hy (by omega)
  iintro %_ HI
  unfold invCat15
  icases HI with ⟨⟨%fc_24_0, H1, %hfc_24_0⟩, ⟨%fcol_24_0, H0, %hfcol_24_0⟩, ⟨%fo_25_0, H5, %hfo_25_0⟩⟩
  subst hfc_24_0; subst hfcol_24_0
  -- token 25, row 1: column 24's table row gathered at the batch's category words
  sl_exec_parts
  try unfold SparseCore.vectorLoadIdx
  sl_exec_parts
  sl_for (invCat16 (F := F) A (⟨24, by decide⟩ : Fin 26) (⟨1, by decide⟩ : Fin 2) d L) $$ [H1 H0 H6]
  case region =>
    intro k _
    unfold invCat16
    iintro ⟨⟨%fc, Hc, %hfc⟩, ⟨%fcol, Hcol, %hfcol⟩, ⟨%f, Ho, %hf⟩⟩
    subst hfc; subst hfcol
    sl_exec (disch := exact chk_cat_rd1 (F := F) _ rfl (catSlice A (⟨24, by decide⟩ : Fin 26)) (catSlice_range A hcat (⟨24, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_1 A (⟨24, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat16
    isplitl [H1]
    · iexists _; isplitl [H1]; · iexact H1
      ipureintro; exact rfl
    isplitl [H0]
    · iexists _; isplitl [H0]; · iexact H0
      ipureintro; exact (fetch_whole cc0_scratch0 _ _).trans (colSrc_read A (⟨24, by decide⟩ : Fin 26) (rowOf L (⟨1, by decide⟩ : Fin 2)) _ _ (col_hoff_24_1 L))
    iexists _; isplitl [H6]; · iexact H6
    ipureintro; intro y hy; exact absurd hy (by omega)
  iintro %_ HI
  unfold invCat16
  icases HI with ⟨⟨%fc_24_1, H1, %hfc_24_1⟩, ⟨%fcol_24_1, H0, %hfcol_24_1⟩, ⟨%fo_25_1, H6, %hfo_25_1⟩⟩
  subst hfc_24_1; subst hfcol_24_1
  -- token 26, row 0: column 25's table row gathered at the batch's category words
  sl_exec_parts
  try unfold SparseCore.vectorLoadIdx
  sl_exec_parts
  sl_for (invCat25 (F := F) A (⟨25, by decide⟩ : Fin 26) (⟨0, by decide⟩ : Fin 2) d L) $$ [H2 H0 H5]
  case region =>
    intro k _
    unfold invCat25
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨25, by decide⟩ : Fin 26)) (catSlice_range A hcat (⟨25, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_5_2 A (⟨25, by decide⟩ : Fin 26) (rowOf L (⟨0, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat25
    isplitl [H2]
    · iexists _; isplitl [H2]; · iexact H2
      ipureintro; exact (fetch_whole cc0_scratch2 _ _).trans (catSrc_read A (⟨25, by decide⟩ : Fin 26) _ _ rfl)
    isplitl [H0]
    · iexists _; isplitl [H0]; · iexact H0
      ipureintro; exact (fetch_whole cc0_scratch0 _ _).trans (colSrc_read A (⟨25, by decide⟩ : Fin 26) (rowOf L (⟨0, by decide⟩ : Fin 2)) _ _ (col_hoff_25_0 L))
    iexists _; isplitl [H5]; · iexact H5
    ipureintro; intro y hy; exact absurd hy (by omega)
  iintro %_ HI
  unfold invCat25
  icases HI with ⟨⟨%fc_25_0, H2, %hfc_25_0⟩, ⟨%fcol_25_0, H0, %hfcol_25_0⟩, ⟨%fo_26_0, H5, %hfo_26_0⟩⟩
  subst hfc_25_0; subst hfcol_25_0
  -- token 26, row 1: column 25's table row gathered at the batch's category words
  sl_exec_parts
  try unfold SparseCore.vectorLoadIdx
  sl_exec_parts
  sl_for (invCat26 (F := F) A (⟨25, by decide⟩ : Fin 26) (⟨1, by decide⟩ : Fin 2) d L) $$ [H2 H0 H6]
  case region =>
    intro k _
    unfold invCat26
    iintro ⟨⟨%fc, Hc, %hfc⟩, ⟨%fcol, Hcol, %hfcol⟩, ⟨%f, Ho, %hf⟩⟩
    subst hfc; subst hfcol
    sl_exec (disch := exact chk_cat_rd2 (F := F) _ rfl (catSlice A (⟨25, by decide⟩ : Fin 26)) (catSlice_range A hcat (⟨25, by decide⟩ : Fin 26)) _ _)
    sl_step
    isplitl [Hc]
    · iexists _; isplitl [Hc]; · iexact Hc
      ipureintro; rfl
    isplitl [Hcol]
    · iexists _; isplitl [Hcol]; · iexact Hcol
      ipureintro; rfl
    iexists _; isplitl [Ho]; · iexact Ho
    ipureintro
    exact stepCat_6_2 A (⟨25, by decide⟩ : Fin 26) (rowOf L (⟨1, by decide⟩ : Fin 2)) _ _ rfl _ rfl (fun n => hcat _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ _ _ _ _ hf
  · unfold invCat26
    isplitl [H2]
    · iexists _; isplitl [H2]; · iexact H2
      ipureintro; exact rfl
    isplitl [H0]
    · iexists _; isplitl [H0]; · iexact H0
      ipureintro; exact (fetch_whole cc0_scratch0 _ _).trans (colSrc_read A (⟨25, by decide⟩ : Fin 26) (rowOf L (⟨1, by decide⟩ : Fin 2)) _ _ (col_hoff_25_1 L))
    iexists _; isplitl [H6]; · iexact H6
    ipureintro; intro y hy; exact absurd hy (by omega)
  iintro %_ HI
  unfold invCat26
  icases HI with ⟨⟨%fc_25_1, H2, %hfc_25_1⟩, ⟨%fcol_25_1, H0, %hfcol_25_1⟩, ⟨%fo_26_1, H6, %hfo_26_1⟩⟩
  subst hfc_25_1; subst hfcol_25_1
  -- token 27, row 0: numeric column 0 times its weight plus its bias
  sl_exec_parts (disch := exact ⟨chk_num (⟨0, by decide⟩ : Fin 13) (⟨0, by decide⟩ : Fin 2) L, chk_num (⟨0, by decide⟩ : Fin 13) (⟨0, by decide⟩ : Fin 2) L⟩)
  try unfold SparseCore.vectorLoadIdx
  sl_exec_parts (disch := exact ⟨chk_num (⟨0, by decide⟩ : Fin 13) (⟨0, by decide⟩ : Fin 2) L, chk_num (⟨0, by decide⟩ : Fin 13) (⟨0, by decide⟩ : Fin 2) L⟩)
  sl_for (invNum35 (F := F) A (⟨0, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨0, by decide⟩ : Fin 13) (rowOf L (⟨0, by decide⟩ : Fin 2)) _ _ rfl _ _ (numW_apply A (⟨0, by decide⟩ : Fin 13) (rowOf L (⟨0, by decide⟩ : Fin 2)) _ (fetch_w A _) _ (numWord_toNat (⟨0, by decide⟩ : Fin 13) (⟨0, by decide⟩ : Fin 2) L) _) (numB_apply A (⟨0, by decide⟩ : Fin 13) (rowOf L (⟨0, by decide⟩ : Fin 2)) _ (fetch_b A _) _ (numWord_toNat (⟨0, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨0, by decide⟩ : Fin 13) _ _ rfl)
    iexists _; isplitl [H5]; · iexact H5
    ipureintro; intro y hy; exact absurd hy (by omega)
  iintro %_ HI
  unfold invNum35
  icases HI with ⟨⟨%fn_0_0, H3, %hfn_0_0⟩, ⟨%fo_27_0, H5, %hfo_27_0⟩⟩
  subst hfn_0_0
  -- token 27, row 1: numeric column 0 times its weight plus its bias
  sl_exec_parts (disch := exact ⟨chk_num (⟨0, by decide⟩ : Fin 13) (⟨1, by decide⟩ : Fin 2) L, chk_num (⟨0, by decide⟩ : Fin 13) (⟨1, by decide⟩ : Fin 2) L⟩)
  try unfold SparseCore.vectorLoadIdx
  sl_exec_parts (disch := exact ⟨chk_num (⟨0, by decide⟩ : Fin 13) (⟨1, by decide⟩ : Fin 2) L, chk_num (⟨0, by decide⟩ : Fin 13) (⟨1, by decide⟩ : Fin 2) L⟩)
  sl_for (invNum36 (F := F) A (⟨0, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨0, by decide⟩ : Fin 13) (rowOf L (⟨1, by decide⟩ : Fin 2)) _ _ rfl _ _ (numW_apply A (⟨0, by decide⟩ : Fin 13) (rowOf L (⟨1, by decide⟩ : Fin 2)) _ (fetch_w A _) _ (numWord_toNat (⟨0, by decide⟩ : Fin 13) (⟨1, by decide⟩ : Fin 2) L) _) (numB_apply A (⟨0, by decide⟩ : Fin 13) (rowOf L (⟨1, by decide⟩ : Fin 2)) _ (fetch_b A _) _ (numWord_toNat (⟨0, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_0_1, H3, %hfn_0_1⟩, ⟨%fo_27_1, H6, %hfo_27_1⟩⟩
  subst hfn_0_1
  -- token 28, row 0: numeric column 1 times its weight plus its bias
  sl_exec_parts (disch := exact ⟨chk_num (⟨1, by decide⟩ : Fin 13) (⟨0, by decide⟩ : Fin 2) L, chk_num (⟨1, by decide⟩ : Fin 13) (⟨0, by decide⟩ : Fin 2) L⟩)
  try unfold SparseCore.vectorLoadIdx
  sl_exec_parts (disch := exact ⟨chk_num (⟨1, by decide⟩ : Fin 13) (⟨0, by decide⟩ : Fin 2) L, chk_num (⟨1, by decide⟩ : Fin 13) (⟨0, by decide⟩ : Fin 2) L⟩)
  sl_for (invNum45 (F := F) A (⟨1, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨1, by decide⟩ : Fin 13) (rowOf L (⟨0, by decide⟩ : Fin 2)) _ _ rfl _ _ (numW_apply A (⟨1, by decide⟩ : Fin 13) (rowOf L (⟨0, by decide⟩ : Fin 2)) _ (fetch_w A _) _ (numWord_toNat (⟨1, by decide⟩ : Fin 13) (⟨0, by decide⟩ : Fin 2) L) _) (numB_apply A (⟨1, by decide⟩ : Fin 13) (rowOf L (⟨0, by decide⟩ : Fin 2)) _ (fetch_b A _) _ (numWord_toNat (⟨1, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨1, by decide⟩ : Fin 13) _ _ rfl)
    iexists _; isplitl [H5]; · iexact H5
    ipureintro; intro y hy; exact absurd hy (by omega)
  iintro %_ HI
  unfold invNum45
  icases HI with ⟨⟨%fn_1_0, H4, %hfn_1_0⟩, ⟨%fo_28_0, H5, %hfo_28_0⟩⟩
  subst hfn_1_0
  -- token 28, row 1: numeric column 1 times its weight plus its bias
  sl_exec_parts (disch := exact ⟨chk_num (⟨1, by decide⟩ : Fin 13) (⟨1, by decide⟩ : Fin 2) L, chk_num (⟨1, by decide⟩ : Fin 13) (⟨1, by decide⟩ : Fin 2) L⟩)
  try unfold SparseCore.vectorLoadIdx
  sl_exec_parts (disch := exact ⟨chk_num (⟨1, by decide⟩ : Fin 13) (⟨1, by decide⟩ : Fin 2) L, chk_num (⟨1, by decide⟩ : Fin 13) (⟨1, by decide⟩ : Fin 2) L⟩)
  sl_for (invNum46 (F := F) A (⟨1, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨1, by decide⟩ : Fin 13) (rowOf L (⟨1, by decide⟩ : Fin 2)) _ _ rfl _ _ (numW_apply A (⟨1, by decide⟩ : Fin 13) (rowOf L (⟨1, by decide⟩ : Fin 2)) _ (fetch_w A _) _ (numWord_toNat (⟨1, by decide⟩ : Fin 13) (⟨1, by decide⟩ : Fin 2) L) _) (numB_apply A (⟨1, by decide⟩ : Fin 13) (rowOf L (⟨1, by decide⟩ : Fin 2)) _ (fetch_b A _) _ (numWord_toNat (⟨1, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_1_1, H4, %hfn_1_1⟩, ⟨%fo_28_1, H6, %hfo_28_1⟩⟩
  subst hfn_1_1
  -- token 29, row 0: numeric column 2 times its weight plus its bias
  sl_exec_parts (disch := exact ⟨chk_num (⟨2, by decide⟩ : Fin 13) (⟨0, by decide⟩ : Fin 2) L, chk_num (⟨2, by decide⟩ : Fin 13) (⟨0, by decide⟩ : Fin 2) L⟩)
  try unfold SparseCore.vectorLoadIdx
  sl_exec_parts (disch := exact ⟨chk_num (⟨2, by decide⟩ : Fin 13) (⟨0, by decide⟩ : Fin 2) L, chk_num (⟨2, by decide⟩ : Fin 13) (⟨0, by decide⟩ : Fin 2) L⟩)
  sl_for (invNum35 (F := F) A (⟨2, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨2, by decide⟩ : Fin 13) (rowOf L (⟨0, by decide⟩ : Fin 2)) _ _ rfl _ _ (numW_apply A (⟨2, by decide⟩ : Fin 13) (rowOf L (⟨0, by decide⟩ : Fin 2)) _ (fetch_w A _) _ (numWord_toNat (⟨2, by decide⟩ : Fin 13) (⟨0, by decide⟩ : Fin 2) L) _) (numB_apply A (⟨2, by decide⟩ : Fin 13) (rowOf L (⟨0, by decide⟩ : Fin 2)) _ (fetch_b A _) _ (numWord_toNat (⟨2, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨2, by decide⟩ : Fin 13) _ _ rfl)
    iexists _; isplitl [H5]; · iexact H5
    ipureintro; intro y hy; exact absurd hy (by omega)
  iintro %_ HI
  unfold invNum35
  icases HI with ⟨⟨%fn_2_0, H3, %hfn_2_0⟩, ⟨%fo_29_0, H5, %hfo_29_0⟩⟩
  subst hfn_2_0
  -- token 29, row 1: numeric column 2 times its weight plus its bias
  sl_exec_parts (disch := exact ⟨chk_num (⟨2, by decide⟩ : Fin 13) (⟨1, by decide⟩ : Fin 2) L, chk_num (⟨2, by decide⟩ : Fin 13) (⟨1, by decide⟩ : Fin 2) L⟩)
  try unfold SparseCore.vectorLoadIdx
  sl_exec_parts (disch := exact ⟨chk_num (⟨2, by decide⟩ : Fin 13) (⟨1, by decide⟩ : Fin 2) L, chk_num (⟨2, by decide⟩ : Fin 13) (⟨1, by decide⟩ : Fin 2) L⟩)
  sl_for (invNum36 (F := F) A (⟨2, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨2, by decide⟩ : Fin 13) (rowOf L (⟨1, by decide⟩ : Fin 2)) _ _ rfl _ _ (numW_apply A (⟨2, by decide⟩ : Fin 13) (rowOf L (⟨1, by decide⟩ : Fin 2)) _ (fetch_w A _) _ (numWord_toNat (⟨2, by decide⟩ : Fin 13) (⟨1, by decide⟩ : Fin 2) L) _) (numB_apply A (⟨2, by decide⟩ : Fin 13) (rowOf L (⟨1, by decide⟩ : Fin 2)) _ (fetch_b A _) _ (numWord_toNat (⟨2, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_2_1, H3, %hfn_2_1⟩, ⟨%fo_29_1, H6, %hfo_29_1⟩⟩
  subst hfn_2_1
  -- token 30, row 0: numeric column 3 times its weight plus its bias
  sl_exec_parts (disch := exact ⟨chk_num (⟨3, by decide⟩ : Fin 13) (⟨0, by decide⟩ : Fin 2) L, chk_num (⟨3, by decide⟩ : Fin 13) (⟨0, by decide⟩ : Fin 2) L⟩)
  try unfold SparseCore.vectorLoadIdx
  sl_exec_parts (disch := exact ⟨chk_num (⟨3, by decide⟩ : Fin 13) (⟨0, by decide⟩ : Fin 2) L, chk_num (⟨3, by decide⟩ : Fin 13) (⟨0, by decide⟩ : Fin 2) L⟩)
  sl_for (invNum45 (F := F) A (⟨3, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨3, by decide⟩ : Fin 13) (rowOf L (⟨0, by decide⟩ : Fin 2)) _ _ rfl _ _ (numW_apply A (⟨3, by decide⟩ : Fin 13) (rowOf L (⟨0, by decide⟩ : Fin 2)) _ (fetch_w A _) _ (numWord_toNat (⟨3, by decide⟩ : Fin 13) (⟨0, by decide⟩ : Fin 2) L) _) (numB_apply A (⟨3, by decide⟩ : Fin 13) (rowOf L (⟨0, by decide⟩ : Fin 2)) _ (fetch_b A _) _ (numWord_toNat (⟨3, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨3, by decide⟩ : Fin 13) _ _ rfl)
    iexists _; isplitl [H5]; · iexact H5
    ipureintro; intro y hy; exact absurd hy (by omega)
  iintro %_ HI
  unfold invNum45
  icases HI with ⟨⟨%fn_3_0, H4, %hfn_3_0⟩, ⟨%fo_30_0, H5, %hfo_30_0⟩⟩
  subst hfn_3_0
  -- token 30, row 1: numeric column 3 times its weight plus its bias
  sl_exec_parts (disch := exact ⟨chk_num (⟨3, by decide⟩ : Fin 13) (⟨1, by decide⟩ : Fin 2) L, chk_num (⟨3, by decide⟩ : Fin 13) (⟨1, by decide⟩ : Fin 2) L⟩)
  try unfold SparseCore.vectorLoadIdx
  sl_exec_parts (disch := exact ⟨chk_num (⟨3, by decide⟩ : Fin 13) (⟨1, by decide⟩ : Fin 2) L, chk_num (⟨3, by decide⟩ : Fin 13) (⟨1, by decide⟩ : Fin 2) L⟩)
  sl_for (invNum46 (F := F) A (⟨3, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨3, by decide⟩ : Fin 13) (rowOf L (⟨1, by decide⟩ : Fin 2)) _ _ rfl _ _ (numW_apply A (⟨3, by decide⟩ : Fin 13) (rowOf L (⟨1, by decide⟩ : Fin 2)) _ (fetch_w A _) _ (numWord_toNat (⟨3, by decide⟩ : Fin 13) (⟨1, by decide⟩ : Fin 2) L) _) (numB_apply A (⟨3, by decide⟩ : Fin 13) (rowOf L (⟨1, by decide⟩ : Fin 2)) _ (fetch_b A _) _ (numWord_toNat (⟨3, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_3_1, H4, %hfn_3_1⟩, ⟨%fo_30_1, H6, %hfo_30_1⟩⟩
  subst hfn_3_1
  -- token 31, row 0: numeric column 4 times its weight plus its bias
  sl_exec_parts (disch := exact ⟨chk_num (⟨4, by decide⟩ : Fin 13) (⟨0, by decide⟩ : Fin 2) L, chk_num (⟨4, by decide⟩ : Fin 13) (⟨0, by decide⟩ : Fin 2) L⟩)
  try unfold SparseCore.vectorLoadIdx
  sl_exec_parts (disch := exact ⟨chk_num (⟨4, by decide⟩ : Fin 13) (⟨0, by decide⟩ : Fin 2) L, chk_num (⟨4, by decide⟩ : Fin 13) (⟨0, by decide⟩ : Fin 2) L⟩)
  sl_for (invNum35 (F := F) A (⟨4, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨4, by decide⟩ : Fin 13) (rowOf L (⟨0, by decide⟩ : Fin 2)) _ _ rfl _ _ (numW_apply A (⟨4, by decide⟩ : Fin 13) (rowOf L (⟨0, by decide⟩ : Fin 2)) _ (fetch_w A _) _ (numWord_toNat (⟨4, by decide⟩ : Fin 13) (⟨0, by decide⟩ : Fin 2) L) _) (numB_apply A (⟨4, by decide⟩ : Fin 13) (rowOf L (⟨0, by decide⟩ : Fin 2)) _ (fetch_b A _) _ (numWord_toNat (⟨4, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨4, by decide⟩ : Fin 13) _ _ rfl)
    iexists _; isplitl [H5]; · iexact H5
    ipureintro; intro y hy; exact absurd hy (by omega)
  iintro %_ HI
  unfold invNum35
  icases HI with ⟨⟨%fn_4_0, H3, %hfn_4_0⟩, ⟨%fo_31_0, H5, %hfo_31_0⟩⟩
  subst hfn_4_0
  -- token 31, row 1: numeric column 4 times its weight plus its bias
  sl_exec_parts (disch := exact ⟨chk_num (⟨4, by decide⟩ : Fin 13) (⟨1, by decide⟩ : Fin 2) L, chk_num (⟨4, by decide⟩ : Fin 13) (⟨1, by decide⟩ : Fin 2) L⟩)
  try unfold SparseCore.vectorLoadIdx
  sl_exec_parts (disch := exact ⟨chk_num (⟨4, by decide⟩ : Fin 13) (⟨1, by decide⟩ : Fin 2) L, chk_num (⟨4, by decide⟩ : Fin 13) (⟨1, by decide⟩ : Fin 2) L⟩)
  sl_for (invNum36 (F := F) A (⟨4, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨4, by decide⟩ : Fin 13) (rowOf L (⟨1, by decide⟩ : Fin 2)) _ _ rfl _ _ (numW_apply A (⟨4, by decide⟩ : Fin 13) (rowOf L (⟨1, by decide⟩ : Fin 2)) _ (fetch_w A _) _ (numWord_toNat (⟨4, by decide⟩ : Fin 13) (⟨1, by decide⟩ : Fin 2) L) _) (numB_apply A (⟨4, by decide⟩ : Fin 13) (rowOf L (⟨1, by decide⟩ : Fin 2)) _ (fetch_b A _) _ (numWord_toNat (⟨4, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_4_1, H3, %hfn_4_1⟩, ⟨%fo_31_1, H6, %hfo_31_1⟩⟩
  subst hfn_4_1
  -- token 32, row 0: numeric column 5 times its weight plus its bias
  sl_exec_parts (disch := exact ⟨chk_num (⟨5, by decide⟩ : Fin 13) (⟨0, by decide⟩ : Fin 2) L, chk_num (⟨5, by decide⟩ : Fin 13) (⟨0, by decide⟩ : Fin 2) L⟩)
  try unfold SparseCore.vectorLoadIdx
  sl_exec_parts (disch := exact ⟨chk_num (⟨5, by decide⟩ : Fin 13) (⟨0, by decide⟩ : Fin 2) L, chk_num (⟨5, by decide⟩ : Fin 13) (⟨0, by decide⟩ : Fin 2) L⟩)
  sl_for (invNum45 (F := F) A (⟨5, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨5, by decide⟩ : Fin 13) (rowOf L (⟨0, by decide⟩ : Fin 2)) _ _ rfl _ _ (numW_apply A (⟨5, by decide⟩ : Fin 13) (rowOf L (⟨0, by decide⟩ : Fin 2)) _ (fetch_w A _) _ (numWord_toNat (⟨5, by decide⟩ : Fin 13) (⟨0, by decide⟩ : Fin 2) L) _) (numB_apply A (⟨5, by decide⟩ : Fin 13) (rowOf L (⟨0, by decide⟩ : Fin 2)) _ (fetch_b A _) _ (numWord_toNat (⟨5, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨5, by decide⟩ : Fin 13) _ _ rfl)
    iexists _; isplitl [H5]; · iexact H5
    ipureintro; intro y hy; exact absurd hy (by omega)
  iintro %_ HI
  unfold invNum45
  icases HI with ⟨⟨%fn_5_0, H4, %hfn_5_0⟩, ⟨%fo_32_0, H5, %hfo_32_0⟩⟩
  subst hfn_5_0
  -- token 32, row 1: numeric column 5 times its weight plus its bias
  sl_exec_parts (disch := exact ⟨chk_num (⟨5, by decide⟩ : Fin 13) (⟨1, by decide⟩ : Fin 2) L, chk_num (⟨5, by decide⟩ : Fin 13) (⟨1, by decide⟩ : Fin 2) L⟩)
  try unfold SparseCore.vectorLoadIdx
  sl_exec_parts (disch := exact ⟨chk_num (⟨5, by decide⟩ : Fin 13) (⟨1, by decide⟩ : Fin 2) L, chk_num (⟨5, by decide⟩ : Fin 13) (⟨1, by decide⟩ : Fin 2) L⟩)
  sl_for (invNum46 (F := F) A (⟨5, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨5, by decide⟩ : Fin 13) (rowOf L (⟨1, by decide⟩ : Fin 2)) _ _ rfl _ _ (numW_apply A (⟨5, by decide⟩ : Fin 13) (rowOf L (⟨1, by decide⟩ : Fin 2)) _ (fetch_w A _) _ (numWord_toNat (⟨5, by decide⟩ : Fin 13) (⟨1, by decide⟩ : Fin 2) L) _) (numB_apply A (⟨5, by decide⟩ : Fin 13) (rowOf L (⟨1, by decide⟩ : Fin 2)) _ (fetch_b A _) _ (numWord_toNat (⟨5, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_5_1, H4, %hfn_5_1⟩, ⟨%fo_32_1, H6, %hfo_32_1⟩⟩
  subst hfn_5_1
  -- token 33, row 0: numeric column 6 times its weight plus its bias
  sl_exec_parts (disch := exact ⟨chk_num (⟨6, by decide⟩ : Fin 13) (⟨0, by decide⟩ : Fin 2) L, chk_num (⟨6, by decide⟩ : Fin 13) (⟨0, by decide⟩ : Fin 2) L⟩)
  try unfold SparseCore.vectorLoadIdx
  sl_exec_parts (disch := exact ⟨chk_num (⟨6, by decide⟩ : Fin 13) (⟨0, by decide⟩ : Fin 2) L, chk_num (⟨6, by decide⟩ : Fin 13) (⟨0, by decide⟩ : Fin 2) L⟩)
  sl_for (invNum35 (F := F) A (⟨6, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨6, by decide⟩ : Fin 13) (rowOf L (⟨0, by decide⟩ : Fin 2)) _ _ rfl _ _ (numW_apply A (⟨6, by decide⟩ : Fin 13) (rowOf L (⟨0, by decide⟩ : Fin 2)) _ (fetch_w A _) _ (numWord_toNat (⟨6, by decide⟩ : Fin 13) (⟨0, by decide⟩ : Fin 2) L) _) (numB_apply A (⟨6, by decide⟩ : Fin 13) (rowOf L (⟨0, by decide⟩ : Fin 2)) _ (fetch_b A _) _ (numWord_toNat (⟨6, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨6, by decide⟩ : Fin 13) _ _ rfl)
    iexists _; isplitl [H5]; · iexact H5
    ipureintro; intro y hy; exact absurd hy (by omega)
  iintro %_ HI
  unfold invNum35
  icases HI with ⟨⟨%fn_6_0, H3, %hfn_6_0⟩, ⟨%fo_33_0, H5, %hfo_33_0⟩⟩
  subst hfn_6_0
  -- token 33, row 1: numeric column 6 times its weight plus its bias
  sl_exec_parts (disch := exact ⟨chk_num (⟨6, by decide⟩ : Fin 13) (⟨1, by decide⟩ : Fin 2) L, chk_num (⟨6, by decide⟩ : Fin 13) (⟨1, by decide⟩ : Fin 2) L⟩)
  try unfold SparseCore.vectorLoadIdx
  sl_exec_parts (disch := exact ⟨chk_num (⟨6, by decide⟩ : Fin 13) (⟨1, by decide⟩ : Fin 2) L, chk_num (⟨6, by decide⟩ : Fin 13) (⟨1, by decide⟩ : Fin 2) L⟩)
  sl_for (invNum36 (F := F) A (⟨6, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨6, by decide⟩ : Fin 13) (rowOf L (⟨1, by decide⟩ : Fin 2)) _ _ rfl _ _ (numW_apply A (⟨6, by decide⟩ : Fin 13) (rowOf L (⟨1, by decide⟩ : Fin 2)) _ (fetch_w A _) _ (numWord_toNat (⟨6, by decide⟩ : Fin 13) (⟨1, by decide⟩ : Fin 2) L) _) (numB_apply A (⟨6, by decide⟩ : Fin 13) (rowOf L (⟨1, by decide⟩ : Fin 2)) _ (fetch_b A _) _ (numWord_toNat (⟨6, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_6_1, H3, %hfn_6_1⟩, ⟨%fo_33_1, H6, %hfo_33_1⟩⟩
  subst hfn_6_1
  -- token 34, row 0: numeric column 7 times its weight plus its bias
  sl_exec_parts (disch := exact ⟨chk_num (⟨7, by decide⟩ : Fin 13) (⟨0, by decide⟩ : Fin 2) L, chk_num (⟨7, by decide⟩ : Fin 13) (⟨0, by decide⟩ : Fin 2) L⟩)
  try unfold SparseCore.vectorLoadIdx
  sl_exec_parts (disch := exact ⟨chk_num (⟨7, by decide⟩ : Fin 13) (⟨0, by decide⟩ : Fin 2) L, chk_num (⟨7, by decide⟩ : Fin 13) (⟨0, by decide⟩ : Fin 2) L⟩)
  sl_for (invNum45 (F := F) A (⟨7, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨7, by decide⟩ : Fin 13) (rowOf L (⟨0, by decide⟩ : Fin 2)) _ _ rfl _ _ (numW_apply A (⟨7, by decide⟩ : Fin 13) (rowOf L (⟨0, by decide⟩ : Fin 2)) _ (fetch_w A _) _ (numWord_toNat (⟨7, by decide⟩ : Fin 13) (⟨0, by decide⟩ : Fin 2) L) _) (numB_apply A (⟨7, by decide⟩ : Fin 13) (rowOf L (⟨0, by decide⟩ : Fin 2)) _ (fetch_b A _) _ (numWord_toNat (⟨7, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨7, by decide⟩ : Fin 13) _ _ rfl)
    iexists _; isplitl [H5]; · iexact H5
    ipureintro; intro y hy; exact absurd hy (by omega)
  iintro %_ HI
  unfold invNum45
  icases HI with ⟨⟨%fn_7_0, H4, %hfn_7_0⟩, ⟨%fo_34_0, H5, %hfo_34_0⟩⟩
  subst hfn_7_0
  -- token 34, row 1: numeric column 7 times its weight plus its bias
  sl_exec_parts (disch := exact ⟨chk_num (⟨7, by decide⟩ : Fin 13) (⟨1, by decide⟩ : Fin 2) L, chk_num (⟨7, by decide⟩ : Fin 13) (⟨1, by decide⟩ : Fin 2) L⟩)
  try unfold SparseCore.vectorLoadIdx
  sl_exec_parts (disch := exact ⟨chk_num (⟨7, by decide⟩ : Fin 13) (⟨1, by decide⟩ : Fin 2) L, chk_num (⟨7, by decide⟩ : Fin 13) (⟨1, by decide⟩ : Fin 2) L⟩)
  sl_for (invNum46 (F := F) A (⟨7, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨7, by decide⟩ : Fin 13) (rowOf L (⟨1, by decide⟩ : Fin 2)) _ _ rfl _ _ (numW_apply A (⟨7, by decide⟩ : Fin 13) (rowOf L (⟨1, by decide⟩ : Fin 2)) _ (fetch_w A _) _ (numWord_toNat (⟨7, by decide⟩ : Fin 13) (⟨1, by decide⟩ : Fin 2) L) _) (numB_apply A (⟨7, by decide⟩ : Fin 13) (rowOf L (⟨1, by decide⟩ : Fin 2)) _ (fetch_b A _) _ (numWord_toNat (⟨7, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_7_1, H4, %hfn_7_1⟩, ⟨%fo_34_1, H6, %hfo_34_1⟩⟩
  subst hfn_7_1
  -- token 35, row 0: numeric column 8 times its weight plus its bias
  sl_exec_parts (disch := exact ⟨chk_num (⟨8, by decide⟩ : Fin 13) (⟨0, by decide⟩ : Fin 2) L, chk_num (⟨8, by decide⟩ : Fin 13) (⟨0, by decide⟩ : Fin 2) L⟩)
  try unfold SparseCore.vectorLoadIdx
  sl_exec_parts (disch := exact ⟨chk_num (⟨8, by decide⟩ : Fin 13) (⟨0, by decide⟩ : Fin 2) L, chk_num (⟨8, by decide⟩ : Fin 13) (⟨0, by decide⟩ : Fin 2) L⟩)
  sl_for (invNum35 (F := F) A (⟨8, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨8, by decide⟩ : Fin 13) (rowOf L (⟨0, by decide⟩ : Fin 2)) _ _ rfl _ _ (numW_apply A (⟨8, by decide⟩ : Fin 13) (rowOf L (⟨0, by decide⟩ : Fin 2)) _ (fetch_w A _) _ (numWord_toNat (⟨8, by decide⟩ : Fin 13) (⟨0, by decide⟩ : Fin 2) L) _) (numB_apply A (⟨8, by decide⟩ : Fin 13) (rowOf L (⟨0, by decide⟩ : Fin 2)) _ (fetch_b A _) _ (numWord_toNat (⟨8, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨8, by decide⟩ : Fin 13) _ _ rfl)
    iexists _; isplitl [H5]; · iexact H5
    ipureintro; intro y hy; exact absurd hy (by omega)
  iintro %_ HI
  unfold invNum35
  icases HI with ⟨⟨%fn_8_0, H3, %hfn_8_0⟩, ⟨%fo_35_0, H5, %hfo_35_0⟩⟩
  subst hfn_8_0
  -- token 35, row 1: numeric column 8 times its weight plus its bias
  sl_exec_parts (disch := exact ⟨chk_num (⟨8, by decide⟩ : Fin 13) (⟨1, by decide⟩ : Fin 2) L, chk_num (⟨8, by decide⟩ : Fin 13) (⟨1, by decide⟩ : Fin 2) L⟩)
  try unfold SparseCore.vectorLoadIdx
  sl_exec_parts (disch := exact ⟨chk_num (⟨8, by decide⟩ : Fin 13) (⟨1, by decide⟩ : Fin 2) L, chk_num (⟨8, by decide⟩ : Fin 13) (⟨1, by decide⟩ : Fin 2) L⟩)
  sl_for (invNum36 (F := F) A (⟨8, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨8, by decide⟩ : Fin 13) (rowOf L (⟨1, by decide⟩ : Fin 2)) _ _ rfl _ _ (numW_apply A (⟨8, by decide⟩ : Fin 13) (rowOf L (⟨1, by decide⟩ : Fin 2)) _ (fetch_w A _) _ (numWord_toNat (⟨8, by decide⟩ : Fin 13) (⟨1, by decide⟩ : Fin 2) L) _) (numB_apply A (⟨8, by decide⟩ : Fin 13) (rowOf L (⟨1, by decide⟩ : Fin 2)) _ (fetch_b A _) _ (numWord_toNat (⟨8, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_8_1, H3, %hfn_8_1⟩, ⟨%fo_35_1, H6, %hfo_35_1⟩⟩
  subst hfn_8_1
  -- token 36, row 0: numeric column 9 times its weight plus its bias
  sl_exec_parts (disch := exact ⟨chk_num (⟨9, by decide⟩ : Fin 13) (⟨0, by decide⟩ : Fin 2) L, chk_num (⟨9, by decide⟩ : Fin 13) (⟨0, by decide⟩ : Fin 2) L⟩)
  try unfold SparseCore.vectorLoadIdx
  sl_exec_parts (disch := exact ⟨chk_num (⟨9, by decide⟩ : Fin 13) (⟨0, by decide⟩ : Fin 2) L, chk_num (⟨9, by decide⟩ : Fin 13) (⟨0, by decide⟩ : Fin 2) L⟩)
  sl_for (invNum45 (F := F) A (⟨9, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨9, by decide⟩ : Fin 13) (rowOf L (⟨0, by decide⟩ : Fin 2)) _ _ rfl _ _ (numW_apply A (⟨9, by decide⟩ : Fin 13) (rowOf L (⟨0, by decide⟩ : Fin 2)) _ (fetch_w A _) _ (numWord_toNat (⟨9, by decide⟩ : Fin 13) (⟨0, by decide⟩ : Fin 2) L) _) (numB_apply A (⟨9, by decide⟩ : Fin 13) (rowOf L (⟨0, by decide⟩ : Fin 2)) _ (fetch_b A _) _ (numWord_toNat (⟨9, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨9, by decide⟩ : Fin 13) _ _ rfl)
    iexists _; isplitl [H5]; · iexact H5
    ipureintro; intro y hy; exact absurd hy (by omega)
  iintro %_ HI
  unfold invNum45
  icases HI with ⟨⟨%fn_9_0, H4, %hfn_9_0⟩, ⟨%fo_36_0, H5, %hfo_36_0⟩⟩
  subst hfn_9_0
  -- token 36, row 1: numeric column 9 times its weight plus its bias
  sl_exec_parts (disch := exact ⟨chk_num (⟨9, by decide⟩ : Fin 13) (⟨1, by decide⟩ : Fin 2) L, chk_num (⟨9, by decide⟩ : Fin 13) (⟨1, by decide⟩ : Fin 2) L⟩)
  try unfold SparseCore.vectorLoadIdx
  sl_exec_parts (disch := exact ⟨chk_num (⟨9, by decide⟩ : Fin 13) (⟨1, by decide⟩ : Fin 2) L, chk_num (⟨9, by decide⟩ : Fin 13) (⟨1, by decide⟩ : Fin 2) L⟩)
  sl_for (invNum46 (F := F) A (⟨9, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨9, by decide⟩ : Fin 13) (rowOf L (⟨1, by decide⟩ : Fin 2)) _ _ rfl _ _ (numW_apply A (⟨9, by decide⟩ : Fin 13) (rowOf L (⟨1, by decide⟩ : Fin 2)) _ (fetch_w A _) _ (numWord_toNat (⟨9, by decide⟩ : Fin 13) (⟨1, by decide⟩ : Fin 2) L) _) (numB_apply A (⟨9, by decide⟩ : Fin 13) (rowOf L (⟨1, by decide⟩ : Fin 2)) _ (fetch_b A _) _ (numWord_toNat (⟨9, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_9_1, H4, %hfn_9_1⟩, ⟨%fo_36_1, H6, %hfo_36_1⟩⟩
  subst hfn_9_1
  -- token 37, row 0: numeric column 10 times its weight plus its bias
  sl_exec_parts (disch := exact ⟨chk_num (⟨10, by decide⟩ : Fin 13) (⟨0, by decide⟩ : Fin 2) L, chk_num (⟨10, by decide⟩ : Fin 13) (⟨0, by decide⟩ : Fin 2) L⟩)
  try unfold SparseCore.vectorLoadIdx
  sl_exec_parts (disch := exact ⟨chk_num (⟨10, by decide⟩ : Fin 13) (⟨0, by decide⟩ : Fin 2) L, chk_num (⟨10, by decide⟩ : Fin 13) (⟨0, by decide⟩ : Fin 2) L⟩)
  sl_for (invNum35 (F := F) A (⟨10, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨10, by decide⟩ : Fin 13) (rowOf L (⟨0, by decide⟩ : Fin 2)) _ _ rfl _ _ (numW_apply A (⟨10, by decide⟩ : Fin 13) (rowOf L (⟨0, by decide⟩ : Fin 2)) _ (fetch_w A _) _ (numWord_toNat (⟨10, by decide⟩ : Fin 13) (⟨0, by decide⟩ : Fin 2) L) _) (numB_apply A (⟨10, by decide⟩ : Fin 13) (rowOf L (⟨0, by decide⟩ : Fin 2)) _ (fetch_b A _) _ (numWord_toNat (⟨10, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨10, by decide⟩ : Fin 13) _ _ rfl)
    iexists _; isplitl [H5]; · iexact H5
    ipureintro; intro y hy; exact absurd hy (by omega)
  iintro %_ HI
  unfold invNum35
  icases HI with ⟨⟨%fn_10_0, H3, %hfn_10_0⟩, ⟨%fo_37_0, H5, %hfo_37_0⟩⟩
  subst hfn_10_0
  -- token 37, row 1: numeric column 10 times its weight plus its bias
  sl_exec_parts (disch := exact ⟨chk_num (⟨10, by decide⟩ : Fin 13) (⟨1, by decide⟩ : Fin 2) L, chk_num (⟨10, by decide⟩ : Fin 13) (⟨1, by decide⟩ : Fin 2) L⟩)
  try unfold SparseCore.vectorLoadIdx
  sl_exec_parts (disch := exact ⟨chk_num (⟨10, by decide⟩ : Fin 13) (⟨1, by decide⟩ : Fin 2) L, chk_num (⟨10, by decide⟩ : Fin 13) (⟨1, by decide⟩ : Fin 2) L⟩)
  sl_for (invNum36 (F := F) A (⟨10, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨10, by decide⟩ : Fin 13) (rowOf L (⟨1, by decide⟩ : Fin 2)) _ _ rfl _ _ (numW_apply A (⟨10, by decide⟩ : Fin 13) (rowOf L (⟨1, by decide⟩ : Fin 2)) _ (fetch_w A _) _ (numWord_toNat (⟨10, by decide⟩ : Fin 13) (⟨1, by decide⟩ : Fin 2) L) _) (numB_apply A (⟨10, by decide⟩ : Fin 13) (rowOf L (⟨1, by decide⟩ : Fin 2)) _ (fetch_b A _) _ (numWord_toNat (⟨10, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_10_1, H3, %hfn_10_1⟩, ⟨%fo_37_1, H6, %hfo_37_1⟩⟩
  subst hfn_10_1
  -- token 38, row 0: numeric column 11 times its weight plus its bias
  sl_exec_parts (disch := exact ⟨chk_num (⟨11, by decide⟩ : Fin 13) (⟨0, by decide⟩ : Fin 2) L, chk_num (⟨11, by decide⟩ : Fin 13) (⟨0, by decide⟩ : Fin 2) L⟩)
  try unfold SparseCore.vectorLoadIdx
  sl_exec_parts (disch := exact ⟨chk_num (⟨11, by decide⟩ : Fin 13) (⟨0, by decide⟩ : Fin 2) L, chk_num (⟨11, by decide⟩ : Fin 13) (⟨0, by decide⟩ : Fin 2) L⟩)
  sl_for (invNum45 (F := F) A (⟨11, by decide⟩ : Fin 13) (⟨0, by decide⟩ : Fin 2) d L) $$ [H4 H5]
  case region =>
    intro k _
    unfold invNum45
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_4 A (⟨11, by decide⟩ : Fin 13) (rowOf L (⟨0, by decide⟩ : Fin 2)) _ _ rfl _ _ (numW_apply A (⟨11, by decide⟩ : Fin 13) (rowOf L (⟨0, by decide⟩ : Fin 2)) _ (fetch_w A _) _ (numWord_toNat (⟨11, by decide⟩ : Fin 13) (⟨0, by decide⟩ : Fin 2) L) _) (numB_apply A (⟨11, by decide⟩ : Fin 13) (rowOf L (⟨0, by decide⟩ : Fin 2)) _ (fetch_b A _) _ (numWord_toNat (⟨11, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum45
    isplitl [H4]
    · iexists _; isplitl [H4]; · iexact H4
      ipureintro; exact (fetch_whole cc0_scratch4 _ _).trans (numSrc_read A (⟨11, by decide⟩ : Fin 13) _ _ rfl)
    iexists _; isplitl [H5]; · iexact H5
    ipureintro; intro y hy; exact absurd hy (by omega)
  iintro %_ HI
  unfold invNum45
  icases HI with ⟨⟨%fn_11_0, H4, %hfn_11_0⟩, ⟨%fo_38_0, H5, %hfo_38_0⟩⟩
  subst hfn_11_0
  -- token 38, row 1: numeric column 11 times its weight plus its bias
  sl_exec_parts (disch := exact ⟨chk_num (⟨11, by decide⟩ : Fin 13) (⟨1, by decide⟩ : Fin 2) L, chk_num (⟨11, by decide⟩ : Fin 13) (⟨1, by decide⟩ : Fin 2) L⟩)
  try unfold SparseCore.vectorLoadIdx
  sl_exec_parts (disch := exact ⟨chk_num (⟨11, by decide⟩ : Fin 13) (⟨1, by decide⟩ : Fin 2) L, chk_num (⟨11, by decide⟩ : Fin 13) (⟨1, by decide⟩ : Fin 2) L⟩)
  sl_for (invNum46 (F := F) A (⟨11, by decide⟩ : Fin 13) (⟨1, by decide⟩ : Fin 2) d L) $$ [H4 H6]
  case region =>
    intro k _
    unfold invNum46
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_4 A (⟨11, by decide⟩ : Fin 13) (rowOf L (⟨1, by decide⟩ : Fin 2)) _ _ rfl _ _ (numW_apply A (⟨11, by decide⟩ : Fin 13) (rowOf L (⟨1, by decide⟩ : Fin 2)) _ (fetch_w A _) _ (numWord_toNat (⟨11, by decide⟩ : Fin 13) (⟨1, by decide⟩ : Fin 2) L) _) (numB_apply A (⟨11, by decide⟩ : Fin 13) (rowOf L (⟨1, by decide⟩ : Fin 2)) _ (fetch_b A _) _ (numWord_toNat (⟨11, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum46
    isplitl [H4]
    · iexists _; isplitl [H4]; · iexact H4
      ipureintro; exact rfl
    iexists _; isplitl [H6]; · iexact H6
    ipureintro; intro y hy; exact absurd hy (by omega)
  iintro %_ HI
  unfold invNum46
  icases HI with ⟨⟨%fn_11_1, H4, %hfn_11_1⟩, ⟨%fo_38_1, H6, %hfo_38_1⟩⟩
  subst hfn_11_1
  -- token 39, row 0: numeric column 12 times its weight plus its bias
  sl_exec_parts (disch := exact ⟨chk_num (⟨12, by decide⟩ : Fin 13) (⟨0, by decide⟩ : Fin 2) L, chk_num (⟨12, by decide⟩ : Fin 13) (⟨0, by decide⟩ : Fin 2) L⟩)
  try unfold SparseCore.vectorLoadIdx
  sl_exec_parts (disch := exact ⟨chk_num (⟨12, by decide⟩ : Fin 13) (⟨0, by decide⟩ : Fin 2) L, chk_num (⟨12, by decide⟩ : Fin 13) (⟨0, by decide⟩ : Fin 2) L⟩)
  sl_for (invNum35 (F := F) A (⟨12, by decide⟩ : Fin 13) (⟨0, by decide⟩ : Fin 2) d L) $$ [H3 H5]
  case region =>
    intro k _
    unfold invNum35
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_5_3 A (⟨12, by decide⟩ : Fin 13) (rowOf L (⟨0, by decide⟩ : Fin 2)) _ _ rfl _ _ (numW_apply A (⟨12, by decide⟩ : Fin 13) (rowOf L (⟨0, by decide⟩ : Fin 2)) _ (fetch_w A _) _ (numWord_toNat (⟨12, by decide⟩ : Fin 13) (⟨0, by decide⟩ : Fin 2) L) _) (numB_apply A (⟨12, by decide⟩ : Fin 13) (rowOf L (⟨0, by decide⟩ : Fin 2)) _ (fetch_b A _) _ (numWord_toNat (⟨12, by decide⟩ : Fin 13) (⟨0, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum35
    isplitl [H3]
    · iexists _; isplitl [H3]; · iexact H3
      ipureintro; exact (fetch_whole cc0_scratch3 _ _).trans (numSrc_read A (⟨12, by decide⟩ : Fin 13) _ _ rfl)
    iexists _; isplitl [H5]; · iexact H5
    ipureintro; intro y hy; exact absurd hy (by omega)
  iintro %_ HI
  unfold invNum35
  icases HI with ⟨⟨%fn_12_0, H3, %hfn_12_0⟩, ⟨%fo_39_0, H5, %hfo_39_0⟩⟩
  subst hfn_12_0
  -- token 39, row 1: numeric column 12 times its weight plus its bias
  sl_exec_parts (disch := exact ⟨chk_num (⟨12, by decide⟩ : Fin 13) (⟨1, by decide⟩ : Fin 2) L, chk_num (⟨12, by decide⟩ : Fin 13) (⟨1, by decide⟩ : Fin 2) L⟩)
  try unfold SparseCore.vectorLoadIdx
  sl_exec_parts (disch := exact ⟨chk_num (⟨12, by decide⟩ : Fin 13) (⟨1, by decide⟩ : Fin 2) L, chk_num (⟨12, by decide⟩ : Fin 13) (⟨1, by decide⟩ : Fin 2) L⟩)
  sl_for (invNum36 (F := F) A (⟨12, by decide⟩ : Fin 13) (⟨1, by decide⟩ : Fin 2) d L) $$ [H3 H6]
  case region =>
    intro k _
    unfold invNum36
    iintro ⟨⟨%fn, Hn, %hfn⟩, ⟨%f, Ho, %hf⟩⟩
    subst hfn
    sl_exec
    sl_step
    isplitl [Hn]
    · iexists _; isplitl [Hn]; · iexact Hn
      ipureintro; rfl
    iexists _; isplitl [Ho]; · iexact Ho
    ipureintro
    exact stepNum_6_3 A (⟨12, by decide⟩ : Fin 13) (rowOf L (⟨1, by decide⟩ : Fin 2)) _ _ rfl _ _ (numW_apply A (⟨12, by decide⟩ : Fin 13) (rowOf L (⟨1, by decide⟩ : Fin 2)) _ (fetch_w A _) _ (numWord_toNat (⟨12, by decide⟩ : Fin 13) (⟨1, by decide⟩ : Fin 2) L) _) (numB_apply A (⟨12, by decide⟩ : Fin 13) (rowOf L (⟨1, by decide⟩ : Fin 2)) _ (fetch_b A _) _ (numWord_toNat (⟨12, by decide⟩ : Fin 13) (⟨1, by decide⟩ : Fin 2) L) _) k.val _ _ _ _ _ _ _ _ _ _ _ _ ClosedOff.eq ClosedOff.eq ClosedOff.eq ClosedOff.eq rfl rfl rfl rfl _ _ _ _ _ _ _ _ ClosedOff.eq ClosedOff.eq ClosedOff.eq ClosedOff.eq _ _ _ _ hf
  · unfold invNum36
    isplitl [H3]
    · iexists _; isplitl [H3]; · iexact H3
      ipureintro; exact rfl
    iexists _; isplitl [H6]; · iexact H6
    ipureintro; intro y hy; exact absurd hy (by omega)
  iintro %_ HI
  unfold invNum36
  icases HI with ⟨⟨%fn_12_1, H3, %hfn_12_1⟩, ⟨%fo_39_1, H6, %hfo_39_1⟩⟩
  subst hfn_12_1
  -- the last two copies out, their waits, the return
  sl_exec_parts
  sl_step
  unfold rowsDone
  isplitl [HO]
  · iexists _; isplitr
    swap
    · iexact HO
    · ipureintro; repeat (first | exact OkW.refl _ | apply OkW.insert)
  isplitl [Hcat]; · iexact Hcat
  isplitl [Hnum]; · iexact Hnum
  isplitl [Hemb]; · iexact Hemb
  isplitl [Hw]; · iexact Hw
  isplitl [Hb]; · iexact Hb
  isplitl [Hcls]; · iexact Hcls
  isplitl [Hr0_0 Hr0_1 Hr1_0 Hr1_1 Hr2_0 Hr2_1 Hr3_0 Hr3_1 Hr4_0 Hr4_1 Hr5_0 Hr5_1 Hr6_0 Hr6_1 Hr7_0 Hr7_1 Hr8_0 Hr8_1 Hr9_0 Hr9_1 Hr10_0 Hr10_1 Hr11_0 Hr11_1 Hr12_0 Hr12_1 Hr13_0 Hr13_1 Hr14_0 Hr14_1 Hr15_0 Hr15_1 Hr16_0 Hr16_1 Hr17_0 Hr17_1 Hr18_0 Hr18_1 Hr19_0 Hr19_1 Hr20_0 Hr20_1 Hr21_0 Hr21_1 Hr22_0 Hr22_1 Hr23_0 Hr23_1 Hr24_0 Hr24_1 Hr25_0 Hr25_1 Hr26_0 Hr26_1 Hr27_0 Hr27_1 Hr28_0 Hr28_1 Hr29_0 Hr29_1 Hr30_0 Hr30_1 Hr31_0 Hr31_1 Hr32_0 Hr32_1 Hr33_0 Hr33_1 Hr34_0 Hr34_1 Hr35_0 Hr35_1 Hr36_0 Hr36_1 Hr37_0 Hr37_1 Hr38_0 Hr38_1 Hr39_0 Hr39_1]
  · isplitl [Hr0_0]
    · iexists _; isplitr
      swap
      · iexact Hr0_0
      · ipureintro
        exact row_done5 _ _ (⟨0, by decide⟩ : Fin 40) (rowOf L (⟨0, by decide⟩ : Fin 2)) (dst_hoff_0_0 L) _ fo_0_0 (rowCls A (rowOf L (⟨0, by decide⟩ : Fin 2))) (GT A) (fun y => hfo_0_0 y (y 1).isLt) (fun n => GT_cls A (rowOf L (⟨0, by decide⟩ : Fin 2)) n)
    isplitl [Hr0_1]
    · iexists _; isplitr
      swap
      · iexact Hr0_1
      · ipureintro
        exact row_done6 _ _ (⟨0, by decide⟩ : Fin 40) (rowOf L (⟨1, by decide⟩ : Fin 2)) (dst_hoff_0_1 L) _ fo_0_1 (rowCls A (rowOf L (⟨1, by decide⟩ : Fin 2))) (GT A) (fun y => hfo_0_1 y (y 1).isLt) (fun n => GT_cls A (rowOf L (⟨1, by decide⟩ : Fin 2)) n)
    isplitl [Hr1_0]
    · iexists _; isplitr
      swap
      · iexact Hr1_0
      · ipureintro
        exact row_done5 _ _ (⟨1, by decide⟩ : Fin 40) (rowOf L (⟨0, by decide⟩ : Fin 2)) (dst_hoff_1_0 L) _ fo_1_0 (rowCat A (⟨0, by decide⟩ : Fin 26) (rowOf L (⟨0, by decide⟩ : Fin 2))) (GT A) (fun y => hfo_1_0 y (y 1).isLt) (fun n => GT_cat A (rowOf L (⟨0, by decide⟩ : Fin 2)) n (⟨0, by decide⟩ : Fin 26) (by decide))
    isplitl [Hr1_1]
    · iexists _; isplitr
      swap
      · iexact Hr1_1
      · ipureintro
        exact row_done6 _ _ (⟨1, by decide⟩ : Fin 40) (rowOf L (⟨1, by decide⟩ : Fin 2)) (dst_hoff_1_1 L) _ fo_1_1 (rowCat A (⟨0, by decide⟩ : Fin 26) (rowOf L (⟨1, by decide⟩ : Fin 2))) (GT A) (fun y => hfo_1_1 y (y 1).isLt) (fun n => GT_cat A (rowOf L (⟨1, by decide⟩ : Fin 2)) n (⟨0, by decide⟩ : Fin 26) (by decide))
    isplitl [Hr2_0]
    · iexists _; isplitr
      swap
      · iexact Hr2_0
      · ipureintro
        exact row_done5 _ _ (⟨2, by decide⟩ : Fin 40) (rowOf L (⟨0, by decide⟩ : Fin 2)) (dst_hoff_2_0 L) _ fo_2_0 (rowCat A (⟨1, by decide⟩ : Fin 26) (rowOf L (⟨0, by decide⟩ : Fin 2))) (GT A) (fun y => hfo_2_0 y (y 1).isLt) (fun n => GT_cat A (rowOf L (⟨0, by decide⟩ : Fin 2)) n (⟨1, by decide⟩ : Fin 26) (by decide))
    isplitl [Hr2_1]
    · iexists _; isplitr
      swap
      · iexact Hr2_1
      · ipureintro
        exact row_done6 _ _ (⟨2, by decide⟩ : Fin 40) (rowOf L (⟨1, by decide⟩ : Fin 2)) (dst_hoff_2_1 L) _ fo_2_1 (rowCat A (⟨1, by decide⟩ : Fin 26) (rowOf L (⟨1, by decide⟩ : Fin 2))) (GT A) (fun y => hfo_2_1 y (y 1).isLt) (fun n => GT_cat A (rowOf L (⟨1, by decide⟩ : Fin 2)) n (⟨1, by decide⟩ : Fin 26) (by decide))
    isplitl [Hr3_0]
    · iexists _; isplitr
      swap
      · iexact Hr3_0
      · ipureintro
        exact row_done5 _ _ (⟨3, by decide⟩ : Fin 40) (rowOf L (⟨0, by decide⟩ : Fin 2)) (dst_hoff_3_0 L) _ fo_3_0 (rowCat A (⟨2, by decide⟩ : Fin 26) (rowOf L (⟨0, by decide⟩ : Fin 2))) (GT A) (fun y => hfo_3_0 y (y 1).isLt) (fun n => GT_cat A (rowOf L (⟨0, by decide⟩ : Fin 2)) n (⟨2, by decide⟩ : Fin 26) (by decide))
    isplitl [Hr3_1]
    · iexists _; isplitr
      swap
      · iexact Hr3_1
      · ipureintro
        exact row_done6 _ _ (⟨3, by decide⟩ : Fin 40) (rowOf L (⟨1, by decide⟩ : Fin 2)) (dst_hoff_3_1 L) _ fo_3_1 (rowCat A (⟨2, by decide⟩ : Fin 26) (rowOf L (⟨1, by decide⟩ : Fin 2))) (GT A) (fun y => hfo_3_1 y (y 1).isLt) (fun n => GT_cat A (rowOf L (⟨1, by decide⟩ : Fin 2)) n (⟨2, by decide⟩ : Fin 26) (by decide))
    isplitl [Hr4_0]
    · iexists _; isplitr
      swap
      · iexact Hr4_0
      · ipureintro
        exact row_done5 _ _ (⟨4, by decide⟩ : Fin 40) (rowOf L (⟨0, by decide⟩ : Fin 2)) (dst_hoff_4_0 L) _ fo_4_0 (rowCat A (⟨3, by decide⟩ : Fin 26) (rowOf L (⟨0, by decide⟩ : Fin 2))) (GT A) (fun y => hfo_4_0 y (y 1).isLt) (fun n => GT_cat A (rowOf L (⟨0, by decide⟩ : Fin 2)) n (⟨3, by decide⟩ : Fin 26) (by decide))
    isplitl [Hr4_1]
    · iexists _; isplitr
      swap
      · iexact Hr4_1
      · ipureintro
        exact row_done6 _ _ (⟨4, by decide⟩ : Fin 40) (rowOf L (⟨1, by decide⟩ : Fin 2)) (dst_hoff_4_1 L) _ fo_4_1 (rowCat A (⟨3, by decide⟩ : Fin 26) (rowOf L (⟨1, by decide⟩ : Fin 2))) (GT A) (fun y => hfo_4_1 y (y 1).isLt) (fun n => GT_cat A (rowOf L (⟨1, by decide⟩ : Fin 2)) n (⟨3, by decide⟩ : Fin 26) (by decide))
    isplitl [Hr5_0]
    · iexists _; isplitr
      swap
      · iexact Hr5_0
      · ipureintro
        exact row_done5 _ _ (⟨5, by decide⟩ : Fin 40) (rowOf L (⟨0, by decide⟩ : Fin 2)) (dst_hoff_5_0 L) _ fo_5_0 (rowCat A (⟨4, by decide⟩ : Fin 26) (rowOf L (⟨0, by decide⟩ : Fin 2))) (GT A) (fun y => hfo_5_0 y (y 1).isLt) (fun n => GT_cat A (rowOf L (⟨0, by decide⟩ : Fin 2)) n (⟨4, by decide⟩ : Fin 26) (by decide))
    isplitl [Hr5_1]
    · iexists _; isplitr
      swap
      · iexact Hr5_1
      · ipureintro
        exact row_done6 _ _ (⟨5, by decide⟩ : Fin 40) (rowOf L (⟨1, by decide⟩ : Fin 2)) (dst_hoff_5_1 L) _ fo_5_1 (rowCat A (⟨4, by decide⟩ : Fin 26) (rowOf L (⟨1, by decide⟩ : Fin 2))) (GT A) (fun y => hfo_5_1 y (y 1).isLt) (fun n => GT_cat A (rowOf L (⟨1, by decide⟩ : Fin 2)) n (⟨4, by decide⟩ : Fin 26) (by decide))
    isplitl [Hr6_0]
    · iexists _; isplitr
      swap
      · iexact Hr6_0
      · ipureintro
        exact row_done5 _ _ (⟨6, by decide⟩ : Fin 40) (rowOf L (⟨0, by decide⟩ : Fin 2)) (dst_hoff_6_0 L) _ fo_6_0 (rowCat A (⟨5, by decide⟩ : Fin 26) (rowOf L (⟨0, by decide⟩ : Fin 2))) (GT A) (fun y => hfo_6_0 y (y 1).isLt) (fun n => GT_cat A (rowOf L (⟨0, by decide⟩ : Fin 2)) n (⟨5, by decide⟩ : Fin 26) (by decide))
    isplitl [Hr6_1]
    · iexists _; isplitr
      swap
      · iexact Hr6_1
      · ipureintro
        exact row_done6 _ _ (⟨6, by decide⟩ : Fin 40) (rowOf L (⟨1, by decide⟩ : Fin 2)) (dst_hoff_6_1 L) _ fo_6_1 (rowCat A (⟨5, by decide⟩ : Fin 26) (rowOf L (⟨1, by decide⟩ : Fin 2))) (GT A) (fun y => hfo_6_1 y (y 1).isLt) (fun n => GT_cat A (rowOf L (⟨1, by decide⟩ : Fin 2)) n (⟨5, by decide⟩ : Fin 26) (by decide))
    isplitl [Hr7_0]
    · iexists _; isplitr
      swap
      · iexact Hr7_0
      · ipureintro
        exact row_done5 _ _ (⟨7, by decide⟩ : Fin 40) (rowOf L (⟨0, by decide⟩ : Fin 2)) (dst_hoff_7_0 L) _ fo_7_0 (rowCat A (⟨6, by decide⟩ : Fin 26) (rowOf L (⟨0, by decide⟩ : Fin 2))) (GT A) (fun y => hfo_7_0 y (y 1).isLt) (fun n => GT_cat A (rowOf L (⟨0, by decide⟩ : Fin 2)) n (⟨6, by decide⟩ : Fin 26) (by decide))
    isplitl [Hr7_1]
    · iexists _; isplitr
      swap
      · iexact Hr7_1
      · ipureintro
        exact row_done6 _ _ (⟨7, by decide⟩ : Fin 40) (rowOf L (⟨1, by decide⟩ : Fin 2)) (dst_hoff_7_1 L) _ fo_7_1 (rowCat A (⟨6, by decide⟩ : Fin 26) (rowOf L (⟨1, by decide⟩ : Fin 2))) (GT A) (fun y => hfo_7_1 y (y 1).isLt) (fun n => GT_cat A (rowOf L (⟨1, by decide⟩ : Fin 2)) n (⟨6, by decide⟩ : Fin 26) (by decide))
    isplitl [Hr8_0]
    · iexists _; isplitr
      swap
      · iexact Hr8_0
      · ipureintro
        exact row_done5 _ _ (⟨8, by decide⟩ : Fin 40) (rowOf L (⟨0, by decide⟩ : Fin 2)) (dst_hoff_8_0 L) _ fo_8_0 (rowCat A (⟨7, by decide⟩ : Fin 26) (rowOf L (⟨0, by decide⟩ : Fin 2))) (GT A) (fun y => hfo_8_0 y (y 1).isLt) (fun n => GT_cat A (rowOf L (⟨0, by decide⟩ : Fin 2)) n (⟨7, by decide⟩ : Fin 26) (by decide))
    isplitl [Hr8_1]
    · iexists _; isplitr
      swap
      · iexact Hr8_1
      · ipureintro
        exact row_done6 _ _ (⟨8, by decide⟩ : Fin 40) (rowOf L (⟨1, by decide⟩ : Fin 2)) (dst_hoff_8_1 L) _ fo_8_1 (rowCat A (⟨7, by decide⟩ : Fin 26) (rowOf L (⟨1, by decide⟩ : Fin 2))) (GT A) (fun y => hfo_8_1 y (y 1).isLt) (fun n => GT_cat A (rowOf L (⟨1, by decide⟩ : Fin 2)) n (⟨7, by decide⟩ : Fin 26) (by decide))
    isplitl [Hr9_0]
    · iexists _; isplitr
      swap
      · iexact Hr9_0
      · ipureintro
        exact row_done5 _ _ (⟨9, by decide⟩ : Fin 40) (rowOf L (⟨0, by decide⟩ : Fin 2)) (dst_hoff_9_0 L) _ fo_9_0 (rowCat A (⟨8, by decide⟩ : Fin 26) (rowOf L (⟨0, by decide⟩ : Fin 2))) (GT A) (fun y => hfo_9_0 y (y 1).isLt) (fun n => GT_cat A (rowOf L (⟨0, by decide⟩ : Fin 2)) n (⟨8, by decide⟩ : Fin 26) (by decide))
    isplitl [Hr9_1]
    · iexists _; isplitr
      swap
      · iexact Hr9_1
      · ipureintro
        exact row_done6 _ _ (⟨9, by decide⟩ : Fin 40) (rowOf L (⟨1, by decide⟩ : Fin 2)) (dst_hoff_9_1 L) _ fo_9_1 (rowCat A (⟨8, by decide⟩ : Fin 26) (rowOf L (⟨1, by decide⟩ : Fin 2))) (GT A) (fun y => hfo_9_1 y (y 1).isLt) (fun n => GT_cat A (rowOf L (⟨1, by decide⟩ : Fin 2)) n (⟨8, by decide⟩ : Fin 26) (by decide))
    isplitl [Hr10_0]
    · iexists _; isplitr
      swap
      · iexact Hr10_0
      · ipureintro
        exact row_done5 _ _ (⟨10, by decide⟩ : Fin 40) (rowOf L (⟨0, by decide⟩ : Fin 2)) (dst_hoff_10_0 L) _ fo_10_0 (rowCat A (⟨9, by decide⟩ : Fin 26) (rowOf L (⟨0, by decide⟩ : Fin 2))) (GT A) (fun y => hfo_10_0 y (y 1).isLt) (fun n => GT_cat A (rowOf L (⟨0, by decide⟩ : Fin 2)) n (⟨9, by decide⟩ : Fin 26) (by decide))
    isplitl [Hr10_1]
    · iexists _; isplitr
      swap
      · iexact Hr10_1
      · ipureintro
        exact row_done6 _ _ (⟨10, by decide⟩ : Fin 40) (rowOf L (⟨1, by decide⟩ : Fin 2)) (dst_hoff_10_1 L) _ fo_10_1 (rowCat A (⟨9, by decide⟩ : Fin 26) (rowOf L (⟨1, by decide⟩ : Fin 2))) (GT A) (fun y => hfo_10_1 y (y 1).isLt) (fun n => GT_cat A (rowOf L (⟨1, by decide⟩ : Fin 2)) n (⟨9, by decide⟩ : Fin 26) (by decide))
    isplitl [Hr11_0]
    · iexists _; isplitr
      swap
      · iexact Hr11_0
      · ipureintro
        exact row_done5 _ _ (⟨11, by decide⟩ : Fin 40) (rowOf L (⟨0, by decide⟩ : Fin 2)) (dst_hoff_11_0 L) _ fo_11_0 (rowCat A (⟨10, by decide⟩ : Fin 26) (rowOf L (⟨0, by decide⟩ : Fin 2))) (GT A) (fun y => hfo_11_0 y (y 1).isLt) (fun n => GT_cat A (rowOf L (⟨0, by decide⟩ : Fin 2)) n (⟨10, by decide⟩ : Fin 26) (by decide))
    isplitl [Hr11_1]
    · iexists _; isplitr
      swap
      · iexact Hr11_1
      · ipureintro
        exact row_done6 _ _ (⟨11, by decide⟩ : Fin 40) (rowOf L (⟨1, by decide⟩ : Fin 2)) (dst_hoff_11_1 L) _ fo_11_1 (rowCat A (⟨10, by decide⟩ : Fin 26) (rowOf L (⟨1, by decide⟩ : Fin 2))) (GT A) (fun y => hfo_11_1 y (y 1).isLt) (fun n => GT_cat A (rowOf L (⟨1, by decide⟩ : Fin 2)) n (⟨10, by decide⟩ : Fin 26) (by decide))
    isplitl [Hr12_0]
    · iexists _; isplitr
      swap
      · iexact Hr12_0
      · ipureintro
        exact row_done5 _ _ (⟨12, by decide⟩ : Fin 40) (rowOf L (⟨0, by decide⟩ : Fin 2)) (dst_hoff_12_0 L) _ fo_12_0 (rowCat A (⟨11, by decide⟩ : Fin 26) (rowOf L (⟨0, by decide⟩ : Fin 2))) (GT A) (fun y => hfo_12_0 y (y 1).isLt) (fun n => GT_cat A (rowOf L (⟨0, by decide⟩ : Fin 2)) n (⟨11, by decide⟩ : Fin 26) (by decide))
    isplitl [Hr12_1]
    · iexists _; isplitr
      swap
      · iexact Hr12_1
      · ipureintro
        exact row_done6 _ _ (⟨12, by decide⟩ : Fin 40) (rowOf L (⟨1, by decide⟩ : Fin 2)) (dst_hoff_12_1 L) _ fo_12_1 (rowCat A (⟨11, by decide⟩ : Fin 26) (rowOf L (⟨1, by decide⟩ : Fin 2))) (GT A) (fun y => hfo_12_1 y (y 1).isLt) (fun n => GT_cat A (rowOf L (⟨1, by decide⟩ : Fin 2)) n (⟨11, by decide⟩ : Fin 26) (by decide))
    isplitl [Hr13_0]
    · iexists _; isplitr
      swap
      · iexact Hr13_0
      · ipureintro
        exact row_done5 _ _ (⟨13, by decide⟩ : Fin 40) (rowOf L (⟨0, by decide⟩ : Fin 2)) (dst_hoff_13_0 L) _ fo_13_0 (rowCat A (⟨12, by decide⟩ : Fin 26) (rowOf L (⟨0, by decide⟩ : Fin 2))) (GT A) (fun y => hfo_13_0 y (y 1).isLt) (fun n => GT_cat A (rowOf L (⟨0, by decide⟩ : Fin 2)) n (⟨12, by decide⟩ : Fin 26) (by decide))
    isplitl [Hr13_1]
    · iexists _; isplitr
      swap
      · iexact Hr13_1
      · ipureintro
        exact row_done6 _ _ (⟨13, by decide⟩ : Fin 40) (rowOf L (⟨1, by decide⟩ : Fin 2)) (dst_hoff_13_1 L) _ fo_13_1 (rowCat A (⟨12, by decide⟩ : Fin 26) (rowOf L (⟨1, by decide⟩ : Fin 2))) (GT A) (fun y => hfo_13_1 y (y 1).isLt) (fun n => GT_cat A (rowOf L (⟨1, by decide⟩ : Fin 2)) n (⟨12, by decide⟩ : Fin 26) (by decide))
    isplitl [Hr14_0]
    · iexists _; isplitr
      swap
      · iexact Hr14_0
      · ipureintro
        exact row_done5 _ _ (⟨14, by decide⟩ : Fin 40) (rowOf L (⟨0, by decide⟩ : Fin 2)) (dst_hoff_14_0 L) _ fo_14_0 (rowCat A (⟨13, by decide⟩ : Fin 26) (rowOf L (⟨0, by decide⟩ : Fin 2))) (GT A) (fun y => hfo_14_0 y (y 1).isLt) (fun n => GT_cat A (rowOf L (⟨0, by decide⟩ : Fin 2)) n (⟨13, by decide⟩ : Fin 26) (by decide))
    isplitl [Hr14_1]
    · iexists _; isplitr
      swap
      · iexact Hr14_1
      · ipureintro
        exact row_done6 _ _ (⟨14, by decide⟩ : Fin 40) (rowOf L (⟨1, by decide⟩ : Fin 2)) (dst_hoff_14_1 L) _ fo_14_1 (rowCat A (⟨13, by decide⟩ : Fin 26) (rowOf L (⟨1, by decide⟩ : Fin 2))) (GT A) (fun y => hfo_14_1 y (y 1).isLt) (fun n => GT_cat A (rowOf L (⟨1, by decide⟩ : Fin 2)) n (⟨13, by decide⟩ : Fin 26) (by decide))
    isplitl [Hr15_0]
    · iexists _; isplitr
      swap
      · iexact Hr15_0
      · ipureintro
        exact row_done5 _ _ (⟨15, by decide⟩ : Fin 40) (rowOf L (⟨0, by decide⟩ : Fin 2)) (dst_hoff_15_0 L) _ fo_15_0 (rowCat A (⟨14, by decide⟩ : Fin 26) (rowOf L (⟨0, by decide⟩ : Fin 2))) (GT A) (fun y => hfo_15_0 y (y 1).isLt) (fun n => GT_cat A (rowOf L (⟨0, by decide⟩ : Fin 2)) n (⟨14, by decide⟩ : Fin 26) (by decide))
    isplitl [Hr15_1]
    · iexists _; isplitr
      swap
      · iexact Hr15_1
      · ipureintro
        exact row_done6 _ _ (⟨15, by decide⟩ : Fin 40) (rowOf L (⟨1, by decide⟩ : Fin 2)) (dst_hoff_15_1 L) _ fo_15_1 (rowCat A (⟨14, by decide⟩ : Fin 26) (rowOf L (⟨1, by decide⟩ : Fin 2))) (GT A) (fun y => hfo_15_1 y (y 1).isLt) (fun n => GT_cat A (rowOf L (⟨1, by decide⟩ : Fin 2)) n (⟨14, by decide⟩ : Fin 26) (by decide))
    isplitl [Hr16_0]
    · iexists _; isplitr
      swap
      · iexact Hr16_0
      · ipureintro
        exact row_done5 _ _ (⟨16, by decide⟩ : Fin 40) (rowOf L (⟨0, by decide⟩ : Fin 2)) (dst_hoff_16_0 L) _ fo_16_0 (rowCat A (⟨15, by decide⟩ : Fin 26) (rowOf L (⟨0, by decide⟩ : Fin 2))) (GT A) (fun y => hfo_16_0 y (y 1).isLt) (fun n => GT_cat A (rowOf L (⟨0, by decide⟩ : Fin 2)) n (⟨15, by decide⟩ : Fin 26) (by decide))
    isplitl [Hr16_1]
    · iexists _; isplitr
      swap
      · iexact Hr16_1
      · ipureintro
        exact row_done6 _ _ (⟨16, by decide⟩ : Fin 40) (rowOf L (⟨1, by decide⟩ : Fin 2)) (dst_hoff_16_1 L) _ fo_16_1 (rowCat A (⟨15, by decide⟩ : Fin 26) (rowOf L (⟨1, by decide⟩ : Fin 2))) (GT A) (fun y => hfo_16_1 y (y 1).isLt) (fun n => GT_cat A (rowOf L (⟨1, by decide⟩ : Fin 2)) n (⟨15, by decide⟩ : Fin 26) (by decide))
    isplitl [Hr17_0]
    · iexists _; isplitr
      swap
      · iexact Hr17_0
      · ipureintro
        exact row_done5 _ _ (⟨17, by decide⟩ : Fin 40) (rowOf L (⟨0, by decide⟩ : Fin 2)) (dst_hoff_17_0 L) _ fo_17_0 (rowCat A (⟨16, by decide⟩ : Fin 26) (rowOf L (⟨0, by decide⟩ : Fin 2))) (GT A) (fun y => hfo_17_0 y (y 1).isLt) (fun n => GT_cat A (rowOf L (⟨0, by decide⟩ : Fin 2)) n (⟨16, by decide⟩ : Fin 26) (by decide))
    isplitl [Hr17_1]
    · iexists _; isplitr
      swap
      · iexact Hr17_1
      · ipureintro
        exact row_done6 _ _ (⟨17, by decide⟩ : Fin 40) (rowOf L (⟨1, by decide⟩ : Fin 2)) (dst_hoff_17_1 L) _ fo_17_1 (rowCat A (⟨16, by decide⟩ : Fin 26) (rowOf L (⟨1, by decide⟩ : Fin 2))) (GT A) (fun y => hfo_17_1 y (y 1).isLt) (fun n => GT_cat A (rowOf L (⟨1, by decide⟩ : Fin 2)) n (⟨16, by decide⟩ : Fin 26) (by decide))
    isplitl [Hr18_0]
    · iexists _; isplitr
      swap
      · iexact Hr18_0
      · ipureintro
        exact row_done5 _ _ (⟨18, by decide⟩ : Fin 40) (rowOf L (⟨0, by decide⟩ : Fin 2)) (dst_hoff_18_0 L) _ fo_18_0 (rowCat A (⟨17, by decide⟩ : Fin 26) (rowOf L (⟨0, by decide⟩ : Fin 2))) (GT A) (fun y => hfo_18_0 y (y 1).isLt) (fun n => GT_cat A (rowOf L (⟨0, by decide⟩ : Fin 2)) n (⟨17, by decide⟩ : Fin 26) (by decide))
    isplitl [Hr18_1]
    · iexists _; isplitr
      swap
      · iexact Hr18_1
      · ipureintro
        exact row_done6 _ _ (⟨18, by decide⟩ : Fin 40) (rowOf L (⟨1, by decide⟩ : Fin 2)) (dst_hoff_18_1 L) _ fo_18_1 (rowCat A (⟨17, by decide⟩ : Fin 26) (rowOf L (⟨1, by decide⟩ : Fin 2))) (GT A) (fun y => hfo_18_1 y (y 1).isLt) (fun n => GT_cat A (rowOf L (⟨1, by decide⟩ : Fin 2)) n (⟨17, by decide⟩ : Fin 26) (by decide))
    isplitl [Hr19_0]
    · iexists _; isplitr
      swap
      · iexact Hr19_0
      · ipureintro
        exact row_done5 _ _ (⟨19, by decide⟩ : Fin 40) (rowOf L (⟨0, by decide⟩ : Fin 2)) (dst_hoff_19_0 L) _ fo_19_0 (rowCat A (⟨18, by decide⟩ : Fin 26) (rowOf L (⟨0, by decide⟩ : Fin 2))) (GT A) (fun y => hfo_19_0 y (y 1).isLt) (fun n => GT_cat A (rowOf L (⟨0, by decide⟩ : Fin 2)) n (⟨18, by decide⟩ : Fin 26) (by decide))
    isplitl [Hr19_1]
    · iexists _; isplitr
      swap
      · iexact Hr19_1
      · ipureintro
        exact row_done6 _ _ (⟨19, by decide⟩ : Fin 40) (rowOf L (⟨1, by decide⟩ : Fin 2)) (dst_hoff_19_1 L) _ fo_19_1 (rowCat A (⟨18, by decide⟩ : Fin 26) (rowOf L (⟨1, by decide⟩ : Fin 2))) (GT A) (fun y => hfo_19_1 y (y 1).isLt) (fun n => GT_cat A (rowOf L (⟨1, by decide⟩ : Fin 2)) n (⟨18, by decide⟩ : Fin 26) (by decide))
    isplitl [Hr20_0]
    · iexists _; isplitr
      swap
      · iexact Hr20_0
      · ipureintro
        exact row_done5 _ _ (⟨20, by decide⟩ : Fin 40) (rowOf L (⟨0, by decide⟩ : Fin 2)) (dst_hoff_20_0 L) _ fo_20_0 (rowCat A (⟨19, by decide⟩ : Fin 26) (rowOf L (⟨0, by decide⟩ : Fin 2))) (GT A) (fun y => hfo_20_0 y (y 1).isLt) (fun n => GT_cat A (rowOf L (⟨0, by decide⟩ : Fin 2)) n (⟨19, by decide⟩ : Fin 26) (by decide))
    isplitl [Hr20_1]
    · iexists _; isplitr
      swap
      · iexact Hr20_1
      · ipureintro
        exact row_done6 _ _ (⟨20, by decide⟩ : Fin 40) (rowOf L (⟨1, by decide⟩ : Fin 2)) (dst_hoff_20_1 L) _ fo_20_1 (rowCat A (⟨19, by decide⟩ : Fin 26) (rowOf L (⟨1, by decide⟩ : Fin 2))) (GT A) (fun y => hfo_20_1 y (y 1).isLt) (fun n => GT_cat A (rowOf L (⟨1, by decide⟩ : Fin 2)) n (⟨19, by decide⟩ : Fin 26) (by decide))
    isplitl [Hr21_0]
    · iexists _; isplitr
      swap
      · iexact Hr21_0
      · ipureintro
        exact row_done5 _ _ (⟨21, by decide⟩ : Fin 40) (rowOf L (⟨0, by decide⟩ : Fin 2)) (dst_hoff_21_0 L) _ fo_21_0 (rowCat A (⟨20, by decide⟩ : Fin 26) (rowOf L (⟨0, by decide⟩ : Fin 2))) (GT A) (fun y => hfo_21_0 y (y 1).isLt) (fun n => GT_cat A (rowOf L (⟨0, by decide⟩ : Fin 2)) n (⟨20, by decide⟩ : Fin 26) (by decide))
    isplitl [Hr21_1]
    · iexists _; isplitr
      swap
      · iexact Hr21_1
      · ipureintro
        exact row_done6 _ _ (⟨21, by decide⟩ : Fin 40) (rowOf L (⟨1, by decide⟩ : Fin 2)) (dst_hoff_21_1 L) _ fo_21_1 (rowCat A (⟨20, by decide⟩ : Fin 26) (rowOf L (⟨1, by decide⟩ : Fin 2))) (GT A) (fun y => hfo_21_1 y (y 1).isLt) (fun n => GT_cat A (rowOf L (⟨1, by decide⟩ : Fin 2)) n (⟨20, by decide⟩ : Fin 26) (by decide))
    isplitl [Hr22_0]
    · iexists _; isplitr
      swap
      · iexact Hr22_0
      · ipureintro
        exact row_done5 _ _ (⟨22, by decide⟩ : Fin 40) (rowOf L (⟨0, by decide⟩ : Fin 2)) (dst_hoff_22_0 L) _ fo_22_0 (rowCat A (⟨21, by decide⟩ : Fin 26) (rowOf L (⟨0, by decide⟩ : Fin 2))) (GT A) (fun y => hfo_22_0 y (y 1).isLt) (fun n => GT_cat A (rowOf L (⟨0, by decide⟩ : Fin 2)) n (⟨21, by decide⟩ : Fin 26) (by decide))
    isplitl [Hr22_1]
    · iexists _; isplitr
      swap
      · iexact Hr22_1
      · ipureintro
        exact row_done6 _ _ (⟨22, by decide⟩ : Fin 40) (rowOf L (⟨1, by decide⟩ : Fin 2)) (dst_hoff_22_1 L) _ fo_22_1 (rowCat A (⟨21, by decide⟩ : Fin 26) (rowOf L (⟨1, by decide⟩ : Fin 2))) (GT A) (fun y => hfo_22_1 y (y 1).isLt) (fun n => GT_cat A (rowOf L (⟨1, by decide⟩ : Fin 2)) n (⟨21, by decide⟩ : Fin 26) (by decide))
    isplitl [Hr23_0]
    · iexists _; isplitr
      swap
      · iexact Hr23_0
      · ipureintro
        exact row_done5 _ _ (⟨23, by decide⟩ : Fin 40) (rowOf L (⟨0, by decide⟩ : Fin 2)) (dst_hoff_23_0 L) _ fo_23_0 (rowCat A (⟨22, by decide⟩ : Fin 26) (rowOf L (⟨0, by decide⟩ : Fin 2))) (GT A) (fun y => hfo_23_0 y (y 1).isLt) (fun n => GT_cat A (rowOf L (⟨0, by decide⟩ : Fin 2)) n (⟨22, by decide⟩ : Fin 26) (by decide))
    isplitl [Hr23_1]
    · iexists _; isplitr
      swap
      · iexact Hr23_1
      · ipureintro
        exact row_done6 _ _ (⟨23, by decide⟩ : Fin 40) (rowOf L (⟨1, by decide⟩ : Fin 2)) (dst_hoff_23_1 L) _ fo_23_1 (rowCat A (⟨22, by decide⟩ : Fin 26) (rowOf L (⟨1, by decide⟩ : Fin 2))) (GT A) (fun y => hfo_23_1 y (y 1).isLt) (fun n => GT_cat A (rowOf L (⟨1, by decide⟩ : Fin 2)) n (⟨22, by decide⟩ : Fin 26) (by decide))
    isplitl [Hr24_0]
    · iexists _; isplitr
      swap
      · iexact Hr24_0
      · ipureintro
        exact row_done5 _ _ (⟨24, by decide⟩ : Fin 40) (rowOf L (⟨0, by decide⟩ : Fin 2)) (dst_hoff_24_0 L) _ fo_24_0 (rowCat A (⟨23, by decide⟩ : Fin 26) (rowOf L (⟨0, by decide⟩ : Fin 2))) (GT A) (fun y => hfo_24_0 y (y 1).isLt) (fun n => GT_cat A (rowOf L (⟨0, by decide⟩ : Fin 2)) n (⟨23, by decide⟩ : Fin 26) (by decide))
    isplitl [Hr24_1]
    · iexists _; isplitr
      swap
      · iexact Hr24_1
      · ipureintro
        exact row_done6 _ _ (⟨24, by decide⟩ : Fin 40) (rowOf L (⟨1, by decide⟩ : Fin 2)) (dst_hoff_24_1 L) _ fo_24_1 (rowCat A (⟨23, by decide⟩ : Fin 26) (rowOf L (⟨1, by decide⟩ : Fin 2))) (GT A) (fun y => hfo_24_1 y (y 1).isLt) (fun n => GT_cat A (rowOf L (⟨1, by decide⟩ : Fin 2)) n (⟨23, by decide⟩ : Fin 26) (by decide))
    isplitl [Hr25_0]
    · iexists _; isplitr
      swap
      · iexact Hr25_0
      · ipureintro
        exact row_done5 _ _ (⟨25, by decide⟩ : Fin 40) (rowOf L (⟨0, by decide⟩ : Fin 2)) (dst_hoff_25_0 L) _ fo_25_0 (rowCat A (⟨24, by decide⟩ : Fin 26) (rowOf L (⟨0, by decide⟩ : Fin 2))) (GT A) (fun y => hfo_25_0 y (y 1).isLt) (fun n => GT_cat A (rowOf L (⟨0, by decide⟩ : Fin 2)) n (⟨24, by decide⟩ : Fin 26) (by decide))
    isplitl [Hr25_1]
    · iexists _; isplitr
      swap
      · iexact Hr25_1
      · ipureintro
        exact row_done6 _ _ (⟨25, by decide⟩ : Fin 40) (rowOf L (⟨1, by decide⟩ : Fin 2)) (dst_hoff_25_1 L) _ fo_25_1 (rowCat A (⟨24, by decide⟩ : Fin 26) (rowOf L (⟨1, by decide⟩ : Fin 2))) (GT A) (fun y => hfo_25_1 y (y 1).isLt) (fun n => GT_cat A (rowOf L (⟨1, by decide⟩ : Fin 2)) n (⟨24, by decide⟩ : Fin 26) (by decide))
    isplitl [Hr26_0]
    · iexists _; isplitr
      swap
      · iexact Hr26_0
      · ipureintro
        exact row_done5 _ _ (⟨26, by decide⟩ : Fin 40) (rowOf L (⟨0, by decide⟩ : Fin 2)) (dst_hoff_26_0 L) _ fo_26_0 (rowCat A (⟨25, by decide⟩ : Fin 26) (rowOf L (⟨0, by decide⟩ : Fin 2))) (GT A) (fun y => hfo_26_0 y (y 1).isLt) (fun n => GT_cat A (rowOf L (⟨0, by decide⟩ : Fin 2)) n (⟨25, by decide⟩ : Fin 26) (by decide))
    isplitl [Hr26_1]
    · iexists _; isplitr
      swap
      · iexact Hr26_1
      · ipureintro
        exact row_done6 _ _ (⟨26, by decide⟩ : Fin 40) (rowOf L (⟨1, by decide⟩ : Fin 2)) (dst_hoff_26_1 L) _ fo_26_1 (rowCat A (⟨25, by decide⟩ : Fin 26) (rowOf L (⟨1, by decide⟩ : Fin 2))) (GT A) (fun y => hfo_26_1 y (y 1).isLt) (fun n => GT_cat A (rowOf L (⟨1, by decide⟩ : Fin 2)) n (⟨25, by decide⟩ : Fin 26) (by decide))
    isplitl [Hr27_0]
    · iexists _; isplitr
      swap
      · iexact Hr27_0
      · ipureintro
        exact row_done5 _ _ (⟨27, by decide⟩ : Fin 40) (rowOf L (⟨0, by decide⟩ : Fin 2)) (dst_hoff_27_0 L) _ fo_27_0 (rowNum A (⟨0, by decide⟩ : Fin 13) (rowOf L (⟨0, by decide⟩ : Fin 2))) (GT A) (fun y => hfo_27_0 y (y 1).isLt) (fun n => GT_num A (rowOf L (⟨0, by decide⟩ : Fin 2)) n (⟨0, by decide⟩ : Fin 13) (by decide))
    isplitl [Hr27_1]
    · iexists _; isplitr
      swap
      · iexact Hr27_1
      · ipureintro
        exact row_done6 _ _ (⟨27, by decide⟩ : Fin 40) (rowOf L (⟨1, by decide⟩ : Fin 2)) (dst_hoff_27_1 L) _ fo_27_1 (rowNum A (⟨0, by decide⟩ : Fin 13) (rowOf L (⟨1, by decide⟩ : Fin 2))) (GT A) (fun y => hfo_27_1 y (y 1).isLt) (fun n => GT_num A (rowOf L (⟨1, by decide⟩ : Fin 2)) n (⟨0, by decide⟩ : Fin 13) (by decide))
    isplitl [Hr28_0]
    · iexists _; isplitr
      swap
      · iexact Hr28_0
      · ipureintro
        exact row_done5 _ _ (⟨28, by decide⟩ : Fin 40) (rowOf L (⟨0, by decide⟩ : Fin 2)) (dst_hoff_28_0 L) _ fo_28_0 (rowNum A (⟨1, by decide⟩ : Fin 13) (rowOf L (⟨0, by decide⟩ : Fin 2))) (GT A) (fun y => hfo_28_0 y (y 1).isLt) (fun n => GT_num A (rowOf L (⟨0, by decide⟩ : Fin 2)) n (⟨1, by decide⟩ : Fin 13) (by decide))
    isplitl [Hr28_1]
    · iexists _; isplitr
      swap
      · iexact Hr28_1
      · ipureintro
        exact row_done6 _ _ (⟨28, by decide⟩ : Fin 40) (rowOf L (⟨1, by decide⟩ : Fin 2)) (dst_hoff_28_1 L) _ fo_28_1 (rowNum A (⟨1, by decide⟩ : Fin 13) (rowOf L (⟨1, by decide⟩ : Fin 2))) (GT A) (fun y => hfo_28_1 y (y 1).isLt) (fun n => GT_num A (rowOf L (⟨1, by decide⟩ : Fin 2)) n (⟨1, by decide⟩ : Fin 13) (by decide))
    isplitl [Hr29_0]
    · iexists _; isplitr
      swap
      · iexact Hr29_0
      · ipureintro
        exact row_done5 _ _ (⟨29, by decide⟩ : Fin 40) (rowOf L (⟨0, by decide⟩ : Fin 2)) (dst_hoff_29_0 L) _ fo_29_0 (rowNum A (⟨2, by decide⟩ : Fin 13) (rowOf L (⟨0, by decide⟩ : Fin 2))) (GT A) (fun y => hfo_29_0 y (y 1).isLt) (fun n => GT_num A (rowOf L (⟨0, by decide⟩ : Fin 2)) n (⟨2, by decide⟩ : Fin 13) (by decide))
    isplitl [Hr29_1]
    · iexists _; isplitr
      swap
      · iexact Hr29_1
      · ipureintro
        exact row_done6 _ _ (⟨29, by decide⟩ : Fin 40) (rowOf L (⟨1, by decide⟩ : Fin 2)) (dst_hoff_29_1 L) _ fo_29_1 (rowNum A (⟨2, by decide⟩ : Fin 13) (rowOf L (⟨1, by decide⟩ : Fin 2))) (GT A) (fun y => hfo_29_1 y (y 1).isLt) (fun n => GT_num A (rowOf L (⟨1, by decide⟩ : Fin 2)) n (⟨2, by decide⟩ : Fin 13) (by decide))
    isplitl [Hr30_0]
    · iexists _; isplitr
      swap
      · iexact Hr30_0
      · ipureintro
        exact row_done5 _ _ (⟨30, by decide⟩ : Fin 40) (rowOf L (⟨0, by decide⟩ : Fin 2)) (dst_hoff_30_0 L) _ fo_30_0 (rowNum A (⟨3, by decide⟩ : Fin 13) (rowOf L (⟨0, by decide⟩ : Fin 2))) (GT A) (fun y => hfo_30_0 y (y 1).isLt) (fun n => GT_num A (rowOf L (⟨0, by decide⟩ : Fin 2)) n (⟨3, by decide⟩ : Fin 13) (by decide))
    isplitl [Hr30_1]
    · iexists _; isplitr
      swap
      · iexact Hr30_1
      · ipureintro
        exact row_done6 _ _ (⟨30, by decide⟩ : Fin 40) (rowOf L (⟨1, by decide⟩ : Fin 2)) (dst_hoff_30_1 L) _ fo_30_1 (rowNum A (⟨3, by decide⟩ : Fin 13) (rowOf L (⟨1, by decide⟩ : Fin 2))) (GT A) (fun y => hfo_30_1 y (y 1).isLt) (fun n => GT_num A (rowOf L (⟨1, by decide⟩ : Fin 2)) n (⟨3, by decide⟩ : Fin 13) (by decide))
    isplitl [Hr31_0]
    · iexists _; isplitr
      swap
      · iexact Hr31_0
      · ipureintro
        exact row_done5 _ _ (⟨31, by decide⟩ : Fin 40) (rowOf L (⟨0, by decide⟩ : Fin 2)) (dst_hoff_31_0 L) _ fo_31_0 (rowNum A (⟨4, by decide⟩ : Fin 13) (rowOf L (⟨0, by decide⟩ : Fin 2))) (GT A) (fun y => hfo_31_0 y (y 1).isLt) (fun n => GT_num A (rowOf L (⟨0, by decide⟩ : Fin 2)) n (⟨4, by decide⟩ : Fin 13) (by decide))
    isplitl [Hr31_1]
    · iexists _; isplitr
      swap
      · iexact Hr31_1
      · ipureintro
        exact row_done6 _ _ (⟨31, by decide⟩ : Fin 40) (rowOf L (⟨1, by decide⟩ : Fin 2)) (dst_hoff_31_1 L) _ fo_31_1 (rowNum A (⟨4, by decide⟩ : Fin 13) (rowOf L (⟨1, by decide⟩ : Fin 2))) (GT A) (fun y => hfo_31_1 y (y 1).isLt) (fun n => GT_num A (rowOf L (⟨1, by decide⟩ : Fin 2)) n (⟨4, by decide⟩ : Fin 13) (by decide))
    isplitl [Hr32_0]
    · iexists _; isplitr
      swap
      · iexact Hr32_0
      · ipureintro
        exact row_done5 _ _ (⟨32, by decide⟩ : Fin 40) (rowOf L (⟨0, by decide⟩ : Fin 2)) (dst_hoff_32_0 L) _ fo_32_0 (rowNum A (⟨5, by decide⟩ : Fin 13) (rowOf L (⟨0, by decide⟩ : Fin 2))) (GT A) (fun y => hfo_32_0 y (y 1).isLt) (fun n => GT_num A (rowOf L (⟨0, by decide⟩ : Fin 2)) n (⟨5, by decide⟩ : Fin 13) (by decide))
    isplitl [Hr32_1]
    · iexists _; isplitr
      swap
      · iexact Hr32_1
      · ipureintro
        exact row_done6 _ _ (⟨32, by decide⟩ : Fin 40) (rowOf L (⟨1, by decide⟩ : Fin 2)) (dst_hoff_32_1 L) _ fo_32_1 (rowNum A (⟨5, by decide⟩ : Fin 13) (rowOf L (⟨1, by decide⟩ : Fin 2))) (GT A) (fun y => hfo_32_1 y (y 1).isLt) (fun n => GT_num A (rowOf L (⟨1, by decide⟩ : Fin 2)) n (⟨5, by decide⟩ : Fin 13) (by decide))
    isplitl [Hr33_0]
    · iexists _; isplitr
      swap
      · iexact Hr33_0
      · ipureintro
        exact row_done5 _ _ (⟨33, by decide⟩ : Fin 40) (rowOf L (⟨0, by decide⟩ : Fin 2)) (dst_hoff_33_0 L) _ fo_33_0 (rowNum A (⟨6, by decide⟩ : Fin 13) (rowOf L (⟨0, by decide⟩ : Fin 2))) (GT A) (fun y => hfo_33_0 y (y 1).isLt) (fun n => GT_num A (rowOf L (⟨0, by decide⟩ : Fin 2)) n (⟨6, by decide⟩ : Fin 13) (by decide))
    isplitl [Hr33_1]
    · iexists _; isplitr
      swap
      · iexact Hr33_1
      · ipureintro
        exact row_done6 _ _ (⟨33, by decide⟩ : Fin 40) (rowOf L (⟨1, by decide⟩ : Fin 2)) (dst_hoff_33_1 L) _ fo_33_1 (rowNum A (⟨6, by decide⟩ : Fin 13) (rowOf L (⟨1, by decide⟩ : Fin 2))) (GT A) (fun y => hfo_33_1 y (y 1).isLt) (fun n => GT_num A (rowOf L (⟨1, by decide⟩ : Fin 2)) n (⟨6, by decide⟩ : Fin 13) (by decide))
    isplitl [Hr34_0]
    · iexists _; isplitr
      swap
      · iexact Hr34_0
      · ipureintro
        exact row_done5 _ _ (⟨34, by decide⟩ : Fin 40) (rowOf L (⟨0, by decide⟩ : Fin 2)) (dst_hoff_34_0 L) _ fo_34_0 (rowNum A (⟨7, by decide⟩ : Fin 13) (rowOf L (⟨0, by decide⟩ : Fin 2))) (GT A) (fun y => hfo_34_0 y (y 1).isLt) (fun n => GT_num A (rowOf L (⟨0, by decide⟩ : Fin 2)) n (⟨7, by decide⟩ : Fin 13) (by decide))
    isplitl [Hr34_1]
    · iexists _; isplitr
      swap
      · iexact Hr34_1
      · ipureintro
        exact row_done6 _ _ (⟨34, by decide⟩ : Fin 40) (rowOf L (⟨1, by decide⟩ : Fin 2)) (dst_hoff_34_1 L) _ fo_34_1 (rowNum A (⟨7, by decide⟩ : Fin 13) (rowOf L (⟨1, by decide⟩ : Fin 2))) (GT A) (fun y => hfo_34_1 y (y 1).isLt) (fun n => GT_num A (rowOf L (⟨1, by decide⟩ : Fin 2)) n (⟨7, by decide⟩ : Fin 13) (by decide))
    isplitl [Hr35_0]
    · iexists _; isplitr
      swap
      · iexact Hr35_0
      · ipureintro
        exact row_done5 _ _ (⟨35, by decide⟩ : Fin 40) (rowOf L (⟨0, by decide⟩ : Fin 2)) (dst_hoff_35_0 L) _ fo_35_0 (rowNum A (⟨8, by decide⟩ : Fin 13) (rowOf L (⟨0, by decide⟩ : Fin 2))) (GT A) (fun y => hfo_35_0 y (y 1).isLt) (fun n => GT_num A (rowOf L (⟨0, by decide⟩ : Fin 2)) n (⟨8, by decide⟩ : Fin 13) (by decide))
    isplitl [Hr35_1]
    · iexists _; isplitr
      swap
      · iexact Hr35_1
      · ipureintro
        exact row_done6 _ _ (⟨35, by decide⟩ : Fin 40) (rowOf L (⟨1, by decide⟩ : Fin 2)) (dst_hoff_35_1 L) _ fo_35_1 (rowNum A (⟨8, by decide⟩ : Fin 13) (rowOf L (⟨1, by decide⟩ : Fin 2))) (GT A) (fun y => hfo_35_1 y (y 1).isLt) (fun n => GT_num A (rowOf L (⟨1, by decide⟩ : Fin 2)) n (⟨8, by decide⟩ : Fin 13) (by decide))
    isplitl [Hr36_0]
    · iexists _; isplitr
      swap
      · iexact Hr36_0
      · ipureintro
        exact row_done5 _ _ (⟨36, by decide⟩ : Fin 40) (rowOf L (⟨0, by decide⟩ : Fin 2)) (dst_hoff_36_0 L) _ fo_36_0 (rowNum A (⟨9, by decide⟩ : Fin 13) (rowOf L (⟨0, by decide⟩ : Fin 2))) (GT A) (fun y => hfo_36_0 y (y 1).isLt) (fun n => GT_num A (rowOf L (⟨0, by decide⟩ : Fin 2)) n (⟨9, by decide⟩ : Fin 13) (by decide))
    isplitl [Hr36_1]
    · iexists _; isplitr
      swap
      · iexact Hr36_1
      · ipureintro
        exact row_done6 _ _ (⟨36, by decide⟩ : Fin 40) (rowOf L (⟨1, by decide⟩ : Fin 2)) (dst_hoff_36_1 L) _ fo_36_1 (rowNum A (⟨9, by decide⟩ : Fin 13) (rowOf L (⟨1, by decide⟩ : Fin 2))) (GT A) (fun y => hfo_36_1 y (y 1).isLt) (fun n => GT_num A (rowOf L (⟨1, by decide⟩ : Fin 2)) n (⟨9, by decide⟩ : Fin 13) (by decide))
    isplitl [Hr37_0]
    · iexists _; isplitr
      swap
      · iexact Hr37_0
      · ipureintro
        exact row_done5 _ _ (⟨37, by decide⟩ : Fin 40) (rowOf L (⟨0, by decide⟩ : Fin 2)) (dst_hoff_37_0 L) _ fo_37_0 (rowNum A (⟨10, by decide⟩ : Fin 13) (rowOf L (⟨0, by decide⟩ : Fin 2))) (GT A) (fun y => hfo_37_0 y (y 1).isLt) (fun n => GT_num A (rowOf L (⟨0, by decide⟩ : Fin 2)) n (⟨10, by decide⟩ : Fin 13) (by decide))
    isplitl [Hr37_1]
    · iexists _; isplitr
      swap
      · iexact Hr37_1
      · ipureintro
        exact row_done6 _ _ (⟨37, by decide⟩ : Fin 40) (rowOf L (⟨1, by decide⟩ : Fin 2)) (dst_hoff_37_1 L) _ fo_37_1 (rowNum A (⟨10, by decide⟩ : Fin 13) (rowOf L (⟨1, by decide⟩ : Fin 2))) (GT A) (fun y => hfo_37_1 y (y 1).isLt) (fun n => GT_num A (rowOf L (⟨1, by decide⟩ : Fin 2)) n (⟨10, by decide⟩ : Fin 13) (by decide))
    isplitl [Hr38_0]
    · iexists _; isplitr
      swap
      · iexact Hr38_0
      · ipureintro
        exact row_done5 _ _ (⟨38, by decide⟩ : Fin 40) (rowOf L (⟨0, by decide⟩ : Fin 2)) (dst_hoff_38_0 L) _ fo_38_0 (rowNum A (⟨11, by decide⟩ : Fin 13) (rowOf L (⟨0, by decide⟩ : Fin 2))) (GT A) (fun y => hfo_38_0 y (y 1).isLt) (fun n => GT_num A (rowOf L (⟨0, by decide⟩ : Fin 2)) n (⟨11, by decide⟩ : Fin 13) (by decide))
    isplitl [Hr38_1]
    · iexists _; isplitr
      swap
      · iexact Hr38_1
      · ipureintro
        exact row_done6 _ _ (⟨38, by decide⟩ : Fin 40) (rowOf L (⟨1, by decide⟩ : Fin 2)) (dst_hoff_38_1 L) _ fo_38_1 (rowNum A (⟨11, by decide⟩ : Fin 13) (rowOf L (⟨1, by decide⟩ : Fin 2))) (GT A) (fun y => hfo_38_1 y (y 1).isLt) (fun n => GT_num A (rowOf L (⟨1, by decide⟩ : Fin 2)) n (⟨11, by decide⟩ : Fin 13) (by decide))
    isplitl [Hr39_0]
    · iexists _; isplitr
      swap
      · iexact Hr39_0
      · ipureintro
        exact row_done5 _ _ (⟨39, by decide⟩ : Fin 40) (rowOf L (⟨0, by decide⟩ : Fin 2)) (dst_hoff_39_0 L) _ fo_39_0 (rowNum A (⟨12, by decide⟩ : Fin 13) (rowOf L (⟨0, by decide⟩ : Fin 2))) (GT A) (fun y => hfo_39_0 y (y 1).isLt) (fun n => GT_num A (rowOf L (⟨0, by decide⟩ : Fin 2)) n (⟨12, by decide⟩ : Fin 13) (by decide))
    iexists _; isplitr
    swap
    · iexact Hr39_1
    · ipureintro
      exact row_done6 _ _ (⟨39, by decide⟩ : Fin 40) (rowOf L (⟨1, by decide⟩ : Fin 2)) (dst_hoff_39_1 L) _ fo_39_1 (rowNum A (⟨12, by decide⟩ : Fin 13) (rowOf L (⟨1, by decide⟩ : Fin 2))) (GT A) (fun y => hfo_39_1 y (y 1).isLt) (fun n => GT_num A (rowOf L (⟨1, by decide⟩ : Fin 2)) n (⟨12, by decide⟩ : Fin 13) (by decide))
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  isplitl [Hs26]; · iexact Hs26
  isplitl [Hs27]; · iexact Hs27
  isplitl [Hs28]; · iexact Hs28
  isplitl [Hs29]; · iexact Hs29
  isplitl [Hs30]; · iexact Hs30
  isplitl [Hs31]; · iexact Hs31
  isplitl [Hs32]; · iexact Hs32
  isplitl [Hs33]; · iexact Hs33
  isplitl [Hs34]; · iexact Hs34
  isplitl [Hs35]; · iexact Hs35
  isplitl [Hs36]; · iexact Hs36
  isplitl [Hs37]; · iexact Hs37
  isplitl [Hs38]; · iexact Hs38
  isplitl [Hs39]; · iexact Hs39
  isplitl [Hs40]; · iexact Hs40
  isplitl [Hs41]; · iexact Hs41
  isplitl [Hs42]; · iexact Hs42
  isplitl [Hs43]; · iexact Hs43
  isplitl [Hs44]; · iexact Hs44
  isplitl [Hs45]; · iexact Hs45
  isplitl [Hs46]; · iexact Hs46
  isplitl [Hs47]; · iexact Hs47
  isplitl [Hs48]; · iexact Hs48
  isplitl [Hs49]; · iexact Hs49
  isplitl [Hs50]; · iexact Hs50
  isplitl [Hs51]; · iexact Hs51
  isplitl [Hs52]; · iexact Hs52
  isplitl [Hs53]; · iexact Hs53
  isplitl [Hs54]; · iexact Hs54
  isplitl [Hs55]; · iexact Hs55
  isplitl [Hs56]; · iexact Hs56
  isplitl [Hs57]; · iexact Hs57
  iexact Hrest

end Cert.Proof.KB

end
-- ==== Proof.KB.RowsSplit.lean ====
/-
  A task's share of the result array, row by row. Task `w` owns the indices whose feature row is `2w` or `2w + 1`; that
  set is the disjoint union, over the 40 tokens `t` and `dd ∈ {0, 1}`, of the rows `(t, 2w + dd)`. So the task's points-to
  splits into 80 row points-tos, and 80 rows, each holding values that agree with one function `G` on that row, join
  into the task's share held at `G`.
-/
import proofs.«207382_g17746804867166_cont_8to1_1179_25_alg».proof.Proof.KB.Rows

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Row `(t, 2w + dd)` of task `w`, indexed by the pair `(t, dd)`. -/
def rowW (w : Fin 32) (p : Fin 40 × Fin 2) : Finset S40x64x4096.Idx :=
  rowT p.1 ⟨2 * w.val + p.2.val, by have := w.isLt; have := p.2.isLt; omega⟩

theorem mem_rowW {w : Fin 32} {p : Fin 40 × Fin 2} {x : S40x64x4096.Idx} :
    x ∈ rowW w p ↔ (x 0).val = p.1.val ∧ (x 1).val = 2 * w.val + p.2.val := mem_rowT

/-- At a grid point the pair's row is the row the kernel addresses. -/
theorem rowW_widL (L : grid0.Coords) (t : Fin 40) (dd : Fin 2) : rowW (widL L) (t, dd) = rowT t (rowOf L dd) := rfl

/-- Different pairs name disjoint rows. -/
theorem rowW_disjoint (w : Fin 32) :
    ∀ p ∈ (Finset.univ : Finset (Fin 40 × Fin 2)), ∀ p' ∈ (Finset.univ : Finset (Fin 40 × Fin 2)), p ≠ p' →
      Disjoint (rowW w p) (rowW w p') := by
  intro p _ p' _ hne
  rw [Finset.disjoint_left]
  intro x hx hx'
  rw [mem_rowW] at hx hx'
  apply hne
  refine Prod.ext (Fin.ext (by omega)) (Fin.ext (by omega))

/-- The rows of a task cover its share. -/
theorem rowW_cover (w : Fin 32) : (Finset.univ : Finset (Fin 40 × Fin 2)).biUnion (rowW w) = oSet w := by
  ext x
  have h0 : (x 0).val < 40 := (x 0).isLt
  simp only [Finset.mem_biUnion, Finset.mem_univ, true_and, mem_rowW, oSet, Finset.mem_filter]
  constructor
  · rintro ⟨p, -, e1⟩
    have := p.2.isLt
    omega
  · intro h
    exact ⟨(⟨(x 0).val, h0⟩, ⟨(x 1).val % 2, Nat.mod_lt _ (by decide)⟩), rfl, by show (x 1).val = 2 * w.val + (x 1).val % 2; omega⟩

/-- THE SPLIT: a task's share of the result array is its 80 rows. -/
theorem oSet_split (d : Dev nD) (w : Fin 32) (f : Buf (Elt F) (outL d)) :
    (outL d ↦[oSet w]{fullShare} f : sProp 𝕄)
      = bigSep (Finset.univ : Finset (Fin 40 × Fin 2)) fun p => outL d ↦[rowW w p]{fullShare} f := by
  rw [← rowW_cover w, pointsTo_biUnion Finset.univ (ℓ := outL d) (rowW w) (rowW_disjoint w)]

/-- THE JOIN: 80 rows, each at values that agree with `G` on that row, are the task's share at `G`. -/
theorem oSet_join (d : Dev nD) (w : Fin 32) (G : Buf (Elt F) (outL d)) :
    (bigSep (Finset.univ : Finset (Fin 40 × Fin 2)) fun p =>
        iprop(∃ g : Buf (Elt F) (outL d), ⌜∀ x ∈ rowW w p, g x = G x⌝ ∗ outL d ↦[rowW w p]{fullShare} g))
      ⊢ (outL d ↦[oSet w]{fullShare} G : sProp 𝕄) := by
  rw [oSet_split]
  refine bigSep_mono fun p _ => ?_
  show _ ⊢ (outL d ↦[rowW w p]{fullShare} G : sProp 𝕄)
  iintro ⟨%g, %hg, H⟩
  rw [show (outL d ↦[rowW w p]{fullShare} G : sProp 𝕄) = outL d ↦[rowW w p]{fullShare} g from (pointsTo_congr hg).symm]
  iexact H

end Cert.Proof.KB

end
-- ==== Proof.KB.RowsChain.lean ====
/-
  Right-nested conjunctions are equal when their summands are, one by one.
-/
import proofs.«207382_g17746804867166_cont_8to1_1179_25_alg».proof.Proof.KB.Scoped

noncomputable section

namespace Cert.Proof.KB

open Idealize.SL Idealize.SL.RA Idealize.SL.BI
open scoped Idealize.SL.BI
open Idealize.SL.BI.BIBase Idealize.SL.BI.Laws Idealize.SL.ProofMode Idealize.SL.Sem

/-- Equal heads and equal tails give equal chains. -/
theorem chain_congr {M : Type} [URA M] {P P' : sProp M} {l l' : List (sProp M)} {R R' : sProp M}
    (hP : P = P') (h : chain l R = chain l' R') : chain (P :: l) R = chain (P' :: l') R' := by
  show iprop(P ∗ chain l R) = iprop(P' ∗ chain l' R')
  rw [hP, h]

/-- The empty chain is its end. -/
theorem chain_nil_congr {M : Type} [URA M] {R R' : sProp M} (h : R = R') : chain [] R = chain [] R' := by
  rw [h]

end Cert.Proof.KB

end
-- ==== Proof.KB.RowsJoinTable.lean ====
/-
  The 80 destination rows of a task in the order the kernel's table lists them (token major, then the feature row of the
  pair): the list of the first 79 pairs `(token, dd)` and the last pair, and, for any assertion `X` of a set of indices,
  the right-nested conjunction of `X` at the 80 destination views' element sets as the same conjunction at the rows
  `(token, 2w + dd)` — one set equation per row (`dst_set_t_dd`).
-/
import proofs.«207382_g17746804867166_cont_8to1_1179_25_alg».proof.Proof.KB.RowsTable
import proofs.«207382_g17746804867166_cont_8to1_1179_25_alg».proof.Proof.KB.RowsSplit
import proofs.«207382_g17746804867166_cont_8to1_1179_25_alg».proof.Proof.KB.RowsChain

noncomputable section

namespace Cert.Proof.KB

open Cert.Kernel Cert.Kernel.Gen
open Idealize.ShloMosaic
open Idealize.SL Idealize.SL.RA Idealize.SL.BI

/-- The first 79 pairs, in table order. -/
def pairs79 : List (Fin 40 × Fin 2) :=
  [((⟨0, by decide⟩ : Fin 40), (⟨0, by decide⟩ : Fin 2)),
   ((⟨0, by decide⟩ : Fin 40), (⟨1, by decide⟩ : Fin 2)),
   ((⟨1, by decide⟩ : Fin 40), (⟨0, by decide⟩ : Fin 2)),
   ((⟨1, by decide⟩ : Fin 40), (⟨1, by decide⟩ : Fin 2)),
   ((⟨2, by decide⟩ : Fin 40), (⟨0, by decide⟩ : Fin 2)),
   ((⟨2, by decide⟩ : Fin 40), (⟨1, by decide⟩ : Fin 2)),
   ((⟨3, by decide⟩ : Fin 40), (⟨0, by decide⟩ : Fin 2)),
   ((⟨3, by decide⟩ : Fin 40), (⟨1, by decide⟩ : Fin 2)),
   ((⟨4, by decide⟩ : Fin 40), (⟨0, by decide⟩ : Fin 2)),
   ((⟨4, by decide⟩ : Fin 40), (⟨1, by decide⟩ : Fin 2)),
   ((⟨5, by decide⟩ : Fin 40), (⟨0, by decide⟩ : Fin 2)),
   ((⟨5, by decide⟩ : Fin 40), (⟨1, by decide⟩ : Fin 2)),
   ((⟨6, by decide⟩ : Fin 40), (⟨0, by decide⟩ : Fin 2)),
   ((⟨6, by decide⟩ : Fin 40), (⟨1, by decide⟩ : Fin 2)),
   ((⟨7, by decide⟩ : Fin 40), (⟨0, by decide⟩ : Fin 2)),
   ((⟨7, by decide⟩ : Fin 40), (⟨1, by decide⟩ : Fin 2)),
   ((⟨8, by decide⟩ : Fin 40), (⟨0, by decide⟩ : Fin 2)),
   ((⟨8, by decide⟩ : Fin 40), (⟨1, by decide⟩ : Fin 2)),
   ((⟨9, by decide⟩ : Fin 40), (⟨0, by decide⟩ : Fin 2)),
   ((⟨9, by decide⟩ : Fin 40), (⟨1, by decide⟩ : Fin 2)),
   ((⟨10, by decide⟩ : Fin 40), (⟨0, by decide⟩ : Fin 2)),
   ((⟨10, by decide⟩ : Fin 40), (⟨1, by decide⟩ : Fin 2)),
   ((⟨11, by decide⟩ : Fin 40), (⟨0, by decide⟩ : Fin 2)),
   ((⟨11, by decide⟩ : Fin 40), (⟨1, by decide⟩ : Fin 2)),
   ((⟨12, by decide⟩ : Fin 40), (⟨0, by decide⟩ : Fin 2)),
   ((⟨12, by decide⟩ : Fin 40), (⟨1, by decide⟩ : Fin 2)),
   ((⟨13, by decide⟩ : Fin 40), (⟨0, by decide⟩ : Fin 2)),
   ((⟨13, by decide⟩ : Fin 40), (⟨1, by decide⟩ : Fin 2)),
   ((⟨14, by decide⟩ : Fin 40), (⟨0, by decide⟩ : Fin 2)),
   ((⟨14, by decide⟩ : Fin 40), (⟨1, by decide⟩ : Fin 2)),
   ((⟨15, by decide⟩ : Fin 40), (⟨0, by decide⟩ : Fin 2)),
   ((⟨15, by decide⟩ : Fin 40), (⟨1, by decide⟩ : Fin 2)),
   ((⟨16, by decide⟩ : Fin 40), (⟨0, by decide⟩ : Fin 2)),
   ((⟨16, by decide⟩ : Fin 40), (⟨1, by decide⟩ : Fin 2)),
   ((⟨17, by decide⟩ : Fin 40), (⟨0, by decide⟩ : Fin 2)),
   ((⟨17, by decide⟩ : Fin 40), (⟨1, by decide⟩ : Fin 2)),
   ((⟨18, by decide⟩ : Fin 40), (⟨0, by decide⟩ : Fin 2)),
   ((⟨18, by decide⟩ : Fin 40), (⟨1, by decide⟩ : Fin 2)),
   ((⟨19, by decide⟩ : Fin 40), (⟨0, by decide⟩ : Fin 2)),
   ((⟨19, by decide⟩ : Fin 40), (⟨1, by decide⟩ : Fin 2)),
   ((⟨20, by decide⟩ : Fin 40), (⟨0, by decide⟩ : Fin 2)),
   ((⟨20, by decide⟩ : Fin 40), (⟨1, by decide⟩ : Fin 2)),
   ((⟨21, by decide⟩ : Fin 40), (⟨0, by decide⟩ : Fin 2)),
   ((⟨21, by decide⟩ : Fin 40), (⟨1, by decide⟩ : Fin 2)),
   ((⟨22, by decide⟩ : Fin 40), (⟨0, by decide⟩ : Fin 2)),
   ((⟨22, by decide⟩ : Fin 40), (⟨1, by decide⟩ : Fin 2)),
   ((⟨23, by decide⟩ : Fin 40), (⟨0, by decide⟩ : Fin 2)),
   ((⟨23, by decide⟩ : Fin 40), (⟨1, by decide⟩ : Fin 2)),
   ((⟨24, by decide⟩ : Fin 40), (⟨0, by decide⟩ : Fin 2)),
   ((⟨24, by decide⟩ : Fin 40), (⟨1, by decide⟩ : Fin 2)),
   ((⟨25, by decide⟩ : Fin 40), (⟨0, by decide⟩ : Fin 2)),
   ((⟨25, by decide⟩ : Fin 40), (⟨1, by decide⟩ : Fin 2)),
   ((⟨26, by decide⟩ : Fin 40), (⟨0, by decide⟩ : Fin 2)),
   ((⟨26, by decide⟩ : Fin 40), (⟨1, by decide⟩ : Fin 2)),
   ((⟨27, by decide⟩ : Fin 40), (⟨0, by decide⟩ : Fin 2)),
   ((⟨27, by decide⟩ : Fin 40), (⟨1, by decide⟩ : Fin 2)),
   ((⟨28, by decide⟩ : Fin 40), (⟨0, by decide⟩ : Fin 2)),
   ((⟨28, by decide⟩ : Fin 40), (⟨1, by decide⟩ : Fin 2)),
   ((⟨29, by decide⟩ : Fin 40), (⟨0, by decide⟩ : Fin 2)),
   ((⟨29, by decide⟩ : Fin 40), (⟨1, by decide⟩ : Fin 2)),
   ((⟨30, by decide⟩ : Fin 40), (⟨0, by decide⟩ : Fin 2)),
   ((⟨30, by decide⟩ : Fin 40), (⟨1, by decide⟩ : Fin 2)),
   ((⟨31, by decide⟩ : Fin 40), (⟨0, by decide⟩ : Fin 2)),
   ((⟨31, by decide⟩ : Fin 40), (⟨1, by decide⟩ : Fin 2)),
   ((⟨32, by decide⟩ : Fin 40), (⟨0, by decide⟩ : Fin 2)),
   ((⟨32, by decide⟩ : Fin 40), (⟨1, by decide⟩ : Fin 2)),
   ((⟨33, by decide⟩ : Fin 40), (⟨0, by decide⟩ : Fin 2)),
   ((⟨33, by decide⟩ : Fin 40), (⟨1, by decide⟩ : Fin 2)),
   ((⟨34, by decide⟩ : Fin 40), (⟨0, by decide⟩ : Fin 2)),
   ((⟨34, by decide⟩ : Fin 40), (⟨1, by decide⟩ : Fin 2)),
   ((⟨35, by decide⟩ : Fin 40), (⟨0, by decide⟩ : Fin 2)),
   ((⟨35, by decide⟩ : Fin 40), (⟨1, by decide⟩ : Fin 2)),
   ((⟨36, by decide⟩ : Fin 40), (⟨0, by decide⟩ : Fin 2)),
   ((⟨36, by decide⟩ : Fin 40), (⟨1, by decide⟩ : Fin 2)),
   ((⟨37, by decide⟩ : Fin 40), (⟨0, by decide⟩ : Fin 2)),
   ((⟨37, by decide⟩ : Fin 40), (⟨1, by decide⟩ : Fin 2)),
   ((⟨38, by decide⟩ : Fin 40), (⟨0, by decide⟩ : Fin 2)),
   ((⟨38, by decide⟩ : Fin 40), (⟨1, by decide⟩ : Fin 2)),
   ((⟨39, by decide⟩ : Fin 40), (⟨0, by decide⟩ : Fin 2))]

/-- The last pair. -/
abbrev pairLast : Fin 40 × Fin 2 := ((⟨39, by decide⟩ : Fin 40), (⟨1, by decide⟩ : Fin 2))

/-- The conjunction at the destination views' element sets is the conjunction at the rows `(token, 2w + dd)`: row by row. -/
theorem rows_chain_sets {M : Type} [URA M] (X : Finset S40x64x4096.Idx → sProp M) (L : grid0.Coords) :
    chain [X (dst_0_0 L).view.set,
        X (dst_0_1 L).view.set,
        X (dst_1_0 L).view.set,
        X (dst_1_1 L).view.set,
        X (dst_2_0 L).view.set,
        X (dst_2_1 L).view.set,
        X (dst_3_0 L).view.set,
        X (dst_3_1 L).view.set,
        X (dst_4_0 L).view.set,
        X (dst_4_1 L).view.set,
        X (dst_5_0 L).view.set,
        X (dst_5_1 L).view.set,
        X (dst_6_0 L).view.set,
        X (dst_6_1 L).view.set,
        X (dst_7_0 L).view.set,
        X (dst_7_1 L).view.set,
        X (dst_8_0 L).view.set,
        X (dst_8_1 L).view.set,
        X (dst_9_0 L).view.set,
        X (dst_9_1 L).view.set,
        X (dst_10_0 L).view.set,
        X (dst_10_1 L).view.set,
        X (dst_11_0 L).view.set,
        X (dst_11_1 L).view.set,
        X (dst_12_0 L).view.set,
        X (dst_12_1 L).view.set,
        X (dst_13_0 L).view.set,
        X (dst_13_1 L).view.set,
        X (dst_14_0 L).view.set,
        X (dst_14_1 L).view.set,
        X (dst_15_0 L).view.set,
        X (dst_15_1 L).view.set,
        X (dst_16_0 L).view.set,
        X (dst_16_1 L).view.set,
        X (dst_17_0 L).view.set,
        X (dst_17_1 L).view.set,
        X (dst_18_0 L).view.set,
        X (dst_18_1 L).view.set,
        X (dst_19_0 L).view.set,
        X (dst_19_1 L).view.set,
        X (dst_20_0 L).view.set,
        X (dst_20_1 L).view.set,
        X (dst_21_0 L).view.set,
        X (dst_21_1 L).view.set,
        X (dst_22_0 L).view.set,
        X (dst_22_1 L).view.set,
        X (dst_23_0 L).view.set,
        X (dst_23_1 L).view.set,
        X (dst_24_0 L).view.set,
        X (dst_24_1 L).view.set,
        X (dst_25_0 L).view.set,
        X (dst_25_1 L).view.set,
        X (dst_26_0 L).view.set,
        X (dst_26_1 L).view.set,
        X (dst_27_0 L).view.set,
        X (dst_27_1 L).view.set,
        X (dst_28_0 L).view.set,
        X (dst_28_1 L).view.set,
        X (dst_29_0 L).view.set,
        X (dst_29_1 L).view.set,
        X (dst_30_0 L).view.set,
        X (dst_30_1 L).view.set,
        X (dst_31_0 L).view.set,
        X (dst_31_1 L).view.set,
        X (dst_32_0 L).view.set,
        X (dst_32_1 L).view.set,
        X (dst_33_0 L).view.set,
        X (dst_33_1 L).view.set,
        X (dst_34_0 L).view.set,
        X (dst_34_1 L).view.set,
        X (dst_35_0 L).view.set,
        X (dst_35_1 L).view.set,
        X (dst_36_0 L).view.set,
        X (dst_36_1 L).view.set,
        X (dst_37_0 L).view.set,
        X (dst_37_1 L).view.set,
        X (dst_38_0 L).view.set,
        X (dst_38_1 L).view.set,
        X (dst_39_0 L).view.set]
        (X (dst_39_1 L).view.set)
      = chain [X (rowT (⟨0, by decide⟩ : Fin 40) (rowOf L (⟨0, by decide⟩ : Fin 2))),
        X (rowT (⟨0, by decide⟩ : Fin 40) (rowOf L (⟨1, by decide⟩ : Fin 2))),
        X (rowT (⟨1, by decide⟩ : Fin 40) (rowOf L (⟨0, by decide⟩ : Fin 2))),
        X (rowT (⟨1, by decide⟩ : Fin 40) (rowOf L (⟨1, by decide⟩ : Fin 2))),
        X (rowT (⟨2, by decide⟩ : Fin 40) (rowOf L (⟨0, by decide⟩ : Fin 2))),
        X (rowT (⟨2, by decide⟩ : Fin 40) (rowOf L (⟨1, by decide⟩ : Fin 2))),
        X (rowT (⟨3, by decide⟩ : Fin 40) (rowOf L (⟨0, by decide⟩ : Fin 2))),
        X (rowT (⟨3, by decide⟩ : Fin 40) (rowOf L (⟨1, by decide⟩ : Fin 2))),
        X (rowT (⟨4, by decide⟩ : Fin 40) (rowOf L (⟨0, by decide⟩ : Fin 2))),
        X (rowT (⟨4, by decide⟩ : Fin 40) (rowOf L (⟨1, by decide⟩ : Fin 2))),
        X (rowT (⟨5, by decide⟩ : Fin 40) (rowOf L (⟨0, by decide⟩ : Fin 2))),
        X (rowT (⟨5, by decide⟩ : Fin 40) (rowOf L (⟨1, by decide⟩ : Fin 2))),
        X (rowT (⟨6, by decide⟩ : Fin 40) (rowOf L (⟨0, by decide⟩ : Fin 2))),
        X (rowT (⟨6, by decide⟩ : Fin 40) (rowOf L (⟨1, by decide⟩ : Fin 2))),
        X (rowT (⟨7, by decide⟩ : Fin 40) (rowOf L (⟨0, by decide⟩ : Fin 2))),
        X (rowT (⟨7, by decide⟩ : Fin 40) (rowOf L (⟨1, by decide⟩ : Fin 2))),
        X (rowT (⟨8, by decide⟩ : Fin 40) (rowOf L (⟨0, by decide⟩ : Fin 2))),
        X (rowT (⟨8, by decide⟩ : Fin 40) (rowOf L (⟨1, by decide⟩ : Fin 2))),
        X (rowT (⟨9, by decide⟩ : Fin 40) (rowOf L (⟨0, by decide⟩ : Fin 2))),
        X (rowT (⟨9, by decide⟩ : Fin 40) (rowOf L (⟨1, by decide⟩ : Fin 2))),
        X (rowT (⟨10, by decide⟩ : Fin 40) (rowOf L (⟨0, by decide⟩ : Fin 2))),
        X (rowT (⟨10, by decide⟩ : Fin 40) (rowOf L (⟨1, by decide⟩ : Fin 2))),
        X (rowT (⟨11, by decide⟩ : Fin 40) (rowOf L (⟨0, by decide⟩ : Fin 2))),
        X (rowT (⟨11, by decide⟩ : Fin 40) (rowOf L (⟨1, by decide⟩ : Fin 2))),
        X (rowT (⟨12, by decide⟩ : Fin 40) (rowOf L (⟨0, by decide⟩ : Fin 2))),
        X (rowT (⟨12, by decide⟩ : Fin 40) (rowOf L (⟨1, by decide⟩ : Fin 2))),
        X (rowT (⟨13, by decide⟩ : Fin 40) (rowOf L (⟨0, by decide⟩ : Fin 2))),
        X (rowT (⟨13, by decide⟩ : Fin 40) (rowOf L (⟨1, by decide⟩ : Fin 2))),
        X (rowT (⟨14, by decide⟩ : Fin 40) (rowOf L (⟨0, by decide⟩ : Fin 2))),
        X (rowT (⟨14, by decide⟩ : Fin 40) (rowOf L (⟨1, by decide⟩ : Fin 2))),
        X (rowT (⟨15, by decide⟩ : Fin 40) (rowOf L (⟨0, by decide⟩ : Fin 2))),
        X (rowT (⟨15, by decide⟩ : Fin 40) (rowOf L (⟨1, by decide⟩ : Fin 2))),
        X (rowT (⟨16, by decide⟩ : Fin 40) (rowOf L (⟨0, by decide⟩ : Fin 2))),
        X (rowT (⟨16, by decide⟩ : Fin 40) (rowOf L (⟨1, by decide⟩ : Fin 2))),
        X (rowT (⟨17, by decide⟩ : Fin 40) (rowOf L (⟨0, by decide⟩ : Fin 2))),
        X (rowT (⟨17, by decide⟩ : Fin 40) (rowOf L (⟨1, by decide⟩ : Fin 2))),
        X (rowT (⟨18, by decide⟩ : Fin 40) (rowOf L (⟨0, by decide⟩ : Fin 2))),
        X (rowT (⟨18, by decide⟩ : Fin 40) (rowOf L (⟨1, by decide⟩ : Fin 2))),
        X (rowT (⟨19, by decide⟩ : Fin 40) (rowOf L (⟨0, by decide⟩ : Fin 2))),
        X (rowT (⟨19, by decide⟩ : Fin 40) (rowOf L (⟨1, by decide⟩ : Fin 2))),
        X (rowT (⟨20, by decide⟩ : Fin 40) (rowOf L (⟨0, by decide⟩ : Fin 2))),
        X (rowT (⟨20, by decide⟩ : Fin 40) (rowOf L (⟨1, by decide⟩ : Fin 2))),
        X (rowT (⟨21, by decide⟩ : Fin 40) (rowOf L (⟨0, by decide⟩ : Fin 2))),
        X (rowT (⟨21, by decide⟩ : Fin 40) (rowOf L (⟨1, by decide⟩ : Fin 2))),
        X (rowT (⟨22, by decide⟩ : Fin 40) (rowOf L (⟨0, by decide⟩ : Fin 2))),
        X (rowT (⟨22, by decide⟩ : Fin 40) (rowOf L (⟨1, by decide⟩ : Fin 2))),
        X (rowT (⟨23, by decide⟩ : Fin 40) (rowOf L (⟨0, by decide⟩ : Fin 2))),
        X (rowT (⟨23, by decide⟩ : Fin 40) (rowOf L (⟨1, by decide⟩ : Fin 2))),
        X (rowT (⟨24, by decide⟩ : Fin 40) (rowOf L (⟨0, by decide⟩ : Fin 2))),
        X (rowT (⟨24, by decide⟩ : Fin 40) (rowOf L (⟨1, by decide⟩ : Fin 2))),
        X (rowT (⟨25, by decide⟩ : Fin 40) (rowOf L (⟨0, by decide⟩ : Fin 2))),
        X (rowT (⟨25, by decide⟩ : Fin 40) (rowOf L (⟨1, by decide⟩ : Fin 2))),
        X (rowT (⟨26, by decide⟩ : Fin 40) (rowOf L (⟨0, by decide⟩ : Fin 2))),
        X (rowT (⟨26, by decide⟩ : Fin 40) (rowOf L (⟨1, by decide⟩ : Fin 2))),
        X (rowT (⟨27, by decide⟩ : Fin 40) (rowOf L (⟨0, by decide⟩ : Fin 2))),
        X (rowT (⟨27, by decide⟩ : Fin 40) (rowOf L (⟨1, by decide⟩ : Fin 2))),
        X (rowT (⟨28, by decide⟩ : Fin 40) (rowOf L (⟨0, by decide⟩ : Fin 2))),
        X (rowT (⟨28, by decide⟩ : Fin 40) (rowOf L (⟨1, by decide⟩ : Fin 2))),
        X (rowT (⟨29, by decide⟩ : Fin 40) (rowOf L (⟨0, by decide⟩ : Fin 2))),
        X (rowT (⟨29, by decide⟩ : Fin 40) (rowOf L (⟨1, by decide⟩ : Fin 2))),
        X (rowT (⟨30, by decide⟩ : Fin 40) (rowOf L (⟨0, by decide⟩ : Fin 2))),
        X (rowT (⟨30, by decide⟩ : Fin 40) (rowOf L (⟨1, by decide⟩ : Fin 2))),
        X (rowT (⟨31, by decide⟩ : Fin 40) (rowOf L (⟨0, by decide⟩ : Fin 2))),
        X (rowT (⟨31, by decide⟩ : Fin 40) (rowOf L (⟨1, by decide⟩ : Fin 2))),
        X (rowT (⟨32, by decide⟩ : Fin 40) (rowOf L (⟨0, by decide⟩ : Fin 2))),
        X (rowT (⟨32, by decide⟩ : Fin 40) (rowOf L (⟨1, by decide⟩ : Fin 2))),
        X (rowT (⟨33, by decide⟩ : Fin 40) (rowOf L (⟨0, by decide⟩ : Fin 2))),
        X (rowT (⟨33, by decide⟩ : Fin 40) (rowOf L (⟨1, by decide⟩ : Fin 2))),
        X (rowT (⟨34, by decide⟩ : Fin 40) (rowOf L (⟨0, by decide⟩ : Fin 2))),
        X (rowT (⟨34, by decide⟩ : Fin 40) (rowOf L (⟨1, by decide⟩ : Fin 2))),
        X (rowT (⟨35, by decide⟩ : Fin 40) (rowOf L (⟨0, by decide⟩ : Fin 2))),
        X (rowT (⟨35, by decide⟩ : Fin 40) (rowOf L (⟨1, by decide⟩ : Fin 2))),
        X (rowT (⟨36, by decide⟩ : Fin 40) (rowOf L (⟨0, by decide⟩ : Fin 2))),
        X (rowT (⟨36, by decide⟩ : Fin 40) (rowOf L (⟨1, by decide⟩ : Fin 2))),
        X (rowT (⟨37, by decide⟩ : Fin 40) (rowOf L (⟨0, by decide⟩ : Fin 2))),
        X (rowT (⟨37, by decide⟩ : Fin 40) (rowOf L (⟨1, by decide⟩ : Fin 2))),
        X (rowT (⟨38, by decide⟩ : Fin 40) (rowOf L (⟨0, by decide⟩ : Fin 2))),
        X (rowT (⟨38, by decide⟩ : Fin 40) (rowOf L (⟨1, by decide⟩ : Fin 2))),
        X (rowT (⟨39, by decide⟩ : Fin 40) (rowOf L (⟨0, by decide⟩ : Fin 2)))]
        (X (rowT (⟨39, by decide⟩ : Fin 40) (rowOf L (⟨1, by decide⟩ : Fin 2)))) :=
  chain_congr (congrArg X (dst_set_0_0 L)) <|
  chain_congr (congrArg X (dst_set_0_1 L)) <|
  chain_congr (congrArg X (dst_set_1_0 L)) <|
  chain_congr (congrArg X (dst_set_1_1 L)) <|
  chain_congr (congrArg X (dst_set_2_0 L)) <|
  chain_congr (congrArg X (dst_set_2_1 L)) <|
  chain_congr (congrArg X (dst_set_3_0 L)) <|
  chain_congr (congrArg X (dst_set_3_1 L)) <|
  chain_congr (congrArg X (dst_set_4_0 L)) <|
  chain_congr (congrArg X (dst_set_4_1 L)) <|
  chain_congr (congrArg X (dst_set_5_0 L)) <|
  chain_congr (congrArg X (dst_set_5_1 L)) <|
  chain_congr (congrArg X (dst_set_6_0 L)) <|
  chain_congr (congrArg X (dst_set_6_1 L)) <|
  chain_congr (congrArg X (dst_set_7_0 L)) <|
  chain_congr (congrArg X (dst_set_7_1 L)) <|
  chain_congr (congrArg X (dst_set_8_0 L)) <|
  chain_congr (congrArg X (dst_set_8_1 L)) <|
  chain_congr (congrArg X (dst_set_9_0 L)) <|
  chain_congr (congrArg X (dst_set_9_1 L)) <|
  chain_congr (congrArg X (dst_set_10_0 L)) <|
  chain_congr (congrArg X (dst_set_10_1 L)) <|
  chain_congr (congrArg X (dst_set_11_0 L)) <|
  chain_congr (congrArg X (dst_set_11_1 L)) <|
  chain_congr (congrArg X (dst_set_12_0 L)) <|
  chain_congr (congrArg X (dst_set_12_1 L)) <|
  chain_congr (congrArg X (dst_set_13_0 L)) <|
  chain_congr (congrArg X (dst_set_13_1 L)) <|
  chain_congr (congrArg X (dst_set_14_0 L)) <|
  chain_congr (congrArg X (dst_set_14_1 L)) <|
  chain_congr (congrArg X (dst_set_15_0 L)) <|
  chain_congr (congrArg X (dst_set_15_1 L)) <|
  chain_congr (congrArg X (dst_set_16_0 L)) <|
  chain_congr (congrArg X (dst_set_16_1 L)) <|
  chain_congr (congrArg X (dst_set_17_0 L)) <|
  chain_congr (congrArg X (dst_set_17_1 L)) <|
  chain_congr (congrArg X (dst_set_18_0 L)) <|
  chain_congr (congrArg X (dst_set_18_1 L)) <|
  chain_congr (congrArg X (dst_set_19_0 L)) <|
  chain_congr (congrArg X (dst_set_19_1 L)) <|
  chain_congr (congrArg X (dst_set_20_0 L)) <|
  chain_congr (congrArg X (dst_set_20_1 L)) <|
  chain_congr (congrArg X (dst_set_21_0 L)) <|
  chain_congr (congrArg X (dst_set_21_1 L)) <|
  chain_congr (congrArg X (dst_set_22_0 L)) <|
  chain_congr (congrArg X (dst_set_22_1 L)) <|
  chain_congr (congrArg X (dst_set_23_0 L)) <|
  chain_congr (congrArg X (dst_set_23_1 L)) <|
  chain_congr (congrArg X (dst_set_24_0 L)) <|
  chain_congr (congrArg X (dst_set_24_1 L)) <|
  chain_congr (congrArg X (dst_set_25_0 L)) <|
  chain_congr (congrArg X (dst_set_25_1 L)) <|
  chain_congr (congrArg X (dst_set_26_0 L)) <|
  chain_congr (congrArg X (dst_set_26_1 L)) <|
  chain_congr (congrArg X (dst_set_27_0 L)) <|
  chain_congr (congrArg X (dst_set_27_1 L)) <|
  chain_congr (congrArg X (dst_set_28_0 L)) <|
  chain_congr (congrArg X (dst_set_28_1 L)) <|
  chain_congr (congrArg X (dst_set_29_0 L)) <|
  chain_congr (congrArg X (dst_set_29_1 L)) <|
  chain_congr (congrArg X (dst_set_30_0 L)) <|
  chain_congr (congrArg X (dst_set_30_1 L)) <|
  chain_congr (congrArg X (dst_set_31_0 L)) <|
  chain_congr (congrArg X (dst_set_31_1 L)) <|
  chain_congr (congrArg X (dst_set_32_0 L)) <|
  chain_congr (congrArg X (dst_set_32_1 L)) <|
  chain_congr (congrArg X (dst_set_33_0 L)) <|
  chain_congr (congrArg X (dst_set_33_1 L)) <|
  chain_congr (congrArg X (dst_set_34_0 L)) <|
  chain_congr (congrArg X (dst_set_34_1 L)) <|
  chain_congr (congrArg X (dst_set_35_0 L)) <|
  chain_congr (congrArg X (dst_set_35_1 L)) <|
  chain_congr (congrArg X (dst_set_36_0 L)) <|
  chain_congr (congrArg X (dst_set_36_1 L)) <|
  chain_congr (congrArg X (dst_set_37_0 L)) <|
  chain_congr (congrArg X (dst_set_37_1 L)) <|
  chain_congr (congrArg X (dst_set_38_0 L)) <|
  chain_congr (congrArg X (dst_set_38_1 L)) <|
  chain_congr (congrArg X (dst_set_39_0 L)) <|
  chain_nil_congr (congrArg X (dst_set_39_1 L))

/-- The rows `(token, 2w + dd)` in table order are the task's rows along the list of pairs. -/
theorem rows_chain_pairs {M : Type} [URA M] (X : Finset S40x64x4096.Idx → sProp M) (L : grid0.Coords) :
    chain [X (rowT (⟨0, by decide⟩ : Fin 40) (rowOf L (⟨0, by decide⟩ : Fin 2))),
        X (rowT (⟨0, by decide⟩ : Fin 40) (rowOf L (⟨1, by decide⟩ : Fin 2))),
        X (rowT (⟨1, by decide⟩ : Fin 40) (rowOf L (⟨0, by decide⟩ : Fin 2))),
        X (rowT (⟨1, by decide⟩ : Fin 40) (rowOf L (⟨1, by decide⟩ : Fin 2))),
        X (rowT (⟨2, by decide⟩ : Fin 40) (rowOf L (⟨0, by decide⟩ : Fin 2))),
        X (rowT (⟨2, by decide⟩ : Fin 40) (rowOf L (⟨1, by decide⟩ : Fin 2))),
        X (rowT (⟨3, by decide⟩ : Fin 40) (rowOf L (⟨0, by decide⟩ : Fin 2))),
        X (rowT (⟨3, by decide⟩ : Fin 40) (rowOf L (⟨1, by decide⟩ : Fin 2))),
        X (rowT (⟨4, by decide⟩ : Fin 40) (rowOf L (⟨0, by decide⟩ : Fin 2))),
        X (rowT (⟨4, by decide⟩ : Fin 40) (rowOf L (⟨1, by decide⟩ : Fin 2))),
        X (rowT (⟨5, by decide⟩ : Fin 40) (rowOf L (⟨0, by decide⟩ : Fin 2))),
        X (rowT (⟨5, by decide⟩ : Fin 40) (rowOf L (⟨1, by decide⟩ : Fin 2))),
        X (rowT (⟨6, by decide⟩ : Fin 40) (rowOf L (⟨0, by decide⟩ : Fin 2))),
        X (rowT (⟨6, by decide⟩ : Fin 40) (rowOf L (⟨1, by decide⟩ : Fin 2))),
        X (rowT (⟨7, by decide⟩ : Fin 40) (rowOf L (⟨0, by decide⟩ : Fin 2))),
        X (rowT (⟨7, by decide⟩ : Fin 40) (rowOf L (⟨1, by decide⟩ : Fin 2))),
        X (rowT (⟨8, by decide⟩ : Fin 40) (rowOf L (⟨0, by decide⟩ : Fin 2))),
        X (rowT (⟨8, by decide⟩ : Fin 40) (rowOf L (⟨1, by decide⟩ : Fin 2))),
        X (rowT (⟨9, by decide⟩ : Fin 40) (rowOf L (⟨0, by decide⟩ : Fin 2))),
        X (rowT (⟨9, by decide⟩ : Fin 40) (rowOf L (⟨1, by decide⟩ : Fin 2))),
        X (rowT (⟨10, by decide⟩ : Fin 40) (rowOf L (⟨0, by decide⟩ : Fin 2))),
        X (rowT (⟨10, by decide⟩ : Fin 40) (rowOf L (⟨1, by decide⟩ : Fin 2))),
        X (rowT (⟨11, by decide⟩ : Fin 40) (rowOf L (⟨0, by decide⟩ : Fin 2))),
        X (rowT (⟨11, by decide⟩ : Fin 40) (rowOf L (⟨1, by decide⟩ : Fin 2))),
        X (rowT (⟨12, by decide⟩ : Fin 40) (rowOf L (⟨0, by decide⟩ : Fin 2))),
        X (rowT (⟨12, by decide⟩ : Fin 40) (rowOf L (⟨1, by decide⟩ : Fin 2))),
        X (rowT (⟨13, by decide⟩ : Fin 40) (rowOf L (⟨0, by decide⟩ : Fin 2))),
        X (rowT (⟨13, by decide⟩ : Fin 40) (rowOf L (⟨1, by decide⟩ : Fin 2))),
        X (rowT (⟨14, by decide⟩ : Fin 40) (rowOf L (⟨0, by decide⟩ : Fin 2))),
        X (rowT (⟨14, by decide⟩ : Fin 40) (rowOf L (⟨1, by decide⟩ : Fin 2))),
        X (rowT (⟨15, by decide⟩ : Fin 40) (rowOf L (⟨0, by decide⟩ : Fin 2))),
        X (rowT (⟨15, by decide⟩ : Fin 40) (rowOf L (⟨1, by decide⟩ : Fin 2))),
        X (rowT (⟨16, by decide⟩ : Fin 40) (rowOf L (⟨0, by decide⟩ : Fin 2))),
        X (rowT (⟨16, by decide⟩ : Fin 40) (rowOf L (⟨1, by decide⟩ : Fin 2))),
        X (rowT (⟨17, by decide⟩ : Fin 40) (rowOf L (⟨0, by decide⟩ : Fin 2))),
        X (rowT (⟨17, by decide⟩ : Fin 40) (rowOf L (⟨1, by decide⟩ : Fin 2))),
        X (rowT (⟨18, by decide⟩ : Fin 40) (rowOf L (⟨0, by decide⟩ : Fin 2))),
        X (rowT (⟨18, by decide⟩ : Fin 40) (rowOf L (⟨1, by decide⟩ : Fin 2))),
        X (rowT (⟨19, by decide⟩ : Fin 40) (rowOf L (⟨0, by decide⟩ : Fin 2))),
        X (rowT (⟨19, by decide⟩ : Fin 40) (rowOf L (⟨1, by decide⟩ : Fin 2))),
        X (rowT (⟨20, by decide⟩ : Fin 40) (rowOf L (⟨0, by decide⟩ : Fin 2))),
        X (rowT (⟨20, by decide⟩ : Fin 40) (rowOf L (⟨1, by decide⟩ : Fin 2))),
        X (rowT (⟨21, by decide⟩ : Fin 40) (rowOf L (⟨0, by decide⟩ : Fin 2))),
        X (rowT (⟨21, by decide⟩ : Fin 40) (rowOf L (⟨1, by decide⟩ : Fin 2))),
        X (rowT (⟨22, by decide⟩ : Fin 40) (rowOf L (⟨0, by decide⟩ : Fin 2))),
        X (rowT (⟨22, by decide⟩ : Fin 40) (rowOf L (⟨1, by decide⟩ : Fin 2))),
        X (rowT (⟨23, by decide⟩ : Fin 40) (rowOf L (⟨0, by decide⟩ : Fin 2))),
        X (rowT (⟨23, by decide⟩ : Fin 40) (rowOf L (⟨1, by decide⟩ : Fin 2))),
        X (rowT (⟨24, by decide⟩ : Fin 40) (rowOf L (⟨0, by decide⟩ : Fin 2))),
        X (rowT (⟨24, by decide⟩ : Fin 40) (rowOf L (⟨1, by decide⟩ : Fin 2))),
        X (rowT (⟨25, by decide⟩ : Fin 40) (rowOf L (⟨0, by decide⟩ : Fin 2))),
        X (rowT (⟨25, by decide⟩ : Fin 40) (rowOf L (⟨1, by decide⟩ : Fin 2))),
        X (rowT (⟨26, by decide⟩ : Fin 40) (rowOf L (⟨0, by decide⟩ : Fin 2))),
        X (rowT (⟨26, by decide⟩ : Fin 40) (rowOf L (⟨1, by decide⟩ : Fin 2))),
        X (rowT (⟨27, by decide⟩ : Fin 40) (rowOf L (⟨0, by decide⟩ : Fin 2))),
        X (rowT (⟨27, by decide⟩ : Fin 40) (rowOf L (⟨1, by decide⟩ : Fin 2))),
        X (rowT (⟨28, by decide⟩ : Fin 40) (rowOf L (⟨0, by decide⟩ : Fin 2))),
        X (rowT (⟨28, by decide⟩ : Fin 40) (rowOf L (⟨1, by decide⟩ : Fin 2))),
        X (rowT (⟨29, by decide⟩ : Fin 40) (rowOf L (⟨0, by decide⟩ : Fin 2))),
        X (rowT (⟨29, by decide⟩ : Fin 40) (rowOf L (⟨1, by decide⟩ : Fin 2))),
        X (rowT (⟨30, by decide⟩ : Fin 40) (rowOf L (⟨0, by decide⟩ : Fin 2))),
        X (rowT (⟨30, by decide⟩ : Fin 40) (rowOf L (⟨1, by decide⟩ : Fin 2))),
        X (rowT (⟨31, by decide⟩ : Fin 40) (rowOf L (⟨0, by decide⟩ : Fin 2))),
        X (rowT (⟨31, by decide⟩ : Fin 40) (rowOf L (⟨1, by decide⟩ : Fin 2))),
        X (rowT (⟨32, by decide⟩ : Fin 40) (rowOf L (⟨0, by decide⟩ : Fin 2))),
        X (rowT (⟨32, by decide⟩ : Fin 40) (rowOf L (⟨1, by decide⟩ : Fin 2))),
        X (rowT (⟨33, by decide⟩ : Fin 40) (rowOf L (⟨0, by decide⟩ : Fin 2))),
        X (rowT (⟨33, by decide⟩ : Fin 40) (rowOf L (⟨1, by decide⟩ : Fin 2))),
        X (rowT (⟨34, by decide⟩ : Fin 40) (rowOf L (⟨0, by decide⟩ : Fin 2))),
        X (rowT (⟨34, by decide⟩ : Fin 40) (rowOf L (⟨1, by decide⟩ : Fin 2))),
        X (rowT (⟨35, by decide⟩ : Fin 40) (rowOf L (⟨0, by decide⟩ : Fin 2))),
        X (rowT (⟨35, by decide⟩ : Fin 40) (rowOf L (⟨1, by decide⟩ : Fin 2))),
        X (rowT (⟨36, by decide⟩ : Fin 40) (rowOf L (⟨0, by decide⟩ : Fin 2))),
        X (rowT (⟨36, by decide⟩ : Fin 40) (rowOf L (⟨1, by decide⟩ : Fin 2))),
        X (rowT (⟨37, by decide⟩ : Fin 40) (rowOf L (⟨0, by decide⟩ : Fin 2))),
        X (rowT (⟨37, by decide⟩ : Fin 40) (rowOf L (⟨1, by decide⟩ : Fin 2))),
        X (rowT (⟨38, by decide⟩ : Fin 40) (rowOf L (⟨0, by decide⟩ : Fin 2))),
        X (rowT (⟨38, by decide⟩ : Fin 40) (rowOf L (⟨1, by decide⟩ : Fin 2))),
        X (rowT (⟨39, by decide⟩ : Fin 40) (rowOf L (⟨0, by decide⟩ : Fin 2)))]
        (X (rowT (⟨39, by decide⟩ : Fin 40) (rowOf L (⟨1, by decide⟩ : Fin 2))))
      = chain (pairs79.map fun p => X (rowW (widL L) p)) (X (rowW (widL L) pairLast)) := rfl

end Cert.Proof.KB

end
-- ==== Proof.KB.RowsJoin.lean ====
/-
  A task's share of the result array and its 80 destination rows. The share `oSet w` is the disjoint union of the rows
  `(t, 2w + dd)` over the 80 pairs `(t, dd)`; the iterated conjunction over the pairs is the right-nested conjunction
  along the table's list of them (79 pairs, then the last: the list has no repetition and misses only the last pair);
  and each row is the element set of the destination view the kernel addresses it by. So the share at `fo` is the 80
  destination rows at `fo`, and 80 destination rows, each at contents equal to `GT A` on the row, are the share at `GT A`.
-/
import proofs.«207382_g17746804867166_cont_8to1_1179_25_alg».proof.Proof.KB.BodyCtxV
import proofs.«207382_g17746804867166_cont_8to1_1179_25_alg».proof.Proof.KB.RowsJoinTable

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The 80 pairs, along the table's list -/

theorem pairs79_nodup : pairs79.Nodup := by decide

theorem pairs79_rest : (Finset.univ : Finset (Fin 40 × Fin 2)) \ pairs79.toFinset = {pairLast} := by decide

/-- The conjunction over the 80 pairs, right-nested in table order. -/
theorem bigSep_pairs {M : Type} [URA M] (Φ : Fin 40 × Fin 2 → sProp M) :
    bigSep Finset.univ Φ = chain (pairs79.map Φ) (Φ pairLast) := by
  rw [bigSep_chain Φ pairs79 pairs79_nodup Finset.univ (fun _ _ => Finset.mem_univ _), pairs79_rest, bigSep_singleton]

/-- An assertion of a set of indices, over the task's 80 rows: right-nested over the destination views' element sets. -/
theorem bigSep_rows {M : Type} [URA M] (X : Finset S40x64x4096.Idx → sProp M) (L : grid0.Coords) :
    (bigSep Finset.univ fun p : Fin 40 × Fin 2 => X (rowW (widL L) p))
      = chain (pairs79.map fun p => X (rowW (widL L) p)) (X (rowW (widL L) pairLast)) :=
  bigSep_pairs fun p => X (rowW (widL L) p)

/-- The same conjunction at the destination views' element sets, in table order. -/
theorem rows_chain {M : Type} [URA M] (X : Finset S40x64x4096.Idx → sProp M) (L : grid0.Coords) :
    chain [X (dst_0_0 L).view.set, X (dst_0_1 L).view.set, X (dst_1_0 L).view.set, X (dst_1_1 L).view.set, X (dst_2_0 L).view.set, X (dst_2_1 L).view.set,
        X (dst_3_0 L).view.set, X (dst_3_1 L).view.set, X (dst_4_0 L).view.set, X (dst_4_1 L).view.set, X (dst_5_0 L).view.set, X (dst_5_1 L).view.set,
        X (dst_6_0 L).view.set, X (dst_6_1 L).view.set, X (dst_7_0 L).view.set, X (dst_7_1 L).view.set, X (dst_8_0 L).view.set, X (dst_8_1 L).view.set,
        X (dst_9_0 L).view.set, X (dst_9_1 L).view.set, X (dst_10_0 L).view.set, X (dst_10_1 L).view.set, X (dst_11_0 L).view.set, X (dst_11_1 L).view.set,
        X (dst_12_0 L).view.set, X (dst_12_1 L).view.set, X (dst_13_0 L).view.set, X (dst_13_1 L).view.set, X (dst_14_0 L).view.set, X (dst_14_1 L).view.set,
        X (dst_15_0 L).view.set, X (dst_15_1 L).view.set, X (dst_16_0 L).view.set, X (dst_16_1 L).view.set, X (dst_17_0 L).view.set, X (dst_17_1 L).view.set,
        X (dst_18_0 L).view.set, X (dst_18_1 L).view.set, X (dst_19_0 L).view.set, X (dst_19_1 L).view.set, X (dst_20_0 L).view.set, X (dst_20_1 L).view.set,
        X (dst_21_0 L).view.set, X (dst_21_1 L).view.set, X (dst_22_0 L).view.set, X (dst_22_1 L).view.set, X (dst_23_0 L).view.set, X (dst_23_1 L).view.set,
        X (dst_24_0 L).view.set, X (dst_24_1 L).view.set, X (dst_25_0 L).view.set, X (dst_25_1 L).view.set, X (dst_26_0 L).view.set, X (dst_26_1 L).view.set,
        X (dst_27_0 L).view.set, X (dst_27_1 L).view.set, X (dst_28_0 L).view.set, X (dst_28_1 L).view.set, X (dst_29_0 L).view.set, X (dst_29_1 L).view.set,
        X (dst_30_0 L).view.set, X (dst_30_1 L).view.set, X (dst_31_0 L).view.set, X (dst_31_1 L).view.set, X (dst_32_0 L).view.set, X (dst_32_1 L).view.set,
        X (dst_33_0 L).view.set, X (dst_33_1 L).view.set, X (dst_34_0 L).view.set, X (dst_34_1 L).view.set, X (dst_35_0 L).view.set, X (dst_35_1 L).view.set,
        X (dst_36_0 L).view.set, X (dst_36_1 L).view.set, X (dst_37_0 L).view.set, X (dst_37_1 L).view.set, X (dst_38_0 L).view.set, X (dst_38_1 L).view.set,
        X (dst_39_0 L).view.set] (X (dst_39_1 L).view.set)
      = chain (pairs79.map fun p => X (rowW (widL L) p)) (X (rowW (widL L) pairLast)) :=
  (rows_chain_sets X L).trans (rows_chain_pairs X L)

/-! ## The share and the rows -/

set_option maxHeartbeats 8000000 in
/-- The task's share at `fo` is its 80 destination rows at `fo`. -/
theorem rows_split (fo : FVec F S40x64x4096 .f32) (d : Dev nD) (L : grid0.Coords) :
    (outL d ↦[oSet (widL L)]{fullShare} (fo : Buf (Elt F) (outL d)) : sProp 𝕄) ⊢ rowsIn fo d L := by
  rw [oSet_split]
  refine Entails.of_eq ?_
  refine (bigSep_rows (fun s => (outL d ↦[s]{fullShare} (fo : Buf (Elt F) (outL d)) : sProp 𝕄)) L).trans ?_
  refine (rows_chain (fun s => (outL d ↦[s]{fullShare} (fo : Buf (Elt F) (outL d)) : sProp 𝕄)) L).symm.trans ?_
  unfold rowsIn
  rfl

set_option maxHeartbeats 8000000 in
/-- 80 destination rows, each at contents equal to `GT A` on the row, are the task's share at `GT A`. -/
theorem rows_join (A : Arrs F) (d : Dev nD) (L : grid0.Coords) :
    rowsDone A d L ⊢ (outL d ↦[oSet (widL L)]{fullShare} (GT A : Buf (Elt F) (outL d)) : sProp 𝕄) := by
  refine Entails.trans (Entails.of_eq ?_) (oSet_join d (widL L) (GT A : Buf (Elt F) (outL d)))
  refine Eq.trans ?_ (bigSep_rows (fun s => (iprop(∃ g : Buf (Elt F) (outL d), ⌜∀ x ∈ s, g x = (GT A : Buf (Elt F) (outL d)) x⌝ ∗ (outL d ↦[s]{fullShare} g)) : sProp 𝕄)) L).symm
  refine Eq.trans ?_ (rows_chain (fun s => (iprop(∃ g : Buf (Elt F) (outL d), ⌜∀ x ∈ s, g x = (GT A : Buf (Elt F) (outL d)) x⌝ ∗ (outL d ↦[s]{fullShare} g)) : sProp 𝕄)) L)
  unfold rowsDone
  rfl

end Cert.Proof.KB

end
-- ==== Proof.KB.Tile.lean ====
/-
  The body obligation of a vector subcore's task: the subcore's scoped storage is opened into its scratch buffers and
  semaphores, the task's rows of the result array into the 80 destination rows, the task is run, and everything is put
  back — the rows joined at the one whole-array function `GT A`.
-/
import proofs.«207382_g17746804867166_cont_8to1_1179_25_alg».proof.Proof.KB.Body
import proofs.«207382_g17746804867166_cont_8to1_1179_25_alg».proof.Proof.KB.RowsJoin

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- From what the run leaves to the obligation's postcondition: the 80 rows joined, the scoped storage closed. -/
theorem exit_conv (hF : (K (F := F)).Facts) (A : Arrs F) (d : Dev nD) (L : grid0.Coords)
    (O : CellTallies nD τ sig (HIx 1)) (W : Waits sig (HIx 1)) :
    tilePost A d L O W ⊢ (iprop(tileOut A d (widL L) ∗ scopedBufs (V d (cV L) (jV L)) ∗ scopedSems0 (V d (cV L) (jV L))
      ∗ ∃ W', ⌜∀ p ∈ W', p ∈ W ∨ p.2 = none⌝ ∗ owes (V d (cV L) (jV L)) O W') : sProp 𝕄) := by
  unfold tilePost
  iintro ⟨⟨%W', %hW', HO⟩, Hcat, Hnum, Hemb, Hw, Hb, Hcls, Hrows, Htail⟩
  ihave Hout := (rows_join A d L) $$ Hrows
  ihave Hout' := (Entails.of_eq (pts_out d L _ _ _).symm) $$ Hout
  ihave Hx := (body_exit hF A d L) $$ [Hcat Hnum Hemb Hw Hb Hcls Hout' Htail]
  · isplitl [Hcat]; · iexact Hcat
    isplitl [Hnum]; · iexact Hnum
    isplitl [Hemb]; · iexact Hemb
    isplitl [Hw]; · iexact Hw
    isplitl [Hb]; · iexact Hb
    isplitl [Hcls]; · iexact Hcls
    isplitl [Hout']; · iexact Hout'
    iexact Htail
  icases Hx with ⟨Hto, Hsb, Hss⟩
  isplitl [Hto]; · iexact Hto
  isplitl [Hsb]; · iexact Hsb
  isplitl [Hss]; · iexact Hss
  iexists W'; isplitr
  · ipureintro; exact hW'
  · iexact HO

/-- The task at every grid point, every category word a vocabulary index. -/
theorem tile_body (hF : (K (F := F)).Facts) (A : Arrs F) (hcat : ∀ j, (A.cat j).toNat < 100000) (fo : FVec F S40x64x4096 .f32) :
    TileBody A fo := by
  intro d L O W hO
  refine (body_enter hF A fo d L O W hO).trans ?_
  iintro ⟨Hmw, Hcat, Hnum, Hemb, Hw, Hb, Hcls, Hout, ⟨%f0, H0⟩, ⟨%f1, H1⟩, ⟨%f2, H2⟩, ⟨%f3, H3⟩, ⟨%f4, H4⟩, ⟨%f5, H5⟩, ⟨%f6, H6⟩,
    ⟨%f7, H7⟩, ⟨%f8, H8⟩, ⟨%f9, H9⟩, Htail⟩
  ihave Hout' := (Entails.of_eq (pts_out d L _ _ _)) $$ Hout
  ihave Hrows := (rows_split fo d L) $$ Hout'
  iapply ((tile_run A hcat fo d L O W f0 f1 f2 f3 f4 f5 f6 f7 f8 f9).trans (wp_mono frame _ _ fun _ => exit_conv hF A d L O W))
  unfold tilePre
  isplitl [Hmw]; · iexact Hmw
  isplitl [Hcat]; · iexact Hcat
  isplitl [Hnum]; · iexact Hnum
  isplitl [Hemb]; · iexact Hemb
  isplitl [Hw]; · iexact Hw
  isplitl [Hb]; · iexact Hb
  isplitl [Hcls]; · iexact Hcls
  isplitl [Hrows]; · iexact Hrows
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Htail

end Cert.Proof.KB

end
-- ==== Proof.KB.PreCat.lean ====
/-
  The category words the call reads are vocabulary indices. The first operand array of the call is the category
  argument transposed and flattened: its element `k` is the argument's element `(k % 4096, k / 4096)`. The
  precondition makes every word of the argument, read unsigned, less than 100000; so is every word of the operand.
-/
import proofs.«207382_g17746804867166_cont_8to1_1179_25_alg».proof.Proof.KB.LaunchHost
import proofs.«207382_g17746804867166_cont_8to1_1179_25_alg».proof.Proof.HostRead
import proofs.«207382_g17746804867166_cont_8to1_1179_25_alg».proof.Proof.PreRange

noncomputable section

namespace Cert.Proof.KB

open Cert.Kernel Cert.Kernel.Gen

open Idealize.ShloMosaic

variable {F : FTy → Type} [FloatOps F]

/-- Under the precondition, every word of the call's category operand is below 100000. -/
theorem apre_cat_range [hPre_input_domain : Cert.Pre_input_domain.Facts] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1))
    (d : Dev nD) : ∀ j, ((Apre m d).cat j).toNat < 100000 := by
  intro j
  obtain ⟨k, rfl⟩ : ∃ k : Fin 106496, j = ValueIdx.ix1 k := ⟨j 0, ValueIdx.eq_ix1 j⟩
  have hr := Cert.Proof.PreRange.cat_range (F := F) _ _ _ _ _ _ (h d)
  have e := Cert.Proof.Host.catT_apply_flat (m ((SparseCore.T d).loc main_arg0)) transposes_S4096x26_S26x4096_1_0 shapeCasts_S26x4096_S106496 k
  exact lt_of_eq_of_lt (congrArg BitVec.toNat e) (hr _)

end Cert.Proof.KB

end
-- ==== Proof.RefLayout.lean ====
/-
  The reference's two data-dependent layout steps, read at an index by coordinates, for any element type and any proof of
  the shape relations they take.

  • The row gather. `emb[field, cat]` of the stacked tables `emb : [26, 100000, 64]` at start indices
    `idx : [4096, 26, 2]` (index vector on the last axis, both leading operand axes collapsed, slices `[1, 1, 64]`):
    result element `(n, i, d)` is the operand at row `idx[n, i, 0]`, `idx[n, i, 1]` — each read as a signed integer and
    clamped so that the unit slice fits — and column `d`.
  • The concatenations. The start indices are two `[4096, 26, 1]` arrays joined on the last axis; the result is the
    class token `[4096, 1, 64]`, the 26 embedding rows `[4096, 26, 64]` and the 13 numeric tokens `[4096, 13, 64]` joined
    on the middle axis: token 0, tokens 1 … 26, tokens 27 … 39.
-/
import Idealize.ShloMosaic.Lib.ValueLayout

noncomputable section

namespace Cert.Proof.RefSide

open Idealize.ShloMosaic Idealize.ShloMosaic.ValueIdx

abbrev S4096x26 : Shape := ⟨2, ![4096, 26]⟩
abbrev S4096x13 : Shape := ⟨2, ![4096, 13]⟩
abbrev S26x100000x64 : Shape := ⟨3, ![26, 100000, 64]⟩
abbrev S13x64 : Shape := ⟨2, ![13, 64]⟩
abbrev S1x1x64 : Shape := ⟨3, ![1, 1, 64]⟩
abbrev S4096x26x1 : Shape := ⟨3, ![4096, 26, 1]⟩
abbrev S4096x26x2 : Shape := ⟨3, ![4096, 26, 2]⟩
abbrev S4096x26x64 : Shape := ⟨3, ![4096, 26, 64]⟩
abbrev S4096x13x64 : Shape := ⟨3, ![4096, 13, 64]⟩
abbrev S4096x1x64 : Shape := ⟨3, ![4096, 1, 64]⟩
abbrev S4096x40x64 : Shape := ⟨3, ![4096, 40, 64]⟩

variable {α : Type}

/-! ## The row gather -/

/-- The gather's dimension numbers; their conditions `wf` are decided on the literal shapes. -/
abbrev rowDims (wf : GatherDims.WF S26x100000x64 S4096x26x2 S4096x26x64 [2] [0, 1] [] [0, 1] [] 2 ![1, 1, 64]) :
    GatherDims S26x100000x64 S4096x26x2 S4096x26x64 where
  offsetDims := [2]
  collapsedSliceDims := [0, 1]
  operandBatchingDims := []
  startIndicesBatchingDims := []
  startIndexMap := [0, 1]
  indexVectorDim := 2
  sliceSizes := ![1, 1, 64]
  wf := wf

/-- THE GATHER READ AT `(n, i, d)`: the operand at rows `idx[n, i, 0]`, `idx[n, i, 1]` (signed, clamped into the
    table) and column `d`. -/
theorem gather_rows_apply {w : Nat}
    (wf : GatherDims.WF S26x100000x64 S4096x26x2 S4096x26x64 [2] [0, 1] [] [0, 1] [] 2 ![1, 1, 64])
    (x : S26x100000x64.Idx → α) (idx : IVec S4096x26x2 w) (n : Fin 4096) (i : Fin 26) (d : Fin 64) :
    Host.gather (rowDims wf) x idx (ix3 n i d)
      = x (ix3 (⟨min (idx (ix3 n i (0 : Fin 2))).toInt.toNat 25, by omega⟩ : Fin 26)
            (⟨min (idx (ix3 n i (1 : Fin 2))).toInt.toNat 99999, by omega⟩ : Fin 100000) d) := by
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  unfold Host.gather
  congr 1
  funext a
  refine Fin.ext ?_
  match a with
  | ⟨0, _⟩ =>
    show (rowDims wf).start (ix3 n i d) idx 0 + (rowDims wf).batchCoord (ix3 n i d) 0 + (rowDims wf).offCoord (ix3 n i d) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 3) ∈ (rowDims wf).startIndexMap from m0)]
    have hsi : (rowDims wf).siIdx (ix3 n i d) ⟨List.idxOf (0 : Fin 3) (rowDims wf).startIndexMap,
        List.idxOf_lt_length_iff.2 m0⟩ = ix3 n i (0 : Fin 2) := by
      funext b; refine Fin.ext ?_
      match b with
      | ⟨0, _⟩ => rfl
      | ⟨1, _⟩ => rfl
      | ⟨2, _⟩ => rfl
    rw [hsi]
    rfl
  | ⟨1, _⟩ =>
    show (rowDims wf).start (ix3 n i d) idx 1 + (rowDims wf).batchCoord (ix3 n i d) 1 + (rowDims wf).offCoord (ix3 n i d) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (rowDims wf).startIndexMap from m1)]
    have hsi : (rowDims wf).siIdx (ix3 n i d) ⟨List.idxOf (1 : Fin 3) (rowDims wf).startIndexMap,
        List.idxOf_lt_length_iff.2 m1⟩ = ix3 n i (1 : Fin 2) := by
      funext b; refine Fin.ext ?_
      match b with
      | ⟨0, _⟩ => rfl
      | ⟨1, _⟩ => rfl
      | ⟨2, _⟩ => rfl
    rw [hsi]
    rfl
  | ⟨2, _⟩ =>
    show (rowDims wf).start (ix3 n i d) idx 2 + (rowDims wf).batchCoord (ix3 n i d) 2 + (rowDims wf).offCoord (ix3 n i d) 2 = _
    rw [GatherDims.batchCoord_eq_zero _ _ _ List.not_mem_nil]
    unfold GatherDims.start
    rw [dif_neg (show ¬ (2 : Fin 3) ∈ (rowDims wf).startIndexMap from m2)]
    simp only [Nat.add_zero, Nat.zero_add]
    rfl

/-! ## The concatenations -/

/-- The start indices `[4096, 26, 2]`: component 0 is the first piece. -/
theorem idx_concat_left (x₁ x₂ : S4096x26x1.Idx → α)
    (h : Shape.Concatenates [S4096x26x1, S4096x26x1] S4096x26x2 2) (n : Fin 4096) (i : Fin 26) :
    concatenate S4096x26x2 2 [⟨S4096x26x1, x₁⟩, ⟨S4096x26x1, x₂⟩] h (ix3 n i (0 : Fin 2)) = x₁ (ix3 n i (0 : Fin 1)) :=
  concatenate_pair_apply_left 2 x₁ x₂ h _ rfl _ (fun b => match b with | ⟨0, _⟩ => rfl | ⟨1, _⟩ => rfl | ⟨2, _⟩ => rfl)

/-- The start indices `[4096, 26, 2]`: component 1 is the second piece. -/
theorem idx_concat_right (x₁ x₂ : S4096x26x1.Idx → α)
    (h : Shape.Concatenates [S4096x26x1, S4096x26x1] S4096x26x2 2) (n : Fin 4096) (i : Fin 26) :
    concatenate S4096x26x2 2 [⟨S4096x26x1, x₁⟩, ⟨S4096x26x1, x₂⟩] h (ix3 n i (1 : Fin 2)) = x₂ (ix3 n i (0 : Fin 1)) :=
  concatenate_pair_apply_right 2 x₁ x₂ h _ rfl rfl _
    (fun b hb => match b, hb with | ⟨0, _⟩, _ => rfl | ⟨1, _⟩, _ => rfl | ⟨2, _⟩, hb => absurd rfl hb) rfl

section Tokens
variable (x₁ : S4096x1x64.Idx → α) (x₂ : S4096x26x64.Idx → α) (x₃ : S4096x13x64.Idx → α)
  (h : Shape.Concatenates [S4096x1x64, S4096x26x64, S4096x13x64] S4096x40x64 1) (n : Fin 4096) (d : Fin 64)

/-- Token 0 of the result is the first piece's one token. -/
theorem tok_concat_cls :
    concatenate S4096x40x64 1 [⟨S4096x1x64, x₁⟩, ⟨S4096x26x64, x₂⟩, ⟨S4096x13x64, x₃⟩] h (ix3 n (0 : Fin 40) d)
      = x₁ (ix3 n (0 : Fin 1) d) :=
  concatenate_apply_piece (t := S4096x40x64) 1 [⟨S4096x1x64, x₁⟩, ⟨S4096x26x64, x₂⟩, ⟨S4096x13x64, x₃⟩] h _ 0 (by simp) S4096x1x64 x₁ rfl rfl 0 rfl (ix3 n (0 : Fin 1) d)
    (fun b hb => match b, hb with | ⟨0, _⟩, _ => rfl | ⟨1, _⟩, hb => absurd rfl hb | ⟨2, _⟩, _ => rfl) rfl

/-- Token `1 + i` of the result is the second piece's token `i`. -/
theorem tok_concat_cat (i : Fin 26) (hlt : 1 + i.val < 40) :
    concatenate S4096x40x64 1 [⟨S4096x1x64, x₁⟩, ⟨S4096x26x64, x₂⟩, ⟨S4096x13x64, x₃⟩] h (ix3 n (⟨1 + i.val, hlt⟩ : Fin 40) d)
      = x₂ (ix3 n i d) :=
  concatenate_apply_piece (t := S4096x40x64) 1 [⟨S4096x1x64, x₁⟩, ⟨S4096x26x64, x₂⟩, ⟨S4096x13x64, x₃⟩] h _ 1 (by simp) S4096x26x64 x₂ rfl rfl 1 rfl (ix3 n i d)
    (fun b hb => match b, hb with | ⟨0, _⟩, _ => rfl | ⟨1, _⟩, hb => absurd rfl hb | ⟨2, _⟩, _ => rfl) rfl

/-- Token `27 + j` of the result is the third piece's token `j`. -/
theorem tok_concat_num (j : Fin 13) (hlt : 27 + j.val < 40) :
    concatenate S4096x40x64 1 [⟨S4096x1x64, x₁⟩, ⟨S4096x26x64, x₂⟩, ⟨S4096x13x64, x₃⟩] h (ix3 n (⟨27 + j.val, hlt⟩ : Fin 40) d)
      = x₃ (ix3 n j d) :=
  concatenate_apply_piece (t := S4096x40x64) 1 [⟨S4096x1x64, x₁⟩, ⟨S4096x26x64, x₂⟩, ⟨S4096x13x64, x₃⟩] h _ 2 (by simp) S4096x13x64 x₃ rfl rfl 27 rfl (ix3 n j d)
    (fun b hb => match b, hb with | ⟨0, _⟩, _ => rfl | ⟨1, _⟩, hb => absurd rfl hb | ⟨2, _⟩, _ => rfl) rfl

end Tokens

end Cert.Proof.RefSide

end
-- ==== Proof.RefValue.lean ====
/-
  The reference's value, index by index, on the extended reals. The reference builds `X : [4096, 40, 64]` from
  `cat : [4096, 26]` (integer rows), `num : [4096, 13]`, the stacked tables `emb : [26, 100000, 64]`, the weights and biases
  `w, b : [13, 64]` and the class token `cls : [1, 1, 64]`:
      X[n, 0, d]      = cls[0, 0, d]
      X[n, 1 + i, d]  = emb[i, cat[n, i], d]              (i < 26)
      X[n, 27 + j, d] = num[n, j] * w[j, d] + b[j, d]     (j < 13).
  `refG` is that function by coordinates (a row word is clamped to the table so that the function is total; for words in
  range the clamp is the identity, `refG_cat_of_lt`). `ref_eq`: the reference's last stage is `refG` of the arguments when
  every word of `cat` is in `[0, 100000)`: then the wrap of negative indices (`select (cat < 0) (cat + 100000) cat`, and
  the same for the field number `i` against 26) and the gather's clamp both leave the index as it is.
-/
import proofs.«207382_g17746804867166_cont_8to1_1179_25_alg».proof.Proof.Gen.ReferenceIdeal.Read
import proofs.«207382_g17746804867166_cont_8to1_1179_25_alg».proof.Proof.RefLayout

noncomputable section

namespace Cert.Proof.RefSide

open Idealize.ShloMosaic Idealize.ShloMosaic.ValueIdx
open Cert.ReferenceIdeal.Read

/-! ## The specification -/

/-- Token `tok` of row `n` at column `d`. -/
def refTok (cat : S4096x26.Idx → BitVec 32) (num : S4096x13.Idx → EReal) (emb : S26x100000x64.Idx → EReal)
    (w b : S13x64.Idx → EReal) (cls : S1x1x64.Idx → EReal) (n : Fin 4096) (tok : Fin 40) (d : Fin 64) : EReal :=
  if h0 : tok.val = 0 then cls (ix3 (0 : Fin 1) (0 : Fin 1) d)
  else if h1 : tok.val < 27 then
    emb (ix3 (⟨tok.val - 1, by omega⟩ : Fin 26)
      (⟨min (cat (ix2 n (⟨tok.val - 1, by omega⟩ : Fin 26))).toNat 99999, by omega⟩ : Fin 100000) d)
  else
    num (ix2 n (⟨tok.val - 27, by omega⟩ : Fin 13)) * w (ix2 (⟨tok.val - 27, by omega⟩ : Fin 13) d)
      + b (ix2 (⟨tok.val - 27, by omega⟩ : Fin 13) d)

/-- THE REFERENCE'S RESULT as one function of the arguments. -/
def refG (cat : S4096x26.Idx → BitVec 32) (num : S4096x13.Idx → EReal) (emb : S26x100000x64.Idx → EReal)
    (w b : S13x64.Idx → EReal) (cls : S1x1x64.Idx → EReal) : S4096x40x64.Idx → EReal :=
  fun i => refTok cat num emb w b cls (i 0) (i 1) (i 2)

section Spec
variable (cat : S4096x26.Idx → BitVec 32) (num : S4096x13.Idx → EReal) (emb : S26x100000x64.Idx → EReal)
  (w b : S13x64.Idx → EReal) (cls : S1x1x64.Idx → EReal) (n : Fin 4096) (d : Fin 64)

/-- Token 0 is the class token. -/
theorem refG_cls : refG cat num emb w b cls (ix3 n (0 : Fin 40) d) = cls (ix3 (0 : Fin 1) (0 : Fin 1) d) := by
  show refTok cat num emb w b cls n (0 : Fin 40) d = _
  unfold refTok
  rw [dif_pos (show ((0 : Fin 40).val = 0) from rfl)]

/-- Token `1 + i` is row `cat[n, i]` (clamped to the table) of table `i`. -/
theorem refG_cat (i : Fin 26) (hlt : 1 + i.val < 40) :
    refG cat num emb w b cls (ix3 n (⟨1 + i.val, hlt⟩ : Fin 40) d)
      = emb (ix3 i (⟨min (cat (ix2 n i)).toNat 99999, by omega⟩ : Fin 100000) d) := by
  show refTok cat num emb w b cls n (⟨1 + i.val, hlt⟩ : Fin 40) d = _
  unfold refTok
  have e : ∀ p : 1 + i.val - 1 < 26, (⟨1 + i.val - 1, p⟩ : Fin 26) = i := fun p => Fin.ext (by show 1 + i.val - 1 = i.val; omega)
  rw [dif_neg (show ¬ (1 + i.val = 0) by omega), dif_pos (show 1 + i.val < 27 by omega)]
  simp only [e]

/-- Token `1 + i` is row `cat[n, i]` of table `i` when that word is in range. -/
theorem refG_cat_of_lt (i : Fin 26) (hlt : 1 + i.val < 40) (hc : (cat (ix2 n i)).toNat < 100000) :
    refG cat num emb w b cls (ix3 n (⟨1 + i.val, hlt⟩ : Fin 40) d)
      = emb (ix3 i (⟨(cat (ix2 n i)).toNat, hc⟩ : Fin 100000) d) := by
  rw [refG_cat]
  congr 2
  exact Fin.ext (by show min (cat (ix2 n i)).toNat 99999 = (cat (ix2 n i)).toNat; omega)

/-- Token `27 + j` is the numeric feature `j` scaled and shifted. -/
theorem refG_num (j : Fin 13) (hlt : 27 + j.val < 40) :
    refG cat num emb w b cls (ix3 n (⟨27 + j.val, hlt⟩ : Fin 40) d)
      = num (ix2 n j) * w (ix2 j d) + b (ix2 j d) := by
  show refTok cat num emb w b cls n (⟨27 + j.val, hlt⟩ : Fin 40) d = _
  unfold refTok
  have e : ∀ p : 27 + j.val - 27 < 13, (⟨27 + j.val - 27, p⟩ : Fin 13) = j := fun p => Fin.ext (by show 27 + j.val - 27 = j.val; omega)
  rw [dif_neg (show ¬ (27 + j.val = 0) by omega), dif_neg (show ¬ (27 + j.val < 27) by omega)]
  simp only [e]

end Spec

/-! ## The index words -/

/-- The field number `i < 26` as a word, wrapped against 26 and clamped to the 26 tables, is `i`. -/
theorem field_word (i : Fin 26) :
    min (Scalar.select (IntOp.cmpi .slt (BitVec.ofNat 32 i.val) 0#32) (IntOp.addi (BitVec.ofNat 32 i.val) 26#32)
      (BitVec.ofNat 32 i.val)).toInt.toNat 25 = i.val := by
  revert i; decide

/-- A row word in `[0, 100000)`, wrapped against 100000 and clamped to the table, is itself. -/
theorem row_word (c : BitVec 32) (h : c.toNat < 100000) :
    min (Scalar.select (IntOp.cmpi .slt c 0#32) (IntOp.addi c 100000#32) c).toInt.toNat 99999 = c.toNat := by
  have hi : c.toInt = (c.toNat : Int) := BitVec.toInt_eq_toNat_of_lt (by omega)
  have h0 : (0#32 : BitVec 32).toInt = 0 := by decide
  have hn : ¬ IntOp.cmpi .slt c 0#32 = 1#1 := by rw [IntOp.cmpi_slt, hi, h0]; omega
  have hn' : ¬ IntOp.cmpi .slt c 0#32 = 1 := hn
  unfold Scalar.select
  rw [if_neg hn', hi, Int.toNat_natCast]
  omega

/-! ## The reference's stages at a coordinate -/

/-- The class-token piece at `(n, 0, d)`. -/
theorem v25_at (x5 : S1x1x64.Idx → EReal) (n : Fin 4096) (d : Fin 64) :
    val_main_v25 (F := Ideal) x5 (ix3 n (0 : Fin 1) d) = x5 (ix3 (0 : Fin 1) (0 : Fin 1) d) := by
  rw [val_main_v25_apply]
  exact congrArg x5 (funext fun a => match a with | ⟨0, _⟩ => rfl | ⟨1, _⟩ => rfl | ⟨2, _⟩ => rfl)

/-- The numeric piece at `(n, j, d)`. -/
theorem v24_at (x1 : S4096x13.Idx → EReal) (x3 x4 : S13x64.Idx → EReal) (n : Fin 4096) (d : Fin 64) (j : Fin 13) :
    val_main_v24 (F := Ideal) x1 x3 x4 (ix3 n j d) = x1 (ix2 n j) * x3 (ix2 j d) + x4 (ix2 j d) := by
  rw [val_main_v24_apply, val_main_v21_apply, val_main_v19_apply, val_main_v17_apply, val_main_v20_apply,
    val_main_v18_apply, val_main_v23_apply, val_main_v22_apply]
  have e1 : idx_main_v17 (idx_main_v19 (ix3 n j d)) = ix2 n j :=
    funext fun a => match a with | ⟨0, _⟩ => rfl | ⟨1, _⟩ => rfl
  have e3 : idx_main_v18 (idx_main_v20 (ix3 n j d)) = ix2 j d :=
    funext fun a => match a with | ⟨0, _⟩ => rfl | ⟨1, _⟩ => rfl
  have e4 : idx_main_v22 (idx_main_v23 (ix3 n j d)) = ix2 j d :=
    funext fun a => match a with | ⟨0, _⟩ => rfl | ⟨1, _⟩ => rfl
  rw [e1, e3, e4]
  rfl

/-- The field-number component of the start indices at `(n, i)`: the word `i`, wrapped against 26. -/
theorem v13_at (n : Fin 4096) (i : Fin 26) :
    val_main_v13 (F := Ideal) (ix3 n i (0 : Fin 1))
      = Scalar.select (IntOp.cmpi .slt (BitVec.ofNat 32 i.val) 0#32) (IntOp.addi (BitVec.ofNat 32 i.val) 26#32)
          (BitVec.ofNat 32 i.val) := by
  simp only [val_main_v13_apply, val_main_v12_apply, val_main_v6_apply, val_main_v3_apply, val_main_v5_apply,
    val_main_v1_apply, val_main_v2_apply, val_main_v4_apply, val_main_v0_apply, val_main_c_apply, val_main_c_0_apply]

/-- The row component of the start indices at `(n, i)`: the word `cat[n, i]`, wrapped against 100000. -/
theorem v14_at (x0 : S4096x26.Idx → BitVec 32) (n : Fin 4096) (i : Fin 26) :
    val_main_v14 (F := Ideal) x0 (ix3 n i (0 : Fin 1))
      = Scalar.select (IntOp.cmpi .slt (x0 (ix2 n i)) 0#32) (IntOp.addi (x0 (ix2 n i)) 100000#32) (x0 (ix2 n i)) := by
  simp only [val_main_v14_apply, val_main_v11_apply, val_main_v8_apply, val_main_v10_apply, val_main_v7_apply,
    val_main_v9_apply, val_main_c_1_apply, val_main_c_2_apply]
  have e : idx_main_v14 (ix3 n i (0 : Fin 1)) = ix2 n i :=
    funext fun a => match a with | ⟨0, _⟩ => rfl | ⟨1, _⟩ => rfl
  rw [e]

/-- The start indices' two components. -/
theorem v15_at0 (x0 : S4096x26.Idx → BitVec 32) (n : Fin 4096) (i : Fin 26) :
    val_main_v15 (F := Ideal) x0 (ix3 n i (0 : Fin 2)) = val_main_v13 (F := Ideal) (ix3 n i (0 : Fin 1)) :=
  idx_concat_left _ _ _ n i
theorem v15_at1 (x0 : S4096x26.Idx → BitVec 32) (n : Fin 4096) (i : Fin 26) :
    val_main_v15 (F := Ideal) x0 (ix3 n i (1 : Fin 2)) = val_main_v14 (F := Ideal) x0 (ix3 n i (0 : Fin 1)) :=
  idx_concat_right _ _ _ n i

/-- The gathered piece at `(n, i, d)` when the word `cat[n, i]` is in range: row `cat[n, i]` of table `i`. -/
theorem v16_at (x0 : S4096x26.Idx → BitVec 32) (x2 : S26x100000x64.Idx → EReal) (n : Fin 4096) (d : Fin 64) (i : Fin 26)
    (hc : (x0 (ix2 n i)).toNat < 100000) :
    val_main_v16 (F := Ideal) x0 x2 (ix3 n i d) = x2 (ix3 i (⟨(x0 (ix2 n i)).toNat, hc⟩ : Fin 100000) d) := by
  refine (gather_rows_apply
    Cert.ReferenceIdeal.Facts₀.gather_S26x100000x64_S4096x26x2_S4096x26x64_2_01_n_n_01_2_1164_wf x2
    (val_main_v15 (F := Ideal) x0) n i d).trans ?_
  refine congrArg x2 ?_
  funext a
  match a with
  | ⟨0, _⟩ =>
    exact Fin.ext (by
      show min (val_main_v15 (F := Ideal) x0 (ix3 n i (0 : Fin 2))).toInt.toNat 25 = i.val
      rw [v15_at0, v13_at]; exact field_word i)
  | ⟨1, _⟩ =>
    exact Fin.ext (by
      show min (val_main_v15 (F := Ideal) x0 (ix3 n i (1 : Fin 2))).toInt.toNat 99999 = (x0 (ix2 n i)).toNat
      rw [v15_at1, v14_at]; exact row_word _ hc)
  | ⟨2, _⟩ => rfl

/-! ## The reference is `refG` -/

theorem one_add_lt (i : Fin 26) : 1 + i.val < 40 := by have := i.isLt; omega
theorem add27_lt (j : Fin 13) : 27 + j.val < 40 := by have := j.isLt; omega

/-- THE REFERENCE'S LAST STAGE IS `refG` OF THE ARGUMENTS, when every word of `cat` is in `[0, 100000)`. -/
theorem ref_eq (cat : S4096x26.Idx → BitVec 32) (num : S4096x13.Idx → EReal) (emb : S26x100000x64.Idx → EReal)
    (w b : S13x64.Idx → EReal) (cls : S1x1x64.Idx → EReal) (hcat : ∀ idx : S4096x26.Idx, (cat idx).toNat < 100000) :
    val_main_v26 (F := Ideal) cat num emb w b cls = refG cat num emb w b cls := by
  funext i
  obtain ⟨n, tok, d, rfl⟩ : ∃ (n : Fin 4096) (tok : Fin 40) (d : Fin 64), i = ix3 n tok d := ⟨i 0, i 1, i 2, eq_ix3 i⟩
  by_cases h0 : tok.val = 0
  · obtain rfl : tok = (0 : Fin 40) := Fin.ext h0
    rw [refG_cls]
    exact (tok_concat_cls _ _ _ _ n d).trans (v25_at cls n d)
  · by_cases h1 : tok.val < 27
    · obtain ⟨i', rfl⟩ : ∃ i' : Fin 26, tok = (⟨1 + i'.val, one_add_lt i'⟩ : Fin 40) :=
        ⟨⟨tok.val - 1, by omega⟩, Fin.ext (by show tok.val = 1 + (tok.val - 1); omega)⟩
      rw [refG_cat_of_lt cat num emb w b cls n d i' _ (hcat _)]
      exact (tok_concat_cat _ _ _ _ n d i' _).trans (v16_at cat emb n d i' (hcat _))
    · obtain ⟨j, rfl⟩ : ∃ j : Fin 13, tok = (⟨27 + j.val, add27_lt j⟩ : Fin 40) :=
        ⟨⟨tok.val - 27, by have := tok.isLt; omega⟩, Fin.ext (by show tok.val = 27 + (tok.val - 27); omega)⟩
      rw [refG_num]
      exact (tok_concat_num _ _ _ _ n d j _).trans (v24_at num w b n d j)

end Cert.Proof.RefSide

end
-- ==== Proof.Bridge.lean ====
/-
  The program's result is the reference's. The call writes `GT` of its six operand arrays — the arguments re-laid by
  the host operations before it — and the last host operation re-lays that to `[4096, 40, 64]`. Read at a coordinate
  `(n, tok, d)`: token 0 is the class vector's entry `d`; token `tok` in `1..26` is entry `(tok - 1, cat[n, tok - 1], d)`
  of the tables, the category word being a vocabulary index; token `tok ≥ 27` is `num[n, tok - 27] * w[tok - 27, d] +
  b[tok - 27, d]`. That is the reference's function of the arguments, coordinate by coordinate.
-/
import proofs.«207382_g17746804867166_cont_8to1_1179_25_alg».proof.Proof.KI.LaunchHost
import proofs.«207382_g17746804867166_cont_8to1_1179_25_alg».proof.Proof.HostRead
import proofs.«207382_g17746804867166_cont_8to1_1179_25_alg».proof.Proof.RefValue

noncomputable section

namespace Cert.Proof.Bridge

open Idealize.ShloMosaic Idealize.ShloMosaic.ValueIdx
open Cert.Proof.KI (GT Apre outFinal vocab Arrs)

/-- A word below 100000 is its own vocabulary index. -/
theorem vocab_val (v : BitVec 32) (h : v.toNat < 100000) : (vocab v).val = v.toNat := by
  unfold vocab; rw [dif_pos h]

/-- The call's result read at a coordinate `(tok, d, n)`. -/
theorem GT_at (A : Arrs Ideal) (tok : Fin 40) (dd : Fin 64) (n : Fin 4096) :
    GT A (ix3 tok dd n)
      = if h0 : tok.val = 0 then A.cls (ix1 dd)
        else if h1 : tok.val ≤ 26 then
          A.emb (ix3 (⟨tok.val - 1, by omega⟩ : Fin 26) dd
            (vocab (A.cat (ix1 (⟨(tok.val - 1) * 4096 + n.val, by have := n.isLt; omega⟩ : Fin 106496)))))
        else
          FloatOps.addf
            (FloatOps.mulf (A.num (ix1 (⟨(tok.val - 27) * 4096 + n.val, by have := tok.isLt; have := n.isLt; omega⟩ : Fin 53248)))
              (A.w (ix1 (⟨(tok.val - 27) * 64 + dd.val, by have := tok.isLt; have := dd.isLt; omega⟩ : Fin 832))))
            (A.b (ix1 (⟨(tok.val - 27) * 64 + dd.val, by have := tok.isLt; have := dd.isLt; omega⟩ : Fin 832))) := rfl

/-- THE PROGRAM'S RESULT IS THE REFERENCE'S FUNCTION OF THE ARGUMENTS, when every category word is a vocabulary index. -/
theorem out_eq_ref (m : (ℓ : Loc Cert.KernelIdeal.nD Cert.KernelIdeal.τ Cert.KernelIdeal.sig) → Buf (Elt Ideal) ℓ) (c : Dev Cert.KernelIdeal.nD)
    (hcat : ∀ idx, ((m ((c.tc : Thread Cert.KernelIdeal.nD Cert.KernelIdeal.τ).loc Cert.KernelIdeal.main_arg0)) idx).toNat < 100000) :
    outFinal (F := Ideal) m c
      = Cert.Proof.RefSide.refG (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext i
  obtain ⟨n, tok, dd, rfl⟩ : ∃ (n : Fin 4096) (tok : Fin 40) (dd : Fin 64), i = ix3 n tok dd := ⟨i 0, i 1, i 2, eq_ix3 i⟩
  refine (Cert.Proof.Host.outT_apply (GT (Apre m c)) _ n tok dd).trans ?_
  rw [GT_at]
  show _ = Cert.Proof.RefSide.refTok _ _ _ _ _ _ n tok dd
  unfold Cert.Proof.RefSide.refTok
  by_cases h0 : tok.val = 0
  · -- the class token
    rw [dif_pos h0, dif_pos h0]
    exact Cert.Proof.Host.flat64_apply _ _ dd
  · rw [dif_neg h0, dif_neg h0]
    by_cases h1 : tok.val ≤ 26
    · -- an embedding column: table `tok - 1` at the row's category word
      have hi : tok.val - 1 < 26 := by omega
      have hlt : (tok.val - 1) * 4096 + n.val < 106496 := by have := n.isLt; omega
      rw [dif_pos h1, dif_pos (show tok.val < 27 by omega)]
      have ec : (Apre m c).cat (ix1 (⟨(tok.val - 1) * 4096 + n.val, hlt⟩ : Fin 106496))
          = (m ((c.tc : Thread Cert.KernelIdeal.nD Cert.KernelIdeal.τ).loc Cert.KernelIdeal.main_arg0)) (ix2 n (⟨tok.val - 1, hi⟩ : Fin 26)) :=
        Cert.Proof.Host.catT_apply _ _ _ (⟨tok.val - 1, hi⟩ : Fin 26) n hlt
      rw [ec]
      refine (Cert.Proof.Host.embT_apply _ _ (⟨tok.val - 1, hi⟩ : Fin 26) dd _).trans ?_
      refine congrArg (fun v => (m ((c.tc : Thread Cert.KernelIdeal.nD Cert.KernelIdeal.τ).loc Cert.KernelIdeal.main_arg2)) (ix3 (⟨tok.val - 1, hi⟩ : Fin 26) v dd)) (Fin.ext ?_)
      have hc := hcat (ix2 n (⟨tok.val - 1, hi⟩ : Fin 26))
      show (vocab _).val = min _ 99999
      rw [vocab_val _ hc]
      omega
    · -- a numeric column: value times weight plus bias
      have hj : tok.val - 27 < 13 := by have := tok.isLt; omega
      have hn : (tok.val - 27) * 4096 + n.val < 53248 := by have := n.isLt; omega
      have hw : (tok.val - 27) * 64 + dd.val < 832 := by have := dd.isLt; omega
      rw [dif_neg h1, dif_neg (show ¬ tok.val < 27 by omega)]
      have en : (Apre m c).num (ix1 (⟨(tok.val - 27) * 4096 + n.val, hn⟩ : Fin 53248))
          = (m ((c.tc : Thread Cert.KernelIdeal.nD Cert.KernelIdeal.τ).loc Cert.KernelIdeal.main_arg1)) (ix2 n (⟨tok.val - 27, hj⟩ : Fin 13)) :=
        Cert.Proof.Host.numT_apply _ _ _ (⟨tok.val - 27, hj⟩ : Fin 13) n hn
      have ew : (Apre m c).w (ix1 (⟨(tok.val - 27) * 64 + dd.val, hw⟩ : Fin 832))
          = (m ((c.tc : Thread Cert.KernelIdeal.nD Cert.KernelIdeal.τ).loc Cert.KernelIdeal.main_arg3)) (ix2 (⟨tok.val - 27, hj⟩ : Fin 13) dd) :=
        Cert.Proof.Host.flat832_apply _ _ (⟨tok.val - 27, hj⟩ : Fin 13) dd hw
      have eb : (Apre m c).b (ix1 (⟨(tok.val - 27) * 64 + dd.val, hw⟩ : Fin 832))
          = (m ((c.tc : Thread Cert.KernelIdeal.nD Cert.KernelIdeal.τ).loc Cert.KernelIdeal.main_arg4)) (ix2 (⟨tok.val - 27, hj⟩ : Fin 13) dd) :=
        Cert.Proof.Host.flat832_apply _ _ (⟨tok.val - 27, hj⟩ : Fin 13) dd hw
      rw [en, ew, eb]
      rfl

end Cert.Proof.Bridge

end
-- ==== Proof.lean ====
/-
  The five conjuncts of the claim for the tokenizer kernel.

  Both programs compute, for a batch of 4096 rows, 40 tokens of 64 features: token 0 the class vector, tokens 1..26
  the rows of 26 embedding tables at the batch's category words, tokens 27..39 the numeric values times a weight row
  plus a bias row. The kernel works on transposed arrays: 32 vector-subcore tasks each fill two feature rows of
  every token of `outT : [40, 64, 4096]`, and @main transposes `outT` to `[4096, 40, 64]`. One whole-array function
  `GT` states what `outT` holds; each task's run leaves its rows at `GT`; the launch joins the tasks; the reference's
  run reads index by index as the same entries once the category words are known to be vocabulary indices (the
  precondition's range), the products and sums taken in the same order on both sides, so no law of the extended reals
  beyond definitional unfolding is used. The frames are the same runs with the values dropped; the word-level
  kernel's frame is the same proof at the word-level instance.
-/
import proofs.«207382_g17746804867166_cont_8to1_1179_25_alg».proof.Defs
import proofs.«207382_g17746804867166_cont_8to1_1179_25_alg».proof.Proof.Gen.Kernel
import proofs.«207382_g17746804867166_cont_8to1_1179_25_alg».proof.Proof.Gen.Kernel.Skeleton
import proofs.«207382_g17746804867166_cont_8to1_1179_25_alg».proof.Proof.Gen.KernelIdeal
import proofs.«207382_g17746804867166_cont_8to1_1179_25_alg».proof.Proof.Gen.KernelIdeal.Skeleton
import proofs.«207382_g17746804867166_cont_8to1_1179_25_alg».proof.Proof.Gen.ReferenceIdeal
import proofs.«207382_g17746804867166_cont_8to1_1179_25_alg».proof.Proof.Gen.ReferenceIdeal.Run
import proofs.«207382_g17746804867166_cont_8to1_1179_25_alg».proof.Proof.Gen.ReferenceIdeal.Read
import proofs.«207382_g17746804867166_cont_8to1_1179_25_alg».proof.Proof.Gen.Pre_input_domain
import proofs.«207382_g17746804867166_cont_8to1_1179_25_alg».proof.Proof.KI.LaunchRun
import proofs.«207382_g17746804867166_cont_8to1_1179_25_alg».proof.Proof.KI.Tile
import proofs.«207382_g17746804867166_cont_8to1_1179_25_alg».proof.Proof.KI.PreCat
import proofs.«207382_g17746804867166_cont_8to1_1179_25_alg».proof.Proof.KB.LaunchRun
import proofs.«207382_g17746804867166_cont_8to1_1179_25_alg».proof.Proof.KB.Tile
import proofs.«207382_g17746804867166_cont_8to1_1179_25_alg».proof.Proof.KB.PreCat
import proofs.«207382_g17746804867166_cont_8to1_1179_25_alg».proof.Proof.Bridge
import proofs.«207382_g17746804867166_cont_8to1_1179_25_alg».proof.Proof.RefValue
import proofs.«207382_g17746804867166_cont_8to1_1179_25_alg».proof.Proof.PreRange
import Idealize.ShloMosaic.Adequacy
import Idealize.ShloMosaic.Init

noncomputable section

namespace Cert.Proof

open Idealize.ShloMosaic Idealize.SL.Sem

/-- The word-level kernel runs to the end and leaves its arguments unchanged: the launch theorem over the tasks'
    runs at the word-level instance, the result's value dropped. -/
theorem frame_k : Cert.frame_Kernel := fun m ρ hpre =>
  (θ_run (Cert.Kernel.defs (F := Bits)) _ _).mono (fun _ h c => (h c).2)
    (Cert.Proof.KB.run_main (F := Bits) m ρ fun d =>
      Cert.Proof.KB.tile_body Cert.Proof.KB.facts (Cert.Proof.KB.Apre m d) (Cert.Proof.KB.apre_cat_range m hpre d) (Cert.Proof.KB.fo₀ m d))

/-- The idealized kernel's run: the result array ends at `outFinal`, the arguments unchanged. -/
theorem run_ki (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (Cert.Proof.KI.QC m) :=
  Cert.Proof.KI.run_main (F := Ideal) m ρ fun d =>
    Cert.Proof.KI.tile_body Cert.Proof.KI.facts (Cert.Proof.KI.Apre m d) (Cert.Proof.KI.apre_cat_range m hpre d) (Cert.Proof.KI.fo₀ m d)

theorem frame_ki : Cert.frame_KernelIdeal := fun m ρ hpre =>
  (θ_run (Cert.KernelIdeal.defs (F := Ideal)) _ _).mono (fun _ h c => (h c).2) (run_ki m ρ hpre)

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both idealized programs end at `outFinal` of those arguments: the
    kernel by its run, the reference because its result reads, entry by entry, as the same function. -/
theorem algebraic : Cert.algebraic_KernelIdeal_ReferenceIdeal := by
  intro m ρ m' ρ' hpre hagree
  refine ⟨fun c => Cert.Proof.KI.outFinal (F := Ideal) m c, ?_, ?_⟩
  · exact (θ_run (Cert.KernelIdeal.defs (F := Ideal)) _ _).mono (fun _ h c => h c) (run_ki m ρ hpre)
  · refine (θ_run Cert.ReferenceIdeal.defs _ _).mono (fun _ h c => ⟨?_, (h c).2⟩)
      (Cert.ReferenceIdeal.Value.run (F := Ideal) m' ρ')
    have hcat := Cert.Proof.PreRange.cat_range (F := Ideal) _ _ _ _ _ _ (hpre c)
    rw [(h c).1, Cert.ReferenceIdeal.Read.val_main_v26_eq, (hagree c).1, (hagree c).2.1, (hagree c).2.2.1, (hagree c).2.2.2.1,
      (hagree c).2.2.2.2.1, (hagree c).2.2.2.2.2, Cert.Proof.RefSide.ref_eq _ _ _ _ _ _ hcat]
    exact (Cert.Proof.Bridge.out_eq_ref m c hcat).symm

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
